-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4x8192x64 : Shape := ⟨3, ![4, 8192, 64]⟩
abbrev S4x8192x3 : Shape := ⟨3, ![4, 8192, 3]⟩
abbrev S4x8192x16 : Shape := ⟨3, ![4, 8192, 16]⟩
abbrev S_ : Shape := ⟨0, ![]⟩
abbrev S64x16x64 : Shape := ⟨3, ![64, 16, 64]⟩
abbrev S64 : Shape := ⟨1, ![64]⟩
abbrev S3x16 : Shape := ⟨2, ![3, 16]⟩
abbrev S32x48 : Shape := ⟨2, ![32, 48]⟩
abbrev S32 : Shape := ⟨1, ![32]⟩
abbrev S16x32 : Shape := ⟨2, ![16, 32]⟩
abbrev S16 : Shape := ⟨1, ![16]⟩
abbrev S16x16 : Shape := ⟨2, ![16, 16]⟩

class Facts : Prop where
  bcast_S_S4x8192x64 : S_.BroadcastsInDim S4x8192x64 (![] : Fin 0 → Fin S4x8192x64.rank)
  reducesTo_S4x8192x64_S_d0_1_2 : S4x8192x64.ReducesTo [0, 1, 2] S_
  h_S_ : 0 < S_.numel
  bcast_S_S4x8192x3 : S_.BroadcastsInDim S4x8192x3 (![] : Fin 0 → Fin S4x8192x3.rank)
  reducesTo_S4x8192x3_S_d0_1_2 : S4x8192x3.ReducesTo [0, 1, 2] S_
  bcast_S_S64x16x64 : S_.BroadcastsInDim S64x16x64 (![] : Fin 0 → Fin S64x16x64.rank)
  reducesTo_S64x16x64_S_d0_1_2 : S64x16x64.ReducesTo [0, 1, 2] S_
  bcast_S_S64 : S_.BroadcastsInDim S64 (![] : Fin 0 → Fin S64.rank)
  reducesTo_S64_S_d0 : S64.ReducesTo [0] S_
  bcast_S_S3x16 : S_.BroadcastsInDim S3x16 (![] : Fin 0 → Fin S3x16.rank)
  reducesTo_S3x16_S_d0_1 : S3x16.ReducesTo [0, 1] S_
  bcast_S_S32x48 : S_.BroadcastsInDim S32x48 (![] : Fin 0 → Fin S32x48.rank)
  reducesTo_S32x48_S_d0_1 : S32x48.ReducesTo [0, 1] S_
  bcast_S_S32 : S_.BroadcastsInDim S32 (![] : Fin 0 → Fin S32.rank)
  reducesTo_S32_S_d0 : S32.ReducesTo [0] S_
  bcast_S_S16x32 : S_.BroadcastsInDim S16x32 (![] : Fin 0 → Fin S16x32.rank)
  reducesTo_S16x32_S_d0_1 : S16x32.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S4x8192x16 : S_.BroadcastsInDim S4x8192x16 (![] : Fin 0 → Fin S4x8192x16.rank)
  reducesTo_S4x8192x16_S_d0_1_2 : S4x8192x16.ReducesTo [0, 1, 2] S_
  reducesTo_S_S_d : S_.ReducesTo [] S_

variable [Facts]

def fn_part4 {F : FTy → Type} [FloatOps F] (main_arg4 : IVec S_ 32) (main_v65 : IVec S_ 1) (main_v66 : IVec S_ 1) (main_c_26 : IVec S_ 32) : IVec S_ 1 :=
  let main_v67 : IVec S_ 1 := cmpi .sle main_arg4 main_c_26
  let main_v68 : IVec S_ 1 := andi main_v66 main_v67
  let main_c_27 : IVec S_ 1 := constantI S_ 1 1#1
  let main_v69 : IVec S_ 1 := (fun x v => Host.reduce IntOp.andi x v reducesTo_S_S_d h_S_) main_v68 main_c_27
  let main_v70 : IVec S_ 1 := andi main_v65 main_v69
  main_v70

def fn_part3 {F : FTy → Type} [FloatOps F] (main_arg3 : IVec S4x8192x16 32) (main_arg4 : IVec S_ 32) (main_arg13 : FVec F S16 .f32) (main_v48 : IVec S_ 1) (main_v49 : FVec F S16x16 .f32) (main_v50 : FVec F S16x16 .f32) : IVec S_ 1 :=
  let main_v51 : IVec S16x16 1 := cmpf .olt main_v49 main_v50
  let main_c_19 : IVec S_ 1 := constantI S_ 1 1#1
  let main_v52 : IVec S_ 1 := (fun x v => Host.reduce IntOp.andi x v reducesTo_S16x16_S_d0_1 h_S_) main_v51 main_c_19
  let main_v53 : IVec S_ 1 := andi main_v48 main_v52
  let main_v54 : FVec F S16 .f32 := Host.absf main_arg13
  let main_cst_20 : FVec F S_ .f32 := constant S_ .f32 0x7F800000#32
  let main_v55 : FVec F S16 .f32 := broadcastInDim S16 ![] bcast_S_S16 main_cst_20
  let main_v56 : IVec S16 1 := cmpf .olt main_v54 main_v55
  let main_c_21 : IVec S_ 1 := constantI S_ 1 1#1
  let main_v57 : IVec S_ 1 := (fun x v => Host.reduce IntOp.andi x v reducesTo_S16_S_d0 h_S_) main_v56 main_c_21
  let main_v58 : IVec S_ 1 := andi main_v53 main_v57
  let main_c_22 : IVec S_ 32 := constantI S_ 32 0#32
  let main_v59 : IVec S4x8192x16 32 := broadcastInDim S4x8192x16 ![] bcast_S_S4x8192x16 main_c_22
  let main_v60 : IVec S4x8192x16 1 := cmpi .sge main_arg3 main_v59
  let main_c_23 : IVec S_ 32 := constantI S_ 32 8191#32
  let main_v61 : IVec S4x8192x16 32 := broadcastInDim S4x8192x16 ![] bcast_S_S4x8192x16 main_c_23
  let main_v62 : IVec S4x8192x16 1 := cmpi .sle main_arg3 main_v61
  let main_v63 : IVec S4x8192x16 1 := andi main_v60 main_v62
  let main_c_24 : IVec S_ 1 := constantI S_ 1 1#1
  let main_v64 : IVec S_ 1 := (fun x v => Host.reduce IntOp.andi x v reducesTo_S4x8192x16_S_d0_1_2 h_S_) main_v63 main_c_24
  let main_v65 : IVec S_ 1 := andi main_v58 main_v64
  let main_c_25 : IVec S_ 32 := constantI S_ 32 16#32
  let main_v66 : IVec S_ 1 := cmpi .sge main_arg4 main_c_25
  let main_c_26 : IVec S_ 32 := constantI S_ 32 16#32
  fn_part4 (F := F) main_arg4 main_v65 main_v66 main_c_26

def fn_part2 {F : FTy → Type} [FloatOps F] (main_arg3 : IVec S4x8192x16 32) (main_arg4 : IVec S_ 32) (main_arg9 : FVec F S32 .f32) (main_arg10 : FVec F S16x32 .f32) (main_arg11 : FVec F S16 .f32) (main_arg12 : FVec F S16x16 .f32) (main_arg13 : FVec F S16 .f32) (main_v33 : IVec S_ 1) : IVec S_ 1 :=
  let main_v34 : FVec F S32 .f32 := Host.absf main_arg9
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S16x32 .f32 := Host.absf main_arg10
  let main_cst_14 : FVec F S_ .f32 := constant S_ .f32 0x7F800000#32
  let main_v40 : FVec F S16x32 .f32 := broadcastInDim S16x32 ![] bcast_S_S16x32 main_cst_14
  let main_v41 : IVec S16x32 1 := cmpf .olt main_v39 main_v40
  let main_c_15 : IVec S_ 1 := constantI S_ 1 1#1
  let main_v42 : IVec S_ 1 := (fun x v => Host.reduce IntOp.andi x v reducesTo_S16x32_S_d0_1 h_S_) main_v41 main_c_15
  let main_v43 : IVec S_ 1 := andi main_v38 main_v42
  let main_v44 : FVec F S16 .f32 := Host.absf main_arg11
  let main_cst_16 : FVec F S_ .f32 := constant S_ .f32 0x7F800000#32
  let main_v45 : FVec F S16 .f32 := broadcastInDim S16 ![] bcast_S_S16 main_cst_16
  let main_v46 : IVec S16 1 := cmpf .olt main_v44 main_v45
  let main_c_17 : IVec S_ 1 := constantI S_ 1 1#1
  let main_v47 : IVec S_ 1 := (fun x v => Host.reduce IntOp.andi x v reducesTo_S16_S_d0 h_S_) main_v46 main_c_17
  let main_v48 : IVec S_ 1 := andi main_v43 main_v47
  let main_v49 : FVec F S16x16 .f32 := Host.absf main_arg12
  let main_cst_18 : FVec F S_ .f32 := constant S_ .f32 0x7F800000#32
  let main_v50 : FVec F S16x16 .f32 := broadcastInDim S16x16 ![] bcast_S_S16x16 main_cst_18
  fn_part3 (F := F) main_arg3 main_arg4 main_arg13 main_v48 main_v49 main_v50

def fn_part1 {F : FTy → Type} [FloatOps F] (main_arg3 : IVec S4x8192x16 32) (main_arg4 : IVec S_ 32) (main_arg6 : FVec F S64 .f32) (main_arg7 : FVec F S3x16 .f32) (main_arg8 : FVec F S32x48 .f32) (main_arg9 : FVec F S32 .f32) (main_arg10 : FVec F S16x32 .f32) (main_arg11 : FVec F S16 .f32) (main_arg12 : FVec F S16x16 .f32) (main_arg13 : FVec F S16 .f32) (main_v13 : IVec S_ 1) (main_v16 : IVec S64x16x64 1) : IVec S_ 1 :=
  let main_c_5 : IVec S_ 1 := constantI S_ 1 1#1
  let main_v17 : IVec S_ 1 := (fun x v => Host.reduce IntOp.andi x v reducesTo_S64x16x64_S_d0_1_2 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S3x16 .f32 := Host.absf main_arg7
  let main_cst_8 : FVec F S_ .f32 := constant S_ .f32 0x7F800000#32
  let main_v25 : FVec F S3x16 .f32 := broadcastInDim S3x16 ![] bcast_S_S3x16 main_cst_8
  let main_v26 : IVec S3x16 1 := cmpf .olt main_v24 main_v25
  let main_c_9 : IVec S_ 1 := constantI S_ 1 1#1
  let main_v27 : IVec S_ 1 := (fun x v => Host.reduce IntOp.andi x v reducesTo_S3x16_S_d0_1 h_S_) main_v26 main_c_9
  let main_v28 : IVec S_ 1 := andi main_v23 main_v27
  let main_v29 : FVec F S32x48 .f32 := Host.absf main_arg8
  let main_cst_10 : FVec F S_ .f32 := constant S_ .f32 0x7F800000#32
  let main_v30 : FVec F S32x48 .f32 := broadcastInDim S32x48 ![] bcast_S_S32x48 main_cst_10
  let main_v31 : IVec S32x48 1 := cmpf .olt main_v29 main_v30
  let main_c_11 : IVec S_ 1 := constantI S_ 1 1#1
  let main_v32 : IVec S_ 1 := (fun x v => Host.reduce IntOp.andi x v reducesTo_S32x48_S_d0_1 h_S_) main_v31 main_c_11
  let main_v33 : IVec S_ 1 := andi main_v28 main_v32
  fn_part2 (F := F) main_arg3 main_arg4 main_arg9 main_arg10 main_arg11 main_arg12 main_arg13 main_v33

def fn {F : FTy → Type} [FloatOps F] (main_arg0 : FVec F S4x8192x64 .f32) (main_arg1 : FVec F S4x8192x3 .f32) (main_arg2 : FVec F S4x8192x3 .f32) (main_arg3 : IVec S4x8192x16 32) (main_arg4 : IVec S_ 32) (main_arg5 : FVec F S64x16x64 .f32) (main_arg6 : FVec F S64 .f32) (main_arg7 : FVec F S3x16 .f32) (main_arg8 : FVec F S32x48 .f32) (main_arg9 : FVec F S32 .f32) (main_arg10 : FVec F S16x32 .f32) (main_arg11 : FVec F S16 .f32) (main_arg12 : FVec F S16x16 .f32) (main_arg13 : FVec F S16 .f32) : IVec S_ 1 :=
  let main_v0 : FVec F S4x8192x64 .f32 := Host.absf main_arg0
  let main_cst : FVec F S_ .f32 := constant S_ .f32 0x7F800000#32
  let main_v1 : FVec F S4x8192x64 .f32 := broadcastInDim S4x8192x64 ![] bcast_S_S4x8192x64 main_cst
  let main_v2 : IVec S4x8192x64 1 := cmpf .olt main_v0 main_v1
  let main_c : IVec S_ 1 := constantI S_ 1 1#1
  let main_v3 : IVec S_ 1 := (fun x v => Host.reduce IntOp.andi x v reducesTo_S4x8192x64_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  let main_v9 : FVec F S4x8192x3 .f32 := Host.absf main_arg2
  let main_cst_2 : FVec F S_ .f32 := constant S_ .f32 0x7F800000#32
  let main_v10 : FVec F S4x8192x3 .f32 := broadcastInDim S4x8192x3 ![] bcast_S_S4x8192x3 main_cst_2
  let main_v11 : IVec S4x8192x3 1 := cmpf .olt main_v9 main_v10
  let main_c_3 : IVec S_ 1 := constantI S_ 1 1#1
  let main_v12 : IVec S_ 1 := (fun x v => Host.reduce IntOp.andi x v reducesTo_S4x8192x3_S_d0_1_2 h_S_) main_v11 main_c_3
  let main_v13 : IVec S_ 1 := andi main_v8 main_v12
  let main_v14 : FVec F S64x16x64 .f32 := Host.absf main_arg5
  let main_cst_4 : FVec F S_ .f32 := constant S_ .f32 0x7F800000#32
  let main_v15 : FVec F S64x16x64 .f32 := broadcastInDim S64x16x64 ![] bcast_S_S64x16x64 main_cst_4
  let main_v16 : IVec S64x16x64 1 := cmpf .olt main_v14 main_v15
  fn_part1 (F := F) main_arg3 main_arg4 main_arg6 main_arg7 main_arg8 main_arg9 main_arg10 main_arg11 main_arg12 main_arg13 main_v13 main_v16
-- ==== Kernel.lean ====
abbrev S4x8192x64 : Shape := ⟨3, ![4, 8192, 64]⟩
abbrev S4x8192x3 : Shape := ⟨3, ![4, 8192, 3]⟩
abbrev S4x8192x16 : Shape := ⟨3, ![4, 8192, 16]⟩
abbrev S_ : Shape := ⟨0, ![]⟩
abbrev S64x16x64 : Shape := ⟨3, ![64, 16, 64]⟩
abbrev S64 : Shape := ⟨1, ![64]⟩
abbrev S3x16 : Shape := ⟨2, ![3, 16]⟩
abbrev S32x48 : Shape := ⟨2, ![32, 48]⟩
abbrev S32 : Shape := ⟨1, ![32]⟩
abbrev S16x32 : Shape := ⟨2, ![16, 32]⟩
abbrev S16 : Shape := ⟨1, ![16]⟩
abbrev S16x16 : Shape := ⟨2, ![16, 16]⟩
abbrev S4 : Shape := ⟨1, ![4]⟩
abbrev S4x1x1 : Shape := ⟨3, ![4, 1, 1]⟩
abbrev S524288 : Shape := ⟨1, ![524288]⟩
abbrev S32768x64 : Shape := ⟨2, ![32768, 64]⟩
abbrev S32768x3 : Shape := ⟨2, ![32768, 3]⟩
abbrev S32768x67 : Shape := ⟨2, ![32768, 67]⟩
abbrev S32768x128 : Shape := ⟨2, ![32768, 128]⟩
abbrev S32x3x16 : Shape := ⟨3, ![32, 3, 16]⟩
abbrev S32x3 : Shape := ⟨2, ![32, 3]⟩
abbrev S3x32 : Shape := ⟨2, ![3, 32]⟩
abbrev S128x32 : Shape := ⟨2, ![128, 32]⟩
abbrev S1x3x16 : Shape := ⟨3, ![1, 3, 16]⟩
abbrev S1x32 : Shape := ⟨2, ![1, 32]⟩
abbrev S32768x32 : Shape := ⟨2, ![32768, 32]⟩
abbrev S32x16 : Shape := ⟨2, ![32, 16]⟩
abbrev S1x16 : Shape := ⟨2, ![1, 16]⟩
abbrev S16x64x64 : Shape := ⟨3, ![16, 64, 64]⟩
abbrev S1024x64 : Shape := ⟨2, ![1024, 64]⟩
abbrev S1x64 : Shape := ⟨2, ![1, 64]⟩
abbrev S65536x128 : Shape := ⟨2, ![65536, 128]⟩
abbrev S256 : Shape := ⟨1, ![256]⟩
abbrev S256x128 : Shape := ⟨2, ![256, 128]⟩
abbrev S4096x64 : Shape := ⟨2, ![4096, 64]⟩
abbrev S16384x128 : Shape := ⟨2, ![16384, 128]⟩
abbrev S1024x32 : Shape := ⟨2, ![1024, 32]⟩
abbrev S16384x32 : Shape := ⟨2, ![16384, 32]⟩
abbrev S1024x16x32 : Shape := ⟨3, ![1024, 16, 32]⟩
abbrev S1024x1x32 : Shape := ⟨3, ![1024, 1, 32]⟩
abbrev S16384x16 : Shape := ⟨2, ![16384, 16]⟩
abbrev S1024x16x16 : Shape := ⟨3, ![1024, 16, 16]⟩
abbrev S1024x16x128 : Shape := ⟨3, ![1024, 16, 128]⟩
abbrev S1024x16x64 : Shape := ⟨3, ![1024, 16, 64]⟩
abbrev S1024x1024 : Shape := ⟨2, ![1024, 1024]⟩

abbrev nBuf : Table → Nat
  | .hbm => 74
  | .local .tc .vmem => 104
  | .local .scVector .vmem => 32
  | _ => 0

abbrev bufTy : (tb : Table) → Fin (nBuf tb) → BufTy
  | .hbm, ⟨0, _⟩ => ⟨S4x8192x64, .f32⟩
  | .hbm, ⟨1, _⟩ => ⟨S4x8192x3, .f32⟩
  | .hbm, ⟨2, _⟩ => ⟨S4x8192x3, .f32⟩
  | .hbm, ⟨3, _⟩ => ⟨S4x8192x16, .i32⟩
  | .hbm, ⟨4, _⟩ => ⟨S_, .i32⟩
  | .hbm, ⟨5, _⟩ => ⟨S64x16x64, .f32⟩
  | .hbm, ⟨6, _⟩ => ⟨S64, .f32⟩
  | .hbm, ⟨7, _⟩ => ⟨S3x16, .f32⟩
  | .hbm, ⟨8, _⟩ => ⟨S32x48, .f32⟩
  | .hbm, ⟨9, _⟩ => ⟨S32, .f32⟩
  | .hbm, ⟨10, _⟩ => ⟨S16x32, .f32⟩
  | .hbm, ⟨11, _⟩ => ⟨S16, .f32⟩
  | .hbm, ⟨12, _⟩ => ⟨S16x16, .f32⟩
  | .hbm, ⟨13, _⟩ => ⟨S16, .f32⟩
  | .hbm, ⟨14, _⟩ => ⟨S4, .i32⟩
  | .hbm, ⟨15, _⟩ => ⟨S_, .i32⟩
  | .hbm, ⟨16, _⟩ => ⟨S4, .i32⟩
  | .hbm, ⟨17, _⟩ => ⟨S4, .i32⟩
  | .hbm, ⟨18, _⟩ => ⟨S4x1x1, .i32⟩
  | .hbm, ⟨19, _⟩ => ⟨S4x8192x16, .i32⟩
  | .hbm, ⟨20, _⟩ => ⟨S4x8192x16, .i32⟩
  | .hbm, ⟨21, _⟩ => ⟨S524288, .i32⟩
  | .hbm, ⟨22, _⟩ => ⟨S32768x64, .f32⟩
  | .hbm, ⟨23, _⟩ => ⟨S32768x3, .f32⟩
  | .hbm, ⟨24, _⟩ => ⟨S32768x67, .f32⟩
  | .hbm, ⟨25, _⟩ => ⟨S_, .i32⟩
  | .hbm, ⟨26, _⟩ => ⟨S_, .f32⟩
  | .hbm, ⟨27, _⟩ => ⟨S32768x128, .f32⟩
  | .hbm, ⟨28, _⟩ => ⟨S32x3x16, .f32⟩
  | .hbm, ⟨29, _⟩ => ⟨S_, .f32⟩
  | .hbm, ⟨30, _⟩ => ⟨S32x3, .f32⟩
  | .hbm, ⟨31, _⟩ => ⟨S3x32, .f32⟩
  | .hbm, ⟨32, _⟩ => ⟨S_, .i32⟩
  | .hbm, ⟨33, _⟩ => ⟨S_, .f32⟩
  | .hbm, ⟨34, _⟩ => ⟨S128x32, .f32⟩
  | .hbm, ⟨35, _⟩ => ⟨S1x3x16, .f32⟩
  | .hbm, ⟨36, _⟩ => ⟨S32x3x16, .f32⟩
  | .hbm, ⟨37, _⟩ => ⟨S32x3x16, .f32⟩
  | .hbm, ⟨38, _⟩ => ⟨S_, .f32⟩
  | .hbm, ⟨39, _⟩ => ⟨S32, .f32⟩
  | .hbm, ⟨40, _⟩ => ⟨S32, .f32⟩
  | .hbm, ⟨41, _⟩ => ⟨S1x32, .f32⟩
  | .hbm, ⟨42, _⟩ => ⟨S32768x3, .f32⟩
  | .hbm, ⟨43, _⟩ => ⟨S32768x32, .f32⟩
  | .hbm, ⟨44, _⟩ => ⟨S32768x32, .f32⟩
  | .hbm, ⟨45, _⟩ => ⟨S32768x32, .f32⟩
  | .hbm, ⟨46, _⟩ => ⟨S32x16, .f32⟩
  | .hbm, ⟨47, _⟩ => ⟨S1x16, .f32⟩
  | .hbm, ⟨48, _⟩ => ⟨S16x16, .f32⟩
  | .hbm, ⟨49, _⟩ => ⟨S1x16, .f32⟩
  | .hbm, ⟨50, _⟩ => ⟨S16x64x64, .f32⟩
  | .hbm, ⟨51, _⟩ => ⟨S_, .f32⟩
  | .hbm, ⟨52, _⟩ => ⟨S16x64x64, .f32⟩
  | .hbm, ⟨53, _⟩ => ⟨S16x64x64, .f32⟩
  | .hbm, ⟨54, _⟩ => ⟨S1024x64, .f32⟩
  | .hbm, ⟨55, _⟩ => ⟨S1x64, .f32⟩
  | .hbm, ⟨56, _⟩ => ⟨S65536x128, .f32⟩
  | .hbm, ⟨57, _⟩ => ⟨S4096x64, .f32⟩
  | .hbm, ⟨58, _⟩ => ⟨S65536x128, .f32⟩
  | .hbm, ⟨59, _⟩ => ⟨S4096x64, .f32⟩
  | .hbm, ⟨60, _⟩ => ⟨S65536x128, .f32⟩
  | .hbm, ⟨61, _⟩ => ⟨S4096x64, .f32⟩
  | .hbm, ⟨62, _⟩ => ⟨S65536x128, .f32⟩
  | .hbm, ⟨63, _⟩ => ⟨S4096x64, .f32⟩
  | .hbm, ⟨64, _⟩ => ⟨S65536x128, .f32⟩
  | .hbm, ⟨65, _⟩ => ⟨S4096x64, .f32⟩
  | .hbm, ⟨66, _⟩ => ⟨S65536x128, .f32⟩
  | .hbm, ⟨67, _⟩ => ⟨S4096x64, .f32⟩
  | .hbm, ⟨68, _⟩ => ⟨S65536x128, .f32⟩
  | .hbm, ⟨69, _⟩ => ⟨S4096x64, .f32⟩
  | .hbm, ⟨70, _⟩ => ⟨S65536x128, .f32⟩
  | .hbm, ⟨71, _⟩ => ⟨S4096x64, .f32⟩
  | .hbm, ⟨72, _⟩ => ⟨S32768x64, .f32⟩
  | .hbm, ⟨73, _⟩ => ⟨S4x8192x64, .f32⟩
  | .local .tc .vmem, ⟨0, _⟩ => ⟨S16384x128, .f32⟩
  | .local .tc .vmem, ⟨1, _⟩ => ⟨S16384x128, .f32⟩
  | .local .tc .vmem, ⟨2, _⟩ => ⟨S1024x32, .f32⟩
  | .local .tc .vmem, ⟨3, _⟩ => ⟨S1024x32, .f32⟩
  | .local .tc .vmem, ⟨4, _⟩ => ⟨S128x32, .f32⟩
  | .local .tc .vmem, ⟨5, _⟩ => ⟨S32x16, .f32⟩
  | .local .tc .vmem, ⟨6, _⟩ => ⟨S1x16, .f32⟩
  | .local .tc .vmem, ⟨7, _⟩ => ⟨S16x16, .f32⟩
  | .local .tc .vmem, ⟨8, _⟩ => ⟨S1x16, .f32⟩
  | .local .tc .vmem, ⟨9, _⟩ => ⟨S1024x64, .f32⟩
  | .local .tc .vmem, ⟨10, _⟩ => ⟨S1x64, .f32⟩
  | .local .tc .vmem, ⟨11, _⟩ => ⟨S1024x64, .f32⟩
  | .local .tc .vmem, ⟨12, _⟩ => ⟨S1024x64, .f32⟩
  | .local .tc .vmem, ⟨13, _⟩ => ⟨S16384x128, .f32⟩
  | .local .tc .vmem, ⟨14, _⟩ => ⟨S16384x128, .f32⟩
  | .local .tc .vmem, ⟨15, _⟩ => ⟨S1024x32, .f32⟩
  | .local .tc .vmem, ⟨16, _⟩ => ⟨S1024x32, .f32⟩
  | .local .tc .vmem, ⟨17, _⟩ => ⟨S128x32, .f32⟩
  | .local .tc .vmem, ⟨18, _⟩ => ⟨S32x16, .f32⟩
  | .local .tc .vmem, ⟨19, _⟩ => ⟨S1x16, .f32⟩
  | .local .tc .vmem, ⟨20, _⟩ => ⟨S16x16, .f32⟩
  | .local .tc .vmem, ⟨21, _⟩ => ⟨S1x16, .f32⟩
  | .local .tc .vmem, ⟨22, _⟩ => ⟨S1024x64, .f32⟩
  | .local .tc .vmem, ⟨23, _⟩ => ⟨S1x64, .f32⟩
  | .local .tc .vmem, ⟨24, _⟩ => ⟨S1024x64, .f32⟩
  | .local .tc .vmem, ⟨25, _⟩ => ⟨S1024x64, .f32⟩
  | .local .tc .vmem, ⟨26, _⟩ => ⟨S16384x128, .f32⟩
  | .local .tc .vmem, ⟨27, _⟩ => ⟨S16384x128, .f32⟩
  | .local .tc .vmem, ⟨28, _⟩ => ⟨S1024x32, .f32⟩
  | .local .tc .vmem, ⟨29, _⟩ => ⟨S1024x32, .f32⟩
  | .local .tc .vmem, ⟨30, _⟩ => ⟨S128x32, .f32⟩
  | .local .tc .vmem, ⟨31, _⟩ => ⟨S32x16, .f32⟩
  | .local .tc .vmem, ⟨32, _⟩ => ⟨S1x16, .f32⟩
  | .local .tc .vmem, ⟨33, _⟩ => ⟨S16x16, .f32⟩
  | .local .tc .vmem, ⟨34, _⟩ => ⟨S1x16, .f32⟩
  | .local .tc .vmem, ⟨35, _⟩ => ⟨S1024x64, .f32⟩
  | .local .tc .vmem, ⟨36, _⟩ => ⟨S1x64, .f32⟩
  | .local .tc .vmem, ⟨37, _⟩ => ⟨S1024x64, .f32⟩
  | .local .tc .vmem, ⟨38, _⟩ => ⟨S1024x64, .f32⟩
  | .local .tc .vmem, ⟨39, _⟩ => ⟨S16384x128, .f32⟩
  | .local .tc .vmem, ⟨40, _⟩ => ⟨S16384x128, .f32⟩
  | .local .tc .vmem, ⟨41, _⟩ => ⟨S1024x32, .f32⟩
  | .local .tc .vmem, ⟨42, _⟩ => ⟨S1024x32, .f32⟩
  | .local .tc .vmem, ⟨43, _⟩ => ⟨S128x32, .f32⟩
  | .local .tc .vmem, ⟨44, _⟩ => ⟨S32x16, .f32⟩
  | .local .tc .vmem, ⟨45, _⟩ => ⟨S1x16, .f32⟩
  | .local .tc .vmem, ⟨46, _⟩ => ⟨S16x16, .f32⟩
  | .local .tc .vmem, ⟨47, _⟩ => ⟨S1x16, .f32⟩
  | .local .tc .vmem, ⟨48, _⟩ => ⟨S1024x64, .f32⟩
  | .local .tc .vmem, ⟨49, _⟩ => ⟨S1x64, .f32⟩
  | .local .tc .vmem, ⟨50, _⟩ => ⟨S1024x64, .f32⟩
  | .local .tc .vmem, ⟨51, _⟩ => ⟨S1024x64, .f32⟩
  | .local .tc .vmem, ⟨52, _⟩ => ⟨S16384x128, .f32⟩
  | .local .tc .vmem, ⟨53, _⟩ => ⟨S16384x128, .f32⟩
  | .local .tc .vmem, ⟨54, _⟩ => ⟨S1024x32, .f32⟩
  | .local .tc .vmem, ⟨55, _⟩ => ⟨S1024x32, .f32⟩
  | .local .tc .vmem, ⟨56, _⟩ => ⟨S128x32, .f32⟩
  | .local .tc .vmem, ⟨57, _⟩ => ⟨S32x16, .f32⟩
  | .local .tc .vmem, ⟨58, _⟩ => ⟨S1x16, .f32⟩
  | .local .tc .vmem, ⟨59, _⟩ => ⟨S16x16, .f32⟩
  | .local .tc .vmem, ⟨60, _⟩ => ⟨S1x16, .f32⟩
  | .local .tc .vmem, ⟨61, _⟩ => ⟨S1024x64, .f32⟩
  | .local .tc .vmem, ⟨62, _⟩ => ⟨S1x64, .f32⟩
  | .local .tc .vmem, ⟨63, _⟩ => ⟨S1024x64, .f32⟩
  | .local .tc .vmem, ⟨64, _⟩ => ⟨S1024x64, .f32⟩
  | .local .tc .vmem, ⟨65, _⟩ => ⟨S16384x128, .f32⟩
  | .local .tc .vmem, ⟨66, _⟩ => ⟨S16384x128, .f32⟩
  | .local .tc .vmem, ⟨67, _⟩ => ⟨S1024x32, .f32⟩
  | .local .tc .vmem, ⟨68, _⟩ => ⟨S1024x32, .f32⟩
  | .local .tc .vmem, ⟨69, _⟩ => ⟨S128x32, .f32⟩
  | .local .tc .vmem, ⟨70, _⟩ => ⟨S32x16, .f32⟩
  | .local .tc .vmem, ⟨71, _⟩ => ⟨S1x16, .f32⟩
  | .local .tc .vmem, ⟨72, _⟩ => ⟨S16x16, .f32⟩
  | .local .tc .vmem, ⟨73, _⟩ => ⟨S1x16, .f32⟩
  | .local .tc .vmem, ⟨74, _⟩ => ⟨S1024x64, .f32⟩
  | .local .tc .vmem, ⟨75, _⟩ => ⟨S1x64, .f32⟩
  | .local .tc .vmem, ⟨76, _⟩ => ⟨S1024x64, .f32⟩
  | .local .tc .vmem, ⟨77, _⟩ => ⟨S1024x64, .f32⟩
  | .local .tc .vmem, ⟨78, _⟩ => ⟨S16384x128, .f32⟩
  | .local .tc .vmem, ⟨79, _⟩ => ⟨S16384x128, .f32⟩
  | .local .tc .vmem, ⟨80, _⟩ => ⟨S1024x32, .f32⟩
  | .local .tc .vmem, ⟨81, _⟩ => ⟨S1024x32, .f32⟩
  | .local .tc .vmem, ⟨82, _⟩ => ⟨S128x32, .f32⟩
  | .local .tc .vmem, ⟨83, _⟩ => ⟨S32x16, .f32⟩
  | .local .tc .vmem, ⟨84, _⟩ => ⟨S1x16, .f32⟩
  | .local .tc .vmem, ⟨85, _⟩ => ⟨S16x16, .f32⟩
  | .local .tc .vmem, ⟨86, _⟩ => ⟨S1x16, .f32⟩
  | .local .tc .vmem, ⟨87, _⟩ => ⟨S1024x64, .f32⟩
  | .local .tc .vmem, ⟨88, _⟩ => ⟨S1x64, .f32⟩
  | .local .tc .vmem, ⟨89, _⟩ => ⟨S1024x64, .f32⟩
  | .local .tc .vmem, ⟨90, _⟩ => ⟨S1024x64, .f32⟩
  | .local .tc .vmem, ⟨91, _⟩ => ⟨S16384x128, .f32⟩
  | .local .tc .vmem, ⟨92, _⟩ => ⟨S16384x128, .f32⟩
  | .local .tc .vmem, ⟨93, _⟩ => ⟨S1024x32, .f32⟩
  | .local .tc .vmem, ⟨94, _⟩ => ⟨S1024x32, .f32⟩
  | .local .tc .vmem, ⟨95, _⟩ => ⟨S128x32, .f32⟩
  | .local .tc .vmem, ⟨96, _⟩ => ⟨S32x16, .f32⟩
  | .local .tc .vmem, ⟨97, _⟩ => ⟨S1x16, .f32⟩
  | .local .tc .vmem, ⟨98, _⟩ => ⟨S16x16, .f32⟩
  | .local .tc .vmem, ⟨99, _⟩ => ⟨S1x16, .f32⟩
  | .local .tc .vmem, ⟨100, _⟩ => ⟨S1024x64, .f32⟩
  | .local .tc .vmem, ⟨101, _⟩ => ⟨S1x64, .f32⟩
  | .local .tc .vmem, ⟨102, _⟩ => ⟨S1024x64, .f32⟩
  | .local .tc .vmem, ⟨103, _⟩ => ⟨S1024x64, .f32⟩
  | .local .scVector .vmem, ⟨0, _⟩ => ⟨S256, .i32⟩
  | .local .scVector .vmem, ⟨1, _⟩ => ⟨S256, .i32⟩
  | .local .scVector .vmem, ⟨2, _⟩ => ⟨S256x128, .f32⟩
  | .local .scVector .vmem, ⟨3, _⟩ => ⟨S256x128, .f32⟩
  | .local .scVector .vmem, ⟨4, _⟩ => ⟨S256, .i32⟩
  | .local .scVector .vmem, ⟨5, _⟩ => ⟨S256, .i32⟩
  | .local .scVector .vmem, ⟨6, _⟩ => ⟨S256x128, .f32⟩
  | .local .scVector .vmem, ⟨7, _⟩ => ⟨S256x128, .f32⟩
  | .local .scVector .vmem, ⟨8, _⟩ => ⟨S256, .i32⟩
  | .local .scVector .vmem, ⟨9, _⟩ => ⟨S256, .i32⟩
  | .local .scVector .vmem, ⟨10, _⟩ => ⟨S256x128, .f32⟩
  | .local .scVector .vmem, ⟨11, _⟩ => ⟨S256x128, .f32⟩
  | .local .scVector .vmem, ⟨12, _⟩ => ⟨S256, .i32⟩
  | .local .scVector .vmem, ⟨13, _⟩ => ⟨S256, .i32⟩
  | .local .scVector .vmem, ⟨14, _⟩ => ⟨S256x128, .f32⟩
  | .local .scVector .vmem, ⟨15, _⟩ => ⟨S256x128, .f32⟩
  | .local .scVector .vmem, ⟨16, _⟩ => ⟨S256, .i32⟩
  | .local .scVector .vmem, ⟨17, _⟩ => ⟨S256, .i32⟩
  | .local .scVector .vmem, ⟨18, _⟩ => ⟨S256x128, .f32⟩
  | .local .scVector .vmem, ⟨19, _⟩ => ⟨S256x128, .f32⟩
  | .local .scVector .vmem, ⟨20, _⟩ => ⟨S256, .i32⟩
  | .local .scVector .vmem, ⟨21, _⟩ => ⟨S256, .i32⟩
  | .local .scVector .vmem, ⟨22, _⟩ => ⟨S256x128, .f32⟩
  | .local .scVector .vmem, ⟨23, _⟩ => ⟨S256x128, .f32⟩
  | .local .scVector .vmem, ⟨24, _⟩ => ⟨S256, .i32⟩
  | .local .scVector .vmem, ⟨25, _⟩ => ⟨S256, .i32⟩
  | .local .scVector .vmem, ⟨26, _⟩ => ⟨S256x128, .f32⟩
  | .local .scVector .vmem, ⟨27, _⟩ => ⟨S256x128, .f32⟩
  | .local .scVector .vmem, ⟨28, _⟩ => ⟨S256, .i32⟩
  | .local .scVector .vmem, ⟨29, _⟩ => ⟨S256, .i32⟩
  | .local .scVector .vmem, ⟨30, _⟩ => ⟨S256x128, .f32⟩
  | .local .scVector .vmem, ⟨31, _⟩ => ⟨S256x128, .f32⟩
  | _, _ => ⟨S4x8192x64, .f32⟩

abbrev dmaSemScopedAt0_0 (i : Nat) : Bool := match i % 128 with
  | 0 => false
  | 1 => false
  | 2 => false
  | 3 => false
  | 4 => false
  | 5 => false
  | 6 => true
  | 7 => true
  | 8 => true
  | 9 => true
  | 10 => true
  | 11 => true
  | 12 => true
  | 13 => true
  | 14 => true
  | 15 => true
  | 16 => true
  | 17 => true
  | 18 => true
  | 19 => false
  | 20 => false
  | 21 => false
  | 22 => false
  | 23 => false
  | 24 => false
  | 25 => true
  | 26 => true
  | 27 => true
  | 28 => true
  | 29 => true
  | 30 => true
  | 31 => true
  | 32 => true
  | 33 => true
  | 34 => true
  | 35 => true
  | 36 => true
  | 37 => true
  | 38 => false
  | 39 => false
  | 40 => false
  | 41 => false
  | 42 => false
  | 43 => false
  | 44 => true
  | 45 => true
  | 46 => true
  | 47 => true
  | 48 => true
  | 49 => true
  | 50 => true
  | 51 => true
  | 52 => true
  | 53 => true
  | 54 => true
  | 55 => true
  | 56 => true
  | 57 => false
  | 58 => false
  | 59 => false
  | 60 => false
  | 61 => false
  | 62 => false
  | 63 => true
  | 64 => true
  | 65 => true
  | 66 => true
  | 67 => true
  | 68 => true
  | 69 => true
  | 70 => true
  | 71 => true
  | 72 => true
  | 73 => true
  | 74 => true
  | 75 => true
  | 76 => false
  | 77 => false
  | 78 => false
  | 79 => false
  | 80 => false
  | 81 => false
  | 82 => true
  | 83 => true
  | 84 => true
  | 85 => true
  | 86 => true
  | 87 => true
  | 88 => true
  | 89 => true
  | 90 => true
  | 91 => true
  | 92 => true
  | 93 => true
  | 94 => true
  | 95 => false
  | 96 => false
  | 97 => false
  | 98 => false
  | 99 => false
  | 100 => false
  | 101 => true
  | 102 => true
  | 103 => true
  | 104 => true
  | 105 => true
  | 106 => true
  | 107 => true
  | 108 => true
  | 109 => true
  | 110 => true
  | 111 => true
  | 112 => true
  | 113 => true
  | 114 => false
  | 115 => false
  | 116 => false
  | 117 => false
  | 118 => false
  | 119 => false
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => false
  | 6 => false
  | 7 => false
  | 8 => false
  | 9 => false
  | 10 => false
  | 11 => true
  | 12 => true
  | 13 => true
  | 14 => true
  | 15 => true
  | 16 => true
  | 17 => true
  | 18 => true
  | 19 => true
  | 20 => true
  | 21 => true
  | 22 => true
  | 23 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 152 → Bool
  | ⟨i, _⟩ => dmaSemScopedAt i

abbrev sig : RefSig :=
  ofTables nBuf rfl bufTy 4 152 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_c_0 : Ref sig .tc := ⟨.hbm, 25, rfl⟩
abbrev main_call0_v0 : Ref sig .tc := ⟨.hbm, 26, rfl⟩
abbrev main_v10 : Ref sig .tc := ⟨.hbm, 27, rfl⟩
abbrev main_v11 : Ref sig .tc := ⟨.hbm, 28, rfl⟩
abbrev main_cst : Ref sig .tc := ⟨.hbm, 29, rfl⟩
abbrev main_v12 : Ref sig .tc := ⟨.hbm, 30, rfl⟩
abbrev main_v13 : Ref sig .tc := ⟨.hbm, 31, rfl⟩
abbrev main_c_1 : Ref sig .tc := ⟨.hbm, 32, rfl⟩
abbrev main_call1_v0 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_2 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_3 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v10_scv : Ref sig .scVector := ⟨.hbm, 27, rfl⟩
abbrev main_v6_scv : Ref sig .scVector := ⟨.hbm, 21, rfl⟩
abbrev main_v34_scv : Ref sig .scVector := ⟨.hbm, 56, rfl⟩
abbrev main_v36_scv : Ref sig .scVector := ⟨.hbm, 58, rfl⟩
abbrev main_v38_scv : Ref sig .scVector := ⟨.hbm, 60, rfl⟩
abbrev main_v40_scv : Ref sig .scVector := ⟨.hbm, 62, rfl⟩
abbrev main_v42_scv : Ref sig .scVector := ⟨.hbm, 64, rfl⟩
abbrev main_v44_scv : Ref sig .scVector := ⟨.hbm, 66, rfl⟩
abbrev main_v46_scv : Ref sig .scVector := ⟨.hbm, 68, rfl⟩
abbrev main_v48_scv : Ref sig .scVector := ⟨.hbm, 70, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg5_0 : Ref sig .tc := ⟨.vmem, 7, rfl⟩
abbrev cc1_stg6_0 : Ref sig .tc := ⟨.vmem, 8, rfl⟩
abbrev cc1_stg7_0 : Ref sig .tc := ⟨.vmem, 9, rfl⟩
abbrev cc1_stg8_0 : Ref sig .tc := ⟨.vmem, 10, rfl⟩
abbrev cc1_stg9_0 : Ref sig .tc := ⟨.vmem, 11, rfl⟩
abbrev cc1_stg9_1 : Ref sig .tc := ⟨.vmem, 12, rfl⟩
abbrev cc3_stg0_0 : Ref sig .tc := ⟨.vmem, 13, rfl⟩
abbrev cc3_stg0_1 : Ref sig .tc := ⟨.vmem, 14, rfl⟩
abbrev cc3_stg1_0 : Ref sig .tc := ⟨.vmem, 15, rfl⟩
abbrev cc3_stg1_1 : Ref sig .tc := ⟨.vmem, 16, rfl⟩
abbrev cc3_stg2_0 : Ref sig .tc := ⟨.vmem, 17, rfl⟩
abbrev cc3_stg3_0 : Ref sig .tc := ⟨.vmem, 18, rfl⟩
abbrev cc3_stg4_0 : Ref sig .tc := ⟨.vmem, 19, rfl⟩
abbrev cc3_stg5_0 : Ref sig .tc := ⟨.vmem, 20, rfl⟩
abbrev cc3_stg6_0 : Ref sig .tc := ⟨.vmem, 21, rfl⟩
abbrev cc3_stg7_0 : Ref sig .tc := ⟨.vmem, 22, rfl⟩
abbrev cc3_stg8_0 : Ref sig .tc := ⟨.vmem, 23, rfl⟩
abbrev cc3_stg9_0 : Ref sig .tc := ⟨.vmem, 24, rfl⟩
abbrev cc3_stg9_1 : Ref sig .tc := ⟨.vmem, 25, rfl⟩
abbrev cc5_stg0_0 : Ref sig .tc := ⟨.vmem, 26, rfl⟩
abbrev cc5_stg0_1 : Ref sig .tc := ⟨.vmem, 27, rfl⟩
abbrev cc5_stg1_0 : Ref sig .tc := ⟨.vmem, 28, rfl⟩
abbrev cc5_stg1_1 : Ref sig .tc := ⟨.vmem, 29, rfl⟩
abbrev cc5_stg2_0 : Ref sig .tc := ⟨.vmem, 30, rfl⟩
abbrev cc5_stg3_0 : Ref sig .tc := ⟨.vmem, 31, rfl⟩
abbrev cc5_stg4_0 : Ref sig .tc := ⟨.vmem, 32, rfl⟩
abbrev cc5_stg5_0 : Ref sig .tc := ⟨.vmem, 33, rfl⟩
abbrev cc5_stg6_0 : Ref sig .tc := ⟨.vmem, 34, rfl⟩
abbrev cc5_stg7_0 : Ref sig .tc := ⟨.vmem, 35, rfl⟩
abbrev cc5_stg8_0 : Ref sig .tc := ⟨.vmem, 36, rfl⟩
abbrev cc5_stg9_0 : Ref sig .tc := ⟨.vmem, 37, rfl⟩
abbrev cc5_stg9_1 : Ref sig .tc := ⟨.vmem, 38, rfl⟩
abbrev cc7_stg0_0 : Ref sig .tc := ⟨.vmem, 39, rfl⟩
abbrev cc7_stg0_1 : Ref sig .tc := ⟨.vmem, 40, rfl⟩
abbrev cc7_stg1_0 : Ref sig .tc := ⟨.vmem, 41, rfl⟩
abbrev cc7_stg1_1 : Ref sig .tc := ⟨.vmem, 42, rfl⟩
abbrev cc7_stg2_0 : Ref sig .tc := ⟨.vmem, 43, rfl⟩
abbrev cc7_stg3_0 : Ref sig .tc := ⟨.vmem, 44, rfl⟩
abbrev cc7_stg4_0 : Ref sig .tc := ⟨.vmem, 45, rfl⟩
abbrev cc7_stg5_0 : Ref sig .tc := ⟨.vmem, 46, rfl⟩
abbrev cc7_stg6_0 : Ref sig .tc := ⟨.vmem, 47, rfl⟩
abbrev cc7_stg7_0 : Ref sig .tc := ⟨.vmem, 48, rfl⟩
abbrev cc7_stg8_0 : Ref sig .tc := ⟨.vmem, 49, rfl⟩
abbrev cc7_stg9_0 : Ref sig .tc := ⟨.vmem, 50, rfl⟩
abbrev cc7_stg9_1 : Ref sig .tc := ⟨.vmem, 51, rfl⟩
abbrev cc9_stg0_0 : Ref sig .tc := ⟨.vmem, 52, rfl⟩
abbrev cc9_stg0_1 : Ref sig .tc := ⟨.vmem, 53, rfl⟩
abbrev cc9_stg1_0 : Ref sig .tc := ⟨.vmem, 54, rfl⟩
abbrev cc9_stg1_1 : Ref sig .tc := ⟨.vmem, 55, rfl⟩
abbrev cc9_stg2_0 : Ref sig .tc := ⟨.vmem, 56, rfl⟩
abbrev cc9_stg3_0 : Ref sig .tc := ⟨.vmem, 57, rfl⟩
abbrev cc9_stg4_0 : Ref sig .tc := ⟨.vmem, 58, rfl⟩
abbrev cc9_stg5_0 : Ref sig .tc := ⟨.vmem, 59, rfl⟩
abbrev cc9_stg6_0 : Ref sig .tc := ⟨.vmem, 60, rfl⟩
abbrev cc9_stg7_0 : Ref sig .tc := ⟨.vmem, 61, rfl⟩
abbrev cc9_stg8_0 : Ref sig .tc := ⟨.vmem, 62, rfl⟩
abbrev cc9_stg9_0 : Ref sig .tc := ⟨.vmem, 63, rfl⟩
abbrev cc9_stg9_1 : Ref sig .tc := ⟨.vmem, 64, rfl⟩
abbrev cc11_stg0_0 : Ref sig .tc := ⟨.vmem, 65, rfl⟩
abbrev cc11_stg0_1 : Ref sig .tc := ⟨.vmem, 66, rfl⟩
abbrev cc11_stg1_0 : Ref sig .tc := ⟨.vmem, 67, rfl⟩
abbrev cc11_stg1_1 : Ref sig .tc := ⟨.vmem, 68, rfl⟩
abbrev cc11_stg2_0 : Ref sig .tc := ⟨.vmem, 69, rfl⟩
abbrev cc11_stg3_0 : Ref sig .tc := ⟨.vmem, 70, rfl⟩
abbrev cc11_stg4_0 : Ref sig .tc := ⟨.vmem, 71, rfl⟩
abbrev cc11_stg5_0 : Ref sig .tc := ⟨.vmem, 72, rfl⟩
abbrev cc11_stg6_0 : Ref sig .tc := ⟨.vmem, 73, rfl⟩
abbrev cc11_stg7_0 : Ref sig .tc := ⟨.vmem, 74, rfl⟩
abbrev cc11_stg8_0 : Ref sig .tc := ⟨.vmem, 75, rfl⟩
abbrev cc11_stg9_0 : Ref sig .tc := ⟨.vmem, 76, rfl⟩
abbrev cc11_stg9_1 : Ref sig .tc := ⟨.vmem, 77, rfl⟩
abbrev cc13_stg0_0 : Ref sig .tc := ⟨.vmem, 78, rfl⟩
abbrev cc13_stg0_1 : Ref sig .tc := ⟨.vmem, 79, rfl⟩
abbrev cc13_stg1_0 : Ref sig .tc := ⟨.vmem, 80, rfl⟩
abbrev cc13_stg1_1 : Ref sig .tc := ⟨.vmem, 81, rfl⟩
abbrev cc13_stg2_0 : Ref sig .tc := ⟨.vmem, 82, rfl⟩
abbrev cc13_stg3_0 : Ref sig .tc := ⟨.vmem, 83, rfl⟩
abbrev cc13_stg4_0 : Ref sig .tc := ⟨.vmem, 84, rfl⟩
abbrev cc13_stg5_0 : Ref sig .tc := ⟨.vmem, 85, rfl⟩
abbrev cc13_stg6_0 : Ref sig .tc := ⟨.vmem, 86, rfl⟩
abbrev cc13_stg7_0 : Ref sig .tc := ⟨.vmem, 87, rfl⟩
abbrev cc13_stg8_0 : Ref sig .tc := ⟨.vmem, 88, rfl⟩
abbrev cc13_stg9_0 : Ref sig .tc := ⟨.vmem, 89, rfl⟩
abbrev cc13_stg9_1 : Ref sig .tc := ⟨.vmem, 90, rfl⟩
abbrev cc15_stg0_0 : Ref sig .tc := ⟨.vmem, 91, rfl⟩
abbrev cc15_stg0_1 : Ref sig .tc := ⟨.vmem, 92, rfl⟩
abbrev cc15_stg1_0 : Ref sig .tc := ⟨.vmem, 93, rfl⟩
abbrev cc15_stg1_1 : Ref sig .tc := ⟨.vmem, 94, rfl⟩
abbrev cc15_stg2_0 : Ref sig .tc := ⟨.vmem, 95, rfl⟩
abbrev cc15_stg3_0 : Ref sig .tc := ⟨.vmem, 96, rfl⟩
abbrev cc15_stg4_0 : Ref sig .tc := ⟨.vmem, 97, rfl⟩
abbrev cc15_stg5_0 : Ref sig .tc := ⟨.vmem, 98, rfl⟩
abbrev cc15_stg6_0 : Ref sig .tc := ⟨.vmem, 99, rfl⟩
abbrev cc15_stg7_0 : Ref sig .tc := ⟨.vmem, 100, rfl⟩
abbrev cc15_stg8_0 : Ref sig .tc := ⟨.vmem, 101, rfl⟩
abbrev cc15_stg9_0 : Ref sig .tc := ⟨.vmem, 102, rfl⟩
abbrev cc15_stg9_1 : Ref sig .tc := ⟨.vmem, 103, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc2_scratch0 : Ref sig .scVector := ⟨.vmem, 4, rfl⟩
abbrev cc2_scratch1 : Ref sig .scVector := ⟨.vmem, 5, rfl⟩
abbrev cc2_scratch2 : Ref sig .scVector := ⟨.vmem, 6, rfl⟩
abbrev cc2_scratch3 : Ref sig .scVector := ⟨.vmem, 7, rfl⟩
abbrev cc4_scratch0 : Ref sig .scVector := ⟨.vmem, 8, rfl⟩
abbrev cc4_scratch1 : Ref sig .scVector := ⟨.vmem, 9, rfl⟩
abbrev cc4_scratch2 : Ref sig .scVector := ⟨.vmem, 10, rfl⟩
abbrev cc4_scratch3 : Ref sig .scVector := ⟨.vmem, 11, rfl⟩
abbrev cc6_scratch0 : Ref sig .scVector := ⟨.vmem, 12, rfl⟩
abbrev cc6_scratch1 : Ref sig .scVector := ⟨.vmem, 13, rfl⟩
abbrev cc6_scratch2 : Ref sig .scVector := ⟨.vmem, 14, rfl⟩
abbrev cc6_scratch3 : Ref sig .scVector := ⟨.vmem, 15, rfl⟩
abbrev cc8_scratch0 : Ref sig .scVector := ⟨.vmem, 16, rfl⟩
abbrev cc8_scratch1 : Ref sig .scVector := ⟨.vmem, 17, rfl⟩
abbrev cc8_scratch2 : Ref sig .scVector := ⟨.vmem, 18, rfl⟩
abbrev cc8_scratch3 : Ref sig .scVector := ⟨.vmem, 19, rfl⟩
abbrev cc10_scratch0 : Ref sig .scVector := ⟨.vmem, 20, rfl⟩
abbrev cc10_scratch1 : Ref sig .scVector := ⟨.vmem, 21, rfl⟩
abbrev cc10_scratch2 : Ref sig .scVector := ⟨.vmem, 22, rfl⟩
abbrev cc10_scratch3 : Ref sig .scVector := ⟨.vmem, 23, rfl⟩
abbrev cc12_scratch0 : Ref sig .scVector := ⟨.vmem, 24, rfl⟩
abbrev cc12_scratch1 : Ref sig .scVector := ⟨.vmem, 25, rfl⟩
abbrev cc12_scratch2 : Ref sig .scVector := ⟨.vmem, 26, rfl⟩
abbrev cc12_scratch3 : Ref sig .scVector := ⟨.vmem, 27, rfl⟩
abbrev cc14_scratch0 : Ref sig .scVector := ⟨.vmem, 28, rfl⟩
abbrev cc14_scratch1 : Ref sig .scVector := ⟨.vmem, 29, rfl⟩
abbrev cc14_scratch2 : Ref sig .scVector := ⟨.vmem, 30, rfl⟩
abbrev cc14_scratch3 : Ref sig .scVector := ⟨.vmem, 31, rfl⟩
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17
abbrev cc1_sem9_1 : DmaSem sig := 18
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem3_0 : DmaSem sig := 30
abbrev cc3_sem4_0 : DmaSem sig := 31
abbrev cc3_sem5_0 : DmaSem sig := 32
abbrev cc3_sem6_0 : DmaSem sig := 33
abbrev cc3_sem7_0 : DmaSem sig := 34
abbrev cc3_sem8_0 : DmaSem sig := 35
abbrev cc3_sem9_0 : DmaSem sig := 36
abbrev cc3_sem9_1 : DmaSem sig := 37
abbrev cc5_sem0_0 : DmaSem sig := 44
abbrev cc5_sem0_1 : DmaSem sig := 45
abbrev cc5_sem1_0 : DmaSem sig := 46
abbrev cc5_sem1_1 : DmaSem sig := 47
abbrev cc5_sem2_0 : DmaSem sig := 48
abbrev cc5_sem3_0 : DmaSem sig := 49
abbrev cc5_sem4_0 : DmaSem sig := 50
abbrev cc5_sem5_0 : DmaSem sig := 51
abbrev cc5_sem6_0 : DmaSem sig := 52
abbrev cc5_sem7_0 : DmaSem sig := 53
abbrev cc5_sem8_0 : DmaSem sig := 54
abbrev cc5_sem9_0 : DmaSem sig := 55
abbrev cc5_sem9_1 : DmaSem sig := 56
abbrev cc7_sem0_0 : DmaSem sig := 63
abbrev cc7_sem0_1 : DmaSem sig := 64
abbrev cc7_sem1_0 : DmaSem sig := 65
abbrev cc7_sem1_1 : DmaSem sig := 66
abbrev cc7_sem2_0 : DmaSem sig := 67
abbrev cc7_sem3_0 : DmaSem sig := 68
abbrev cc7_sem4_0 : DmaSem sig := 69
abbrev cc7_sem5_0 : DmaSem sig := 70
abbrev cc7_sem6_0 : DmaSem sig := 71
abbrev cc7_sem7_0 : DmaSem sig := 72
abbrev cc7_sem8_0 : DmaSem sig := 73
abbrev cc7_sem9_0 : DmaSem sig := 74
abbrev cc7_sem9_1 : DmaSem sig := 75
abbrev cc9_sem0_0 : DmaSem sig := 82
abbrev cc9_sem0_1 : DmaSem sig := 83
abbrev cc9_sem1_0 : DmaSem sig := 84
abbrev cc9_sem1_1 : DmaSem sig := 85
abbrev cc9_sem2_0 : DmaSem sig := 86
abbrev cc9_sem3_0 : DmaSem sig := 87
abbrev cc9_sem4_0 : DmaSem sig := 88
abbrev cc9_sem5_0 : DmaSem sig := 89
abbrev cc9_sem6_0 : DmaSem sig := 90
abbrev cc9_sem7_0 : DmaSem sig := 91
abbrev cc9_sem8_0 : DmaSem sig := 92
abbrev cc9_sem9_0 : DmaSem sig := 93
abbrev cc9_sem9_1 : DmaSem sig := 94
abbrev cc11_sem0_0 : DmaSem sig := 101
abbrev cc11_sem0_1 : DmaSem sig := 102
abbrev cc11_sem1_0 : DmaSem sig := 103
abbrev cc11_sem1_1 : DmaSem sig := 104
abbrev cc11_sem2_0 : DmaSem sig := 105
abbrev cc11_sem3_0 : DmaSem sig := 106
abbrev cc11_sem4_0 : DmaSem sig := 107
abbrev cc11_sem5_0 : DmaSem sig := 108
abbrev cc11_sem6_0 : DmaSem sig := 109
abbrev cc11_sem7_0 : DmaSem sig := 110
abbrev cc11_sem8_0 : DmaSem sig := 111
abbrev cc11_sem9_0 : DmaSem sig := 112
abbrev cc11_sem9_1 : DmaSem sig := 113
abbrev cc13_sem0_0 : DmaSem sig := 120
abbrev cc13_sem0_1 : DmaSem sig := 121
abbrev cc13_sem1_0 : DmaSem sig := 122
abbrev cc13_sem1_1 : DmaSem sig := 123
abbrev cc13_sem2_0 : DmaSem sig := 124
abbrev cc13_sem3_0 : DmaSem sig := 125
abbrev cc13_sem4_0 : DmaSem sig := 126
abbrev cc13_sem5_0 : DmaSem sig := 127
abbrev cc13_sem6_0 : DmaSem sig := 128
abbrev cc13_sem7_0 : DmaSem sig := 129
abbrev cc13_sem8_0 : DmaSem sig := 130
abbrev cc13_sem9_0 : DmaSem sig := 131
abbrev cc13_sem9_1 : DmaSem sig := 132
abbrev cc15_sem0_0 : DmaSem sig := 139
abbrev cc15_sem0_1 : DmaSem sig := 140
abbrev cc15_sem1_0 : DmaSem sig := 141
abbrev cc15_sem1_1 : DmaSem sig := 142
abbrev cc15_sem2_0 : DmaSem sig := 143
abbrev cc15_sem3_0 : DmaSem sig := 144
abbrev cc15_sem4_0 : DmaSem sig := 145
abbrev cc15_sem5_0 : DmaSem sig := 146
abbrev cc15_sem6_0 : DmaSem sig := 147
abbrev cc15_sem7_0 : DmaSem sig := 148
abbrev cc15_sem8_0 : DmaSem sig := 149
abbrev cc15_sem9_0 : DmaSem sig := 150
abbrev cc15_sem9_1 : DmaSem sig := 151
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c4_i32 : BitVec 32 := 4#32
  let v3 : BitVec 32 := Scalar.addi c0_i32_0 c4_i32
  let c1_i32 : BitVec 32 := 1#32
  ⟨c0_i32_0, v3, c1_i32⟩
def k0_off1 (i : grid0.Coords) (k0_t1 : Fin k0_t1_loop.trips) : Fin 1 → Nat :=
  let c0_i32_4 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_0 : BitVec 32 := 0#32
  let c1_i32 : BitVec 32 := 1#32
  let arg13 : BitVec 32 := Scf.iv c0_i32_0 c1_i32 k0_t1
  let c2_i32_2 : BitVec 32 := 2#32
  let v4 : BitVec 32 := Scalar.muli arg13 c2_i32_2
  let c256_i32 : BitVec 32 := 256#32
  let v5 : BitVec 32 := Scalar.muli v4 c256_i32
  let v6 : BitVec 32 := Scalar.addi v2 v5
  let v8 : BitVec 32 := Scalar.addi c0_i32_4 v6
  ![v8.toNat]
def k0_off2 (i : grid0.Coords) (k0_t1 : Fin k0_t1_loop.trips) : Fin 1 → Nat :=
  let c0_i32_7 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_0 : BitVec 32 := 0#32
  let c1_i32 : BitVec 32 := 1#32
  let arg13 : BitVec 32 := Scf.iv c0_i32_0 c1_i32 k0_t1
  let c2_i32_2 : BitVec 32 := 2#32
  let v4 : BitVec 32 := Scalar.muli arg13 c2_i32_2
  let c256_i32 : BitVec 32 := 256#32
  let v5 : BitVec 32 := Scalar.muli v4 c256_i32
  let v6 : BitVec 32 := Scalar.addi v2 v5
  let c256_i32_3 : BitVec 32 := 256#32
  let v7 : BitVec 32 := Scalar.addi v6 c256_i32_3
  let v10 : BitVec 32 := Scalar.addi c0_i32_7 v7
  ![v10.toNat]
def k0_off3 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_0 : BitVec 32 := 0#32
  let c1_i32 : BitVec 32 := 1#32
  let arg13 : BitVec 32 := Scf.iv c0_i32_0 c1_i32 k0_t1
  let c2_i32_2 : BitVec 32 := 2#32
  let v4 : BitVec 32 := Scalar.muli arg13 c2_i32_2
  let c256_i32 : BitVec 32 := 256#32
  let v5 : BitVec 32 := Scalar.muli v4 c256_i32
  let v6 : BitVec 32 := Scalar.addi v2 v5
  let c0_i32_12 : BitVec 32 := 0#32
  ![v6.toNat, 0]
def k0_off4 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_0 : BitVec 32 := 0#32
  let c1_i32 : BitVec 32 := 1#32
  let arg13 : BitVec 32 := Scf.iv c0_i32_0 c1_i32 k0_t1
  let c2_i32_2 : BitVec 32 := 2#32
  let v4 : BitVec 32 := Scalar.muli arg13 c2_i32_2
  let c256_i32 : BitVec 32 := 256#32
  let v5 : BitVec 32 := Scalar.muli v4 c256_i32
  let v6 : BitVec 32 := Scalar.addi v2 v5
  let c256_i32_3 : BitVec 32 := 256#32
  let v7 : BitVec 32 := Scalar.addi v6 c256_i32_3
  let c0_i32_16 : BitVec 32 := 0#32
  ![v7.toNat, 0]
abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S16384x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S16x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x16 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1024x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S1024x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨2, ![2, 16], ![false, false]⟩

@[reducible] def k2_t1_loop : Scf.Loop 32 :=
  let c0_i32_0 : BitVec 32 := 0#32
  let c4_i32 : BitVec 32 := 4#32
  let v3 : BitVec 32 := Scalar.addi c0_i32_0 c4_i32
  let c1_i32 : BitVec 32 := 1#32
  ⟨c0_i32_0, v3, c1_i32⟩
def k2_off1 (i : grid2.Coords) (k2_t1 : Fin k2_t1_loop.trips) : Fin 1 → Nat :=
  let c65536_i32 : BitVec 32 := 65536#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_0 : BitVec 32 := 0#32
  let c1_i32 : BitVec 32 := 1#32
  let arg13 : BitVec 32 := Scf.iv c0_i32_0 c1_i32 k2_t1
  let c2_i32_2 : BitVec 32 := 2#32
  let v4 : BitVec 32 := Scalar.muli arg13 c2_i32_2
  let c256_i32 : BitVec 32 := 256#32
  let v5 : BitVec 32 := Scalar.muli v4 c256_i32
  let v6 : BitVec 32 := Scalar.addi v2 v5
  let v8 : BitVec 32 := Scalar.addi c65536_i32 v6
  ![v8.toNat]
def k2_off2 (i : grid2.Coords) (k2_t1 : Fin k2_t1_loop.trips) : Fin 1 → Nat :=
  let c65536_i32_6 : BitVec 32 := 65536#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_0 : BitVec 32 := 0#32
  let c1_i32 : BitVec 32 := 1#32
  let arg13 : BitVec 32 := Scf.iv c0_i32_0 c1_i32 k2_t1
  let c2_i32_2 : BitVec 32 := 2#32
  let v4 : BitVec 32 := Scalar.muli arg13 c2_i32_2
  let c256_i32 : BitVec 32 := 256#32
  let v5 : BitVec 32 := Scalar.muli v4 c256_i32
  let v6 : BitVec 32 := Scalar.addi v2 v5
  let c256_i32_3 : BitVec 32 := 256#32
  let v7 : BitVec 32 := Scalar.addi v6 c256_i32_3
  let v10 : BitVec 32 := Scalar.addi c65536_i32_6 v7
  ![v10.toNat]
def k2_off3 (i : grid2.Coords) (k2_t1 : Fin k2_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_0 : BitVec 32 := 0#32
  let c1_i32 : BitVec 32 := 1#32
  let arg13 : BitVec 32 := Scf.iv c0_i32_0 c1_i32 k2_t1
  let c2_i32_2 : BitVec 32 := 2#32
  let v4 : BitVec 32 := Scalar.muli arg13 c2_i32_2
  let c256_i32 : BitVec 32 := 256#32
  let v5 : BitVec 32 := Scalar.muli v4 c256_i32
  let v6 : BitVec 32 := Scalar.addi v2 v5
  let c0_i32_11 : BitVec 32 := 0#32
  ![v6.toNat, 0]
def k2_off4 (i : grid2.Coords) (k2_t1 : Fin k2_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_0 : BitVec 32 := 0#32
  let c1_i32 : BitVec 32 := 1#32
  let arg13 : BitVec 32 := Scf.iv c0_i32_0 c1_i32 k2_t1
  let c2_i32_2 : BitVec 32 := 2#32
  let v4 : BitVec 32 := Scalar.muli arg13 c2_i32_2
  let c256_i32 : BitVec 32 := 256#32
  let v5 : BitVec 32 := Scalar.muli v4 c256_i32
  let v6 : BitVec 32 := Scalar.addi v2 v5
  let c256_i32_3 : BitVec 32 := 256#32
  let v7 : BitVec 32 := Scalar.addi v6 c256_i32_3
  let c0_i32_15 : BitVec 32 := 0#32
  ![v7.toNat, 0]
abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S16384x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1024x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S32x16 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x16 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S16x16 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x16 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1024x64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x64 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S1024x64 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev grid4 : Pipeline.Grid := ⟨2, ![2, 16], ![false, false]⟩

@[reducible] def k4_t1_loop : Scf.Loop 32 :=
  let c0_i32_0 : BitVec 32 := 0#32
  let c4_i32 : BitVec 32 := 4#32
  let v3 : BitVec 32 := Scalar.addi c0_i32_0 c4_i32
  let c1_i32 : BitVec 32 := 1#32
  ⟨c0_i32_0, v3, c1_i32⟩
def k4_off1 (i : grid4.Coords) (k4_t1 : Fin k4_t1_loop.trips) : Fin 1 → Nat :=
  let c131072_i32 : BitVec 32 := 131072#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_0 : BitVec 32 := 0#32
  let c1_i32 : BitVec 32 := 1#32
  let arg13 : BitVec 32 := Scf.iv c0_i32_0 c1_i32 k4_t1
  let c2_i32_2 : BitVec 32 := 2#32
  let v4 : BitVec 32 := Scalar.muli arg13 c2_i32_2
  let c256_i32 : BitVec 32 := 256#32
  let v5 : BitVec 32 := Scalar.muli v4 c256_i32
  let v6 : BitVec 32 := Scalar.addi v2 v5
  let v8 : BitVec 32 := Scalar.addi c131072_i32 v6
  ![v8.toNat]
def k4_off2 (i : grid4.Coords) (k4_t1 : Fin k4_t1_loop.trips) : Fin 1 → Nat :=
  let c131072_i32_6 : BitVec 32 := 131072#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_0 : BitVec 32 := 0#32
  let c1_i32 : BitVec 32 := 1#32
  let arg13 : BitVec 32 := Scf.iv c0_i32_0 c1_i32 k4_t1
  let c2_i32_2 : BitVec 32 := 2#32
  let v4 : BitVec 32 := Scalar.muli arg13 c2_i32_2
  let c256_i32 : BitVec 32 := 256#32
  let v5 : BitVec 32 := Scalar.muli v4 c256_i32
  let v6 : BitVec 32 := Scalar.addi v2 v5
  let c256_i32_3 : BitVec 32 := 256#32
  let v7 : BitVec 32 := Scalar.addi v6 c256_i32_3
  let v10 : BitVec 32 := Scalar.addi c131072_i32_6 v7
  ![v10.toNat]
def k4_off3 (i : grid4.Coords) (k4_t1 : Fin k4_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_0 : BitVec 32 := 0#32
  let c1_i32 : BitVec 32 := 1#32
  let arg13 : BitVec 32 := Scf.iv c0_i32_0 c1_i32 k4_t1
  let c2_i32_2 : BitVec 32 := 2#32
  let v4 : BitVec 32 := Scalar.muli arg13 c2_i32_2
  let c256_i32 : BitVec 32 := 256#32
  let v5 : BitVec 32 := Scalar.muli v4 c256_i32
  let v6 : BitVec 32 := Scalar.addi v2 v5
  let c0_i32_11 : BitVec 32 := 0#32
  ![v6.toNat, 0]
def k4_off4 (i : grid4.Coords) (k4_t1 : Fin k4_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_0 : BitVec 32 := 0#32
  let c1_i32 : BitVec 32 := 1#32
  let arg13 : BitVec 32 := Scf.iv c0_i32_0 c1_i32 k4_t1
  let c2_i32_2 : BitVec 32 := 2#32
  let v4 : BitVec 32 := Scalar.muli arg13 c2_i32_2
  let c256_i32 : BitVec 32 := 256#32
  let v5 : BitVec 32 := Scalar.muli v4 c256_i32
  let v6 : BitVec 32 := Scalar.addi v2 v5
  let c256_i32_3 : BitVec 32 := 256#32
  let v7 : BitVec 32 := Scalar.addi v6 c256_i32_3
  let c0_i32_15 : BitVec 32 := 0#32
  ![v7.toNat, 0]
abbrev grid5 : Pipeline.Grid := ⟨1, ![4], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S16384x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1024x32 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x32 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S32x16 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x16 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S16x16 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x16 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1024x64 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S1x64 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 2 → Memref sig .tc .vmem S1024x64 .f32 := fun | 0 => Memref.whole cc5_stg9_0 | 1 => Memref.whole cc5_stg9_1 | ⟨_ + 2, h⟩ => absurd h (Nat.not_lt.2 (Nat.le_add_left _ _))
abbrev sem5_9 : Fin 2 → DmaSem sig := fun | 0 => cc5_sem9_0 | 1 => cc5_sem9_1 | ⟨_ + 2, h⟩ => absurd h (Nat.not_lt.2 (Nat.le_add_left _ _))
abbrev reads5_9 : Fin grid5.rank → Bool := ![true]

abbrev grid6 : Pipeline.Grid := ⟨2, ![2, 16], ![false, false]⟩

@[reducible] def k6_t1_loop : Scf.Loop 32 :=
  let c0_i32_0 : BitVec 32 := 0#32
  let c4_i32 : BitVec 32 := 4#32
  let v3 : BitVec 32 := Scalar.addi c0_i32_0 c4_i32
  let c1_i32 : BitVec 32 := 1#32
  ⟨c0_i32_0, v3, c1_i32⟩
def k6_off1 (i : grid6.Coords) (k6_t1 : Fin k6_t1_loop.trips) : Fin 1 → Nat :=
  let c196608_i32 : BitVec 32 := 196608#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_0 : BitVec 32 := 0#32
  let c1_i32 : BitVec 32 := 1#32
  let arg13 : BitVec 32 := Scf.iv c0_i32_0 c1_i32 k6_t1
  let c2_i32_2 : BitVec 32 := 2#32
  let v4 : BitVec 32 := Scalar.muli arg13 c2_i32_2
  let c256_i32 : BitVec 32 := 256#32
  let v5 : BitVec 32 := Scalar.muli v4 c256_i32
  let v6 : BitVec 32 := Scalar.addi v2 v5
  let v8 : BitVec 32 := Scalar.addi c196608_i32 v6
  ![v8.toNat]
def k6_off2 (i : grid6.Coords) (k6_t1 : Fin k6_t1_loop.trips) : Fin 1 → Nat :=
  let c196608_i32_6 : BitVec 32 := 196608#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_0 : BitVec 32 := 0#32
  let c1_i32 : BitVec 32 := 1#32
  let arg13 : BitVec 32 := Scf.iv c0_i32_0 c1_i32 k6_t1
  let c2_i32_2 : BitVec 32 := 2#32
  let v4 : BitVec 32 := Scalar.muli arg13 c2_i32_2
  let c256_i32 : BitVec 32 := 256#32
  let v5 : BitVec 32 := Scalar.muli v4 c256_i32
  let v6 : BitVec 32 := Scalar.addi v2 v5
  let c256_i32_3 : BitVec 32 := 256#32
  let v7 : BitVec 32 := Scalar.addi v6 c256_i32_3
  let v10 : BitVec 32 := Scalar.addi c196608_i32_6 v7
  ![v10.toNat]
def k6_off3 (i : grid6.Coords) (k6_t1 : Fin k6_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_0 : BitVec 32 := 0#32
  let c1_i32 : BitVec 32 := 1#32
  let arg13 : BitVec 32 := Scf.iv c0_i32_0 c1_i32 k6_t1
  let c2_i32_2 : BitVec 32 := 2#32
  let v4 : BitVec 32 := Scalar.muli arg13 c2_i32_2
  let c256_i32 : BitVec 32 := 256#32
  let v5 : BitVec 32 := Scalar.muli v4 c256_i32
  let v6 : BitVec 32 := Scalar.addi v2 v5
  let c0_i32_11 : BitVec 32 := 0#32
  ![v6.toNat, 0]
def k6_off4 (i : grid6.Coords) (k6_t1 : Fin k6_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_0 : BitVec 32 := 0#32
  let c1_i32 : BitVec 32 := 1#32
  let arg13 : BitVec 32 := Scf.iv c0_i32_0 c1_i32 k6_t1
  let c2_i32_2 : BitVec 32 := 2#32
  let v4 : BitVec 32 := Scalar.muli arg13 c2_i32_2
  let c256_i32 : BitVec 32 := 256#32
  let v5 : BitVec 32 := Scalar.muli v4 c256_i32
  let v6 : BitVec 32 := Scalar.addi v2 v5
  let c256_i32_3 : BitVec 32 := 256#32
  let v7 : BitVec 32 := Scalar.addi v6 c256_i32_3
  let c0_i32_15 : BitVec 32 := 0#32
  ![v7.toNat, 0]
abbrev grid7 : Pipeline.Grid := ⟨1, ![4], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![v0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_8 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_9 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S16384x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S1024x32 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S128x32 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S32x16 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x16 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S16x16 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x16 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 1 → Memref sig .tc .vmem S1024x64 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

abbrev stage7_8 : Fin 1 → Memref sig .tc .vmem S1x64 .f32 := fun | 0 => Memref.whole cc7_stg8_0 | ⟨_ + 1, h⟩ => absurd h (Nat.not_lt.2 (Nat.le_add_left _ _))
abbrev sem7_8 : Fin 1 → DmaSem sig := fun | 0 => cc7_sem8_0 | ⟨_ + 1, h⟩ => absurd h (Nat.not_lt.2 (Nat.le_add_left _ _))
abbrev reads7_8 : Fin grid7.rank → Bool := ![false]

abbrev stage7_9 : Fin 2 → Memref sig .tc .vmem S1024x64 .f32 := fun | 0 => Memref.whole cc7_stg9_0 | 1 => Memref.whole cc7_stg9_1 | ⟨_ + 2, h⟩ => absurd h (Nat.not_lt.2 (Nat.le_add_left _ _))
abbrev sem7_9 : Fin 2 → DmaSem sig := fun | 0 => cc7_sem9_0 | 1 => cc7_sem9_1 | ⟨_ + 2, h⟩ => absurd h (Nat.not_lt.2 (Nat.le_add_left _ _))
abbrev reads7_9 : Fin grid7.rank → Bool := ![true]

abbrev grid8 : Pipeline.Grid := ⟨2, ![2, 16], ![false, false]⟩

@[reducible] def k8_t1_loop : Scf.Loop 32 :=
  let c0_i32_0 : BitVec 32 := 0#32
  let c4_i32 : BitVec 32 := 4#32
  let v3 : BitVec 32 := Scalar.addi c0_i32_0 c4_i32
  let c1_i32 : BitVec 32 := 1#32
  ⟨c0_i32_0, v3, c1_i32⟩
def k8_off1 (i : grid8.Coords) (k8_t1 : Fin k8_t1_loop.trips) : Fin 1 → Nat :=
  let c262144_i32 : BitVec 32 := 262144#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_0 : BitVec 32 := 0#32
  let c1_i32 : BitVec 32 := 1#32
  let arg13 : BitVec 32 := Scf.iv c0_i32_0 c1_i32 k8_t1
  let c2_i32_2 : BitVec 32 := 2#32
  let v4 : BitVec 32 := Scalar.muli arg13 c2_i32_2
  let c256_i32 : BitVec 32 := 256#32
  let v5 : BitVec 32 := Scalar.muli v4 c256_i32
  let v6 : BitVec 32 := Scalar.addi v2 v5
  let v8 : BitVec 32 := Scalar.addi c262144_i32 v6
  ![v8.toNat]
def k8_off2 (i : grid8.Coords) (k8_t1 : Fin k8_t1_loop.trips) : Fin 1 → Nat :=
  let c262144_i32_6 : BitVec 32 := 262144#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_0 : BitVec 32 := 0#32
  let c1_i32 : BitVec 32 := 1#32
  let arg13 : BitVec 32 := Scf.iv c0_i32_0 c1_i32 k8_t1
  let c2_i32_2 : BitVec 32 := 2#32
  let v4 : BitVec 32 := Scalar.muli arg13 c2_i32_2
  let c256_i32 : BitVec 32 := 256#32
  let v5 : BitVec 32 := Scalar.muli v4 c256_i32
  let v6 : BitVec 32 := Scalar.addi v2 v5
  let c256_i32_3 : BitVec 32 := 256#32
  let v7 : BitVec 32 := Scalar.addi v6 c256_i32_3
  let v10 : BitVec 32 := Scalar.addi c262144_i32_6 v7
  ![v10.toNat]
def k8_off3 (i : grid8.Coords) (k8_t1 : Fin k8_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_0 : BitVec 32 := 0#32
  let c1_i32 : BitVec 32 := 1#32
  let arg13 : BitVec 32 := Scf.iv c0_i32_0 c1_i32 k8_t1
  let c2_i32_2 : BitVec 32 := 2#32
  let v4 : BitVec 32 := Scalar.muli arg13 c2_i32_2
  let c256_i32 : BitVec 32 := 256#32
  let v5 : BitVec 32 := Scalar.muli v4 c256_i32
  let v6 : BitVec 32 := Scalar.addi v2 v5
  let c0_i32_11 : BitVec 32 := 0#32
  ![v6.toNat, 0]
def k8_off4 (i : grid8.Coords) (k8_t1 : Fin k8_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_0 : BitVec 32 := 0#32
  let c1_i32 : BitVec 32 := 1#32
  let arg13 : BitVec 32 := Scf.iv c0_i32_0 c1_i32 k8_t1
  let c2_i32_2 : BitVec 32 := 2#32
  let v4 : BitVec 32 := Scalar.muli arg13 c2_i32_2
  let c256_i32 : BitVec 32 := 256#32
  let v5 : BitVec 32 := Scalar.muli v4 c256_i32
  let v6 : BitVec 32 := Scalar.addi v2 v5
  let c256_i32_3 : BitVec 32 := 256#32
  let v7 : BitVec 32 := Scalar.addi v6 c256_i32_3
  let c0_i32_15 : BitVec 32 := 0#32
  ![v7.toNat, 0]
abbrev grid9 : Pipeline.Grid := ⟨1, ![4], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_7 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_8 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_9 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S16384x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S1024x32 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S128x32 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S32x16 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x16 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S16x16 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 1 → Memref sig .tc .vmem S1x16 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

abbrev stage9_7 : Fin 1 → Memref sig .tc .vmem S1024x64 .f32 := fun | 0 => Memref.whole cc9_stg7_0 | ⟨_ + 1, h⟩ => absurd h (Nat.not_lt.2 (Nat.le_add_left _ _))
abbrev sem9_7 : Fin 1 → DmaSem sig := fun | 0 => cc9_sem7_0 | ⟨_ + 1, h⟩ => absurd h (Nat.not_lt.2 (Nat.le_add_left _ _))
abbrev reads9_7 : Fin grid9.rank → Bool := ![false]

abbrev stage9_8 : Fin 1 → Memref sig .tc .vmem S1x64 .f32 := fun | 0 => Memref.whole cc9_stg8_0 | ⟨_ + 1, h⟩ => absurd h (Nat.not_lt.2 (Nat.le_add_left _ _))
abbrev sem9_8 : Fin 1 → DmaSem sig := fun | 0 => cc9_sem8_0 | ⟨_ + 1, h⟩ => absurd h (Nat.not_lt.2 (Nat.le_add_left _ _))
abbrev reads9_8 : Fin grid9.rank → Bool := ![false]

abbrev stage9_9 : Fin 2 → Memref sig .tc .vmem S1024x64 .f32 := fun | 0 => Memref.whole cc9_stg9_0 | 1 => Memref.whole cc9_stg9_1 | ⟨_ + 2, h⟩ => absurd h (Nat.not_lt.2 (Nat.le_add_left _ _))
abbrev sem9_9 : Fin 2 → DmaSem sig := fun | 0 => cc9_sem9_0 | 1 => cc9_sem9_1 | ⟨_ + 2, h⟩ => absurd h (Nat.not_lt.2 (Nat.le_add_left _ _))
abbrev reads9_9 : Fin grid9.rank → Bool := ![true]

abbrev grid10 : Pipeline.Grid := ⟨2, ![2, 16], ![false, false]⟩

@[reducible] def k10_t1_loop : Scf.Loop 32 :=
  let c0_i32_0 : BitVec 32 := 0#32
  let c4_i32 : BitVec 32 := 4#32
  let v3 : BitVec 32 := Scalar.addi c0_i32_0 c4_i32
  let c1_i32 : BitVec 32 := 1#32
  ⟨c0_i32_0, v3, c1_i32⟩
def k10_off1 (i : grid10.Coords) (k10_t1 : Fin k10_t1_loop.trips) : Fin 1 → Nat :=
  let c327680_i32 : BitVec 32 := 327680#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_0 : BitVec 32 := 0#32
  let c1_i32 : BitVec 32 := 1#32
  let arg13 : BitVec 32 := Scf.iv c0_i32_0 c1_i32 k10_t1
  let c2_i32_2 : BitVec 32 := 2#32
  let v4 : BitVec 32 := Scalar.muli arg13 c2_i32_2
  let c256_i32 : BitVec 32 := 256#32
  let v5 : BitVec 32 := Scalar.muli v4 c256_i32
  let v6 : BitVec 32 := Scalar.addi v2 v5
  let v8 : BitVec 32 := Scalar.addi c327680_i32 v6
  ![v8.toNat]
def k10_off2 (i : grid10.Coords) (k10_t1 : Fin k10_t1_loop.trips) : Fin 1 → Nat :=
  let c327680_i32_6 : BitVec 32 := 327680#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_0 : BitVec 32 := 0#32
  let c1_i32 : BitVec 32 := 1#32
  let arg13 : BitVec 32 := Scf.iv c0_i32_0 c1_i32 k10_t1
  let c2_i32_2 : BitVec 32 := 2#32
  let v4 : BitVec 32 := Scalar.muli arg13 c2_i32_2
  let c256_i32 : BitVec 32 := 256#32
  let v5 : BitVec 32 := Scalar.muli v4 c256_i32
  let v6 : BitVec 32 := Scalar.addi v2 v5
  let c256_i32_3 : BitVec 32 := 256#32
  let v7 : BitVec 32 := Scalar.addi v6 c256_i32_3
  let v10 : BitVec 32 := Scalar.addi c327680_i32_6 v7
  ![v10.toNat]
def k10_off3 (i : grid10.Coords) (k10_t1 : Fin k10_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_0 : BitVec 32 := 0#32
  let c1_i32 : BitVec 32 := 1#32
  let arg13 : BitVec 32 := Scf.iv c0_i32_0 c1_i32 k10_t1
  let c2_i32_2 : BitVec 32 := 2#32
  let v4 : BitVec 32 := Scalar.muli arg13 c2_i32_2
  let c256_i32 : BitVec 32 := 256#32
  let v5 : BitVec 32 := Scalar.muli v4 c256_i32
  let v6 : BitVec 32 := Scalar.addi v2 v5
  let c0_i32_11 : BitVec 32 := 0#32
  ![v6.toNat, 0]
def k10_off4 (i : grid10.Coords) (k10_t1 : Fin k10_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_0 : BitVec 32 := 0#32
  let c1_i32 : BitVec 32 := 1#32
  let arg13 : BitVec 32 := Scf.iv c0_i32_0 c1_i32 k10_t1
  let c2_i32_2 : BitVec 32 := 2#32
  let v4 : BitVec 32 := Scalar.muli arg13 c2_i32_2
  let c256_i32 : BitVec 32 := 256#32
  let v5 : BitVec 32 := Scalar.muli v4 c256_i32
  let v6 : BitVec 32 := Scalar.addi v2 v5
  let c256_i32_3 : BitVec 32 := 256#32
  let v7 : BitVec 32 := Scalar.addi v6 c256_i32_3
  let c0_i32_15 : BitVec 32 := 0#32
  ![v7.toNat, 0]
abbrev grid11 : Pipeline.Grid := ⟨1, ![4], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c20_i32 : BitVec 32 := 20#32
  let v0 : BitVec 32 := Scalar.addi c20_i32 arg0
  let c0_i32 : BitVec 32 := 0#32
  let c0_i32_0 : BitVec 32 := 0#32
  ![v0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_6 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_7 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_8 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_9 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S16384x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S1024x32 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 1 → Memref sig .tc .vmem S128x32 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S32x16 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x16 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 1 → Memref sig .tc .vmem S16x16 .f32 := fun | 0 => Memref.whole cc11_stg5_0 | ⟨_ + 1, h⟩ => absurd h (Nat.not_lt.2 (Nat.le_add_left _ _))
abbrev sem11_5 : Fin 1 → DmaSem sig := fun | 0 => cc11_sem5_0 | ⟨_ + 1, h⟩ => absurd h (Nat.not_lt.2 (Nat.le_add_left _ _))
abbrev reads11_5 : Fin grid11.rank → Bool := ![false]

abbrev stage11_6 : Fin 1 → Memref sig .tc .vmem S1x16 .f32 := fun | 0 => Memref.whole cc11_stg6_0 | ⟨_ + 1, h⟩ => absurd h (Nat.not_lt.2 (Nat.le_add_left _ _))
abbrev sem11_6 : Fin 1 → DmaSem sig := fun | 0 => cc11_sem6_0 | ⟨_ + 1, h⟩ => absurd h (Nat.not_lt.2 (Nat.le_add_left _ _))
abbrev reads11_6 : Fin grid11.rank → Bool := ![false]

abbrev stage11_7 : Fin 1 → Memref sig .tc .vmem S1024x64 .f32 := fun | 0 => Memref.whole cc11_stg7_0 | ⟨_ + 1, h⟩ => absurd h (Nat.not_lt.2 (Nat.le_add_left _ _))
abbrev sem11_7 : Fin 1 → DmaSem sig := fun | 0 => cc11_sem7_0 | ⟨_ + 1, h⟩ => absurd h (Nat.not_lt.2 (Nat.le_add_left _ _))
abbrev reads11_7 : Fin grid11.rank → Bool := ![false]

abbrev stage11_8 : Fin 1 → Memref sig .tc .vmem S1x64 .f32 := fun | 0 => Memref.whole cc11_stg8_0 | ⟨_ + 1, h⟩ => absurd h (Nat.not_lt.2 (Nat.le_add_left _ _))
abbrev sem11_8 : Fin 1 → DmaSem sig := fun | 0 => cc11_sem8_0 | ⟨_ + 1, h⟩ => absurd h (Nat.not_lt.2 (Nat.le_add_left _ _))
abbrev reads11_8 : Fin grid11.rank → Bool := ![false]

abbrev stage11_9 : Fin 2 → Memref sig .tc .vmem S1024x64 .f32 := fun | 0 => Memref.whole cc11_stg9_0 | 1 => Memref.whole cc11_stg9_1 | ⟨_ + 2, h⟩ => absurd h (Nat.not_lt.2 (Nat.le_add_left _ _))
abbrev sem11_9 : Fin 2 → DmaSem sig := fun | 0 => cc11_sem9_0 | 1 => cc11_sem9_1 | ⟨_ + 2, h⟩ => absurd h (Nat.not_lt.2 (Nat.le_add_left _ _))
abbrev reads11_9 : Fin grid11.rank → Bool := ![true]

abbrev grid12 : Pipeline.Grid := ⟨2, ![2, 16], ![false, false]⟩

@[reducible] def k12_t1_loop : Scf.Loop 32 :=
  let c0_i32_0 : BitVec 32 := 0#32
  let c4_i32 : BitVec 32 := 4#32
  let v3 : BitVec 32 := Scalar.addi c0_i32_0 c4_i32
  let c1_i32 : BitVec 32 := 1#32
  ⟨c0_i32_0, v3, c1_i32⟩
def k12_off1 (i : grid12.Coords) (k12_t1 : Fin k12_t1_loop.trips) : Fin 1 → Nat :=
  let c393216_i32 : BitVec 32 := 393216#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_0 : BitVec 32 := 0#32
  let c1_i32 : BitVec 32 := 1#32
  let arg13 : BitVec 32 := Scf.iv c0_i32_0 c1_i32 k12_t1
  let c2_i32_2 : BitVec 32 := 2#32
  let v4 : BitVec 32 := Scalar.muli arg13 c2_i32_2
  let c256_i32 : BitVec 32 := 256#32
  let v5 : BitVec 32 := Scalar.muli v4 c256_i32
  let v6 : BitVec 32 := Scalar.addi v2 v5
  let v8 : BitVec 32 := Scalar.addi c393216_i32 v6
  ![v8.toNat]
def k12_off2 (i : grid12.Coords) (k12_t1 : Fin k12_t1_loop.trips) : Fin 1 → Nat :=
  let c393216_i32_6 : BitVec 32 := 393216#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_0 : BitVec 32 := 0#32
  let c1_i32 : BitVec 32 := 1#32
  let arg13 : BitVec 32 := Scf.iv c0_i32_0 c1_i32 k12_t1
  let c2_i32_2 : BitVec 32 := 2#32
  let v4 : BitVec 32 := Scalar.muli arg13 c2_i32_2
  let c256_i32 : BitVec 32 := 256#32
  let v5 : BitVec 32 := Scalar.muli v4 c256_i32
  let v6 : BitVec 32 := Scalar.addi v2 v5
  let c256_i32_3 : BitVec 32 := 256#32
  let v7 : BitVec 32 := Scalar.addi v6 c256_i32_3
  let v10 : BitVec 32 := Scalar.addi c393216_i32_6 v7
  ![v10.toNat]
def k12_off3 (i : grid12.Coords) (k12_t1 : Fin k12_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_0 : BitVec 32 := 0#32
  let c1_i32 : BitVec 32 := 1#32
  let arg13 : BitVec 32 := Scf.iv c0_i32_0 c1_i32 k12_t1
  let c2_i32_2 : BitVec 32 := 2#32
  let v4 : BitVec 32 := Scalar.muli arg13 c2_i32_2
  let c256_i32 : BitVec 32 := 256#32
  let v5 : BitVec 32 := Scalar.muli v4 c256_i32
  let v6 : BitVec 32 := Scalar.addi v2 v5
  let c0_i32_11 : BitVec 32 := 0#32
  ![v6.toNat, 0]
def k12_off4 (i : grid12.Coords) (k12_t1 : Fin k12_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_0 : BitVec 32 := 0#32
  let c1_i32 : BitVec 32 := 1#32
  let arg13 : BitVec 32 := Scf.iv c0_i32_0 c1_i32 k12_t1
  let c2_i32_2 : BitVec 32 := 2#32
  let v4 : BitVec 32 := Scalar.muli arg13 c2_i32_2
  let c256_i32 : BitVec 32 := 256#32
  let v5 : BitVec 32 := Scalar.muli v4 c256_i32
  let v6 : BitVec 32 := Scalar.addi v2 v5
  let c256_i32_3 : BitVec 32 := 256#32
  let v7 : BitVec 32 := Scalar.addi v6 c256_i32_3
  let c0_i32_15 : BitVec 32 := 0#32
  ![v7.toNat, 0]
abbrev grid13 : Pipeline.Grid := ⟨1, ![4], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![v0.toNat, c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_5 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_6 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_7 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_8 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_9 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S16384x128 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S1024x32 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 1 → Memref sig .tc .vmem S128x32 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S32x16 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 1 → Memref sig .tc .vmem S1x16 .f32 := fun | 0 => Memref.whole cc13_stg4_0 | ⟨_ + 1, h⟩ => absurd h (Nat.not_lt.2 (Nat.le_add_left _ _))
abbrev sem13_4 : Fin 1 → DmaSem sig := fun | 0 => cc13_sem4_0 | ⟨_ + 1, h⟩ => absurd h (Nat.not_lt.2 (Nat.le_add_left _ _))
abbrev reads13_4 : Fin grid13.rank → Bool := ![false]

abbrev stage13_5 : Fin 1 → Memref sig .tc .vmem S16x16 .f32 := fun | 0 => Memref.whole cc13_stg5_0 | ⟨_ + 1, h⟩ => absurd h (Nat.not_lt.2 (Nat.le_add_left _ _))
abbrev sem13_5 : Fin 1 → DmaSem sig := fun | 0 => cc13_sem5_0 | ⟨_ + 1, h⟩ => absurd h (Nat.not_lt.2 (Nat.le_add_left _ _))
abbrev reads13_5 : Fin grid13.rank → Bool := ![false]

abbrev stage13_6 : Fin 1 → Memref sig .tc .vmem S1x16 .f32 := fun | 0 => Memref.whole cc13_stg6_0 | ⟨_ + 1, h⟩ => absurd h (Nat.not_lt.2 (Nat.le_add_left _ _))
abbrev sem13_6 : Fin 1 → DmaSem sig := fun | 0 => cc13_sem6_0 | ⟨_ + 1, h⟩ => absurd h (Nat.not_lt.2 (Nat.le_add_left _ _))
abbrev reads13_6 : Fin grid13.rank → Bool := ![false]

abbrev stage13_7 : Fin 1 → Memref sig .tc .vmem S1024x64 .f32 := fun | 0 => Memref.whole cc13_stg7_0 | ⟨_ + 1, h⟩ => absurd h (Nat.not_lt.2 (Nat.le_add_left _ _))
abbrev sem13_7 : Fin 1 → DmaSem sig := fun | 0 => cc13_sem7_0 | ⟨_ + 1, h⟩ => absurd h (Nat.not_lt.2 (Nat.le_add_left _ _))
abbrev reads13_7 : Fin grid13.rank → Bool := ![false]

abbrev stage13_8 : Fin 1 → Memref sig .tc .vmem S1x64 .f32 := fun | 0 => Memref.whole cc13_stg8_0 | ⟨_ + 1, h⟩ => absurd h (Nat.not_lt.2 (Nat.le_add_left _ _))
abbrev sem13_8 : Fin 1 → DmaSem sig := fun | 0 => cc13_sem8_0 | ⟨_ + 1, h⟩ => absurd h (Nat.not_lt.2 (Nat.le_add_left _ _))
abbrev reads13_8 : Fin grid13.rank → Bool := ![false]

abbrev stage13_9 : Fin 2 → Memref sig .tc .vmem S1024x64 .f32 := fun | 0 => Memref.whole cc13_stg9_0 | 1 => Memref.whole cc13_stg9_1 | ⟨_ + 2, h⟩ => absurd h (Nat.not_lt.2 (Nat.le_add_left _ _))
abbrev sem13_9 : Fin 2 → DmaSem sig := fun | 0 => cc13_sem9_0 | 1 => cc13_sem9_1 | ⟨_ + 2, h⟩ => absurd h (Nat.not_lt.2 (Nat.le_add_left _ _))
abbrev reads13_9 : Fin grid13.rank → Bool := ![true]

abbrev grid14 : Pipeline.Grid := ⟨2, ![2, 16], ![false, false]⟩

@[reducible] def k14_t1_loop : Scf.Loop 32 :=
  let c0_i32_0 : BitVec 32 := 0#32
  let c4_i32 : BitVec 32 := 4#32
  let v3 : BitVec 32 := Scalar.addi c0_i32_0 c4_i32
  let c1_i32 : BitVec 32 := 1#32
  ⟨c0_i32_0, v3, c1_i32⟩
def k14_off1 (i : grid14.Coords) (k14_t1 : Fin k14_t1_loop.trips) : Fin 1 → Nat :=
  let c458752_i32 : BitVec 32 := 458752#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_0 : BitVec 32 := 0#32
  let c1_i32 : BitVec 32 := 1#32
  let arg13 : BitVec 32 := Scf.iv c0_i32_0 c1_i32 k14_t1
  let c2_i32_2 : BitVec 32 := 2#32
  let v4 : BitVec 32 := Scalar.muli arg13 c2_i32_2
  let c256_i32 : BitVec 32 := 256#32
  let v5 : BitVec 32 := Scalar.muli v4 c256_i32
  let v6 : BitVec 32 := Scalar.addi v2 v5
  let v8 : BitVec 32 := Scalar.addi c458752_i32 v6
  ![v8.toNat]
def k14_off2 (i : grid14.Coords) (k14_t1 : Fin k14_t1_loop.trips) : Fin 1 → Nat :=
  let c458752_i32_6 : BitVec 32 := 458752#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_0 : BitVec 32 := 0#32
  let c1_i32 : BitVec 32 := 1#32
  let arg13 : BitVec 32 := Scf.iv c0_i32_0 c1_i32 k14_t1
  let c2_i32_2 : BitVec 32 := 2#32
  let v4 : BitVec 32 := Scalar.muli arg13 c2_i32_2
  let c256_i32 : BitVec 32 := 256#32
  let v5 : BitVec 32 := Scalar.muli v4 c256_i32
  let v6 : BitVec 32 := Scalar.addi v2 v5
  let c256_i32_3 : BitVec 32 := 256#32
  let v7 : BitVec 32 := Scalar.addi v6 c256_i32_3
  let v10 : BitVec 32 := Scalar.addi c458752_i32_6 v7
  ![v10.toNat]
def k14_off3 (i : grid14.Coords) (k14_t1 : Fin k14_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_0 : BitVec 32 := 0#32
  let c1_i32 : BitVec 32 := 1#32
  let arg13 : BitVec 32 := Scf.iv c0_i32_0 c1_i32 k14_t1
  let c2_i32_2 : BitVec 32 := 2#32
  let v4 : BitVec 32 := Scalar.muli arg13 c2_i32_2
  let c256_i32 : BitVec 32 := 256#32
  let v5 : BitVec 32 := Scalar.muli v4 c256_i32
  let v6 : BitVec 32 := Scalar.addi v2 v5
  let c0_i32_11 : BitVec 32 := 0#32
  ![v6.toNat, 0]
def k14_off4 (i : grid14.Coords) (k14_t1 : Fin k14_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_0 : BitVec 32 := 0#32
  let c1_i32 : BitVec 32 := 1#32
  let arg13 : BitVec 32 := Scf.iv c0_i32_0 c1_i32 k14_t1
  let c2_i32_2 : BitVec 32 := 2#32
  let v4 : BitVec 32 := Scalar.muli arg13 c2_i32_2
  let c256_i32 : BitVec 32 := 256#32
  let v5 : BitVec 32 := Scalar.muli v4 c256_i32
  let v6 : BitVec 32 := Scalar.addi v2 v5
  let c256_i32_3 : BitVec 32 := 256#32
  let v7 : BitVec 32 := Scalar.addi v6 c256_i32_3
  let c0_i32_15 : BitVec 32 := 0#32
  ![v7.toNat, 0]
abbrev grid15 : Pipeline.Grid := ⟨1, ![4], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c28_i32 : BitVec 32 := 28#32
  let v0 : BitVec 32 := Scalar.addi c28_i32 arg0
  let c0_i32 : BitVec 32 := 0#32
  let c0_i32_0 : BitVec 32 := 0#32
  ![v0.toNat, c0_i32.toNat]

def cc15_transform_2 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_3 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_4 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_5 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_6 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_7 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_8 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_9 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S16384x128 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 2 → Memref sig .tc .vmem S1024x32 .f32 := fun | 0 => Memref.whole cc15_stg1_0 | 1 => Memref.whole cc15_stg1_1 | ⟨_ + 2, h⟩ => absurd h (Nat.not_lt.2 (Nat.le_add_left _ _))
abbrev sem15_1 : Fin 2 → DmaSem sig := fun | 0 => cc15_sem1_0 | 1 => cc15_sem1_1 | ⟨_ + 2, h⟩ => absurd h (Nat.not_lt.2 (Nat.le_add_left _ _))
abbrev reads15_1 : Fin grid15.rank → Bool := ![true]

abbrev stage15_2 : Fin 1 → Memref sig .tc .vmem S128x32 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

abbrev stage15_3 : Fin 1 → Memref sig .tc .vmem S32x16 .f32 := fun | 0 => Memref.whole cc15_stg3_0 | ⟨_ + 1, h⟩ => absurd h (Nat.not_lt.2 (Nat.le_add_left _ _))
abbrev sem15_3 : Fin 1 → DmaSem sig := fun | 0 => cc15_sem3_0 | ⟨_ + 1, h⟩ => absurd h (Nat.not_lt.2 (Nat.le_add_left _ _))
abbrev reads15_3 : Fin grid15.rank → Bool := ![false]

abbrev stage15_4 : Fin 1 → Memref sig .tc .vmem S1x16 .f32 := fun | 0 => Memref.whole cc15_stg4_0 | ⟨_ + 1, h⟩ => absurd h (Nat.not_lt.2 (Nat.le_add_left _ _))
abbrev sem15_4 : Fin 1 → DmaSem sig := fun | 0 => cc15_sem4_0 | ⟨_ + 1, h⟩ => absurd h (Nat.not_lt.2 (Nat.le_add_left _ _))
abbrev reads15_4 : Fin grid15.rank → Bool := ![false]

abbrev stage15_5 : Fin 1 → Memref sig .tc .vmem S16x16 .f32 := fun | 0 => Memref.whole cc15_stg5_0 | ⟨_ + 1, h⟩ => absurd h (Nat.not_lt.2 (Nat.le_add_left _ _))
abbrev sem15_5 : Fin 1 → DmaSem sig := fun | 0 => cc15_sem5_0 | ⟨_ + 1, h⟩ => absurd h (Nat.not_lt.2 (Nat.le_add_left _ _))
abbrev reads15_5 : Fin grid15.rank → Bool := ![false]

abbrev stage15_6 : Fin 1 → Memref sig .tc .vmem S1x16 .f32 := fun | 0 => Memref.whole cc15_stg6_0 | ⟨_ + 1, h⟩ => absurd h (Nat.not_lt.2 (Nat.le_add_left _ _))
abbrev sem15_6 : Fin 1 → DmaSem sig := fun | 0 => cc15_sem6_0 | ⟨_ + 1, h⟩ => absurd h (Nat.not_lt.2 (Nat.le_add_left _ _))
abbrev reads15_6 : Fin grid15.rank → Bool := ![false]

abbrev stage15_7 : Fin 1 → Memref sig .tc .vmem S1024x64 .f32 := fun | 0 => Memref.whole cc15_stg7_0 | ⟨_ + 1, h⟩ => absurd h (Nat.not_lt.2 (Nat.le_add_left _ _))
abbrev sem15_7 : Fin 1 → DmaSem sig := fun | 0 => cc15_sem7_0 | ⟨_ + 1, h⟩ => absurd h (Nat.not_lt.2 (Nat.le_add_left _ _))
abbrev reads15_7 : Fin grid15.rank → Bool := ![false]

abbrev stage15_8 : Fin 1 → Memref sig .tc .vmem S1x64 .f32 := fun | 0 => Memref.whole cc15_stg8_0 | ⟨_ + 1, h⟩ => absurd h (Nat.not_lt.2 (Nat.le_add_left _ _))
abbrev sem15_8 : Fin 1 → DmaSem sig := fun | 0 => cc15_sem8_0 | ⟨_ + 1, h⟩ => absurd h (Nat.not_lt.2 (Nat.le_add_left _ _))
abbrev reads15_8 : Fin grid15.rank → Bool := ![false]

abbrev stage15_9 : Fin 2 → Memref sig .tc .vmem S1024x64 .f32 := fun | 0 => Memref.whole cc15_stg9_0 | 1 => Memref.whole cc15_stg9_1 | ⟨_ + 2, h⟩ => absurd h (Nat.not_lt.2 (Nat.le_add_left _ _))
abbrev sem15_9 : Fin 2 → DmaSem sig := fun | 0 => cc15_sem9_0 | 1 => cc15_sem9_1 | ⟨_ + 2, h⟩ => absurd h (Nat.not_lt.2 (Nat.le_add_left _ _))
abbrev reads15_9 : Fin grid15.rank → Bool := ![true]

abbrev scKind : Fin 8 → Kind := fun | 0 => .scVector | 1 => .scVector | 2 => .scVector | 3 => .scVector | 4 => .scVector | 5 => .scVector | 6 => .scVector | 7 => .scVector | ⟨_ + 8, h⟩ => absurd h (Nat.not_lt.2 (Nat.le_add_left _ _))
abbrev scNCore : Fin 8 → Nat := fun | 0 => 2 | 1 => 2 | 2 => 2 | 3 => 2 | 4 => 2 | 5 => 2 | 6 => 2 | 7 => 2 | ⟨_ + 8, h⟩ => absurd h (Nat.not_lt.2 (Nat.le_add_left _ _))
abbrev scNSub : Fin 8 → Nat := fun | 0 => 16 | 1 => 16 | 2 => 16 | 3 => 16 | 4 => 16 | 5 => 16 | 6 => 16 | 7 => 16 | ⟨_ + 8, h⟩ => absurd h (Nat.not_lt.2 (Nat.le_add_left _ _))

class Facts₀ : Prop where
  bcast_S_S4 : S_.BroadcastsInDim S4 (![] : Fin 0 → Fin S4.rank)
  bcast_S4_S4x1x1_0 : S4.BroadcastsInDim S4x1x1 (![0] : Fin 1 → Fin S4x1x1.rank)
  bcast_S4x1x1_S4x8192x16_0_1_2 : S4x1x1.BroadcastsInDim S4x8192x16 (![0, 1, 2] : Fin 3 → Fin S4x8192x16.rank)
  shapeCasts_S4x8192x16_S524288 : S4x8192x16.ShapeCasts S524288
  shapeCasts_S4x8192x64_S32768x64 : S4x8192x64.ShapeCasts S32768x64
  shapeCasts_S4x8192x3_S32768x3 : S4x8192x3.ShapeCasts S32768x3
  concatenates_S32768x64_S32768x3_S32768x67_d1 : Shape.Concatenates [S32768x64, S32768x3] S32768x67 1
  pads_S32768x67_S32768x128_000_0610 : S32768x67.Pads (![0, 0] : Fin 2 → Nat) ![0, 61] ![0, 0] S32768x128
  h_S_ : 0 < S_.numel
  shapeCasts_S32x48_S32x3x16 : S32x48.ShapeCasts S32x3x16
  reducesTo_S32x3x16_S32x3_d2 : S32x3x16.ReducesTo [2] S32x3
  transposes_S32x3_S3x32_1_0 : S32x3.Transposes [1, 0] S3x32
  pads_S3x32_S128x32_64610_000 : S3x32.Pads (![64, 0] : Fin 2 → Nat) ![61, 0] ![0, 0] S128x32
  bcast_S3x16_S1x3x16_1_2 : S3x16.BroadcastsInDim S1x3x16 (![1, 2] : Fin 2 → Fin S1x3x16.rank)
  bcast_S1x3x16_S32x3x16_0_1_2 : S1x3x16.BroadcastsInDim S32x3x16 (![0, 1, 2] : Fin 3 → Fin S32x3x16.rank)
  reducesTo_S32x3x16_S32_d1_2 : S32x3x16.ReducesTo [1, 2] S32
  bcast_S32_S1x32_1 : S32.BroadcastsInDim S1x32 (![1] : Fin 1 → Fin S1x32.rank)
  bcast_S1x32_S32768x32_0_1 : S1x32.BroadcastsInDim S32768x32 (![0, 1] : Fin 2 → Fin S32768x32.rank)
  transposes_S16x32_S32x16_1_0 : S16x32.Transposes [1, 0] S32x16
  shapeCasts_S16_S1x16 : S16.ShapeCasts S1x16
  transposes_S16x16_S16x16_1_0 : S16x16.Transposes [1, 0] S16x16
  transposes_S64x16x64_S16x64x64_1_0_2 : S64x16x64.Transposes [1, 0, 2] S16x64x64
  bcast_S_S16x64x64 : S_.BroadcastsInDim S16x64x64 (![] : Fin 0 → Fin S16x64x64.rank)
  shapeCasts_S16x64x64_S1024x64 : S16x64x64.ShapeCasts S1024x64
  shapeCasts_S64_S1x64 : S64.ShapeCasts S1x64
  inb_S32768x128_S32768x128_0_0 : ∀ a, (![0, 0] : Fin 2 → Nat) a + S32768x128.size a ≤ S32768x128.size a
  gathers_S32768x128_S256x128 : S32768x128.Gathers 0 S256x128
  inb_S16384x128_S16384x128_0_0 : ∀ a, (![0, 0] : Fin 2 → Nat) a + S16384x128.size a ≤ S16384x128.size a
  h_S16384x128 : 0 < S16384x128.numel
  shapeCasts_S16384x128_S16384x128 : S16384x128.ShapeCasts S16384x128
  inb_S128x32_S128x32_0_0 : ∀ a, (![0, 0] : Fin 2 → Nat) a + S128x32.size a ≤ S128x32.size a
  h_S128x32 : 0 < S128x32.numel
  shapeCasts_S128x32_S128x32 : S128x32.ShapeCasts S128x32
  shapeCasts_S16384x32_S1024x16x32 : S16384x32.ShapeCasts S1024x16x32
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  shapeCasts_S1024x32_S1024x1x32 : S1024x32.ShapeCasts S1024x1x32
  broadcasts_S1024x1x32_S1024x16x32 : S1024x1x32.Broadcasts S1024x16x32
  shapeCasts_S1024x16x32_S16384x32 : S1024x16x32.ShapeCasts S16384x32
  inb_S32x16_S32x16_0_0 : ∀ a, (![0, 0] : Fin 2 → Nat) a + S32x16.size a ≤ S32x16.size a
  h_S32x16 : 0 < S32x16.numel
  shapeCasts_S32x16_S32x16 : S32x16.ShapeCasts S32x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S16384x16 : S1x16.Broadcasts S16384x16
  inb_S16x16_S16x16_0_0 : ∀ a, (![0, 0] : Fin 2 → Nat) a + S16x16.size a ≤ S16x16.size a
  h_S16x16 : 0 < S16x16.numel
  shapeCasts_S16x16_S16x16 : S16x16.ShapeCasts S16x16
  shapeCasts_S16384x16_S1024x16x16 : S16384x16.ShapeCasts S1024x16x16
  shapeCasts_S16384x128_S1024x16x128 : S16384x128.ShapeCasts S1024x16x128
  slices_S1024x16x128_o0_0_0_S1024x16x64 : S1024x16x128.Slices ![0, 0, 0] S1024x16x64
  shapeCasts_S1024x16x64_S1024x1024 : S1024x16x64.ShapeCasts S1024x1024
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  concatenates_S4096x64_S4096x64_S4096x64_S4096x64_S4096x64_S4096x64_S4096x64_S4096x64_S32768x64_d0 : Shape.Concatenates [S4096x64, S4096x64, S4096x64, S4096x64, S4096x64, S4096x64, S4096x64, S4096x64] S32768x64 0
  shapeCasts_S32768x64_S4x8192x64 : S32768x64.ShapeCasts S4x8192x64
  dot_S32768x3_S3x32_S32768x32_1_0_0_1_n_n_wf : DotDims.WF S32768x3 S3x32 S32768x32 [1] [0] [0] [1] [] []
  dot_S16384x128_S128x32_S16384x32_1_0_0_1_n_n_wf : DotDims.WF S16384x128 S128x32 S16384x32 [1] [0] [0] [1] [] []
  dot_S16384x32_S32x16_S16384x16_1_0_0_1_n_n_wf : DotDims.WF S16384x32 S32x16 S16384x16 [1] [0] [0] [1] [] []
  dot_S16384x16_S16x16_S16384x16_1_0_0_1_n_n_wf : DotDims.WF S16384x16 S16x16 S16384x16 [1] [0] [0] [1] [] []
  dot_S1024x16x16_S1024x16x64_S1024x16x64_1_1_2_2_0_0_wf : DotDims.WF S1024x16x16 S1024x16x64 S1024x16x64 [1] [1] [2] [2] [0] [0]
  dot_S1024x1024_S1024x64_S1024x64_1_0_0_1_n_n_wf : DotDims.WF S1024x1024 S1024x64 S1024x64 [1] [0] [0] [1] [] []
  hcc0_scratch4 : 0 + S_.numel ≤ 152
  hcc0_scratch5 : 1 + S_.numel ≤ 152
  hcc0_scratch6 : 2 + S_.numel ≤ 152
  hcc0_scratch7 : 3 + S_.numel ≤ 152
  hcc0_scoped0 : 4 + S_.numel ≤ 152
  hcc0_scoped1 : 5 + S_.numel ≤ 152
  hcc2_scratch4 : 19 + S_.numel ≤ 152
  hcc2_scratch5 : 20 + S_.numel ≤ 152
  hcc2_scratch6 : 21 + S_.numel ≤ 152
  hcc2_scratch7 : 22 + S_.numel ≤ 152
  hcc2_scoped0 : 23 + S_.numel ≤ 152
  hcc2_scoped1 : 24 + S_.numel ≤ 152
  hcc4_scratch4 : 38 + S_.numel ≤ 152
  hcc4_scratch5 : 39 + S_.numel ≤ 152
  hcc4_scratch6 : 40 + S_.numel ≤ 152
  hcc4_scratch7 : 41 + S_.numel ≤ 152
  hcc4_scoped0 : 42 + S_.numel ≤ 152
  hcc4_scoped1 : 43 + S_.numel ≤ 152
  hcc6_scratch4 : 57 + S_.numel ≤ 152
  hcc6_scratch5 : 58 + S_.numel ≤ 152
  hcc6_scratch6 : 59 + S_.numel ≤ 152
  hcc6_scratch7 : 60 + S_.numel ≤ 152
  hcc6_scoped0 : 61 + S_.numel ≤ 152
  hcc6_scoped1 : 62 + S_.numel ≤ 152
  hcc8_scratch4 : 76 + S_.numel ≤ 152
  hcc8_scratch5 : 77 + S_.numel ≤ 152
  hcc8_scratch6 : 78 + S_.numel ≤ 152
  hcc8_scratch7 : 79 + S_.numel ≤ 152
  hcc8_scoped0 : 80 + S_.numel ≤ 152
  hcc8_scoped1 : 81 + S_.numel ≤ 152
  hcc10_scratch4 : 95 + S_.numel ≤ 152
  hcc10_scratch5 : 96 + S_.numel ≤ 152
  hcc10_scratch6 : 97 + S_.numel ≤ 152
  hcc10_scratch7 : 98 + S_.numel ≤ 152
  hcc10_scoped0 : 99 + S_.numel ≤ 152
  hcc10_scoped1 : 100 + S_.numel ≤ 152
  hcc12_scratch4 : 114 + S_.numel ≤ 152
  hcc12_scratch5 : 115 + S_.numel ≤ 152
  hcc12_scratch6 : 116 + S_.numel ≤ 152
  hcc12_scratch7 : 117 + S_.numel ≤ 152
  hcc12_scoped0 : 118 + S_.numel ≤ 152
  hcc12_scoped1 : 119 + S_.numel ≤ 152
  hcc14_scratch4 : 133 + S_.numel ≤ 152
  hcc14_scratch5 : 134 + S_.numel ≤ 152
  hcc14_scratch6 : 135 + S_.numel ≤ 152
  hcc14_scratch7 : 136 + S_.numel ≤ 152
  hcc14_scoped0 : 137 + S_.numel ≤ 152
  hcc14_scoped1 : 138 + S_.numel ≤ 152
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_t1_ok : k0_t1_loop.OK
  k0_off1_inb : ∀ (i : grid0.Coords) (k0_t1 : Fin k0_t1_loop.trips), ∀ a, (k0_off1 i k0_t1) a + S256.size a ≤ S524288.size a
  k0_off2_inb : ∀ (i : grid0.Coords) (k0_t1 : Fin k0_t1_loop.trips), ∀ a, (k0_off2 i k0_t1) a + S256.size a ≤ S524288.size a
  k0_off3_inb : ∀ (i : grid0.Coords) (k0_t1 : Fin k0_t1_loop.trips), ∀ a, (k0_off3 i k0_t1) a + S256x128.size a ≤ S65536x128.size a
  k0_off4_inb : ∀ (i : grid0.Coords) (k0_t1 : Fin k0_t1_loop.trips), ∀ a, (k0_off4 i k0_t1) a + S256x128.size a ≤ S65536x128.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16384x128.size a ≤ S65536x128.size a
  hwx1_0 : ∀ i : grid1.Coords, EltTy.bits .f32 = 32 ∨ (Rect.block (s := S65536x128) S16384x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x32.size a ≤ S32768x32.size a
  hwx1_1 : ∀ i : grid1.Coords, EltTy.bits .f32 = 32 ∨ (Rect.block (s := S32768x32) S1024x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x32.size a ≤ S128x32.size a
  hwx1_2 : ∀ i : grid1.Coords, EltTy.bits .f32 = 32 ∨ (Rect.block (s := S128x32) S128x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x16.size a ≤ S32x16.size a
  hwx1_3 : ∀ i : grid1.Coords, EltTy.bits .f32 = 32 ∨ (Rect.block (s := S32x16) S32x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x16.size a ≤ S1x16.size a
  hwx1_4 : ∀ i : grid1.Coords, EltTy.bits .f32 = 32 ∨ (Rect.block (s := S1x16) S1x16.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S16x16.size a ≤ S16x16.size a
  hwx1_5 : ∀ i : grid1.Coords, EltTy.bits .f32 = 32 ∨ (Rect.block (s := S16x16) S16x16.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x16.size a ≤ S1x16.size a
  hwx1_6 : ∀ i : grid1.Coords, EltTy.bits .f32 = 32 ∨ (Rect.block (s := S1x16) S1x16.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1024x64.size a ≤ S1024x64.size a
  hwx1_7 : ∀ i : grid1.Coords, EltTy.bits .f32 = 32 ∨ (Rect.block (s := S1024x64) S1024x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x64.size a ≤ S1x64.size a
  hwx1_8 : ∀ i : grid1.Coords, EltTy.bits .f32 = 32 ∨ (Rect.block (s := S1x64) S1x64.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1024x64.size a ≤ S4096x64.size a
  hwx1_9 : ∀ i : grid1.Coords, EltTy.bits .f32 = 32 ∨ (Rect.block (s := S4096x64) S1024x64.size (cc1_transform_9 i) (hinb1_9 i)).WholeWords (EltTy.packing .f32)
  hcore2 : grid2.bound 0 ≤ τ.nSC
  hsub2 : grid2.bound 1 ≤ τ.nSub
  k2_t1_ok : k2_t1_loop.OK
  k2_off1_inb : ∀ (i : grid2.Coords) (k2_t1 : Fin k2_t1_loop.trips), ∀ a, (k2_off1 i k2_t1) a + S256.size a ≤ S524288.size a
  k2_off2_inb : ∀ (i : grid2.Coords) (k2_t1 : Fin k2_t1_loop.trips), ∀ a, (k2_off2 i k2_t1) a + S256.size a ≤ S524288.size a
  k2_off3_inb : ∀ (i : grid2.Coords) (k2_t1 : Fin k2_t1_loop.trips), ∀ a, (k2_off3 i k2_t1) a + S256x128.size a ≤ S65536x128.size a
  k2_off4_inb : ∀ (i : grid2.Coords) (k2_t1 : Fin k2_t1_loop.trips), ∀ a, (k2_off4 i k2_t1) a + S256x128.size a ≤ S65536x128.size a
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S16384x128.size a ≤ S65536x128.size a
  hwx3_0 : ∀ i : grid3.Coords, EltTy.bits .f32 = 32 ∨ (Rect.block (s := S65536x128) S16384x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x32.size a ≤ S32768x32.size a
  hwx3_1 : ∀ i : grid3.Coords, EltTy.bits .f32 = 32 ∨ (Rect.block (s := S32768x32) S1024x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x32.size a ≤ S128x32.size a
  hwx3_2 : ∀ i : grid3.Coords, EltTy.bits .f32 = 32 ∨ (Rect.block (s := S128x32) S128x32.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S32x16.size a ≤ S32x16.size a
  hwx3_3 : ∀ i : grid3.Coords, EltTy.bits .f32 = 32 ∨ (Rect.block (s := S32x16) S32x16.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x16.size a ≤ S1x16.size a
  hwx3_4 : ∀ i : grid3.Coords, EltTy.bits .f32 = 32 ∨ (Rect.block (s := S1x16) S1x16.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S16x16.size a ≤ S16x16.size a
  hwx3_5 : ∀ i : grid3.Coords, EltTy.bits .f32 = 32 ∨ (Rect.block (s := S16x16) S16x16.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x16.size a ≤ S1x16.size a
  hwx3_6 : ∀ i : grid3.Coords, EltTy.bits .f32 = 32 ∨ (Rect.block (s := S1x16) S1x16.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1024x64.size a ≤ S1024x64.size a
  hwx3_7 : ∀ i : grid3.Coords, EltTy.bits .f32 = 32 ∨ (Rect.block (s := S1024x64) S1024x64.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x64.size a ≤ S1x64.size a
  hwx3_8 : ∀ i : grid3.Coords, EltTy.bits .f32 = 32 ∨ (Rect.block (s := S1x64) S1x64.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S1024x64.size a ≤ S4096x64.size a
  hwx3_9 : ∀ i : grid3.Coords, EltTy.bits .f32 = 32 ∨ (Rect.block (s := S4096x64) S1024x64.size (cc3_transform_9 i) (hinb3_9 i)).WholeWords (EltTy.packing .f32)
  hcore4 : grid4.bound 0 ≤ τ.nSC
  hsub4 : grid4.bound 1 ≤ τ.nSub
  k4_t1_ok : k4_t1_loop.OK
  k4_off1_inb : ∀ (i : grid4.Coords) (k4_t1 : Fin k4_t1_loop.trips), ∀ a, (k4_off1 i k4_t1) a + S256.size a ≤ S524288.size a
  k4_off2_inb : ∀ (i : grid4.Coords) (k4_t1 : Fin k4_t1_loop.trips), ∀ a, (k4_off2 i k4_t1) a + S256.size a ≤ S524288.size a
  k4_off3_inb : ∀ (i : grid4.Coords) (k4_t1 : Fin k4_t1_loop.trips), ∀ a, (k4_off3 i k4_t1) a + S256x128.size a ≤ S65536x128.size a
  k4_off4_inb : ∀ (i : grid4.Coords) (k4_t1 : Fin k4_t1_loop.trips), ∀ a, (k4_off4 i k4_t1) a + S256x128.size a ≤ S65536x128.size a
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S16384x128.size a ≤ S65536x128.size a
  hwx5_0 : ∀ i : grid5.Coords, EltTy.bits .f32 = 32 ∨ (Rect.block (s := S65536x128) S16384x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1024x32.size a ≤ S32768x32.size a
  hwx5_1 : ∀ i : grid5.Coords, EltTy.bits .f32 = 32 ∨ (Rect.block (s := S32768x32) S1024x32.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x32.size a ≤ S128x32.size a
  hwx5_2 : ∀ i : grid5.Coords, EltTy.bits .f32 = 32 ∨ (Rect.block (s := S128x32) S128x32.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S32x16.size a ≤ S32x16.size a
  hwx5_3 : ∀ i : grid5.Coords, EltTy.bits .f32 = 32 ∨ (Rect.block (s := S32x16) S32x16.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x16.size a ≤ S1x16.size a
  hwx5_4 : ∀ i : grid5.Coords, EltTy.bits .f32 = 32 ∨ (Rect.block (s := S1x16) S1x16.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S16x16.size a ≤ S16x16.size a
  hwx5_5 : ∀ i : grid5.Coords, EltTy.bits .f32 = 32 ∨ (Rect.block (s := S16x16) S16x16.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x16.size a ≤ S1x16.size a
  hwx5_6 : ∀ i : grid5.Coords, EltTy.bits .f32 = 32 ∨ (Rect.block (s := S1x16) S1x16.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1024x64.size a ≤ S1024x64.size a
  hwx5_7 : ∀ i : grid5.Coords, EltTy.bits .f32 = 32 ∨ (Rect.block (s := S1024x64) S1024x64.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S1x64.size a ≤ S1x64.size a
  hwx5_8 : ∀ i : grid5.Coords, EltTy.bits .f32 = 32 ∨ (Rect.block (s := S1x64) S1x64.size (cc5_transform_8 i) (hinb5_8 i)).WholeWords (EltTy.packing .f32)
  hstage5_9 : ∀ j, (stage5_9 j).IsWhole
  nbuf5_9 : grid5.bufCount reads5_9 false = 2
  hreads5_9 : ∀ i i' : grid5.Coords, (∀ a, reads5_9 a = true → i a = i' a) → cc5_transform_9 i = cc5_transform_9 i'
  hinb5_9 : ∀ (i : grid5.Coords) a, (cc5_transform_9 i a + 1) * S1024x64.size a ≤ S4096x64.size a
  hwx5_9 : ∀ i : grid5.Coords, EltTy.bits .f32 = 32 ∨ (Rect.block (s := S4096x64) S1024x64.size (cc5_transform_9 i) (hinb5_9 i)).WholeWords (EltTy.packing .f32)
  hcore6 : grid6.bound 0 ≤ τ.nSC
  hsub6 : grid6.bound 1 ≤ τ.nSub
  k6_t1_ok : k6_t1_loop.OK
  k6_off1_inb : ∀ (i : grid6.Coords) (k6_t1 : Fin k6_t1_loop.trips), ∀ a, (k6_off1 i k6_t1) a + S256.size a ≤ S524288.size a
  k6_off2_inb : ∀ (i : grid6.Coords) (k6_t1 : Fin k6_t1_loop.trips), ∀ a, (k6_off2 i k6_t1) a + S256.size a ≤ S524288.size a
  k6_off3_inb : ∀ (i : grid6.Coords) (k6_t1 : Fin k6_t1_loop.trips), ∀ a, (k6_off3 i k6_t1) a + S256x128.size a ≤ S65536x128.size a
  k6_off4_inb : ∀ (i : grid6.Coords) (k6_t1 : Fin k6_t1_loop.trips), ∀ a, (k6_off4 i k6_t1) a + S256x128.size a ≤ S65536x128.size a
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S16384x128.size a ≤ S65536x128.size a
  hwx7_0 : ∀ i : grid7.Coords, EltTy.bits .f32 = 32 ∨ (Rect.block (s := S65536x128) S16384x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S1024x32.size a ≤ S32768x32.size a
  hwx7_1 : ∀ i : grid7.Coords, EltTy.bits .f32 = 32 ∨ (Rect.block (s := S32768x32) S1024x32.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S128x32.size a ≤ S128x32.size a
  hwx7_2 : ∀ i : grid7.Coords, EltTy.bits .f32 = 32 ∨ (Rect.block (s := S128x32) S128x32.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S32x16.size a ≤ S32x16.size a
  hwx7_3 : ∀ i : grid7.Coords, EltTy.bits .f32 = 32 ∨ (Rect.block (s := S32x16) S32x16.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x16.size a ≤ S1x16.size a
  hwx7_4 : ∀ i : grid7.Coords, EltTy.bits .f32 = 32 ∨ (Rect.block (s := S1x16) S1x16.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S16x16.size a ≤ S16x16.size a
  hwx7_5 : ∀ i : grid7.Coords, EltTy.bits .f32 = 32 ∨ (Rect.block (s := S16x16) S16x16.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x16.size a ≤ S1x16.size a
  hwx7_6 : ∀ i : grid7.Coords, EltTy.bits .f32 = 32 ∨ (Rect.block (s := S1x16) S1x16.size (cc7_transform_6 i) (hinb7_6 i)).WholeWords (EltTy.packing .f32)
  hstage7_7 : ∀ j, (stage7_7 j).IsWhole
  nbuf7_7 : grid7.bufCount reads7_7 true = 1
  hreads7_7 : ∀ i i' : grid7.Coords, (∀ a, reads7_7 a = true → i a = i' a) → cc7_transform_7 i = cc7_transform_7 i'
  hinb7_7 : ∀ (i : grid7.Coords) a, (cc7_transform_7 i a + 1) * S1024x64.size a ≤ S1024x64.size a
  hwx7_7 : ∀ i : grid7.Coords, EltTy.bits .f32 = 32 ∨ (Rect.block (s := S1024x64) S1024x64.size (cc7_transform_7 i) (hinb7_7 i)).WholeWords (EltTy.packing .f32)
  hstage7_8 : ∀ j, (stage7_8 j).IsWhole
  nbuf7_8 : grid7.bufCount reads7_8 true = 1
  hreads7_8 : ∀ i i' : grid7.Coords, (∀ a, reads7_8 a = true → i a = i' a) → cc7_transform_8 i = cc7_transform_8 i'
  hinb7_8 : ∀ (i : grid7.Coords) a, (cc7_transform_8 i a + 1) * S1x64.size a ≤ S1x64.size a
  hwx7_8 : ∀ i : grid7.Coords, EltTy.bits .f32 = 32 ∨ (Rect.block (s := S1x64) S1x64.size (cc7_transform_8 i) (hinb7_8 i)).WholeWords (EltTy.packing .f32)
  hstage7_9 : ∀ j, (stage7_9 j).IsWhole
  nbuf7_9 : grid7.bufCount reads7_9 false = 2
  hreads7_9 : ∀ i i' : grid7.Coords, (∀ a, reads7_9 a = true → i a = i' a) → cc7_transform_9 i = cc7_transform_9 i'
  hinb7_9 : ∀ (i : grid7.Coords) a, (cc7_transform_9 i a + 1) * S1024x64.size a ≤ S4096x64.size a
  hwx7_9 : ∀ i : grid7.Coords, EltTy.bits .f32 = 32 ∨ (Rect.block (s := S4096x64) S1024x64.size (cc7_transform_9 i) (hinb7_9 i)).WholeWords (EltTy.packing .f32)
  hcore8 : grid8.bound 0 ≤ τ.nSC
  hsub8 : grid8.bound 1 ≤ τ.nSub
  k8_t1_ok : k8_t1_loop.OK
  k8_off1_inb : ∀ (i : grid8.Coords) (k8_t1 : Fin k8_t1_loop.trips), ∀ a, (k8_off1 i k8_t1) a + S256.size a ≤ S524288.size a
  k8_off2_inb : ∀ (i : grid8.Coords) (k8_t1 : Fin k8_t1_loop.trips), ∀ a, (k8_off2 i k8_t1) a + S256.size a ≤ S524288.size a
  k8_off3_inb : ∀ (i : grid8.Coords) (k8_t1 : Fin k8_t1_loop.trips), ∀ a, (k8_off3 i k8_t1) a + S256x128.size a ≤ S65536x128.size a
  k8_off4_inb : ∀ (i : grid8.Coords) (k8_t1 : Fin k8_t1_loop.trips), ∀ a, (k8_off4 i k8_t1) a + S256x128.size a ≤ S65536x128.size a
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S16384x128.size a ≤ S65536x128.size a
  hwx9_0 : ∀ i : grid9.Coords, EltTy.bits .f32 = 32 ∨ (Rect.block (s := S65536x128) S16384x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S1024x32.size a ≤ S32768x32.size a
  hwx9_1 : ∀ i : grid9.Coords, EltTy.bits .f32 = 32 ∨ (Rect.block (s := S32768x32) S1024x32.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S128x32.size a ≤ S128x32.size a
  hwx9_2 : ∀ i : grid9.Coords, EltTy.bits .f32 = 32 ∨ (Rect.block (s := S128x32) S128x32.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S32x16.size a ≤ S32x16.size a
  hwx9_3 : ∀ i : grid9.Coords, EltTy.bits .f32 = 32 ∨ (Rect.block (s := S32x16) S32x16.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x16.size a ≤ S1x16.size a
  hwx9_4 : ∀ i : grid9.Coords, EltTy.bits .f32 = 32 ∨ (Rect.block (s := S1x16) S1x16.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S16x16.size a ≤ S16x16.size a
  hwx9_5 : ∀ i : grid9.Coords, EltTy.bits .f32 = 32 ∨ (Rect.block (s := S16x16) S16x16.size (cc9_transform_5 i) (hinb9_5 i)).WholeWords (EltTy.packing .f32)
  hstage9_6 : ∀ j, (stage9_6 j).IsWhole
  nbuf9_6 : grid9.bufCount reads9_6 true = 1
  hreads9_6 : ∀ i i' : grid9.Coords, (∀ a, reads9_6 a = true → i a = i' a) → cc9_transform_6 i = cc9_transform_6 i'
  hinb9_6 : ∀ (i : grid9.Coords) a, (cc9_transform_6 i a + 1) * S1x16.size a ≤ S1x16.size a
  hwx9_6 : ∀ i : grid9.Coords, EltTy.bits .f32 = 32 ∨ (Rect.block (s := S1x16) S1x16.size (cc9_transform_6 i) (hinb9_6 i)).WholeWords (EltTy.packing .f32)
  hstage9_7 : ∀ j, (stage9_7 j).IsWhole
  nbuf9_7 : grid9.bufCount reads9_7 true = 1
  hreads9_7 : ∀ i i' : grid9.Coords, (∀ a, reads9_7 a = true → i a = i' a) → cc9_transform_7 i = cc9_transform_7 i'
  hinb9_7 : ∀ (i : grid9.Coords) a, (cc9_transform_7 i a + 1) * S1024x64.size a ≤ S1024x64.size a
  hwx9_7 : ∀ i : grid9.Coords, EltTy.bits .f32 = 32 ∨ (Rect.block (s := S1024x64) S1024x64.size (cc9_transform_7 i) (hinb9_7 i)).WholeWords (EltTy.packing .f32)
  hstage9_8 : ∀ j, (stage9_8 j).IsWhole
  nbuf9_8 : grid9.bufCount reads9_8 true = 1
  hreads9_8 : ∀ i i' : grid9.Coords, (∀ a, reads9_8 a = true → i a = i' a) → cc9_transform_8 i = cc9_transform_8 i'
  hinb9_8 : ∀ (i : grid9.Coords) a, (cc9_transform_8 i a + 1) * S1x64.size a ≤ S1x64.size a
  hwx9_8 : ∀ i : grid9.Coords, EltTy.bits .f32 = 32 ∨ (Rect.block (s := S1x64) S1x64.size (cc9_transform_8 i) (hinb9_8 i)).WholeWords (EltTy.packing .f32)
  hstage9_9 : ∀ j, (stage9_9 j).IsWhole
  nbuf9_9 : grid9.bufCount reads9_9 false = 2
  hreads9_9 : ∀ i i' : grid9.Coords, (∀ a, reads9_9 a = true → i a = i' a) → cc9_transform_9 i = cc9_transform_9 i'
  hinb9_9 : ∀ (i : grid9.Coords) a, (cc9_transform_9 i a + 1) * S1024x64.size a ≤ S4096x64.size a
  hwx9_9 : ∀ i : grid9.Coords, EltTy.bits .f32 = 32 ∨ (Rect.block (s := S4096x64) S1024x64.size (cc9_transform_9 i) (hinb9_9 i)).WholeWords (EltTy.packing .f32)
  hcore10 : grid10.bound 0 ≤ τ.nSC
  hsub10 : grid10.bound 1 ≤ τ.nSub
  k10_t1_ok : k10_t1_loop.OK
  k10_off1_inb : ∀ (i : grid10.Coords) (k10_t1 : Fin k10_t1_loop.trips), ∀ a, (k10_off1 i k10_t1) a + S256.size a ≤ S524288.size a
  k10_off2_inb : ∀ (i : grid10.Coords) (k10_t1 : Fin k10_t1_loop.trips), ∀ a, (k10_off2 i k10_t1) a + S256.size a ≤ S524288.size a
  k10_off3_inb : ∀ (i : grid10.Coords) (k10_t1 : Fin k10_t1_loop.trips), ∀ a, (k10_off3 i k10_t1) a + S256x128.size a ≤ S65536x128.size a
  k10_off4_inb : ∀ (i : grid10.Coords) (k10_t1 : Fin k10_t1_loop.trips), ∀ a, (k10_off4 i k10_t1) a + S256x128.size a ≤ S65536x128.size a
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S16384x128.size a ≤ S65536x128.size a
  hwx11_0 : ∀ i : grid11.Coords, EltTy.bits .f32 = 32 ∨ (Rect.block (s := S65536x128) S16384x128.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S1024x32.size a ≤ S32768x32.size a
  hwx11_1 : ∀ i : grid11.Coords, EltTy.bits .f32 = 32 ∨ (Rect.block (s := S32768x32) S1024x32.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S128x32.size a ≤ S128x32.size a
  hwx11_2 : ∀ i : grid11.Coords, EltTy.bits .f32 = 32 ∨ (Rect.block (s := S128x32) S128x32.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S32x16.size a ≤ S32x16.size a
  hwx11_3 : ∀ i : grid11.Coords, EltTy.bits .f32 = 32 ∨ (Rect.block (s := S32x16) S32x16.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x16.size a ≤ S1x16.size a
  hwx11_4 : ∀ i : grid11.Coords, EltTy.bits .f32 = 32 ∨ (Rect.block (s := S1x16) S1x16.size (cc11_transform_4 i) (hinb11_4 i)).WholeWords (EltTy.packing .f32)
  hstage11_5 : ∀ j, (stage11_5 j).IsWhole
  nbuf11_5 : grid11.bufCount reads11_5 true = 1
  hreads11_5 : ∀ i i' : grid11.Coords, (∀ a, reads11_5 a = true → i a = i' a) → cc11_transform_5 i = cc11_transform_5 i'
  hinb11_5 : ∀ (i : grid11.Coords) a, (cc11_transform_5 i a + 1) * S16x16.size a ≤ S16x16.size a
  hwx11_5 : ∀ i : grid11.Coords, EltTy.bits .f32 = 32 ∨ (Rect.block (s := S16x16) S16x16.size (cc11_transform_5 i) (hinb11_5 i)).WholeWords (EltTy.packing .f32)
  hstage11_6 : ∀ j, (stage11_6 j).IsWhole
  nbuf11_6 : grid11.bufCount reads11_6 true = 1
  hreads11_6 : ∀ i i' : grid11.Coords, (∀ a, reads11_6 a = true → i a = i' a) → cc11_transform_6 i = cc11_transform_6 i'
  hinb11_6 : ∀ (i : grid11.Coords) a, (cc11_transform_6 i a + 1) * S1x16.size a ≤ S1x16.size a
  hwx11_6 : ∀ i : grid11.Coords, EltTy.bits .f32 = 32 ∨ (Rect.block (s := S1x16) S1x16.size (cc11_transform_6 i) (hinb11_6 i)).WholeWords (EltTy.packing .f32)
  hstage11_7 : ∀ j, (stage11_7 j).IsWhole
  nbuf11_7 : grid11.bufCount reads11_7 true = 1
  hreads11_7 : ∀ i i' : grid11.Coords, (∀ a, reads11_7 a = true → i a = i' a) → cc11_transform_7 i = cc11_transform_7 i'
  hinb11_7 : ∀ (i : grid11.Coords) a, (cc11_transform_7 i a + 1) * S1024x64.size a ≤ S1024x64.size a
  hwx11_7 : ∀ i : grid11.Coords, EltTy.bits .f32 = 32 ∨ (Rect.block (s := S1024x64) S1024x64.size (cc11_transform_7 i) (hinb11_7 i)).WholeWords (EltTy.packing .f32)
  hstage11_8 : ∀ j, (stage11_8 j).IsWhole
  nbuf11_8 : grid11.bufCount reads11_8 true = 1
  hreads11_8 : ∀ i i' : grid11.Coords, (∀ a, reads11_8 a = true → i a = i' a) → cc11_transform_8 i = cc11_transform_8 i'
  hinb11_8 : ∀ (i : grid11.Coords) a, (cc11_transform_8 i a + 1) * S1x64.size a ≤ S1x64.size a
  hwx11_8 : ∀ i : grid11.Coords, EltTy.bits .f32 = 32 ∨ (Rect.block (s := S1x64) S1x64.size (cc11_transform_8 i) (hinb11_8 i)).WholeWords (EltTy.packing .f32)
  hstage11_9 : ∀ j, (stage11_9 j).IsWhole
  nbuf11_9 : grid11.bufCount reads11_9 false = 2
  hreads11_9 : ∀ i i' : grid11.Coords, (∀ a, reads11_9 a = true → i a = i' a) → cc11_transform_9 i = cc11_transform_9 i'
  hinb11_9 : ∀ (i : grid11.Coords) a, (cc11_transform_9 i a + 1) * S1024x64.size a ≤ S4096x64.size a
  hwx11_9 : ∀ i : grid11.Coords, EltTy.bits .f32 = 32 ∨ (Rect.block (s := S4096x64) S1024x64.size (cc11_transform_9 i) (hinb11_9 i)).WholeWords (EltTy.packing .f32)
  hcore12 : grid12.bound 0 ≤ τ.nSC
  hsub12 : grid12.bound 1 ≤ τ.nSub
  k12_t1_ok : k12_t1_loop.OK
  k12_off1_inb : ∀ (i : grid12.Coords) (k12_t1 : Fin k12_t1_loop.trips), ∀ a, (k12_off1 i k12_t1) a + S256.size a ≤ S524288.size a
  k12_off2_inb : ∀ (i : grid12.Coords) (k12_t1 : Fin k12_t1_loop.trips), ∀ a, (k12_off2 i k12_t1) a + S256.size a ≤ S524288.size a
  k12_off3_inb : ∀ (i : grid12.Coords) (k12_t1 : Fin k12_t1_loop.trips), ∀ a, (k12_off3 i k12_t1) a + S256x128.size a ≤ S65536x128.size a
  k12_off4_inb : ∀ (i : grid12.Coords) (k12_t1 : Fin k12_t1_loop.trips), ∀ a, (k12_off4 i k12_t1) a + S256x128.size a ≤ S65536x128.size a
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S16384x128.size a ≤ S65536x128.size a
  hwx13_0 : ∀ i : grid13.Coords, EltTy.bits .f32 = 32 ∨ (Rect.block (s := S65536x128) S16384x128.size (cc13_transform_0 i) (hinb13_0 i)).WholeWords (EltTy.packing .f32)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S1024x32.size a ≤ S32768x32.size a
  hwx13_1 : ∀ i : grid13.Coords, EltTy.bits .f32 = 32 ∨ (Rect.block (s := S32768x32) S1024x32.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S128x32.size a ≤ S128x32.size a
  hwx13_2 : ∀ i : grid13.Coords, EltTy.bits .f32 = 32 ∨ (Rect.block (s := S128x32) S128x32.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S32x16.size a ≤ S32x16.size a
  hwx13_3 : ∀ i : grid13.Coords, EltTy.bits .f32 = 32 ∨ (Rect.block (s := S32x16) S32x16.size (cc13_transform_3 i) (hinb13_3 i)).WholeWords (EltTy.packing .f32)
  hstage13_4 : ∀ j, (stage13_4 j).IsWhole
  nbuf13_4 : grid13.bufCount reads13_4 true = 1
  hreads13_4 : ∀ i i' : grid13.Coords, (∀ a, reads13_4 a = true → i a = i' a) → cc13_transform_4 i = cc13_transform_4 i'
  hinb13_4 : ∀ (i : grid13.Coords) a, (cc13_transform_4 i a + 1) * S1x16.size a ≤ S1x16.size a
  hwx13_4 : ∀ i : grid13.Coords, EltTy.bits .f32 = 32 ∨ (Rect.block (s := S1x16) S1x16.size (cc13_transform_4 i) (hinb13_4 i)).WholeWords (EltTy.packing .f32)
  hstage13_5 : ∀ j, (stage13_5 j).IsWhole
  nbuf13_5 : grid13.bufCount reads13_5 true = 1
  hreads13_5 : ∀ i i' : grid13.Coords, (∀ a, reads13_5 a = true → i a = i' a) → cc13_transform_5 i = cc13_transform_5 i'
  hinb13_5 : ∀ (i : grid13.Coords) a, (cc13_transform_5 i a + 1) * S16x16.size a ≤ S16x16.size a
  hwx13_5 : ∀ i : grid13.Coords, EltTy.bits .f32 = 32 ∨ (Rect.block (s := S16x16) S16x16.size (cc13_transform_5 i) (hinb13_5 i)).WholeWords (EltTy.packing .f32)
  hstage13_6 : ∀ j, (stage13_6 j).IsWhole
  nbuf13_6 : grid13.bufCount reads13_6 true = 1
  hreads13_6 : ∀ i i' : grid13.Coords, (∀ a, reads13_6 a = true → i a = i' a) → cc13_transform_6 i = cc13_transform_6 i'
  hinb13_6 : ∀ (i : grid13.Coords) a, (cc13_transform_6 i a + 1) * S1x16.size a ≤ S1x16.size a
  hwx13_6 : ∀ i : grid13.Coords, EltTy.bits .f32 = 32 ∨ (Rect.block (s := S1x16) S1x16.size (cc13_transform_6 i) (hinb13_6 i)).WholeWords (EltTy.packing .f32)
  hstage13_7 : ∀ j, (stage13_7 j).IsWhole
  nbuf13_7 : grid13.bufCount reads13_7 true = 1
  hreads13_7 : ∀ i i' : grid13.Coords, (∀ a, reads13_7 a = true → i a = i' a) → cc13_transform_7 i = cc13_transform_7 i'
  hinb13_7 : ∀ (i : grid13.Coords) a, (cc13_transform_7 i a + 1) * S1024x64.size a ≤ S1024x64.size a
  hwx13_7 : ∀ i : grid13.Coords, EltTy.bits .f32 = 32 ∨ (Rect.block (s := S1024x64) S1024x64.size (cc13_transform_7 i) (hinb13_7 i)).WholeWords (EltTy.packing .f32)
  hstage13_8 : ∀ j, (stage13_8 j).IsWhole
  nbuf13_8 : grid13.bufCount reads13_8 true = 1
  hreads13_8 : ∀ i i' : grid13.Coords, (∀ a, reads13_8 a = true → i a = i' a) → cc13_transform_8 i = cc13_transform_8 i'
  hinb13_8 : ∀ (i : grid13.Coords) a, (cc13_transform_8 i a + 1) * S1x64.size a ≤ S1x64.size a
  hwx13_8 : ∀ i : grid13.Coords, EltTy.bits .f32 = 32 ∨ (Rect.block (s := S1x64) S1x64.size (cc13_transform_8 i) (hinb13_8 i)).WholeWords (EltTy.packing .f32)
  hstage13_9 : ∀ j, (stage13_9 j).IsWhole
  nbuf13_9 : grid13.bufCount reads13_9 false = 2
  hreads13_9 : ∀ i i' : grid13.Coords, (∀ a, reads13_9 a = true → i a = i' a) → cc13_transform_9 i = cc13_transform_9 i'
  hinb13_9 : ∀ (i : grid13.Coords) a, (cc13_transform_9 i a + 1) * S1024x64.size a ≤ S4096x64.size a
  hwx13_9 : ∀ i : grid13.Coords, EltTy.bits .f32 = 32 ∨ (Rect.block (s := S4096x64) S1024x64.size (cc13_transform_9 i) (hinb13_9 i)).WholeWords (EltTy.packing .f32)
  hcore14 : grid14.bound 0 ≤ τ.nSC
  hsub14 : grid14.bound 1 ≤ τ.nSub
  k14_t1_ok : k14_t1_loop.OK
  k14_off1_inb : ∀ (i : grid14.Coords) (k14_t1 : Fin k14_t1_loop.trips), ∀ a, (k14_off1 i k14_t1) a + S256.size a ≤ S524288.size a
  k14_off2_inb : ∀ (i : grid14.Coords) (k14_t1 : Fin k14_t1_loop.trips), ∀ a, (k14_off2 i k14_t1) a + S256.size a ≤ S524288.size a
  k14_off3_inb : ∀ (i : grid14.Coords) (k14_t1 : Fin k14_t1_loop.trips), ∀ a, (k14_off3 i k14_t1) a + S256x128.size a ≤ S65536x128.size a
  k14_off4_inb : ∀ (i : grid14.Coords) (k14_t1 : Fin k14_t1_loop.trips), ∀ a, (k14_off4 i k14_t1) a + S256x128.size a ≤ S65536x128.size a
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S16384x128.size a ≤ S65536x128.size a
  hwx15_0 : ∀ i : grid15.Coords, EltTy.bits .f32 = 32 ∨ (Rect.block (s := S65536x128) S16384x128.size (cc15_transform_0 i) (hinb15_0 i)).WholeWords (EltTy.packing .f32)
  hstage15_1 : ∀ j, (stage15_1 j).IsWhole
  nbuf15_1 : grid15.bufCount reads15_1 false = 2
  hreads15_1 : ∀ i i' : grid15.Coords, (∀ a, reads15_1 a = true → i a = i' a) → cc15_transform_1 i = cc15_transform_1 i'
  hinb15_1 : ∀ (i : grid15.Coords) a, (cc15_transform_1 i a + 1) * S1024x32.size a ≤ S32768x32.size a
  hwx15_1 : ∀ i : grid15.Coords, EltTy.bits .f32 = 32 ∨ (Rect.block (s := S32768x32) S1024x32.size (cc15_transform_1 i) (hinb15_1 i)).WholeWords (EltTy.packing .f32)
  hstage15_2 : ∀ j, (stage15_2 j).IsWhole
  nbuf15_2 : grid15.bufCount reads15_2 true = 1
  hreads15_2 : ∀ i i' : grid15.Coords, (∀ a, reads15_2 a = true → i a = i' a) → cc15_transform_2 i = cc15_transform_2 i'
  hinb15_2 : ∀ (i : grid15.Coords) a, (cc15_transform_2 i a + 1) * S128x32.size a ≤ S128x32.size a
  hwx15_2 : ∀ i : grid15.Coords, EltTy.bits .f32 = 32 ∨ (Rect.block (s := S128x32) S128x32.size (cc15_transform_2 i) (hinb15_2 i)).WholeWords (EltTy.packing .f32)
  hstage15_3 : ∀ j, (stage15_3 j).IsWhole
  nbuf15_3 : grid15.bufCount reads15_3 true = 1
  hreads15_3 : ∀ i i' : grid15.Coords, (∀ a, reads15_3 a = true → i a = i' a) → cc15_transform_3 i = cc15_transform_3 i'
  hinb15_3 : ∀ (i : grid15.Coords) a, (cc15_transform_3 i a + 1) * S32x16.size a ≤ S32x16.size a
  hwx15_3 : ∀ i : grid15.Coords, EltTy.bits .f32 = 32 ∨ (Rect.block (s := S32x16) S32x16.size (cc15_transform_3 i) (hinb15_3 i)).WholeWords (EltTy.packing .f32)
  hstage15_4 : ∀ j, (stage15_4 j).IsWhole
  nbuf15_4 : grid15.bufCount reads15_4 true = 1
  hreads15_4 : ∀ i i' : grid15.Coords, (∀ a, reads15_4 a = true → i a = i' a) → cc15_transform_4 i = cc15_transform_4 i'
  hinb15_4 : ∀ (i : grid15.Coords) a, (cc15_transform_4 i a + 1) * S1x16.size a ≤ S1x16.size a
  hwx15_4 : ∀ i : grid15.Coords, EltTy.bits .f32 = 32 ∨ (Rect.block (s := S1x16) S1x16.size (cc15_transform_4 i) (hinb15_4 i)).WholeWords (EltTy.packing .f32)
  hstage15_5 : ∀ j, (stage15_5 j).IsWhole
  nbuf15_5 : grid15.bufCount reads15_5 true = 1
  hreads15_5 : ∀ i i' : grid15.Coords, (∀ a, reads15_5 a = true → i a = i' a) → cc15_transform_5 i = cc15_transform_5 i'
  hinb15_5 : ∀ (i : grid15.Coords) a, (cc15_transform_5 i a + 1) * S16x16.size a ≤ S16x16.size a
  hwx15_5 : ∀ i : grid15.Coords, EltTy.bits .f32 = 32 ∨ (Rect.block (s := S16x16) S16x16.size (cc15_transform_5 i) (hinb15_5 i)).WholeWords (EltTy.packing .f32)
  hstage15_6 : ∀ j, (stage15_6 j).IsWhole
  nbuf15_6 : grid15.bufCount reads15_6 true = 1
  hreads15_6 : ∀ i i' : grid15.Coords, (∀ a, reads15_6 a = true → i a = i' a) → cc15_transform_6 i = cc15_transform_6 i'
  hinb15_6 : ∀ (i : grid15.Coords) a, (cc15_transform_6 i a + 1) * S1x16.size a ≤ S1x16.size a
  hwx15_6 : ∀ i : grid15.Coords, EltTy.bits .f32 = 32 ∨ (Rect.block (s := S1x16) S1x16.size (cc15_transform_6 i) (hinb15_6 i)).WholeWords (EltTy.packing .f32)
  hstage15_7 : ∀ j, (stage15_7 j).IsWhole
  nbuf15_7 : grid15.bufCount reads15_7 true = 1
  hreads15_7 : ∀ i i' : grid15.Coords, (∀ a, reads15_7 a = true → i a = i' a) → cc15_transform_7 i = cc15_transform_7 i'
  hinb15_7 : ∀ (i : grid15.Coords) a, (cc15_transform_7 i a + 1) * S1024x64.size a ≤ S1024x64.size a
  hwx15_7 : ∀ i : grid15.Coords, EltTy.bits .f32 = 32 ∨ (Rect.block (s := S1024x64) S1024x64.size (cc15_transform_7 i) (hinb15_7 i)).WholeWords (EltTy.packing .f32)
  hstage15_8 : ∀ j, (stage15_8 j).IsWhole
  nbuf15_8 : grid15.bufCount reads15_8 true = 1
  hreads15_8 : ∀ i i' : grid15.Coords, (∀ a, reads15_8 a = true → i a = i' a) → cc15_transform_8 i = cc15_transform_8 i'
  hinb15_8 : ∀ (i : grid15.Coords) a, (cc15_transform_8 i a + 1) * S1x64.size a ≤ S1x64.size a
  hwx15_8 : ∀ i : grid15.Coords, EltTy.bits .f32 = 32 ∨ (Rect.block (s := S1x64) S1x64.size (cc15_transform_8 i) (hinb15_8 i)).WholeWords (EltTy.packing .f32)
  hstage15_9 : ∀ j, (stage15_9 j).IsWhole
  nbuf15_9 : grid15.bufCount reads15_9 false = 2
  hreads15_9 : ∀ i i' : grid15.Coords, (∀ a, reads15_9 a = true → i a = i' a) → cc15_transform_9 i = cc15_transform_9 i'
  hinb15_9 : ∀ (i : grid15.Coords) a, (cc15_transform_9 i a + 1) * S1024x64.size a ≤ S4096x64.size a
  hwx15_9 : ∀ i : grid15.Coords, EltTy.bits .f32 = 32 ∨ (Rect.block (s := S4096x64) S1024x64.size (cc15_transform_9 i) (hinb15_9 i)).WholeWords (EltTy.packing .f32)

variable [Facts₀]

abbrev cc0_scratch4 : DmaSems sig S_ := SemArray.consecutive 0 S_ hcc0_scratch4
abbrev cc0_scratch5 : DmaSems sig S_ := SemArray.consecutive 1 S_ hcc0_scratch5
abbrev cc0_scratch6 : DmaSems sig S_ := SemArray.consecutive 2 S_ hcc0_scratch6
abbrev cc0_scratch7 : DmaSems sig S_ := SemArray.consecutive 3 S_ hcc0_scratch7
abbrev cc0_scoped0 : DmaSems sig S_ := SemArray.consecutive 4 S_ hcc0_scoped0
abbrev cc0_scoped1 : DmaSems sig S_ := SemArray.consecutive 5 S_ hcc0_scoped1
abbrev cc2_scratch4 : DmaSems sig S_ := SemArray.consecutive 19 S_ hcc2_scratch4
abbrev cc2_scratch5 : DmaSems sig S_ := SemArray.consecutive 20 S_ hcc2_scratch5
abbrev cc2_scratch6 : DmaSems sig S_ := SemArray.consecutive 21 S_ hcc2_scratch6
abbrev cc2_scratch7 : DmaSems sig S_ := SemArray.consecutive 22 S_ hcc2_scratch7
abbrev cc2_scoped0 : DmaSems sig S_ := SemArray.consecutive 23 S_ hcc2_scoped0
abbrev cc2_scoped1 : DmaSems sig S_ := SemArray.consecutive 24 S_ hcc2_scoped1
abbrev cc4_scratch4 : DmaSems sig S_ := SemArray.consecutive 38 S_ hcc4_scratch4
abbrev cc4_scratch5 : DmaSems sig S_ := SemArray.consecutive 39 S_ hcc4_scratch5
abbrev cc4_scratch6 : DmaSems sig S_ := SemArray.consecutive 40 S_ hcc4_scratch6
abbrev cc4_scratch7 : DmaSems sig S_ := SemArray.consecutive 41 S_ hcc4_scratch7
abbrev cc4_scoped0 : DmaSems sig S_ := SemArray.consecutive 42 S_ hcc4_scoped0
abbrev cc4_scoped1 : DmaSems sig S_ := SemArray.consecutive 43 S_ hcc4_scoped1
abbrev cc6_scratch4 : DmaSems sig S_ := SemArray.consecutive 57 S_ hcc6_scratch4
abbrev cc6_scratch5 : DmaSems sig S_ := SemArray.consecutive 58 S_ hcc6_scratch5
abbrev cc6_scratch6 : DmaSems sig S_ := SemArray.consecutive 59 S_ hcc6_scratch6
abbrev cc6_scratch7 : DmaSems sig S_ := SemArray.consecutive 60 S_ hcc6_scratch7
abbrev cc6_scoped0 : DmaSems sig S_ := SemArray.consecutive 61 S_ hcc6_scoped0
abbrev cc6_scoped1 : DmaSems sig S_ := SemArray.consecutive 62 S_ hcc6_scoped1
abbrev cc8_scratch4 : DmaSems sig S_ := SemArray.consecutive 76 S_ hcc8_scratch4
abbrev cc8_scratch5 : DmaSems sig S_ := SemArray.consecutive 77 S_ hcc8_scratch5
abbrev cc8_scratch6 : DmaSems sig S_ := SemArray.consecutive 78 S_ hcc8_scratch6
abbrev cc8_scratch7 : DmaSems sig S_ := SemArray.consecutive 79 S_ hcc8_scratch7
abbrev cc8_scoped0 : DmaSems sig S_ := SemArray.consecutive 80 S_ hcc8_scoped0
abbrev cc8_scoped1 : DmaSems sig S_ := SemArray.consecutive 81 S_ hcc8_scoped1
abbrev cc10_scratch4 : DmaSems sig S_ := SemArray.consecutive 95 S_ hcc10_scratch4
abbrev cc10_scratch5 : DmaSems sig S_ := SemArray.consecutive 96 S_ hcc10_scratch5
abbrev cc10_scratch6 : DmaSems sig S_ := SemArray.consecutive 97 S_ hcc10_scratch6
abbrev cc10_scratch7 : DmaSems sig S_ := SemArray.consecutive 98 S_ hcc10_scratch7
abbrev cc10_scoped0 : DmaSems sig S_ := SemArray.consecutive 99 S_ hcc10_scoped0
abbrev cc10_scoped1 : DmaSems sig S_ := SemArray.consecutive 100 S_ hcc10_scoped1
abbrev cc12_scratch4 : DmaSems sig S_ := SemArray.consecutive 114 S_ hcc12_scratch4
abbrev cc12_scratch5 : DmaSems sig S_ := SemArray.consecutive 115 S_ hcc12_scratch5
abbrev cc12_scratch6 : DmaSems sig S_ := SemArray.consecutive 116 S_ hcc12_scratch6
abbrev cc12_scratch7 : DmaSems sig S_ := SemArray.consecutive 117 S_ hcc12_scratch7
abbrev cc12_scoped0 : DmaSems sig S_ := SemArray.consecutive 118 S_ hcc12_scoped0
abbrev cc12_scoped1 : DmaSems sig S_ := SemArray.consecutive 119 S_ hcc12_scoped1
abbrev cc14_scratch4 : DmaSems sig S_ := SemArray.consecutive 133 S_ hcc14_scratch4
abbrev cc14_scratch5 : DmaSems sig S_ := SemArray.consecutive 134 S_ hcc14_scratch5
abbrev cc14_scratch6 : DmaSems sig S_ := SemArray.consecutive 135 S_ hcc14_scratch6
abbrev cc14_scratch7 : DmaSems sig S_ := SemArray.consecutive 136 S_ hcc14_scratch7
abbrev cc14_scoped0 : DmaSems sig S_ := SemArray.consecutive 137 S_ hcc14_scoped0
abbrev cc14_scoped1 : DmaSems sig S_ := SemArray.consecutive 138 S_ hcc14_scoped1
def dot_S32768x3_S3x32_S32768x32_1_0_0_1_n_n : DotDims S32768x3 S3x32 S32768x32 where
  lhsContracting := [1]
  rhsContracting := [0]
  lhsNonContracting := [0]
  rhsNonContracting := [1]
  lhsBatch := []
  rhsBatch := []
  wf := dot_S32768x3_S3x32_S32768x32_1_0_0_1_n_n_wf
def dot_S16384x128_S128x32_S16384x32_1_0_0_1_n_n : DotDims S16384x128 S128x32 S16384x32 where
  lhsContracting := [1]
  rhsContracting := [0]
  lhsNonContracting := [0]
  rhsNonContracting := [1]
  lhsBatch := []
  rhsBatch := []
  wf := dot_S16384x128_S128x32_S16384x32_1_0_0_1_n_n_wf
def dot_S16384x32_S32x16_S16384x16_1_0_0_1_n_n : DotDims S16384x32 S32x16 S16384x16 where
  lhsContracting := [1]
  rhsContracting := [0]
  lhsNonContracting := [0]
  rhsNonContracting := [1]
  lhsBatch := []
  rhsBatch := []
  wf := dot_S16384x32_S32x16_S16384x16_1_0_0_1_n_n_wf
def dot_S16384x16_S16x16_S16384x16_1_0_0_1_n_n : DotDims S16384x16 S16x16 S16384x16 where
  lhsContracting := [1]
  rhsContracting := [0]
  lhsNonContracting := [0]
  rhsNonContracting := [1]
  lhsBatch := []
  rhsBatch := []
  wf := dot_S16384x16_S16x16_S16384x16_1_0_0_1_n_n_wf
def dot_S1024x16x16_S1024x16x64_S1024x16x64_1_1_2_2_0_0 : DotDims S1024x16x16 S1024x16x64 S1024x16x64 where
  lhsContracting := [1]
  rhsContracting := [1]
  lhsNonContracting := [2]
  rhsNonContracting := [2]
  lhsBatch := [0]
  rhsBatch := [0]
  wf := dot_S1024x16x16_S1024x16x64_S1024x16x64_1_1_2_2_0_0_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win1_0 : Pipeline.Window sig grid1 :=
  Pipeline.Window.ofSpec (Memref.whole main_v34) S16384x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S1024x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S128x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25) S32x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S1x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S16x16.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v28) S1x16.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v32) S1024x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v33) S1x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v35) S1024x64.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win3_0 : Pipeline.Window sig grid3 :=
  Pipeline.Window.ofSpec (Memref.whole main_v36) S16384x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v24) S1024x32.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v14) S128x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v25) S32x16.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v26) S1x16.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v27) S16x16.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v28) S1x16.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v32) S1024x64.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v33) S1x64.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v37) S1024x64.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

abbrev win5_0 : Pipeline.Window sig grid5 :=
  Pipeline.Window.ofSpec (Memref.whole main_v38) S16384x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v24) S1024x32.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v14) S128x32.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v25) S32x16.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v26) S1x16.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v27) S16x16.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v28) S1x16.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v32) S1024x64.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v33) S1x64.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_v39) S1024x64.size cc5_transform_9 reads5_9 true false 2 stage5_9 sem5_9
    hrank5 hreads5_9 hinb5_9 nbuf5_9 (Memref.isWhole_whole _) hwx5_9 hstage5_9

abbrev win5 : Fin 10 → Pipeline.Window sig grid5 := fun | 0 => win5_0 | 1 => win5_1 | 2 => win5_2 | 3 => win5_3 | 4 => win5_4 | 5 => win5_5 | 6 => win5_6 | 7 => win5_7 | 8 => win5_8 | 9 => win5_9 | ⟨_ + 10, h⟩ => absurd h (Nat.not_lt.2 (Nat.le_add_left _ _))
abbrev spec5 : Fin 10 → Pipeline.WinSpec sig grid5.rank := fun w => (win5 w).toWinSpec

abbrev win7_0 : Pipeline.Window sig grid7 :=
  Pipeline.Window.ofSpec (Memref.whole main_v40) S16384x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v24) S1024x32.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v14) S128x32.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v25) S32x16.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v26) S1x16.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v27) S16x16.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v28) S1x16.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v32) S1024x64.size cc7_transform_7 reads7_7 false true 1 stage7_7 sem7_7
    hrank7 hreads7_7 hinb7_7 nbuf7_7 (Memref.isWhole_whole _) hwx7_7 hstage7_7

abbrev win7_8 : Pipeline.Window sig grid7 :=
  Pipeline.Window.ofSpec (Memref.whole main_v33) S1x64.size cc7_transform_8 reads7_8 false true 1 stage7_8 sem7_8
    hrank7 hreads7_8 hinb7_8 nbuf7_8 (Memref.isWhole_whole _) hwx7_8 hstage7_8

abbrev win7_9 : Pipeline.Window sig grid7 :=
  Pipeline.Window.ofSpec (Memref.whole main_v41) S1024x64.size cc7_transform_9 reads7_9 true false 2 stage7_9 sem7_9
    hrank7 hreads7_9 hinb7_9 nbuf7_9 (Memref.isWhole_whole _) hwx7_9 hstage7_9

abbrev win7 : Fin 10 → Pipeline.Window sig grid7 := fun | 0 => win7_0 | 1 => win7_1 | 2 => win7_2 | 3 => win7_3 | 4 => win7_4 | 5 => win7_5 | 6 => win7_6 | 7 => win7_7 | 8 => win7_8 | 9 => win7_9 | ⟨_ + 10, h⟩ => absurd h (Nat.not_lt.2 (Nat.le_add_left _ _))
abbrev spec7 : Fin 10 → Pipeline.WinSpec sig grid7.rank := fun w => (win7 w).toWinSpec

abbrev win9_0 : Pipeline.Window sig grid9 :=
  Pipeline.Window.ofSpec (Memref.whole main_v42) S16384x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v24) S1024x32.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v14) S128x32.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v25) S32x16.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v26) S1x16.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v27) S16x16.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_v28) S1x16.size cc9_transform_6 reads9_6 false true 1 stage9_6 sem9_6
    hrank9 hreads9_6 hinb9_6 nbuf9_6 (Memref.isWhole_whole _) hwx9_6 hstage9_6

abbrev win9_7 : Pipeline.Window sig grid9 :=
  Pipeline.Window.ofSpec (Memref.whole main_v32) S1024x64.size cc9_transform_7 reads9_7 false true 1 stage9_7 sem9_7
    hrank9 hreads9_7 hinb9_7 nbuf9_7 (Memref.isWhole_whole _) hwx9_7 hstage9_7

abbrev win9_8 : Pipeline.Window sig grid9 :=
  Pipeline.Window.ofSpec (Memref.whole main_v33) S1x64.size cc9_transform_8 reads9_8 false true 1 stage9_8 sem9_8
    hrank9 hreads9_8 hinb9_8 nbuf9_8 (Memref.isWhole_whole _) hwx9_8 hstage9_8

abbrev win9_9 : Pipeline.Window sig grid9 :=
  Pipeline.Window.ofSpec (Memref.whole main_v43) S1024x64.size cc9_transform_9 reads9_9 true false 2 stage9_9 sem9_9
    hrank9 hreads9_9 hinb9_9 nbuf9_9 (Memref.isWhole_whole _) hwx9_9 hstage9_9

abbrev win9 : Fin 10 → Pipeline.Window sig grid9 := fun | 0 => win9_0 | 1 => win9_1 | 2 => win9_2 | 3 => win9_3 | 4 => win9_4 | 5 => win9_5 | 6 => win9_6 | 7 => win9_7 | 8 => win9_8 | 9 => win9_9 | ⟨_ + 10, h⟩ => absurd h (Nat.not_lt.2 (Nat.le_add_left _ _))
abbrev spec9 : Fin 10 → Pipeline.WinSpec sig grid9.rank := fun w => (win9 w).toWinSpec

abbrev win11_0 : Pipeline.Window sig grid11 :=
  Pipeline.Window.ofSpec (Memref.whole main_v44) S16384x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v24) S1024x32.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v14) S128x32.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v25) S32x16.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v26) S1x16.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v27) S16x16.size cc11_transform_5 reads11_5 false true 1 stage11_5 sem11_5
    hrank11 hreads11_5 hinb11_5 nbuf11_5 (Memref.isWhole_whole _) hwx11_5 hstage11_5

abbrev win11_6 : Pipeline.Window sig grid11 :=
  Pipeline.Window.ofSpec (Memref.whole main_v28) S1x16.size cc11_transform_6 reads11_6 false true 1 stage11_6 sem11_6
    hrank11 hreads11_6 hinb11_6 nbuf11_6 (Memref.isWhole_whole _) hwx11_6 hstage11_6

abbrev win11_7 : Pipeline.Window sig grid11 :=
  Pipeline.Window.ofSpec (Memref.whole main_v32) S1024x64.size cc11_transform_7 reads11_7 false true 1 stage11_7 sem11_7
    hrank11 hreads11_7 hinb11_7 nbuf11_7 (Memref.isWhole_whole _) hwx11_7 hstage11_7

abbrev win11_8 : Pipeline.Window sig grid11 :=
  Pipeline.Window.ofSpec (Memref.whole main_v33) S1x64.size cc11_transform_8 reads11_8 false true 1 stage11_8 sem11_8
    hrank11 hreads11_8 hinb11_8 nbuf11_8 (Memref.isWhole_whole _) hwx11_8 hstage11_8

abbrev win11_9 : Pipeline.Window sig grid11 :=
  Pipeline.Window.ofSpec (Memref.whole main_v45) S1024x64.size cc11_transform_9 reads11_9 true false 2 stage11_9 sem11_9
    hrank11 hreads11_9 hinb11_9 nbuf11_9 (Memref.isWhole_whole _) hwx11_9 hstage11_9

abbrev win11 : Fin 10 → Pipeline.Window sig grid11 := fun | 0 => win11_0 | 1 => win11_1 | 2 => win11_2 | 3 => win11_3 | 4 => win11_4 | 5 => win11_5 | 6 => win11_6 | 7 => win11_7 | 8 => win11_8 | 9 => win11_9 | ⟨_ + 10, h⟩ => absurd h (Nat.not_lt.2 (Nat.le_add_left _ _))
abbrev spec11 : Fin 10 → Pipeline.WinSpec sig grid11.rank := fun w => (win11 w).toWinSpec

abbrev win13_0 : Pipeline.Window sig grid13 :=
  Pipeline.Window.ofSpec (Memref.whole main_v46) S16384x128.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v24) S1024x32.size cc13_transform_1 reads13_1 false false 2 stage13_1 sem13_1
    hrank13 hreads13_1 hinb13_1 nbuf13_1 (Memref.isWhole_whole _) hwx13_1 hstage13_1

abbrev win13_2 : Pipeline.Window sig grid13 :=
  Pipeline.Window.ofSpec (Memref.whole main_v14) S128x32.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v25) S32x16.size cc13_transform_3 reads13_3 false true 1 stage13_3 sem13_3
    hrank13 hreads13_3 hinb13_3 nbuf13_3 (Memref.isWhole_whole _) hwx13_3 hstage13_3

abbrev win13_4 : Pipeline.Window sig grid13 :=
  Pipeline.Window.ofSpec (Memref.whole main_v26) S1x16.size cc13_transform_4 reads13_4 false true 1 stage13_4 sem13_4
    hrank13 hreads13_4 hinb13_4 nbuf13_4 (Memref.isWhole_whole _) hwx13_4 hstage13_4

abbrev win13_5 : Pipeline.Window sig grid13 :=
  Pipeline.Window.ofSpec (Memref.whole main_v27) S16x16.size cc13_transform_5 reads13_5 false true 1 stage13_5 sem13_5
    hrank13 hreads13_5 hinb13_5 nbuf13_5 (Memref.isWhole_whole _) hwx13_5 hstage13_5

abbrev win13_6 : Pipeline.Window sig grid13 :=
  Pipeline.Window.ofSpec (Memref.whole main_v28) S1x16.size cc13_transform_6 reads13_6 false true 1 stage13_6 sem13_6
    hrank13 hreads13_6 hinb13_6 nbuf13_6 (Memref.isWhole_whole _) hwx13_6 hstage13_6

abbrev win13_7 : Pipeline.Window sig grid13 :=
  Pipeline.Window.ofSpec (Memref.whole main_v32) S1024x64.size cc13_transform_7 reads13_7 false true 1 stage13_7 sem13_7
    hrank13 hreads13_7 hinb13_7 nbuf13_7 (Memref.isWhole_whole _) hwx13_7 hstage13_7

abbrev win13_8 : Pipeline.Window sig grid13 :=
  Pipeline.Window.ofSpec (Memref.whole main_v33) S1x64.size cc13_transform_8 reads13_8 false true 1 stage13_8 sem13_8
    hrank13 hreads13_8 hinb13_8 nbuf13_8 (Memref.isWhole_whole _) hwx13_8 hstage13_8

abbrev win13_9 : Pipeline.Window sig grid13 :=
  Pipeline.Window.ofSpec (Memref.whole main_v47) S1024x64.size cc13_transform_9 reads13_9 true false 2 stage13_9 sem13_9
    hrank13 hreads13_9 hinb13_9 nbuf13_9 (Memref.isWhole_whole _) hwx13_9 hstage13_9

abbrev win13 : Fin 10 → Pipeline.Window sig grid13 := fun | 0 => win13_0 | 1 => win13_1 | 2 => win13_2 | 3 => win13_3 | 4 => win13_4 | 5 => win13_5 | 6 => win13_6 | 7 => win13_7 | 8 => win13_8 | 9 => win13_9 | ⟨_ + 10, h⟩ => absurd h (Nat.not_lt.2 (Nat.le_add_left _ _))
abbrev spec13 : Fin 10 → Pipeline.WinSpec sig grid13.rank := fun w => (win13 w).toWinSpec

abbrev win15_0 : Pipeline.Window sig grid15 :=
  Pipeline.Window.ofSpec (Memref.whole main_v48) S16384x128.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v24) S1024x32.size cc15_transform_1 reads15_1 false false 2 stage15_1 sem15_1
    hrank15 hreads15_1 hinb15_1 nbuf15_1 (Memref.isWhole_whole _) hwx15_1 hstage15_1

abbrev win15_2 : Pipeline.Window sig grid15 :=
  Pipeline.Window.ofSpec (Memref.whole main_v14) S128x32.size cc15_transform_2 reads15_2 false true 1 stage15_2 sem15_2
    hrank15 hreads15_2 hinb15_2 nbuf15_2 (Memref.isWhole_whole _) hwx15_2 hstage15_2

abbrev win15_3 : Pipeline.Window sig grid15 :=
  Pipeline.Window.ofSpec (Memref.whole main_v25) S32x16.size cc15_transform_3 reads15_3 false true 1 stage15_3 sem15_3
    hrank15 hreads15_3 hinb15_3 nbuf15_3 (Memref.isWhole_whole _) hwx15_3 hstage15_3

abbrev win15_4 : Pipeline.Window sig grid15 :=
  Pipeline.Window.ofSpec (Memref.whole main_v26) S1x16.size cc15_transform_4 reads15_4 false true 1 stage15_4 sem15_4
    hrank15 hreads15_4 hinb15_4 nbuf15_4 (Memref.isWhole_whole _) hwx15_4 hstage15_4

abbrev win15_5 : Pipeline.Window sig grid15 :=
  Pipeline.Window.ofSpec (Memref.whole main_v27) S16x16.size cc15_transform_5 reads15_5 false true 1 stage15_5 sem15_5
    hrank15 hreads15_5 hinb15_5 nbuf15_5 (Memref.isWhole_whole _) hwx15_5 hstage15_5

abbrev win15_6 : Pipeline.Window sig grid15 :=
  Pipeline.Window.ofSpec (Memref.whole main_v28) S1x16.size cc15_transform_6 reads15_6 false true 1 stage15_6 sem15_6
    hrank15 hreads15_6 hinb15_6 nbuf15_6 (Memref.isWhole_whole _) hwx15_6 hstage15_6

abbrev win15_7 : Pipeline.Window sig grid15 :=
  Pipeline.Window.ofSpec (Memref.whole main_v32) S1024x64.size cc15_transform_7 reads15_7 false true 1 stage15_7 sem15_7
    hrank15 hreads15_7 hinb15_7 nbuf15_7 (Memref.isWhole_whole _) hwx15_7 hstage15_7

abbrev win15_8 : Pipeline.Window sig grid15 :=
  Pipeline.Window.ofSpec (Memref.whole main_v33) S1x64.size cc15_transform_8 reads15_8 false true 1 stage15_8 sem15_8
    hrank15 hreads15_8 hinb15_8 nbuf15_8 (Memref.isWhole_whole _) hwx15_8 hstage15_8

abbrev win15_9 : Pipeline.Window sig grid15 :=
  Pipeline.Window.ofSpec (Memref.whole main_v49) S1024x64.size cc15_transform_9 reads15_9 true false 2 stage15_9 sem15_9
    hrank15 hreads15_9 hinb15_9 nbuf15_9 (Memref.isWhole_whole _) hwx15_9 hstage15_9

abbrev win15 : Fin 10 → Pipeline.Window sig grid15 := fun | 0 => win15_0 | 1 => win15_1 | 2 => win15_2 | 3 => win15_3 | 4 => win15_4 | 5 => win15_5 | 6 => win15_6 | 7 => win15_7 | 8 => win15_8 | 9 => win15_9 | ⟨_ + 10, h⟩ => absurd h (Nat.not_lt.2 (Nat.le_add_left _ _))
abbrev spec15 : Fin 10 → Pipeline.WinSpec sig grid15.rank := fun w => (win15 w).toWinSpec

class Facts : Prop extends Facts₀ where

variable [Facts]
-- ==== ReferenceIdeal.lean ====
abbrev S4x8192x64 : Shape := ⟨3, ![4, 8192, 64]⟩
abbrev S4x8192x3 : Shape := ⟨3, ![4, 8192, 3]⟩
abbrev S4x8192x16 : Shape := ⟨3, ![4, 8192, 16]⟩
abbrev S_ : Shape := ⟨0, ![]⟩
abbrev S64x16x64 : Shape := ⟨3, ![64, 16, 64]⟩
abbrev S64 : Shape := ⟨1, ![64]⟩
abbrev S3x16 : Shape := ⟨2, ![3, 16]⟩
abbrev S32x48 : Shape := ⟨2, ![32, 48]⟩
abbrev S32 : Shape := ⟨1, ![32]⟩
abbrev S16x32 : Shape := ⟨2, ![16, 32]⟩
abbrev S16 : Shape := ⟨1, ![16]⟩
abbrev S16x16 : Shape := ⟨2, ![16, 16]⟩
abbrev S4 : Shape := ⟨1, ![4]⟩
abbrev S4x1x1 : Shape := ⟨3, ![4, 1, 1]⟩
abbrev S32768x64 : Shape := ⟨2, ![32768, 64]⟩
abbrev S4x8192x16x1 : Shape := ⟨4, ![4, 8192, 16, 1]⟩
abbrev S4x8192x16x64 : Shape := ⟨4, ![4, 8192, 16, 64]⟩
abbrev S32768x3 : Shape := ⟨2, ![32768, 3]⟩
abbrev S4x8192x16x3 : Shape := ⟨4, ![4, 8192, 16, 3]⟩
abbrev S4x8192x1x3 : Shape := ⟨4, ![4, 8192, 1, 3]⟩
abbrev S4x8192x16x3x1 : Shape := ⟨5, ![4, 8192, 16, 3, 1]⟩
abbrev S1x1x1x3x16 : Shape := ⟨5, ![1, 1, 1, 3, 16]⟩
abbrev S4x8192x16x3x16 : Shape := ⟨5, ![4, 8192, 16, 3, 16]⟩
abbrev S4x8192x16x48 : Shape := ⟨4, ![4, 8192, 16, 48]⟩
abbrev S48x32 : Shape := ⟨2, ![48, 32]⟩
abbrev S4x8192x16x32 : Shape := ⟨4, ![4, 8192, 16, 32]⟩
abbrev S1x1x1x32 : Shape := ⟨4, ![1, 1, 1, 32]⟩
abbrev S32x16 : Shape := ⟨2, ![32, 16]⟩
abbrev S4x8192x16x16 : Shape := ⟨4, ![4, 8192, 16, 16]⟩
abbrev S1x1x1x16 : Shape := ⟨4, ![1, 1, 1, 16]⟩
abbrev S4x8192x64x16 : Shape := ⟨4, ![4, 8192, 64, 16]⟩
abbrev S32768x64x16 : Shape := ⟨3, ![32768, 64, 16]⟩
abbrev S32768x16x16 : Shape := ⟨3, ![32768, 16, 16]⟩
abbrev S4x8192x1024 : Shape := ⟨3, ![4, 8192, 1024]⟩
abbrev S1024x64 : Shape := ⟨2, ![1024, 64]⟩
abbrev S1x1x64 : Shape := ⟨3, ![1, 1, 64]⟩

abbrev nBuf : Space → Nat
  | .hbm => 87
  | .vmem => 0
  | .smem => 0
  | _ => 0

abbrev bufTy : (tb : Table) → Fin (tcTables nBuf tb) → BufTy
  | .hbm, ⟨0, _⟩ => ⟨S4x8192x64, .f32⟩
  | .hbm, ⟨1, _⟩ => ⟨S4x8192x3, .f32⟩
  | .hbm, ⟨2, _⟩ => ⟨S4x8192x3, .f32⟩
  | .hbm, ⟨3, _⟩ => ⟨S4x8192x16, .i32⟩
  | .hbm, ⟨4, _⟩ => ⟨S_, .i32⟩
  | .hbm, ⟨5, _⟩ => ⟨S64x16x64, .f32⟩
  | .hbm, ⟨6, _⟩ => ⟨S64, .f32⟩
  | .hbm, ⟨7, _⟩ => ⟨S3x16, .f32⟩
  | .hbm, ⟨8, _⟩ => ⟨S32x48, .f32⟩
  | .hbm, ⟨9, _⟩ => ⟨S32, .f32⟩
  | .hbm, ⟨10, _⟩ => ⟨S16x32, .f32⟩
  | .hbm, ⟨11, _⟩ => ⟨S16, .f32⟩
  | .hbm, ⟨12, _⟩ => ⟨S16x16, .f32⟩
  | .hbm, ⟨13, _⟩ => ⟨S16, .f32⟩
  | .hbm, ⟨14, _⟩ => ⟨S4, .i32⟩
  | .hbm, ⟨15, _⟩ => ⟨S_, .i32⟩
  | .hbm, ⟨16, _⟩ => ⟨S4, .i32⟩
  | .hbm, ⟨17, _⟩ => ⟨S4, .i32⟩
  | .hbm, ⟨18, _⟩ => ⟨S4x1x1, .i32⟩
  | .hbm, ⟨19, _⟩ => ⟨S4x8192x16, .i32⟩
  | .hbm, ⟨20, _⟩ => ⟨S4x8192x16, .i32⟩
  | .hbm, ⟨21, _⟩ => ⟨S32768x64, .f32⟩
  | .hbm, ⟨22, _⟩ => ⟨S_, .i32⟩
  | .hbm, ⟨23, _⟩ => ⟨S4x8192x16, .i32⟩
  | .hbm, ⟨24, _⟩ => ⟨S4x8192x16, .i1⟩
  | .hbm, ⟨25, _⟩ => ⟨S_, .i32⟩
  | .hbm, ⟨26, _⟩ => ⟨S4x8192x16, .i32⟩
  | .hbm, ⟨27, _⟩ => ⟨S4x8192x16, .i32⟩
  | .hbm, ⟨28, _⟩ => ⟨S4x8192x16, .i32⟩
  | .hbm, ⟨29, _⟩ => ⟨S4x8192x16x1, .i32⟩
  | .hbm, ⟨30, _⟩ => ⟨S4x8192x16x64, .f32⟩
  | .hbm, ⟨31, _⟩ => ⟨S32768x3, .f32⟩
  | .hbm, ⟨32, _⟩ => ⟨S_, .i32⟩
  | .hbm, ⟨33, _⟩ => ⟨S4x8192x16, .i32⟩
  | .hbm, ⟨34, _⟩ => ⟨S4x8192x16, .i1⟩
  | .hbm, ⟨35, _⟩ => ⟨S_, .i32⟩
  | .hbm, ⟨36, _⟩ => ⟨S4x8192x16, .i32⟩
  | .hbm, ⟨37, _⟩ => ⟨S4x8192x16, .i32⟩
  | .hbm, ⟨38, _⟩ => ⟨S4x8192x16, .i32⟩
  | .hbm, ⟨39, _⟩ => ⟨S4x8192x16x1, .i32⟩
  | .hbm, ⟨40, _⟩ => ⟨S4x8192x16x3, .f32⟩
  | .hbm, ⟨41, _⟩ => ⟨S4x8192x1x3, .f32⟩
  | .hbm, ⟨42, _⟩ => ⟨S4x8192x16x3, .f32⟩
  | .hbm, ⟨43, _⟩ => ⟨S4x8192x16x3, .f32⟩
  | .hbm, ⟨44, _⟩ => ⟨S4x8192x16x3x1, .f32⟩
  | .hbm, ⟨45, _⟩ => ⟨S1x1x1x3x16, .f32⟩
  | .hbm, ⟨46, _⟩ => ⟨S4x8192x16x3x16, .f32⟩
  | .hbm, ⟨47, _⟩ => ⟨S4x8192x16x3x16, .f32⟩
  | .hbm, ⟨48, _⟩ => ⟨S4x8192x16x3x16, .f32⟩
  | .hbm, ⟨49, _⟩ => ⟨S4x8192x16x48, .f32⟩
  | .hbm, ⟨50, _⟩ => ⟨S48x32, .f32⟩
  | .hbm, ⟨51, _⟩ => ⟨S4x8192x16x32, .f32⟩
  | .hbm, ⟨52, _⟩ => ⟨S1x1x1x32, .f32⟩
  | .hbm, ⟨53, _⟩ => ⟨S4x8192x16x32, .f32⟩
  | .hbm, ⟨54, _⟩ => ⟨S4x8192x16x32, .f32⟩
  | .hbm, ⟨55, _⟩ => ⟨S_, .f32⟩
  | .hbm, ⟨56, _⟩ => ⟨S4x8192x16x32, .f32⟩
  | .hbm, ⟨57, _⟩ => ⟨S4x8192x16x32, .f32⟩
  | .hbm, ⟨58, _⟩ => ⟨S32x16, .f32⟩
  | .hbm, ⟨59, _⟩ => ⟨S4x8192x16x16, .f32⟩
  | .hbm, ⟨60, _⟩ => ⟨S1x1x1x16, .f32⟩
  | .hbm, ⟨61, _⟩ => ⟨S4x8192x16x16, .f32⟩
  | .hbm, ⟨62, _⟩ => ⟨S4x8192x16x16, .f32⟩
  | .hbm, ⟨63, _⟩ => ⟨S_, .f32⟩
  | .hbm, ⟨64, _⟩ => ⟨S4x8192x16x16, .f32⟩
  | .hbm, ⟨65, _⟩ => ⟨S4x8192x16x16, .f32⟩
  | .hbm, ⟨66, _⟩ => ⟨S16x16, .f32⟩
  | .hbm, ⟨67, _⟩ => ⟨S4x8192x16x16, .f32⟩
  | .hbm, ⟨68, _⟩ => ⟨S1x1x1x16, .f32⟩
  | .hbm, ⟨69, _⟩ => ⟨S4x8192x16x16, .f32⟩
  | .hbm, ⟨70, _⟩ => ⟨S4x8192x16x16, .f32⟩
  | .hbm, ⟨71, _⟩ => ⟨S_, .f32⟩
  | .hbm, ⟨72, _⟩ => ⟨S4x8192x16x16, .f32⟩
  | .hbm, ⟨73, _⟩ => ⟨S4x8192x16x16, .f32⟩
  | .hbm, ⟨74, _⟩ => ⟨S4x8192x64x16, .f32⟩
  | .hbm, ⟨75, _⟩ => ⟨S32768x64x16, .f32⟩
  | .hbm, ⟨76, _⟩ => ⟨S32768x16x16, .f32⟩
  | .hbm, ⟨77, _⟩ => ⟨S32768x64x16, .f32⟩
  | .hbm, ⟨78, _⟩ => ⟨S4x8192x1024, .f32⟩
  | .hbm, ⟨79, _⟩ => ⟨S1024x64, .f32⟩
  | .hbm, ⟨80, _⟩ => ⟨S4x8192x64, .f32⟩
  | .hbm, ⟨81, _⟩ => ⟨S_, .f32⟩
  | .hbm, ⟨82, _⟩ => ⟨S4x8192x64, .f32⟩
  | .hbm, ⟨83, _⟩ => ⟨S4x8192x64, .f32⟩
  | .hbm, ⟨84, _⟩ => ⟨S1x1x64, .f32⟩
  | .hbm, ⟨85, _⟩ => ⟨S4x8192x64, .f32⟩
  | .hbm, ⟨86, _⟩ => ⟨S4x8192x64, .f32⟩
  | _, _ => ⟨S4x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c_0 : Ref sig .tc := ⟨.hbm, 22, rfl⟩
abbrev main_v7 : Ref sig .tc := ⟨.hbm, 23, rfl⟩
abbrev main_v8 : Ref sig .tc := ⟨.hbm, 24, rfl⟩
abbrev main_c_1 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c_2 : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_call0_cst : Ref sig .tc := ⟨.hbm, 55, rfl⟩
abbrev main_call0_v0 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_call1_cst : Ref sig .tc := ⟨.hbm, 63, rfl⟩
abbrev main_call1_v0 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_call2_cst : Ref sig .tc := ⟨.hbm, 71, rfl⟩
abbrev main_call2_v0 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩

abbrev nD : Nat := 1
abbrev τ : Topo := Topo.v7x

variable {F : FTy → Type} [FloatOps F]

class Facts₀ : Prop where
  bcast_S_S4 : S_.BroadcastsInDim S4 (![] : Fin 0 → Fin S4.rank)
  bcast_S4_S4x1x1_0 : S4.BroadcastsInDim S4x1x1 (![0] : Fin 1 → Fin S4x1x1.rank)
  bcast_S4x1x1_S4x8192x16_0_1_2 : S4x1x1.BroadcastsInDim S4x8192x16 (![0, 1, 2] : Fin 3 → Fin S4x8192x16.rank)
  shapeCasts_S4x8192x64_S32768x64 : S4x8192x64.ShapeCasts S32768x64
  bcast_S_S4x8192x16 : S_.BroadcastsInDim S4x8192x16 (![] : Fin 0 → Fin S4x8192x16.rank)
  bcast_S4x8192x16_S4x8192x16x1_0_1_2 : S4x8192x16.BroadcastsInDim S4x8192x16x1 (![0, 1, 2] : Fin 3 → Fin S4x8192x16x1.rank)
  shapeCasts_S4x8192x3_S32768x3 : S4x8192x3.ShapeCasts S32768x3
  bcast_S4x8192x3_S4x8192x1x3_0_1_3 : S4x8192x3.BroadcastsInDim S4x8192x1x3 (![0, 1, 3] : Fin 3 → Fin S4x8192x1x3.rank)
  bcast_S4x8192x1x3_S4x8192x16x3_0_1_2_3 : S4x8192x1x3.BroadcastsInDim S4x8192x16x3 (![0, 1, 2, 3] : Fin 4 → Fin S4x8192x16x3.rank)
  bcast_S4x8192x16x3_S4x8192x16x3x1_0_1_2_3 : S4x8192x16x3.BroadcastsInDim S4x8192x16x3x1 (![0, 1, 2, 3] : Fin 4 → Fin S4x8192x16x3x1.rank)
  bcast_S3x16_S1x1x1x3x16_3_4 : S3x16.BroadcastsInDim S1x1x1x3x16 (![3, 4] : Fin 2 → Fin S1x1x1x3x16.rank)
  bcast_S4x8192x16x3x1_S4x8192x16x3x16_0_1_2_3_4 : S4x8192x16x3x1.BroadcastsInDim S4x8192x16x3x16 (![0, 1, 2, 3, 4] : Fin 5 → Fin S4x8192x16x3x16.rank)
  bcast_S1x1x1x3x16_S4x8192x16x3x16_0_1_2_3_4 : S1x1x1x3x16.BroadcastsInDim S4x8192x16x3x16 (![0, 1, 2, 3, 4] : Fin 5 → Fin S4x8192x16x3x16.rank)
  shapeCasts_S4x8192x16x3x16_S4x8192x16x48 : S4x8192x16x3x16.ShapeCasts S4x8192x16x48
  transposes_S32x48_S48x32_1_0 : S32x48.Transposes [1, 0] S48x32
  bcast_S32_S1x1x1x32_3 : S32.BroadcastsInDim S1x1x1x32 (![3] : Fin 1 → Fin S1x1x1x32.rank)
  bcast_S1x1x1x32_S4x8192x16x32_0_1_2_3 : S1x1x1x32.BroadcastsInDim S4x8192x16x32 (![0, 1, 2, 3] : Fin 4 → Fin S4x8192x16x32.rank)
  bcast_S_S4x8192x16x32 : S_.BroadcastsInDim S4x8192x16x32 (![] : Fin 0 → Fin S4x8192x16x32.rank)
  transposes_S16x32_S32x16_1_0 : S16x32.Transposes [1, 0] S32x16
  bcast_S16_S1x1x1x16_3 : S16.BroadcastsInDim S1x1x1x16 (![3] : Fin 1 → Fin S1x1x1x16.rank)
  bcast_S1x1x1x16_S4x8192x16x16_0_1_2_3 : S1x1x1x16.BroadcastsInDim S4x8192x16x16 (![0, 1, 2, 3] : Fin 4 → Fin S4x8192x16x16.rank)
  bcast_S_S4x8192x16x16 : S_.BroadcastsInDim S4x8192x16x16 (![] : Fin 0 → Fin S4x8192x16x16.rank)
  transposes_S16x16_S16x16_1_0 : S16x16.Transposes [1, 0] S16x16
  transposes_S4x8192x16x64_S4x8192x64x16_0_1_3_2 : S4x8192x16x64.Transposes [0, 1, 3, 2] S4x8192x64x16
  shapeCasts_S4x8192x64x16_S32768x64x16 : S4x8192x64x16.ShapeCasts S32768x64x16
  shapeCasts_S4x8192x16x16_S32768x16x16 : S4x8192x16x16.ShapeCasts S32768x16x16
  shapeCasts_S32768x64x16_S4x8192x1024 : S32768x64x16.ShapeCasts S4x8192x1024
  shapeCasts_S64x16x64_S1024x64 : S64x16x64.ShapeCasts S1024x64
  bcast_S_S4x8192x64 : S_.BroadcastsInDim S4x8192x64 (![] : Fin 0 → Fin S4x8192x64.rank)
  bcast_S64_S1x1x64_2 : S64.BroadcastsInDim S1x1x64 (![2] : Fin 1 → Fin S1x1x64.rank)
  bcast_S1x1x64_S4x8192x64_0_1_2 : S1x1x64.BroadcastsInDim S4x8192x64 (![0, 1, 2] : Fin 3 → Fin S4x8192x64.rank)
  gather_S32768x64_S4x8192x16x1_S4x8192x16x64_3_0_n_n_0_3_164_wf : GatherDims.WF S32768x64 S4x8192x16x1 S4x8192x16x64 [3] [0] [] [0] [] 3 ![1, 64]
  gather_S32768x3_S4x8192x16x1_S4x8192x16x3_3_0_n_n_0_3_13_wf : GatherDims.WF S32768x3 S4x8192x16x1 S4x8192x16x3 [3] [0] [] [0] [] 3 ![1, 3]
  dot_S4x8192x16x48_S48x32_S4x8192x16x32_3_0_012_1_n_n_wf : DotDims.WF S4x8192x16x48 S48x32 S4x8192x16x32 [3] [0] [0, 1, 2] [1] [] []
  dot_S4x8192x16x32_S32x16_S4x8192x16x16_3_0_012_1_n_n_wf : DotDims.WF S4x8192x16x32 S32x16 S4x8192x16x16 [3] [0] [0, 1, 2] [1] [] []
  dot_S4x8192x16x16_S16x16_S4x8192x16x16_3_0_012_1_n_n_wf : DotDims.WF S4x8192x16x16 S16x16 S4x8192x16x16 [3] [0] [0, 1, 2] [1] [] []
  dot_S32768x64x16_S32768x16x16_S32768x64x16_2_1_1_2_0_0_wf : DotDims.WF S32768x64x16 S32768x16x16 S32768x64x16 [2] [1] [1] [2] [0] [0]
  dot_S4x8192x1024_S1024x64_S4x8192x64_2_0_01_1_n_n_wf : DotDims.WF S4x8192x1024 S1024x64 S4x8192x64 [2] [0] [0, 1] [1] [] []

variable [Facts₀]

def gather_S32768x64_S4x8192x16x1_S4x8192x16x64_3_0_n_n_0_3_164 : GatherDims S32768x64 S4x8192x16x1 S4x8192x16x64 where
  offsetDims := [3]
  collapsedSliceDims := [0]
  operandBatchingDims := []
  startIndicesBatchingDims := []
  startIndexMap := [0]
  indexVectorDim := 3
  sliceSizes := ![1, 64]
  wf := gather_S32768x64_S4x8192x16x1_S4x8192x16x64_3_0_n_n_0_3_164_wf
def gather_S32768x3_S4x8192x16x1_S4x8192x16x3_3_0_n_n_0_3_13 : GatherDims S32768x3 S4x8192x16x1 S4x8192x16x3 where
  offsetDims := [3]
  collapsedSliceDims := [0]
  operandBatchingDims := []
  startIndicesBatchingDims := []
  startIndexMap := [0]
  indexVectorDim := 3
  sliceSizes := ![1, 3]
  wf := gather_S32768x3_S4x8192x16x1_S4x8192x16x3_3_0_n_n_0_3_13_wf
def dot_S4x8192x16x48_S48x32_S4x8192x16x32_3_0_012_1_n_n : DotDims S4x8192x16x48 S48x32 S4x8192x16x32 where
  lhsContracting := [3]
  rhsContracting := [0]
  lhsNonContracting := [0, 1, 2]
  rhsNonContracting := [1]
  lhsBatch := []
  rhsBatch := []
  wf := dot_S4x8192x16x48_S48x32_S4x8192x16x32_3_0_012_1_n_n_wf
def dot_S4x8192x16x32_S32x16_S4x8192x16x16_3_0_012_1_n_n : DotDims S4x8192x16x32 S32x16 S4x8192x16x16 where
  lhsContracting := [3]
  rhsContracting := [0]
  lhsNonContracting := [0, 1, 2]
  rhsNonContracting := [1]
  lhsBatch := []
  rhsBatch := []
  wf := dot_S4x8192x16x32_S32x16_S4x8192x16x16_3_0_012_1_n_n_wf
def dot_S4x8192x16x16_S16x16_S4x8192x16x16_3_0_012_1_n_n : DotDims S4x8192x16x16 S16x16 S4x8192x16x16 where
  lhsContracting := [3]
  rhsContracting := [0]
  lhsNonContracting := [0, 1, 2]
  rhsNonContracting := [1]
  lhsBatch := []
  rhsBatch := []
  wf := dot_S4x8192x16x16_S16x16_S4x8192x16x16_3_0_012_1_n_n_wf
def dot_S32768x64x16_S32768x16x16_S32768x64x16_2_1_1_2_0_0 : DotDims S32768x64x16 S32768x16x16 S32768x64x16 where
  lhsContracting := [2]
  rhsContracting := [1]
  lhsNonContracting := [1]
  rhsNonContracting := [2]
  lhsBatch := [0]
  rhsBatch := [0]
  wf := dot_S32768x64x16_S32768x16x16_S32768x64x16_2_1_1_2_0_0_wf
def dot_S4x8192x1024_S1024x64_S4x8192x64_2_0_01_1_n_n : DotDims S4x8192x1024 S1024x64 S4x8192x64 where
  lhsContracting := [2]
  rhsContracting := [0]
  lhsNonContracting := [0, 1]
  rhsNonContracting := [1]
  lhsBatch := []
  rhsBatch := []
  wf := dot_S4x8192x1024_S1024x64_S4x8192x64_2_0_01_1_n_n_wf

class Facts : Prop extends Facts₀ where

variable [Facts]
-- ==== Proof.RefFrame.lean ====
/-
  The reference program is straight-line host code: its run ends, faults nowhere, and leaves the fourteen
  argument arrays as they were. That is its generated run with the result's value dropped.
-/
import proofs.«214101_g10505490006249_cont_week2b_118_28_alg».proof.Defs
import proofs.«214101_g10505490006249_cont_week2b_118_28_alg».proof.Proof.Gen.ReferenceIdeal.Run
import proofs.«214101_g10505490006249_cont_week2b_118_28_alg».proof.Proof.Gen.Pre_input_domain

noncomputable section

namespace Cert.Proof.RefSide

open Idealize.ShloMosaic Idealize.SL.Sem

/-- Every weakly fair execution of the reference terminates without a fault and keeps its arguments. -/
theorem frame_ri : Cert.frame_ReferenceIdeal := fun m ρ _ =>
  (θ_run Cert.ReferenceIdeal.defs _ _).mono (fun _ h c => (h c).2) (Cert.ReferenceIdeal.Value.run (F := Ideal) m ρ)

end Cert.Proof.RefSide

end
-- ==== Proof.Setup.lean ====
/-
  The idealized kernel program as the SparseCore launch theorem sees it: eight vector-subcore gather calls and
  eight TensorCore pipelines over one label table, and the resource algebra the proof runs in — the rounds of
  the launch handshakes, the rounds of the pipelines' staging cells, and the counters of the gather kernels'
  own local transfers.
-/
import proofs.«214101_g10505490006249_cont_week2b_118_28_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import Idealize.ShloMosaic.Lib.ValueIdx
import proofs.«214101_g10505490006249_cont_week2b_118_28_alg».proof.Proof.Gen.KernelIdeal
import proofs.«214101_g10505490006249_cont_week2b_118_28_alg».proof.Proof.Gen.KernelIdeal.Skeleton
import proofs.«214101_g10505490006249_cont_week2b_118_28_alg».proof.Proof.Gen.KernelIdeal.Launch

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 8) fun p => (pcfgs (F := F) p).Adm
abbrev K : SparseCore.Cfg τ sig (ΛP (F := F)) 8 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The launch handshakes' rounds. -/
abbrev UH : Type := URounds (GSem nD τ sig) ℕ
/-- The pipelines' staging cells' rounds. -/
abbrev UP : Type := URounds (GSem nD τ sig) Unit
/-- Handshakes, then pipelines beside the local transfers' counters. -/
abbrev UU : Type := UH × (UP × Counters)

local notation "𝕄" => MT nD τ sig (HIx 8) (Elt F) ℕ UU ℕ

abbrev EH : Emb UH (MT nD τ sig (HIx 8) (Elt F) ℕ UU ℕ) := embL
def EP : Emb UP (MT nD τ sig (HIx 8) (Elt F) ℕ UU ℕ) :=
  (Emb.inl : Emb UP (UP × Counters)).trans (embR : Emb (UP × Counters) (MT nD τ sig (HIx 8) (Elt F) ℕ UU ℕ))

instance EP_landsIn : (EP : Emb UP 𝕄).LandsIn (upEmb : UEmb _ 𝕄) := by unfold EP embR; infer_instance

end Cert.Proof.KI

/-! ## The arrays of the gather calls -/

namespace Cert.Proof.KI

open Cert.KernelIdeal Cert.KernelIdeal.Gen
open Idealize.ShloMosaic
open Idealize.ShloMosaic.SparseCore (S V T)
open Idealize.ShloMosaic.ValueIdx

variable {F : FTy → Type}

/-- The table of the 32768 flattened points (64 feature columns, 3 coordinate columns, zero padding to 128) and the
    flat list of the 524288 neighbour rows, as locations of device `d`'s TensorCore. -/
abbrev tblLoc (d : Dev nD) : Loc nD τ sig := (SparseCore.T d).loc main_v10
abbrev idxLoc (d : Dev nD) : Loc nD τ sig := (SparseCore.T d).loc main_v6

/-- The result array of gather call `q`: 65536 gathered rows. -/
def outRef : Fin 8 → Ref sig .tc
  | 0 => main_v34 | 1 => main_v36 | 2 => main_v38 | 3 => main_v40 | 4 => main_v42 | 5 => main_v44 | 6 => main_v46 | 7 => main_v48
abbrev outLoc (q : Fin 8) (d : Dev nD) : Loc nD τ sig := (SparseCore.T d).loc (outRef q)

/-- Worker `s * 2 + c` (vector subcore `s` of SparseCore `c`) owns result rows `[2048 w, 2048 (w + 1))`. -/
def wid (c : Fin 2) (s : Fin 16) : Fin 32 := ⟨s.val * 2 + c.val, by omega⟩

theorem hdiv32 : 32 ∣ S65536x128.size 0 := ⟨2048, rfl⟩
/-- The rows of worker `w`, as a rectangle of the result array and as its set of indices. -/
abbrev rowsRect (w : Fin 32) : Rect S65536x128 := Rect.part (s := S65536x128) (a₀ := 0) hdiv32 w
abbrev rowsSet (w : Fin 32) : Finset S65536x128.Idx :=
  ((Memref.whole main_v34_scv : Memref sig .scVector .hbm S65536x128 .f32).view.slice (rowsRect w)).set

/-- The row of the table a 32-bit index word names (every word the kernels meet is below 32768). -/
def rowOf (w : BitVec 32) : Fin 32768 := ⟨w.toNat % 32768, Nat.mod_lt _ (by decide)⟩

/-- What gather call `q` leaves in its result array: row `r` is the table's row named by entry `65536 q + r` of the
    index list. -/
def gathered (tv : S32768x128.Idx → Elt F .f32) (iv : S524288.Idx → Elt F .i32) (q : Fin 8) : S65536x128.Idx → Elt F .f32 :=
  fun j => tv (ix2 (rowOf (iv (ix1 ⟨q.val * 65536 + (j 0).val, by have := idx2_lt0 (n0 := 65536) (n1 := 128) j; have := q.isLt; omega⟩))) (j 1))

end Cert.Proof.KI

end
-- ==== Proof.MainSplit.lean ====
/-
  The idealized kernel's @main as three stretches: the host operations that build the table, the index list
  and the small weight arrays; the eight gather calls, each followed by its TensorCore call; the two
  operations that join the eight results.
-/
import proofs.«214101_g10505490006249_cont_week2b_118_28_alg».proof.Proof.Setup

noncomputable section

namespace Cert.Proof.KI

open Cert.KernelIdeal Cert.KernelIdeal.Gen
open Idealize.ShloMosaic Idealize.SL.Sem

variable {F : FTy → Type} [FloatOps F]

/-- The host operations before the first call, in program order. -/
def opsPre : List (HloOp τ sig (Elt F)) :=
  [ StableHlo.nullary main_v0 (iotaInDim S4 32 0),
    StableHlo.nullary main_c (constantI S_ 32 8192#32),
    StableHlo.unary main_c main_v1 (broadcastInDim S4 ![] bcast_S_S4 : (⟨S_, .i32⟩ : BufTy).Contents (Elt F) → (⟨S4, .i32⟩ : BufTy).Contents (Elt F)),
    StableHlo.binary main_v0 main_v1 main_v2 (muli : (⟨S4, .i32⟩ : BufTy).Contents (Elt F) → (⟨S4, .i32⟩ : BufTy).Contents (Elt F) → (⟨S4, .i32⟩ : BufTy).Contents (Elt F)),
    StableHlo.unary main_v2 main_v3 (broadcastInDim S4x1x1 ![0] bcast_S4_S4x1x1_0 : (⟨S4, .i32⟩ : BufTy).Contents (Elt F) → (⟨S4x1x1, .i32⟩ : BufTy).Contents (Elt F)),
    StableHlo.unary main_v3 main_v4 (broadcastInDim S4x8192x16 ![0, 1, 2] bcast_S4x1x1_S4x8192x16_0_1_2 : (⟨S4x1x1, .i32⟩ : BufTy).Contents (Elt F) → (⟨S4x8192x16, .i32⟩ : BufTy).Contents (Elt F)),
    StableHlo.binary main_arg3 main_v4 main_v5 (addi : (⟨S4x8192x16, .i32⟩ : BufTy).Contents (Elt F) → (⟨S4x8192x16, .i32⟩ : BufTy).Contents (Elt F) → (⟨S4x8192x16, .i32⟩ : BufTy).Contents (Elt F)),
    StableHlo.reshape main_v5 main_v6 rfl shapeCasts_S4x8192x16_S524288,
    StableHlo.reshape main_arg0 main_v7 rfl shapeCasts_S4x8192x64_S32768x64,
    StableHlo.reshape main_arg1 main_v8 rfl shapeCasts_S4x8192x3_S32768x3,
    StableHlo.binary main_v7 main_v8 main_v9 ((fun a b => concatenate S32768x67 1 [⟨S32768x64, a⟩, ⟨S32768x3, b⟩] concatenates_S32768x64_S32768x3_S32768x67_d1) : (⟨S32768x64, .f32⟩ : BufTy).Contents (Elt F) → (⟨S32768x3, .f32⟩ : BufTy).Contents (Elt F) → (⟨S32768x67, .f32⟩ : BufTy).Contents (Elt F)),
    StableHlo.nullary main_c_0 (constantI S_ 32 0#32),
    StableHlo.TRef.unary (StableHlo.TRef.of (T := ⟨S_, .i32⟩) main_c_0) main_call0.v0 (sitofp .f32),
    StableHlo.TRef.binary (StableHlo.TRef.of (T := ⟨S32768x67, .f32⟩) main_v9) main_call0.v0 main_call0.v1 (fun x v => pad S32768x128 ![0, 0] ![0, 61] ![0, 0] x v pads_S32768x67_S32768x128_000_0610 h_S_),
    StableHlo.reshape main_arg8 main_v11 rfl shapeCasts_S32x48_S32x3x16,
    StableHlo.nullary main_cst (constant S_ .f32 0x00000000#32),
    StableHlo.binary main_v11 main_cst main_v12 ((fun x v => Host.reduceAdd x v reducesTo_S32x3x16_S32x3_d2 h_S_) : (⟨S32x3x16, .f32⟩ : BufTy).Contents (Elt F) → (⟨S_, .f32⟩ : BufTy).Contents (Elt F) → (⟨S32x3, .f32⟩ : BufTy).Contents (Elt F)),
    StableHlo.unary main_v12 main_v13 ((transpose S3x32 [1, 0] · transposes_S32x3_S3x32_1_0) : (⟨S32x3, .f32⟩ : BufTy).Contents (Elt F) → (⟨S3x32, .f32⟩ : BufTy).Contents (Elt F)),
    StableHlo.nullary main_c_1 (constantI S_ 32 0#32),
    StableHlo.TRef.unary (StableHlo.TRef.of (T := ⟨S_, .i32⟩) main_c_1) main_call1.v0 (sitofp .f32),
    StableHlo.TRef.binary (StableHlo.TRef.of (T := ⟨S3x32, .f32⟩) main_v13) main_call1.v0 main_call1.v1 (fun x v => pad S128x32 ![64, 0] ![61, 0] ![0, 0] x v pads_S3x32_S128x32_64610_000 h_S_),
    StableHlo.unary main_arg7 main_v15 (broadcastInDim S1x3x16 ![1, 2] bcast_S3x16_S1x3x16_1_2 : (⟨S3x16, .f32⟩ : BufTy).Contents (Elt F) → (⟨S1x3x16, .f32⟩ : BufTy).Contents (Elt F)),
    StableHlo.unary main_v15 main_v16 (broadcastInDim S32x3x16 ![0, 1, 2] bcast_S1x3x16_S32x3x16_0_1_2 : (⟨S1x3x16, .f32⟩ : BufTy).Contents (Elt F) → (⟨S32x3x16, .f32⟩ : BufTy).Contents (Elt F)),
    StableHlo.binary main_v11 main_v16 main_v17 (mulf : (⟨S32x3x16, .f32⟩ : BufTy).Contents (Elt F) → (⟨S32x3x16, .f32⟩ : BufTy).Contents (Elt F) → (⟨S32x3x16, .f32⟩ : BufTy).Contents (Elt F)),
    StableHlo.nullary main_cst_2 (constant S_ .f32 0x00000000#32),
    StableHlo.binary main_v17 main_cst_2 main_v18 ((fun x v => Host.reduceAdd x v reducesTo_S32x3x16_S32_d1_2 h_S_) : (⟨S32x3x16, .f32⟩ : BufTy).Contents (Elt F) → (⟨S_, .f32⟩ : BufTy).Contents (Elt F) → (⟨S32, .f32⟩ : BufTy).Contents (Elt F)),
    StableHlo.binary main_arg9 main_v18 main_v19 (subf : (⟨S32, .f32⟩ : BufTy).Contents (Elt F) → (⟨S32, .f32⟩ : BufTy).Contents (Elt F) → (⟨S32, .f32⟩ : BufTy).Contents (Elt F)),
    StableHlo.unary main_v19 main_v20 (broadcastInDim S1x32 ![1] bcast_S32_S1x32_1 : (⟨S32, .f32⟩ : BufTy).Contents (Elt F) → (⟨S1x32, .f32⟩ : BufTy).Contents (Elt F)),
    StableHlo.reshape main_arg2 main_v21 rfl shapeCasts_S4x8192x3_S32768x3,
    StableHlo.binary main_v21 main_v13 main_v22 ((fun l r => Host.dotGeneral dot_S32768x3_S3x32_S32768x32_1_0_0_1_n_n none l r) : (⟨S32768x3, .f32⟩ : BufTy).Contents (Elt F) → (⟨S3x32, .f32⟩ : BufTy).Contents (Elt F) → (⟨S32768x32, .f32⟩ : BufTy).Contents (Elt F)),
    StableHlo.unary main_v20 main_v23 (broadcastInDim S32768x32 ![0, 1] bcast_S1x32_S32768x32_0_1 : (⟨S1x32, .f32⟩ : BufTy).Contents (Elt F) → (⟨S32768x32, .f32⟩ : BufTy).Contents (Elt F)),
    StableHlo.binary main_v23 main_v22 main_v24 (subf : (⟨S32768x32, .f32⟩ : BufTy).Contents (Elt F) → (⟨S32768x32, .f32⟩ : BufTy).Contents (Elt F) → (⟨S32768x32, .f32⟩ : BufTy).Contents (Elt F)),
    StableHlo.unary main_arg10 main_v25 ((transpose S32x16 [1, 0] · transposes_S16x32_S32x16_1_0) : (⟨S16x32, .f32⟩ : BufTy).Contents (Elt F) → (⟨S32x16, .f32⟩ : BufTy).Contents (Elt F)),
    StableHlo.reshape main_arg11 main_v26 rfl shapeCasts_S16_S1x16,
    StableHlo.unary main_arg12 main_v27 ((transpose S16x16 [1, 0] · transposes_S16x16_S16x16_1_0) : (⟨S16x16, .f32⟩ : BufTy).Contents (Elt F) → (⟨S16x16, .f32⟩ : BufTy).Contents (Elt F)),
    StableHlo.reshape main_arg13 main_v28 rfl shapeCasts_S16_S1x16,
    StableHlo.unary main_arg5 main_v29 ((transpose S16x64x64 [1, 0, 2] · transposes_S64x16x64_S16x64x64_1_0_2) : (⟨S64x16x64, .f32⟩ : BufTy).Contents (Elt F) → (⟨S16x64x64, .f32⟩ : BufTy).Contents (Elt F)),
    StableHlo.nullary main_cst_3 (constant S_ .f32 0x41800000#32),
    StableHlo.unary main_cst_3 main_v30 (broadcastInDim S16x64x64 ![] bcast_S_S16x64x64 : (⟨S_, .f32⟩ : BufTy).Contents (Elt F) → (⟨S16x64x64, .f32⟩ : BufTy).Contents (Elt F)),
    StableHlo.binary main_v29 main_v30 main_v31 (Host.divf : (⟨S16x64x64, .f32⟩ : BufTy).Contents (Elt F) → (⟨S16x64x64, .f32⟩ : BufTy).Contents (Elt F) → (⟨S16x64x64, .f32⟩ : BufTy).Contents (Elt F)),
    StableHlo.reshape main_v31 main_v32 rfl shapeCasts_S16x64x64_S1024x64,
    StableHlo.reshape main_arg6 main_v33 rfl shapeCasts_S64_S1x64 ]

/-- The two host operations after the last call: the eight results stacked, then given the batch shape. -/
def opsPost : List (HloOp τ sig (Elt F)) :=
  [ StableHlo.nary ![main_v35, main_v37, main_v39, main_v41, main_v43, main_v45, main_v47, main_v49] main_v50 (fun u => concatenate S32768x64 0 [⟨S4096x64, u 0⟩, ⟨S4096x64, u 1⟩, ⟨S4096x64, u 2⟩, ⟨S4096x64, u 3⟩, ⟨S4096x64, u 4⟩, ⟨S4096x64, u 5⟩, ⟨S4096x64, u 6⟩, ⟨S4096x64, u 7⟩] concatenates_S4096x64_S4096x64_S4096x64_S4096x64_S4096x64_S4096x64_S4096x64_S4096x64_S32768x64_d0),
    StableHlo.reshape main_v50 main_v51 rfl shapeCasts_S32768x64_S4x8192x64 ]

/-- The eight gather calls, each followed by its TensorCore call, then `k`. -/
def calls (d : Dev nD) (k : Prog (TpuEff nD τ sig (Elt F) (SparseCore.Sig (ΛP (F := F)) 8) .tc) PUnit) :
    Prog (TpuEff nD τ sig (Elt F) (SparseCore.Sig (ΛP (F := F)) 8) .tc) PUnit := do
  sc.run d 0
  Prog.lift (.customCall (SparseCore.inner (Pipeline.entry 0)) ())
  sc.run d 1
  Prog.lift (.customCall (SparseCore.inner (Pipeline.entry 1)) ())
  sc.run d 2
  Prog.lift (.customCall (SparseCore.inner (Pipeline.entry 2)) ())
  sc.run d 3
  Prog.lift (.customCall (SparseCore.inner (Pipeline.entry 3)) ())
  sc.run d 4
  Prog.lift (.customCall (SparseCore.inner (Pipeline.entry 4)) ())
  sc.run d 5
  Prog.lift (.customCall (SparseCore.inner (Pipeline.entry 5)) ())
  sc.run d 6
  Prog.lift (.customCall (SparseCore.inner (Pipeline.entry 6)) ())
  sc.run d 7
  Prog.lift (.customCall (SparseCore.inner (Pipeline.entry 7)) ())
  k

set_option maxRecDepth 8192 in
/-- @main is the first stretch, the calls, the last stretch. -/
theorem main_split (d : Dev nD) :
    main (F := F) d = (StableHlo.seq opsPre >>= fun _ => calls d (StableHlo.seq opsPost)) := by
  chain_rfl

end Cert.Proof.KI

end
-- ==== Proof.Launch.lean ====
/-
  The launch of the idealized kernel program: what each gather call hands its SparseCores and tiles and takes
  back, the obligations of the launch theorem, and the program's run.
-/
import proofs.«214101_g10505490006249_cont_week2b_118_28_alg».proof.Proof.Setup
import proofs.«214101_g10505490006249_cont_week2b_118_28_alg».proof.Proof.MainSplit

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Transfers (shareTok shareDrop pointsTo_toks_split pointsTo_toks_join)

variable {F : FTy → Type}

local notation "𝕄" => MT nD τ sig (HIx 8) (Elt F) ℕ UU ℕ

/-! ## The calls' grids -/

theorem nCore_eq (q : Fin 8) : (K (F := F)).nCore q = 2 := by fin_cases q <;> rfl
theorem nSub_eq (q : Fin 8) : (K (F := F)).nSub q = 16 := by fin_cases q <;> rfl
abbrev cC (q : Fin 8) (c : Fin ((K (F := F)).nCore q)) : Fin 2 := Fin.cast (nCore_eq q) c
abbrev sS (q : Fin 8) (i : Fin ((K (F := F)).nSub q)) : Fin 16 := Fin.cast (nSub_eq q) i

/-! ## What the handshakes carry -/

/-- The result array of call `q` on the index set `s`, at share `sh` and contents `f` (the eight arrays have one
    shape; the case split on the call is here and nowhere else). -/
def outPts (q : Fin 8) (d : Dev nD) (s : Finset S65536x128.Idx) (sh : PosShare TreeShare) (f : S65536x128.Idx → Elt F .f32) : sProp 𝕄 :=
  match q with
  | 0 => (SparseCore.T d).loc main_v34 ↦[s]{sh} f
  | 1 => (SparseCore.T d).loc main_v36 ↦[s]{sh} f
  | 2 => (SparseCore.T d).loc main_v38 ↦[s]{sh} f
  | 3 => (SparseCore.T d).loc main_v40 ↦[s]{sh} f
  | 4 => (SparseCore.T d).loc main_v42 ↦[s]{sh} f
  | 5 => (SparseCore.T d).loc main_v44 ↦[s]{sh} f
  | 6 => (SparseCore.T d).loc main_v46 ↦[s]{sh} f
  | 7 => (SparseCore.T d).loc main_v48 ↦[s]{sh} f

instance outPts_storable (q : Fin 8) (d : Dev nD) (s : Finset S65536x128.Idx) (sh : PosShare TreeShare) (f : S65536x128.Idx → Elt F .f32) :
    BI.Storable (upEmb : UEmb _ 𝕄) (outPts q d s sh f) := by
  unfold outPts; split <;> infer_instance

/-- SparseCore `c`'s read share of the table and of the index list, and tile `(c, i)`'s share of that. -/
abbrev shC (c : Fin 2) : PosShare TreeShare := shareTok fullShare 2 c
abbrev shT (c : Fin 2) (i : Fin 16) : PosShare TreeShare := shareTok (shC c) 16 i

variable (tv : (d : Dev nD) → S32768x128.Idx → Elt F .f32) (iv : (d : Dev nD) → S524288.Idx → Elt F .i32)

/-- Call `q` hands SparseCore `c` a read share of the table and of the index list and its sixteen workers' result
    rows; tile `(c, i)` gets its share of the two and worker `2 i + c`'s rows, and hands them back with the rows at
    the gathered contents. -/
def P : (K (F := F)).Pay (nD := nD) (Val := Elt F) (Name := ℕ) (U := UU) where
  st := fun q d c => iprop((tblLoc d ↦{shC (cC q c)} tv d) ∗ (idxLoc d ↦{shC (cC q c)} iv d)
    ∗ bigSep Finset.univ fun i : Fin 16 => iprop(∃ f, outPts q d (rowsSet (wid (cC q c) i)) fullShare f))
  dn := fun q d c => iprop((tblLoc d ↦{shC (cC q c)} tv d) ∗ (idxLoc d ↦{shC (cC q c)} iv d)
    ∗ bigSep Finset.univ fun i : Fin 16 => outPts q d (rowsSet (wid (cC q c) i)) fullShare (gathered (tv d) (iv d) q))
  go := fun q d c i => iprop((tblLoc d ↦{shT (cC q c) (sS q i)} tv d) ∗ (idxLoc d ↦{shT (cC q c) (sS q i)} iv d)
    ∗ ∃ f, outPts q d (rowsSet (wid (cC q c) (sS q i))) fullShare f)
  td := fun q d c i => iprop((tblLoc d ↦{shT (cC q c) (sS q i)} tv d) ∗ (idxLoc d ↦{shT (cC q c) (sS q i)} iv d)
    ∗ outPts q d (rowsSet (wid (cC q c) (sS q i))) fullShare (gathered (tv d) (iv d) q))
  x := fun _ _ => iprop(emp)

instance P_storable : (P (F := F) tv iv).IsStorable where
  st _ _ _ := by unfold P; infer_instance
  dn _ _ _ := by unfold P; infer_instance
  go _ _ _ _ := by unfold P; infer_instance
  td _ _ _ _ := by unfold P; infer_instance

/-! ## Regrouping the tiles -/

omit tv iv in
/-- A conjunction over a call's sixteen tiles, indexed by the call's own count, is one over `Fin 16`. -/
theorem bigSep_sS (q : Fin 8) (Φ : Fin 16 → sProp 𝕄) :
    (bigSep Finset.univ fun i : Fin ((K (F := F)).nSub q) => Φ (sS q i)) = bigSep Finset.univ Φ := by
  fin_cases q <;> exact bigSep_congr fun _ _ => congrArg Φ (Fin.ext rfl)

/-- What tile `j` of SparseCore `c` is handed at call `q`, and what it hands back. -/
def goR (q : Fin 8) (d : Dev nD) (c : Fin 2) (j : Fin 16) : sProp 𝕄 :=
  iprop((tblLoc d ↦{shT c j} tv d) ∗ (idxLoc d ↦{shT c j} iv d) ∗ ∃ f, outPts q d (rowsSet (wid c j)) fullShare f)
def tdR (q : Fin 8) (d : Dev nD) (c : Fin 2) (j : Fin 16) : sProp 𝕄 :=
  iprop((tblLoc d ↦{shT c j} tv d) ∗ (idxLoc d ↦{shT c j} iv d) ∗ outPts q d (rowsSet (wid c j)) fullShare (gathered (tv d) (iv d) q))

/-- A SparseCore's share of the table and the index list splits into its tiles' shares (a remainder stays with the
    sequencer until the tiles hand theirs back), its workers' rows go one block to each tile. -/
theorem vecSplit (q : Fin 8) : (K (F := F)).VecSplit' (P (F := F) tv iv) q := by
  intro d c
  show iprop((tblLoc d ↦{shC (cC q c)} tv d) ∗ (idxLoc d ↦{shC (cC q c)} iv d)
      ∗ bigSep Finset.univ fun i : Fin 16 => iprop(∃ f, outPts q d (rowsSet (wid (cC q c) i)) fullShare f))
    ⊢ |={Set.univ}=> iprop(
      (bigSep Finset.univ fun i : Fin ((K (F := F)).nSub q) => goR tv iv q d (cC q c) (sS q i))
      ∗ ((bigSep Finset.univ fun i : Fin ((K (F := F)).nSub q) => tdR tv iv q d (cC q c) (sS q i))
        -∗ iprop((tblLoc d ↦{shC (cC q c)} tv d) ∗ (idxLoc d ↦{shC (cC q c)} iv d)
          ∗ bigSep Finset.univ fun i : Fin 16 => outPts q d (rowsSet (wid (cC q c) i)) fullShare (gathered (tv d) (iv d) q))))
  rw [bigSep_sS q (goR tv iv q d (cC q c)), bigSep_sS q (tdR tv iv q d (cC q c))]
  unfold goR tdR
  rw [bigSep_sep', bigSep_sep', bigSep_sep', bigSep_sep']
  iintro ⟨Ht, Hi, Ho⟩
  ihave Ht' := (pointsTo_toks_split (shC (cC q c)) 16) $$ Ht
  icases Ht' with ⟨Htr, Htt⟩
  ihave Hi' := (pointsTo_toks_split (shC (cC q c)) 16) $$ Hi
  icases Hi' with ⟨Hir, Hit⟩
  imodintro
  isplitl [Htt Hit Ho]
  · isplitl [Htt]; · iexact Htt
    isplitl [Hit]; · iexact Hit
    iexact Ho
  iintro ⟨Htt, Hit, Ho⟩
  isplitl [Htr Htt]
  · iapply (pointsTo_toks_join (shC (cC q c)) 16)
    isplitl [Htr] <;> iassumption
  isplitl [Hir Hit]
  · iapply (pointsTo_toks_join (shC (cC q c)) 16)
    isplitl [Hir] <;> iassumption
  iexact Ho

/-! ## The launch element: the handshakes' rounds and the pipelines' -/

variable [FloatOps F]

/-- The pipelines' staging cells' launch ghost state and duty tokens on device `d`: what @main enters each
    TensorCore call with. -/
def G (d : Dev nD) : sProp 𝕄 :=
  bigSep Finset.univ fun p : Fin 8 => iprop(Pipeline.cellsGhost cfgs (EP (F := F)) p d ∗ Pipeline.toksInit cfgs (EP (F := F)) p d)

def u₀ : UU := (initOf (K (F := F)).hsCells (K (F := F)).hsToks,
  (initOf (Pipeline.cells (nD := nD) (τ := τ) cfgs cellOf_inj) (Pipeline.launchToks (nD := nD) (τ := τ) cfgs cellOf_inj), 1))

omit [FloatOps F] in
theorem bigSep_emp' {I : Type} (s : Finset I) : (bigSep s fun _ => iprop(emp)) = (iprop(emp) : sProp 𝕄) := bigSep_emp_const s

omit [FloatOps F] in
/-- The pipelines' component, reached through the right factor then its left half, is `EP`. -/
theorem own_EP (x : UP) :
    (BI.own (((Emb.inl : Emb UP (UP × Counters)).trans (embR : Emb (UP × Counters) 𝕄)) x) : sProp 𝕄) ⊢ BI.own (EP (F := F) x) := by
  unfold EP; exact BI.Entails.refl _

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 8 => (P (F := F) tv iv).x q thr) := by
  unfold u₀
  iintro Hu
  ihave H := (ownU_pair _ _) $$ Hu
  icases H with ⟨HH, HR⟩
  ihave H2 := (own_pair_emb (embR : Emb (UP × Counters) 𝕄) _ _) $$ HR
  icases H2 with ⟨HP0, -⟩
  ihave HP := (own_EP (F := F) _) $$ HP0
  imod (Pipeline.fund_ghost (nD := nD) (τ := τ) cfgs (EP (F := F)) cellOf_inj) $$ HP with ⟨Hg, Ht⟩
  imodintro
  isplitl [HH]; · iexact HH
  isplitl [Hg Ht]
  · rw [show (bigSep Finset.univ fun d : Dev nD => G (F := F) d)
        = iprop((bigSep Finset.univ fun d : Dev nD => bigSep Finset.univ fun p : Fin 8 => Pipeline.cellsGhost cfgs (EP (F := F)) p d)
          ∗ (bigSep Finset.univ fun d : Dev nD => bigSep Finset.univ fun p : Fin 8 => Pipeline.toksInit cfgs (EP (F := F)) p d)) from by
      unfold G; rw [← bigSep_sep']; exact bigSep_congr fun d _ => bigSep_sep' _ _ _]
    isplitl [Hg]; · iexact Hg
    iexact Ht
  · unfold P; dsimp only
    rw [show (bigSep Finset.univ fun _ : Thread nD τ => bigSep Finset.univ fun _ : Fin 8 => (iprop(emp) : sProp 𝕄)) = iprop(emp) from by
      rw [bigSep_congr fun _ _ => bigSep_emp' _, bigSep_emp']]
    iempintro

/-! ## What @main starts from and ends with -/

variable (m : (ℓ : Loc nD τ sig) → Buf (Elt F) ℓ) (ρ : Dev nD → PrngReg)

/-- The TensorCore's unscoped buffers, as device references. -/
def Sun : Finset (DevRef τ sig) :=
  (Finset.univ.filter fun b : Ref sig .tc => ¬ b.isScoped).map ⟨Proc.devRef (sig := sig) (.tc : Proc τ), Proc.devRef_injective _⟩

omit [FloatOps F] tv iv in
/-- The unscoped buffers the launch deals the TensorCore are `held` over that set. -/
theorem unscoped_held (d : Dev nD) (W : Valuation τ sig (Elt F)) :
    (unscopedBufs d (fun b => W (Proc.devRef .tc b)) : sProp 𝕄) = held (SparseCore.T d) Sun W := by
  unfold unscopedBufs held Sun; rw [bigSep_map]; rfl

-- The contents of a TensorCore's buffers when @main returns (a parameter here; the run instantiates it).
variable (Vfin : Dev nD → Valuation τ sig (Elt F))

/-- What @main leaves the claim: every unscoped buffer held at its final contents. -/
def FIN (d : Dev nD) : sProp 𝕄 := held (SparseCore.T d) Sun (Vfin d)

def fq (d : Dev nD) (s' : Phys nD τ sig (Elt F)) : Prop := ∀ b ∈ (Sun : Finset (DevRef τ sig)), s'.mem.mem (d, b) = Vfin d b

omit [FloatOps F] tv iv in
theorem hfin (d : Dev nD) (s' : Phys nD τ sig (Elt F)) : iprop(FIN (F := F) Vfin d ∗ SI s') ⊢ (⌜fq Vfin d s'⌝ : sProp 𝕄) := by
  unfold FIN held
  iintro ⟨H, HSI⟩
  ihave %h := (SI_pointsTo_bufs_agree (qs := fun _ => fullShare) (Sun : Finset (DevRef τ sig))) $$ [HSI H]
  · isplitl [HSI]; · iexact HSI
    iexact H
  ipureintro
  exact h

def QC : PUnit × MemSt nD τ sig (Elt F) → Prop := fun r => ∀ (d : Dev nD), ∀ b ∈ (Sun : Finset (DevRef τ sig)), r.2.mem (d, b) = Vfin d b

end Cert.Proof.KI

end
-- ==== Proof.MainHost.lean ====
/-
  @main's first stretch on the TensorCore: the host operations that build the table, the index list and the small
  weight arrays run over the unscoped buffers held whole, from the launch contents to the contents after them.
-/
import proofs.«214101_g10505490006249_cont_week2b_118_28_alg».proof.Proof.Launch

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Transfers (shareTok shareDrop pointsTo_toks_split pointsTo_toks_join)

variable {F : FTy → Type}

local notation "𝕄" => MT nD τ sig (HIx 8) (Elt F) ℕ UU ℕ

variable [FloatOps F]
variable (m : (ℓ : Loc nD τ sig) → Buf (Elt F) ℓ)

/-! ## Every buffer the host operations touch is unscoped -/

theorem mem_Sun (x : Ref sig .tc) (h : ¬ x.isScoped) : Proc.devRef (τ := τ) .tc x ∈ (Sun : Finset (DevRef τ sig)) :=
  Finset.mem_map_of_mem _ (Finset.mem_filter.mpr ⟨Finset.mem_univ x, h⟩)
theorem sub_Sun1 (y : Ref sig .tc) (hy : ¬ y.isScoped) : ({Proc.devRef .tc y} : Finset (DevRef τ sig)) ⊆ Sun :=
  Finset.singleton_subset_iff.mpr (mem_Sun y hy)
theorem sub_Sun2 (x y : Ref sig .tc) (hx : ¬ x.isScoped) (hy : ¬ y.isScoped) :
    ({Proc.devRef .tc x, Proc.devRef .tc y} : Finset (DevRef τ sig)) ⊆ Sun :=
  Finset.insert_subset (mem_Sun x hx) (sub_Sun1 y hy)
theorem sub_Sun3 (a b y : Ref sig .tc) (ha : ¬ a.isScoped) (hb : ¬ b.isScoped) (hy : ¬ y.isScoped) :
    ({Proc.devRef .tc a, Proc.devRef .tc b, Proc.devRef .tc y} : Finset (DevRef τ sig)) ⊆ Sun :=
  Finset.insert_subset (mem_Sun a ha) (sub_Sun2 b y hb hy)

set_option maxRecDepth 8192 in
theorem opsPre_sub : ∀ op ∈ (opsPre : List (HloOp τ sig (Elt F))), op.bufs ⊆ (Sun : Finset (DevRef τ sig)) := by
  intro op h
  unfold opsPre at h
  repeat (cases h with
    | head => first
      | exact sub_Sun1 _ (by decide)
      | exact sub_Sun2 _ _ (by decide) (by decide)
      | exact sub_Sun3 _ _ _ (by decide) (by decide) (by decide)
    | tail _ h => ?_)
  exact nomatch h

set_option maxRecDepth 8192 in
theorem opsPre_fresh : ∀ op ∈ (opsPre : List (HloOp τ sig (Elt F))), op.fresh = ∅ := by
  intro op h
  unfold opsPre at h
  repeat (cases h with | head => rfl | tail _ h => ?_)
  exact nomatch h

/-! ## The contents after the first stretch -/

/-- Device `d`'s buffer contents after the first stretch. -/
def V1 (d : Dev nD) : Valuation τ sig (Elt F) := StableHlo.after (opsPre (F := F)) (StableHlo.launchContents m d)

/-- The table and the index list the gather calls read. -/
def tvOf (d : Dev nD) : S32768x128.Idx → Elt F .f32 := V1 m d (Proc.devRef .tc main_v10)
def ivOf (d : Dev nD) : S524288.Idx → Elt F .i32 := V1 m d (Proc.devRef .tc main_v6)

set_option backward.isDefEq.respectTransparency.types false in
/-- The first stretch: from the boundary and the unscoped buffers at the launch contents to the same at `V1`. -/
theorem pre_stretch (d : Dev nD) {β : Type} (k : PUnit → Prog (TpuEff nD τ sig (Elt F) (SparseCore.Sig (ΛP (F := F)) 8) .tc) β) (Φ : β → sProp 𝕄) :
    iprop(boundary (SparseCore.T d) ∗ unscopedBufs d (fun b => m ((SparseCore.T d).loc b))
        ∗ ((boundary (SparseCore.T d) ∗ held (SparseCore.T d) Sun (V1 m d))
            -∗ wp frame (wpE ((K (F := F)).defs (D (F := F))) 𝒱 (SparseCore.T d) none) Set.univ (k ⟨⟩) Φ))
      ⊢ wp frame (wpE ((K (F := F)).defs (D (F := F))) 𝒱 (SparseCore.T d) none) Set.univ (StableHlo.seq opsPre >>= k) Φ := by
  iintro ⟨Hb, Hun, Hk⟩
  ihave Hh := (Entails.of_eq (unscoped_held (F := F) d (StableHlo.launchContents m d))) $$ Hun
  iapply (StableHlo.wp_seq 𝒱 none Set.univ d Sun k opsPre opsPre_sub opsPre_fresh (StableHlo.launchContents m d)) $$ [Hb Hh]
  · isplitl [Hb] <;> iassumption
  iexact Hk

end Cert.Proof.KI

end
-- ==== Proof.CallShares.lean ====
/-
  How a gather call's three arrays, held whole by the TensorCore, are dealt to the call's two SparseCores (a read
  token each of the table and the index list, and the result rows by worker block) and taken back whole, the result at
  the gathered contents.
-/
import proofs.«214101_g10505490006249_cont_week2b_118_28_alg».proof.Proof.Launch

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Transfers (shareTok shareDrop pointsTo_toks_split pointsTo_toks_join)

variable {F : FTy → Type}

local notation "𝕄" => MT nD τ sig (HIx 8) (Elt F) ℕ UU ℕ

variable (tv : (d : Dev nD) → S32768x128.Idx → Elt F .f32) (iv : (d : Dev nD) → S524288.Idx → Elt F .i32)

/-! ## The thirty-two worker blocks tile the result array -/

theorem rowsSet_eq (w : Fin 32) : rowsSet w = (rowsRect w).set := by
  show ((View.whole (main_v34_scv : Ref sig .scVector)).slice (rowsRect w)).set = _
  rw [View.set_slice]; exact Finset.map_refl
theorem rows_disjoint : ∀ i ∈ (Finset.univ : Finset (Fin 32)), ∀ j ∈ (Finset.univ : Finset (Fin 32)), i ≠ j → Disjoint (rowsSet i) (rowsSet j) :=
  fun i _ j _ h => by rw [rowsSet_eq, rowsSet_eq]; exact Rect.part_disjoint hdiv32 h
theorem rows_cover : (Finset.univ : Finset (Fin 32)).biUnion rowsSet = Finset.univ :=
  (Finset.biUnion_congr rfl fun i _ => rowsSet_eq i).trans (Rect.biUnion_part hdiv32)

omit tv iv in
/-- The result array whole is its thirty-two worker blocks. -/
theorem outPts_rows (q : Fin 8) (d : Dev nD) (f : S65536x128.Idx → Elt F .f32) :
    (outPts q d Finset.univ fullShare f : sProp 𝕄) = bigSep Finset.univ fun w : Fin 32 => outPts q d (rowsSet w) fullShare f := by
  match q with
  | 0 =>
    show ((SparseCore.T d).loc main_v34 ↦{fullShare} f : sProp 𝕄) = bigSep Finset.univ fun w : Fin 32 => (SparseCore.T d).loc main_v34 ↦[rowsSet w]{fullShare} f
    rw [← pointsTo_biUnion Finset.univ (ℓ := (SparseCore.T d).loc main_v34) rowsSet rows_disjoint, rows_cover]
  | 1 =>
    show ((SparseCore.T d).loc main_v36 ↦{fullShare} f : sProp 𝕄) = bigSep Finset.univ fun w : Fin 32 => (SparseCore.T d).loc main_v36 ↦[rowsSet w]{fullShare} f
    rw [← pointsTo_biUnion Finset.univ (ℓ := (SparseCore.T d).loc main_v36) rowsSet rows_disjoint, rows_cover]
  | 2 =>
    show ((SparseCore.T d).loc main_v38 ↦{fullShare} f : sProp 𝕄) = bigSep Finset.univ fun w : Fin 32 => (SparseCore.T d).loc main_v38 ↦[rowsSet w]{fullShare} f
    rw [← pointsTo_biUnion Finset.univ (ℓ := (SparseCore.T d).loc main_v38) rowsSet rows_disjoint, rows_cover]
  | 3 =>
    show ((SparseCore.T d).loc main_v40 ↦{fullShare} f : sProp 𝕄) = bigSep Finset.univ fun w : Fin 32 => (SparseCore.T d).loc main_v40 ↦[rowsSet w]{fullShare} f
    rw [← pointsTo_biUnion Finset.univ (ℓ := (SparseCore.T d).loc main_v40) rowsSet rows_disjoint, rows_cover]
  | 4 =>
    show ((SparseCore.T d).loc main_v42 ↦{fullShare} f : sProp 𝕄) = bigSep Finset.univ fun w : Fin 32 => (SparseCore.T d).loc main_v42 ↦[rowsSet w]{fullShare} f
    rw [← pointsTo_biUnion Finset.univ (ℓ := (SparseCore.T d).loc main_v42) rowsSet rows_disjoint, rows_cover]
  | 5 =>
    show ((SparseCore.T d).loc main_v44 ↦{fullShare} f : sProp 𝕄) = bigSep Finset.univ fun w : Fin 32 => (SparseCore.T d).loc main_v44 ↦[rowsSet w]{fullShare} f
    rw [← pointsTo_biUnion Finset.univ (ℓ := (SparseCore.T d).loc main_v44) rowsSet rows_disjoint, rows_cover]
  | 6 =>
    show ((SparseCore.T d).loc main_v46 ↦{fullShare} f : sProp 𝕄) = bigSep Finset.univ fun w : Fin 32 => (SparseCore.T d).loc main_v46 ↦[rowsSet w]{fullShare} f
    rw [← pointsTo_biUnion Finset.univ (ℓ := (SparseCore.T d).loc main_v46) rowsSet rows_disjoint, rows_cover]
  | 7 =>
    show ((SparseCore.T d).loc main_v48 ↦{fullShare} f : sProp 𝕄) = bigSep Finset.univ fun w : Fin 32 => (SparseCore.T d).loc main_v48 ↦[rowsSet w]{fullShare} f
    rw [← pointsTo_biUnion Finset.univ (ℓ := (SparseCore.T d).loc main_v48) rowsSet rows_disjoint, rows_cover]

/-! ## Workers are (core, subcore) pairs -/

theorem wid_inj : Set.InjOn (fun p : Fin 2 × Fin 16 => wid p.1 p.2) ((Finset.univ : Finset (Fin 2 × Fin 16)) : Set _) := by
  intro a _ b _ e
  have h : a.2.val * 2 + a.1.val = b.2.val * 2 + b.1.val := congrArg Fin.val e
  have h1 := a.1.isLt; have h2 := b.1.isLt
  exact Prod.ext (Fin.ext (by omega)) (Fin.ext (by omega))
theorem wid_image : (Finset.univ : Finset (Fin 32)) = (Finset.univ : Finset (Fin 2 × Fin 16)).image fun p => wid p.1 p.2 := by decide

omit tv iv in
/-- A conjunction over the thirty-two workers is one over the two cores of one over each core's sixteen subcores. -/
theorem bigSep_workers (Φ : Fin 32 → sProp 𝕄) :
    bigSep Finset.univ Φ = bigSep Finset.univ fun c : Fin 2 => bigSep Finset.univ fun i : Fin 16 => Φ (wid c i) := by
  rw [wid_image, SparseCore.bigSep_image_of_injOn wid_inj Φ, ← Finset.univ_product_univ, SparseCore.bigSep_product]

omit tv iv in
/-- A conjunction over a call's two SparseCores, indexed by the call's own count, is one over `Fin 2`. -/
theorem bigSep_cC (q : Fin 8) (Φ : Fin 2 → sProp 𝕄) :
    (bigSep Finset.univ fun c : Fin ((K (F := F)).nCore q) => Φ (cC q c)) = bigSep Finset.univ Φ := by
  fin_cases q <;> exact bigSep_congr fun _ _ => congrArg Φ (Fin.ext rfl)

/-! ## Dealing the call its operands, and taking them back -/

/-- What the call hands SparseCore `c`, and takes back, over `Fin 2`. -/
def stR (q : Fin 8) (d : Dev nD) (c : Fin 2) : sProp 𝕄 :=
  iprop((tblLoc d ↦{shC c} tv d) ∗ (idxLoc d ↦{shC c} iv d)
    ∗ bigSep Finset.univ fun i : Fin 16 => iprop(∃ f, outPts q d (rowsSet (wid c i)) fullShare f))
def dnR (q : Fin 8) (d : Dev nD) (c : Fin 2) : sProp 𝕄 :=
  iprop((tblLoc d ↦{shC c} tv d) ∗ (idxLoc d ↦{shC c} iv d)
    ∗ bigSep Finset.univ fun i : Fin 16 => outPts q d (rowsSet (wid c i)) fullShare (gathered (tv d) (iv d) q))

theorem st_eq (q : Fin 8) (d : Dev nD) :
    (bigSep Finset.univ fun c : Fin ((K (F := F)).nCore q) => (P (F := F) tv iv).st q d c) = bigSep Finset.univ fun c : Fin 2 => stR tv iv q d c :=
  bigSep_cC q (stR tv iv q d)
theorem dn_eq (q : Fin 8) (d : Dev nD) :
    (bigSep Finset.univ fun c : Fin ((K (F := F)).nCore q) => (P (F := F) tv iv).dn q d c) = bigSep Finset.univ fun c : Fin 2 => dnR tv iv q d c :=
  bigSep_cC q (dnR tv iv q d)

omit tv iv in
/-- Rows held at one array's contents are rows held at some contents. -/
theorem rows_ex (q : Fin 8) (d : Dev nD) (f : S65536x128.Idx → Elt F .f32) :
    (bigSep Finset.univ fun c : Fin 2 => bigSep Finset.univ fun i : Fin 16 => outPts q d (rowsSet (wid c i)) fullShare f : sProp 𝕄)
      ⊢ bigSep Finset.univ fun c : Fin 2 => bigSep Finset.univ fun i : Fin 16 => iprop(∃ f, outPts q d (rowsSet (wid c i)) fullShare f) :=
  bigSep_mono fun c _ => bigSep_mono fun i _ => exists_intro (Φ := fun f => outPts q d (rowsSet (wid c i)) fullShare f) f

/-- From the three arrays whole: each SparseCore's operands, and the remainder of the two read shares. -/
theorem st_intro (q : Fin 8) (d : Dev nD) (f : S65536x128.Idx → Elt F .f32) :
    iprop((tblLoc d ↦{fullShare} tv d) ∗ (idxLoc d ↦{fullShare} iv d) ∗ outPts q d Finset.univ fullShare f)
      ⊢ iprop(((tblLoc d ↦{shareDrop fullShare 2} tv d) ∗ (idxLoc d ↦{shareDrop fullShare 2} iv d))
          ∗ bigSep Finset.univ fun c : Fin ((K (F := F)).nCore q) => (P (F := F) tv iv).st q d c) := by
  rw [st_eq, outPts_rows, bigSep_workers]
  unfold stR
  rw [bigSep_sep', bigSep_sep']
  iintro ⟨Ht, Hi, Ho⟩
  ihave Ht' := (pointsTo_toks_split fullShare 2) $$ Ht
  icases Ht' with ⟨Htr, Htt⟩
  ihave Hi' := (pointsTo_toks_split fullShare 2) $$ Hi
  icases Hi' with ⟨Hir, Hit⟩
  isplitl [Htr Hir]
  · isplitl [Htr] <;> iassumption
  isplitl [Htt]; · iexact Htt
  isplitl [Hit]; · iexact Hit
  iapply (rows_ex q d f)
  iexact Ho

/-- Back: the three arrays whole, the result at the gathered contents. -/
theorem dn_elim (q : Fin 8) (d : Dev nD) :
    iprop(((tblLoc d ↦{shareDrop fullShare 2} tv d) ∗ (idxLoc d ↦{shareDrop fullShare 2} iv d))
        ∗ bigSep Finset.univ fun c : Fin ((K (F := F)).nCore q) => (P (F := F) tv iv).dn q d c)
      ⊢ iprop((tblLoc d ↦{fullShare} tv d) ∗ (idxLoc d ↦{fullShare} iv d) ∗ outPts q d Finset.univ fullShare (gathered (tv d) (iv d) q)) := by
  rw [dn_eq, outPts_rows, bigSep_workers]
  unfold dnR
  rw [bigSep_sep', bigSep_sep']
  iintro ⟨⟨Htr, Hir⟩, Htt, Hit, Ho⟩
  isplitl [Htr Htt]
  · iapply (pointsTo_toks_join fullShare 2)
    isplitl [Htr] <;> iassumption
  isplitl [Hir Hit]
  · iapply (pointsTo_toks_join fullShare 2)
    isplitl [Hir] <;> iassumption
  iexact Ho

end Cert.Proof.KI

end
-- ==== Proof.CallStep.lean ====
/-
  One gather call as @main meets it: the TensorCore hands the table, the index list and the call's result array, held
  whole, to the call's SparseCores and gets them back, the result at the gathered contents.
-/
import proofs.«214101_g10505490006249_cont_week2b_118_28_alg».proof.Proof.CallShares

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Transfers (shareTok shareDrop pointsTo_toks_split pointsTo_toks_join)

variable {F : FTy → Type}

local notation "𝕄" => MT nD τ sig (HIx 8) (Elt F) ℕ UU ℕ

variable [FloatOps F]
variable (tv : (d : Dev nD) → S32768x128.Idx → Elt F .f32) (iv : (d : Dev nD) → S524288.Idx → Elt F .i32)

/-- Gather call `q` on device `d`'s TensorCore. -/
theorem run_step (κ : GSem nD τ sig → ℕ) (d : Dev nD) (q : Fin 8) (f : S65536x128.Idx → Elt F .f32) {Φ : PUnit → sProp 𝕄} :
    iprop((K (F := F)).ctx EH (P (F := F) tv iv) κ ∗ (K (F := F)).tcSt EH d q.val
        ∗ ((tblLoc d ↦{fullShare} tv d) ∗ (idxLoc d ↦{fullShare} iv d) ∗ outPts q d Finset.univ fullShare f)
        ∗ (((K (F := F)).tcSt EH d (q.val + 1) ∗ (tblLoc d ↦{fullShare} tv d) ∗ (idxLoc d ↦{fullShare} iv d)
              ∗ outPts q d Finset.univ fullShare (gathered (tv d) (iv d) q)) -∗ Φ ⟨⟩))
      ⊢ wp frame (wpE ((K (F := F)).defs (D (F := F))) 𝒱 (SparseCore.T d) none) Set.univ ((K (F := F)).run d q) Φ := by
  iintro ⟨#Hctx, Hst, Harr, Hk⟩
  ihave H := (st_intro tv iv q d f) $$ Harr
  icases H with ⟨Hrem, Hsts⟩
  iapply ((K (F := F)).wp_run (D (F := F)) 𝒱 (EH := EH) (P := P (F := F) tv iv) κ d q) $$ [Hst Hsts Hrem Hk]
  isplitr; · iexact Hctx
  isplitl [Hst]; · iexact Hst
  isplitl [Hsts]; · iexact Hsts
  iintro ⟨Hst, Hdn⟩
  iapply Hk
  isplitl [Hst]; · iexact Hst
  iapply (dn_elim tv iv q d)
  isplitl [Hrem]; · iexact Hrem
  iexact Hdn

end Cert.Proof.KI

end
-- ==== Proof.Unscoped.lean ====
/-
  Taking named buffers out of a TensorCore's unscoped buffers and putting them back, one of them at new contents;
  and that the TensorCore owes nothing at the index of a kernel's own waits.
-/
import proofs.«214101_g10505490006249_cont_week2b_118_28_alg».proof.Proof.Launch

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Transfers (shareTok shareDrop pointsTo_toks_split pointsTo_toks_join)

variable {F : FTy → Type}

local notation "𝕄" => MT nD τ sig (HIx 8) (Elt F) ℕ UU ℕ

/-! ## Three buffers out, and back -/

/-- The TensorCore's unscoped references. -/
abbrev Sunr : Finset (Ref sig .tc) := Finset.univ.filter fun b : Ref sig .tc => ¬ b.isScoped

theorem unscoped_take3 (d : Dev nD) (a b c : Ref sig .tc) (ha : ¬ a.isScoped) (hb : ¬ b.isScoped) (hc : ¬ c.isScoped)
    (hab : a ≠ b) (hac : a ≠ c) (hbc : b ≠ c) (V : (x : Ref sig .tc) → Buf (Elt F) ((SparseCore.T d).loc x)) :
    (unscopedBufs d V : sProp 𝕄)
      = iprop((((SparseCore.T d).loc a ↦{fullShare} V a) ∗ ((SparseCore.T d).loc b ↦{fullShare} V b) ∗ ((SparseCore.T d).loc c ↦{fullShare} V c))
          ∗ bigSep (Sunr \ {a, b, c}) fun x => (SparseCore.T d).loc x ↦{fullShare} V x) := by
  have hsub : ({a, b, c} : Finset (Ref sig .tc)) ⊆ Sunr := by
    intro x hx
    simp only [Finset.mem_insert, Finset.mem_singleton] at hx
    rcases hx with rfl | rfl | rfl <;> exact Finset.mem_filter.mpr ⟨Finset.mem_univ _, ‹_›⟩
  unfold unscopedBufs
  rw [bigSep_sdiff_split hsub, SparseCore.bigSep_insert' (by simp [hab, hac]), SparseCore.bigSep_insert' (by simp [hbc]), bigSep_singleton]
  rfl

theorem unscoped_put3 (d : Dev nD) (a b c : Ref sig .tc) (ha : ¬ a.isScoped) (hb : ¬ b.isScoped) (hc : ¬ c.isScoped)
    (hab : a ≠ b) (hac : a ≠ c) (hbc : b ≠ c) (V : (x : Ref sig .tc) → Buf (Elt F) ((SparseCore.T d).loc x))
    (v : Buf (Elt F) ((SparseCore.T d).loc c)) :
    iprop((((SparseCore.T d).loc a ↦{fullShare} V a) ∗ ((SparseCore.T d).loc b ↦{fullShare} V b) ∗ ((SparseCore.T d).loc c ↦{fullShare} v))
          ∗ bigSep (Sunr \ {a, b, c}) fun x => (SparseCore.T d).loc x ↦{fullShare} V x)
      ⊢ (unscopedBufs d (Function.update V c v) : sProp 𝕄) := by
  rw [unscoped_take3 d a b c ha hb hc hab hac hbc (Function.update V c v), Function.update_of_ne hac, Function.update_of_ne hbc, Function.update_self]
  refine sep_mono .rfl (Entails.of_eq (bigSep_congr fun x hx => ?_))
  have hxc : x ≠ c := fun e => (Finset.mem_sdiff.mp hx).2 (by simp [e])
  rw [Function.update_of_ne hxc]

/-! ## The TensorCore owes nothing at the index of a kernel's own waits -/

theorem Otc_none (d : Dev nD) (n : ℕ) (g : GSem nD τ sig) : (K (F := F)).Otc d n g none = 0 := by
  by_contra h
  have := (K (F := F)).lev_of_Otc_pos (Nat.pos_of_ne_zero h)
  rw [SparseCore.Cfg.lev_none] at this; omega

end Cert.Proof.KI

end
-- ==== Proof.PairDefs.lean ====
/-
  The vocabulary of @main's call pairs: a TensorCore's buffer contents by reference, the bound on its recorded waits
  before a call, and the statement a TensorCore call's region step is proved in.
-/
import proofs.«214101_g10505490006249_cont_week2b_118_28_alg».proof.Proof.CallStep
import proofs.«214101_g10505490006249_cont_week2b_118_28_alg».proof.Proof.Unscoped

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Transfers (shareTok shareDrop pointsTo_toks_split pointsTo_toks_join)

variable {F : FTy → Type}

local notation "𝕄" => MT nD τ sig (HIx 8) (Elt F) ℕ UU ℕ

variable [FloatOps F]
variable (tv : (d : Dev nD) → S32768x128.Idx → Elt F .f32) (iv : (d : Dev nD) → S524288.Idx → Elt F .i32)

/-- A TensorCore's buffer contents, by reference. -/
abbrev TCv (d : Dev nD) : Type := (x : Ref sig .tc) → Buf (Elt F) ((SparseCore.T (τ := τ) d).loc x)

/-- The pairs the TensorCore may have recorded before call `n`: those at or below level `8 n`. -/
def RecAt (d : Dev nD) (n : ℕ) : Set (SemLoc sig × HIx 8) := {p | (K (F := F)).lev (SparseCore.T d, p.1) p.2 ≤ 8 * n}

/-- What a TensorCore call's region step gives @main (the statement; each call's is proved in its own module):
    from the unscoped buffers at `V`, the TensorCore owing `O` with its recorded pairs inside `Rec`, and the
    pipeline's launch ghost state, the call runs to the buffers with the result array `r` at `res d V`. -/
def RegionStep (p : Fin 8) (r : Ref sig .tc) (res : (d : Dev nD) → TCv (F := F) d → Buf (Elt F) ((SparseCore.T (τ := τ) d).loc r)) : Prop :=
  ∀ (V : (c : Dev nD) → TCv (F := F) c) (O : Dev nD → CellTallies nD τ sig (HIx 8)) (Rec : Dev nD → Set (SemLoc sig × HIx 8)) (_ : ∀ c g, O c g none = 0)
    (d : Dev nD) {α : Type} (k : PUnit → Prog (TpuEff nD τ sig (Elt F) (SparseCore.Sig (ΛP (F := F)) 8) .tc) α) (Q : α → sProp 𝕄),
    iprop(levAts (K (F := F)).L (K (F := F)).lev ∗ boundary (SparseCore.T d) ∗ unscopedBufs d (V d) ∗ (∃ W, ⌜∀ x ∈ W, x ∈ Rec d⌝ ∗ owes (SparseCore.T d) (O d) W)
        ∗ Pipeline.cellsGhost cfgs (EP (F := F)) p d ∗ Pipeline.toksInit cfgs (EP (F := F)) p d
        ∗ ((boundary (SparseCore.T d) ∗ unscopedBufs d (Function.update (V d) r (res d (V d))) ∗ (∃ W, ⌜∀ x ∈ W, x ∈ Rec d ∨ x.2 = none⌝ ∗ owes (SparseCore.T d) (O d) W))
            -∗ wp frame (wpE ((K (F := F)).defs (D (F := F))) 𝒱 (SparseCore.T d) none) Set.univ (k ⟨⟩) Q))
      ⊢ wp frame (wpE ((K (F := F)).defs (D (F := F))) 𝒱 (SparseCore.T d) none) Set.univ
          (Prog.lift (.customCall (SparseCore.inner (Pipeline.entry p)) ()) >>= k) Q

end Cert.Proof.KI

end
-- ==== Proof.PairStep0.lean ====
/-
  Gather call 0 and the TensorCore call that consumes it, as @main meets the pair: from the TensorCore's unscoped
  buffers at some contents to the same with the gathered rows and the call's result written.
-/
import proofs.«214101_g10505490006249_cont_week2b_118_28_alg».proof.Proof.PairDefs

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Transfers (shareTok shareDrop pointsTo_toks_split pointsTo_toks_join)

variable {F : FTy → Type}

local notation "𝕄" => MT nD τ sig (HIx 8) (Elt F) ℕ UU ℕ

variable [FloatOps F]
variable (tv : (d : Dev nD) → S32768x128.Idx → Elt F .f32) (iv : (d : Dev nD) → S524288.Idx → Elt F .i32)

omit [FloatOps F] in
/-- Call 0's result array is `main_v34`. -/
theorem outPts_0 (d : Dev nD) (s : Finset S65536x128.Idx) (sh : PosShare TreeShare) (f : S65536x128.Idx → Elt F .f32) :
    (outPts 0 d s sh f : sProp 𝕄) = ((SparseCore.T d).loc main_v34 ↦[s]{sh} f) := rfl

variable (res0 : (d : Dev nD) → TCv (F := F) d → Buf (Elt F) ((SparseCore.T (τ := τ) d).loc main_v35))

/-- The contents after pair 0. -/
def Vg0 (V : (c : Dev nD) → TCv (F := F) c) (c : Dev nD) : TCv (F := F) c :=
  Function.update (V c) main_v34 (gathered (tv c) (iv c) 0)
def Vr0 (V : (c : Dev nD) → TCv (F := F) c) (c : Dev nD) : TCv (F := F) c :=
  Function.update (Vg0 tv iv V c) main_v35 (res0 c (Vg0 tv iv V c))

theorem pair_step0 (hreg : RegionStep (F := F) 0 main_v35 res0) (κ : GSem nD τ sig → ℕ) (d : Dev nD)
    (V : (c : Dev nD) → TCv (F := F) c) (hVt : V d main_v10 = tv d) (hVi : V d main_v6 = iv d)
    {α : Type} (k : PUnit → Prog (TpuEff nD τ sig (Elt F) (SparseCore.Sig (ΛP (F := F)) 8) .tc) α) (Q : α → sProp 𝕄) :
    iprop((K (F := F)).ctx EH (P (F := F) tv iv) κ ∗ (K (F := F)).tcSt EH d 0 ∗ boundary (SparseCore.T d) ∗ unscopedBufs d (V d)
        ∗ Pipeline.cellsGhost cfgs (EP (F := F)) 0 d ∗ Pipeline.toksInit cfgs (EP (F := F)) 0 d
        ∗ (((K (F := F)).tcSt EH d 1 ∗ boundary (SparseCore.T d) ∗ unscopedBufs d (Vr0 tv iv res0 V d))
            -∗ wp frame (wpE ((K (F := F)).defs (D (F := F))) 𝒱 (SparseCore.T d) none) Set.univ (k ⟨⟩) Q))
      ⊢ wp frame (wpE ((K (F := F)).defs (D (F := F))) 𝒱 (SparseCore.T d) none) Set.univ
          ((K (F := F)).run d 0 >>= fun _ => (Prog.lift (.customCall (SparseCore.inner (Pipeline.entry 0)) ()) >>= k)) Q := by
  rw [unscoped_take3 d main_v10 main_v6 main_v34 (by decide) (by decide) (by decide) (by decide) (by decide) (by decide) (V d), hVt, hVi, wp_bind]
  iintro ⟨#Hctx, Hst, Hb, ⟨⟨Ht, Hi, Ho⟩, Hrest⟩, Hcg, Htk, Hk⟩
  iapply (run_step tv iv κ d 0 (V d main_v34)) $$ [Hst Ht Hi Ho Hb Hrest Hcg Htk Hk]
  isplitr; · iexact Hctx
  isplitl [Hst]; · iexact Hst
  isplitl [Ht Hi Ho]
  · isplitl [Ht]; · iexact Ht
    isplitl [Hi]; · iexact Hi
    iapply (Entails.of_eq (outPts_0 (F := F) d _ _ _).symm); iexact Ho
  iintro ⟨Hst, Ht, Hi, Ho0⟩
  ihave Ho := (Entails.of_eq (outPts_0 (F := F) d _ _ _)) $$ Ho0
  ihave Hlev := ((K (F := F)).ctx_levAts κ) $$ Hctx
  ihave Hun := (unscoped_put3 d main_v10 main_v6 main_v34 (by decide) (by decide) (by decide) (by decide) (by decide) (by decide) (V d) (gathered (tv d) (iv d) 0)) $$ [Ht Hi Ho Hrest]
  · rw [hVt, hVi]
    isplitl [Ht Hi Ho]
    · isplitl [Ht]; · iexact Ht
      isplitl [Hi]; · iexact Hi
      iexact Ho
    iexact Hrest
  unfold SparseCore.Cfg.tcSt
  icases Hst with ⟨⟨%W, %hW, HO⟩, Hstrest⟩
  iapply (hreg (Vg0 tv iv V) (fun c => (K (F := F)).Otc c (0 + 1)) (fun c => RecAt (F := F) c (0 + 1)) (fun c g => Otc_none c (0 + 1) g) d k Q) $$ [Hlev Hb Hun HO Hcg Htk Hstrest Hk]
  isplitl [Hlev]; · iexact Hlev
  isplitl [Hb]; · iexact Hb
  isplitl [Hun]; · iexact Hun
  isplitl [HO]
  · iexists W; isplitr
    · ipureintro; exact fun x hx => hW x hx
    · iexact HO
  isplitl [Hcg]; · iexact Hcg
  isplitl [Htk]; · iexact Htk
  iintro ⟨Hb, Hun, ⟨%W', %hW', HO⟩⟩
  iapply Hk
  isplitl [HO Hstrest]
  · isplitl [HO]
    · iexists W'; isplitr
      · ipureintro
        intro x hx
        rcases hW' x hx with h | h
        · exact h
        · show (K (F := F)).lev (SparseCore.T d, x.1) x.2 ≤ 8 * (0 + 1)
          rw [h, SparseCore.Cfg.lev_none]; omega
      · iexact HO
    iexact Hstrest
  isplitl [Hb]; · iexact Hb
  iexact Hun

end Cert.Proof.KI

end
-- ==== Proof.PairStep1.lean ====
/-
  Gather call 1 and the TensorCore call that consumes it, as @main meets the pair: from the TensorCore's unscoped
  buffers at some contents to the same with the gathered rows and the call's result written.
-/
import proofs.«214101_g10505490006249_cont_week2b_118_28_alg».proof.Proof.PairDefs

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Transfers (shareTok shareDrop pointsTo_toks_split pointsTo_toks_join)

variable {F : FTy → Type}

local notation "𝕄" => MT nD τ sig (HIx 8) (Elt F) ℕ UU ℕ

variable [FloatOps F]
variable (tv : (d : Dev nD) → S32768x128.Idx → Elt F .f32) (iv : (d : Dev nD) → S524288.Idx → Elt F .i32)

omit [FloatOps F] in
/-- Call 1's result array is `main_v36`. -/
theorem outPts_1 (d : Dev nD) (s : Finset S65536x128.Idx) (sh : PosShare TreeShare) (f : S65536x128.Idx → Elt F .f32) :
    (outPts 1 d s sh f : sProp 𝕄) = ((SparseCore.T d).loc main_v36 ↦[s]{sh} f) := rfl

variable (res1 : (d : Dev nD) → TCv (F := F) d → Buf (Elt F) ((SparseCore.T (τ := τ) d).loc main_v37))

/-- The contents after pair 1. -/
def Vg1 (V : (c : Dev nD) → TCv (F := F) c) (c : Dev nD) : TCv (F := F) c :=
  Function.update (V c) main_v36 (gathered (tv c) (iv c) 1)
def Vr1 (V : (c : Dev nD) → TCv (F := F) c) (c : Dev nD) : TCv (F := F) c :=
  Function.update (Vg1 tv iv V c) main_v37 (res1 c (Vg1 tv iv V c))

theorem pair_step1 (hreg : RegionStep (F := F) 1 main_v37 res1) (κ : GSem nD τ sig → ℕ) (d : Dev nD)
    (V : (c : Dev nD) → TCv (F := F) c) (hVt : V d main_v10 = tv d) (hVi : V d main_v6 = iv d)
    {α : Type} (k : PUnit → Prog (TpuEff nD τ sig (Elt F) (SparseCore.Sig (ΛP (F := F)) 8) .tc) α) (Q : α → sProp 𝕄) :
    iprop((K (F := F)).ctx EH (P (F := F) tv iv) κ ∗ (K (F := F)).tcSt EH d 1 ∗ boundary (SparseCore.T d) ∗ unscopedBufs d (V d)
        ∗ Pipeline.cellsGhost cfgs (EP (F := F)) 1 d ∗ Pipeline.toksInit cfgs (EP (F := F)) 1 d
        ∗ (((K (F := F)).tcSt EH d 2 ∗ boundary (SparseCore.T d) ∗ unscopedBufs d (Vr1 tv iv res1 V d))
            -∗ wp frame (wpE ((K (F := F)).defs (D (F := F))) 𝒱 (SparseCore.T d) none) Set.univ (k ⟨⟩) Q))
      ⊢ wp frame (wpE ((K (F := F)).defs (D (F := F))) 𝒱 (SparseCore.T d) none) Set.univ
          ((K (F := F)).run d 1 >>= fun _ => (Prog.lift (.customCall (SparseCore.inner (Pipeline.entry 1)) ()) >>= k)) Q := by
  rw [unscoped_take3 d main_v10 main_v6 main_v36 (by decide) (by decide) (by decide) (by decide) (by decide) (by decide) (V d), hVt, hVi, wp_bind]
  iintro ⟨#Hctx, Hst, Hb, ⟨⟨Ht, Hi, Ho⟩, Hrest⟩, Hcg, Htk, Hk⟩
  iapply (run_step tv iv κ d 1 (V d main_v36)) $$ [Hst Ht Hi Ho Hb Hrest Hcg Htk Hk]
  isplitr; · iexact Hctx
  isplitl [Hst]; · iexact Hst
  isplitl [Ht Hi Ho]
  · isplitl [Ht]; · iexact Ht
    isplitl [Hi]; · iexact Hi
    iapply (Entails.of_eq (outPts_1 (F := F) d _ _ _).symm); iexact Ho
  iintro ⟨Hst, Ht, Hi, Ho0⟩
  ihave Ho := (Entails.of_eq (outPts_1 (F := F) d _ _ _)) $$ Ho0
  ihave Hlev := ((K (F := F)).ctx_levAts κ) $$ Hctx
  ihave Hun := (unscoped_put3 d main_v10 main_v6 main_v36 (by decide) (by decide) (by decide) (by decide) (by decide) (by decide) (V d) (gathered (tv d) (iv d) 1)) $$ [Ht Hi Ho Hrest]
  · rw [hVt, hVi]
    isplitl [Ht Hi Ho]
    · isplitl [Ht]; · iexact Ht
      isplitl [Hi]; · iexact Hi
      iexact Ho
    iexact Hrest
  unfold SparseCore.Cfg.tcSt
  icases Hst with ⟨⟨%W, %hW, HO⟩, Hstrest⟩
  iapply (hreg (Vg1 tv iv V) (fun c => (K (F := F)).Otc c (1 + 1)) (fun c => RecAt (F := F) c (1 + 1)) (fun c g => Otc_none c (1 + 1) g) d k Q) $$ [Hlev Hb Hun HO Hcg Htk Hstrest Hk]
  isplitl [Hlev]; · iexact Hlev
  isplitl [Hb]; · iexact Hb
  isplitl [Hun]; · iexact Hun
  isplitl [HO]
  · iexists W; isplitr
    · ipureintro; exact fun x hx => hW x hx
    · iexact HO
  isplitl [Hcg]; · iexact Hcg
  isplitl [Htk]; · iexact Htk
  iintro ⟨Hb, Hun, ⟨%W', %hW', HO⟩⟩
  iapply Hk
  isplitl [HO Hstrest]
  · isplitl [HO]
    · iexists W'; isplitr
      · ipureintro
        intro x hx
        rcases hW' x hx with h | h
        · exact h
        · show (K (F := F)).lev (SparseCore.T d, x.1) x.2 ≤ 8 * (1 + 1)
          rw [h, SparseCore.Cfg.lev_none]; omega
      · iexact HO
    iexact Hstrest
  isplitl [Hb]; · iexact Hb
  iexact Hun

end Cert.Proof.KI

end
-- ==== Proof.PairStep2.lean ====
/-
  Gather call 2 and the TensorCore call that consumes it, as @main meets the pair: from the TensorCore's unscoped
  buffers at some contents to the same with the gathered rows and the call's result written.
-/
import proofs.«214101_g10505490006249_cont_week2b_118_28_alg».proof.Proof.PairDefs

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Transfers (shareTok shareDrop pointsTo_toks_split pointsTo_toks_join)

variable {F : FTy → Type}

local notation "𝕄" => MT nD τ sig (HIx 8) (Elt F) ℕ UU ℕ

variable [FloatOps F]
variable (tv : (d : Dev nD) → S32768x128.Idx → Elt F .f32) (iv : (d : Dev nD) → S524288.Idx → Elt F .i32)

omit [FloatOps F] in
/-- Call 2's result array is `main_v38`. -/
theorem outPts_2 (d : Dev nD) (s : Finset S65536x128.Idx) (sh : PosShare TreeShare) (f : S65536x128.Idx → Elt F .f32) :
    (outPts 2 d s sh f : sProp 𝕄) = ((SparseCore.T d).loc main_v38 ↦[s]{sh} f) := rfl

variable (res2 : (d : Dev nD) → TCv (F := F) d → Buf (Elt F) ((SparseCore.T (τ := τ) d).loc main_v39))

/-- The contents after pair 2. -/
def Vg2 (V : (c : Dev nD) → TCv (F := F) c) (c : Dev nD) : TCv (F := F) c :=
  Function.update (V c) main_v38 (gathered (tv c) (iv c) 2)
def Vr2 (V : (c : Dev nD) → TCv (F := F) c) (c : Dev nD) : TCv (F := F) c :=
  Function.update (Vg2 tv iv V c) main_v39 (res2 c (Vg2 tv iv V c))

theorem pair_step2 (hreg : RegionStep (F := F) 2 main_v39 res2) (κ : GSem nD τ sig → ℕ) (d : Dev nD)
    (V : (c : Dev nD) → TCv (F := F) c) (hVt : V d main_v10 = tv d) (hVi : V d main_v6 = iv d)
    {α : Type} (k : PUnit → Prog (TpuEff nD τ sig (Elt F) (SparseCore.Sig (ΛP (F := F)) 8) .tc) α) (Q : α → sProp 𝕄) :
    iprop((K (F := F)).ctx EH (P (F := F) tv iv) κ ∗ (K (F := F)).tcSt EH d 2 ∗ boundary (SparseCore.T d) ∗ unscopedBufs d (V d)
        ∗ Pipeline.cellsGhost cfgs (EP (F := F)) 2 d ∗ Pipeline.toksInit cfgs (EP (F := F)) 2 d
        ∗ (((K (F := F)).tcSt EH d 3 ∗ boundary (SparseCore.T d) ∗ unscopedBufs d (Vr2 tv iv res2 V d))
            -∗ wp frame (wpE ((K (F := F)).defs (D (F := F))) 𝒱 (SparseCore.T d) none) Set.univ (k ⟨⟩) Q))
      ⊢ wp frame (wpE ((K (F := F)).defs (D (F := F))) 𝒱 (SparseCore.T d) none) Set.univ
          ((K (F := F)).run d 2 >>= fun _ => (Prog.lift (.customCall (SparseCore.inner (Pipeline.entry 2)) ()) >>= k)) Q := by
  rw [unscoped_take3 d main_v10 main_v6 main_v38 (by decide) (by decide) (by decide) (by decide) (by decide) (by decide) (V d), hVt, hVi, wp_bind]
  iintro ⟨#Hctx, Hst, Hb, ⟨⟨Ht, Hi, Ho⟩, Hrest⟩, Hcg, Htk, Hk⟩
  iapply (run_step tv iv κ d 2 (V d main_v38)) $$ [Hst Ht Hi Ho Hb Hrest Hcg Htk Hk]
  isplitr; · iexact Hctx
  isplitl [Hst]; · iexact Hst
  isplitl [Ht Hi Ho]
  · isplitl [Ht]; · iexact Ht
    isplitl [Hi]; · iexact Hi
    iapply (Entails.of_eq (outPts_2 (F := F) d _ _ _).symm); iexact Ho
  iintro ⟨Hst, Ht, Hi, Ho0⟩
  ihave Ho := (Entails.of_eq (outPts_2 (F := F) d _ _ _)) $$ Ho0
  ihave Hlev := ((K (F := F)).ctx_levAts κ) $$ Hctx
  ihave Hun := (unscoped_put3 d main_v10 main_v6 main_v38 (by decide) (by decide) (by decide) (by decide) (by decide) (by decide) (V d) (gathered (tv d) (iv d) 2)) $$ [Ht Hi Ho Hrest]
  · rw [hVt, hVi]
    isplitl [Ht Hi Ho]
    · isplitl [Ht]; · iexact Ht
      isplitl [Hi]; · iexact Hi
      iexact Ho
    iexact Hrest
  unfold SparseCore.Cfg.tcSt
  icases Hst with ⟨⟨%W, %hW, HO⟩, Hstrest⟩
  iapply (hreg (Vg2 tv iv V) (fun c => (K (F := F)).Otc c (2 + 1)) (fun c => RecAt (F := F) c (2 + 1)) (fun c g => Otc_none c (2 + 1) g) d k Q) $$ [Hlev Hb Hun HO Hcg Htk Hstrest Hk]
  isplitl [Hlev]; · iexact Hlev
  isplitl [Hb]; · iexact Hb
  isplitl [Hun]; · iexact Hun
  isplitl [HO]
  · iexists W; isplitr
    · ipureintro; exact fun x hx => hW x hx
    · iexact HO
  isplitl [Hcg]; · iexact Hcg
  isplitl [Htk]; · iexact Htk
  iintro ⟨Hb, Hun, ⟨%W', %hW', HO⟩⟩
  iapply Hk
  isplitl [HO Hstrest]
  · isplitl [HO]
    · iexists W'; isplitr
      · ipureintro
        intro x hx
        rcases hW' x hx with h | h
        · exact h
        · show (K (F := F)).lev (SparseCore.T d, x.1) x.2 ≤ 8 * (2 + 1)
          rw [h, SparseCore.Cfg.lev_none]; omega
      · iexact HO
    iexact Hstrest
  isplitl [Hb]; · iexact Hb
  iexact Hun

end Cert.Proof.KI

end
-- ==== Proof.PairStep3.lean ====
/-
  Gather call 3 and the TensorCore call that consumes it, as @main meets the pair: from the TensorCore's unscoped
  buffers at some contents to the same with the gathered rows and the call's result written.
-/
import proofs.«214101_g10505490006249_cont_week2b_118_28_alg».proof.Proof.PairDefs

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Transfers (shareTok shareDrop pointsTo_toks_split pointsTo_toks_join)

variable {F : FTy → Type}

local notation "𝕄" => MT nD τ sig (HIx 8) (Elt F) ℕ UU ℕ

variable [FloatOps F]
variable (tv : (d : Dev nD) → S32768x128.Idx → Elt F .f32) (iv : (d : Dev nD) → S524288.Idx → Elt F .i32)

omit [FloatOps F] in
/-- Call 3's result array is `main_v40`. -/
theorem outPts_3 (d : Dev nD) (s : Finset S65536x128.Idx) (sh : PosShare TreeShare) (f : S65536x128.Idx → Elt F .f32) :
    (outPts 3 d s sh f : sProp 𝕄) = ((SparseCore.T d).loc main_v40 ↦[s]{sh} f) := rfl

variable (res3 : (d : Dev nD) → TCv (F := F) d → Buf (Elt F) ((SparseCore.T (τ := τ) d).loc main_v41))

/-- The contents after pair 3. -/
def Vg3 (V : (c : Dev nD) → TCv (F := F) c) (c : Dev nD) : TCv (F := F) c :=
  Function.update (V c) main_v40 (gathered (tv c) (iv c) 3)
def Vr3 (V : (c : Dev nD) → TCv (F := F) c) (c : Dev nD) : TCv (F := F) c :=
  Function.update (Vg3 tv iv V c) main_v41 (res3 c (Vg3 tv iv V c))

theorem pair_step3 (hreg : RegionStep (F := F) 3 main_v41 res3) (κ : GSem nD τ sig → ℕ) (d : Dev nD)
    (V : (c : Dev nD) → TCv (F := F) c) (hVt : V d main_v10 = tv d) (hVi : V d main_v6 = iv d)
    {α : Type} (k : PUnit → Prog (TpuEff nD τ sig (Elt F) (SparseCore.Sig (ΛP (F := F)) 8) .tc) α) (Q : α → sProp 𝕄) :
    iprop((K (F := F)).ctx EH (P (F := F) tv iv) κ ∗ (K (F := F)).tcSt EH d 3 ∗ boundary (SparseCore.T d) ∗ unscopedBufs d (V d)
        ∗ Pipeline.cellsGhost cfgs (EP (F := F)) 3 d ∗ Pipeline.toksInit cfgs (EP (F := F)) 3 d
        ∗ (((K (F := F)).tcSt EH d 4 ∗ boundary (SparseCore.T d) ∗ unscopedBufs d (Vr3 tv iv res3 V d))
            -∗ wp frame (wpE ((K (F := F)).defs (D (F := F))) 𝒱 (SparseCore.T d) none) Set.univ (k ⟨⟩) Q))
      ⊢ wp frame (wpE ((K (F := F)).defs (D (F := F))) 𝒱 (SparseCore.T d) none) Set.univ
          ((K (F := F)).run d 3 >>= fun _ => (Prog.lift (.customCall (SparseCore.inner (Pipeline.entry 3)) ()) >>= k)) Q := by
  rw [unscoped_take3 d main_v10 main_v6 main_v40 (by decide) (by decide) (by decide) (by decide) (by decide) (by decide) (V d), hVt, hVi, wp_bind]
  iintro ⟨#Hctx, Hst, Hb, ⟨⟨Ht, Hi, Ho⟩, Hrest⟩, Hcg, Htk, Hk⟩
  iapply (run_step tv iv κ d 3 (V d main_v40)) $$ [Hst Ht Hi Ho Hb Hrest Hcg Htk Hk]
  isplitr; · iexact Hctx
  isplitl [Hst]; · iexact Hst
  isplitl [Ht Hi Ho]
  · isplitl [Ht]; · iexact Ht
    isplitl [Hi]; · iexact Hi
    iapply (Entails.of_eq (outPts_3 (F := F) d _ _ _).symm); iexact Ho
  iintro ⟨Hst, Ht, Hi, Ho0⟩
  ihave Ho := (Entails.of_eq (outPts_3 (F := F) d _ _ _)) $$ Ho0
  ihave Hlev := ((K (F := F)).ctx_levAts κ) $$ Hctx
  ihave Hun := (unscoped_put3 d main_v10 main_v6 main_v40 (by decide) (by decide) (by decide) (by decide) (by decide) (by decide) (V d) (gathered (tv d) (iv d) 3)) $$ [Ht Hi Ho Hrest]
  · rw [hVt, hVi]
    isplitl [Ht Hi Ho]
    · isplitl [Ht]; · iexact Ht
      isplitl [Hi]; · iexact Hi
      iexact Ho
    iexact Hrest
  unfold SparseCore.Cfg.tcSt
  icases Hst with ⟨⟨%W, %hW, HO⟩, Hstrest⟩
  iapply (hreg (Vg3 tv iv V) (fun c => (K (F := F)).Otc c (3 + 1)) (fun c => RecAt (F := F) c (3 + 1)) (fun c g => Otc_none c (3 + 1) g) d k Q) $$ [Hlev Hb Hun HO Hcg Htk Hstrest Hk]
  isplitl [Hlev]; · iexact Hlev
  isplitl [Hb]; · iexact Hb
  isplitl [Hun]; · iexact Hun
  isplitl [HO]
  · iexists W; isplitr
    · ipureintro; exact fun x hx => hW x hx
    · iexact HO
  isplitl [Hcg]; · iexact Hcg
  isplitl [Htk]; · iexact Htk
  iintro ⟨Hb, Hun, ⟨%W', %hW', HO⟩⟩
  iapply Hk
  isplitl [HO Hstrest]
  · isplitl [HO]
    · iexists W'; isplitr
      · ipureintro
        intro x hx
        rcases hW' x hx with h | h
        · exact h
        · show (K (F := F)).lev (SparseCore.T d, x.1) x.2 ≤ 8 * (3 + 1)
          rw [h, SparseCore.Cfg.lev_none]; omega
      · iexact HO
    iexact Hstrest
  isplitl [Hb]; · iexact Hb
  iexact Hun

end Cert.Proof.KI

end
-- ==== Proof.PairStep4.lean ====
/-
  Gather call 4 and the TensorCore call that consumes it, as @main meets the pair: from the TensorCore's unscoped
  buffers at some contents to the same with the gathered rows and the call's result written.
-/
import proofs.«214101_g10505490006249_cont_week2b_118_28_alg».proof.Proof.PairDefs

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Transfers (shareTok shareDrop pointsTo_toks_split pointsTo_toks_join)

variable {F : FTy → Type}

local notation "𝕄" => MT nD τ sig (HIx 8) (Elt F) ℕ UU ℕ

variable [FloatOps F]
variable (tv : (d : Dev nD) → S32768x128.Idx → Elt F .f32) (iv : (d : Dev nD) → S524288.Idx → Elt F .i32)

omit [FloatOps F] in
/-- Call 4's result array is `main_v42`. -/
theorem outPts_4 (d : Dev nD) (s : Finset S65536x128.Idx) (sh : PosShare TreeShare) (f : S65536x128.Idx → Elt F .f32) :
    (outPts 4 d s sh f : sProp 𝕄) = ((SparseCore.T d).loc main_v42 ↦[s]{sh} f) := rfl

variable (res4 : (d : Dev nD) → TCv (F := F) d → Buf (Elt F) ((SparseCore.T (τ := τ) d).loc main_v43))

/-- The contents after pair 4. -/
def Vg4 (V : (c : Dev nD) → TCv (F := F) c) (c : Dev nD) : TCv (F := F) c :=
  Function.update (V c) main_v42 (gathered (tv c) (iv c) 4)
def Vr4 (V : (c : Dev nD) → TCv (F := F) c) (c : Dev nD) : TCv (F := F) c :=
  Function.update (Vg4 tv iv V c) main_v43 (res4 c (Vg4 tv iv V c))

theorem pair_step4 (hreg : RegionStep (F := F) 4 main_v43 res4) (κ : GSem nD τ sig → ℕ) (d : Dev nD)
    (V : (c : Dev nD) → TCv (F := F) c) (hVt : V d main_v10 = tv d) (hVi : V d main_v6 = iv d)
    {α : Type} (k : PUnit → Prog (TpuEff nD τ sig (Elt F) (SparseCore.Sig (ΛP (F := F)) 8) .tc) α) (Q : α → sProp 𝕄) :
    iprop((K (F := F)).ctx EH (P (F := F) tv iv) κ ∗ (K (F := F)).tcSt EH d 4 ∗ boundary (SparseCore.T d) ∗ unscopedBufs d (V d)
        ∗ Pipeline.cellsGhost cfgs (EP (F := F)) 4 d ∗ Pipeline.toksInit cfgs (EP (F := F)) 4 d
        ∗ (((K (F := F)).tcSt EH d 5 ∗ boundary (SparseCore.T d) ∗ unscopedBufs d (Vr4 tv iv res4 V d))
            -∗ wp frame (wpE ((K (F := F)).defs (D (F := F))) 𝒱 (SparseCore.T d) none) Set.univ (k ⟨⟩) Q))
      ⊢ wp frame (wpE ((K (F := F)).defs (D (F := F))) 𝒱 (SparseCore.T d) none) Set.univ
          ((K (F := F)).run d 4 >>= fun _ => (Prog.lift (.customCall (SparseCore.inner (Pipeline.entry 4)) ()) >>= k)) Q := by
  rw [unscoped_take3 d main_v10 main_v6 main_v42 (by decide) (by decide) (by decide) (by decide) (by decide) (by decide) (V d), hVt, hVi, wp_bind]
  iintro ⟨#Hctx, Hst, Hb, ⟨⟨Ht, Hi, Ho⟩, Hrest⟩, Hcg, Htk, Hk⟩
  iapply (run_step tv iv κ d 4 (V d main_v42)) $$ [Hst Ht Hi Ho Hb Hrest Hcg Htk Hk]
  isplitr; · iexact Hctx
  isplitl [Hst]; · iexact Hst
  isplitl [Ht Hi Ho]
  · isplitl [Ht]; · iexact Ht
    isplitl [Hi]; · iexact Hi
    iapply (Entails.of_eq (outPts_4 (F := F) d _ _ _).symm); iexact Ho
  iintro ⟨Hst, Ht, Hi, Ho0⟩
  ihave Ho := (Entails.of_eq (outPts_4 (F := F) d _ _ _)) $$ Ho0
  ihave Hlev := ((K (F := F)).ctx_levAts κ) $$ Hctx
  ihave Hun := (unscoped_put3 d main_v10 main_v6 main_v42 (by decide) (by decide) (by decide) (by decide) (by decide) (by decide) (V d) (gathered (tv d) (iv d) 4)) $$ [Ht Hi Ho Hrest]
  · rw [hVt, hVi]
    isplitl [Ht Hi Ho]
    · isplitl [Ht]; · iexact Ht
      isplitl [Hi]; · iexact Hi
      iexact Ho
    iexact Hrest
  unfold SparseCore.Cfg.tcSt
  icases Hst with ⟨⟨%W, %hW, HO⟩, Hstrest⟩
  iapply (hreg (Vg4 tv iv V) (fun c => (K (F := F)).Otc c (4 + 1)) (fun c => RecAt (F := F) c (4 + 1)) (fun c g => Otc_none c (4 + 1) g) d k Q) $$ [Hlev Hb Hun HO Hcg Htk Hstrest Hk]
  isplitl [Hlev]; · iexact Hlev
  isplitl [Hb]; · iexact Hb
  isplitl [Hun]; · iexact Hun
  isplitl [HO]
  · iexists W; isplitr
    · ipureintro; exact fun x hx => hW x hx
    · iexact HO
  isplitl [Hcg]; · iexact Hcg
  isplitl [Htk]; · iexact Htk
  iintro ⟨Hb, Hun, ⟨%W', %hW', HO⟩⟩
  iapply Hk
  isplitl [HO Hstrest]
  · isplitl [HO]
    · iexists W'; isplitr
      · ipureintro
        intro x hx
        rcases hW' x hx with h | h
        · exact h
        · show (K (F := F)).lev (SparseCore.T d, x.1) x.2 ≤ 8 * (4 + 1)
          rw [h, SparseCore.Cfg.lev_none]; omega
      · iexact HO
    iexact Hstrest
  isplitl [Hb]; · iexact Hb
  iexact Hun

end Cert.Proof.KI

end
-- ==== Proof.PairStep5.lean ====
/-
  Gather call 5 and the TensorCore call that consumes it, as @main meets the pair: from the TensorCore's unscoped
  buffers at some contents to the same with the gathered rows and the call's result written.
-/
import proofs.«214101_g10505490006249_cont_week2b_118_28_alg».proof.Proof.PairDefs

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Transfers (shareTok shareDrop pointsTo_toks_split pointsTo_toks_join)

variable {F : FTy → Type}

local notation "𝕄" => MT nD τ sig (HIx 8) (Elt F) ℕ UU ℕ

variable [FloatOps F]
variable (tv : (d : Dev nD) → S32768x128.Idx → Elt F .f32) (iv : (d : Dev nD) → S524288.Idx → Elt F .i32)

omit [FloatOps F] in
/-- Call 5's result array is `main_v44`. -/
theorem outPts_5 (d : Dev nD) (s : Finset S65536x128.Idx) (sh : PosShare TreeShare) (f : S65536x128.Idx → Elt F .f32) :
    (outPts 5 d s sh f : sProp 𝕄) = ((SparseCore.T d).loc main_v44 ↦[s]{sh} f) := rfl

variable (res5 : (d : Dev nD) → TCv (F := F) d → Buf (Elt F) ((SparseCore.T (τ := τ) d).loc main_v45))

/-- The contents after pair 5. -/
def Vg5 (V : (c : Dev nD) → TCv (F := F) c) (c : Dev nD) : TCv (F := F) c :=
  Function.update (V c) main_v44 (gathered (tv c) (iv c) 5)
def Vr5 (V : (c : Dev nD) → TCv (F := F) c) (c : Dev nD) : TCv (F := F) c :=
  Function.update (Vg5 tv iv V c) main_v45 (res5 c (Vg5 tv iv V c))

theorem pair_step5 (hreg : RegionStep (F := F) 5 main_v45 res5) (κ : GSem nD τ sig → ℕ) (d : Dev nD)
    (V : (c : Dev nD) → TCv (F := F) c) (hVt : V d main_v10 = tv d) (hVi : V d main_v6 = iv d)
    {α : Type} (k : PUnit → Prog (TpuEff nD τ sig (Elt F) (SparseCore.Sig (ΛP (F := F)) 8) .tc) α) (Q : α → sProp 𝕄) :
    iprop((K (F := F)).ctx EH (P (F := F) tv iv) κ ∗ (K (F := F)).tcSt EH d 5 ∗ boundary (SparseCore.T d) ∗ unscopedBufs d (V d)
        ∗ Pipeline.cellsGhost cfgs (EP (F := F)) 5 d ∗ Pipeline.toksInit cfgs (EP (F := F)) 5 d
        ∗ (((K (F := F)).tcSt EH d 6 ∗ boundary (SparseCore.T d) ∗ unscopedBufs d (Vr5 tv iv res5 V d))
            -∗ wp frame (wpE ((K (F := F)).defs (D (F := F))) 𝒱 (SparseCore.T d) none) Set.univ (k ⟨⟩) Q))
      ⊢ wp frame (wpE ((K (F := F)).defs (D (F := F))) 𝒱 (SparseCore.T d) none) Set.univ
          ((K (F := F)).run d 5 >>= fun _ => (Prog.lift (.customCall (SparseCore.inner (Pipeline.entry 5)) ()) >>= k)) Q := by
  rw [unscoped_take3 d main_v10 main_v6 main_v44 (by decide) (by decide) (by decide) (by decide) (by decide) (by decide) (V d), hVt, hVi, wp_bind]
  iintro ⟨#Hctx, Hst, Hb, ⟨⟨Ht, Hi, Ho⟩, Hrest⟩, Hcg, Htk, Hk⟩
  iapply (run_step tv iv κ d 5 (V d main_v44)) $$ [Hst Ht Hi Ho Hb Hrest Hcg Htk Hk]
  isplitr; · iexact Hctx
  isplitl [Hst]; · iexact Hst
  isplitl [Ht Hi Ho]
  · isplitl [Ht]; · iexact Ht
    isplitl [Hi]; · iexact Hi
    iapply (Entails.of_eq (outPts_5 (F := F) d _ _ _).symm); iexact Ho
  iintro ⟨Hst, Ht, Hi, Ho0⟩
  ihave Ho := (Entails.of_eq (outPts_5 (F := F) d _ _ _)) $$ Ho0
  ihave Hlev := ((K (F := F)).ctx_levAts κ) $$ Hctx
  ihave Hun := (unscoped_put3 d main_v10 main_v6 main_v44 (by decide) (by decide) (by decide) (by decide) (by decide) (by decide) (V d) (gathered (tv d) (iv d) 5)) $$ [Ht Hi Ho Hrest]
  · rw [hVt, hVi]
    isplitl [Ht Hi Ho]
    · isplitl [Ht]; · iexact Ht
      isplitl [Hi]; · iexact Hi
      iexact Ho
    iexact Hrest
  unfold SparseCore.Cfg.tcSt
  icases Hst with ⟨⟨%W, %hW, HO⟩, Hstrest⟩
  iapply (hreg (Vg5 tv iv V) (fun c => (K (F := F)).Otc c (5 + 1)) (fun c => RecAt (F := F) c (5 + 1)) (fun c g => Otc_none c (5 + 1) g) d k Q) $$ [Hlev Hb Hun HO Hcg Htk Hstrest Hk]
  isplitl [Hlev]; · iexact Hlev
  isplitl [Hb]; · iexact Hb
  isplitl [Hun]; · iexact Hun
  isplitl [HO]
  · iexists W; isplitr
    · ipureintro; exact fun x hx => hW x hx
    · iexact HO
  isplitl [Hcg]; · iexact Hcg
  isplitl [Htk]; · iexact Htk
  iintro ⟨Hb, Hun, ⟨%W', %hW', HO⟩⟩
  iapply Hk
  isplitl [HO Hstrest]
  · isplitl [HO]
    · iexists W'; isplitr
      · ipureintro
        intro x hx
        rcases hW' x hx with h | h
        · exact h
        · show (K (F := F)).lev (SparseCore.T d, x.1) x.2 ≤ 8 * (5 + 1)
          rw [h, SparseCore.Cfg.lev_none]; omega
      · iexact HO
    iexact Hstrest
  isplitl [Hb]; · iexact Hb
  iexact Hun

end Cert.Proof.KI

end
-- ==== Proof.PairStep6.lean ====
/-
  Gather call 6 and the TensorCore call that consumes it, as @main meets the pair: from the TensorCore's unscoped
  buffers at some contents to the same with the gathered rows and the call's result written.
-/
import proofs.«214101_g10505490006249_cont_week2b_118_28_alg».proof.Proof.PairDefs

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Transfers (shareTok shareDrop pointsTo_toks_split pointsTo_toks_join)

variable {F : FTy → Type}

local notation "𝕄" => MT nD τ sig (HIx 8) (Elt F) ℕ UU ℕ

variable [FloatOps F]
variable (tv : (d : Dev nD) → S32768x128.Idx → Elt F .f32) (iv : (d : Dev nD) → S524288.Idx → Elt F .i32)

omit [FloatOps F] in
/-- Call 6's result array is `main_v46`. -/
theorem outPts_6 (d : Dev nD) (s : Finset S65536x128.Idx) (sh : PosShare TreeShare) (f : S65536x128.Idx → Elt F .f32) :
    (outPts 6 d s sh f : sProp 𝕄) = ((SparseCore.T d).loc main_v46 ↦[s]{sh} f) := rfl

variable (res6 : (d : Dev nD) → TCv (F := F) d → Buf (Elt F) ((SparseCore.T (τ := τ) d).loc main_v47))

/-- The contents after pair 6. -/
def Vg6 (V : (c : Dev nD) → TCv (F := F) c) (c : Dev nD) : TCv (F := F) c :=
  Function.update (V c) main_v46 (gathered (tv c) (iv c) 6)
def Vr6 (V : (c : Dev nD) → TCv (F := F) c) (c : Dev nD) : TCv (F := F) c :=
  Function.update (Vg6 tv iv V c) main_v47 (res6 c (Vg6 tv iv V c))

theorem pair_step6 (hreg : RegionStep (F := F) 6 main_v47 res6) (κ : GSem nD τ sig → ℕ) (d : Dev nD)
    (V : (c : Dev nD) → TCv (F := F) c) (hVt : V d main_v10 = tv d) (hVi : V d main_v6 = iv d)
    {α : Type} (k : PUnit → Prog (TpuEff nD τ sig (Elt F) (SparseCore.Sig (ΛP (F := F)) 8) .tc) α) (Q : α → sProp 𝕄) :
    iprop((K (F := F)).ctx EH (P (F := F) tv iv) κ ∗ (K (F := F)).tcSt EH d 6 ∗ boundary (SparseCore.T d) ∗ unscopedBufs d (V d)
        ∗ Pipeline.cellsGhost cfgs (EP (F := F)) 6 d ∗ Pipeline.toksInit cfgs (EP (F := F)) 6 d
        ∗ (((K (F := F)).tcSt EH d 7 ∗ boundary (SparseCore.T d) ∗ unscopedBufs d (Vr6 tv iv res6 V d))
            -∗ wp frame (wpE ((K (F := F)).defs (D (F := F))) 𝒱 (SparseCore.T d) none) Set.univ (k ⟨⟩) Q))
      ⊢ wp frame (wpE ((K (F := F)).defs (D (F := F))) 𝒱 (SparseCore.T d) none) Set.univ
          ((K (F := F)).run d 6 >>= fun _ => (Prog.lift (.customCall (SparseCore.inner (Pipeline.entry 6)) ()) >>= k)) Q := by
  rw [unscoped_take3 d main_v10 main_v6 main_v46 (by decide) (by decide) (by decide) (by decide) (by decide) (by decide) (V d), hVt, hVi, wp_bind]
  iintro ⟨#Hctx, Hst, Hb, ⟨⟨Ht, Hi, Ho⟩, Hrest⟩, Hcg, Htk, Hk⟩
  iapply (run_step tv iv κ d 6 (V d main_v46)) $$ [Hst Ht Hi Ho Hb Hrest Hcg Htk Hk]
  isplitr; · iexact Hctx
  isplitl [Hst]; · iexact Hst
  isplitl [Ht Hi Ho]
  · isplitl [Ht]; · iexact Ht
    isplitl [Hi]; · iexact Hi
    iapply (Entails.of_eq (outPts_6 (F := F) d _ _ _).symm); iexact Ho
  iintro ⟨Hst, Ht, Hi, Ho0⟩
  ihave Ho := (Entails.of_eq (outPts_6 (F := F) d _ _ _)) $$ Ho0
  ihave Hlev := ((K (F := F)).ctx_levAts κ) $$ Hctx
  ihave Hun := (unscoped_put3 d main_v10 main_v6 main_v46 (by decide) (by decide) (by decide) (by decide) (by decide) (by decide) (V d) (gathered (tv d) (iv d) 6)) $$ [Ht Hi Ho Hrest]
  · rw [hVt, hVi]
    isplitl [Ht Hi Ho]
    · isplitl [Ht]; · iexact Ht
      isplitl [Hi]; · iexact Hi
      iexact Ho
    iexact Hrest
  unfold SparseCore.Cfg.tcSt
  icases Hst with ⟨⟨%W, %hW, HO⟩, Hstrest⟩
  iapply (hreg (Vg6 tv iv V) (fun c => (K (F := F)).Otc c (6 + 1)) (fun c => RecAt (F := F) c (6 + 1)) (fun c g => Otc_none c (6 + 1) g) d k Q) $$ [Hlev Hb Hun HO Hcg Htk Hstrest Hk]
  isplitl [Hlev]; · iexact Hlev
  isplitl [Hb]; · iexact Hb
  isplitl [Hun]; · iexact Hun
  isplitl [HO]
  · iexists W; isplitr
    · ipureintro; exact fun x hx => hW x hx
    · iexact HO
  isplitl [Hcg]; · iexact Hcg
  isplitl [Htk]; · iexact Htk
  iintro ⟨Hb, Hun, ⟨%W', %hW', HO⟩⟩
  iapply Hk
  isplitl [HO Hstrest]
  · isplitl [HO]
    · iexists W'; isplitr
      · ipureintro
        intro x hx
        rcases hW' x hx with h | h
        · exact h
        · show (K (F := F)).lev (SparseCore.T d, x.1) x.2 ≤ 8 * (6 + 1)
          rw [h, SparseCore.Cfg.lev_none]; omega
      · iexact HO
    iexact Hstrest
  isplitl [Hb]; · iexact Hb
  iexact Hun

end Cert.Proof.KI

end
-- ==== Proof.PairStep7.lean ====
/-
  Gather call 7 and the TensorCore call that consumes it, as @main meets the pair: from the TensorCore's unscoped
  buffers at some contents to the same with the gathered rows and the call's result written.
-/
import proofs.«214101_g10505490006249_cont_week2b_118_28_alg».proof.Proof.PairDefs

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Transfers (shareTok shareDrop pointsTo_toks_split pointsTo_toks_join)

variable {F : FTy → Type}

local notation "𝕄" => MT nD τ sig (HIx 8) (Elt F) ℕ UU ℕ

variable [FloatOps F]
variable (tv : (d : Dev nD) → S32768x128.Idx → Elt F .f32) (iv : (d : Dev nD) → S524288.Idx → Elt F .i32)

omit [FloatOps F] in
/-- Call 7's result array is `main_v48`. -/
theorem outPts_7 (d : Dev nD) (s : Finset S65536x128.Idx) (sh : PosShare TreeShare) (f : S65536x128.Idx → Elt F .f32) :
    (outPts 7 d s sh f : sProp 𝕄) = ((SparseCore.T d).loc main_v48 ↦[s]{sh} f) := rfl

variable (res7 : (d : Dev nD) → TCv (F := F) d → Buf (Elt F) ((SparseCore.T (τ := τ) d).loc main_v49))

/-- The contents after pair 7. -/
def Vg7 (V : (c : Dev nD) → TCv (F := F) c) (c : Dev nD) : TCv (F := F) c :=
  Function.update (V c) main_v48 (gathered (tv c) (iv c) 7)
def Vr7 (V : (c : Dev nD) → TCv (F := F) c) (c : Dev nD) : TCv (F := F) c :=
  Function.update (Vg7 tv iv V c) main_v49 (res7 c (Vg7 tv iv V c))

theorem pair_step7 (hreg : RegionStep (F := F) 7 main_v49 res7) (κ : GSem nD τ sig → ℕ) (d : Dev nD)
    (V : (c : Dev nD) → TCv (F := F) c) (hVt : V d main_v10 = tv d) (hVi : V d main_v6 = iv d)
    {α : Type} (k : PUnit → Prog (TpuEff nD τ sig (Elt F) (SparseCore.Sig (ΛP (F := F)) 8) .tc) α) (Q : α → sProp 𝕄) :
    iprop((K (F := F)).ctx EH (P (F := F) tv iv) κ ∗ (K (F := F)).tcSt EH d 7 ∗ boundary (SparseCore.T d) ∗ unscopedBufs d (V d)
        ∗ Pipeline.cellsGhost cfgs (EP (F := F)) 7 d ∗ Pipeline.toksInit cfgs (EP (F := F)) 7 d
        ∗ (((K (F := F)).tcSt EH d 8 ∗ boundary (SparseCore.T d) ∗ unscopedBufs d (Vr7 tv iv res7 V d))
            -∗ wp frame (wpE ((K (F := F)).defs (D (F := F))) 𝒱 (SparseCore.T d) none) Set.univ (k ⟨⟩) Q))
      ⊢ wp frame (wpE ((K (F := F)).defs (D (F := F))) 𝒱 (SparseCore.T d) none) Set.univ
          ((K (F := F)).run d 7 >>= fun _ => (Prog.lift (.customCall (SparseCore.inner (Pipeline.entry 7)) ()) >>= k)) Q := by
  rw [unscoped_take3 d main_v10 main_v6 main_v48 (by decide) (by decide) (by decide) (by decide) (by decide) (by decide) (V d), hVt, hVi, wp_bind]
  iintro ⟨#Hctx, Hst, Hb, ⟨⟨Ht, Hi, Ho⟩, Hrest⟩, Hcg, Htk, Hk⟩
  iapply (run_step tv iv κ d 7 (V d main_v48)) $$ [Hst Ht Hi Ho Hb Hrest Hcg Htk Hk]
  isplitr; · iexact Hctx
  isplitl [Hst]; · iexact Hst
  isplitl [Ht Hi Ho]
  · isplitl [Ht]; · iexact Ht
    isplitl [Hi]; · iexact Hi
    iapply (Entails.of_eq (outPts_7 (F := F) d _ _ _).symm); iexact Ho
  iintro ⟨Hst, Ht, Hi, Ho0⟩
  ihave Ho := (Entails.of_eq (outPts_7 (F := F) d _ _ _)) $$ Ho0
  ihave Hlev := ((K (F := F)).ctx_levAts κ) $$ Hctx
  ihave Hun := (unscoped_put3 d main_v10 main_v6 main_v48 (by decide) (by decide) (by decide) (by decide) (by decide) (by decide) (V d) (gathered (tv d) (iv d) 7)) $$ [Ht Hi Ho Hrest]
  · rw [hVt, hVi]
    isplitl [Ht Hi Ho]
    · isplitl [Ht]; · iexact Ht
      isplitl [Hi]; · iexact Hi
      iexact Ho
    iexact Hrest
  unfold SparseCore.Cfg.tcSt
  icases Hst with ⟨⟨%W, %hW, HO⟩, Hstrest⟩
  iapply (hreg (Vg7 tv iv V) (fun c => (K (F := F)).Otc c (7 + 1)) (fun c => RecAt (F := F) c (7 + 1)) (fun c g => Otc_none c (7 + 1) g) d k Q) $$ [Hlev Hb Hun HO Hcg Htk Hstrest Hk]
  isplitl [Hlev]; · iexact Hlev
  isplitl [Hb]; · iexact Hb
  isplitl [Hun]; · iexact Hun
  isplitl [HO]
  · iexists W; isplitr
    · ipureintro; exact fun x hx => hW x hx
    · iexact HO
  isplitl [Hcg]; · iexact Hcg
  isplitl [Htk]; · iexact Htk
  iintro ⟨Hb, Hun, ⟨%W', %hW', HO⟩⟩
  iapply Hk
  isplitl [HO Hstrest]
  · isplitl [HO]
    · iexists W'; isplitr
      · ipureintro
        intro x hx
        rcases hW' x hx with h | h
        · exact h
        · show (K (F := F)).lev (SparseCore.T d, x.1) x.2 ≤ 8 * (7 + 1)
          rw [h, SparseCore.Cfg.lev_none]; omega
      · iexact HO
    iexact Hstrest
  isplitl [Hb]; · iexact Hb
  iexact Hun

end Cert.Proof.KI

end
-- ==== Proof.MainRun.lean ====
/-
  @main on the TensorCore, assembled: the first stretch of host operations, the eight pairs of a gather call and
  its TensorCore call, the closing stretch; and what the unscoped buffers hold at the end.
-/
import proofs.«214101_g10505490006249_cont_week2b_118_28_alg».proof.Proof.MainHost
import proofs.«214101_g10505490006249_cont_week2b_118_28_alg».proof.Proof.PairStep0
import proofs.«214101_g10505490006249_cont_week2b_118_28_alg».proof.Proof.PairStep1
import proofs.«214101_g10505490006249_cont_week2b_118_28_alg».proof.Proof.PairStep2
import proofs.«214101_g10505490006249_cont_week2b_118_28_alg».proof.Proof.PairStep3
import proofs.«214101_g10505490006249_cont_week2b_118_28_alg».proof.Proof.PairStep4
import proofs.«214101_g10505490006249_cont_week2b_118_28_alg».proof.Proof.PairStep5
import proofs.«214101_g10505490006249_cont_week2b_118_28_alg».proof.Proof.PairStep6
import proofs.«214101_g10505490006249_cont_week2b_118_28_alg».proof.Proof.PairStep7

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Transfers (shareTok shareDrop pointsTo_toks_split pointsTo_toks_join)

variable {F : FTy → Type}

local notation "𝕄" => MT nD τ sig (HIx 8) (Elt F) ℕ UU ℕ

variable [FloatOps F]
variable (m : (ℓ : Loc nD τ sig) → Buf (Elt F) ℓ) (ρ : Dev nD → PrngReg)
variable (res0 : (d : Dev nD) → TCv (F := F) d → Buf (Elt F) ((SparseCore.T (τ := τ) d).loc main_v35))
variable (res1 : (d : Dev nD) → TCv (F := F) d → Buf (Elt F) ((SparseCore.T (τ := τ) d).loc main_v37))
variable (res2 : (d : Dev nD) → TCv (F := F) d → Buf (Elt F) ((SparseCore.T (τ := τ) d).loc main_v39))
variable (res3 : (d : Dev nD) → TCv (F := F) d → Buf (Elt F) ((SparseCore.T (τ := τ) d).loc main_v41))
variable (res4 : (d : Dev nD) → TCv (F := F) d → Buf (Elt F) ((SparseCore.T (τ := τ) d).loc main_v43))
variable (res5 : (d : Dev nD) → TCv (F := F) d → Buf (Elt F) ((SparseCore.T (τ := τ) d).loc main_v45))
variable (res6 : (d : Dev nD) → TCv (F := F) d → Buf (Elt F) ((SparseCore.T (τ := τ) d).loc main_v47))
variable (res7 : (d : Dev nD) → TCv (F := F) d → Buf (Elt F) ((SparseCore.T (τ := τ) d).loc main_v49))

/-! ## Contents by device reference and by TensorCore reference -/

/-- A valuation read at the TensorCore's references. -/
def rd (d : Dev nD) (W : Valuation τ sig (Elt F)) : TCv (F := F) d := fun x => W (Proc.devRef .tc x)

omit [FloatOps F] in
theorem upd_rd (d : Dev nD) (W : Valuation τ sig (Elt F)) (r : Ref sig .tc) (v : Buf (Elt F) ((SparseCore.T (τ := τ) d).loc r)) :
    rd d (Function.update W (Proc.devRef .tc r) v) = Function.update (rd d W) r v := by
  funext x
  by_cases h : x = r
  · subst h; unfold rd; rw [Function.update_self, Function.update_self]
  · unfold rd; rw [Function.update_of_ne (StableHlo.devRef_ne_of_ne h), Function.update_of_ne h]

omit [FloatOps F] in
theorem unscoped_rd (d : Dev nD) (W : Valuation τ sig (Elt F)) : (unscopedBufs d (rd d W) : sProp 𝕄) = held (SparseCore.T d) Sun W :=
  unscoped_held d W

/-! ## The contents pair by pair -/

/-- The device's contents after pair 0, from those before it. -/
def WR0 (d : Dev nD) (W : Valuation τ sig (Elt F)) : Valuation τ sig (Elt F) :=
  Function.update (Function.update W (Proc.devRef .tc main_v34) (gathered (tvOf m d) (ivOf m d) 0))
    (Proc.devRef .tc main_v35) (res0 d (rd d (Function.update W (Proc.devRef .tc main_v34) (gathered (tvOf m d) (ivOf m d) 0))))
theorem Vr0_rd (d : Dev nD) (W : Dev nD → Valuation τ sig (Elt F)) :
    Vr0 (tvOf m) (ivOf m) res0 (fun c => rd c (W c)) d = rd d (WR0 m res0 d (W d)) := by
  unfold Vr0 Vg0 WR0; rw [upd_rd, upd_rd]
theorem WR0_v10 (d : Dev nD) (W : Valuation τ sig (Elt F)) : WR0 m res0 d W (Proc.devRef .tc main_v10) = W (Proc.devRef .tc main_v10) := by
  unfold WR0; rw [Function.update_of_ne (StableHlo.devRef_ne_of_ne (by decide)), Function.update_of_ne (StableHlo.devRef_ne_of_ne (by decide))]
theorem WR0_v6 (d : Dev nD) (W : Valuation τ sig (Elt F)) : WR0 m res0 d W (Proc.devRef .tc main_v6) = W (Proc.devRef .tc main_v6) := by
  unfold WR0; rw [Function.update_of_ne (StableHlo.devRef_ne_of_ne (by decide)), Function.update_of_ne (StableHlo.devRef_ne_of_ne (by decide))]

/-- The device's contents after pair 1, from those before it. -/
def WR1 (d : Dev nD) (W : Valuation τ sig (Elt F)) : Valuation τ sig (Elt F) :=
  Function.update (Function.update W (Proc.devRef .tc main_v36) (gathered (tvOf m d) (ivOf m d) 1))
    (Proc.devRef .tc main_v37) (res1 d (rd d (Function.update W (Proc.devRef .tc main_v36) (gathered (tvOf m d) (ivOf m d) 1))))
theorem Vr1_rd (d : Dev nD) (W : Dev nD → Valuation τ sig (Elt F)) :
    Vr1 (tvOf m) (ivOf m) res1 (fun c => rd c (W c)) d = rd d (WR1 m res1 d (W d)) := by
  unfold Vr1 Vg1 WR1; rw [upd_rd, upd_rd]
theorem WR1_v10 (d : Dev nD) (W : Valuation τ sig (Elt F)) : WR1 m res1 d W (Proc.devRef .tc main_v10) = W (Proc.devRef .tc main_v10) := by
  unfold WR1; rw [Function.update_of_ne (StableHlo.devRef_ne_of_ne (by decide)), Function.update_of_ne (StableHlo.devRef_ne_of_ne (by decide))]
theorem WR1_v6 (d : Dev nD) (W : Valuation τ sig (Elt F)) : WR1 m res1 d W (Proc.devRef .tc main_v6) = W (Proc.devRef .tc main_v6) := by
  unfold WR1; rw [Function.update_of_ne (StableHlo.devRef_ne_of_ne (by decide)), Function.update_of_ne (StableHlo.devRef_ne_of_ne (by decide))]

/-- The device's contents after pair 2, from those before it. -/
def WR2 (d : Dev nD) (W : Valuation τ sig (Elt F)) : Valuation τ sig (Elt F) :=
  Function.update (Function.update W (Proc.devRef .tc main_v38) (gathered (tvOf m d) (ivOf m d) 2))
    (Proc.devRef .tc main_v39) (res2 d (rd d (Function.update W (Proc.devRef .tc main_v38) (gathered (tvOf m d) (ivOf m d) 2))))
theorem Vr2_rd (d : Dev nD) (W : Dev nD → Valuation τ sig (Elt F)) :
    Vr2 (tvOf m) (ivOf m) res2 (fun c => rd c (W c)) d = rd d (WR2 m res2 d (W d)) := by
  unfold Vr2 Vg2 WR2; rw [upd_rd, upd_rd]
theorem WR2_v10 (d : Dev nD) (W : Valuation τ sig (Elt F)) : WR2 m res2 d W (Proc.devRef .tc main_v10) = W (Proc.devRef .tc main_v10) := by
  unfold WR2; rw [Function.update_of_ne (StableHlo.devRef_ne_of_ne (by decide)), Function.update_of_ne (StableHlo.devRef_ne_of_ne (by decide))]
theorem WR2_v6 (d : Dev nD) (W : Valuation τ sig (Elt F)) : WR2 m res2 d W (Proc.devRef .tc main_v6) = W (Proc.devRef .tc main_v6) := by
  unfold WR2; rw [Function.update_of_ne (StableHlo.devRef_ne_of_ne (by decide)), Function.update_of_ne (StableHlo.devRef_ne_of_ne (by decide))]

/-- The device's contents after pair 3, from those before it. -/
def WR3 (d : Dev nD) (W : Valuation τ sig (Elt F)) : Valuation τ sig (Elt F) :=
  Function.update (Function.update W (Proc.devRef .tc main_v40) (gathered (tvOf m d) (ivOf m d) 3))
    (Proc.devRef .tc main_v41) (res3 d (rd d (Function.update W (Proc.devRef .tc main_v40) (gathered (tvOf m d) (ivOf m d) 3))))
theorem Vr3_rd (d : Dev nD) (W : Dev nD → Valuation τ sig (Elt F)) :
    Vr3 (tvOf m) (ivOf m) res3 (fun c => rd c (W c)) d = rd d (WR3 m res3 d (W d)) := by
  unfold Vr3 Vg3 WR3; rw [upd_rd, upd_rd]
theorem WR3_v10 (d : Dev nD) (W : Valuation τ sig (Elt F)) : WR3 m res3 d W (Proc.devRef .tc main_v10) = W (Proc.devRef .tc main_v10) := by
  unfold WR3; rw [Function.update_of_ne (StableHlo.devRef_ne_of_ne (by decide)), Function.update_of_ne (StableHlo.devRef_ne_of_ne (by decide))]
theorem WR3_v6 (d : Dev nD) (W : Valuation τ sig (Elt F)) : WR3 m res3 d W (Proc.devRef .tc main_v6) = W (Proc.devRef .tc main_v6) := by
  unfold WR3; rw [Function.update_of_ne (StableHlo.devRef_ne_of_ne (by decide)), Function.update_of_ne (StableHlo.devRef_ne_of_ne (by decide))]

/-- The device's contents after pair 4, from those before it. -/
def WR4 (d : Dev nD) (W : Valuation τ sig (Elt F)) : Valuation τ sig (Elt F) :=
  Function.update (Function.update W (Proc.devRef .tc main_v42) (gathered (tvOf m d) (ivOf m d) 4))
    (Proc.devRef .tc main_v43) (res4 d (rd d (Function.update W (Proc.devRef .tc main_v42) (gathered (tvOf m d) (ivOf m d) 4))))
theorem Vr4_rd (d : Dev nD) (W : Dev nD → Valuation τ sig (Elt F)) :
    Vr4 (tvOf m) (ivOf m) res4 (fun c => rd c (W c)) d = rd d (WR4 m res4 d (W d)) := by
  unfold Vr4 Vg4 WR4; rw [upd_rd, upd_rd]
theorem WR4_v10 (d : Dev nD) (W : Valuation τ sig (Elt F)) : WR4 m res4 d W (Proc.devRef .tc main_v10) = W (Proc.devRef .tc main_v10) := by
  unfold WR4; rw [Function.update_of_ne (StableHlo.devRef_ne_of_ne (by decide)), Function.update_of_ne (StableHlo.devRef_ne_of_ne (by decide))]
theorem WR4_v6 (d : Dev nD) (W : Valuation τ sig (Elt F)) : WR4 m res4 d W (Proc.devRef .tc main_v6) = W (Proc.devRef .tc main_v6) := by
  unfold WR4; rw [Function.update_of_ne (StableHlo.devRef_ne_of_ne (by decide)), Function.update_of_ne (StableHlo.devRef_ne_of_ne (by decide))]

/-- The device's contents after pair 5, from those before it. -/
def WR5 (d : Dev nD) (W : Valuation τ sig (Elt F)) : Valuation τ sig (Elt F) :=
  Function.update (Function.update W (Proc.devRef .tc main_v44) (gathered (tvOf m d) (ivOf m d) 5))
    (Proc.devRef .tc main_v45) (res5 d (rd d (Function.update W (Proc.devRef .tc main_v44) (gathered (tvOf m d) (ivOf m d) 5))))
theorem Vr5_rd (d : Dev nD) (W : Dev nD → Valuation τ sig (Elt F)) :
    Vr5 (tvOf m) (ivOf m) res5 (fun c => rd c (W c)) d = rd d (WR5 m res5 d (W d)) := by
  unfold Vr5 Vg5 WR5; rw [upd_rd, upd_rd]
theorem WR5_v10 (d : Dev nD) (W : Valuation τ sig (Elt F)) : WR5 m res5 d W (Proc.devRef .tc main_v10) = W (Proc.devRef .tc main_v10) := by
  unfold WR5; rw [Function.update_of_ne (StableHlo.devRef_ne_of_ne (by decide)), Function.update_of_ne (StableHlo.devRef_ne_of_ne (by decide))]
theorem WR5_v6 (d : Dev nD) (W : Valuation τ sig (Elt F)) : WR5 m res5 d W (Proc.devRef .tc main_v6) = W (Proc.devRef .tc main_v6) := by
  unfold WR5; rw [Function.update_of_ne (StableHlo.devRef_ne_of_ne (by decide)), Function.update_of_ne (StableHlo.devRef_ne_of_ne (by decide))]

/-- The device's contents after pair 6, from those before it. -/
def WR6 (d : Dev nD) (W : Valuation τ sig (Elt F)) : Valuation τ sig (Elt F) :=
  Function.update (Function.update W (Proc.devRef .tc main_v46) (gathered (tvOf m d) (ivOf m d) 6))
    (Proc.devRef .tc main_v47) (res6 d (rd d (Function.update W (Proc.devRef .tc main_v46) (gathered (tvOf m d) (ivOf m d) 6))))
theorem Vr6_rd (d : Dev nD) (W : Dev nD → Valuation τ sig (Elt F)) :
    Vr6 (tvOf m) (ivOf m) res6 (fun c => rd c (W c)) d = rd d (WR6 m res6 d (W d)) := by
  unfold Vr6 Vg6 WR6; rw [upd_rd, upd_rd]
theorem WR6_v10 (d : Dev nD) (W : Valuation τ sig (Elt F)) : WR6 m res6 d W (Proc.devRef .tc main_v10) = W (Proc.devRef .tc main_v10) := by
  unfold WR6; rw [Function.update_of_ne (StableHlo.devRef_ne_of_ne (by decide)), Function.update_of_ne (StableHlo.devRef_ne_of_ne (by decide))]
theorem WR6_v6 (d : Dev nD) (W : Valuation τ sig (Elt F)) : WR6 m res6 d W (Proc.devRef .tc main_v6) = W (Proc.devRef .tc main_v6) := by
  unfold WR6; rw [Function.update_of_ne (StableHlo.devRef_ne_of_ne (by decide)), Function.update_of_ne (StableHlo.devRef_ne_of_ne (by decide))]

/-- The device's contents after pair 7, from those before it. -/
def WR7 (d : Dev nD) (W : Valuation τ sig (Elt F)) : Valuation τ sig (Elt F) :=
  Function.update (Function.update W (Proc.devRef .tc main_v48) (gathered (tvOf m d) (ivOf m d) 7))
    (Proc.devRef .tc main_v49) (res7 d (rd d (Function.update W (Proc.devRef .tc main_v48) (gathered (tvOf m d) (ivOf m d) 7))))
theorem Vr7_rd (d : Dev nD) (W : Dev nD → Valuation τ sig (Elt F)) :
    Vr7 (tvOf m) (ivOf m) res7 (fun c => rd c (W c)) d = rd d (WR7 m res7 d (W d)) := by
  unfold Vr7 Vg7 WR7; rw [upd_rd, upd_rd]
theorem WR7_v10 (d : Dev nD) (W : Valuation τ sig (Elt F)) : WR7 m res7 d W (Proc.devRef .tc main_v10) = W (Proc.devRef .tc main_v10) := by
  unfold WR7; rw [Function.update_of_ne (StableHlo.devRef_ne_of_ne (by decide)), Function.update_of_ne (StableHlo.devRef_ne_of_ne (by decide))]
theorem WR7_v6 (d : Dev nD) (W : Valuation τ sig (Elt F)) : WR7 m res7 d W (Proc.devRef .tc main_v6) = W (Proc.devRef .tc main_v6) := by
  unfold WR7; rw [Function.update_of_ne (StableHlo.devRef_ne_of_ne (by decide)), Function.update_of_ne (StableHlo.devRef_ne_of_ne (by decide))]

/-- The contents before pair `k`. -/
abbrev Wk0 (d : Dev nD) : Valuation τ sig (Elt F) := V1 m d
abbrev Wk1 (d : Dev nD) : Valuation τ sig (Elt F) := WR0 m res0 d (Wk0 m  d)
abbrev Wk2 (d : Dev nD) : Valuation τ sig (Elt F) := WR1 m res1 d (Wk1 m res0 d)
abbrev Wk3 (d : Dev nD) : Valuation τ sig (Elt F) := WR2 m res2 d (Wk2 m res0 res1 d)
abbrev Wk4 (d : Dev nD) : Valuation τ sig (Elt F) := WR3 m res3 d (Wk3 m res0 res1 res2 d)
abbrev Wk5 (d : Dev nD) : Valuation τ sig (Elt F) := WR4 m res4 d (Wk4 m res0 res1 res2 res3 d)
abbrev Wk6 (d : Dev nD) : Valuation τ sig (Elt F) := WR5 m res5 d (Wk5 m res0 res1 res2 res3 res4 d)
abbrev Wk7 (d : Dev nD) : Valuation τ sig (Elt F) := WR6 m res6 d (Wk6 m res0 res1 res2 res3 res4 res5 d)
abbrev Wk8 (d : Dev nD) : Valuation τ sig (Elt F) := WR7 m res7 d (Wk7 m res0 res1 res2 res3 res4 res5 res6 d)

theorem Wk0_v10 (d : Dev nD) : Wk0 m  d (Proc.devRef .tc main_v10) = tvOf m d := by
  rfl
theorem Wk0_v6 (d : Dev nD) : Wk0 m  d (Proc.devRef .tc main_v6) = ivOf m d := by
  rfl
theorem Wk1_v10 (d : Dev nD) : Wk1 m res0 d (Proc.devRef .tc main_v10) = tvOf m d := by
  unfold Wk1; rw [WR0_v10]; exact Wk0_v10 m  d
theorem Wk1_v6 (d : Dev nD) : Wk1 m res0 d (Proc.devRef .tc main_v6) = ivOf m d := by
  unfold Wk1; rw [WR0_v6]; exact Wk0_v6 m  d
theorem Wk2_v10 (d : Dev nD) : Wk2 m res0 res1 d (Proc.devRef .tc main_v10) = tvOf m d := by
  unfold Wk2; rw [WR1_v10]; exact Wk1_v10 m res0 d
theorem Wk2_v6 (d : Dev nD) : Wk2 m res0 res1 d (Proc.devRef .tc main_v6) = ivOf m d := by
  unfold Wk2; rw [WR1_v6]; exact Wk1_v6 m res0 d
theorem Wk3_v10 (d : Dev nD) : Wk3 m res0 res1 res2 d (Proc.devRef .tc main_v10) = tvOf m d := by
  unfold Wk3; rw [WR2_v10]; exact Wk2_v10 m res0 res1 d
theorem Wk3_v6 (d : Dev nD) : Wk3 m res0 res1 res2 d (Proc.devRef .tc main_v6) = ivOf m d := by
  unfold Wk3; rw [WR2_v6]; exact Wk2_v6 m res0 res1 d
theorem Wk4_v10 (d : Dev nD) : Wk4 m res0 res1 res2 res3 d (Proc.devRef .tc main_v10) = tvOf m d := by
  unfold Wk4; rw [WR3_v10]; exact Wk3_v10 m res0 res1 res2 d
theorem Wk4_v6 (d : Dev nD) : Wk4 m res0 res1 res2 res3 d (Proc.devRef .tc main_v6) = ivOf m d := by
  unfold Wk4; rw [WR3_v6]; exact Wk3_v6 m res0 res1 res2 d
theorem Wk5_v10 (d : Dev nD) : Wk5 m res0 res1 res2 res3 res4 d (Proc.devRef .tc main_v10) = tvOf m d := by
  unfold Wk5; rw [WR4_v10]; exact Wk4_v10 m res0 res1 res2 res3 d
theorem Wk5_v6 (d : Dev nD) : Wk5 m res0 res1 res2 res3 res4 d (Proc.devRef .tc main_v6) = ivOf m d := by
  unfold Wk5; rw [WR4_v6]; exact Wk4_v6 m res0 res1 res2 res3 d
theorem Wk6_v10 (d : Dev nD) : Wk6 m res0 res1 res2 res3 res4 res5 d (Proc.devRef .tc main_v10) = tvOf m d := by
  unfold Wk6; rw [WR5_v10]; exact Wk5_v10 m res0 res1 res2 res3 res4 d
theorem Wk6_v6 (d : Dev nD) : Wk6 m res0 res1 res2 res3 res4 res5 d (Proc.devRef .tc main_v6) = ivOf m d := by
  unfold Wk6; rw [WR5_v6]; exact Wk5_v6 m res0 res1 res2 res3 res4 d
theorem Wk7_v10 (d : Dev nD) : Wk7 m res0 res1 res2 res3 res4 res5 res6 d (Proc.devRef .tc main_v10) = tvOf m d := by
  unfold Wk7; rw [WR6_v10]; exact Wk6_v10 m res0 res1 res2 res3 res4 res5 d
theorem Wk7_v6 (d : Dev nD) : Wk7 m res0 res1 res2 res3 res4 res5 res6 d (Proc.devRef .tc main_v6) = ivOf m d := by
  unfold Wk7; rw [WR6_v6]; exact Wk6_v6 m res0 res1 res2 res3 res4 res5 d
theorem Wk8_v10 (d : Dev nD) : Wk8 m res0 res1 res2 res3 res4 res5 res6 res7 d (Proc.devRef .tc main_v10) = tvOf m d := by
  unfold Wk8; rw [WR7_v10]; exact Wk7_v10 m res0 res1 res2 res3 res4 res5 res6 d
theorem Wk8_v6 (d : Dev nD) : Wk8 m res0 res1 res2 res3 res4 res5 res6 res7 d (Proc.devRef .tc main_v6) = ivOf m d := by
  unfold Wk8; rw [WR7_v6]; exact Wk7_v6 m res0 res1 res2 res3 res4 res5 res6 d

/-- What the unscoped buffers hold when @main returns. -/
def VfinOf (d : Dev nD) : Valuation τ sig (Elt F) := StableHlo.after (opsPost (F := F)) (Wk8 m res0 res1 res2 res3 res4 res5 res6 res7 d)

/-! ## The closing stretch -/

theorem opsPost_sub : ∀ op ∈ (opsPost : List (HloOp τ sig (Elt F))), op.bufs ⊆ (Sun : Finset (DevRef τ sig)) := by
  intro op h
  unfold opsPost at h
  cases h with
  | head => exact Finset.insert_subset (mem_Sun _ (by decide)) (Finset.image_subset_iff.mpr fun k _ => mem_Sun _ (by revert k; decide))
  | tail _ h =>
    cases h with
    | head => exact sub_Sun2 _ _ (by decide) (by decide)
    | tail _ h => exact nomatch h

theorem opsPost_fresh : ∀ op ∈ (opsPost : List (HloOp τ sig (Elt F))), op.fresh = ∅ := by
  intro op h
  unfold opsPost at h
  repeat (cases h with | head => rfl | tail _ h => ?_)
  exact nomatch h

omit [FloatOps F] m ρ res0 res1 res2 res3 res4 res5 res6 res7 in
/-- The eight pipelines' launch ghost state, one by one. -/
theorem G_eq (d : Dev nD) : (G (F := F) d : sProp 𝕄) = iprop(
    (Pipeline.cellsGhost cfgs (EP (F := F)) 0 d ∗ Pipeline.toksInit cfgs (EP (F := F)) 0 d)
    ∗ (Pipeline.cellsGhost cfgs (EP (F := F)) 1 d ∗ Pipeline.toksInit cfgs (EP (F := F)) 1 d)
    ∗ (Pipeline.cellsGhost cfgs (EP (F := F)) 2 d ∗ Pipeline.toksInit cfgs (EP (F := F)) 2 d)
    ∗ (Pipeline.cellsGhost cfgs (EP (F := F)) 3 d ∗ Pipeline.toksInit cfgs (EP (F := F)) 3 d)
    ∗ (Pipeline.cellsGhost cfgs (EP (F := F)) 4 d ∗ Pipeline.toksInit cfgs (EP (F := F)) 4 d)
    ∗ (Pipeline.cellsGhost cfgs (EP (F := F)) 5 d ∗ Pipeline.toksInit cfgs (EP (F := F)) 5 d)
    ∗ (Pipeline.cellsGhost cfgs (EP (F := F)) 6 d ∗ Pipeline.toksInit cfgs (EP (F := F)) 6 d)
    ∗ (Pipeline.cellsGhost cfgs (EP (F := F)) 7 d ∗ Pipeline.toksInit cfgs (EP (F := F)) 7 d)) := by
  unfold G
  rw [show (Finset.univ : Finset (Fin 8)) = {0, 1, 2, 3, 4, 5, 6, 7} by decide]
  repeat rw [SparseCore.bigSep_insert' (by decide)]
  rw [bigSep_singleton]

/-! ## @main -/

set_option backward.isDefEq.respectTransparency.types false in
/-- @main on device `d`'s TensorCore, given each TensorCore call's region step. -/
theorem hmain (hreg0 : RegionStep (F := F) 0 main_v35 res0) (hreg1 : RegionStep (F := F) 1 main_v37 res1) (hreg2 : RegionStep (F := F) 2 main_v39 res2) (hreg3 : RegionStep (F := F) 3 main_v41 res3) (hreg4 : RegionStep (F := F) 4 main_v43 res4) (hreg5 : RegionStep (F := F) 5 main_v45 res5) (hreg6 : RegionStep (F := F) 6 main_v47 res6) (hreg7 : RegionStep (F := F) 7 main_v49 res7)
    (κ : GSem nD τ sig → ℕ) (d : Dev nD) :
    iprop((K (F := F)).ctx EH (P (F := F) (tvOf m) (ivOf m)) κ ∗ (K (F := F)).tcSt EH d 0 ∗ (K (F := F)).tcRes m ρ d ∗ G (F := F) d)
      ⊢ wp frame (wpE ((K (F := F)).defs (D (F := F))) 𝒱 (SparseCore.T d) none) Set.univ (main (F := F) d)
          fun _ => iprop((K (F := F)).tcSt EH d 8 ∗ FIN (F := F) (VfinOf m res0 res1 res2 res3 res4 res5 res6 res7) d) := by
  unfold SparseCore.Cfg.tcRes
  rw [main_split, G_eq]
  iintro ⟨#Hctx, Hst, ⟨Hb, Hun, -, -⟩, ⟨Hc0, Ht0⟩, ⟨Hc1, Ht1⟩, ⟨Hc2, Ht2⟩, ⟨Hc3, Ht3⟩, ⟨Hc4, Ht4⟩, ⟨Hc5, Ht5⟩, ⟨Hc6, Ht6⟩, ⟨Hc7, Ht7⟩⟩
  iapply (pre_stretch m d _ _) $$ [Hb Hun Hst Hc0 Ht0 Hc1 Ht1 Hc2 Ht2 Hc3 Ht3 Hc4 Ht4 Hc5 Ht5 Hc6 Ht6 Hc7 Ht7]
  isplitl [Hb]; · iexact Hb
  isplitl [Hun]; · iexact Hun
  iintro ⟨Hb, Hh⟩
  ihave Hun := (Entails.of_eq (unscoped_rd (F := F) d (V1 m d)).symm) $$ Hh
  unfold calls
  -- pair 0
  iapply (pair_step0 (tvOf m) (ivOf m) res0 hreg0 κ d (fun c => rd c (Wk0 m  c)) (Wk0_v10 m  d) (Wk0_v6 m  d) _ _) $$ [Hst Hb Hun Hc0 Ht0 Hc1 Ht1 Hc2 Ht2 Hc3 Ht3 Hc4 Ht4 Hc5 Ht5 Hc6 Ht6 Hc7 Ht7]
  isplitr; · iexact Hctx
  isplitl [Hst]; · iexact Hst
  isplitl [Hb]; · iexact Hb
  isplitl [Hun]; · iexact Hun
  isplitl [Hc0]; · iexact Hc0
  isplitl [Ht0]; · iexact Ht0
  iintro ⟨Hst, Hb, Hun0⟩
  ihave Hun := (Entails.of_eq (congrArg (fun V => (unscopedBufs d V : sProp 𝕄)) (Vr0_rd m res0 d (fun c => Wk0 m  c)))) $$ Hun0
  -- pair 1
  iapply (pair_step1 (tvOf m) (ivOf m) res1 hreg1 κ d (fun c => rd c (Wk1 m res0 c)) (Wk1_v10 m res0 d) (Wk1_v6 m res0 d) _ _) $$ [Hst Hb Hun Hc1 Ht1 Hc2 Ht2 Hc3 Ht3 Hc4 Ht4 Hc5 Ht5 Hc6 Ht6 Hc7 Ht7]
  isplitr; · iexact Hctx
  isplitl [Hst]; · iexact Hst
  isplitl [Hb]; · iexact Hb
  isplitl [Hun]; · iexact Hun
  isplitl [Hc1]; · iexact Hc1
  isplitl [Ht1]; · iexact Ht1
  iintro ⟨Hst, Hb, Hun0⟩
  ihave Hun := (Entails.of_eq (congrArg (fun V => (unscopedBufs d V : sProp 𝕄)) (Vr1_rd m res1 d (fun c => Wk1 m res0 c)))) $$ Hun0
  -- pair 2
  iapply (pair_step2 (tvOf m) (ivOf m) res2 hreg2 κ d (fun c => rd c (Wk2 m res0 res1 c)) (Wk2_v10 m res0 res1 d) (Wk2_v6 m res0 res1 d) _ _) $$ [Hst Hb Hun Hc2 Ht2 Hc3 Ht3 Hc4 Ht4 Hc5 Ht5 Hc6 Ht6 Hc7 Ht7]
  isplitr; · iexact Hctx
  isplitl [Hst]; · iexact Hst
  isplitl [Hb]; · iexact Hb
  isplitl [Hun]; · iexact Hun
  isplitl [Hc2]; · iexact Hc2
  isplitl [Ht2]; · iexact Ht2
  iintro ⟨Hst, Hb, Hun0⟩
  ihave Hun := (Entails.of_eq (congrArg (fun V => (unscopedBufs d V : sProp 𝕄)) (Vr2_rd m res2 d (fun c => Wk2 m res0 res1 c)))) $$ Hun0
  -- pair 3
  iapply (pair_step3 (tvOf m) (ivOf m) res3 hreg3 κ d (fun c => rd c (Wk3 m res0 res1 res2 c)) (Wk3_v10 m res0 res1 res2 d) (Wk3_v6 m res0 res1 res2 d) _ _) $$ [Hst Hb Hun Hc3 Ht3 Hc4 Ht4 Hc5 Ht5 Hc6 Ht6 Hc7 Ht7]
  isplitr; · iexact Hctx
  isplitl [Hst]; · iexact Hst
  isplitl [Hb]; · iexact Hb
  isplitl [Hun]; · iexact Hun
  isplitl [Hc3]; · iexact Hc3
  isplitl [Ht3]; · iexact Ht3
  iintro ⟨Hst, Hb, Hun0⟩
  ihave Hun := (Entails.of_eq (congrArg (fun V => (unscopedBufs d V : sProp 𝕄)) (Vr3_rd m res3 d (fun c => Wk3 m res0 res1 res2 c)))) $$ Hun0
  -- pair 4
  iapply (pair_step4 (tvOf m) (ivOf m) res4 hreg4 κ d (fun c => rd c (Wk4 m res0 res1 res2 res3 c)) (Wk4_v10 m res0 res1 res2 res3 d) (Wk4_v6 m res0 res1 res2 res3 d) _ _) $$ [Hst Hb Hun Hc4 Ht4 Hc5 Ht5 Hc6 Ht6 Hc7 Ht7]
  isplitr; · iexact Hctx
  isplitl [Hst]; · iexact Hst
  isplitl [Hb]; · iexact Hb
  isplitl [Hun]; · iexact Hun
  isplitl [Hc4]; · iexact Hc4
  isplitl [Ht4]; · iexact Ht4
  iintro ⟨Hst, Hb, Hun0⟩
  ihave Hun := (Entails.of_eq (congrArg (fun V => (unscopedBufs d V : sProp 𝕄)) (Vr4_rd m res4 d (fun c => Wk4 m res0 res1 res2 res3 c)))) $$ Hun0
  -- pair 5
  iapply (pair_step5 (tvOf m) (ivOf m) res5 hreg5 κ d (fun c => rd c (Wk5 m res0 res1 res2 res3 res4 c)) (Wk5_v10 m res0 res1 res2 res3 res4 d) (Wk5_v6 m res0 res1 res2 res3 res4 d) _ _) $$ [Hst Hb Hun Hc5 Ht5 Hc6 Ht6 Hc7 Ht7]
  isplitr; · iexact Hctx
  isplitl [Hst]; · iexact Hst
  isplitl [Hb]; · iexact Hb
  isplitl [Hun]; · iexact Hun
  isplitl [Hc5]; · iexact Hc5
  isplitl [Ht5]; · iexact Ht5
  iintro ⟨Hst, Hb, Hun0⟩
  ihave Hun := (Entails.of_eq (congrArg (fun V => (unscopedBufs d V : sProp 𝕄)) (Vr5_rd m res5 d (fun c => Wk5 m res0 res1 res2 res3 res4 c)))) $$ Hun0
  -- pair 6
  iapply (pair_step6 (tvOf m) (ivOf m) res6 hreg6 κ d (fun c => rd c (Wk6 m res0 res1 res2 res3 res4 res5 c)) (Wk6_v10 m res0 res1 res2 res3 res4 res5 d) (Wk6_v6 m res0 res1 res2 res3 res4 res5 d) _ _) $$ [Hst Hb Hun Hc6 Ht6 Hc7 Ht7]
  isplitr; · iexact Hctx
  isplitl [Hst]; · iexact Hst
  isplitl [Hb]; · iexact Hb
  isplitl [Hun]; · iexact Hun
  isplitl [Hc6]; · iexact Hc6
  isplitl [Ht6]; · iexact Ht6
  iintro ⟨Hst, Hb, Hun0⟩
  ihave Hun := (Entails.of_eq (congrArg (fun V => (unscopedBufs d V : sProp 𝕄)) (Vr6_rd m res6 d (fun c => Wk6 m res0 res1 res2 res3 res4 res5 c)))) $$ Hun0
  -- pair 7
  iapply (pair_step7 (tvOf m) (ivOf m) res7 hreg7 κ d (fun c => rd c (Wk7 m res0 res1 res2 res3 res4 res5 res6 c)) (Wk7_v10 m res0 res1 res2 res3 res4 res5 res6 d) (Wk7_v6 m res0 res1 res2 res3 res4 res5 res6 d) _ _) $$ [Hst Hb Hun Hc7 Ht7 ]
  isplitr; · iexact Hctx
  isplitl [Hst]; · iexact Hst
  isplitl [Hb]; · iexact Hb
  isplitl [Hun]; · iexact Hun
  isplitl [Hc7]; · iexact Hc7
  isplitl [Ht7]; · iexact Ht7
  iintro ⟨Hst, Hb, Hun0⟩
  ihave Hun := (Entails.of_eq (congrArg (fun V => (unscopedBufs d V : sProp 𝕄)) (Vr7_rd m res7 d (fun c => Wk7 m res0 res1 res2 res3 res4 res5 res6 c)))) $$ Hun0
  -- the closing stretch
  ihave Hh := (Entails.of_eq (unscoped_rd (F := F) d (Wk8 m res0 res1 res2 res3 res4 res5 res6 res7 d))) $$ Hun
  rw [show (StableHlo.seq (opsPost (F := F)) : Prog (TpuEff nD τ sig (Elt F) (SparseCore.Sig (ΛP (F := F)) 8) .tc) PUnit)
      = (StableHlo.seq opsPost >>= fun u => Pure.pure u) from (bind_pure _).symm]
  iapply (StableHlo.wp_seq 𝒱 none Set.univ d Sun (fun u => Pure.pure u) opsPost opsPost_sub opsPost_fresh (Wk8 m res0 res1 res2 res3 res4 res5 res6 res7 d)) $$ [Hb Hh]
  · isplitl [Hb] <;> iassumption
  iintro ⟨-, Hheld⟩
  rw [wp_pure]; imodintro
  isplitl [Hst]; · iexact Hst
  unfold FIN VfinOf
  iexact Hheld

end Cert.Proof.KI

end
-- ==== Proof.Kept.lean ====
/-
  What @main never writes keeps its launch contents to the end: the two host stretches write only their own
  results, and every call pair writes only its two arrays.
-/
import proofs.«214101_g10505490006249_cont_week2b_118_28_alg».proof.Proof.MainRun

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Transfers (shareTok shareDrop pointsTo_toks_split pointsTo_toks_join)

variable {F : FTy → Type}

local notation "𝕄" => MT nD τ sig (HIx 8) (Elt F) ℕ UU ℕ

variable [FloatOps F]
variable (m : (ℓ : Loc nD τ sig) → Buf (Elt F) ℓ)
variable (res0 : (d : Dev nD) → TCv (F := F) d → Buf (Elt F) ((SparseCore.T (τ := τ) d).loc main_v35))
variable (res1 : (d : Dev nD) → TCv (F := F) d → Buf (Elt F) ((SparseCore.T (τ := τ) d).loc main_v37))
variable (res2 : (d : Dev nD) → TCv (F := F) d → Buf (Elt F) ((SparseCore.T (τ := τ) d).loc main_v39))
variable (res3 : (d : Dev nD) → TCv (F := F) d → Buf (Elt F) ((SparseCore.T (τ := τ) d).loc main_v41))
variable (res4 : (d : Dev nD) → TCv (F := F) d → Buf (Elt F) ((SparseCore.T (τ := τ) d).loc main_v43))
variable (res5 : (d : Dev nD) → TCv (F := F) d → Buf (Elt F) ((SparseCore.T (τ := τ) d).loc main_v45))
variable (res6 : (d : Dev nD) → TCv (F := F) d → Buf (Elt F) ((SparseCore.T (τ := τ) d).loc main_v47))
variable (res7 : (d : Dev nD) → TCv (F := F) d → Buf (Elt F) ((SparseCore.T (τ := τ) d).loc main_v49))

/-- The references the first stretch writes, the closing stretch writes, and the calls write. -/
def wPre : List (Ref sig .tc) := [main_v0, main_c, main_v1, main_v2, main_v3, main_v4, main_v5, main_v6, main_v7, main_v8, main_v9, main_c_0, main_call0_v0, main_v10, main_v11, main_cst, main_v12, main_v13, main_c_1, main_call1_v0, main_v14, main_v15, main_v16, main_v17, main_cst_2, main_v18, main_v19, main_v20, main_v21, main_v22, main_v23, main_v24, main_v25, main_v26, main_v27, main_v28, main_v29, main_cst_3, main_v30, main_v31, main_v32, main_v33]
def wPost : List (Ref sig .tc) := [main_v50, main_v51]
def wCalls : List (Ref sig .tc) := [main_v34, main_v35, main_v36, main_v37, main_v38, main_v39, main_v40, main_v41, main_v42, main_v43, main_v44, main_v45, main_v46, main_v47, main_v48, main_v49]

set_option maxRecDepth 8192 in
theorem opsPre_writes : (opsPre : List (HloOp τ sig (Elt F))).Forall fun op => op.writes ⊆ ((wPre.map (Proc.devRef (τ := τ) .tc)).toFinset) := by
  unfold opsPre
  exact ⟨Finset.singleton_subset_iff.mpr (by decide),
    Finset.singleton_subset_iff.mpr (by decide),
    Finset.singleton_subset_iff.mpr (by decide),
    Finset.singleton_subset_iff.mpr (by decide),
    Finset.singleton_subset_iff.mpr (by decide),
    Finset.singleton_subset_iff.mpr (by decide),
    Finset.singleton_subset_iff.mpr (by decide),
    Finset.singleton_subset_iff.mpr (by decide),
    Finset.singleton_subset_iff.mpr (by decide),
    Finset.singleton_subset_iff.mpr (by decide),
    Finset.singleton_subset_iff.mpr (by decide),
    Finset.singleton_subset_iff.mpr (by decide),
    Finset.singleton_subset_iff.mpr (by decide),
    Finset.singleton_subset_iff.mpr (by decide),
    Finset.singleton_subset_iff.mpr (by decide),
    Finset.singleton_subset_iff.mpr (by decide),
    Finset.singleton_subset_iff.mpr (by decide),
    Finset.singleton_subset_iff.mpr (by decide),
    Finset.singleton_subset_iff.mpr (by decide),
    Finset.singleton_subset_iff.mpr (by decide),
    Finset.singleton_subset_iff.mpr (by decide),
    Finset.singleton_subset_iff.mpr (by decide),
    Finset.singleton_subset_iff.mpr (by decide),
    Finset.singleton_subset_iff.mpr (by decide),
    Finset.singleton_subset_iff.mpr (by decide),
    Finset.singleton_subset_iff.mpr (by decide),
    Finset.singleton_subset_iff.mpr (by decide),
    Finset.singleton_subset_iff.mpr (by decide),
    Finset.singleton_subset_iff.mpr (by decide),
    Finset.singleton_subset_iff.mpr (by decide),
    Finset.singleton_subset_iff.mpr (by decide),
    Finset.singleton_subset_iff.mpr (by decide),
    Finset.singleton_subset_iff.mpr (by decide),
    Finset.singleton_subset_iff.mpr (by decide),
    Finset.singleton_subset_iff.mpr (by decide),
    Finset.singleton_subset_iff.mpr (by decide),
    Finset.singleton_subset_iff.mpr (by decide),
    Finset.singleton_subset_iff.mpr (by decide),
    Finset.singleton_subset_iff.mpr (by decide),
    Finset.singleton_subset_iff.mpr (by decide),
    Finset.singleton_subset_iff.mpr (by decide),
    Finset.singleton_subset_iff.mpr (by decide)⟩

theorem opsPost_writes : (opsPost : List (HloOp τ sig (Elt F))).Forall fun op => op.writes ⊆ ((wPost.map (Proc.devRef (τ := τ) .tc)).toFinset) := by
  unfold opsPost
  exact ⟨Finset.singleton_subset_iff.mpr (by decide), Finset.singleton_subset_iff.mpr (by decide)⟩

theorem WR0_other (d : Dev nD) (W : Valuation τ sig (Elt F)) (x : Ref sig .tc) (h1 : x ≠ main_v34) (h2 : x ≠ main_v35) :
    WR0 m res0 d W (Proc.devRef .tc x) = W (Proc.devRef .tc x) := by
  unfold WR0; rw [Function.update_of_ne (StableHlo.devRef_ne_of_ne h2), Function.update_of_ne (StableHlo.devRef_ne_of_ne h1)]
theorem WR1_other (d : Dev nD) (W : Valuation τ sig (Elt F)) (x : Ref sig .tc) (h1 : x ≠ main_v36) (h2 : x ≠ main_v37) :
    WR1 m res1 d W (Proc.devRef .tc x) = W (Proc.devRef .tc x) := by
  unfold WR1; rw [Function.update_of_ne (StableHlo.devRef_ne_of_ne h2), Function.update_of_ne (StableHlo.devRef_ne_of_ne h1)]
theorem WR2_other (d : Dev nD) (W : Valuation τ sig (Elt F)) (x : Ref sig .tc) (h1 : x ≠ main_v38) (h2 : x ≠ main_v39) :
    WR2 m res2 d W (Proc.devRef .tc x) = W (Proc.devRef .tc x) := by
  unfold WR2; rw [Function.update_of_ne (StableHlo.devRef_ne_of_ne h2), Function.update_of_ne (StableHlo.devRef_ne_of_ne h1)]
theorem WR3_other (d : Dev nD) (W : Valuation τ sig (Elt F)) (x : Ref sig .tc) (h1 : x ≠ main_v40) (h2 : x ≠ main_v41) :
    WR3 m res3 d W (Proc.devRef .tc x) = W (Proc.devRef .tc x) := by
  unfold WR3; rw [Function.update_of_ne (StableHlo.devRef_ne_of_ne h2), Function.update_of_ne (StableHlo.devRef_ne_of_ne h1)]
theorem WR4_other (d : Dev nD) (W : Valuation τ sig (Elt F)) (x : Ref sig .tc) (h1 : x ≠ main_v42) (h2 : x ≠ main_v43) :
    WR4 m res4 d W (Proc.devRef .tc x) = W (Proc.devRef .tc x) := by
  unfold WR4; rw [Function.update_of_ne (StableHlo.devRef_ne_of_ne h2), Function.update_of_ne (StableHlo.devRef_ne_of_ne h1)]
theorem WR5_other (d : Dev nD) (W : Valuation τ sig (Elt F)) (x : Ref sig .tc) (h1 : x ≠ main_v44) (h2 : x ≠ main_v45) :
    WR5 m res5 d W (Proc.devRef .tc x) = W (Proc.devRef .tc x) := by
  unfold WR5; rw [Function.update_of_ne (StableHlo.devRef_ne_of_ne h2), Function.update_of_ne (StableHlo.devRef_ne_of_ne h1)]
theorem WR6_other (d : Dev nD) (W : Valuation τ sig (Elt F)) (x : Ref sig .tc) (h1 : x ≠ main_v46) (h2 : x ≠ main_v47) :
    WR6 m res6 d W (Proc.devRef .tc x) = W (Proc.devRef .tc x) := by
  unfold WR6; rw [Function.update_of_ne (StableHlo.devRef_ne_of_ne h2), Function.update_of_ne (StableHlo.devRef_ne_of_ne h1)]
theorem WR7_other (d : Dev nD) (W : Valuation τ sig (Elt F)) (x : Ref sig .tc) (h1 : x ≠ main_v48) (h2 : x ≠ main_v49) :
    WR7 m res7 d W (Proc.devRef .tc x) = W (Proc.devRef .tc x) := by
  unfold WR7; rw [Function.update_of_ne (StableHlo.devRef_ne_of_ne h2), Function.update_of_ne (StableHlo.devRef_ne_of_ne h1)]

/-- A reference no stretch and no call writes holds its launch contents when @main returns. -/
theorem VfinOf_kept (d : Dev nD) (x : Ref sig .tc) (h1 : x ∉ wPre) (h2 : x ∉ wPost) (h3 : x ∉ wCalls) :
    VfinOf m res0 res1 res2 res3 res4 res5 res6 res7 d (Proc.devRef .tc x) = m (d, Proc.devRef .tc x) := by
  unfold VfinOf
  rw [StableHlo.after_of_writes_sub opsPost _ opsPost_writes h2]
  unfold Wk8 Wk7 Wk6 Wk5 Wk4 Wk3 Wk2 Wk1 Wk0
  rw [WR7_other m res7 d _ x (fun e => h3 (e ▸ by decide)) (fun e => h3 (e ▸ by decide))]
  rw [WR6_other m res6 d _ x (fun e => h3 (e ▸ by decide)) (fun e => h3 (e ▸ by decide))]
  rw [WR5_other m res5 d _ x (fun e => h3 (e ▸ by decide)) (fun e => h3 (e ▸ by decide))]
  rw [WR4_other m res4 d _ x (fun e => h3 (e ▸ by decide)) (fun e => h3 (e ▸ by decide))]
  rw [WR3_other m res3 d _ x (fun e => h3 (e ▸ by decide)) (fun e => h3 (e ▸ by decide))]
  rw [WR2_other m res2 d _ x (fun e => h3 (e ▸ by decide)) (fun e => h3 (e ▸ by decide))]
  rw [WR1_other m res1 d _ x (fun e => h3 (e ▸ by decide)) (fun e => h3 (e ▸ by decide))]
  rw [WR0_other m res0 d _ x (fun e => h3 (e ▸ by decide)) (fun e => h3 (e ▸ by decide))]
  show V1 m d (Proc.devRef .tc x) = _
  unfold V1
  rw [StableHlo.after_of_writes_sub opsPre _ opsPre_writes h1]

end Cert.Proof.KI

end
-- ==== Proof.Run.lean ====
/-
  The run of the idealized kernel program: the launch theorem applied to the tiles' tasks, the split of each
  SparseCore's operands, the launch element and @main on the TensorCore; and what the final memory holds.
-/
import proofs.«214101_g10505490006249_cont_week2b_118_28_alg».proof.Proof.Kept

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Transfers (shareTok shareDrop pointsTo_toks_split pointsTo_toks_join)

variable {F : FTy → Type}

local notation "𝕄" => MT nD τ sig (HIx 8) (Elt F) ℕ UU ℕ

variable [FloatOps F]
variable (m : (ℓ : Loc nD τ sig) → Buf (Elt F) ℓ) (ρ : Dev nD → PrngReg)
variable (res0 : (d : Dev nD) → TCv (F := F) d → Buf (Elt F) ((SparseCore.T (τ := τ) d).loc main_v35))
variable (res1 : (d : Dev nD) → TCv (F := F) d → Buf (Elt F) ((SparseCore.T (τ := τ) d).loc main_v37))
variable (res2 : (d : Dev nD) → TCv (F := F) d → Buf (Elt F) ((SparseCore.T (τ := τ) d).loc main_v39))
variable (res3 : (d : Dev nD) → TCv (F := F) d → Buf (Elt F) ((SparseCore.T (τ := τ) d).loc main_v41))
variable (res4 : (d : Dev nD) → TCv (F := F) d → Buf (Elt F) ((SparseCore.T (τ := τ) d).loc main_v43))
variable (res5 : (d : Dev nD) → TCv (F := F) d → Buf (Elt F) ((SparseCore.T (τ := τ) d).loc main_v45))
variable (res6 : (d : Dev nD) → TCv (F := F) d → Buf (Elt F) ((SparseCore.T (τ := τ) d).loc main_v47))
variable (res7 : (d : Dev nD) → TCv (F := F) d → Buf (Elt F) ((SparseCore.T (τ := τ) d).loc main_v49))

/-- Every weakly fair execution of the program's threads terminates without a fault, and every unscoped buffer of
    each TensorCore ends at the final valuation — given each tile's task and each TensorCore call's region step. -/
theorem run_main [∀ e, Nonempty (Elt F e)]
    (htile : ∀ q : Fin 8, (K (F := F)).TileObl (D (F := F)) 𝒱 (P (F := F) (tvOf m) (ivOf m)) v₀ q)
    (hreg0 : RegionStep (F := F) 0 main_v35 res0) (hreg1 : RegionStep (F := F) 1 main_v37 res1) (hreg2 : RegionStep (F := F) 2 main_v39 res2) (hreg3 : RegionStep (F := F) 3 main_v41 res3) (hreg4 : RegionStep (F := F) 4 main_v43 res4) (hreg5 : RegionStep (F := F) 5 main_v45 res5) (hreg6 : RegionStep (F := F) 6 main_v47 res6) (hreg7 : RegionStep (F := F) 7 main_v49 res7) :
    θ_run (Cert.KernelIdeal.defs (F := F)) (Cert.KernelIdeal.threads (F := F)) ⟨m, fun _ => 0, ρ⟩ (QC (F := F) (VfinOf m res0 res1 res2 res3 res4 res5 res6 res7)) :=
  SparseCore.Cfg.θ_run_sc (K := K (F := F)) (D := D (F := F)) (𝒱 := 𝒱) (EH := EH) (P := P (F := F) (tvOf m) (ivOf m)) facts v₀
    (fun q hq => by fin_cases q <;> exact nomatch hq)
    (fun q _ => htile q)
    (fun q _ => SparseCore.Cfg.VecSplit.of_plain (vecSplit (tvOf m) (ivOf m) q))
    m ρ main (fun d => G (F := F) d) (FIN (F := F) (VfinOf m res0 res1 res2 res3 res4 res5 res6 res7)) (u₀ (F := F)) (sep_elim_left.trans (hu₀ (tvOf m) (ivOf m)))
    (hmain m ρ res0 res1 res2 res3 res4 res5 res6 res7 hreg0 hreg1 hreg2 hreg3 hreg4 hreg5 hreg6 hreg7) (fq (VfinOf m res0 res1 res2 res3 res4 res5 res6 res7)) (hfin (VfinOf m res0 res1 res2 res3 res4 res5 res6 res7))
    (QC (F := F) (VfinOf m res0 res1 res2 res3 res4 res5 res6 res7)) (fun _ h => h)

/-- The same run, read at the result buffer and the fourteen argument buffers: the result at the final valuation,
    the arguments as launched. -/
theorem run_value [∀ e, Nonempty (Elt F e)]
    (htile : ∀ q : Fin 8, (K (F := F)).TileObl (D (F := F)) 𝒱 (P (F := F) (tvOf m) (ivOf m)) v₀ q)
    (hreg0 : RegionStep (F := F) 0 main_v35 res0) (hreg1 : RegionStep (F := F) 1 main_v37 res1) (hreg2 : RegionStep (F := F) 2 main_v39 res2) (hreg3 : RegionStep (F := F) 3 main_v41 res3) (hreg4 : RegionStep (F := F) 4 main_v43 res4) (hreg5 : RegionStep (F := F) 5 main_v45 res5) (hreg6 : RegionStep (F := F) 6 main_v47 res6) (hreg7 : RegionStep (F := F) 7 main_v49 res7) :
    θ_run (Cert.KernelIdeal.defs (F := F)) (Cert.KernelIdeal.threads (F := F)) ⟨m, fun _ => 0, ρ⟩ (fun r => ∀ c : Dev nD,
      r.2.mem ((c.tc : Thread nD τ).loc main_v51) = VfinOf m res0 res1 res2 res3 res4 res5 res6 res7 c (Proc.devRef .tc main_v51)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run Cert.KernelIdeal.defs _ _).mono (fun r h c =>
    ⟨h c _ (mem_Sun main_v51 (by decide)),
     (h c _ (mem_Sun main_arg0 (by decide))).trans (VfinOf_kept m res0 res1 res2 res3 res4 res5 res6 res7 c main_arg0 (by decide) (by decide) (by decide)),
     (h c _ (mem_Sun main_arg1 (by decide))).trans (VfinOf_kept m res0 res1 res2 res3 res4 res5 res6 res7 c main_arg1 (by decide) (by decide) (by decide)),
     (h c _ (mem_Sun main_arg2 (by decide))).trans (VfinOf_kept m res0 res1 res2 res3 res4 res5 res6 res7 c main_arg2 (by decide) (by decide) (by decide)),
     (h c _ (mem_Sun main_arg3 (by decide))).trans (VfinOf_kept m res0 res1 res2 res3 res4 res5 res6 res7 c main_arg3 (by decide) (by decide) (by decide)),
     (h c _ (mem_Sun main_arg4 (by decide))).trans (VfinOf_kept m res0 res1 res2 res3 res4 res5 res6 res7 c main_arg4 (by decide) (by decide) (by decide)),
     (h c _ (mem_Sun main_arg5 (by decide))).trans (VfinOf_kept m res0 res1 res2 res3 res4 res5 res6 res7 c main_arg5 (by decide) (by decide) (by decide)),
     (h c _ (mem_Sun main_arg6 (by decide))).trans (VfinOf_kept m res0 res1 res2 res3 res4 res5 res6 res7 c main_arg6 (by decide) (by decide) (by decide)),
     (h c _ (mem_Sun main_arg7 (by decide))).trans (VfinOf_kept m res0 res1 res2 res3 res4 res5 res6 res7 c main_arg7 (by decide) (by decide) (by decide)),
     (h c _ (mem_Sun main_arg8 (by decide))).trans (VfinOf_kept m res0 res1 res2 res3 res4 res5 res6 res7 c main_arg8 (by decide) (by decide) (by decide)),
     (h c _ (mem_Sun main_arg9 (by decide))).trans (VfinOf_kept m res0 res1 res2 res3 res4 res5 res6 res7 c main_arg9 (by decide) (by decide) (by decide)),
     (h c _ (mem_Sun main_arg10 (by decide))).trans (VfinOf_kept m res0 res1 res2 res3 res4 res5 res6 res7 c main_arg10 (by decide) (by decide) (by decide)),
     (h c _ (mem_Sun main_arg11 (by decide))).trans (VfinOf_kept m res0 res1 res2 res3 res4 res5 res6 res7 c main_arg11 (by decide) (by decide) (by decide)),
     (h c _ (mem_Sun main_arg12 (by decide))).trans (VfinOf_kept m res0 res1 res2 res3 res4 res5 res6 res7 c main_arg12 (by decide) (by decide) (by decide)),
     (h c _ (mem_Sun main_arg13 (by decide))).trans (VfinOf_kept m res0 res1 res2 res3 res4 res5 res6 res7 c main_arg13 (by decide) (by decide) (by decide))⟩)
    (run_main m ρ res0 res1 res2 res3 res4 res5 res6 res7 htile hreg0 hreg1 hreg2 hreg3 hreg4 hreg5 hreg6 hreg7)

end Cert.Proof.KI

end
-- ==== Proof.SetupW.lean ====
/-
  The kernel program as the SparseCore launch theorem sees it: eight vector-subcore gather calls and
  eight TensorCore pipelines over one label table, and the resource algebra the proof runs in — the rounds of
  the launch handshakes, the rounds of the pipelines' staging cells, and the counters of the gather kernels'
  own local transfers.
-/
import proofs.«214101_g10505490006249_cont_week2b_118_28_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import Idealize.ShloMosaic.Lib.ValueIdx
import proofs.«214101_g10505490006249_cont_week2b_118_28_alg».proof.Proof.Gen.Kernel
import proofs.«214101_g10505490006249_cont_week2b_118_28_alg».proof.Proof.Gen.Kernel.Skeleton
import proofs.«214101_g10505490006249_cont_week2b_118_28_alg».proof.Proof.Gen.Kernel.Launch

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 8) fun p => (pcfgs (F := F) p).Adm
abbrev K : SparseCore.Cfg τ sig (ΛP (F := F)) 8 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The launch handshakes' rounds. -/
abbrev UH : Type := URounds (GSem nD τ sig) ℕ
/-- The pipelines' staging cells' rounds. -/
abbrev UP : Type := URounds (GSem nD τ sig) Unit
/-- Handshakes, then pipelines beside the local transfers' counters. -/
abbrev UU : Type := UH × (UP × Counters)

local notation "𝕄" => MT nD τ sig (HIx 8) (Elt F) ℕ UU ℕ

abbrev EH : Emb UH (MT nD τ sig (HIx 8) (Elt F) ℕ UU ℕ) := embL
def EP : Emb UP (MT nD τ sig (HIx 8) (Elt F) ℕ UU ℕ) :=
  (Emb.inl : Emb UP (UP × Counters)).trans (embR : Emb (UP × Counters) (MT nD τ sig (HIx 8) (Elt F) ℕ UU ℕ))

instance EP_landsIn : (EP : Emb UP 𝕄).LandsIn (upEmb : UEmb _ 𝕄) := by unfold EP embR; infer_instance

end Cert.Proof.KW

/-! ## The arrays of the gather calls -/

namespace Cert.Proof.KW

open Cert.Kernel Cert.Kernel.Gen
open Idealize.ShloMosaic
open Idealize.ShloMosaic.SparseCore (S V T)
open Idealize.ShloMosaic.ValueIdx

variable {F : FTy → Type}

/-- The table of the 32768 flattened points (64 feature columns, 3 coordinate columns, zero padding to 128) and the
    flat list of the 524288 neighbour rows, as locations of device `d`'s TensorCore. -/
abbrev tblLoc (d : Dev nD) : Loc nD τ sig := (SparseCore.T d).loc main_v10
abbrev idxLoc (d : Dev nD) : Loc nD τ sig := (SparseCore.T d).loc main_v6

/-- The result array of gather call `q`: 65536 gathered rows. -/
def outRef : Fin 8 → Ref sig .tc
  | 0 => main_v34 | 1 => main_v36 | 2 => main_v38 | 3 => main_v40 | 4 => main_v42 | 5 => main_v44 | 6 => main_v46 | 7 => main_v48
abbrev outLoc (q : Fin 8) (d : Dev nD) : Loc nD τ sig := (SparseCore.T d).loc (outRef q)

/-- Worker `s * 2 + c` (vector subcore `s` of SparseCore `c`) owns result rows `[2048 w, 2048 (w + 1))`. -/
def wid (c : Fin 2) (s : Fin 16) : Fin 32 := ⟨s.val * 2 + c.val, by omega⟩

theorem hdiv32 : 32 ∣ S65536x128.size 0 := ⟨2048, rfl⟩
/-- The rows of worker `w`, as a rectangle of the result array and as its set of indices. -/
abbrev rowsRect (w : Fin 32) : Rect S65536x128 := Rect.part (s := S65536x128) (a₀ := 0) hdiv32 w
abbrev rowsSet (w : Fin 32) : Finset S65536x128.Idx :=
  ((Memref.whole main_v34_scv : Memref sig .scVector .hbm S65536x128 .f32).view.slice (rowsRect w)).set

/-- The row of the table a 32-bit index word names (every word the kernels meet is below 32768). -/
def rowOf (w : BitVec 32) : Fin 32768 := ⟨w.toNat % 32768, Nat.mod_lt _ (by decide)⟩

/-- What gather call `q` leaves in its result array: row `r` is the table's row named by entry `65536 q + r` of the
    index list. -/
def gathered (tv : S32768x128.Idx → Elt F .f32) (iv : S524288.Idx → Elt F .i32) (q : Fin 8) : S65536x128.Idx → Elt F .f32 :=
  fun j => tv (ix2 (rowOf (iv (ix1 ⟨q.val * 65536 + (j 0).val, by have := idx2_lt0 (n0 := 65536) (n1 := 128) j; have := q.isLt; omega⟩))) (j 1))

end Cert.Proof.KW

end
-- ==== Proof.MainSplitW.lean ====
/-
  The kernel's @main as three stretches: the host operations that build the table, the index list
  and the small weight arrays; the eight gather calls, each followed by its TensorCore call; the two
  operations that join the eight results.
-/
import proofs.«214101_g10505490006249_cont_week2b_118_28_alg».proof.Proof.SetupW

noncomputable section

namespace Cert.Proof.KW

open Cert.Kernel Cert.Kernel.Gen
open Idealize.ShloMosaic Idealize.SL.Sem

variable {F : FTy → Type} [FloatOps F]

/-- The host operations before the first call, in program order. -/
def opsPre : List (HloOp τ sig (Elt F)) :=
  [ StableHlo.nullary main_v0 (iotaInDim S4 32 0),
    StableHlo.nullary main_c (constantI S_ 32 8192#32),
    StableHlo.unary main_c main_v1 (broadcastInDim S4 ![] bcast_S_S4 : (⟨S_, .i32⟩ : BufTy).Contents (Elt F) → (⟨S4, .i32⟩ : BufTy).Contents (Elt F)),
    StableHlo.binary main_v0 main_v1 main_v2 (muli : (⟨S4, .i32⟩ : BufTy).Contents (Elt F) → (⟨S4, .i32⟩ : BufTy).Contents (Elt F) → (⟨S4, .i32⟩ : BufTy).Contents (Elt F)),
    StableHlo.unary main_v2 main_v3 (broadcastInDim S4x1x1 ![0] bcast_S4_S4x1x1_0 : (⟨S4, .i32⟩ : BufTy).Contents (Elt F) → (⟨S4x1x1, .i32⟩ : BufTy).Contents (Elt F)),
    StableHlo.unary main_v3 main_v4 (broadcastInDim S4x8192x16 ![0, 1, 2] bcast_S4x1x1_S4x8192x16_0_1_2 : (⟨S4x1x1, .i32⟩ : BufTy).Contents (Elt F) → (⟨S4x8192x16, .i32⟩ : BufTy).Contents (Elt F)),
    StableHlo.binary main_arg3 main_v4 main_v5 (addi : (⟨S4x8192x16, .i32⟩ : BufTy).Contents (Elt F) → (⟨S4x8192x16, .i32⟩ : BufTy).Contents (Elt F) → (⟨S4x8192x16, .i32⟩ : BufTy).Contents (Elt F)),
    StableHlo.reshape main_v5 main_v6 rfl shapeCasts_S4x8192x16_S524288,
    StableHlo.reshape main_arg0 main_v7 rfl shapeCasts_S4x8192x64_S32768x64,
    StableHlo.reshape main_arg1 main_v8 rfl shapeCasts_S4x8192x3_S32768x3,
    StableHlo.binary main_v7 main_v8 main_v9 ((fun a b => concatenate S32768x67 1 [⟨S32768x64, a⟩, ⟨S32768x3, b⟩] concatenates_S32768x64_S32768x3_S32768x67_d1) : (⟨S32768x64, .f32⟩ : BufTy).Contents (Elt F) → (⟨S32768x3, .f32⟩ : BufTy).Contents (Elt F) → (⟨S32768x67, .f32⟩ : BufTy).Contents (Elt F)),
    StableHlo.nullary main_c_0 (constantI S_ 32 0#32),
    StableHlo.TRef.unary (StableHlo.TRef.of (T := ⟨S_, .i32⟩) main_c_0) main_call0.v0 (sitofp .f32),
    StableHlo.TRef.binary (StableHlo.TRef.of (T := ⟨S32768x67, .f32⟩) main_v9) main_call0.v0 main_call0.v1 (fun x v => pad S32768x128 ![0, 0] ![0, 61] ![0, 0] x v pads_S32768x67_S32768x128_000_0610 h_S_),
    StableHlo.reshape main_arg8 main_v11 rfl shapeCasts_S32x48_S32x3x16,
    StableHlo.nullary main_cst (constant S_ .f32 0x00000000#32),
    StableHlo.binary main_v11 main_cst main_v12 ((fun x v => Host.reduceAdd x v reducesTo_S32x3x16_S32x3_d2 h_S_) : (⟨S32x3x16, .f32⟩ : BufTy).Contents (Elt F) → (⟨S_, .f32⟩ : BufTy).Contents (Elt F) → (⟨S32x3, .f32⟩ : BufTy).Contents (Elt F)),
    StableHlo.unary main_v12 main_v13 ((transpose S3x32 [1, 0] · transposes_S32x3_S3x32_1_0) : (⟨S32x3, .f32⟩ : BufTy).Contents (Elt F) → (⟨S3x32, .f32⟩ : BufTy).Contents (Elt F)),
    StableHlo.nullary main_c_1 (constantI S_ 32 0#32),
    StableHlo.TRef.unary (StableHlo.TRef.of (T := ⟨S_, .i32⟩) main_c_1) main_call1.v0 (sitofp .f32),
    StableHlo.TRef.binary (StableHlo.TRef.of (T := ⟨S3x32, .f32⟩) main_v13) main_call1.v0 main_call1.v1 (fun x v => pad S128x32 ![64, 0] ![61, 0] ![0, 0] x v pads_S3x32_S128x32_64610_000 h_S_),
    StableHlo.unary main_arg7 main_v15 (broadcastInDim S1x3x16 ![1, 2] bcast_S3x16_S1x3x16_1_2 : (⟨S3x16, .f32⟩ : BufTy).Contents (Elt F) → (⟨S1x3x16, .f32⟩ : BufTy).Contents (Elt F)),
    StableHlo.unary main_v15 main_v16 (broadcastInDim S32x3x16 ![0, 1, 2] bcast_S1x3x16_S32x3x16_0_1_2 : (⟨S1x3x16, .f32⟩ : BufTy).Contents (Elt F) → (⟨S32x3x16, .f32⟩ : BufTy).Contents (Elt F)),
    StableHlo.binary main_v11 main_v16 main_v17 (mulf : (⟨S32x3x16, .f32⟩ : BufTy).Contents (Elt F) → (⟨S32x3x16, .f32⟩ : BufTy).Contents (Elt F) → (⟨S32x3x16, .f32⟩ : BufTy).Contents (Elt F)),
    StableHlo.nullary main_cst_2 (constant S_ .f32 0x00000000#32),
    StableHlo.binary main_v17 main_cst_2 main_v18 ((fun x v => Host.reduceAdd x v reducesTo_S32x3x16_S32_d1_2 h_S_) : (⟨S32x3x16, .f32⟩ : BufTy).Contents (Elt F) → (⟨S_, .f32⟩ : BufTy).Contents (Elt F) → (⟨S32, .f32⟩ : BufTy).Contents (Elt F)),
    StableHlo.binary main_arg9 main_v18 main_v19 (subf : (⟨S32, .f32⟩ : BufTy).Contents (Elt F) → (⟨S32, .f32⟩ : BufTy).Contents (Elt F) → (⟨S32, .f32⟩ : BufTy).Contents (Elt F)),
    StableHlo.unary main_v19 main_v20 (broadcastInDim S1x32 ![1] bcast_S32_S1x32_1 : (⟨S32, .f32⟩ : BufTy).Contents (Elt F) → (⟨S1x32, .f32⟩ : BufTy).Contents (Elt F)),
    StableHlo.reshape main_arg2 main_v21 rfl shapeCasts_S4x8192x3_S32768x3,
    StableHlo.binary main_v21 main_v13 main_v22 ((fun l r => Host.dotGeneral dot_S32768x3_S3x32_S32768x32_1_0_0_1_n_n none l r) : (⟨S32768x3, .f32⟩ : BufTy).Contents (Elt F) → (⟨S3x32, .f32⟩ : BufTy).Contents (Elt F) → (⟨S32768x32, .f32⟩ : BufTy).Contents (Elt F)),
    StableHlo.unary main_v20 main_v23 (broadcastInDim S32768x32 ![0, 1] bcast_S1x32_S32768x32_0_1 : (⟨S1x32, .f32⟩ : BufTy).Contents (Elt F) → (⟨S32768x32, .f32⟩ : BufTy).Contents (Elt F)),
    StableHlo.binary main_v23 main_v22 main_v24 (subf : (⟨S32768x32, .f32⟩ : BufTy).Contents (Elt F) → (⟨S32768x32, .f32⟩ : BufTy).Contents (Elt F) → (⟨S32768x32, .f32⟩ : BufTy).Contents (Elt F)),
    StableHlo.unary main_arg10 main_v25 ((transpose S32x16 [1, 0] · transposes_S16x32_S32x16_1_0) : (⟨S16x32, .f32⟩ : BufTy).Contents (Elt F) → (⟨S32x16, .f32⟩ : BufTy).Contents (Elt F)),
    StableHlo.reshape main_arg11 main_v26 rfl shapeCasts_S16_S1x16,
    StableHlo.unary main_arg12 main_v27 ((transpose S16x16 [1, 0] · transposes_S16x16_S16x16_1_0) : (⟨S16x16, .f32⟩ : BufTy).Contents (Elt F) → (⟨S16x16, .f32⟩ : BufTy).Contents (Elt F)),
    StableHlo.reshape main_arg13 main_v28 rfl shapeCasts_S16_S1x16,
    StableHlo.unary main_arg5 main_v29 ((transpose S16x64x64 [1, 0, 2] · transposes_S64x16x64_S16x64x64_1_0_2) : (⟨S64x16x64, .f32⟩ : BufTy).Contents (Elt F) → (⟨S16x64x64, .f32⟩ : BufTy).Contents (Elt F)),
    StableHlo.nullary main_cst_3 (constant S_ .f32 0x41800000#32),
    StableHlo.unary main_cst_3 main_v30 (broadcastInDim S16x64x64 ![] bcast_S_S16x64x64 : (⟨S_, .f32⟩ : BufTy).Contents (Elt F) → (⟨S16x64x64, .f32⟩ : BufTy).Contents (Elt F)),
    StableHlo.binary main_v29 main_v30 main_v31 (Host.divf : (⟨S16x64x64, .f32⟩ : BufTy).Contents (Elt F) → (⟨S16x64x64, .f32⟩ : BufTy).Contents (Elt F) → (⟨S16x64x64, .f32⟩ : BufTy).Contents (Elt F)),
    StableHlo.reshape main_v31 main_v32 rfl shapeCasts_S16x64x64_S1024x64,
    StableHlo.reshape main_arg6 main_v33 rfl shapeCasts_S64_S1x64 ]

/-- The two host operations after the last call: the eight results stacked, then given the batch shape. -/
def opsPost : List (HloOp τ sig (Elt F)) :=
  [ StableHlo.nary ![main_v35, main_v37, main_v39, main_v41, main_v43, main_v45, main_v47, main_v49] main_v50 (fun u => concatenate S32768x64 0 [⟨S4096x64, u 0⟩, ⟨S4096x64, u 1⟩, ⟨S4096x64, u 2⟩, ⟨S4096x64, u 3⟩, ⟨S4096x64, u 4⟩, ⟨S4096x64, u 5⟩, ⟨S4096x64, u 6⟩, ⟨S4096x64, u 7⟩] concatenates_S4096x64_S4096x64_S4096x64_S4096x64_S4096x64_S4096x64_S4096x64_S4096x64_S32768x64_d0),
    StableHlo.reshape main_v50 main_v51 rfl shapeCasts_S32768x64_S4x8192x64 ]

/-- The eight gather calls, each followed by its TensorCore call, then `k`. -/
def calls (d : Dev nD) (k : Prog (TpuEff nD τ sig (Elt F) (SparseCore.Sig (ΛP (F := F)) 8) .tc) PUnit) :
    Prog (TpuEff nD τ sig (Elt F) (SparseCore.Sig (ΛP (F := F)) 8) .tc) PUnit := do
  sc.run d 0
  Prog.lift (.customCall (SparseCore.inner (Pipeline.entry 0)) ())
  sc.run d 1
  Prog.lift (.customCall (SparseCore.inner (Pipeline.entry 1)) ())
  sc.run d 2
  Prog.lift (.customCall (SparseCore.inner (Pipeline.entry 2)) ())
  sc.run d 3
  Prog.lift (.customCall (SparseCore.inner (Pipeline.entry 3)) ())
  sc.run d 4
  Prog.lift (.customCall (SparseCore.inner (Pipeline.entry 4)) ())
  sc.run d 5
  Prog.lift (.customCall (SparseCore.inner (Pipeline.entry 5)) ())
  sc.run d 6
  Prog.lift (.customCall (SparseCore.inner (Pipeline.entry 6)) ())
  sc.run d 7
  Prog.lift (.customCall (SparseCore.inner (Pipeline.entry 7)) ())
  k

set_option maxRecDepth 8192 in
/-- @main is the first stretch, the calls, the last stretch. -/
theorem main_split (d : Dev nD) :
    main (F := F) d = (StableHlo.seq opsPre >>= fun _ => calls d (StableHlo.seq opsPost)) := by
  chain_rfl

end Cert.Proof.KW

end
-- ==== Proof.LaunchW.lean ====
/-
  The launch of the kernel program: what each gather call hands its SparseCores and tiles and takes
  back, the obligations of the launch theorem, and the program's run.
-/
import proofs.«214101_g10505490006249_cont_week2b_118_28_alg».proof.Proof.SetupW
import proofs.«214101_g10505490006249_cont_week2b_118_28_alg».proof.Proof.MainSplitW

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Transfers (shareTok shareDrop pointsTo_toks_split pointsTo_toks_join)

variable {F : FTy → Type}

local notation "𝕄" => MT nD τ sig (HIx 8) (Elt F) ℕ UU ℕ

/-! ## The calls' grids -/

theorem nCore_eq (q : Fin 8) : (K (F := F)).nCore q = 2 := by fin_cases q <;> rfl
theorem nSub_eq (q : Fin 8) : (K (F := F)).nSub q = 16 := by fin_cases q <;> rfl
abbrev cC (q : Fin 8) (c : Fin ((K (F := F)).nCore q)) : Fin 2 := Fin.cast (nCore_eq q) c
abbrev sS (q : Fin 8) (i : Fin ((K (F := F)).nSub q)) : Fin 16 := Fin.cast (nSub_eq q) i

/-! ## What the handshakes carry -/

/-- The result array of call `q` on the index set `s`, at share `sh` and contents `f` (the eight arrays have one
    shape; the case split on the call is here and nowhere else). -/
def outPts (q : Fin 8) (d : Dev nD) (s : Finset S65536x128.Idx) (sh : PosShare TreeShare) (f : S65536x128.Idx → Elt F .f32) : sProp 𝕄 :=
  match q with
  | 0 => (SparseCore.T d).loc main_v34 ↦[s]{sh} f
  | 1 => (SparseCore.T d).loc main_v36 ↦[s]{sh} f
  | 2 => (SparseCore.T d).loc main_v38 ↦[s]{sh} f
  | 3 => (SparseCore.T d).loc main_v40 ↦[s]{sh} f
  | 4 => (SparseCore.T d).loc main_v42 ↦[s]{sh} f
  | 5 => (SparseCore.T d).loc main_v44 ↦[s]{sh} f
  | 6 => (SparseCore.T d).loc main_v46 ↦[s]{sh} f
  | 7 => (SparseCore.T d).loc main_v48 ↦[s]{sh} f

instance outPts_storable (q : Fin 8) (d : Dev nD) (s : Finset S65536x128.Idx) (sh : PosShare TreeShare) (f : S65536x128.Idx → Elt F .f32) :
    BI.Storable (upEmb : UEmb _ 𝕄) (outPts q d s sh f) := by
  unfold outPts; split <;> infer_instance

/-- SparseCore `c`'s read share of the table and of the index list, and tile `(c, i)`'s share of that. -/
abbrev shC (c : Fin 2) : PosShare TreeShare := shareTok fullShare 2 c
abbrev shT (c : Fin 2) (i : Fin 16) : PosShare TreeShare := shareTok (shC c) 16 i

variable (tv : (d : Dev nD) → S32768x128.Idx → Elt F .f32) (iv : (d : Dev nD) → S524288.Idx → Elt F .i32)

/-- Call `q` hands SparseCore `c` a read share of the table and of the index list and its sixteen workers' result
    rows; tile `(c, i)` gets its share of the two and worker `2 i + c`'s rows, and hands them back with the rows at
    the gathered contents. -/
def P : (K (F := F)).Pay (nD := nD) (Val := Elt F) (Name := ℕ) (U := UU) where
  st := fun q d c => iprop((tblLoc d ↦{shC (cC q c)} tv d) ∗ (idxLoc d ↦{shC (cC q c)} iv d)
    ∗ bigSep Finset.univ fun i : Fin 16 => iprop(∃ f, outPts q d (rowsSet (wid (cC q c) i)) fullShare f))
  dn := fun q d c => iprop((tblLoc d ↦{shC (cC q c)} tv d) ∗ (idxLoc d ↦{shC (cC q c)} iv d)
    ∗ bigSep Finset.univ fun i : Fin 16 => outPts q d (rowsSet (wid (cC q c) i)) fullShare (gathered (tv d) (iv d) q))
  go := fun q d c i => iprop((tblLoc d ↦{shT (cC q c) (sS q i)} tv d) ∗ (idxLoc d ↦{shT (cC q c) (sS q i)} iv d)
    ∗ ∃ f, outPts q d (rowsSet (wid (cC q c) (sS q i))) fullShare f)
  td := fun q d c i => iprop((tblLoc d ↦{shT (cC q c) (sS q i)} tv d) ∗ (idxLoc d ↦{shT (cC q c) (sS q i)} iv d)
    ∗ outPts q d (rowsSet (wid (cC q c) (sS q i))) fullShare (gathered (tv d) (iv d) q))
  x := fun _ _ => iprop(emp)

instance P_storable : (P (F := F) tv iv).IsStorable where
  st _ _ _ := by unfold P; infer_instance
  dn _ _ _ := by unfold P; infer_instance
  go _ _ _ _ := by unfold P; infer_instance
  td _ _ _ _ := by unfold P; infer_instance

/-! ## Regrouping the tiles -/

omit tv iv in
/-- A conjunction over a call's sixteen tiles, indexed by the call's own count, is one over `Fin 16`. -/
theorem bigSep_sS (q : Fin 8) (Φ : Fin 16 → sProp 𝕄) :
    (bigSep Finset.univ fun i : Fin ((K (F := F)).nSub q) => Φ (sS q i)) = bigSep Finset.univ Φ := by
  fin_cases q <;> exact bigSep_congr fun _ _ => congrArg Φ (Fin.ext rfl)

/-- What tile `j` of SparseCore `c` is handed at call `q`, and what it hands back. -/
def goR (q : Fin 8) (d : Dev nD) (c : Fin 2) (j : Fin 16) : sProp 𝕄 :=
  iprop((tblLoc d ↦{shT c j} tv d) ∗ (idxLoc d ↦{shT c j} iv d) ∗ ∃ f, outPts q d (rowsSet (wid c j)) fullShare f)
def tdR (q : Fin 8) (d : Dev nD) (c : Fin 2) (j : Fin 16) : sProp 𝕄 :=
  iprop((tblLoc d ↦{shT c j} tv d) ∗ (idxLoc d ↦{shT c j} iv d) ∗ outPts q d (rowsSet (wid c j)) fullShare (gathered (tv d) (iv d) q))

/-- A SparseCore's share of the table and the index list splits into its tiles' shares (a remainder stays with the
    sequencer until the tiles hand theirs back), its workers' rows go one block to each tile. -/
theorem vecSplit (q : Fin 8) : (K (F := F)).VecSplit' (P (F := F) tv iv) q := by
  intro d c
  show iprop((tblLoc d ↦{shC (cC q c)} tv d) ∗ (idxLoc d ↦{shC (cC q c)} iv d)
      ∗ bigSep Finset.univ fun i : Fin 16 => iprop(∃ f, outPts q d (rowsSet (wid (cC q c) i)) fullShare f))
    ⊢ |={Set.univ}=> iprop(
      (bigSep Finset.univ fun i : Fin ((K (F := F)).nSub q) => goR tv iv q d (cC q c) (sS q i))
      ∗ ((bigSep Finset.univ fun i : Fin ((K (F := F)).nSub q) => tdR tv iv q d (cC q c) (sS q i))
        -∗ iprop((tblLoc d ↦{shC (cC q c)} tv d) ∗ (idxLoc d ↦{shC (cC q c)} iv d)
          ∗ bigSep Finset.univ fun i : Fin 16 => outPts q d (rowsSet (wid (cC q c) i)) fullShare (gathered (tv d) (iv d) q))))
  rw [bigSep_sS q (goR tv iv q d (cC q c)), bigSep_sS q (tdR tv iv q d (cC q c))]
  unfold goR tdR
  rw [bigSep_sep', bigSep_sep', bigSep_sep', bigSep_sep']
  iintro ⟨Ht, Hi, Ho⟩
  ihave Ht' := (pointsTo_toks_split (shC (cC q c)) 16) $$ Ht
  icases Ht' with ⟨Htr, Htt⟩
  ihave Hi' := (pointsTo_toks_split (shC (cC q c)) 16) $$ Hi
  icases Hi' with ⟨Hir, Hit⟩
  imodintro
  isplitl [Htt Hit Ho]
  · isplitl [Htt]; · iexact Htt
    isplitl [Hit]; · iexact Hit
    iexact Ho
  iintro ⟨Htt, Hit, Ho⟩
  isplitl [Htr Htt]
  · iapply (pointsTo_toks_join (shC (cC q c)) 16)
    isplitl [Htr] <;> iassumption
  isplitl [Hir Hit]
  · iapply (pointsTo_toks_join (shC (cC q c)) 16)
    isplitl [Hir] <;> iassumption
  iexact Ho

/-! ## The launch element: the handshakes' rounds and the pipelines' -/

variable [FloatOps F]

/-- The pipelines' staging cells' launch ghost state and duty tokens on device `d`: what @main enters each
    TensorCore call with. -/
def G (d : Dev nD) : sProp 𝕄 :=
  bigSep Finset.univ fun p : Fin 8 => iprop(Pipeline.cellsGhost cfgs (EP (F := F)) p d ∗ Pipeline.toksInit cfgs (EP (F := F)) p d)

def u₀ : UU := (initOf (K (F := F)).hsCells (K (F := F)).hsToks,
  (initOf (Pipeline.cells (nD := nD) (τ := τ) cfgs cellOf_inj) (Pipeline.launchToks (nD := nD) (τ := τ) cfgs cellOf_inj), 1))

omit [FloatOps F] in
theorem bigSep_emp' {I : Type} (s : Finset I) : (bigSep s fun _ => iprop(emp)) = (iprop(emp) : sProp 𝕄) := bigSep_emp_const s

omit [FloatOps F] in
/-- The pipelines' component, reached through the right factor then its left half, is `EP`. -/
theorem own_EP (x : UP) :
    (BI.own (((Emb.inl : Emb UP (UP × Counters)).trans (embR : Emb (UP × Counters) 𝕄)) x) : sProp 𝕄) ⊢ BI.own (EP (F := F) x) := by
  unfold EP; exact BI.Entails.refl _

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 8 => (P (F := F) tv iv).x q thr) := by
  unfold u₀
  iintro Hu
  ihave H := (ownU_pair _ _) $$ Hu
  icases H with ⟨HH, HR⟩
  ihave H2 := (own_pair_emb (embR : Emb (UP × Counters) 𝕄) _ _) $$ HR
  icases H2 with ⟨HP0, -⟩
  ihave HP := (own_EP (F := F) _) $$ HP0
  imod (Pipeline.fund_ghost (nD := nD) (τ := τ) cfgs (EP (F := F)) cellOf_inj) $$ HP with ⟨Hg, Ht⟩
  imodintro
  isplitl [HH]; · iexact HH
  isplitl [Hg Ht]
  · rw [show (bigSep Finset.univ fun d : Dev nD => G (F := F) d)
        = iprop((bigSep Finset.univ fun d : Dev nD => bigSep Finset.univ fun p : Fin 8 => Pipeline.cellsGhost cfgs (EP (F := F)) p d)
          ∗ (bigSep Finset.univ fun d : Dev nD => bigSep Finset.univ fun p : Fin 8 => Pipeline.toksInit cfgs (EP (F := F)) p d)) from by
      unfold G; rw [← bigSep_sep']; exact bigSep_congr fun d _ => bigSep_sep' _ _ _]
    isplitl [Hg]; · iexact Hg
    iexact Ht
  · unfold P; dsimp only
    rw [show (bigSep Finset.univ fun _ : Thread nD τ => bigSep Finset.univ fun _ : Fin 8 => (iprop(emp) : sProp 𝕄)) = iprop(emp) from by
      rw [bigSep_congr fun _ _ => bigSep_emp' _, bigSep_emp']]
    iempintro

/-! ## What @main starts from and ends with -/

variable (m : (ℓ : Loc nD τ sig) → Buf (Elt F) ℓ) (ρ : Dev nD → PrngReg)

/-- The TensorCore's unscoped buffers, as device references. -/
def Sun : Finset (DevRef τ sig) :=
  (Finset.univ.filter fun b : Ref sig .tc => ¬ b.isScoped).map ⟨Proc.devRef (sig := sig) (.tc : Proc τ), Proc.devRef_injective _⟩

omit [FloatOps F] tv iv in
/-- The unscoped buffers the launch deals the TensorCore are `held` over that set. -/
theorem unscoped_held (d : Dev nD) (W : Valuation τ sig (Elt F)) :
    (unscopedBufs d (fun b => W (Proc.devRef .tc b)) : sProp 𝕄) = held (SparseCore.T d) Sun W := by
  unfold unscopedBufs held Sun; rw [bigSep_map]; rfl

-- The contents of a TensorCore's buffers when @main returns (a parameter here; the run instantiates it).
variable (Vfin : Dev nD → Valuation τ sig (Elt F))

/-- What @main leaves the claim: every unscoped buffer held at its final contents. -/
def FIN (d : Dev nD) : sProp 𝕄 := held (SparseCore.T d) Sun (Vfin d)

def fq (d : Dev nD) (s' : Phys nD τ sig (Elt F)) : Prop := ∀ b ∈ (Sun : Finset (DevRef τ sig)), s'.mem.mem (d, b) = Vfin d b

omit [FloatOps F] tv iv in
theorem hfin (d : Dev nD) (s' : Phys nD τ sig (Elt F)) : iprop(FIN (F := F) Vfin d ∗ SI s') ⊢ (⌜fq Vfin d s'⌝ : sProp 𝕄) := by
  unfold FIN held
  iintro ⟨H, HSI⟩
  ihave %h := (SI_pointsTo_bufs_agree (qs := fun _ => fullShare) (Sun : Finset (DevRef τ sig))) $$ [HSI H]
  · isplitl [HSI]; · iexact HSI
    iexact H
  ipureintro
  exact h

def QC : PUnit × MemSt nD τ sig (Elt F) → Prop := fun r => ∀ (d : Dev nD), ∀ b ∈ (Sun : Finset (DevRef τ sig)), r.2.mem (d, b) = Vfin d b

end Cert.Proof.KW

end
-- ==== Proof.MainHostW.lean ====
/-
  @main's first stretch on the TensorCore: the host operations that build the table, the index list and the small
  weight arrays run over the unscoped buffers held whole, from the launch contents to the contents after them.
-/
import proofs.«214101_g10505490006249_cont_week2b_118_28_alg».proof.Proof.LaunchW

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Transfers (shareTok shareDrop pointsTo_toks_split pointsTo_toks_join)

variable {F : FTy → Type}

local notation "𝕄" => MT nD τ sig (HIx 8) (Elt F) ℕ UU ℕ

variable [FloatOps F]
variable (m : (ℓ : Loc nD τ sig) → Buf (Elt F) ℓ)

/-! ## Every buffer the host operations touch is unscoped -/

theorem mem_Sun (x : Ref sig .tc) (h : ¬ x.isScoped) : Proc.devRef (τ := τ) .tc x ∈ (Sun : Finset (DevRef τ sig)) :=
  Finset.mem_map_of_mem _ (Finset.mem_filter.mpr ⟨Finset.mem_univ x, h⟩)
theorem sub_Sun1 (y : Ref sig .tc) (hy : ¬ y.isScoped) : ({Proc.devRef .tc y} : Finset (DevRef τ sig)) ⊆ Sun :=
  Finset.singleton_subset_iff.mpr (mem_Sun y hy)
theorem sub_Sun2 (x y : Ref sig .tc) (hx : ¬ x.isScoped) (hy : ¬ y.isScoped) :
    ({Proc.devRef .tc x, Proc.devRef .tc y} : Finset (DevRef τ sig)) ⊆ Sun :=
  Finset.insert_subset (mem_Sun x hx) (sub_Sun1 y hy)
theorem sub_Sun3 (a b y : Ref sig .tc) (ha : ¬ a.isScoped) (hb : ¬ b.isScoped) (hy : ¬ y.isScoped) :
    ({Proc.devRef .tc a, Proc.devRef .tc b, Proc.devRef .tc y} : Finset (DevRef τ sig)) ⊆ Sun :=
  Finset.insert_subset (mem_Sun a ha) (sub_Sun2 b y hb hy)

set_option maxRecDepth 8192 in
theorem opsPre_sub : ∀ op ∈ (opsPre : List (HloOp τ sig (Elt F))), op.bufs ⊆ (Sun : Finset (DevRef τ sig)) := by
  intro op h
  unfold opsPre at h
  repeat (cases h with
    | head => first
      | exact sub_Sun1 _ (by decide)
      | exact sub_Sun2 _ _ (by decide) (by decide)
      | exact sub_Sun3 _ _ _ (by decide) (by decide) (by decide)
    | tail _ h => ?_)
  exact nomatch h

set_option maxRecDepth 8192 in
theorem opsPre_fresh : ∀ op ∈ (opsPre : List (HloOp τ sig (Elt F))), op.fresh = ∅ := by
  intro op h
  unfold opsPre at h
  repeat (cases h with | head => rfl | tail _ h => ?_)
  exact nomatch h

/-! ## The contents after the first stretch -/

/-- Device `d`'s buffer contents after the first stretch. -/
def V1 (d : Dev nD) : Valuation τ sig (Elt F) := StableHlo.after (opsPre (F := F)) (StableHlo.launchContents m d)

/-- The table and the index list the gather calls read. -/
def tvOf (d : Dev nD) : S32768x128.Idx → Elt F .f32 := V1 m d (Proc.devRef .tc main_v10)
def ivOf (d : Dev nD) : S524288.Idx → Elt F .i32 := V1 m d (Proc.devRef .tc main_v6)

set_option backward.isDefEq.respectTransparency.types false in
/-- The first stretch: from the boundary and the unscoped buffers at the launch contents to the same at `V1`. -/
theorem pre_stretch (d : Dev nD) {β : Type} (k : PUnit → Prog (TpuEff nD τ sig (Elt F) (SparseCore.Sig (ΛP (F := F)) 8) .tc) β) (Φ : β → sProp 𝕄) :
    iprop(boundary (SparseCore.T d) ∗ unscopedBufs d (fun b => m ((SparseCore.T d).loc b))
        ∗ ((boundary (SparseCore.T d) ∗ held (SparseCore.T d) Sun (V1 m d))
            -∗ wp frame (wpE ((K (F := F)).defs (D (F := F))) 𝒱 (SparseCore.T d) none) Set.univ (k ⟨⟩) Φ))
      ⊢ wp frame (wpE ((K (F := F)).defs (D (F := F))) 𝒱 (SparseCore.T d) none) Set.univ (StableHlo.seq opsPre >>= k) Φ := by
  iintro ⟨Hb, Hun, Hk⟩
  ihave Hh := (Entails.of_eq (unscoped_held (F := F) d (StableHlo.launchContents m d))) $$ Hun
  iapply (StableHlo.wp_seq 𝒱 none Set.univ d Sun k opsPre opsPre_sub opsPre_fresh (StableHlo.launchContents m d)) $$ [Hb Hh]
  · isplitl [Hb] <;> iassumption
  iexact Hk

end Cert.Proof.KW

end
-- ==== Proof.CallSharesW.lean ====
/-
  How a gather call's three arrays, held whole by the TensorCore, are dealt to the call's two SparseCores (a read
  token each of the table and the index list, and the result rows by worker block) and taken back whole, the result at
  the gathered contents.
-/
import proofs.«214101_g10505490006249_cont_week2b_118_28_alg».proof.Proof.LaunchW

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Transfers (shareTok shareDrop pointsTo_toks_split pointsTo_toks_join)

variable {F : FTy → Type}

local notation "𝕄" => MT nD τ sig (HIx 8) (Elt F) ℕ UU ℕ

variable (tv : (d : Dev nD) → S32768x128.Idx → Elt F .f32) (iv : (d : Dev nD) → S524288.Idx → Elt F .i32)

/-! ## The thirty-two worker blocks tile the result array -/

theorem rowsSet_eq (w : Fin 32) : rowsSet w = (rowsRect w).set := by
  show ((View.whole (main_v34_scv : Ref sig .scVector)).slice (rowsRect w)).set = _
  rw [View.set_slice]; exact Finset.map_refl
theorem rows_disjoint : ∀ i ∈ (Finset.univ : Finset (Fin 32)), ∀ j ∈ (Finset.univ : Finset (Fin 32)), i ≠ j → Disjoint (rowsSet i) (rowsSet j) :=
  fun i _ j _ h => by rw [rowsSet_eq, rowsSet_eq]; exact Rect.part_disjoint hdiv32 h
theorem rows_cover : (Finset.univ : Finset (Fin 32)).biUnion rowsSet = Finset.univ :=
  (Finset.biUnion_congr rfl fun i _ => rowsSet_eq i).trans (Rect.biUnion_part hdiv32)

omit tv iv in
/-- The result array whole is its thirty-two worker blocks. -/
theorem outPts_rows (q : Fin 8) (d : Dev nD) (f : S65536x128.Idx → Elt F .f32) :
    (outPts q d Finset.univ fullShare f : sProp 𝕄) = bigSep Finset.univ fun w : Fin 32 => outPts q d (rowsSet w) fullShare f := by
  match q with
  | 0 =>
    show ((SparseCore.T d).loc main_v34 ↦{fullShare} f : sProp 𝕄) = bigSep Finset.univ fun w : Fin 32 => (SparseCore.T d).loc main_v34 ↦[rowsSet w]{fullShare} f
    rw [← pointsTo_biUnion Finset.univ (ℓ := (SparseCore.T d).loc main_v34) rowsSet rows_disjoint, rows_cover]
  | 1 =>
    show ((SparseCore.T d).loc main_v36 ↦{fullShare} f : sProp 𝕄) = bigSep Finset.univ fun w : Fin 32 => (SparseCore.T d).loc main_v36 ↦[rowsSet w]{fullShare} f
    rw [← pointsTo_biUnion Finset.univ (ℓ := (SparseCore.T d).loc main_v36) rowsSet rows_disjoint, rows_cover]
  | 2 =>
    show ((SparseCore.T d).loc main_v38 ↦{fullShare} f : sProp 𝕄) = bigSep Finset.univ fun w : Fin 32 => (SparseCore.T d).loc main_v38 ↦[rowsSet w]{fullShare} f
    rw [← pointsTo_biUnion Finset.univ (ℓ := (SparseCore.T d).loc main_v38) rowsSet rows_disjoint, rows_cover]
  | 3 =>
    show ((SparseCore.T d).loc main_v40 ↦{fullShare} f : sProp 𝕄) = bigSep Finset.univ fun w : Fin 32 => (SparseCore.T d).loc main_v40 ↦[rowsSet w]{fullShare} f
    rw [← pointsTo_biUnion Finset.univ (ℓ := (SparseCore.T d).loc main_v40) rowsSet rows_disjoint, rows_cover]
  | 4 =>
    show ((SparseCore.T d).loc main_v42 ↦{fullShare} f : sProp 𝕄) = bigSep Finset.univ fun w : Fin 32 => (SparseCore.T d).loc main_v42 ↦[rowsSet w]{fullShare} f
    rw [← pointsTo_biUnion Finset.univ (ℓ := (SparseCore.T d).loc main_v42) rowsSet rows_disjoint, rows_cover]
  | 5 =>
    show ((SparseCore.T d).loc main_v44 ↦{fullShare} f : sProp 𝕄) = bigSep Finset.univ fun w : Fin 32 => (SparseCore.T d).loc main_v44 ↦[rowsSet w]{fullShare} f
    rw [← pointsTo_biUnion Finset.univ (ℓ := (SparseCore.T d).loc main_v44) rowsSet rows_disjoint, rows_cover]
  | 6 =>
    show ((SparseCore.T d).loc main_v46 ↦{fullShare} f : sProp 𝕄) = bigSep Finset.univ fun w : Fin 32 => (SparseCore.T d).loc main_v46 ↦[rowsSet w]{fullShare} f
    rw [← pointsTo_biUnion Finset.univ (ℓ := (SparseCore.T d).loc main_v46) rowsSet rows_disjoint, rows_cover]
  | 7 =>
    show ((SparseCore.T d).loc main_v48 ↦{fullShare} f : sProp 𝕄) = bigSep Finset.univ fun w : Fin 32 => (SparseCore.T d).loc main_v48 ↦[rowsSet w]{fullShare} f
    rw [← pointsTo_biUnion Finset.univ (ℓ := (SparseCore.T d).loc main_v48) rowsSet rows_disjoint, rows_cover]

/-! ## Workers are (core, subcore) pairs -/

theorem wid_inj : Set.InjOn (fun p : Fin 2 × Fin 16 => wid p.1 p.2) ((Finset.univ : Finset (Fin 2 × Fin 16)) : Set _) := by
  intro a _ b _ e
  have h : a.2.val * 2 + a.1.val = b.2.val * 2 + b.1.val := congrArg Fin.val e
  have h1 := a.1.isLt; have h2 := b.1.isLt
  exact Prod.ext (Fin.ext (by omega)) (Fin.ext (by omega))
theorem wid_image : (Finset.univ : Finset (Fin 32)) = (Finset.univ : Finset (Fin 2 × Fin 16)).image fun p => wid p.1 p.2 := by decide

omit tv iv in
/-- A conjunction over the thirty-two workers is one over the two cores of one over each core's sixteen subcores. -/
theorem bigSep_workers (Φ : Fin 32 → sProp 𝕄) :
    bigSep Finset.univ Φ = bigSep Finset.univ fun c : Fin 2 => bigSep Finset.univ fun i : Fin 16 => Φ (wid c i) := by
  rw [wid_image, SparseCore.bigSep_image_of_injOn wid_inj Φ, ← Finset.univ_product_univ, SparseCore.bigSep_product]

omit tv iv in
/-- A conjunction over a call's two SparseCores, indexed by the call's own count, is one over `Fin 2`. -/
theorem bigSep_cC (q : Fin 8) (Φ : Fin 2 → sProp 𝕄) :
    (bigSep Finset.univ fun c : Fin ((K (F := F)).nCore q) => Φ (cC q c)) = bigSep Finset.univ Φ := by
  fin_cases q <;> exact bigSep_congr fun _ _ => congrArg Φ (Fin.ext rfl)

/-! ## Dealing the call its operands, and taking them back -/

/-- What the call hands SparseCore `c`, and takes back, over `Fin 2`. -/
def stR (q : Fin 8) (d : Dev nD) (c : Fin 2) : sProp 𝕄 :=
  iprop((tblLoc d ↦{shC c} tv d) ∗ (idxLoc d ↦{shC c} iv d)
    ∗ bigSep Finset.univ fun i : Fin 16 => iprop(∃ f, outPts q d (rowsSet (wid c i)) fullShare f))
def dnR (q : Fin 8) (d : Dev nD) (c : Fin 2) : sProp 𝕄 :=
  iprop((tblLoc d ↦{shC c} tv d) ∗ (idxLoc d ↦{shC c} iv d)
    ∗ bigSep Finset.univ fun i : Fin 16 => outPts q d (rowsSet (wid c i)) fullShare (gathered (tv d) (iv d) q))

theorem st_eq (q : Fin 8) (d : Dev nD) :
    (bigSep Finset.univ fun c : Fin ((K (F := F)).nCore q) => (P (F := F) tv iv).st q d c) = bigSep Finset.univ fun c : Fin 2 => stR tv iv q d c :=
  bigSep_cC q (stR tv iv q d)
theorem dn_eq (q : Fin 8) (d : Dev nD) :
    (bigSep Finset.univ fun c : Fin ((K (F := F)).nCore q) => (P (F := F) tv iv).dn q d c) = bigSep Finset.univ fun c : Fin 2 => dnR tv iv q d c :=
  bigSep_cC q (dnR tv iv q d)

omit tv iv in
/-- Rows held at one array's contents are rows held at some contents. -/
theorem rows_ex (q : Fin 8) (d : Dev nD) (f : S65536x128.Idx → Elt F .f32) :
    (bigSep Finset.univ fun c : Fin 2 => bigSep Finset.univ fun i : Fin 16 => outPts q d (rowsSet (wid c i)) fullShare f : sProp 𝕄)
      ⊢ bigSep Finset.univ fun c : Fin 2 => bigSep Finset.univ fun i : Fin 16 => iprop(∃ f, outPts q d (rowsSet (wid c i)) fullShare f) :=
  bigSep_mono fun c _ => bigSep_mono fun i _ => exists_intro (Φ := fun f => outPts q d (rowsSet (wid c i)) fullShare f) f

/-- From the three arrays whole: each SparseCore's operands, and the remainder of the two read shares. -/
theorem st_intro (q : Fin 8) (d : Dev nD) (f : S65536x128.Idx → Elt F .f32) :
    iprop((tblLoc d ↦{fullShare} tv d) ∗ (idxLoc d ↦{fullShare} iv d) ∗ outPts q d Finset.univ fullShare f)
      ⊢ iprop(((tblLoc d ↦{shareDrop fullShare 2} tv d) ∗ (idxLoc d ↦{shareDrop fullShare 2} iv d))
          ∗ bigSep Finset.univ fun c : Fin ((K (F := F)).nCore q) => (P (F := F) tv iv).st q d c) := by
  rw [st_eq, outPts_rows, bigSep_workers]
  unfold stR
  rw [bigSep_sep', bigSep_sep']
  iintro ⟨Ht, Hi, Ho⟩
  ihave Ht' := (pointsTo_toks_split fullShare 2) $$ Ht
  icases Ht' with ⟨Htr, Htt⟩
  ihave Hi' := (pointsTo_toks_split fullShare 2) $$ Hi
  icases Hi' with ⟨Hir, Hit⟩
  isplitl [Htr Hir]
  · isplitl [Htr] <;> iassumption
  isplitl [Htt]; · iexact Htt
  isplitl [Hit]; · iexact Hit
  iapply (rows_ex q d f)
  iexact Ho

/-- Back: the three arrays whole, the result at the gathered contents. -/
theorem dn_elim (q : Fin 8) (d : Dev nD) :
    iprop(((tblLoc d ↦{shareDrop fullShare 2} tv d) ∗ (idxLoc d ↦{shareDrop fullShare 2} iv d))
        ∗ bigSep Finset.univ fun c : Fin ((K (F := F)).nCore q) => (P (F := F) tv iv).dn q d c)
      ⊢ iprop((tblLoc d ↦{fullShare} tv d) ∗ (idxLoc d ↦{fullShare} iv d) ∗ outPts q d Finset.univ fullShare (gathered (tv d) (iv d) q)) := by
  rw [dn_eq, outPts_rows, bigSep_workers]
  unfold dnR
  rw [bigSep_sep', bigSep_sep']
  iintro ⟨⟨Htr, Hir⟩, Htt, Hit, Ho⟩
  isplitl [Htr Htt]
  · iapply (pointsTo_toks_join fullShare 2)
    isplitl [Htr] <;> iassumption
  isplitl [Hir Hit]
  · iapply (pointsTo_toks_join fullShare 2)
    isplitl [Hir] <;> iassumption
  iexact Ho

end Cert.Proof.KW

end
-- ==== Proof.CallStepW.lean ====
/-
  One gather call as @main meets it: the TensorCore hands the table, the index list and the call's result array, held
  whole, to the call's SparseCores and gets them back, the result at the gathered contents.
-/
import proofs.«214101_g10505490006249_cont_week2b_118_28_alg».proof.Proof.CallSharesW

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Transfers (shareTok shareDrop pointsTo_toks_split pointsTo_toks_join)

variable {F : FTy → Type}

local notation "𝕄" => MT nD τ sig (HIx 8) (Elt F) ℕ UU ℕ

variable [FloatOps F]
variable (tv : (d : Dev nD) → S32768x128.Idx → Elt F .f32) (iv : (d : Dev nD) → S524288.Idx → Elt F .i32)

/-- Gather call `q` on device `d`'s TensorCore. -/
theorem run_step (κ : GSem nD τ sig → ℕ) (d : Dev nD) (q : Fin 8) (f : S65536x128.Idx → Elt F .f32) {Φ : PUnit → sProp 𝕄} :
    iprop((K (F := F)).ctx EH (P (F := F) tv iv) κ ∗ (K (F := F)).tcSt EH d q.val
        ∗ ((tblLoc d ↦{fullShare} tv d) ∗ (idxLoc d ↦{fullShare} iv d) ∗ outPts q d Finset.univ fullShare f)
        ∗ (((K (F := F)).tcSt EH d (q.val + 1) ∗ (tblLoc d ↦{fullShare} tv d) ∗ (idxLoc d ↦{fullShare} iv d)
              ∗ outPts q d Finset.univ fullShare (gathered (tv d) (iv d) q)) -∗ Φ ⟨⟩))
      ⊢ wp frame (wpE ((K (F := F)).defs (D (F := F))) 𝒱 (SparseCore.T d) none) Set.univ ((K (F := F)).run d q) Φ := by
  iintro ⟨#Hctx, Hst, Harr, Hk⟩
  ihave H := (st_intro tv iv q d f) $$ Harr
  icases H with ⟨Hrem, Hsts⟩
  iapply ((K (F := F)).wp_run (D (F := F)) 𝒱 (EH := EH) (P := P (F := F) tv iv) κ d q) $$ [Hst Hsts Hrem Hk]
  isplitr; · iexact Hctx
  isplitl [Hst]; · iexact Hst
  isplitl [Hsts]; · iexact Hsts
  iintro ⟨Hst, Hdn⟩
  iapply Hk
  isplitl [Hst]; · iexact Hst
  iapply (dn_elim tv iv q d)
  isplitl [Hrem]; · iexact Hrem
  iexact Hdn

end Cert.Proof.KW

end
-- ==== Proof.UnscopedW.lean ====
/-
  Taking named buffers out of a TensorCore's unscoped buffers and putting them back, one of them at new contents;
  and that the TensorCore owes nothing at the index of a kernel's own waits.
-/
import proofs.«214101_g10505490006249_cont_week2b_118_28_alg».proof.Proof.LaunchW

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Transfers (shareTok shareDrop pointsTo_toks_split pointsTo_toks_join)

variable {F : FTy → Type}

local notation "𝕄" => MT nD τ sig (HIx 8) (Elt F) ℕ UU ℕ

/-! ## Three buffers out, and back -/

/-- The TensorCore's unscoped references. -/
abbrev Sunr : Finset (Ref sig .tc) := Finset.univ.filter fun b : Ref sig .tc => ¬ b.isScoped

theorem unscoped_take3 (d : Dev nD) (a b c : Ref sig .tc) (ha : ¬ a.isScoped) (hb : ¬ b.isScoped) (hc : ¬ c.isScoped)
    (hab : a ≠ b) (hac : a ≠ c) (hbc : b ≠ c) (V : (x : Ref sig .tc) → Buf (Elt F) ((SparseCore.T d).loc x)) :
    (unscopedBufs d V : sProp 𝕄)
      = iprop((((SparseCore.T d).loc a ↦{fullShare} V a) ∗ ((SparseCore.T d).loc b ↦{fullShare} V b) ∗ ((SparseCore.T d).loc c ↦{fullShare} V c))
          ∗ bigSep (Sunr \ {a, b, c}) fun x => (SparseCore.T d).loc x ↦{fullShare} V x) := by
  have hsub : ({a, b, c} : Finset (Ref sig .tc)) ⊆ Sunr := by
    intro x hx
    simp only [Finset.mem_insert, Finset.mem_singleton] at hx
    rcases hx with rfl | rfl | rfl <;> exact Finset.mem_filter.mpr ⟨Finset.mem_univ _, ‹_›⟩
  unfold unscopedBufs
  rw [bigSep_sdiff_split hsub, SparseCore.bigSep_insert' (by simp [hab, hac]), SparseCore.bigSep_insert' (by simp [hbc]), bigSep_singleton]
  rfl

theorem unscoped_put3 (d : Dev nD) (a b c : Ref sig .tc) (ha : ¬ a.isScoped) (hb : ¬ b.isScoped) (hc : ¬ c.isScoped)
    (hab : a ≠ b) (hac : a ≠ c) (hbc : b ≠ c) (V : (x : Ref sig .tc) → Buf (Elt F) ((SparseCore.T d).loc x))
    (v : Buf (Elt F) ((SparseCore.T d).loc c)) :
    iprop((((SparseCore.T d).loc a ↦{fullShare} V a) ∗ ((SparseCore.T d).loc b ↦{fullShare} V b) ∗ ((SparseCore.T d).loc c ↦{fullShare} v))
          ∗ bigSep (Sunr \ {a, b, c}) fun x => (SparseCore.T d).loc x ↦{fullShare} V x)
      ⊢ (unscopedBufs d (Function.update V c v) : sProp 𝕄) := by
  rw [unscoped_take3 d a b c ha hb hc hab hac hbc (Function.update V c v), Function.update_of_ne hac, Function.update_of_ne hbc, Function.update_self]
  refine sep_mono .rfl (Entails.of_eq (bigSep_congr fun x hx => ?_))
  have hxc : x ≠ c := fun e => (Finset.mem_sdiff.mp hx).2 (by simp [e])
  rw [Function.update_of_ne hxc]

/-! ## The TensorCore owes nothing at the index of a kernel's own waits -/

theorem Otc_none (d : Dev nD) (n : ℕ) (g : GSem nD τ sig) : (K (F := F)).Otc d n g none = 0 := by
  by_contra h
  have := (K (F := F)).lev_of_Otc_pos (Nat.pos_of_ne_zero h)
  rw [SparseCore.Cfg.lev_none] at this; omega

end Cert.Proof.KW

end
-- ==== Proof.PairDefsW.lean ====
/-
  The vocabulary of @main's call pairs: a TensorCore's buffer contents by reference, the bound on its recorded waits
  before a call, and the statement a TensorCore call's region step is proved in.
-/
import proofs.«214101_g10505490006249_cont_week2b_118_28_alg».proof.Proof.CallStepW
import proofs.«214101_g10505490006249_cont_week2b_118_28_alg».proof.Proof.UnscopedW

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Transfers (shareTok shareDrop pointsTo_toks_split pointsTo_toks_join)

variable {F : FTy → Type}

local notation "𝕄" => MT nD τ sig (HIx 8) (Elt F) ℕ UU ℕ

variable [FloatOps F]
variable (tv : (d : Dev nD) → S32768x128.Idx → Elt F .f32) (iv : (d : Dev nD) → S524288.Idx → Elt F .i32)

/-- A TensorCore's buffer contents, by reference. -/
abbrev TCv (d : Dev nD) : Type := (x : Ref sig .tc) → Buf (Elt F) ((SparseCore.T (τ := τ) d).loc x)

/-- The pairs the TensorCore may have recorded before call `n`: those at or below level `8 n`. -/
def RecAt (d : Dev nD) (n : ℕ) : Set (SemLoc sig × HIx 8) := {p | (K (F := F)).lev (SparseCore.T d, p.1) p.2 ≤ 8 * n}

/-- What a TensorCore call's region step gives @main (the statement; each call's is proved in its own module):
    from the unscoped buffers at `V`, the TensorCore owing `O` with its recorded pairs inside `Rec`, and the
    pipeline's launch ghost state, the call runs to the buffers with the result array `r` at `res d V`. -/
def RegionStep (p : Fin 8) (r : Ref sig .tc) (res : (d : Dev nD) → TCv (F := F) d → Buf (Elt F) ((SparseCore.T (τ := τ) d).loc r)) : Prop :=
  ∀ (V : (c : Dev nD) → TCv (F := F) c) (O : Dev nD → CellTallies nD τ sig (HIx 8)) (Rec : Dev nD → Set (SemLoc sig × HIx 8)) (_ : ∀ c g, O c g none = 0)
    (d : Dev nD) {α : Type} (k : PUnit → Prog (TpuEff nD τ sig (Elt F) (SparseCore.Sig (ΛP (F := F)) 8) .tc) α) (Q : α → sProp 𝕄),
    iprop(levAts (K (F := F)).L (K (F := F)).lev ∗ boundary (SparseCore.T d) ∗ unscopedBufs d (V d) ∗ (∃ W, ⌜∀ x ∈ W, x ∈ Rec d⌝ ∗ owes (SparseCore.T d) (O d) W)
        ∗ Pipeline.cellsGhost cfgs (EP (F := F)) p d ∗ Pipeline.toksInit cfgs (EP (F := F)) p d
        ∗ ((boundary (SparseCore.T d) ∗ unscopedBufs d (Function.update (V d) r (res d (V d))) ∗ (∃ W, ⌜∀ x ∈ W, x ∈ Rec d ∨ x.2 = none⌝ ∗ owes (SparseCore.T d) (O d) W))
            -∗ wp frame (wpE ((K (F := F)).defs (D (F := F))) 𝒱 (SparseCore.T d) none) Set.univ (k ⟨⟩) Q))
      ⊢ wp frame (wpE ((K (F := F)).defs (D (F := F))) 𝒱 (SparseCore.T d) none) Set.univ
          (Prog.lift (.customCall (SparseCore.inner (Pipeline.entry p)) ()) >>= k) Q

end Cert.Proof.KW

end
-- ==== Proof.PairStep0W.lean ====
/-
  Gather call 0 and the TensorCore call that consumes it, as @main meets the pair: from the TensorCore's unscoped
  buffers at some contents to the same with the gathered rows and the call's result written.
-/
import proofs.«214101_g10505490006249_cont_week2b_118_28_alg».proof.Proof.PairDefsW

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Transfers (shareTok shareDrop pointsTo_toks_split pointsTo_toks_join)

variable {F : FTy → Type}

local notation "𝕄" => MT nD τ sig (HIx 8) (Elt F) ℕ UU ℕ

variable [FloatOps F]
variable (tv : (d : Dev nD) → S32768x128.Idx → Elt F .f32) (iv : (d : Dev nD) → S524288.Idx → Elt F .i32)

omit [FloatOps F] in
/-- Call 0's result array is `main_v34`. -/
theorem outPts_0 (d : Dev nD) (s : Finset S65536x128.Idx) (sh : PosShare TreeShare) (f : S65536x128.Idx → Elt F .f32) :
    (outPts 0 d s sh f : sProp 𝕄) = ((SparseCore.T d).loc main_v34 ↦[s]{sh} f) := rfl

variable (res0 : (d : Dev nD) → TCv (F := F) d → Buf (Elt F) ((SparseCore.T (τ := τ) d).loc main_v35))

/-- The contents after pair 0. -/
def Vg0 (V : (c : Dev nD) → TCv (F := F) c) (c : Dev nD) : TCv (F := F) c :=
  Function.update (V c) main_v34 (gathered (tv c) (iv c) 0)
def Vr0 (V : (c : Dev nD) → TCv (F := F) c) (c : Dev nD) : TCv (F := F) c :=
  Function.update (Vg0 tv iv V c) main_v35 (res0 c (Vg0 tv iv V c))

theorem pair_step0 (hreg : RegionStep (F := F) 0 main_v35 res0) (κ : GSem nD τ sig → ℕ) (d : Dev nD)
    (V : (c : Dev nD) → TCv (F := F) c) (hVt : V d main_v10 = tv d) (hVi : V d main_v6 = iv d)
    {α : Type} (k : PUnit → Prog (TpuEff nD τ sig (Elt F) (SparseCore.Sig (ΛP (F := F)) 8) .tc) α) (Q : α → sProp 𝕄) :
    iprop((K (F := F)).ctx EH (P (F := F) tv iv) κ ∗ (K (F := F)).tcSt EH d 0 ∗ boundary (SparseCore.T d) ∗ unscopedBufs d (V d)
        ∗ Pipeline.cellsGhost cfgs (EP (F := F)) 0 d ∗ Pipeline.toksInit cfgs (EP (F := F)) 0 d
        ∗ (((K (F := F)).tcSt EH d 1 ∗ boundary (SparseCore.T d) ∗ unscopedBufs d (Vr0 tv iv res0 V d))
            -∗ wp frame (wpE ((K (F := F)).defs (D (F := F))) 𝒱 (SparseCore.T d) none) Set.univ (k ⟨⟩) Q))
      ⊢ wp frame (wpE ((K (F := F)).defs (D (F := F))) 𝒱 (SparseCore.T d) none) Set.univ
          ((K (F := F)).run d 0 >>= fun _ => (Prog.lift (.customCall (SparseCore.inner (Pipeline.entry 0)) ()) >>= k)) Q := by
  rw [unscoped_take3 d main_v10 main_v6 main_v34 (by decide) (by decide) (by decide) (by decide) (by decide) (by decide) (V d), hVt, hVi, wp_bind]
  iintro ⟨#Hctx, Hst, Hb, ⟨⟨Ht, Hi, Ho⟩, Hrest⟩, Hcg, Htk, Hk⟩
  iapply (run_step tv iv κ d 0 (V d main_v34)) $$ [Hst Ht Hi Ho Hb Hrest Hcg Htk Hk]
  isplitr; · iexact Hctx
  isplitl [Hst]; · iexact Hst
  isplitl [Ht Hi Ho]
  · isplitl [Ht]; · iexact Ht
    isplitl [Hi]; · iexact Hi
    iapply (Entails.of_eq (outPts_0 (F := F) d _ _ _).symm); iexact Ho
  iintro ⟨Hst, Ht, Hi, Ho0⟩
  ihave Ho := (Entails.of_eq (outPts_0 (F := F) d _ _ _)) $$ Ho0
  ihave Hlev := ((K (F := F)).ctx_levAts κ) $$ Hctx
  ihave Hun := (unscoped_put3 d main_v10 main_v6 main_v34 (by decide) (by decide) (by decide) (by decide) (by decide) (by decide) (V d) (gathered (tv d) (iv d) 0)) $$ [Ht Hi Ho Hrest]
  · rw [hVt, hVi]
    isplitl [Ht Hi Ho]
    · isplitl [Ht]; · iexact Ht
      isplitl [Hi]; · iexact Hi
      iexact Ho
    iexact Hrest
  unfold SparseCore.Cfg.tcSt
  icases Hst with ⟨⟨%W, %hW, HO⟩, Hstrest⟩
  iapply (hreg (Vg0 tv iv V) (fun c => (K (F := F)).Otc c (0 + 1)) (fun c => RecAt (F := F) c (0 + 1)) (fun c g => Otc_none c (0 + 1) g) d k Q) $$ [Hlev Hb Hun HO Hcg Htk Hstrest Hk]
  isplitl [Hlev]; · iexact Hlev
  isplitl [Hb]; · iexact Hb
  isplitl [Hun]; · iexact Hun
  isplitl [HO]
  · iexists W; isplitr
    · ipureintro; exact fun x hx => hW x hx
    · iexact HO
  isplitl [Hcg]; · iexact Hcg
  isplitl [Htk]; · iexact Htk
  iintro ⟨Hb, Hun, ⟨%W', %hW', HO⟩⟩
  iapply Hk
  isplitl [HO Hstrest]
  · isplitl [HO]
    · iexists W'; isplitr
      · ipureintro
        intro x hx
        rcases hW' x hx with h | h
        · exact h
        · show (K (F := F)).lev (SparseCore.T d, x.1) x.2 ≤ 8 * (0 + 1)
          rw [h, SparseCore.Cfg.lev_none]; omega
      · iexact HO
    iexact Hstrest
  isplitl [Hb]; · iexact Hb
  iexact Hun

end Cert.Proof.KW

end
-- ==== Proof.PairStep1W.lean ====
/-
  Gather call 1 and the TensorCore call that consumes it, as @main meets the pair: from the TensorCore's unscoped
  buffers at some contents to the same with the gathered rows and the call's result written.
-/
import proofs.«214101_g10505490006249_cont_week2b_118_28_alg».proof.Proof.PairDefsW

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Transfers (shareTok shareDrop pointsTo_toks_split pointsTo_toks_join)

variable {F : FTy → Type}

local notation "𝕄" => MT nD τ sig (HIx 8) (Elt F) ℕ UU ℕ

variable [FloatOps F]
variable (tv : (d : Dev nD) → S32768x128.Idx → Elt F .f32) (iv : (d : Dev nD) → S524288.Idx → Elt F .i32)

omit [FloatOps F] in
/-- Call 1's result array is `main_v36`. -/
theorem outPts_1 (d : Dev nD) (s : Finset S65536x128.Idx) (sh : PosShare TreeShare) (f : S65536x128.Idx → Elt F .f32) :
    (outPts 1 d s sh f : sProp 𝕄) = ((SparseCore.T d).loc main_v36 ↦[s]{sh} f) := rfl

variable (res1 : (d : Dev nD) → TCv (F := F) d → Buf (Elt F) ((SparseCore.T (τ := τ) d).loc main_v37))

/-- The contents after pair 1. -/
def Vg1 (V : (c : Dev nD) → TCv (F := F) c) (c : Dev nD) : TCv (F := F) c :=
  Function.update (V c) main_v36 (gathered (tv c) (iv c) 1)
def Vr1 (V : (c : Dev nD) → TCv (F := F) c) (c : Dev nD) : TCv (F := F) c :=
  Function.update (Vg1 tv iv V c) main_v37 (res1 c (Vg1 tv iv V c))

theorem pair_step1 (hreg : RegionStep (F := F) 1 main_v37 res1) (κ : GSem nD τ sig → ℕ) (d : Dev nD)
    (V : (c : Dev nD) → TCv (F := F) c) (hVt : V d main_v10 = tv d) (hVi : V d main_v6 = iv d)
    {α : Type} (k : PUnit → Prog (TpuEff nD τ sig (Elt F) (SparseCore.Sig (ΛP (F := F)) 8) .tc) α) (Q : α → sProp 𝕄) :
    iprop((K (F := F)).ctx EH (P (F := F) tv iv) κ ∗ (K (F := F)).tcSt EH d 1 ∗ boundary (SparseCore.T d) ∗ unscopedBufs d (V d)
        ∗ Pipeline.cellsGhost cfgs (EP (F := F)) 1 d ∗ Pipeline.toksInit cfgs (EP (F := F)) 1 d
        ∗ (((K (F := F)).tcSt EH d 2 ∗ boundary (SparseCore.T d) ∗ unscopedBufs d (Vr1 tv iv res1 V d))
            -∗ wp frame (wpE ((K (F := F)).defs (D (F := F))) 𝒱 (SparseCore.T d) none) Set.univ (k ⟨⟩) Q))
      ⊢ wp frame (wpE ((K (F := F)).defs (D (F := F))) 𝒱 (SparseCore.T d) none) Set.univ
          ((K (F := F)).run d 1 >>= fun _ => (Prog.lift (.customCall (SparseCore.inner (Pipeline.entry 1)) ()) >>= k)) Q := by
  rw [unscoped_take3 d main_v10 main_v6 main_v36 (by decide) (by decide) (by decide) (by decide) (by decide) (by decide) (V d), hVt, hVi, wp_bind]
  iintro ⟨#Hctx, Hst, Hb, ⟨⟨Ht, Hi, Ho⟩, Hrest⟩, Hcg, Htk, Hk⟩
  iapply (run_step tv iv κ d 1 (V d main_v36)) $$ [Hst Ht Hi Ho Hb Hrest Hcg Htk Hk]
  isplitr; · iexact Hctx
  isplitl [Hst]; · iexact Hst
  isplitl [Ht Hi Ho]
  · isplitl [Ht]; · iexact Ht
    isplitl [Hi]; · iexact Hi
    iapply (Entails.of_eq (outPts_1 (F := F) d _ _ _).symm); iexact Ho
  iintro ⟨Hst, Ht, Hi, Ho0⟩
  ihave Ho := (Entails.of_eq (outPts_1 (F := F) d _ _ _)) $$ Ho0
  ihave Hlev := ((K (F := F)).ctx_levAts κ) $$ Hctx
  ihave Hun := (unscoped_put3 d main_v10 main_v6 main_v36 (by decide) (by decide) (by decide) (by decide) (by decide) (by decide) (V d) (gathered (tv d) (iv d) 1)) $$ [Ht Hi Ho Hrest]
  · rw [hVt, hVi]
    isplitl [Ht Hi Ho]
    · isplitl [Ht]; · iexact Ht
      isplitl [Hi]; · iexact Hi
      iexact Ho
    iexact Hrest
  unfold SparseCore.Cfg.tcSt
  icases Hst with ⟨⟨%W, %hW, HO⟩, Hstrest⟩
  iapply (hreg (Vg1 tv iv V) (fun c => (K (F := F)).Otc c (1 + 1)) (fun c => RecAt (F := F) c (1 + 1)) (fun c g => Otc_none c (1 + 1) g) d k Q) $$ [Hlev Hb Hun HO Hcg Htk Hstrest Hk]
  isplitl [Hlev]; · iexact Hlev
  isplitl [Hb]; · iexact Hb
  isplitl [Hun]; · iexact Hun
  isplitl [HO]
  · iexists W; isplitr
    · ipureintro; exact fun x hx => hW x hx
    · iexact HO
  isplitl [Hcg]; · iexact Hcg
  isplitl [Htk]; · iexact Htk
  iintro ⟨Hb, Hun, ⟨%W', %hW', HO⟩⟩
  iapply Hk
  isplitl [HO Hstrest]
  · isplitl [HO]
    · iexists W'; isplitr
      · ipureintro
        intro x hx
        rcases hW' x hx with h | h
        · exact h
        · show (K (F := F)).lev (SparseCore.T d, x.1) x.2 ≤ 8 * (1 + 1)
          rw [h, SparseCore.Cfg.lev_none]; omega
      · iexact HO
    iexact Hstrest
  isplitl [Hb]; · iexact Hb
  iexact Hun

end Cert.Proof.KW

end
-- ==== Proof.PairStep2W.lean ====
/-
  Gather call 2 and the TensorCore call that consumes it, as @main meets the pair: from the TensorCore's unscoped
  buffers at some contents to the same with the gathered rows and the call's result written.
-/
import proofs.«214101_g10505490006249_cont_week2b_118_28_alg».proof.Proof.PairDefsW

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Transfers (shareTok shareDrop pointsTo_toks_split pointsTo_toks_join)

variable {F : FTy → Type}

local notation "𝕄" => MT nD τ sig (HIx 8) (Elt F) ℕ UU ℕ

variable [FloatOps F]
variable (tv : (d : Dev nD) → S32768x128.Idx → Elt F .f32) (iv : (d : Dev nD) → S524288.Idx → Elt F .i32)

omit [FloatOps F] in
/-- Call 2's result array is `main_v38`. -/
theorem outPts_2 (d : Dev nD) (s : Finset S65536x128.Idx) (sh : PosShare TreeShare) (f : S65536x128.Idx → Elt F .f32) :
    (outPts 2 d s sh f : sProp 𝕄) = ((SparseCore.T d).loc main_v38 ↦[s]{sh} f) := rfl

variable (res2 : (d : Dev nD) → TCv (F := F) d → Buf (Elt F) ((SparseCore.T (τ := τ) d).loc main_v39))

/-- The contents after pair 2. -/
def Vg2 (V : (c : Dev nD) → TCv (F := F) c) (c : Dev nD) : TCv (F := F) c :=
  Function.update (V c) main_v38 (gathered (tv c) (iv c) 2)
def Vr2 (V : (c : Dev nD) → TCv (F := F) c) (c : Dev nD) : TCv (F := F) c :=
  Function.update (Vg2 tv iv V c) main_v39 (res2 c (Vg2 tv iv V c))

theorem pair_step2 (hreg : RegionStep (F := F) 2 main_v39 res2) (κ : GSem nD τ sig → ℕ) (d : Dev nD)
    (V : (c : Dev nD) → TCv (F := F) c) (hVt : V d main_v10 = tv d) (hVi : V d main_v6 = iv d)
    {α : Type} (k : PUnit → Prog (TpuEff nD τ sig (Elt F) (SparseCore.Sig (ΛP (F := F)) 8) .tc) α) (Q : α → sProp 𝕄) :
    iprop((K (F := F)).ctx EH (P (F := F) tv iv) κ ∗ (K (F := F)).tcSt EH d 2 ∗ boundary (SparseCore.T d) ∗ unscopedBufs d (V d)
        ∗ Pipeline.cellsGhost cfgs (EP (F := F)) 2 d ∗ Pipeline.toksInit cfgs (EP (F := F)) 2 d
        ∗ (((K (F := F)).tcSt EH d 3 ∗ boundary (SparseCore.T d) ∗ unscopedBufs d (Vr2 tv iv res2 V d))
            -∗ wp frame (wpE ((K (F := F)).defs (D (F := F))) 𝒱 (SparseCore.T d) none) Set.univ (k ⟨⟩) Q))
      ⊢ wp frame (wpE ((K (F := F)).defs (D (F := F))) 𝒱 (SparseCore.T d) none) Set.univ
          ((K (F := F)).run d 2 >>= fun _ => (Prog.lift (.customCall (SparseCore.inner (Pipeline.entry 2)) ()) >>= k)) Q := by
  rw [unscoped_take3 d main_v10 main_v6 main_v38 (by decide) (by decide) (by decide) (by decide) (by decide) (by decide) (V d), hVt, hVi, wp_bind]
  iintro ⟨#Hctx, Hst, Hb, ⟨⟨Ht, Hi, Ho⟩, Hrest⟩, Hcg, Htk, Hk⟩
  iapply (run_step tv iv κ d 2 (V d main_v38)) $$ [Hst Ht Hi Ho Hb Hrest Hcg Htk Hk]
  isplitr; · iexact Hctx
  isplitl [Hst]; · iexact Hst
  isplitl [Ht Hi Ho]
  · isplitl [Ht]; · iexact Ht
    isplitl [Hi]; · iexact Hi
    iapply (Entails.of_eq (outPts_2 (F := F) d _ _ _).symm); iexact Ho
  iintro ⟨Hst, Ht, Hi, Ho0⟩
  ihave Ho := (Entails.of_eq (outPts_2 (F := F) d _ _ _)) $$ Ho0
  ihave Hlev := ((K (F := F)).ctx_levAts κ) $$ Hctx
  ihave Hun := (unscoped_put3 d main_v10 main_v6 main_v38 (by decide) (by decide) (by decide) (by decide) (by decide) (by decide) (V d) (gathered (tv d) (iv d) 2)) $$ [Ht Hi Ho Hrest]
  · rw [hVt, hVi]
    isplitl [Ht Hi Ho]
    · isplitl [Ht]; · iexact Ht
      isplitl [Hi]; · iexact Hi
      iexact Ho
    iexact Hrest
  unfold SparseCore.Cfg.tcSt
  icases Hst with ⟨⟨%W, %hW, HO⟩, Hstrest⟩
  iapply (hreg (Vg2 tv iv V) (fun c => (K (F := F)).Otc c (2 + 1)) (fun c => RecAt (F := F) c (2 + 1)) (fun c g => Otc_none c (2 + 1) g) d k Q) $$ [Hlev Hb Hun HO Hcg Htk Hstrest Hk]
  isplitl [Hlev]; · iexact Hlev
  isplitl [Hb]; · iexact Hb
  isplitl [Hun]; · iexact Hun
  isplitl [HO]
  · iexists W; isplitr
    · ipureintro; exact fun x hx => hW x hx
    · iexact HO
  isplitl [Hcg]; · iexact Hcg
  isplitl [Htk]; · iexact Htk
  iintro ⟨Hb, Hun, ⟨%W', %hW', HO⟩⟩
  iapply Hk
  isplitl [HO Hstrest]
  · isplitl [HO]
    · iexists W'; isplitr
      · ipureintro
        intro x hx
        rcases hW' x hx with h | h
        · exact h
        · show (K (F := F)).lev (SparseCore.T d, x.1) x.2 ≤ 8 * (2 + 1)
          rw [h, SparseCore.Cfg.lev_none]; omega
      · iexact HO
    iexact Hstrest
  isplitl [Hb]; · iexact Hb
  iexact Hun

end Cert.Proof.KW

end
-- ==== Proof.PairStep3W.lean ====
/-
  Gather call 3 and the TensorCore call that consumes it, as @main meets the pair: from the TensorCore's unscoped
  buffers at some contents to the same with the gathered rows and the call's result written.
-/
import proofs.«214101_g10505490006249_cont_week2b_118_28_alg».proof.Proof.PairDefsW

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Transfers (shareTok shareDrop pointsTo_toks_split pointsTo_toks_join)

variable {F : FTy → Type}

local notation "𝕄" => MT nD τ sig (HIx 8) (Elt F) ℕ UU ℕ

variable [FloatOps F]
variable (tv : (d : Dev nD) → S32768x128.Idx → Elt F .f32) (iv : (d : Dev nD) → S524288.Idx → Elt F .i32)

omit [FloatOps F] in
/-- Call 3's result array is `main_v40`. -/
theorem outPts_3 (d : Dev nD) (s : Finset S65536x128.Idx) (sh : PosShare TreeShare) (f : S65536x128.Idx → Elt F .f32) :
    (outPts 3 d s sh f : sProp 𝕄) = ((SparseCore.T d).loc main_v40 ↦[s]{sh} f) := rfl

variable (res3 : (d : Dev nD) → TCv (F := F) d → Buf (Elt F) ((SparseCore.T (τ := τ) d).loc main_v41))

/-- The contents after pair 3. -/
def Vg3 (V : (c : Dev nD) → TCv (F := F) c) (c : Dev nD) : TCv (F := F) c :=
  Function.update (V c) main_v40 (gathered (tv c) (iv c) 3)
def Vr3 (V : (c : Dev nD) → TCv (F := F) c) (c : Dev nD) : TCv (F := F) c :=
  Function.update (Vg3 tv iv V c) main_v41 (res3 c (Vg3 tv iv V c))

theorem pair_step3 (hreg : RegionStep (F := F) 3 main_v41 res3) (κ : GSem nD τ sig → ℕ) (d : Dev nD)
    (V : (c : Dev nD) → TCv (F := F) c) (hVt : V d main_v10 = tv d) (hVi : V d main_v6 = iv d)
    {α : Type} (k : PUnit → Prog (TpuEff nD τ sig (Elt F) (SparseCore.Sig (ΛP (F := F)) 8) .tc) α) (Q : α → sProp 𝕄) :
    iprop((K (F := F)).ctx EH (P (F := F) tv iv) κ ∗ (K (F := F)).tcSt EH d 3 ∗ boundary (SparseCore.T d) ∗ unscopedBufs d (V d)
        ∗ Pipeline.cellsGhost cfgs (EP (F := F)) 3 d ∗ Pipeline.toksInit cfgs (EP (F := F)) 3 d
        ∗ (((K (F := F)).tcSt EH d 4 ∗ boundary (SparseCore.T d) ∗ unscopedBufs d (Vr3 tv iv res3 V d))
            -∗ wp frame (wpE ((K (F := F)).defs (D (F := F))) 𝒱 (SparseCore.T d) none) Set.univ (k ⟨⟩) Q))
      ⊢ wp frame (wpE ((K (F := F)).defs (D (F := F))) 𝒱 (SparseCore.T d) none) Set.univ
          ((K (F := F)).run d 3 >>= fun _ => (Prog.lift (.customCall (SparseCore.inner (Pipeline.entry 3)) ()) >>= k)) Q := by
  rw [unscoped_take3 d main_v10 main_v6 main_v40 (by decide) (by decide) (by decide) (by decide) (by decide) (by decide) (V d), hVt, hVi, wp_bind]
  iintro ⟨#Hctx, Hst, Hb, ⟨⟨Ht, Hi, Ho⟩, Hrest⟩, Hcg, Htk, Hk⟩
  iapply (run_step tv iv κ d 3 (V d main_v40)) $$ [Hst Ht Hi Ho Hb Hrest Hcg Htk Hk]
  isplitr; · iexact Hctx
  isplitl [Hst]; · iexact Hst
  isplitl [Ht Hi Ho]
  · isplitl [Ht]; · iexact Ht
    isplitl [Hi]; · iexact Hi
    iapply (Entails.of_eq (outPts_3 (F := F) d _ _ _).symm); iexact Ho
  iintro ⟨Hst, Ht, Hi, Ho0⟩
  ihave Ho := (Entails.of_eq (outPts_3 (F := F) d _ _ _)) $$ Ho0
  ihave Hlev := ((K (F := F)).ctx_levAts κ) $$ Hctx
  ihave Hun := (unscoped_put3 d main_v10 main_v6 main_v40 (by decide) (by decide) (by decide) (by decide) (by decide) (by decide) (V d) (gathered (tv d) (iv d) 3)) $$ [Ht Hi Ho Hrest]
  · rw [hVt, hVi]
    isplitl [Ht Hi Ho]
    · isplitl [Ht]; · iexact Ht
      isplitl [Hi]; · iexact Hi
      iexact Ho
    iexact Hrest
  unfold SparseCore.Cfg.tcSt
  icases Hst with ⟨⟨%W, %hW, HO⟩, Hstrest⟩
  iapply (hreg (Vg3 tv iv V) (fun c => (K (F := F)).Otc c (3 + 1)) (fun c => RecAt (F := F) c (3 + 1)) (fun c g => Otc_none c (3 + 1) g) d k Q) $$ [Hlev Hb Hun HO Hcg Htk Hstrest Hk]
  isplitl [Hlev]; · iexact Hlev
  isplitl [Hb]; · iexact Hb
  isplitl [Hun]; · iexact Hun
  isplitl [HO]
  · iexists W; isplitr
    · ipureintro; exact fun x hx => hW x hx
    · iexact HO
  isplitl [Hcg]; · iexact Hcg
  isplitl [Htk]; · iexact Htk
  iintro ⟨Hb, Hun, ⟨%W', %hW', HO⟩⟩
  iapply Hk
  isplitl [HO Hstrest]
  · isplitl [HO]
    · iexists W'; isplitr
      · ipureintro
        intro x hx
        rcases hW' x hx with h | h
        · exact h
        · show (K (F := F)).lev (SparseCore.T d, x.1) x.2 ≤ 8 * (3 + 1)
          rw [h, SparseCore.Cfg.lev_none]; omega
      · iexact HO
    iexact Hstrest
  isplitl [Hb]; · iexact Hb
  iexact Hun

end Cert.Proof.KW

end
-- ==== Proof.PairStep4W.lean ====
/-
  Gather call 4 and the TensorCore call that consumes it, as @main meets the pair: from the TensorCore's unscoped
  buffers at some contents to the same with the gathered rows and the call's result written.
-/
import proofs.«214101_g10505490006249_cont_week2b_118_28_alg».proof.Proof.PairDefsW

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Transfers (shareTok shareDrop pointsTo_toks_split pointsTo_toks_join)

variable {F : FTy → Type}

local notation "𝕄" => MT nD τ sig (HIx 8) (Elt F) ℕ UU ℕ

variable [FloatOps F]
variable (tv : (d : Dev nD) → S32768x128.Idx → Elt F .f32) (iv : (d : Dev nD) → S524288.Idx → Elt F .i32)

omit [FloatOps F] in
/-- Call 4's result array is `main_v42`. -/
theorem outPts_4 (d : Dev nD) (s : Finset S65536x128.Idx) (sh : PosShare TreeShare) (f : S65536x128.Idx → Elt F .f32) :
    (outPts 4 d s sh f : sProp 𝕄) = ((SparseCore.T d).loc main_v42 ↦[s]{sh} f) := rfl

variable (res4 : (d : Dev nD) → TCv (F := F) d → Buf (Elt F) ((SparseCore.T (τ := τ) d).loc main_v43))

/-- The contents after pair 4. -/
def Vg4 (V : (c : Dev nD) → TCv (F := F) c) (c : Dev nD) : TCv (F := F) c :=
  Function.update (V c) main_v42 (gathered (tv c) (iv c) 4)
def Vr4 (V : (c : Dev nD) → TCv (F := F) c) (c : Dev nD) : TCv (F := F) c :=
  Function.update (Vg4 tv iv V c) main_v43 (res4 c (Vg4 tv iv V c))

theorem pair_step4 (hreg : RegionStep (F := F) 4 main_v43 res4) (κ : GSem nD τ sig → ℕ) (d : Dev nD)
    (V : (c : Dev nD) → TCv (F := F) c) (hVt : V d main_v10 = tv d) (hVi : V d main_v6 = iv d)
    {α : Type} (k : PUnit → Prog (TpuEff nD τ sig (Elt F) (SparseCore.Sig (ΛP (F := F)) 8) .tc) α) (Q : α → sProp 𝕄) :
    iprop((K (F := F)).ctx EH (P (F := F) tv iv) κ ∗ (K (F := F)).tcSt EH d 4 ∗ boundary (SparseCore.T d) ∗ unscopedBufs d (V d)
        ∗ Pipeline.cellsGhost cfgs (EP (F := F)) 4 d ∗ Pipeline.toksInit cfgs (EP (F := F)) 4 d
        ∗ (((K (F := F)).tcSt EH d 5 ∗ boundary (SparseCore.T d) ∗ unscopedBufs d (Vr4 tv iv res4 V d))
            -∗ wp frame (wpE ((K (F := F)).defs (D (F := F))) 𝒱 (SparseCore.T d) none) Set.univ (k ⟨⟩) Q))
      ⊢ wp frame (wpE ((K (F := F)).defs (D (F := F))) 𝒱 (SparseCore.T d) none) Set.univ
          ((K (F := F)).run d 4 >>= fun _ => (Prog.lift (.customCall (SparseCore.inner (Pipeline.entry 4)) ()) >>= k)) Q := by
  rw [unscoped_take3 d main_v10 main_v6 main_v42 (by decide) (by decide) (by decide) (by decide) (by decide) (by decide) (V d), hVt, hVi, wp_bind]
  iintro ⟨#Hctx, Hst, Hb, ⟨⟨Ht, Hi, Ho⟩, Hrest⟩, Hcg, Htk, Hk⟩
  iapply (run_step tv iv κ d 4 (V d main_v42)) $$ [Hst Ht Hi Ho Hb Hrest Hcg Htk Hk]
  isplitr; · iexact Hctx
  isplitl [Hst]; · iexact Hst
  isplitl [Ht Hi Ho]
  · isplitl [Ht]; · iexact Ht
    isplitl [Hi]; · iexact Hi
    iapply (Entails.of_eq (outPts_4 (F := F) d _ _ _).symm); iexact Ho
  iintro ⟨Hst, Ht, Hi, Ho0⟩
  ihave Ho := (Entails.of_eq (outPts_4 (F := F) d _ _ _)) $$ Ho0
  ihave Hlev := ((K (F := F)).ctx_levAts κ) $$ Hctx
  ihave Hun := (unscoped_put3 d main_v10 main_v6 main_v42 (by decide) (by decide) (by decide) (by decide) (by decide) (by decide) (V d) (gathered (tv d) (iv d) 4)) $$ [Ht Hi Ho Hrest]
  · rw [hVt, hVi]
    isplitl [Ht Hi Ho]
    · isplitl [Ht]; · iexact Ht
      isplitl [Hi]; · iexact Hi
      iexact Ho
    iexact Hrest
  unfold SparseCore.Cfg.tcSt
  icases Hst with ⟨⟨%W, %hW, HO⟩, Hstrest⟩
  iapply (hreg (Vg4 tv iv V) (fun c => (K (F := F)).Otc c (4 + 1)) (fun c => RecAt (F := F) c (4 + 1)) (fun c g => Otc_none c (4 + 1) g) d k Q) $$ [Hlev Hb Hun HO Hcg Htk Hstrest Hk]
  isplitl [Hlev]; · iexact Hlev
  isplitl [Hb]; · iexact Hb
  isplitl [Hun]; · iexact Hun
  isplitl [HO]
  · iexists W; isplitr
    · ipureintro; exact fun x hx => hW x hx
    · iexact HO
  isplitl [Hcg]; · iexact Hcg
  isplitl [Htk]; · iexact Htk
  iintro ⟨Hb, Hun, ⟨%W', %hW', HO⟩⟩
  iapply Hk
  isplitl [HO Hstrest]
  · isplitl [HO]
    · iexists W'; isplitr
      · ipureintro
        intro x hx
        rcases hW' x hx with h | h
        · exact h
        · show (K (F := F)).lev (SparseCore.T d, x.1) x.2 ≤ 8 * (4 + 1)
          rw [h, SparseCore.Cfg.lev_none]; omega
      · iexact HO
    iexact Hstrest
  isplitl [Hb]; · iexact Hb
  iexact Hun

end Cert.Proof.KW

end
-- ==== Proof.PairStep5W.lean ====
/-
  Gather call 5 and the TensorCore call that consumes it, as @main meets the pair: from the TensorCore's unscoped
  buffers at some contents to the same with the gathered rows and the call's result written.
-/
import proofs.«214101_g10505490006249_cont_week2b_118_28_alg».proof.Proof.PairDefsW

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Transfers (shareTok shareDrop pointsTo_toks_split pointsTo_toks_join)

variable {F : FTy → Type}

local notation "𝕄" => MT nD τ sig (HIx 8) (Elt F) ℕ UU ℕ

variable [FloatOps F]
variable (tv : (d : Dev nD) → S32768x128.Idx → Elt F .f32) (iv : (d : Dev nD) → S524288.Idx → Elt F .i32)

omit [FloatOps F] in
/-- Call 5's result array is `main_v44`. -/
theorem outPts_5 (d : Dev nD) (s : Finset S65536x128.Idx) (sh : PosShare TreeShare) (f : S65536x128.Idx → Elt F .f32) :
    (outPts 5 d s sh f : sProp 𝕄) = ((SparseCore.T d).loc main_v44 ↦[s]{sh} f) := rfl

variable (res5 : (d : Dev nD) → TCv (F := F) d → Buf (Elt F) ((SparseCore.T (τ := τ) d).loc main_v45))

/-- The contents after pair 5. -/
def Vg5 (V : (c : Dev nD) → TCv (F := F) c) (c : Dev nD) : TCv (F := F) c :=
  Function.update (V c) main_v44 (gathered (tv c) (iv c) 5)
def Vr5 (V : (c : Dev nD) → TCv (F := F) c) (c : Dev nD) : TCv (F := F) c :=
  Function.update (Vg5 tv iv V c) main_v45 (res5 c (Vg5 tv iv V c))

theorem pair_step5 (hreg : RegionStep (F := F) 5 main_v45 res5) (κ : GSem nD τ sig → ℕ) (d : Dev nD)
    (V : (c : Dev nD) → TCv (F := F) c) (hVt : V d main_v10 = tv d) (hVi : V d main_v6 = iv d)
    {α : Type} (k : PUnit → Prog (TpuEff nD τ sig (Elt F) (SparseCore.Sig (ΛP (F := F)) 8) .tc) α) (Q : α → sProp 𝕄) :
    iprop((K (F := F)).ctx EH (P (F := F) tv iv) κ ∗ (K (F := F)).tcSt EH d 5 ∗ boundary (SparseCore.T d) ∗ unscopedBufs d (V d)
        ∗ Pipeline.cellsGhost cfgs (EP (F := F)) 5 d ∗ Pipeline.toksInit cfgs (EP (F := F)) 5 d
        ∗ (((K (F := F)).tcSt EH d 6 ∗ boundary (SparseCore.T d) ∗ unscopedBufs d (Vr5 tv iv res5 V d))
            -∗ wp frame (wpE ((K (F := F)).defs (D (F := F))) 𝒱 (SparseCore.T d) none) Set.univ (k ⟨⟩) Q))
      ⊢ wp frame (wpE ((K (F := F)).defs (D (F := F))) 𝒱 (SparseCore.T d) none) Set.univ
          ((K (F := F)).run d 5 >>= fun _ => (Prog.lift (.customCall (SparseCore.inner (Pipeline.entry 5)) ()) >>= k)) Q := by
  rw [unscoped_take3 d main_v10 main_v6 main_v44 (by decide) (by decide) (by decide) (by decide) (by decide) (by decide) (V d), hVt, hVi, wp_bind]
  iintro ⟨#Hctx, Hst, Hb, ⟨⟨Ht, Hi, Ho⟩, Hrest⟩, Hcg, Htk, Hk⟩
  iapply (run_step tv iv κ d 5 (V d main_v44)) $$ [Hst Ht Hi Ho Hb Hrest Hcg Htk Hk]
  isplitr; · iexact Hctx
  isplitl [Hst]; · iexact Hst
  isplitl [Ht Hi Ho]
  · isplitl [Ht]; · iexact Ht
    isplitl [Hi]; · iexact Hi
    iapply (Entails.of_eq (outPts_5 (F := F) d _ _ _).symm); iexact Ho
  iintro ⟨Hst, Ht, Hi, Ho0⟩
  ihave Ho := (Entails.of_eq (outPts_5 (F := F) d _ _ _)) $$ Ho0
  ihave Hlev := ((K (F := F)).ctx_levAts κ) $$ Hctx
  ihave Hun := (unscoped_put3 d main_v10 main_v6 main_v44 (by decide) (by decide) (by decide) (by decide) (by decide) (by decide) (V d) (gathered (tv d) (iv d) 5)) $$ [Ht Hi Ho Hrest]
  · rw [hVt, hVi]
    isplitl [Ht Hi Ho]
    · isplitl [Ht]; · iexact Ht
      isplitl [Hi]; · iexact Hi
      iexact Ho
    iexact Hrest
  unfold SparseCore.Cfg.tcSt
  icases Hst with ⟨⟨%W, %hW, HO⟩, Hstrest⟩
  iapply (hreg (Vg5 tv iv V) (fun c => (K (F := F)).Otc c (5 + 1)) (fun c => RecAt (F := F) c (5 + 1)) (fun c g => Otc_none c (5 + 1) g) d k Q) $$ [Hlev Hb Hun HO Hcg Htk Hstrest Hk]
  isplitl [Hlev]; · iexact Hlev
  isplitl [Hb]; · iexact Hb
  isplitl [Hun]; · iexact Hun
  isplitl [HO]
  · iexists W; isplitr
    · ipureintro; exact fun x hx => hW x hx
    · iexact HO
  isplitl [Hcg]; · iexact Hcg
  isplitl [Htk]; · iexact Htk
  iintro ⟨Hb, Hun, ⟨%W', %hW', HO⟩⟩
  iapply Hk
  isplitl [HO Hstrest]
  · isplitl [HO]
    · iexists W'; isplitr
      · ipureintro
        intro x hx
        rcases hW' x hx with h | h
        · exact h
        · show (K (F := F)).lev (SparseCore.T d, x.1) x.2 ≤ 8 * (5 + 1)
          rw [h, SparseCore.Cfg.lev_none]; omega
      · iexact HO
    iexact Hstrest
  isplitl [Hb]; · iexact Hb
  iexact Hun

end Cert.Proof.KW

end
-- ==== Proof.PairStep6W.lean ====
/-
  Gather call 6 and the TensorCore call that consumes it, as @main meets the pair: from the TensorCore's unscoped
  buffers at some contents to the same with the gathered rows and the call's result written.
-/
import proofs.«214101_g10505490006249_cont_week2b_118_28_alg».proof.Proof.PairDefsW

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Transfers (shareTok shareDrop pointsTo_toks_split pointsTo_toks_join)

variable {F : FTy → Type}

local notation "𝕄" => MT nD τ sig (HIx 8) (Elt F) ℕ UU ℕ

variable [FloatOps F]
variable (tv : (d : Dev nD) → S32768x128.Idx → Elt F .f32) (iv : (d : Dev nD) → S524288.Idx → Elt F .i32)

omit [FloatOps F] in
/-- Call 6's result array is `main_v46`. -/
theorem outPts_6 (d : Dev nD) (s : Finset S65536x128.Idx) (sh : PosShare TreeShare) (f : S65536x128.Idx → Elt F .f32) :
    (outPts 6 d s sh f : sProp 𝕄) = ((SparseCore.T d).loc main_v46 ↦[s]{sh} f) := rfl

variable (res6 : (d : Dev nD) → TCv (F := F) d → Buf (Elt F) ((SparseCore.T (τ := τ) d).loc main_v47))

/-- The contents after pair 6. -/
def Vg6 (V : (c : Dev nD) → TCv (F := F) c) (c : Dev nD) : TCv (F := F) c :=
  Function.update (V c) main_v46 (gathered (tv c) (iv c) 6)
def Vr6 (V : (c : Dev nD) → TCv (F := F) c) (c : Dev nD) : TCv (F := F) c :=
  Function.update (Vg6 tv iv V c) main_v47 (res6 c (Vg6 tv iv V c))

theorem pair_step6 (hreg : RegionStep (F := F) 6 main_v47 res6) (κ : GSem nD τ sig → ℕ) (d : Dev nD)
    (V : (c : Dev nD) → TCv (F := F) c) (hVt : V d main_v10 = tv d) (hVi : V d main_v6 = iv d)
    {α : Type} (k : PUnit → Prog (TpuEff nD τ sig (Elt F) (SparseCore.Sig (ΛP (F := F)) 8) .tc) α) (Q : α → sProp 𝕄) :
    iprop((K (F := F)).ctx EH (P (F := F) tv iv) κ ∗ (K (F := F)).tcSt EH d 6 ∗ boundary (SparseCore.T d) ∗ unscopedBufs d (V d)
        ∗ Pipeline.cellsGhost cfgs (EP (F := F)) 6 d ∗ Pipeline.toksInit cfgs (EP (F := F)) 6 d
        ∗ (((K (F := F)).tcSt EH d 7 ∗ boundary (SparseCore.T d) ∗ unscopedBufs d (Vr6 tv iv res6 V d))
            -∗ wp frame (wpE ((K (F := F)).defs (D (F := F))) 𝒱 (SparseCore.T d) none) Set.univ (k ⟨⟩) Q))
      ⊢ wp frame (wpE ((K (F := F)).defs (D (F := F))) 𝒱 (SparseCore.T d) none) Set.univ
          ((K (F := F)).run d 6 >>= fun _ => (Prog.lift (.customCall (SparseCore.inner (Pipeline.entry 6)) ()) >>= k)) Q := by
  rw [unscoped_take3 d main_v10 main_v6 main_v46 (by decide) (by decide) (by decide) (by decide) (by decide) (by decide) (V d), hVt, hVi, wp_bind]
  iintro ⟨#Hctx, Hst, Hb, ⟨⟨Ht, Hi, Ho⟩, Hrest⟩, Hcg, Htk, Hk⟩
  iapply (run_step tv iv κ d 6 (V d main_v46)) $$ [Hst Ht Hi Ho Hb Hrest Hcg Htk Hk]
  isplitr; · iexact Hctx
  isplitl [Hst]; · iexact Hst
  isplitl [Ht Hi Ho]
  · isplitl [Ht]; · iexact Ht
    isplitl [Hi]; · iexact Hi
    iapply (Entails.of_eq (outPts_6 (F := F) d _ _ _).symm); iexact Ho
  iintro ⟨Hst, Ht, Hi, Ho0⟩
  ihave Ho := (Entails.of_eq (outPts_6 (F := F) d _ _ _)) $$ Ho0
  ihave Hlev := ((K (F := F)).ctx_levAts κ) $$ Hctx
  ihave Hun := (unscoped_put3 d main_v10 main_v6 main_v46 (by decide) (by decide) (by decide) (by decide) (by decide) (by decide) (V d) (gathered (tv d) (iv d) 6)) $$ [Ht Hi Ho Hrest]
  · rw [hVt, hVi]
    isplitl [Ht Hi Ho]
    · isplitl [Ht]; · iexact Ht
      isplitl [Hi]; · iexact Hi
      iexact Ho
    iexact Hrest
  unfold SparseCore.Cfg.tcSt
  icases Hst with ⟨⟨%W, %hW, HO⟩, Hstrest⟩
  iapply (hreg (Vg6 tv iv V) (fun c => (K (F := F)).Otc c (6 + 1)) (fun c => RecAt (F := F) c (6 + 1)) (fun c g => Otc_none c (6 + 1) g) d k Q) $$ [Hlev Hb Hun HO Hcg Htk Hstrest Hk]
  isplitl [Hlev]; · iexact Hlev
  isplitl [Hb]; · iexact Hb
  isplitl [Hun]; · iexact Hun
  isplitl [HO]
  · iexists W; isplitr
    · ipureintro; exact fun x hx => hW x hx
    · iexact HO
  isplitl [Hcg]; · iexact Hcg
  isplitl [Htk]; · iexact Htk
  iintro ⟨Hb, Hun, ⟨%W', %hW', HO⟩⟩
  iapply Hk
  isplitl [HO Hstrest]
  · isplitl [HO]
    · iexists W'; isplitr
      · ipureintro
        intro x hx
        rcases hW' x hx with h | h
        · exact h
        · show (K (F := F)).lev (SparseCore.T d, x.1) x.2 ≤ 8 * (6 + 1)
          rw [h, SparseCore.Cfg.lev_none]; omega
      · iexact HO
    iexact Hstrest
  isplitl [Hb]; · iexact Hb
  iexact Hun

end Cert.Proof.KW

end
-- ==== Proof.PairStep7W.lean ====
/-
  Gather call 7 and the TensorCore call that consumes it, as @main meets the pair: from the TensorCore's unscoped
  buffers at some contents to the same with the gathered rows and the call's result written.
-/
import proofs.«214101_g10505490006249_cont_week2b_118_28_alg».proof.Proof.PairDefsW

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Transfers (shareTok shareDrop pointsTo_toks_split pointsTo_toks_join)

variable {F : FTy → Type}

local notation "𝕄" => MT nD τ sig (HIx 8) (Elt F) ℕ UU ℕ

variable [FloatOps F]
variable (tv : (d : Dev nD) → S32768x128.Idx → Elt F .f32) (iv : (d : Dev nD) → S524288.Idx → Elt F .i32)

omit [FloatOps F] in
/-- Call 7's result array is `main_v48`. -/
theorem outPts_7 (d : Dev nD) (s : Finset S65536x128.Idx) (sh : PosShare TreeShare) (f : S65536x128.Idx → Elt F .f32) :
    (outPts 7 d s sh f : sProp 𝕄) = ((SparseCore.T d).loc main_v48 ↦[s]{sh} f) := rfl

variable (res7 : (d : Dev nD) → TCv (F := F) d → Buf (Elt F) ((SparseCore.T (τ := τ) d).loc main_v49))

/-- The contents after pair 7. -/
def Vg7 (V : (c : Dev nD) → TCv (F := F) c) (c : Dev nD) : TCv (F := F) c :=
  Function.update (V c) main_v48 (gathered (tv c) (iv c) 7)
def Vr7 (V : (c : Dev nD) → TCv (F := F) c) (c : Dev nD) : TCv (F := F) c :=
  Function.update (Vg7 tv iv V c) main_v49 (res7 c (Vg7 tv iv V c))

theorem pair_step7 (hreg : RegionStep (F := F) 7 main_v49 res7) (κ : GSem nD τ sig → ℕ) (d : Dev nD)
    (V : (c : Dev nD) → TCv (F := F) c) (hVt : V d main_v10 = tv d) (hVi : V d main_v6 = iv d)
    {α : Type} (k : PUnit → Prog (TpuEff nD τ sig (Elt F) (SparseCore.Sig (ΛP (F := F)) 8) .tc) α) (Q : α → sProp 𝕄) :
    iprop((K (F := F)).ctx EH (P (F := F) tv iv) κ ∗ (K (F := F)).tcSt EH d 7 ∗ boundary (SparseCore.T d) ∗ unscopedBufs d (V d)
        ∗ Pipeline.cellsGhost cfgs (EP (F := F)) 7 d ∗ Pipeline.toksInit cfgs (EP (F := F)) 7 d
        ∗ (((K (F := F)).tcSt EH d 8 ∗ boundary (SparseCore.T d) ∗ unscopedBufs d (Vr7 tv iv res7 V d))
            -∗ wp frame (wpE ((K (F := F)).defs (D (F := F))) 𝒱 (SparseCore.T d) none) Set.univ (k ⟨⟩) Q))
      ⊢ wp frame (wpE ((K (F := F)).defs (D (F := F))) 𝒱 (SparseCore.T d) none) Set.univ
          ((K (F := F)).run d 7 >>= fun _ => (Prog.lift (.customCall (SparseCore.inner (Pipeline.entry 7)) ()) >>= k)) Q := by
  rw [unscoped_take3 d main_v10 main_v6 main_v48 (by decide) (by decide) (by decide) (by decide) (by decide) (by decide) (V d), hVt, hVi, wp_bind]
  iintro ⟨#Hctx, Hst, Hb, ⟨⟨Ht, Hi, Ho⟩, Hrest⟩, Hcg, Htk, Hk⟩
  iapply (run_step tv iv κ d 7 (V d main_v48)) $$ [Hst Ht Hi Ho Hb Hrest Hcg Htk Hk]
  isplitr; · iexact Hctx
  isplitl [Hst]; · iexact Hst
  isplitl [Ht Hi Ho]
  · isplitl [Ht]; · iexact Ht
    isplitl [Hi]; · iexact Hi
    iapply (Entails.of_eq (outPts_7 (F := F) d _ _ _).symm); iexact Ho
  iintro ⟨Hst, Ht, Hi, Ho0⟩
  ihave Ho := (Entails.of_eq (outPts_7 (F := F) d _ _ _)) $$ Ho0
  ihave Hlev := ((K (F := F)).ctx_levAts κ) $$ Hctx
  ihave Hun := (unscoped_put3 d main_v10 main_v6 main_v48 (by decide) (by decide) (by decide) (by decide) (by decide) (by decide) (V d) (gathered (tv d) (iv d) 7)) $$ [Ht Hi Ho Hrest]
  · rw [hVt, hVi]
    isplitl [Ht Hi Ho]
    · isplitl [Ht]; · iexact Ht
      isplitl [Hi]; · iexact Hi
      iexact Ho
    iexact Hrest
  unfold SparseCore.Cfg.tcSt
  icases Hst with ⟨⟨%W, %hW, HO⟩, Hstrest⟩
  iapply (hreg (Vg7 tv iv V) (fun c => (K (F := F)).Otc c (7 + 1)) (fun c => RecAt (F := F) c (7 + 1)) (fun c g => Otc_none c (7 + 1) g) d k Q) $$ [Hlev Hb Hun HO Hcg Htk Hstrest Hk]
  isplitl [Hlev]; · iexact Hlev
  isplitl [Hb]; · iexact Hb
  isplitl [Hun]; · iexact Hun
  isplitl [HO]
  · iexists W; isplitr
    · ipureintro; exact fun x hx => hW x hx
    · iexact HO
  isplitl [Hcg]; · iexact Hcg
  isplitl [Htk]; · iexact Htk
  iintro ⟨Hb, Hun, ⟨%W', %hW', HO⟩⟩
  iapply Hk
  isplitl [HO Hstrest]
  · isplitl [HO]
    · iexists W'; isplitr
      · ipureintro
        intro x hx
        rcases hW' x hx with h | h
        · exact h
        · show (K (F := F)).lev (SparseCore.T d, x.1) x.2 ≤ 8 * (7 + 1)
          rw [h, SparseCore.Cfg.lev_none]; omega
      · iexact HO
    iexact Hstrest
  isplitl [Hb]; · iexact Hb
  iexact Hun

end Cert.Proof.KW

end
-- ==== Proof.MainRunW.lean ====
/-
  @main on the TensorCore, assembled: the first stretch of host operations, the eight pairs of a gather call and
  its TensorCore call, the closing stretch; and what the unscoped buffers hold at the end.
-/
import proofs.«214101_g10505490006249_cont_week2b_118_28_alg».proof.Proof.MainHostW
import proofs.«214101_g10505490006249_cont_week2b_118_28_alg».proof.Proof.PairStep0W
import proofs.«214101_g10505490006249_cont_week2b_118_28_alg».proof.Proof.PairStep1W
import proofs.«214101_g10505490006249_cont_week2b_118_28_alg».proof.Proof.PairStep2W
import proofs.«214101_g10505490006249_cont_week2b_118_28_alg».proof.Proof.PairStep3W
import proofs.«214101_g10505490006249_cont_week2b_118_28_alg».proof.Proof.PairStep4W
import proofs.«214101_g10505490006249_cont_week2b_118_28_alg».proof.Proof.PairStep5W
import proofs.«214101_g10505490006249_cont_week2b_118_28_alg».proof.Proof.PairStep6W
import proofs.«214101_g10505490006249_cont_week2b_118_28_alg».proof.Proof.PairStep7W

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Transfers (shareTok shareDrop pointsTo_toks_split pointsTo_toks_join)

variable {F : FTy → Type}

local notation "𝕄" => MT nD τ sig (HIx 8) (Elt F) ℕ UU ℕ

variable [FloatOps F]
variable (m : (ℓ : Loc nD τ sig) → Buf (Elt F) ℓ) (ρ : Dev nD → PrngReg)
variable (res0 : (d : Dev nD) → TCv (F := F) d → Buf (Elt F) ((SparseCore.T (τ := τ) d).loc main_v35))
variable (res1 : (d : Dev nD) → TCv (F := F) d → Buf (Elt F) ((SparseCore.T (τ := τ) d).loc main_v37))
variable (res2 : (d : Dev nD) → TCv (F := F) d → Buf (Elt F) ((SparseCore.T (τ := τ) d).loc main_v39))
variable (res3 : (d : Dev nD) → TCv (F := F) d → Buf (Elt F) ((SparseCore.T (τ := τ) d).loc main_v41))
variable (res4 : (d : Dev nD) → TCv (F := F) d → Buf (Elt F) ((SparseCore.T (τ := τ) d).loc main_v43))
variable (res5 : (d : Dev nD) → TCv (F := F) d → Buf (Elt F) ((SparseCore.T (τ := τ) d).loc main_v45))
variable (res6 : (d : Dev nD) → TCv (F := F) d → Buf (Elt F) ((SparseCore.T (τ := τ) d).loc main_v47))
variable (res7 : (d : Dev nD) → TCv (F := F) d → Buf (Elt F) ((SparseCore.T (τ := τ) d).loc main_v49))

/-! ## Contents by device reference and by TensorCore reference -/

/-- A valuation read at the TensorCore's references. -/
def rd (d : Dev nD) (W : Valuation τ sig (Elt F)) : TCv (F := F) d := fun x => W (Proc.devRef .tc x)

omit [FloatOps F] in
theorem upd_rd (d : Dev nD) (W : Valuation τ sig (Elt F)) (r : Ref sig .tc) (v : Buf (Elt F) ((SparseCore.T (τ := τ) d).loc r)) :
    rd d (Function.update W (Proc.devRef .tc r) v) = Function.update (rd d W) r v := by
  funext x
  by_cases h : x = r
  · subst h; unfold rd; rw [Function.update_self, Function.update_self]
  · unfold rd; rw [Function.update_of_ne (StableHlo.devRef_ne_of_ne h), Function.update_of_ne h]

omit [FloatOps F] in
theorem unscoped_rd (d : Dev nD) (W : Valuation τ sig (Elt F)) : (unscopedBufs d (rd d W) : sProp 𝕄) = held (SparseCore.T d) Sun W :=
  unscoped_held d W

/-! ## The contents pair by pair -/

/-- The device's contents after pair 0, from those before it. -/
def WR0 (d : Dev nD) (W : Valuation τ sig (Elt F)) : Valuation τ sig (Elt F) :=
  Function.update (Function.update W (Proc.devRef .tc main_v34) (gathered (tvOf m d) (ivOf m d) 0))
    (Proc.devRef .tc main_v35) (res0 d (rd d (Function.update W (Proc.devRef .tc main_v34) (gathered (tvOf m d) (ivOf m d) 0))))
theorem Vr0_rd (d : Dev nD) (W : Dev nD → Valuation τ sig (Elt F)) :
    Vr0 (tvOf m) (ivOf m) res0 (fun c => rd c (W c)) d = rd d (WR0 m res0 d (W d)) := by
  unfold Vr0 Vg0 WR0; rw [upd_rd, upd_rd]
theorem WR0_v10 (d : Dev nD) (W : Valuation τ sig (Elt F)) : WR0 m res0 d W (Proc.devRef .tc main_v10) = W (Proc.devRef .tc main_v10) := by
  unfold WR0; rw [Function.update_of_ne (StableHlo.devRef_ne_of_ne (by decide)), Function.update_of_ne (StableHlo.devRef_ne_of_ne (by decide))]
theorem WR0_v6 (d : Dev nD) (W : Valuation τ sig (Elt F)) : WR0 m res0 d W (Proc.devRef .tc main_v6) = W (Proc.devRef .tc main_v6) := by
  unfold WR0; rw [Function.update_of_ne (StableHlo.devRef_ne_of_ne (by decide)), Function.update_of_ne (StableHlo.devRef_ne_of_ne (by decide))]

/-- The device's contents after pair 1, from those before it. -/
def WR1 (d : Dev nD) (W : Valuation τ sig (Elt F)) : Valuation τ sig (Elt F) :=
  Function.update (Function.update W (Proc.devRef .tc main_v36) (gathered (tvOf m d) (ivOf m d) 1))
    (Proc.devRef .tc main_v37) (res1 d (rd d (Function.update W (Proc.devRef .tc main_v36) (gathered (tvOf m d) (ivOf m d) 1))))
theorem Vr1_rd (d : Dev nD) (W : Dev nD → Valuation τ sig (Elt F)) :
    Vr1 (tvOf m) (ivOf m) res1 (fun c => rd c (W c)) d = rd d (WR1 m res1 d (W d)) := by
  unfold Vr1 Vg1 WR1; rw [upd_rd, upd_rd]
theorem WR1_v10 (d : Dev nD) (W : Valuation τ sig (Elt F)) : WR1 m res1 d W (Proc.devRef .tc main_v10) = W (Proc.devRef .tc main_v10) := by
  unfold WR1; rw [Function.update_of_ne (StableHlo.devRef_ne_of_ne (by decide)), Function.update_of_ne (StableHlo.devRef_ne_of_ne (by decide))]
theorem WR1_v6 (d : Dev nD) (W : Valuation τ sig (Elt F)) : WR1 m res1 d W (Proc.devRef .tc main_v6) = W (Proc.devRef .tc main_v6) := by
  unfold WR1; rw [Function.update_of_ne (StableHlo.devRef_ne_of_ne (by decide)), Function.update_of_ne (StableHlo.devRef_ne_of_ne (by decide))]

/-- The device's contents after pair 2, from those before it. -/
def WR2 (d : Dev nD) (W : Valuation τ sig (Elt F)) : Valuation τ sig (Elt F) :=
  Function.update (Function.update W (Proc.devRef .tc main_v38) (gathered (tvOf m d) (ivOf m d) 2))
    (Proc.devRef .tc main_v39) (res2 d (rd d (Function.update W (Proc.devRef .tc main_v38) (gathered (tvOf m d) (ivOf m d) 2))))
theorem Vr2_rd (d : Dev nD) (W : Dev nD → Valuation τ sig (Elt F)) :
    Vr2 (tvOf m) (ivOf m) res2 (fun c => rd c (W c)) d = rd d (WR2 m res2 d (W d)) := by
  unfold Vr2 Vg2 WR2; rw [upd_rd, upd_rd]
theorem WR2_v10 (d : Dev nD) (W : Valuation τ sig (Elt F)) : WR2 m res2 d W (Proc.devRef .tc main_v10) = W (Proc.devRef .tc main_v10) := by
  unfold WR2; rw [Function.update_of_ne (StableHlo.devRef_ne_of_ne (by decide)), Function.update_of_ne (StableHlo.devRef_ne_of_ne (by decide))]
theorem WR2_v6 (d : Dev nD) (W : Valuation τ sig (Elt F)) : WR2 m res2 d W (Proc.devRef .tc main_v6) = W (Proc.devRef .tc main_v6) := by
  unfold WR2; rw [Function.update_of_ne (StableHlo.devRef_ne_of_ne (by decide)), Function.update_of_ne (StableHlo.devRef_ne_of_ne (by decide))]

/-- The device's contents after pair 3, from those before it. -/
def WR3 (d : Dev nD) (W : Valuation τ sig (Elt F)) : Valuation τ sig (Elt F) :=
  Function.update (Function.update W (Proc.devRef .tc main_v40) (gathered (tvOf m d) (ivOf m d) 3))
    (Proc.devRef .tc main_v41) (res3 d (rd d (Function.update W (Proc.devRef .tc main_v40) (gathered (tvOf m d) (ivOf m d) 3))))
theorem Vr3_rd (d : Dev nD) (W : Dev nD → Valuation τ sig (Elt F)) :
    Vr3 (tvOf m) (ivOf m) res3 (fun c => rd c (W c)) d = rd d (WR3 m res3 d (W d)) := by
  unfold Vr3 Vg3 WR3; rw [upd_rd, upd_rd]
theorem WR3_v10 (d : Dev nD) (W : Valuation τ sig (Elt F)) : WR3 m res3 d W (Proc.devRef .tc main_v10) = W (Proc.devRef .tc main_v10) := by
  unfold WR3; rw [Function.update_of_ne (StableHlo.devRef_ne_of_ne (by decide)), Function.update_of_ne (StableHlo.devRef_ne_of_ne (by decide))]
theorem WR3_v6 (d : Dev nD) (W : Valuation τ sig (Elt F)) : WR3 m res3 d W (Proc.devRef .tc main_v6) = W (Proc.devRef .tc main_v6) := by
  unfold WR3; rw [Function.update_of_ne (StableHlo.devRef_ne_of_ne (by decide)), Function.update_of_ne (StableHlo.devRef_ne_of_ne (by decide))]

/-- The device's contents after pair 4, from those before it. -/
def WR4 (d : Dev nD) (W : Valuation τ sig (Elt F)) : Valuation τ sig (Elt F) :=
  Function.update (Function.update W (Proc.devRef .tc main_v42) (gathered (tvOf m d) (ivOf m d) 4))
    (Proc.devRef .tc main_v43) (res4 d (rd d (Function.update W (Proc.devRef .tc main_v42) (gathered (tvOf m d) (ivOf m d) 4))))
theorem Vr4_rd (d : Dev nD) (W : Dev nD → Valuation τ sig (Elt F)) :
    Vr4 (tvOf m) (ivOf m) res4 (fun c => rd c (W c)) d = rd d (WR4 m res4 d (W d)) := by
  unfold Vr4 Vg4 WR4; rw [upd_rd, upd_rd]
theorem WR4_v10 (d : Dev nD) (W : Valuation τ sig (Elt F)) : WR4 m res4 d W (Proc.devRef .tc main_v10) = W (Proc.devRef .tc main_v10) := by
  unfold WR4; rw [Function.update_of_ne (StableHlo.devRef_ne_of_ne (by decide)), Function.update_of_ne (StableHlo.devRef_ne_of_ne (by decide))]
theorem WR4_v6 (d : Dev nD) (W : Valuation τ sig (Elt F)) : WR4 m res4 d W (Proc.devRef .tc main_v6) = W (Proc.devRef .tc main_v6) := by
  unfold WR4; rw [Function.update_of_ne (StableHlo.devRef_ne_of_ne (by decide)), Function.update_of_ne (StableHlo.devRef_ne_of_ne (by decide))]

/-- The device's contents after pair 5, from those before it. -/
def WR5 (d : Dev nD) (W : Valuation τ sig (Elt F)) : Valuation τ sig (Elt F) :=
  Function.update (Function.update W (Proc.devRef .tc main_v44) (gathered (tvOf m d) (ivOf m d) 5))
    (Proc.devRef .tc main_v45) (res5 d (rd d (Function.update W (Proc.devRef .tc main_v44) (gathered (tvOf m d) (ivOf m d) 5))))
theorem Vr5_rd (d : Dev nD) (W : Dev nD → Valuation τ sig (Elt F)) :
    Vr5 (tvOf m) (ivOf m) res5 (fun c => rd c (W c)) d = rd d (WR5 m res5 d (W d)) := by
  unfold Vr5 Vg5 WR5; rw [upd_rd, upd_rd]
theorem WR5_v10 (d : Dev nD) (W : Valuation τ sig (Elt F)) : WR5 m res5 d W (Proc.devRef .tc main_v10) = W (Proc.devRef .tc main_v10) := by
  unfold WR5; rw [Function.update_of_ne (StableHlo.devRef_ne_of_ne (by decide)), Function.update_of_ne (StableHlo.devRef_ne_of_ne (by decide))]
theorem WR5_v6 (d : Dev nD) (W : Valuation τ sig (Elt F)) : WR5 m res5 d W (Proc.devRef .tc main_v6) = W (Proc.devRef .tc main_v6) := by
  unfold WR5; rw [Function.update_of_ne (StableHlo.devRef_ne_of_ne (by decide)), Function.update_of_ne (StableHlo.devRef_ne_of_ne (by decide))]

/-- The device's contents after pair 6, from those before it. -/
def WR6 (d : Dev nD) (W : Valuation τ sig (Elt F)) : Valuation τ sig (Elt F) :=
  Function.update (Function.update W (Proc.devRef .tc main_v46) (gathered (tvOf m d) (ivOf m d) 6))
    (Proc.devRef .tc main_v47) (res6 d (rd d (Function.update W (Proc.devRef .tc main_v46) (gathered (tvOf m d) (ivOf m d) 6))))
theorem Vr6_rd (d : Dev nD) (W : Dev nD → Valuation τ sig (Elt F)) :
    Vr6 (tvOf m) (ivOf m) res6 (fun c => rd c (W c)) d = rd d (WR6 m res6 d (W d)) := by
  unfold Vr6 Vg6 WR6; rw [upd_rd, upd_rd]
theorem WR6_v10 (d : Dev nD) (W : Valuation τ sig (Elt F)) : WR6 m res6 d W (Proc.devRef .tc main_v10) = W (Proc.devRef .tc main_v10) := by
  unfold WR6; rw [Function.update_of_ne (StableHlo.devRef_ne_of_ne (by decide)), Function.update_of_ne (StableHlo.devRef_ne_of_ne (by decide))]
theorem WR6_v6 (d : Dev nD) (W : Valuation τ sig (Elt F)) : WR6 m res6 d W (Proc.devRef .tc main_v6) = W (Proc.devRef .tc main_v6) := by
  unfold WR6; rw [Function.update_of_ne (StableHlo.devRef_ne_of_ne (by decide)), Function.update_of_ne (StableHlo.devRef_ne_of_ne (by decide))]

/-- The device's contents after pair 7, from those before it. -/
def WR7 (d : Dev nD) (W : Valuation τ sig (Elt F)) : Valuation τ sig (Elt F) :=
  Function.update (Function.update W (Proc.devRef .tc main_v48) (gathered (tvOf m d) (ivOf m d) 7))
    (Proc.devRef .tc main_v49) (res7 d (rd d (Function.update W (Proc.devRef .tc main_v48) (gathered (tvOf m d) (ivOf m d) 7))))
theorem Vr7_rd (d : Dev nD) (W : Dev nD → Valuation τ sig (Elt F)) :
    Vr7 (tvOf m) (ivOf m) res7 (fun c => rd c (W c)) d = rd d (WR7 m res7 d (W d)) := by
  unfold Vr7 Vg7 WR7; rw [upd_rd, upd_rd]
theorem WR7_v10 (d : Dev nD) (W : Valuation τ sig (Elt F)) : WR7 m res7 d W (Proc.devRef .tc main_v10) = W (Proc.devRef .tc main_v10) := by
  unfold WR7; rw [Function.update_of_ne (StableHlo.devRef_ne_of_ne (by decide)), Function.update_of_ne (StableHlo.devRef_ne_of_ne (by decide))]
theorem WR7_v6 (d : Dev nD) (W : Valuation τ sig (Elt F)) : WR7 m res7 d W (Proc.devRef .tc main_v6) = W (Proc.devRef .tc main_v6) := by
  unfold WR7; rw [Function.update_of_ne (StableHlo.devRef_ne_of_ne (by decide)), Function.update_of_ne (StableHlo.devRef_ne_of_ne (by decide))]

/-- The contents before pair `k`. -/
abbrev Wk0 (d : Dev nD) : Valuation τ sig (Elt F) := V1 m d
abbrev Wk1 (d : Dev nD) : Valuation τ sig (Elt F) := WR0 m res0 d (Wk0 m  d)
abbrev Wk2 (d : Dev nD) : Valuation τ sig (Elt F) := WR1 m res1 d (Wk1 m res0 d)
abbrev Wk3 (d : Dev nD) : Valuation τ sig (Elt F) := WR2 m res2 d (Wk2 m res0 res1 d)
abbrev Wk4 (d : Dev nD) : Valuation τ sig (Elt F) := WR3 m res3 d (Wk3 m res0 res1 res2 d)
abbrev Wk5 (d : Dev nD) : Valuation τ sig (Elt F) := WR4 m res4 d (Wk4 m res0 res1 res2 res3 d)
abbrev Wk6 (d : Dev nD) : Valuation τ sig (Elt F) := WR5 m res5 d (Wk5 m res0 res1 res2 res3 res4 d)
abbrev Wk7 (d : Dev nD) : Valuation τ sig (Elt F) := WR6 m res6 d (Wk6 m res0 res1 res2 res3 res4 res5 d)
abbrev Wk8 (d : Dev nD) : Valuation τ sig (Elt F) := WR7 m res7 d (Wk7 m res0 res1 res2 res3 res4 res5 res6 d)

theorem Wk0_v10 (d : Dev nD) : Wk0 m  d (Proc.devRef .tc main_v10) = tvOf m d := by
  rfl
theorem Wk0_v6 (d : Dev nD) : Wk0 m  d (Proc.devRef .tc main_v6) = ivOf m d := by
  rfl
theorem Wk1_v10 (d : Dev nD) : Wk1 m res0 d (Proc.devRef .tc main_v10) = tvOf m d := by
  unfold Wk1; rw [WR0_v10]; exact Wk0_v10 m  d
theorem Wk1_v6 (d : Dev nD) : Wk1 m res0 d (Proc.devRef .tc main_v6) = ivOf m d := by
  unfold Wk1; rw [WR0_v6]; exact Wk0_v6 m  d
theorem Wk2_v10 (d : Dev nD) : Wk2 m res0 res1 d (Proc.devRef .tc main_v10) = tvOf m d := by
  unfold Wk2; rw [WR1_v10]; exact Wk1_v10 m res0 d
theorem Wk2_v6 (d : Dev nD) : Wk2 m res0 res1 d (Proc.devRef .tc main_v6) = ivOf m d := by
  unfold Wk2; rw [WR1_v6]; exact Wk1_v6 m res0 d
theorem Wk3_v10 (d : Dev nD) : Wk3 m res0 res1 res2 d (Proc.devRef .tc main_v10) = tvOf m d := by
  unfold Wk3; rw [WR2_v10]; exact Wk2_v10 m res0 res1 d
theorem Wk3_v6 (d : Dev nD) : Wk3 m res0 res1 res2 d (Proc.devRef .tc main_v6) = ivOf m d := by
  unfold Wk3; rw [WR2_v6]; exact Wk2_v6 m res0 res1 d
theorem Wk4_v10 (d : Dev nD) : Wk4 m res0 res1 res2 res3 d (Proc.devRef .tc main_v10) = tvOf m d := by
  unfold Wk4; rw [WR3_v10]; exact Wk3_v10 m res0 res1 res2 d
theorem Wk4_v6 (d : Dev nD) : Wk4 m res0 res1 res2 res3 d (Proc.devRef .tc main_v6) = ivOf m d := by
  unfold Wk4; rw [WR3_v6]; exact Wk3_v6 m res0 res1 res2 d
theorem Wk5_v10 (d : Dev nD) : Wk5 m res0 res1 res2 res3 res4 d (Proc.devRef .tc main_v10) = tvOf m d := by
  unfold Wk5; rw [WR4_v10]; exact Wk4_v10 m res0 res1 res2 res3 d
theorem Wk5_v6 (d : Dev nD) : Wk5 m res0 res1 res2 res3 res4 d (Proc.devRef .tc main_v6) = ivOf m d := by
  unfold Wk5; rw [WR4_v6]; exact Wk4_v6 m res0 res1 res2 res3 d
theorem Wk6_v10 (d : Dev nD) : Wk6 m res0 res1 res2 res3 res4 res5 d (Proc.devRef .tc main_v10) = tvOf m d := by
  unfold Wk6; rw [WR5_v10]; exact Wk5_v10 m res0 res1 res2 res3 res4 d
theorem Wk6_v6 (d : Dev nD) : Wk6 m res0 res1 res2 res3 res4 res5 d (Proc.devRef .tc main_v6) = ivOf m d := by
  unfold Wk6; rw [WR5_v6]; exact Wk5_v6 m res0 res1 res2 res3 res4 d
theorem Wk7_v10 (d : Dev nD) : Wk7 m res0 res1 res2 res3 res4 res5 res6 d (Proc.devRef .tc main_v10) = tvOf m d := by
  unfold Wk7; rw [WR6_v10]; exact Wk6_v10 m res0 res1 res2 res3 res4 res5 d
theorem Wk7_v6 (d : Dev nD) : Wk7 m res0 res1 res2 res3 res4 res5 res6 d (Proc.devRef .tc main_v6) = ivOf m d := by
  unfold Wk7; rw [WR6_v6]; exact Wk6_v6 m res0 res1 res2 res3 res4 res5 d
theorem Wk8_v10 (d : Dev nD) : Wk8 m res0 res1 res2 res3 res4 res5 res6 res7 d (Proc.devRef .tc main_v10) = tvOf m d := by
  unfold Wk8; rw [WR7_v10]; exact Wk7_v10 m res0 res1 res2 res3 res4 res5 res6 d
theorem Wk8_v6 (d : Dev nD) : Wk8 m res0 res1 res2 res3 res4 res5 res6 res7 d (Proc.devRef .tc main_v6) = ivOf m d := by
  unfold Wk8; rw [WR7_v6]; exact Wk7_v6 m res0 res1 res2 res3 res4 res5 res6 d

/-- What the unscoped buffers hold when @main returns. -/
def VfinOf (d : Dev nD) : Valuation τ sig (Elt F) := StableHlo.after (opsPost (F := F)) (Wk8 m res0 res1 res2 res3 res4 res5 res6 res7 d)

/-! ## The closing stretch -/

theorem opsPost_sub : ∀ op ∈ (opsPost : List (HloOp τ sig (Elt F))), op.bufs ⊆ (Sun : Finset (DevRef τ sig)) := by
  intro op h
  unfold opsPost at h
  cases h with
  | head => exact Finset.insert_subset (mem_Sun _ (by decide)) (Finset.image_subset_iff.mpr fun k _ => mem_Sun _ (by revert k; decide))
  | tail _ h =>
    cases h with
    | head => exact sub_Sun2 _ _ (by decide) (by decide)
    | tail _ h => exact nomatch h

theorem opsPost_fresh : ∀ op ∈ (opsPost : List (HloOp τ sig (Elt F))), op.fresh = ∅ := by
  intro op h
  unfold opsPost at h
  repeat (cases h with | head => rfl | tail _ h => ?_)
  exact nomatch h

omit [FloatOps F] m ρ res0 res1 res2 res3 res4 res5 res6 res7 in
/-- The eight pipelines' launch ghost state, one by one. -/
theorem G_eq (d : Dev nD) : (G (F := F) d : sProp 𝕄) = iprop(
    (Pipeline.cellsGhost cfgs (EP (F := F)) 0 d ∗ Pipeline.toksInit cfgs (EP (F := F)) 0 d)
    ∗ (Pipeline.cellsGhost cfgs (EP (F := F)) 1 d ∗ Pipeline.toksInit cfgs (EP (F := F)) 1 d)
    ∗ (Pipeline.cellsGhost cfgs (EP (F := F)) 2 d ∗ Pipeline.toksInit cfgs (EP (F := F)) 2 d)
    ∗ (Pipeline.cellsGhost cfgs (EP (F := F)) 3 d ∗ Pipeline.toksInit cfgs (EP (F := F)) 3 d)
    ∗ (Pipeline.cellsGhost cfgs (EP (F := F)) 4 d ∗ Pipeline.toksInit cfgs (EP (F := F)) 4 d)
    ∗ (Pipeline.cellsGhost cfgs (EP (F := F)) 5 d ∗ Pipeline.toksInit cfgs (EP (F := F)) 5 d)
    ∗ (Pipeline.cellsGhost cfgs (EP (F := F)) 6 d ∗ Pipeline.toksInit cfgs (EP (F := F)) 6 d)
    ∗ (Pipeline.cellsGhost cfgs (EP (F := F)) 7 d ∗ Pipeline.toksInit cfgs (EP (F := F)) 7 d)) := by
  unfold G
  rw [show (Finset.univ : Finset (Fin 8)) = {0, 1, 2, 3, 4, 5, 6, 7} by decide]
  repeat rw [SparseCore.bigSep_insert' (by decide)]
  rw [bigSep_singleton]

/-! ## @main -/

set_option backward.isDefEq.respectTransparency.types false in
/-- @main on device `d`'s TensorCore, given each TensorCore call's region step. -/
theorem hmain (hreg0 : RegionStep (F := F) 0 main_v35 res0) (hreg1 : RegionStep (F := F) 1 main_v37 res1) (hreg2 : RegionStep (F := F) 2 main_v39 res2) (hreg3 : RegionStep (F := F) 3 main_v41 res3) (hreg4 : RegionStep (F := F) 4 main_v43 res4) (hreg5 : RegionStep (F := F) 5 main_v45 res5) (hreg6 : RegionStep (F := F) 6 main_v47 res6) (hreg7 : RegionStep (F := F) 7 main_v49 res7)
    (κ : GSem nD τ sig → ℕ) (d : Dev nD) :
    iprop((K (F := F)).ctx EH (P (F := F) (tvOf m) (ivOf m)) κ ∗ (K (F := F)).tcSt EH d 0 ∗ (K (F := F)).tcRes m ρ d ∗ G (F := F) d)
      ⊢ wp frame (wpE ((K (F := F)).defs (D (F := F))) 𝒱 (SparseCore.T d) none) Set.univ (main (F := F) d)
          fun _ => iprop((K (F := F)).tcSt EH d 8 ∗ FIN (F := F) (VfinOf m res0 res1 res2 res3 res4 res5 res6 res7) d) := by
  unfold SparseCore.Cfg.tcRes
  rw [main_split, G_eq]
  iintro ⟨#Hctx, Hst, ⟨Hb, Hun, -, -⟩, ⟨Hc0, Ht0⟩, ⟨Hc1, Ht1⟩, ⟨Hc2, Ht2⟩, ⟨Hc3, Ht3⟩, ⟨Hc4, Ht4⟩, ⟨Hc5, Ht5⟩, ⟨Hc6, Ht6⟩, ⟨Hc7, Ht7⟩⟩
  iapply (pre_stretch m d _ _) $$ [Hb Hun Hst Hc0 Ht0 Hc1 Ht1 Hc2 Ht2 Hc3 Ht3 Hc4 Ht4 Hc5 Ht5 Hc6 Ht6 Hc7 Ht7]
  isplitl [Hb]; · iexact Hb
  isplitl [Hun]; · iexact Hun
  iintro ⟨Hb, Hh⟩
  ihave Hun := (Entails.of_eq (unscoped_rd (F := F) d (V1 m d)).symm) $$ Hh
  unfold calls
  -- pair 0
  iapply (pair_step0 (tvOf m) (ivOf m) res0 hreg0 κ d (fun c => rd c (Wk0 m  c)) (Wk0_v10 m  d) (Wk0_v6 m  d) _ _) $$ [Hst Hb Hun Hc0 Ht0 Hc1 Ht1 Hc2 Ht2 Hc3 Ht3 Hc4 Ht4 Hc5 Ht5 Hc6 Ht6 Hc7 Ht7]
  isplitr; · iexact Hctx
  isplitl [Hst]; · iexact Hst
  isplitl [Hb]; · iexact Hb
  isplitl [Hun]; · iexact Hun
  isplitl [Hc0]; · iexact Hc0
  isplitl [Ht0]; · iexact Ht0
  iintro ⟨Hst, Hb, Hun0⟩
  ihave Hun := (Entails.of_eq (congrArg (fun V => (unscopedBufs d V : sProp 𝕄)) (Vr0_rd m res0 d (fun c => Wk0 m  c)))) $$ Hun0
  -- pair 1
  iapply (pair_step1 (tvOf m) (ivOf m) res1 hreg1 κ d (fun c => rd c (Wk1 m res0 c)) (Wk1_v10 m res0 d) (Wk1_v6 m res0 d) _ _) $$ [Hst Hb Hun Hc1 Ht1 Hc2 Ht2 Hc3 Ht3 Hc4 Ht4 Hc5 Ht5 Hc6 Ht6 Hc7 Ht7]
  isplitr; · iexact Hctx
  isplitl [Hst]; · iexact Hst
  isplitl [Hb]; · iexact Hb
  isplitl [Hun]; · iexact Hun
  isplitl [Hc1]; · iexact Hc1
  isplitl [Ht1]; · iexact Ht1
  iintro ⟨Hst, Hb, Hun0⟩
  ihave Hun := (Entails.of_eq (congrArg (fun V => (unscopedBufs d V : sProp 𝕄)) (Vr1_rd m res1 d (fun c => Wk1 m res0 c)))) $$ Hun0
  -- pair 2
  iapply (pair_step2 (tvOf m) (ivOf m) res2 hreg2 κ d (fun c => rd c (Wk2 m res0 res1 c)) (Wk2_v10 m res0 res1 d) (Wk2_v6 m res0 res1 d) _ _) $$ [Hst Hb Hun Hc2 Ht2 Hc3 Ht3 Hc4 Ht4 Hc5 Ht5 Hc6 Ht6 Hc7 Ht7]
  isplitr; · iexact Hctx
  isplitl [Hst]; · iexact Hst
  isplitl [Hb]; · iexact Hb
  isplitl [Hun]; · iexact Hun
  isplitl [Hc2]; · iexact Hc2
  isplitl [Ht2]; · iexact Ht2
  iintro ⟨Hst, Hb, Hun0⟩
  ihave Hun := (Entails.of_eq (congrArg (fun V => (unscopedBufs d V : sProp 𝕄)) (Vr2_rd m res2 d (fun c => Wk2 m res0 res1 c)))) $$ Hun0
  -- pair 3
  iapply (pair_step3 (tvOf m) (ivOf m) res3 hreg3 κ d (fun c => rd c (Wk3 m res0 res1 res2 c)) (Wk3_v10 m res0 res1 res2 d) (Wk3_v6 m res0 res1 res2 d) _ _) $$ [Hst Hb Hun Hc3 Ht3 Hc4 Ht4 Hc5 Ht5 Hc6 Ht6 Hc7 Ht7]
  isplitr; · iexact Hctx
  isplitl [Hst]; · iexact Hst
  isplitl [Hb]; · iexact Hb
  isplitl [Hun]; · iexact Hun
  isplitl [Hc3]; · iexact Hc3
  isplitl [Ht3]; · iexact Ht3
  iintro ⟨Hst, Hb, Hun0⟩
  ihave Hun := (Entails.of_eq (congrArg (fun V => (unscopedBufs d V : sProp 𝕄)) (Vr3_rd m res3 d (fun c => Wk3 m res0 res1 res2 c)))) $$ Hun0
  -- pair 4
  iapply (pair_step4 (tvOf m) (ivOf m) res4 hreg4 κ d (fun c => rd c (Wk4 m res0 res1 res2 res3 c)) (Wk4_v10 m res0 res1 res2 res3 d) (Wk4_v6 m res0 res1 res2 res3 d) _ _) $$ [Hst Hb Hun Hc4 Ht4 Hc5 Ht5 Hc6 Ht6 Hc7 Ht7]
  isplitr; · iexact Hctx
  isplitl [Hst]; · iexact Hst
  isplitl [Hb]; · iexact Hb
  isplitl [Hun]; · iexact Hun
  isplitl [Hc4]; · iexact Hc4
  isplitl [Ht4]; · iexact Ht4
  iintro ⟨Hst, Hb, Hun0⟩
  ihave Hun := (Entails.of_eq (congrArg (fun V => (unscopedBufs d V : sProp 𝕄)) (Vr4_rd m res4 d (fun c => Wk4 m res0 res1 res2 res3 c)))) $$ Hun0
  -- pair 5
  iapply (pair_step5 (tvOf m) (ivOf m) res5 hreg5 κ d (fun c => rd c (Wk5 m res0 res1 res2 res3 res4 c)) (Wk5_v10 m res0 res1 res2 res3 res4 d) (Wk5_v6 m res0 res1 res2 res3 res4 d) _ _) $$ [Hst Hb Hun Hc5 Ht5 Hc6 Ht6 Hc7 Ht7]
  isplitr; · iexact Hctx
  isplitl [Hst]; · iexact Hst
  isplitl [Hb]; · iexact Hb
  isplitl [Hun]; · iexact Hun
  isplitl [Hc5]; · iexact Hc5
  isplitl [Ht5]; · iexact Ht5
  iintro ⟨Hst, Hb, Hun0⟩
  ihave Hun := (Entails.of_eq (congrArg (fun V => (unscopedBufs d V : sProp 𝕄)) (Vr5_rd m res5 d (fun c => Wk5 m res0 res1 res2 res3 res4 c)))) $$ Hun0
  -- pair 6
  iapply (pair_step6 (tvOf m) (ivOf m) res6 hreg6 κ d (fun c => rd c (Wk6 m res0 res1 res2 res3 res4 res5 c)) (Wk6_v10 m res0 res1 res2 res3 res4 res5 d) (Wk6_v6 m res0 res1 res2 res3 res4 res5 d) _ _) $$ [Hst Hb Hun Hc6 Ht6 Hc7 Ht7]
  isplitr; · iexact Hctx
  isplitl [Hst]; · iexact Hst
  isplitl [Hb]; · iexact Hb
  isplitl [Hun]; · iexact Hun
  isplitl [Hc6]; · iexact Hc6
  isplitl [Ht6]; · iexact Ht6
  iintro ⟨Hst, Hb, Hun0⟩
  ihave Hun := (Entails.of_eq (congrArg (fun V => (unscopedBufs d V : sProp 𝕄)) (Vr6_rd m res6 d (fun c => Wk6 m res0 res1 res2 res3 res4 res5 c)))) $$ Hun0
  -- pair 7
  iapply (pair_step7 (tvOf m) (ivOf m) res7 hreg7 κ d (fun c => rd c (Wk7 m res0 res1 res2 res3 res4 res5 res6 c)) (Wk7_v10 m res0 res1 res2 res3 res4 res5 res6 d) (Wk7_v6 m res0 res1 res2 res3 res4 res5 res6 d) _ _) $$ [Hst Hb Hun Hc7 Ht7 ]
  isplitr; · iexact Hctx
  isplitl [Hst]; · iexact Hst
  isplitl [Hb]; · iexact Hb
  isplitl [Hun]; · iexact Hun
  isplitl [Hc7]; · iexact Hc7
  isplitl [Ht7]; · iexact Ht7
  iintro ⟨Hst, Hb, Hun0⟩
  ihave Hun := (Entails.of_eq (congrArg (fun V => (unscopedBufs d V : sProp 𝕄)) (Vr7_rd m res7 d (fun c => Wk7 m res0 res1 res2 res3 res4 res5 res6 c)))) $$ Hun0
  -- the closing stretch
  ihave Hh := (Entails.of_eq (unscoped_rd (F := F) d (Wk8 m res0 res1 res2 res3 res4 res5 res6 res7 d))) $$ Hun
  rw [show (StableHlo.seq (opsPost (F := F)) : Prog (TpuEff nD τ sig (Elt F) (SparseCore.Sig (ΛP (F := F)) 8) .tc) PUnit)
      = (StableHlo.seq opsPost >>= fun u => Pure.pure u) from (bind_pure _).symm]
  iapply (StableHlo.wp_seq 𝒱 none Set.univ d Sun (fun u => Pure.pure u) opsPost opsPost_sub opsPost_fresh (Wk8 m res0 res1 res2 res3 res4 res5 res6 res7 d)) $$ [Hb Hh]
  · isplitl [Hb] <;> iassumption
  iintro ⟨-, Hheld⟩
  rw [wp_pure]; imodintro
  isplitl [Hst]; · iexact Hst
  unfold FIN VfinOf
  iexact Hheld

end Cert.Proof.KW

end
-- ==== Proof.KeptW.lean ====
/-
  What @main never writes keeps its launch contents to the end: the two host stretches write only their own
  results, and every call pair writes only its two arrays.
-/
import proofs.«214101_g10505490006249_cont_week2b_118_28_alg».proof.Proof.MainRunW

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Transfers (shareTok shareDrop pointsTo_toks_split pointsTo_toks_join)

variable {F : FTy → Type}

local notation "𝕄" => MT nD τ sig (HIx 8) (Elt F) ℕ UU ℕ

variable [FloatOps F]
variable (m : (ℓ : Loc nD τ sig) → Buf (Elt F) ℓ)
variable (res0 : (d : Dev nD) → TCv (F := F) d → Buf (Elt F) ((SparseCore.T (τ := τ) d).loc main_v35))
variable (res1 : (d : Dev nD) → TCv (F := F) d → Buf (Elt F) ((SparseCore.T (τ := τ) d).loc main_v37))
variable (res2 : (d : Dev nD) → TCv (F := F) d → Buf (Elt F) ((SparseCore.T (τ := τ) d).loc main_v39))
variable (res3 : (d : Dev nD) → TCv (F := F) d → Buf (Elt F) ((SparseCore.T (τ := τ) d).loc main_v41))
variable (res4 : (d : Dev nD) → TCv (F := F) d → Buf (Elt F) ((SparseCore.T (τ := τ) d).loc main_v43))
variable (res5 : (d : Dev nD) → TCv (F := F) d → Buf (Elt F) ((SparseCore.T (τ := τ) d).loc main_v45))
variable (res6 : (d : Dev nD) → TCv (F := F) d → Buf (Elt F) ((SparseCore.T (τ := τ) d).loc main_v47))
variable (res7 : (d : Dev nD) → TCv (F := F) d → Buf (Elt F) ((SparseCore.T (τ := τ) d).loc main_v49))

/-- The references the first stretch writes, the closing stretch writes, and the calls write. -/
def wPre : List (Ref sig .tc) := [main_v0, main_c, main_v1, main_v2, main_v3, main_v4, main_v5, main_v6, main_v7, main_v8, main_v9, main_c_0, main_call0_v0, main_v10, main_v11, main_cst, main_v12, main_v13, main_c_1, main_call1_v0, main_v14, main_v15, main_v16, main_v17, main_cst_2, main_v18, main_v19, main_v20, main_v21, main_v22, main_v23, main_v24, main_v25, main_v26, main_v27, main_v28, main_v29, main_cst_3, main_v30, main_v31, main_v32, main_v33]
def wPost : List (Ref sig .tc) := [main_v50, main_v51]
def wCalls : List (Ref sig .tc) := [main_v34, main_v35, main_v36, main_v37, main_v38, main_v39, main_v40, main_v41, main_v42, main_v43, main_v44, main_v45, main_v46, main_v47, main_v48, main_v49]

set_option maxRecDepth 8192 in
theorem opsPre_writes : (opsPre : List (HloOp τ sig (Elt F))).Forall fun op => op.writes ⊆ ((wPre.map (Proc.devRef (τ := τ) .tc)).toFinset) := by
  unfold opsPre
  exact ⟨Finset.singleton_subset_iff.mpr (by decide),
    Finset.singleton_subset_iff.mpr (by decide),
    Finset.singleton_subset_iff.mpr (by decide),
    Finset.singleton_subset_iff.mpr (by decide),
    Finset.singleton_subset_iff.mpr (by decide),
    Finset.singleton_subset_iff.mpr (by decide),
    Finset.singleton_subset_iff.mpr (by decide),
    Finset.singleton_subset_iff.mpr (by decide),
    Finset.singleton_subset_iff.mpr (by decide),
    Finset.singleton_subset_iff.mpr (by decide),
    Finset.singleton_subset_iff.mpr (by decide),
    Finset.singleton_subset_iff.mpr (by decide),
    Finset.singleton_subset_iff.mpr (by decide),
    Finset.singleton_subset_iff.mpr (by decide),
    Finset.singleton_subset_iff.mpr (by decide),
    Finset.singleton_subset_iff.mpr (by decide),
    Finset.singleton_subset_iff.mpr (by decide),
    Finset.singleton_subset_iff.mpr (by decide),
    Finset.singleton_subset_iff.mpr (by decide),
    Finset.singleton_subset_iff.mpr (by decide),
    Finset.singleton_subset_iff.mpr (by decide),
    Finset.singleton_subset_iff.mpr (by decide),
    Finset.singleton_subset_iff.mpr (by decide),
    Finset.singleton_subset_iff.mpr (by decide),
    Finset.singleton_subset_iff.mpr (by decide),
    Finset.singleton_subset_iff.mpr (by decide),
    Finset.singleton_subset_iff.mpr (by decide),
    Finset.singleton_subset_iff.mpr (by decide),
    Finset.singleton_subset_iff.mpr (by decide),
    Finset.singleton_subset_iff.mpr (by decide),
    Finset.singleton_subset_iff.mpr (by decide),
    Finset.singleton_subset_iff.mpr (by decide),
    Finset.singleton_subset_iff.mpr (by decide),
    Finset.singleton_subset_iff.mpr (by decide),
    Finset.singleton_subset_iff.mpr (by decide),
    Finset.singleton_subset_iff.mpr (by decide),
    Finset.singleton_subset_iff.mpr (by decide),
    Finset.singleton_subset_iff.mpr (by decide),
    Finset.singleton_subset_iff.mpr (by decide),
    Finset.singleton_subset_iff.mpr (by decide),
    Finset.singleton_subset_iff.mpr (by decide),
    Finset.singleton_subset_iff.mpr (by decide)⟩

theorem opsPost_writes : (opsPost : List (HloOp τ sig (Elt F))).Forall fun op => op.writes ⊆ ((wPost.map (Proc.devRef (τ := τ) .tc)).toFinset) := by
  unfold opsPost
  exact ⟨Finset.singleton_subset_iff.mpr (by decide), Finset.singleton_subset_iff.mpr (by decide)⟩

theorem WR0_other (d : Dev nD) (W : Valuation τ sig (Elt F)) (x : Ref sig .tc) (h1 : x ≠ main_v34) (h2 : x ≠ main_v35) :
    WR0 m res0 d W (Proc.devRef .tc x) = W (Proc.devRef .tc x) := by
  unfold WR0; rw [Function.update_of_ne (StableHlo.devRef_ne_of_ne h2), Function.update_of_ne (StableHlo.devRef_ne_of_ne h1)]
theorem WR1_other (d : Dev nD) (W : Valuation τ sig (Elt F)) (x : Ref sig .tc) (h1 : x ≠ main_v36) (h2 : x ≠ main_v37) :
    WR1 m res1 d W (Proc.devRef .tc x) = W (Proc.devRef .tc x) := by
  unfold WR1; rw [Function.update_of_ne (StableHlo.devRef_ne_of_ne h2), Function.update_of_ne (StableHlo.devRef_ne_of_ne h1)]
theorem WR2_other (d : Dev nD) (W : Valuation τ sig (Elt F)) (x : Ref sig .tc) (h1 : x ≠ main_v38) (h2 : x ≠ main_v39) :
    WR2 m res2 d W (Proc.devRef .tc x) = W (Proc.devRef .tc x) := by
  unfold WR2; rw [Function.update_of_ne (StableHlo.devRef_ne_of_ne h2), Function.update_of_ne (StableHlo.devRef_ne_of_ne h1)]
theorem WR3_other (d : Dev nD) (W : Valuation τ sig (Elt F)) (x : Ref sig .tc) (h1 : x ≠ main_v40) (h2 : x ≠ main_v41) :
    WR3 m res3 d W (Proc.devRef .tc x) = W (Proc.devRef .tc x) := by
  unfold WR3; rw [Function.update_of_ne (StableHlo.devRef_ne_of_ne h2), Function.update_of_ne (StableHlo.devRef_ne_of_ne h1)]
theorem WR4_other (d : Dev nD) (W : Valuation τ sig (Elt F)) (x : Ref sig .tc) (h1 : x ≠ main_v42) (h2 : x ≠ main_v43) :
    WR4 m res4 d W (Proc.devRef .tc x) = W (Proc.devRef .tc x) := by
  unfold WR4; rw [Function.update_of_ne (StableHlo.devRef_ne_of_ne h2), Function.update_of_ne (StableHlo.devRef_ne_of_ne h1)]
theorem WR5_other (d : Dev nD) (W : Valuation τ sig (Elt F)) (x : Ref sig .tc) (h1 : x ≠ main_v44) (h2 : x ≠ main_v45) :
    WR5 m res5 d W (Proc.devRef .tc x) = W (Proc.devRef .tc x) := by
  unfold WR5; rw [Function.update_of_ne (StableHlo.devRef_ne_of_ne h2), Function.update_of_ne (StableHlo.devRef_ne_of_ne h1)]
theorem WR6_other (d : Dev nD) (W : Valuation τ sig (Elt F)) (x : Ref sig .tc) (h1 : x ≠ main_v46) (h2 : x ≠ main_v47) :
    WR6 m res6 d W (Proc.devRef .tc x) = W (Proc.devRef .tc x) := by
  unfold WR6; rw [Function.update_of_ne (StableHlo.devRef_ne_of_ne h2), Function.update_of_ne (StableHlo.devRef_ne_of_ne h1)]
theorem WR7_other (d : Dev nD) (W : Valuation τ sig (Elt F)) (x : Ref sig .tc) (h1 : x ≠ main_v48) (h2 : x ≠ main_v49) :
    WR7 m res7 d W (Proc.devRef .tc x) = W (Proc.devRef .tc x) := by
  unfold WR7; rw [Function.update_of_ne (StableHlo.devRef_ne_of_ne h2), Function.update_of_ne (StableHlo.devRef_ne_of_ne h1)]

/-- A reference no stretch and no call writes holds its launch contents when @main returns. -/
theorem VfinOf_kept (d : Dev nD) (x : Ref sig .tc) (h1 : x ∉ wPre) (h2 : x ∉ wPost) (h3 : x ∉ wCalls) :
    VfinOf m res0 res1 res2 res3 res4 res5 res6 res7 d (Proc.devRef .tc x) = m (d, Proc.devRef .tc x) := by
  unfold VfinOf
  rw [StableHlo.after_of_writes_sub opsPost _ opsPost_writes h2]
  unfold Wk8 Wk7 Wk6 Wk5 Wk4 Wk3 Wk2 Wk1 Wk0
  rw [WR7_other m res7 d _ x (fun e => h3 (e ▸ by decide)) (fun e => h3 (e ▸ by decide))]
  rw [WR6_other m res6 d _ x (fun e => h3 (e ▸ by decide)) (fun e => h3 (e ▸ by decide))]
  rw [WR5_other m res5 d _ x (fun e => h3 (e ▸ by decide)) (fun e => h3 (e ▸ by decide))]
  rw [WR4_other m res4 d _ x (fun e => h3 (e ▸ by decide)) (fun e => h3 (e ▸ by decide))]
  rw [WR3_other m res3 d _ x (fun e => h3 (e ▸ by decide)) (fun e => h3 (e ▸ by decide))]
  rw [WR2_other m res2 d _ x (fun e => h3 (e ▸ by decide)) (fun e => h3 (e ▸ by decide))]
  rw [WR1_other m res1 d _ x (fun e => h3 (e ▸ by decide)) (fun e => h3 (e ▸ by decide))]
  rw [WR0_other m res0 d _ x (fun e => h3 (e ▸ by decide)) (fun e => h3 (e ▸ by decide))]
  show V1 m d (Proc.devRef .tc x) = _
  unfold V1
  rw [StableHlo.after_of_writes_sub opsPre _ opsPre_writes h1]

end Cert.Proof.KW

end
-- ==== Proof.RunW.lean ====
/-
  The run of the kernel program: the launch theorem applied to the tiles' tasks, the split of each
  SparseCore's operands, the launch element and @main on the TensorCore; and what the final memory holds.
-/
import proofs.«214101_g10505490006249_cont_week2b_118_28_alg».proof.Proof.KeptW

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Transfers (shareTok shareDrop pointsTo_toks_split pointsTo_toks_join)

variable {F : FTy → Type}

local notation "𝕄" => MT nD τ sig (HIx 8) (Elt F) ℕ UU ℕ

variable [FloatOps F]
variable (m : (ℓ : Loc nD τ sig) → Buf (Elt F) ℓ) (ρ : Dev nD → PrngReg)
variable (res0 : (d : Dev nD) → TCv (F := F) d → Buf (Elt F) ((SparseCore.T (τ := τ) d).loc main_v35))
variable (res1 : (d : Dev nD) → TCv (F := F) d → Buf (Elt F) ((SparseCore.T (τ := τ) d).loc main_v37))
variable (res2 : (d : Dev nD) → TCv (F := F) d → Buf (Elt F) ((SparseCore.T (τ := τ) d).loc main_v39))
variable (res3 : (d : Dev nD) → TCv (F := F) d → Buf (Elt F) ((SparseCore.T (τ := τ) d).loc main_v41))
variable (res4 : (d : Dev nD) → TCv (F := F) d → Buf (Elt F) ((SparseCore.T (τ := τ) d).loc main_v43))
variable (res5 : (d : Dev nD) → TCv (F := F) d → Buf (Elt F) ((SparseCore.T (τ := τ) d).loc main_v45))
variable (res6 : (d : Dev nD) → TCv (F := F) d → Buf (Elt F) ((SparseCore.T (τ := τ) d).loc main_v47))
variable (res7 : (d : Dev nD) → TCv (F := F) d → Buf (Elt F) ((SparseCore.T (τ := τ) d).loc main_v49))

/-- Every weakly fair execution of the program's threads terminates without a fault, and every unscoped buffer of
    each TensorCore ends at the final valuation — given each tile's task and each TensorCore call's region step. -/
theorem run_main [∀ e, Nonempty (Elt F e)]
    (htile : ∀ q : Fin 8, (K (F := F)).TileObl (D (F := F)) 𝒱 (P (F := F) (tvOf m) (ivOf m)) v₀ q)
    (hreg0 : RegionStep (F := F) 0 main_v35 res0) (hreg1 : RegionStep (F := F) 1 main_v37 res1) (hreg2 : RegionStep (F := F) 2 main_v39 res2) (hreg3 : RegionStep (F := F) 3 main_v41 res3) (hreg4 : RegionStep (F := F) 4 main_v43 res4) (hreg5 : RegionStep (F := F) 5 main_v45 res5) (hreg6 : RegionStep (F := F) 6 main_v47 res6) (hreg7 : RegionStep (F := F) 7 main_v49 res7) :
    θ_run (Cert.Kernel.defs (F := F)) (Cert.Kernel.threads (F := F)) ⟨m, fun _ => 0, ρ⟩ (QC (F := F) (VfinOf m res0 res1 res2 res3 res4 res5 res6 res7)) :=
  SparseCore.Cfg.θ_run_sc (K := K (F := F)) (D := D (F := F)) (𝒱 := 𝒱) (EH := EH) (P := P (F := F) (tvOf m) (ivOf m)) facts v₀
    (fun q hq => by fin_cases q <;> exact nomatch hq)
    (fun q _ => htile q)
    (fun q _ => SparseCore.Cfg.VecSplit.of_plain (vecSplit (tvOf m) (ivOf m) q))
    m ρ main (fun d => G (F := F) d) (FIN (F := F) (VfinOf m res0 res1 res2 res3 res4 res5 res6 res7)) (u₀ (F := F)) (sep_elim_left.trans (hu₀ (tvOf m) (ivOf m)))
    (hmain m ρ res0 res1 res2 res3 res4 res5 res6 res7 hreg0 hreg1 hreg2 hreg3 hreg4 hreg5 hreg6 hreg7) (fq (VfinOf m res0 res1 res2 res3 res4 res5 res6 res7)) (hfin (VfinOf m res0 res1 res2 res3 res4 res5 res6 res7))
    (QC (F := F) (VfinOf m res0 res1 res2 res3 res4 res5 res6 res7)) (fun _ h => h)

/-- The same run, read at the result buffer and the fourteen argument buffers: the result at the final valuation,
    the arguments as launched. -/
theorem run_value [∀ e, Nonempty (Elt F e)]
    (htile : ∀ q : Fin 8, (K (F := F)).TileObl (D (F := F)) 𝒱 (P (F := F) (tvOf m) (ivOf m)) v₀ q)
    (hreg0 : RegionStep (F := F) 0 main_v35 res0) (hreg1 : RegionStep (F := F) 1 main_v37 res1) (hreg2 : RegionStep (F := F) 2 main_v39 res2) (hreg3 : RegionStep (F := F) 3 main_v41 res3) (hreg4 : RegionStep (F := F) 4 main_v43 res4) (hreg5 : RegionStep (F := F) 5 main_v45 res5) (hreg6 : RegionStep (F := F) 6 main_v47 res6) (hreg7 : RegionStep (F := F) 7 main_v49 res7) :
    θ_run (Cert.Kernel.defs (F := F)) (Cert.Kernel.threads (F := F)) ⟨m, fun _ => 0, ρ⟩ (fun r => ∀ c : Dev nD,
      r.2.mem ((c.tc : Thread nD τ).loc main_v51) = VfinOf m res0 res1 res2 res3 res4 res5 res6 res7 c (Proc.devRef .tc main_v51)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run Cert.Kernel.defs _ _).mono (fun r h c =>
    ⟨h c _ (mem_Sun main_v51 (by decide)),
     (h c _ (mem_Sun main_arg0 (by decide))).trans (VfinOf_kept m res0 res1 res2 res3 res4 res5 res6 res7 c main_arg0 (by decide) (by decide) (by decide)),
     (h c _ (mem_Sun main_arg1 (by decide))).trans (VfinOf_kept m res0 res1 res2 res3 res4 res5 res6 res7 c main_arg1 (by decide) (by decide) (by decide)),
     (h c _ (mem_Sun main_arg2 (by decide))).trans (VfinOf_kept m res0 res1 res2 res3 res4 res5 res6 res7 c main_arg2 (by decide) (by decide) (by decide)),
     (h c _ (mem_Sun main_arg3 (by decide))).trans (VfinOf_kept m res0 res1 res2 res3 res4 res5 res6 res7 c main_arg3 (by decide) (by decide) (by decide)),
     (h c _ (mem_Sun main_arg4 (by decide))).trans (VfinOf_kept m res0 res1 res2 res3 res4 res5 res6 res7 c main_arg4 (by decide) (by decide) (by decide)),
     (h c _ (mem_Sun main_arg5 (by decide))).trans (VfinOf_kept m res0 res1 res2 res3 res4 res5 res6 res7 c main_arg5 (by decide) (by decide) (by decide)),
     (h c _ (mem_Sun main_arg6 (by decide))).trans (VfinOf_kept m res0 res1 res2 res3 res4 res5 res6 res7 c main_arg6 (by decide) (by decide) (by decide)),
     (h c _ (mem_Sun main_arg7 (by decide))).trans (VfinOf_kept m res0 res1 res2 res3 res4 res5 res6 res7 c main_arg7 (by decide) (by decide) (by decide)),
     (h c _ (mem_Sun main_arg8 (by decide))).trans (VfinOf_kept m res0 res1 res2 res3 res4 res5 res6 res7 c main_arg8 (by decide) (by decide) (by decide)),
     (h c _ (mem_Sun main_arg9 (by decide))).trans (VfinOf_kept m res0 res1 res2 res3 res4 res5 res6 res7 c main_arg9 (by decide) (by decide) (by decide)),
     (h c _ (mem_Sun main_arg10 (by decide))).trans (VfinOf_kept m res0 res1 res2 res3 res4 res5 res6 res7 c main_arg10 (by decide) (by decide) (by decide)),
     (h c _ (mem_Sun main_arg11 (by decide))).trans (VfinOf_kept m res0 res1 res2 res3 res4 res5 res6 res7 c main_arg11 (by decide) (by decide) (by decide)),
     (h c _ (mem_Sun main_arg12 (by decide))).trans (VfinOf_kept m res0 res1 res2 res3 res4 res5 res6 res7 c main_arg12 (by decide) (by decide) (by decide)),
     (h c _ (mem_Sun main_arg13 (by decide))).trans (VfinOf_kept m res0 res1 res2 res3 res4 res5 res6 res7 c main_arg13 (by decide) (by decide) (by decide))⟩)
    (run_main m ρ res0 res1 res2 res3 res4 res5 res6 res7 htile hreg0 hreg1 hreg2 hreg3 hreg4 hreg5 hreg6 hreg7)

end Cert.Proof.KW

end
-- ==== Proof.TileAux.lean ====
/-
  One vector subcore's share of a gather call, the pure part: how the subcore's scoped semaphores and scratch buffers are
  opened, what an indirect gather of 256 table rows delivers element by element, which elements of the result array a
  trip's two copy-outs write, and how those pieces rejoin the subcore's 2048 rows of the result.
-/
import proofs.«214101_g10505490006249_cont_week2b_118_28_alg».proof.Proof.Setup

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 8) (Elt F) ℕ UU ℕ

/-! ## The names of gather call 0

Everything that is particular to this one of the eight gather calls is named here (and, for the trips' offsets, at the
top of the body's module): the call's number, its result array, its scratch buffers. The text below speaks of the call
only through these names and through the program's own `cc0_…` / `k0_…` names. -/

/-- The number of this gather call among the eight: it reads index entries `65536 qC + …` and fills result array `qC`. -/
abbrev qC : Fin 8 := 0
theorem qC_val : (qC : Fin 8).val = 0 := rfl

abbrev tblV : Memref sig .scVector .hbm S32768x128 .f32 := Memref.whole main_v10_scv
abbrev idxV : Memref sig .scVector .hbm S524288 .i32 := Memref.whole main_v6_scv
abbrev outV : Memref sig .scVector .hbm S65536x128 .f32 := Memref.whole main_v34_scv
abbrev sI0 : Memref sig .scVector .vmem S256 .i32 := Memref.whole cc0_scratch0
abbrev sI1 : Memref sig .scVector .vmem S256 .i32 := Memref.whole cc0_scratch1
abbrev sR0 : Memref sig .scVector .vmem S256x128 .f32 := Memref.whole cc0_scratch2
abbrev sR1 : Memref sig .scVector .vmem S256x128 .f32 := Memref.whole cc0_scratch3

abbrev cV (L : grid0.Coords) : Fin τ.nSC := (L 0).castLE hcore0
abbrev jV (L : grid0.Coords) : Fin τ.nSub := (L 1).castLE hsub0
abbrev thrV (d : Dev nD) (L : grid0.Coords) : Thread nD τ := V d (cV L) (jV L)

variable [FloatOps F]

/-! ## The tile's own semaphores and scratch buffers -/

section Own

variable (d : Dev nD) (L : grid0.Coords)

/-- The cell of one of the tile's DMA semaphores. -/
abbrev cell (sm : DmaSems sig S_) : GSem nD τ sig := (thrV d L, .dma sm.sem)

omit [FloatOps F] in
theorem cell_mem {sm : DmaSems sig S_} (h : (SemLoc.dma sm.sem : SemLoc sig).isScoped .scVector = true) :
    cell d L sm ∈ ownCells (sig := sig) (thrV d L) := (mem_ownCells (g := cell d L sm)).mpr ⟨rfl, h⟩

theorem cell_ne {a b : DmaSems sig S_} (h : (SemLoc.dma a.sem : SemLoc sig) ≠ .dma b.sem) : cell d L a ≠ cell d L b :=
  fun e => h (Prod.mk.inj e).2

/-- The tile's scoped cells other than the six the gather uses. -/
abbrev restCells : Finset (GSem nD τ sig) :=
  ((((((ownCells (thrV d L)).erase (cell d L cc0_scratch4)).erase (cell d L cc0_scratch5)).erase (cell d L cc0_scratch6)).erase
    (cell d L cc0_scratch7)).erase (cell d L cc0_scoped0)).erase (cell d L cc0_scoped1)

theorem ownSems0_V :
    (ownSems0 (thrV d L) : sProp 𝕄)
      = iprop(semVal (cell d L cc0_scratch4) 0 ∗ semVal (cell d L cc0_scratch5) 0 ∗ semVal (cell d L cc0_scratch6) 0
          ∗ semVal (cell d L cc0_scratch7) 0 ∗ semVal (cell d L cc0_scoped0) 0 ∗ semVal (cell d L cc0_scoped1) 0
          ∗ bigSep (restCells d L) fun g => semVal g 0) := by
  unfold SparseCore.Cfg.ownSems0
  have m4 := cell_mem d L (sm := cc0_scratch4) (by decide)
  have m5 := cell_mem d L (sm := cc0_scratch5) (by decide)
  have m6 := cell_mem d L (sm := cc0_scratch6) (by decide)
  have m7 := cell_mem d L (sm := cc0_scratch7) (by decide)
  have m8 := cell_mem d L (sm := cc0_scoped0) (by decide)
  have m9 := cell_mem d L (sm := cc0_scoped1) (by decide)
  rw [SparseCore.bigSep_erase' m4,
    SparseCore.bigSep_erase' (Finset.mem_erase.mpr ⟨cell_ne d L (by decide), m5⟩),
    SparseCore.bigSep_erase' (Finset.mem_erase.mpr ⟨cell_ne d L (by decide), Finset.mem_erase.mpr ⟨cell_ne d L (by decide), m6⟩⟩),
    SparseCore.bigSep_erase' (Finset.mem_erase.mpr ⟨cell_ne d L (by decide), Finset.mem_erase.mpr ⟨cell_ne d L (by decide),
      Finset.mem_erase.mpr ⟨cell_ne d L (by decide), m7⟩⟩⟩),
    SparseCore.bigSep_erase' (Finset.mem_erase.mpr ⟨cell_ne d L (by decide), Finset.mem_erase.mpr ⟨cell_ne d L (by decide),
      Finset.mem_erase.mpr ⟨cell_ne d L (by decide), Finset.mem_erase.mpr ⟨cell_ne d L (by decide), m8⟩⟩⟩⟩),
    SparseCore.bigSep_erase' (Finset.mem_erase.mpr ⟨cell_ne d L (by decide), Finset.mem_erase.mpr ⟨cell_ne d L (by decide),
      Finset.mem_erase.mpr ⟨cell_ne d L (by decide), Finset.mem_erase.mpr ⟨cell_ne d L (by decide),
      Finset.mem_erase.mpr ⟨cell_ne d L (by decide), m9⟩⟩⟩⟩⟩)]

/-- One of the tile's scratch buffers, as a buffer of the device. -/
abbrev sref (b : Ref sig .scVector) : DevRef τ sig := (Proc.scVector (cV L) (jV L)).devRef b

theorem sref_mem {b : Ref sig .scVector} (h : (sref L b).owner = .proc (.scVector (cV L) (jV L))) :
    sref L b ∈ ownRefs (sig := sig) (τ := τ) (.scVector (cV L) (jV L)) :=
  SparseCore.Cfg.mem_ownRefs_of_owner (p := Proc.scVector (cV L) (jV L)) (b := sref L b) h

theorem sref_ne {a b : Ref sig .scVector} (h : a ≠ b) : sref L a ≠ sref L b := fun e => h (Proc.devRef_injective _ e)

/-- The tile's own buffers other than the gather's four scratches. -/
abbrev restRefs : Finset (DevRef τ sig) :=
  ((((ownRefs (τ := τ) (.scVector (cV L) (jV L))).erase (sref L cc0_scratch0)).erase (sref L cc0_scratch1)).erase (sref L cc0_scratch2)).erase
    (sref L cc0_scratch3)

theorem ownBufs_V :
    (ownBufs (thrV d L) : sProp 𝕄)
      = iprop((∃ f, (thrV d L).loc cc0_scratch0 ↦{fullShare} f) ∗ (∃ f, (thrV d L).loc cc0_scratch1 ↦{fullShare} f)
          ∗ (∃ f, (thrV d L).loc cc0_scratch2 ↦{fullShare} f) ∗ (∃ f, (thrV d L).loc cc0_scratch3 ↦{fullShare} f)
          ∗ bigSep (restRefs L) fun b => iprop(∃ f, ((d, b) : Loc nD τ sig) ↦{fullShare} f)) := by
  unfold SparseCore.Cfg.ownBufs
  refine (SparseCore.bigSep_erase' (sref_mem L (b := cc0_scratch0) rfl)).trans ?_
  rw [SparseCore.bigSep_erase' (Finset.mem_erase.mpr ⟨sref_ne L (show (cc0_scratch1 : Ref sig .scVector) ≠ cc0_scratch0 by decide), sref_mem L (b := cc0_scratch1) rfl⟩),
    SparseCore.bigSep_erase' (Finset.mem_erase.mpr ⟨sref_ne L (show (cc0_scratch2 : Ref sig .scVector) ≠ cc0_scratch1 by decide),
      Finset.mem_erase.mpr ⟨sref_ne L (show (cc0_scratch2 : Ref sig .scVector) ≠ cc0_scratch0 by decide), sref_mem L (b := cc0_scratch2) rfl⟩⟩),
    SparseCore.bigSep_erase' (Finset.mem_erase.mpr ⟨sref_ne L (show (cc0_scratch3 : Ref sig .scVector) ≠ cc0_scratch2 by decide),
      Finset.mem_erase.mpr ⟨sref_ne L (show (cc0_scratch3 : Ref sig .scVector) ≠ cc0_scratch1 by decide),
      Finset.mem_erase.mpr ⟨sref_ne L (show (cc0_scratch3 : Ref sig .scVector) ≠ cc0_scratch0 by decide), sref_mem L (b := cc0_scratch3) rfl⟩⟩⟩)]

end Own

/-! ## What one gather delivers -/

section Value

variable (d : Dev nD) (tv : Buf (Elt F) (tblLoc d)) (iv : Buf (Elt F) (idxLoc d))

omit [FloatOps F] in
/-- Entry `y` of the 256-entry piece of the index list that starts at `off` is entry `off + y` of the list. -/
theorem idxPiece_read (off : Fin 1 → Nat) (h : ∀ a, off a + S256.size a ≤ S524288.size a) (hs) (y : S256.Idx) :
    ((idxV).slice (Rect.unit (s := S524288) off S256.size h) hs).view.read (Elt F) iv y
      = iv (ix1 ⟨off 0 + (y 0).val, by have := h 0; have := (y 0).isLt; exact Nat.lt_of_lt_of_le (Nat.add_lt_add_left this _) (h 0)⟩) := by
  rw [View.read_apply]
  refine congrArg iv (funext fun a => ?_)
  match a with
  | ⟨0, _⟩ => exact Fin.ext (by show off 0 + 1 * (y 0).val = off 0 + (y 0).val; omega)

omit [FloatOps F] in
/-- The gather's payload at an index: row `x 0` of the scratch receives the table's row named by entry `off + x 0` of
    the index list, when the index scratch was filled with the 256 entries from `off`. -/
theorem gather_apply (hin : ∀ e, (iv e).toNat < 32768)
    (c : Thread nD τ) (sI : Memref sig c.2.kind .vmem S256 .i32) (fI : Buf (Elt F) (sI.view.loc c))
    (off : Fin 1 → Nat) (h : ∀ a, off a + S256.size a ≤ S524288.size a) (hs) (h7) (h8)
    (hg : S32768x128.Gathers 0 S256x128) (hn : S256.numel = S256x128.size hg.axis')
    (hinI : ∀ x, ((sI.view.read (Elt F) (sI.view.write (Elt F) fI
      (ReadAs.same.apply (((idxV).slice (Rect.unit (s := S524288) off S256.size h) hs).view.read (Elt F) iv)) Finset.univ)) x).toNat
        < S32768x128.size hg.axis)
    (x : S256x128.Idx) :
    SparseCore.gatherPayload hg (((tblV).slice (Rect.unit (s := S32768x128) ![0, 0] S32768x128.size h7) h8).view.read (Elt F) tv)
        (SparseCore.rows (sI.view.read (Elt F) (sI.view.write (Elt F) fI
          (ReadAs.same.apply (((idxV).slice (Rect.unit (s := S524288) off S256.size h) hs).view.read (Elt F) iv)) Finset.univ)) hn hinI) x
      = tv (ix2 (rowOf (iv (ix1 ⟨off 0 + (x 0).val, by
          have := h 0; have := idx2_lt0 (n0 := 256) (n1 := 128) x
          exact Nat.lt_of_lt_of_le (Nat.add_lt_add_left this _) (h 0)⟩))) (x 1)) := by
  unfold SparseCore.gatherPayload
  rw [View.read_apply]
  refine congrArg tv (funext fun a => ?_)
  have hy0 : ((S256.rowMajor.symm ((x hg.axis').cast hn.symm)) 0).val = (x 0).val := by
    have e := Shape.rowMajor_val_one (d := ![256]) (S256.rowMajor.symm ((x hg.axis').cast hn.symm))
    rw [Equiv.apply_symm_apply] at e
    exact e.symm
  match a with
  | ⟨0, _⟩ =>
    apply Fin.ext
    show 0 + 1 * (hg.idx _ x hg.axis).val = _
    rw [Shape.Gathers.idx_axis]
    show 0 + 1 * ((sI.view.read (Elt F) (sI.view.write (Elt F) fI (ReadAs.same.apply
      (((idxV).slice (Rect.unit (s := S524288) off S256.size h) hs).view.read (Elt F) iv)) Finset.univ))
        (S256.rowMajor.symm ((x hg.axis').cast hn.symm))).toNat = (iv (ix1 ⟨off 0 + (x 0).val, _⟩)).toNat % 32768
    rw [View.read_write_univ, ReadAs.apply_same, idxPiece_read, Nat.mod_eq_of_lt (hin _), Nat.zero_add, Nat.one_mul]
    exact congrArg (fun n : Fin 524288 => (iv (ix1 n)).toNat) (Fin.ext (by show off 0 + _ = off 0 + _; rw [hy0]))
  | ⟨1, _⟩ =>
    apply Fin.ext
    show 0 + 1 * (hg.idx _ x ⟨1, by decide⟩).val = (x 1).val
    rw [Shape.Gathers.idx_of_ne hg _ x ⟨1, by decide⟩ (by decide), Nat.zero_add, Nat.one_mul]
    rfl

end Value

/-! ## What a trip leaves in one 256-row piece of the result -/

section Piece

variable (d : Dev nD) (tv : Buf (Elt F) (tblLoc d)) (iv : Buf (Elt F) (idxLoc d))

omit [FloatOps F] in
/-- A row scratch written whole with `p`, copied whole onto a 256-row piece of the result: the piece's element under `x`
    holds `p x`. -/
theorem out_piece_apply (c : Thread nD τ) (sR : Memref sig c.2.kind .vmem S256x128 .f32) (fR : Buf (Elt F) (sR.view.loc c))
    (p : S256x128.Idx → Elt F .f32) (off : Fin 2 → Nat) (h : ∀ a, off a + S256x128.size a ≤ S65536x128.size a) (hs)
    (g : Buf (Elt F) (outLoc qC d)) (x : S256x128.Idx) :
    (((outV).slice (Rect.unit (s := S65536x128) off S256x128.size h) hs).view.writes (Elt F) g
        [⟨Rect.whole S256x128, ReadAs.same.apply (sR.view.read (Elt F) (sR.view.writes (Elt F) fR [⟨Rect.whole S256x128, p⟩]))⟩])
      (((outV).slice (Rect.unit (s := S65536x128) off S256x128.size h) hs).view.emb x) = p x := by
  have e1 := congrFun (View.read_writes_whole ((outV).slice (Rect.unit (s := S65536x128) off S256x128.size h) hs).view g
    (ReadAs.same.apply (sR.view.read (Elt F) (sR.view.writes (Elt F) fR [⟨Rect.whole S256x128, p⟩])))) x
  rw [View.read_apply] at e1
  refine (show _ = _ from e1).trans ?_
  rw [ReadAs.apply_same]
  exact congrFun (View.read_writes_whole sR.view fR p) x

omit [FloatOps F] in
/-- The gathered result at the element of a piece under `x`, when the index piece starts `65536 qC` entries beyond the
    row the piece starts at (call `qC`'s share of the index list). -/
theorem gathered_emb (off1 : Fin 1 → Nat) (off : Fin 2 → Nat) (h : ∀ a, off a + S256x128.size a ≤ S65536x128.size a) (hs)
    (e0 : off1 0 = (qC : Fin 8).val * 65536 + off 0) (e1 : off 1 = 0) (x : S256x128.Idx) (hlt : off1 0 + (x 0).val < 524288) :
    gathered tv iv qC (((outV).slice (Rect.unit (s := S65536x128) off S256x128.size h) hs).view.emb x)
      = tv (ix2 (rowOf (iv (ix1 ⟨off1 0 + (x 0).val, hlt⟩))) (x 1)) := by
  obtain ⟨j, hj⟩ : ∃ j : S65536x128.Idx, j = ((outV).slice (Rect.unit (s := S65536x128) off S256x128.size h) hs).view.emb x := ⟨_, rfl⟩
  have j0 : (j 0).val = off 0 + 1 * (x 0).val := by rw [hj]; rfl
  have j1 : (j 1).val = off 1 + 1 * (x 1).val := by rw [hj]; rfl
  rw [← hj]
  unfold gathered
  have a : ∀ hb, (⟨(qC : Fin 8).val * 65536 + (j 0).val, hb⟩ : Fin 524288) = ⟨off1 0 + (x 0).val, hlt⟩ := fun _ =>
    Fin.ext (by show (qC : Fin 8).val * 65536 + (j 0).val = off1 0 + (x 0).val; rw [j0, e0]; omega)
  have b : j 1 = x 1 := Fin.ext (by rw [j1, e1]; omega)
  rw [a, b]

omit [FloatOps F] in
/-- After a trip's gather and copy-out, every element of the 256-row piece holds the gathered result. -/
theorem piece_gathered (hin : ∀ e, (iv e).toNat < 32768)
    (c : Thread nD τ) (sI : Memref sig c.2.kind .vmem S256 .i32) (fI : Buf (Elt F) (sI.view.loc c))
    (sR : Memref sig c.2.kind .vmem S256x128 .f32) (fR : Buf (Elt F) (sR.view.loc c))
    (off1 : Fin 1 → Nat) (h1 : ∀ a, off1 a + S256.size a ≤ S524288.size a) (hs1) (h7) (h8)
    (hg : S32768x128.Gathers 0 S256x128) (hn : S256.numel = S256x128.size hg.axis')
    (hinI : ∀ x, ((sI.view.read (Elt F) (sI.view.write (Elt F) fI
      (ReadAs.same.apply (((idxV).slice (Rect.unit (s := S524288) off1 S256.size h1) hs1).view.read (Elt F) iv)) Finset.univ)) x).toNat
        < S32768x128.size hg.axis)
    (off : Fin 2 → Nat) (h : ∀ a, off a + S256x128.size a ≤ S65536x128.size a) (hs) (e0 : off1 0 = (qC : Fin 8).val * 65536 + off 0) (e1 : off 1 = 0)
    (g : Buf (Elt F) (outLoc qC d)) (j : S65536x128.Idx)
    (hj : j ∈ ((outV).slice (Rect.unit (s := S65536x128) off S256x128.size h) hs).view.set) :
    (((outV).slice (Rect.unit (s := S65536x128) off S256x128.size h) hs).view.writes (Elt F) g
        [⟨Rect.whole S256x128, ReadAs.same.apply (sR.view.read (Elt F) (sR.view.writes (Elt F) fR [⟨Rect.whole S256x128,
          SparseCore.gatherPayload hg (((tblV).slice (Rect.unit (s := S32768x128) ![0, 0] S32768x128.size h7) h8).view.read (Elt F) tv)
            (SparseCore.rows (sI.view.read (Elt F) (sI.view.write (Elt F) fI
              (ReadAs.same.apply (((idxV).slice (Rect.unit (s := S524288) off1 S256.size h1) hs1).view.read (Elt F) iv)) Finset.univ)) hn hinI)⟩]))⟩]) j
      = gathered tv iv qC j := by
  obtain ⟨x, -, rfl⟩ := Finset.mem_map.mp hj
  rw [out_piece_apply, gather_apply d tv iv hin, gathered_emb d tv iv off1 off h hs e0 e1]

end Piece

/-! ## The tile's rows and the pieces a trip writes -/

section Geometry

omit [FloatOps F] in
/-- Worker `w`'s rows of the result array are rows `[2048 w, 2048 w + 2048)`. -/
theorem mem_rowsSet (w : Fin 32) (j : S65536x128.Idx) :
    j ∈ rowsSet w ↔ 2048 * w.val ≤ (j 0).val ∧ (j 0).val < 2048 * w.val + 2048 := by
  unfold rowsSet rowsRect
  rw [View.set_slice_whole, Rect.mem_set_unit]
  have h1 := idx2_lt1 (n0 := 65536) (n1 := 128) j
  constructor
  · intro H
    have H0 : w.val * 2048 ≤ (j 0).val ∧ (j 0).val < w.val * 2048 + 2048 := H 0
    omega
  · intro H a
    match a with
    | ⟨0, _⟩ => show w.val * 2048 ≤ (j 0).val ∧ (j 0).val < w.val * 2048 + 2048; omega
    | ⟨1, _⟩ => show 0 * 128 ≤ (j 1).val ∧ (j 1).val < 0 * 128 + 128; omega

omit [FloatOps F] in
/-- A 256-row piece of the result array at row offset `off 0` (all 128 columns). -/
theorem mem_piece (off : Fin 2 → Nat) (h : ∀ a, off a + S256x128.size a ≤ S65536x128.size a) (hs) (j : S65536x128.Idx) :
    j ∈ ((outV).slice (Rect.unit (s := S65536x128) off S256x128.size h) hs).view.set
      ↔ (off 0 ≤ (j 0).val ∧ (j 0).val < off 0 + 256) ∧ (off 1 ≤ (j 1).val ∧ (j 1).val < off 1 + 128) := by
  show j ∈ ((View.whole main_v34_scv).slice (Rect.unit (s := S65536x128) off S256x128.size h)).set ↔ _
  rw [View.set_slice_whole, Rect.mem_set_unit]
  constructor
  · intro H; exact ⟨H 0, H 1⟩
  · rintro ⟨h0, h1⟩ a
    match a with
    | ⟨0, _⟩ => exact h0
    | ⟨1, _⟩ => exact h1

end Geometry

/-! ## Joining a trip's pieces back into the tile's rows -/

section Join

variable (d : Dev nD) (tv : Buf (Elt F) (tblLoc d)) (iv : Buf (Elt F) (idxLoc d))

/-- The rows of worker `w` below trip `k` (512 rows a trip) hold the gathered rows. -/
def doneBelow (w : Fin 32) (k : Nat) (g : Buf (Elt F) (outLoc qC d)) : Prop :=
  ∀ j ∈ rowsSet w, (j 0).val < 2048 * w.val + 512 * k → g j = gathered tv iv qC j

omit [FloatOps F] in
theorem doneBelow_zero (w : Fin 32) (g : Buf (Elt F) (outLoc qC d)) : doneBelow d tv iv w 0 g := by
  intro j hj hlt
  have := (mem_rowsSet w j).mp hj
  omega

omit [FloatOps F] in
theorem doneBelow_four (w : Fin 32) (g : Buf (Elt F) (outLoc qC d)) (h : doneBelow d tv iv w 4 g) :
    ∀ j ∈ rowsSet w, g j = gathered tv iv qC j := by
  intro j hj
  have := (mem_rowsSet w j).mp hj
  exact h j hj (by omega)

omit [FloatOps F] in
/-- A trip's first piece lies in the worker's rows; -/
theorem piece_subset (w : Fin 32) (k e : Nat) (he : e = 2048 * w.val + 512 * k) (hk : k < 4)
    (off : Fin 2 → Nat) (h : ∀ a, off a + S256x128.size a ≤ S65536x128.size a) (hs)
    (e0 : off 0 = e ∨ off 0 = e + 256) (e1 : off 1 = 0) :
    ((outV).slice (Rect.unit (s := S65536x128) off S256x128.size h) hs).view.set ⊆ rowsSet w := by
  intro j hj
  have := (mem_piece off h hs j).mp hj
  exact (mem_rowsSet w j).mpr (by omega)

omit [FloatOps F] in
/-- its second piece lies in them off the first. -/
theorem piece_subset_sdiff (w : Fin 32) (k e : Nat) (he : e = 2048 * w.val + 512 * k) (hk : k < 4)
    (off3 off4 : Fin 2 → Nat) (h3 : ∀ a, off3 a + S256x128.size a ≤ S65536x128.size a) (hs3)
    (h4 : ∀ a, off4 a + S256x128.size a ≤ S65536x128.size a) (hs4)
    (e30 : off3 0 = e) (e40 : off4 0 = e + 256) (e41 : off4 1 = 0) :
    ((outV).slice (Rect.unit (s := S65536x128) off4 S256x128.size h4) hs4).view.set
      ⊆ rowsSet w \ ((outV).slice (Rect.unit (s := S65536x128) off3 S256x128.size h3) hs3).view.set := by
  intro j hj
  have h4' := (mem_piece off4 h4 hs4 j).mp hj
  refine Finset.mem_sdiff.mpr ⟨(mem_rowsSet w j).mpr (by omega), fun hj3 => ?_⟩
  have h3' := (mem_piece off3 h3 hs3 j).mp hj3
  omega

omit [FloatOps F] in
/-- Two carved-out pieces put back at new contents. -/
theorem rejoin_two {ℓ : Loc nD τ sig} (R P3 P4 : Finset (Idx ℓ)) (hsub3 : P3 ⊆ R) (hsub4 : P4 ⊆ R \ P3) (g g3 g4 : Buf (Elt F) ℓ) :
    (iprop((ℓ ↦[P3]{fullShare} g3) ∗ (ℓ ↦[P4]{fullShare} g4) ∗ (ℓ ↦[(R \ P3) \ P4]{fullShare} g)) : sProp 𝕄)
      ⊢ ℓ ↦[R]{fullShare} (P3.piecewise g3 (P4.piecewise g4 g)) := by
  iintro ⟨H3, H4, Hr⟩
  iapply (pointsTo_join_subset (ℓ := ℓ) (q := fullShare) (I := P3) (S := R) (g := g3) (f := P4.piecewise g4 g) hsub3)
  isplitl [H3]; · iexact H3
  iapply (pointsTo_join_subset (ℓ := ℓ) (q := fullShare) (I := P4) (S := R \ P3) (g := g4) (f := g) hsub4)
  isplitl [H4]; · iexact H4
  iexact Hr

omit [FloatOps F] in
/-- Two pieces each holding the gathered rows, the rest as before, when the two pieces are all of the worker's rows
    from trip `k` up to trip `k + 1`: the rows below trip `k + 1` hold the gathered rows. -/
theorem doneBelow_step (w : Fin 32) (k : Nat) (P3 P4 : Finset (Idx (outLoc qC d)))
    (g g3 g4 : Buf (Elt F) (outLoc qC d)) (hg : doneBelow d tv iv w k g)
    (hg3 : ∀ j ∈ P3, g3 j = gathered tv iv qC j) (hg4 : ∀ j ∈ P4, g4 j = gathered tv iv qC j)
    (hcov : ∀ j : S65536x128.Idx, j ∈ rowsSet w → (j 0).val < 2048 * w.val + 512 * (k + 1) → j ∉ P3 → j ∉ P4 →
      (j 0).val < 2048 * w.val + 512 * k) :
    doneBelow d tv iv w (k + 1) (P3.piecewise g3 (P4.piecewise g4 g)) := by
  intro j hj hlt
  by_cases hj3 : j ∈ P3
  · exact (Finset.piecewise_eq_of_mem P3 g3 _ hj3).trans (hg3 j hj3)
  · refine (Finset.piecewise_eq_of_notMem P3 g3 _ hj3).trans ?_
    by_cases hj4 : j ∈ P4
    · exact (Finset.piecewise_eq_of_mem P4 g4 _ hj4).trans (hg4 j hj4)
    · exact (Finset.piecewise_eq_of_notMem P4 g4 _ hj4).trans (hg j hj (hcov j hj hlt hj3 hj4))

omit [FloatOps F] in
/-- The cover fact for a trip's two pieces. -/
theorem trip_cover (w : Fin 32) (k e : Nat) (he : e = 2048 * w.val + 512 * k)
    (off3 off4 : Fin 2 → Nat) (h3 : ∀ a, off3 a + S256x128.size a ≤ S65536x128.size a) (hs3)
    (h4 : ∀ a, off4 a + S256x128.size a ≤ S65536x128.size a) (hs4)
    (e30 : off3 0 = e) (e31 : off3 1 = 0) (e40 : off4 0 = e + 256) (e41 : off4 1 = 0) :
    ∀ j : S65536x128.Idx, j ∈ rowsSet w → (j 0).val < 2048 * w.val + 512 * (k + 1) →
      j ∉ ((outV).slice (Rect.unit (s := S65536x128) off3 S256x128.size h3) hs3).view.set →
      j ∉ ((outV).slice (Rect.unit (s := S65536x128) off4 S256x128.size h4) hs4).view.set →
      (j 0).val < 2048 * w.val + 512 * k := by
  intro j hj hlt hj3 hj4
  have hr := (mem_rowsSet w j).mp hj
  have n3 := mt (mem_piece off3 h3 hs3 j).mpr hj3
  have n4 := mt (mem_piece off4 h4 hs4 j).mpr hj4
  have := idx2_lt1 (n0 := 65536) (n1 := 128) j
  omega

end Join

end Cert.Proof.KI

end
-- ==== Proof.Tile.lean ====
/-
  One vector subcore's task in gather call 0, at a symbolic tile. Worker `w = 2 s + c` (subcore `s` of SparseCore `c`)
  fills rows `[2048 w, 2048 w + 2048)` of the result in four trips of 512 rows. A trip copies two 256-entry pieces of the
  index list into the two index scratches, starts one indirect gather of table rows per scratch, and copies each gathered
  256 x 128 block out to its rows of the result; every transfer has its own semaphore and is waited for before the next
  one on that semaphore starts. The loop's invariant carries the value: the worker's rows below the current trip already
  hold row `r ↦ table[index[r]]`; each trip extends this by its 512 rows, and after four trips it is all 2048 rows.
-/
import proofs.«214101_g10505490006249_cont_week2b_118_28_alg».proof.Proof.TileAux

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 8) (Elt F) ℕ UU ℕ

variable [FloatOps F]

/-! ## The body -/

section Body

variable (d : Dev nD) (L : grid0.Coords)

/-- The worker number of the tile at grid point `L`. -/
abbrev wL (L : grid0.Coords) : Fin 32 := wid (cV L) (jV L)

/-! ### Call 0: the trips' offsets

The only facts about this call's printed offset functions that the body uses, read off their generated closed forms:
trip `k` of the tile at `L` works on rows `rowE L k` and `rowE L k + 256` of the result, and on the index entries
`65536 qC` beyond them. -/

/-- The first row of the result that trip `k` of the tile at `L` writes. -/
def rowE (L : grid0.Coords) (k : Fin k0_t1_loop.trips) : Nat := 4096 * (L 1).val + 2048 * (L 0).val + 512 * k.val

theorem rowE_eq (k : Fin k0_t1_loop.trips) : rowE L k = 2048 * (wL L).val + 512 * k.val := by
  have hwv : (wL L).val = (L 1).val * 2 + (L 0).val := rfl
  unfold rowE; rw [hwv]; omega
theorem trips_eq : Scf.trips k0_t1_loop.lb k0_t1_loop.ub k0_t1_loop.st = 4 := by decide
theorem trip_lt (k : Fin k0_t1_loop.trips) : k.val < 4 := Nat.lt_of_lt_of_le k.isLt k0_t1_abs.2.1
theorem offI0 (k : Fin k0_t1_loop.trips) : k0_off1 L k 0 = (qC : Fin 8).val * 65536 + rowE L k := by
  have h : k0_off1 L k 0 = 4096 * (L 1).val + 2048 * (L 0).val + 512 * k.val := congrFun (k0_off1_eq L k) 0
  rw [qC_val, h]; unfold rowE; omega
theorem offI1 (k : Fin k0_t1_loop.trips) : k0_off2 L k 0 = (qC : Fin 8).val * 65536 + (rowE L k + 256) := by
  have h : k0_off2 L k 0 = 4096 * (L 1).val + 2048 * (L 0).val + 512 * k.val + 256 := congrFun (k0_off2_eq L k) 0
  rw [qC_val, h]; unfold rowE; omega
theorem offO0 (k : Fin k0_t1_loop.trips) : k0_off3 L k 0 = rowE L k := congrFun (k0_off3_eq L k) 0
theorem offO0' (k : Fin k0_t1_loop.trips) : k0_off3 L k 1 = 0 := congrFun (k0_off3_eq L k) 1
theorem offO1 (k : Fin k0_t1_loop.trips) : k0_off4 L k 0 = rowE L k + 256 := congrFun (k0_off4_eq L k) 0
theorem offO1' (k : Fin k0_t1_loop.trips) : k0_off4 L k 1 = 0 := congrFun (k0_off4_eq L k) 1

omit [FloatOps F] in
theorem pts_tbl (q : PosShare TreeShare) (f : Buf (Elt F) (tblLoc d)) :
    ((tblV).view.loc (thrV d L) ↦{q} f : sProp 𝕄) = tblLoc d ↦{q} f := by
  simp only [Memref.view_whole, View.set_whole]
omit [FloatOps F] in
theorem pts_idx (q : PosShare TreeShare) (f : Buf (Elt F) (idxLoc d)) :
    ((idxV).view.loc (thrV d L) ↦{q} f : sProp 𝕄) = idxLoc d ↦{q} f := by
  simp only [Memref.view_whole, View.set_whole]

omit [FloatOps F] in
theorem pts_s0 (f : Buf (Elt F) ((thrV d L).loc cc0_scratch0)) :
    ((thrV d L).loc cc0_scratch0 ↦{fullShare} f : sProp 𝕄) = ((sI0).view.loc (thrV d L) ↦{fullShare} f) := rfl
omit [FloatOps F] in
theorem pts_s1 (f : Buf (Elt F) ((thrV d L).loc cc0_scratch1)) :
    ((thrV d L).loc cc0_scratch1 ↦{fullShare} f : sProp 𝕄) = ((sI1).view.loc (thrV d L) ↦{fullShare} f) := rfl
omit [FloatOps F] in
theorem pts_s2 (f : Buf (Elt F) ((thrV d L).loc cc0_scratch2)) :
    ((thrV d L).loc cc0_scratch2 ↦{fullShare} f : sProp 𝕄) = ((sR0).view.loc (thrV d L) ↦{fullShare} f) := rfl
omit [FloatOps F] in
theorem pts_s3 (f : Buf (Elt F) ((thrV d L).loc cc0_scratch3)) :
    ((thrV d L).loc cc0_scratch3 ↦{fullShare} f : sProp 𝕄) = ((sR1).view.loc (thrV d L) ↦{fullShare} f) := rfl

/-- The two 256-row pieces of the result array that trip `k` writes, as the program slices them. -/
abbrev o3 (k : Fin k0_t1_loop.trips) : Memref sig .scVector .hbm S256x128 .f32 :=
  outV.slice (Rect.unit (s := S65536x128) (k0_off3 L k) S256x128.size (k0_off3_inb L k)) (fun _ => rfl)
abbrev o4 (k : Fin k0_t1_loop.trips) : Memref sig .scVector .hbm S256x128 .f32 :=
  outV.slice (Rect.unit (s := S65536x128) (k0_off4 L k) S256x128.size (k0_off4_inb L k)) (fun _ => rfl)

/-- The loop's invariant: the table and the index list at their read shares, the tile's rows of the result with the
    rows below the trip gathered, the four scratches at some contents, the six semaphores at zero, and what the tile owes. -/
def inv (qs : PosShare TreeShare) (tv : Buf (Elt F) (tblLoc d)) (iv : Buf (Elt F) (idxLoc d))
    (O : CellTallies nD τ sig (HIx 8)) (W : Waits sig (HIx 8)) (k : Nat) (_ : PUnit) : sProp 𝕄 :=
  iprop(Transfers.MayWaits (thrV d L) (none : HIx 8) O
    ∗ ((tblV).view.loc (thrV d L) ↦{qs} tv)
    ∗ ((idxV).view.loc (thrV d L) ↦{qs} iv)
    ∗ (∃ g, ⌜doneBelow d tv iv (wL L) k g⌝ ∗ outLoc qC d ↦[rowsSet (wL L)]{fullShare} g)
    ∗ (∃ f, (sI0).view.loc (thrV d L) ↦{fullShare} f)
    ∗ (∃ f, (sI1).view.loc (thrV d L) ↦{fullShare} f)
    ∗ (∃ f, (sR0).view.loc (thrV d L) ↦{fullShare} f)
    ∗ (∃ f, (sR1).view.loc (thrV d L) ↦{fullShare} f)
    ∗ semVal (cell d L cc0_scratch4) 0 ∗ semVal (cell d L cc0_scratch5) 0 ∗ semVal (cell d L cc0_scratch6) 0
    ∗ semVal (cell d L cc0_scratch7) 0 ∗ semVal (cell d L cc0_scoped0) 0 ∗ semVal (cell d L cc0_scoped1) 0
    ∗ ∃ W', ⌜∀ p ∈ W', p ∈ W ∨ p.2 = none⌝ ∗ owes (thrV d L) O W')

omit [FloatOps F] in
/-- Whatever an index scratch held before, after a 256-entry piece of the index list is copied into it every word it
    holds names a row of the table. -/
theorem idx_inb (iv : Buf (Elt F) (idxLoc d)) (hin : ∀ e, (iv e).toNat < 32768)
    (c : Thread nD τ) (m : Memref sig c.2.kind .vmem S256 .i32) (f : Buf (Elt F) (m.view.loc c))
    (off : Fin 1 → Nat) (h : ∀ a, off a + S256.size a ≤ S524288.size a) (hs) (x : S256.Idx) :
    (m.view.read (Elt F) (m.view.write (Elt F) f
      (ReadAs.same.apply (((idxV).slice (Rect.unit (s := S524288) off S256.size h) hs).view.read (Elt F) iv)) Finset.univ) x).toNat < 32768 := by
  rw [View.read_write_univ, ReadAs.apply_same, View.read_apply]
  exact hin _
set_option maxHeartbeats 2000000 in
theorem tile_body (qs : PosShare TreeShare) (tv : Buf (Elt F) (tblLoc d)) (iv : Buf (Elt F) (idxLoc d))
    (hin : ∀ e, (iv e).toNat < 32768) (O : CellTallies nD τ sig (HIx 8)) (W : Waits sig (HIx 8)) (hO : ∀ g, O g none = 0) :
    (iprop(levAts (K (F := F)).L (K (F := F)).lev ∗ emp
        ∗ ((tblLoc d ↦{qs} tv) ∗ (idxLoc d ↦{qs} iv) ∗ ∃ f, outLoc qC d ↦[rowsSet (wL L)]{fullShare} f)
        ∗ scopedBufs (thrV d L) ∗ scopedSems0 (thrV d L) ∗ owes (thrV d L) O W) : sProp 𝕄)
      ⊢ wp frame (wpE (defs₀ (F := F)) 𝒱₀ (thrV d L) none) Set.univ
          (cc0_gather_kernel L tblV (Memref.isWhole_whole _) idxV (Memref.isWhole_whole _) outV (Memref.isWhole_whole _)
            sI0 (Memref.isWhole_whole _) sI1 (Memref.isWhole_whole _) sR0 (Memref.isWhole_whole _) sR1 (Memref.isWhole_whole _)
            cc0_scratch4 cc0_scratch5 cc0_scratch6 cc0_scratch7 cc0_scoped0 cc0_scoped1)
          fun _ => iprop(((tblLoc d ↦{qs} tv) ∗ (idxLoc d ↦{qs} iv) ∗ outLoc qC d ↦[rowsSet (wL L)]{fullShare} gathered tv iv qC)
            ∗ scopedBufs (thrV d L) ∗ scopedSems0 (thrV d L) ∗ ∃ W', ⌜∀ p ∈ W', p ∈ W ∨ p.2 = none⌝ ∗ owes (thrV d L) O W') := by
  simp only [cc0_gather_kernel_eq_skeleton]; unfold cc0_gather_kernel_skel
  rw [(K (F := F)).scopedBufs_V facts d (cV L) (jV L), SparseCore.Cfg.scopedSems0_V (Val := Elt F) d (cV L) (jV L), ownSems0_V, ownBufs_V]
  iintro ⟨#Hlv, -, ⟨Ht, Hi, %fo, Ho⟩, ⟨⟨%f0, Hb0⟩, ⟨%f1, Hb1⟩, ⟨%f2, Hb2⟩, ⟨%f3, Hb3⟩, Hbufs⟩, ⟨Hs4, Hs5, Hs6, Hs7, Hs8, Hs9, Hsems⟩, HO⟩
  ihave Hmw := ((K (F := F)).mayWaits_none (thr := thrV d L) hO) $$ Hlv
  ihave Ht' := (Entails.of_eq (pts_tbl (F := F) d L _ _).symm) $$ Ht
  ihave Hi' := (Entails.of_eq (pts_idx (F := F) d L _ _).symm) $$ Hi
  ihave Hb0' := (Entails.of_eq (pts_s0 (F := F) d L f0)) $$ Hb0
  ihave Hb1' := (Entails.of_eq (pts_s1 (F := F) d L f1)) $$ Hb1
  ihave Hb2' := (Entails.of_eq (pts_s2 (F := F) d L f2)) $$ Hb2
  ihave Hb3' := (Entails.of_eq (pts_s3 (F := F) d L f3)) $$ Hb3
  sl_exec
  sl_for (inv d L qs tv iv O W) $$ [Hmw Ht' Hi' Ho Hb0' Hb1' Hb2' Hb3' Hs4 Hs5 Hs6 Hs7 Hs8 Hs9 HO]
  case region =>
    intro k _
    unfold inv
    iintro ⟨Hmw, Ht, Hi, ⟨%g, %hg, Ho⟩, ⟨%f0, Hb0⟩, ⟨%f1, Hb1⟩, ⟨%f2, Hb2⟩, ⟨%f3, Hb3⟩, Hs4, Hs5, Hs6, Hs7, Hs8, Hs9, %W', %hW', HO⟩
    -- the trip's offsets: the row pieces start at rows `rowE` and `rowE + 256`, the index pieces `65536 qC` entries beyond
    have o30 := offO0 L k
    have o31 := offO0' L k
    have o40 := offO1 L k
    have o41 := offO1' L k
    have hE := rowE_eq L k
    have hk := trip_lt k
    have e13 : k0_off1 L k 0 = (qC : Fin 8).val * 65536 + k0_off3 L k 0 := by rw [offI0, o30]
    have e24 : k0_off2 L k 0 = (qC : Fin 8).val * 65536 + k0_off4 L k 0 := by rw [offI1, o40]
    have hsub3 : (o3 L k).view.set ⊆ rowsSet (wL L) :=
      piece_subset (wL L) k.val _ hE hk (k0_off3 L k) (k0_off3_inb L k) (fun _ => rfl) (.inl o30) o31
    have hsub4 : (o4 L k).view.set ⊆ rowsSet (wL L) \ (o3 L k).view.set :=
      piece_subset_sdiff (wL L) k.val _ hE hk (k0_off3 L k) (k0_off4 L k) (k0_off3_inb L k) (fun _ => rfl) (k0_off4_inb L k) (fun _ => rfl) o30 o40 o41
    ihave Ho' := (pointsTo_split_subset (ℓ := outLoc qC d) (q := fullShare) (f := g) (I := (o3 L k).view.set) (S := rowsSet (wL L)) hsub3).1 $$ Ho
    icases Ho' with ⟨Ho3, Hor⟩
    ihave Hor' := (pointsTo_split_subset (ℓ := outLoc qC d) (q := fullShare) (f := g) (I := (o4 L k).view.set) (S := rowsSet (wL L) \ (o3 L k).view.set) hsub4).1 $$ Hor
    icases Hor' with ⟨Ho4, Hor⟩
    ihave Ho3' := (Entails.of_eq (show (outLoc qC d ↦[(o3 L k).view.set]{fullShare} g : sProp 𝕄) = ((o3 L k).view.loc (thrV d L) ↦[(o3 L k).view.set]{fullShare} g) from rfl)) $$ Ho3
    ihave Ho4' := (Entails.of_eq (show (outLoc qC d ↦[(o4 L k).view.set]{fullShare} g : sProp 𝕄) = ((o4 L k).view.loc (thrV d L) ↦[(o4 L k).view.set]{fullShare} g) from rfl)) $$ Ho4
    -- the words each index scratch holds once its piece of the list has landed name rows of the table
    have hin0 : ∀ x : S256.Idx, ((sI0).view.read (Elt F) ((sI0).view.write (Elt F) f0 (ReadAs.same.apply (((idxV).slice
        (Rect.unit (s := S524288) (k0_off1 L k) S256.size (k0_off1_inb L k)) (fun _ => rfl)).view.read (Elt F) iv)) Finset.univ) x).toNat < 32768 :=
      idx_inb (F := F) d iv hin (thrV d L) sI0 f0 _ _ _
    have hin1 : ∀ x : S256.Idx, ((sI1).view.read (Elt F) ((sI1).view.write (Elt F) f1 (ReadAs.same.apply (((idxV).slice
        (Rect.unit (s := S524288) (k0_off2 L k) S256.size (k0_off2_inb L k)) (fun _ => rfl)).view.read (Elt F) iv)) Finset.univ) x).toNat < 32768 :=
      idx_inb (F := F) d iv hin (thrV d L) sI1 f1 _ _ _
    -- both gathers read the table while the other is outstanding: a read share each
    ihave Ht2 := (pointsTo_share (ℓ := (tblV).view.loc (thrV d L)) (I := Finset.univ) (f := tv) (PosShare.mem_left_op_right qs)).1 $$ Ht
    icases Ht2 with ⟨Hta, Htb⟩
    -- what the two copy-outs leave in their pieces is the gathered rows
    have hgth : S32768x128.Gathers 0 S256x128 := by decide
    have hg3 := fun j hj => piece_gathered (F := F) d tv iv hin (thrV d L) sI0 f0 sR0 f2 (k0_off1 L k) (k0_off1_inb L k) (fun _ => rfl)
      inb_S32768x128_S32768x128_0_0 (fun _ => rfl) hgth rfl hin0 (k0_off3 L k) (k0_off3_inb L k) (fun _ => rfl) e13 o31 g j hj
    have hg4 := fun j hj => piece_gathered (F := F) d tv iv hin (thrV d L) sI1 f1 sR1 f3 (k0_off2 L k) (k0_off2_inb L k) (fun _ => rfl)
      inb_S32768x128_S32768x128_0_0 (fun _ => rfl) hgth rfl hin1 (k0_off4 L k) (k0_off4_inb L k) (fun _ => rfl) e24 o41 g j hj
    sl_exec
    sl_step
    isplitl [Hmw]; · iexact Hmw
    isplitl [Hta Htb]
    · iapply (pointsTo_share (ℓ := (tblV).view.loc (thrV d L)) (I := Finset.univ) (f := tv) (PosShare.mem_left_op_right qs)).2
      isplitl [Hta]; · iexact Hta
      iexact Htb
    isplitl [Hi]; · iexact Hi
    isplitl [Ho3' Ho4' Hor]
    · ihave Hj := (rejoin_two (F := F) (ℓ := outLoc qC d) (rowsSet (wL L)) (o3 L k).view.set (o4 L k).view.set hsub3 hsub4 g _ _) $$ [Ho3' Ho4' Hor]
      · isplitl [Ho3']; · iexact Ho3'
        isplitl [Ho4']; · iexact Ho4'
        iexact Hor
      iexists _
      isplitr
      · ipureintro
        exact doneBelow_step (F := F) d tv iv (wL L) k.val (o3 L k).view.set (o4 L k).view.set g _ _ hg hg3 hg4
          (trip_cover (wL L) k.val _ hE (k0_off3 L k) (k0_off4 L k) (k0_off3_inb L k) (fun _ => rfl) (k0_off4_inb L k) (fun _ => rfl) o30 o31 o40 o41)
      · iexact Hj
    isplitl [Hb0]; · iexists _; iexact Hb0
    isplitl [Hb1]; · iexists _; iexact Hb1
    isplitl [Hb2]; · iexists _; iexact Hb2
    isplitl [Hb3]; · iexists _; iexact Hb3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    iexists _; isplitr
    swap
    · iexact HO
    · ipureintro; intro p hp
      simp only [Finset.mem_insert] at hp
      rcases hp with rfl | rfl | rfl | rfl | rfl | rfl | hp
      · exact .inr rfl
      · exact .inr rfl
      · exact .inr rfl
      · exact .inr rfl
      · exact .inr rfl
      · exact .inr rfl
      · exact hW' p hp
  · unfold inv
    isplitl [Hmw]; · iexact Hmw
    isplitl [Ht']; · iexact Ht'
    isplitl [Hi']; · iexact Hi'
    isplitl [Ho]
    · iexists fo; isplitr
      · ipureintro; exact doneBelow_zero d tv iv (wL L) fo
      · iexact Ho
    isplitl [Hb0']; · iexists f0; iexact Hb0'
    isplitl [Hb1']; · iexists f1; iexact Hb1'
    isplitl [Hb2']; · iexists f2; iexact Hb2'
    isplitl [Hb3']; · iexists f3; iexact Hb3'
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    iexists W; isplitr
    · ipureintro; exact fun p hp => .inl hp
    · iexact HO
  iintro %_ HI
  unfold inv
  icases HI with ⟨-, Ht, Hi, ⟨%g, %hg, Ho⟩, ⟨%f0', Hb0⟩, ⟨%f1', Hb1⟩, ⟨%f2', Hb2⟩, ⟨%f3', Hb3⟩, Hs4, Hs5, Hs6, Hs7, Hs8, Hs9, %W', %hW', HO⟩
  rw [trips_eq] at hg
  sl_exec
  sl_step
  isplitl [Ht Hi Ho]
  · isplitl [Ht]; · iapply (Entails.of_eq (pts_tbl (F := F) d L _ _)); iexact Ht
    isplitl [Hi]; · iapply (Entails.of_eq (pts_idx (F := F) d L _ _)); iexact Hi
    iapply (Entails.of_eq (pointsTo_congr (ℓ := outLoc qC d) (q := fullShare) (I := rowsSet (wL L)) (doneBelow_four d tv iv (wL L) g hg)))
    iexact Ho
  isplitl [Hb0 Hb1 Hb2 Hb3 Hbufs]
  · isplitl [Hb0]; · iexists f0'; iapply (Entails.of_eq (pts_s0 (F := F) d L f0').symm); iexact Hb0
    isplitl [Hb1]; · iexists f1'; iapply (Entails.of_eq (pts_s1 (F := F) d L f1').symm); iexact Hb1
    isplitl [Hb2]; · iexists f2'; iapply (Entails.of_eq (pts_s2 (F := F) d L f2').symm); iexact Hb2
    isplitl [Hb3]; · iexists f3'; iapply (Entails.of_eq (pts_s3 (F := F) d L f3').symm); iexact Hb3
    iexact Hbufs
  isplitl [Hs4 Hs5 Hs6 Hs7 Hs8 Hs9 Hsems]
  · isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    iexact Hsems
  iexists W'; isplitr
  · ipureintro; exact hW'
  · iexact HO

end Body

end Cert.Proof.KI

end
-- ==== Proof.TileObl0.lean ====
/-
  The launch theorem's obligation for gather call 0: a tile's task, entered through the body table, is the kernel's
  body at that tile, run on the tile's share of the table and the index list and on its worker's rows.
-/
import proofs.«214101_g10505490006249_cont_week2b_118_28_alg».proof.Proof.Launch
import proofs.«214101_g10505490006249_cont_week2b_118_28_alg».proof.Proof.Tile

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Transfers (shareTok shareDrop pointsTo_toks_split pointsTo_toks_join)

variable {F : FTy → Type}

local notation "𝕄" => MT nD τ sig (HIx 8) (Elt F) ℕ UU ℕ

variable [FloatOps F]
variable (tv : (d : Dev nD) → S32768x128.Idx → Elt F .f32) (iv : (d : Dev nD) → S524288.Idx → Elt F .i32)

/-- A tile's grid coordinates from its SparseCore and subcore numbers. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector0 (c : Fin τ.nSC) (s : Fin τ.nSub) :
    defs₀ (F := F) (.scVector c s) 0 ()
      = SparseCore.onTile hcore0 hsub0 (fun c s => cc0_gather_kernel (coordsV c s)
          tblV (Memref.isWhole_whole _) idxV (Memref.isWhole_whole _) outV (Memref.isWhole_whole _)
          sI0 (Memref.isWhole_whole _) sI1 (Memref.isWhole_whole _) sR0 (Memref.isWhole_whole _) sR1 (Memref.isWhole_whole _)
          cc0_scratch4 cc0_scratch5 cc0_scratch6 cc0_scratch7 cc0_scoped0 cc0_scoped1) ⟨⟩ c s := rfl

omit [FloatOps F] tv iv in
/-- A task that records only waits of its own may be said to record those or the call's. -/
theorem obl_post {thr : Thread nD τ} {A B C : sProp 𝕄} {O : CellTallies nD τ sig (HIx 8)} {W : Waits sig (HIx 8)} {q : Fin 8} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Call 0's tile obligation. -/
theorem tileObl0 (hin : ∀ d e, (iv d e).toNat < 32768) : (K (F := F)).TileObl (D (F := F)) 𝒱 (P (F := F) tv iv) v₀ 0 := by
  intro d c i O W hO _ _
  -- the gather kernel owes nothing for a protocol of its own
  simp only [show (P (F := F) tv iv).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector0]; simp only [SparseCore.onTile, hc, and_self, ↓reduceDIte]
  exact (tile_body d (coordsV ⟨_, hc.1⟩ ⟨_, hc.2⟩) (shT (cC 0 c) (sS 0 i)) (tv d) (iv d) (hin d) O W hO).trans (wp_mono frame _ _ fun _ => obl_post)

end Cert.Proof.KI

end
-- ==== Proof.TileAux1.lean ====
/-
  One vector subcore's share of a gather call, the pure part: how the subcore's scoped semaphores and scratch buffers are
  opened, what an indirect gather of 256 table rows delivers element by element, which elements of the result array a
  trip's two copy-outs write, and how those pieces rejoin the subcore's 2048 rows of the result.
-/
import proofs.«214101_g10505490006249_cont_week2b_118_28_alg».proof.Proof.Setup

noncomputable section

namespace Cert.Proof.KI.C1

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 8) (Elt F) ℕ UU ℕ

/-! ## The names of gather call 1

Everything that is particular to this one of the eight gather calls is named here (and, for the trips' offsets, at the
top of the body's module): the call's number, its result array, its scratch buffers. The text below speaks of the call
only through these names and through the program's own `cc2_…` / `k2_…` names. -/

/-- The number of this gather call among the eight: it reads index entries `65536 qC + …` and fills result array `qC`. -/
abbrev qC : Fin 8 := 1
theorem qC_val : (qC : Fin 8).val = 1 := rfl

abbrev tblV : Memref sig .scVector .hbm S32768x128 .f32 := Memref.whole main_v10_scv
abbrev idxV : Memref sig .scVector .hbm S524288 .i32 := Memref.whole main_v6_scv
abbrev outV : Memref sig .scVector .hbm S65536x128 .f32 := Memref.whole main_v36_scv
abbrev sI0 : Memref sig .scVector .vmem S256 .i32 := Memref.whole cc2_scratch0
abbrev sI1 : Memref sig .scVector .vmem S256 .i32 := Memref.whole cc2_scratch1
abbrev sR0 : Memref sig .scVector .vmem S256x128 .f32 := Memref.whole cc2_scratch2
abbrev sR1 : Memref sig .scVector .vmem S256x128 .f32 := Memref.whole cc2_scratch3

abbrev cV (L : grid2.Coords) : Fin τ.nSC := (L 0).castLE hcore2
abbrev jV (L : grid2.Coords) : Fin τ.nSub := (L 1).castLE hsub2
abbrev thrV (d : Dev nD) (L : grid2.Coords) : Thread nD τ := V d (cV L) (jV L)

variable [FloatOps F]

/-! ## The tile's own semaphores and scratch buffers -/

section Own

variable (d : Dev nD) (L : grid2.Coords)

/-- The cell of one of the tile's DMA semaphores. -/
abbrev cell (sm : DmaSems sig S_) : GSem nD τ sig := (thrV d L, .dma sm.sem)

omit [FloatOps F] in
theorem cell_mem {sm : DmaSems sig S_} (h : (SemLoc.dma sm.sem : SemLoc sig).isScoped .scVector = true) :
    cell d L sm ∈ ownCells (sig := sig) (thrV d L) := (mem_ownCells (g := cell d L sm)).mpr ⟨rfl, h⟩

theorem cell_ne {a b : DmaSems sig S_} (h : (SemLoc.dma a.sem : SemLoc sig) ≠ .dma b.sem) : cell d L a ≠ cell d L b :=
  fun e => h (Prod.mk.inj e).2

/-- The tile's scoped cells other than the six the gather uses. -/
abbrev restCells : Finset (GSem nD τ sig) :=
  ((((((ownCells (thrV d L)).erase (cell d L cc2_scratch4)).erase (cell d L cc2_scratch5)).erase (cell d L cc2_scratch6)).erase
    (cell d L cc2_scratch7)).erase (cell d L cc2_scoped0)).erase (cell d L cc2_scoped1)

theorem ownSems0_V :
    (ownSems0 (thrV d L) : sProp 𝕄)
      = iprop(semVal (cell d L cc2_scratch4) 0 ∗ semVal (cell d L cc2_scratch5) 0 ∗ semVal (cell d L cc2_scratch6) 0
          ∗ semVal (cell d L cc2_scratch7) 0 ∗ semVal (cell d L cc2_scoped0) 0 ∗ semVal (cell d L cc2_scoped1) 0
          ∗ bigSep (restCells d L) fun g => semVal g 0) := by
  unfold SparseCore.Cfg.ownSems0
  have m4 := cell_mem d L (sm := cc2_scratch4) (by decide)
  have m5 := cell_mem d L (sm := cc2_scratch5) (by decide)
  have m6 := cell_mem d L (sm := cc2_scratch6) (by decide)
  have m7 := cell_mem d L (sm := cc2_scratch7) (by decide)
  have m8 := cell_mem d L (sm := cc2_scoped0) (by decide)
  have m9 := cell_mem d L (sm := cc2_scoped1) (by decide)
  rw [SparseCore.bigSep_erase' m4,
    SparseCore.bigSep_erase' (Finset.mem_erase.mpr ⟨cell_ne d L (by decide), m5⟩),
    SparseCore.bigSep_erase' (Finset.mem_erase.mpr ⟨cell_ne d L (by decide), Finset.mem_erase.mpr ⟨cell_ne d L (by decide), m6⟩⟩),
    SparseCore.bigSep_erase' (Finset.mem_erase.mpr ⟨cell_ne d L (by decide), Finset.mem_erase.mpr ⟨cell_ne d L (by decide),
      Finset.mem_erase.mpr ⟨cell_ne d L (by decide), m7⟩⟩⟩),
    SparseCore.bigSep_erase' (Finset.mem_erase.mpr ⟨cell_ne d L (by decide), Finset.mem_erase.mpr ⟨cell_ne d L (by decide),
      Finset.mem_erase.mpr ⟨cell_ne d L (by decide), Finset.mem_erase.mpr ⟨cell_ne d L (by decide), m8⟩⟩⟩⟩),
    SparseCore.bigSep_erase' (Finset.mem_erase.mpr ⟨cell_ne d L (by decide), Finset.mem_erase.mpr ⟨cell_ne d L (by decide),
      Finset.mem_erase.mpr ⟨cell_ne d L (by decide), Finset.mem_erase.mpr ⟨cell_ne d L (by decide),
      Finset.mem_erase.mpr ⟨cell_ne d L (by decide), m9⟩⟩⟩⟩⟩)]

/-- One of the tile's scratch buffers, as a buffer of the device. -/
abbrev sref (b : Ref sig .scVector) : DevRef τ sig := (Proc.scVector (cV L) (jV L)).devRef b

theorem sref_mem {b : Ref sig .scVector} (h : (sref L b).owner = .proc (.scVector (cV L) (jV L))) :
    sref L b ∈ ownRefs (sig := sig) (τ := τ) (.scVector (cV L) (jV L)) :=
  SparseCore.Cfg.mem_ownRefs_of_owner (p := Proc.scVector (cV L) (jV L)) (b := sref L b) h

theorem sref_ne {a b : Ref sig .scVector} (h : a ≠ b) : sref L a ≠ sref L b := fun e => h (Proc.devRef_injective _ e)

/-- The tile's own buffers other than the gather's four scratches. -/
abbrev restRefs : Finset (DevRef τ sig) :=
  ((((ownRefs (τ := τ) (.scVector (cV L) (jV L))).erase (sref L cc2_scratch0)).erase (sref L cc2_scratch1)).erase (sref L cc2_scratch2)).erase
    (sref L cc2_scratch3)

theorem ownBufs_V :
    (ownBufs (thrV d L) : sProp 𝕄)
      = iprop((∃ f, (thrV d L).loc cc2_scratch0 ↦{fullShare} f) ∗ (∃ f, (thrV d L).loc cc2_scratch1 ↦{fullShare} f)
          ∗ (∃ f, (thrV d L).loc cc2_scratch2 ↦{fullShare} f) ∗ (∃ f, (thrV d L).loc cc2_scratch3 ↦{fullShare} f)
          ∗ bigSep (restRefs L) fun b => iprop(∃ f, ((d, b) : Loc nD τ sig) ↦{fullShare} f)) := by
  unfold SparseCore.Cfg.ownBufs
  refine (SparseCore.bigSep_erase' (sref_mem L (b := cc2_scratch0) rfl)).trans ?_
  rw [SparseCore.bigSep_erase' (Finset.mem_erase.mpr ⟨sref_ne L (show (cc2_scratch1 : Ref sig .scVector) ≠ cc2_scratch0 by decide), sref_mem L (b := cc2_scratch1) rfl⟩),
    SparseCore.bigSep_erase' (Finset.mem_erase.mpr ⟨sref_ne L (show (cc2_scratch2 : Ref sig .scVector) ≠ cc2_scratch1 by decide),
      Finset.mem_erase.mpr ⟨sref_ne L (show (cc2_scratch2 : Ref sig .scVector) ≠ cc2_scratch0 by decide), sref_mem L (b := cc2_scratch2) rfl⟩⟩),
    SparseCore.bigSep_erase' (Finset.mem_erase.mpr ⟨sref_ne L (show (cc2_scratch3 : Ref sig .scVector) ≠ cc2_scratch2 by decide),
      Finset.mem_erase.mpr ⟨sref_ne L (show (cc2_scratch3 : Ref sig .scVector) ≠ cc2_scratch1 by decide),
      Finset.mem_erase.mpr ⟨sref_ne L (show (cc2_scratch3 : Ref sig .scVector) ≠ cc2_scratch0 by decide), sref_mem L (b := cc2_scratch3) rfl⟩⟩⟩)]

end Own

/-! ## What one gather delivers -/

section Value

variable (d : Dev nD) (tv : Buf (Elt F) (tblLoc d)) (iv : Buf (Elt F) (idxLoc d))

omit [FloatOps F] in
/-- Entry `y` of the 256-entry piece of the index list that starts at `off` is entry `off + y` of the list. -/
theorem idxPiece_read (off : Fin 1 → Nat) (h : ∀ a, off a + S256.size a ≤ S524288.size a) (hs) (y : S256.Idx) :
    ((idxV).slice (Rect.unit (s := S524288) off S256.size h) hs).view.read (Elt F) iv y
      = iv (ix1 ⟨off 0 + (y 0).val, by have := h 0; have := (y 0).isLt; exact Nat.lt_of_lt_of_le (Nat.add_lt_add_left this _) (h 0)⟩) := by
  rw [View.read_apply]
  refine congrArg iv (funext fun a => ?_)
  match a with
  | ⟨0, _⟩ => exact Fin.ext (by show off 0 + 1 * (y 0).val = off 0 + (y 0).val; omega)

omit [FloatOps F] in
/-- The gather's payload at an index: row `x 0` of the scratch receives the table's row named by entry `off + x 0` of
    the index list, when the index scratch was filled with the 256 entries from `off`. -/
theorem gather_apply (hin : ∀ e, (iv e).toNat < 32768)
    (c : Thread nD τ) (sI : Memref sig c.2.kind .vmem S256 .i32) (fI : Buf (Elt F) (sI.view.loc c))
    (off : Fin 1 → Nat) (h : ∀ a, off a + S256.size a ≤ S524288.size a) (hs) (h7) (h8)
    (hg : S32768x128.Gathers 0 S256x128) (hn : S256.numel = S256x128.size hg.axis')
    (hinI : ∀ x, ((sI.view.read (Elt F) (sI.view.write (Elt F) fI
      (ReadAs.same.apply (((idxV).slice (Rect.unit (s := S524288) off S256.size h) hs).view.read (Elt F) iv)) Finset.univ)) x).toNat
        < S32768x128.size hg.axis)
    (x : S256x128.Idx) :
    SparseCore.gatherPayload hg (((tblV).slice (Rect.unit (s := S32768x128) ![0, 0] S32768x128.size h7) h8).view.read (Elt F) tv)
        (SparseCore.rows (sI.view.read (Elt F) (sI.view.write (Elt F) fI
          (ReadAs.same.apply (((idxV).slice (Rect.unit (s := S524288) off S256.size h) hs).view.read (Elt F) iv)) Finset.univ)) hn hinI) x
      = tv (ix2 (rowOf (iv (ix1 ⟨off 0 + (x 0).val, by
          have := h 0; have := idx2_lt0 (n0 := 256) (n1 := 128) x
          exact Nat.lt_of_lt_of_le (Nat.add_lt_add_left this _) (h 0)⟩))) (x 1)) := by
  unfold SparseCore.gatherPayload
  rw [View.read_apply]
  refine congrArg tv (funext fun a => ?_)
  have hy0 : ((S256.rowMajor.symm ((x hg.axis').cast hn.symm)) 0).val = (x 0).val := by
    have e := Shape.rowMajor_val_one (d := ![256]) (S256.rowMajor.symm ((x hg.axis').cast hn.symm))
    rw [Equiv.apply_symm_apply] at e
    exact e.symm
  match a with
  | ⟨0, _⟩ =>
    apply Fin.ext
    show 0 + 1 * (hg.idx _ x hg.axis).val = _
    rw [Shape.Gathers.idx_axis]
    show 0 + 1 * ((sI.view.read (Elt F) (sI.view.write (Elt F) fI (ReadAs.same.apply
      (((idxV).slice (Rect.unit (s := S524288) off S256.size h) hs).view.read (Elt F) iv)) Finset.univ))
        (S256.rowMajor.symm ((x hg.axis').cast hn.symm))).toNat = (iv (ix1 ⟨off 0 + (x 0).val, _⟩)).toNat % 32768
    rw [View.read_write_univ, ReadAs.apply_same, idxPiece_read, Nat.mod_eq_of_lt (hin _), Nat.zero_add, Nat.one_mul]
    exact congrArg (fun n : Fin 524288 => (iv (ix1 n)).toNat) (Fin.ext (by show off 0 + _ = off 0 + _; rw [hy0]))
  | ⟨1, _⟩ =>
    apply Fin.ext
    show 0 + 1 * (hg.idx _ x ⟨1, by decide⟩).val = (x 1).val
    rw [Shape.Gathers.idx_of_ne hg _ x ⟨1, by decide⟩ (by decide), Nat.zero_add, Nat.one_mul]
    rfl

end Value

/-! ## What a trip leaves in one 256-row piece of the result -/

section Piece

variable (d : Dev nD) (tv : Buf (Elt F) (tblLoc d)) (iv : Buf (Elt F) (idxLoc d))

omit [FloatOps F] in
/-- A row scratch written whole with `p`, copied whole onto a 256-row piece of the result: the piece's element under `x`
    holds `p x`. -/
theorem out_piece_apply (c : Thread nD τ) (sR : Memref sig c.2.kind .vmem S256x128 .f32) (fR : Buf (Elt F) (sR.view.loc c))
    (p : S256x128.Idx → Elt F .f32) (off : Fin 2 → Nat) (h : ∀ a, off a + S256x128.size a ≤ S65536x128.size a) (hs)
    (g : Buf (Elt F) (outLoc qC d)) (x : S256x128.Idx) :
    (((outV).slice (Rect.unit (s := S65536x128) off S256x128.size h) hs).view.writes (Elt F) g
        [⟨Rect.whole S256x128, ReadAs.same.apply (sR.view.read (Elt F) (sR.view.writes (Elt F) fR [⟨Rect.whole S256x128, p⟩]))⟩])
      (((outV).slice (Rect.unit (s := S65536x128) off S256x128.size h) hs).view.emb x) = p x := by
  have e1 := congrFun (View.read_writes_whole ((outV).slice (Rect.unit (s := S65536x128) off S256x128.size h) hs).view g
    (ReadAs.same.apply (sR.view.read (Elt F) (sR.view.writes (Elt F) fR [⟨Rect.whole S256x128, p⟩])))) x
  rw [View.read_apply] at e1
  refine (show _ = _ from e1).trans ?_
  rw [ReadAs.apply_same]
  exact congrFun (View.read_writes_whole sR.view fR p) x

omit [FloatOps F] in
/-- The gathered result at the element of a piece under `x`, when the index piece starts `65536 qC` entries beyond the
    row the piece starts at (call `qC`'s share of the index list). -/
theorem gathered_emb (off1 : Fin 1 → Nat) (off : Fin 2 → Nat) (h : ∀ a, off a + S256x128.size a ≤ S65536x128.size a) (hs)
    (e0 : off1 0 = (qC : Fin 8).val * 65536 + off 0) (e1 : off 1 = 0) (x : S256x128.Idx) (hlt : off1 0 + (x 0).val < 524288) :
    gathered tv iv qC (((outV).slice (Rect.unit (s := S65536x128) off S256x128.size h) hs).view.emb x)
      = tv (ix2 (rowOf (iv (ix1 ⟨off1 0 + (x 0).val, hlt⟩))) (x 1)) := by
  obtain ⟨j, hj⟩ : ∃ j : S65536x128.Idx, j = ((outV).slice (Rect.unit (s := S65536x128) off S256x128.size h) hs).view.emb x := ⟨_, rfl⟩
  have j0 : (j 0).val = off 0 + 1 * (x 0).val := by rw [hj]; rfl
  have j1 : (j 1).val = off 1 + 1 * (x 1).val := by rw [hj]; rfl
  rw [← hj]
  unfold gathered
  have a : ∀ hb, (⟨(qC : Fin 8).val * 65536 + (j 0).val, hb⟩ : Fin 524288) = ⟨off1 0 + (x 0).val, hlt⟩ := fun _ =>
    Fin.ext (by show (qC : Fin 8).val * 65536 + (j 0).val = off1 0 + (x 0).val; rw [j0, e0]; omega)
  have b : j 1 = x 1 := Fin.ext (by rw [j1, e1]; omega)
  rw [a, b]

omit [FloatOps F] in
/-- After a trip's gather and copy-out, every element of the 256-row piece holds the gathered result. -/
theorem piece_gathered (hin : ∀ e, (iv e).toNat < 32768)
    (c : Thread nD τ) (sI : Memref sig c.2.kind .vmem S256 .i32) (fI : Buf (Elt F) (sI.view.loc c))
    (sR : Memref sig c.2.kind .vmem S256x128 .f32) (fR : Buf (Elt F) (sR.view.loc c))
    (off1 : Fin 1 → Nat) (h1 : ∀ a, off1 a + S256.size a ≤ S524288.size a) (hs1) (h7) (h8)
    (hg : S32768x128.Gathers 0 S256x128) (hn : S256.numel = S256x128.size hg.axis')
    (hinI : ∀ x, ((sI.view.read (Elt F) (sI.view.write (Elt F) fI
      (ReadAs.same.apply (((idxV).slice (Rect.unit (s := S524288) off1 S256.size h1) hs1).view.read (Elt F) iv)) Finset.univ)) x).toNat
        < S32768x128.size hg.axis)
    (off : Fin 2 → Nat) (h : ∀ a, off a + S256x128.size a ≤ S65536x128.size a) (hs) (e0 : off1 0 = (qC : Fin 8).val * 65536 + off 0) (e1 : off 1 = 0)
    (g : Buf (Elt F) (outLoc qC d)) (j : S65536x128.Idx)
    (hj : j ∈ ((outV).slice (Rect.unit (s := S65536x128) off S256x128.size h) hs).view.set) :
    (((outV).slice (Rect.unit (s := S65536x128) off S256x128.size h) hs).view.writes (Elt F) g
        [⟨Rect.whole S256x128, ReadAs.same.apply (sR.view.read (Elt F) (sR.view.writes (Elt F) fR [⟨Rect.whole S256x128,
          SparseCore.gatherPayload hg (((tblV).slice (Rect.unit (s := S32768x128) ![0, 0] S32768x128.size h7) h8).view.read (Elt F) tv)
            (SparseCore.rows (sI.view.read (Elt F) (sI.view.write (Elt F) fI
              (ReadAs.same.apply (((idxV).slice (Rect.unit (s := S524288) off1 S256.size h1) hs1).view.read (Elt F) iv)) Finset.univ)) hn hinI)⟩]))⟩]) j
      = gathered tv iv qC j := by
  obtain ⟨x, -, rfl⟩ := Finset.mem_map.mp hj
  rw [out_piece_apply, gather_apply d tv iv hin, gathered_emb d tv iv off1 off h hs e0 e1]

end Piece

/-! ## The tile's rows and the pieces a trip writes -/

section Geometry

omit [FloatOps F] in
/-- Worker `w`'s rows of the result array are rows `[2048 w, 2048 w + 2048)`. -/
theorem mem_rowsSet (w : Fin 32) (j : S65536x128.Idx) :
    j ∈ rowsSet w ↔ 2048 * w.val ≤ (j 0).val ∧ (j 0).val < 2048 * w.val + 2048 := by
  unfold rowsSet rowsRect
  rw [View.set_slice_whole, Rect.mem_set_unit]
  have h1 := idx2_lt1 (n0 := 65536) (n1 := 128) j
  constructor
  · intro H
    have H0 : w.val * 2048 ≤ (j 0).val ∧ (j 0).val < w.val * 2048 + 2048 := H 0
    omega
  · intro H a
    match a with
    | ⟨0, _⟩ => show w.val * 2048 ≤ (j 0).val ∧ (j 0).val < w.val * 2048 + 2048; omega
    | ⟨1, _⟩ => show 0 * 128 ≤ (j 1).val ∧ (j 1).val < 0 * 128 + 128; omega

omit [FloatOps F] in
/-- A 256-row piece of the result array at row offset `off 0` (all 128 columns). -/
theorem mem_piece (off : Fin 2 → Nat) (h : ∀ a, off a + S256x128.size a ≤ S65536x128.size a) (hs) (j : S65536x128.Idx) :
    j ∈ ((outV).slice (Rect.unit (s := S65536x128) off S256x128.size h) hs).view.set
      ↔ (off 0 ≤ (j 0).val ∧ (j 0).val < off 0 + 256) ∧ (off 1 ≤ (j 1).val ∧ (j 1).val < off 1 + 128) := by
  show j ∈ ((View.whole main_v36_scv).slice (Rect.unit (s := S65536x128) off S256x128.size h)).set ↔ _
  rw [View.set_slice_whole, Rect.mem_set_unit]
  constructor
  · intro H; exact ⟨H 0, H 1⟩
  · rintro ⟨h0, h1⟩ a
    match a with
    | ⟨0, _⟩ => exact h0
    | ⟨1, _⟩ => exact h1

end Geometry

/-! ## Joining a trip's pieces back into the tile's rows -/

section Join

variable (d : Dev nD) (tv : Buf (Elt F) (tblLoc d)) (iv : Buf (Elt F) (idxLoc d))

/-- The rows of worker `w` below trip `k` (512 rows a trip) hold the gathered rows. -/
def doneBelow (w : Fin 32) (k : Nat) (g : Buf (Elt F) (outLoc qC d)) : Prop :=
  ∀ j ∈ rowsSet w, (j 0).val < 2048 * w.val + 512 * k → g j = gathered tv iv qC j

omit [FloatOps F] in
theorem doneBelow_zero (w : Fin 32) (g : Buf (Elt F) (outLoc qC d)) : doneBelow d tv iv w 0 g := by
  intro j hj hlt
  have := (mem_rowsSet w j).mp hj
  omega

omit [FloatOps F] in
theorem doneBelow_four (w : Fin 32) (g : Buf (Elt F) (outLoc qC d)) (h : doneBelow d tv iv w 4 g) :
    ∀ j ∈ rowsSet w, g j = gathered tv iv qC j := by
  intro j hj
  have := (mem_rowsSet w j).mp hj
  exact h j hj (by omega)

omit [FloatOps F] in
/-- A trip's first piece lies in the worker's rows; -/
theorem piece_subset (w : Fin 32) (k e : Nat) (he : e = 2048 * w.val + 512 * k) (hk : k < 4)
    (off : Fin 2 → Nat) (h : ∀ a, off a + S256x128.size a ≤ S65536x128.size a) (hs)
    (e0 : off 0 = e ∨ off 0 = e + 256) (e1 : off 1 = 0) :
    ((outV).slice (Rect.unit (s := S65536x128) off S256x128.size h) hs).view.set ⊆ rowsSet w := by
  intro j hj
  have := (mem_piece off h hs j).mp hj
  exact (mem_rowsSet w j).mpr (by omega)

omit [FloatOps F] in
/-- its second piece lies in them off the first. -/
theorem piece_subset_sdiff (w : Fin 32) (k e : Nat) (he : e = 2048 * w.val + 512 * k) (hk : k < 4)
    (off3 off4 : Fin 2 → Nat) (h3 : ∀ a, off3 a + S256x128.size a ≤ S65536x128.size a) (hs3)
    (h4 : ∀ a, off4 a + S256x128.size a ≤ S65536x128.size a) (hs4)
    (e30 : off3 0 = e) (e40 : off4 0 = e + 256) (e41 : off4 1 = 0) :
    ((outV).slice (Rect.unit (s := S65536x128) off4 S256x128.size h4) hs4).view.set
      ⊆ rowsSet w \ ((outV).slice (Rect.unit (s := S65536x128) off3 S256x128.size h3) hs3).view.set := by
  intro j hj
  have h4' := (mem_piece off4 h4 hs4 j).mp hj
  refine Finset.mem_sdiff.mpr ⟨(mem_rowsSet w j).mpr (by omega), fun hj3 => ?_⟩
  have h3' := (mem_piece off3 h3 hs3 j).mp hj3
  omega

omit [FloatOps F] in
/-- Two carved-out pieces put back at new contents. -/
theorem rejoin_two {ℓ : Loc nD τ sig} (R P3 P4 : Finset (Idx ℓ)) (hsub3 : P3 ⊆ R) (hsub4 : P4 ⊆ R \ P3) (g g3 g4 : Buf (Elt F) ℓ) :
    (iprop((ℓ ↦[P3]{fullShare} g3) ∗ (ℓ ↦[P4]{fullShare} g4) ∗ (ℓ ↦[(R \ P3) \ P4]{fullShare} g)) : sProp 𝕄)
      ⊢ ℓ ↦[R]{fullShare} (P3.piecewise g3 (P4.piecewise g4 g)) := by
  iintro ⟨H3, H4, Hr⟩
  iapply (pointsTo_join_subset (ℓ := ℓ) (q := fullShare) (I := P3) (S := R) (g := g3) (f := P4.piecewise g4 g) hsub3)
  isplitl [H3]; · iexact H3
  iapply (pointsTo_join_subset (ℓ := ℓ) (q := fullShare) (I := P4) (S := R \ P3) (g := g4) (f := g) hsub4)
  isplitl [H4]; · iexact H4
  iexact Hr

omit [FloatOps F] in
/-- Two pieces each holding the gathered rows, the rest as before, when the two pieces are all of the worker's rows
    from trip `k` up to trip `k + 1`: the rows below trip `k + 1` hold the gathered rows. -/
theorem doneBelow_step (w : Fin 32) (k : Nat) (P3 P4 : Finset (Idx (outLoc qC d)))
    (g g3 g4 : Buf (Elt F) (outLoc qC d)) (hg : doneBelow d tv iv w k g)
    (hg3 : ∀ j ∈ P3, g3 j = gathered tv iv qC j) (hg4 : ∀ j ∈ P4, g4 j = gathered tv iv qC j)
    (hcov : ∀ j : S65536x128.Idx, j ∈ rowsSet w → (j 0).val < 2048 * w.val + 512 * (k + 1) → j ∉ P3 → j ∉ P4 →
      (j 0).val < 2048 * w.val + 512 * k) :
    doneBelow d tv iv w (k + 1) (P3.piecewise g3 (P4.piecewise g4 g)) := by
  intro j hj hlt
  by_cases hj3 : j ∈ P3
  · exact (Finset.piecewise_eq_of_mem P3 g3 _ hj3).trans (hg3 j hj3)
  · refine (Finset.piecewise_eq_of_notMem P3 g3 _ hj3).trans ?_
    by_cases hj4 : j ∈ P4
    · exact (Finset.piecewise_eq_of_mem P4 g4 _ hj4).trans (hg4 j hj4)
    · exact (Finset.piecewise_eq_of_notMem P4 g4 _ hj4).trans (hg j hj (hcov j hj hlt hj3 hj4))

omit [FloatOps F] in
/-- The cover fact for a trip's two pieces. -/
theorem trip_cover (w : Fin 32) (k e : Nat) (he : e = 2048 * w.val + 512 * k)
    (off3 off4 : Fin 2 → Nat) (h3 : ∀ a, off3 a + S256x128.size a ≤ S65536x128.size a) (hs3)
    (h4 : ∀ a, off4 a + S256x128.size a ≤ S65536x128.size a) (hs4)
    (e30 : off3 0 = e) (e31 : off3 1 = 0) (e40 : off4 0 = e + 256) (e41 : off4 1 = 0) :
    ∀ j : S65536x128.Idx, j ∈ rowsSet w → (j 0).val < 2048 * w.val + 512 * (k + 1) →
      j ∉ ((outV).slice (Rect.unit (s := S65536x128) off3 S256x128.size h3) hs3).view.set →
      j ∉ ((outV).slice (Rect.unit (s := S65536x128) off4 S256x128.size h4) hs4).view.set →
      (j 0).val < 2048 * w.val + 512 * k := by
  intro j hj hlt hj3 hj4
  have hr := (mem_rowsSet w j).mp hj
  have n3 := mt (mem_piece off3 h3 hs3 j).mpr hj3
  have n4 := mt (mem_piece off4 h4 hs4 j).mpr hj4
  have := idx2_lt1 (n0 := 65536) (n1 := 128) j
  omega

end Join

end Cert.Proof.KI.C1

end
-- ==== Proof.Tile1.lean ====
/-
  One vector subcore's task in gather call 1, at a symbolic tile. Worker `w = 2 s + c` (subcore `s` of SparseCore `c`)
  fills rows `[2048 w, 2048 w + 2048)` of the result in four trips of 512 rows. A trip copies two 256-entry pieces of the
  index list into the two index scratches, starts one indirect gather of table rows per scratch, and copies each gathered
  256 x 128 block out to its rows of the result; every transfer has its own semaphore and is waited for before the next
  one on that semaphore starts. The loop's invariant carries the value: the worker's rows below the current trip already
  hold row `r ↦ table[index[r]]`; each trip extends this by its 512 rows, and after four trips it is all 2048 rows.
-/
import proofs.«214101_g10505490006249_cont_week2b_118_28_alg».proof.Proof.TileAux1

noncomputable section

namespace Cert.Proof.KI.C1

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 8) (Elt F) ℕ UU ℕ

variable [FloatOps F]

/-! ## The body -/

section Body

variable (d : Dev nD) (L : grid2.Coords)

/-- The worker number of the tile at grid point `L`. -/
abbrev wL (L : grid2.Coords) : Fin 32 := wid (cV L) (jV L)

/-! ### Call 1: the trips' offsets

The only facts about this call's printed offset functions that the body uses, read off their generated closed forms:
trip `k` of the tile at `L` works on rows `rowE L k` and `rowE L k + 256` of the result, and on the index entries
`65536 qC` beyond them. -/

/-- The first row of the result that trip `k` of the tile at `L` writes. -/
def rowE (L : grid2.Coords) (k : Fin k2_t1_loop.trips) : Nat := 4096 * (L 1).val + 2048 * (L 0).val + 512 * k.val

theorem rowE_eq (k : Fin k2_t1_loop.trips) : rowE L k = 2048 * (wL L).val + 512 * k.val := by
  have hwv : (wL L).val = (L 1).val * 2 + (L 0).val := rfl
  unfold rowE; rw [hwv]; omega
theorem trips_eq : Scf.trips k2_t1_loop.lb k2_t1_loop.ub k2_t1_loop.st = 4 := by decide
theorem trip_lt (k : Fin k2_t1_loop.trips) : k.val < 4 := Nat.lt_of_lt_of_le k.isLt k2_t1_abs.2.1
theorem offI0 (k : Fin k2_t1_loop.trips) : k2_off1 L k 0 = (qC : Fin 8).val * 65536 + rowE L k := by
  have h : k2_off1 L k 0 = 4096 * (L 1).val + 2048 * (L 0).val + 512 * k.val + 65536 := congrFun (k2_off1_eq L k) 0
  rw [qC_val, h]; unfold rowE; omega
theorem offI1 (k : Fin k2_t1_loop.trips) : k2_off2 L k 0 = (qC : Fin 8).val * 65536 + (rowE L k + 256) := by
  have h : k2_off2 L k 0 = 4096 * (L 1).val + 2048 * (L 0).val + 512 * k.val + 65792 := congrFun (k2_off2_eq L k) 0
  rw [qC_val, h]; unfold rowE; omega
theorem offO0 (k : Fin k2_t1_loop.trips) : k2_off3 L k 0 = rowE L k := congrFun (k2_off3_eq L k) 0
theorem offO0' (k : Fin k2_t1_loop.trips) : k2_off3 L k 1 = 0 := congrFun (k2_off3_eq L k) 1
theorem offO1 (k : Fin k2_t1_loop.trips) : k2_off4 L k 0 = rowE L k + 256 := congrFun (k2_off4_eq L k) 0
theorem offO1' (k : Fin k2_t1_loop.trips) : k2_off4 L k 1 = 0 := congrFun (k2_off4_eq L k) 1

omit [FloatOps F] in
theorem pts_tbl (q : PosShare TreeShare) (f : Buf (Elt F) (tblLoc d)) :
    ((tblV).view.loc (thrV d L) ↦{q} f : sProp 𝕄) = tblLoc d ↦{q} f := by
  simp only [Memref.view_whole, View.set_whole]
omit [FloatOps F] in
theorem pts_idx (q : PosShare TreeShare) (f : Buf (Elt F) (idxLoc d)) :
    ((idxV).view.loc (thrV d L) ↦{q} f : sProp 𝕄) = idxLoc d ↦{q} f := by
  simp only [Memref.view_whole, View.set_whole]

omit [FloatOps F] in
theorem pts_s0 (f : Buf (Elt F) ((thrV d L).loc cc2_scratch0)) :
    ((thrV d L).loc cc2_scratch0 ↦{fullShare} f : sProp 𝕄) = ((sI0).view.loc (thrV d L) ↦{fullShare} f) := rfl
omit [FloatOps F] in
theorem pts_s1 (f : Buf (Elt F) ((thrV d L).loc cc2_scratch1)) :
    ((thrV d L).loc cc2_scratch1 ↦{fullShare} f : sProp 𝕄) = ((sI1).view.loc (thrV d L) ↦{fullShare} f) := rfl
omit [FloatOps F] in
theorem pts_s2 (f : Buf (Elt F) ((thrV d L).loc cc2_scratch2)) :
    ((thrV d L).loc cc2_scratch2 ↦{fullShare} f : sProp 𝕄) = ((sR0).view.loc (thrV d L) ↦{fullShare} f) := rfl
omit [FloatOps F] in
theorem pts_s3 (f : Buf (Elt F) ((thrV d L).loc cc2_scratch3)) :
    ((thrV d L).loc cc2_scratch3 ↦{fullShare} f : sProp 𝕄) = ((sR1).view.loc (thrV d L) ↦{fullShare} f) := rfl

/-- The two 256-row pieces of the result array that trip `k` writes, as the program slices them. -/
abbrev o3 (k : Fin k2_t1_loop.trips) : Memref sig .scVector .hbm S256x128 .f32 :=
  outV.slice (Rect.unit (s := S65536x128) (k2_off3 L k) S256x128.size (k2_off3_inb L k)) (fun _ => rfl)
abbrev o4 (k : Fin k2_t1_loop.trips) : Memref sig .scVector .hbm S256x128 .f32 :=
  outV.slice (Rect.unit (s := S65536x128) (k2_off4 L k) S256x128.size (k2_off4_inb L k)) (fun _ => rfl)

/-- The loop's invariant: the table and the index list at their read shares, the tile's rows of the result with the
    rows below the trip gathered, the four scratches at some contents, the six semaphores at zero, and what the tile owes. -/
def inv (qs : PosShare TreeShare) (tv : Buf (Elt F) (tblLoc d)) (iv : Buf (Elt F) (idxLoc d))
    (O : CellTallies nD τ sig (HIx 8)) (W : Waits sig (HIx 8)) (k : Nat) (_ : PUnit) : sProp 𝕄 :=
  iprop(Transfers.MayWaits (thrV d L) (none : HIx 8) O
    ∗ ((tblV).view.loc (thrV d L) ↦{qs} tv)
    ∗ ((idxV).view.loc (thrV d L) ↦{qs} iv)
    ∗ (∃ g, ⌜doneBelow d tv iv (wL L) k g⌝ ∗ outLoc qC d ↦[rowsSet (wL L)]{fullShare} g)
    ∗ (∃ f, (sI0).view.loc (thrV d L) ↦{fullShare} f)
    ∗ (∃ f, (sI1).view.loc (thrV d L) ↦{fullShare} f)
    ∗ (∃ f, (sR0).view.loc (thrV d L) ↦{fullShare} f)
    ∗ (∃ f, (sR1).view.loc (thrV d L) ↦{fullShare} f)
    ∗ semVal (cell d L cc2_scratch4) 0 ∗ semVal (cell d L cc2_scratch5) 0 ∗ semVal (cell d L cc2_scratch6) 0
    ∗ semVal (cell d L cc2_scratch7) 0 ∗ semVal (cell d L cc2_scoped0) 0 ∗ semVal (cell d L cc2_scoped1) 0
    ∗ ∃ W', ⌜∀ p ∈ W', p ∈ W ∨ p.2 = none⌝ ∗ owes (thrV d L) O W')

omit [FloatOps F] in
/-- Whatever an index scratch held before, after a 256-entry piece of the index list is copied into it every word it
    holds names a row of the table. -/
theorem idx_inb (iv : Buf (Elt F) (idxLoc d)) (hin : ∀ e, (iv e).toNat < 32768)
    (c : Thread nD τ) (m : Memref sig c.2.kind .vmem S256 .i32) (f : Buf (Elt F) (m.view.loc c))
    (off : Fin 1 → Nat) (h : ∀ a, off a + S256.size a ≤ S524288.size a) (hs) (x : S256.Idx) :
    (m.view.read (Elt F) (m.view.write (Elt F) f
      (ReadAs.same.apply (((idxV).slice (Rect.unit (s := S524288) off S256.size h) hs).view.read (Elt F) iv)) Finset.univ) x).toNat < 32768 := by
  rw [View.read_write_univ, ReadAs.apply_same, View.read_apply]
  exact hin _
set_option maxHeartbeats 2000000 in
theorem tile_body (qs : PosShare TreeShare) (tv : Buf (Elt F) (tblLoc d)) (iv : Buf (Elt F) (idxLoc d))
    (hin : ∀ e, (iv e).toNat < 32768) (O : CellTallies nD τ sig (HIx 8)) (W : Waits sig (HIx 8)) (hO : ∀ g, O g none = 0) :
    (iprop(levAts (K (F := F)).L (K (F := F)).lev ∗ emp
        ∗ ((tblLoc d ↦{qs} tv) ∗ (idxLoc d ↦{qs} iv) ∗ ∃ f, outLoc qC d ↦[rowsSet (wL L)]{fullShare} f)
        ∗ scopedBufs (thrV d L) ∗ scopedSems0 (thrV d L) ∗ owes (thrV d L) O W) : sProp 𝕄)
      ⊢ wp frame (wpE (defs₀ (F := F)) 𝒱₀ (thrV d L) none) Set.univ
          (cc2_gather_kernel L tblV (Memref.isWhole_whole _) idxV (Memref.isWhole_whole _) outV (Memref.isWhole_whole _)
            sI0 (Memref.isWhole_whole _) sI1 (Memref.isWhole_whole _) sR0 (Memref.isWhole_whole _) sR1 (Memref.isWhole_whole _)
            cc2_scratch4 cc2_scratch5 cc2_scratch6 cc2_scratch7 cc2_scoped0 cc2_scoped1)
          fun _ => iprop(((tblLoc d ↦{qs} tv) ∗ (idxLoc d ↦{qs} iv) ∗ outLoc qC d ↦[rowsSet (wL L)]{fullShare} gathered tv iv qC)
            ∗ scopedBufs (thrV d L) ∗ scopedSems0 (thrV d L) ∗ ∃ W', ⌜∀ p ∈ W', p ∈ W ∨ p.2 = none⌝ ∗ owes (thrV d L) O W') := by
  simp only [cc2_gather_kernel_eq_skeleton]; unfold cc2_gather_kernel_skel
  rw [(K (F := F)).scopedBufs_V facts d (cV L) (jV L), SparseCore.Cfg.scopedSems0_V (Val := Elt F) d (cV L) (jV L), ownSems0_V, ownBufs_V]
  iintro ⟨#Hlv, -, ⟨Ht, Hi, %fo, Ho⟩, ⟨⟨%f0, Hb0⟩, ⟨%f1, Hb1⟩, ⟨%f2, Hb2⟩, ⟨%f3, Hb3⟩, Hbufs⟩, ⟨Hs4, Hs5, Hs6, Hs7, Hs8, Hs9, Hsems⟩, HO⟩
  ihave Hmw := ((K (F := F)).mayWaits_none (thr := thrV d L) hO) $$ Hlv
  ihave Ht' := (Entails.of_eq (pts_tbl (F := F) d L _ _).symm) $$ Ht
  ihave Hi' := (Entails.of_eq (pts_idx (F := F) d L _ _).symm) $$ Hi
  ihave Hb0' := (Entails.of_eq (pts_s0 (F := F) d L f0)) $$ Hb0
  ihave Hb1' := (Entails.of_eq (pts_s1 (F := F) d L f1)) $$ Hb1
  ihave Hb2' := (Entails.of_eq (pts_s2 (F := F) d L f2)) $$ Hb2
  ihave Hb3' := (Entails.of_eq (pts_s3 (F := F) d L f3)) $$ Hb3
  sl_exec
  sl_for (inv d L qs tv iv O W) $$ [Hmw Ht' Hi' Ho Hb0' Hb1' Hb2' Hb3' Hs4 Hs5 Hs6 Hs7 Hs8 Hs9 HO]
  case region =>
    intro k _
    unfold inv
    iintro ⟨Hmw, Ht, Hi, ⟨%g, %hg, Ho⟩, ⟨%f0, Hb0⟩, ⟨%f1, Hb1⟩, ⟨%f2, Hb2⟩, ⟨%f3, Hb3⟩, Hs4, Hs5, Hs6, Hs7, Hs8, Hs9, %W', %hW', HO⟩
    -- the trip's offsets: the row pieces start at rows `rowE` and `rowE + 256`, the index pieces `65536 qC` entries beyond
    have o30 := offO0 L k
    have o31 := offO0' L k
    have o40 := offO1 L k
    have o41 := offO1' L k
    have hE := rowE_eq L k
    have hk := trip_lt k
    have e13 : k2_off1 L k 0 = (qC : Fin 8).val * 65536 + k2_off3 L k 0 := by rw [offI0, o30]
    have e24 : k2_off2 L k 0 = (qC : Fin 8).val * 65536 + k2_off4 L k 0 := by rw [offI1, o40]
    have hsub3 : (o3 L k).view.set ⊆ rowsSet (wL L) :=
      piece_subset (wL L) k.val _ hE hk (k2_off3 L k) (k2_off3_inb L k) (fun _ => rfl) (.inl o30) o31
    have hsub4 : (o4 L k).view.set ⊆ rowsSet (wL L) \ (o3 L k).view.set :=
      piece_subset_sdiff (wL L) k.val _ hE hk (k2_off3 L k) (k2_off4 L k) (k2_off3_inb L k) (fun _ => rfl) (k2_off4_inb L k) (fun _ => rfl) o30 o40 o41
    ihave Ho' := (pointsTo_split_subset (ℓ := outLoc qC d) (q := fullShare) (f := g) (I := (o3 L k).view.set) (S := rowsSet (wL L)) hsub3).1 $$ Ho
    icases Ho' with ⟨Ho3, Hor⟩
    ihave Hor' := (pointsTo_split_subset (ℓ := outLoc qC d) (q := fullShare) (f := g) (I := (o4 L k).view.set) (S := rowsSet (wL L) \ (o3 L k).view.set) hsub4).1 $$ Hor
    icases Hor' with ⟨Ho4, Hor⟩
    ihave Ho3' := (Entails.of_eq (show (outLoc qC d ↦[(o3 L k).view.set]{fullShare} g : sProp 𝕄) = ((o3 L k).view.loc (thrV d L) ↦[(o3 L k).view.set]{fullShare} g) from rfl)) $$ Ho3
    ihave Ho4' := (Entails.of_eq (show (outLoc qC d ↦[(o4 L k).view.set]{fullShare} g : sProp 𝕄) = ((o4 L k).view.loc (thrV d L) ↦[(o4 L k).view.set]{fullShare} g) from rfl)) $$ Ho4
    -- the words each index scratch holds once its piece of the list has landed name rows of the table
    have hin0 : ∀ x : S256.Idx, ((sI0).view.read (Elt F) ((sI0).view.write (Elt F) f0 (ReadAs.same.apply (((idxV).slice
        (Rect.unit (s := S524288) (k2_off1 L k) S256.size (k2_off1_inb L k)) (fun _ => rfl)).view.read (Elt F) iv)) Finset.univ) x).toNat < 32768 :=
      idx_inb (F := F) d iv hin (thrV d L) sI0 f0 _ _ _
    have hin1 : ∀ x : S256.Idx, ((sI1).view.read (Elt F) ((sI1).view.write (Elt F) f1 (ReadAs.same.apply (((idxV).slice
        (Rect.unit (s := S524288) (k2_off2 L k) S256.size (k2_off2_inb L k)) (fun _ => rfl)).view.read (Elt F) iv)) Finset.univ) x).toNat < 32768 :=
      idx_inb (F := F) d iv hin (thrV d L) sI1 f1 _ _ _
    -- both gathers read the table while the other is outstanding: a read share each
    ihave Ht2 := (pointsTo_share (ℓ := (tblV).view.loc (thrV d L)) (I := Finset.univ) (f := tv) (PosShare.mem_left_op_right qs)).1 $$ Ht
    icases Ht2 with ⟨Hta, Htb⟩
    -- what the two copy-outs leave in their pieces is the gathered rows
    have hgth : S32768x128.Gathers 0 S256x128 := by decide
    have hg3 := fun j hj => piece_gathered (F := F) d tv iv hin (thrV d L) sI0 f0 sR0 f2 (k2_off1 L k) (k2_off1_inb L k) (fun _ => rfl)
      inb_S32768x128_S32768x128_0_0 (fun _ => rfl) hgth rfl hin0 (k2_off3 L k) (k2_off3_inb L k) (fun _ => rfl) e13 o31 g j hj
    have hg4 := fun j hj => piece_gathered (F := F) d tv iv hin (thrV d L) sI1 f1 sR1 f3 (k2_off2 L k) (k2_off2_inb L k) (fun _ => rfl)
      inb_S32768x128_S32768x128_0_0 (fun _ => rfl) hgth rfl hin1 (k2_off4 L k) (k2_off4_inb L k) (fun _ => rfl) e24 o41 g j hj
    sl_exec
    sl_step
    isplitl [Hmw]; · iexact Hmw
    isplitl [Hta Htb]
    · iapply (pointsTo_share (ℓ := (tblV).view.loc (thrV d L)) (I := Finset.univ) (f := tv) (PosShare.mem_left_op_right qs)).2
      isplitl [Hta]; · iexact Hta
      iexact Htb
    isplitl [Hi]; · iexact Hi
    isplitl [Ho3' Ho4' Hor]
    · ihave Hj := (rejoin_two (F := F) (ℓ := outLoc qC d) (rowsSet (wL L)) (o3 L k).view.set (o4 L k).view.set hsub3 hsub4 g _ _) $$ [Ho3' Ho4' Hor]
      · isplitl [Ho3']; · iexact Ho3'
        isplitl [Ho4']; · iexact Ho4'
        iexact Hor
      iexists _
      isplitr
      · ipureintro
        exact doneBelow_step (F := F) d tv iv (wL L) k.val (o3 L k).view.set (o4 L k).view.set g _ _ hg hg3 hg4
          (trip_cover (wL L) k.val _ hE (k2_off3 L k) (k2_off4 L k) (k2_off3_inb L k) (fun _ => rfl) (k2_off4_inb L k) (fun _ => rfl) o30 o31 o40 o41)
      · iexact Hj
    isplitl [Hb0]; · iexists _; iexact Hb0
    isplitl [Hb1]; · iexists _; iexact Hb1
    isplitl [Hb2]; · iexists _; iexact Hb2
    isplitl [Hb3]; · iexists _; iexact Hb3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    iexists _; isplitr
    swap
    · iexact HO
    · ipureintro; intro p hp
      simp only [Finset.mem_insert] at hp
      rcases hp with rfl | rfl | rfl | rfl | rfl | rfl | hp
      · exact .inr rfl
      · exact .inr rfl
      · exact .inr rfl
      · exact .inr rfl
      · exact .inr rfl
      · exact .inr rfl
      · exact hW' p hp
  · unfold inv
    isplitl [Hmw]; · iexact Hmw
    isplitl [Ht']; · iexact Ht'
    isplitl [Hi']; · iexact Hi'
    isplitl [Ho]
    · iexists fo; isplitr
      · ipureintro; exact doneBelow_zero d tv iv (wL L) fo
      · iexact Ho
    isplitl [Hb0']; · iexists f0; iexact Hb0'
    isplitl [Hb1']; · iexists f1; iexact Hb1'
    isplitl [Hb2']; · iexists f2; iexact Hb2'
    isplitl [Hb3']; · iexists f3; iexact Hb3'
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    iexists W; isplitr
    · ipureintro; exact fun p hp => .inl hp
    · iexact HO
  iintro %_ HI
  unfold inv
  icases HI with ⟨-, Ht, Hi, ⟨%g, %hg, Ho⟩, ⟨%f0', Hb0⟩, ⟨%f1', Hb1⟩, ⟨%f2', Hb2⟩, ⟨%f3', Hb3⟩, Hs4, Hs5, Hs6, Hs7, Hs8, Hs9, %W', %hW', HO⟩
  rw [trips_eq] at hg
  sl_exec
  sl_step
  isplitl [Ht Hi Ho]
  · isplitl [Ht]; · iapply (Entails.of_eq (pts_tbl (F := F) d L _ _)); iexact Ht
    isplitl [Hi]; · iapply (Entails.of_eq (pts_idx (F := F) d L _ _)); iexact Hi
    iapply (Entails.of_eq (pointsTo_congr (ℓ := outLoc qC d) (q := fullShare) (I := rowsSet (wL L)) (doneBelow_four d tv iv (wL L) g hg)))
    iexact Ho
  isplitl [Hb0 Hb1 Hb2 Hb3 Hbufs]
  · isplitl [Hb0]; · iexists f0'; iapply (Entails.of_eq (pts_s0 (F := F) d L f0').symm); iexact Hb0
    isplitl [Hb1]; · iexists f1'; iapply (Entails.of_eq (pts_s1 (F := F) d L f1').symm); iexact Hb1
    isplitl [Hb2]; · iexists f2'; iapply (Entails.of_eq (pts_s2 (F := F) d L f2').symm); iexact Hb2
    isplitl [Hb3]; · iexists f3'; iapply (Entails.of_eq (pts_s3 (F := F) d L f3').symm); iexact Hb3
    iexact Hbufs
  isplitl [Hs4 Hs5 Hs6 Hs7 Hs8 Hs9 Hsems]
  · isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    iexact Hsems
  iexists W'; isplitr
  · ipureintro; exact hW'
  · iexact HO

end Body

end Cert.Proof.KI.C1

end
-- ==== Proof.TileObl1.lean ====
/-
  The launch theorem's obligation for gather call 1: a tile's task, entered through the body table, is the kernel's
  body at that tile, run on the tile's share of the table and the index list and on its worker's rows.
-/
import proofs.«214101_g10505490006249_cont_week2b_118_28_alg».proof.Proof.Launch
import proofs.«214101_g10505490006249_cont_week2b_118_28_alg».proof.Proof.Tile1
import proofs.«214101_g10505490006249_cont_week2b_118_28_alg».proof.Proof.TileObl0

noncomputable section

namespace Cert.Proof.KI.C1

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Transfers (shareTok shareDrop pointsTo_toks_split pointsTo_toks_join)

variable {F : FTy → Type}

local notation "𝕄" => MT nD τ sig (HIx 8) (Elt F) ℕ UU ℕ

variable [FloatOps F]
variable (tv : (d : Dev nD) → S32768x128.Idx → Elt F .f32) (iv : (d : Dev nD) → S524288.Idx → Elt F .i32)

/-- A tile's grid coordinates from its SparseCore and subcore numbers. -/
def coordsV (c : Fin (grid2.bound 0)) (s : Fin (grid2.bound 1)) : grid2.Coords :=
  fun | 0 => c | 1 => s | ⟨_ + 2, h⟩ => absurd h (Nat.not_lt.2 (Nat.le_add_left _ _))

theorem defs₀_vector1 (c : Fin τ.nSC) (s : Fin τ.nSub) :
    defs₀ (F := F) (.scVector c s) 2 ()
      = SparseCore.onTile hcore2 hsub2 (fun c s => cc2_gather_kernel (coordsV c s)
          tblV (Memref.isWhole_whole _) idxV (Memref.isWhole_whole _) outV (Memref.isWhole_whole _)
          sI0 (Memref.isWhole_whole _) sI1 (Memref.isWhole_whole _) sR0 (Memref.isWhole_whole _) sR1 (Memref.isWhole_whole _)
          cc2_scratch4 cc2_scratch5 cc2_scratch6 cc2_scratch7 cc2_scoped0 cc2_scoped1) ⟨⟩ c s := rfl

/-- Call 1's tile obligation. -/
theorem tileObl1 (hin : ∀ d e, (iv d e).toNat < 32768) : (K (F := F)).TileObl (D (F := F)) 𝒱 (P (F := F) tv iv) v₀ 1 := by
  intro d c i O W hO _ _
  -- the gather kernel owes nothing for a protocol of its own
  simp only [show (P (F := F) tv iv).ox = fun _ _ => 0 from rfl, add_zero]
  change _ ⊢ wp _ _ _ (Pipeline.liftProg (defs₀ (F := F) (.scVector ((K (F := F)).core 1 c) ((K (F := F)).sub 1 i)) 2 ())) _
  refine BI.Entails.trans ?_ (Pipeline.wp_liftProg (D (F := F)) (Pipeline.defs_kernel pcfgs defs₀) 𝒱₀ _ Set.univ none _ _)
  have hc : ((K (F := F)).core 1 c).val < grid2.bound 0 ∧ ((K (F := F)).sub 1 i).val < grid2.bound 1 := ⟨c.isLt, i.isLt⟩
  rw [defs₀_vector1]; simp only [SparseCore.onTile, hc, and_self, ↓reduceDIte]
  exact (tile_body d (coordsV ⟨_, hc.1⟩ ⟨_, hc.2⟩) (shT (cC 1 c) (sS 1 i)) (tv d) (iv d) (hin d) O W hO).trans (wp_mono frame _ _ fun _ => obl_post)

end Cert.Proof.KI.C1

end
-- ==== Proof.TileAux2.lean ====
/-
  One vector subcore's share of a gather call, the pure part: how the subcore's scoped semaphores and scratch buffers are
  opened, what an indirect gather of 256 table rows delivers element by element, which elements of the result array a
  trip's two copy-outs write, and how those pieces rejoin the subcore's 2048 rows of the result.
-/
import proofs.«214101_g10505490006249_cont_week2b_118_28_alg».proof.Proof.Setup

noncomputable section

namespace Cert.Proof.KI.C2

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 8) (Elt F) ℕ UU ℕ

/-! ## The names of gather call 2

Everything that is particular to this one of the eight gather calls is named here (and, for the trips' offsets, at the
top of the body's module): the call's number, its result array, its scratch buffers. The text below speaks of the call
only through these names and through the program's own `cc4_…` / `k4_…` names. -/

/-- The number of this gather call among the eight: it reads index entries `65536 qC + …` and fills result array `qC`. -/
abbrev qC : Fin 8 := 2
theorem qC_val : (qC : Fin 8).val = 2 := rfl

abbrev tblV : Memref sig .scVector .hbm S32768x128 .f32 := Memref.whole main_v10_scv
abbrev idxV : Memref sig .scVector .hbm S524288 .i32 := Memref.whole main_v6_scv
abbrev outV : Memref sig .scVector .hbm S65536x128 .f32 := Memref.whole main_v38_scv
abbrev sI0 : Memref sig .scVector .vmem S256 .i32 := Memref.whole cc4_scratch0
abbrev sI1 : Memref sig .scVector .vmem S256 .i32 := Memref.whole cc4_scratch1
abbrev sR0 : Memref sig .scVector .vmem S256x128 .f32 := Memref.whole cc4_scratch2
abbrev sR1 : Memref sig .scVector .vmem S256x128 .f32 := Memref.whole cc4_scratch3

abbrev cV (L : grid4.Coords) : Fin τ.nSC := (L 0).castLE hcore4
abbrev jV (L : grid4.Coords) : Fin τ.nSub := (L 1).castLE hsub4
abbrev thrV (d : Dev nD) (L : grid4.Coords) : Thread nD τ := V d (cV L) (jV L)

variable [FloatOps F]

/-! ## The tile's own semaphores and scratch buffers -/

section Own

variable (d : Dev nD) (L : grid4.Coords)

/-- The cell of one of the tile's DMA semaphores. -/
abbrev cell (sm : DmaSems sig S_) : GSem nD τ sig := (thrV d L, .dma sm.sem)

omit [FloatOps F] in
theorem cell_mem {sm : DmaSems sig S_} (h : (SemLoc.dma sm.sem : SemLoc sig).isScoped .scVector = true) :
    cell d L sm ∈ ownCells (sig := sig) (thrV d L) := (mem_ownCells (g := cell d L sm)).mpr ⟨rfl, h⟩

theorem cell_ne {a b : DmaSems sig S_} (h : (SemLoc.dma a.sem : SemLoc sig) ≠ .dma b.sem) : cell d L a ≠ cell d L b :=
  fun e => h (Prod.mk.inj e).2

/-- The tile's scoped cells other than the six the gather uses. -/
abbrev restCells : Finset (GSem nD τ sig) :=
  ((((((ownCells (thrV d L)).erase (cell d L cc4_scratch4)).erase (cell d L cc4_scratch5)).erase (cell d L cc4_scratch6)).erase
    (cell d L cc4_scratch7)).erase (cell d L cc4_scoped0)).erase (cell d L cc4_scoped1)

theorem ownSems0_V :
    (ownSems0 (thrV d L) : sProp 𝕄)
      = iprop(semVal (cell d L cc4_scratch4) 0 ∗ semVal (cell d L cc4_scratch5) 0 ∗ semVal (cell d L cc4_scratch6) 0
          ∗ semVal (cell d L cc4_scratch7) 0 ∗ semVal (cell d L cc4_scoped0) 0 ∗ semVal (cell d L cc4_scoped1) 0
          ∗ bigSep (restCells d L) fun g => semVal g 0) := by
  unfold SparseCore.Cfg.ownSems0
  have m4 := cell_mem d L (sm := cc4_scratch4) (by decide)
  have m5 := cell_mem d L (sm := cc4_scratch5) (by decide)
  have m6 := cell_mem d L (sm := cc4_scratch6) (by decide)
  have m7 := cell_mem d L (sm := cc4_scratch7) (by decide)
  have m8 := cell_mem d L (sm := cc4_scoped0) (by decide)
  have m9 := cell_mem d L (sm := cc4_scoped1) (by decide)
  rw [SparseCore.bigSep_erase' m4,
    SparseCore.bigSep_erase' (Finset.mem_erase.mpr ⟨cell_ne d L (by decide), m5⟩),
    SparseCore.bigSep_erase' (Finset.mem_erase.mpr ⟨cell_ne d L (by decide), Finset.mem_erase.mpr ⟨cell_ne d L (by decide), m6⟩⟩),
    SparseCore.bigSep_erase' (Finset.mem_erase.mpr ⟨cell_ne d L (by decide), Finset.mem_erase.mpr ⟨cell_ne d L (by decide),
      Finset.mem_erase.mpr ⟨cell_ne d L (by decide), m7⟩⟩⟩),
    SparseCore.bigSep_erase' (Finset.mem_erase.mpr ⟨cell_ne d L (by decide), Finset.mem_erase.mpr ⟨cell_ne d L (by decide),
      Finset.mem_erase.mpr ⟨cell_ne d L (by decide), Finset.mem_erase.mpr ⟨cell_ne d L (by decide), m8⟩⟩⟩⟩),
    SparseCore.bigSep_erase' (Finset.mem_erase.mpr ⟨cell_ne d L (by decide), Finset.mem_erase.mpr ⟨cell_ne d L (by decide),
      Finset.mem_erase.mpr ⟨cell_ne d L (by decide), Finset.mem_erase.mpr ⟨cell_ne d L (by decide),
      Finset.mem_erase.mpr ⟨cell_ne d L (by decide), m9⟩⟩⟩⟩⟩)]

/-- One of the tile's scratch buffers, as a buffer of the device. -/
abbrev sref (b : Ref sig .scVector) : DevRef τ sig := (Proc.scVector (cV L) (jV L)).devRef b

theorem sref_mem {b : Ref sig .scVector} (h : (sref L b).owner = .proc (.scVector (cV L) (jV L))) :
    sref L b ∈ ownRefs (sig := sig) (τ := τ) (.scVector (cV L) (jV L)) :=
  SparseCore.Cfg.mem_ownRefs_of_owner (p := Proc.scVector (cV L) (jV L)) (b := sref L b) h

theorem sref_ne {a b : Ref sig .scVector} (h : a ≠ b) : sref L a ≠ sref L b := fun e => h (Proc.devRef_injective _ e)

/-- The tile's own buffers other than the gather's four scratches. -/
abbrev restRefs : Finset (DevRef τ sig) :=
  ((((ownRefs (τ := τ) (.scVector (cV L) (jV L))).erase (sref L cc4_scratch0)).erase (sref L cc4_scratch1)).erase (sref L cc4_scratch2)).erase
    (sref L cc4_scratch3)

theorem ownBufs_V :
    (ownBufs (thrV d L) : sProp 𝕄)
      = iprop((∃ f, (thrV d L).loc cc4_scratch0 ↦{fullShare} f) ∗ (∃ f, (thrV d L).loc cc4_scratch1 ↦{fullShare} f)
          ∗ (∃ f, (thrV d L).loc cc4_scratch2 ↦{fullShare} f) ∗ (∃ f, (thrV d L).loc cc4_scratch3 ↦{fullShare} f)
          ∗ bigSep (restRefs L) fun b => iprop(∃ f, ((d, b) : Loc nD τ sig) ↦{fullShare} f)) := by
  unfold SparseCore.Cfg.ownBufs
  refine (SparseCore.bigSep_erase' (sref_mem L (b := cc4_scratch0) rfl)).trans ?_
  rw [SparseCore.bigSep_erase' (Finset.mem_erase.mpr ⟨sref_ne L (show (cc4_scratch1 : Ref sig .scVector) ≠ cc4_scratch0 by decide), sref_mem L (b := cc4_scratch1) rfl⟩),
    SparseCore.bigSep_erase' (Finset.mem_erase.mpr ⟨sref_ne L (show (cc4_scratch2 : Ref sig .scVector) ≠ cc4_scratch1 by decide),
      Finset.mem_erase.mpr ⟨sref_ne L (show (cc4_scratch2 : Ref sig .scVector) ≠ cc4_scratch0 by decide), sref_mem L (b := cc4_scratch2) rfl⟩⟩),
    SparseCore.bigSep_erase' (Finset.mem_erase.mpr ⟨sref_ne L (show (cc4_scratch3 : Ref sig .scVector) ≠ cc4_scratch2 by decide),
      Finset.mem_erase.mpr ⟨sref_ne L (show (cc4_scratch3 : Ref sig .scVector) ≠ cc4_scratch1 by decide),
      Finset.mem_erase.mpr ⟨sref_ne L (show (cc4_scratch3 : Ref sig .scVector) ≠ cc4_scratch0 by decide), sref_mem L (b := cc4_scratch3) rfl⟩⟩⟩)]

end Own

/-! ## What one gather delivers -/

section Value

variable (d : Dev nD) (tv : Buf (Elt F) (tblLoc d)) (iv : Buf (Elt F) (idxLoc d))

omit [FloatOps F] in
/-- Entry `y` of the 256-entry piece of the index list that starts at `off` is entry `off + y` of the list. -/
theorem idxPiece_read (off : Fin 1 → Nat) (h : ∀ a, off a + S256.size a ≤ S524288.size a) (hs) (y : S256.Idx) :
    ((idxV).slice (Rect.unit (s := S524288) off S256.size h) hs).view.read (Elt F) iv y
      = iv (ix1 ⟨off 0 + (y 0).val, by have := h 0; have := (y 0).isLt; exact Nat.lt_of_lt_of_le (Nat.add_lt_add_left this _) (h 0)⟩) := by
  rw [View.read_apply]
  refine congrArg iv (funext fun a => ?_)
  match a with
  | ⟨0, _⟩ => exact Fin.ext (by show off 0 + 1 * (y 0).val = off 0 + (y 0).val; omega)

omit [FloatOps F] in
/-- The gather's payload at an index: row `x 0` of the scratch receives the table's row named by entry `off + x 0` of
    the index list, when the index scratch was filled with the 256 entries from `off`. -/
theorem gather_apply (hin : ∀ e, (iv e).toNat < 32768)
    (c : Thread nD τ) (sI : Memref sig c.2.kind .vmem S256 .i32) (fI : Buf (Elt F) (sI.view.loc c))
    (off : Fin 1 → Nat) (h : ∀ a, off a + S256.size a ≤ S524288.size a) (hs) (h7) (h8)
    (hg : S32768x128.Gathers 0 S256x128) (hn : S256.numel = S256x128.size hg.axis')
    (hinI : ∀ x, ((sI.view.read (Elt F) (sI.view.write (Elt F) fI
      (ReadAs.same.apply (((idxV).slice (Rect.unit (s := S524288) off S256.size h) hs).view.read (Elt F) iv)) Finset.univ)) x).toNat
        < S32768x128.size hg.axis)
    (x : S256x128.Idx) :
    SparseCore.gatherPayload hg (((tblV).slice (Rect.unit (s := S32768x128) ![0, 0] S32768x128.size h7) h8).view.read (Elt F) tv)
        (SparseCore.rows (sI.view.read (Elt F) (sI.view.write (Elt F) fI
          (ReadAs.same.apply (((idxV).slice (Rect.unit (s := S524288) off S256.size h) hs).view.read (Elt F) iv)) Finset.univ)) hn hinI) x
      = tv (ix2 (rowOf (iv (ix1 ⟨off 0 + (x 0).val, by
          have := h 0; have := idx2_lt0 (n0 := 256) (n1 := 128) x
          exact Nat.lt_of_lt_of_le (Nat.add_lt_add_left this _) (h 0)⟩))) (x 1)) := by
  unfold SparseCore.gatherPayload
  rw [View.read_apply]
  refine congrArg tv (funext fun a => ?_)
  have hy0 : ((S256.rowMajor.symm ((x hg.axis').cast hn.symm)) 0).val = (x 0).val := by
    have e := Shape.rowMajor_val_one (d := ![256]) (S256.rowMajor.symm ((x hg.axis').cast hn.symm))
    rw [Equiv.apply_symm_apply] at e
    exact e.symm
  match a with
  | ⟨0, _⟩ =>
    apply Fin.ext
    show 0 + 1 * (hg.idx _ x hg.axis).val = _
    rw [Shape.Gathers.idx_axis]
    show 0 + 1 * ((sI.view.read (Elt F) (sI.view.write (Elt F) fI (ReadAs.same.apply
      (((idxV).slice (Rect.unit (s := S524288) off S256.size h) hs).view.read (Elt F) iv)) Finset.univ))
        (S256.rowMajor.symm ((x hg.axis').cast hn.symm))).toNat = (iv (ix1 ⟨off 0 + (x 0).val, _⟩)).toNat % 32768
    rw [View.read_write_univ, ReadAs.apply_same, idxPiece_read, Nat.mod_eq_of_lt (hin _), Nat.zero_add, Nat.one_mul]
    exact congrArg (fun n : Fin 524288 => (iv (ix1 n)).toNat) (Fin.ext (by show off 0 + _ = off 0 + _; rw [hy0]))
  | ⟨1, _⟩ =>
    apply Fin.ext
    show 0 + 1 * (hg.idx _ x ⟨1, by decide⟩).val = (x 1).val
    rw [Shape.Gathers.idx_of_ne hg _ x ⟨1, by decide⟩ (by decide), Nat.zero_add, Nat.one_mul]
    rfl

end Value

/-! ## What a trip leaves in one 256-row piece of the result -/

section Piece

variable (d : Dev nD) (tv : Buf (Elt F) (tblLoc d)) (iv : Buf (Elt F) (idxLoc d))

omit [FloatOps F] in
/-- A row scratch written whole with `p`, copied whole onto a 256-row piece of the result: the piece's element under `x`
    holds `p x`. -/
theorem out_piece_apply (c : Thread nD τ) (sR : Memref sig c.2.kind .vmem S256x128 .f32) (fR : Buf (Elt F) (sR.view.loc c))
    (p : S256x128.Idx → Elt F .f32) (off : Fin 2 → Nat) (h : ∀ a, off a + S256x128.size a ≤ S65536x128.size a) (hs)
    (g : Buf (Elt F) (outLoc qC d)) (x : S256x128.Idx) :
    (((outV).slice (Rect.unit (s := S65536x128) off S256x128.size h) hs).view.writes (Elt F) g
        [⟨Rect.whole S256x128, ReadAs.same.apply (sR.view.read (Elt F) (sR.view.writes (Elt F) fR [⟨Rect.whole S256x128, p⟩]))⟩])
      (((outV).slice (Rect.unit (s := S65536x128) off S256x128.size h) hs).view.emb x) = p x := by
  have e1 := congrFun (View.read_writes_whole ((outV).slice (Rect.unit (s := S65536x128) off S256x128.size h) hs).view g
    (ReadAs.same.apply (sR.view.read (Elt F) (sR.view.writes (Elt F) fR [⟨Rect.whole S256x128, p⟩])))) x
  rw [View.read_apply] at e1
  refine (show _ = _ from e1).trans ?_
  rw [ReadAs.apply_same]
  exact congrFun (View.read_writes_whole sR.view fR p) x

omit [FloatOps F] in
/-- The gathered result at the element of a piece under `x`, when the index piece starts `65536 qC` entries beyond the
    row the piece starts at (call `qC`'s share of the index list). -/
theorem gathered_emb (off1 : Fin 1 → Nat) (off : Fin 2 → Nat) (h : ∀ a, off a + S256x128.size a ≤ S65536x128.size a) (hs)
    (e0 : off1 0 = (qC : Fin 8).val * 65536 + off 0) (e1 : off 1 = 0) (x : S256x128.Idx) (hlt : off1 0 + (x 0).val < 524288) :
    gathered tv iv qC (((outV).slice (Rect.unit (s := S65536x128) off S256x128.size h) hs).view.emb x)
      = tv (ix2 (rowOf (iv (ix1 ⟨off1 0 + (x 0).val, hlt⟩))) (x 1)) := by
  obtain ⟨j, hj⟩ : ∃ j : S65536x128.Idx, j = ((outV).slice (Rect.unit (s := S65536x128) off S256x128.size h) hs).view.emb x := ⟨_, rfl⟩
  have j0 : (j 0).val = off 0 + 1 * (x 0).val := by rw [hj]; rfl
  have j1 : (j 1).val = off 1 + 1 * (x 1).val := by rw [hj]; rfl
  rw [← hj]
  unfold gathered
  have a : ∀ hb, (⟨(qC : Fin 8).val * 65536 + (j 0).val, hb⟩ : Fin 524288) = ⟨off1 0 + (x 0).val, hlt⟩ := fun _ =>
    Fin.ext (by show (qC : Fin 8).val * 65536 + (j 0).val = off1 0 + (x 0).val; rw [j0, e0]; omega)
  have b : j 1 = x 1 := Fin.ext (by rw [j1, e1]; omega)
  rw [a, b]

omit [FloatOps F] in
/-- After a trip's gather and copy-out, every element of the 256-row piece holds the gathered result. -/
theorem piece_gathered (hin : ∀ e, (iv e).toNat < 32768)
    (c : Thread nD τ) (sI : Memref sig c.2.kind .vmem S256 .i32) (fI : Buf (Elt F) (sI.view.loc c))
    (sR : Memref sig c.2.kind .vmem S256x128 .f32) (fR : Buf (Elt F) (sR.view.loc c))
    (off1 : Fin 1 → Nat) (h1 : ∀ a, off1 a + S256.size a ≤ S524288.size a) (hs1) (h7) (h8)
    (hg : S32768x128.Gathers 0 S256x128) (hn : S256.numel = S256x128.size hg.axis')
    (hinI : ∀ x, ((sI.view.read (Elt F) (sI.view.write (Elt F) fI
      (ReadAs.same.apply (((idxV).slice (Rect.unit (s := S524288) off1 S256.size h1) hs1).view.read (Elt F) iv)) Finset.univ)) x).toNat
        < S32768x128.size hg.axis)
    (off : Fin 2 → Nat) (h : ∀ a, off a + S256x128.size a ≤ S65536x128.size a) (hs) (e0 : off1 0 = (qC : Fin 8).val * 65536 + off 0) (e1 : off 1 = 0)
    (g : Buf (Elt F) (outLoc qC d)) (j : S65536x128.Idx)
    (hj : j ∈ ((outV).slice (Rect.unit (s := S65536x128) off S256x128.size h) hs).view.set) :
    (((outV).slice (Rect.unit (s := S65536x128) off S256x128.size h) hs).view.writes (Elt F) g
        [⟨Rect.whole S256x128, ReadAs.same.apply (sR.view.read (Elt F) (sR.view.writes (Elt F) fR [⟨Rect.whole S256x128,
          SparseCore.gatherPayload hg (((tblV).slice (Rect.unit (s := S32768x128) ![0, 0] S32768x128.size h7) h8).view.read (Elt F) tv)
            (SparseCore.rows (sI.view.read (Elt F) (sI.view.write (Elt F) fI
              (ReadAs.same.apply (((idxV).slice (Rect.unit (s := S524288) off1 S256.size h1) hs1).view.read (Elt F) iv)) Finset.univ)) hn hinI)⟩]))⟩]) j
      = gathered tv iv qC j := by
  obtain ⟨x, -, rfl⟩ := Finset.mem_map.mp hj
  rw [out_piece_apply, gather_apply d tv iv hin, gathered_emb d tv iv off1 off h hs e0 e1]

end Piece

/-! ## The tile's rows and the pieces a trip writes -/

section Geometry

omit [FloatOps F] in
/-- Worker `w`'s rows of the result array are rows `[2048 w, 2048 w + 2048)`. -/
theorem mem_rowsSet (w : Fin 32) (j : S65536x128.Idx) :
    j ∈ rowsSet w ↔ 2048 * w.val ≤ (j 0).val ∧ (j 0).val < 2048 * w.val + 2048 := by
  unfold rowsSet rowsRect
  rw [View.set_slice_whole, Rect.mem_set_unit]
  have h1 := idx2_lt1 (n0 := 65536) (n1 := 128) j
  constructor
  · intro H
    have H0 : w.val * 2048 ≤ (j 0).val ∧ (j 0).val < w.val * 2048 + 2048 := H 0
    omega
  · intro H a
    match a with
    | ⟨0, _⟩ => show w.val * 2048 ≤ (j 0).val ∧ (j 0).val < w.val * 2048 + 2048; omega
    | ⟨1, _⟩ => show 0 * 128 ≤ (j 1).val ∧ (j 1).val < 0 * 128 + 128; omega

omit [FloatOps F] in
/-- A 256-row piece of the result array at row offset `off 0` (all 128 columns). -/
theorem mem_piece (off : Fin 2 → Nat) (h : ∀ a, off a + S256x128.size a ≤ S65536x128.size a) (hs) (j : S65536x128.Idx) :
    j ∈ ((outV).slice (Rect.unit (s := S65536x128) off S256x128.size h) hs).view.set
      ↔ (off 0 ≤ (j 0).val ∧ (j 0).val < off 0 + 256) ∧ (off 1 ≤ (j 1).val ∧ (j 1).val < off 1 + 128) := by
  show j ∈ ((View.whole main_v38_scv).slice (Rect.unit (s := S65536x128) off S256x128.size h)).set ↔ _
  rw [View.set_slice_whole, Rect.mem_set_unit]
  constructor
  · intro H; exact ⟨H 0, H 1⟩
  · rintro ⟨h0, h1⟩ a
    match a with
    | ⟨0, _⟩ => exact h0
    | ⟨1, _⟩ => exact h1

end Geometry

/-! ## Joining a trip's pieces back into the tile's rows -/

section Join

variable (d : Dev nD) (tv : Buf (Elt F) (tblLoc d)) (iv : Buf (Elt F) (idxLoc d))

/-- The rows of worker `w` below trip `k` (512 rows a trip) hold the gathered rows. -/
def doneBelow (w : Fin 32) (k : Nat) (g : Buf (Elt F) (outLoc qC d)) : Prop :=
  ∀ j ∈ rowsSet w, (j 0).val < 2048 * w.val + 512 * k → g j = gathered tv iv qC j

omit [FloatOps F] in
theorem doneBelow_zero (w : Fin 32) (g : Buf (Elt F) (outLoc qC d)) : doneBelow d tv iv w 0 g := by
  intro j hj hlt
  have := (mem_rowsSet w j).mp hj
  omega

omit [FloatOps F] in
theorem doneBelow_four (w : Fin 32) (g : Buf (Elt F) (outLoc qC d)) (h : doneBelow d tv iv w 4 g) :
    ∀ j ∈ rowsSet w, g j = gathered tv iv qC j := by
  intro j hj
  have := (mem_rowsSet w j).mp hj
  exact h j hj (by omega)

omit [FloatOps F] in
/-- A trip's first piece lies in the worker's rows; -/
theorem piece_subset (w : Fin 32) (k e : Nat) (he : e = 2048 * w.val + 512 * k) (hk : k < 4)
    (off : Fin 2 → Nat) (h : ∀ a, off a + S256x128.size a ≤ S65536x128.size a) (hs)
    (e0 : off 0 = e ∨ off 0 = e + 256) (e1 : off 1 = 0) :
    ((outV).slice (Rect.unit (s := S65536x128) off S256x128.size h) hs).view.set ⊆ rowsSet w := by
  intro j hj
  have := (mem_piece off h hs j).mp hj
  exact (mem_rowsSet w j).mpr (by omega)

omit [FloatOps F] in
/-- its second piece lies in them off the first. -/
theorem piece_subset_sdiff (w : Fin 32) (k e : Nat) (he : e = 2048 * w.val + 512 * k) (hk : k < 4)
    (off3 off4 : Fin 2 → Nat) (h3 : ∀ a, off3 a + S256x128.size a ≤ S65536x128.size a) (hs3)
    (h4 : ∀ a, off4 a + S256x128.size a ≤ S65536x128.size a) (hs4)
    (e30 : off3 0 = e) (e40 : off4 0 = e + 256) (e41 : off4 1 = 0) :
    ((outV).slice (Rect.unit (s := S65536x128) off4 S256x128.size h4) hs4).view.set
      ⊆ rowsSet w \ ((outV).slice (Rect.unit (s := S65536x128) off3 S256x128.size h3) hs3).view.set := by
  intro j hj
  have h4' := (mem_piece off4 h4 hs4 j).mp hj
  refine Finset.mem_sdiff.mpr ⟨(mem_rowsSet w j).mpr (by omega), fun hj3 => ?_⟩
  have h3' := (mem_piece off3 h3 hs3 j).mp hj3
  omega

omit [FloatOps F] in
/-- Two carved-out pieces put back at new contents. -/
theorem rejoin_two {ℓ : Loc nD τ sig} (R P3 P4 : Finset (Idx ℓ)) (hsub3 : P3 ⊆ R) (hsub4 : P4 ⊆ R \ P3) (g g3 g4 : Buf (Elt F) ℓ) :
    (iprop((ℓ ↦[P3]{fullShare} g3) ∗ (ℓ ↦[P4]{fullShare} g4) ∗ (ℓ ↦[(R \ P3) \ P4]{fullShare} g)) : sProp 𝕄)
      ⊢ ℓ ↦[R]{fullShare} (P3.piecewise g3 (P4.piecewise g4 g)) := by
  iintro ⟨H3, H4, Hr⟩
  iapply (pointsTo_join_subset (ℓ := ℓ) (q := fullShare) (I := P3) (S := R) (g := g3) (f := P4.piecewise g4 g) hsub3)
  isplitl [H3]; · iexact H3
  iapply (pointsTo_join_subset (ℓ := ℓ) (q := fullShare) (I := P4) (S := R \ P3) (g := g4) (f := g) hsub4)
  isplitl [H4]; · iexact H4
  iexact Hr

omit [FloatOps F] in
/-- Two pieces each holding the gathered rows, the rest as before, when the two pieces are all of the worker's rows
    from trip `k` up to trip `k + 1`: the rows below trip `k + 1` hold the gathered rows. -/
theorem doneBelow_step (w : Fin 32) (k : Nat) (P3 P4 : Finset (Idx (outLoc qC d)))
    (g g3 g4 : Buf (Elt F) (outLoc qC d)) (hg : doneBelow d tv iv w k g)
    (hg3 : ∀ j ∈ P3, g3 j = gathered tv iv qC j) (hg4 : ∀ j ∈ P4, g4 j = gathered tv iv qC j)
    (hcov : ∀ j : S65536x128.Idx, j ∈ rowsSet w → (j 0).val < 2048 * w.val + 512 * (k + 1) → j ∉ P3 → j ∉ P4 →
      (j 0).val < 2048 * w.val + 512 * k) :
    doneBelow d tv iv w (k + 1) (P3.piecewise g3 (P4.piecewise g4 g)) := by
  intro j hj hlt
  by_cases hj3 : j ∈ P3
  · exact (Finset.piecewise_eq_of_mem P3 g3 _ hj3).trans (hg3 j hj3)
  · refine (Finset.piecewise_eq_of_notMem P3 g3 _ hj3).trans ?_
    by_cases hj4 : j ∈ P4
    · exact (Finset.piecewise_eq_of_mem P4 g4 _ hj4).trans (hg4 j hj4)
    · exact (Finset.piecewise_eq_of_notMem P4 g4 _ hj4).trans (hg j hj (hcov j hj hlt hj3 hj4))

omit [FloatOps F] in
/-- The cover fact for a trip's two pieces. -/
theorem trip_cover (w : Fin 32) (k e : Nat) (he : e = 2048 * w.val + 512 * k)
    (off3 off4 : Fin 2 → Nat) (h3 : ∀ a, off3 a + S256x128.size a ≤ S65536x128.size a) (hs3)
    (h4 : ∀ a, off4 a + S256x128.size a ≤ S65536x128.size a) (hs4)
    (e30 : off3 0 = e) (e31 : off3 1 = 0) (e40 : off4 0 = e + 256) (e41 : off4 1 = 0) :
    ∀ j : S65536x128.Idx, j ∈ rowsSet w → (j 0).val < 2048 * w.val + 512 * (k + 1) →
      j ∉ ((outV).slice (Rect.unit (s := S65536x128) off3 S256x128.size h3) hs3).view.set →
      j ∉ ((outV).slice (Rect.unit (s := S65536x128) off4 S256x128.size h4) hs4).view.set →
      (j 0).val < 2048 * w.val + 512 * k := by
  intro j hj hlt hj3 hj4
  have hr := (mem_rowsSet w j).mp hj
  have n3 := mt (mem_piece off3 h3 hs3 j).mpr hj3
  have n4 := mt (mem_piece off4 h4 hs4 j).mpr hj4
  have := idx2_lt1 (n0 := 65536) (n1 := 128) j
  omega

end Join

end Cert.Proof.KI.C2

end
-- ==== Proof.Tile2.lean ====
/-
  One vector subcore's task in gather call 2, at a symbolic tile. Worker `w = 2 s + c` (subcore `s` of SparseCore `c`)
  fills rows `[2048 w, 2048 w + 2048)` of the result in four trips of 512 rows. A trip copies two 256-entry pieces of the
  index list into the two index scratches, starts one indirect gather of table rows per scratch, and copies each gathered
  256 x 128 block out to its rows of the result; every transfer has its own semaphore and is waited for before the next
  one on that semaphore starts. The loop's invariant carries the value: the worker's rows below the current trip already
  hold row `r ↦ table[index[r]]`; each trip extends this by its 512 rows, and after four trips it is all 2048 rows.
-/
import proofs.«214101_g10505490006249_cont_week2b_118_28_alg».proof.Proof.TileAux2

noncomputable section

namespace Cert.Proof.KI.C2

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 8) (Elt F) ℕ UU ℕ

variable [FloatOps F]

/-! ## The body -/

section Body

variable (d : Dev nD) (L : grid4.Coords)

/-- The worker number of the tile at grid point `L`. -/
abbrev wL (L : grid4.Coords) : Fin 32 := wid (cV L) (jV L)

/-! ### Call 2: the trips' offsets

The only facts about this call's printed offset functions that the body uses, read off their generated closed forms:
trip `k` of the tile at `L` works on rows `rowE L k` and `rowE L k + 256` of the result, and on the index entries
`65536 qC` beyond them. -/

/-- The first row of the result that trip `k` of the tile at `L` writes. -/
def rowE (L : grid4.Coords) (k : Fin k4_t1_loop.trips) : Nat := 4096 * (L 1).val + 2048 * (L 0).val + 512 * k.val

theorem rowE_eq (k : Fin k4_t1_loop.trips) : rowE L k = 2048 * (wL L).val + 512 * k.val := by
  have hwv : (wL L).val = (L 1).val * 2 + (L 0).val := rfl
  unfold rowE; rw [hwv]; omega
theorem trips_eq : Scf.trips k4_t1_loop.lb k4_t1_loop.ub k4_t1_loop.st = 4 := by decide
theorem trip_lt (k : Fin k4_t1_loop.trips) : k.val < 4 := Nat.lt_of_lt_of_le k.isLt k4_t1_abs.2.1
theorem offI0 (k : Fin k4_t1_loop.trips) : k4_off1 L k 0 = (qC : Fin 8).val * 65536 + rowE L k := by
  have h : k4_off1 L k 0 = 4096 * (L 1).val + 2048 * (L 0).val + 512 * k.val + 131072 := congrFun (k4_off1_eq L k) 0
  rw [qC_val, h]; unfold rowE; omega
theorem offI1 (k : Fin k4_t1_loop.trips) : k4_off2 L k 0 = (qC : Fin 8).val * 65536 + (rowE L k + 256) := by
  have h : k4_off2 L k 0 = 4096 * (L 1).val + 2048 * (L 0).val + 512 * k.val + 131328 := congrFun (k4_off2_eq L k) 0
  rw [qC_val, h]; unfold rowE; omega
theorem offO0 (k : Fin k4_t1_loop.trips) : k4_off3 L k 0 = rowE L k := congrFun (k4_off3_eq L k) 0
theorem offO0' (k : Fin k4_t1_loop.trips) : k4_off3 L k 1 = 0 := congrFun (k4_off3_eq L k) 1
theorem offO1 (k : Fin k4_t1_loop.trips) : k4_off4 L k 0 = rowE L k + 256 := congrFun (k4_off4_eq L k) 0
theorem offO1' (k : Fin k4_t1_loop.trips) : k4_off4 L k 1 = 0 := congrFun (k4_off4_eq L k) 1

omit [FloatOps F] in
theorem pts_tbl (q : PosShare TreeShare) (f : Buf (Elt F) (tblLoc d)) :
    ((tblV).view.loc (thrV d L) ↦{q} f : sProp 𝕄) = tblLoc d ↦{q} f := by
  simp only [Memref.view_whole, View.set_whole]
omit [FloatOps F] in
theorem pts_idx (q : PosShare TreeShare) (f : Buf (Elt F) (idxLoc d)) :
    ((idxV).view.loc (thrV d L) ↦{q} f : sProp 𝕄) = idxLoc d ↦{q} f := by
  simp only [Memref.view_whole, View.set_whole]

omit [FloatOps F] in
theorem pts_s0 (f : Buf (Elt F) ((thrV d L).loc cc4_scratch0)) :
    ((thrV d L).loc cc4_scratch0 ↦{fullShare} f : sProp 𝕄) = ((sI0).view.loc (thrV d L) ↦{fullShare} f) := rfl
omit [FloatOps F] in
theorem pts_s1 (f : Buf (Elt F) ((thrV d L).loc cc4_scratch1)) :
    ((thrV d L).loc cc4_scratch1 ↦{fullShare} f : sProp 𝕄) = ((sI1).view.loc (thrV d L) ↦{fullShare} f) := rfl
omit [FloatOps F] in
theorem pts_s2 (f : Buf (Elt F) ((thrV d L).loc cc4_scratch2)) :
    ((thrV d L).loc cc4_scratch2 ↦{fullShare} f : sProp 𝕄) = ((sR0).view.loc (thrV d L) ↦{fullShare} f) := rfl
omit [FloatOps F] in
theorem pts_s3 (f : Buf (Elt F) ((thrV d L).loc cc4_scratch3)) :
    ((thrV d L).loc cc4_scratch3 ↦{fullShare} f : sProp 𝕄) = ((sR1).view.loc (thrV d L) ↦{fullShare} f) := rfl

/-- The two 256-row pieces of the result array that trip `k` writes, as the program slices them. -/
abbrev o3 (k : Fin k4_t1_loop.trips) : Memref sig .scVector .hbm S256x128 .f32 :=
  outV.slice (Rect.unit (s := S65536x128) (k4_off3 L k) S256x128.size (k4_off3_inb L k)) (fun _ => rfl)
abbrev o4 (k : Fin k4_t1_loop.trips) : Memref sig .scVector .hbm S256x128 .f32 :=
  outV.slice (Rect.unit (s := S65536x128) (k4_off4 L k) S256x128.size (k4_off4_inb L k)) (fun _ => rfl)

/-- The loop's invariant: the table and the index list at their read shares, the tile's rows of the result with the
    rows below the trip gathered, the four scratches at some contents, the six semaphores at zero, and what the tile owes. -/
def inv (qs : PosShare TreeShare) (tv : Buf (Elt F) (tblLoc d)) (iv : Buf (Elt F) (idxLoc d))
    (O : CellTallies nD τ sig (HIx 8)) (W : Waits sig (HIx 8)) (k : Nat) (_ : PUnit) : sProp 𝕄 :=
  iprop(Transfers.MayWaits (thrV d L) (none : HIx 8) O
    ∗ ((tblV).view.loc (thrV d L) ↦{qs} tv)
    ∗ ((idxV).view.loc (thrV d L) ↦{qs} iv)
    ∗ (∃ g, ⌜doneBelow d tv iv (wL L) k g⌝ ∗ outLoc qC d ↦[rowsSet (wL L)]{fullShare} g)
    ∗ (∃ f, (sI0).view.loc (thrV d L) ↦{fullShare} f)
    ∗ (∃ f, (sI1).view.loc (thrV d L) ↦{fullShare} f)
    ∗ (∃ f, (sR0).view.loc (thrV d L) ↦{fullShare} f)
    ∗ (∃ f, (sR1).view.loc (thrV d L) ↦{fullShare} f)
    ∗ semVal (cell d L cc4_scratch4) 0 ∗ semVal (cell d L cc4_scratch5) 0 ∗ semVal (cell d L cc4_scratch6) 0
    ∗ semVal (cell d L cc4_scratch7) 0 ∗ semVal (cell d L cc4_scoped0) 0 ∗ semVal (cell d L cc4_scoped1) 0
    ∗ ∃ W', ⌜∀ p ∈ W', p ∈ W ∨ p.2 = none⌝ ∗ owes (thrV d L) O W')

omit [FloatOps F] in
/-- Whatever an index scratch held before, after a 256-entry piece of the index list is copied into it every word it
    holds names a row of the table. -/
theorem idx_inb (iv : Buf (Elt F) (idxLoc d)) (hin : ∀ e, (iv e).toNat < 32768)
    (c : Thread nD τ) (m : Memref sig c.2.kind .vmem S256 .i32) (f : Buf (Elt F) (m.view.loc c))
    (off : Fin 1 → Nat) (h : ∀ a, off a + S256.size a ≤ S524288.size a) (hs) (x : S256.Idx) :
    (m.view.read (Elt F) (m.view.write (Elt F) f
      (ReadAs.same.apply (((idxV).slice (Rect.unit (s := S524288) off S256.size h) hs).view.read (Elt F) iv)) Finset.univ) x).toNat < 32768 := by
  rw [View.read_write_univ, ReadAs.apply_same, View.read_apply]
  exact hin _
set_option maxHeartbeats 2000000 in
theorem tile_body (qs : PosShare TreeShare) (tv : Buf (Elt F) (tblLoc d)) (iv : Buf (Elt F) (idxLoc d))
    (hin : ∀ e, (iv e).toNat < 32768) (O : CellTallies nD τ sig (HIx 8)) (W : Waits sig (HIx 8)) (hO : ∀ g, O g none = 0) :
    (iprop(levAts (K (F := F)).L (K (F := F)).lev ∗ emp
        ∗ ((tblLoc d ↦{qs} tv) ∗ (idxLoc d ↦{qs} iv) ∗ ∃ f, outLoc qC d ↦[rowsSet (wL L)]{fullShare} f)
        ∗ scopedBufs (thrV d L) ∗ scopedSems0 (thrV d L) ∗ owes (thrV d L) O W) : sProp 𝕄)
      ⊢ wp frame (wpE (defs₀ (F := F)) 𝒱₀ (thrV d L) none) Set.univ
          (cc4_gather_kernel L tblV (Memref.isWhole_whole _) idxV (Memref.isWhole_whole _) outV (Memref.isWhole_whole _)
            sI0 (Memref.isWhole_whole _) sI1 (Memref.isWhole_whole _) sR0 (Memref.isWhole_whole _) sR1 (Memref.isWhole_whole _)
            cc4_scratch4 cc4_scratch5 cc4_scratch6 cc4_scratch7 cc4_scoped0 cc4_scoped1)
          fun _ => iprop(((tblLoc d ↦{qs} tv) ∗ (idxLoc d ↦{qs} iv) ∗ outLoc qC d ↦[rowsSet (wL L)]{fullShare} gathered tv iv qC)
            ∗ scopedBufs (thrV d L) ∗ scopedSems0 (thrV d L) ∗ ∃ W', ⌜∀ p ∈ W', p ∈ W ∨ p.2 = none⌝ ∗ owes (thrV d L) O W') := by
  simp only [cc4_gather_kernel_eq_skeleton]; unfold cc4_gather_kernel_skel
  rw [(K (F := F)).scopedBufs_V facts d (cV L) (jV L), SparseCore.Cfg.scopedSems0_V (Val := Elt F) d (cV L) (jV L), ownSems0_V, ownBufs_V]
  iintro ⟨#Hlv, -, ⟨Ht, Hi, %fo, Ho⟩, ⟨⟨%f0, Hb0⟩, ⟨%f1, Hb1⟩, ⟨%f2, Hb2⟩, ⟨%f3, Hb3⟩, Hbufs⟩, ⟨Hs4, Hs5, Hs6, Hs7, Hs8, Hs9, Hsems⟩, HO⟩
  ihave Hmw := ((K (F := F)).mayWaits_none (thr := thrV d L) hO) $$ Hlv
  ihave Ht' := (Entails.of_eq (pts_tbl (F := F) d L _ _).symm) $$ Ht
  ihave Hi' := (Entails.of_eq (pts_idx (F := F) d L _ _).symm) $$ Hi
  ihave Hb0' := (Entails.of_eq (pts_s0 (F := F) d L f0)) $$ Hb0
  ihave Hb1' := (Entails.of_eq (pts_s1 (F := F) d L f1)) $$ Hb1
  ihave Hb2' := (Entails.of_eq (pts_s2 (F := F) d L f2)) $$ Hb2
  ihave Hb3' := (Entails.of_eq (pts_s3 (F := F) d L f3)) $$ Hb3
  sl_exec
  sl_for (inv d L qs tv iv O W) $$ [Hmw Ht' Hi' Ho Hb0' Hb1' Hb2' Hb3' Hs4 Hs5 Hs6 Hs7 Hs8 Hs9 HO]
  case region =>
    intro k _
    unfold inv
    iintro ⟨Hmw, Ht, Hi, ⟨%g, %hg, Ho⟩, ⟨%f0, Hb0⟩, ⟨%f1, Hb1⟩, ⟨%f2, Hb2⟩, ⟨%f3, Hb3⟩, Hs4, Hs5, Hs6, Hs7, Hs8, Hs9, %W', %hW', HO⟩
    -- the trip's offsets: the row pieces start at rows `rowE` and `rowE + 256`, the index pieces `65536 qC` entries beyond
    have o30 := offO0 L k
    have o31 := offO0' L k
    have o40 := offO1 L k
    have o41 := offO1' L k
    have hE := rowE_eq L k
    have hk := trip_lt k
    have e13 : k4_off1 L k 0 = (qC : Fin 8).val * 65536 + k4_off3 L k 0 := by rw [offI0, o30]
    have e24 : k4_off2 L k 0 = (qC : Fin 8).val * 65536 + k4_off4 L k 0 := by rw [offI1, o40]
    have hsub3 : (o3 L k).view.set ⊆ rowsSet (wL L) :=
      piece_subset (wL L) k.val _ hE hk (k4_off3 L k) (k4_off3_inb L k) (fun _ => rfl) (.inl o30) o31
    have hsub4 : (o4 L k).view.set ⊆ rowsSet (wL L) \ (o3 L k).view.set :=
      piece_subset_sdiff (wL L) k.val _ hE hk (k4_off3 L k) (k4_off4 L k) (k4_off3_inb L k) (fun _ => rfl) (k4_off4_inb L k) (fun _ => rfl) o30 o40 o41
    ihave Ho' := (pointsTo_split_subset (ℓ := outLoc qC d) (q := fullShare) (f := g) (I := (o3 L k).view.set) (S := rowsSet (wL L)) hsub3).1 $$ Ho
    icases Ho' with ⟨Ho3, Hor⟩
    ihave Hor' := (pointsTo_split_subset (ℓ := outLoc qC d) (q := fullShare) (f := g) (I := (o4 L k).view.set) (S := rowsSet (wL L) \ (o3 L k).view.set) hsub4).1 $$ Hor
    icases Hor' with ⟨Ho4, Hor⟩
    ihave Ho3' := (Entails.of_eq (show (outLoc qC d ↦[(o3 L k).view.set]{fullShare} g : sProp 𝕄) = ((o3 L k).view.loc (thrV d L) ↦[(o3 L k).view.set]{fullShare} g) from rfl)) $$ Ho3
    ihave Ho4' := (Entails.of_eq (show (outLoc qC d ↦[(o4 L k).view.set]{fullShare} g : sProp 𝕄) = ((o4 L k).view.loc (thrV d L) ↦[(o4 L k).view.set]{fullShare} g) from rfl)) $$ Ho4
    -- the words each index scratch holds once its piece of the list has landed name rows of the table
    have hin0 : ∀ x : S256.Idx, ((sI0).view.read (Elt F) ((sI0).view.write (Elt F) f0 (ReadAs.same.apply (((idxV).slice
        (Rect.unit (s := S524288) (k4_off1 L k) S256.size (k4_off1_inb L k)) (fun _ => rfl)).view.read (Elt F) iv)) Finset.univ) x).toNat < 32768 :=
      idx_inb (F := F) d iv hin (thrV d L) sI0 f0 _ _ _
    have hin1 : ∀ x : S256.Idx, ((sI1).view.read (Elt F) ((sI1).view.write (Elt F) f1 (ReadAs.same.apply (((idxV).slice
        (Rect.unit (s := S524288) (k4_off2 L k) S256.size (k4_off2_inb L k)) (fun _ => rfl)).view.read (Elt F) iv)) Finset.univ) x).toNat < 32768 :=
      idx_inb (F := F) d iv hin (thrV d L) sI1 f1 _ _ _
    -- both gathers read the table while the other is outstanding: a read share each
    ihave Ht2 := (pointsTo_share (ℓ := (tblV).view.loc (thrV d L)) (I := Finset.univ) (f := tv) (PosShare.mem_left_op_right qs)).1 $$ Ht
    icases Ht2 with ⟨Hta, Htb⟩
    -- what the two copy-outs leave in their pieces is the gathered rows
    have hgth : S32768x128.Gathers 0 S256x128 := by decide
    have hg3 := fun j hj => piece_gathered (F := F) d tv iv hin (thrV d L) sI0 f0 sR0 f2 (k4_off1 L k) (k4_off1_inb L k) (fun _ => rfl)
      inb_S32768x128_S32768x128_0_0 (fun _ => rfl) hgth rfl hin0 (k4_off3 L k) (k4_off3_inb L k) (fun _ => rfl) e13 o31 g j hj
    have hg4 := fun j hj => piece_gathered (F := F) d tv iv hin (thrV d L) sI1 f1 sR1 f3 (k4_off2 L k) (k4_off2_inb L k) (fun _ => rfl)
      inb_S32768x128_S32768x128_0_0 (fun _ => rfl) hgth rfl hin1 (k4_off4 L k) (k4_off4_inb L k) (fun _ => rfl) e24 o41 g j hj
    sl_exec
    sl_step
    isplitl [Hmw]; · iexact Hmw
    isplitl [Hta Htb]
    · iapply (pointsTo_share (ℓ := (tblV).view.loc (thrV d L)) (I := Finset.univ) (f := tv) (PosShare.mem_left_op_right qs)).2
      isplitl [Hta]; · iexact Hta
      iexact Htb
    isplitl [Hi]; · iexact Hi
    isplitl [Ho3' Ho4' Hor]
    · ihave Hj := (rejoin_two (F := F) (ℓ := outLoc qC d) (rowsSet (wL L)) (o3 L k).view.set (o4 L k).view.set hsub3 hsub4 g _ _) $$ [Ho3' Ho4' Hor]
      · isplitl [Ho3']; · iexact Ho3'
        isplitl [Ho4']; · iexact Ho4'
        iexact Hor
      iexists _
      isplitr
      · ipureintro
        exact doneBelow_step (F := F) d tv iv (wL L) k.val (o3 L k).view.set (o4 L k).view.set g _ _ hg hg3 hg4
          (trip_cover (wL L) k.val _ hE (k4_off3 L k) (k4_off4 L k) (k4_off3_inb L k) (fun _ => rfl) (k4_off4_inb L k) (fun _ => rfl) o30 o31 o40 o41)
      · iexact Hj
    isplitl [Hb0]; · iexists _; iexact Hb0
    isplitl [Hb1]; · iexists _; iexact Hb1
    isplitl [Hb2]; · iexists _; iexact Hb2
    isplitl [Hb3]; · iexists _; iexact Hb3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    iexists _; isplitr
    swap
    · iexact HO
    · ipureintro; intro p hp
      simp only [Finset.mem_insert] at hp
      rcases hp with rfl | rfl | rfl | rfl | rfl | rfl | hp
      · exact .inr rfl
      · exact .inr rfl
      · exact .inr rfl
      · exact .inr rfl
      · exact .inr rfl
      · exact .inr rfl
      · exact hW' p hp
  · unfold inv
    isplitl [Hmw]; · iexact Hmw
    isplitl [Ht']; · iexact Ht'
    isplitl [Hi']; · iexact Hi'
    isplitl [Ho]
    · iexists fo; isplitr
      · ipureintro; exact doneBelow_zero d tv iv (wL L) fo
      · iexact Ho
    isplitl [Hb0']; · iexists f0; iexact Hb0'
    isplitl [Hb1']; · iexists f1; iexact Hb1'
    isplitl [Hb2']; · iexists f2; iexact Hb2'
    isplitl [Hb3']; · iexists f3; iexact Hb3'
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    iexists W; isplitr
    · ipureintro; exact fun p hp => .inl hp
    · iexact HO
  iintro %_ HI
  unfold inv
  icases HI with ⟨-, Ht, Hi, ⟨%g, %hg, Ho⟩, ⟨%f0', Hb0⟩, ⟨%f1', Hb1⟩, ⟨%f2', Hb2⟩, ⟨%f3', Hb3⟩, Hs4, Hs5, Hs6, Hs7, Hs8, Hs9, %W', %hW', HO⟩
  rw [trips_eq] at hg
  sl_exec
  sl_step
  isplitl [Ht Hi Ho]
  · isplitl [Ht]; · iapply (Entails.of_eq (pts_tbl (F := F) d L _ _)); iexact Ht
    isplitl [Hi]; · iapply (Entails.of_eq (pts_idx (F := F) d L _ _)); iexact Hi
    iapply (Entails.of_eq (pointsTo_congr (ℓ := outLoc qC d) (q := fullShare) (I := rowsSet (wL L)) (doneBelow_four d tv iv (wL L) g hg)))
    iexact Ho
  isplitl [Hb0 Hb1 Hb2 Hb3 Hbufs]
  · isplitl [Hb0]; · iexists f0'; iapply (Entails.of_eq (pts_s0 (F := F) d L f0').symm); iexact Hb0
    isplitl [Hb1]; · iexists f1'; iapply (Entails.of_eq (pts_s1 (F := F) d L f1').symm); iexact Hb1
    isplitl [Hb2]; · iexists f2'; iapply (Entails.of_eq (pts_s2 (F := F) d L f2').symm); iexact Hb2
    isplitl [Hb3]; · iexists f3'; iapply (Entails.of_eq (pts_s3 (F := F) d L f3').symm); iexact Hb3
    iexact Hbufs
  isplitl [Hs4 Hs5 Hs6 Hs7 Hs8 Hs9 Hsems]
  · isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    iexact Hsems
  iexists W'; isplitr
  · ipureintro; exact hW'
  · iexact HO

end Body

end Cert.Proof.KI.C2

end
-- ==== Proof.TileObl2.lean ====
/-
  The launch theorem's obligation for gather call 2: a tile's task, entered through the body table, is the kernel's
  body at that tile, run on the tile's share of the table and the index list and on its worker's rows.
-/
import proofs.«214101_g10505490006249_cont_week2b_118_28_alg».proof.Proof.Launch
import proofs.«214101_g10505490006249_cont_week2b_118_28_alg».proof.Proof.Tile2
import proofs.«214101_g10505490006249_cont_week2b_118_28_alg».proof.Proof.TileObl0

noncomputable section

namespace Cert.Proof.KI.C2

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Transfers (shareTok shareDrop pointsTo_toks_split pointsTo_toks_join)

variable {F : FTy → Type}

local notation "𝕄" => MT nD τ sig (HIx 8) (Elt F) ℕ UU ℕ

variable [FloatOps F]
variable (tv : (d : Dev nD) → S32768x128.Idx → Elt F .f32) (iv : (d : Dev nD) → S524288.Idx → Elt F .i32)

/-- A tile's grid coordinates from its SparseCore and subcore numbers. -/
def coordsV (c : Fin (grid4.bound 0)) (s : Fin (grid4.bound 1)) : grid4.Coords :=
  fun | 0 => c | 1 => s | ⟨_ + 2, h⟩ => absurd h (Nat.not_lt.2 (Nat.le_add_left _ _))

theorem defs₀_vector2 (c : Fin τ.nSC) (s : Fin τ.nSub) :
    defs₀ (F := F) (.scVector c s) 4 ()
      = SparseCore.onTile hcore4 hsub4 (fun c s => cc4_gather_kernel (coordsV c s)
          tblV (Memref.isWhole_whole _) idxV (Memref.isWhole_whole _) outV (Memref.isWhole_whole _)
          sI0 (Memref.isWhole_whole _) sI1 (Memref.isWhole_whole _) sR0 (Memref.isWhole_whole _) sR1 (Memref.isWhole_whole _)
          cc4_scratch4 cc4_scratch5 cc4_scratch6 cc4_scratch7 cc4_scoped0 cc4_scoped1) ⟨⟩ c s := rfl

/-- Call 2's tile obligation. -/
theorem tileObl2 (hin : ∀ d e, (iv d e).toNat < 32768) : (K (F := F)).TileObl (D (F := F)) 𝒱 (P (F := F) tv iv) v₀ 2 := by
  intro d c i O W hO _ _
  -- the gather kernel owes nothing for a protocol of its own
  simp only [show (P (F := F) tv iv).ox = fun _ _ => 0 from rfl, add_zero]
  change _ ⊢ wp _ _ _ (Pipeline.liftProg (defs₀ (F := F) (.scVector ((K (F := F)).core 2 c) ((K (F := F)).sub 2 i)) 4 ())) _
  refine BI.Entails.trans ?_ (Pipeline.wp_liftProg (D (F := F)) (Pipeline.defs_kernel pcfgs defs₀) 𝒱₀ _ Set.univ none _ _)
  have hc : ((K (F := F)).core 2 c).val < grid4.bound 0 ∧ ((K (F := F)).sub 2 i).val < grid4.bound 1 := ⟨c.isLt, i.isLt⟩
  rw [defs₀_vector2]; simp only [SparseCore.onTile, hc, and_self, ↓reduceDIte]
  exact (tile_body d (coordsV ⟨_, hc.1⟩ ⟨_, hc.2⟩) (shT (cC 2 c) (sS 2 i)) (tv d) (iv d) (hin d) O W hO).trans (wp_mono frame _ _ fun _ => obl_post)

end Cert.Proof.KI.C2

end
-- ==== Proof.TileAux3.lean ====
/-
  One vector subcore's share of a gather call, the pure part: how the subcore's scoped semaphores and scratch buffers are
  opened, what an indirect gather of 256 table rows delivers element by element, which elements of the result array a
  trip's two copy-outs write, and how those pieces rejoin the subcore's 2048 rows of the result.
-/
import proofs.«214101_g10505490006249_cont_week2b_118_28_alg».proof.Proof.Setup

noncomputable section

namespace Cert.Proof.KI.C3

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 8) (Elt F) ℕ UU ℕ

/-! ## The names of gather call 3

Everything that is particular to this one of the eight gather calls is named here (and, for the trips' offsets, at the
top of the body's module): the call's number, its result array, its scratch buffers. The text below speaks of the call
only through these names and through the program's own `cc6_…` / `k6_…` names. -/

/-- The number of this gather call among the eight: it reads index entries `65536 qC + …` and fills result array `qC`. -/
abbrev qC : Fin 8 := 3
theorem qC_val : (qC : Fin 8).val = 3 := rfl

abbrev tblV : Memref sig .scVector .hbm S32768x128 .f32 := Memref.whole main_v10_scv
abbrev idxV : Memref sig .scVector .hbm S524288 .i32 := Memref.whole main_v6_scv
abbrev outV : Memref sig .scVector .hbm S65536x128 .f32 := Memref.whole main_v40_scv
abbrev sI0 : Memref sig .scVector .vmem S256 .i32 := Memref.whole cc6_scratch0
abbrev sI1 : Memref sig .scVector .vmem S256 .i32 := Memref.whole cc6_scratch1
abbrev sR0 : Memref sig .scVector .vmem S256x128 .f32 := Memref.whole cc6_scratch2
abbrev sR1 : Memref sig .scVector .vmem S256x128 .f32 := Memref.whole cc6_scratch3

abbrev cV (L : grid6.Coords) : Fin τ.nSC := (L 0).castLE hcore6
abbrev jV (L : grid6.Coords) : Fin τ.nSub := (L 1).castLE hsub6
abbrev thrV (d : Dev nD) (L : grid6.Coords) : Thread nD τ := V d (cV L) (jV L)

variable [FloatOps F]

/-! ## The tile's own semaphores and scratch buffers -/

section Own

variable (d : Dev nD) (L : grid6.Coords)

/-- The cell of one of the tile's DMA semaphores. -/
abbrev cell (sm : DmaSems sig S_) : GSem nD τ sig := (thrV d L, .dma sm.sem)

omit [FloatOps F] in
theorem cell_mem {sm : DmaSems sig S_} (h : (SemLoc.dma sm.sem : SemLoc sig).isScoped .scVector = true) :
    cell d L sm ∈ ownCells (sig := sig) (thrV d L) := (mem_ownCells (g := cell d L sm)).mpr ⟨rfl, h⟩

theorem cell_ne {a b : DmaSems sig S_} (h : (SemLoc.dma a.sem : SemLoc sig) ≠ .dma b.sem) : cell d L a ≠ cell d L b :=
  fun e => h (Prod.mk.inj e).2

/-- The tile's scoped cells other than the six the gather uses. -/
abbrev restCells : Finset (GSem nD τ sig) :=
  ((((((ownCells (thrV d L)).erase (cell d L cc6_scratch4)).erase (cell d L cc6_scratch5)).erase (cell d L cc6_scratch6)).erase
    (cell d L cc6_scratch7)).erase (cell d L cc6_scoped0)).erase (cell d L cc6_scoped1)

theorem ownSems0_V :
    (ownSems0 (thrV d L) : sProp 𝕄)
      = iprop(semVal (cell d L cc6_scratch4) 0 ∗ semVal (cell d L cc6_scratch5) 0 ∗ semVal (cell d L cc6_scratch6) 0
          ∗ semVal (cell d L cc6_scratch7) 0 ∗ semVal (cell d L cc6_scoped0) 0 ∗ semVal (cell d L cc6_scoped1) 0
          ∗ bigSep (restCells d L) fun g => semVal g 0) := by
  unfold SparseCore.Cfg.ownSems0
  have m4 := cell_mem d L (sm := cc6_scratch4) (by decide)
  have m5 := cell_mem d L (sm := cc6_scratch5) (by decide)
  have m6 := cell_mem d L (sm := cc6_scratch6) (by decide)
  have m7 := cell_mem d L (sm := cc6_scratch7) (by decide)
  have m8 := cell_mem d L (sm := cc6_scoped0) (by decide)
  have m9 := cell_mem d L (sm := cc6_scoped1) (by decide)
  rw [SparseCore.bigSep_erase' m4,
    SparseCore.bigSep_erase' (Finset.mem_erase.mpr ⟨cell_ne d L (by decide), m5⟩),
    SparseCore.bigSep_erase' (Finset.mem_erase.mpr ⟨cell_ne d L (by decide), Finset.mem_erase.mpr ⟨cell_ne d L (by decide), m6⟩⟩),
    SparseCore.bigSep_erase' (Finset.mem_erase.mpr ⟨cell_ne d L (by decide), Finset.mem_erase.mpr ⟨cell_ne d L (by decide),
      Finset.mem_erase.mpr ⟨cell_ne d L (by decide), m7⟩⟩⟩),
    SparseCore.bigSep_erase' (Finset.mem_erase.mpr ⟨cell_ne d L (by decide), Finset.mem_erase.mpr ⟨cell_ne d L (by decide),
      Finset.mem_erase.mpr ⟨cell_ne d L (by decide), Finset.mem_erase.mpr ⟨cell_ne d L (by decide), m8⟩⟩⟩⟩),
    SparseCore.bigSep_erase' (Finset.mem_erase.mpr ⟨cell_ne d L (by decide), Finset.mem_erase.mpr ⟨cell_ne d L (by decide),
      Finset.mem_erase.mpr ⟨cell_ne d L (by decide), Finset.mem_erase.mpr ⟨cell_ne d L (by decide),
      Finset.mem_erase.mpr ⟨cell_ne d L (by decide), m9⟩⟩⟩⟩⟩)]

/-- One of the tile's scratch buffers, as a buffer of the device. -/
abbrev sref (b : Ref sig .scVector) : DevRef τ sig := (Proc.scVector (cV L) (jV L)).devRef b

theorem sref_mem {b : Ref sig .scVector} (h : (sref L b).owner = .proc (.scVector (cV L) (jV L))) :
    sref L b ∈ ownRefs (sig := sig) (τ := τ) (.scVector (cV L) (jV L)) :=
  SparseCore.Cfg.mem_ownRefs_of_owner (p := Proc.scVector (cV L) (jV L)) (b := sref L b) h

theorem sref_ne {a b : Ref sig .scVector} (h : a ≠ b) : sref L a ≠ sref L b := fun e => h (Proc.devRef_injective _ e)

/-- The tile's own buffers other than the gather's four scratches. -/
abbrev restRefs : Finset (DevRef τ sig) :=
  ((((ownRefs (τ := τ) (.scVector (cV L) (jV L))).erase (sref L cc6_scratch0)).erase (sref L cc6_scratch1)).erase (sref L cc6_scratch2)).erase
    (sref L cc6_scratch3)

theorem ownBufs_V :
    (ownBufs (thrV d L) : sProp 𝕄)
      = iprop((∃ f, (thrV d L).loc cc6_scratch0 ↦{fullShare} f) ∗ (∃ f, (thrV d L).loc cc6_scratch1 ↦{fullShare} f)
          ∗ (∃ f, (thrV d L).loc cc6_scratch2 ↦{fullShare} f) ∗ (∃ f, (thrV d L).loc cc6_scratch3 ↦{fullShare} f)
          ∗ bigSep (restRefs L) fun b => iprop(∃ f, ((d, b) : Loc nD τ sig) ↦{fullShare} f)) := by
  unfold SparseCore.Cfg.ownBufs
  refine (SparseCore.bigSep_erase' (sref_mem L (b := cc6_scratch0) rfl)).trans ?_
  rw [SparseCore.bigSep_erase' (Finset.mem_erase.mpr ⟨sref_ne L (show (cc6_scratch1 : Ref sig .scVector) ≠ cc6_scratch0 by decide), sref_mem L (b := cc6_scratch1) rfl⟩),
    SparseCore.bigSep_erase' (Finset.mem_erase.mpr ⟨sref_ne L (show (cc6_scratch2 : Ref sig .scVector) ≠ cc6_scratch1 by decide),
      Finset.mem_erase.mpr ⟨sref_ne L (show (cc6_scratch2 : Ref sig .scVector) ≠ cc6_scratch0 by decide), sref_mem L (b := cc6_scratch2) rfl⟩⟩),
    SparseCore.bigSep_erase' (Finset.mem_erase.mpr ⟨sref_ne L (show (cc6_scratch3 : Ref sig .scVector) ≠ cc6_scratch2 by decide),
      Finset.mem_erase.mpr ⟨sref_ne L (show (cc6_scratch3 : Ref sig .scVector) ≠ cc6_scratch1 by decide),
      Finset.mem_erase.mpr ⟨sref_ne L (show (cc6_scratch3 : Ref sig .scVector) ≠ cc6_scratch0 by decide), sref_mem L (b := cc6_scratch3) rfl⟩⟩⟩)]

end Own

/-! ## What one gather delivers -/

section Value

variable (d : Dev nD) (tv : Buf (Elt F) (tblLoc d)) (iv : Buf (Elt F) (idxLoc d))

omit [FloatOps F] in
/-- Entry `y` of the 256-entry piece of the index list that starts at `off` is entry `off + y` of the list. -/
theorem idxPiece_read (off : Fin 1 → Nat) (h : ∀ a, off a + S256.size a ≤ S524288.size a) (hs) (y : S256.Idx) :
    ((idxV).slice (Rect.unit (s := S524288) off S256.size h) hs).view.read (Elt F) iv y
      = iv (ix1 ⟨off 0 + (y 0).val, by have := h 0; have := (y 0).isLt; exact Nat.lt_of_lt_of_le (Nat.add_lt_add_left this _) (h 0)⟩) := by
  rw [View.read_apply]
  refine congrArg iv (funext fun a => ?_)
  match a with
  | ⟨0, _⟩ => exact Fin.ext (by show off 0 + 1 * (y 0).val = off 0 + (y 0).val; omega)

omit [FloatOps F] in
/-- The gather's payload at an index: row `x 0` of the scratch receives the table's row named by entry `off + x 0` of
    the index list, when the index scratch was filled with the 256 entries from `off`. -/
theorem gather_apply (hin : ∀ e, (iv e).toNat < 32768)
    (c : Thread nD τ) (sI : Memref sig c.2.kind .vmem S256 .i32) (fI : Buf (Elt F) (sI.view.loc c))
    (off : Fin 1 → Nat) (h : ∀ a, off a + S256.size a ≤ S524288.size a) (hs) (h7) (h8)
    (hg : S32768x128.Gathers 0 S256x128) (hn : S256.numel = S256x128.size hg.axis')
    (hinI : ∀ x, ((sI.view.read (Elt F) (sI.view.write (Elt F) fI
      (ReadAs.same.apply (((idxV).slice (Rect.unit (s := S524288) off S256.size h) hs).view.read (Elt F) iv)) Finset.univ)) x).toNat
        < S32768x128.size hg.axis)
    (x : S256x128.Idx) :
    SparseCore.gatherPayload hg (((tblV).slice (Rect.unit (s := S32768x128) ![0, 0] S32768x128.size h7) h8).view.read (Elt F) tv)
        (SparseCore.rows (sI.view.read (Elt F) (sI.view.write (Elt F) fI
          (ReadAs.same.apply (((idxV).slice (Rect.unit (s := S524288) off S256.size h) hs).view.read (Elt F) iv)) Finset.univ)) hn hinI) x
      = tv (ix2 (rowOf (iv (ix1 ⟨off 0 + (x 0).val, by
          have := h 0; have := idx2_lt0 (n0 := 256) (n1 := 128) x
          exact Nat.lt_of_lt_of_le (Nat.add_lt_add_left this _) (h 0)⟩))) (x 1)) := by
  unfold SparseCore.gatherPayload
  rw [View.read_apply]
  refine congrArg tv (funext fun a => ?_)
  have hy0 : ((S256.rowMajor.symm ((x hg.axis').cast hn.symm)) 0).val = (x 0).val := by
    have e := Shape.rowMajor_val_one (d := ![256]) (S256.rowMajor.symm ((x hg.axis').cast hn.symm))
    rw [Equiv.apply_symm_apply] at e
    exact e.symm
  match a with
  | ⟨0, _⟩ =>
    apply Fin.ext
    show 0 + 1 * (hg.idx _ x hg.axis).val = _
    rw [Shape.Gathers.idx_axis]
    show 0 + 1 * ((sI.view.read (Elt F) (sI.view.write (Elt F) fI (ReadAs.same.apply
      (((idxV).slice (Rect.unit (s := S524288) off S256.size h) hs).view.read (Elt F) iv)) Finset.univ))
        (S256.rowMajor.symm ((x hg.axis').cast hn.symm))).toNat = (iv (ix1 ⟨off 0 + (x 0).val, _⟩)).toNat % 32768
    rw [View.read_write_univ, ReadAs.apply_same, idxPiece_read, Nat.mod_eq_of_lt (hin _), Nat.zero_add, Nat.one_mul]
    exact congrArg (fun n : Fin 524288 => (iv (ix1 n)).toNat) (Fin.ext (by show off 0 + _ = off 0 + _; rw [hy0]))
  | ⟨1, _⟩ =>
    apply Fin.ext
    show 0 + 1 * (hg.idx _ x ⟨1, by decide⟩).val = (x 1).val
    rw [Shape.Gathers.idx_of_ne hg _ x ⟨1, by decide⟩ (by decide), Nat.zero_add, Nat.one_mul]
    rfl

end Value

/-! ## What a trip leaves in one 256-row piece of the result -/

section Piece

variable (d : Dev nD) (tv : Buf (Elt F) (tblLoc d)) (iv : Buf (Elt F) (idxLoc d))

omit [FloatOps F] in
/-- A row scratch written whole with `p`, copied whole onto a 256-row piece of the result: the piece's element under `x`
    holds `p x`. -/
theorem out_piece_apply (c : Thread nD τ) (sR : Memref sig c.2.kind .vmem S256x128 .f32) (fR : Buf (Elt F) (sR.view.loc c))
    (p : S256x128.Idx → Elt F .f32) (off : Fin 2 → Nat) (h : ∀ a, off a + S256x128.size a ≤ S65536x128.size a) (hs)
    (g : Buf (Elt F) (outLoc qC d)) (x : S256x128.Idx) :
    (((outV).slice (Rect.unit (s := S65536x128) off S256x128.size h) hs).view.writes (Elt F) g
        [⟨Rect.whole S256x128, ReadAs.same.apply (sR.view.read (Elt F) (sR.view.writes (Elt F) fR [⟨Rect.whole S256x128, p⟩]))⟩])
      (((outV).slice (Rect.unit (s := S65536x128) off S256x128.size h) hs).view.emb x) = p x := by
  have e1 := congrFun (View.read_writes_whole ((outV).slice (Rect.unit (s := S65536x128) off S256x128.size h) hs).view g
    (ReadAs.same.apply (sR.view.read (Elt F) (sR.view.writes (Elt F) fR [⟨Rect.whole S256x128, p⟩])))) x
  rw [View.read_apply] at e1
  refine (show _ = _ from e1).trans ?_
  rw [ReadAs.apply_same]
  exact congrFun (View.read_writes_whole sR.view fR p) x

omit [FloatOps F] in
/-- The gathered result at the element of a piece under `x`, when the index piece starts `65536 qC` entries beyond the
    row the piece starts at (call `qC`'s share of the index list). -/
theorem gathered_emb (off1 : Fin 1 → Nat) (off : Fin 2 → Nat) (h : ∀ a, off a + S256x128.size a ≤ S65536x128.size a) (hs)
    (e0 : off1 0 = (qC : Fin 8).val * 65536 + off 0) (e1 : off 1 = 0) (x : S256x128.Idx) (hlt : off1 0 + (x 0).val < 524288) :
    gathered tv iv qC (((outV).slice (Rect.unit (s := S65536x128) off S256x128.size h) hs).view.emb x)
      = tv (ix2 (rowOf (iv (ix1 ⟨off1 0 + (x 0).val, hlt⟩))) (x 1)) := by
  obtain ⟨j, hj⟩ : ∃ j : S65536x128.Idx, j = ((outV).slice (Rect.unit (s := S65536x128) off S256x128.size h) hs).view.emb x := ⟨_, rfl⟩
  have j0 : (j 0).val = off 0 + 1 * (x 0).val := by rw [hj]; rfl
  have j1 : (j 1).val = off 1 + 1 * (x 1).val := by rw [hj]; rfl
  rw [← hj]
  unfold gathered
  have a : ∀ hb, (⟨(qC : Fin 8).val * 65536 + (j 0).val, hb⟩ : Fin 524288) = ⟨off1 0 + (x 0).val, hlt⟩ := fun _ =>
    Fin.ext (by show (qC : Fin 8).val * 65536 + (j 0).val = off1 0 + (x 0).val; rw [j0, e0]; omega)
  have b : j 1 = x 1 := Fin.ext (by rw [j1, e1]; omega)
  rw [a, b]

omit [FloatOps F] in
/-- After a trip's gather and copy-out, every element of the 256-row piece holds the gathered result. -/
theorem piece_gathered (hin : ∀ e, (iv e).toNat < 32768)
    (c : Thread nD τ) (sI : Memref sig c.2.kind .vmem S256 .i32) (fI : Buf (Elt F) (sI.view.loc c))
    (sR : Memref sig c.2.kind .vmem S256x128 .f32) (fR : Buf (Elt F) (sR.view.loc c))
    (off1 : Fin 1 → Nat) (h1 : ∀ a, off1 a + S256.size a ≤ S524288.size a) (hs1) (h7) (h8)
    (hg : S32768x128.Gathers 0 S256x128) (hn : S256.numel = S256x128.size hg.axis')
    (hinI : ∀ x, ((sI.view.read (Elt F) (sI.view.write (Elt F) fI
      (ReadAs.same.apply (((idxV).slice (Rect.unit (s := S524288) off1 S256.size h1) hs1).view.read (Elt F) iv)) Finset.univ)) x).toNat
        < S32768x128.size hg.axis)
    (off : Fin 2 → Nat) (h : ∀ a, off a + S256x128.size a ≤ S65536x128.size a) (hs) (e0 : off1 0 = (qC : Fin 8).val * 65536 + off 0) (e1 : off 1 = 0)
    (g : Buf (Elt F) (outLoc qC d)) (j : S65536x128.Idx)
    (hj : j ∈ ((outV).slice (Rect.unit (s := S65536x128) off S256x128.size h) hs).view.set) :
    (((outV).slice (Rect.unit (s := S65536x128) off S256x128.size h) hs).view.writes (Elt F) g
        [⟨Rect.whole S256x128, ReadAs.same.apply (sR.view.read (Elt F) (sR.view.writes (Elt F) fR [⟨Rect.whole S256x128,
          SparseCore.gatherPayload hg (((tblV).slice (Rect.unit (s := S32768x128) ![0, 0] S32768x128.size h7) h8).view.read (Elt F) tv)
            (SparseCore.rows (sI.view.read (Elt F) (sI.view.write (Elt F) fI
              (ReadAs.same.apply (((idxV).slice (Rect.unit (s := S524288) off1 S256.size h1) hs1).view.read (Elt F) iv)) Finset.univ)) hn hinI)⟩]))⟩]) j
      = gathered tv iv qC j := by
  obtain ⟨x, -, rfl⟩ := Finset.mem_map.mp hj
  rw [out_piece_apply, gather_apply d tv iv hin, gathered_emb d tv iv off1 off h hs e0 e1]

end Piece

/-! ## The tile's rows and the pieces a trip writes -/

section Geometry

omit [FloatOps F] in
/-- Worker `w`'s rows of the result array are rows `[2048 w, 2048 w + 2048)`. -/
theorem mem_rowsSet (w : Fin 32) (j : S65536x128.Idx) :
    j ∈ rowsSet w ↔ 2048 * w.val ≤ (j 0).val ∧ (j 0).val < 2048 * w.val + 2048 := by
  unfold rowsSet rowsRect
  rw [View.set_slice_whole, Rect.mem_set_unit]
  have h1 := idx2_lt1 (n0 := 65536) (n1 := 128) j
  constructor
  · intro H
    have H0 : w.val * 2048 ≤ (j 0).val ∧ (j 0).val < w.val * 2048 + 2048 := H 0
    omega
  · intro H a
    match a with
    | ⟨0, _⟩ => show w.val * 2048 ≤ (j 0).val ∧ (j 0).val < w.val * 2048 + 2048; omega
    | ⟨1, _⟩ => show 0 * 128 ≤ (j 1).val ∧ (j 1).val < 0 * 128 + 128; omega

omit [FloatOps F] in
/-- A 256-row piece of the result array at row offset `off 0` (all 128 columns). -/
theorem mem_piece (off : Fin 2 → Nat) (h : ∀ a, off a + S256x128.size a ≤ S65536x128.size a) (hs) (j : S65536x128.Idx) :
    j ∈ ((outV).slice (Rect.unit (s := S65536x128) off S256x128.size h) hs).view.set
      ↔ (off 0 ≤ (j 0).val ∧ (j 0).val < off 0 + 256) ∧ (off 1 ≤ (j 1).val ∧ (j 1).val < off 1 + 128) := by
  show j ∈ ((View.whole main_v40_scv).slice (Rect.unit (s := S65536x128) off S256x128.size h)).set ↔ _
  rw [View.set_slice_whole, Rect.mem_set_unit]
  constructor
  · intro H; exact ⟨H 0, H 1⟩
  · rintro ⟨h0, h1⟩ a
    match a with
    | ⟨0, _⟩ => exact h0
    | ⟨1, _⟩ => exact h1

end Geometry

/-! ## Joining a trip's pieces back into the tile's rows -/

section Join

variable (d : Dev nD) (tv : Buf (Elt F) (tblLoc d)) (iv : Buf (Elt F) (idxLoc d))

/-- The rows of worker `w` below trip `k` (512 rows a trip) hold the gathered rows. -/
def doneBelow (w : Fin 32) (k : Nat) (g : Buf (Elt F) (outLoc qC d)) : Prop :=
  ∀ j ∈ rowsSet w, (j 0).val < 2048 * w.val + 512 * k → g j = gathered tv iv qC j

omit [FloatOps F] in
theorem doneBelow_zero (w : Fin 32) (g : Buf (Elt F) (outLoc qC d)) : doneBelow d tv iv w 0 g := by
  intro j hj hlt
  have := (mem_rowsSet w j).mp hj
  omega

omit [FloatOps F] in
theorem doneBelow_four (w : Fin 32) (g : Buf (Elt F) (outLoc qC d)) (h : doneBelow d tv iv w 4 g) :
    ∀ j ∈ rowsSet w, g j = gathered tv iv qC j := by
  intro j hj
  have := (mem_rowsSet w j).mp hj
  exact h j hj (by omega)

omit [FloatOps F] in
/-- A trip's first piece lies in the worker's rows; -/
theorem piece_subset (w : Fin 32) (k e : Nat) (he : e = 2048 * w.val + 512 * k) (hk : k < 4)
    (off : Fin 2 → Nat) (h : ∀ a, off a + S256x128.size a ≤ S65536x128.size a) (hs)
    (e0 : off 0 = e ∨ off 0 = e + 256) (e1 : off 1 = 0) :
    ((outV).slice (Rect.unit (s := S65536x128) off S256x128.size h) hs).view.set ⊆ rowsSet w := by
  intro j hj
  have := (mem_piece off h hs j).mp hj
  exact (mem_rowsSet w j).mpr (by omega)

omit [FloatOps F] in
/-- its second piece lies in them off the first. -/
theorem piece_subset_sdiff (w : Fin 32) (k e : Nat) (he : e = 2048 * w.val + 512 * k) (hk : k < 4)
    (off3 off4 : Fin 2 → Nat) (h3 : ∀ a, off3 a + S256x128.size a ≤ S65536x128.size a) (hs3)
    (h4 : ∀ a, off4 a + S256x128.size a ≤ S65536x128.size a) (hs4)
    (e30 : off3 0 = e) (e40 : off4 0 = e + 256) (e41 : off4 1 = 0) :
    ((outV).slice (Rect.unit (s := S65536x128) off4 S256x128.size h4) hs4).view.set
      ⊆ rowsSet w \ ((outV).slice (Rect.unit (s := S65536x128) off3 S256x128.size h3) hs3).view.set := by
  intro j hj
  have h4' := (mem_piece off4 h4 hs4 j).mp hj
  refine Finset.mem_sdiff.mpr ⟨(mem_rowsSet w j).mpr (by omega), fun hj3 => ?_⟩
  have h3' := (mem_piece off3 h3 hs3 j).mp hj3
  omega

omit [FloatOps F] in
/-- Two carved-out pieces put back at new contents. -/
theorem rejoin_two {ℓ : Loc nD τ sig} (R P3 P4 : Finset (Idx ℓ)) (hsub3 : P3 ⊆ R) (hsub4 : P4 ⊆ R \ P3) (g g3 g4 : Buf (Elt F) ℓ) :
    (iprop((ℓ ↦[P3]{fullShare} g3) ∗ (ℓ ↦[P4]{fullShare} g4) ∗ (ℓ ↦[(R \ P3) \ P4]{fullShare} g)) : sProp 𝕄)
      ⊢ ℓ ↦[R]{fullShare} (P3.piecewise g3 (P4.piecewise g4 g)) := by
  iintro ⟨H3, H4, Hr⟩
  iapply (pointsTo_join_subset (ℓ := ℓ) (q := fullShare) (I := P3) (S := R) (g := g3) (f := P4.piecewise g4 g) hsub3)
  isplitl [H3]; · iexact H3
  iapply (pointsTo_join_subset (ℓ := ℓ) (q := fullShare) (I := P4) (S := R \ P3) (g := g4) (f := g) hsub4)
  isplitl [H4]; · iexact H4
  iexact Hr

omit [FloatOps F] in
/-- Two pieces each holding the gathered rows, the rest as before, when the two pieces are all of the worker's rows
    from trip `k` up to trip `k + 1`: the rows below trip `k + 1` hold the gathered rows. -/
theorem doneBelow_step (w : Fin 32) (k : Nat) (P3 P4 : Finset (Idx (outLoc qC d)))
    (g g3 g4 : Buf (Elt F) (outLoc qC d)) (hg : doneBelow d tv iv w k g)
    (hg3 : ∀ j ∈ P3, g3 j = gathered tv iv qC j) (hg4 : ∀ j ∈ P4, g4 j = gathered tv iv qC j)
    (hcov : ∀ j : S65536x128.Idx, j ∈ rowsSet w → (j 0).val < 2048 * w.val + 512 * (k + 1) → j ∉ P3 → j ∉ P4 →
      (j 0).val < 2048 * w.val + 512 * k) :
    doneBelow d tv iv w (k + 1) (P3.piecewise g3 (P4.piecewise g4 g)) := by
  intro j hj hlt
  by_cases hj3 : j ∈ P3
  · exact (Finset.piecewise_eq_of_mem P3 g3 _ hj3).trans (hg3 j hj3)
  · refine (Finset.piecewise_eq_of_notMem P3 g3 _ hj3).trans ?_
    by_cases hj4 : j ∈ P4
    · exact (Finset.piecewise_eq_of_mem P4 g4 _ hj4).trans (hg4 j hj4)
    · exact (Finset.piecewise_eq_of_notMem P4 g4 _ hj4).trans (hg j hj (hcov j hj hlt hj3 hj4))

omit [FloatOps F] in
/-- The cover fact for a trip's two pieces. -/
theorem trip_cover (w : Fin 32) (k e : Nat) (he : e = 2048 * w.val + 512 * k)
    (off3 off4 : Fin 2 → Nat) (h3 : ∀ a, off3 a + S256x128.size a ≤ S65536x128.size a) (hs3)
    (h4 : ∀ a, off4 a + S256x128.size a ≤ S65536x128.size a) (hs4)
    (e30 : off3 0 = e) (e31 : off3 1 = 0) (e40 : off4 0 = e + 256) (e41 : off4 1 = 0) :
    ∀ j : S65536x128.Idx, j ∈ rowsSet w → (j 0).val < 2048 * w.val + 512 * (k + 1) →
      j ∉ ((outV).slice (Rect.unit (s := S65536x128) off3 S256x128.size h3) hs3).view.set →
      j ∉ ((outV).slice (Rect.unit (s := S65536x128) off4 S256x128.size h4) hs4).view.set →
      (j 0).val < 2048 * w.val + 512 * k := by
  intro j hj hlt hj3 hj4
  have hr := (mem_rowsSet w j).mp hj
  have n3 := mt (mem_piece off3 h3 hs3 j).mpr hj3
  have n4 := mt (mem_piece off4 h4 hs4 j).mpr hj4
  have := idx2_lt1 (n0 := 65536) (n1 := 128) j
  omega

end Join

end Cert.Proof.KI.C3

end
-- ==== Proof.Tile3.lean ====
/-
  One vector subcore's task in gather call 3, at a symbolic tile. Worker `w = 2 s + c` (subcore `s` of SparseCore `c`)
  fills rows `[2048 w, 2048 w + 2048)` of the result in four trips of 512 rows. A trip copies two 256-entry pieces of the
  index list into the two index scratches, starts one indirect gather of table rows per scratch, and copies each gathered
  256 x 128 block out to its rows of the result; every transfer has its own semaphore and is waited for before the next
  one on that semaphore starts. The loop's invariant carries the value: the worker's rows below the current trip already
  hold row `r ↦ table[index[r]]`; each trip extends this by its 512 rows, and after four trips it is all 2048 rows.
-/
import proofs.«214101_g10505490006249_cont_week2b_118_28_alg».proof.Proof.TileAux3

noncomputable section

namespace Cert.Proof.KI.C3

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 8) (Elt F) ℕ UU ℕ

variable [FloatOps F]

/-! ## The body -/

section Body

variable (d : Dev nD) (L : grid6.Coords)

/-- The worker number of the tile at grid point `L`. -/
abbrev wL (L : grid6.Coords) : Fin 32 := wid (cV L) (jV L)

/-! ### Call 3: the trips' offsets

The only facts about this call's printed offset functions that the body uses, read off their generated closed forms:
trip `k` of the tile at `L` works on rows `rowE L k` and `rowE L k + 256` of the result, and on the index entries
`65536 qC` beyond them. -/

/-- The first row of the result that trip `k` of the tile at `L` writes. -/
def rowE (L : grid6.Coords) (k : Fin k6_t1_loop.trips) : Nat := 4096 * (L 1).val + 2048 * (L 0).val + 512 * k.val

theorem rowE_eq (k : Fin k6_t1_loop.trips) : rowE L k = 2048 * (wL L).val + 512 * k.val := by
  have hwv : (wL L).val = (L 1).val * 2 + (L 0).val := rfl
  unfold rowE; rw [hwv]; omega
theorem trips_eq : Scf.trips k6_t1_loop.lb k6_t1_loop.ub k6_t1_loop.st = 4 := by decide
theorem trip_lt (k : Fin k6_t1_loop.trips) : k.val < 4 := Nat.lt_of_lt_of_le k.isLt k6_t1_abs.2.1
theorem offI0 (k : Fin k6_t1_loop.trips) : k6_off1 L k 0 = (qC : Fin 8).val * 65536 + rowE L k := by
  have h : k6_off1 L k 0 = 4096 * (L 1).val + 2048 * (L 0).val + 512 * k.val + 196608 := congrFun (k6_off1_eq L k) 0
  rw [qC_val, h]; unfold rowE; omega
theorem offI1 (k : Fin k6_t1_loop.trips) : k6_off2 L k 0 = (qC : Fin 8).val * 65536 + (rowE L k + 256) := by
  have h : k6_off2 L k 0 = 4096 * (L 1).val + 2048 * (L 0).val + 512 * k.val + 196864 := congrFun (k6_off2_eq L k) 0
  rw [qC_val, h]; unfold rowE; omega
theorem offO0 (k : Fin k6_t1_loop.trips) : k6_off3 L k 0 = rowE L k := congrFun (k6_off3_eq L k) 0
theorem offO0' (k : Fin k6_t1_loop.trips) : k6_off3 L k 1 = 0 := congrFun (k6_off3_eq L k) 1
theorem offO1 (k : Fin k6_t1_loop.trips) : k6_off4 L k 0 = rowE L k + 256 := congrFun (k6_off4_eq L k) 0
theorem offO1' (k : Fin k6_t1_loop.trips) : k6_off4 L k 1 = 0 := congrFun (k6_off4_eq L k) 1

omit [FloatOps F] in
theorem pts_tbl (q : PosShare TreeShare) (f : Buf (Elt F) (tblLoc d)) :
    ((tblV).view.loc (thrV d L) ↦{q} f : sProp 𝕄) = tblLoc d ↦{q} f := by
  simp only [Memref.view_whole, View.set_whole]
omit [FloatOps F] in
theorem pts_idx (q : PosShare TreeShare) (f : Buf (Elt F) (idxLoc d)) :
    ((idxV).view.loc (thrV d L) ↦{q} f : sProp 𝕄) = idxLoc d ↦{q} f := by
  simp only [Memref.view_whole, View.set_whole]

omit [FloatOps F] in
theorem pts_s0 (f : Buf (Elt F) ((thrV d L).loc cc6_scratch0)) :
    ((thrV d L).loc cc6_scratch0 ↦{fullShare} f : sProp 𝕄) = ((sI0).view.loc (thrV d L) ↦{fullShare} f) := rfl
omit [FloatOps F] in
theorem pts_s1 (f : Buf (Elt F) ((thrV d L).loc cc6_scratch1)) :
    ((thrV d L).loc cc6_scratch1 ↦{fullShare} f : sProp 𝕄) = ((sI1).view.loc (thrV d L) ↦{fullShare} f) := rfl
omit [FloatOps F] in
theorem pts_s2 (f : Buf (Elt F) ((thrV d L).loc cc6_scratch2)) :
    ((thrV d L).loc cc6_scratch2 ↦{fullShare} f : sProp 𝕄) = ((sR0).view.loc (thrV d L) ↦{fullShare} f) := rfl
omit [FloatOps F] in
theorem pts_s3 (f : Buf (Elt F) ((thrV d L).loc cc6_scratch3)) :
    ((thrV d L).loc cc6_scratch3 ↦{fullShare} f : sProp 𝕄) = ((sR1).view.loc (thrV d L) ↦{fullShare} f) := rfl

/-- The two 256-row pieces of the result array that trip `k` writes, as the program slices them. -/
abbrev o3 (k : Fin k6_t1_loop.trips) : Memref sig .scVector .hbm S256x128 .f32 :=
  outV.slice (Rect.unit (s := S65536x128) (k6_off3 L k) S256x128.size (k6_off3_inb L k)) (fun _ => rfl)
abbrev o4 (k : Fin k6_t1_loop.trips) : Memref sig .scVector .hbm S256x128 .f32 :=
  outV.slice (Rect.unit (s := S65536x128) (k6_off4 L k) S256x128.size (k6_off4_inb L k)) (fun _ => rfl)

/-- The loop's invariant: the table and the index list at their read shares, the tile's rows of the result with the
    rows below the trip gathered, the four scratches at some contents, the six semaphores at zero, and what the tile owes. -/
def inv (qs : PosShare TreeShare) (tv : Buf (Elt F) (tblLoc d)) (iv : Buf (Elt F) (idxLoc d))
    (O : CellTallies nD τ sig (HIx 8)) (W : Waits sig (HIx 8)) (k : Nat) (_ : PUnit) : sProp 𝕄 :=
  iprop(Transfers.MayWaits (thrV d L) (none : HIx 8) O
    ∗ ((tblV).view.loc (thrV d L) ↦{qs} tv)
    ∗ ((idxV).view.loc (thrV d L) ↦{qs} iv)
    ∗ (∃ g, ⌜doneBelow d tv iv (wL L) k g⌝ ∗ outLoc qC d ↦[rowsSet (wL L)]{fullShare} g)
    ∗ (∃ f, (sI0).view.loc (thrV d L) ↦{fullShare} f)
    ∗ (∃ f, (sI1).view.loc (thrV d L) ↦{fullShare} f)
    ∗ (∃ f, (sR0).view.loc (thrV d L) ↦{fullShare} f)
    ∗ (∃ f, (sR1).view.loc (thrV d L) ↦{fullShare} f)
    ∗ semVal (cell d L cc6_scratch4) 0 ∗ semVal (cell d L cc6_scratch5) 0 ∗ semVal (cell d L cc6_scratch6) 0
    ∗ semVal (cell d L cc6_scratch7) 0 ∗ semVal (cell d L cc6_scoped0) 0 ∗ semVal (cell d L cc6_scoped1) 0
    ∗ ∃ W', ⌜∀ p ∈ W', p ∈ W ∨ p.2 = none⌝ ∗ owes (thrV d L) O W')

omit [FloatOps F] in
/-- Whatever an index scratch held before, after a 256-entry piece of the index list is copied into it every word it
    holds names a row of the table. -/
theorem idx_inb (iv : Buf (Elt F) (idxLoc d)) (hin : ∀ e, (iv e).toNat < 32768)
    (c : Thread nD τ) (m : Memref sig c.2.kind .vmem S256 .i32) (f : Buf (Elt F) (m.view.loc c))
    (off : Fin 1 → Nat) (h : ∀ a, off a + S256.size a ≤ S524288.size a) (hs) (x : S256.Idx) :
    (m.view.read (Elt F) (m.view.write (Elt F) f
      (ReadAs.same.apply (((idxV).slice (Rect.unit (s := S524288) off S256.size h) hs).view.read (Elt F) iv)) Finset.univ) x).toNat < 32768 := by
  rw [View.read_write_univ, ReadAs.apply_same, View.read_apply]
  exact hin _
set_option maxHeartbeats 2000000 in
theorem tile_body (qs : PosShare TreeShare) (tv : Buf (Elt F) (tblLoc d)) (iv : Buf (Elt F) (idxLoc d))
    (hin : ∀ e, (iv e).toNat < 32768) (O : CellTallies nD τ sig (HIx 8)) (W : Waits sig (HIx 8)) (hO : ∀ g, O g none = 0) :
    (iprop(levAts (K (F := F)).L (K (F := F)).lev ∗ emp
        ∗ ((tblLoc d ↦{qs} tv) ∗ (idxLoc d ↦{qs} iv) ∗ ∃ f, outLoc qC d ↦[rowsSet (wL L)]{fullShare} f)
        ∗ scopedBufs (thrV d L) ∗ scopedSems0 (thrV d L) ∗ owes (thrV d L) O W) : sProp 𝕄)
      ⊢ wp frame (wpE (defs₀ (F := F)) 𝒱₀ (thrV d L) none) Set.univ
          (cc6_gather_kernel L tblV (Memref.isWhole_whole _) idxV (Memref.isWhole_whole _) outV (Memref.isWhole_whole _)
            sI0 (Memref.isWhole_whole _) sI1 (Memref.isWhole_whole _) sR0 (Memref.isWhole_whole _) sR1 (Memref.isWhole_whole _)
            cc6_scratch4 cc6_scratch5 cc6_scratch6 cc6_scratch7 cc6_scoped0 cc6_scoped1)
          fun _ => iprop(((tblLoc d ↦{qs} tv) ∗ (idxLoc d ↦{qs} iv) ∗ outLoc qC d ↦[rowsSet (wL L)]{fullShare} gathered tv iv qC)
            ∗ scopedBufs (thrV d L) ∗ scopedSems0 (thrV d L) ∗ ∃ W', ⌜∀ p ∈ W', p ∈ W ∨ p.2 = none⌝ ∗ owes (thrV d L) O W') := by
  simp only [cc6_gather_kernel_eq_skeleton]; unfold cc6_gather_kernel_skel
  rw [(K (F := F)).scopedBufs_V facts d (cV L) (jV L), SparseCore.Cfg.scopedSems0_V (Val := Elt F) d (cV L) (jV L), ownSems0_V, ownBufs_V]
  iintro ⟨#Hlv, -, ⟨Ht, Hi, %fo, Ho⟩, ⟨⟨%f0, Hb0⟩, ⟨%f1, Hb1⟩, ⟨%f2, Hb2⟩, ⟨%f3, Hb3⟩, Hbufs⟩, ⟨Hs4, Hs5, Hs6, Hs7, Hs8, Hs9, Hsems⟩, HO⟩
  ihave Hmw := ((K (F := F)).mayWaits_none (thr := thrV d L) hO) $$ Hlv
  ihave Ht' := (Entails.of_eq (pts_tbl (F := F) d L _ _).symm) $$ Ht
  ihave Hi' := (Entails.of_eq (pts_idx (F := F) d L _ _).symm) $$ Hi
  ihave Hb0' := (Entails.of_eq (pts_s0 (F := F) d L f0)) $$ Hb0
  ihave Hb1' := (Entails.of_eq (pts_s1 (F := F) d L f1)) $$ Hb1
  ihave Hb2' := (Entails.of_eq (pts_s2 (F := F) d L f2)) $$ Hb2
  ihave Hb3' := (Entails.of_eq (pts_s3 (F := F) d L f3)) $$ Hb3
  sl_exec
  sl_for (inv d L qs tv iv O W) $$ [Hmw Ht' Hi' Ho Hb0' Hb1' Hb2' Hb3' Hs4 Hs5 Hs6 Hs7 Hs8 Hs9 HO]
  case region =>
    intro k _
    unfold inv
    iintro ⟨Hmw, Ht, Hi, ⟨%g, %hg, Ho⟩, ⟨%f0, Hb0⟩, ⟨%f1, Hb1⟩, ⟨%f2, Hb2⟩, ⟨%f3, Hb3⟩, Hs4, Hs5, Hs6, Hs7, Hs8, Hs9, %W', %hW', HO⟩
    -- the trip's offsets: the row pieces start at rows `rowE` and `rowE + 256`, the index pieces `65536 qC` entries beyond
    have o30 := offO0 L k
    have o31 := offO0' L k
    have o40 := offO1 L k
    have o41 := offO1' L k
    have hE := rowE_eq L k
    have hk := trip_lt k
    have e13 : k6_off1 L k 0 = (qC : Fin 8).val * 65536 + k6_off3 L k 0 := by rw [offI0, o30]
    have e24 : k6_off2 L k 0 = (qC : Fin 8).val * 65536 + k6_off4 L k 0 := by rw [offI1, o40]
    have hsub3 : (o3 L k).view.set ⊆ rowsSet (wL L) :=
      piece_subset (wL L) k.val _ hE hk (k6_off3 L k) (k6_off3_inb L k) (fun _ => rfl) (.inl o30) o31
    have hsub4 : (o4 L k).view.set ⊆ rowsSet (wL L) \ (o3 L k).view.set :=
      piece_subset_sdiff (wL L) k.val _ hE hk (k6_off3 L k) (k6_off4 L k) (k6_off3_inb L k) (fun _ => rfl) (k6_off4_inb L k) (fun _ => rfl) o30 o40 o41
    ihave Ho' := (pointsTo_split_subset (ℓ := outLoc qC d) (q := fullShare) (f := g) (I := (o3 L k).view.set) (S := rowsSet (wL L)) hsub3).1 $$ Ho
    icases Ho' with ⟨Ho3, Hor⟩
    ihave Hor' := (pointsTo_split_subset (ℓ := outLoc qC d) (q := fullShare) (f := g) (I := (o4 L k).view.set) (S := rowsSet (wL L) \ (o3 L k).view.set) hsub4).1 $$ Hor
    icases Hor' with ⟨Ho4, Hor⟩
    ihave Ho3' := (Entails.of_eq (show (outLoc qC d ↦[(o3 L k).view.set]{fullShare} g : sProp 𝕄) = ((o3 L k).view.loc (thrV d L) ↦[(o3 L k).view.set]{fullShare} g) from rfl)) $$ Ho3
    ihave Ho4' := (Entails.of_eq (show (outLoc qC d ↦[(o4 L k).view.set]{fullShare} g : sProp 𝕄) = ((o4 L k).view.loc (thrV d L) ↦[(o4 L k).view.set]{fullShare} g) from rfl)) $$ Ho4
    -- the words each index scratch holds once its piece of the list has landed name rows of the table
    have hin0 : ∀ x : S256.Idx, ((sI0).view.read (Elt F) ((sI0).view.write (Elt F) f0 (ReadAs.same.apply (((idxV).slice
        (Rect.unit (s := S524288) (k6_off1 L k) S256.size (k6_off1_inb L k)) (fun _ => rfl)).view.read (Elt F) iv)) Finset.univ) x).toNat < 32768 :=
      idx_inb (F := F) d iv hin (thrV d L) sI0 f0 _ _ _
    have hin1 : ∀ x : S256.Idx, ((sI1).view.read (Elt F) ((sI1).view.write (Elt F) f1 (ReadAs.same.apply (((idxV).slice
        (Rect.unit (s := S524288) (k6_off2 L k) S256.size (k6_off2_inb L k)) (fun _ => rfl)).view.read (Elt F) iv)) Finset.univ) x).toNat < 32768 :=
      idx_inb (F := F) d iv hin (thrV d L) sI1 f1 _ _ _
    -- both gathers read the table while the other is outstanding: a read share each
    ihave Ht2 := (pointsTo_share (ℓ := (tblV).view.loc (thrV d L)) (I := Finset.univ) (f := tv) (PosShare.mem_left_op_right qs)).1 $$ Ht
    icases Ht2 with ⟨Hta, Htb⟩
    -- what the two copy-outs leave in their pieces is the gathered rows
    have hgth : S32768x128.Gathers 0 S256x128 := by decide
    have hg3 := fun j hj => piece_gathered (F := F) d tv iv hin (thrV d L) sI0 f0 sR0 f2 (k6_off1 L k) (k6_off1_inb L k) (fun _ => rfl)
      inb_S32768x128_S32768x128_0_0 (fun _ => rfl) hgth rfl hin0 (k6_off3 L k) (k6_off3_inb L k) (fun _ => rfl) e13 o31 g j hj
    have hg4 := fun j hj => piece_gathered (F := F) d tv iv hin (thrV d L) sI1 f1 sR1 f3 (k6_off2 L k) (k6_off2_inb L k) (fun _ => rfl)
      inb_S32768x128_S32768x128_0_0 (fun _ => rfl) hgth rfl hin1 (k6_off4 L k) (k6_off4_inb L k) (fun _ => rfl) e24 o41 g j hj
    sl_exec
    sl_step
    isplitl [Hmw]; · iexact Hmw
    isplitl [Hta Htb]
    · iapply (pointsTo_share (ℓ := (tblV).view.loc (thrV d L)) (I := Finset.univ) (f := tv) (PosShare.mem_left_op_right qs)).2
      isplitl [Hta]; · iexact Hta
      iexact Htb
    isplitl [Hi]; · iexact Hi
    isplitl [Ho3' Ho4' Hor]
    · ihave Hj := (rejoin_two (F := F) (ℓ := outLoc qC d) (rowsSet (wL L)) (o3 L k).view.set (o4 L k).view.set hsub3 hsub4 g _ _) $$ [Ho3' Ho4' Hor]
      · isplitl [Ho3']; · iexact Ho3'
        isplitl [Ho4']; · iexact Ho4'
        iexact Hor
      iexists _
      isplitr
      · ipureintro
        exact doneBelow_step (F := F) d tv iv (wL L) k.val (o3 L k).view.set (o4 L k).view.set g _ _ hg hg3 hg4
          (trip_cover (wL L) k.val _ hE (k6_off3 L k) (k6_off4 L k) (k6_off3_inb L k) (fun _ => rfl) (k6_off4_inb L k) (fun _ => rfl) o30 o31 o40 o41)
      · iexact Hj
    isplitl [Hb0]; · iexists _; iexact Hb0
    isplitl [Hb1]; · iexists _; iexact Hb1
    isplitl [Hb2]; · iexists _; iexact Hb2
    isplitl [Hb3]; · iexists _; iexact Hb3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    iexists _; isplitr
    swap
    · iexact HO
    · ipureintro; intro p hp
      simp only [Finset.mem_insert] at hp
      rcases hp with rfl | rfl | rfl | rfl | rfl | rfl | hp
      · exact .inr rfl
      · exact .inr rfl
      · exact .inr rfl
      · exact .inr rfl
      · exact .inr rfl
      · exact .inr rfl
      · exact hW' p hp
  · unfold inv
    isplitl [Hmw]; · iexact Hmw
    isplitl [Ht']; · iexact Ht'
    isplitl [Hi']; · iexact Hi'
    isplitl [Ho]
    · iexists fo; isplitr
      · ipureintro; exact doneBelow_zero d tv iv (wL L) fo
      · iexact Ho
    isplitl [Hb0']; · iexists f0; iexact Hb0'
    isplitl [Hb1']; · iexists f1; iexact Hb1'
    isplitl [Hb2']; · iexists f2; iexact Hb2'
    isplitl [Hb3']; · iexists f3; iexact Hb3'
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    iexists W; isplitr
    · ipureintro; exact fun p hp => .inl hp
    · iexact HO
  iintro %_ HI
  unfold inv
  icases HI with ⟨-, Ht, Hi, ⟨%g, %hg, Ho⟩, ⟨%f0', Hb0⟩, ⟨%f1', Hb1⟩, ⟨%f2', Hb2⟩, ⟨%f3', Hb3⟩, Hs4, Hs5, Hs6, Hs7, Hs8, Hs9, %W', %hW', HO⟩
  rw [trips_eq] at hg
  sl_exec
  sl_step
  isplitl [Ht Hi Ho]
  · isplitl [Ht]; · iapply (Entails.of_eq (pts_tbl (F := F) d L _ _)); iexact Ht
    isplitl [Hi]; · iapply (Entails.of_eq (pts_idx (F := F) d L _ _)); iexact Hi
    iapply (Entails.of_eq (pointsTo_congr (ℓ := outLoc qC d) (q := fullShare) (I := rowsSet (wL L)) (doneBelow_four d tv iv (wL L) g hg)))
    iexact Ho
  isplitl [Hb0 Hb1 Hb2 Hb3 Hbufs]
  · isplitl [Hb0]; · iexists f0'; iapply (Entails.of_eq (pts_s0 (F := F) d L f0').symm); iexact Hb0
    isplitl [Hb1]; · iexists f1'; iapply (Entails.of_eq (pts_s1 (F := F) d L f1').symm); iexact Hb1
    isplitl [Hb2]; · iexists f2'; iapply (Entails.of_eq (pts_s2 (F := F) d L f2').symm); iexact Hb2
    isplitl [Hb3]; · iexists f3'; iapply (Entails.of_eq (pts_s3 (F := F) d L f3').symm); iexact Hb3
    iexact Hbufs
  isplitl [Hs4 Hs5 Hs6 Hs7 Hs8 Hs9 Hsems]
  · isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    iexact Hsems
  iexists W'; isplitr
  · ipureintro; exact hW'
  · iexact HO

end Body

end Cert.Proof.KI.C3

end
-- ==== Proof.TileObl3.lean ====
/-
  The launch theorem's obligation for gather call 3: a tile's task, entered through the body table, is the kernel's
  body at that tile, run on the tile's share of the table and the index list and on its worker's rows.
-/
import proofs.«214101_g10505490006249_cont_week2b_118_28_alg».proof.Proof.Launch
import proofs.«214101_g10505490006249_cont_week2b_118_28_alg».proof.Proof.Tile3
import proofs.«214101_g10505490006249_cont_week2b_118_28_alg».proof.Proof.TileObl0

noncomputable section

namespace Cert.Proof.KI.C3

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Transfers (shareTok shareDrop pointsTo_toks_split pointsTo_toks_join)

variable {F : FTy → Type}

local notation "𝕄" => MT nD τ sig (HIx 8) (Elt F) ℕ UU ℕ

variable [FloatOps F]
variable (tv : (d : Dev nD) → S32768x128.Idx → Elt F .f32) (iv : (d : Dev nD) → S524288.Idx → Elt F .i32)

/-- A tile's grid coordinates from its SparseCore and subcore numbers. -/
def coordsV (c : Fin (grid6.bound 0)) (s : Fin (grid6.bound 1)) : grid6.Coords :=
  fun | 0 => c | 1 => s | ⟨_ + 2, h⟩ => absurd h (Nat.not_lt.2 (Nat.le_add_left _ _))

theorem defs₀_vector3 (c : Fin τ.nSC) (s : Fin τ.nSub) :
    defs₀ (F := F) (.scVector c s) 6 ()
      = SparseCore.onTile hcore6 hsub6 (fun c s => cc6_gather_kernel (coordsV c s)
          tblV (Memref.isWhole_whole _) idxV (Memref.isWhole_whole _) outV (Memref.isWhole_whole _)
          sI0 (Memref.isWhole_whole _) sI1 (Memref.isWhole_whole _) sR0 (Memref.isWhole_whole _) sR1 (Memref.isWhole_whole _)
          cc6_scratch4 cc6_scratch5 cc6_scratch6 cc6_scratch7 cc6_scoped0 cc6_scoped1) ⟨⟩ c s := rfl

/-- Call 3's tile obligation. -/
theorem tileObl3 (hin : ∀ d e, (iv d e).toNat < 32768) : (K (F := F)).TileObl (D (F := F)) 𝒱 (P (F := F) tv iv) v₀ 3 := by
  intro d c i O W hO _ _
  -- the gather kernel owes nothing for a protocol of its own
  simp only [show (P (F := F) tv iv).ox = fun _ _ => 0 from rfl, add_zero]
  change _ ⊢ wp _ _ _ (Pipeline.liftProg (defs₀ (F := F) (.scVector ((K (F := F)).core 3 c) ((K (F := F)).sub 3 i)) 6 ())) _
  refine BI.Entails.trans ?_ (Pipeline.wp_liftProg (D (F := F)) (Pipeline.defs_kernel pcfgs defs₀) 𝒱₀ _ Set.univ none _ _)
  have hc : ((K (F := F)).core 3 c).val < grid6.bound 0 ∧ ((K (F := F)).sub 3 i).val < grid6.bound 1 := ⟨c.isLt, i.isLt⟩
  rw [defs₀_vector3]; simp only [SparseCore.onTile, hc, and_self, ↓reduceDIte]
  exact (tile_body d (coordsV ⟨_, hc.1⟩ ⟨_, hc.2⟩) (shT (cC 3 c) (sS 3 i)) (tv d) (iv d) (hin d) O W hO).trans (wp_mono frame _ _ fun _ => obl_post)

end Cert.Proof.KI.C3

end
-- ==== Proof.TileAux4.lean ====
/-
  One vector subcore's share of a gather call, the pure part: how the subcore's scoped semaphores and scratch buffers are
  opened, what an indirect gather of 256 table rows delivers element by element, which elements of the result array a
  trip's two copy-outs write, and how those pieces rejoin the subcore's 2048 rows of the result.
-/
import proofs.«214101_g10505490006249_cont_week2b_118_28_alg».proof.Proof.Setup

noncomputable section

namespace Cert.Proof.KI.C4

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 8) (Elt F) ℕ UU ℕ

/-! ## The names of gather call 4

Everything that is particular to this one of the eight gather calls is named here (and, for the trips' offsets, at the
top of the body's module): the call's number, its result array, its scratch buffers. The text below speaks of the call
only through these names and through the program's own `cc8_…` / `k8_…` names. -/

/-- The number of this gather call among the eight: it reads index entries `65536 qC + …` and fills result array `qC`. -/
abbrev qC : Fin 8 := 4
theorem qC_val : (qC : Fin 8).val = 4 := rfl

abbrev tblV : Memref sig .scVector .hbm S32768x128 .f32 := Memref.whole main_v10_scv
abbrev idxV : Memref sig .scVector .hbm S524288 .i32 := Memref.whole main_v6_scv
abbrev outV : Memref sig .scVector .hbm S65536x128 .f32 := Memref.whole main_v42_scv
abbrev sI0 : Memref sig .scVector .vmem S256 .i32 := Memref.whole cc8_scratch0
abbrev sI1 : Memref sig .scVector .vmem S256 .i32 := Memref.whole cc8_scratch1
abbrev sR0 : Memref sig .scVector .vmem S256x128 .f32 := Memref.whole cc8_scratch2
abbrev sR1 : Memref sig .scVector .vmem S256x128 .f32 := Memref.whole cc8_scratch3

abbrev cV (L : grid8.Coords) : Fin τ.nSC := (L 0).castLE hcore8
abbrev jV (L : grid8.Coords) : Fin τ.nSub := (L 1).castLE hsub8
abbrev thrV (d : Dev nD) (L : grid8.Coords) : Thread nD τ := V d (cV L) (jV L)

variable [FloatOps F]

/-! ## The tile's own semaphores and scratch buffers -/

section Own

variable (d : Dev nD) (L : grid8.Coords)

/-- The cell of one of the tile's DMA semaphores. -/
abbrev cell (sm : DmaSems sig S_) : GSem nD τ sig := (thrV d L, .dma sm.sem)

omit [FloatOps F] in
theorem cell_mem {sm : DmaSems sig S_} (h : (SemLoc.dma sm.sem : SemLoc sig).isScoped .scVector = true) :
    cell d L sm ∈ ownCells (sig := sig) (thrV d L) := (mem_ownCells (g := cell d L sm)).mpr ⟨rfl, h⟩

theorem cell_ne {a b : DmaSems sig S_} (h : (SemLoc.dma a.sem : SemLoc sig) ≠ .dma b.sem) : cell d L a ≠ cell d L b :=
  fun e => h (Prod.mk.inj e).2

/-- The tile's scoped cells other than the six the gather uses. -/
abbrev restCells : Finset (GSem nD τ sig) :=
  ((((((ownCells (thrV d L)).erase (cell d L cc8_scratch4)).erase (cell d L cc8_scratch5)).erase (cell d L cc8_scratch6)).erase
    (cell d L cc8_scratch7)).erase (cell d L cc8_scoped0)).erase (cell d L cc8_scoped1)

theorem ownSems0_V :
    (ownSems0 (thrV d L) : sProp 𝕄)
      = iprop(semVal (cell d L cc8_scratch4) 0 ∗ semVal (cell d L cc8_scratch5) 0 ∗ semVal (cell d L cc8_scratch6) 0
          ∗ semVal (cell d L cc8_scratch7) 0 ∗ semVal (cell d L cc8_scoped0) 0 ∗ semVal (cell d L cc8_scoped1) 0
          ∗ bigSep (restCells d L) fun g => semVal g 0) := by
  unfold SparseCore.Cfg.ownSems0
  have m4 := cell_mem d L (sm := cc8_scratch4) (by decide)
  have m5 := cell_mem d L (sm := cc8_scratch5) (by decide)
  have m6 := cell_mem d L (sm := cc8_scratch6) (by decide)
  have m7 := cell_mem d L (sm := cc8_scratch7) (by decide)
  have m8 := cell_mem d L (sm := cc8_scoped0) (by decide)
  have m9 := cell_mem d L (sm := cc8_scoped1) (by decide)
  rw [SparseCore.bigSep_erase' m4,
    SparseCore.bigSep_erase' (Finset.mem_erase.mpr ⟨cell_ne d L (by decide), m5⟩),
    SparseCore.bigSep_erase' (Finset.mem_erase.mpr ⟨cell_ne d L (by decide), Finset.mem_erase.mpr ⟨cell_ne d L (by decide), m6⟩⟩),
    SparseCore.bigSep_erase' (Finset.mem_erase.mpr ⟨cell_ne d L (by decide), Finset.mem_erase.mpr ⟨cell_ne d L (by decide),
      Finset.mem_erase.mpr ⟨cell_ne d L (by decide), m7⟩⟩⟩),
    SparseCore.bigSep_erase' (Finset.mem_erase.mpr ⟨cell_ne d L (by decide), Finset.mem_erase.mpr ⟨cell_ne d L (by decide),
      Finset.mem_erase.mpr ⟨cell_ne d L (by decide), Finset.mem_erase.mpr ⟨cell_ne d L (by decide), m8⟩⟩⟩⟩),
    SparseCore.bigSep_erase' (Finset.mem_erase.mpr ⟨cell_ne d L (by decide), Finset.mem_erase.mpr ⟨cell_ne d L (by decide),
      Finset.mem_erase.mpr ⟨cell_ne d L (by decide), Finset.mem_erase.mpr ⟨cell_ne d L (by decide),
      Finset.mem_erase.mpr ⟨cell_ne d L (by decide), m9⟩⟩⟩⟩⟩)]

/-- One of the tile's scratch buffers, as a buffer of the device. -/
abbrev sref (b : Ref sig .scVector) : DevRef τ sig := (Proc.scVector (cV L) (jV L)).devRef b

theorem sref_mem {b : Ref sig .scVector} (h : (sref L b).owner = .proc (.scVector (cV L) (jV L))) :
    sref L b ∈ ownRefs (sig := sig) (τ := τ) (.scVector (cV L) (jV L)) :=
  SparseCore.Cfg.mem_ownRefs_of_owner (p := Proc.scVector (cV L) (jV L)) (b := sref L b) h

theorem sref_ne {a b : Ref sig .scVector} (h : a ≠ b) : sref L a ≠ sref L b := fun e => h (Proc.devRef_injective _ e)

/-- The tile's own buffers other than the gather's four scratches. -/
abbrev restRefs : Finset (DevRef τ sig) :=
  ((((ownRefs (τ := τ) (.scVector (cV L) (jV L))).erase (sref L cc8_scratch0)).erase (sref L cc8_scratch1)).erase (sref L cc8_scratch2)).erase
    (sref L cc8_scratch3)

theorem ownBufs_V :
    (ownBufs (thrV d L) : sProp 𝕄)
      = iprop((∃ f, (thrV d L).loc cc8_scratch0 ↦{fullShare} f) ∗ (∃ f, (thrV d L).loc cc8_scratch1 ↦{fullShare} f)
          ∗ (∃ f, (thrV d L).loc cc8_scratch2 ↦{fullShare} f) ∗ (∃ f, (thrV d L).loc cc8_scratch3 ↦{fullShare} f)
          ∗ bigSep (restRefs L) fun b => iprop(∃ f, ((d, b) : Loc nD τ sig) ↦{fullShare} f)) := by
  unfold SparseCore.Cfg.ownBufs
  refine (SparseCore.bigSep_erase' (sref_mem L (b := cc8_scratch0) rfl)).trans ?_
  rw [SparseCore.bigSep_erase' (Finset.mem_erase.mpr ⟨sref_ne L (show (cc8_scratch1 : Ref sig .scVector) ≠ cc8_scratch0 by decide), sref_mem L (b := cc8_scratch1) rfl⟩),
    SparseCore.bigSep_erase' (Finset.mem_erase.mpr ⟨sref_ne L (show (cc8_scratch2 : Ref sig .scVector) ≠ cc8_scratch1 by decide),
      Finset.mem_erase.mpr ⟨sref_ne L (show (cc8_scratch2 : Ref sig .scVector) ≠ cc8_scratch0 by decide), sref_mem L (b := cc8_scratch2) rfl⟩⟩),
    SparseCore.bigSep_erase' (Finset.mem_erase.mpr ⟨sref_ne L (show (cc8_scratch3 : Ref sig .scVector) ≠ cc8_scratch2 by decide),
      Finset.mem_erase.mpr ⟨sref_ne L (show (cc8_scratch3 : Ref sig .scVector) ≠ cc8_scratch1 by decide),
      Finset.mem_erase.mpr ⟨sref_ne L (show (cc8_scratch3 : Ref sig .scVector) ≠ cc8_scratch0 by decide), sref_mem L (b := cc8_scratch3) rfl⟩⟩⟩)]

end Own

/-! ## What one gather delivers -/

section Value

variable (d : Dev nD) (tv : Buf (Elt F) (tblLoc d)) (iv : Buf (Elt F) (idxLoc d))

omit [FloatOps F] in
/-- Entry `y` of the 256-entry piece of the index list that starts at `off` is entry `off + y` of the list. -/
theorem idxPiece_read (off : Fin 1 → Nat) (h : ∀ a, off a + S256.size a ≤ S524288.size a) (hs) (y : S256.Idx) :
    ((idxV).slice (Rect.unit (s := S524288) off S256.size h) hs).view.read (Elt F) iv y
      = iv (ix1 ⟨off 0 + (y 0).val, by have := h 0; have := (y 0).isLt; exact Nat.lt_of_lt_of_le (Nat.add_lt_add_left this _) (h 0)⟩) := by
  rw [View.read_apply]
  refine congrArg iv (funext fun a => ?_)
  match a with
  | ⟨0, _⟩ => exact Fin.ext (by show off 0 + 1 * (y 0).val = off 0 + (y 0).val; omega)

omit [FloatOps F] in
/-- The gather's payload at an index: row `x 0` of the scratch receives the table's row named by entry `off + x 0` of
    the index list, when the index scratch was filled with the 256 entries from `off`. -/
theorem gather_apply (hin : ∀ e, (iv e).toNat < 32768)
    (c : Thread nD τ) (sI : Memref sig c.2.kind .vmem S256 .i32) (fI : Buf (Elt F) (sI.view.loc c))
    (off : Fin 1 → Nat) (h : ∀ a, off a + S256.size a ≤ S524288.size a) (hs) (h7) (h8)
    (hg : S32768x128.Gathers 0 S256x128) (hn : S256.numel = S256x128.size hg.axis')
    (hinI : ∀ x, ((sI.view.read (Elt F) (sI.view.write (Elt F) fI
      (ReadAs.same.apply (((idxV).slice (Rect.unit (s := S524288) off S256.size h) hs).view.read (Elt F) iv)) Finset.univ)) x).toNat
        < S32768x128.size hg.axis)
    (x : S256x128.Idx) :
    SparseCore.gatherPayload hg (((tblV).slice (Rect.unit (s := S32768x128) ![0, 0] S32768x128.size h7) h8).view.read (Elt F) tv)
        (SparseCore.rows (sI.view.read (Elt F) (sI.view.write (Elt F) fI
          (ReadAs.same.apply (((idxV).slice (Rect.unit (s := S524288) off S256.size h) hs).view.read (Elt F) iv)) Finset.univ)) hn hinI) x
      = tv (ix2 (rowOf (iv (ix1 ⟨off 0 + (x 0).val, by
          have := h 0; have := idx2_lt0 (n0 := 256) (n1 := 128) x
          exact Nat.lt_of_lt_of_le (Nat.add_lt_add_left this _) (h 0)⟩))) (x 1)) := by
  unfold SparseCore.gatherPayload
  rw [View.read_apply]
  refine congrArg tv (funext fun a => ?_)
  have hy0 : ((S256.rowMajor.symm ((x hg.axis').cast hn.symm)) 0).val = (x 0).val := by
    have e := Shape.rowMajor_val_one (d := ![256]) (S256.rowMajor.symm ((x hg.axis').cast hn.symm))
    rw [Equiv.apply_symm_apply] at e
    exact e.symm
  match a with
  | ⟨0, _⟩ =>
    apply Fin.ext
    show 0 + 1 * (hg.idx _ x hg.axis).val = _
    rw [Shape.Gathers.idx_axis]
    show 0 + 1 * ((sI.view.read (Elt F) (sI.view.write (Elt F) fI (ReadAs.same.apply
      (((idxV).slice (Rect.unit (s := S524288) off S256.size h) hs).view.read (Elt F) iv)) Finset.univ))
        (S256.rowMajor.symm ((x hg.axis').cast hn.symm))).toNat = (iv (ix1 ⟨off 0 + (x 0).val, _⟩)).toNat % 32768
    rw [View.read_write_univ, ReadAs.apply_same, idxPiece_read, Nat.mod_eq_of_lt (hin _), Nat.zero_add, Nat.one_mul]
    exact congrArg (fun n : Fin 524288 => (iv (ix1 n)).toNat) (Fin.ext (by show off 0 + _ = off 0 + _; rw [hy0]))
  | ⟨1, _⟩ =>
    apply Fin.ext
    show 0 + 1 * (hg.idx _ x ⟨1, by decide⟩).val = (x 1).val
    rw [Shape.Gathers.idx_of_ne hg _ x ⟨1, by decide⟩ (by decide), Nat.zero_add, Nat.one_mul]
    rfl

end Value

/-! ## What a trip leaves in one 256-row piece of the result -/

section Piece

variable (d : Dev nD) (tv : Buf (Elt F) (tblLoc d)) (iv : Buf (Elt F) (idxLoc d))

omit [FloatOps F] in
/-- A row scratch written whole with `p`, copied whole onto a 256-row piece of the result: the piece's element under `x`
    holds `p x`. -/
theorem out_piece_apply (c : Thread nD τ) (sR : Memref sig c.2.kind .vmem S256x128 .f32) (fR : Buf (Elt F) (sR.view.loc c))
    (p : S256x128.Idx → Elt F .f32) (off : Fin 2 → Nat) (h : ∀ a, off a + S256x128.size a ≤ S65536x128.size a) (hs)
    (g : Buf (Elt F) (outLoc qC d)) (x : S256x128.Idx) :
    (((outV).slice (Rect.unit (s := S65536x128) off S256x128.size h) hs).view.writes (Elt F) g
        [⟨Rect.whole S256x128, ReadAs.same.apply (sR.view.read (Elt F) (sR.view.writes (Elt F) fR [⟨Rect.whole S256x128, p⟩]))⟩])
      (((outV).slice (Rect.unit (s := S65536x128) off S256x128.size h) hs).view.emb x) = p x := by
  have e1 := congrFun (View.read_writes_whole ((outV).slice (Rect.unit (s := S65536x128) off S256x128.size h) hs).view g
    (ReadAs.same.apply (sR.view.read (Elt F) (sR.view.writes (Elt F) fR [⟨Rect.whole S256x128, p⟩])))) x
  rw [View.read_apply] at e1
  refine (show _ = _ from e1).trans ?_
  rw [ReadAs.apply_same]
  exact congrFun (View.read_writes_whole sR.view fR p) x

omit [FloatOps F] in
/-- The gathered result at the element of a piece under `x`, when the index piece starts `65536 qC` entries beyond the
    row the piece starts at (call `qC`'s share of the index list). -/
theorem gathered_emb (off1 : Fin 1 → Nat) (off : Fin 2 → Nat) (h : ∀ a, off a + S256x128.size a ≤ S65536x128.size a) (hs)
    (e0 : off1 0 = (qC : Fin 8).val * 65536 + off 0) (e1 : off 1 = 0) (x : S256x128.Idx) (hlt : off1 0 + (x 0).val < 524288) :
    gathered tv iv qC (((outV).slice (Rect.unit (s := S65536x128) off S256x128.size h) hs).view.emb x)
      = tv (ix2 (rowOf (iv (ix1 ⟨off1 0 + (x 0).val, hlt⟩))) (x 1)) := by
  obtain ⟨j, hj⟩ : ∃ j : S65536x128.Idx, j = ((outV).slice (Rect.unit (s := S65536x128) off S256x128.size h) hs).view.emb x := ⟨_, rfl⟩
  have j0 : (j 0).val = off 0 + 1 * (x 0).val := by rw [hj]; rfl
  have j1 : (j 1).val = off 1 + 1 * (x 1).val := by rw [hj]; rfl
  rw [← hj]
  unfold gathered
  have a : ∀ hb, (⟨(qC : Fin 8).val * 65536 + (j 0).val, hb⟩ : Fin 524288) = ⟨off1 0 + (x 0).val, hlt⟩ := fun _ =>
    Fin.ext (by show (qC : Fin 8).val * 65536 + (j 0).val = off1 0 + (x 0).val; rw [j0, e0]; omega)
  have b : j 1 = x 1 := Fin.ext (by rw [j1, e1]; omega)
  rw [a, b]

omit [FloatOps F] in
/-- After a trip's gather and copy-out, every element of the 256-row piece holds the gathered result. -/
theorem piece_gathered (hin : ∀ e, (iv e).toNat < 32768)
    (c : Thread nD τ) (sI : Memref sig c.2.kind .vmem S256 .i32) (fI : Buf (Elt F) (sI.view.loc c))
    (sR : Memref sig c.2.kind .vmem S256x128 .f32) (fR : Buf (Elt F) (sR.view.loc c))
    (off1 : Fin 1 → Nat) (h1 : ∀ a, off1 a + S256.size a ≤ S524288.size a) (hs1) (h7) (h8)
    (hg : S32768x128.Gathers 0 S256x128) (hn : S256.numel = S256x128.size hg.axis')
    (hinI : ∀ x, ((sI.view.read (Elt F) (sI.view.write (Elt F) fI
      (ReadAs.same.apply (((idxV).slice (Rect.unit (s := S524288) off1 S256.size h1) hs1).view.read (Elt F) iv)) Finset.univ)) x).toNat
        < S32768x128.size hg.axis)
    (off : Fin 2 → Nat) (h : ∀ a, off a + S256x128.size a ≤ S65536x128.size a) (hs) (e0 : off1 0 = (qC : Fin 8).val * 65536 + off 0) (e1 : off 1 = 0)
    (g : Buf (Elt F) (outLoc qC d)) (j : S65536x128.Idx)
    (hj : j ∈ ((outV).slice (Rect.unit (s := S65536x128) off S256x128.size h) hs).view.set) :
    (((outV).slice (Rect.unit (s := S65536x128) off S256x128.size h) hs).view.writes (Elt F) g
        [⟨Rect.whole S256x128, ReadAs.same.apply (sR.view.read (Elt F) (sR.view.writes (Elt F) fR [⟨Rect.whole S256x128,
          SparseCore.gatherPayload hg (((tblV).slice (Rect.unit (s := S32768x128) ![0, 0] S32768x128.size h7) h8).view.read (Elt F) tv)
            (SparseCore.rows (sI.view.read (Elt F) (sI.view.write (Elt F) fI
              (ReadAs.same.apply (((idxV).slice (Rect.unit (s := S524288) off1 S256.size h1) hs1).view.read (Elt F) iv)) Finset.univ)) hn hinI)⟩]))⟩]) j
      = gathered tv iv qC j := by
  obtain ⟨x, -, rfl⟩ := Finset.mem_map.mp hj
  rw [out_piece_apply, gather_apply d tv iv hin, gathered_emb d tv iv off1 off h hs e0 e1]

end Piece

/-! ## The tile's rows and the pieces a trip writes -/

section Geometry

omit [FloatOps F] in
/-- Worker `w`'s rows of the result array are rows `[2048 w, 2048 w + 2048)`. -/
theorem mem_rowsSet (w : Fin 32) (j : S65536x128.Idx) :
    j ∈ rowsSet w ↔ 2048 * w.val ≤ (j 0).val ∧ (j 0).val < 2048 * w.val + 2048 := by
  unfold rowsSet rowsRect
  rw [View.set_slice_whole, Rect.mem_set_unit]
  have h1 := idx2_lt1 (n0 := 65536) (n1 := 128) j
  constructor
  · intro H
    have H0 : w.val * 2048 ≤ (j 0).val ∧ (j 0).val < w.val * 2048 + 2048 := H 0
    omega
  · intro H a
    match a with
    | ⟨0, _⟩ => show w.val * 2048 ≤ (j 0).val ∧ (j 0).val < w.val * 2048 + 2048; omega
    | ⟨1, _⟩ => show 0 * 128 ≤ (j 1).val ∧ (j 1).val < 0 * 128 + 128; omega

omit [FloatOps F] in
/-- A 256-row piece of the result array at row offset `off 0` (all 128 columns). -/
theorem mem_piece (off : Fin 2 → Nat) (h : ∀ a, off a + S256x128.size a ≤ S65536x128.size a) (hs) (j : S65536x128.Idx) :
    j ∈ ((outV).slice (Rect.unit (s := S65536x128) off S256x128.size h) hs).view.set
      ↔ (off 0 ≤ (j 0).val ∧ (j 0).val < off 0 + 256) ∧ (off 1 ≤ (j 1).val ∧ (j 1).val < off 1 + 128) := by
  show j ∈ ((View.whole main_v42_scv).slice (Rect.unit (s := S65536x128) off S256x128.size h)).set ↔ _
  rw [View.set_slice_whole, Rect.mem_set_unit]
  constructor
  · intro H; exact ⟨H 0, H 1⟩
  · rintro ⟨h0, h1⟩ a
    match a with
    | ⟨0, _⟩ => exact h0
    | ⟨1, _⟩ => exact h1

end Geometry

/-! ## Joining a trip's pieces back into the tile's rows -/

section Join

variable (d : Dev nD) (tv : Buf (Elt F) (tblLoc d)) (iv : Buf (Elt F) (idxLoc d))

/-- The rows of worker `w` below trip `k` (512 rows a trip) hold the gathered rows. -/
def doneBelow (w : Fin 32) (k : Nat) (g : Buf (Elt F) (outLoc qC d)) : Prop :=
  ∀ j ∈ rowsSet w, (j 0).val < 2048 * w.val + 512 * k → g j = gathered tv iv qC j

omit [FloatOps F] in
theorem doneBelow_zero (w : Fin 32) (g : Buf (Elt F) (outLoc qC d)) : doneBelow d tv iv w 0 g := by
  intro j hj hlt
  have := (mem_rowsSet w j).mp hj
  omega

omit [FloatOps F] in
theorem doneBelow_four (w : Fin 32) (g : Buf (Elt F) (outLoc qC d)) (h : doneBelow d tv iv w 4 g) :
    ∀ j ∈ rowsSet w, g j = gathered tv iv qC j := by
  intro j hj
  have := (mem_rowsSet w j).mp hj
  exact h j hj (by omega)

omit [FloatOps F] in
/-- A trip's first piece lies in the worker's rows; -/
theorem piece_subset (w : Fin 32) (k e : Nat) (he : e = 2048 * w.val + 512 * k) (hk : k < 4)
    (off : Fin 2 → Nat) (h : ∀ a, off a + S256x128.size a ≤ S65536x128.size a) (hs)
    (e0 : off 0 = e ∨ off 0 = e + 256) (e1 : off 1 = 0) :
    ((outV).slice (Rect.unit (s := S65536x128) off S256x128.size h) hs).view.set ⊆ rowsSet w := by
  intro j hj
  have := (mem_piece off h hs j).mp hj
  exact (mem_rowsSet w j).mpr (by omega)

omit [FloatOps F] in
/-- its second piece lies in them off the first. -/
theorem piece_subset_sdiff (w : Fin 32) (k e : Nat) (he : e = 2048 * w.val + 512 * k) (hk : k < 4)
    (off3 off4 : Fin 2 → Nat) (h3 : ∀ a, off3 a + S256x128.size a ≤ S65536x128.size a) (hs3)
    (h4 : ∀ a, off4 a + S256x128.size a ≤ S65536x128.size a) (hs4)
    (e30 : off3 0 = e) (e40 : off4 0 = e + 256) (e41 : off4 1 = 0) :
    ((outV).slice (Rect.unit (s := S65536x128) off4 S256x128.size h4) hs4).view.set
      ⊆ rowsSet w \ ((outV).slice (Rect.unit (s := S65536x128) off3 S256x128.size h3) hs3).view.set := by
  intro j hj
  have h4' := (mem_piece off4 h4 hs4 j).mp hj
  refine Finset.mem_sdiff.mpr ⟨(mem_rowsSet w j).mpr (by omega), fun hj3 => ?_⟩
  have h3' := (mem_piece off3 h3 hs3 j).mp hj3
  omega

omit [FloatOps F] in
/-- Two carved-out pieces put back at new contents. -/
theorem rejoin_two {ℓ : Loc nD τ sig} (R P3 P4 : Finset (Idx ℓ)) (hsub3 : P3 ⊆ R) (hsub4 : P4 ⊆ R \ P3) (g g3 g4 : Buf (Elt F) ℓ) :
    (iprop((ℓ ↦[P3]{fullShare} g3) ∗ (ℓ ↦[P4]{fullShare} g4) ∗ (ℓ ↦[(R \ P3) \ P4]{fullShare} g)) : sProp 𝕄)
      ⊢ ℓ ↦[R]{fullShare} (P3.piecewise g3 (P4.piecewise g4 g)) := by
  iintro ⟨H3, H4, Hr⟩
  iapply (pointsTo_join_subset (ℓ := ℓ) (q := fullShare) (I := P3) (S := R) (g := g3) (f := P4.piecewise g4 g) hsub3)
  isplitl [H3]; · iexact H3
  iapply (pointsTo_join_subset (ℓ := ℓ) (q := fullShare) (I := P4) (S := R \ P3) (g := g4) (f := g) hsub4)
  isplitl [H4]; · iexact H4
  iexact Hr

omit [FloatOps F] in
/-- Two pieces each holding the gathered rows, the rest as before, when the two pieces are all of the worker's rows
    from trip `k` up to trip `k + 1`: the rows below trip `k + 1` hold the gathered rows. -/
theorem doneBelow_step (w : Fin 32) (k : Nat) (P3 P4 : Finset (Idx (outLoc qC d)))
    (g g3 g4 : Buf (Elt F) (outLoc qC d)) (hg : doneBelow d tv iv w k g)
    (hg3 : ∀ j ∈ P3, g3 j = gathered tv iv qC j) (hg4 : ∀ j ∈ P4, g4 j = gathered tv iv qC j)
    (hcov : ∀ j : S65536x128.Idx, j ∈ rowsSet w → (j 0).val < 2048 * w.val + 512 * (k + 1) → j ∉ P3 → j ∉ P4 →
      (j 0).val < 2048 * w.val + 512 * k) :
    doneBelow d tv iv w (k + 1) (P3.piecewise g3 (P4.piecewise g4 g)) := by
  intro j hj hlt
  by_cases hj3 : j ∈ P3
  · exact (Finset.piecewise_eq_of_mem P3 g3 _ hj3).trans (hg3 j hj3)
  · refine (Finset.piecewise_eq_of_notMem P3 g3 _ hj3).trans ?_
    by_cases hj4 : j ∈ P4
    · exact (Finset.piecewise_eq_of_mem P4 g4 _ hj4).trans (hg4 j hj4)
    · exact (Finset.piecewise_eq_of_notMem P4 g4 _ hj4).trans (hg j hj (hcov j hj hlt hj3 hj4))

omit [FloatOps F] in
/-- The cover fact for a trip's two pieces. -/
theorem trip_cover (w : Fin 32) (k e : Nat) (he : e = 2048 * w.val + 512 * k)
    (off3 off4 : Fin 2 → Nat) (h3 : ∀ a, off3 a + S256x128.size a ≤ S65536x128.size a) (hs3)
    (h4 : ∀ a, off4 a + S256x128.size a ≤ S65536x128.size a) (hs4)
    (e30 : off3 0 = e) (e31 : off3 1 = 0) (e40 : off4 0 = e + 256) (e41 : off4 1 = 0) :
    ∀ j : S65536x128.Idx, j ∈ rowsSet w → (j 0).val < 2048 * w.val + 512 * (k + 1) →
      j ∉ ((outV).slice (Rect.unit (s := S65536x128) off3 S256x128.size h3) hs3).view.set →
      j ∉ ((outV).slice (Rect.unit (s := S65536x128) off4 S256x128.size h4) hs4).view.set →
      (j 0).val < 2048 * w.val + 512 * k := by
  intro j hj hlt hj3 hj4
  have hr := (mem_rowsSet w j).mp hj
  have n3 := mt (mem_piece off3 h3 hs3 j).mpr hj3
  have n4 := mt (mem_piece off4 h4 hs4 j).mpr hj4
  have := idx2_lt1 (n0 := 65536) (n1 := 128) j
  omega

end Join

end Cert.Proof.KI.C4

end
-- ==== Proof.Tile4.lean ====
/-
  One vector subcore's task in gather call 4, at a symbolic tile. Worker `w = 2 s + c` (subcore `s` of SparseCore `c`)
  fills rows `[2048 w, 2048 w + 2048)` of the result in four trips of 512 rows. A trip copies two 256-entry pieces of the
  index list into the two index scratches, starts one indirect gather of table rows per scratch, and copies each gathered
  256 x 128 block out to its rows of the result; every transfer has its own semaphore and is waited for before the next
  one on that semaphore starts. The loop's invariant carries the value: the worker's rows below the current trip already
  hold row `r ↦ table[index[r]]`; each trip extends this by its 512 rows, and after four trips it is all 2048 rows.
-/
import proofs.«214101_g10505490006249_cont_week2b_118_28_alg».proof.Proof.TileAux4

noncomputable section

namespace Cert.Proof.KI.C4

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 8) (Elt F) ℕ UU ℕ

variable [FloatOps F]

/-! ## The body -/

section Body

variable (d : Dev nD) (L : grid8.Coords)

/-- The worker number of the tile at grid point `L`. -/
abbrev wL (L : grid8.Coords) : Fin 32 := wid (cV L) (jV L)

/-! ### Call 4: the trips' offsets

The only facts about this call's printed offset functions that the body uses, read off their generated closed forms:
trip `k` of the tile at `L` works on rows `rowE L k` and `rowE L k + 256` of the result, and on the index entries
`65536 qC` beyond them. -/

/-- The first row of the result that trip `k` of the tile at `L` writes. -/
def rowE (L : grid8.Coords) (k : Fin k8_t1_loop.trips) : Nat := 4096 * (L 1).val + 2048 * (L 0).val + 512 * k.val

theorem rowE_eq (k : Fin k8_t1_loop.trips) : rowE L k = 2048 * (wL L).val + 512 * k.val := by
  have hwv : (wL L).val = (L 1).val * 2 + (L 0).val := rfl
  unfold rowE; rw [hwv]; omega
theorem trips_eq : Scf.trips k8_t1_loop.lb k8_t1_loop.ub k8_t1_loop.st = 4 := by decide
theorem trip_lt (k : Fin k8_t1_loop.trips) : k.val < 4 := Nat.lt_of_lt_of_le k.isLt k8_t1_abs.2.1
theorem offI0 (k : Fin k8_t1_loop.trips) : k8_off1 L k 0 = (qC : Fin 8).val * 65536 + rowE L k := by
  have h : k8_off1 L k 0 = 4096 * (L 1).val + 2048 * (L 0).val + 512 * k.val + 262144 := congrFun (k8_off1_eq L k) 0
  rw [qC_val, h]; unfold rowE; omega
theorem offI1 (k : Fin k8_t1_loop.trips) : k8_off2 L k 0 = (qC : Fin 8).val * 65536 + (rowE L k + 256) := by
  have h : k8_off2 L k 0 = 4096 * (L 1).val + 2048 * (L 0).val + 512 * k.val + 262400 := congrFun (k8_off2_eq L k) 0
  rw [qC_val, h]; unfold rowE; omega
theorem offO0 (k : Fin k8_t1_loop.trips) : k8_off3 L k 0 = rowE L k := congrFun (k8_off3_eq L k) 0
theorem offO0' (k : Fin k8_t1_loop.trips) : k8_off3 L k 1 = 0 := congrFun (k8_off3_eq L k) 1
theorem offO1 (k : Fin k8_t1_loop.trips) : k8_off4 L k 0 = rowE L k + 256 := congrFun (k8_off4_eq L k) 0
theorem offO1' (k : Fin k8_t1_loop.trips) : k8_off4 L k 1 = 0 := congrFun (k8_off4_eq L k) 1

omit [FloatOps F] in
theorem pts_tbl (q : PosShare TreeShare) (f : Buf (Elt F) (tblLoc d)) :
    ((tblV).view.loc (thrV d L) ↦{q} f : sProp 𝕄) = tblLoc d ↦{q} f := by
  simp only [Memref.view_whole, View.set_whole]
omit [FloatOps F] in
theorem pts_idx (q : PosShare TreeShare) (f : Buf (Elt F) (idxLoc d)) :
    ((idxV).view.loc (thrV d L) ↦{q} f : sProp 𝕄) = idxLoc d ↦{q} f := by
  simp only [Memref.view_whole, View.set_whole]

omit [FloatOps F] in
theorem pts_s0 (f : Buf (Elt F) ((thrV d L).loc cc8_scratch0)) :
    ((thrV d L).loc cc8_scratch0 ↦{fullShare} f : sProp 𝕄) = ((sI0).view.loc (thrV d L) ↦{fullShare} f) := rfl
omit [FloatOps F] in
theorem pts_s1 (f : Buf (Elt F) ((thrV d L).loc cc8_scratch1)) :
    ((thrV d L).loc cc8_scratch1 ↦{fullShare} f : sProp 𝕄) = ((sI1).view.loc (thrV d L) ↦{fullShare} f) := rfl
omit [FloatOps F] in
theorem pts_s2 (f : Buf (Elt F) ((thrV d L).loc cc8_scratch2)) :
    ((thrV d L).loc cc8_scratch2 ↦{fullShare} f : sProp 𝕄) = ((sR0).view.loc (thrV d L) ↦{fullShare} f) := rfl
omit [FloatOps F] in
theorem pts_s3 (f : Buf (Elt F) ((thrV d L).loc cc8_scratch3)) :
    ((thrV d L).loc cc8_scratch3 ↦{fullShare} f : sProp 𝕄) = ((sR1).view.loc (thrV d L) ↦{fullShare} f) := rfl

/-- The two 256-row pieces of the result array that trip `k` writes, as the program slices them. -/
abbrev o3 (k : Fin k8_t1_loop.trips) : Memref sig .scVector .hbm S256x128 .f32 :=
  outV.slice (Rect.unit (s := S65536x128) (k8_off3 L k) S256x128.size (k8_off3_inb L k)) (fun _ => rfl)
abbrev o4 (k : Fin k8_t1_loop.trips) : Memref sig .scVector .hbm S256x128 .f32 :=
  outV.slice (Rect.unit (s := S65536x128) (k8_off4 L k) S256x128.size (k8_off4_inb L k)) (fun _ => rfl)

/-- The loop's invariant: the table and the index list at their read shares, the tile's rows of the result with the
    rows below the trip gathered, the four scratches at some contents, the six semaphores at zero, and what the tile owes. -/
def inv (qs : PosShare TreeShare) (tv : Buf (Elt F) (tblLoc d)) (iv : Buf (Elt F) (idxLoc d))
    (O : CellTallies nD τ sig (HIx 8)) (W : Waits sig (HIx 8)) (k : Nat) (_ : PUnit) : sProp 𝕄 :=
  iprop(Transfers.MayWaits (thrV d L) (none : HIx 8) O
    ∗ ((tblV).view.loc (thrV d L) ↦{qs} tv)
    ∗ ((idxV).view.loc (thrV d L) ↦{qs} iv)
    ∗ (∃ g, ⌜doneBelow d tv iv (wL L) k g⌝ ∗ outLoc qC d ↦[rowsSet (wL L)]{fullShare} g)
    ∗ (∃ f, (sI0).view.loc (thrV d L) ↦{fullShare} f)
    ∗ (∃ f, (sI1).view.loc (thrV d L) ↦{fullShare} f)
    ∗ (∃ f, (sR0).view.loc (thrV d L) ↦{fullShare} f)
    ∗ (∃ f, (sR1).view.loc (thrV d L) ↦{fullShare} f)
    ∗ semVal (cell d L cc8_scratch4) 0 ∗ semVal (cell d L cc8_scratch5) 0 ∗ semVal (cell d L cc8_scratch6) 0
    ∗ semVal (cell d L cc8_scratch7) 0 ∗ semVal (cell d L cc8_scoped0) 0 ∗ semVal (cell d L cc8_scoped1) 0
    ∗ ∃ W', ⌜∀ p ∈ W', p ∈ W ∨ p.2 = none⌝ ∗ owes (thrV d L) O W')

omit [FloatOps F] in
/-- Whatever an index scratch held before, after a 256-entry piece of the index list is copied into it every word it
    holds names a row of the table. -/
theorem idx_inb (iv : Buf (Elt F) (idxLoc d)) (hin : ∀ e, (iv e).toNat < 32768)
    (c : Thread nD τ) (m : Memref sig c.2.kind .vmem S256 .i32) (f : Buf (Elt F) (m.view.loc c))
    (off : Fin 1 → Nat) (h : ∀ a, off a + S256.size a ≤ S524288.size a) (hs) (x : S256.Idx) :
    (m.view.read (Elt F) (m.view.write (Elt F) f
      (ReadAs.same.apply (((idxV).slice (Rect.unit (s := S524288) off S256.size h) hs).view.read (Elt F) iv)) Finset.univ) x).toNat < 32768 := by
  rw [View.read_write_univ, ReadAs.apply_same, View.read_apply]
  exact hin _
set_option maxHeartbeats 2000000 in
theorem tile_body (qs : PosShare TreeShare) (tv : Buf (Elt F) (tblLoc d)) (iv : Buf (Elt F) (idxLoc d))
    (hin : ∀ e, (iv e).toNat < 32768) (O : CellTallies nD τ sig (HIx 8)) (W : Waits sig (HIx 8)) (hO : ∀ g, O g none = 0) :
    (iprop(levAts (K (F := F)).L (K (F := F)).lev ∗ emp
        ∗ ((tblLoc d ↦{qs} tv) ∗ (idxLoc d ↦{qs} iv) ∗ ∃ f, outLoc qC d ↦[rowsSet (wL L)]{fullShare} f)
        ∗ scopedBufs (thrV d L) ∗ scopedSems0 (thrV d L) ∗ owes (thrV d L) O W) : sProp 𝕄)
      ⊢ wp frame (wpE (defs₀ (F := F)) 𝒱₀ (thrV d L) none) Set.univ
          (cc8_gather_kernel L tblV (Memref.isWhole_whole _) idxV (Memref.isWhole_whole _) outV (Memref.isWhole_whole _)
            sI0 (Memref.isWhole_whole _) sI1 (Memref.isWhole_whole _) sR0 (Memref.isWhole_whole _) sR1 (Memref.isWhole_whole _)
            cc8_scratch4 cc8_scratch5 cc8_scratch6 cc8_scratch7 cc8_scoped0 cc8_scoped1)
          fun _ => iprop(((tblLoc d ↦{qs} tv) ∗ (idxLoc d ↦{qs} iv) ∗ outLoc qC d ↦[rowsSet (wL L)]{fullShare} gathered tv iv qC)
            ∗ scopedBufs (thrV d L) ∗ scopedSems0 (thrV d L) ∗ ∃ W', ⌜∀ p ∈ W', p ∈ W ∨ p.2 = none⌝ ∗ owes (thrV d L) O W') := by
  simp only [cc8_gather_kernel_eq_skeleton]; unfold cc8_gather_kernel_skel
  rw [(K (F := F)).scopedBufs_V facts d (cV L) (jV L), SparseCore.Cfg.scopedSems0_V (Val := Elt F) d (cV L) (jV L), ownSems0_V, ownBufs_V]
  iintro ⟨#Hlv, -, ⟨Ht, Hi, %fo, Ho⟩, ⟨⟨%f0, Hb0⟩, ⟨%f1, Hb1⟩, ⟨%f2, Hb2⟩, ⟨%f3, Hb3⟩, Hbufs⟩, ⟨Hs4, Hs5, Hs6, Hs7, Hs8, Hs9, Hsems⟩, HO⟩
  ihave Hmw := ((K (F := F)).mayWaits_none (thr := thrV d L) hO) $$ Hlv
  ihave Ht' := (Entails.of_eq (pts_tbl (F := F) d L _ _).symm) $$ Ht
  ihave Hi' := (Entails.of_eq (pts_idx (F := F) d L _ _).symm) $$ Hi
  ihave Hb0' := (Entails.of_eq (pts_s0 (F := F) d L f0)) $$ Hb0
  ihave Hb1' := (Entails.of_eq (pts_s1 (F := F) d L f1)) $$ Hb1
  ihave Hb2' := (Entails.of_eq (pts_s2 (F := F) d L f2)) $$ Hb2
  ihave Hb3' := (Entails.of_eq (pts_s3 (F := F) d L f3)) $$ Hb3
  sl_exec
  sl_for (inv d L qs tv iv O W) $$ [Hmw Ht' Hi' Ho Hb0' Hb1' Hb2' Hb3' Hs4 Hs5 Hs6 Hs7 Hs8 Hs9 HO]
  case region =>
    intro k _
    unfold inv
    iintro ⟨Hmw, Ht, Hi, ⟨%g, %hg, Ho⟩, ⟨%f0, Hb0⟩, ⟨%f1, Hb1⟩, ⟨%f2, Hb2⟩, ⟨%f3, Hb3⟩, Hs4, Hs5, Hs6, Hs7, Hs8, Hs9, %W', %hW', HO⟩
    -- the trip's offsets: the row pieces start at rows `rowE` and `rowE + 256`, the index pieces `65536 qC` entries beyond
    have o30 := offO0 L k
    have o31 := offO0' L k
    have o40 := offO1 L k
    have o41 := offO1' L k
    have hE := rowE_eq L k
    have hk := trip_lt k
    have e13 : k8_off1 L k 0 = (qC : Fin 8).val * 65536 + k8_off3 L k 0 := by rw [offI0, o30]
    have e24 : k8_off2 L k 0 = (qC : Fin 8).val * 65536 + k8_off4 L k 0 := by rw [offI1, o40]
    have hsub3 : (o3 L k).view.set ⊆ rowsSet (wL L) :=
      piece_subset (wL L) k.val _ hE hk (k8_off3 L k) (k8_off3_inb L k) (fun _ => rfl) (.inl o30) o31
    have hsub4 : (o4 L k).view.set ⊆ rowsSet (wL L) \ (o3 L k).view.set :=
      piece_subset_sdiff (wL L) k.val _ hE hk (k8_off3 L k) (k8_off4 L k) (k8_off3_inb L k) (fun _ => rfl) (k8_off4_inb L k) (fun _ => rfl) o30 o40 o41
    ihave Ho' := (pointsTo_split_subset (ℓ := outLoc qC d) (q := fullShare) (f := g) (I := (o3 L k).view.set) (S := rowsSet (wL L)) hsub3).1 $$ Ho
    icases Ho' with ⟨Ho3, Hor⟩
    ihave Hor' := (pointsTo_split_subset (ℓ := outLoc qC d) (q := fullShare) (f := g) (I := (o4 L k).view.set) (S := rowsSet (wL L) \ (o3 L k).view.set) hsub4).1 $$ Hor
    icases Hor' with ⟨Ho4, Hor⟩
    ihave Ho3' := (Entails.of_eq (show (outLoc qC d ↦[(o3 L k).view.set]{fullShare} g : sProp 𝕄) = ((o3 L k).view.loc (thrV d L) ↦[(o3 L k).view.set]{fullShare} g) from rfl)) $$ Ho3
    ihave Ho4' := (Entails.of_eq (show (outLoc qC d ↦[(o4 L k).view.set]{fullShare} g : sProp 𝕄) = ((o4 L k).view.loc (thrV d L) ↦[(o4 L k).view.set]{fullShare} g) from rfl)) $$ Ho4
    -- the words each index scratch holds once its piece of the list has landed name rows of the table
    have hin0 : ∀ x : S256.Idx, ((sI0).view.read (Elt F) ((sI0).view.write (Elt F) f0 (ReadAs.same.apply (((idxV).slice
        (Rect.unit (s := S524288) (k8_off1 L k) S256.size (k8_off1_inb L k)) (fun _ => rfl)).view.read (Elt F) iv)) Finset.univ) x).toNat < 32768 :=
      idx_inb (F := F) d iv hin (thrV d L) sI0 f0 _ _ _
    have hin1 : ∀ x : S256.Idx, ((sI1).view.read (Elt F) ((sI1).view.write (Elt F) f1 (ReadAs.same.apply (((idxV).slice
        (Rect.unit (s := S524288) (k8_off2 L k) S256.size (k8_off2_inb L k)) (fun _ => rfl)).view.read (Elt F) iv)) Finset.univ) x).toNat < 32768 :=
      idx_inb (F := F) d iv hin (thrV d L) sI1 f1 _ _ _
    -- both gathers read the table while the other is outstanding: a read share each
    ihave Ht2 := (pointsTo_share (ℓ := (tblV).view.loc (thrV d L)) (I := Finset.univ) (f := tv) (PosShare.mem_left_op_right qs)).1 $$ Ht
    icases Ht2 with ⟨Hta, Htb⟩
    -- what the two copy-outs leave in their pieces is the gathered rows
    have hgth : S32768x128.Gathers 0 S256x128 := by decide
    have hg3 := fun j hj => piece_gathered (F := F) d tv iv hin (thrV d L) sI0 f0 sR0 f2 (k8_off1 L k) (k8_off1_inb L k) (fun _ => rfl)
      inb_S32768x128_S32768x128_0_0 (fun _ => rfl) hgth rfl hin0 (k8_off3 L k) (k8_off3_inb L k) (fun _ => rfl) e13 o31 g j hj
    have hg4 := fun j hj => piece_gathered (F := F) d tv iv hin (thrV d L) sI1 f1 sR1 f3 (k8_off2 L k) (k8_off2_inb L k) (fun _ => rfl)
      inb_S32768x128_S32768x128_0_0 (fun _ => rfl) hgth rfl hin1 (k8_off4 L k) (k8_off4_inb L k) (fun _ => rfl) e24 o41 g j hj
    sl_exec
    sl_step
    isplitl [Hmw]; · iexact Hmw
    isplitl [Hta Htb]
    · iapply (pointsTo_share (ℓ := (tblV).view.loc (thrV d L)) (I := Finset.univ) (f := tv) (PosShare.mem_left_op_right qs)).2
      isplitl [Hta]; · iexact Hta
      iexact Htb
    isplitl [Hi]; · iexact Hi
    isplitl [Ho3' Ho4' Hor]
    · ihave Hj := (rejoin_two (F := F) (ℓ := outLoc qC d) (rowsSet (wL L)) (o3 L k).view.set (o4 L k).view.set hsub3 hsub4 g _ _) $$ [Ho3' Ho4' Hor]
      · isplitl [Ho3']; · iexact Ho3'
        isplitl [Ho4']; · iexact Ho4'
        iexact Hor
      iexists _
      isplitr
      · ipureintro
        exact doneBelow_step (F := F) d tv iv (wL L) k.val (o3 L k).view.set (o4 L k).view.set g _ _ hg hg3 hg4
          (trip_cover (wL L) k.val _ hE (k8_off3 L k) (k8_off4 L k) (k8_off3_inb L k) (fun _ => rfl) (k8_off4_inb L k) (fun _ => rfl) o30 o31 o40 o41)
      · iexact Hj
    isplitl [Hb0]; · iexists _; iexact Hb0
    isplitl [Hb1]; · iexists _; iexact Hb1
    isplitl [Hb2]; · iexists _; iexact Hb2
    isplitl [Hb3]; · iexists _; iexact Hb3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    iexists _; isplitr
    swap
    · iexact HO
    · ipureintro; intro p hp
      simp only [Finset.mem_insert] at hp
      rcases hp with rfl | rfl | rfl | rfl | rfl | rfl | hp
      · exact .inr rfl
      · exact .inr rfl
      · exact .inr rfl
      · exact .inr rfl
      · exact .inr rfl
      · exact .inr rfl
      · exact hW' p hp
  · unfold inv
    isplitl [Hmw]; · iexact Hmw
    isplitl [Ht']; · iexact Ht'
    isplitl [Hi']; · iexact Hi'
    isplitl [Ho]
    · iexists fo; isplitr
      · ipureintro; exact doneBelow_zero d tv iv (wL L) fo
      · iexact Ho
    isplitl [Hb0']; · iexists f0; iexact Hb0'
    isplitl [Hb1']; · iexists f1; iexact Hb1'
    isplitl [Hb2']; · iexists f2; iexact Hb2'
    isplitl [Hb3']; · iexists f3; iexact Hb3'
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    iexists W; isplitr
    · ipureintro; exact fun p hp => .inl hp
    · iexact HO
  iintro %_ HI
  unfold inv
  icases HI with ⟨-, Ht, Hi, ⟨%g, %hg, Ho⟩, ⟨%f0', Hb0⟩, ⟨%f1', Hb1⟩, ⟨%f2', Hb2⟩, ⟨%f3', Hb3⟩, Hs4, Hs5, Hs6, Hs7, Hs8, Hs9, %W', %hW', HO⟩
  rw [trips_eq] at hg
  sl_exec
  sl_step
  isplitl [Ht Hi Ho]
  · isplitl [Ht]; · iapply (Entails.of_eq (pts_tbl (F := F) d L _ _)); iexact Ht
    isplitl [Hi]; · iapply (Entails.of_eq (pts_idx (F := F) d L _ _)); iexact Hi
    iapply (Entails.of_eq (pointsTo_congr (ℓ := outLoc qC d) (q := fullShare) (I := rowsSet (wL L)) (doneBelow_four d tv iv (wL L) g hg)))
    iexact Ho
  isplitl [Hb0 Hb1 Hb2 Hb3 Hbufs]
  · isplitl [Hb0]; · iexists f0'; iapply (Entails.of_eq (pts_s0 (F := F) d L f0').symm); iexact Hb0
    isplitl [Hb1]; · iexists f1'; iapply (Entails.of_eq (pts_s1 (F := F) d L f1').symm); iexact Hb1
    isplitl [Hb2]; · iexists f2'; iapply (Entails.of_eq (pts_s2 (F := F) d L f2').symm); iexact Hb2
    isplitl [Hb3]; · iexists f3'; iapply (Entails.of_eq (pts_s3 (F := F) d L f3').symm); iexact Hb3
    iexact Hbufs
  isplitl [Hs4 Hs5 Hs6 Hs7 Hs8 Hs9 Hsems]
  · isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    iexact Hsems
  iexists W'; isplitr
  · ipureintro; exact hW'
  · iexact HO

end Body

end Cert.Proof.KI.C4

end
-- ==== Proof.TileObl4.lean ====
/-
  The launch theorem's obligation for gather call 4: a tile's task, entered through the body table, is the kernel's
  body at that tile, run on the tile's share of the table and the index list and on its worker's rows.
-/
import proofs.«214101_g10505490006249_cont_week2b_118_28_alg».proof.Proof.Launch
import proofs.«214101_g10505490006249_cont_week2b_118_28_alg».proof.Proof.Tile4
import proofs.«214101_g10505490006249_cont_week2b_118_28_alg».proof.Proof.TileObl0

noncomputable section

namespace Cert.Proof.KI.C4

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Transfers (shareTok shareDrop pointsTo_toks_split pointsTo_toks_join)

variable {F : FTy → Type}

local notation "𝕄" => MT nD τ sig (HIx 8) (Elt F) ℕ UU ℕ

variable [FloatOps F]
variable (tv : (d : Dev nD) → S32768x128.Idx → Elt F .f32) (iv : (d : Dev nD) → S524288.Idx → Elt F .i32)

/-- A tile's grid coordinates from its SparseCore and subcore numbers. -/
def coordsV (c : Fin (grid8.bound 0)) (s : Fin (grid8.bound 1)) : grid8.Coords :=
  fun | 0 => c | 1 => s | ⟨_ + 2, h⟩ => absurd h (Nat.not_lt.2 (Nat.le_add_left _ _))

theorem defs₀_vector4 (c : Fin τ.nSC) (s : Fin τ.nSub) :
    defs₀ (F := F) (.scVector c s) 8 ()
      = SparseCore.onTile hcore8 hsub8 (fun c s => cc8_gather_kernel (coordsV c s)
          tblV (Memref.isWhole_whole _) idxV (Memref.isWhole_whole _) outV (Memref.isWhole_whole _)
          sI0 (Memref.isWhole_whole _) sI1 (Memref.isWhole_whole _) sR0 (Memref.isWhole_whole _) sR1 (Memref.isWhole_whole _)
          cc8_scratch4 cc8_scratch5 cc8_scratch6 cc8_scratch7 cc8_scoped0 cc8_scoped1) ⟨⟩ c s := rfl

/-- Call 4's tile obligation. -/
theorem tileObl4 (hin : ∀ d e, (iv d e).toNat < 32768) : (K (F := F)).TileObl (D (F := F)) 𝒱 (P (F := F) tv iv) v₀ 4 := by
  intro d c i O W hO _ _
  -- the gather kernel owes nothing for a protocol of its own
  simp only [show (P (F := F) tv iv).ox = fun _ _ => 0 from rfl, add_zero]
  change _ ⊢ wp _ _ _ (Pipeline.liftProg (defs₀ (F := F) (.scVector ((K (F := F)).core 4 c) ((K (F := F)).sub 4 i)) 8 ())) _
  refine BI.Entails.trans ?_ (Pipeline.wp_liftProg (D (F := F)) (Pipeline.defs_kernel pcfgs defs₀) 𝒱₀ _ Set.univ none _ _)
  have hc : ((K (F := F)).core 4 c).val < grid8.bound 0 ∧ ((K (F := F)).sub 4 i).val < grid8.bound 1 := ⟨c.isLt, i.isLt⟩
  rw [defs₀_vector4]; simp only [SparseCore.onTile, hc, and_self, ↓reduceDIte]
  exact (tile_body d (coordsV ⟨_, hc.1⟩ ⟨_, hc.2⟩) (shT (cC 4 c) (sS 4 i)) (tv d) (iv d) (hin d) O W hO).trans (wp_mono frame _ _ fun _ => obl_post)

end Cert.Proof.KI.C4

end
-- ==== Proof.TileAux5.lean ====
/-
  One vector subcore's share of a gather call, the pure part: how the subcore's scoped semaphores and scratch buffers are
  opened, what an indirect gather of 256 table rows delivers element by element, which elements of the result array a
  trip's two copy-outs write, and how those pieces rejoin the subcore's 2048 rows of the result.
-/
import proofs.«214101_g10505490006249_cont_week2b_118_28_alg».proof.Proof.Setup

noncomputable section

namespace Cert.Proof.KI.C5

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 8) (Elt F) ℕ UU ℕ

/-! ## The names of gather call 5

Everything that is particular to this one of the eight gather calls is named here (and, for the trips' offsets, at the
top of the body's module): the call's number, its result array, its scratch buffers. The text below speaks of the call
only through these names and through the program's own `cc10_…` / `k10_…` names. -/

/-- The number of this gather call among the eight: it reads index entries `65536 qC + …` and fills result array `qC`. -/
abbrev qC : Fin 8 := 5
theorem qC_val : (qC : Fin 8).val = 5 := rfl

abbrev tblV : Memref sig .scVector .hbm S32768x128 .f32 := Memref.whole main_v10_scv
abbrev idxV : Memref sig .scVector .hbm S524288 .i32 := Memref.whole main_v6_scv
abbrev outV : Memref sig .scVector .hbm S65536x128 .f32 := Memref.whole main_v44_scv
abbrev sI0 : Memref sig .scVector .vmem S256 .i32 := Memref.whole cc10_scratch0
abbrev sI1 : Memref sig .scVector .vmem S256 .i32 := Memref.whole cc10_scratch1
abbrev sR0 : Memref sig .scVector .vmem S256x128 .f32 := Memref.whole cc10_scratch2
abbrev sR1 : Memref sig .scVector .vmem S256x128 .f32 := Memref.whole cc10_scratch3

abbrev cV (L : grid10.Coords) : Fin τ.nSC := (L 0).castLE hcore10
abbrev jV (L : grid10.Coords) : Fin τ.nSub := (L 1).castLE hsub10
abbrev thrV (d : Dev nD) (L : grid10.Coords) : Thread nD τ := V d (cV L) (jV L)

variable [FloatOps F]

/-! ## The tile's own semaphores and scratch buffers -/

section Own

variable (d : Dev nD) (L : grid10.Coords)

/-- The cell of one of the tile's DMA semaphores. -/
abbrev cell (sm : DmaSems sig S_) : GSem nD τ sig := (thrV d L, .dma sm.sem)

omit [FloatOps F] in
theorem cell_mem {sm : DmaSems sig S_} (h : (SemLoc.dma sm.sem : SemLoc sig).isScoped .scVector = true) :
    cell d L sm ∈ ownCells (sig := sig) (thrV d L) := (mem_ownCells (g := cell d L sm)).mpr ⟨rfl, h⟩

theorem cell_ne {a b : DmaSems sig S_} (h : (SemLoc.dma a.sem : SemLoc sig) ≠ .dma b.sem) : cell d L a ≠ cell d L b :=
  fun e => h (Prod.mk.inj e).2

/-- The tile's scoped cells other than the six the gather uses. -/
abbrev restCells : Finset (GSem nD τ sig) :=
  ((((((ownCells (thrV d L)).erase (cell d L cc10_scratch4)).erase (cell d L cc10_scratch5)).erase (cell d L cc10_scratch6)).erase
    (cell d L cc10_scratch7)).erase (cell d L cc10_scoped0)).erase (cell d L cc10_scoped1)

theorem ownSems0_V :
    (ownSems0 (thrV d L) : sProp 𝕄)
      = iprop(semVal (cell d L cc10_scratch4) 0 ∗ semVal (cell d L cc10_scratch5) 0 ∗ semVal (cell d L cc10_scratch6) 0
          ∗ semVal (cell d L cc10_scratch7) 0 ∗ semVal (cell d L cc10_scoped0) 0 ∗ semVal (cell d L cc10_scoped1) 0
          ∗ bigSep (restCells d L) fun g => semVal g 0) := by
  unfold SparseCore.Cfg.ownSems0
  have m4 := cell_mem d L (sm := cc10_scratch4) (by decide)
  have m5 := cell_mem d L (sm := cc10_scratch5) (by decide)
  have m6 := cell_mem d L (sm := cc10_scratch6) (by decide)
  have m7 := cell_mem d L (sm := cc10_scratch7) (by decide)
  have m8 := cell_mem d L (sm := cc10_scoped0) (by decide)
  have m9 := cell_mem d L (sm := cc10_scoped1) (by decide)
  rw [SparseCore.bigSep_erase' m4,
    SparseCore.bigSep_erase' (Finset.mem_erase.mpr ⟨cell_ne d L (by decide), m5⟩),
    SparseCore.bigSep_erase' (Finset.mem_erase.mpr ⟨cell_ne d L (by decide), Finset.mem_erase.mpr ⟨cell_ne d L (by decide), m6⟩⟩),
    SparseCore.bigSep_erase' (Finset.mem_erase.mpr ⟨cell_ne d L (by decide), Finset.mem_erase.mpr ⟨cell_ne d L (by decide),
      Finset.mem_erase.mpr ⟨cell_ne d L (by decide), m7⟩⟩⟩),
    SparseCore.bigSep_erase' (Finset.mem_erase.mpr ⟨cell_ne d L (by decide), Finset.mem_erase.mpr ⟨cell_ne d L (by decide),
      Finset.mem_erase.mpr ⟨cell_ne d L (by decide), Finset.mem_erase.mpr ⟨cell_ne d L (by decide), m8⟩⟩⟩⟩),
    SparseCore.bigSep_erase' (Finset.mem_erase.mpr ⟨cell_ne d L (by decide), Finset.mem_erase.mpr ⟨cell_ne d L (by decide),
      Finset.mem_erase.mpr ⟨cell_ne d L (by decide), Finset.mem_erase.mpr ⟨cell_ne d L (by decide),
      Finset.mem_erase.mpr ⟨cell_ne d L (by decide), m9⟩⟩⟩⟩⟩)]

/-- One of the tile's scratch buffers, as a buffer of the device. -/
abbrev sref (b : Ref sig .scVector) : DevRef τ sig := (Proc.scVector (cV L) (jV L)).devRef b

theorem sref_mem {b : Ref sig .scVector} (h : (sref L b).owner = .proc (.scVector (cV L) (jV L))) :
    sref L b ∈ ownRefs (sig := sig) (τ := τ) (.scVector (cV L) (jV L)) :=
  SparseCore.Cfg.mem_ownRefs_of_owner (p := Proc.scVector (cV L) (jV L)) (b := sref L b) h

theorem sref_ne {a b : Ref sig .scVector} (h : a ≠ b) : sref L a ≠ sref L b := fun e => h (Proc.devRef_injective _ e)

/-- The tile's own buffers other than the gather's four scratches. -/
abbrev restRefs : Finset (DevRef τ sig) :=
  ((((ownRefs (τ := τ) (.scVector (cV L) (jV L))).erase (sref L cc10_scratch0)).erase (sref L cc10_scratch1)).erase (sref L cc10_scratch2)).erase
    (sref L cc10_scratch3)

theorem ownBufs_V :
    (ownBufs (thrV d L) : sProp 𝕄)
      = iprop((∃ f, (thrV d L).loc cc10_scratch0 ↦{fullShare} f) ∗ (∃ f, (thrV d L).loc cc10_scratch1 ↦{fullShare} f)
          ∗ (∃ f, (thrV d L).loc cc10_scratch2 ↦{fullShare} f) ∗ (∃ f, (thrV d L).loc cc10_scratch3 ↦{fullShare} f)
          ∗ bigSep (restRefs L) fun b => iprop(∃ f, ((d, b) : Loc nD τ sig) ↦{fullShare} f)) := by
  unfold SparseCore.Cfg.ownBufs
  refine (SparseCore.bigSep_erase' (sref_mem L (b := cc10_scratch0) rfl)).trans ?_
  rw [SparseCore.bigSep_erase' (Finset.mem_erase.mpr ⟨sref_ne L (show (cc10_scratch1 : Ref sig .scVector) ≠ cc10_scratch0 by decide), sref_mem L (b := cc10_scratch1) rfl⟩),
    SparseCore.bigSep_erase' (Finset.mem_erase.mpr ⟨sref_ne L (show (cc10_scratch2 : Ref sig .scVector) ≠ cc10_scratch1 by decide),
      Finset.mem_erase.mpr ⟨sref_ne L (show (cc10_scratch2 : Ref sig .scVector) ≠ cc10_scratch0 by decide), sref_mem L (b := cc10_scratch2) rfl⟩⟩),
    SparseCore.bigSep_erase' (Finset.mem_erase.mpr ⟨sref_ne L (show (cc10_scratch3 : Ref sig .scVector) ≠ cc10_scratch2 by decide),
      Finset.mem_erase.mpr ⟨sref_ne L (show (cc10_scratch3 : Ref sig .scVector) ≠ cc10_scratch1 by decide),
      Finset.mem_erase.mpr ⟨sref_ne L (show (cc10_scratch3 : Ref sig .scVector) ≠ cc10_scratch0 by decide), sref_mem L (b := cc10_scratch3) rfl⟩⟩⟩)]

end Own

/-! ## What one gather delivers -/

section Value

variable (d : Dev nD) (tv : Buf (Elt F) (tblLoc d)) (iv : Buf (Elt F) (idxLoc d))

omit [FloatOps F] in
/-- Entry `y` of the 256-entry piece of the index list that starts at `off` is entry `off + y` of the list. -/
theorem idxPiece_read (off : Fin 1 → Nat) (h : ∀ a, off a + S256.size a ≤ S524288.size a) (hs) (y : S256.Idx) :
    ((idxV).slice (Rect.unit (s := S524288) off S256.size h) hs).view.read (Elt F) iv y
      = iv (ix1 ⟨off 0 + (y 0).val, by have := h 0; have := (y 0).isLt; exact Nat.lt_of_lt_of_le (Nat.add_lt_add_left this _) (h 0)⟩) := by
  rw [View.read_apply]
  refine congrArg iv (funext fun a => ?_)
  match a with
  | ⟨0, _⟩ => exact Fin.ext (by show off 0 + 1 * (y 0).val = off 0 + (y 0).val; omega)

omit [FloatOps F] in
/-- The gather's payload at an index: row `x 0` of the scratch receives the table's row named by entry `off + x 0` of
    the index list, when the index scratch was filled with the 256 entries from `off`. -/
theorem gather_apply (hin : ∀ e, (iv e).toNat < 32768)
    (c : Thread nD τ) (sI : Memref sig c.2.kind .vmem S256 .i32) (fI : Buf (Elt F) (sI.view.loc c))
    (off : Fin 1 → Nat) (h : ∀ a, off a + S256.size a ≤ S524288.size a) (hs) (h7) (h8)
    (hg : S32768x128.Gathers 0 S256x128) (hn : S256.numel = S256x128.size hg.axis')
    (hinI : ∀ x, ((sI.view.read (Elt F) (sI.view.write (Elt F) fI
      (ReadAs.same.apply (((idxV).slice (Rect.unit (s := S524288) off S256.size h) hs).view.read (Elt F) iv)) Finset.univ)) x).toNat
        < S32768x128.size hg.axis)
    (x : S256x128.Idx) :
    SparseCore.gatherPayload hg (((tblV).slice (Rect.unit (s := S32768x128) ![0, 0] S32768x128.size h7) h8).view.read (Elt F) tv)
        (SparseCore.rows (sI.view.read (Elt F) (sI.view.write (Elt F) fI
          (ReadAs.same.apply (((idxV).slice (Rect.unit (s := S524288) off S256.size h) hs).view.read (Elt F) iv)) Finset.univ)) hn hinI) x
      = tv (ix2 (rowOf (iv (ix1 ⟨off 0 + (x 0).val, by
          have := h 0; have := idx2_lt0 (n0 := 256) (n1 := 128) x
          exact Nat.lt_of_lt_of_le (Nat.add_lt_add_left this _) (h 0)⟩))) (x 1)) := by
  unfold SparseCore.gatherPayload
  rw [View.read_apply]
  refine congrArg tv (funext fun a => ?_)
  have hy0 : ((S256.rowMajor.symm ((x hg.axis').cast hn.symm)) 0).val = (x 0).val := by
    have e := Shape.rowMajor_val_one (d := ![256]) (S256.rowMajor.symm ((x hg.axis').cast hn.symm))
    rw [Equiv.apply_symm_apply] at e
    exact e.symm
  match a with
  | ⟨0, _⟩ =>
    apply Fin.ext
    show 0 + 1 * (hg.idx _ x hg.axis).val = _
    rw [Shape.Gathers.idx_axis]
    show 0 + 1 * ((sI.view.read (Elt F) (sI.view.write (Elt F) fI (ReadAs.same.apply
      (((idxV).slice (Rect.unit (s := S524288) off S256.size h) hs).view.read (Elt F) iv)) Finset.univ))
        (S256.rowMajor.symm ((x hg.axis').cast hn.symm))).toNat = (iv (ix1 ⟨off 0 + (x 0).val, _⟩)).toNat % 32768
    rw [View.read_write_univ, ReadAs.apply_same, idxPiece_read, Nat.mod_eq_of_lt (hin _), Nat.zero_add, Nat.one_mul]
    exact congrArg (fun n : Fin 524288 => (iv (ix1 n)).toNat) (Fin.ext (by show off 0 + _ = off 0 + _; rw [hy0]))
  | ⟨1, _⟩ =>
    apply Fin.ext
    show 0 + 1 * (hg.idx _ x ⟨1, by decide⟩).val = (x 1).val
    rw [Shape.Gathers.idx_of_ne hg _ x ⟨1, by decide⟩ (by decide), Nat.zero_add, Nat.one_mul]
    rfl

end Value

/-! ## What a trip leaves in one 256-row piece of the result -/

section Piece

variable (d : Dev nD) (tv : Buf (Elt F) (tblLoc d)) (iv : Buf (Elt F) (idxLoc d))

omit [FloatOps F] in
/-- A row scratch written whole with `p`, copied whole onto a 256-row piece of the result: the piece's element under `x`
    holds `p x`. -/
theorem out_piece_apply (c : Thread nD τ) (sR : Memref sig c.2.kind .vmem S256x128 .f32) (fR : Buf (Elt F) (sR.view.loc c))
    (p : S256x128.Idx → Elt F .f32) (off : Fin 2 → Nat) (h : ∀ a, off a + S256x128.size a ≤ S65536x128.size a) (hs)
    (g : Buf (Elt F) (outLoc qC d)) (x : S256x128.Idx) :
    (((outV).slice (Rect.unit (s := S65536x128) off S256x128.size h) hs).view.writes (Elt F) g
        [⟨Rect.whole S256x128, ReadAs.same.apply (sR.view.read (Elt F) (sR.view.writes (Elt F) fR [⟨Rect.whole S256x128, p⟩]))⟩])
      (((outV).slice (Rect.unit (s := S65536x128) off S256x128.size h) hs).view.emb x) = p x := by
  have e1 := congrFun (View.read_writes_whole ((outV).slice (Rect.unit (s := S65536x128) off S256x128.size h) hs).view g
    (ReadAs.same.apply (sR.view.read (Elt F) (sR.view.writes (Elt F) fR [⟨Rect.whole S256x128, p⟩])))) x
  rw [View.read_apply] at e1
  refine (show _ = _ from e1).trans ?_
  rw [ReadAs.apply_same]
  exact congrFun (View.read_writes_whole sR.view fR p) x

omit [FloatOps F] in
/-- The gathered result at the element of a piece under `x`, when the index piece starts `65536 qC` entries beyond the
    row the piece starts at (call `qC`'s share of the index list). -/
theorem gathered_emb (off1 : Fin 1 → Nat) (off : Fin 2 → Nat) (h : ∀ a, off a + S256x128.size a ≤ S65536x128.size a) (hs)
    (e0 : off1 0 = (qC : Fin 8).val * 65536 + off 0) (e1 : off 1 = 0) (x : S256x128.Idx) (hlt : off1 0 + (x 0).val < 524288) :
    gathered tv iv qC (((outV).slice (Rect.unit (s := S65536x128) off S256x128.size h) hs).view.emb x)
      = tv (ix2 (rowOf (iv (ix1 ⟨off1 0 + (x 0).val, hlt⟩))) (x 1)) := by
  obtain ⟨j, hj⟩ : ∃ j : S65536x128.Idx, j = ((outV).slice (Rect.unit (s := S65536x128) off S256x128.size h) hs).view.emb x := ⟨_, rfl⟩
  have j0 : (j 0).val = off 0 + 1 * (x 0).val := by rw [hj]; rfl
  have j1 : (j 1).val = off 1 + 1 * (x 1).val := by rw [hj]; rfl
  rw [← hj]
  unfold gathered
  have a : ∀ hb, (⟨(qC : Fin 8).val * 65536 + (j 0).val, hb⟩ : Fin 524288) = ⟨off1 0 + (x 0).val, hlt⟩ := fun _ =>
    Fin.ext (by show (qC : Fin 8).val * 65536 + (j 0).val = off1 0 + (x 0).val; rw [j0, e0]; omega)
  have b : j 1 = x 1 := Fin.ext (by rw [j1, e1]; omega)
  rw [a, b]

omit [FloatOps F] in
/-- After a trip's gather and copy-out, every element of the 256-row piece holds the gathered result. -/
theorem piece_gathered (hin : ∀ e, (iv e).toNat < 32768)
    (c : Thread nD τ) (sI : Memref sig c.2.kind .vmem S256 .i32) (fI : Buf (Elt F) (sI.view.loc c))
    (sR : Memref sig c.2.kind .vmem S256x128 .f32) (fR : Buf (Elt F) (sR.view.loc c))
    (off1 : Fin 1 → Nat) (h1 : ∀ a, off1 a + S256.size a ≤ S524288.size a) (hs1) (h7) (h8)
    (hg : S32768x128.Gathers 0 S256x128) (hn : S256.numel = S256x128.size hg.axis')
    (hinI : ∀ x, ((sI.view.read (Elt F) (sI.view.write (Elt F) fI
      (ReadAs.same.apply (((idxV).slice (Rect.unit (s := S524288) off1 S256.size h1) hs1).view.read (Elt F) iv)) Finset.univ)) x).toNat
        < S32768x128.size hg.axis)
    (off : Fin 2 → Nat) (h : ∀ a, off a + S256x128.size a ≤ S65536x128.size a) (hs) (e0 : off1 0 = (qC : Fin 8).val * 65536 + off 0) (e1 : off 1 = 0)
    (g : Buf (Elt F) (outLoc qC d)) (j : S65536x128.Idx)
    (hj : j ∈ ((outV).slice (Rect.unit (s := S65536x128) off S256x128.size h) hs).view.set) :
    (((outV).slice (Rect.unit (s := S65536x128) off S256x128.size h) hs).view.writes (Elt F) g
        [⟨Rect.whole S256x128, ReadAs.same.apply (sR.view.read (Elt F) (sR.view.writes (Elt F) fR [⟨Rect.whole S256x128,
          SparseCore.gatherPayload hg (((tblV).slice (Rect.unit (s := S32768x128) ![0, 0] S32768x128.size h7) h8).view.read (Elt F) tv)
            (SparseCore.rows (sI.view.read (Elt F) (sI.view.write (Elt F) fI
              (ReadAs.same.apply (((idxV).slice (Rect.unit (s := S524288) off1 S256.size h1) hs1).view.read (Elt F) iv)) Finset.univ)) hn hinI)⟩]))⟩]) j
      = gathered tv iv qC j := by
  obtain ⟨x, -, rfl⟩ := Finset.mem_map.mp hj
  rw [out_piece_apply, gather_apply d tv iv hin, gathered_emb d tv iv off1 off h hs e0 e1]

end Piece

/-! ## The tile's rows and the pieces a trip writes -/

section Geometry

omit [FloatOps F] in
/-- Worker `w`'s rows of the result array are rows `[2048 w, 2048 w + 2048)`. -/
theorem mem_rowsSet (w : Fin 32) (j : S65536x128.Idx) :
    j ∈ rowsSet w ↔ 2048 * w.val ≤ (j 0).val ∧ (j 0).val < 2048 * w.val + 2048 := by
  unfold rowsSet rowsRect
  rw [View.set_slice_whole, Rect.mem_set_unit]
  have h1 := idx2_lt1 (n0 := 65536) (n1 := 128) j
  constructor
  · intro H
    have H0 : w.val * 2048 ≤ (j 0).val ∧ (j 0).val < w.val * 2048 + 2048 := H 0
    omega
  · intro H a
    match a with
    | ⟨0, _⟩ => show w.val * 2048 ≤ (j 0).val ∧ (j 0).val < w.val * 2048 + 2048; omega
    | ⟨1, _⟩ => show 0 * 128 ≤ (j 1).val ∧ (j 1).val < 0 * 128 + 128; omega

omit [FloatOps F] in
/-- A 256-row piece of the result array at row offset `off 0` (all 128 columns). -/
theorem mem_piece (off : Fin 2 → Nat) (h : ∀ a, off a + S256x128.size a ≤ S65536x128.size a) (hs) (j : S65536x128.Idx) :
    j ∈ ((outV).slice (Rect.unit (s := S65536x128) off S256x128.size h) hs).view.set
      ↔ (off 0 ≤ (j 0).val ∧ (j 0).val < off 0 + 256) ∧ (off 1 ≤ (j 1).val ∧ (j 1).val < off 1 + 128) := by
  show j ∈ ((View.whole main_v44_scv).slice (Rect.unit (s := S65536x128) off S256x128.size h)).set ↔ _
  rw [View.set_slice_whole, Rect.mem_set_unit]
  constructor
  · intro H; exact ⟨H 0, H 1⟩
  · rintro ⟨h0, h1⟩ a
    match a with
    | ⟨0, _⟩ => exact h0
    | ⟨1, _⟩ => exact h1

end Geometry

/-! ## Joining a trip's pieces back into the tile's rows -/

section Join

variable (d : Dev nD) (tv : Buf (Elt F) (tblLoc d)) (iv : Buf (Elt F) (idxLoc d))

/-- The rows of worker `w` below trip `k` (512 rows a trip) hold the gathered rows. -/
def doneBelow (w : Fin 32) (k : Nat) (g : Buf (Elt F) (outLoc qC d)) : Prop :=
  ∀ j ∈ rowsSet w, (j 0).val < 2048 * w.val + 512 * k → g j = gathered tv iv qC j

omit [FloatOps F] in
theorem doneBelow_zero (w : Fin 32) (g : Buf (Elt F) (outLoc qC d)) : doneBelow d tv iv w 0 g := by
  intro j hj hlt
  have := (mem_rowsSet w j).mp hj
  omega

omit [FloatOps F] in
theorem doneBelow_four (w : Fin 32) (g : Buf (Elt F) (outLoc qC d)) (h : doneBelow d tv iv w 4 g) :
    ∀ j ∈ rowsSet w, g j = gathered tv iv qC j := by
  intro j hj
  have := (mem_rowsSet w j).mp hj
  exact h j hj (by omega)

omit [FloatOps F] in
/-- A trip's first piece lies in the worker's rows; -/
theorem piece_subset (w : Fin 32) (k e : Nat) (he : e = 2048 * w.val + 512 * k) (hk : k < 4)
    (off : Fin 2 → Nat) (h : ∀ a, off a + S256x128.size a ≤ S65536x128.size a) (hs)
    (e0 : off 0 = e ∨ off 0 = e + 256) (e1 : off 1 = 0) :
    ((outV).slice (Rect.unit (s := S65536x128) off S256x128.size h) hs).view.set ⊆ rowsSet w := by
  intro j hj
  have := (mem_piece off h hs j).mp hj
  exact (mem_rowsSet w j).mpr (by omega)

omit [FloatOps F] in
/-- its second piece lies in them off the first. -/
theorem piece_subset_sdiff (w : Fin 32) (k e : Nat) (he : e = 2048 * w.val + 512 * k) (hk : k < 4)
    (off3 off4 : Fin 2 → Nat) (h3 : ∀ a, off3 a + S256x128.size a ≤ S65536x128.size a) (hs3)
    (h4 : ∀ a, off4 a + S256x128.size a ≤ S65536x128.size a) (hs4)
    (e30 : off3 0 = e) (e40 : off4 0 = e + 256) (e41 : off4 1 = 0) :
    ((outV).slice (Rect.unit (s := S65536x128) off4 S256x128.size h4) hs4).view.set
      ⊆ rowsSet w \ ((outV).slice (Rect.unit (s := S65536x128) off3 S256x128.size h3) hs3).view.set := by
  intro j hj
  have h4' := (mem_piece off4 h4 hs4 j).mp hj
  refine Finset.mem_sdiff.mpr ⟨(mem_rowsSet w j).mpr (by omega), fun hj3 => ?_⟩
  have h3' := (mem_piece off3 h3 hs3 j).mp hj3
  omega

omit [FloatOps F] in
/-- Two carved-out pieces put back at new contents. -/
theorem rejoin_two {ℓ : Loc nD τ sig} (R P3 P4 : Finset (Idx ℓ)) (hsub3 : P3 ⊆ R) (hsub4 : P4 ⊆ R \ P3) (g g3 g4 : Buf (Elt F) ℓ) :
    (iprop((ℓ ↦[P3]{fullShare} g3) ∗ (ℓ ↦[P4]{fullShare} g4) ∗ (ℓ ↦[(R \ P3) \ P4]{fullShare} g)) : sProp 𝕄)
      ⊢ ℓ ↦[R]{fullShare} (P3.piecewise g3 (P4.piecewise g4 g)) := by
  iintro ⟨H3, H4, Hr⟩
  iapply (pointsTo_join_subset (ℓ := ℓ) (q := fullShare) (I := P3) (S := R) (g := g3) (f := P4.piecewise g4 g) hsub3)
  isplitl [H3]; · iexact H3
  iapply (pointsTo_join_subset (ℓ := ℓ) (q := fullShare) (I := P4) (S := R \ P3) (g := g4) (f := g) hsub4)
  isplitl [H4]; · iexact H4
  iexact Hr

omit [FloatOps F] in
/-- Two pieces each holding the gathered rows, the rest as before, when the two pieces are all of the worker's rows
    from trip `k` up to trip `k + 1`: the rows below trip `k + 1` hold the gathered rows. -/
theorem doneBelow_step (w : Fin 32) (k : Nat) (P3 P4 : Finset (Idx (outLoc qC d)))
    (g g3 g4 : Buf (Elt F) (outLoc qC d)) (hg : doneBelow d tv iv w k g)
    (hg3 : ∀ j ∈ P3, g3 j = gathered tv iv qC j) (hg4 : ∀ j ∈ P4, g4 j = gathered tv iv qC j)
    (hcov : ∀ j : S65536x128.Idx, j ∈ rowsSet w → (j 0).val < 2048 * w.val + 512 * (k + 1) → j ∉ P3 → j ∉ P4 →
      (j 0).val < 2048 * w.val + 512 * k) :
    doneBelow d tv iv w (k + 1) (P3.piecewise g3 (P4.piecewise g4 g)) := by
  intro j hj hlt
  by_cases hj3 : j ∈ P3
  · exact (Finset.piecewise_eq_of_mem P3 g3 _ hj3).trans (hg3 j hj3)
  · refine (Finset.piecewise_eq_of_notMem P3 g3 _ hj3).trans ?_
    by_cases hj4 : j ∈ P4
    · exact (Finset.piecewise_eq_of_mem P4 g4 _ hj4).trans (hg4 j hj4)
    · exact (Finset.piecewise_eq_of_notMem P4 g4 _ hj4).trans (hg j hj (hcov j hj hlt hj3 hj4))

omit [FloatOps F] in
/-- The cover fact for a trip's two pieces. -/
theorem trip_cover (w : Fin 32) (k e : Nat) (he : e = 2048 * w.val + 512 * k)
    (off3 off4 : Fin 2 → Nat) (h3 : ∀ a, off3 a + S256x128.size a ≤ S65536x128.size a) (hs3)
    (h4 : ∀ a, off4 a + S256x128.size a ≤ S65536x128.size a) (hs4)
    (e30 : off3 0 = e) (e31 : off3 1 = 0) (e40 : off4 0 = e + 256) (e41 : off4 1 = 0) :
    ∀ j : S65536x128.Idx, j ∈ rowsSet w → (j 0).val < 2048 * w.val + 512 * (k + 1) →
      j ∉ ((outV).slice (Rect.unit (s := S65536x128) off3 S256x128.size h3) hs3).view.set →
      j ∉ ((outV).slice (Rect.unit (s := S65536x128) off4 S256x128.size h4) hs4).view.set →
      (j 0).val < 2048 * w.val + 512 * k := by
  intro j hj hlt hj3 hj4
  have hr := (mem_rowsSet w j).mp hj
  have n3 := mt (mem_piece off3 h3 hs3 j).mpr hj3
  have n4 := mt (mem_piece off4 h4 hs4 j).mpr hj4
  have := idx2_lt1 (n0 := 65536) (n1 := 128) j
  omega

end Join

end Cert.Proof.KI.C5

end
-- ==== Proof.Tile5.lean ====
/-
  One vector subcore's task in gather call 5, at a symbolic tile. Worker `w = 2 s + c` (subcore `s` of SparseCore `c`)
  fills rows `[2048 w, 2048 w + 2048)` of the result in four trips of 512 rows. A trip copies two 256-entry pieces of the
  index list into the two index scratches, starts one indirect gather of table rows per scratch, and copies each gathered
  256 x 128 block out to its rows of the result; every transfer has its own semaphore and is waited for before the next
  one on that semaphore starts. The loop's invariant carries the value: the worker's rows below the current trip already
  hold row `r ↦ table[index[r]]`; each trip extends this by its 512 rows, and after four trips it is all 2048 rows.
-/
import proofs.«214101_g10505490006249_cont_week2b_118_28_alg».proof.Proof.TileAux5

noncomputable section

namespace Cert.Proof.KI.C5

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 8) (Elt F) ℕ UU ℕ

variable [FloatOps F]

/-! ## The body -/

section Body

variable (d : Dev nD) (L : grid10.Coords)

/-- The worker number of the tile at grid point `L`. -/
abbrev wL (L : grid10.Coords) : Fin 32 := wid (cV L) (jV L)

/-! ### Call 5: the trips' offsets

The only facts about this call's printed offset functions that the body uses, read off their generated closed forms:
trip `k` of the tile at `L` works on rows `rowE L k` and `rowE L k + 256` of the result, and on the index entries
`65536 qC` beyond them. -/

/-- The first row of the result that trip `k` of the tile at `L` writes. -/
def rowE (L : grid10.Coords) (k : Fin k10_t1_loop.trips) : Nat := 4096 * (L 1).val + 2048 * (L 0).val + 512 * k.val

theorem rowE_eq (k : Fin k10_t1_loop.trips) : rowE L k = 2048 * (wL L).val + 512 * k.val := by
  have hwv : (wL L).val = (L 1).val * 2 + (L 0).val := rfl
  unfold rowE; rw [hwv]; omega
theorem trips_eq : Scf.trips k10_t1_loop.lb k10_t1_loop.ub k10_t1_loop.st = 4 := by decide
theorem trip_lt (k : Fin k10_t1_loop.trips) : k.val < 4 := Nat.lt_of_lt_of_le k.isLt k10_t1_abs.2.1
theorem offI0 (k : Fin k10_t1_loop.trips) : k10_off1 L k 0 = (qC : Fin 8).val * 65536 + rowE L k := by
  have h : k10_off1 L k 0 = 4096 * (L 1).val + 2048 * (L 0).val + 512 * k.val + 327680 := congrFun (k10_off1_eq L k) 0
  rw [qC_val, h]; unfold rowE; omega
theorem offI1 (k : Fin k10_t1_loop.trips) : k10_off2 L k 0 = (qC : Fin 8).val * 65536 + (rowE L k + 256) := by
  have h : k10_off2 L k 0 = 4096 * (L 1).val + 2048 * (L 0).val + 512 * k.val + 327936 := congrFun (k10_off2_eq L k) 0
  rw [qC_val, h]; unfold rowE; omega
theorem offO0 (k : Fin k10_t1_loop.trips) : k10_off3 L k 0 = rowE L k := congrFun (k10_off3_eq L k) 0
theorem offO0' (k : Fin k10_t1_loop.trips) : k10_off3 L k 1 = 0 := congrFun (k10_off3_eq L k) 1
theorem offO1 (k : Fin k10_t1_loop.trips) : k10_off4 L k 0 = rowE L k + 256 := congrFun (k10_off4_eq L k) 0
theorem offO1' (k : Fin k10_t1_loop.trips) : k10_off4 L k 1 = 0 := congrFun (k10_off4_eq L k) 1

omit [FloatOps F] in
theorem pts_tbl (q : PosShare TreeShare) (f : Buf (Elt F) (tblLoc d)) :
    ((tblV).view.loc (thrV d L) ↦{q} f : sProp 𝕄) = tblLoc d ↦{q} f := by
  simp only [Memref.view_whole, View.set_whole]
omit [FloatOps F] in
theorem pts_idx (q : PosShare TreeShare) (f : Buf (Elt F) (idxLoc d)) :
    ((idxV).view.loc (thrV d L) ↦{q} f : sProp 𝕄) = idxLoc d ↦{q} f := by
  simp only [Memref.view_whole, View.set_whole]

omit [FloatOps F] in
theorem pts_s0 (f : Buf (Elt F) ((thrV d L).loc cc10_scratch0)) :
    ((thrV d L).loc cc10_scratch0 ↦{fullShare} f : sProp 𝕄) = ((sI0).view.loc (thrV d L) ↦{fullShare} f) := rfl
omit [FloatOps F] in
theorem pts_s1 (f : Buf (Elt F) ((thrV d L).loc cc10_scratch1)) :
    ((thrV d L).loc cc10_scratch1 ↦{fullShare} f : sProp 𝕄) = ((sI1).view.loc (thrV d L) ↦{fullShare} f) := rfl
omit [FloatOps F] in
theorem pts_s2 (f : Buf (Elt F) ((thrV d L).loc cc10_scratch2)) :
    ((thrV d L).loc cc10_scratch2 ↦{fullShare} f : sProp 𝕄) = ((sR0).view.loc (thrV d L) ↦{fullShare} f) := rfl
omit [FloatOps F] in
theorem pts_s3 (f : Buf (Elt F) ((thrV d L).loc cc10_scratch3)) :
    ((thrV d L).loc cc10_scratch3 ↦{fullShare} f : sProp 𝕄) = ((sR1).view.loc (thrV d L) ↦{fullShare} f) := rfl

/-- The two 256-row pieces of the result array that trip `k` writes, as the program slices them. -/
abbrev o3 (k : Fin k10_t1_loop.trips) : Memref sig .scVector .hbm S256x128 .f32 :=
  outV.slice (Rect.unit (s := S65536x128) (k10_off3 L k) S256x128.size (k10_off3_inb L k)) (fun _ => rfl)
abbrev o4 (k : Fin k10_t1_loop.trips) : Memref sig .scVector .hbm S256x128 .f32 :=
  outV.slice (Rect.unit (s := S65536x128) (k10_off4 L k) S256x128.size (k10_off4_inb L k)) (fun _ => rfl)

/-- The loop's invariant: the table and the index list at their read shares, the tile's rows of the result with the
    rows below the trip gathered, the four scratches at some contents, the six semaphores at zero, and what the tile owes. -/
def inv (qs : PosShare TreeShare) (tv : Buf (Elt F) (tblLoc d)) (iv : Buf (Elt F) (idxLoc d))
    (O : CellTallies nD τ sig (HIx 8)) (W : Waits sig (HIx 8)) (k : Nat) (_ : PUnit) : sProp 𝕄 :=
  iprop(Transfers.MayWaits (thrV d L) (none : HIx 8) O
    ∗ ((tblV).view.loc (thrV d L) ↦{qs} tv)
    ∗ ((idxV).view.loc (thrV d L) ↦{qs} iv)
    ∗ (∃ g, ⌜doneBelow d tv iv (wL L) k g⌝ ∗ outLoc qC d ↦[rowsSet (wL L)]{fullShare} g)
    ∗ (∃ f, (sI0).view.loc (thrV d L) ↦{fullShare} f)
    ∗ (∃ f, (sI1).view.loc (thrV d L) ↦{fullShare} f)
    ∗ (∃ f, (sR0).view.loc (thrV d L) ↦{fullShare} f)
    ∗ (∃ f, (sR1).view.loc (thrV d L) ↦{fullShare} f)
    ∗ semVal (cell d L cc10_scratch4) 0 ∗ semVal (cell d L cc10_scratch5) 0 ∗ semVal (cell d L cc10_scratch6) 0
    ∗ semVal (cell d L cc10_scratch7) 0 ∗ semVal (cell d L cc10_scoped0) 0 ∗ semVal (cell d L cc10_scoped1) 0
    ∗ ∃ W', ⌜∀ p ∈ W', p ∈ W ∨ p.2 = none⌝ ∗ owes (thrV d L) O W')

omit [FloatOps F] in
/-- Whatever an index scratch held before, after a 256-entry piece of the index list is copied into it every word it
    holds names a row of the table. -/
theorem idx_inb (iv : Buf (Elt F) (idxLoc d)) (hin : ∀ e, (iv e).toNat < 32768)
    (c : Thread nD τ) (m : Memref sig c.2.kind .vmem S256 .i32) (f : Buf (Elt F) (m.view.loc c))
    (off : Fin 1 → Nat) (h : ∀ a, off a + S256.size a ≤ S524288.size a) (hs) (x : S256.Idx) :
    (m.view.read (Elt F) (m.view.write (Elt F) f
      (ReadAs.same.apply (((idxV).slice (Rect.unit (s := S524288) off S256.size h) hs).view.read (Elt F) iv)) Finset.univ) x).toNat < 32768 := by
  rw [View.read_write_univ, ReadAs.apply_same, View.read_apply]
  exact hin _
set_option maxHeartbeats 2000000 in
theorem tile_body (qs : PosShare TreeShare) (tv : Buf (Elt F) (tblLoc d)) (iv : Buf (Elt F) (idxLoc d))
    (hin : ∀ e, (iv e).toNat < 32768) (O : CellTallies nD τ sig (HIx 8)) (W : Waits sig (HIx 8)) (hO : ∀ g, O g none = 0) :
    (iprop(levAts (K (F := F)).L (K (F := F)).lev ∗ emp
        ∗ ((tblLoc d ↦{qs} tv) ∗ (idxLoc d ↦{qs} iv) ∗ ∃ f, outLoc qC d ↦[rowsSet (wL L)]{fullShare} f)
        ∗ scopedBufs (thrV d L) ∗ scopedSems0 (thrV d L) ∗ owes (thrV d L) O W) : sProp 𝕄)
      ⊢ wp frame (wpE (defs₀ (F := F)) 𝒱₀ (thrV d L) none) Set.univ
          (cc10_gather_kernel L tblV (Memref.isWhole_whole _) idxV (Memref.isWhole_whole _) outV (Memref.isWhole_whole _)
            sI0 (Memref.isWhole_whole _) sI1 (Memref.isWhole_whole _) sR0 (Memref.isWhole_whole _) sR1 (Memref.isWhole_whole _)
            cc10_scratch4 cc10_scratch5 cc10_scratch6 cc10_scratch7 cc10_scoped0 cc10_scoped1)
          fun _ => iprop(((tblLoc d ↦{qs} tv) ∗ (idxLoc d ↦{qs} iv) ∗ outLoc qC d ↦[rowsSet (wL L)]{fullShare} gathered tv iv qC)
            ∗ scopedBufs (thrV d L) ∗ scopedSems0 (thrV d L) ∗ ∃ W', ⌜∀ p ∈ W', p ∈ W ∨ p.2 = none⌝ ∗ owes (thrV d L) O W') := by
  simp only [cc10_gather_kernel_eq_skeleton]; unfold cc10_gather_kernel_skel
  rw [(K (F := F)).scopedBufs_V facts d (cV L) (jV L), SparseCore.Cfg.scopedSems0_V (Val := Elt F) d (cV L) (jV L), ownSems0_V, ownBufs_V]
  iintro ⟨#Hlv, -, ⟨Ht, Hi, %fo, Ho⟩, ⟨⟨%f0, Hb0⟩, ⟨%f1, Hb1⟩, ⟨%f2, Hb2⟩, ⟨%f3, Hb3⟩, Hbufs⟩, ⟨Hs4, Hs5, Hs6, Hs7, Hs8, Hs9, Hsems⟩, HO⟩
  ihave Hmw := ((K (F := F)).mayWaits_none (thr := thrV d L) hO) $$ Hlv
  ihave Ht' := (Entails.of_eq (pts_tbl (F := F) d L _ _).symm) $$ Ht
  ihave Hi' := (Entails.of_eq (pts_idx (F := F) d L _ _).symm) $$ Hi
  ihave Hb0' := (Entails.of_eq (pts_s0 (F := F) d L f0)) $$ Hb0
  ihave Hb1' := (Entails.of_eq (pts_s1 (F := F) d L f1)) $$ Hb1
  ihave Hb2' := (Entails.of_eq (pts_s2 (F := F) d L f2)) $$ Hb2
  ihave Hb3' := (Entails.of_eq (pts_s3 (F := F) d L f3)) $$ Hb3
  sl_exec
  sl_for (inv d L qs tv iv O W) $$ [Hmw Ht' Hi' Ho Hb0' Hb1' Hb2' Hb3' Hs4 Hs5 Hs6 Hs7 Hs8 Hs9 HO]
  case region =>
    intro k _
    unfold inv
    iintro ⟨Hmw, Ht, Hi, ⟨%g, %hg, Ho⟩, ⟨%f0, Hb0⟩, ⟨%f1, Hb1⟩, ⟨%f2, Hb2⟩, ⟨%f3, Hb3⟩, Hs4, Hs5, Hs6, Hs7, Hs8, Hs9, %W', %hW', HO⟩
    -- the trip's offsets: the row pieces start at rows `rowE` and `rowE + 256`, the index pieces `65536 qC` entries beyond
    have o30 := offO0 L k
    have o31 := offO0' L k
    have o40 := offO1 L k
    have o41 := offO1' L k
    have hE := rowE_eq L k
    have hk := trip_lt k
    have e13 : k10_off1 L k 0 = (qC : Fin 8).val * 65536 + k10_off3 L k 0 := by rw [offI0, o30]
    have e24 : k10_off2 L k 0 = (qC : Fin 8).val * 65536 + k10_off4 L k 0 := by rw [offI1, o40]
    have hsub3 : (o3 L k).view.set ⊆ rowsSet (wL L) :=
      piece_subset (wL L) k.val _ hE hk (k10_off3 L k) (k10_off3_inb L k) (fun _ => rfl) (.inl o30) o31
    have hsub4 : (o4 L k).view.set ⊆ rowsSet (wL L) \ (o3 L k).view.set :=
      piece_subset_sdiff (wL L) k.val _ hE hk (k10_off3 L k) (k10_off4 L k) (k10_off3_inb L k) (fun _ => rfl) (k10_off4_inb L k) (fun _ => rfl) o30 o40 o41
    ihave Ho' := (pointsTo_split_subset (ℓ := outLoc qC d) (q := fullShare) (f := g) (I := (o3 L k).view.set) (S := rowsSet (wL L)) hsub3).1 $$ Ho
    icases Ho' with ⟨Ho3, Hor⟩
    ihave Hor' := (pointsTo_split_subset (ℓ := outLoc qC d) (q := fullShare) (f := g) (I := (o4 L k).view.set) (S := rowsSet (wL L) \ (o3 L k).view.set) hsub4).1 $$ Hor
    icases Hor' with ⟨Ho4, Hor⟩
    ihave Ho3' := (Entails.of_eq (show (outLoc qC d ↦[(o3 L k).view.set]{fullShare} g : sProp 𝕄) = ((o3 L k).view.loc (thrV d L) ↦[(o3 L k).view.set]{fullShare} g) from rfl)) $$ Ho3
    ihave Ho4' := (Entails.of_eq (show (outLoc qC d ↦[(o4 L k).view.set]{fullShare} g : sProp 𝕄) = ((o4 L k).view.loc (thrV d L) ↦[(o4 L k).view.set]{fullShare} g) from rfl)) $$ Ho4
    -- the words each index scratch holds once its piece of the list has landed name rows of the table
    have hin0 : ∀ x : S256.Idx, ((sI0).view.read (Elt F) ((sI0).view.write (Elt F) f0 (ReadAs.same.apply (((idxV).slice
        (Rect.unit (s := S524288) (k10_off1 L k) S256.size (k10_off1_inb L k)) (fun _ => rfl)).view.read (Elt F) iv)) Finset.univ) x).toNat < 32768 :=
      idx_inb (F := F) d iv hin (thrV d L) sI0 f0 _ _ _
    have hin1 : ∀ x : S256.Idx, ((sI1).view.read (Elt F) ((sI1).view.write (Elt F) f1 (ReadAs.same.apply (((idxV).slice
        (Rect.unit (s := S524288) (k10_off2 L k) S256.size (k10_off2_inb L k)) (fun _ => rfl)).view.read (Elt F) iv)) Finset.univ) x).toNat < 32768 :=
      idx_inb (F := F) d iv hin (thrV d L) sI1 f1 _ _ _
    -- both gathers read the table while the other is outstanding: a read share each
    ihave Ht2 := (pointsTo_share (ℓ := (tblV).view.loc (thrV d L)) (I := Finset.univ) (f := tv) (PosShare.mem_left_op_right qs)).1 $$ Ht
    icases Ht2 with ⟨Hta, Htb⟩
    -- what the two copy-outs leave in their pieces is the gathered rows
    have hgth : S32768x128.Gathers 0 S256x128 := by decide
    have hg3 := fun j hj => piece_gathered (F := F) d tv iv hin (thrV d L) sI0 f0 sR0 f2 (k10_off1 L k) (k10_off1_inb L k) (fun _ => rfl)
      inb_S32768x128_S32768x128_0_0 (fun _ => rfl) hgth rfl hin0 (k10_off3 L k) (k10_off3_inb L k) (fun _ => rfl) e13 o31 g j hj
    have hg4 := fun j hj => piece_gathered (F := F) d tv iv hin (thrV d L) sI1 f1 sR1 f3 (k10_off2 L k) (k10_off2_inb L k) (fun _ => rfl)
      inb_S32768x128_S32768x128_0_0 (fun _ => rfl) hgth rfl hin1 (k10_off4 L k) (k10_off4_inb L k) (fun _ => rfl) e24 o41 g j hj
    sl_exec
    sl_step
    isplitl [Hmw]; · iexact Hmw
    isplitl [Hta Htb]
    · iapply (pointsTo_share (ℓ := (tblV).view.loc (thrV d L)) (I := Finset.univ) (f := tv) (PosShare.mem_left_op_right qs)).2
      isplitl [Hta]; · iexact Hta
      iexact Htb
    isplitl [Hi]; · iexact Hi
    isplitl [Ho3' Ho4' Hor]
    · ihave Hj := (rejoin_two (F := F) (ℓ := outLoc qC d) (rowsSet (wL L)) (o3 L k).view.set (o4 L k).view.set hsub3 hsub4 g _ _) $$ [Ho3' Ho4' Hor]
      · isplitl [Ho3']; · iexact Ho3'
        isplitl [Ho4']; · iexact Ho4'
        iexact Hor
      iexists _
      isplitr
      · ipureintro
        exact doneBelow_step (F := F) d tv iv (wL L) k.val (o3 L k).view.set (o4 L k).view.set g _ _ hg hg3 hg4
          (trip_cover (wL L) k.val _ hE (k10_off3 L k) (k10_off4 L k) (k10_off3_inb L k) (fun _ => rfl) (k10_off4_inb L k) (fun _ => rfl) o30 o31 o40 o41)
      · iexact Hj
    isplitl [Hb0]; · iexists _; iexact Hb0
    isplitl [Hb1]; · iexists _; iexact Hb1
    isplitl [Hb2]; · iexists _; iexact Hb2
    isplitl [Hb3]; · iexists _; iexact Hb3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    iexists _; isplitr
    swap
    · iexact HO
    · ipureintro; intro p hp
      simp only [Finset.mem_insert] at hp
      rcases hp with rfl | rfl | rfl | rfl | rfl | rfl | hp
      · exact .inr rfl
      · exact .inr rfl
      · exact .inr rfl
      · exact .inr rfl
      · exact .inr rfl
      · exact .inr rfl
      · exact hW' p hp
  · unfold inv
    isplitl [Hmw]; · iexact Hmw
    isplitl [Ht']; · iexact Ht'
    isplitl [Hi']; · iexact Hi'
    isplitl [Ho]
    · iexists fo; isplitr
      · ipureintro; exact doneBelow_zero d tv iv (wL L) fo
      · iexact Ho
    isplitl [Hb0']; · iexists f0; iexact Hb0'
    isplitl [Hb1']; · iexists f1; iexact Hb1'
    isplitl [Hb2']; · iexists f2; iexact Hb2'
    isplitl [Hb3']; · iexists f3; iexact Hb3'
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    iexists W; isplitr
    · ipureintro; exact fun p hp => .inl hp
    · iexact HO
  iintro %_ HI
  unfold inv
  icases HI with ⟨-, Ht, Hi, ⟨%g, %hg, Ho⟩, ⟨%f0', Hb0⟩, ⟨%f1', Hb1⟩, ⟨%f2', Hb2⟩, ⟨%f3', Hb3⟩, Hs4, Hs5, Hs6, Hs7, Hs8, Hs9, %W', %hW', HO⟩
  rw [trips_eq] at hg
  sl_exec
  sl_step
  isplitl [Ht Hi Ho]
  · isplitl [Ht]; · iapply (Entails.of_eq (pts_tbl (F := F) d L _ _)); iexact Ht
    isplitl [Hi]; · iapply (Entails.of_eq (pts_idx (F := F) d L _ _)); iexact Hi
    iapply (Entails.of_eq (pointsTo_congr (ℓ := outLoc qC d) (q := fullShare) (I := rowsSet (wL L)) (doneBelow_four d tv iv (wL L) g hg)))
    iexact Ho
  isplitl [Hb0 Hb1 Hb2 Hb3 Hbufs]
  · isplitl [Hb0]; · iexists f0'; iapply (Entails.of_eq (pts_s0 (F := F) d L f0').symm); iexact Hb0
    isplitl [Hb1]; · iexists f1'; iapply (Entails.of_eq (pts_s1 (F := F) d L f1').symm); iexact Hb1
    isplitl [Hb2]; · iexists f2'; iapply (Entails.of_eq (pts_s2 (F := F) d L f2').symm); iexact Hb2
    isplitl [Hb3]; · iexists f3'; iapply (Entails.of_eq (pts_s3 (F := F) d L f3').symm); iexact Hb3
    iexact Hbufs
  isplitl [Hs4 Hs5 Hs6 Hs7 Hs8 Hs9 Hsems]
  · isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    iexact Hsems
  iexists W'; isplitr
  · ipureintro; exact hW'
  · iexact HO

end Body

end Cert.Proof.KI.C5

end
-- ==== Proof.TileObl5.lean ====
/-
  The launch theorem's obligation for gather call 5: a tile's task, entered through the body table, is the kernel's
  body at that tile, run on the tile's share of the table and the index list and on its worker's rows.
-/
import proofs.«214101_g10505490006249_cont_week2b_118_28_alg».proof.Proof.Launch
import proofs.«214101_g10505490006249_cont_week2b_118_28_alg».proof.Proof.Tile5
import proofs.«214101_g10505490006249_cont_week2b_118_28_alg».proof.Proof.TileObl0

noncomputable section

namespace Cert.Proof.KI.C5

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Transfers (shareTok shareDrop pointsTo_toks_split pointsTo_toks_join)

variable {F : FTy → Type}

local notation "𝕄" => MT nD τ sig (HIx 8) (Elt F) ℕ UU ℕ

variable [FloatOps F]
variable (tv : (d : Dev nD) → S32768x128.Idx → Elt F .f32) (iv : (d : Dev nD) → S524288.Idx → Elt F .i32)

/-- A tile's grid coordinates from its SparseCore and subcore numbers. -/
def coordsV (c : Fin (grid10.bound 0)) (s : Fin (grid10.bound 1)) : grid10.Coords :=
  fun | 0 => c | 1 => s | ⟨_ + 2, h⟩ => absurd h (Nat.not_lt.2 (Nat.le_add_left _ _))

theorem defs₀_vector5 (c : Fin τ.nSC) (s : Fin τ.nSub) :
    defs₀ (F := F) (.scVector c s) 10 ()
      = SparseCore.onTile hcore10 hsub10 (fun c s => cc10_gather_kernel (coordsV c s)
          tblV (Memref.isWhole_whole _) idxV (Memref.isWhole_whole _) outV (Memref.isWhole_whole _)
          sI0 (Memref.isWhole_whole _) sI1 (Memref.isWhole_whole _) sR0 (Memref.isWhole_whole _) sR1 (Memref.isWhole_whole _)
          cc10_scratch4 cc10_scratch5 cc10_scratch6 cc10_scratch7 cc10_scoped0 cc10_scoped1) ⟨⟩ c s := rfl

/-- Call 5's tile obligation. -/
theorem tileObl5 (hin : ∀ d e, (iv d e).toNat < 32768) : (K (F := F)).TileObl (D (F := F)) 𝒱 (P (F := F) tv iv) v₀ 5 := by
  intro d c i O W hO _ _
  -- the gather kernel owes nothing for a protocol of its own
  simp only [show (P (F := F) tv iv).ox = fun _ _ => 0 from rfl, add_zero]
  change _ ⊢ wp _ _ _ (Pipeline.liftProg (defs₀ (F := F) (.scVector ((K (F := F)).core 5 c) ((K (F := F)).sub 5 i)) 10 ())) _
  refine BI.Entails.trans ?_ (Pipeline.wp_liftProg (D (F := F)) (Pipeline.defs_kernel pcfgs defs₀) 𝒱₀ _ Set.univ none _ _)
  have hc : ((K (F := F)).core 5 c).val < grid10.bound 0 ∧ ((K (F := F)).sub 5 i).val < grid10.bound 1 := ⟨c.isLt, i.isLt⟩
  rw [defs₀_vector5]; simp only [SparseCore.onTile, hc, and_self, ↓reduceDIte]
  exact (tile_body d (coordsV ⟨_, hc.1⟩ ⟨_, hc.2⟩) (shT (cC 5 c) (sS 5 i)) (tv d) (iv d) (hin d) O W hO).trans (wp_mono frame _ _ fun _ => obl_post)

end Cert.Proof.KI.C5

end
-- ==== Proof.TileAux6.lean ====
/-
  One vector subcore's share of a gather call, the pure part: how the subcore's scoped semaphores and scratch buffers are
  opened, what an indirect gather of 256 table rows delivers element by element, which elements of the result array a
  trip's two copy-outs write, and how those pieces rejoin the subcore's 2048 rows of the result.
-/
import proofs.«214101_g10505490006249_cont_week2b_118_28_alg».proof.Proof.Setup

noncomputable section

namespace Cert.Proof.KI.C6

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 8) (Elt F) ℕ UU ℕ

/-! ## The names of gather call 6

Everything that is particular to this one of the eight gather calls is named here (and, for the trips' offsets, at the
top of the body's module): the call's number, its result array, its scratch buffers. The text below speaks of the call
only through these names and through the program's own `cc12_…` / `k12_…` names. -/

/-- The number of this gather call among the eight: it reads index entries `65536 qC + …` and fills result array `qC`. -/
abbrev qC : Fin 8 := 6
theorem qC_val : (qC : Fin 8).val = 6 := rfl

abbrev tblV : Memref sig .scVector .hbm S32768x128 .f32 := Memref.whole main_v10_scv
abbrev idxV : Memref sig .scVector .hbm S524288 .i32 := Memref.whole main_v6_scv
abbrev outV : Memref sig .scVector .hbm S65536x128 .f32 := Memref.whole main_v46_scv
abbrev sI0 : Memref sig .scVector .vmem S256 .i32 := Memref.whole cc12_scratch0
abbrev sI1 : Memref sig .scVector .vmem S256 .i32 := Memref.whole cc12_scratch1
abbrev sR0 : Memref sig .scVector .vmem S256x128 .f32 := Memref.whole cc12_scratch2
abbrev sR1 : Memref sig .scVector .vmem S256x128 .f32 := Memref.whole cc12_scratch3

abbrev cV (L : grid12.Coords) : Fin τ.nSC := (L 0).castLE hcore12
abbrev jV (L : grid12.Coords) : Fin τ.nSub := (L 1).castLE hsub12
abbrev thrV (d : Dev nD) (L : grid12.Coords) : Thread nD τ := V d (cV L) (jV L)

variable [FloatOps F]

/-! ## The tile's own semaphores and scratch buffers -/

section Own

variable (d : Dev nD) (L : grid12.Coords)

/-- The cell of one of the tile's DMA semaphores. -/
abbrev cell (sm : DmaSems sig S_) : GSem nD τ sig := (thrV d L, .dma sm.sem)

omit [FloatOps F] in
theorem cell_mem {sm : DmaSems sig S_} (h : (SemLoc.dma sm.sem : SemLoc sig).isScoped .scVector = true) :
    cell d L sm ∈ ownCells (sig := sig) (thrV d L) := (mem_ownCells (g := cell d L sm)).mpr ⟨rfl, h⟩

theorem cell_ne {a b : DmaSems sig S_} (h : (SemLoc.dma a.sem : SemLoc sig) ≠ .dma b.sem) : cell d L a ≠ cell d L b :=
  fun e => h (Prod.mk.inj e).2

/-- The tile's scoped cells other than the six the gather uses. -/
abbrev restCells : Finset (GSem nD τ sig) :=
  ((((((ownCells (thrV d L)).erase (cell d L cc12_scratch4)).erase (cell d L cc12_scratch5)).erase (cell d L cc12_scratch6)).erase
    (cell d L cc12_scratch7)).erase (cell d L cc12_scoped0)).erase (cell d L cc12_scoped1)

theorem ownSems0_V :
    (ownSems0 (thrV d L) : sProp 𝕄)
      = iprop(semVal (cell d L cc12_scratch4) 0 ∗ semVal (cell d L cc12_scratch5) 0 ∗ semVal (cell d L cc12_scratch6) 0
          ∗ semVal (cell d L cc12_scratch7) 0 ∗ semVal (cell d L cc12_scoped0) 0 ∗ semVal (cell d L cc12_scoped1) 0
          ∗ bigSep (restCells d L) fun g => semVal g 0) := by
  unfold SparseCore.Cfg.ownSems0
  have m4 := cell_mem d L (sm := cc12_scratch4) (by decide)
  have m5 := cell_mem d L (sm := cc12_scratch5) (by decide)
  have m6 := cell_mem d L (sm := cc12_scratch6) (by decide)
  have m7 := cell_mem d L (sm := cc12_scratch7) (by decide)
  have m8 := cell_mem d L (sm := cc12_scoped0) (by decide)
  have m9 := cell_mem d L (sm := cc12_scoped1) (by decide)
  rw [SparseCore.bigSep_erase' m4,
    SparseCore.bigSep_erase' (Finset.mem_erase.mpr ⟨cell_ne d L (by decide), m5⟩),
    SparseCore.bigSep_erase' (Finset.mem_erase.mpr ⟨cell_ne d L (by decide), Finset.mem_erase.mpr ⟨cell_ne d L (by decide), m6⟩⟩),
    SparseCore.bigSep_erase' (Finset.mem_erase.mpr ⟨cell_ne d L (by decide), Finset.mem_erase.mpr ⟨cell_ne d L (by decide),
      Finset.mem_erase.mpr ⟨cell_ne d L (by decide), m7⟩⟩⟩),
    SparseCore.bigSep_erase' (Finset.mem_erase.mpr ⟨cell_ne d L (by decide), Finset.mem_erase.mpr ⟨cell_ne d L (by decide),
      Finset.mem_erase.mpr ⟨cell_ne d L (by decide), Finset.mem_erase.mpr ⟨cell_ne d L (by decide), m8⟩⟩⟩⟩),
    SparseCore.bigSep_erase' (Finset.mem_erase.mpr ⟨cell_ne d L (by decide), Finset.mem_erase.mpr ⟨cell_ne d L (by decide),
      Finset.mem_erase.mpr ⟨cell_ne d L (by decide), Finset.mem_erase.mpr ⟨cell_ne d L (by decide),
      Finset.mem_erase.mpr ⟨cell_ne d L (by decide), m9⟩⟩⟩⟩⟩)]

/-- One of the tile's scratch buffers, as a buffer of the device. -/
abbrev sref (b : Ref sig .scVector) : DevRef τ sig := (Proc.scVector (cV L) (jV L)).devRef b

theorem sref_mem {b : Ref sig .scVector} (h : (sref L b).owner = .proc (.scVector (cV L) (jV L))) :
    sref L b ∈ ownRefs (sig := sig) (τ := τ) (.scVector (cV L) (jV L)) :=
  SparseCore.Cfg.mem_ownRefs_of_owner (p := Proc.scVector (cV L) (jV L)) (b := sref L b) h

theorem sref_ne {a b : Ref sig .scVector} (h : a ≠ b) : sref L a ≠ sref L b := fun e => h (Proc.devRef_injective _ e)

/-- The tile's own buffers other than the gather's four scratches. -/
abbrev restRefs : Finset (DevRef τ sig) :=
  ((((ownRefs (τ := τ) (.scVector (cV L) (jV L))).erase (sref L cc12_scratch0)).erase (sref L cc12_scratch1)).erase (sref L cc12_scratch2)).erase
    (sref L cc12_scratch3)

theorem ownBufs_V :
    (ownBufs (thrV d L) : sProp 𝕄)
      = iprop((∃ f, (thrV d L).loc cc12_scratch0 ↦{fullShare} f) ∗ (∃ f, (thrV d L).loc cc12_scratch1 ↦{fullShare} f)
          ∗ (∃ f, (thrV d L).loc cc12_scratch2 ↦{fullShare} f) ∗ (∃ f, (thrV d L).loc cc12_scratch3 ↦{fullShare} f)
          ∗ bigSep (restRefs L) fun b => iprop(∃ f, ((d, b) : Loc nD τ sig) ↦{fullShare} f)) := by
  unfold SparseCore.Cfg.ownBufs
  refine (SparseCore.bigSep_erase' (sref_mem L (b := cc12_scratch0) rfl)).trans ?_
  rw [SparseCore.bigSep_erase' (Finset.mem_erase.mpr ⟨sref_ne L (show (cc12_scratch1 : Ref sig .scVector) ≠ cc12_scratch0 by decide), sref_mem L (b := cc12_scratch1) rfl⟩),
    SparseCore.bigSep_erase' (Finset.mem_erase.mpr ⟨sref_ne L (show (cc12_scratch2 : Ref sig .scVector) ≠ cc12_scratch1 by decide),
      Finset.mem_erase.mpr ⟨sref_ne L (show (cc12_scratch2 : Ref sig .scVector) ≠ cc12_scratch0 by decide), sref_mem L (b := cc12_scratch2) rfl⟩⟩),
    SparseCore.bigSep_erase' (Finset.mem_erase.mpr ⟨sref_ne L (show (cc12_scratch3 : Ref sig .scVector) ≠ cc12_scratch2 by decide),
      Finset.mem_erase.mpr ⟨sref_ne L (show (cc12_scratch3 : Ref sig .scVector) ≠ cc12_scratch1 by decide),
      Finset.mem_erase.mpr ⟨sref_ne L (show (cc12_scratch3 : Ref sig .scVector) ≠ cc12_scratch0 by decide), sref_mem L (b := cc12_scratch3) rfl⟩⟩⟩)]

end Own

/-! ## What one gather delivers -/

section Value

variable (d : Dev nD) (tv : Buf (Elt F) (tblLoc d)) (iv : Buf (Elt F) (idxLoc d))

omit [FloatOps F] in
/-- Entry `y` of the 256-entry piece of the index list that starts at `off` is entry `off + y` of the list. -/
theorem idxPiece_read (off : Fin 1 → Nat) (h : ∀ a, off a + S256.size a ≤ S524288.size a) (hs) (y : S256.Idx) :
    ((idxV).slice (Rect.unit (s := S524288) off S256.size h) hs).view.read (Elt F) iv y
      = iv (ix1 ⟨off 0 + (y 0).val, by have := h 0; have := (y 0).isLt; exact Nat.lt_of_lt_of_le (Nat.add_lt_add_left this _) (h 0)⟩) := by
  rw [View.read_apply]
  refine congrArg iv (funext fun a => ?_)
  match a with
  | ⟨0, _⟩ => exact Fin.ext (by show off 0 + 1 * (y 0).val = off 0 + (y 0).val; omega)

omit [FloatOps F] in
/-- The gather's payload at an index: row `x 0` of the scratch receives the table's row named by entry `off + x 0` of
    the index list, when the index scratch was filled with the 256 entries from `off`. -/
theorem gather_apply (hin : ∀ e, (iv e).toNat < 32768)
    (c : Thread nD τ) (sI : Memref sig c.2.kind .vmem S256 .i32) (fI : Buf (Elt F) (sI.view.loc c))
    (off : Fin 1 → Nat) (h : ∀ a, off a + S256.size a ≤ S524288.size a) (hs) (h7) (h8)
    (hg : S32768x128.Gathers 0 S256x128) (hn : S256.numel = S256x128.size hg.axis')
    (hinI : ∀ x, ((sI.view.read (Elt F) (sI.view.write (Elt F) fI
      (ReadAs.same.apply (((idxV).slice (Rect.unit (s := S524288) off S256.size h) hs).view.read (Elt F) iv)) Finset.univ)) x).toNat
        < S32768x128.size hg.axis)
    (x : S256x128.Idx) :
    SparseCore.gatherPayload hg (((tblV).slice (Rect.unit (s := S32768x128) ![0, 0] S32768x128.size h7) h8).view.read (Elt F) tv)
        (SparseCore.rows (sI.view.read (Elt F) (sI.view.write (Elt F) fI
          (ReadAs.same.apply (((idxV).slice (Rect.unit (s := S524288) off S256.size h) hs).view.read (Elt F) iv)) Finset.univ)) hn hinI) x
      = tv (ix2 (rowOf (iv (ix1 ⟨off 0 + (x 0).val, by
          have := h 0; have := idx2_lt0 (n0 := 256) (n1 := 128) x
          exact Nat.lt_of_lt_of_le (Nat.add_lt_add_left this _) (h 0)⟩))) (x 1)) := by
  unfold SparseCore.gatherPayload
  rw [View.read_apply]
  refine congrArg tv (funext fun a => ?_)
  have hy0 : ((S256.rowMajor.symm ((x hg.axis').cast hn.symm)) 0).val = (x 0).val := by
    have e := Shape.rowMajor_val_one (d := ![256]) (S256.rowMajor.symm ((x hg.axis').cast hn.symm))
    rw [Equiv.apply_symm_apply] at e
    exact e.symm
  match a with
  | ⟨0, _⟩ =>
    apply Fin.ext
    show 0 + 1 * (hg.idx _ x hg.axis).val = _
    rw [Shape.Gathers.idx_axis]
    show 0 + 1 * ((sI.view.read (Elt F) (sI.view.write (Elt F) fI (ReadAs.same.apply
      (((idxV).slice (Rect.unit (s := S524288) off S256.size h) hs).view.read (Elt F) iv)) Finset.univ))
        (S256.rowMajor.symm ((x hg.axis').cast hn.symm))).toNat = (iv (ix1 ⟨off 0 + (x 0).val, _⟩)).toNat % 32768
    rw [View.read_write_univ, ReadAs.apply_same, idxPiece_read, Nat.mod_eq_of_lt (hin _), Nat.zero_add, Nat.one_mul]
    exact congrArg (fun n : Fin 524288 => (iv (ix1 n)).toNat) (Fin.ext (by show off 0 + _ = off 0 + _; rw [hy0]))
  | ⟨1, _⟩ =>
    apply Fin.ext
    show 0 + 1 * (hg.idx _ x ⟨1, by decide⟩).val = (x 1).val
    rw [Shape.Gathers.idx_of_ne hg _ x ⟨1, by decide⟩ (by decide), Nat.zero_add, Nat.one_mul]
    rfl

end Value

/-! ## What a trip leaves in one 256-row piece of the result -/

section Piece

variable (d : Dev nD) (tv : Buf (Elt F) (tblLoc d)) (iv : Buf (Elt F) (idxLoc d))

omit [FloatOps F] in
/-- A row scratch written whole with `p`, copied whole onto a 256-row piece of the result: the piece's element under `x`
    holds `p x`. -/
theorem out_piece_apply (c : Thread nD τ) (sR : Memref sig c.2.kind .vmem S256x128 .f32) (fR : Buf (Elt F) (sR.view.loc c))
    (p : S256x128.Idx → Elt F .f32) (off : Fin 2 → Nat) (h : ∀ a, off a + S256x128.size a ≤ S65536x128.size a) (hs)
    (g : Buf (Elt F) (outLoc qC d)) (x : S256x128.Idx) :
    (((outV).slice (Rect.unit (s := S65536x128) off S256x128.size h) hs).view.writes (Elt F) g
        [⟨Rect.whole S256x128, ReadAs.same.apply (sR.view.read (Elt F) (sR.view.writes (Elt F) fR [⟨Rect.whole S256x128, p⟩]))⟩])
      (((outV).slice (Rect.unit (s := S65536x128) off S256x128.size h) hs).view.emb x) = p x := by
  have e1 := congrFun (View.read_writes_whole ((outV).slice (Rect.unit (s := S65536x128) off S256x128.size h) hs).view g
    (ReadAs.same.apply (sR.view.read (Elt F) (sR.view.writes (Elt F) fR [⟨Rect.whole S256x128, p⟩])))) x
  rw [View.read_apply] at e1
  refine (show _ = _ from e1).trans ?_
  rw [ReadAs.apply_same]
  exact congrFun (View.read_writes_whole sR.view fR p) x

omit [FloatOps F] in
/-- The gathered result at the element of a piece under `x`, when the index piece starts `65536 qC` entries beyond the
    row the piece starts at (call `qC`'s share of the index list). -/
theorem gathered_emb (off1 : Fin 1 → Nat) (off : Fin 2 → Nat) (h : ∀ a, off a + S256x128.size a ≤ S65536x128.size a) (hs)
    (e0 : off1 0 = (qC : Fin 8).val * 65536 + off 0) (e1 : off 1 = 0) (x : S256x128.Idx) (hlt : off1 0 + (x 0).val < 524288) :
    gathered tv iv qC (((outV).slice (Rect.unit (s := S65536x128) off S256x128.size h) hs).view.emb x)
      = tv (ix2 (rowOf (iv (ix1 ⟨off1 0 + (x 0).val, hlt⟩))) (x 1)) := by
  obtain ⟨j, hj⟩ : ∃ j : S65536x128.Idx, j = ((outV).slice (Rect.unit (s := S65536x128) off S256x128.size h) hs).view.emb x := ⟨_, rfl⟩
  have j0 : (j 0).val = off 0 + 1 * (x 0).val := by rw [hj]; rfl
  have j1 : (j 1).val = off 1 + 1 * (x 1).val := by rw [hj]; rfl
  rw [← hj]
  unfold gathered
  have a : ∀ hb, (⟨(qC : Fin 8).val * 65536 + (j 0).val, hb⟩ : Fin 524288) = ⟨off1 0 + (x 0).val, hlt⟩ := fun _ =>
    Fin.ext (by show (qC : Fin 8).val * 65536 + (j 0).val = off1 0 + (x 0).val; rw [j0, e0]; omega)
  have b : j 1 = x 1 := Fin.ext (by rw [j1, e1]; omega)
  rw [a, b]

omit [FloatOps F] in
/-- After a trip's gather and copy-out, every element of the 256-row piece holds the gathered result. -/
theorem piece_gathered (hin : ∀ e, (iv e).toNat < 32768)
    (c : Thread nD τ) (sI : Memref sig c.2.kind .vmem S256 .i32) (fI : Buf (Elt F) (sI.view.loc c))
    (sR : Memref sig c.2.kind .vmem S256x128 .f32) (fR : Buf (Elt F) (sR.view.loc c))
    (off1 : Fin 1 → Nat) (h1 : ∀ a, off1 a + S256.size a ≤ S524288.size a) (hs1) (h7) (h8)
    (hg : S32768x128.Gathers 0 S256x128) (hn : S256.numel = S256x128.size hg.axis')
    (hinI : ∀ x, ((sI.view.read (Elt F) (sI.view.write (Elt F) fI
      (ReadAs.same.apply (((idxV).slice (Rect.unit (s := S524288) off1 S256.size h1) hs1).view.read (Elt F) iv)) Finset.univ)) x).toNat
        < S32768x128.size hg.axis)
    (off : Fin 2 → Nat) (h : ∀ a, off a + S256x128.size a ≤ S65536x128.size a) (hs) (e0 : off1 0 = (qC : Fin 8).val * 65536 + off 0) (e1 : off 1 = 0)
    (g : Buf (Elt F) (outLoc qC d)) (j : S65536x128.Idx)
    (hj : j ∈ ((outV).slice (Rect.unit (s := S65536x128) off S256x128.size h) hs).view.set) :
    (((outV).slice (Rect.unit (s := S65536x128) off S256x128.size h) hs).view.writes (Elt F) g
        [⟨Rect.whole S256x128, ReadAs.same.apply (sR.view.read (Elt F) (sR.view.writes (Elt F) fR [⟨Rect.whole S256x128,
          SparseCore.gatherPayload hg (((tblV).slice (Rect.unit (s := S32768x128) ![0, 0] S32768x128.size h7) h8).view.read (Elt F) tv)
            (SparseCore.rows (sI.view.read (Elt F) (sI.view.write (Elt F) fI
              (ReadAs.same.apply (((idxV).slice (Rect.unit (s := S524288) off1 S256.size h1) hs1).view.read (Elt F) iv)) Finset.univ)) hn hinI)⟩]))⟩]) j
      = gathered tv iv qC j := by
  obtain ⟨x, -, rfl⟩ := Finset.mem_map.mp hj
  rw [out_piece_apply, gather_apply d tv iv hin, gathered_emb d tv iv off1 off h hs e0 e1]

end Piece

/-! ## The tile's rows and the pieces a trip writes -/

section Geometry

omit [FloatOps F] in
/-- Worker `w`'s rows of the result array are rows `[2048 w, 2048 w + 2048)`. -/
theorem mem_rowsSet (w : Fin 32) (j : S65536x128.Idx) :
    j ∈ rowsSet w ↔ 2048 * w.val ≤ (j 0).val ∧ (j 0).val < 2048 * w.val + 2048 := by
  unfold rowsSet rowsRect
  rw [View.set_slice_whole, Rect.mem_set_unit]
  have h1 := idx2_lt1 (n0 := 65536) (n1 := 128) j
  constructor
  · intro H
    have H0 : w.val * 2048 ≤ (j 0).val ∧ (j 0).val < w.val * 2048 + 2048 := H 0
    omega
  · intro H a
    match a with
    | ⟨0, _⟩ => show w.val * 2048 ≤ (j 0).val ∧ (j 0).val < w.val * 2048 + 2048; omega
    | ⟨1, _⟩ => show 0 * 128 ≤ (j 1).val ∧ (j 1).val < 0 * 128 + 128; omega

omit [FloatOps F] in
/-- A 256-row piece of the result array at row offset `off 0` (all 128 columns). -/
theorem mem_piece (off : Fin 2 → Nat) (h : ∀ a, off a + S256x128.size a ≤ S65536x128.size a) (hs) (j : S65536x128.Idx) :
    j ∈ ((outV).slice (Rect.unit (s := S65536x128) off S256x128.size h) hs).view.set
      ↔ (off 0 ≤ (j 0).val ∧ (j 0).val < off 0 + 256) ∧ (off 1 ≤ (j 1).val ∧ (j 1).val < off 1 + 128) := by
  show j ∈ ((View.whole main_v46_scv).slice (Rect.unit (s := S65536x128) off S256x128.size h)).set ↔ _
  rw [View.set_slice_whole, Rect.mem_set_unit]
  constructor
  · intro H; exact ⟨H 0, H 1⟩
  · rintro ⟨h0, h1⟩ a
    match a with
    | ⟨0, _⟩ => exact h0
    | ⟨1, _⟩ => exact h1

end Geometry

/-! ## Joining a trip's pieces back into the tile's rows -/

section Join

variable (d : Dev nD) (tv : Buf (Elt F) (tblLoc d)) (iv : Buf (Elt F) (idxLoc d))

/-- The rows of worker `w` below trip `k` (512 rows a trip) hold the gathered rows. -/
def doneBelow (w : Fin 32) (k : Nat) (g : Buf (Elt F) (outLoc qC d)) : Prop :=
  ∀ j ∈ rowsSet w, (j 0).val < 2048 * w.val + 512 * k → g j = gathered tv iv qC j

omit [FloatOps F] in
theorem doneBelow_zero (w : Fin 32) (g : Buf (Elt F) (outLoc qC d)) : doneBelow d tv iv w 0 g := by
  intro j hj hlt
  have := (mem_rowsSet w j).mp hj
  omega

omit [FloatOps F] in
theorem doneBelow_four (w : Fin 32) (g : Buf (Elt F) (outLoc qC d)) (h : doneBelow d tv iv w 4 g) :
    ∀ j ∈ rowsSet w, g j = gathered tv iv qC j := by
  intro j hj
  have := (mem_rowsSet w j).mp hj
  exact h j hj (by omega)

omit [FloatOps F] in
/-- A trip's first piece lies in the worker's rows; -/
theorem piece_subset (w : Fin 32) (k e : Nat) (he : e = 2048 * w.val + 512 * k) (hk : k < 4)
    (off : Fin 2 → Nat) (h : ∀ a, off a + S256x128.size a ≤ S65536x128.size a) (hs)
    (e0 : off 0 = e ∨ off 0 = e + 256) (e1 : off 1 = 0) :
    ((outV).slice (Rect.unit (s := S65536x128) off S256x128.size h) hs).view.set ⊆ rowsSet w := by
  intro j hj
  have := (mem_piece off h hs j).mp hj
  exact (mem_rowsSet w j).mpr (by omega)

omit [FloatOps F] in
/-- its second piece lies in them off the first. -/
theorem piece_subset_sdiff (w : Fin 32) (k e : Nat) (he : e = 2048 * w.val + 512 * k) (hk : k < 4)
    (off3 off4 : Fin 2 → Nat) (h3 : ∀ a, off3 a + S256x128.size a ≤ S65536x128.size a) (hs3)
    (h4 : ∀ a, off4 a + S256x128.size a ≤ S65536x128.size a) (hs4)
    (e30 : off3 0 = e) (e40 : off4 0 = e + 256) (e41 : off4 1 = 0) :
    ((outV).slice (Rect.unit (s := S65536x128) off4 S256x128.size h4) hs4).view.set
      ⊆ rowsSet w \ ((outV).slice (Rect.unit (s := S65536x128) off3 S256x128.size h3) hs3).view.set := by
  intro j hj
  have h4' := (mem_piece off4 h4 hs4 j).mp hj
  refine Finset.mem_sdiff.mpr ⟨(mem_rowsSet w j).mpr (by omega), fun hj3 => ?_⟩
  have h3' := (mem_piece off3 h3 hs3 j).mp hj3
  omega

omit [FloatOps F] in
/-- Two carved-out pieces put back at new contents. -/
theorem rejoin_two {ℓ : Loc nD τ sig} (R P3 P4 : Finset (Idx ℓ)) (hsub3 : P3 ⊆ R) (hsub4 : P4 ⊆ R \ P3) (g g3 g4 : Buf (Elt F) ℓ) :
    (iprop((ℓ ↦[P3]{fullShare} g3) ∗ (ℓ ↦[P4]{fullShare} g4) ∗ (ℓ ↦[(R \ P3) \ P4]{fullShare} g)) : sProp 𝕄)
      ⊢ ℓ ↦[R]{fullShare} (P3.piecewise g3 (P4.piecewise g4 g)) := by
  iintro ⟨H3, H4, Hr⟩
  iapply (pointsTo_join_subset (ℓ := ℓ) (q := fullShare) (I := P3) (S := R) (g := g3) (f := P4.piecewise g4 g) hsub3)
  isplitl [H3]; · iexact H3
  iapply (pointsTo_join_subset (ℓ := ℓ) (q := fullShare) (I := P4) (S := R \ P3) (g := g4) (f := g) hsub4)
  isplitl [H4]; · iexact H4
  iexact Hr

omit [FloatOps F] in
/-- Two pieces each holding the gathered rows, the rest as before, when the two pieces are all of the worker's rows
    from trip `k` up to trip `k + 1`: the rows below trip `k + 1` hold the gathered rows. -/
theorem doneBelow_step (w : Fin 32) (k : Nat) (P3 P4 : Finset (Idx (outLoc qC d)))
    (g g3 g4 : Buf (Elt F) (outLoc qC d)) (hg : doneBelow d tv iv w k g)
    (hg3 : ∀ j ∈ P3, g3 j = gathered tv iv qC j) (hg4 : ∀ j ∈ P4, g4 j = gathered tv iv qC j)
    (hcov : ∀ j : S65536x128.Idx, j ∈ rowsSet w → (j 0).val < 2048 * w.val + 512 * (k + 1) → j ∉ P3 → j ∉ P4 →
      (j 0).val < 2048 * w.val + 512 * k) :
    doneBelow d tv iv w (k + 1) (P3.piecewise g3 (P4.piecewise g4 g)) := by
  intro j hj hlt
  by_cases hj3 : j ∈ P3
  · exact (Finset.piecewise_eq_of_mem P3 g3 _ hj3).trans (hg3 j hj3)
  · refine (Finset.piecewise_eq_of_notMem P3 g3 _ hj3).trans ?_
    by_cases hj4 : j ∈ P4
    · exact (Finset.piecewise_eq_of_mem P4 g4 _ hj4).trans (hg4 j hj4)
    · exact (Finset.piecewise_eq_of_notMem P4 g4 _ hj4).trans (hg j hj (hcov j hj hlt hj3 hj4))

omit [FloatOps F] in
/-- The cover fact for a trip's two pieces. -/
theorem trip_cover (w : Fin 32) (k e : Nat) (he : e = 2048 * w.val + 512 * k)
    (off3 off4 : Fin 2 → Nat) (h3 : ∀ a, off3 a + S256x128.size a ≤ S65536x128.size a) (hs3)
    (h4 : ∀ a, off4 a + S256x128.size a ≤ S65536x128.size a) (hs4)
    (e30 : off3 0 = e) (e31 : off3 1 = 0) (e40 : off4 0 = e + 256) (e41 : off4 1 = 0) :
    ∀ j : S65536x128.Idx, j ∈ rowsSet w → (j 0).val < 2048 * w.val + 512 * (k + 1) →
      j ∉ ((outV).slice (Rect.unit (s := S65536x128) off3 S256x128.size h3) hs3).view.set →
      j ∉ ((outV).slice (Rect.unit (s := S65536x128) off4 S256x128.size h4) hs4).view.set →
      (j 0).val < 2048 * w.val + 512 * k := by
  intro j hj hlt hj3 hj4
  have hr := (mem_rowsSet w j).mp hj
  have n3 := mt (mem_piece off3 h3 hs3 j).mpr hj3
  have n4 := mt (mem_piece off4 h4 hs4 j).mpr hj4
  have := idx2_lt1 (n0 := 65536) (n1 := 128) j
  omega

end Join

end Cert.Proof.KI.C6

end
-- ==== Proof.Tile6.lean ====
/-
  One vector subcore's task in gather call 6, at a symbolic tile. Worker `w = 2 s + c` (subcore `s` of SparseCore `c`)
  fills rows `[2048 w, 2048 w + 2048)` of the result in four trips of 512 rows. A trip copies two 256-entry pieces of the
  index list into the two index scratches, starts one indirect gather of table rows per scratch, and copies each gathered
  256 x 128 block out to its rows of the result; every transfer has its own semaphore and is waited for before the next
  one on that semaphore starts. The loop's invariant carries the value: the worker's rows below the current trip already
  hold row `r ↦ table[index[r]]`; each trip extends this by its 512 rows, and after four trips it is all 2048 rows.
-/
import proofs.«214101_g10505490006249_cont_week2b_118_28_alg».proof.Proof.TileAux6

noncomputable section

namespace Cert.Proof.KI.C6

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 8) (Elt F) ℕ UU ℕ

variable [FloatOps F]

/-! ## The body -/

section Body

variable (d : Dev nD) (L : grid12.Coords)

/-- The worker number of the tile at grid point `L`. -/
abbrev wL (L : grid12.Coords) : Fin 32 := wid (cV L) (jV L)

/-! ### Call 6: the trips' offsets

The only facts about this call's printed offset functions that the body uses, read off their generated closed forms:
trip `k` of the tile at `L` works on rows `rowE L k` and `rowE L k + 256` of the result, and on the index entries
`65536 qC` beyond them. -/

/-- The first row of the result that trip `k` of the tile at `L` writes. -/
def rowE (L : grid12.Coords) (k : Fin k12_t1_loop.trips) : Nat := 4096 * (L 1).val + 2048 * (L 0).val + 512 * k.val

theorem rowE_eq (k : Fin k12_t1_loop.trips) : rowE L k = 2048 * (wL L).val + 512 * k.val := by
  have hwv : (wL L).val = (L 1).val * 2 + (L 0).val := rfl
  unfold rowE; rw [hwv]; omega
theorem trips_eq : Scf.trips k12_t1_loop.lb k12_t1_loop.ub k12_t1_loop.st = 4 := by decide
theorem trip_lt (k : Fin k12_t1_loop.trips) : k.val < 4 := Nat.lt_of_lt_of_le k.isLt k12_t1_abs.2.1
theorem offI0 (k : Fin k12_t1_loop.trips) : k12_off1 L k 0 = (qC : Fin 8).val * 65536 + rowE L k := by
  have h : k12_off1 L k 0 = 4096 * (L 1).val + 2048 * (L 0).val + 512 * k.val + 393216 := congrFun (k12_off1_eq L k) 0
  rw [qC_val, h]; unfold rowE; omega
theorem offI1 (k : Fin k12_t1_loop.trips) : k12_off2 L k 0 = (qC : Fin 8).val * 65536 + (rowE L k + 256) := by
  have h : k12_off2 L k 0 = 4096 * (L 1).val + 2048 * (L 0).val + 512 * k.val + 393472 := congrFun (k12_off2_eq L k) 0
  rw [qC_val, h]; unfold rowE; omega
theorem offO0 (k : Fin k12_t1_loop.trips) : k12_off3 L k 0 = rowE L k := congrFun (k12_off3_eq L k) 0
theorem offO0' (k : Fin k12_t1_loop.trips) : k12_off3 L k 1 = 0 := congrFun (k12_off3_eq L k) 1
theorem offO1 (k : Fin k12_t1_loop.trips) : k12_off4 L k 0 = rowE L k + 256 := congrFun (k12_off4_eq L k) 0
theorem offO1' (k : Fin k12_t1_loop.trips) : k12_off4 L k 1 = 0 := congrFun (k12_off4_eq L k) 1

omit [FloatOps F] in
theorem pts_tbl (q : PosShare TreeShare) (f : Buf (Elt F) (tblLoc d)) :
    ((tblV).view.loc (thrV d L) ↦{q} f : sProp 𝕄) = tblLoc d ↦{q} f := by
  simp only [Memref.view_whole, View.set_whole]
omit [FloatOps F] in
theorem pts_idx (q : PosShare TreeShare) (f : Buf (Elt F) (idxLoc d)) :
    ((idxV).view.loc (thrV d L) ↦{q} f : sProp 𝕄) = idxLoc d ↦{q} f := by
  simp only [Memref.view_whole, View.set_whole]

omit [FloatOps F] in
theorem pts_s0 (f : Buf (Elt F) ((thrV d L).loc cc12_scratch0)) :
    ((thrV d L).loc cc12_scratch0 ↦{fullShare} f : sProp 𝕄) = ((sI0).view.loc (thrV d L) ↦{fullShare} f) := rfl
omit [FloatOps F] in
theorem pts_s1 (f : Buf (Elt F) ((thrV d L).loc cc12_scratch1)) :
    ((thrV d L).loc cc12_scratch1 ↦{fullShare} f : sProp 𝕄) = ((sI1).view.loc (thrV d L) ↦{fullShare} f) := rfl
omit [FloatOps F] in
theorem pts_s2 (f : Buf (Elt F) ((thrV d L).loc cc12_scratch2)) :
    ((thrV d L).loc cc12_scratch2 ↦{fullShare} f : sProp 𝕄) = ((sR0).view.loc (thrV d L) ↦{fullShare} f) := rfl
omit [FloatOps F] in
theorem pts_s3 (f : Buf (Elt F) ((thrV d L).loc cc12_scratch3)) :
    ((thrV d L).loc cc12_scratch3 ↦{fullShare} f : sProp 𝕄) = ((sR1).view.loc (thrV d L) ↦{fullShare} f) := rfl

/-- The two 256-row pieces of the result array that trip `k` writes, as the program slices them. -/
abbrev o3 (k : Fin k12_t1_loop.trips) : Memref sig .scVector .hbm S256x128 .f32 :=
  outV.slice (Rect.unit (s := S65536x128) (k12_off3 L k) S256x128.size (k12_off3_inb L k)) (fun _ => rfl)
abbrev o4 (k : Fin k12_t1_loop.trips) : Memref sig .scVector .hbm S256x128 .f32 :=
  outV.slice (Rect.unit (s := S65536x128) (k12_off4 L k) S256x128.size (k12_off4_inb L k)) (fun _ => rfl)

/-- The loop's invariant: the table and the index list at their read shares, the tile's rows of the result with the
    rows below the trip gathered, the four scratches at some contents, the six semaphores at zero, and what the tile owes. -/
def inv (qs : PosShare TreeShare) (tv : Buf (Elt F) (tblLoc d)) (iv : Buf (Elt F) (idxLoc d))
    (O : CellTallies nD τ sig (HIx 8)) (W : Waits sig (HIx 8)) (k : Nat) (_ : PUnit) : sProp 𝕄 :=
  iprop(Transfers.MayWaits (thrV d L) (none : HIx 8) O
    ∗ ((tblV).view.loc (thrV d L) ↦{qs} tv)
    ∗ ((idxV).view.loc (thrV d L) ↦{qs} iv)
    ∗ (∃ g, ⌜doneBelow d tv iv (wL L) k g⌝ ∗ outLoc qC d ↦[rowsSet (wL L)]{fullShare} g)
    ∗ (∃ f, (sI0).view.loc (thrV d L) ↦{fullShare} f)
    ∗ (∃ f, (sI1).view.loc (thrV d L) ↦{fullShare} f)
    ∗ (∃ f, (sR0).view.loc (thrV d L) ↦{fullShare} f)
    ∗ (∃ f, (sR1).view.loc (thrV d L) ↦{fullShare} f)
    ∗ semVal (cell d L cc12_scratch4) 0 ∗ semVal (cell d L cc12_scratch5) 0 ∗ semVal (cell d L cc12_scratch6) 0
    ∗ semVal (cell d L cc12_scratch7) 0 ∗ semVal (cell d L cc12_scoped0) 0 ∗ semVal (cell d L cc12_scoped1) 0
    ∗ ∃ W', ⌜∀ p ∈ W', p ∈ W ∨ p.2 = none⌝ ∗ owes (thrV d L) O W')

omit [FloatOps F] in
/-- Whatever an index scratch held before, after a 256-entry piece of the index list is copied into it every word it
    holds names a row of the table. -/
theorem idx_inb (iv : Buf (Elt F) (idxLoc d)) (hin : ∀ e, (iv e).toNat < 32768)
    (c : Thread nD τ) (m : Memref sig c.2.kind .vmem S256 .i32) (f : Buf (Elt F) (m.view.loc c))
    (off : Fin 1 → Nat) (h : ∀ a, off a + S256.size a ≤ S524288.size a) (hs) (x : S256.Idx) :
    (m.view.read (Elt F) (m.view.write (Elt F) f
      (ReadAs.same.apply (((idxV).slice (Rect.unit (s := S524288) off S256.size h) hs).view.read (Elt F) iv)) Finset.univ) x).toNat < 32768 := by
  rw [View.read_write_univ, ReadAs.apply_same, View.read_apply]
  exact hin _
set_option maxHeartbeats 2000000 in
theorem tile_body (qs : PosShare TreeShare) (tv : Buf (Elt F) (tblLoc d)) (iv : Buf (Elt F) (idxLoc d))
    (hin : ∀ e, (iv e).toNat < 32768) (O : CellTallies nD τ sig (HIx 8)) (W : Waits sig (HIx 8)) (hO : ∀ g, O g none = 0) :
    (iprop(levAts (K (F := F)).L (K (F := F)).lev ∗ emp
        ∗ ((tblLoc d ↦{qs} tv) ∗ (idxLoc d ↦{qs} iv) ∗ ∃ f, outLoc qC d ↦[rowsSet (wL L)]{fullShare} f)
        ∗ scopedBufs (thrV d L) ∗ scopedSems0 (thrV d L) ∗ owes (thrV d L) O W) : sProp 𝕄)
      ⊢ wp frame (wpE (defs₀ (F := F)) 𝒱₀ (thrV d L) none) Set.univ
          (cc12_gather_kernel L tblV (Memref.isWhole_whole _) idxV (Memref.isWhole_whole _) outV (Memref.isWhole_whole _)
            sI0 (Memref.isWhole_whole _) sI1 (Memref.isWhole_whole _) sR0 (Memref.isWhole_whole _) sR1 (Memref.isWhole_whole _)
            cc12_scratch4 cc12_scratch5 cc12_scratch6 cc12_scratch7 cc12_scoped0 cc12_scoped1)
          fun _ => iprop(((tblLoc d ↦{qs} tv) ∗ (idxLoc d ↦{qs} iv) ∗ outLoc qC d ↦[rowsSet (wL L)]{fullShare} gathered tv iv qC)
            ∗ scopedBufs (thrV d L) ∗ scopedSems0 (thrV d L) ∗ ∃ W', ⌜∀ p ∈ W', p ∈ W ∨ p.2 = none⌝ ∗ owes (thrV d L) O W') := by
  simp only [cc12_gather_kernel_eq_skeleton]; unfold cc12_gather_kernel_skel
  rw [(K (F := F)).scopedBufs_V facts d (cV L) (jV L), SparseCore.Cfg.scopedSems0_V (Val := Elt F) d (cV L) (jV L), ownSems0_V, ownBufs_V]
  iintro ⟨#Hlv, -, ⟨Ht, Hi, %fo, Ho⟩, ⟨⟨%f0, Hb0⟩, ⟨%f1, Hb1⟩, ⟨%f2, Hb2⟩, ⟨%f3, Hb3⟩, Hbufs⟩, ⟨Hs4, Hs5, Hs6, Hs7, Hs8, Hs9, Hsems⟩, HO⟩
  ihave Hmw := ((K (F := F)).mayWaits_none (thr := thrV d L) hO) $$ Hlv
  ihave Ht' := (Entails.of_eq (pts_tbl (F := F) d L _ _).symm) $$ Ht
  ihave Hi' := (Entails.of_eq (pts_idx (F := F) d L _ _).symm) $$ Hi
  ihave Hb0' := (Entails.of_eq (pts_s0 (F := F) d L f0)) $$ Hb0
  ihave Hb1' := (Entails.of_eq (pts_s1 (F := F) d L f1)) $$ Hb1
  ihave Hb2' := (Entails.of_eq (pts_s2 (F := F) d L f2)) $$ Hb2
  ihave Hb3' := (Entails.of_eq (pts_s3 (F := F) d L f3)) $$ Hb3
  sl_exec
  sl_for (inv d L qs tv iv O W) $$ [Hmw Ht' Hi' Ho Hb0' Hb1' Hb2' Hb3' Hs4 Hs5 Hs6 Hs7 Hs8 Hs9 HO]
  case region =>
    intro k _
    unfold inv
    iintro ⟨Hmw, Ht, Hi, ⟨%g, %hg, Ho⟩, ⟨%f0, Hb0⟩, ⟨%f1, Hb1⟩, ⟨%f2, Hb2⟩, ⟨%f3, Hb3⟩, Hs4, Hs5, Hs6, Hs7, Hs8, Hs9, %W', %hW', HO⟩
    -- the trip's offsets: the row pieces start at rows `rowE` and `rowE + 256`, the index pieces `65536 qC` entries beyond
    have o30 := offO0 L k
    have o31 := offO0' L k
    have o40 := offO1 L k
    have o41 := offO1' L k
    have hE := rowE_eq L k
    have hk := trip_lt k
    have e13 : k12_off1 L k 0 = (qC : Fin 8).val * 65536 + k12_off3 L k 0 := by rw [offI0, o30]
    have e24 : k12_off2 L k 0 = (qC : Fin 8).val * 65536 + k12_off4 L k 0 := by rw [offI1, o40]
    have hsub3 : (o3 L k).view.set ⊆ rowsSet (wL L) :=
      piece_subset (wL L) k.val _ hE hk (k12_off3 L k) (k12_off3_inb L k) (fun _ => rfl) (.inl o30) o31
    have hsub4 : (o4 L k).view.set ⊆ rowsSet (wL L) \ (o3 L k).view.set :=
      piece_subset_sdiff (wL L) k.val _ hE hk (k12_off3 L k) (k12_off4 L k) (k12_off3_inb L k) (fun _ => rfl) (k12_off4_inb L k) (fun _ => rfl) o30 o40 o41
    ihave Ho' := (pointsTo_split_subset (ℓ := outLoc qC d) (q := fullShare) (f := g) (I := (o3 L k).view.set) (S := rowsSet (wL L)) hsub3).1 $$ Ho
    icases Ho' with ⟨Ho3, Hor⟩
    ihave Hor' := (pointsTo_split_subset (ℓ := outLoc qC d) (q := fullShare) (f := g) (I := (o4 L k).view.set) (S := rowsSet (wL L) \ (o3 L k).view.set) hsub4).1 $$ Hor
    icases Hor' with ⟨Ho4, Hor⟩
    ihave Ho3' := (Entails.of_eq (show (outLoc qC d ↦[(o3 L k).view.set]{fullShare} g : sProp 𝕄) = ((o3 L k).view.loc (thrV d L) ↦[(o3 L k).view.set]{fullShare} g) from rfl)) $$ Ho3
    ihave Ho4' := (Entails.of_eq (show (outLoc qC d ↦[(o4 L k).view.set]{fullShare} g : sProp 𝕄) = ((o4 L k).view.loc (thrV d L) ↦[(o4 L k).view.set]{fullShare} g) from rfl)) $$ Ho4
    -- the words each index scratch holds once its piece of the list has landed name rows of the table
    have hin0 : ∀ x : S256.Idx, ((sI0).view.read (Elt F) ((sI0).view.write (Elt F) f0 (ReadAs.same.apply (((idxV).slice
        (Rect.unit (s := S524288) (k12_off1 L k) S256.size (k12_off1_inb L k)) (fun _ => rfl)).view.read (Elt F) iv)) Finset.univ) x).toNat < 32768 :=
      idx_inb (F := F) d iv hin (thrV d L) sI0 f0 _ _ _
    have hin1 : ∀ x : S256.Idx, ((sI1).view.read (Elt F) ((sI1).view.write (Elt F) f1 (ReadAs.same.apply (((idxV).slice
        (Rect.unit (s := S524288) (k12_off2 L k) S256.size (k12_off2_inb L k)) (fun _ => rfl)).view.read (Elt F) iv)) Finset.univ) x).toNat < 32768 :=
      idx_inb (F := F) d iv hin (thrV d L) sI1 f1 _ _ _
    -- both gathers read the table while the other is outstanding: a read share each
    ihave Ht2 := (pointsTo_share (ℓ := (tblV).view.loc (thrV d L)) (I := Finset.univ) (f := tv) (PosShare.mem_left_op_right qs)).1 $$ Ht
    icases Ht2 with ⟨Hta, Htb⟩
    -- what the two copy-outs leave in their pieces is the gathered rows
    have hgth : S32768x128.Gathers 0 S256x128 := by decide
    have hg3 := fun j hj => piece_gathered (F := F) d tv iv hin (thrV d L) sI0 f0 sR0 f2 (k12_off1 L k) (k12_off1_inb L k) (fun _ => rfl)
      inb_S32768x128_S32768x128_0_0 (fun _ => rfl) hgth rfl hin0 (k12_off3 L k) (k12_off3_inb L k) (fun _ => rfl) e13 o31 g j hj
    have hg4 := fun j hj => piece_gathered (F := F) d tv iv hin (thrV d L) sI1 f1 sR1 f3 (k12_off2 L k) (k12_off2_inb L k) (fun _ => rfl)
      inb_S32768x128_S32768x128_0_0 (fun _ => rfl) hgth rfl hin1 (k12_off4 L k) (k12_off4_inb L k) (fun _ => rfl) e24 o41 g j hj
    sl_exec
    sl_step
    isplitl [Hmw]; · iexact Hmw
    isplitl [Hta Htb]
    · iapply (pointsTo_share (ℓ := (tblV).view.loc (thrV d L)) (I := Finset.univ) (f := tv) (PosShare.mem_left_op_right qs)).2
      isplitl [Hta]; · iexact Hta
      iexact Htb
    isplitl [Hi]; · iexact Hi
    isplitl [Ho3' Ho4' Hor]
    · ihave Hj := (rejoin_two (F := F) (ℓ := outLoc qC d) (rowsSet (wL L)) (o3 L k).view.set (o4 L k).view.set hsub3 hsub4 g _ _) $$ [Ho3' Ho4' Hor]
      · isplitl [Ho3']; · iexact Ho3'
        isplitl [Ho4']; · iexact Ho4'
        iexact Hor
      iexists _
      isplitr
      · ipureintro
        exact doneBelow_step (F := F) d tv iv (wL L) k.val (o3 L k).view.set (o4 L k).view.set g _ _ hg hg3 hg4
          (trip_cover (wL L) k.val _ hE (k12_off3 L k) (k12_off4 L k) (k12_off3_inb L k) (fun _ => rfl) (k12_off4_inb L k) (fun _ => rfl) o30 o31 o40 o41)
      · iexact Hj
    isplitl [Hb0]; · iexists _; iexact Hb0
    isplitl [Hb1]; · iexists _; iexact Hb1
    isplitl [Hb2]; · iexists _; iexact Hb2
    isplitl [Hb3]; · iexists _; iexact Hb3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    iexists _; isplitr
    swap
    · iexact HO
    · ipureintro; intro p hp
      simp only [Finset.mem_insert] at hp
      rcases hp with rfl | rfl | rfl | rfl | rfl | rfl | hp
      · exact .inr rfl
      · exact .inr rfl
      · exact .inr rfl
      · exact .inr rfl
      · exact .inr rfl
      · exact .inr rfl
      · exact hW' p hp
  · unfold inv
    isplitl [Hmw]; · iexact Hmw
    isplitl [Ht']; · iexact Ht'
    isplitl [Hi']; · iexact Hi'
    isplitl [Ho]
    · iexists fo; isplitr
      · ipureintro; exact doneBelow_zero d tv iv (wL L) fo
      · iexact Ho
    isplitl [Hb0']; · iexists f0; iexact Hb0'
    isplitl [Hb1']; · iexists f1; iexact Hb1'
    isplitl [Hb2']; · iexists f2; iexact Hb2'
    isplitl [Hb3']; · iexists f3; iexact Hb3'
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    iexists W; isplitr
    · ipureintro; exact fun p hp => .inl hp
    · iexact HO
  iintro %_ HI
  unfold inv
  icases HI with ⟨-, Ht, Hi, ⟨%g, %hg, Ho⟩, ⟨%f0', Hb0⟩, ⟨%f1', Hb1⟩, ⟨%f2', Hb2⟩, ⟨%f3', Hb3⟩, Hs4, Hs5, Hs6, Hs7, Hs8, Hs9, %W', %hW', HO⟩
  rw [trips_eq] at hg
  sl_exec
  sl_step
  isplitl [Ht Hi Ho]
  · isplitl [Ht]; · iapply (Entails.of_eq (pts_tbl (F := F) d L _ _)); iexact Ht
    isplitl [Hi]; · iapply (Entails.of_eq (pts_idx (F := F) d L _ _)); iexact Hi
    iapply (Entails.of_eq (pointsTo_congr (ℓ := outLoc qC d) (q := fullShare) (I := rowsSet (wL L)) (doneBelow_four d tv iv (wL L) g hg)))
    iexact Ho
  isplitl [Hb0 Hb1 Hb2 Hb3 Hbufs]
  · isplitl [Hb0]; · iexists f0'; iapply (Entails.of_eq (pts_s0 (F := F) d L f0').symm); iexact Hb0
    isplitl [Hb1]; · iexists f1'; iapply (Entails.of_eq (pts_s1 (F := F) d L f1').symm); iexact Hb1
    isplitl [Hb2]; · iexists f2'; iapply (Entails.of_eq (pts_s2 (F := F) d L f2').symm); iexact Hb2
    isplitl [Hb3]; · iexists f3'; iapply (Entails.of_eq (pts_s3 (F := F) d L f3').symm); iexact Hb3
    iexact Hbufs
  isplitl [Hs4 Hs5 Hs6 Hs7 Hs8 Hs9 Hsems]
  · isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    iexact Hsems
  iexists W'; isplitr
  · ipureintro; exact hW'
  · iexact HO

end Body

end Cert.Proof.KI.C6

end
-- ==== Proof.TileObl6.lean ====
/-
  The launch theorem's obligation for gather call 6: a tile's task, entered through the body table, is the kernel's
  body at that tile, run on the tile's share of the table and the index list and on its worker's rows.
-/
import proofs.«214101_g10505490006249_cont_week2b_118_28_alg».proof.Proof.Launch
import proofs.«214101_g10505490006249_cont_week2b_118_28_alg».proof.Proof.Tile6
import proofs.«214101_g10505490006249_cont_week2b_118_28_alg».proof.Proof.TileObl0

noncomputable section

namespace Cert.Proof.KI.C6

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Transfers (shareTok shareDrop pointsTo_toks_split pointsTo_toks_join)

variable {F : FTy → Type}

local notation "𝕄" => MT nD τ sig (HIx 8) (Elt F) ℕ UU ℕ

variable [FloatOps F]
variable (tv : (d : Dev nD) → S32768x128.Idx → Elt F .f32) (iv : (d : Dev nD) → S524288.Idx → Elt F .i32)

/-- A tile's grid coordinates from its SparseCore and subcore numbers. -/
def coordsV (c : Fin (grid12.bound 0)) (s : Fin (grid12.bound 1)) : grid12.Coords :=
  fun | 0 => c | 1 => s | ⟨_ + 2, h⟩ => absurd h (Nat.not_lt.2 (Nat.le_add_left _ _))

theorem defs₀_vector6 (c : Fin τ.nSC) (s : Fin τ.nSub) :
    defs₀ (F := F) (.scVector c s) 12 ()
      = SparseCore.onTile hcore12 hsub12 (fun c s => cc12_gather_kernel (coordsV c s)
          tblV (Memref.isWhole_whole _) idxV (Memref.isWhole_whole _) outV (Memref.isWhole_whole _)
          sI0 (Memref.isWhole_whole _) sI1 (Memref.isWhole_whole _) sR0 (Memref.isWhole_whole _) sR1 (Memref.isWhole_whole _)
          cc12_scratch4 cc12_scratch5 cc12_scratch6 cc12_scratch7 cc12_scoped0 cc12_scoped1) ⟨⟩ c s := rfl

/-- Call 6's tile obligation. -/
theorem tileObl6 (hin : ∀ d e, (iv d e).toNat < 32768) : (K (F := F)).TileObl (D (F := F)) 𝒱 (P (F := F) tv iv) v₀ 6 := by
  intro d c i O W hO _ _
  -- the gather kernel owes nothing for a protocol of its own
  simp only [show (P (F := F) tv iv).ox = fun _ _ => 0 from rfl, add_zero]
  change _ ⊢ wp _ _ _ (Pipeline.liftProg (defs₀ (F := F) (.scVector ((K (F := F)).core 6 c) ((K (F := F)).sub 6 i)) 12 ())) _
  refine BI.Entails.trans ?_ (Pipeline.wp_liftProg (D (F := F)) (Pipeline.defs_kernel pcfgs defs₀) 𝒱₀ _ Set.univ none _ _)
  have hc : ((K (F := F)).core 6 c).val < grid12.bound 0 ∧ ((K (F := F)).sub 6 i).val < grid12.bound 1 := ⟨c.isLt, i.isLt⟩
  rw [defs₀_vector6]; simp only [SparseCore.onTile, hc, and_self, ↓reduceDIte]
  exact (tile_body d (coordsV ⟨_, hc.1⟩ ⟨_, hc.2⟩) (shT (cC 6 c) (sS 6 i)) (tv d) (iv d) (hin d) O W hO).trans (wp_mono frame _ _ fun _ => obl_post)

end Cert.Proof.KI.C6

end
-- ==== Proof.TileAux7.lean ====
/-
  One vector subcore's share of a gather call, the pure part: how the subcore's scoped semaphores and scratch buffers are
  opened, what an indirect gather of 256 table rows delivers element by element, which elements of the result array a
  trip's two copy-outs write, and how those pieces rejoin the subcore's 2048 rows of the result.
-/
import proofs.«214101_g10505490006249_cont_week2b_118_28_alg».proof.Proof.Setup

noncomputable section

namespace Cert.Proof.KI.C7

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 8) (Elt F) ℕ UU ℕ

/-! ## The names of gather call 7

Everything that is particular to this one of the eight gather calls is named here (and, for the trips' offsets, at the
top of the body's module): the call's number, its result array, its scratch buffers. The text below speaks of the call
only through these names and through the program's own `cc14_…` / `k14_…` names. -/

/-- The number of this gather call among the eight: it reads index entries `65536 qC + …` and fills result array `qC`. -/
abbrev qC : Fin 8 := 7
theorem qC_val : (qC : Fin 8).val = 7 := rfl

abbrev tblV : Memref sig .scVector .hbm S32768x128 .f32 := Memref.whole main_v10_scv
abbrev idxV : Memref sig .scVector .hbm S524288 .i32 := Memref.whole main_v6_scv
abbrev outV : Memref sig .scVector .hbm S65536x128 .f32 := Memref.whole main_v48_scv
abbrev sI0 : Memref sig .scVector .vmem S256 .i32 := Memref.whole cc14_scratch0
abbrev sI1 : Memref sig .scVector .vmem S256 .i32 := Memref.whole cc14_scratch1
abbrev sR0 : Memref sig .scVector .vmem S256x128 .f32 := Memref.whole cc14_scratch2
abbrev sR1 : Memref sig .scVector .vmem S256x128 .f32 := Memref.whole cc14_scratch3

abbrev cV (L : grid14.Coords) : Fin τ.nSC := (L 0).castLE hcore14
abbrev jV (L : grid14.Coords) : Fin τ.nSub := (L 1).castLE hsub14
abbrev thrV (d : Dev nD) (L : grid14.Coords) : Thread nD τ := V d (cV L) (jV L)

variable [FloatOps F]

/-! ## The tile's own semaphores and scratch buffers -/

section Own

variable (d : Dev nD) (L : grid14.Coords)

/-- The cell of one of the tile's DMA semaphores. -/
abbrev cell (sm : DmaSems sig S_) : GSem nD τ sig := (thrV d L, .dma sm.sem)

omit [FloatOps F] in
theorem cell_mem {sm : DmaSems sig S_} (h : (SemLoc.dma sm.sem : SemLoc sig).isScoped .scVector = true) :
    cell d L sm ∈ ownCells (sig := sig) (thrV d L) := (mem_ownCells (g := cell d L sm)).mpr ⟨rfl, h⟩

theorem cell_ne {a b : DmaSems sig S_} (h : (SemLoc.dma a.sem : SemLoc sig) ≠ .dma b.sem) : cell d L a ≠ cell d L b :=
  fun e => h (Prod.mk.inj e).2

/-- The tile's scoped cells other than the six the gather uses. -/
abbrev restCells : Finset (GSem nD τ sig) :=
  ((((((ownCells (thrV d L)).erase (cell d L cc14_scratch4)).erase (cell d L cc14_scratch5)).erase (cell d L cc14_scratch6)).erase
    (cell d L cc14_scratch7)).erase (cell d L cc14_scoped0)).erase (cell d L cc14_scoped1)

theorem ownSems0_V :
    (ownSems0 (thrV d L) : sProp 𝕄)
      = iprop(semVal (cell d L cc14_scratch4) 0 ∗ semVal (cell d L cc14_scratch5) 0 ∗ semVal (cell d L cc14_scratch6) 0
          ∗ semVal (cell d L cc14_scratch7) 0 ∗ semVal (cell d L cc14_scoped0) 0 ∗ semVal (cell d L cc14_scoped1) 0
          ∗ bigSep (restCells d L) fun g => semVal g 0) := by
  unfold SparseCore.Cfg.ownSems0
  have m4 := cell_mem d L (sm := cc14_scratch4) (by decide)
  have m5 := cell_mem d L (sm := cc14_scratch5) (by decide)
  have m6 := cell_mem d L (sm := cc14_scratch6) (by decide)
  have m7 := cell_mem d L (sm := cc14_scratch7) (by decide)
  have m8 := cell_mem d L (sm := cc14_scoped0) (by decide)
  have m9 := cell_mem d L (sm := cc14_scoped1) (by decide)
  rw [SparseCore.bigSep_erase' m4,
    SparseCore.bigSep_erase' (Finset.mem_erase.mpr ⟨cell_ne d L (by decide), m5⟩),
    SparseCore.bigSep_erase' (Finset.mem_erase.mpr ⟨cell_ne d L (by decide), Finset.mem_erase.mpr ⟨cell_ne d L (by decide), m6⟩⟩),
    SparseCore.bigSep_erase' (Finset.mem_erase.mpr ⟨cell_ne d L (by decide), Finset.mem_erase.mpr ⟨cell_ne d L (by decide),
      Finset.mem_erase.mpr ⟨cell_ne d L (by decide), m7⟩⟩⟩),
    SparseCore.bigSep_erase' (Finset.mem_erase.mpr ⟨cell_ne d L (by decide), Finset.mem_erase.mpr ⟨cell_ne d L (by decide),
      Finset.mem_erase.mpr ⟨cell_ne d L (by decide), Finset.mem_erase.mpr ⟨cell_ne d L (by decide), m8⟩⟩⟩⟩),
    SparseCore.bigSep_erase' (Finset.mem_erase.mpr ⟨cell_ne d L (by decide), Finset.mem_erase.mpr ⟨cell_ne d L (by decide),
      Finset.mem_erase.mpr ⟨cell_ne d L (by decide), Finset.mem_erase.mpr ⟨cell_ne d L (by decide),
      Finset.mem_erase.mpr ⟨cell_ne d L (by decide), m9⟩⟩⟩⟩⟩)]

/-- One of the tile's scratch buffers, as a buffer of the device. -/
abbrev sref (b : Ref sig .scVector) : DevRef τ sig := (Proc.scVector (cV L) (jV L)).devRef b

theorem sref_mem {b : Ref sig .scVector} (h : (sref L b).owner = .proc (.scVector (cV L) (jV L))) :
    sref L b ∈ ownRefs (sig := sig) (τ := τ) (.scVector (cV L) (jV L)) :=
  SparseCore.Cfg.mem_ownRefs_of_owner (p := Proc.scVector (cV L) (jV L)) (b := sref L b) h

theorem sref_ne {a b : Ref sig .scVector} (h : a ≠ b) : sref L a ≠ sref L b := fun e => h (Proc.devRef_injective _ e)

/-- The tile's own buffers other than the gather's four scratches. -/
abbrev restRefs : Finset (DevRef τ sig) :=
  ((((ownRefs (τ := τ) (.scVector (cV L) (jV L))).erase (sref L cc14_scratch0)).erase (sref L cc14_scratch1)).erase (sref L cc14_scratch2)).erase
    (sref L cc14_scratch3)

theorem ownBufs_V :
    (ownBufs (thrV d L) : sProp 𝕄)
      = iprop((∃ f, (thrV d L).loc cc14_scratch0 ↦{fullShare} f) ∗ (∃ f, (thrV d L).loc cc14_scratch1 ↦{fullShare} f)
          ∗ (∃ f, (thrV d L).loc cc14_scratch2 ↦{fullShare} f) ∗ (∃ f, (thrV d L).loc cc14_scratch3 ↦{fullShare} f)
          ∗ bigSep (restRefs L) fun b => iprop(∃ f, ((d, b) : Loc nD τ sig) ↦{fullShare} f)) := by
  unfold SparseCore.Cfg.ownBufs
  refine (SparseCore.bigSep_erase' (sref_mem L (b := cc14_scratch0) rfl)).trans ?_
  rw [SparseCore.bigSep_erase' (Finset.mem_erase.mpr ⟨sref_ne L (show (cc14_scratch1 : Ref sig .scVector) ≠ cc14_scratch0 by decide), sref_mem L (b := cc14_scratch1) rfl⟩),
    SparseCore.bigSep_erase' (Finset.mem_erase.mpr ⟨sref_ne L (show (cc14_scratch2 : Ref sig .scVector) ≠ cc14_scratch1 by decide),
      Finset.mem_erase.mpr ⟨sref_ne L (show (cc14_scratch2 : Ref sig .scVector) ≠ cc14_scratch0 by decide), sref_mem L (b := cc14_scratch2) rfl⟩⟩),
    SparseCore.bigSep_erase' (Finset.mem_erase.mpr ⟨sref_ne L (show (cc14_scratch3 : Ref sig .scVector) ≠ cc14_scratch2 by decide),
      Finset.mem_erase.mpr ⟨sref_ne L (show (cc14_scratch3 : Ref sig .scVector) ≠ cc14_scratch1 by decide),
      Finset.mem_erase.mpr ⟨sref_ne L (show (cc14_scratch3 : Ref sig .scVector) ≠ cc14_scratch0 by decide), sref_mem L (b := cc14_scratch3) rfl⟩⟩⟩)]

end Own

/-! ## What one gather delivers -/

section Value

variable (d : Dev nD) (tv : Buf (Elt F) (tblLoc d)) (iv : Buf (Elt F) (idxLoc d))

omit [FloatOps F] in
/-- Entry `y` of the 256-entry piece of the index list that starts at `off` is entry `off + y` of the list. -/
theorem idxPiece_read (off : Fin 1 → Nat) (h : ∀ a, off a + S256.size a ≤ S524288.size a) (hs) (y : S256.Idx) :
    ((idxV).slice (Rect.unit (s := S524288) off S256.size h) hs).view.read (Elt F) iv y
      = iv (ix1 ⟨off 0 + (y 0).val, by have := h 0; have := (y 0).isLt; exact Nat.lt_of_lt_of_le (Nat.add_lt_add_left this _) (h 0)⟩) := by
  rw [View.read_apply]
  refine congrArg iv (funext fun a => ?_)
  match a with
  | ⟨0, _⟩ => exact Fin.ext (by show off 0 + 1 * (y 0).val = off 0 + (y 0).val; omega)

omit [FloatOps F] in
/-- The gather's payload at an index: row `x 0` of the scratch receives the table's row named by entry `off + x 0` of
    the index list, when the index scratch was filled with the 256 entries from `off`. -/
theorem gather_apply (hin : ∀ e, (iv e).toNat < 32768)
    (c : Thread nD τ) (sI : Memref sig c.2.kind .vmem S256 .i32) (fI : Buf (Elt F) (sI.view.loc c))
    (off : Fin 1 → Nat) (h : ∀ a, off a + S256.size a ≤ S524288.size a) (hs) (h7) (h8)
    (hg : S32768x128.Gathers 0 S256x128) (hn : S256.numel = S256x128.size hg.axis')
    (hinI : ∀ x, ((sI.view.read (Elt F) (sI.view.write (Elt F) fI
      (ReadAs.same.apply (((idxV).slice (Rect.unit (s := S524288) off S256.size h) hs).view.read (Elt F) iv)) Finset.univ)) x).toNat
        < S32768x128.size hg.axis)
    (x : S256x128.Idx) :
    SparseCore.gatherPayload hg (((tblV).slice (Rect.unit (s := S32768x128) ![0, 0] S32768x128.size h7) h8).view.read (Elt F) tv)
        (SparseCore.rows (sI.view.read (Elt F) (sI.view.write (Elt F) fI
          (ReadAs.same.apply (((idxV).slice (Rect.unit (s := S524288) off S256.size h) hs).view.read (Elt F) iv)) Finset.univ)) hn hinI) x
      = tv (ix2 (rowOf (iv (ix1 ⟨off 0 + (x 0).val, by
          have := h 0; have := idx2_lt0 (n0 := 256) (n1 := 128) x
          exact Nat.lt_of_lt_of_le (Nat.add_lt_add_left this _) (h 0)⟩))) (x 1)) := by
  unfold SparseCore.gatherPayload
  rw [View.read_apply]
  refine congrArg tv (funext fun a => ?_)
  have hy0 : ((S256.rowMajor.symm ((x hg.axis').cast hn.symm)) 0).val = (x 0).val := by
    have e := Shape.rowMajor_val_one (d := ![256]) (S256.rowMajor.symm ((x hg.axis').cast hn.symm))
    rw [Equiv.apply_symm_apply] at e
    exact e.symm
  match a with
  | ⟨0, _⟩ =>
    apply Fin.ext
    show 0 + 1 * (hg.idx _ x hg.axis).val = _
    rw [Shape.Gathers.idx_axis]
    show 0 + 1 * ((sI.view.read (Elt F) (sI.view.write (Elt F) fI (ReadAs.same.apply
      (((idxV).slice (Rect.unit (s := S524288) off S256.size h) hs).view.read (Elt F) iv)) Finset.univ))
        (S256.rowMajor.symm ((x hg.axis').cast hn.symm))).toNat = (iv (ix1 ⟨off 0 + (x 0).val, _⟩)).toNat % 32768
    rw [View.read_write_univ, ReadAs.apply_same, idxPiece_read, Nat.mod_eq_of_lt (hin _), Nat.zero_add, Nat.one_mul]
    exact congrArg (fun n : Fin 524288 => (iv (ix1 n)).toNat) (Fin.ext (by show off 0 + _ = off 0 + _; rw [hy0]))
  | ⟨1, _⟩ =>
    apply Fin.ext
    show 0 + 1 * (hg.idx _ x ⟨1, by decide⟩).val = (x 1).val
    rw [Shape.Gathers.idx_of_ne hg _ x ⟨1, by decide⟩ (by decide), Nat.zero_add, Nat.one_mul]
    rfl

end Value

/-! ## What a trip leaves in one 256-row piece of the result -/

section Piece

variable (d : Dev nD) (tv : Buf (Elt F) (tblLoc d)) (iv : Buf (Elt F) (idxLoc d))

omit [FloatOps F] in
/-- A row scratch written whole with `p`, copied whole onto a 256-row piece of the result: the piece's element under `x`
    holds `p x`. -/
theorem out_piece_apply (c : Thread nD τ) (sR : Memref sig c.2.kind .vmem S256x128 .f32) (fR : Buf (Elt F) (sR.view.loc c))
    (p : S256x128.Idx → Elt F .f32) (off : Fin 2 → Nat) (h : ∀ a, off a + S256x128.size a ≤ S65536x128.size a) (hs)
    (g : Buf (Elt F) (outLoc qC d)) (x : S256x128.Idx) :
    (((outV).slice (Rect.unit (s := S65536x128) off S256x128.size h) hs).view.writes (Elt F) g
        [⟨Rect.whole S256x128, ReadAs.same.apply (sR.view.read (Elt F) (sR.view.writes (Elt F) fR [⟨Rect.whole S256x128, p⟩]))⟩])
      (((outV).slice (Rect.unit (s := S65536x128) off S256x128.size h) hs).view.emb x) = p x := by
  have e1 := congrFun (View.read_writes_whole ((outV).slice (Rect.unit (s := S65536x128) off S256x128.size h) hs).view g
    (ReadAs.same.apply (sR.view.read (Elt F) (sR.view.writes (Elt F) fR [⟨Rect.whole S256x128, p⟩])))) x
  rw [View.read_apply] at e1
  refine (show _ = _ from e1).trans ?_
  rw [ReadAs.apply_same]
  exact congrFun (View.read_writes_whole sR.view fR p) x

omit [FloatOps F] in
/-- The gathered result at the element of a piece under `x`, when the index piece starts `65536 qC` entries beyond the
    row the piece starts at (call `qC`'s share of the index list). -/
theorem gathered_emb (off1 : Fin 1 → Nat) (off : Fin 2 → Nat) (h : ∀ a, off a + S256x128.size a ≤ S65536x128.size a) (hs)
    (e0 : off1 0 = (qC : Fin 8).val * 65536 + off 0) (e1 : off 1 = 0) (x : S256x128.Idx) (hlt : off1 0 + (x 0).val < 524288) :
    gathered tv iv qC (((outV).slice (Rect.unit (s := S65536x128) off S256x128.size h) hs).view.emb x)
      = tv (ix2 (rowOf (iv (ix1 ⟨off1 0 + (x 0).val, hlt⟩))) (x 1)) := by
  obtain ⟨j, hj⟩ : ∃ j : S65536x128.Idx, j = ((outV).slice (Rect.unit (s := S65536x128) off S256x128.size h) hs).view.emb x := ⟨_, rfl⟩
  have j0 : (j 0).val = off 0 + 1 * (x 0).val := by rw [hj]; rfl
  have j1 : (j 1).val = off 1 + 1 * (x 1).val := by rw [hj]; rfl
  rw [← hj]
  unfold gathered
  have a : ∀ hb, (⟨(qC : Fin 8).val * 65536 + (j 0).val, hb⟩ : Fin 524288) = ⟨off1 0 + (x 0).val, hlt⟩ := fun _ =>
    Fin.ext (by show (qC : Fin 8).val * 65536 + (j 0).val = off1 0 + (x 0).val; rw [j0, e0]; omega)
  have b : j 1 = x 1 := Fin.ext (by rw [j1, e1]; omega)
  rw [a, b]

omit [FloatOps F] in
/-- After a trip's gather and copy-out, every element of the 256-row piece holds the gathered result. -/
theorem piece_gathered (hin : ∀ e, (iv e).toNat < 32768)
    (c : Thread nD τ) (sI : Memref sig c.2.kind .vmem S256 .i32) (fI : Buf (Elt F) (sI.view.loc c))
    (sR : Memref sig c.2.kind .vmem S256x128 .f32) (fR : Buf (Elt F) (sR.view.loc c))
    (off1 : Fin 1 → Nat) (h1 : ∀ a, off1 a + S256.size a ≤ S524288.size a) (hs1) (h7) (h8)
    (hg : S32768x128.Gathers 0 S256x128) (hn : S256.numel = S256x128.size hg.axis')
    (hinI : ∀ x, ((sI.view.read (Elt F) (sI.view.write (Elt F) fI
      (ReadAs.same.apply (((idxV).slice (Rect.unit (s := S524288) off1 S256.size h1) hs1).view.read (Elt F) iv)) Finset.univ)) x).toNat
        < S32768x128.size hg.axis)
    (off : Fin 2 → Nat) (h : ∀ a, off a + S256x128.size a ≤ S65536x128.size a) (hs) (e0 : off1 0 = (qC : Fin 8).val * 65536 + off 0) (e1 : off 1 = 0)
    (g : Buf (Elt F) (outLoc qC d)) (j : S65536x128.Idx)
    (hj : j ∈ ((outV).slice (Rect.unit (s := S65536x128) off S256x128.size h) hs).view.set) :
    (((outV).slice (Rect.unit (s := S65536x128) off S256x128.size h) hs).view.writes (Elt F) g
        [⟨Rect.whole S256x128, ReadAs.same.apply (sR.view.read (Elt F) (sR.view.writes (Elt F) fR [⟨Rect.whole S256x128,
          SparseCore.gatherPayload hg (((tblV).slice (Rect.unit (s := S32768x128) ![0, 0] S32768x128.size h7) h8).view.read (Elt F) tv)
            (SparseCore.rows (sI.view.read (Elt F) (sI.view.write (Elt F) fI
              (ReadAs.same.apply (((idxV).slice (Rect.unit (s := S524288) off1 S256.size h1) hs1).view.read (Elt F) iv)) Finset.univ)) hn hinI)⟩]))⟩]) j
      = gathered tv iv qC j := by
  obtain ⟨x, -, rfl⟩ := Finset.mem_map.mp hj
  rw [out_piece_apply, gather_apply d tv iv hin, gathered_emb d tv iv off1 off h hs e0 e1]

end Piece

/-! ## The tile's rows and the pieces a trip writes -/

section Geometry

omit [FloatOps F] in
/-- Worker `w`'s rows of the result array are rows `[2048 w, 2048 w + 2048)`. -/
theorem mem_rowsSet (w : Fin 32) (j : S65536x128.Idx) :
    j ∈ rowsSet w ↔ 2048 * w.val ≤ (j 0).val ∧ (j 0).val < 2048 * w.val + 2048 := by
  unfold rowsSet rowsRect
  rw [View.set_slice_whole, Rect.mem_set_unit]
  have h1 := idx2_lt1 (n0 := 65536) (n1 := 128) j
  constructor
  · intro H
    have H0 : w.val * 2048 ≤ (j 0).val ∧ (j 0).val < w.val * 2048 + 2048 := H 0
    omega
  · intro H a
    match a with
    | ⟨0, _⟩ => show w.val * 2048 ≤ (j 0).val ∧ (j 0).val < w.val * 2048 + 2048; omega
    | ⟨1, _⟩ => show 0 * 128 ≤ (j 1).val ∧ (j 1).val < 0 * 128 + 128; omega

omit [FloatOps F] in
/-- A 256-row piece of the result array at row offset `off 0` (all 128 columns). -/
theorem mem_piece (off : Fin 2 → Nat) (h : ∀ a, off a + S256x128.size a ≤ S65536x128.size a) (hs) (j : S65536x128.Idx) :
    j ∈ ((outV).slice (Rect.unit (s := S65536x128) off S256x128.size h) hs).view.set
      ↔ (off 0 ≤ (j 0).val ∧ (j 0).val < off 0 + 256) ∧ (off 1 ≤ (j 1).val ∧ (j 1).val < off 1 + 128) := by
  show j ∈ ((View.whole main_v48_scv).slice (Rect.unit (s := S65536x128) off S256x128.size h)).set ↔ _
  rw [View.set_slice_whole, Rect.mem_set_unit]
  constructor
  · intro H; exact ⟨H 0, H 1⟩
  · rintro ⟨h0, h1⟩ a
    match a with
    | ⟨0, _⟩ => exact h0
    | ⟨1, _⟩ => exact h1

end Geometry

/-! ## Joining a trip's pieces back into the tile's rows -/

section Join

variable (d : Dev nD) (tv : Buf (Elt F) (tblLoc d)) (iv : Buf (Elt F) (idxLoc d))

/-- The rows of worker `w` below trip `k` (512 rows a trip) hold the gathered rows. -/
def doneBelow (w : Fin 32) (k : Nat) (g : Buf (Elt F) (outLoc qC d)) : Prop :=
  ∀ j ∈ rowsSet w, (j 0).val < 2048 * w.val + 512 * k → g j = gathered tv iv qC j

omit [FloatOps F] in
theorem doneBelow_zero (w : Fin 32) (g : Buf (Elt F) (outLoc qC d)) : doneBelow d tv iv w 0 g := by
  intro j hj hlt
  have := (mem_rowsSet w j).mp hj
  omega

omit [FloatOps F] in
theorem doneBelow_four (w : Fin 32) (g : Buf (Elt F) (outLoc qC d)) (h : doneBelow d tv iv w 4 g) :
    ∀ j ∈ rowsSet w, g j = gathered tv iv qC j := by
  intro j hj
  have := (mem_rowsSet w j).mp hj
  exact h j hj (by omega)

omit [FloatOps F] in
/-- A trip's first piece lies in the worker's rows; -/
theorem piece_subset (w : Fin 32) (k e : Nat) (he : e = 2048 * w.val + 512 * k) (hk : k < 4)
    (off : Fin 2 → Nat) (h : ∀ a, off a + S256x128.size a ≤ S65536x128.size a) (hs)
    (e0 : off 0 = e ∨ off 0 = e + 256) (e1 : off 1 = 0) :
    ((outV).slice (Rect.unit (s := S65536x128) off S256x128.size h) hs).view.set ⊆ rowsSet w := by
  intro j hj
  have := (mem_piece off h hs j).mp hj
  exact (mem_rowsSet w j).mpr (by omega)

omit [FloatOps F] in
/-- its second piece lies in them off the first. -/
theorem piece_subset_sdiff (w : Fin 32) (k e : Nat) (he : e = 2048 * w.val + 512 * k) (hk : k < 4)
    (off3 off4 : Fin 2 → Nat) (h3 : ∀ a, off3 a + S256x128.size a ≤ S65536x128.size a) (hs3)
    (h4 : ∀ a, off4 a + S256x128.size a ≤ S65536x128.size a) (hs4)
    (e30 : off3 0 = e) (e40 : off4 0 = e + 256) (e41 : off4 1 = 0) :
    ((outV).slice (Rect.unit (s := S65536x128) off4 S256x128.size h4) hs4).view.set
      ⊆ rowsSet w \ ((outV).slice (Rect.unit (s := S65536x128) off3 S256x128.size h3) hs3).view.set := by
  intro j hj
  have h4' := (mem_piece off4 h4 hs4 j).mp hj
  refine Finset.mem_sdiff.mpr ⟨(mem_rowsSet w j).mpr (by omega), fun hj3 => ?_⟩
  have h3' := (mem_piece off3 h3 hs3 j).mp hj3
  omega

omit [FloatOps F] in
/-- Two carved-out pieces put back at new contents. -/
theorem rejoin_two {ℓ : Loc nD τ sig} (R P3 P4 : Finset (Idx ℓ)) (hsub3 : P3 ⊆ R) (hsub4 : P4 ⊆ R \ P3) (g g3 g4 : Buf (Elt F) ℓ) :
    (iprop((ℓ ↦[P3]{fullShare} g3) ∗ (ℓ ↦[P4]{fullShare} g4) ∗ (ℓ ↦[(R \ P3) \ P4]{fullShare} g)) : sProp 𝕄)
      ⊢ ℓ ↦[R]{fullShare} (P3.piecewise g3 (P4.piecewise g4 g)) := by
  iintro ⟨H3, H4, Hr⟩
  iapply (pointsTo_join_subset (ℓ := ℓ) (q := fullShare) (I := P3) (S := R) (g := g3) (f := P4.piecewise g4 g) hsub3)
  isplitl [H3]; · iexact H3
  iapply (pointsTo_join_subset (ℓ := ℓ) (q := fullShare) (I := P4) (S := R \ P3) (g := g4) (f := g) hsub4)
  isplitl [H4]; · iexact H4
  iexact Hr

omit [FloatOps F] in
/-- Two pieces each holding the gathered rows, the rest as before, when the two pieces are all of the worker's rows
    from trip `k` up to trip `k + 1`: the rows below trip `k + 1` hold the gathered rows. -/
theorem doneBelow_step (w : Fin 32) (k : Nat) (P3 P4 : Finset (Idx (outLoc qC d)))
    (g g3 g4 : Buf (Elt F) (outLoc qC d)) (hg : doneBelow d tv iv w k g)
    (hg3 : ∀ j ∈ P3, g3 j = gathered tv iv qC j) (hg4 : ∀ j ∈ P4, g4 j = gathered tv iv qC j)
    (hcov : ∀ j : S65536x128.Idx, j ∈ rowsSet w → (j 0).val < 2048 * w.val + 512 * (k + 1) → j ∉ P3 → j ∉ P4 →
      (j 0).val < 2048 * w.val + 512 * k) :
    doneBelow d tv iv w (k + 1) (P3.piecewise g3 (P4.piecewise g4 g)) := by
  intro j hj hlt
  by_cases hj3 : j ∈ P3
  · exact (Finset.piecewise_eq_of_mem P3 g3 _ hj3).trans (hg3 j hj3)
  · refine (Finset.piecewise_eq_of_notMem P3 g3 _ hj3).trans ?_
    by_cases hj4 : j ∈ P4
    · exact (Finset.piecewise_eq_of_mem P4 g4 _ hj4).trans (hg4 j hj4)
    · exact (Finset.piecewise_eq_of_notMem P4 g4 _ hj4).trans (hg j hj (hcov j hj hlt hj3 hj4))

omit [FloatOps F] in
/-- The cover fact for a trip's two pieces. -/
theorem trip_cover (w : Fin 32) (k e : Nat) (he : e = 2048 * w.val + 512 * k)
    (off3 off4 : Fin 2 → Nat) (h3 : ∀ a, off3 a + S256x128.size a ≤ S65536x128.size a) (hs3)
    (h4 : ∀ a, off4 a + S256x128.size a ≤ S65536x128.size a) (hs4)
    (e30 : off3 0 = e) (e31 : off3 1 = 0) (e40 : off4 0 = e + 256) (e41 : off4 1 = 0) :
    ∀ j : S65536x128.Idx, j ∈ rowsSet w → (j 0).val < 2048 * w.val + 512 * (k + 1) →
      j ∉ ((outV).slice (Rect.unit (s := S65536x128) off3 S256x128.size h3) hs3).view.set →
      j ∉ ((outV).slice (Rect.unit (s := S65536x128) off4 S256x128.size h4) hs4).view.set →
      (j 0).val < 2048 * w.val + 512 * k := by
  intro j hj hlt hj3 hj4
  have hr := (mem_rowsSet w j).mp hj
  have n3 := mt (mem_piece off3 h3 hs3 j).mpr hj3
  have n4 := mt (mem_piece off4 h4 hs4 j).mpr hj4
  have := idx2_lt1 (n0 := 65536) (n1 := 128) j
  omega

end Join

end Cert.Proof.KI.C7

end
-- ==== Proof.Tile7.lean ====
/-
  One vector subcore's task in gather call 7, at a symbolic tile. Worker `w = 2 s + c` (subcore `s` of SparseCore `c`)
  fills rows `[2048 w, 2048 w + 2048)` of the result in four trips of 512 rows. A trip copies two 256-entry pieces of the
  index list into the two index scratches, starts one indirect gather of table rows per scratch, and copies each gathered
  256 x 128 block out to its rows of the result; every transfer has its own semaphore and is waited for before the next
  one on that semaphore starts. The loop's invariant carries the value: the worker's rows below the current trip already
  hold row `r ↦ table[index[r]]`; each trip extends this by its 512 rows, and after four trips it is all 2048 rows.
-/
import proofs.«214101_g10505490006249_cont_week2b_118_28_alg».proof.Proof.TileAux7

noncomputable section

namespace Cert.Proof.KI.C7

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 8) (Elt F) ℕ UU ℕ

variable [FloatOps F]

/-! ## The body -/

section Body

variable (d : Dev nD) (L : grid14.Coords)

/-- The worker number of the tile at grid point `L`. -/
abbrev wL (L : grid14.Coords) : Fin 32 := wid (cV L) (jV L)

/-! ### Call 7: the trips' offsets

The only facts about this call's printed offset functions that the body uses, read off their generated closed forms:
trip `k` of the tile at `L` works on rows `rowE L k` and `rowE L k + 256` of the result, and on the index entries
`65536 qC` beyond them. -/

/-- The first row of the result that trip `k` of the tile at `L` writes. -/
def rowE (L : grid14.Coords) (k : Fin k14_t1_loop.trips) : Nat := 4096 * (L 1).val + 2048 * (L 0).val + 512 * k.val

theorem rowE_eq (k : Fin k14_t1_loop.trips) : rowE L k = 2048 * (wL L).val + 512 * k.val := by
  have hwv : (wL L).val = (L 1).val * 2 + (L 0).val := rfl
  unfold rowE; rw [hwv]; omega
theorem trips_eq : Scf.trips k14_t1_loop.lb k14_t1_loop.ub k14_t1_loop.st = 4 := by decide
theorem trip_lt (k : Fin k14_t1_loop.trips) : k.val < 4 := Nat.lt_of_lt_of_le k.isLt k14_t1_abs.2.1
theorem offI0 (k : Fin k14_t1_loop.trips) : k14_off1 L k 0 = (qC : Fin 8).val * 65536 + rowE L k := by
  have h : k14_off1 L k 0 = 4096 * (L 1).val + 2048 * (L 0).val + 512 * k.val + 458752 := congrFun (k14_off1_eq L k) 0
  rw [qC_val, h]; unfold rowE; omega
theorem offI1 (k : Fin k14_t1_loop.trips) : k14_off2 L k 0 = (qC : Fin 8).val * 65536 + (rowE L k + 256) := by
  have h : k14_off2 L k 0 = 4096 * (L 1).val + 2048 * (L 0).val + 512 * k.val + 459008 := congrFun (k14_off2_eq L k) 0
  rw [qC_val, h]; unfold rowE; omega
theorem offO0 (k : Fin k14_t1_loop.trips) : k14_off3 L k 0 = rowE L k := congrFun (k14_off3_eq L k) 0
theorem offO0' (k : Fin k14_t1_loop.trips) : k14_off3 L k 1 = 0 := congrFun (k14_off3_eq L k) 1
theorem offO1 (k : Fin k14_t1_loop.trips) : k14_off4 L k 0 = rowE L k + 256 := congrFun (k14_off4_eq L k) 0
theorem offO1' (k : Fin k14_t1_loop.trips) : k14_off4 L k 1 = 0 := congrFun (k14_off4_eq L k) 1

omit [FloatOps F] in
theorem pts_tbl (q : PosShare TreeShare) (f : Buf (Elt F) (tblLoc d)) :
    ((tblV).view.loc (thrV d L) ↦{q} f : sProp 𝕄) = tblLoc d ↦{q} f := by
  simp only [Memref.view_whole, View.set_whole]
omit [FloatOps F] in
theorem pts_idx (q : PosShare TreeShare) (f : Buf (Elt F) (idxLoc d)) :
    ((idxV).view.loc (thrV d L) ↦{q} f : sProp 𝕄) = idxLoc d ↦{q} f := by
  simp only [Memref.view_whole, View.set_whole]

omit [FloatOps F] in
theorem pts_s0 (f : Buf (Elt F) ((thrV d L).loc cc14_scratch0)) :
    ((thrV d L).loc cc14_scratch0 ↦{fullShare} f : sProp 𝕄) = ((sI0).view.loc (thrV d L) ↦{fullShare} f) := rfl
omit [FloatOps F] in
theorem pts_s1 (f : Buf (Elt F) ((thrV d L).loc cc14_scratch1)) :
    ((thrV d L).loc cc14_scratch1 ↦{fullShare} f : sProp 𝕄) = ((sI1).view.loc (thrV d L) ↦{fullShare} f) := rfl
omit [FloatOps F] in
theorem pts_s2 (f : Buf (Elt F) ((thrV d L).loc cc14_scratch2)) :
    ((thrV d L).loc cc14_scratch2 ↦{fullShare} f : sProp 𝕄) = ((sR0).view.loc (thrV d L) ↦{fullShare} f) := rfl
omit [FloatOps F] in
theorem pts_s3 (f : Buf (Elt F) ((thrV d L).loc cc14_scratch3)) :
    ((thrV d L).loc cc14_scratch3 ↦{fullShare} f : sProp 𝕄) = ((sR1).view.loc (thrV d L) ↦{fullShare} f) := rfl

/-- The two 256-row pieces of the result array that trip `k` writes, as the program slices them. -/
abbrev o3 (k : Fin k14_t1_loop.trips) : Memref sig .scVector .hbm S256x128 .f32 :=
  outV.slice (Rect.unit (s := S65536x128) (k14_off3 L k) S256x128.size (k14_off3_inb L k)) (fun _ => rfl)
abbrev o4 (k : Fin k14_t1_loop.trips) : Memref sig .scVector .hbm S256x128 .f32 :=
  outV.slice (Rect.unit (s := S65536x128) (k14_off4 L k) S256x128.size (k14_off4_inb L k)) (fun _ => rfl)

/-- The loop's invariant: the table and the index list at their read shares, the tile's rows of the result with the
    rows below the trip gathered, the four scratches at some contents, the six semaphores at zero, and what the tile owes. -/
def inv (qs : PosShare TreeShare) (tv : Buf (Elt F) (tblLoc d)) (iv : Buf (Elt F) (idxLoc d))
    (O : CellTallies nD τ sig (HIx 8)) (W : Waits sig (HIx 8)) (k : Nat) (_ : PUnit) : sProp 𝕄 :=
  iprop(Transfers.MayWaits (thrV d L) (none : HIx 8) O
    ∗ ((tblV).view.loc (thrV d L) ↦{qs} tv)
    ∗ ((idxV).view.loc (thrV d L) ↦{qs} iv)
    ∗ (∃ g, ⌜doneBelow d tv iv (wL L) k g⌝ ∗ outLoc qC d ↦[rowsSet (wL L)]{fullShare} g)
    ∗ (∃ f, (sI0).view.loc (thrV d L) ↦{fullShare} f)
    ∗ (∃ f, (sI1).view.loc (thrV d L) ↦{fullShare} f)
    ∗ (∃ f, (sR0).view.loc (thrV d L) ↦{fullShare} f)
    ∗ (∃ f, (sR1).view.loc (thrV d L) ↦{fullShare} f)
    ∗ semVal (cell d L cc14_scratch4) 0 ∗ semVal (cell d L cc14_scratch5) 0 ∗ semVal (cell d L cc14_scratch6) 0
    ∗ semVal (cell d L cc14_scratch7) 0 ∗ semVal (cell d L cc14_scoped0) 0 ∗ semVal (cell d L cc14_scoped1) 0
    ∗ ∃ W', ⌜∀ p ∈ W', p ∈ W ∨ p.2 = none⌝ ∗ owes (thrV d L) O W')

omit [FloatOps F] in
/-- Whatever an index scratch held before, after a 256-entry piece of the index list is copied into it every word it
    holds names a row of the table. -/
theorem idx_inb (iv : Buf (Elt F) (idxLoc d)) (hin : ∀ e, (iv e).toNat < 32768)
    (c : Thread nD τ) (m : Memref sig c.2.kind .vmem S256 .i32) (f : Buf (Elt F) (m.view.loc c))
    (off : Fin 1 → Nat) (h : ∀ a, off a + S256.size a ≤ S524288.size a) (hs) (x : S256.Idx) :
    (m.view.read (Elt F) (m.view.write (Elt F) f
      (ReadAs.same.apply (((idxV).slice (Rect.unit (s := S524288) off S256.size h) hs).view.read (Elt F) iv)) Finset.univ) x).toNat < 32768 := by
  rw [View.read_write_univ, ReadAs.apply_same, View.read_apply]
  exact hin _
set_option maxHeartbeats 2000000 in
theorem tile_body (qs : PosShare TreeShare) (tv : Buf (Elt F) (tblLoc d)) (iv : Buf (Elt F) (idxLoc d))
    (hin : ∀ e, (iv e).toNat < 32768) (O : CellTallies nD τ sig (HIx 8)) (W : Waits sig (HIx 8)) (hO : ∀ g, O g none = 0) :
    (iprop(levAts (K (F := F)).L (K (F := F)).lev ∗ emp
        ∗ ((tblLoc d ↦{qs} tv) ∗ (idxLoc d ↦{qs} iv) ∗ ∃ f, outLoc qC d ↦[rowsSet (wL L)]{fullShare} f)
        ∗ scopedBufs (thrV d L) ∗ scopedSems0 (thrV d L) ∗ owes (thrV d L) O W) : sProp 𝕄)
      ⊢ wp frame (wpE (defs₀ (F := F)) 𝒱₀ (thrV d L) none) Set.univ
          (cc14_gather_kernel L tblV (Memref.isWhole_whole _) idxV (Memref.isWhole_whole _) outV (Memref.isWhole_whole _)
            sI0 (Memref.isWhole_whole _) sI1 (Memref.isWhole_whole _) sR0 (Memref.isWhole_whole _) sR1 (Memref.isWhole_whole _)
            cc14_scratch4 cc14_scratch5 cc14_scratch6 cc14_scratch7 cc14_scoped0 cc14_scoped1)
          fun _ => iprop(((tblLoc d ↦{qs} tv) ∗ (idxLoc d ↦{qs} iv) ∗ outLoc qC d ↦[rowsSet (wL L)]{fullShare} gathered tv iv qC)
            ∗ scopedBufs (thrV d L) ∗ scopedSems0 (thrV d L) ∗ ∃ W', ⌜∀ p ∈ W', p ∈ W ∨ p.2 = none⌝ ∗ owes (thrV d L) O W') := by
  simp only [cc14_gather_kernel_eq_skeleton]; unfold cc14_gather_kernel_skel
  rw [(K (F := F)).scopedBufs_V facts d (cV L) (jV L), SparseCore.Cfg.scopedSems0_V (Val := Elt F) d (cV L) (jV L), ownSems0_V, ownBufs_V]
  iintro ⟨#Hlv, -, ⟨Ht, Hi, %fo, Ho⟩, ⟨⟨%f0, Hb0⟩, ⟨%f1, Hb1⟩, ⟨%f2, Hb2⟩, ⟨%f3, Hb3⟩, Hbufs⟩, ⟨Hs4, Hs5, Hs6, Hs7, Hs8, Hs9, Hsems⟩, HO⟩
  ihave Hmw := ((K (F := F)).mayWaits_none (thr := thrV d L) hO) $$ Hlv
  ihave Ht' := (Entails.of_eq (pts_tbl (F := F) d L _ _).symm) $$ Ht
  ihave Hi' := (Entails.of_eq (pts_idx (F := F) d L _ _).symm) $$ Hi
  ihave Hb0' := (Entails.of_eq (pts_s0 (F := F) d L f0)) $$ Hb0
  ihave Hb1' := (Entails.of_eq (pts_s1 (F := F) d L f1)) $$ Hb1
  ihave Hb2' := (Entails.of_eq (pts_s2 (F := F) d L f2)) $$ Hb2
  ihave Hb3' := (Entails.of_eq (pts_s3 (F := F) d L f3)) $$ Hb3
  sl_exec
  sl_for (inv d L qs tv iv O W) $$ [Hmw Ht' Hi' Ho Hb0' Hb1' Hb2' Hb3' Hs4 Hs5 Hs6 Hs7 Hs8 Hs9 HO]
  case region =>
    intro k _
    unfold inv
    iintro ⟨Hmw, Ht, Hi, ⟨%g, %hg, Ho⟩, ⟨%f0, Hb0⟩, ⟨%f1, Hb1⟩, ⟨%f2, Hb2⟩, ⟨%f3, Hb3⟩, Hs4, Hs5, Hs6, Hs7, Hs8, Hs9, %W', %hW', HO⟩
    -- the trip's offsets: the row pieces start at rows `rowE` and `rowE + 256`, the index pieces `65536 qC` entries beyond
    have o30 := offO0 L k
    have o31 := offO0' L k
    have o40 := offO1 L k
    have o41 := offO1' L k
    have hE := rowE_eq L k
    have hk := trip_lt k
    have e13 : k14_off1 L k 0 = (qC : Fin 8).val * 65536 + k14_off3 L k 0 := by rw [offI0, o30]
    have e24 : k14_off2 L k 0 = (qC : Fin 8).val * 65536 + k14_off4 L k 0 := by rw [offI1, o40]
    have hsub3 : (o3 L k).view.set ⊆ rowsSet (wL L) :=
      piece_subset (wL L) k.val _ hE hk (k14_off3 L k) (k14_off3_inb L k) (fun _ => rfl) (.inl o30) o31
    have hsub4 : (o4 L k).view.set ⊆ rowsSet (wL L) \ (o3 L k).view.set :=
      piece_subset_sdiff (wL L) k.val _ hE hk (k14_off3 L k) (k14_off4 L k) (k14_off3_inb L k) (fun _ => rfl) (k14_off4_inb L k) (fun _ => rfl) o30 o40 o41
    ihave Ho' := (pointsTo_split_subset (ℓ := outLoc qC d) (q := fullShare) (f := g) (I := (o3 L k).view.set) (S := rowsSet (wL L)) hsub3).1 $$ Ho
    icases Ho' with ⟨Ho3, Hor⟩
    ihave Hor' := (pointsTo_split_subset (ℓ := outLoc qC d) (q := fullShare) (f := g) (I := (o4 L k).view.set) (S := rowsSet (wL L) \ (o3 L k).view.set) hsub4).1 $$ Hor
    icases Hor' with ⟨Ho4, Hor⟩
    ihave Ho3' := (Entails.of_eq (show (outLoc qC d ↦[(o3 L k).view.set]{fullShare} g : sProp 𝕄) = ((o3 L k).view.loc (thrV d L) ↦[(o3 L k).view.set]{fullShare} g) from rfl)) $$ Ho3
    ihave Ho4' := (Entails.of_eq (show (outLoc qC d ↦[(o4 L k).view.set]{fullShare} g : sProp 𝕄) = ((o4 L k).view.loc (thrV d L) ↦[(o4 L k).view.set]{fullShare} g) from rfl)) $$ Ho4
    -- the words each index scratch holds once its piece of the list has landed name rows of the table
    have hin0 : ∀ x : S256.Idx, ((sI0).view.read (Elt F) ((sI0).view.write (Elt F) f0 (ReadAs.same.apply (((idxV).slice
        (Rect.unit (s := S524288) (k14_off1 L k) S256.size (k14_off1_inb L k)) (fun _ => rfl)).view.read (Elt F) iv)) Finset.univ) x).toNat < 32768 :=
      idx_inb (F := F) d iv hin (thrV d L) sI0 f0 _ _ _
    have hin1 : ∀ x : S256.Idx, ((sI1).view.read (Elt F) ((sI1).view.write (Elt F) f1 (ReadAs.same.apply (((idxV).slice
        (Rect.unit (s := S524288) (k14_off2 L k) S256.size (k14_off2_inb L k)) (fun _ => rfl)).view.read (Elt F) iv)) Finset.univ) x).toNat < 32768 :=
      idx_inb (F := F) d iv hin (thrV d L) sI1 f1 _ _ _
    -- both gathers read the table while the other is outstanding: a read share each
    ihave Ht2 := (pointsTo_share (ℓ := (tblV).view.loc (thrV d L)) (I := Finset.univ) (f := tv) (PosShare.mem_left_op_right qs)).1 $$ Ht
    icases Ht2 with ⟨Hta, Htb⟩
    -- what the two copy-outs leave in their pieces is the gathered rows
    have hgth : S32768x128.Gathers 0 S256x128 := by decide
    have hg3 := fun j hj => piece_gathered (F := F) d tv iv hin (thrV d L) sI0 f0 sR0 f2 (k14_off1 L k) (k14_off1_inb L k) (fun _ => rfl)
      inb_S32768x128_S32768x128_0_0 (fun _ => rfl) hgth rfl hin0 (k14_off3 L k) (k14_off3_inb L k) (fun _ => rfl) e13 o31 g j hj
    have hg4 := fun j hj => piece_gathered (F := F) d tv iv hin (thrV d L) sI1 f1 sR1 f3 (k14_off2 L k) (k14_off2_inb L k) (fun _ => rfl)
      inb_S32768x128_S32768x128_0_0 (fun _ => rfl) hgth rfl hin1 (k14_off4 L k) (k14_off4_inb L k) (fun _ => rfl) e24 o41 g j hj
    sl_exec
    sl_step
    isplitl [Hmw]; · iexact Hmw
    isplitl [Hta Htb]
    · iapply (pointsTo_share (ℓ := (tblV).view.loc (thrV d L)) (I := Finset.univ) (f := tv) (PosShare.mem_left_op_right qs)).2
      isplitl [Hta]; · iexact Hta
      iexact Htb
    isplitl [Hi]; · iexact Hi
    isplitl [Ho3' Ho4' Hor]
    · ihave Hj := (rejoin_two (F := F) (ℓ := outLoc qC d) (rowsSet (wL L)) (o3 L k).view.set (o4 L k).view.set hsub3 hsub4 g _ _) $$ [Ho3' Ho4' Hor]
      · isplitl [Ho3']; · iexact Ho3'
        isplitl [Ho4']; · iexact Ho4'
        iexact Hor
      iexists _
      isplitr
      · ipureintro
        exact doneBelow_step (F := F) d tv iv (wL L) k.val (o3 L k).view.set (o4 L k).view.set g _ _ hg hg3 hg4
          (trip_cover (wL L) k.val _ hE (k14_off3 L k) (k14_off4 L k) (k14_off3_inb L k) (fun _ => rfl) (k14_off4_inb L k) (fun _ => rfl) o30 o31 o40 o41)
      · iexact Hj
    isplitl [Hb0]; · iexists _; iexact Hb0
    isplitl [Hb1]; · iexists _; iexact Hb1
    isplitl [Hb2]; · iexists _; iexact Hb2
    isplitl [Hb3]; · iexists _; iexact Hb3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    iexists _; isplitr
    swap
    · iexact HO
    · ipureintro; intro p hp
      simp only [Finset.mem_insert] at hp
      rcases hp with rfl | rfl | rfl | rfl | rfl | rfl | hp
      · exact .inr rfl
      · exact .inr rfl
      · exact .inr rfl
      · exact .inr rfl
      · exact .inr rfl
      · exact .inr rfl
      · exact hW' p hp
  · unfold inv
    isplitl [Hmw]; · iexact Hmw
    isplitl [Ht']; · iexact Ht'
    isplitl [Hi']; · iexact Hi'
    isplitl [Ho]
    · iexists fo; isplitr
      · ipureintro; exact doneBelow_zero d tv iv (wL L) fo
      · iexact Ho
    isplitl [Hb0']; · iexists f0; iexact Hb0'
    isplitl [Hb1']; · iexists f1; iexact Hb1'
    isplitl [Hb2']; · iexists f2; iexact Hb2'
    isplitl [Hb3']; · iexists f3; iexact Hb3'
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    iexists W; isplitr
    · ipureintro; exact fun p hp => .inl hp
    · iexact HO
  iintro %_ HI
  unfold inv
  icases HI with ⟨-, Ht, Hi, ⟨%g, %hg, Ho⟩, ⟨%f0', Hb0⟩, ⟨%f1', Hb1⟩, ⟨%f2', Hb2⟩, ⟨%f3', Hb3⟩, Hs4, Hs5, Hs6, Hs7, Hs8, Hs9, %W', %hW', HO⟩
  rw [trips_eq] at hg
  sl_exec
  sl_step
  isplitl [Ht Hi Ho]
  · isplitl [Ht]; · iapply (Entails.of_eq (pts_tbl (F := F) d L _ _)); iexact Ht
    isplitl [Hi]; · iapply (Entails.of_eq (pts_idx (F := F) d L _ _)); iexact Hi
    iapply (Entails.of_eq (pointsTo_congr (ℓ := outLoc qC d) (q := fullShare) (I := rowsSet (wL L)) (doneBelow_four d tv iv (wL L) g hg)))
    iexact Ho
  isplitl [Hb0 Hb1 Hb2 Hb3 Hbufs]
  · isplitl [Hb0]; · iexists f0'; iapply (Entails.of_eq (pts_s0 (F := F) d L f0').symm); iexact Hb0
    isplitl [Hb1]; · iexists f1'; iapply (Entails.of_eq (pts_s1 (F := F) d L f1').symm); iexact Hb1
    isplitl [Hb2]; · iexists f2'; iapply (Entails.of_eq (pts_s2 (F := F) d L f2').symm); iexact Hb2
    isplitl [Hb3]; · iexists f3'; iapply (Entails.of_eq (pts_s3 (F := F) d L f3').symm); iexact Hb3
    iexact Hbufs
  isplitl [Hs4 Hs5 Hs6 Hs7 Hs8 Hs9 Hsems]
  · isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    iexact Hsems
  iexists W'; isplitr
  · ipureintro; exact hW'
  · iexact HO

end Body

end Cert.Proof.KI.C7

end
-- ==== Proof.TileObl7.lean ====
/-
  The launch theorem's obligation for gather call 7: a tile's task, entered through the body table, is the kernel's
  body at that tile, run on the tile's share of the table and the index list and on its worker's rows.
-/
import proofs.«214101_g10505490006249_cont_week2b_118_28_alg».proof.Proof.Launch
import proofs.«214101_g10505490006249_cont_week2b_118_28_alg».proof.Proof.Tile7
import proofs.«214101_g10505490006249_cont_week2b_118_28_alg».proof.Proof.TileObl0

noncomputable section

namespace Cert.Proof.KI.C7

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Transfers (shareTok shareDrop pointsTo_toks_split pointsTo_toks_join)

variable {F : FTy → Type}

local notation "𝕄" => MT nD τ sig (HIx 8) (Elt F) ℕ UU ℕ

variable [FloatOps F]
variable (tv : (d : Dev nD) → S32768x128.Idx → Elt F .f32) (iv : (d : Dev nD) → S524288.Idx → Elt F .i32)

/-- A tile's grid coordinates from its SparseCore and subcore numbers. -/
def coordsV (c : Fin (grid14.bound 0)) (s : Fin (grid14.bound 1)) : grid14.Coords :=
  fun | 0 => c | 1 => s | ⟨_ + 2, h⟩ => absurd h (Nat.not_lt.2 (Nat.le_add_left _ _))

theorem defs₀_vector7 (c : Fin τ.nSC) (s : Fin τ.nSub) :
    defs₀ (F := F) (.scVector c s) 14 ()
      = SparseCore.onTile hcore14 hsub14 (fun c s => cc14_gather_kernel (coordsV c s)
          tblV (Memref.isWhole_whole _) idxV (Memref.isWhole_whole _) outV (Memref.isWhole_whole _)
          sI0 (Memref.isWhole_whole _) sI1 (Memref.isWhole_whole _) sR0 (Memref.isWhole_whole _) sR1 (Memref.isWhole_whole _)
          cc14_scratch4 cc14_scratch5 cc14_scratch6 cc14_scratch7 cc14_scoped0 cc14_scoped1) ⟨⟩ c s := rfl

/-- Call 7's tile obligation. -/
theorem tileObl7 (hin : ∀ d e, (iv d e).toNat < 32768) : (K (F := F)).TileObl (D (F := F)) 𝒱 (P (F := F) tv iv) v₀ 7 := by
  intro d c i O W hO _ _
  -- the gather kernel owes nothing for a protocol of its own
  simp only [show (P (F := F) tv iv).ox = fun _ _ => 0 from rfl, add_zero]
  change _ ⊢ wp _ _ _ (Pipeline.liftProg (defs₀ (F := F) (.scVector ((K (F := F)).core 7 c) ((K (F := F)).sub 7 i)) 14 ())) _
  refine BI.Entails.trans ?_ (Pipeline.wp_liftProg (D (F := F)) (Pipeline.defs_kernel pcfgs defs₀) 𝒱₀ _ Set.univ none _ _)
  have hc : ((K (F := F)).core 7 c).val < grid14.bound 0 ∧ ((K (F := F)).sub 7 i).val < grid14.bound 1 := ⟨c.isLt, i.isLt⟩
  rw [defs₀_vector7]; simp only [SparseCore.onTile, hc, and_self, ↓reduceDIte]
  exact (tile_body d (coordsV ⟨_, hc.1⟩ ⟨_, hc.2⟩) (shT (cC 7 c) (sS 7 i)) (tv d) (iv d) (hin d) O W hO).trans (wp_mono frame _ _ fun _ => obl_post)

end Cert.Proof.KI.C7

end
-- ==== Proof.TileAuxW.lean ====
/-
  One vector subcore's share of a gather call, the pure part: how the subcore's scoped semaphores and scratch buffers are
  opened, what an indirect gather of 256 table rows delivers element by element, which elements of the result array a
  trip's two copy-outs write, and how those pieces rejoin the subcore's 2048 rows of the result.
-/
import proofs.«214101_g10505490006249_cont_week2b_118_28_alg».proof.Proof.SetupW

noncomputable section

namespace Cert.Proof.KW

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 8) (Elt F) ℕ UU ℕ

/-! ## The names of gather call 0

Everything that is particular to this one of the eight gather calls is named here (and, for the trips' offsets, at the
top of the body's module): the call's number, its result array, its scratch buffers. The text below speaks of the call
only through these names and through the program's own `cc0_…` / `k0_…` names. -/

/-- The number of this gather call among the eight: it reads index entries `65536 qC + …` and fills result array `qC`. -/
abbrev qC : Fin 8 := 0
theorem qC_val : (qC : Fin 8).val = 0 := rfl

abbrev tblV : Memref sig .scVector .hbm S32768x128 .f32 := Memref.whole main_v10_scv
abbrev idxV : Memref sig .scVector .hbm S524288 .i32 := Memref.whole main_v6_scv
abbrev outV : Memref sig .scVector .hbm S65536x128 .f32 := Memref.whole main_v34_scv
abbrev sI0 : Memref sig .scVector .vmem S256 .i32 := Memref.whole cc0_scratch0
abbrev sI1 : Memref sig .scVector .vmem S256 .i32 := Memref.whole cc0_scratch1
abbrev sR0 : Memref sig .scVector .vmem S256x128 .f32 := Memref.whole cc0_scratch2
abbrev sR1 : Memref sig .scVector .vmem S256x128 .f32 := Memref.whole cc0_scratch3

abbrev cV (L : grid0.Coords) : Fin τ.nSC := (L 0).castLE hcore0
abbrev jV (L : grid0.Coords) : Fin τ.nSub := (L 1).castLE hsub0
abbrev thrV (d : Dev nD) (L : grid0.Coords) : Thread nD τ := V d (cV L) (jV L)

variable [FloatOps F]

/-! ## The tile's own semaphores and scratch buffers -/

section Own

variable (d : Dev nD) (L : grid0.Coords)

/-- The cell of one of the tile's DMA semaphores. -/
abbrev cell (sm : DmaSems sig S_) : GSem nD τ sig := (thrV d L, .dma sm.sem)

omit [FloatOps F] in
theorem cell_mem {sm : DmaSems sig S_} (h : (SemLoc.dma sm.sem : SemLoc sig).isScoped .scVector = true) :
    cell d L sm ∈ ownCells (sig := sig) (thrV d L) := (mem_ownCells (g := cell d L sm)).mpr ⟨rfl, h⟩

theorem cell_ne {a b : DmaSems sig S_} (h : (SemLoc.dma a.sem : SemLoc sig) ≠ .dma b.sem) : cell d L a ≠ cell d L b :=
  fun e => h (Prod.mk.inj e).2

/-- The tile's scoped cells other than the six the gather uses. -/
abbrev restCells : Finset (GSem nD τ sig) :=
  ((((((ownCells (thrV d L)).erase (cell d L cc0_scratch4)).erase (cell d L cc0_scratch5)).erase (cell d L cc0_scratch6)).erase
    (cell d L cc0_scratch7)).erase (cell d L cc0_scoped0)).erase (cell d L cc0_scoped1)

theorem ownSems0_V :
    (ownSems0 (thrV d L) : sProp 𝕄)
      = iprop(semVal (cell d L cc0_scratch4) 0 ∗ semVal (cell d L cc0_scratch5) 0 ∗ semVal (cell d L cc0_scratch6) 0
          ∗ semVal (cell d L cc0_scratch7) 0 ∗ semVal (cell d L cc0_scoped0) 0 ∗ semVal (cell d L cc0_scoped1) 0
          ∗ bigSep (restCells d L) fun g => semVal g 0) := by
  unfold SparseCore.Cfg.ownSems0
  have m4 := cell_mem d L (sm := cc0_scratch4) (by decide)
  have m5 := cell_mem d L (sm := cc0_scratch5) (by decide)
  have m6 := cell_mem d L (sm := cc0_scratch6) (by decide)
  have m7 := cell_mem d L (sm := cc0_scratch7) (by decide)
  have m8 := cell_mem d L (sm := cc0_scoped0) (by decide)
  have m9 := cell_mem d L (sm := cc0_scoped1) (by decide)
  rw [SparseCore.bigSep_erase' m4,
    SparseCore.bigSep_erase' (Finset.mem_erase.mpr ⟨cell_ne d L (by decide), m5⟩),
    SparseCore.bigSep_erase' (Finset.mem_erase.mpr ⟨cell_ne d L (by decide), Finset.mem_erase.mpr ⟨cell_ne d L (by decide), m6⟩⟩),
    SparseCore.bigSep_erase' (Finset.mem_erase.mpr ⟨cell_ne d L (by decide), Finset.mem_erase.mpr ⟨cell_ne d L (by decide),
      Finset.mem_erase.mpr ⟨cell_ne d L (by decide), m7⟩⟩⟩),
    SparseCore.bigSep_erase' (Finset.mem_erase.mpr ⟨cell_ne d L (by decide), Finset.mem_erase.mpr ⟨cell_ne d L (by decide),
      Finset.mem_erase.mpr ⟨cell_ne d L (by decide), Finset.mem_erase.mpr ⟨cell_ne d L (by decide), m8⟩⟩⟩⟩),
    SparseCore.bigSep_erase' (Finset.mem_erase.mpr ⟨cell_ne d L (by decide), Finset.mem_erase.mpr ⟨cell_ne d L (by decide),
      Finset.mem_erase.mpr ⟨cell_ne d L (by decide), Finset.mem_erase.mpr ⟨cell_ne d L (by decide),
      Finset.mem_erase.mpr ⟨cell_ne d L (by decide), m9⟩⟩⟩⟩⟩)]

/-- One of the tile's scratch buffers, as a buffer of the device. -/
abbrev sref (b : Ref sig .scVector) : DevRef τ sig := (Proc.scVector (cV L) (jV L)).devRef b

theorem sref_mem {b : Ref sig .scVector} (h : (sref L b).owner = .proc (.scVector (cV L) (jV L))) :
    sref L b ∈ ownRefs (sig := sig) (τ := τ) (.scVector (cV L) (jV L)) :=
  SparseCore.Cfg.mem_ownRefs_of_owner (p := Proc.scVector (cV L) (jV L)) (b := sref L b) h

theorem sref_ne {a b : Ref sig .scVector} (h : a ≠ b) : sref L a ≠ sref L b := fun e => h (Proc.devRef_injective _ e)

/-- The tile's own buffers other than the gather's four scratches. -/
abbrev restRefs : Finset (DevRef τ sig) :=
  ((((ownRefs (τ := τ) (.scVector (cV L) (jV L))).erase (sref L cc0_scratch0)).erase (sref L cc0_scratch1)).erase (sref L cc0_scratch2)).erase
    (sref L cc0_scratch3)

theorem ownBufs_V :
    (ownBufs (thrV d L) : sProp 𝕄)
      = iprop((∃ f, (thrV d L).loc cc0_scratch0 ↦{fullShare} f) ∗ (∃ f, (thrV d L).loc cc0_scratch1 ↦{fullShare} f)
          ∗ (∃ f, (thrV d L).loc cc0_scratch2 ↦{fullShare} f) ∗ (∃ f, (thrV d L).loc cc0_scratch3 ↦{fullShare} f)
          ∗ bigSep (restRefs L) fun b => iprop(∃ f, ((d, b) : Loc nD τ sig) ↦{fullShare} f)) := by
  unfold SparseCore.Cfg.ownBufs
  refine (SparseCore.bigSep_erase' (sref_mem L (b := cc0_scratch0) rfl)).trans ?_
  rw [SparseCore.bigSep_erase' (Finset.mem_erase.mpr ⟨sref_ne L (show (cc0_scratch1 : Ref sig .scVector) ≠ cc0_scratch0 by decide), sref_mem L (b := cc0_scratch1) rfl⟩),
    SparseCore.bigSep_erase' (Finset.mem_erase.mpr ⟨sref_ne L (show (cc0_scratch2 : Ref sig .scVector) ≠ cc0_scratch1 by decide),
      Finset.mem_erase.mpr ⟨sref_ne L (show (cc0_scratch2 : Ref sig .scVector) ≠ cc0_scratch0 by decide), sref_mem L (b := cc0_scratch2) rfl⟩⟩),
    SparseCore.bigSep_erase' (Finset.mem_erase.mpr ⟨sref_ne L (show (cc0_scratch3 : Ref sig .scVector) ≠ cc0_scratch2 by decide),
      Finset.mem_erase.mpr ⟨sref_ne L (show (cc0_scratch3 : Ref sig .scVector) ≠ cc0_scratch1 by decide),
      Finset.mem_erase.mpr ⟨sref_ne L (show (cc0_scratch3 : Ref sig .scVector) ≠ cc0_scratch0 by decide), sref_mem L (b := cc0_scratch3) rfl⟩⟩⟩)]

end Own

/-! ## What one gather delivers -/

section Value

variable (d : Dev nD) (tv : Buf (Elt F) (tblLoc d)) (iv : Buf (Elt F) (idxLoc d))

omit [FloatOps F] in
/-- Entry `y` of the 256-entry piece of the index list that starts at `off` is entry `off + y` of the list. -/
theorem idxPiece_read (off : Fin 1 → Nat) (h : ∀ a, off a + S256.size a ≤ S524288.size a) (hs) (y : S256.Idx) :
    ((idxV).slice (Rect.unit (s := S524288) off S256.size h) hs).view.read (Elt F) iv y
      = iv (ix1 ⟨off 0 + (y 0).val, by have := h 0; have := (y 0).isLt; exact Nat.lt_of_lt_of_le (Nat.add_lt_add_left this _) (h 0)⟩) := by
  rw [View.read_apply]
  refine congrArg iv (funext fun a => ?_)
  match a with
  | ⟨0, _⟩ => exact Fin.ext (by show off 0 + 1 * (y 0).val = off 0 + (y 0).val; omega)

omit [FloatOps F] in
/-- The gather's payload at an index: row `x 0` of the scratch receives the table's row named by entry `off + x 0` of
    the index list, when the index scratch was filled with the 256 entries from `off`. -/
theorem gather_apply (hin : ∀ e, (iv e).toNat < 32768)
    (c : Thread nD τ) (sI : Memref sig c.2.kind .vmem S256 .i32) (fI : Buf (Elt F) (sI.view.loc c))
    (off : Fin 1 → Nat) (h : ∀ a, off a + S256.size a ≤ S524288.size a) (hs) (h7) (h8)
    (hg : S32768x128.Gathers 0 S256x128) (hn : S256.numel = S256x128.size hg.axis')
    (hinI : ∀ x, ((sI.view.read (Elt F) (sI.view.write (Elt F) fI
      (ReadAs.same.apply (((idxV).slice (Rect.unit (s := S524288) off S256.size h) hs).view.read (Elt F) iv)) Finset.univ)) x).toNat
        < S32768x128.size hg.axis)
    (x : S256x128.Idx) :
    SparseCore.gatherPayload hg (((tblV).slice (Rect.unit (s := S32768x128) ![0, 0] S32768x128.size h7) h8).view.read (Elt F) tv)
        (SparseCore.rows (sI.view.read (Elt F) (sI.view.write (Elt F) fI
          (ReadAs.same.apply (((idxV).slice (Rect.unit (s := S524288) off S256.size h) hs).view.read (Elt F) iv)) Finset.univ)) hn hinI) x
      = tv (ix2 (rowOf (iv (ix1 ⟨off 0 + (x 0).val, by
          have := h 0; have := idx2_lt0 (n0 := 256) (n1 := 128) x
          exact Nat.lt_of_lt_of_le (Nat.add_lt_add_left this _) (h 0)⟩))) (x 1)) := by
  unfold SparseCore.gatherPayload
  rw [View.read_apply]
  refine congrArg tv (funext fun a => ?_)
  have hy0 : ((S256.rowMajor.symm ((x hg.axis').cast hn.symm)) 0).val = (x 0).val := by
    have e := Shape.rowMajor_val_one (d := ![256]) (S256.rowMajor.symm ((x hg.axis').cast hn.symm))
    rw [Equiv.apply_symm_apply] at e
    exact e.symm
  match a with
  | ⟨0, _⟩ =>
    apply Fin.ext
    show 0 + 1 * (hg.idx _ x hg.axis).val = _
    rw [Shape.Gathers.idx_axis]
    show 0 + 1 * ((sI.view.read (Elt F) (sI.view.write (Elt F) fI (ReadAs.same.apply
      (((idxV).slice (Rect.unit (s := S524288) off S256.size h) hs).view.read (Elt F) iv)) Finset.univ))
        (S256.rowMajor.symm ((x hg.axis').cast hn.symm))).toNat = (iv (ix1 ⟨off 0 + (x 0).val, _⟩)).toNat % 32768
    rw [View.read_write_univ, ReadAs.apply_same, idxPiece_read, Nat.mod_eq_of_lt (hin _), Nat.zero_add, Nat.one_mul]
    exact congrArg (fun n : Fin 524288 => (iv (ix1 n)).toNat) (Fin.ext (by show off 0 + _ = off 0 + _; rw [hy0]))
  | ⟨1, _⟩ =>
    apply Fin.ext
    show 0 + 1 * (hg.idx _ x ⟨1, by decide⟩).val = (x 1).val
    rw [Shape.Gathers.idx_of_ne hg _ x ⟨1, by decide⟩ (by decide), Nat.zero_add, Nat.one_mul]
    rfl

end Value

/-! ## What a trip leaves in one 256-row piece of the result -/

section Piece

variable (d : Dev nD) (tv : Buf (Elt F) (tblLoc d)) (iv : Buf (Elt F) (idxLoc d))

omit [FloatOps F] in
/-- A row scratch written whole with `p`, copied whole onto a 256-row piece of the result: the piece's element under `x`
    holds `p x`. -/
theorem out_piece_apply (c : Thread nD τ) (sR : Memref sig c.2.kind .vmem S256x128 .f32) (fR : Buf (Elt F) (sR.view.loc c))
    (p : S256x128.Idx → Elt F .f32) (off : Fin 2 → Nat) (h : ∀ a, off a + S256x128.size a ≤ S65536x128.size a) (hs)
    (g : Buf (Elt F) (outLoc qC d)) (x : S256x128.Idx) :
    (((outV).slice (Rect.unit (s := S65536x128) off S256x128.size h) hs).view.writes (Elt F) g
        [⟨Rect.whole S256x128, ReadAs.same.apply (sR.view.read (Elt F) (sR.view.writes (Elt F) fR [⟨Rect.whole S256x128, p⟩]))⟩])
      (((outV).slice (Rect.unit (s := S65536x128) off S256x128.size h) hs).view.emb x) = p x := by
  have e1 := congrFun (View.read_writes_whole ((outV).slice (Rect.unit (s := S65536x128) off S256x128.size h) hs).view g
    (ReadAs.same.apply (sR.view.read (Elt F) (sR.view.writes (Elt F) fR [⟨Rect.whole S256x128, p⟩])))) x
  rw [View.read_apply] at e1
  refine (show _ = _ from e1).trans ?_
  rw [ReadAs.apply_same]
  exact congrFun (View.read_writes_whole sR.view fR p) x

omit [FloatOps F] in
/-- The gathered result at the element of a piece under `x`, when the index piece starts `65536 qC` entries beyond the
    row the piece starts at (call `qC`'s share of the index list). -/
theorem gathered_emb (off1 : Fin 1 → Nat) (off : Fin 2 → Nat) (h : ∀ a, off a + S256x128.size a ≤ S65536x128.size a) (hs)
    (e0 : off1 0 = (qC : Fin 8).val * 65536 + off 0) (e1 : off 1 = 0) (x : S256x128.Idx) (hlt : off1 0 + (x 0).val < 524288) :
    gathered tv iv qC (((outV).slice (Rect.unit (s := S65536x128) off S256x128.size h) hs).view.emb x)
      = tv (ix2 (rowOf (iv (ix1 ⟨off1 0 + (x 0).val, hlt⟩))) (x 1)) := by
  obtain ⟨j, hj⟩ : ∃ j : S65536x128.Idx, j = ((outV).slice (Rect.unit (s := S65536x128) off S256x128.size h) hs).view.emb x := ⟨_, rfl⟩
  have j0 : (j 0).val = off 0 + 1 * (x 0).val := by rw [hj]; rfl
  have j1 : (j 1).val = off 1 + 1 * (x 1).val := by rw [hj]; rfl
  rw [← hj]
  unfold gathered
  have a : ∀ hb, (⟨(qC : Fin 8).val * 65536 + (j 0).val, hb⟩ : Fin 524288) = ⟨off1 0 + (x 0).val, hlt⟩ := fun _ =>
    Fin.ext (by show (qC : Fin 8).val * 65536 + (j 0).val = off1 0 + (x 0).val; rw [j0, e0]; omega)
  have b : j 1 = x 1 := Fin.ext (by rw [j1, e1]; omega)
  rw [a, b]

omit [FloatOps F] in
/-- After a trip's gather and copy-out, every element of the 256-row piece holds the gathered result. -/
theorem piece_gathered (hin : ∀ e, (iv e).toNat < 32768)
    (c : Thread nD τ) (sI : Memref sig c.2.kind .vmem S256 .i32) (fI : Buf (Elt F) (sI.view.loc c))
    (sR : Memref sig c.2.kind .vmem S256x128 .f32) (fR : Buf (Elt F) (sR.view.loc c))
    (off1 : Fin 1 → Nat) (h1 : ∀ a, off1 a + S256.size a ≤ S524288.size a) (hs1) (h7) (h8)
    (hg : S32768x128.Gathers 0 S256x128) (hn : S256.numel = S256x128.size hg.axis')
    (hinI : ∀ x, ((sI.view.read (Elt F) (sI.view.write (Elt F) fI
      (ReadAs.same.apply (((idxV).slice (Rect.unit (s := S524288) off1 S256.size h1) hs1).view.read (Elt F) iv)) Finset.univ)) x).toNat
        < S32768x128.size hg.axis)
    (off : Fin 2 → Nat) (h : ∀ a, off a + S256x128.size a ≤ S65536x128.size a) (hs) (e0 : off1 0 = (qC : Fin 8).val * 65536 + off 0) (e1 : off 1 = 0)
    (g : Buf (Elt F) (outLoc qC d)) (j : S65536x128.Idx)
    (hj : j ∈ ((outV).slice (Rect.unit (s := S65536x128) off S256x128.size h) hs).view.set) :
    (((outV).slice (Rect.unit (s := S65536x128) off S256x128.size h) hs).view.writes (Elt F) g
        [⟨Rect.whole S256x128, ReadAs.same.apply (sR.view.read (Elt F) (sR.view.writes (Elt F) fR [⟨Rect.whole S256x128,
          SparseCore.gatherPayload hg (((tblV).slice (Rect.unit (s := S32768x128) ![0, 0] S32768x128.size h7) h8).view.read (Elt F) tv)
            (SparseCore.rows (sI.view.read (Elt F) (sI.view.write (Elt F) fI
              (ReadAs.same.apply (((idxV).slice (Rect.unit (s := S524288) off1 S256.size h1) hs1).view.read (Elt F) iv)) Finset.univ)) hn hinI)⟩]))⟩]) j
      = gathered tv iv qC j := by
  obtain ⟨x, -, rfl⟩ := Finset.mem_map.mp hj
  rw [out_piece_apply, gather_apply d tv iv hin, gathered_emb d tv iv off1 off h hs e0 e1]

end Piece

/-! ## The tile's rows and the pieces a trip writes -/

section Geometry

omit [FloatOps F] in
/-- Worker `w`'s rows of the result array are rows `[2048 w, 2048 w + 2048)`. -/
theorem mem_rowsSet (w : Fin 32) (j : S65536x128.Idx) :
    j ∈ rowsSet w ↔ 2048 * w.val ≤ (j 0).val ∧ (j 0).val < 2048 * w.val + 2048 := by
  unfold rowsSet rowsRect
  rw [View.set_slice_whole, Rect.mem_set_unit]
  have h1 := idx2_lt1 (n0 := 65536) (n1 := 128) j
  constructor
  · intro H
    have H0 : w.val * 2048 ≤ (j 0).val ∧ (j 0).val < w.val * 2048 + 2048 := H 0
    omega
  · intro H a
    match a with
    | ⟨0, _⟩ => show w.val * 2048 ≤ (j 0).val ∧ (j 0).val < w.val * 2048 + 2048; omega
    | ⟨1, _⟩ => show 0 * 128 ≤ (j 1).val ∧ (j 1).val < 0 * 128 + 128; omega

omit [FloatOps F] in
/-- A 256-row piece of the result array at row offset `off 0` (all 128 columns). -/
theorem mem_piece (off : Fin 2 → Nat) (h : ∀ a, off a + S256x128.size a ≤ S65536x128.size a) (hs) (j : S65536x128.Idx) :
    j ∈ ((outV).slice (Rect.unit (s := S65536x128) off S256x128.size h) hs).view.set
      ↔ (off 0 ≤ (j 0).val ∧ (j 0).val < off 0 + 256) ∧ (off 1 ≤ (j 1).val ∧ (j 1).val < off 1 + 128) := by
  show j ∈ ((View.whole main_v34_scv).slice (Rect.unit (s := S65536x128) off S256x128.size h)).set ↔ _
  rw [View.set_slice_whole, Rect.mem_set_unit]
  constructor
  · intro H; exact ⟨H 0, H 1⟩
  · rintro ⟨h0, h1⟩ a
    match a with
    | ⟨0, _⟩ => exact h0
    | ⟨1, _⟩ => exact h1

end Geometry

/-! ## Joining a trip's pieces back into the tile's rows -/

section Join

variable (d : Dev nD) (tv : Buf (Elt F) (tblLoc d)) (iv : Buf (Elt F) (idxLoc d))

/-- The rows of worker `w` below trip `k` (512 rows a trip) hold the gathered rows. -/
def doneBelow (w : Fin 32) (k : Nat) (g : Buf (Elt F) (outLoc qC d)) : Prop :=
  ∀ j ∈ rowsSet w, (j 0).val < 2048 * w.val + 512 * k → g j = gathered tv iv qC j

omit [FloatOps F] in
theorem doneBelow_zero (w : Fin 32) (g : Buf (Elt F) (outLoc qC d)) : doneBelow d tv iv w 0 g := by
  intro j hj hlt
  have := (mem_rowsSet w j).mp hj
  omega

omit [FloatOps F] in
theorem doneBelow_four (w : Fin 32) (g : Buf (Elt F) (outLoc qC d)) (h : doneBelow d tv iv w 4 g) :
    ∀ j ∈ rowsSet w, g j = gathered tv iv qC j := by
  intro j hj
  have := (mem_rowsSet w j).mp hj
  exact h j hj (by omega)

omit [FloatOps F] in
/-- A trip's first piece lies in the worker's rows; -/
theorem piece_subset (w : Fin 32) (k e : Nat) (he : e = 2048 * w.val + 512 * k) (hk : k < 4)
    (off : Fin 2 → Nat) (h : ∀ a, off a + S256x128.size a ≤ S65536x128.size a) (hs)
    (e0 : off 0 = e ∨ off 0 = e + 256) (e1 : off 1 = 0) :
    ((outV).slice (Rect.unit (s := S65536x128) off S256x128.size h) hs).view.set ⊆ rowsSet w := by
  intro j hj
  have := (mem_piece off h hs j).mp hj
  exact (mem_rowsSet w j).mpr (by omega)

omit [FloatOps F] in
/-- its second piece lies in them off the first. -/
theorem piece_subset_sdiff (w : Fin 32) (k e : Nat) (he : e = 2048 * w.val + 512 * k) (hk : k < 4)
    (off3 off4 : Fin 2 → Nat) (h3 : ∀ a, off3 a + S256x128.size a ≤ S65536x128.size a) (hs3)
    (h4 : ∀ a, off4 a + S256x128.size a ≤ S65536x128.size a) (hs4)
    (e30 : off3 0 = e) (e40 : off4 0 = e + 256) (e41 : off4 1 = 0) :
    ((outV).slice (Rect.unit (s := S65536x128) off4 S256x128.size h4) hs4).view.set
      ⊆ rowsSet w \ ((outV).slice (Rect.unit (s := S65536x128) off3 S256x128.size h3) hs3).view.set := by
  intro j hj
  have h4' := (mem_piece off4 h4 hs4 j).mp hj
  refine Finset.mem_sdiff.mpr ⟨(mem_rowsSet w j).mpr (by omega), fun hj3 => ?_⟩
  have h3' := (mem_piece off3 h3 hs3 j).mp hj3
  omega

omit [FloatOps F] in
/-- Two carved-out pieces put back at new contents. -/
theorem rejoin_two {ℓ : Loc nD τ sig} (R P3 P4 : Finset (Idx ℓ)) (hsub3 : P3 ⊆ R) (hsub4 : P4 ⊆ R \ P3) (g g3 g4 : Buf (Elt F) ℓ) :
    (iprop((ℓ ↦[P3]{fullShare} g3) ∗ (ℓ ↦[P4]{fullShare} g4) ∗ (ℓ ↦[(R \ P3) \ P4]{fullShare} g)) : sProp 𝕄)
      ⊢ ℓ ↦[R]{fullShare} (P3.piecewise g3 (P4.piecewise g4 g)) := by
  iintro ⟨H3, H4, Hr⟩
  iapply (pointsTo_join_subset (ℓ := ℓ) (q := fullShare) (I := P3) (S := R) (g := g3) (f := P4.piecewise g4 g) hsub3)
  isplitl [H3]; · iexact H3
  iapply (pointsTo_join_subset (ℓ := ℓ) (q := fullShare) (I := P4) (S := R \ P3) (g := g4) (f := g) hsub4)
  isplitl [H4]; · iexact H4
  iexact Hr

omit [FloatOps F] in
/-- Two pieces each holding the gathered rows, the rest as before, when the two pieces are all of the worker's rows
    from trip `k` up to trip `k + 1`: the rows below trip `k + 1` hold the gathered rows. -/
theorem doneBelow_step (w : Fin 32) (k : Nat) (P3 P4 : Finset (Idx (outLoc qC d)))
    (g g3 g4 : Buf (Elt F) (outLoc qC d)) (hg : doneBelow d tv iv w k g)
    (hg3 : ∀ j ∈ P3, g3 j = gathered tv iv qC j) (hg4 : ∀ j ∈ P4, g4 j = gathered tv iv qC j)
    (hcov : ∀ j : S65536x128.Idx, j ∈ rowsSet w → (j 0).val < 2048 * w.val + 512 * (k + 1) → j ∉ P3 → j ∉ P4 →
      (j 0).val < 2048 * w.val + 512 * k) :
    doneBelow d tv iv w (k + 1) (P3.piecewise g3 (P4.piecewise g4 g)) := by
  intro j hj hlt
  by_cases hj3 : j ∈ P3
  · exact (Finset.piecewise_eq_of_mem P3 g3 _ hj3).trans (hg3 j hj3)
  · refine (Finset.piecewise_eq_of_notMem P3 g3 _ hj3).trans ?_
    by_cases hj4 : j ∈ P4
    · exact (Finset.piecewise_eq_of_mem P4 g4 _ hj4).trans (hg4 j hj4)
    · exact (Finset.piecewise_eq_of_notMem P4 g4 _ hj4).trans (hg j hj (hcov j hj hlt hj3 hj4))

omit [FloatOps F] in
/-- The cover fact for a trip's two pieces. -/
theorem trip_cover (w : Fin 32) (k e : Nat) (he : e = 2048 * w.val + 512 * k)
    (off3 off4 : Fin 2 → Nat) (h3 : ∀ a, off3 a + S256x128.size a ≤ S65536x128.size a) (hs3)
    (h4 : ∀ a, off4 a + S256x128.size a ≤ S65536x128.size a) (hs4)
    (e30 : off3 0 = e) (e31 : off3 1 = 0) (e40 : off4 0 = e + 256) (e41 : off4 1 = 0) :
    ∀ j : S65536x128.Idx, j ∈ rowsSet w → (j 0).val < 2048 * w.val + 512 * (k + 1) →
      j ∉ ((outV).slice (Rect.unit (s := S65536x128) off3 S256x128.size h3) hs3).view.set →
      j ∉ ((outV).slice (Rect.unit (s := S65536x128) off4 S256x128.size h4) hs4).view.set →
      (j 0).val < 2048 * w.val + 512 * k := by
  intro j hj hlt hj3 hj4
  have hr := (mem_rowsSet w j).mp hj
  have n3 := mt (mem_piece off3 h3 hs3 j).mpr hj3
  have n4 := mt (mem_piece off4 h4 hs4 j).mpr hj4
  have := idx2_lt1 (n0 := 65536) (n1 := 128) j
  omega

end Join

end Cert.Proof.KW

end
-- ==== Proof.TileW.lean ====
/-
  One vector subcore's task in gather call 0, at a symbolic tile. Worker `w = 2 s + c` (subcore `s` of SparseCore `c`)
  fills rows `[2048 w, 2048 w + 2048)` of the result in four trips of 512 rows. A trip copies two 256-entry pieces of the
  index list into the two index scratches, starts one indirect gather of table rows per scratch, and copies each gathered
  256 x 128 block out to its rows of the result; every transfer has its own semaphore and is waited for before the next
  one on that semaphore starts. The loop's invariant carries the value: the worker's rows below the current trip already
  hold row `r ↦ table[index[r]]`; each trip extends this by its 512 rows, and after four trips it is all 2048 rows.
-/
import proofs.«214101_g10505490006249_cont_week2b_118_28_alg».proof.Proof.TileAuxW

noncomputable section

namespace Cert.Proof.KW

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 8) (Elt F) ℕ UU ℕ

variable [FloatOps F]

/-! ## The body -/

section Body

variable (d : Dev nD) (L : grid0.Coords)

/-- The worker number of the tile at grid point `L`. -/
abbrev wL (L : grid0.Coords) : Fin 32 := wid (cV L) (jV L)

/-! ### Call 0: the trips' offsets

The only facts about this call's printed offset functions that the body uses, read off their generated closed forms:
trip `k` of the tile at `L` works on rows `rowE L k` and `rowE L k + 256` of the result, and on the index entries
`65536 qC` beyond them. -/

/-- The first row of the result that trip `k` of the tile at `L` writes. -/
def rowE (L : grid0.Coords) (k : Fin k0_t1_loop.trips) : Nat := 4096 * (L 1).val + 2048 * (L 0).val + 512 * k.val

theorem rowE_eq (k : Fin k0_t1_loop.trips) : rowE L k = 2048 * (wL L).val + 512 * k.val := by
  have hwv : (wL L).val = (L 1).val * 2 + (L 0).val := rfl
  unfold rowE; rw [hwv]; omega
theorem trips_eq : Scf.trips k0_t1_loop.lb k0_t1_loop.ub k0_t1_loop.st = 4 := by decide
theorem trip_lt (k : Fin k0_t1_loop.trips) : k.val < 4 := Nat.lt_of_lt_of_le k.isLt k0_t1_abs.2.1
theorem offI0 (k : Fin k0_t1_loop.trips) : k0_off1 L k 0 = (qC : Fin 8).val * 65536 + rowE L k := by
  have h : k0_off1 L k 0 = 4096 * (L 1).val + 2048 * (L 0).val + 512 * k.val := congrFun (k0_off1_eq L k) 0
  rw [qC_val, h]; unfold rowE; omega
theorem offI1 (k : Fin k0_t1_loop.trips) : k0_off2 L k 0 = (qC : Fin 8).val * 65536 + (rowE L k + 256) := by
  have h : k0_off2 L k 0 = 4096 * (L 1).val + 2048 * (L 0).val + 512 * k.val + 256 := congrFun (k0_off2_eq L k) 0
  rw [qC_val, h]; unfold rowE; omega
theorem offO0 (k : Fin k0_t1_loop.trips) : k0_off3 L k 0 = rowE L k := congrFun (k0_off3_eq L k) 0
theorem offO0' (k : Fin k0_t1_loop.trips) : k0_off3 L k 1 = 0 := congrFun (k0_off3_eq L k) 1
theorem offO1 (k : Fin k0_t1_loop.trips) : k0_off4 L k 0 = rowE L k + 256 := congrFun (k0_off4_eq L k) 0
theorem offO1' (k : Fin k0_t1_loop.trips) : k0_off4 L k 1 = 0 := congrFun (k0_off4_eq L k) 1

omit [FloatOps F] in
theorem pts_tbl (q : PosShare TreeShare) (f : Buf (Elt F) (tblLoc d)) :
    ((tblV).view.loc (thrV d L) ↦{q} f : sProp 𝕄) = tblLoc d ↦{q} f := by
  simp only [Memref.view_whole, View.set_whole]
omit [FloatOps F] in
theorem pts_idx (q : PosShare TreeShare) (f : Buf (Elt F) (idxLoc d)) :
    ((idxV).view.loc (thrV d L) ↦{q} f : sProp 𝕄) = idxLoc d ↦{q} f := by
  simp only [Memref.view_whole, View.set_whole]

omit [FloatOps F] in
theorem pts_s0 (f : Buf (Elt F) ((thrV d L).loc cc0_scratch0)) :
    ((thrV d L).loc cc0_scratch0 ↦{fullShare} f : sProp 𝕄) = ((sI0).view.loc (thrV d L) ↦{fullShare} f) := rfl
omit [FloatOps F] in
theorem pts_s1 (f : Buf (Elt F) ((thrV d L).loc cc0_scratch1)) :
    ((thrV d L).loc cc0_scratch1 ↦{fullShare} f : sProp 𝕄) = ((sI1).view.loc (thrV d L) ↦{fullShare} f) := rfl
omit [FloatOps F] in
theorem pts_s2 (f : Buf (Elt F) ((thrV d L).loc cc0_scratch2)) :
    ((thrV d L).loc cc0_scratch2 ↦{fullShare} f : sProp 𝕄) = ((sR0).view.loc (thrV d L) ↦{fullShare} f) := rfl
omit [FloatOps F] in
theorem pts_s3 (f : Buf (Elt F) ((thrV d L).loc cc0_scratch3)) :
    ((thrV d L).loc cc0_scratch3 ↦{fullShare} f : sProp 𝕄) = ((sR1).view.loc (thrV d L) ↦{fullShare} f) := rfl

/-- The two 256-row pieces of the result array that trip `k` writes, as the program slices them. -/
abbrev o3 (k : Fin k0_t1_loop.trips) : Memref sig .scVector .hbm S256x128 .f32 :=
  outV.slice (Rect.unit (s := S65536x128) (k0_off3 L k) S256x128.size (k0_off3_inb L k)) (fun _ => rfl)
abbrev o4 (k : Fin k0_t1_loop.trips) : Memref sig .scVector .hbm S256x128 .f32 :=
  outV.slice (Rect.unit (s := S65536x128) (k0_off4 L k) S256x128.size (k0_off4_inb L k)) (fun _ => rfl)

/-- The loop's invariant: the table and the index list at their read shares, the tile's rows of the result with the
    rows below the trip gathered, the four scratches at some contents, the six semaphores at zero, and what the tile owes. -/
def inv (qs : PosShare TreeShare) (tv : Buf (Elt F) (tblLoc d)) (iv : Buf (Elt F) (idxLoc d))
    (O : CellTallies nD τ sig (HIx 8)) (W : Waits sig (HIx 8)) (k : Nat) (_ : PUnit) : sProp 𝕄 :=
  iprop(Transfers.MayWaits (thrV d L) (none : HIx 8) O
    ∗ ((tblV).view.loc (thrV d L) ↦{qs} tv)
    ∗ ((idxV).view.loc (thrV d L) ↦{qs} iv)
    ∗ (∃ g, ⌜doneBelow d tv iv (wL L) k g⌝ ∗ outLoc qC d ↦[rowsSet (wL L)]{fullShare} g)
    ∗ (∃ f, (sI0).view.loc (thrV d L) ↦{fullShare} f)
    ∗ (∃ f, (sI1).view.loc (thrV d L) ↦{fullShare} f)
    ∗ (∃ f, (sR0).view.loc (thrV d L) ↦{fullShare} f)
    ∗ (∃ f, (sR1).view.loc (thrV d L) ↦{fullShare} f)
    ∗ semVal (cell d L cc0_scratch4) 0 ∗ semVal (cell d L cc0_scratch5) 0 ∗ semVal (cell d L cc0_scratch6) 0
    ∗ semVal (cell d L cc0_scratch7) 0 ∗ semVal (cell d L cc0_scoped0) 0 ∗ semVal (cell d L cc0_scoped1) 0
    ∗ ∃ W', ⌜∀ p ∈ W', p ∈ W ∨ p.2 = none⌝ ∗ owes (thrV d L) O W')

omit [FloatOps F] in
/-- Whatever an index scratch held before, after a 256-entry piece of the index list is copied into it every word it
    holds names a row of the table. -/
theorem idx_inb (iv : Buf (Elt F) (idxLoc d)) (hin : ∀ e, (iv e).toNat < 32768)
    (c : Thread nD τ) (m : Memref sig c.2.kind .vmem S256 .i32) (f : Buf (Elt F) (m.view.loc c))
    (off : Fin 1 → Nat) (h : ∀ a, off a + S256.size a ≤ S524288.size a) (hs) (x : S256.Idx) :
    (m.view.read (Elt F) (m.view.write (Elt F) f
      (ReadAs.same.apply (((idxV).slice (Rect.unit (s := S524288) off S256.size h) hs).view.read (Elt F) iv)) Finset.univ) x).toNat < 32768 := by
  rw [View.read_write_univ, ReadAs.apply_same, View.read_apply]
  exact hin _
set_option maxHeartbeats 2000000 in
theorem tile_body (qs : PosShare TreeShare) (tv : Buf (Elt F) (tblLoc d)) (iv : Buf (Elt F) (idxLoc d))
    (hin : ∀ e, (iv e).toNat < 32768) (O : CellTallies nD τ sig (HIx 8)) (W : Waits sig (HIx 8)) (hO : ∀ g, O g none = 0) :
    (iprop(levAts (K (F := F)).L (K (F := F)).lev ∗ emp
        ∗ ((tblLoc d ↦{qs} tv) ∗ (idxLoc d ↦{qs} iv) ∗ ∃ f, outLoc qC d ↦[rowsSet (wL L)]{fullShare} f)
        ∗ scopedBufs (thrV d L) ∗ scopedSems0 (thrV d L) ∗ owes (thrV d L) O W) : sProp 𝕄)
      ⊢ wp frame (wpE (defs₀ (F := F)) 𝒱₀ (thrV d L) none) Set.univ
          (cc0_gather_kernel L tblV (Memref.isWhole_whole _) idxV (Memref.isWhole_whole _) outV (Memref.isWhole_whole _)
            sI0 (Memref.isWhole_whole _) sI1 (Memref.isWhole_whole _) sR0 (Memref.isWhole_whole _) sR1 (Memref.isWhole_whole _)
            cc0_scratch4 cc0_scratch5 cc0_scratch6 cc0_scratch7 cc0_scoped0 cc0_scoped1)
          fun _ => iprop(((tblLoc d ↦{qs} tv) ∗ (idxLoc d ↦{qs} iv) ∗ outLoc qC d ↦[rowsSet (wL L)]{fullShare} gathered tv iv qC)
            ∗ scopedBufs (thrV d L) ∗ scopedSems0 (thrV d L) ∗ ∃ W', ⌜∀ p ∈ W', p ∈ W ∨ p.2 = none⌝ ∗ owes (thrV d L) O W') := by
  simp only [cc0_gather_kernel_eq_skeleton]; unfold cc0_gather_kernel_skel
  rw [(K (F := F)).scopedBufs_V facts d (cV L) (jV L), SparseCore.Cfg.scopedSems0_V (Val := Elt F) d (cV L) (jV L), ownSems0_V, ownBufs_V]
  iintro ⟨#Hlv, -, ⟨Ht, Hi, %fo, Ho⟩, ⟨⟨%f0, Hb0⟩, ⟨%f1, Hb1⟩, ⟨%f2, Hb2⟩, ⟨%f3, Hb3⟩, Hbufs⟩, ⟨Hs4, Hs5, Hs6, Hs7, Hs8, Hs9, Hsems⟩, HO⟩
  ihave Hmw := ((K (F := F)).mayWaits_none (thr := thrV d L) hO) $$ Hlv
  ihave Ht' := (Entails.of_eq (pts_tbl (F := F) d L _ _).symm) $$ Ht
  ihave Hi' := (Entails.of_eq (pts_idx (F := F) d L _ _).symm) $$ Hi
  ihave Hb0' := (Entails.of_eq (pts_s0 (F := F) d L f0)) $$ Hb0
  ihave Hb1' := (Entails.of_eq (pts_s1 (F := F) d L f1)) $$ Hb1
  ihave Hb2' := (Entails.of_eq (pts_s2 (F := F) d L f2)) $$ Hb2
  ihave Hb3' := (Entails.of_eq (pts_s3 (F := F) d L f3)) $$ Hb3
  sl_exec
  sl_for (inv d L qs tv iv O W) $$ [Hmw Ht' Hi' Ho Hb0' Hb1' Hb2' Hb3' Hs4 Hs5 Hs6 Hs7 Hs8 Hs9 HO]
  case region =>
    intro k _
    unfold inv
    iintro ⟨Hmw, Ht, Hi, ⟨%g, %hg, Ho⟩, ⟨%f0, Hb0⟩, ⟨%f1, Hb1⟩, ⟨%f2, Hb2⟩, ⟨%f3, Hb3⟩, Hs4, Hs5, Hs6, Hs7, Hs8, Hs9, %W', %hW', HO⟩
    -- the trip's offsets: the row pieces start at rows `rowE` and `rowE + 256`, the index pieces `65536 qC` entries beyond
    have o30 := offO0 L k
    have o31 := offO0' L k
    have o40 := offO1 L k
    have o41 := offO1' L k
    have hE := rowE_eq L k
    have hk := trip_lt k
    have e13 : k0_off1 L k 0 = (qC : Fin 8).val * 65536 + k0_off3 L k 0 := by rw [offI0, o30]
    have e24 : k0_off2 L k 0 = (qC : Fin 8).val * 65536 + k0_off4 L k 0 := by rw [offI1, o40]
    have hsub3 : (o3 L k).view.set ⊆ rowsSet (wL L) :=
      piece_subset (wL L) k.val _ hE hk (k0_off3 L k) (k0_off3_inb L k) (fun _ => rfl) (.inl o30) o31
    have hsub4 : (o4 L k).view.set ⊆ rowsSet (wL L) \ (o3 L k).view.set :=
      piece_subset_sdiff (wL L) k.val _ hE hk (k0_off3 L k) (k0_off4 L k) (k0_off3_inb L k) (fun _ => rfl) (k0_off4_inb L k) (fun _ => rfl) o30 o40 o41
    ihave Ho' := (pointsTo_split_subset (ℓ := outLoc qC d) (q := fullShare) (f := g) (I := (o3 L k).view.set) (S := rowsSet (wL L)) hsub3).1 $$ Ho
    icases Ho' with ⟨Ho3, Hor⟩
    ihave Hor' := (pointsTo_split_subset (ℓ := outLoc qC d) (q := fullShare) (f := g) (I := (o4 L k).view.set) (S := rowsSet (wL L) \ (o3 L k).view.set) hsub4).1 $$ Hor
    icases Hor' with ⟨Ho4, Hor⟩
    ihave Ho3' := (Entails.of_eq (show (outLoc qC d ↦[(o3 L k).view.set]{fullShare} g : sProp 𝕄) = ((o3 L k).view.loc (thrV d L) ↦[(o3 L k).view.set]{fullShare} g) from rfl)) $$ Ho3
    ihave Ho4' := (Entails.of_eq (show (outLoc qC d ↦[(o4 L k).view.set]{fullShare} g : sProp 𝕄) = ((o4 L k).view.loc (thrV d L) ↦[(o4 L k).view.set]{fullShare} g) from rfl)) $$ Ho4
    -- the words each index scratch holds once its piece of the list has landed name rows of the table
    have hin0 : ∀ x : S256.Idx, ((sI0).view.read (Elt F) ((sI0).view.write (Elt F) f0 (ReadAs.same.apply (((idxV).slice
        (Rect.unit (s := S524288) (k0_off1 L k) S256.size (k0_off1_inb L k)) (fun _ => rfl)).view.read (Elt F) iv)) Finset.univ) x).toNat < 32768 :=
      idx_inb (F := F) d iv hin (thrV d L) sI0 f0 _ _ _
    have hin1 : ∀ x : S256.Idx, ((sI1).view.read (Elt F) ((sI1).view.write (Elt F) f1 (ReadAs.same.apply (((idxV).slice
        (Rect.unit (s := S524288) (k0_off2 L k) S256.size (k0_off2_inb L k)) (fun _ => rfl)).view.read (Elt F) iv)) Finset.univ) x).toNat < 32768 :=
      idx_inb (F := F) d iv hin (thrV d L) sI1 f1 _ _ _
    -- both gathers read the table while the other is outstanding: a read share each
    ihave Ht2 := (pointsTo_share (ℓ := (tblV).view.loc (thrV d L)) (I := Finset.univ) (f := tv) (PosShare.mem_left_op_right qs)).1 $$ Ht
    icases Ht2 with ⟨Hta, Htb⟩
    -- what the two copy-outs leave in their pieces is the gathered rows
    have hgth : S32768x128.Gathers 0 S256x128 := by decide
    have hg3 := fun j hj => piece_gathered (F := F) d tv iv hin (thrV d L) sI0 f0 sR0 f2 (k0_off1 L k) (k0_off1_inb L k) (fun _ => rfl)
      inb_S32768x128_S32768x128_0_0 (fun _ => rfl) hgth rfl hin0 (k0_off3 L k) (k0_off3_inb L k) (fun _ => rfl) e13 o31 g j hj
    have hg4 := fun j hj => piece_gathered (F := F) d tv iv hin (thrV d L) sI1 f1 sR1 f3 (k0_off2 L k) (k0_off2_inb L k) (fun _ => rfl)
      inb_S32768x128_S32768x128_0_0 (fun _ => rfl) hgth rfl hin1 (k0_off4 L k) (k0_off4_inb L k) (fun _ => rfl) e24 o41 g j hj
    sl_exec
    sl_step
    isplitl [Hmw]; · iexact Hmw
    isplitl [Hta Htb]
    · iapply (pointsTo_share (ℓ := (tblV).view.loc (thrV d L)) (I := Finset.univ) (f := tv) (PosShare.mem_left_op_right qs)).2
      isplitl [Hta]; · iexact Hta
      iexact Htb
    isplitl [Hi]; · iexact Hi
    isplitl [Ho3' Ho4' Hor]
    · ihave Hj := (rejoin_two (F := F) (ℓ := outLoc qC d) (rowsSet (wL L)) (o3 L k).view.set (o4 L k).view.set hsub3 hsub4 g _ _) $$ [Ho3' Ho4' Hor]
      · isplitl [Ho3']; · iexact Ho3'
        isplitl [Ho4']; · iexact Ho4'
        iexact Hor
      iexists _
      isplitr
      · ipureintro
        exact doneBelow_step (F := F) d tv iv (wL L) k.val (o3 L k).view.set (o4 L k).view.set g _ _ hg hg3 hg4
          (trip_cover (wL L) k.val _ hE (k0_off3 L k) (k0_off4 L k) (k0_off3_inb L k) (fun _ => rfl) (k0_off4_inb L k) (fun _ => rfl) o30 o31 o40 o41)
      · iexact Hj
    isplitl [Hb0]; · iexists _; iexact Hb0
    isplitl [Hb1]; · iexists _; iexact Hb1
    isplitl [Hb2]; · iexists _; iexact Hb2
    isplitl [Hb3]; · iexists _; iexact Hb3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    iexists _; isplitr
    swap
    · iexact HO
    · ipureintro; intro p hp
      simp only [Finset.mem_insert] at hp
      rcases hp with rfl | rfl | rfl | rfl | rfl | rfl | hp
      · exact .inr rfl
      · exact .inr rfl
      · exact .inr rfl
      · exact .inr rfl
      · exact .inr rfl
      · exact .inr rfl
      · exact hW' p hp
  · unfold inv
    isplitl [Hmw]; · iexact Hmw
    isplitl [Ht']; · iexact Ht'
    isplitl [Hi']; · iexact Hi'
    isplitl [Ho]
    · iexists fo; isplitr
      · ipureintro; exact doneBelow_zero d tv iv (wL L) fo
      · iexact Ho
    isplitl [Hb0']; · iexists f0; iexact Hb0'
    isplitl [Hb1']; · iexists f1; iexact Hb1'
    isplitl [Hb2']; · iexists f2; iexact Hb2'
    isplitl [Hb3']; · iexists f3; iexact Hb3'
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    iexists W; isplitr
    · ipureintro; exact fun p hp => .inl hp
    · iexact HO
  iintro %_ HI
  unfold inv
  icases HI with ⟨-, Ht, Hi, ⟨%g, %hg, Ho⟩, ⟨%f0', Hb0⟩, ⟨%f1', Hb1⟩, ⟨%f2', Hb2⟩, ⟨%f3', Hb3⟩, Hs4, Hs5, Hs6, Hs7, Hs8, Hs9, %W', %hW', HO⟩
  rw [trips_eq] at hg
  sl_exec
  sl_step
  isplitl [Ht Hi Ho]
  · isplitl [Ht]; · iapply (Entails.of_eq (pts_tbl (F := F) d L _ _)); iexact Ht
    isplitl [Hi]; · iapply (Entails.of_eq (pts_idx (F := F) d L _ _)); iexact Hi
    iapply (Entails.of_eq (pointsTo_congr (ℓ := outLoc qC d) (q := fullShare) (I := rowsSet (wL L)) (doneBelow_four d tv iv (wL L) g hg)))
    iexact Ho
  isplitl [Hb0 Hb1 Hb2 Hb3 Hbufs]
  · isplitl [Hb0]; · iexists f0'; iapply (Entails.of_eq (pts_s0 (F := F) d L f0').symm); iexact Hb0
    isplitl [Hb1]; · iexists f1'; iapply (Entails.of_eq (pts_s1 (F := F) d L f1').symm); iexact Hb1
    isplitl [Hb2]; · iexists f2'; iapply (Entails.of_eq (pts_s2 (F := F) d L f2').symm); iexact Hb2
    isplitl [Hb3]; · iexists f3'; iapply (Entails.of_eq (pts_s3 (F := F) d L f3').symm); iexact Hb3
    iexact Hbufs
  isplitl [Hs4 Hs5 Hs6 Hs7 Hs8 Hs9 Hsems]
  · isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    iexact Hsems
  iexists W'; isplitr
  · ipureintro; exact hW'
  · iexact HO

end Body

end Cert.Proof.KW

end
-- ==== Proof.TileObl0W.lean ====
/-
  The launch theorem's obligation for gather call 0: a tile's task, entered through the body table, is the kernel's
  body at that tile, run on the tile's share of the table and the index list and on its worker's rows.
-/
import proofs.«214101_g10505490006249_cont_week2b_118_28_alg».proof.Proof.LaunchW
import proofs.«214101_g10505490006249_cont_week2b_118_28_alg».proof.Proof.TileW

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Transfers (shareTok shareDrop pointsTo_toks_split pointsTo_toks_join)

variable {F : FTy → Type}

local notation "𝕄" => MT nD τ sig (HIx 8) (Elt F) ℕ UU ℕ

variable [FloatOps F]
variable (tv : (d : Dev nD) → S32768x128.Idx → Elt F .f32) (iv : (d : Dev nD) → S524288.Idx → Elt F .i32)

/-- A tile's grid coordinates from its SparseCore and subcore numbers. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector0 (c : Fin τ.nSC) (s : Fin τ.nSub) :
    defs₀ (F := F) (.scVector c s) 0 ()
      = SparseCore.onTile hcore0 hsub0 (fun c s => cc0_gather_kernel (coordsV c s)
          tblV (Memref.isWhole_whole _) idxV (Memref.isWhole_whole _) outV (Memref.isWhole_whole _)
          sI0 (Memref.isWhole_whole _) sI1 (Memref.isWhole_whole _) sR0 (Memref.isWhole_whole _) sR1 (Memref.isWhole_whole _)
          cc0_scratch4 cc0_scratch5 cc0_scratch6 cc0_scratch7 cc0_scoped0 cc0_scoped1) ⟨⟩ c s := rfl

omit [FloatOps F] tv iv in
/-- A task that records only waits of its own may be said to record those or the call's. -/
theorem obl_post {thr : Thread nD τ} {A B C : sProp 𝕄} {O : CellTallies nD τ sig (HIx 8)} {W : Waits sig (HIx 8)} {q : Fin 8} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Call 0's tile obligation. -/
theorem tileObl0 (hin : ∀ d e, (iv d e).toNat < 32768) : (K (F := F)).TileObl (D (F := F)) 𝒱 (P (F := F) tv iv) v₀ 0 := by
  intro d c i O W hO _ _
  -- the gather kernel owes nothing for a protocol of its own
  simp only [show (P (F := F) tv iv).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector0]; simp only [SparseCore.onTile, hc, and_self, ↓reduceDIte]
  exact (tile_body d (coordsV ⟨_, hc.1⟩ ⟨_, hc.2⟩) (shT (cC 0 c) (sS 0 i)) (tv d) (iv d) (hin d) O W hO).trans (wp_mono frame _ _ fun _ => obl_post)

end Cert.Proof.KW

end
-- ==== Proof.TileAux1W.lean ====
/-
  One vector subcore's share of a gather call, the pure part: how the subcore's scoped semaphores and scratch buffers are
  opened, what an indirect gather of 256 table rows delivers element by element, which elements of the result array a
  trip's two copy-outs write, and how those pieces rejoin the subcore's 2048 rows of the result.
-/
import proofs.«214101_g10505490006249_cont_week2b_118_28_alg».proof.Proof.SetupW

noncomputable section

namespace Cert.Proof.KW.C1

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 8) (Elt F) ℕ UU ℕ

/-! ## The names of gather call 1

Everything that is particular to this one of the eight gather calls is named here (and, for the trips' offsets, at the
top of the body's module): the call's number, its result array, its scratch buffers. The text below speaks of the call
only through these names and through the program's own `cc2_…` / `k2_…` names. -/

/-- The number of this gather call among the eight: it reads index entries `65536 qC + …` and fills result array `qC`. -/
abbrev qC : Fin 8 := 1
theorem qC_val : (qC : Fin 8).val = 1 := rfl

abbrev tblV : Memref sig .scVector .hbm S32768x128 .f32 := Memref.whole main_v10_scv
abbrev idxV : Memref sig .scVector .hbm S524288 .i32 := Memref.whole main_v6_scv
abbrev outV : Memref sig .scVector .hbm S65536x128 .f32 := Memref.whole main_v36_scv
abbrev sI0 : Memref sig .scVector .vmem S256 .i32 := Memref.whole cc2_scratch0
abbrev sI1 : Memref sig .scVector .vmem S256 .i32 := Memref.whole cc2_scratch1
abbrev sR0 : Memref sig .scVector .vmem S256x128 .f32 := Memref.whole cc2_scratch2
abbrev sR1 : Memref sig .scVector .vmem S256x128 .f32 := Memref.whole cc2_scratch3

abbrev cV (L : grid2.Coords) : Fin τ.nSC := (L 0).castLE hcore2
abbrev jV (L : grid2.Coords) : Fin τ.nSub := (L 1).castLE hsub2
abbrev thrV (d : Dev nD) (L : grid2.Coords) : Thread nD τ := V d (cV L) (jV L)

variable [FloatOps F]

/-! ## The tile's own semaphores and scratch buffers -/

section Own

variable (d : Dev nD) (L : grid2.Coords)

/-- The cell of one of the tile's DMA semaphores. -/
abbrev cell (sm : DmaSems sig S_) : GSem nD τ sig := (thrV d L, .dma sm.sem)

omit [FloatOps F] in
theorem cell_mem {sm : DmaSems sig S_} (h : (SemLoc.dma sm.sem : SemLoc sig).isScoped .scVector = true) :
    cell d L sm ∈ ownCells (sig := sig) (thrV d L) := (mem_ownCells (g := cell d L sm)).mpr ⟨rfl, h⟩

theorem cell_ne {a b : DmaSems sig S_} (h : (SemLoc.dma a.sem : SemLoc sig) ≠ .dma b.sem) : cell d L a ≠ cell d L b :=
  fun e => h (Prod.mk.inj e).2

/-- The tile's scoped cells other than the six the gather uses. -/
abbrev restCells : Finset (GSem nD τ sig) :=
  ((((((ownCells (thrV d L)).erase (cell d L cc2_scratch4)).erase (cell d L cc2_scratch5)).erase (cell d L cc2_scratch6)).erase
    (cell d L cc2_scratch7)).erase (cell d L cc2_scoped0)).erase (cell d L cc2_scoped1)

theorem ownSems0_V :
    (ownSems0 (thrV d L) : sProp 𝕄)
      = iprop(semVal (cell d L cc2_scratch4) 0 ∗ semVal (cell d L cc2_scratch5) 0 ∗ semVal (cell d L cc2_scratch6) 0
          ∗ semVal (cell d L cc2_scratch7) 0 ∗ semVal (cell d L cc2_scoped0) 0 ∗ semVal (cell d L cc2_scoped1) 0
          ∗ bigSep (restCells d L) fun g => semVal g 0) := by
  unfold SparseCore.Cfg.ownSems0
  have m4 := cell_mem d L (sm := cc2_scratch4) (by decide)
  have m5 := cell_mem d L (sm := cc2_scratch5) (by decide)
  have m6 := cell_mem d L (sm := cc2_scratch6) (by decide)
  have m7 := cell_mem d L (sm := cc2_scratch7) (by decide)
  have m8 := cell_mem d L (sm := cc2_scoped0) (by decide)
  have m9 := cell_mem d L (sm := cc2_scoped1) (by decide)
  rw [SparseCore.bigSep_erase' m4,
    SparseCore.bigSep_erase' (Finset.mem_erase.mpr ⟨cell_ne d L (by decide), m5⟩),
    SparseCore.bigSep_erase' (Finset.mem_erase.mpr ⟨cell_ne d L (by decide), Finset.mem_erase.mpr ⟨cell_ne d L (by decide), m6⟩⟩),
    SparseCore.bigSep_erase' (Finset.mem_erase.mpr ⟨cell_ne d L (by decide), Finset.mem_erase.mpr ⟨cell_ne d L (by decide),
      Finset.mem_erase.mpr ⟨cell_ne d L (by decide), m7⟩⟩⟩),
    SparseCore.bigSep_erase' (Finset.mem_erase.mpr ⟨cell_ne d L (by decide), Finset.mem_erase.mpr ⟨cell_ne d L (by decide),
      Finset.mem_erase.mpr ⟨cell_ne d L (by decide), Finset.mem_erase.mpr ⟨cell_ne d L (by decide), m8⟩⟩⟩⟩),
    SparseCore.bigSep_erase' (Finset.mem_erase.mpr ⟨cell_ne d L (by decide), Finset.mem_erase.mpr ⟨cell_ne d L (by decide),
      Finset.mem_erase.mpr ⟨cell_ne d L (by decide), Finset.mem_erase.mpr ⟨cell_ne d L (by decide),
      Finset.mem_erase.mpr ⟨cell_ne d L (by decide), m9⟩⟩⟩⟩⟩)]

/-- One of the tile's scratch buffers, as a buffer of the device. -/
abbrev sref (b : Ref sig .scVector) : DevRef τ sig := (Proc.scVector (cV L) (jV L)).devRef b

theorem sref_mem {b : Ref sig .scVector} (h : (sref L b).owner = .proc (.scVector (cV L) (jV L))) :
    sref L b ∈ ownRefs (sig := sig) (τ := τ) (.scVector (cV L) (jV L)) :=
  SparseCore.Cfg.mem_ownRefs_of_owner (p := Proc.scVector (cV L) (jV L)) (b := sref L b) h

theorem sref_ne {a b : Ref sig .scVector} (h : a ≠ b) : sref L a ≠ sref L b := fun e => h (Proc.devRef_injective _ e)

/-- The tile's own buffers other than the gather's four scratches. -/
abbrev restRefs : Finset (DevRef τ sig) :=
  ((((ownRefs (τ := τ) (.scVector (cV L) (jV L))).erase (sref L cc2_scratch0)).erase (sref L cc2_scratch1)).erase (sref L cc2_scratch2)).erase
    (sref L cc2_scratch3)

theorem ownBufs_V :
    (ownBufs (thrV d L) : sProp 𝕄)
      = iprop((∃ f, (thrV d L).loc cc2_scratch0 ↦{fullShare} f) ∗ (∃ f, (thrV d L).loc cc2_scratch1 ↦{fullShare} f)
          ∗ (∃ f, (thrV d L).loc cc2_scratch2 ↦{fullShare} f) ∗ (∃ f, (thrV d L).loc cc2_scratch3 ↦{fullShare} f)
          ∗ bigSep (restRefs L) fun b => iprop(∃ f, ((d, b) : Loc nD τ sig) ↦{fullShare} f)) := by
  unfold SparseCore.Cfg.ownBufs
  refine (SparseCore.bigSep_erase' (sref_mem L (b := cc2_scratch0) rfl)).trans ?_
  rw [SparseCore.bigSep_erase' (Finset.mem_erase.mpr ⟨sref_ne L (show (cc2_scratch1 : Ref sig .scVector) ≠ cc2_scratch0 by decide), sref_mem L (b := cc2_scratch1) rfl⟩),
    SparseCore.bigSep_erase' (Finset.mem_erase.mpr ⟨sref_ne L (show (cc2_scratch2 : Ref sig .scVector) ≠ cc2_scratch1 by decide),
      Finset.mem_erase.mpr ⟨sref_ne L (show (cc2_scratch2 : Ref sig .scVector) ≠ cc2_scratch0 by decide), sref_mem L (b := cc2_scratch2) rfl⟩⟩),
    SparseCore.bigSep_erase' (Finset.mem_erase.mpr ⟨sref_ne L (show (cc2_scratch3 : Ref sig .scVector) ≠ cc2_scratch2 by decide),
      Finset.mem_erase.mpr ⟨sref_ne L (show (cc2_scratch3 : Ref sig .scVector) ≠ cc2_scratch1 by decide),
      Finset.mem_erase.mpr ⟨sref_ne L (show (cc2_scratch3 : Ref sig .scVector) ≠ cc2_scratch0 by decide), sref_mem L (b := cc2_scratch3) rfl⟩⟩⟩)]

end Own

/-! ## What one gather delivers -/

section Value

variable (d : Dev nD) (tv : Buf (Elt F) (tblLoc d)) (iv : Buf (Elt F) (idxLoc d))

omit [FloatOps F] in
/-- Entry `y` of the 256-entry piece of the index list that starts at `off` is entry `off + y` of the list. -/
theorem idxPiece_read (off : Fin 1 → Nat) (h : ∀ a, off a + S256.size a ≤ S524288.size a) (hs) (y : S256.Idx) :
    ((idxV).slice (Rect.unit (s := S524288) off S256.size h) hs).view.read (Elt F) iv y
      = iv (ix1 ⟨off 0 + (y 0).val, by have := h 0; have := (y 0).isLt; exact Nat.lt_of_lt_of_le (Nat.add_lt_add_left this _) (h 0)⟩) := by
  rw [View.read_apply]
  refine congrArg iv (funext fun a => ?_)
  match a with
  | ⟨0, _⟩ => exact Fin.ext (by show off 0 + 1 * (y 0).val = off 0 + (y 0).val; omega)

omit [FloatOps F] in
/-- The gather's payload at an index: row `x 0` of the scratch receives the table's row named by entry `off + x 0` of
    the index list, when the index scratch was filled with the 256 entries from `off`. -/
theorem gather_apply (hin : ∀ e, (iv e).toNat < 32768)
    (c : Thread nD τ) (sI : Memref sig c.2.kind .vmem S256 .i32) (fI : Buf (Elt F) (sI.view.loc c))
    (off : Fin 1 → Nat) (h : ∀ a, off a + S256.size a ≤ S524288.size a) (hs) (h7) (h8)
    (hg : S32768x128.Gathers 0 S256x128) (hn : S256.numel = S256x128.size hg.axis')
    (hinI : ∀ x, ((sI.view.read (Elt F) (sI.view.write (Elt F) fI
      (ReadAs.same.apply (((idxV).slice (Rect.unit (s := S524288) off S256.size h) hs).view.read (Elt F) iv)) Finset.univ)) x).toNat
        < S32768x128.size hg.axis)
    (x : S256x128.Idx) :
    SparseCore.gatherPayload hg (((tblV).slice (Rect.unit (s := S32768x128) ![0, 0] S32768x128.size h7) h8).view.read (Elt F) tv)
        (SparseCore.rows (sI.view.read (Elt F) (sI.view.write (Elt F) fI
          (ReadAs.same.apply (((idxV).slice (Rect.unit (s := S524288) off S256.size h) hs).view.read (Elt F) iv)) Finset.univ)) hn hinI) x
      = tv (ix2 (rowOf (iv (ix1 ⟨off 0 + (x 0).val, by
          have := h 0; have := idx2_lt0 (n0 := 256) (n1 := 128) x
          exact Nat.lt_of_lt_of_le (Nat.add_lt_add_left this _) (h 0)⟩))) (x 1)) := by
  unfold SparseCore.gatherPayload
  rw [View.read_apply]
  refine congrArg tv (funext fun a => ?_)
  have hy0 : ((S256.rowMajor.symm ((x hg.axis').cast hn.symm)) 0).val = (x 0).val := by
    have e := Shape.rowMajor_val_one (d := ![256]) (S256.rowMajor.symm ((x hg.axis').cast hn.symm))
    rw [Equiv.apply_symm_apply] at e
    exact e.symm
  match a with
  | ⟨0, _⟩ =>
    apply Fin.ext
    show 0 + 1 * (hg.idx _ x hg.axis).val = _
    rw [Shape.Gathers.idx_axis]
    show 0 + 1 * ((sI.view.read (Elt F) (sI.view.write (Elt F) fI (ReadAs.same.apply
      (((idxV).slice (Rect.unit (s := S524288) off S256.size h) hs).view.read (Elt F) iv)) Finset.univ))
        (S256.rowMajor.symm ((x hg.axis').cast hn.symm))).toNat = (iv (ix1 ⟨off 0 + (x 0).val, _⟩)).toNat % 32768
    rw [View.read_write_univ, ReadAs.apply_same, idxPiece_read, Nat.mod_eq_of_lt (hin _), Nat.zero_add, Nat.one_mul]
    exact congrArg (fun n : Fin 524288 => (iv (ix1 n)).toNat) (Fin.ext (by show off 0 + _ = off 0 + _; rw [hy0]))
  | ⟨1, _⟩ =>
    apply Fin.ext
    show 0 + 1 * (hg.idx _ x ⟨1, by decide⟩).val = (x 1).val
    rw [Shape.Gathers.idx_of_ne hg _ x ⟨1, by decide⟩ (by decide), Nat.zero_add, Nat.one_mul]
    rfl

end Value

/-! ## What a trip leaves in one 256-row piece of the result -/

section Piece

variable (d : Dev nD) (tv : Buf (Elt F) (tblLoc d)) (iv : Buf (Elt F) (idxLoc d))

omit [FloatOps F] in
/-- A row scratch written whole with `p`, copied whole onto a 256-row piece of the result: the piece's element under `x`
    holds `p x`. -/
theorem out_piece_apply (c : Thread nD τ) (sR : Memref sig c.2.kind .vmem S256x128 .f32) (fR : Buf (Elt F) (sR.view.loc c))
    (p : S256x128.Idx → Elt F .f32) (off : Fin 2 → Nat) (h : ∀ a, off a + S256x128.size a ≤ S65536x128.size a) (hs)
    (g : Buf (Elt F) (outLoc qC d)) (x : S256x128.Idx) :
    (((outV).slice (Rect.unit (s := S65536x128) off S256x128.size h) hs).view.writes (Elt F) g
        [⟨Rect.whole S256x128, ReadAs.same.apply (sR.view.read (Elt F) (sR.view.writes (Elt F) fR [⟨Rect.whole S256x128, p⟩]))⟩])
      (((outV).slice (Rect.unit (s := S65536x128) off S256x128.size h) hs).view.emb x) = p x := by
  have e1 := congrFun (View.read_writes_whole ((outV).slice (Rect.unit (s := S65536x128) off S256x128.size h) hs).view g
    (ReadAs.same.apply (sR.view.read (Elt F) (sR.view.writes (Elt F) fR [⟨Rect.whole S256x128, p⟩])))) x
  rw [View.read_apply] at e1
  refine (show _ = _ from e1).trans ?_
  rw [ReadAs.apply_same]
  exact congrFun (View.read_writes_whole sR.view fR p) x

omit [FloatOps F] in
/-- The gathered result at the element of a piece under `x`, when the index piece starts `65536 qC` entries beyond the
    row the piece starts at (call `qC`'s share of the index list). -/
theorem gathered_emb (off1 : Fin 1 → Nat) (off : Fin 2 → Nat) (h : ∀ a, off a + S256x128.size a ≤ S65536x128.size a) (hs)
    (e0 : off1 0 = (qC : Fin 8).val * 65536 + off 0) (e1 : off 1 = 0) (x : S256x128.Idx) (hlt : off1 0 + (x 0).val < 524288) :
    gathered tv iv qC (((outV).slice (Rect.unit (s := S65536x128) off S256x128.size h) hs).view.emb x)
      = tv (ix2 (rowOf (iv (ix1 ⟨off1 0 + (x 0).val, hlt⟩))) (x 1)) := by
  obtain ⟨j, hj⟩ : ∃ j : S65536x128.Idx, j = ((outV).slice (Rect.unit (s := S65536x128) off S256x128.size h) hs).view.emb x := ⟨_, rfl⟩
  have j0 : (j 0).val = off 0 + 1 * (x 0).val := by rw [hj]; rfl
  have j1 : (j 1).val = off 1 + 1 * (x 1).val := by rw [hj]; rfl
  rw [← hj]
  unfold gathered
  have a : ∀ hb, (⟨(qC : Fin 8).val * 65536 + (j 0).val, hb⟩ : Fin 524288) = ⟨off1 0 + (x 0).val, hlt⟩ := fun _ =>
    Fin.ext (by show (qC : Fin 8).val * 65536 + (j 0).val = off1 0 + (x 0).val; rw [j0, e0]; omega)
  have b : j 1 = x 1 := Fin.ext (by rw [j1, e1]; omega)
  rw [a, b]

omit [FloatOps F] in
/-- After a trip's gather and copy-out, every element of the 256-row piece holds the gathered result. -/
theorem piece_gathered (hin : ∀ e, (iv e).toNat < 32768)
    (c : Thread nD τ) (sI : Memref sig c.2.kind .vmem S256 .i32) (fI : Buf (Elt F) (sI.view.loc c))
    (sR : Memref sig c.2.kind .vmem S256x128 .f32) (fR : Buf (Elt F) (sR.view.loc c))
    (off1 : Fin 1 → Nat) (h1 : ∀ a, off1 a + S256.size a ≤ S524288.size a) (hs1) (h7) (h8)
    (hg : S32768x128.Gathers 0 S256x128) (hn : S256.numel = S256x128.size hg.axis')
    (hinI : ∀ x, ((sI.view.read (Elt F) (sI.view.write (Elt F) fI
      (ReadAs.same.apply (((idxV).slice (Rect.unit (s := S524288) off1 S256.size h1) hs1).view.read (Elt F) iv)) Finset.univ)) x).toNat
        < S32768x128.size hg.axis)
    (off : Fin 2 → Nat) (h : ∀ a, off a + S256x128.size a ≤ S65536x128.size a) (hs) (e0 : off1 0 = (qC : Fin 8).val * 65536 + off 0) (e1 : off 1 = 0)
    (g : Buf (Elt F) (outLoc qC d)) (j : S65536x128.Idx)
    (hj : j ∈ ((outV).slice (Rect.unit (s := S65536x128) off S256x128.size h) hs).view.set) :
    (((outV).slice (Rect.unit (s := S65536x128) off S256x128.size h) hs).view.writes (Elt F) g
        [⟨Rect.whole S256x128, ReadAs.same.apply (sR.view.read (Elt F) (sR.view.writes (Elt F) fR [⟨Rect.whole S256x128,
          SparseCore.gatherPayload hg (((tblV).slice (Rect.unit (s := S32768x128) ![0, 0] S32768x128.size h7) h8).view.read (Elt F) tv)
            (SparseCore.rows (sI.view.read (Elt F) (sI.view.write (Elt F) fI
              (ReadAs.same.apply (((idxV).slice (Rect.unit (s := S524288) off1 S256.size h1) hs1).view.read (Elt F) iv)) Finset.univ)) hn hinI)⟩]))⟩]) j
      = gathered tv iv qC j := by
  obtain ⟨x, -, rfl⟩ := Finset.mem_map.mp hj
  rw [out_piece_apply, gather_apply d tv iv hin, gathered_emb d tv iv off1 off h hs e0 e1]

end Piece

/-! ## The tile's rows and the pieces a trip writes -/

section Geometry

omit [FloatOps F] in
/-- Worker `w`'s rows of the result array are rows `[2048 w, 2048 w + 2048)`. -/
theorem mem_rowsSet (w : Fin 32) (j : S65536x128.Idx) :
    j ∈ rowsSet w ↔ 2048 * w.val ≤ (j 0).val ∧ (j 0).val < 2048 * w.val + 2048 := by
  unfold rowsSet rowsRect
  rw [View.set_slice_whole, Rect.mem_set_unit]
  have h1 := idx2_lt1 (n0 := 65536) (n1 := 128) j
  constructor
  · intro H
    have H0 : w.val * 2048 ≤ (j 0).val ∧ (j 0).val < w.val * 2048 + 2048 := H 0
    omega
  · intro H a
    match a with
    | ⟨0, _⟩ => show w.val * 2048 ≤ (j 0).val ∧ (j 0).val < w.val * 2048 + 2048; omega
    | ⟨1, _⟩ => show 0 * 128 ≤ (j 1).val ∧ (j 1).val < 0 * 128 + 128; omega

omit [FloatOps F] in
/-- A 256-row piece of the result array at row offset `off 0` (all 128 columns). -/
theorem mem_piece (off : Fin 2 → Nat) (h : ∀ a, off a + S256x128.size a ≤ S65536x128.size a) (hs) (j : S65536x128.Idx) :
    j ∈ ((outV).slice (Rect.unit (s := S65536x128) off S256x128.size h) hs).view.set
      ↔ (off 0 ≤ (j 0).val ∧ (j 0).val < off 0 + 256) ∧ (off 1 ≤ (j 1).val ∧ (j 1).val < off 1 + 128) := by
  show j ∈ ((View.whole main_v36_scv).slice (Rect.unit (s := S65536x128) off S256x128.size h)).set ↔ _
  rw [View.set_slice_whole, Rect.mem_set_unit]
  constructor
  · intro H; exact ⟨H 0, H 1⟩
  · rintro ⟨h0, h1⟩ a
    match a with
    | ⟨0, _⟩ => exact h0
    | ⟨1, _⟩ => exact h1

end Geometry

/-! ## Joining a trip's pieces back into the tile's rows -/

section Join

variable (d : Dev nD) (tv : Buf (Elt F) (tblLoc d)) (iv : Buf (Elt F) (idxLoc d))

/-- The rows of worker `w` below trip `k` (512 rows a trip) hold the gathered rows. -/
def doneBelow (w : Fin 32) (k : Nat) (g : Buf (Elt F) (outLoc qC d)) : Prop :=
  ∀ j ∈ rowsSet w, (j 0).val < 2048 * w.val + 512 * k → g j = gathered tv iv qC j

omit [FloatOps F] in
theorem doneBelow_zero (w : Fin 32) (g : Buf (Elt F) (outLoc qC d)) : doneBelow d tv iv w 0 g := by
  intro j hj hlt
  have := (mem_rowsSet w j).mp hj
  omega

omit [FloatOps F] in
theorem doneBelow_four (w : Fin 32) (g : Buf (Elt F) (outLoc qC d)) (h : doneBelow d tv iv w 4 g) :
    ∀ j ∈ rowsSet w, g j = gathered tv iv qC j := by
  intro j hj
  have := (mem_rowsSet w j).mp hj
  exact h j hj (by omega)

omit [FloatOps F] in
/-- A trip's first piece lies in the worker's rows; -/
theorem piece_subset (w : Fin 32) (k e : Nat) (he : e = 2048 * w.val + 512 * k) (hk : k < 4)
    (off : Fin 2 → Nat) (h : ∀ a, off a + S256x128.size a ≤ S65536x128.size a) (hs)
    (e0 : off 0 = e ∨ off 0 = e + 256) (e1 : off 1 = 0) :
    ((outV).slice (Rect.unit (s := S65536x128) off S256x128.size h) hs).view.set ⊆ rowsSet w := by
  intro j hj
  have := (mem_piece off h hs j).mp hj
  exact (mem_rowsSet w j).mpr (by omega)

omit [FloatOps F] in
/-- its second piece lies in them off the first. -/
theorem piece_subset_sdiff (w : Fin 32) (k e : Nat) (he : e = 2048 * w.val + 512 * k) (hk : k < 4)
    (off3 off4 : Fin 2 → Nat) (h3 : ∀ a, off3 a + S256x128.size a ≤ S65536x128.size a) (hs3)
    (h4 : ∀ a, off4 a + S256x128.size a ≤ S65536x128.size a) (hs4)
    (e30 : off3 0 = e) (e40 : off4 0 = e + 256) (e41 : off4 1 = 0) :
    ((outV).slice (Rect.unit (s := S65536x128) off4 S256x128.size h4) hs4).view.set
      ⊆ rowsSet w \ ((outV).slice (Rect.unit (s := S65536x128) off3 S256x128.size h3) hs3).view.set := by
  intro j hj
  have h4' := (mem_piece off4 h4 hs4 j).mp hj
  refine Finset.mem_sdiff.mpr ⟨(mem_rowsSet w j).mpr (by omega), fun hj3 => ?_⟩
  have h3' := (mem_piece off3 h3 hs3 j).mp hj3
  omega

omit [FloatOps F] in
/-- Two carved-out pieces put back at new contents. -/
theorem rejoin_two {ℓ : Loc nD τ sig} (R P3 P4 : Finset (Idx ℓ)) (hsub3 : P3 ⊆ R) (hsub4 : P4 ⊆ R \ P3) (g g3 g4 : Buf (Elt F) ℓ) :
    (iprop((ℓ ↦[P3]{fullShare} g3) ∗ (ℓ ↦[P4]{fullShare} g4) ∗ (ℓ ↦[(R \ P3) \ P4]{fullShare} g)) : sProp 𝕄)
      ⊢ ℓ ↦[R]{fullShare} (P3.piecewise g3 (P4.piecewise g4 g)) := by
  iintro ⟨H3, H4, Hr⟩
  iapply (pointsTo_join_subset (ℓ := ℓ) (q := fullShare) (I := P3) (S := R) (g := g3) (f := P4.piecewise g4 g) hsub3)
  isplitl [H3]; · iexact H3
  iapply (pointsTo_join_subset (ℓ := ℓ) (q := fullShare) (I := P4) (S := R \ P3) (g := g4) (f := g) hsub4)
  isplitl [H4]; · iexact H4
  iexact Hr

omit [FloatOps F] in
/-- Two pieces each holding the gathered rows, the rest as before, when the two pieces are all of the worker's rows
    from trip `k` up to trip `k + 1`: the rows below trip `k + 1` hold the gathered rows. -/
theorem doneBelow_step (w : Fin 32) (k : Nat) (P3 P4 : Finset (Idx (outLoc qC d)))
    (g g3 g4 : Buf (Elt F) (outLoc qC d)) (hg : doneBelow d tv iv w k g)
    (hg3 : ∀ j ∈ P3, g3 j = gathered tv iv qC j) (hg4 : ∀ j ∈ P4, g4 j = gathered tv iv qC j)
    (hcov : ∀ j : S65536x128.Idx, j ∈ rowsSet w → (j 0).val < 2048 * w.val + 512 * (k + 1) → j ∉ P3 → j ∉ P4 →
      (j 0).val < 2048 * w.val + 512 * k) :
    doneBelow d tv iv w (k + 1) (P3.piecewise g3 (P4.piecewise g4 g)) := by
  intro j hj hlt
  by_cases hj3 : j ∈ P3
  · exact (Finset.piecewise_eq_of_mem P3 g3 _ hj3).trans (hg3 j hj3)
  · refine (Finset.piecewise_eq_of_notMem P3 g3 _ hj3).trans ?_
    by_cases hj4 : j ∈ P4
    · exact (Finset.piecewise_eq_of_mem P4 g4 _ hj4).trans (hg4 j hj4)
    · exact (Finset.piecewise_eq_of_notMem P4 g4 _ hj4).trans (hg j hj (hcov j hj hlt hj3 hj4))

omit [FloatOps F] in
/-- The cover fact for a trip's two pieces. -/
theorem trip_cover (w : Fin 32) (k e : Nat) (he : e = 2048 * w.val + 512 * k)
    (off3 off4 : Fin 2 → Nat) (h3 : ∀ a, off3 a + S256x128.size a ≤ S65536x128.size a) (hs3)
    (h4 : ∀ a, off4 a + S256x128.size a ≤ S65536x128.size a) (hs4)
    (e30 : off3 0 = e) (e31 : off3 1 = 0) (e40 : off4 0 = e + 256) (e41 : off4 1 = 0) :
    ∀ j : S65536x128.Idx, j ∈ rowsSet w → (j 0).val < 2048 * w.val + 512 * (k + 1) →
      j ∉ ((outV).slice (Rect.unit (s := S65536x128) off3 S256x128.size h3) hs3).view.set →
      j ∉ ((outV).slice (Rect.unit (s := S65536x128) off4 S256x128.size h4) hs4).view.set →
      (j 0).val < 2048 * w.val + 512 * k := by
  intro j hj hlt hj3 hj4
  have hr := (mem_rowsSet w j).mp hj
  have n3 := mt (mem_piece off3 h3 hs3 j).mpr hj3
  have n4 := mt (mem_piece off4 h4 hs4 j).mpr hj4
  have := idx2_lt1 (n0 := 65536) (n1 := 128) j
  omega

end Join

end Cert.Proof.KW.C1

end
-- ==== Proof.Tile1W.lean ====
/-
  One vector subcore's task in gather call 1, at a symbolic tile. Worker `w = 2 s + c` (subcore `s` of SparseCore `c`)
  fills rows `[2048 w, 2048 w + 2048)` of the result in four trips of 512 rows. A trip copies two 256-entry pieces of the
  index list into the two index scratches, starts one indirect gather of table rows per scratch, and copies each gathered
  256 x 128 block out to its rows of the result; every transfer has its own semaphore and is waited for before the next
  one on that semaphore starts. The loop's invariant carries the value: the worker's rows below the current trip already
  hold row `r ↦ table[index[r]]`; each trip extends this by its 512 rows, and after four trips it is all 2048 rows.
-/
import proofs.«214101_g10505490006249_cont_week2b_118_28_alg».proof.Proof.TileAux1W

noncomputable section

namespace Cert.Proof.KW.C1

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 8) (Elt F) ℕ UU ℕ

variable [FloatOps F]

/-! ## The body -/

section Body

variable (d : Dev nD) (L : grid2.Coords)

/-- The worker number of the tile at grid point `L`. -/
abbrev wL (L : grid2.Coords) : Fin 32 := wid (cV L) (jV L)

/-! ### Call 1: the trips' offsets

The only facts about this call's printed offset functions that the body uses, read off their generated closed forms:
trip `k` of the tile at `L` works on rows `rowE L k` and `rowE L k + 256` of the result, and on the index entries
`65536 qC` beyond them. -/

/-- The first row of the result that trip `k` of the tile at `L` writes. -/
def rowE (L : grid2.Coords) (k : Fin k2_t1_loop.trips) : Nat := 4096 * (L 1).val + 2048 * (L 0).val + 512 * k.val

theorem rowE_eq (k : Fin k2_t1_loop.trips) : rowE L k = 2048 * (wL L).val + 512 * k.val := by
  have hwv : (wL L).val = (L 1).val * 2 + (L 0).val := rfl
  unfold rowE; rw [hwv]; omega
theorem trips_eq : Scf.trips k2_t1_loop.lb k2_t1_loop.ub k2_t1_loop.st = 4 := by decide
theorem trip_lt (k : Fin k2_t1_loop.trips) : k.val < 4 := Nat.lt_of_lt_of_le k.isLt k2_t1_abs.2.1
theorem offI0 (k : Fin k2_t1_loop.trips) : k2_off1 L k 0 = (qC : Fin 8).val * 65536 + rowE L k := by
  have h : k2_off1 L k 0 = 4096 * (L 1).val + 2048 * (L 0).val + 512 * k.val + 65536 := congrFun (k2_off1_eq L k) 0
  rw [qC_val, h]; unfold rowE; omega
theorem offI1 (k : Fin k2_t1_loop.trips) : k2_off2 L k 0 = (qC : Fin 8).val * 65536 + (rowE L k + 256) := by
  have h : k2_off2 L k 0 = 4096 * (L 1).val + 2048 * (L 0).val + 512 * k.val + 65792 := congrFun (k2_off2_eq L k) 0
  rw [qC_val, h]; unfold rowE; omega
theorem offO0 (k : Fin k2_t1_loop.trips) : k2_off3 L k 0 = rowE L k := congrFun (k2_off3_eq L k) 0
theorem offO0' (k : Fin k2_t1_loop.trips) : k2_off3 L k 1 = 0 := congrFun (k2_off3_eq L k) 1
theorem offO1 (k : Fin k2_t1_loop.trips) : k2_off4 L k 0 = rowE L k + 256 := congrFun (k2_off4_eq L k) 0
theorem offO1' (k : Fin k2_t1_loop.trips) : k2_off4 L k 1 = 0 := congrFun (k2_off4_eq L k) 1

omit [FloatOps F] in
theorem pts_tbl (q : PosShare TreeShare) (f : Buf (Elt F) (tblLoc d)) :
    ((tblV).view.loc (thrV d L) ↦{q} f : sProp 𝕄) = tblLoc d ↦{q} f := by
  simp only [Memref.view_whole, View.set_whole]
omit [FloatOps F] in
theorem pts_idx (q : PosShare TreeShare) (f : Buf (Elt F) (idxLoc d)) :
    ((idxV).view.loc (thrV d L) ↦{q} f : sProp 𝕄) = idxLoc d ↦{q} f := by
  simp only [Memref.view_whole, View.set_whole]

omit [FloatOps F] in
theorem pts_s0 (f : Buf (Elt F) ((thrV d L).loc cc2_scratch0)) :
    ((thrV d L).loc cc2_scratch0 ↦{fullShare} f : sProp 𝕄) = ((sI0).view.loc (thrV d L) ↦{fullShare} f) := rfl
omit [FloatOps F] in
theorem pts_s1 (f : Buf (Elt F) ((thrV d L).loc cc2_scratch1)) :
    ((thrV d L).loc cc2_scratch1 ↦{fullShare} f : sProp 𝕄) = ((sI1).view.loc (thrV d L) ↦{fullShare} f) := rfl
omit [FloatOps F] in
theorem pts_s2 (f : Buf (Elt F) ((thrV d L).loc cc2_scratch2)) :
    ((thrV d L).loc cc2_scratch2 ↦{fullShare} f : sProp 𝕄) = ((sR0).view.loc (thrV d L) ↦{fullShare} f) := rfl
omit [FloatOps F] in
theorem pts_s3 (f : Buf (Elt F) ((thrV d L).loc cc2_scratch3)) :
    ((thrV d L).loc cc2_scratch3 ↦{fullShare} f : sProp 𝕄) = ((sR1).view.loc (thrV d L) ↦{fullShare} f) := rfl

/-- The two 256-row pieces of the result array that trip `k` writes, as the program slices them. -/
abbrev o3 (k : Fin k2_t1_loop.trips) : Memref sig .scVector .hbm S256x128 .f32 :=
  outV.slice (Rect.unit (s := S65536x128) (k2_off3 L k) S256x128.size (k2_off3_inb L k)) (fun _ => rfl)
abbrev o4 (k : Fin k2_t1_loop.trips) : Memref sig .scVector .hbm S256x128 .f32 :=
  outV.slice (Rect.unit (s := S65536x128) (k2_off4 L k) S256x128.size (k2_off4_inb L k)) (fun _ => rfl)

/-- The loop's invariant: the table and the index list at their read shares, the tile's rows of the result with the
    rows below the trip gathered, the four scratches at some contents, the six semaphores at zero, and what the tile owes. -/
def inv (qs : PosShare TreeShare) (tv : Buf (Elt F) (tblLoc d)) (iv : Buf (Elt F) (idxLoc d))
    (O : CellTallies nD τ sig (HIx 8)) (W : Waits sig (HIx 8)) (k : Nat) (_ : PUnit) : sProp 𝕄 :=
  iprop(Transfers.MayWaits (thrV d L) (none : HIx 8) O
    ∗ ((tblV).view.loc (thrV d L) ↦{qs} tv)
    ∗ ((idxV).view.loc (thrV d L) ↦{qs} iv)
    ∗ (∃ g, ⌜doneBelow d tv iv (wL L) k g⌝ ∗ outLoc qC d ↦[rowsSet (wL L)]{fullShare} g)
    ∗ (∃ f, (sI0).view.loc (thrV d L) ↦{fullShare} f)
    ∗ (∃ f, (sI1).view.loc (thrV d L) ↦{fullShare} f)
    ∗ (∃ f, (sR0).view.loc (thrV d L) ↦{fullShare} f)
    ∗ (∃ f, (sR1).view.loc (thrV d L) ↦{fullShare} f)
    ∗ semVal (cell d L cc2_scratch4) 0 ∗ semVal (cell d L cc2_scratch5) 0 ∗ semVal (cell d L cc2_scratch6) 0
    ∗ semVal (cell d L cc2_scratch7) 0 ∗ semVal (cell d L cc2_scoped0) 0 ∗ semVal (cell d L cc2_scoped1) 0
    ∗ ∃ W', ⌜∀ p ∈ W', p ∈ W ∨ p.2 = none⌝ ∗ owes (thrV d L) O W')

omit [FloatOps F] in
/-- Whatever an index scratch held before, after a 256-entry piece of the index list is copied into it every word it
    holds names a row of the table. -/
theorem idx_inb (iv : Buf (Elt F) (idxLoc d)) (hin : ∀ e, (iv e).toNat < 32768)
    (c : Thread nD τ) (m : Memref sig c.2.kind .vmem S256 .i32) (f : Buf (Elt F) (m.view.loc c))
    (off : Fin 1 → Nat) (h : ∀ a, off a + S256.size a ≤ S524288.size a) (hs) (x : S256.Idx) :
    (m.view.read (Elt F) (m.view.write (Elt F) f
      (ReadAs.same.apply (((idxV).slice (Rect.unit (s := S524288) off S256.size h) hs).view.read (Elt F) iv)) Finset.univ) x).toNat < 32768 := by
  rw [View.read_write_univ, ReadAs.apply_same, View.read_apply]
  exact hin _
set_option maxHeartbeats 2000000 in
theorem tile_body (qs : PosShare TreeShare) (tv : Buf (Elt F) (tblLoc d)) (iv : Buf (Elt F) (idxLoc d))
    (hin : ∀ e, (iv e).toNat < 32768) (O : CellTallies nD τ sig (HIx 8)) (W : Waits sig (HIx 8)) (hO : ∀ g, O g none = 0) :
    (iprop(levAts (K (F := F)).L (K (F := F)).lev ∗ emp
        ∗ ((tblLoc d ↦{qs} tv) ∗ (idxLoc d ↦{qs} iv) ∗ ∃ f, outLoc qC d ↦[rowsSet (wL L)]{fullShare} f)
        ∗ scopedBufs (thrV d L) ∗ scopedSems0 (thrV d L) ∗ owes (thrV d L) O W) : sProp 𝕄)
      ⊢ wp frame (wpE (defs₀ (F := F)) 𝒱₀ (thrV d L) none) Set.univ
          (cc2_gather_kernel L tblV (Memref.isWhole_whole _) idxV (Memref.isWhole_whole _) outV (Memref.isWhole_whole _)
            sI0 (Memref.isWhole_whole _) sI1 (Memref.isWhole_whole _) sR0 (Memref.isWhole_whole _) sR1 (Memref.isWhole_whole _)
            cc2_scratch4 cc2_scratch5 cc2_scratch6 cc2_scratch7 cc2_scoped0 cc2_scoped1)
          fun _ => iprop(((tblLoc d ↦{qs} tv) ∗ (idxLoc d ↦{qs} iv) ∗ outLoc qC d ↦[rowsSet (wL L)]{fullShare} gathered tv iv qC)
            ∗ scopedBufs (thrV d L) ∗ scopedSems0 (thrV d L) ∗ ∃ W', ⌜∀ p ∈ W', p ∈ W ∨ p.2 = none⌝ ∗ owes (thrV d L) O W') := by
  simp only [cc2_gather_kernel_eq_skeleton]; unfold cc2_gather_kernel_skel
  rw [(K (F := F)).scopedBufs_V facts d (cV L) (jV L), SparseCore.Cfg.scopedSems0_V (Val := Elt F) d (cV L) (jV L), ownSems0_V, ownBufs_V]
  iintro ⟨#Hlv, -, ⟨Ht, Hi, %fo, Ho⟩, ⟨⟨%f0, Hb0⟩, ⟨%f1, Hb1⟩, ⟨%f2, Hb2⟩, ⟨%f3, Hb3⟩, Hbufs⟩, ⟨Hs4, Hs5, Hs6, Hs7, Hs8, Hs9, Hsems⟩, HO⟩
  ihave Hmw := ((K (F := F)).mayWaits_none (thr := thrV d L) hO) $$ Hlv
  ihave Ht' := (Entails.of_eq (pts_tbl (F := F) d L _ _).symm) $$ Ht
  ihave Hi' := (Entails.of_eq (pts_idx (F := F) d L _ _).symm) $$ Hi
  ihave Hb0' := (Entails.of_eq (pts_s0 (F := F) d L f0)) $$ Hb0
  ihave Hb1' := (Entails.of_eq (pts_s1 (F := F) d L f1)) $$ Hb1
  ihave Hb2' := (Entails.of_eq (pts_s2 (F := F) d L f2)) $$ Hb2
  ihave Hb3' := (Entails.of_eq (pts_s3 (F := F) d L f3)) $$ Hb3
  sl_exec
  sl_for (inv d L qs tv iv O W) $$ [Hmw Ht' Hi' Ho Hb0' Hb1' Hb2' Hb3' Hs4 Hs5 Hs6 Hs7 Hs8 Hs9 HO]
  case region =>
    intro k _
    unfold inv
    iintro ⟨Hmw, Ht, Hi, ⟨%g, %hg, Ho⟩, ⟨%f0, Hb0⟩, ⟨%f1, Hb1⟩, ⟨%f2, Hb2⟩, ⟨%f3, Hb3⟩, Hs4, Hs5, Hs6, Hs7, Hs8, Hs9, %W', %hW', HO⟩
    -- the trip's offsets: the row pieces start at rows `rowE` and `rowE + 256`, the index pieces `65536 qC` entries beyond
    have o30 := offO0 L k
    have o31 := offO0' L k
    have o40 := offO1 L k
    have o41 := offO1' L k
    have hE := rowE_eq L k
    have hk := trip_lt k
    have e13 : k2_off1 L k 0 = (qC : Fin 8).val * 65536 + k2_off3 L k 0 := by rw [offI0, o30]
    have e24 : k2_off2 L k 0 = (qC : Fin 8).val * 65536 + k2_off4 L k 0 := by rw [offI1, o40]
    have hsub3 : (o3 L k).view.set ⊆ rowsSet (wL L) :=
      piece_subset (wL L) k.val _ hE hk (k2_off3 L k) (k2_off3_inb L k) (fun _ => rfl) (.inl o30) o31
    have hsub4 : (o4 L k).view.set ⊆ rowsSet (wL L) \ (o3 L k).view.set :=
      piece_subset_sdiff (wL L) k.val _ hE hk (k2_off3 L k) (k2_off4 L k) (k2_off3_inb L k) (fun _ => rfl) (k2_off4_inb L k) (fun _ => rfl) o30 o40 o41
    ihave Ho' := (pointsTo_split_subset (ℓ := outLoc qC d) (q := fullShare) (f := g) (I := (o3 L k).view.set) (S := rowsSet (wL L)) hsub3).1 $$ Ho
    icases Ho' with ⟨Ho3, Hor⟩
    ihave Hor' := (pointsTo_split_subset (ℓ := outLoc qC d) (q := fullShare) (f := g) (I := (o4 L k).view.set) (S := rowsSet (wL L) \ (o3 L k).view.set) hsub4).1 $$ Hor
    icases Hor' with ⟨Ho4, Hor⟩
    ihave Ho3' := (Entails.of_eq (show (outLoc qC d ↦[(o3 L k).view.set]{fullShare} g : sProp 𝕄) = ((o3 L k).view.loc (thrV d L) ↦[(o3 L k).view.set]{fullShare} g) from rfl)) $$ Ho3
    ihave Ho4' := (Entails.of_eq (show (outLoc qC d ↦[(o4 L k).view.set]{fullShare} g : sProp 𝕄) = ((o4 L k).view.loc (thrV d L) ↦[(o4 L k).view.set]{fullShare} g) from rfl)) $$ Ho4
    -- the words each index scratch holds once its piece of the list has landed name rows of the table
    have hin0 : ∀ x : S256.Idx, ((sI0).view.read (Elt F) ((sI0).view.write (Elt F) f0 (ReadAs.same.apply (((idxV).slice
        (Rect.unit (s := S524288) (k2_off1 L k) S256.size (k2_off1_inb L k)) (fun _ => rfl)).view.read (Elt F) iv)) Finset.univ) x).toNat < 32768 :=
      idx_inb (F := F) d iv hin (thrV d L) sI0 f0 _ _ _
    have hin1 : ∀ x : S256.Idx, ((sI1).view.read (Elt F) ((sI1).view.write (Elt F) f1 (ReadAs.same.apply (((idxV).slice
        (Rect.unit (s := S524288) (k2_off2 L k) S256.size (k2_off2_inb L k)) (fun _ => rfl)).view.read (Elt F) iv)) Finset.univ) x).toNat < 32768 :=
      idx_inb (F := F) d iv hin (thrV d L) sI1 f1 _ _ _
    -- both gathers read the table while the other is outstanding: a read share each
    ihave Ht2 := (pointsTo_share (ℓ := (tblV).view.loc (thrV d L)) (I := Finset.univ) (f := tv) (PosShare.mem_left_op_right qs)).1 $$ Ht
    icases Ht2 with ⟨Hta, Htb⟩
    -- what the two copy-outs leave in their pieces is the gathered rows
    have hgth : S32768x128.Gathers 0 S256x128 := by decide
    have hg3 := fun j hj => piece_gathered (F := F) d tv iv hin (thrV d L) sI0 f0 sR0 f2 (k2_off1 L k) (k2_off1_inb L k) (fun _ => rfl)
      inb_S32768x128_S32768x128_0_0 (fun _ => rfl) hgth rfl hin0 (k2_off3 L k) (k2_off3_inb L k) (fun _ => rfl) e13 o31 g j hj
    have hg4 := fun j hj => piece_gathered (F := F) d tv iv hin (thrV d L) sI1 f1 sR1 f3 (k2_off2 L k) (k2_off2_inb L k) (fun _ => rfl)
      inb_S32768x128_S32768x128_0_0 (fun _ => rfl) hgth rfl hin1 (k2_off4 L k) (k2_off4_inb L k) (fun _ => rfl) e24 o41 g j hj
    sl_exec
    sl_step
    isplitl [Hmw]; · iexact Hmw
    isplitl [Hta Htb]
    · iapply (pointsTo_share (ℓ := (tblV).view.loc (thrV d L)) (I := Finset.univ) (f := tv) (PosShare.mem_left_op_right qs)).2
      isplitl [Hta]; · iexact Hta
      iexact Htb
    isplitl [Hi]; · iexact Hi
    isplitl [Ho3' Ho4' Hor]
    · ihave Hj := (rejoin_two (F := F) (ℓ := outLoc qC d) (rowsSet (wL L)) (o3 L k).view.set (o4 L k).view.set hsub3 hsub4 g _ _) $$ [Ho3' Ho4' Hor]
      · isplitl [Ho3']; · iexact Ho3'
        isplitl [Ho4']; · iexact Ho4'
        iexact Hor
      iexists _
      isplitr
      · ipureintro
        exact doneBelow_step (F := F) d tv iv (wL L) k.val (o3 L k).view.set (o4 L k).view.set g _ _ hg hg3 hg4
          (trip_cover (wL L) k.val _ hE (k2_off3 L k) (k2_off4 L k) (k2_off3_inb L k) (fun _ => rfl) (k2_off4_inb L k) (fun _ => rfl) o30 o31 o40 o41)
      · iexact Hj
    isplitl [Hb0]; · iexists _; iexact Hb0
    isplitl [Hb1]; · iexists _; iexact Hb1
    isplitl [Hb2]; · iexists _; iexact Hb2
    isplitl [Hb3]; · iexists _; iexact Hb3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    iexists _; isplitr
    swap
    · iexact HO
    · ipureintro; intro p hp
      simp only [Finset.mem_insert] at hp
      rcases hp with rfl | rfl | rfl | rfl | rfl | rfl | hp
      · exact .inr rfl
      · exact .inr rfl
      · exact .inr rfl
      · exact .inr rfl
      · exact .inr rfl
      · exact .inr rfl
      · exact hW' p hp
  · unfold inv
    isplitl [Hmw]; · iexact Hmw
    isplitl [Ht']; · iexact Ht'
    isplitl [Hi']; · iexact Hi'
    isplitl [Ho]
    · iexists fo; isplitr
      · ipureintro; exact doneBelow_zero d tv iv (wL L) fo
      · iexact Ho
    isplitl [Hb0']; · iexists f0; iexact Hb0'
    isplitl [Hb1']; · iexists f1; iexact Hb1'
    isplitl [Hb2']; · iexists f2; iexact Hb2'
    isplitl [Hb3']; · iexists f3; iexact Hb3'
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    iexists W; isplitr
    · ipureintro; exact fun p hp => .inl hp
    · iexact HO
  iintro %_ HI
  unfold inv
  icases HI with ⟨-, Ht, Hi, ⟨%g, %hg, Ho⟩, ⟨%f0', Hb0⟩, ⟨%f1', Hb1⟩, ⟨%f2', Hb2⟩, ⟨%f3', Hb3⟩, Hs4, Hs5, Hs6, Hs7, Hs8, Hs9, %W', %hW', HO⟩
  rw [trips_eq] at hg
  sl_exec
  sl_step
  isplitl [Ht Hi Ho]
  · isplitl [Ht]; · iapply (Entails.of_eq (pts_tbl (F := F) d L _ _)); iexact Ht
    isplitl [Hi]; · iapply (Entails.of_eq (pts_idx (F := F) d L _ _)); iexact Hi
    iapply (Entails.of_eq (pointsTo_congr (ℓ := outLoc qC d) (q := fullShare) (I := rowsSet (wL L)) (doneBelow_four d tv iv (wL L) g hg)))
    iexact Ho
  isplitl [Hb0 Hb1 Hb2 Hb3 Hbufs]
  · isplitl [Hb0]; · iexists f0'; iapply (Entails.of_eq (pts_s0 (F := F) d L f0').symm); iexact Hb0
    isplitl [Hb1]; · iexists f1'; iapply (Entails.of_eq (pts_s1 (F := F) d L f1').symm); iexact Hb1
    isplitl [Hb2]; · iexists f2'; iapply (Entails.of_eq (pts_s2 (F := F) d L f2').symm); iexact Hb2
    isplitl [Hb3]; · iexists f3'; iapply (Entails.of_eq (pts_s3 (F := F) d L f3').symm); iexact Hb3
    iexact Hbufs
  isplitl [Hs4 Hs5 Hs6 Hs7 Hs8 Hs9 Hsems]
  · isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    iexact Hsems
  iexists W'; isplitr
  · ipureintro; exact hW'
  · iexact HO

end Body

end Cert.Proof.KW.C1

end
-- ==== Proof.TileObl1W.lean ====
/-
  The launch theorem's obligation for gather call 1: a tile's task, entered through the body table, is the kernel's
  body at that tile, run on the tile's share of the table and the index list and on its worker's rows.
-/
import proofs.«214101_g10505490006249_cont_week2b_118_28_alg».proof.Proof.LaunchW
import proofs.«214101_g10505490006249_cont_week2b_118_28_alg».proof.Proof.Tile1W
import proofs.«214101_g10505490006249_cont_week2b_118_28_alg».proof.Proof.TileObl0W

noncomputable section

namespace Cert.Proof.KW.C1

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Transfers (shareTok shareDrop pointsTo_toks_split pointsTo_toks_join)

variable {F : FTy → Type}

local notation "𝕄" => MT nD τ sig (HIx 8) (Elt F) ℕ UU ℕ

variable [FloatOps F]
variable (tv : (d : Dev nD) → S32768x128.Idx → Elt F .f32) (iv : (d : Dev nD) → S524288.Idx → Elt F .i32)

/-- A tile's grid coordinates from its SparseCore and subcore numbers. -/
def coordsV (c : Fin (grid2.bound 0)) (s : Fin (grid2.bound 1)) : grid2.Coords :=
  fun | 0 => c | 1 => s | ⟨_ + 2, h⟩ => absurd h (Nat.not_lt.2 (Nat.le_add_left _ _))

theorem defs₀_vector1 (c : Fin τ.nSC) (s : Fin τ.nSub) :
    defs₀ (F := F) (.scVector c s) 2 ()
      = SparseCore.onTile hcore2 hsub2 (fun c s => cc2_gather_kernel (coordsV c s)
          tblV (Memref.isWhole_whole _) idxV (Memref.isWhole_whole _) outV (Memref.isWhole_whole _)
          sI0 (Memref.isWhole_whole _) sI1 (Memref.isWhole_whole _) sR0 (Memref.isWhole_whole _) sR1 (Memref.isWhole_whole _)
          cc2_scratch4 cc2_scratch5 cc2_scratch6 cc2_scratch7 cc2_scoped0 cc2_scoped1) ⟨⟩ c s := rfl

/-- Call 1's tile obligation. -/
theorem tileObl1 (hin : ∀ d e, (iv d e).toNat < 32768) : (K (F := F)).TileObl (D (F := F)) 𝒱 (P (F := F) tv iv) v₀ 1 := by
  intro d c i O W hO _ _
  -- the gather kernel owes nothing for a protocol of its own
  simp only [show (P (F := F) tv iv).ox = fun _ _ => 0 from rfl, add_zero]
  change _ ⊢ wp _ _ _ (Pipeline.liftProg (defs₀ (F := F) (.scVector ((K (F := F)).core 1 c) ((K (F := F)).sub 1 i)) 2 ())) _
  refine BI.Entails.trans ?_ (Pipeline.wp_liftProg (D (F := F)) (Pipeline.defs_kernel pcfgs defs₀) 𝒱₀ _ Set.univ none _ _)
  have hc : ((K (F := F)).core 1 c).val < grid2.bound 0 ∧ ((K (F := F)).sub 1 i).val < grid2.bound 1 := ⟨c.isLt, i.isLt⟩
  rw [defs₀_vector1]; simp only [SparseCore.onTile, hc, and_self, ↓reduceDIte]
  exact (tile_body d (coordsV ⟨_, hc.1⟩ ⟨_, hc.2⟩) (shT (cC 1 c) (sS 1 i)) (tv d) (iv d) (hin d) O W hO).trans (wp_mono frame _ _ fun _ => obl_post)

end Cert.Proof.KW.C1

end
-- ==== Proof.TileAux2W.lean ====
/-
  One vector subcore's share of a gather call, the pure part: how the subcore's scoped semaphores and scratch buffers are
  opened, what an indirect gather of 256 table rows delivers element by element, which elements of the result array a
  trip's two copy-outs write, and how those pieces rejoin the subcore's 2048 rows of the result.
-/
import proofs.«214101_g10505490006249_cont_week2b_118_28_alg».proof.Proof.SetupW

noncomputable section

namespace Cert.Proof.KW.C2

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 8) (Elt F) ℕ UU ℕ

/-! ## The names of gather call 2

Everything that is particular to this one of the eight gather calls is named here (and, for the trips' offsets, at the
top of the body's module): the call's number, its result array, its scratch buffers. The text below speaks of the call
only through these names and through the program's own `cc4_…` / `k4_…` names. -/

/-- The number of this gather call among the eight: it reads index entries `65536 qC + …` and fills result array `qC`. -/
abbrev qC : Fin 8 := 2
theorem qC_val : (qC : Fin 8).val = 2 := rfl

abbrev tblV : Memref sig .scVector .hbm S32768x128 .f32 := Memref.whole main_v10_scv
abbrev idxV : Memref sig .scVector .hbm S524288 .i32 := Memref.whole main_v6_scv
abbrev outV : Memref sig .scVector .hbm S65536x128 .f32 := Memref.whole main_v38_scv
abbrev sI0 : Memref sig .scVector .vmem S256 .i32 := Memref.whole cc4_scratch0
abbrev sI1 : Memref sig .scVector .vmem S256 .i32 := Memref.whole cc4_scratch1
abbrev sR0 : Memref sig .scVector .vmem S256x128 .f32 := Memref.whole cc4_scratch2
abbrev sR1 : Memref sig .scVector .vmem S256x128 .f32 := Memref.whole cc4_scratch3

abbrev cV (L : grid4.Coords) : Fin τ.nSC := (L 0).castLE hcore4
abbrev jV (L : grid4.Coords) : Fin τ.nSub := (L 1).castLE hsub4
abbrev thrV (d : Dev nD) (L : grid4.Coords) : Thread nD τ := V d (cV L) (jV L)

variable [FloatOps F]

/-! ## The tile's own semaphores and scratch buffers -/

section Own

variable (d : Dev nD) (L : grid4.Coords)

/-- The cell of one of the tile's DMA semaphores. -/
abbrev cell (sm : DmaSems sig S_) : GSem nD τ sig := (thrV d L, .dma sm.sem)

omit [FloatOps F] in
theorem cell_mem {sm : DmaSems sig S_} (h : (SemLoc.dma sm.sem : SemLoc sig).isScoped .scVector = true) :
    cell d L sm ∈ ownCells (sig := sig) (thrV d L) := (mem_ownCells (g := cell d L sm)).mpr ⟨rfl, h⟩

theorem cell_ne {a b : DmaSems sig S_} (h : (SemLoc.dma a.sem : SemLoc sig) ≠ .dma b.sem) : cell d L a ≠ cell d L b :=
  fun e => h (Prod.mk.inj e).2

/-- The tile's scoped cells other than the six the gather uses. -/
abbrev restCells : Finset (GSem nD τ sig) :=
  ((((((ownCells (thrV d L)).erase (cell d L cc4_scratch4)).erase (cell d L cc4_scratch5)).erase (cell d L cc4_scratch6)).erase
    (cell d L cc4_scratch7)).erase (cell d L cc4_scoped0)).erase (cell d L cc4_scoped1)

theorem ownSems0_V :
    (ownSems0 (thrV d L) : sProp 𝕄)
      = iprop(semVal (cell d L cc4_scratch4) 0 ∗ semVal (cell d L cc4_scratch5) 0 ∗ semVal (cell d L cc4_scratch6) 0
          ∗ semVal (cell d L cc4_scratch7) 0 ∗ semVal (cell d L cc4_scoped0) 0 ∗ semVal (cell d L cc4_scoped1) 0
          ∗ bigSep (restCells d L) fun g => semVal g 0) := by
  unfold SparseCore.Cfg.ownSems0
  have m4 := cell_mem d L (sm := cc4_scratch4) (by decide)
  have m5 := cell_mem d L (sm := cc4_scratch5) (by decide)
  have m6 := cell_mem d L (sm := cc4_scratch6) (by decide)
  have m7 := cell_mem d L (sm := cc4_scratch7) (by decide)
  have m8 := cell_mem d L (sm := cc4_scoped0) (by decide)
  have m9 := cell_mem d L (sm := cc4_scoped1) (by decide)
  rw [SparseCore.bigSep_erase' m4,
    SparseCore.bigSep_erase' (Finset.mem_erase.mpr ⟨cell_ne d L (by decide), m5⟩),
    SparseCore.bigSep_erase' (Finset.mem_erase.mpr ⟨cell_ne d L (by decide), Finset.mem_erase.mpr ⟨cell_ne d L (by decide), m6⟩⟩),
    SparseCore.bigSep_erase' (Finset.mem_erase.mpr ⟨cell_ne d L (by decide), Finset.mem_erase.mpr ⟨cell_ne d L (by decide),
      Finset.mem_erase.mpr ⟨cell_ne d L (by decide), m7⟩⟩⟩),
    SparseCore.bigSep_erase' (Finset.mem_erase.mpr ⟨cell_ne d L (by decide), Finset.mem_erase.mpr ⟨cell_ne d L (by decide),
      Finset.mem_erase.mpr ⟨cell_ne d L (by decide), Finset.mem_erase.mpr ⟨cell_ne d L (by decide), m8⟩⟩⟩⟩),
    SparseCore.bigSep_erase' (Finset.mem_erase.mpr ⟨cell_ne d L (by decide), Finset.mem_erase.mpr ⟨cell_ne d L (by decide),
      Finset.mem_erase.mpr ⟨cell_ne d L (by decide), Finset.mem_erase.mpr ⟨cell_ne d L (by decide),
      Finset.mem_erase.mpr ⟨cell_ne d L (by decide), m9⟩⟩⟩⟩⟩)]

/-- One of the tile's scratch buffers, as a buffer of the device. -/
abbrev sref (b : Ref sig .scVector) : DevRef τ sig := (Proc.scVector (cV L) (jV L)).devRef b

theorem sref_mem {b : Ref sig .scVector} (h : (sref L b).owner = .proc (.scVector (cV L) (jV L))) :
    sref L b ∈ ownRefs (sig := sig) (τ := τ) (.scVector (cV L) (jV L)) :=
  SparseCore.Cfg.mem_ownRefs_of_owner (p := Proc.scVector (cV L) (jV L)) (b := sref L b) h

theorem sref_ne {a b : Ref sig .scVector} (h : a ≠ b) : sref L a ≠ sref L b := fun e => h (Proc.devRef_injective _ e)

/-- The tile's own buffers other than the gather's four scratches. -/
abbrev restRefs : Finset (DevRef τ sig) :=
  ((((ownRefs (τ := τ) (.scVector (cV L) (jV L))).erase (sref L cc4_scratch0)).erase (sref L cc4_scratch1)).erase (sref L cc4_scratch2)).erase
    (sref L cc4_scratch3)

theorem ownBufs_V :
    (ownBufs (thrV d L) : sProp 𝕄)
      = iprop((∃ f, (thrV d L).loc cc4_scratch0 ↦{fullShare} f) ∗ (∃ f, (thrV d L).loc cc4_scratch1 ↦{fullShare} f)
          ∗ (∃ f, (thrV d L).loc cc4_scratch2 ↦{fullShare} f) ∗ (∃ f, (thrV d L).loc cc4_scratch3 ↦{fullShare} f)
          ∗ bigSep (restRefs L) fun b => iprop(∃ f, ((d, b) : Loc nD τ sig) ↦{fullShare} f)) := by
  unfold SparseCore.Cfg.ownBufs
  refine (SparseCore.bigSep_erase' (sref_mem L (b := cc4_scratch0) rfl)).trans ?_
  rw [SparseCore.bigSep_erase' (Finset.mem_erase.mpr ⟨sref_ne L (show (cc4_scratch1 : Ref sig .scVector) ≠ cc4_scratch0 by decide), sref_mem L (b := cc4_scratch1) rfl⟩),
    SparseCore.bigSep_erase' (Finset.mem_erase.mpr ⟨sref_ne L (show (cc4_scratch2 : Ref sig .scVector) ≠ cc4_scratch1 by decide),
      Finset.mem_erase.mpr ⟨sref_ne L (show (cc4_scratch2 : Ref sig .scVector) ≠ cc4_scratch0 by decide), sref_mem L (b := cc4_scratch2) rfl⟩⟩),
    SparseCore.bigSep_erase' (Finset.mem_erase.mpr ⟨sref_ne L (show (cc4_scratch3 : Ref sig .scVector) ≠ cc4_scratch2 by decide),
      Finset.mem_erase.mpr ⟨sref_ne L (show (cc4_scratch3 : Ref sig .scVector) ≠ cc4_scratch1 by decide),
      Finset.mem_erase.mpr ⟨sref_ne L (show (cc4_scratch3 : Ref sig .scVector) ≠ cc4_scratch0 by decide), sref_mem L (b := cc4_scratch3) rfl⟩⟩⟩)]

end Own

/-! ## What one gather delivers -/

section Value

variable (d : Dev nD) (tv : Buf (Elt F) (tblLoc d)) (iv : Buf (Elt F) (idxLoc d))

omit [FloatOps F] in
/-- Entry `y` of the 256-entry piece of the index list that starts at `off` is entry `off + y` of the list. -/
theorem idxPiece_read (off : Fin 1 → Nat) (h : ∀ a, off a + S256.size a ≤ S524288.size a) (hs) (y : S256.Idx) :
    ((idxV).slice (Rect.unit (s := S524288) off S256.size h) hs).view.read (Elt F) iv y
      = iv (ix1 ⟨off 0 + (y 0).val, by have := h 0; have := (y 0).isLt; exact Nat.lt_of_lt_of_le (Nat.add_lt_add_left this _) (h 0)⟩) := by
  rw [View.read_apply]
  refine congrArg iv (funext fun a => ?_)
  match a with
  | ⟨0, _⟩ => exact Fin.ext (by show off 0 + 1 * (y 0).val = off 0 + (y 0).val; omega)

omit [FloatOps F] in
/-- The gather's payload at an index: row `x 0` of the scratch receives the table's row named by entry `off + x 0` of
    the index list, when the index scratch was filled with the 256 entries from `off`. -/
theorem gather_apply (hin : ∀ e, (iv e).toNat < 32768)
    (c : Thread nD τ) (sI : Memref sig c.2.kind .vmem S256 .i32) (fI : Buf (Elt F) (sI.view.loc c))
    (off : Fin 1 → Nat) (h : ∀ a, off a + S256.size a ≤ S524288.size a) (hs) (h7) (h8)
    (hg : S32768x128.Gathers 0 S256x128) (hn : S256.numel = S256x128.size hg.axis')
    (hinI : ∀ x, ((sI.view.read (Elt F) (sI.view.write (Elt F) fI
      (ReadAs.same.apply (((idxV).slice (Rect.unit (s := S524288) off S256.size h) hs).view.read (Elt F) iv)) Finset.univ)) x).toNat
        < S32768x128.size hg.axis)
    (x : S256x128.Idx) :
    SparseCore.gatherPayload hg (((tblV).slice (Rect.unit (s := S32768x128) ![0, 0] S32768x128.size h7) h8).view.read (Elt F) tv)
        (SparseCore.rows (sI.view.read (Elt F) (sI.view.write (Elt F) fI
          (ReadAs.same.apply (((idxV).slice (Rect.unit (s := S524288) off S256.size h) hs).view.read (Elt F) iv)) Finset.univ)) hn hinI) x
      = tv (ix2 (rowOf (iv (ix1 ⟨off 0 + (x 0).val, by
          have := h 0; have := idx2_lt0 (n0 := 256) (n1 := 128) x
          exact Nat.lt_of_lt_of_le (Nat.add_lt_add_left this _) (h 0)⟩))) (x 1)) := by
  unfold SparseCore.gatherPayload
  rw [View.read_apply]
  refine congrArg tv (funext fun a => ?_)
  have hy0 : ((S256.rowMajor.symm ((x hg.axis').cast hn.symm)) 0).val = (x 0).val := by
    have e := Shape.rowMajor_val_one (d := ![256]) (S256.rowMajor.symm ((x hg.axis').cast hn.symm))
    rw [Equiv.apply_symm_apply] at e
    exact e.symm
  match a with
  | ⟨0, _⟩ =>
    apply Fin.ext
    show 0 + 1 * (hg.idx _ x hg.axis).val = _
    rw [Shape.Gathers.idx_axis]
    show 0 + 1 * ((sI.view.read (Elt F) (sI.view.write (Elt F) fI (ReadAs.same.apply
      (((idxV).slice (Rect.unit (s := S524288) off S256.size h) hs).view.read (Elt F) iv)) Finset.univ))
        (S256.rowMajor.symm ((x hg.axis').cast hn.symm))).toNat = (iv (ix1 ⟨off 0 + (x 0).val, _⟩)).toNat % 32768
    rw [View.read_write_univ, ReadAs.apply_same, idxPiece_read, Nat.mod_eq_of_lt (hin _), Nat.zero_add, Nat.one_mul]
    exact congrArg (fun n : Fin 524288 => (iv (ix1 n)).toNat) (Fin.ext (by show off 0 + _ = off 0 + _; rw [hy0]))
  | ⟨1, _⟩ =>
    apply Fin.ext
    show 0 + 1 * (hg.idx _ x ⟨1, by decide⟩).val = (x 1).val
    rw [Shape.Gathers.idx_of_ne hg _ x ⟨1, by decide⟩ (by decide), Nat.zero_add, Nat.one_mul]
    rfl

end Value

/-! ## What a trip leaves in one 256-row piece of the result -/

section Piece

variable (d : Dev nD) (tv : Buf (Elt F) (tblLoc d)) (iv : Buf (Elt F) (idxLoc d))

omit [FloatOps F] in
/-- A row scratch written whole with `p`, copied whole onto a 256-row piece of the result: the piece's element under `x`
    holds `p x`. -/
theorem out_piece_apply (c : Thread nD τ) (sR : Memref sig c.2.kind .vmem S256x128 .f32) (fR : Buf (Elt F) (sR.view.loc c))
    (p : S256x128.Idx → Elt F .f32) (off : Fin 2 → Nat) (h : ∀ a, off a + S256x128.size a ≤ S65536x128.size a) (hs)
    (g : Buf (Elt F) (outLoc qC d)) (x : S256x128.Idx) :
    (((outV).slice (Rect.unit (s := S65536x128) off S256x128.size h) hs).view.writes (Elt F) g
        [⟨Rect.whole S256x128, ReadAs.same.apply (sR.view.read (Elt F) (sR.view.writes (Elt F) fR [⟨Rect.whole S256x128, p⟩]))⟩])
      (((outV).slice (Rect.unit (s := S65536x128) off S256x128.size h) hs).view.emb x) = p x := by
  have e1 := congrFun (View.read_writes_whole ((outV).slice (Rect.unit (s := S65536x128) off S256x128.size h) hs).view g
    (ReadAs.same.apply (sR.view.read (Elt F) (sR.view.writes (Elt F) fR [⟨Rect.whole S256x128, p⟩])))) x
  rw [View.read_apply] at e1
  refine (show _ = _ from e1).trans ?_
  rw [ReadAs.apply_same]
  exact congrFun (View.read_writes_whole sR.view fR p) x

omit [FloatOps F] in
/-- The gathered result at the element of a piece under `x`, when the index piece starts `65536 qC` entries beyond the
    row the piece starts at (call `qC`'s share of the index list). -/
theorem gathered_emb (off1 : Fin 1 → Nat) (off : Fin 2 → Nat) (h : ∀ a, off a + S256x128.size a ≤ S65536x128.size a) (hs)
    (e0 : off1 0 = (qC : Fin 8).val * 65536 + off 0) (e1 : off 1 = 0) (x : S256x128.Idx) (hlt : off1 0 + (x 0).val < 524288) :
    gathered tv iv qC (((outV).slice (Rect.unit (s := S65536x128) off S256x128.size h) hs).view.emb x)
      = tv (ix2 (rowOf (iv (ix1 ⟨off1 0 + (x 0).val, hlt⟩))) (x 1)) := by
  obtain ⟨j, hj⟩ : ∃ j : S65536x128.Idx, j = ((outV).slice (Rect.unit (s := S65536x128) off S256x128.size h) hs).view.emb x := ⟨_, rfl⟩
  have j0 : (j 0).val = off 0 + 1 * (x 0).val := by rw [hj]; rfl
  have j1 : (j 1).val = off 1 + 1 * (x 1).val := by rw [hj]; rfl
  rw [← hj]
  unfold gathered
  have a : ∀ hb, (⟨(qC : Fin 8).val * 65536 + (j 0).val, hb⟩ : Fin 524288) = ⟨off1 0 + (x 0).val, hlt⟩ := fun _ =>
    Fin.ext (by show (qC : Fin 8).val * 65536 + (j 0).val = off1 0 + (x 0).val; rw [j0, e0]; omega)
  have b : j 1 = x 1 := Fin.ext (by rw [j1, e1]; omega)
  rw [a, b]

omit [FloatOps F] in
/-- After a trip's gather and copy-out, every element of the 256-row piece holds the gathered result. -/
theorem piece_gathered (hin : ∀ e, (iv e).toNat < 32768)
    (c : Thread nD τ) (sI : Memref sig c.2.kind .vmem S256 .i32) (fI : Buf (Elt F) (sI.view.loc c))
    (sR : Memref sig c.2.kind .vmem S256x128 .f32) (fR : Buf (Elt F) (sR.view.loc c))
    (off1 : Fin 1 → Nat) (h1 : ∀ a, off1 a + S256.size a ≤ S524288.size a) (hs1) (h7) (h8)
    (hg : S32768x128.Gathers 0 S256x128) (hn : S256.numel = S256x128.size hg.axis')
    (hinI : ∀ x, ((sI.view.read (Elt F) (sI.view.write (Elt F) fI
      (ReadAs.same.apply (((idxV).slice (Rect.unit (s := S524288) off1 S256.size h1) hs1).view.read (Elt F) iv)) Finset.univ)) x).toNat
        < S32768x128.size hg.axis)
    (off : Fin 2 → Nat) (h : ∀ a, off a + S256x128.size a ≤ S65536x128.size a) (hs) (e0 : off1 0 = (qC : Fin 8).val * 65536 + off 0) (e1 : off 1 = 0)
    (g : Buf (Elt F) (outLoc qC d)) (j : S65536x128.Idx)
    (hj : j ∈ ((outV).slice (Rect.unit (s := S65536x128) off S256x128.size h) hs).view.set) :
    (((outV).slice (Rect.unit (s := S65536x128) off S256x128.size h) hs).view.writes (Elt F) g
        [⟨Rect.whole S256x128, ReadAs.same.apply (sR.view.read (Elt F) (sR.view.writes (Elt F) fR [⟨Rect.whole S256x128,
          SparseCore.gatherPayload hg (((tblV).slice (Rect.unit (s := S32768x128) ![0, 0] S32768x128.size h7) h8).view.read (Elt F) tv)
            (SparseCore.rows (sI.view.read (Elt F) (sI.view.write (Elt F) fI
              (ReadAs.same.apply (((idxV).slice (Rect.unit (s := S524288) off1 S256.size h1) hs1).view.read (Elt F) iv)) Finset.univ)) hn hinI)⟩]))⟩]) j
      = gathered tv iv qC j := by
  obtain ⟨x, -, rfl⟩ := Finset.mem_map.mp hj
  rw [out_piece_apply, gather_apply d tv iv hin, gathered_emb d tv iv off1 off h hs e0 e1]

end Piece

/-! ## The tile's rows and the pieces a trip writes -/

section Geometry

omit [FloatOps F] in
/-- Worker `w`'s rows of the result array are rows `[2048 w, 2048 w + 2048)`. -/
theorem mem_rowsSet (w : Fin 32) (j : S65536x128.Idx) :
    j ∈ rowsSet w ↔ 2048 * w.val ≤ (j 0).val ∧ (j 0).val < 2048 * w.val + 2048 := by
  unfold rowsSet rowsRect
  rw [View.set_slice_whole, Rect.mem_set_unit]
  have h1 := idx2_lt1 (n0 := 65536) (n1 := 128) j
  constructor
  · intro H
    have H0 : w.val * 2048 ≤ (j 0).val ∧ (j 0).val < w.val * 2048 + 2048 := H 0
    omega
  · intro H a
    match a with
    | ⟨0, _⟩ => show w.val * 2048 ≤ (j 0).val ∧ (j 0).val < w.val * 2048 + 2048; omega
    | ⟨1, _⟩ => show 0 * 128 ≤ (j 1).val ∧ (j 1).val < 0 * 128 + 128; omega

omit [FloatOps F] in
/-- A 256-row piece of the result array at row offset `off 0` (all 128 columns). -/
theorem mem_piece (off : Fin 2 → Nat) (h : ∀ a, off a + S256x128.size a ≤ S65536x128.size a) (hs) (j : S65536x128.Idx) :
    j ∈ ((outV).slice (Rect.unit (s := S65536x128) off S256x128.size h) hs).view.set
      ↔ (off 0 ≤ (j 0).val ∧ (j 0).val < off 0 + 256) ∧ (off 1 ≤ (j 1).val ∧ (j 1).val < off 1 + 128) := by
  show j ∈ ((View.whole main_v38_scv).slice (Rect.unit (s := S65536x128) off S256x128.size h)).set ↔ _
  rw [View.set_slice_whole, Rect.mem_set_unit]
  constructor
  · intro H; exact ⟨H 0, H 1⟩
  · rintro ⟨h0, h1⟩ a
    match a with
    | ⟨0, _⟩ => exact h0
    | ⟨1, _⟩ => exact h1

end Geometry

/-! ## Joining a trip's pieces back into the tile's rows -/

section Join

variable (d : Dev nD) (tv : Buf (Elt F) (tblLoc d)) (iv : Buf (Elt F) (idxLoc d))

/-- The rows of worker `w` below trip `k` (512 rows a trip) hold the gathered rows. -/
def doneBelow (w : Fin 32) (k : Nat) (g : Buf (Elt F) (outLoc qC d)) : Prop :=
  ∀ j ∈ rowsSet w, (j 0).val < 2048 * w.val + 512 * k → g j = gathered tv iv qC j

omit [FloatOps F] in
theorem doneBelow_zero (w : Fin 32) (g : Buf (Elt F) (outLoc qC d)) : doneBelow d tv iv w 0 g := by
  intro j hj hlt
  have := (mem_rowsSet w j).mp hj
  omega

omit [FloatOps F] in
theorem doneBelow_four (w : Fin 32) (g : Buf (Elt F) (outLoc qC d)) (h : doneBelow d tv iv w 4 g) :
    ∀ j ∈ rowsSet w, g j = gathered tv iv qC j := by
  intro j hj
  have := (mem_rowsSet w j).mp hj
  exact h j hj (by omega)

omit [FloatOps F] in
/-- A trip's first piece lies in the worker's rows; -/
theorem piece_subset (w : Fin 32) (k e : Nat) (he : e = 2048 * w.val + 512 * k) (hk : k < 4)
    (off : Fin 2 → Nat) (h : ∀ a, off a + S256x128.size a ≤ S65536x128.size a) (hs)
    (e0 : off 0 = e ∨ off 0 = e + 256) (e1 : off 1 = 0) :
    ((outV).slice (Rect.unit (s := S65536x128) off S256x128.size h) hs).view.set ⊆ rowsSet w := by
  intro j hj
  have := (mem_piece off h hs j).mp hj
  exact (mem_rowsSet w j).mpr (by omega)

omit [FloatOps F] in
/-- its second piece lies in them off the first. -/
theorem piece_subset_sdiff (w : Fin 32) (k e : Nat) (he : e = 2048 * w.val + 512 * k) (hk : k < 4)
    (off3 off4 : Fin 2 → Nat) (h3 : ∀ a, off3 a + S256x128.size a ≤ S65536x128.size a) (hs3)
    (h4 : ∀ a, off4 a + S256x128.size a ≤ S65536x128.size a) (hs4)
    (e30 : off3 0 = e) (e40 : off4 0 = e + 256) (e41 : off4 1 = 0) :
    ((outV).slice (Rect.unit (s := S65536x128) off4 S256x128.size h4) hs4).view.set
      ⊆ rowsSet w \ ((outV).slice (Rect.unit (s := S65536x128) off3 S256x128.size h3) hs3).view.set := by
  intro j hj
  have h4' := (mem_piece off4 h4 hs4 j).mp hj
  refine Finset.mem_sdiff.mpr ⟨(mem_rowsSet w j).mpr (by omega), fun hj3 => ?_⟩
  have h3' := (mem_piece off3 h3 hs3 j).mp hj3
  omega

omit [FloatOps F] in
/-- Two carved-out pieces put back at new contents. -/
theorem rejoin_two {ℓ : Loc nD τ sig} (R P3 P4 : Finset (Idx ℓ)) (hsub3 : P3 ⊆ R) (hsub4 : P4 ⊆ R \ P3) (g g3 g4 : Buf (Elt F) ℓ) :
    (iprop((ℓ ↦[P3]{fullShare} g3) ∗ (ℓ ↦[P4]{fullShare} g4) ∗ (ℓ ↦[(R \ P3) \ P4]{fullShare} g)) : sProp 𝕄)
      ⊢ ℓ ↦[R]{fullShare} (P3.piecewise g3 (P4.piecewise g4 g)) := by
  iintro ⟨H3, H4, Hr⟩
  iapply (pointsTo_join_subset (ℓ := ℓ) (q := fullShare) (I := P3) (S := R) (g := g3) (f := P4.piecewise g4 g) hsub3)
  isplitl [H3]; · iexact H3
  iapply (pointsTo_join_subset (ℓ := ℓ) (q := fullShare) (I := P4) (S := R \ P3) (g := g4) (f := g) hsub4)
  isplitl [H4]; · iexact H4
  iexact Hr

omit [FloatOps F] in
/-- Two pieces each holding the gathered rows, the rest as before, when the two pieces are all of the worker's rows
    from trip `k` up to trip `k + 1`: the rows below trip `k + 1` hold the gathered rows. -/
theorem doneBelow_step (w : Fin 32) (k : Nat) (P3 P4 : Finset (Idx (outLoc qC d)))
    (g g3 g4 : Buf (Elt F) (outLoc qC d)) (hg : doneBelow d tv iv w k g)
    (hg3 : ∀ j ∈ P3, g3 j = gathered tv iv qC j) (hg4 : ∀ j ∈ P4, g4 j = gathered tv iv qC j)
    (hcov : ∀ j : S65536x128.Idx, j ∈ rowsSet w → (j 0).val < 2048 * w.val + 512 * (k + 1) → j ∉ P3 → j ∉ P4 →
      (j 0).val < 2048 * w.val + 512 * k) :
    doneBelow d tv iv w (k + 1) (P3.piecewise g3 (P4.piecewise g4 g)) := by
  intro j hj hlt
  by_cases hj3 : j ∈ P3
  · exact (Finset.piecewise_eq_of_mem P3 g3 _ hj3).trans (hg3 j hj3)
  · refine (Finset.piecewise_eq_of_notMem P3 g3 _ hj3).trans ?_
    by_cases hj4 : j ∈ P4
    · exact (Finset.piecewise_eq_of_mem P4 g4 _ hj4).trans (hg4 j hj4)
    · exact (Finset.piecewise_eq_of_notMem P4 g4 _ hj4).trans (hg j hj (hcov j hj hlt hj3 hj4))

omit [FloatOps F] in
/-- The cover fact for a trip's two pieces. -/
theorem trip_cover (w : Fin 32) (k e : Nat) (he : e = 2048 * w.val + 512 * k)
    (off3 off4 : Fin 2 → Nat) (h3 : ∀ a, off3 a + S256x128.size a ≤ S65536x128.size a) (hs3)
    (h4 : ∀ a, off4 a + S256x128.size a ≤ S65536x128.size a) (hs4)
    (e30 : off3 0 = e) (e31 : off3 1 = 0) (e40 : off4 0 = e + 256) (e41 : off4 1 = 0) :
    ∀ j : S65536x128.Idx, j ∈ rowsSet w → (j 0).val < 2048 * w.val + 512 * (k + 1) →
      j ∉ ((outV).slice (Rect.unit (s := S65536x128) off3 S256x128.size h3) hs3).view.set →
      j ∉ ((outV).slice (Rect.unit (s := S65536x128) off4 S256x128.size h4) hs4).view.set →
      (j 0).val < 2048 * w.val + 512 * k := by
  intro j hj hlt hj3 hj4
  have hr := (mem_rowsSet w j).mp hj
  have n3 := mt (mem_piece off3 h3 hs3 j).mpr hj3
  have n4 := mt (mem_piece off4 h4 hs4 j).mpr hj4
  have := idx2_lt1 (n0 := 65536) (n1 := 128) j
  omega

end Join

end Cert.Proof.KW.C2

end
-- ==== Proof.Tile2W.lean ====
/-
  One vector subcore's task in gather call 2, at a symbolic tile. Worker `w = 2 s + c` (subcore `s` of SparseCore `c`)
  fills rows `[2048 w, 2048 w + 2048)` of the result in four trips of 512 rows. A trip copies two 256-entry pieces of the
  index list into the two index scratches, starts one indirect gather of table rows per scratch, and copies each gathered
  256 x 128 block out to its rows of the result; every transfer has its own semaphore and is waited for before the next
  one on that semaphore starts. The loop's invariant carries the value: the worker's rows below the current trip already
  hold row `r ↦ table[index[r]]`; each trip extends this by its 512 rows, and after four trips it is all 2048 rows.
-/
import proofs.«214101_g10505490006249_cont_week2b_118_28_alg».proof.Proof.TileAux2W

noncomputable section

namespace Cert.Proof.KW.C2

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 8) (Elt F) ℕ UU ℕ

variable [FloatOps F]

/-! ## The body -/

section Body

variable (d : Dev nD) (L : grid4.Coords)

/-- The worker number of the tile at grid point `L`. -/
abbrev wL (L : grid4.Coords) : Fin 32 := wid (cV L) (jV L)

/-! ### Call 2: the trips' offsets

The only facts about this call's printed offset functions that the body uses, read off their generated closed forms:
trip `k` of the tile at `L` works on rows `rowE L k` and `rowE L k + 256` of the result, and on the index entries
`65536 qC` beyond them. -/

/-- The first row of the result that trip `k` of the tile at `L` writes. -/
def rowE (L : grid4.Coords) (k : Fin k4_t1_loop.trips) : Nat := 4096 * (L 1).val + 2048 * (L 0).val + 512 * k.val

theorem rowE_eq (k : Fin k4_t1_loop.trips) : rowE L k = 2048 * (wL L).val + 512 * k.val := by
  have hwv : (wL L).val = (L 1).val * 2 + (L 0).val := rfl
  unfold rowE; rw [hwv]; omega
theorem trips_eq : Scf.trips k4_t1_loop.lb k4_t1_loop.ub k4_t1_loop.st = 4 := by decide
theorem trip_lt (k : Fin k4_t1_loop.trips) : k.val < 4 := Nat.lt_of_lt_of_le k.isLt k4_t1_abs.2.1
theorem offI0 (k : Fin k4_t1_loop.trips) : k4_off1 L k 0 = (qC : Fin 8).val * 65536 + rowE L k := by
  have h : k4_off1 L k 0 = 4096 * (L 1).val + 2048 * (L 0).val + 512 * k.val + 131072 := congrFun (k4_off1_eq L k) 0
  rw [qC_val, h]; unfold rowE; omega
theorem offI1 (k : Fin k4_t1_loop.trips) : k4_off2 L k 0 = (qC : Fin 8).val * 65536 + (rowE L k + 256) := by
  have h : k4_off2 L k 0 = 4096 * (L 1).val + 2048 * (L 0).val + 512 * k.val + 131328 := congrFun (k4_off2_eq L k) 0
  rw [qC_val, h]; unfold rowE; omega
theorem offO0 (k : Fin k4_t1_loop.trips) : k4_off3 L k 0 = rowE L k := congrFun (k4_off3_eq L k) 0
theorem offO0' (k : Fin k4_t1_loop.trips) : k4_off3 L k 1 = 0 := congrFun (k4_off3_eq L k) 1
theorem offO1 (k : Fin k4_t1_loop.trips) : k4_off4 L k 0 = rowE L k + 256 := congrFun (k4_off4_eq L k) 0
theorem offO1' (k : Fin k4_t1_loop.trips) : k4_off4 L k 1 = 0 := congrFun (k4_off4_eq L k) 1

omit [FloatOps F] in
theorem pts_tbl (q : PosShare TreeShare) (f : Buf (Elt F) (tblLoc d)) :
    ((tblV).view.loc (thrV d L) ↦{q} f : sProp 𝕄) = tblLoc d ↦{q} f := by
  simp only [Memref.view_whole, View.set_whole]
omit [FloatOps F] in
theorem pts_idx (q : PosShare TreeShare) (f : Buf (Elt F) (idxLoc d)) :
    ((idxV).view.loc (thrV d L) ↦{q} f : sProp 𝕄) = idxLoc d ↦{q} f := by
  simp only [Memref.view_whole, View.set_whole]

omit [FloatOps F] in
theorem pts_s0 (f : Buf (Elt F) ((thrV d L).loc cc4_scratch0)) :
    ((thrV d L).loc cc4_scratch0 ↦{fullShare} f : sProp 𝕄) = ((sI0).view.loc (thrV d L) ↦{fullShare} f) := rfl
omit [FloatOps F] in
theorem pts_s1 (f : Buf (Elt F) ((thrV d L).loc cc4_scratch1)) :
    ((thrV d L).loc cc4_scratch1 ↦{fullShare} f : sProp 𝕄) = ((sI1).view.loc (thrV d L) ↦{fullShare} f) := rfl
omit [FloatOps F] in
theorem pts_s2 (f : Buf (Elt F) ((thrV d L).loc cc4_scratch2)) :
    ((thrV d L).loc cc4_scratch2 ↦{fullShare} f : sProp 𝕄) = ((sR0).view.loc (thrV d L) ↦{fullShare} f) := rfl
omit [FloatOps F] in
theorem pts_s3 (f : Buf (Elt F) ((thrV d L).loc cc4_scratch3)) :
    ((thrV d L).loc cc4_scratch3 ↦{fullShare} f : sProp 𝕄) = ((sR1).view.loc (thrV d L) ↦{fullShare} f) := rfl

/-- The two 256-row pieces of the result array that trip `k` writes, as the program slices them. -/
abbrev o3 (k : Fin k4_t1_loop.trips) : Memref sig .scVector .hbm S256x128 .f32 :=
  outV.slice (Rect.unit (s := S65536x128) (k4_off3 L k) S256x128.size (k4_off3_inb L k)) (fun _ => rfl)
abbrev o4 (k : Fin k4_t1_loop.trips) : Memref sig .scVector .hbm S256x128 .f32 :=
  outV.slice (Rect.unit (s := S65536x128) (k4_off4 L k) S256x128.size (k4_off4_inb L k)) (fun _ => rfl)

/-- The loop's invariant: the table and the index list at their read shares, the tile's rows of the result with the
    rows below the trip gathered, the four scratches at some contents, the six semaphores at zero, and what the tile owes. -/
def inv (qs : PosShare TreeShare) (tv : Buf (Elt F) (tblLoc d)) (iv : Buf (Elt F) (idxLoc d))
    (O : CellTallies nD τ sig (HIx 8)) (W : Waits sig (HIx 8)) (k : Nat) (_ : PUnit) : sProp 𝕄 :=
  iprop(Transfers.MayWaits (thrV d L) (none : HIx 8) O
    ∗ ((tblV).view.loc (thrV d L) ↦{qs} tv)
    ∗ ((idxV).view.loc (thrV d L) ↦{qs} iv)
    ∗ (∃ g, ⌜doneBelow d tv iv (wL L) k g⌝ ∗ outLoc qC d ↦[rowsSet (wL L)]{fullShare} g)
    ∗ (∃ f, (sI0).view.loc (thrV d L) ↦{fullShare} f)
    ∗ (∃ f, (sI1).view.loc (thrV d L) ↦{fullShare} f)
    ∗ (∃ f, (sR0).view.loc (thrV d L) ↦{fullShare} f)
    ∗ (∃ f, (sR1).view.loc (thrV d L) ↦{fullShare} f)
    ∗ semVal (cell d L cc4_scratch4) 0 ∗ semVal (cell d L cc4_scratch5) 0 ∗ semVal (cell d L cc4_scratch6) 0
    ∗ semVal (cell d L cc4_scratch7) 0 ∗ semVal (cell d L cc4_scoped0) 0 ∗ semVal (cell d L cc4_scoped1) 0
    ∗ ∃ W', ⌜∀ p ∈ W', p ∈ W ∨ p.2 = none⌝ ∗ owes (thrV d L) O W')

omit [FloatOps F] in
/-- Whatever an index scratch held before, after a 256-entry piece of the index list is copied into it every word it
    holds names a row of the table. -/
theorem idx_inb (iv : Buf (Elt F) (idxLoc d)) (hin : ∀ e, (iv e).toNat < 32768)
    (c : Thread nD τ) (m : Memref sig c.2.kind .vmem S256 .i32) (f : Buf (Elt F) (m.view.loc c))
    (off : Fin 1 → Nat) (h : ∀ a, off a + S256.size a ≤ S524288.size a) (hs) (x : S256.Idx) :
    (m.view.read (Elt F) (m.view.write (Elt F) f
      (ReadAs.same.apply (((idxV).slice (Rect.unit (s := S524288) off S256.size h) hs).view.read (Elt F) iv)) Finset.univ) x).toNat < 32768 := by
  rw [View.read_write_univ, ReadAs.apply_same, View.read_apply]
  exact hin _
set_option maxHeartbeats 2000000 in
theorem tile_body (qs : PosShare TreeShare) (tv : Buf (Elt F) (tblLoc d)) (iv : Buf (Elt F) (idxLoc d))
    (hin : ∀ e, (iv e).toNat < 32768) (O : CellTallies nD τ sig (HIx 8)) (W : Waits sig (HIx 8)) (hO : ∀ g, O g none = 0) :
    (iprop(levAts (K (F := F)).L (K (F := F)).lev ∗ emp
        ∗ ((tblLoc d ↦{qs} tv) ∗ (idxLoc d ↦{qs} iv) ∗ ∃ f, outLoc qC d ↦[rowsSet (wL L)]{fullShare} f)
        ∗ scopedBufs (thrV d L) ∗ scopedSems0 (thrV d L) ∗ owes (thrV d L) O W) : sProp 𝕄)
      ⊢ wp frame (wpE (defs₀ (F := F)) 𝒱₀ (thrV d L) none) Set.univ
          (cc4_gather_kernel L tblV (Memref.isWhole_whole _) idxV (Memref.isWhole_whole _) outV (Memref.isWhole_whole _)
            sI0 (Memref.isWhole_whole _) sI1 (Memref.isWhole_whole _) sR0 (Memref.isWhole_whole _) sR1 (Memref.isWhole_whole _)
            cc4_scratch4 cc4_scratch5 cc4_scratch6 cc4_scratch7 cc4_scoped0 cc4_scoped1)
          fun _ => iprop(((tblLoc d ↦{qs} tv) ∗ (idxLoc d ↦{qs} iv) ∗ outLoc qC d ↦[rowsSet (wL L)]{fullShare} gathered tv iv qC)
            ∗ scopedBufs (thrV d L) ∗ scopedSems0 (thrV d L) ∗ ∃ W', ⌜∀ p ∈ W', p ∈ W ∨ p.2 = none⌝ ∗ owes (thrV d L) O W') := by
  simp only [cc4_gather_kernel_eq_skeleton]; unfold cc4_gather_kernel_skel
  rw [(K (F := F)).scopedBufs_V facts d (cV L) (jV L), SparseCore.Cfg.scopedSems0_V (Val := Elt F) d (cV L) (jV L), ownSems0_V, ownBufs_V]
  iintro ⟨#Hlv, -, ⟨Ht, Hi, %fo, Ho⟩, ⟨⟨%f0, Hb0⟩, ⟨%f1, Hb1⟩, ⟨%f2, Hb2⟩, ⟨%f3, Hb3⟩, Hbufs⟩, ⟨Hs4, Hs5, Hs6, Hs7, Hs8, Hs9, Hsems⟩, HO⟩
  ihave Hmw := ((K (F := F)).mayWaits_none (thr := thrV d L) hO) $$ Hlv
  ihave Ht' := (Entails.of_eq (pts_tbl (F := F) d L _ _).symm) $$ Ht
  ihave Hi' := (Entails.of_eq (pts_idx (F := F) d L _ _).symm) $$ Hi
  ihave Hb0' := (Entails.of_eq (pts_s0 (F := F) d L f0)) $$ Hb0
  ihave Hb1' := (Entails.of_eq (pts_s1 (F := F) d L f1)) $$ Hb1
  ihave Hb2' := (Entails.of_eq (pts_s2 (F := F) d L f2)) $$ Hb2
  ihave Hb3' := (Entails.of_eq (pts_s3 (F := F) d L f3)) $$ Hb3
  sl_exec
  sl_for (inv d L qs tv iv O W) $$ [Hmw Ht' Hi' Ho Hb0' Hb1' Hb2' Hb3' Hs4 Hs5 Hs6 Hs7 Hs8 Hs9 HO]
  case region =>
    intro k _
    unfold inv
    iintro ⟨Hmw, Ht, Hi, ⟨%g, %hg, Ho⟩, ⟨%f0, Hb0⟩, ⟨%f1, Hb1⟩, ⟨%f2, Hb2⟩, ⟨%f3, Hb3⟩, Hs4, Hs5, Hs6, Hs7, Hs8, Hs9, %W', %hW', HO⟩
    -- the trip's offsets: the row pieces start at rows `rowE` and `rowE + 256`, the index pieces `65536 qC` entries beyond
    have o30 := offO0 L k
    have o31 := offO0' L k
    have o40 := offO1 L k
    have o41 := offO1' L k
    have hE := rowE_eq L k
    have hk := trip_lt k
    have e13 : k4_off1 L k 0 = (qC : Fin 8).val * 65536 + k4_off3 L k 0 := by rw [offI0, o30]
    have e24 : k4_off2 L k 0 = (qC : Fin 8).val * 65536 + k4_off4 L k 0 := by rw [offI1, o40]
    have hsub3 : (o3 L k).view.set ⊆ rowsSet (wL L) :=
      piece_subset (wL L) k.val _ hE hk (k4_off3 L k) (k4_off3_inb L k) (fun _ => rfl) (.inl o30) o31
    have hsub4 : (o4 L k).view.set ⊆ rowsSet (wL L) \ (o3 L k).view.set :=
      piece_subset_sdiff (wL L) k.val _ hE hk (k4_off3 L k) (k4_off4 L k) (k4_off3_inb L k) (fun _ => rfl) (k4_off4_inb L k) (fun _ => rfl) o30 o40 o41
    ihave Ho' := (pointsTo_split_subset (ℓ := outLoc qC d) (q := fullShare) (f := g) (I := (o3 L k).view.set) (S := rowsSet (wL L)) hsub3).1 $$ Ho
    icases Ho' with ⟨Ho3, Hor⟩
    ihave Hor' := (pointsTo_split_subset (ℓ := outLoc qC d) (q := fullShare) (f := g) (I := (o4 L k).view.set) (S := rowsSet (wL L) \ (o3 L k).view.set) hsub4).1 $$ Hor
    icases Hor' with ⟨Ho4, Hor⟩
    ihave Ho3' := (Entails.of_eq (show (outLoc qC d ↦[(o3 L k).view.set]{fullShare} g : sProp 𝕄) = ((o3 L k).view.loc (thrV d L) ↦[(o3 L k).view.set]{fullShare} g) from rfl)) $$ Ho3
    ihave Ho4' := (Entails.of_eq (show (outLoc qC d ↦[(o4 L k).view.set]{fullShare} g : sProp 𝕄) = ((o4 L k).view.loc (thrV d L) ↦[(o4 L k).view.set]{fullShare} g) from rfl)) $$ Ho4
    -- the words each index scratch holds once its piece of the list has landed name rows of the table
    have hin0 : ∀ x : S256.Idx, ((sI0).view.read (Elt F) ((sI0).view.write (Elt F) f0 (ReadAs.same.apply (((idxV).slice
        (Rect.unit (s := S524288) (k4_off1 L k) S256.size (k4_off1_inb L k)) (fun _ => rfl)).view.read (Elt F) iv)) Finset.univ) x).toNat < 32768 :=
      idx_inb (F := F) d iv hin (thrV d L) sI0 f0 _ _ _
    have hin1 : ∀ x : S256.Idx, ((sI1).view.read (Elt F) ((sI1).view.write (Elt F) f1 (ReadAs.same.apply (((idxV).slice
        (Rect.unit (s := S524288) (k4_off2 L k) S256.size (k4_off2_inb L k)) (fun _ => rfl)).view.read (Elt F) iv)) Finset.univ) x).toNat < 32768 :=
      idx_inb (F := F) d iv hin (thrV d L) sI1 f1 _ _ _
    -- both gathers read the table while the other is outstanding: a read share each
    ihave Ht2 := (pointsTo_share (ℓ := (tblV).view.loc (thrV d L)) (I := Finset.univ) (f := tv) (PosShare.mem_left_op_right qs)).1 $$ Ht
    icases Ht2 with ⟨Hta, Htb⟩
    -- what the two copy-outs leave in their pieces is the gathered rows
    have hgth : S32768x128.Gathers 0 S256x128 := by decide
    have hg3 := fun j hj => piece_gathered (F := F) d tv iv hin (thrV d L) sI0 f0 sR0 f2 (k4_off1 L k) (k4_off1_inb L k) (fun _ => rfl)
      inb_S32768x128_S32768x128_0_0 (fun _ => rfl) hgth rfl hin0 (k4_off3 L k) (k4_off3_inb L k) (fun _ => rfl) e13 o31 g j hj
    have hg4 := fun j hj => piece_gathered (F := F) d tv iv hin (thrV d L) sI1 f1 sR1 f3 (k4_off2 L k) (k4_off2_inb L k) (fun _ => rfl)
      inb_S32768x128_S32768x128_0_0 (fun _ => rfl) hgth rfl hin1 (k4_off4 L k) (k4_off4_inb L k) (fun _ => rfl) e24 o41 g j hj
    sl_exec
    sl_step
    isplitl [Hmw]; · iexact Hmw
    isplitl [Hta Htb]
    · iapply (pointsTo_share (ℓ := (tblV).view.loc (thrV d L)) (I := Finset.univ) (f := tv) (PosShare.mem_left_op_right qs)).2
      isplitl [Hta]; · iexact Hta
      iexact Htb
    isplitl [Hi]; · iexact Hi
    isplitl [Ho3' Ho4' Hor]
    · ihave Hj := (rejoin_two (F := F) (ℓ := outLoc qC d) (rowsSet (wL L)) (o3 L k).view.set (o4 L k).view.set hsub3 hsub4 g _ _) $$ [Ho3' Ho4' Hor]
      · isplitl [Ho3']; · iexact Ho3'
        isplitl [Ho4']; · iexact Ho4'
        iexact Hor
      iexists _
      isplitr
      · ipureintro
        exact doneBelow_step (F := F) d tv iv (wL L) k.val (o3 L k).view.set (o4 L k).view.set g _ _ hg hg3 hg4
          (trip_cover (wL L) k.val _ hE (k4_off3 L k) (k4_off4 L k) (k4_off3_inb L k) (fun _ => rfl) (k4_off4_inb L k) (fun _ => rfl) o30 o31 o40 o41)
      · iexact Hj
    isplitl [Hb0]; · iexists _; iexact Hb0
    isplitl [Hb1]; · iexists _; iexact Hb1
    isplitl [Hb2]; · iexists _; iexact Hb2
    isplitl [Hb3]; · iexists _; iexact Hb3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    iexists _; isplitr
    swap
    · iexact HO
    · ipureintro; intro p hp
      simp only [Finset.mem_insert] at hp
      rcases hp with rfl | rfl | rfl | rfl | rfl | rfl | hp
      · exact .inr rfl
      · exact .inr rfl
      · exact .inr rfl
      · exact .inr rfl
      · exact .inr rfl
      · exact .inr rfl
      · exact hW' p hp
  · unfold inv
    isplitl [Hmw]; · iexact Hmw
    isplitl [Ht']; · iexact Ht'
    isplitl [Hi']; · iexact Hi'
    isplitl [Ho]
    · iexists fo; isplitr
      · ipureintro; exact doneBelow_zero d tv iv (wL L) fo
      · iexact Ho
    isplitl [Hb0']; · iexists f0; iexact Hb0'
    isplitl [Hb1']; · iexists f1; iexact Hb1'
    isplitl [Hb2']; · iexists f2; iexact Hb2'
    isplitl [Hb3']; · iexists f3; iexact Hb3'
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    iexists W; isplitr
    · ipureintro; exact fun p hp => .inl hp
    · iexact HO
  iintro %_ HI
  unfold inv
  icases HI with ⟨-, Ht, Hi, ⟨%g, %hg, Ho⟩, ⟨%f0', Hb0⟩, ⟨%f1', Hb1⟩, ⟨%f2', Hb2⟩, ⟨%f3', Hb3⟩, Hs4, Hs5, Hs6, Hs7, Hs8, Hs9, %W', %hW', HO⟩
  rw [trips_eq] at hg
  sl_exec
  sl_step
  isplitl [Ht Hi Ho]
  · isplitl [Ht]; · iapply (Entails.of_eq (pts_tbl (F := F) d L _ _)); iexact Ht
    isplitl [Hi]; · iapply (Entails.of_eq (pts_idx (F := F) d L _ _)); iexact Hi
    iapply (Entails.of_eq (pointsTo_congr (ℓ := outLoc qC d) (q := fullShare) (I := rowsSet (wL L)) (doneBelow_four d tv iv (wL L) g hg)))
    iexact Ho
  isplitl [Hb0 Hb1 Hb2 Hb3 Hbufs]
  · isplitl [Hb0]; · iexists f0'; iapply (Entails.of_eq (pts_s0 (F := F) d L f0').symm); iexact Hb0
    isplitl [Hb1]; · iexists f1'; iapply (Entails.of_eq (pts_s1 (F := F) d L f1').symm); iexact Hb1
    isplitl [Hb2]; · iexists f2'; iapply (Entails.of_eq (pts_s2 (F := F) d L f2').symm); iexact Hb2
    isplitl [Hb3]; · iexists f3'; iapply (Entails.of_eq (pts_s3 (F := F) d L f3').symm); iexact Hb3
    iexact Hbufs
  isplitl [Hs4 Hs5 Hs6 Hs7 Hs8 Hs9 Hsems]
  · isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    iexact Hsems
  iexists W'; isplitr
  · ipureintro; exact hW'
  · iexact HO

end Body

end Cert.Proof.KW.C2

end
-- ==== Proof.TileObl2W.lean ====
/-
  The launch theorem's obligation for gather call 2: a tile's task, entered through the body table, is the kernel's
  body at that tile, run on the tile's share of the table and the index list and on its worker's rows.
-/
import proofs.«214101_g10505490006249_cont_week2b_118_28_alg».proof.Proof.LaunchW
import proofs.«214101_g10505490006249_cont_week2b_118_28_alg».proof.Proof.Tile2W
import proofs.«214101_g10505490006249_cont_week2b_118_28_alg».proof.Proof.TileObl0W

noncomputable section

namespace Cert.Proof.KW.C2

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Transfers (shareTok shareDrop pointsTo_toks_split pointsTo_toks_join)

variable {F : FTy → Type}

local notation "𝕄" => MT nD τ sig (HIx 8) (Elt F) ℕ UU ℕ

variable [FloatOps F]
variable (tv : (d : Dev nD) → S32768x128.Idx → Elt F .f32) (iv : (d : Dev nD) → S524288.Idx → Elt F .i32)

/-- A tile's grid coordinates from its SparseCore and subcore numbers. -/
def coordsV (c : Fin (grid4.bound 0)) (s : Fin (grid4.bound 1)) : grid4.Coords :=
  fun | 0 => c | 1 => s | ⟨_ + 2, h⟩ => absurd h (Nat.not_lt.2 (Nat.le_add_left _ _))

theorem defs₀_vector2 (c : Fin τ.nSC) (s : Fin τ.nSub) :
    defs₀ (F := F) (.scVector c s) 4 ()
      = SparseCore.onTile hcore4 hsub4 (fun c s => cc4_gather_kernel (coordsV c s)
          tblV (Memref.isWhole_whole _) idxV (Memref.isWhole_whole _) outV (Memref.isWhole_whole _)
          sI0 (Memref.isWhole_whole _) sI1 (Memref.isWhole_whole _) sR0 (Memref.isWhole_whole _) sR1 (Memref.isWhole_whole _)
          cc4_scratch4 cc4_scratch5 cc4_scratch6 cc4_scratch7 cc4_scoped0 cc4_scoped1) ⟨⟩ c s := rfl

/-- Call 2's tile obligation. -/
theorem tileObl2 (hin : ∀ d e, (iv d e).toNat < 32768) : (K (F := F)).TileObl (D (F := F)) 𝒱 (P (F := F) tv iv) v₀ 2 := by
  intro d c i O W hO _ _
  -- the gather kernel owes nothing for a protocol of its own
  simp only [show (P (F := F) tv iv).ox = fun _ _ => 0 from rfl, add_zero]
  change _ ⊢ wp _ _ _ (Pipeline.liftProg (defs₀ (F := F) (.scVector ((K (F := F)).core 2 c) ((K (F := F)).sub 2 i)) 4 ())) _
  refine BI.Entails.trans ?_ (Pipeline.wp_liftProg (D (F := F)) (Pipeline.defs_kernel pcfgs defs₀) 𝒱₀ _ Set.univ none _ _)
  have hc : ((K (F := F)).core 2 c).val < grid4.bound 0 ∧ ((K (F := F)).sub 2 i).val < grid4.bound 1 := ⟨c.isLt, i.isLt⟩
  rw [defs₀_vector2]; simp only [SparseCore.onTile, hc, and_self, ↓reduceDIte]
  exact (tile_body d (coordsV ⟨_, hc.1⟩ ⟨_, hc.2⟩) (shT (cC 2 c) (sS 2 i)) (tv d) (iv d) (hin d) O W hO).trans (wp_mono frame _ _ fun _ => obl_post)

end Cert.Proof.KW.C2

end
-- ==== Proof.TileAux3W.lean ====
/-
  One vector subcore's share of a gather call, the pure part: how the subcore's scoped semaphores and scratch buffers are
  opened, what an indirect gather of 256 table rows delivers element by element, which elements of the result array a
  trip's two copy-outs write, and how those pieces rejoin the subcore's 2048 rows of the result.
-/
import proofs.«214101_g10505490006249_cont_week2b_118_28_alg».proof.Proof.SetupW

noncomputable section

namespace Cert.Proof.KW.C3

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 8) (Elt F) ℕ UU ℕ

/-! ## The names of gather call 3

Everything that is particular to this one of the eight gather calls is named here (and, for the trips' offsets, at the
top of the body's module): the call's number, its result array, its scratch buffers. The text below speaks of the call
only through these names and through the program's own `cc6_…` / `k6_…` names. -/

/-- The number of this gather call among the eight: it reads index entries `65536 qC + …` and fills result array `qC`. -/
abbrev qC : Fin 8 := 3
theorem qC_val : (qC : Fin 8).val = 3 := rfl

abbrev tblV : Memref sig .scVector .hbm S32768x128 .f32 := Memref.whole main_v10_scv
abbrev idxV : Memref sig .scVector .hbm S524288 .i32 := Memref.whole main_v6_scv
abbrev outV : Memref sig .scVector .hbm S65536x128 .f32 := Memref.whole main_v40_scv
abbrev sI0 : Memref sig .scVector .vmem S256 .i32 := Memref.whole cc6_scratch0
abbrev sI1 : Memref sig .scVector .vmem S256 .i32 := Memref.whole cc6_scratch1
abbrev sR0 : Memref sig .scVector .vmem S256x128 .f32 := Memref.whole cc6_scratch2
abbrev sR1 : Memref sig .scVector .vmem S256x128 .f32 := Memref.whole cc6_scratch3

abbrev cV (L : grid6.Coords) : Fin τ.nSC := (L 0).castLE hcore6
abbrev jV (L : grid6.Coords) : Fin τ.nSub := (L 1).castLE hsub6
abbrev thrV (d : Dev nD) (L : grid6.Coords) : Thread nD τ := V d (cV L) (jV L)

variable [FloatOps F]

/-! ## The tile's own semaphores and scratch buffers -/

section Own

variable (d : Dev nD) (L : grid6.Coords)

/-- The cell of one of the tile's DMA semaphores. -/
abbrev cell (sm : DmaSems sig S_) : GSem nD τ sig := (thrV d L, .dma sm.sem)

omit [FloatOps F] in
theorem cell_mem {sm : DmaSems sig S_} (h : (SemLoc.dma sm.sem : SemLoc sig).isScoped .scVector = true) :
    cell d L sm ∈ ownCells (sig := sig) (thrV d L) := (mem_ownCells (g := cell d L sm)).mpr ⟨rfl, h⟩

theorem cell_ne {a b : DmaSems sig S_} (h : (SemLoc.dma a.sem : SemLoc sig) ≠ .dma b.sem) : cell d L a ≠ cell d L b :=
  fun e => h (Prod.mk.inj e).2

/-- The tile's scoped cells other than the six the gather uses. -/
abbrev restCells : Finset (GSem nD τ sig) :=
  ((((((ownCells (thrV d L)).erase (cell d L cc6_scratch4)).erase (cell d L cc6_scratch5)).erase (cell d L cc6_scratch6)).erase
    (cell d L cc6_scratch7)).erase (cell d L cc6_scoped0)).erase (cell d L cc6_scoped1)

theorem ownSems0_V :
    (ownSems0 (thrV d L) : sProp 𝕄)
      = iprop(semVal (cell d L cc6_scratch4) 0 ∗ semVal (cell d L cc6_scratch5) 0 ∗ semVal (cell d L cc6_scratch6) 0
          ∗ semVal (cell d L cc6_scratch7) 0 ∗ semVal (cell d L cc6_scoped0) 0 ∗ semVal (cell d L cc6_scoped1) 0
          ∗ bigSep (restCells d L) fun g => semVal g 0) := by
  unfold SparseCore.Cfg.ownSems0
  have m4 := cell_mem d L (sm := cc6_scratch4) (by decide)
  have m5 := cell_mem d L (sm := cc6_scratch5) (by decide)
  have m6 := cell_mem d L (sm := cc6_scratch6) (by decide)
  have m7 := cell_mem d L (sm := cc6_scratch7) (by decide)
  have m8 := cell_mem d L (sm := cc6_scoped0) (by decide)
  have m9 := cell_mem d L (sm := cc6_scoped1) (by decide)
  rw [SparseCore.bigSep_erase' m4,
    SparseCore.bigSep_erase' (Finset.mem_erase.mpr ⟨cell_ne d L (by decide), m5⟩),
    SparseCore.bigSep_erase' (Finset.mem_erase.mpr ⟨cell_ne d L (by decide), Finset.mem_erase.mpr ⟨cell_ne d L (by decide), m6⟩⟩),
    SparseCore.bigSep_erase' (Finset.mem_erase.mpr ⟨cell_ne d L (by decide), Finset.mem_erase.mpr ⟨cell_ne d L (by decide),
      Finset.mem_erase.mpr ⟨cell_ne d L (by decide), m7⟩⟩⟩),
    SparseCore.bigSep_erase' (Finset.mem_erase.mpr ⟨cell_ne d L (by decide), Finset.mem_erase.mpr ⟨cell_ne d L (by decide),
      Finset.mem_erase.mpr ⟨cell_ne d L (by decide), Finset.mem_erase.mpr ⟨cell_ne d L (by decide), m8⟩⟩⟩⟩),
    SparseCore.bigSep_erase' (Finset.mem_erase.mpr ⟨cell_ne d L (by decide), Finset.mem_erase.mpr ⟨cell_ne d L (by decide),
      Finset.mem_erase.mpr ⟨cell_ne d L (by decide), Finset.mem_erase.mpr ⟨cell_ne d L (by decide),
      Finset.mem_erase.mpr ⟨cell_ne d L (by decide), m9⟩⟩⟩⟩⟩)]

/-- One of the tile's scratch buffers, as a buffer of the device. -/
abbrev sref (b : Ref sig .scVector) : DevRef τ sig := (Proc.scVector (cV L) (jV L)).devRef b

theorem sref_mem {b : Ref sig .scVector} (h : (sref L b).owner = .proc (.scVector (cV L) (jV L))) :
    sref L b ∈ ownRefs (sig := sig) (τ := τ) (.scVector (cV L) (jV L)) :=
  SparseCore.Cfg.mem_ownRefs_of_owner (p := Proc.scVector (cV L) (jV L)) (b := sref L b) h

theorem sref_ne {a b : Ref sig .scVector} (h : a ≠ b) : sref L a ≠ sref L b := fun e => h (Proc.devRef_injective _ e)

/-- The tile's own buffers other than the gather's four scratches. -/
abbrev restRefs : Finset (DevRef τ sig) :=
  ((((ownRefs (τ := τ) (.scVector (cV L) (jV L))).erase (sref L cc6_scratch0)).erase (sref L cc6_scratch1)).erase (sref L cc6_scratch2)).erase
    (sref L cc6_scratch3)

theorem ownBufs_V :
    (ownBufs (thrV d L) : sProp 𝕄)
      = iprop((∃ f, (thrV d L).loc cc6_scratch0 ↦{fullShare} f) ∗ (∃ f, (thrV d L).loc cc6_scratch1 ↦{fullShare} f)
          ∗ (∃ f, (thrV d L).loc cc6_scratch2 ↦{fullShare} f) ∗ (∃ f, (thrV d L).loc cc6_scratch3 ↦{fullShare} f)
          ∗ bigSep (restRefs L) fun b => iprop(∃ f, ((d, b) : Loc nD τ sig) ↦{fullShare} f)) := by
  unfold SparseCore.Cfg.ownBufs
  refine (SparseCore.bigSep_erase' (sref_mem L (b := cc6_scratch0) rfl)).trans ?_
  rw [SparseCore.bigSep_erase' (Finset.mem_erase.mpr ⟨sref_ne L (show (cc6_scratch1 : Ref sig .scVector) ≠ cc6_scratch0 by decide), sref_mem L (b := cc6_scratch1) rfl⟩),
    SparseCore.bigSep_erase' (Finset.mem_erase.mpr ⟨sref_ne L (show (cc6_scratch2 : Ref sig .scVector) ≠ cc6_scratch1 by decide),
      Finset.mem_erase.mpr ⟨sref_ne L (show (cc6_scratch2 : Ref sig .scVector) ≠ cc6_scratch0 by decide), sref_mem L (b := cc6_scratch2) rfl⟩⟩),
    SparseCore.bigSep_erase' (Finset.mem_erase.mpr ⟨sref_ne L (show (cc6_scratch3 : Ref sig .scVector) ≠ cc6_scratch2 by decide),
      Finset.mem_erase.mpr ⟨sref_ne L (show (cc6_scratch3 : Ref sig .scVector) ≠ cc6_scratch1 by decide),
      Finset.mem_erase.mpr ⟨sref_ne L (show (cc6_scratch3 : Ref sig .scVector) ≠ cc6_scratch0 by decide), sref_mem L (b := cc6_scratch3) rfl⟩⟩⟩)]

end Own

/-! ## What one gather delivers -/

section Value

variable (d : Dev nD) (tv : Buf (Elt F) (tblLoc d)) (iv : Buf (Elt F) (idxLoc d))

omit [FloatOps F] in
/-- Entry `y` of the 256-entry piece of the index list that starts at `off` is entry `off + y` of the list. -/
theorem idxPiece_read (off : Fin 1 → Nat) (h : ∀ a, off a + S256.size a ≤ S524288.size a) (hs) (y : S256.Idx) :
    ((idxV).slice (Rect.unit (s := S524288) off S256.size h) hs).view.read (Elt F) iv y
      = iv (ix1 ⟨off 0 + (y 0).val, by have := h 0; have := (y 0).isLt; exact Nat.lt_of_lt_of_le (Nat.add_lt_add_left this _) (h 0)⟩) := by
  rw [View.read_apply]
  refine congrArg iv (funext fun a => ?_)
  match a with
  | ⟨0, _⟩ => exact Fin.ext (by show off 0 + 1 * (y 0).val = off 0 + (y 0).val; omega)

omit [FloatOps F] in
/-- The gather's payload at an index: row `x 0` of the scratch receives the table's row named by entry `off + x 0` of
    the index list, when the index scratch was filled with the 256 entries from `off`. -/
theorem gather_apply (hin : ∀ e, (iv e).toNat < 32768)
    (c : Thread nD τ) (sI : Memref sig c.2.kind .vmem S256 .i32) (fI : Buf (Elt F) (sI.view.loc c))
    (off : Fin 1 → Nat) (h : ∀ a, off a + S256.size a ≤ S524288.size a) (hs) (h7) (h8)
    (hg : S32768x128.Gathers 0 S256x128) (hn : S256.numel = S256x128.size hg.axis')
    (hinI : ∀ x, ((sI.view.read (Elt F) (sI.view.write (Elt F) fI
      (ReadAs.same.apply (((idxV).slice (Rect.unit (s := S524288) off S256.size h) hs).view.read (Elt F) iv)) Finset.univ)) x).toNat
        < S32768x128.size hg.axis)
    (x : S256x128.Idx) :
    SparseCore.gatherPayload hg (((tblV).slice (Rect.unit (s := S32768x128) ![0, 0] S32768x128.size h7) h8).view.read (Elt F) tv)
        (SparseCore.rows (sI.view.read (Elt F) (sI.view.write (Elt F) fI
          (ReadAs.same.apply (((idxV).slice (Rect.unit (s := S524288) off S256.size h) hs).view.read (Elt F) iv)) Finset.univ)) hn hinI) x
      = tv (ix2 (rowOf (iv (ix1 ⟨off 0 + (x 0).val, by
          have := h 0; have := idx2_lt0 (n0 := 256) (n1 := 128) x
          exact Nat.lt_of_lt_of_le (Nat.add_lt_add_left this _) (h 0)⟩))) (x 1)) := by
  unfold SparseCore.gatherPayload
  rw [View.read_apply]
  refine congrArg tv (funext fun a => ?_)
  have hy0 : ((S256.rowMajor.symm ((x hg.axis').cast hn.symm)) 0).val = (x 0).val := by
    have e := Shape.rowMajor_val_one (d := ![256]) (S256.rowMajor.symm ((x hg.axis').cast hn.symm))
    rw [Equiv.apply_symm_apply] at e
    exact e.symm
  match a with
  | ⟨0, _⟩ =>
    apply Fin.ext
    show 0 + 1 * (hg.idx _ x hg.axis).val = _
    rw [Shape.Gathers.idx_axis]
    show 0 + 1 * ((sI.view.read (Elt F) (sI.view.write (Elt F) fI (ReadAs.same.apply
      (((idxV).slice (Rect.unit (s := S524288) off S256.size h) hs).view.read (Elt F) iv)) Finset.univ))
        (S256.rowMajor.symm ((x hg.axis').cast hn.symm))).toNat = (iv (ix1 ⟨off 0 + (x 0).val, _⟩)).toNat % 32768
    rw [View.read_write_univ, ReadAs.apply_same, idxPiece_read, Nat.mod_eq_of_lt (hin _), Nat.zero_add, Nat.one_mul]
    exact congrArg (fun n : Fin 524288 => (iv (ix1 n)).toNat) (Fin.ext (by show off 0 + _ = off 0 + _; rw [hy0]))
  | ⟨1, _⟩ =>
    apply Fin.ext
    show 0 + 1 * (hg.idx _ x ⟨1, by decide⟩).val = (x 1).val
    rw [Shape.Gathers.idx_of_ne hg _ x ⟨1, by decide⟩ (by decide), Nat.zero_add, Nat.one_mul]
    rfl

end Value

/-! ## What a trip leaves in one 256-row piece of the result -/

section Piece

variable (d : Dev nD) (tv : Buf (Elt F) (tblLoc d)) (iv : Buf (Elt F) (idxLoc d))

omit [FloatOps F] in
/-- A row scratch written whole with `p`, copied whole onto a 256-row piece of the result: the piece's element under `x`
    holds `p x`. -/
theorem out_piece_apply (c : Thread nD τ) (sR : Memref sig c.2.kind .vmem S256x128 .f32) (fR : Buf (Elt F) (sR.view.loc c))
    (p : S256x128.Idx → Elt F .f32) (off : Fin 2 → Nat) (h : ∀ a, off a + S256x128.size a ≤ S65536x128.size a) (hs)
    (g : Buf (Elt F) (outLoc qC d)) (x : S256x128.Idx) :
    (((outV).slice (Rect.unit (s := S65536x128) off S256x128.size h) hs).view.writes (Elt F) g
        [⟨Rect.whole S256x128, ReadAs.same.apply (sR.view.read (Elt F) (sR.view.writes (Elt F) fR [⟨Rect.whole S256x128, p⟩]))⟩])
      (((outV).slice (Rect.unit (s := S65536x128) off S256x128.size h) hs).view.emb x) = p x := by
  have e1 := congrFun (View.read_writes_whole ((outV).slice (Rect.unit (s := S65536x128) off S256x128.size h) hs).view g
    (ReadAs.same.apply (sR.view.read (Elt F) (sR.view.writes (Elt F) fR [⟨Rect.whole S256x128, p⟩])))) x
  rw [View.read_apply] at e1
  refine (show _ = _ from e1).trans ?_
  rw [ReadAs.apply_same]
  exact congrFun (View.read_writes_whole sR.view fR p) x

omit [FloatOps F] in
/-- The gathered result at the element of a piece under `x`, when the index piece starts `65536 qC` entries beyond the
    row the piece starts at (call `qC`'s share of the index list). -/
theorem gathered_emb (off1 : Fin 1 → Nat) (off : Fin 2 → Nat) (h : ∀ a, off a + S256x128.size a ≤ S65536x128.size a) (hs)
    (e0 : off1 0 = (qC : Fin 8).val * 65536 + off 0) (e1 : off 1 = 0) (x : S256x128.Idx) (hlt : off1 0 + (x 0).val < 524288) :
    gathered tv iv qC (((outV).slice (Rect.unit (s := S65536x128) off S256x128.size h) hs).view.emb x)
      = tv (ix2 (rowOf (iv (ix1 ⟨off1 0 + (x 0).val, hlt⟩))) (x 1)) := by
  obtain ⟨j, hj⟩ : ∃ j : S65536x128.Idx, j = ((outV).slice (Rect.unit (s := S65536x128) off S256x128.size h) hs).view.emb x := ⟨_, rfl⟩
  have j0 : (j 0).val = off 0 + 1 * (x 0).val := by rw [hj]; rfl
  have j1 : (j 1).val = off 1 + 1 * (x 1).val := by rw [hj]; rfl
  rw [← hj]
  unfold gathered
  have a : ∀ hb, (⟨(qC : Fin 8).val * 65536 + (j 0).val, hb⟩ : Fin 524288) = ⟨off1 0 + (x 0).val, hlt⟩ := fun _ =>
    Fin.ext (by show (qC : Fin 8).val * 65536 + (j 0).val = off1 0 + (x 0).val; rw [j0, e0]; omega)
  have b : j 1 = x 1 := Fin.ext (by rw [j1, e1]; omega)
  rw [a, b]

omit [FloatOps F] in
/-- After a trip's gather and copy-out, every element of the 256-row piece holds the gathered result. -/
theorem piece_gathered (hin : ∀ e, (iv e).toNat < 32768)
    (c : Thread nD τ) (sI : Memref sig c.2.kind .vmem S256 .i32) (fI : Buf (Elt F) (sI.view.loc c))
    (sR : Memref sig c.2.kind .vmem S256x128 .f32) (fR : Buf (Elt F) (sR.view.loc c))
    (off1 : Fin 1 → Nat) (h1 : ∀ a, off1 a + S256.size a ≤ S524288.size a) (hs1) (h7) (h8)
    (hg : S32768x128.Gathers 0 S256x128) (hn : S256.numel = S256x128.size hg.axis')
    (hinI : ∀ x, ((sI.view.read (Elt F) (sI.view.write (Elt F) fI
      (ReadAs.same.apply (((idxV).slice (Rect.unit (s := S524288) off1 S256.size h1) hs1).view.read (Elt F) iv)) Finset.univ)) x).toNat
        < S32768x128.size hg.axis)
    (off : Fin 2 → Nat) (h : ∀ a, off a + S256x128.size a ≤ S65536x128.size a) (hs) (e0 : off1 0 = (qC : Fin 8).val * 65536 + off 0) (e1 : off 1 = 0)
    (g : Buf (Elt F) (outLoc qC d)) (j : S65536x128.Idx)
    (hj : j ∈ ((outV).slice (Rect.unit (s := S65536x128) off S256x128.size h) hs).view.set) :
    (((outV).slice (Rect.unit (s := S65536x128) off S256x128.size h) hs).view.writes (Elt F) g
        [⟨Rect.whole S256x128, ReadAs.same.apply (sR.view.read (Elt F) (sR.view.writes (Elt F) fR [⟨Rect.whole S256x128,
          SparseCore.gatherPayload hg (((tblV).slice (Rect.unit (s := S32768x128) ![0, 0] S32768x128.size h7) h8).view.read (Elt F) tv)
            (SparseCore.rows (sI.view.read (Elt F) (sI.view.write (Elt F) fI
              (ReadAs.same.apply (((idxV).slice (Rect.unit (s := S524288) off1 S256.size h1) hs1).view.read (Elt F) iv)) Finset.univ)) hn hinI)⟩]))⟩]) j
      = gathered tv iv qC j := by
  obtain ⟨x, -, rfl⟩ := Finset.mem_map.mp hj
  rw [out_piece_apply, gather_apply d tv iv hin, gathered_emb d tv iv off1 off h hs e0 e1]

end Piece

/-! ## The tile's rows and the pieces a trip writes -/

section Geometry

omit [FloatOps F] in
/-- Worker `w`'s rows of the result array are rows `[2048 w, 2048 w + 2048)`. -/
theorem mem_rowsSet (w : Fin 32) (j : S65536x128.Idx) :
    j ∈ rowsSet w ↔ 2048 * w.val ≤ (j 0).val ∧ (j 0).val < 2048 * w.val + 2048 := by
  unfold rowsSet rowsRect
  rw [View.set_slice_whole, Rect.mem_set_unit]
  have h1 := idx2_lt1 (n0 := 65536) (n1 := 128) j
  constructor
  · intro H
    have H0 : w.val * 2048 ≤ (j 0).val ∧ (j 0).val < w.val * 2048 + 2048 := H 0
    omega
  · intro H a
    match a with
    | ⟨0, _⟩ => show w.val * 2048 ≤ (j 0).val ∧ (j 0).val < w.val * 2048 + 2048; omega
    | ⟨1, _⟩ => show 0 * 128 ≤ (j 1).val ∧ (j 1).val < 0 * 128 + 128; omega

omit [FloatOps F] in
/-- A 256-row piece of the result array at row offset `off 0` (all 128 columns). -/
theorem mem_piece (off : Fin 2 → Nat) (h : ∀ a, off a + S256x128.size a ≤ S65536x128.size a) (hs) (j : S65536x128.Idx) :
    j ∈ ((outV).slice (Rect.unit (s := S65536x128) off S256x128.size h) hs).view.set
      ↔ (off 0 ≤ (j 0).val ∧ (j 0).val < off 0 + 256) ∧ (off 1 ≤ (j 1).val ∧ (j 1).val < off 1 + 128) := by
  show j ∈ ((View.whole main_v40_scv).slice (Rect.unit (s := S65536x128) off S256x128.size h)).set ↔ _
  rw [View.set_slice_whole, Rect.mem_set_unit]
  constructor
  · intro H; exact ⟨H 0, H 1⟩
  · rintro ⟨h0, h1⟩ a
    match a with
    | ⟨0, _⟩ => exact h0
    | ⟨1, _⟩ => exact h1

end Geometry

/-! ## Joining a trip's pieces back into the tile's rows -/

section Join

variable (d : Dev nD) (tv : Buf (Elt F) (tblLoc d)) (iv : Buf (Elt F) (idxLoc d))

/-- The rows of worker `w` below trip `k` (512 rows a trip) hold the gathered rows. -/
def doneBelow (w : Fin 32) (k : Nat) (g : Buf (Elt F) (outLoc qC d)) : Prop :=
  ∀ j ∈ rowsSet w, (j 0).val < 2048 * w.val + 512 * k → g j = gathered tv iv qC j

omit [FloatOps F] in
theorem doneBelow_zero (w : Fin 32) (g : Buf (Elt F) (outLoc qC d)) : doneBelow d tv iv w 0 g := by
  intro j hj hlt
  have := (mem_rowsSet w j).mp hj
  omega

omit [FloatOps F] in
theorem doneBelow_four (w : Fin 32) (g : Buf (Elt F) (outLoc qC d)) (h : doneBelow d tv iv w 4 g) :
    ∀ j ∈ rowsSet w, g j = gathered tv iv qC j := by
  intro j hj
  have := (mem_rowsSet w j).mp hj
  exact h j hj (by omega)

omit [FloatOps F] in
/-- A trip's first piece lies in the worker's rows; -/
theorem piece_subset (w : Fin 32) (k e : Nat) (he : e = 2048 * w.val + 512 * k) (hk : k < 4)
    (off : Fin 2 → Nat) (h : ∀ a, off a + S256x128.size a ≤ S65536x128.size a) (hs)
    (e0 : off 0 = e ∨ off 0 = e + 256) (e1 : off 1 = 0) :
    ((outV).slice (Rect.unit (s := S65536x128) off S256x128.size h) hs).view.set ⊆ rowsSet w := by
  intro j hj
  have := (mem_piece off h hs j).mp hj
  exact (mem_rowsSet w j).mpr (by omega)

omit [FloatOps F] in
/-- its second piece lies in them off the first. -/
theorem piece_subset_sdiff (w : Fin 32) (k e : Nat) (he : e = 2048 * w.val + 512 * k) (hk : k < 4)
    (off3 off4 : Fin 2 → Nat) (h3 : ∀ a, off3 a + S256x128.size a ≤ S65536x128.size a) (hs3)
    (h4 : ∀ a, off4 a + S256x128.size a ≤ S65536x128.size a) (hs4)
    (e30 : off3 0 = e) (e40 : off4 0 = e + 256) (e41 : off4 1 = 0) :
    ((outV).slice (Rect.unit (s := S65536x128) off4 S256x128.size h4) hs4).view.set
      ⊆ rowsSet w \ ((outV).slice (Rect.unit (s := S65536x128) off3 S256x128.size h3) hs3).view.set := by
  intro j hj
  have h4' := (mem_piece off4 h4 hs4 j).mp hj
  refine Finset.mem_sdiff.mpr ⟨(mem_rowsSet w j).mpr (by omega), fun hj3 => ?_⟩
  have h3' := (mem_piece off3 h3 hs3 j).mp hj3
  omega

omit [FloatOps F] in
/-- Two carved-out pieces put back at new contents. -/
theorem rejoin_two {ℓ : Loc nD τ sig} (R P3 P4 : Finset (Idx ℓ)) (hsub3 : P3 ⊆ R) (hsub4 : P4 ⊆ R \ P3) (g g3 g4 : Buf (Elt F) ℓ) :
    (iprop((ℓ ↦[P3]{fullShare} g3) ∗ (ℓ ↦[P4]{fullShare} g4) ∗ (ℓ ↦[(R \ P3) \ P4]{fullShare} g)) : sProp 𝕄)
      ⊢ ℓ ↦[R]{fullShare} (P3.piecewise g3 (P4.piecewise g4 g)) := by
  iintro ⟨H3, H4, Hr⟩
  iapply (pointsTo_join_subset (ℓ := ℓ) (q := fullShare) (I := P3) (S := R) (g := g3) (f := P4.piecewise g4 g) hsub3)
  isplitl [H3]; · iexact H3
  iapply (pointsTo_join_subset (ℓ := ℓ) (q := fullShare) (I := P4) (S := R \ P3) (g := g4) (f := g) hsub4)
  isplitl [H4]; · iexact H4
  iexact Hr

omit [FloatOps F] in
/-- Two pieces each holding the gathered rows, the rest as before, when the two pieces are all of the worker's rows
    from trip `k` up to trip `k + 1`: the rows below trip `k + 1` hold the gathered rows. -/
theorem doneBelow_step (w : Fin 32) (k : Nat) (P3 P4 : Finset (Idx (outLoc qC d)))
    (g g3 g4 : Buf (Elt F) (outLoc qC d)) (hg : doneBelow d tv iv w k g)
    (hg3 : ∀ j ∈ P3, g3 j = gathered tv iv qC j) (hg4 : ∀ j ∈ P4, g4 j = gathered tv iv qC j)
    (hcov : ∀ j : S65536x128.Idx, j ∈ rowsSet w → (j 0).val < 2048 * w.val + 512 * (k + 1) → j ∉ P3 → j ∉ P4 →
      (j 0).val < 2048 * w.val + 512 * k) :
    doneBelow d tv iv w (k + 1) (P3.piecewise g3 (P4.piecewise g4 g)) := by
  intro j hj hlt
  by_cases hj3 : j ∈ P3
  · exact (Finset.piecewise_eq_of_mem P3 g3 _ hj3).trans (hg3 j hj3)
  · refine (Finset.piecewise_eq_of_notMem P3 g3 _ hj3).trans ?_
    by_cases hj4 : j ∈ P4
    · exact (Finset.piecewise_eq_of_mem P4 g4 _ hj4).trans (hg4 j hj4)
    · exact (Finset.piecewise_eq_of_notMem P4 g4 _ hj4).trans (hg j hj (hcov j hj hlt hj3 hj4))

omit [FloatOps F] in
/-- The cover fact for a trip's two pieces. -/
theorem trip_cover (w : Fin 32) (k e : Nat) (he : e = 2048 * w.val + 512 * k)
    (off3 off4 : Fin 2 → Nat) (h3 : ∀ a, off3 a + S256x128.size a ≤ S65536x128.size a) (hs3)
    (h4 : ∀ a, off4 a + S256x128.size a ≤ S65536x128.size a) (hs4)
    (e30 : off3 0 = e) (e31 : off3 1 = 0) (e40 : off4 0 = e + 256) (e41 : off4 1 = 0) :
    ∀ j : S65536x128.Idx, j ∈ rowsSet w → (j 0).val < 2048 * w.val + 512 * (k + 1) →
      j ∉ ((outV).slice (Rect.unit (s := S65536x128) off3 S256x128.size h3) hs3).view.set →
      j ∉ ((outV).slice (Rect.unit (s := S65536x128) off4 S256x128.size h4) hs4).view.set →
      (j 0).val < 2048 * w.val + 512 * k := by
  intro j hj hlt hj3 hj4
  have hr := (mem_rowsSet w j).mp hj
  have n3 := mt (mem_piece off3 h3 hs3 j).mpr hj3
  have n4 := mt (mem_piece off4 h4 hs4 j).mpr hj4
  have := idx2_lt1 (n0 := 65536) (n1 := 128) j
  omega

end Join

end Cert.Proof.KW.C3

end
-- ==== Proof.Tile3W.lean ====
/-
  One vector subcore's task in gather call 3, at a symbolic tile. Worker `w = 2 s + c` (subcore `s` of SparseCore `c`)
  fills rows `[2048 w, 2048 w + 2048)` of the result in four trips of 512 rows. A trip copies two 256-entry pieces of the
  index list into the two index scratches, starts one indirect gather of table rows per scratch, and copies each gathered
  256 x 128 block out to its rows of the result; every transfer has its own semaphore and is waited for before the next
  one on that semaphore starts. The loop's invariant carries the value: the worker's rows below the current trip already
  hold row `r ↦ table[index[r]]`; each trip extends this by its 512 rows, and after four trips it is all 2048 rows.
-/
import proofs.«214101_g10505490006249_cont_week2b_118_28_alg».proof.Proof.TileAux3W

noncomputable section

namespace Cert.Proof.KW.C3

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 8) (Elt F) ℕ UU ℕ

variable [FloatOps F]

/-! ## The body -/

section Body

variable (d : Dev nD) (L : grid6.Coords)

/-- The worker number of the tile at grid point `L`. -/
abbrev wL (L : grid6.Coords) : Fin 32 := wid (cV L) (jV L)

/-! ### Call 3: the trips' offsets

The only facts about this call's printed offset functions that the body uses, read off their generated closed forms:
trip `k` of the tile at `L` works on rows `rowE L k` and `rowE L k + 256` of the result, and on the index entries
`65536 qC` beyond them. -/

/-- The first row of the result that trip `k` of the tile at `L` writes. -/
def rowE (L : grid6.Coords) (k : Fin k6_t1_loop.trips) : Nat := 4096 * (L 1).val + 2048 * (L 0).val + 512 * k.val

theorem rowE_eq (k : Fin k6_t1_loop.trips) : rowE L k = 2048 * (wL L).val + 512 * k.val := by
  have hwv : (wL L).val = (L 1).val * 2 + (L 0).val := rfl
  unfold rowE; rw [hwv]; omega
theorem trips_eq : Scf.trips k6_t1_loop.lb k6_t1_loop.ub k6_t1_loop.st = 4 := by decide
theorem trip_lt (k : Fin k6_t1_loop.trips) : k.val < 4 := Nat.lt_of_lt_of_le k.isLt k6_t1_abs.2.1
theorem offI0 (k : Fin k6_t1_loop.trips) : k6_off1 L k 0 = (qC : Fin 8).val * 65536 + rowE L k := by
  have h : k6_off1 L k 0 = 4096 * (L 1).val + 2048 * (L 0).val + 512 * k.val + 196608 := congrFun (k6_off1_eq L k) 0
  rw [qC_val, h]; unfold rowE; omega
theorem offI1 (k : Fin k6_t1_loop.trips) : k6_off2 L k 0 = (qC : Fin 8).val * 65536 + (rowE L k + 256) := by
  have h : k6_off2 L k 0 = 4096 * (L 1).val + 2048 * (L 0).val + 512 * k.val + 196864 := congrFun (k6_off2_eq L k) 0
  rw [qC_val, h]; unfold rowE; omega
theorem offO0 (k : Fin k6_t1_loop.trips) : k6_off3 L k 0 = rowE L k := congrFun (k6_off3_eq L k) 0
theorem offO0' (k : Fin k6_t1_loop.trips) : k6_off3 L k 1 = 0 := congrFun (k6_off3_eq L k) 1
theorem offO1 (k : Fin k6_t1_loop.trips) : k6_off4 L k 0 = rowE L k + 256 := congrFun (k6_off4_eq L k) 0
theorem offO1' (k : Fin k6_t1_loop.trips) : k6_off4 L k 1 = 0 := congrFun (k6_off4_eq L k) 1

omit [FloatOps F] in
theorem pts_tbl (q : PosShare TreeShare) (f : Buf (Elt F) (tblLoc d)) :
    ((tblV).view.loc (thrV d L) ↦{q} f : sProp 𝕄) = tblLoc d ↦{q} f := by
  simp only [Memref.view_whole, View.set_whole]
omit [FloatOps F] in
theorem pts_idx (q : PosShare TreeShare) (f : Buf (Elt F) (idxLoc d)) :
    ((idxV).view.loc (thrV d L) ↦{q} f : sProp 𝕄) = idxLoc d ↦{q} f := by
  simp only [Memref.view_whole, View.set_whole]

omit [FloatOps F] in
theorem pts_s0 (f : Buf (Elt F) ((thrV d L).loc cc6_scratch0)) :
    ((thrV d L).loc cc6_scratch0 ↦{fullShare} f : sProp 𝕄) = ((sI0).view.loc (thrV d L) ↦{fullShare} f) := rfl
omit [FloatOps F] in
theorem pts_s1 (f : Buf (Elt F) ((thrV d L).loc cc6_scratch1)) :
    ((thrV d L).loc cc6_scratch1 ↦{fullShare} f : sProp 𝕄) = ((sI1).view.loc (thrV d L) ↦{fullShare} f) := rfl
omit [FloatOps F] in
theorem pts_s2 (f : Buf (Elt F) ((thrV d L).loc cc6_scratch2)) :
    ((thrV d L).loc cc6_scratch2 ↦{fullShare} f : sProp 𝕄) = ((sR0).view.loc (thrV d L) ↦{fullShare} f) := rfl
omit [FloatOps F] in
theorem pts_s3 (f : Buf (Elt F) ((thrV d L).loc cc6_scratch3)) :
    ((thrV d L).loc cc6_scratch3 ↦{fullShare} f : sProp 𝕄) = ((sR1).view.loc (thrV d L) ↦{fullShare} f) := rfl

/-- The two 256-row pieces of the result array that trip `k` writes, as the program slices them. -/
abbrev o3 (k : Fin k6_t1_loop.trips) : Memref sig .scVector .hbm S256x128 .f32 :=
  outV.slice (Rect.unit (s := S65536x128) (k6_off3 L k) S256x128.size (k6_off3_inb L k)) (fun _ => rfl)
abbrev o4 (k : Fin k6_t1_loop.trips) : Memref sig .scVector .hbm S256x128 .f32 :=
  outV.slice (Rect.unit (s := S65536x128) (k6_off4 L k) S256x128.size (k6_off4_inb L k)) (fun _ => rfl)

/-- The loop's invariant: the table and the index list at their read shares, the tile's rows of the result with the
    rows below the trip gathered, the four scratches at some contents, the six semaphores at zero, and what the tile owes. -/
def inv (qs : PosShare TreeShare) (tv : Buf (Elt F) (tblLoc d)) (iv : Buf (Elt F) (idxLoc d))
    (O : CellTallies nD τ sig (HIx 8)) (W : Waits sig (HIx 8)) (k : Nat) (_ : PUnit) : sProp 𝕄 :=
  iprop(Transfers.MayWaits (thrV d L) (none : HIx 8) O
    ∗ ((tblV).view.loc (thrV d L) ↦{qs} tv)
    ∗ ((idxV).view.loc (thrV d L) ↦{qs} iv)
    ∗ (∃ g, ⌜doneBelow d tv iv (wL L) k g⌝ ∗ outLoc qC d ↦[rowsSet (wL L)]{fullShare} g)
    ∗ (∃ f, (sI0).view.loc (thrV d L) ↦{fullShare} f)
    ∗ (∃ f, (sI1).view.loc (thrV d L) ↦{fullShare} f)
    ∗ (∃ f, (sR0).view.loc (thrV d L) ↦{fullShare} f)
    ∗ (∃ f, (sR1).view.loc (thrV d L) ↦{fullShare} f)
    ∗ semVal (cell d L cc6_scratch4) 0 ∗ semVal (cell d L cc6_scratch5) 0 ∗ semVal (cell d L cc6_scratch6) 0
    ∗ semVal (cell d L cc6_scratch7) 0 ∗ semVal (cell d L cc6_scoped0) 0 ∗ semVal (cell d L cc6_scoped1) 0
    ∗ ∃ W', ⌜∀ p ∈ W', p ∈ W ∨ p.2 = none⌝ ∗ owes (thrV d L) O W')

omit [FloatOps F] in
/-- Whatever an index scratch held before, after a 256-entry piece of the index list is copied into it every word it
    holds names a row of the table. -/
theorem idx_inb (iv : Buf (Elt F) (idxLoc d)) (hin : ∀ e, (iv e).toNat < 32768)
    (c : Thread nD τ) (m : Memref sig c.2.kind .vmem S256 .i32) (f : Buf (Elt F) (m.view.loc c))
    (off : Fin 1 → Nat) (h : ∀ a, off a + S256.size a ≤ S524288.size a) (hs) (x : S256.Idx) :
    (m.view.read (Elt F) (m.view.write (Elt F) f
      (ReadAs.same.apply (((idxV).slice (Rect.unit (s := S524288) off S256.size h) hs).view.read (Elt F) iv)) Finset.univ) x).toNat < 32768 := by
  rw [View.read_write_univ, ReadAs.apply_same, View.read_apply]
  exact hin _
set_option maxHeartbeats 2000000 in
theorem tile_body (qs : PosShare TreeShare) (tv : Buf (Elt F) (tblLoc d)) (iv : Buf (Elt F) (idxLoc d))
    (hin : ∀ e, (iv e).toNat < 32768) (O : CellTallies nD τ sig (HIx 8)) (W : Waits sig (HIx 8)) (hO : ∀ g, O g none = 0) :
    (iprop(levAts (K (F := F)).L (K (F := F)).lev ∗ emp
        ∗ ((tblLoc d ↦{qs} tv) ∗ (idxLoc d ↦{qs} iv) ∗ ∃ f, outLoc qC d ↦[rowsSet (wL L)]{fullShare} f)
        ∗ scopedBufs (thrV d L) ∗ scopedSems0 (thrV d L) ∗ owes (thrV d L) O W) : sProp 𝕄)
      ⊢ wp frame (wpE (defs₀ (F := F)) 𝒱₀ (thrV d L) none) Set.univ
          (cc6_gather_kernel L tblV (Memref.isWhole_whole _) idxV (Memref.isWhole_whole _) outV (Memref.isWhole_whole _)
            sI0 (Memref.isWhole_whole _) sI1 (Memref.isWhole_whole _) sR0 (Memref.isWhole_whole _) sR1 (Memref.isWhole_whole _)
            cc6_scratch4 cc6_scratch5 cc6_scratch6 cc6_scratch7 cc6_scoped0 cc6_scoped1)
          fun _ => iprop(((tblLoc d ↦{qs} tv) ∗ (idxLoc d ↦{qs} iv) ∗ outLoc qC d ↦[rowsSet (wL L)]{fullShare} gathered tv iv qC)
            ∗ scopedBufs (thrV d L) ∗ scopedSems0 (thrV d L) ∗ ∃ W', ⌜∀ p ∈ W', p ∈ W ∨ p.2 = none⌝ ∗ owes (thrV d L) O W') := by
  simp only [cc6_gather_kernel_eq_skeleton]; unfold cc6_gather_kernel_skel
  rw [(K (F := F)).scopedBufs_V facts d (cV L) (jV L), SparseCore.Cfg.scopedSems0_V (Val := Elt F) d (cV L) (jV L), ownSems0_V, ownBufs_V]
  iintro ⟨#Hlv, -, ⟨Ht, Hi, %fo, Ho⟩, ⟨⟨%f0, Hb0⟩, ⟨%f1, Hb1⟩, ⟨%f2, Hb2⟩, ⟨%f3, Hb3⟩, Hbufs⟩, ⟨Hs4, Hs5, Hs6, Hs7, Hs8, Hs9, Hsems⟩, HO⟩
  ihave Hmw := ((K (F := F)).mayWaits_none (thr := thrV d L) hO) $$ Hlv
  ihave Ht' := (Entails.of_eq (pts_tbl (F := F) d L _ _).symm) $$ Ht
  ihave Hi' := (Entails.of_eq (pts_idx (F := F) d L _ _).symm) $$ Hi
  ihave Hb0' := (Entails.of_eq (pts_s0 (F := F) d L f0)) $$ Hb0
  ihave Hb1' := (Entails.of_eq (pts_s1 (F := F) d L f1)) $$ Hb1
  ihave Hb2' := (Entails.of_eq (pts_s2 (F := F) d L f2)) $$ Hb2
  ihave Hb3' := (Entails.of_eq (pts_s3 (F := F) d L f3)) $$ Hb3
  sl_exec
  sl_for (inv d L qs tv iv O W) $$ [Hmw Ht' Hi' Ho Hb0' Hb1' Hb2' Hb3' Hs4 Hs5 Hs6 Hs7 Hs8 Hs9 HO]
  case region =>
    intro k _
    unfold inv
    iintro ⟨Hmw, Ht, Hi, ⟨%g, %hg, Ho⟩, ⟨%f0, Hb0⟩, ⟨%f1, Hb1⟩, ⟨%f2, Hb2⟩, ⟨%f3, Hb3⟩, Hs4, Hs5, Hs6, Hs7, Hs8, Hs9, %W', %hW', HO⟩
    -- the trip's offsets: the row pieces start at rows `rowE` and `rowE + 256`, the index pieces `65536 qC` entries beyond
    have o30 := offO0 L k
    have o31 := offO0' L k
    have o40 := offO1 L k
    have o41 := offO1' L k
    have hE := rowE_eq L k
    have hk := trip_lt k
    have e13 : k6_off1 L k 0 = (qC : Fin 8).val * 65536 + k6_off3 L k 0 := by rw [offI0, o30]
    have e24 : k6_off2 L k 0 = (qC : Fin 8).val * 65536 + k6_off4 L k 0 := by rw [offI1, o40]
    have hsub3 : (o3 L k).view.set ⊆ rowsSet (wL L) :=
      piece_subset (wL L) k.val _ hE hk (k6_off3 L k) (k6_off3_inb L k) (fun _ => rfl) (.inl o30) o31
    have hsub4 : (o4 L k).view.set ⊆ rowsSet (wL L) \ (o3 L k).view.set :=
      piece_subset_sdiff (wL L) k.val _ hE hk (k6_off3 L k) (k6_off4 L k) (k6_off3_inb L k) (fun _ => rfl) (k6_off4_inb L k) (fun _ => rfl) o30 o40 o41
    ihave Ho' := (pointsTo_split_subset (ℓ := outLoc qC d) (q := fullShare) (f := g) (I := (o3 L k).view.set) (S := rowsSet (wL L)) hsub3).1 $$ Ho
    icases Ho' with ⟨Ho3, Hor⟩
    ihave Hor' := (pointsTo_split_subset (ℓ := outLoc qC d) (q := fullShare) (f := g) (I := (o4 L k).view.set) (S := rowsSet (wL L) \ (o3 L k).view.set) hsub4).1 $$ Hor
    icases Hor' with ⟨Ho4, Hor⟩
    ihave Ho3' := (Entails.of_eq (show (outLoc qC d ↦[(o3 L k).view.set]{fullShare} g : sProp 𝕄) = ((o3 L k).view.loc (thrV d L) ↦[(o3 L k).view.set]{fullShare} g) from rfl)) $$ Ho3
    ihave Ho4' := (Entails.of_eq (show (outLoc qC d ↦[(o4 L k).view.set]{fullShare} g : sProp 𝕄) = ((o4 L k).view.loc (thrV d L) ↦[(o4 L k).view.set]{fullShare} g) from rfl)) $$ Ho4
    -- the words each index scratch holds once its piece of the list has landed name rows of the table
    have hin0 : ∀ x : S256.Idx, ((sI0).view.read (Elt F) ((sI0).view.write (Elt F) f0 (ReadAs.same.apply (((idxV).slice
        (Rect.unit (s := S524288) (k6_off1 L k) S256.size (k6_off1_inb L k)) (fun _ => rfl)).view.read (Elt F) iv)) Finset.univ) x).toNat < 32768 :=
      idx_inb (F := F) d iv hin (thrV d L) sI0 f0 _ _ _
    have hin1 : ∀ x : S256.Idx, ((sI1).view.read (Elt F) ((sI1).view.write (Elt F) f1 (ReadAs.same.apply (((idxV).slice
        (Rect.unit (s := S524288) (k6_off2 L k) S256.size (k6_off2_inb L k)) (fun _ => rfl)).view.read (Elt F) iv)) Finset.univ) x).toNat < 32768 :=
      idx_inb (F := F) d iv hin (thrV d L) sI1 f1 _ _ _
    -- both gathers read the table while the other is outstanding: a read share each
    ihave Ht2 := (pointsTo_share (ℓ := (tblV).view.loc (thrV d L)) (I := Finset.univ) (f := tv) (PosShare.mem_left_op_right qs)).1 $$ Ht
    icases Ht2 with ⟨Hta, Htb⟩
    -- what the two copy-outs leave in their pieces is the gathered rows
    have hgth : S32768x128.Gathers 0 S256x128 := by decide
    have hg3 := fun j hj => piece_gathered (F := F) d tv iv hin (thrV d L) sI0 f0 sR0 f2 (k6_off1 L k) (k6_off1_inb L k) (fun _ => rfl)
      inb_S32768x128_S32768x128_0_0 (fun _ => rfl) hgth rfl hin0 (k6_off3 L k) (k6_off3_inb L k) (fun _ => rfl) e13 o31 g j hj
    have hg4 := fun j hj => piece_gathered (F := F) d tv iv hin (thrV d L) sI1 f1 sR1 f3 (k6_off2 L k) (k6_off2_inb L k) (fun _ => rfl)
      inb_S32768x128_S32768x128_0_0 (fun _ => rfl) hgth rfl hin1 (k6_off4 L k) (k6_off4_inb L k) (fun _ => rfl) e24 o41 g j hj
    sl_exec
    sl_step
    isplitl [Hmw]; · iexact Hmw
    isplitl [Hta Htb]
    · iapply (pointsTo_share (ℓ := (tblV).view.loc (thrV d L)) (I := Finset.univ) (f := tv) (PosShare.mem_left_op_right qs)).2
      isplitl [Hta]; · iexact Hta
      iexact Htb
    isplitl [Hi]; · iexact Hi
    isplitl [Ho3' Ho4' Hor]
    · ihave Hj := (rejoin_two (F := F) (ℓ := outLoc qC d) (rowsSet (wL L)) (o3 L k).view.set (o4 L k).view.set hsub3 hsub4 g _ _) $$ [Ho3' Ho4' Hor]
      · isplitl [Ho3']; · iexact Ho3'
        isplitl [Ho4']; · iexact Ho4'
        iexact Hor
      iexists _
      isplitr
      · ipureintro
        exact doneBelow_step (F := F) d tv iv (wL L) k.val (o3 L k).view.set (o4 L k).view.set g _ _ hg hg3 hg4
          (trip_cover (wL L) k.val _ hE (k6_off3 L k) (k6_off4 L k) (k6_off3_inb L k) (fun _ => rfl) (k6_off4_inb L k) (fun _ => rfl) o30 o31 o40 o41)
      · iexact Hj
    isplitl [Hb0]; · iexists _; iexact Hb0
    isplitl [Hb1]; · iexists _; iexact Hb1
    isplitl [Hb2]; · iexists _; iexact Hb2
    isplitl [Hb3]; · iexists _; iexact Hb3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    iexists _; isplitr
    swap
    · iexact HO
    · ipureintro; intro p hp
      simp only [Finset.mem_insert] at hp
      rcases hp with rfl | rfl | rfl | rfl | rfl | rfl | hp
      · exact .inr rfl
      · exact .inr rfl
      · exact .inr rfl
      · exact .inr rfl
      · exact .inr rfl
      · exact .inr rfl
      · exact hW' p hp
  · unfold inv
    isplitl [Hmw]; · iexact Hmw
    isplitl [Ht']; · iexact Ht'
    isplitl [Hi']; · iexact Hi'
    isplitl [Ho]
    · iexists fo; isplitr
      · ipureintro; exact doneBelow_zero d tv iv (wL L) fo
      · iexact Ho
    isplitl [Hb0']; · iexists f0; iexact Hb0'
    isplitl [Hb1']; · iexists f1; iexact Hb1'
    isplitl [Hb2']; · iexists f2; iexact Hb2'
    isplitl [Hb3']; · iexists f3; iexact Hb3'
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    iexists W; isplitr
    · ipureintro; exact fun p hp => .inl hp
    · iexact HO
  iintro %_ HI
  unfold inv
  icases HI with ⟨-, Ht, Hi, ⟨%g, %hg, Ho⟩, ⟨%f0', Hb0⟩, ⟨%f1', Hb1⟩, ⟨%f2', Hb2⟩, ⟨%f3', Hb3⟩, Hs4, Hs5, Hs6, Hs7, Hs8, Hs9, %W', %hW', HO⟩
  rw [trips_eq] at hg
  sl_exec
  sl_step
  isplitl [Ht Hi Ho]
  · isplitl [Ht]; · iapply (Entails.of_eq (pts_tbl (F := F) d L _ _)); iexact Ht
    isplitl [Hi]; · iapply (Entails.of_eq (pts_idx (F := F) d L _ _)); iexact Hi
    iapply (Entails.of_eq (pointsTo_congr (ℓ := outLoc qC d) (q := fullShare) (I := rowsSet (wL L)) (doneBelow_four d tv iv (wL L) g hg)))
    iexact Ho
  isplitl [Hb0 Hb1 Hb2 Hb3 Hbufs]
  · isplitl [Hb0]; · iexists f0'; iapply (Entails.of_eq (pts_s0 (F := F) d L f0').symm); iexact Hb0
    isplitl [Hb1]; · iexists f1'; iapply (Entails.of_eq (pts_s1 (F := F) d L f1').symm); iexact Hb1
    isplitl [Hb2]; · iexists f2'; iapply (Entails.of_eq (pts_s2 (F := F) d L f2').symm); iexact Hb2
    isplitl [Hb3]; · iexists f3'; iapply (Entails.of_eq (pts_s3 (F := F) d L f3').symm); iexact Hb3
    iexact Hbufs
  isplitl [Hs4 Hs5 Hs6 Hs7 Hs8 Hs9 Hsems]
  · isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    iexact Hsems
  iexists W'; isplitr
  · ipureintro; exact hW'
  · iexact HO

end Body

end Cert.Proof.KW.C3

end
-- ==== Proof.TileObl3W.lean ====
/-
  The launch theorem's obligation for gather call 3: a tile's task, entered through the body table, is the kernel's
  body at that tile, run on the tile's share of the table and the index list and on its worker's rows.
-/
import proofs.«214101_g10505490006249_cont_week2b_118_28_alg».proof.Proof.LaunchW
import proofs.«214101_g10505490006249_cont_week2b_118_28_alg».proof.Proof.Tile3W
import proofs.«214101_g10505490006249_cont_week2b_118_28_alg».proof.Proof.TileObl0W

noncomputable section

namespace Cert.Proof.KW.C3

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Transfers (shareTok shareDrop pointsTo_toks_split pointsTo_toks_join)

variable {F : FTy → Type}

local notation "𝕄" => MT nD τ sig (HIx 8) (Elt F) ℕ UU ℕ

variable [FloatOps F]
variable (tv : (d : Dev nD) → S32768x128.Idx → Elt F .f32) (iv : (d : Dev nD) → S524288.Idx → Elt F .i32)

/-- A tile's grid coordinates from its SparseCore and subcore numbers. -/
def coordsV (c : Fin (grid6.bound 0)) (s : Fin (grid6.bound 1)) : grid6.Coords :=
  fun | 0 => c | 1 => s | ⟨_ + 2, h⟩ => absurd h (Nat.not_lt.2 (Nat.le_add_left _ _))

theorem defs₀_vector3 (c : Fin τ.nSC) (s : Fin τ.nSub) :
    defs₀ (F := F) (.scVector c s) 6 ()
      = SparseCore.onTile hcore6 hsub6 (fun c s => cc6_gather_kernel (coordsV c s)
          tblV (Memref.isWhole_whole _) idxV (Memref.isWhole_whole _) outV (Memref.isWhole_whole _)
          sI0 (Memref.isWhole_whole _) sI1 (Memref.isWhole_whole _) sR0 (Memref.isWhole_whole _) sR1 (Memref.isWhole_whole _)
          cc6_scratch4 cc6_scratch5 cc6_scratch6 cc6_scratch7 cc6_scoped0 cc6_scoped1) ⟨⟩ c s := rfl

/-- Call 3's tile obligation. -/
theorem tileObl3 (hin : ∀ d e, (iv d e).toNat < 32768) : (K (F := F)).TileObl (D (F := F)) 𝒱 (P (F := F) tv iv) v₀ 3 := by
  intro d c i O W hO _ _
  -- the gather kernel owes nothing for a protocol of its own
  simp only [show (P (F := F) tv iv).ox = fun _ _ => 0 from rfl, add_zero]
  change _ ⊢ wp _ _ _ (Pipeline.liftProg (defs₀ (F := F) (.scVector ((K (F := F)).core 3 c) ((K (F := F)).sub 3 i)) 6 ())) _
  refine BI.Entails.trans ?_ (Pipeline.wp_liftProg (D (F := F)) (Pipeline.defs_kernel pcfgs defs₀) 𝒱₀ _ Set.univ none _ _)
  have hc : ((K (F := F)).core 3 c).val < grid6.bound 0 ∧ ((K (F := F)).sub 3 i).val < grid6.bound 1 := ⟨c.isLt, i.isLt⟩
  rw [defs₀_vector3]; simp only [SparseCore.onTile, hc, and_self, ↓reduceDIte]
  exact (tile_body d (coordsV ⟨_, hc.1⟩ ⟨_, hc.2⟩) (shT (cC 3 c) (sS 3 i)) (tv d) (iv d) (hin d) O W hO).trans (wp_mono frame _ _ fun _ => obl_post)

end Cert.Proof.KW.C3

end
-- ==== Proof.TileAux4W.lean ====
/-
  One vector subcore's share of a gather call, the pure part: how the subcore's scoped semaphores and scratch buffers are
  opened, what an indirect gather of 256 table rows delivers element by element, which elements of the result array a
  trip's two copy-outs write, and how those pieces rejoin the subcore's 2048 rows of the result.
-/
import proofs.«214101_g10505490006249_cont_week2b_118_28_alg».proof.Proof.SetupW

noncomputable section

namespace Cert.Proof.KW.C4

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 8) (Elt F) ℕ UU ℕ

/-! ## The names of gather call 4

Everything that is particular to this one of the eight gather calls is named here (and, for the trips' offsets, at the
top of the body's module): the call's number, its result array, its scratch buffers. The text below speaks of the call
only through these names and through the program's own `cc8_…` / `k8_…` names. -/

/-- The number of this gather call among the eight: it reads index entries `65536 qC + …` and fills result array `qC`. -/
abbrev qC : Fin 8 := 4
theorem qC_val : (qC : Fin 8).val = 4 := rfl

abbrev tblV : Memref sig .scVector .hbm S32768x128 .f32 := Memref.whole main_v10_scv
abbrev idxV : Memref sig .scVector .hbm S524288 .i32 := Memref.whole main_v6_scv
abbrev outV : Memref sig .scVector .hbm S65536x128 .f32 := Memref.whole main_v42_scv
abbrev sI0 : Memref sig .scVector .vmem S256 .i32 := Memref.whole cc8_scratch0
abbrev sI1 : Memref sig .scVector .vmem S256 .i32 := Memref.whole cc8_scratch1
abbrev sR0 : Memref sig .scVector .vmem S256x128 .f32 := Memref.whole cc8_scratch2
abbrev sR1 : Memref sig .scVector .vmem S256x128 .f32 := Memref.whole cc8_scratch3

abbrev cV (L : grid8.Coords) : Fin τ.nSC := (L 0).castLE hcore8
abbrev jV (L : grid8.Coords) : Fin τ.nSub := (L 1).castLE hsub8
abbrev thrV (d : Dev nD) (L : grid8.Coords) : Thread nD τ := V d (cV L) (jV L)

variable [FloatOps F]

/-! ## The tile's own semaphores and scratch buffers -/

section Own

variable (d : Dev nD) (L : grid8.Coords)

/-- The cell of one of the tile's DMA semaphores. -/
abbrev cell (sm : DmaSems sig S_) : GSem nD τ sig := (thrV d L, .dma sm.sem)

omit [FloatOps F] in
theorem cell_mem {sm : DmaSems sig S_} (h : (SemLoc.dma sm.sem : SemLoc sig).isScoped .scVector = true) :
    cell d L sm ∈ ownCells (sig := sig) (thrV d L) := (mem_ownCells (g := cell d L sm)).mpr ⟨rfl, h⟩

theorem cell_ne {a b : DmaSems sig S_} (h : (SemLoc.dma a.sem : SemLoc sig) ≠ .dma b.sem) : cell d L a ≠ cell d L b :=
  fun e => h (Prod.mk.inj e).2

/-- The tile's scoped cells other than the six the gather uses. -/
abbrev restCells : Finset (GSem nD τ sig) :=
  ((((((ownCells (thrV d L)).erase (cell d L cc8_scratch4)).erase (cell d L cc8_scratch5)).erase (cell d L cc8_scratch6)).erase
    (cell d L cc8_scratch7)).erase (cell d L cc8_scoped0)).erase (cell d L cc8_scoped1)

theorem ownSems0_V :
    (ownSems0 (thrV d L) : sProp 𝕄)
      = iprop(semVal (cell d L cc8_scratch4) 0 ∗ semVal (cell d L cc8_scratch5) 0 ∗ semVal (cell d L cc8_scratch6) 0
          ∗ semVal (cell d L cc8_scratch7) 0 ∗ semVal (cell d L cc8_scoped0) 0 ∗ semVal (cell d L cc8_scoped1) 0
          ∗ bigSep (restCells d L) fun g => semVal g 0) := by
  unfold SparseCore.Cfg.ownSems0
  have m4 := cell_mem d L (sm := cc8_scratch4) (by decide)
  have m5 := cell_mem d L (sm := cc8_scratch5) (by decide)
  have m6 := cell_mem d L (sm := cc8_scratch6) (by decide)
  have m7 := cell_mem d L (sm := cc8_scratch7) (by decide)
  have m8 := cell_mem d L (sm := cc8_scoped0) (by decide)
  have m9 := cell_mem d L (sm := cc8_scoped1) (by decide)
  rw [SparseCore.bigSep_erase' m4,
    SparseCore.bigSep_erase' (Finset.mem_erase.mpr ⟨cell_ne d L (by decide), m5⟩),
    SparseCore.bigSep_erase' (Finset.mem_erase.mpr ⟨cell_ne d L (by decide), Finset.mem_erase.mpr ⟨cell_ne d L (by decide), m6⟩⟩),
    SparseCore.bigSep_erase' (Finset.mem_erase.mpr ⟨cell_ne d L (by decide), Finset.mem_erase.mpr ⟨cell_ne d L (by decide),
      Finset.mem_erase.mpr ⟨cell_ne d L (by decide), m7⟩⟩⟩),
    SparseCore.bigSep_erase' (Finset.mem_erase.mpr ⟨cell_ne d L (by decide), Finset.mem_erase.mpr ⟨cell_ne d L (by decide),
      Finset.mem_erase.mpr ⟨cell_ne d L (by decide), Finset.mem_erase.mpr ⟨cell_ne d L (by decide), m8⟩⟩⟩⟩),
    SparseCore.bigSep_erase' (Finset.mem_erase.mpr ⟨cell_ne d L (by decide), Finset.mem_erase.mpr ⟨cell_ne d L (by decide),
      Finset.mem_erase.mpr ⟨cell_ne d L (by decide), Finset.mem_erase.mpr ⟨cell_ne d L (by decide),
      Finset.mem_erase.mpr ⟨cell_ne d L (by decide), m9⟩⟩⟩⟩⟩)]

/-- One of the tile's scratch buffers, as a buffer of the device. -/
abbrev sref (b : Ref sig .scVector) : DevRef τ sig := (Proc.scVector (cV L) (jV L)).devRef b

theorem sref_mem {b : Ref sig .scVector} (h : (sref L b).owner = .proc (.scVector (cV L) (jV L))) :
    sref L b ∈ ownRefs (sig := sig) (τ := τ) (.scVector (cV L) (jV L)) :=
  SparseCore.Cfg.mem_ownRefs_of_owner (p := Proc.scVector (cV L) (jV L)) (b := sref L b) h

theorem sref_ne {a b : Ref sig .scVector} (h : a ≠ b) : sref L a ≠ sref L b := fun e => h (Proc.devRef_injective _ e)

/-- The tile's own buffers other than the gather's four scratches. -/
abbrev restRefs : Finset (DevRef τ sig) :=
  ((((ownRefs (τ := τ) (.scVector (cV L) (jV L))).erase (sref L cc8_scratch0)).erase (sref L cc8_scratch1)).erase (sref L cc8_scratch2)).erase
    (sref L cc8_scratch3)

theorem ownBufs_V :
    (ownBufs (thrV d L) : sProp 𝕄)
      = iprop((∃ f, (thrV d L).loc cc8_scratch0 ↦{fullShare} f) ∗ (∃ f, (thrV d L).loc cc8_scratch1 ↦{fullShare} f)
          ∗ (∃ f, (thrV d L).loc cc8_scratch2 ↦{fullShare} f) ∗ (∃ f, (thrV d L).loc cc8_scratch3 ↦{fullShare} f)
          ∗ bigSep (restRefs L) fun b => iprop(∃ f, ((d, b) : Loc nD τ sig) ↦{fullShare} f)) := by
  unfold SparseCore.Cfg.ownBufs
  refine (SparseCore.bigSep_erase' (sref_mem L (b := cc8_scratch0) rfl)).trans ?_
  rw [SparseCore.bigSep_erase' (Finset.mem_erase.mpr ⟨sref_ne L (show (cc8_scratch1 : Ref sig .scVector) ≠ cc8_scratch0 by decide), sref_mem L (b := cc8_scratch1) rfl⟩),
    SparseCore.bigSep_erase' (Finset.mem_erase.mpr ⟨sref_ne L (show (cc8_scratch2 : Ref sig .scVector) ≠ cc8_scratch1 by decide),
      Finset.mem_erase.mpr ⟨sref_ne L (show (cc8_scratch2 : Ref sig .scVector) ≠ cc8_scratch0 by decide), sref_mem L (b := cc8_scratch2) rfl⟩⟩),
    SparseCore.bigSep_erase' (Finset.mem_erase.mpr ⟨sref_ne L (show (cc8_scratch3 : Ref sig .scVector) ≠ cc8_scratch2 by decide),
      Finset.mem_erase.mpr ⟨sref_ne L (show (cc8_scratch3 : Ref sig .scVector) ≠ cc8_scratch1 by decide),
      Finset.mem_erase.mpr ⟨sref_ne L (show (cc8_scratch3 : Ref sig .scVector) ≠ cc8_scratch0 by decide), sref_mem L (b := cc8_scratch3) rfl⟩⟩⟩)]

end Own

/-! ## What one gather delivers -/

section Value

variable (d : Dev nD) (tv : Buf (Elt F) (tblLoc d)) (iv : Buf (Elt F) (idxLoc d))

omit [FloatOps F] in
/-- Entry `y` of the 256-entry piece of the index list that starts at `off` is entry `off + y` of the list. -/
theorem idxPiece_read (off : Fin 1 → Nat) (h : ∀ a, off a + S256.size a ≤ S524288.size a) (hs) (y : S256.Idx) :
    ((idxV).slice (Rect.unit (s := S524288) off S256.size h) hs).view.read (Elt F) iv y
      = iv (ix1 ⟨off 0 + (y 0).val, by have := h 0; have := (y 0).isLt; exact Nat.lt_of_lt_of_le (Nat.add_lt_add_left this _) (h 0)⟩) := by
  rw [View.read_apply]
  refine congrArg iv (funext fun a => ?_)
  match a with
  | ⟨0, _⟩ => exact Fin.ext (by show off 0 + 1 * (y 0).val = off 0 + (y 0).val; omega)

omit [FloatOps F] in
/-- The gather's payload at an index: row `x 0` of the scratch receives the table's row named by entry `off + x 0` of
    the index list, when the index scratch was filled with the 256 entries from `off`. -/
theorem gather_apply (hin : ∀ e, (iv e).toNat < 32768)
    (c : Thread nD τ) (sI : Memref sig c.2.kind .vmem S256 .i32) (fI : Buf (Elt F) (sI.view.loc c))
    (off : Fin 1 → Nat) (h : ∀ a, off a + S256.size a ≤ S524288.size a) (hs) (h7) (h8)
    (hg : S32768x128.Gathers 0 S256x128) (hn : S256.numel = S256x128.size hg.axis')
    (hinI : ∀ x, ((sI.view.read (Elt F) (sI.view.write (Elt F) fI
      (ReadAs.same.apply (((idxV).slice (Rect.unit (s := S524288) off S256.size h) hs).view.read (Elt F) iv)) Finset.univ)) x).toNat
        < S32768x128.size hg.axis)
    (x : S256x128.Idx) :
    SparseCore.gatherPayload hg (((tblV).slice (Rect.unit (s := S32768x128) ![0, 0] S32768x128.size h7) h8).view.read (Elt F) tv)
        (SparseCore.rows (sI.view.read (Elt F) (sI.view.write (Elt F) fI
          (ReadAs.same.apply (((idxV).slice (Rect.unit (s := S524288) off S256.size h) hs).view.read (Elt F) iv)) Finset.univ)) hn hinI) x
      = tv (ix2 (rowOf (iv (ix1 ⟨off 0 + (x 0).val, by
          have := h 0; have := idx2_lt0 (n0 := 256) (n1 := 128) x
          exact Nat.lt_of_lt_of_le (Nat.add_lt_add_left this _) (h 0)⟩))) (x 1)) := by
  unfold SparseCore.gatherPayload
  rw [View.read_apply]
  refine congrArg tv (funext fun a => ?_)
  have hy0 : ((S256.rowMajor.symm ((x hg.axis').cast hn.symm)) 0).val = (x 0).val := by
    have e := Shape.rowMajor_val_one (d := ![256]) (S256.rowMajor.symm ((x hg.axis').cast hn.symm))
    rw [Equiv.apply_symm_apply] at e
    exact e.symm
  match a with
  | ⟨0, _⟩ =>
    apply Fin.ext
    show 0 + 1 * (hg.idx _ x hg.axis).val = _
    rw [Shape.Gathers.idx_axis]
    show 0 + 1 * ((sI.view.read (Elt F) (sI.view.write (Elt F) fI (ReadAs.same.apply
      (((idxV).slice (Rect.unit (s := S524288) off S256.size h) hs).view.read (Elt F) iv)) Finset.univ))
        (S256.rowMajor.symm ((x hg.axis').cast hn.symm))).toNat = (iv (ix1 ⟨off 0 + (x 0).val, _⟩)).toNat % 32768
    rw [View.read_write_univ, ReadAs.apply_same, idxPiece_read, Nat.mod_eq_of_lt (hin _), Nat.zero_add, Nat.one_mul]
    exact congrArg (fun n : Fin 524288 => (iv (ix1 n)).toNat) (Fin.ext (by show off 0 + _ = off 0 + _; rw [hy0]))
  | ⟨1, _⟩ =>
    apply Fin.ext
    show 0 + 1 * (hg.idx _ x ⟨1, by decide⟩).val = (x 1).val
    rw [Shape.Gathers.idx_of_ne hg _ x ⟨1, by decide⟩ (by decide), Nat.zero_add, Nat.one_mul]
    rfl

end Value

/-! ## What a trip leaves in one 256-row piece of the result -/

section Piece

variable (d : Dev nD) (tv : Buf (Elt F) (tblLoc d)) (iv : Buf (Elt F) (idxLoc d))

omit [FloatOps F] in
/-- A row scratch written whole with `p`, copied whole onto a 256-row piece of the result: the piece's element under `x`
    holds `p x`. -/
theorem out_piece_apply (c : Thread nD τ) (sR : Memref sig c.2.kind .vmem S256x128 .f32) (fR : Buf (Elt F) (sR.view.loc c))
    (p : S256x128.Idx → Elt F .f32) (off : Fin 2 → Nat) (h : ∀ a, off a + S256x128.size a ≤ S65536x128.size a) (hs)
    (g : Buf (Elt F) (outLoc qC d)) (x : S256x128.Idx) :
    (((outV).slice (Rect.unit (s := S65536x128) off S256x128.size h) hs).view.writes (Elt F) g
        [⟨Rect.whole S256x128, ReadAs.same.apply (sR.view.read (Elt F) (sR.view.writes (Elt F) fR [⟨Rect.whole S256x128, p⟩]))⟩])
      (((outV).slice (Rect.unit (s := S65536x128) off S256x128.size h) hs).view.emb x) = p x := by
  have e1 := congrFun (View.read_writes_whole ((outV).slice (Rect.unit (s := S65536x128) off S256x128.size h) hs).view g
    (ReadAs.same.apply (sR.view.read (Elt F) (sR.view.writes (Elt F) fR [⟨Rect.whole S256x128, p⟩])))) x
  rw [View.read_apply] at e1
  refine (show _ = _ from e1).trans ?_
  rw [ReadAs.apply_same]
  exact congrFun (View.read_writes_whole sR.view fR p) x

omit [FloatOps F] in
/-- The gathered result at the element of a piece under `x`, when the index piece starts `65536 qC` entries beyond the
    row the piece starts at (call `qC`'s share of the index list). -/
theorem gathered_emb (off1 : Fin 1 → Nat) (off : Fin 2 → Nat) (h : ∀ a, off a + S256x128.size a ≤ S65536x128.size a) (hs)
    (e0 : off1 0 = (qC : Fin 8).val * 65536 + off 0) (e1 : off 1 = 0) (x : S256x128.Idx) (hlt : off1 0 + (x 0).val < 524288) :
    gathered tv iv qC (((outV).slice (Rect.unit (s := S65536x128) off S256x128.size h) hs).view.emb x)
      = tv (ix2 (rowOf (iv (ix1 ⟨off1 0 + (x 0).val, hlt⟩))) (x 1)) := by
  obtain ⟨j, hj⟩ : ∃ j : S65536x128.Idx, j = ((outV).slice (Rect.unit (s := S65536x128) off S256x128.size h) hs).view.emb x := ⟨_, rfl⟩
  have j0 : (j 0).val = off 0 + 1 * (x 0).val := by rw [hj]; rfl
  have j1 : (j 1).val = off 1 + 1 * (x 1).val := by rw [hj]; rfl
  rw [← hj]
  unfold gathered
  have a : ∀ hb, (⟨(qC : Fin 8).val * 65536 + (j 0).val, hb⟩ : Fin 524288) = ⟨off1 0 + (x 0).val, hlt⟩ := fun _ =>
    Fin.ext (by show (qC : Fin 8).val * 65536 + (j 0).val = off1 0 + (x 0).val; rw [j0, e0]; omega)
  have b : j 1 = x 1 := Fin.ext (by rw [j1, e1]; omega)
  rw [a, b]

omit [FloatOps F] in
/-- After a trip's gather and copy-out, every element of the 256-row piece holds the gathered result. -/
theorem piece_gathered (hin : ∀ e, (iv e).toNat < 32768)
    (c : Thread nD τ) (sI : Memref sig c.2.kind .vmem S256 .i32) (fI : Buf (Elt F) (sI.view.loc c))
    (sR : Memref sig c.2.kind .vmem S256x128 .f32) (fR : Buf (Elt F) (sR.view.loc c))
    (off1 : Fin 1 → Nat) (h1 : ∀ a, off1 a + S256.size a ≤ S524288.size a) (hs1) (h7) (h8)
    (hg : S32768x128.Gathers 0 S256x128) (hn : S256.numel = S256x128.size hg.axis')
    (hinI : ∀ x, ((sI.view.read (Elt F) (sI.view.write (Elt F) fI
      (ReadAs.same.apply (((idxV).slice (Rect.unit (s := S524288) off1 S256.size h1) hs1).view.read (Elt F) iv)) Finset.univ)) x).toNat
        < S32768x128.size hg.axis)
    (off : Fin 2 → Nat) (h : ∀ a, off a + S256x128.size a ≤ S65536x128.size a) (hs) (e0 : off1 0 = (qC : Fin 8).val * 65536 + off 0) (e1 : off 1 = 0)
    (g : Buf (Elt F) (outLoc qC d)) (j : S65536x128.Idx)
    (hj : j ∈ ((outV).slice (Rect.unit (s := S65536x128) off S256x128.size h) hs).view.set) :
    (((outV).slice (Rect.unit (s := S65536x128) off S256x128.size h) hs).view.writes (Elt F) g
        [⟨Rect.whole S256x128, ReadAs.same.apply (sR.view.read (Elt F) (sR.view.writes (Elt F) fR [⟨Rect.whole S256x128,
          SparseCore.gatherPayload hg (((tblV).slice (Rect.unit (s := S32768x128) ![0, 0] S32768x128.size h7) h8).view.read (Elt F) tv)
            (SparseCore.rows (sI.view.read (Elt F) (sI.view.write (Elt F) fI
              (ReadAs.same.apply (((idxV).slice (Rect.unit (s := S524288) off1 S256.size h1) hs1).view.read (Elt F) iv)) Finset.univ)) hn hinI)⟩]))⟩]) j
      = gathered tv iv qC j := by
  obtain ⟨x, -, rfl⟩ := Finset.mem_map.mp hj
  rw [out_piece_apply, gather_apply d tv iv hin, gathered_emb d tv iv off1 off h hs e0 e1]

end Piece

/-! ## The tile's rows and the pieces a trip writes -/

section Geometry

omit [FloatOps F] in
/-- Worker `w`'s rows of the result array are rows `[2048 w, 2048 w + 2048)`. -/
theorem mem_rowsSet (w : Fin 32) (j : S65536x128.Idx) :
    j ∈ rowsSet w ↔ 2048 * w.val ≤ (j 0).val ∧ (j 0).val < 2048 * w.val + 2048 := by
  unfold rowsSet rowsRect
  rw [View.set_slice_whole, Rect.mem_set_unit]
  have h1 := idx2_lt1 (n0 := 65536) (n1 := 128) j
  constructor
  · intro H
    have H0 : w.val * 2048 ≤ (j 0).val ∧ (j 0).val < w.val * 2048 + 2048 := H 0
    omega
  · intro H a
    match a with
    | ⟨0, _⟩ => show w.val * 2048 ≤ (j 0).val ∧ (j 0).val < w.val * 2048 + 2048; omega
    | ⟨1, _⟩ => show 0 * 128 ≤ (j 1).val ∧ (j 1).val < 0 * 128 + 128; omega

omit [FloatOps F] in
/-- A 256-row piece of the result array at row offset `off 0` (all 128 columns). -/
theorem mem_piece (off : Fin 2 → Nat) (h : ∀ a, off a + S256x128.size a ≤ S65536x128.size a) (hs) (j : S65536x128.Idx) :
    j ∈ ((outV).slice (Rect.unit (s := S65536x128) off S256x128.size h) hs).view.set
      ↔ (off 0 ≤ (j 0).val ∧ (j 0).val < off 0 + 256) ∧ (off 1 ≤ (j 1).val ∧ (j 1).val < off 1 + 128) := by
  show j ∈ ((View.whole main_v42_scv).slice (Rect.unit (s := S65536x128) off S256x128.size h)).set ↔ _
  rw [View.set_slice_whole, Rect.mem_set_unit]
  constructor
  · intro H; exact ⟨H 0, H 1⟩
  · rintro ⟨h0, h1⟩ a
    match a with
    | ⟨0, _⟩ => exact h0
    | ⟨1, _⟩ => exact h1

end Geometry

/-! ## Joining a trip's pieces back into the tile's rows -/

section Join

variable (d : Dev nD) (tv : Buf (Elt F) (tblLoc d)) (iv : Buf (Elt F) (idxLoc d))

/-- The rows of worker `w` below trip `k` (512 rows a trip) hold the gathered rows. -/
def doneBelow (w : Fin 32) (k : Nat) (g : Buf (Elt F) (outLoc qC d)) : Prop :=
  ∀ j ∈ rowsSet w, (j 0).val < 2048 * w.val + 512 * k → g j = gathered tv iv qC j

omit [FloatOps F] in
theorem doneBelow_zero (w : Fin 32) (g : Buf (Elt F) (outLoc qC d)) : doneBelow d tv iv w 0 g := by
  intro j hj hlt
  have := (mem_rowsSet w j).mp hj
  omega

omit [FloatOps F] in
theorem doneBelow_four (w : Fin 32) (g : Buf (Elt F) (outLoc qC d)) (h : doneBelow d tv iv w 4 g) :
    ∀ j ∈ rowsSet w, g j = gathered tv iv qC j := by
  intro j hj
  have := (mem_rowsSet w j).mp hj
  exact h j hj (by omega)

omit [FloatOps F] in
/-- A trip's first piece lies in the worker's rows; -/
theorem piece_subset (w : Fin 32) (k e : Nat) (he : e = 2048 * w.val + 512 * k) (hk : k < 4)
    (off : Fin 2 → Nat) (h : ∀ a, off a + S256x128.size a ≤ S65536x128.size a) (hs)
    (e0 : off 0 = e ∨ off 0 = e + 256) (e1 : off 1 = 0) :
    ((outV).slice (Rect.unit (s := S65536x128) off S256x128.size h) hs).view.set ⊆ rowsSet w := by
  intro j hj
  have := (mem_piece off h hs j).mp hj
  exact (mem_rowsSet w j).mpr (by omega)

omit [FloatOps F] in
/-- its second piece lies in them off the first. -/
theorem piece_subset_sdiff (w : Fin 32) (k e : Nat) (he : e = 2048 * w.val + 512 * k) (hk : k < 4)
    (off3 off4 : Fin 2 → Nat) (h3 : ∀ a, off3 a + S256x128.size a ≤ S65536x128.size a) (hs3)
    (h4 : ∀ a, off4 a + S256x128.size a ≤ S65536x128.size a) (hs4)
    (e30 : off3 0 = e) (e40 : off4 0 = e + 256) (e41 : off4 1 = 0) :
    ((outV).slice (Rect.unit (s := S65536x128) off4 S256x128.size h4) hs4).view.set
      ⊆ rowsSet w \ ((outV).slice (Rect.unit (s := S65536x128) off3 S256x128.size h3) hs3).view.set := by
  intro j hj
  have h4' := (mem_piece off4 h4 hs4 j).mp hj
  refine Finset.mem_sdiff.mpr ⟨(mem_rowsSet w j).mpr (by omega), fun hj3 => ?_⟩
  have h3' := (mem_piece off3 h3 hs3 j).mp hj3
  omega

omit [FloatOps F] in
/-- Two carved-out pieces put back at new contents. -/
theorem rejoin_two {ℓ : Loc nD τ sig} (R P3 P4 : Finset (Idx ℓ)) (hsub3 : P3 ⊆ R) (hsub4 : P4 ⊆ R \ P3) (g g3 g4 : Buf (Elt F) ℓ) :
    (iprop((ℓ ↦[P3]{fullShare} g3) ∗ (ℓ ↦[P4]{fullShare} g4) ∗ (ℓ ↦[(R \ P3) \ P4]{fullShare} g)) : sProp 𝕄)
      ⊢ ℓ ↦[R]{fullShare} (P3.piecewise g3 (P4.piecewise g4 g)) := by
  iintro ⟨H3, H4, Hr⟩
  iapply (pointsTo_join_subset (ℓ := ℓ) (q := fullShare) (I := P3) (S := R) (g := g3) (f := P4.piecewise g4 g) hsub3)
  isplitl [H3]; · iexact H3
  iapply (pointsTo_join_subset (ℓ := ℓ) (q := fullShare) (I := P4) (S := R \ P3) (g := g4) (f := g) hsub4)
  isplitl [H4]; · iexact H4
  iexact Hr

omit [FloatOps F] in
/-- Two pieces each holding the gathered rows, the rest as before, when the two pieces are all of the worker's rows
    from trip `k` up to trip `k + 1`: the rows below trip `k + 1` hold the gathered rows. -/
theorem doneBelow_step (w : Fin 32) (k : Nat) (P3 P4 : Finset (Idx (outLoc qC d)))
    (g g3 g4 : Buf (Elt F) (outLoc qC d)) (hg : doneBelow d tv iv w k g)
    (hg3 : ∀ j ∈ P3, g3 j = gathered tv iv qC j) (hg4 : ∀ j ∈ P4, g4 j = gathered tv iv qC j)
    (hcov : ∀ j : S65536x128.Idx, j ∈ rowsSet w → (j 0).val < 2048 * w.val + 512 * (k + 1) → j ∉ P3 → j ∉ P4 →
      (j 0).val < 2048 * w.val + 512 * k) :
    doneBelow d tv iv w (k + 1) (P3.piecewise g3 (P4.piecewise g4 g)) := by
  intro j hj hlt
  by_cases hj3 : j ∈ P3
  · exact (Finset.piecewise_eq_of_mem P3 g3 _ hj3).trans (hg3 j hj3)
  · refine (Finset.piecewise_eq_of_notMem P3 g3 _ hj3).trans ?_
    by_cases hj4 : j ∈ P4
    · exact (Finset.piecewise_eq_of_mem P4 g4 _ hj4).trans (hg4 j hj4)
    · exact (Finset.piecewise_eq_of_notMem P4 g4 _ hj4).trans (hg j hj (hcov j hj hlt hj3 hj4))

omit [FloatOps F] in
/-- The cover fact for a trip's two pieces. -/
theorem trip_cover (w : Fin 32) (k e : Nat) (he : e = 2048 * w.val + 512 * k)
    (off3 off4 : Fin 2 → Nat) (h3 : ∀ a, off3 a + S256x128.size a ≤ S65536x128.size a) (hs3)
    (h4 : ∀ a, off4 a + S256x128.size a ≤ S65536x128.size a) (hs4)
    (e30 : off3 0 = e) (e31 : off3 1 = 0) (e40 : off4 0 = e + 256) (e41 : off4 1 = 0) :
    ∀ j : S65536x128.Idx, j ∈ rowsSet w → (j 0).val < 2048 * w.val + 512 * (k + 1) →
      j ∉ ((outV).slice (Rect.unit (s := S65536x128) off3 S256x128.size h3) hs3).view.set →
      j ∉ ((outV).slice (Rect.unit (s := S65536x128) off4 S256x128.size h4) hs4).view.set →
      (j 0).val < 2048 * w.val + 512 * k := by
  intro j hj hlt hj3 hj4
  have hr := (mem_rowsSet w j).mp hj
  have n3 := mt (mem_piece off3 h3 hs3 j).mpr hj3
  have n4 := mt (mem_piece off4 h4 hs4 j).mpr hj4
  have := idx2_lt1 (n0 := 65536) (n1 := 128) j
  omega

end Join

end Cert.Proof.KW.C4

end
-- ==== Proof.Tile4W.lean ====
/-
  One vector subcore's task in gather call 4, at a symbolic tile. Worker `w = 2 s + c` (subcore `s` of SparseCore `c`)
  fills rows `[2048 w, 2048 w + 2048)` of the result in four trips of 512 rows. A trip copies two 256-entry pieces of the
  index list into the two index scratches, starts one indirect gather of table rows per scratch, and copies each gathered
  256 x 128 block out to its rows of the result; every transfer has its own semaphore and is waited for before the next
  one on that semaphore starts. The loop's invariant carries the value: the worker's rows below the current trip already
  hold row `r ↦ table[index[r]]`; each trip extends this by its 512 rows, and after four trips it is all 2048 rows.
-/
import proofs.«214101_g10505490006249_cont_week2b_118_28_alg».proof.Proof.TileAux4W

noncomputable section

namespace Cert.Proof.KW.C4

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 8) (Elt F) ℕ UU ℕ

variable [FloatOps F]

/-! ## The body -/

section Body

variable (d : Dev nD) (L : grid8.Coords)

/-- The worker number of the tile at grid point `L`. -/
abbrev wL (L : grid8.Coords) : Fin 32 := wid (cV L) (jV L)

/-! ### Call 4: the trips' offsets

The only facts about this call's printed offset functions that the body uses, read off their generated closed forms:
trip `k` of the tile at `L` works on rows `rowE L k` and `rowE L k + 256` of the result, and on the index entries
`65536 qC` beyond them. -/

/-- The first row of the result that trip `k` of the tile at `L` writes. -/
def rowE (L : grid8.Coords) (k : Fin k8_t1_loop.trips) : Nat := 4096 * (L 1).val + 2048 * (L 0).val + 512 * k.val

theorem rowE_eq (k : Fin k8_t1_loop.trips) : rowE L k = 2048 * (wL L).val + 512 * k.val := by
  have hwv : (wL L).val = (L 1).val * 2 + (L 0).val := rfl
  unfold rowE; rw [hwv]; omega
theorem trips_eq : Scf.trips k8_t1_loop.lb k8_t1_loop.ub k8_t1_loop.st = 4 := by decide
theorem trip_lt (k : Fin k8_t1_loop.trips) : k.val < 4 := Nat.lt_of_lt_of_le k.isLt k8_t1_abs.2.1
theorem offI0 (k : Fin k8_t1_loop.trips) : k8_off1 L k 0 = (qC : Fin 8).val * 65536 + rowE L k := by
  have h : k8_off1 L k 0 = 4096 * (L 1).val + 2048 * (L 0).val + 512 * k.val + 262144 := congrFun (k8_off1_eq L k) 0
  rw [qC_val, h]; unfold rowE; omega
theorem offI1 (k : Fin k8_t1_loop.trips) : k8_off2 L k 0 = (qC : Fin 8).val * 65536 + (rowE L k + 256) := by
  have h : k8_off2 L k 0 = 4096 * (L 1).val + 2048 * (L 0).val + 512 * k.val + 262400 := congrFun (k8_off2_eq L k) 0
  rw [qC_val, h]; unfold rowE; omega
theorem offO0 (k : Fin k8_t1_loop.trips) : k8_off3 L k 0 = rowE L k := congrFun (k8_off3_eq L k) 0
theorem offO0' (k : Fin k8_t1_loop.trips) : k8_off3 L k 1 = 0 := congrFun (k8_off3_eq L k) 1
theorem offO1 (k : Fin k8_t1_loop.trips) : k8_off4 L k 0 = rowE L k + 256 := congrFun (k8_off4_eq L k) 0
theorem offO1' (k : Fin k8_t1_loop.trips) : k8_off4 L k 1 = 0 := congrFun (k8_off4_eq L k) 1

omit [FloatOps F] in
theorem pts_tbl (q : PosShare TreeShare) (f : Buf (Elt F) (tblLoc d)) :
    ((tblV).view.loc (thrV d L) ↦{q} f : sProp 𝕄) = tblLoc d ↦{q} f := by
  simp only [Memref.view_whole, View.set_whole]
omit [FloatOps F] in
theorem pts_idx (q : PosShare TreeShare) (f : Buf (Elt F) (idxLoc d)) :
    ((idxV).view.loc (thrV d L) ↦{q} f : sProp 𝕄) = idxLoc d ↦{q} f := by
  simp only [Memref.view_whole, View.set_whole]

omit [FloatOps F] in
theorem pts_s0 (f : Buf (Elt F) ((thrV d L).loc cc8_scratch0)) :
    ((thrV d L).loc cc8_scratch0 ↦{fullShare} f : sProp 𝕄) = ((sI0).view.loc (thrV d L) ↦{fullShare} f) := rfl
omit [FloatOps F] in
theorem pts_s1 (f : Buf (Elt F) ((thrV d L).loc cc8_scratch1)) :
    ((thrV d L).loc cc8_scratch1 ↦{fullShare} f : sProp 𝕄) = ((sI1).view.loc (thrV d L) ↦{fullShare} f) := rfl
omit [FloatOps F] in
theorem pts_s2 (f : Buf (Elt F) ((thrV d L).loc cc8_scratch2)) :
    ((thrV d L).loc cc8_scratch2 ↦{fullShare} f : sProp 𝕄) = ((sR0).view.loc (thrV d L) ↦{fullShare} f) := rfl
omit [FloatOps F] in
theorem pts_s3 (f : Buf (Elt F) ((thrV d L).loc cc8_scratch3)) :
    ((thrV d L).loc cc8_scratch3 ↦{fullShare} f : sProp 𝕄) = ((sR1).view.loc (thrV d L) ↦{fullShare} f) := rfl

/-- The two 256-row pieces of the result array that trip `k` writes, as the program slices them. -/
abbrev o3 (k : Fin k8_t1_loop.trips) : Memref sig .scVector .hbm S256x128 .f32 :=
  outV.slice (Rect.unit (s := S65536x128) (k8_off3 L k) S256x128.size (k8_off3_inb L k)) (fun _ => rfl)
abbrev o4 (k : Fin k8_t1_loop.trips) : Memref sig .scVector .hbm S256x128 .f32 :=
  outV.slice (Rect.unit (s := S65536x128) (k8_off4 L k) S256x128.size (k8_off4_inb L k)) (fun _ => rfl)

/-- The loop's invariant: the table and the index list at their read shares, the tile's rows of the result with the
    rows below the trip gathered, the four scratches at some contents, the six semaphores at zero, and what the tile owes. -/
def inv (qs : PosShare TreeShare) (tv : Buf (Elt F) (tblLoc d)) (iv : Buf (Elt F) (idxLoc d))
    (O : CellTallies nD τ sig (HIx 8)) (W : Waits sig (HIx 8)) (k : Nat) (_ : PUnit) : sProp 𝕄 :=
  iprop(Transfers.MayWaits (thrV d L) (none : HIx 8) O
    ∗ ((tblV).view.loc (thrV d L) ↦{qs} tv)
    ∗ ((idxV).view.loc (thrV d L) ↦{qs} iv)
    ∗ (∃ g, ⌜doneBelow d tv iv (wL L) k g⌝ ∗ outLoc qC d ↦[rowsSet (wL L)]{fullShare} g)
    ∗ (∃ f, (sI0).view.loc (thrV d L) ↦{fullShare} f)
    ∗ (∃ f, (sI1).view.loc (thrV d L) ↦{fullShare} f)
    ∗ (∃ f, (sR0).view.loc (thrV d L) ↦{fullShare} f)
    ∗ (∃ f, (sR1).view.loc (thrV d L) ↦{fullShare} f)
    ∗ semVal (cell d L cc8_scratch4) 0 ∗ semVal (cell d L cc8_scratch5) 0 ∗ semVal (cell d L cc8_scratch6) 0
    ∗ semVal (cell d L cc8_scratch7) 0 ∗ semVal (cell d L cc8_scoped0) 0 ∗ semVal (cell d L cc8_scoped1) 0
    ∗ ∃ W', ⌜∀ p ∈ W', p ∈ W ∨ p.2 = none⌝ ∗ owes (thrV d L) O W')

omit [FloatOps F] in
/-- Whatever an index scratch held before, after a 256-entry piece of the index list is copied into it every word it
    holds names a row of the table. -/
theorem idx_inb (iv : Buf (Elt F) (idxLoc d)) (hin : ∀ e, (iv e).toNat < 32768)
    (c : Thread nD τ) (m : Memref sig c.2.kind .vmem S256 .i32) (f : Buf (Elt F) (m.view.loc c))
    (off : Fin 1 → Nat) (h : ∀ a, off a + S256.size a ≤ S524288.size a) (hs) (x : S256.Idx) :
    (m.view.read (Elt F) (m.view.write (Elt F) f
      (ReadAs.same.apply (((idxV).slice (Rect.unit (s := S524288) off S256.size h) hs).view.read (Elt F) iv)) Finset.univ) x).toNat < 32768 := by
  rw [View.read_write_univ, ReadAs.apply_same, View.read_apply]
  exact hin _
set_option maxHeartbeats 2000000 in
theorem tile_body (qs : PosShare TreeShare) (tv : Buf (Elt F) (tblLoc d)) (iv : Buf (Elt F) (idxLoc d))
    (hin : ∀ e, (iv e).toNat < 32768) (O : CellTallies nD τ sig (HIx 8)) (W : Waits sig (HIx 8)) (hO : ∀ g, O g none = 0) :
    (iprop(levAts (K (F := F)).L (K (F := F)).lev ∗ emp
        ∗ ((tblLoc d ↦{qs} tv) ∗ (idxLoc d ↦{qs} iv) ∗ ∃ f, outLoc qC d ↦[rowsSet (wL L)]{fullShare} f)
        ∗ scopedBufs (thrV d L) ∗ scopedSems0 (thrV d L) ∗ owes (thrV d L) O W) : sProp 𝕄)
      ⊢ wp frame (wpE (defs₀ (F := F)) 𝒱₀ (thrV d L) none) Set.univ
          (cc8_gather_kernel L tblV (Memref.isWhole_whole _) idxV (Memref.isWhole_whole _) outV (Memref.isWhole_whole _)
            sI0 (Memref.isWhole_whole _) sI1 (Memref.isWhole_whole _) sR0 (Memref.isWhole_whole _) sR1 (Memref.isWhole_whole _)
            cc8_scratch4 cc8_scratch5 cc8_scratch6 cc8_scratch7 cc8_scoped0 cc8_scoped1)
          fun _ => iprop(((tblLoc d ↦{qs} tv) ∗ (idxLoc d ↦{qs} iv) ∗ outLoc qC d ↦[rowsSet (wL L)]{fullShare} gathered tv iv qC)
            ∗ scopedBufs (thrV d L) ∗ scopedSems0 (thrV d L) ∗ ∃ W', ⌜∀ p ∈ W', p ∈ W ∨ p.2 = none⌝ ∗ owes (thrV d L) O W') := by
  simp only [cc8_gather_kernel_eq_skeleton]; unfold cc8_gather_kernel_skel
  rw [(K (F := F)).scopedBufs_V facts d (cV L) (jV L), SparseCore.Cfg.scopedSems0_V (Val := Elt F) d (cV L) (jV L), ownSems0_V, ownBufs_V]
  iintro ⟨#Hlv, -, ⟨Ht, Hi, %fo, Ho⟩, ⟨⟨%f0, Hb0⟩, ⟨%f1, Hb1⟩, ⟨%f2, Hb2⟩, ⟨%f3, Hb3⟩, Hbufs⟩, ⟨Hs4, Hs5, Hs6, Hs7, Hs8, Hs9, Hsems⟩, HO⟩
  ihave Hmw := ((K (F := F)).mayWaits_none (thr := thrV d L) hO) $$ Hlv
  ihave Ht' := (Entails.of_eq (pts_tbl (F := F) d L _ _).symm) $$ Ht
  ihave Hi' := (Entails.of_eq (pts_idx (F := F) d L _ _).symm) $$ Hi
  ihave Hb0' := (Entails.of_eq (pts_s0 (F := F) d L f0)) $$ Hb0
  ihave Hb1' := (Entails.of_eq (pts_s1 (F := F) d L f1)) $$ Hb1
  ihave Hb2' := (Entails.of_eq (pts_s2 (F := F) d L f2)) $$ Hb2
  ihave Hb3' := (Entails.of_eq (pts_s3 (F := F) d L f3)) $$ Hb3
  sl_exec
  sl_for (inv d L qs tv iv O W) $$ [Hmw Ht' Hi' Ho Hb0' Hb1' Hb2' Hb3' Hs4 Hs5 Hs6 Hs7 Hs8 Hs9 HO]
  case region =>
    intro k _
    unfold inv
    iintro ⟨Hmw, Ht, Hi, ⟨%g, %hg, Ho⟩, ⟨%f0, Hb0⟩, ⟨%f1, Hb1⟩, ⟨%f2, Hb2⟩, ⟨%f3, Hb3⟩, Hs4, Hs5, Hs6, Hs7, Hs8, Hs9, %W', %hW', HO⟩
    -- the trip's offsets: the row pieces start at rows `rowE` and `rowE + 256`, the index pieces `65536 qC` entries beyond
    have o30 := offO0 L k
    have o31 := offO0' L k
    have o40 := offO1 L k
    have o41 := offO1' L k
    have hE := rowE_eq L k
    have hk := trip_lt k
    have e13 : k8_off1 L k 0 = (qC : Fin 8).val * 65536 + k8_off3 L k 0 := by rw [offI0, o30]
    have e24 : k8_off2 L k 0 = (qC : Fin 8).val * 65536 + k8_off4 L k 0 := by rw [offI1, o40]
    have hsub3 : (o3 L k).view.set ⊆ rowsSet (wL L) :=
      piece_subset (wL L) k.val _ hE hk (k8_off3 L k) (k8_off3_inb L k) (fun _ => rfl) (.inl o30) o31
    have hsub4 : (o4 L k).view.set ⊆ rowsSet (wL L) \ (o3 L k).view.set :=
      piece_subset_sdiff (wL L) k.val _ hE hk (k8_off3 L k) (k8_off4 L k) (k8_off3_inb L k) (fun _ => rfl) (k8_off4_inb L k) (fun _ => rfl) o30 o40 o41
    ihave Ho' := (pointsTo_split_subset (ℓ := outLoc qC d) (q := fullShare) (f := g) (I := (o3 L k).view.set) (S := rowsSet (wL L)) hsub3).1 $$ Ho
    icases Ho' with ⟨Ho3, Hor⟩
    ihave Hor' := (pointsTo_split_subset (ℓ := outLoc qC d) (q := fullShare) (f := g) (I := (o4 L k).view.set) (S := rowsSet (wL L) \ (o3 L k).view.set) hsub4).1 $$ Hor
    icases Hor' with ⟨Ho4, Hor⟩
    ihave Ho3' := (Entails.of_eq (show (outLoc qC d ↦[(o3 L k).view.set]{fullShare} g : sProp 𝕄) = ((o3 L k).view.loc (thrV d L) ↦[(o3 L k).view.set]{fullShare} g) from rfl)) $$ Ho3
    ihave Ho4' := (Entails.of_eq (show (outLoc qC d ↦[(o4 L k).view.set]{fullShare} g : sProp 𝕄) = ((o4 L k).view.loc (thrV d L) ↦[(o4 L k).view.set]{fullShare} g) from rfl)) $$ Ho4
    -- the words each index scratch holds once its piece of the list has landed name rows of the table
    have hin0 : ∀ x : S256.Idx, ((sI0).view.read (Elt F) ((sI0).view.write (Elt F) f0 (ReadAs.same.apply (((idxV).slice
        (Rect.unit (s := S524288) (k8_off1 L k) S256.size (k8_off1_inb L k)) (fun _ => rfl)).view.read (Elt F) iv)) Finset.univ) x).toNat < 32768 :=
      idx_inb (F := F) d iv hin (thrV d L) sI0 f0 _ _ _
    have hin1 : ∀ x : S256.Idx, ((sI1).view.read (Elt F) ((sI1).view.write (Elt F) f1 (ReadAs.same.apply (((idxV).slice
        (Rect.unit (s := S524288) (k8_off2 L k) S256.size (k8_off2_inb L k)) (fun _ => rfl)).view.read (Elt F) iv)) Finset.univ) x).toNat < 32768 :=
      idx_inb (F := F) d iv hin (thrV d L) sI1 f1 _ _ _
    -- both gathers read the table while the other is outstanding: a read share each
    ihave Ht2 := (pointsTo_share (ℓ := (tblV).view.loc (thrV d L)) (I := Finset.univ) (f := tv) (PosShare.mem_left_op_right qs)).1 $$ Ht
    icases Ht2 with ⟨Hta, Htb⟩
    -- what the two copy-outs leave in their pieces is the gathered rows
    have hgth : S32768x128.Gathers 0 S256x128 := by decide
    have hg3 := fun j hj => piece_gathered (F := F) d tv iv hin (thrV d L) sI0 f0 sR0 f2 (k8_off1 L k) (k8_off1_inb L k) (fun _ => rfl)
      inb_S32768x128_S32768x128_0_0 (fun _ => rfl) hgth rfl hin0 (k8_off3 L k) (k8_off3_inb L k) (fun _ => rfl) e13 o31 g j hj
    have hg4 := fun j hj => piece_gathered (F := F) d tv iv hin (thrV d L) sI1 f1 sR1 f3 (k8_off2 L k) (k8_off2_inb L k) (fun _ => rfl)
      inb_S32768x128_S32768x128_0_0 (fun _ => rfl) hgth rfl hin1 (k8_off4 L k) (k8_off4_inb L k) (fun _ => rfl) e24 o41 g j hj
    sl_exec
    sl_step
    isplitl [Hmw]; · iexact Hmw
    isplitl [Hta Htb]
    · iapply (pointsTo_share (ℓ := (tblV).view.loc (thrV d L)) (I := Finset.univ) (f := tv) (PosShare.mem_left_op_right qs)).2
      isplitl [Hta]; · iexact Hta
      iexact Htb
    isplitl [Hi]; · iexact Hi
    isplitl [Ho3' Ho4' Hor]
    · ihave Hj := (rejoin_two (F := F) (ℓ := outLoc qC d) (rowsSet (wL L)) (o3 L k).view.set (o4 L k).view.set hsub3 hsub4 g _ _) $$ [Ho3' Ho4' Hor]
      · isplitl [Ho3']; · iexact Ho3'
        isplitl [Ho4']; · iexact Ho4'
        iexact Hor
      iexists _
      isplitr
      · ipureintro
        exact doneBelow_step (F := F) d tv iv (wL L) k.val (o3 L k).view.set (o4 L k).view.set g _ _ hg hg3 hg4
          (trip_cover (wL L) k.val _ hE (k8_off3 L k) (k8_off4 L k) (k8_off3_inb L k) (fun _ => rfl) (k8_off4_inb L k) (fun _ => rfl) o30 o31 o40 o41)
      · iexact Hj
    isplitl [Hb0]; · iexists _; iexact Hb0
    isplitl [Hb1]; · iexists _; iexact Hb1
    isplitl [Hb2]; · iexists _; iexact Hb2
    isplitl [Hb3]; · iexists _; iexact Hb3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    iexists _; isplitr
    swap
    · iexact HO
    · ipureintro; intro p hp
      simp only [Finset.mem_insert] at hp
      rcases hp with rfl | rfl | rfl | rfl | rfl | rfl | hp
      · exact .inr rfl
      · exact .inr rfl
      · exact .inr rfl
      · exact .inr rfl
      · exact .inr rfl
      · exact .inr rfl
      · exact hW' p hp
  · unfold inv
    isplitl [Hmw]; · iexact Hmw
    isplitl [Ht']; · iexact Ht'
    isplitl [Hi']; · iexact Hi'
    isplitl [Ho]
    · iexists fo; isplitr
      · ipureintro; exact doneBelow_zero d tv iv (wL L) fo
      · iexact Ho
    isplitl [Hb0']; · iexists f0; iexact Hb0'
    isplitl [Hb1']; · iexists f1; iexact Hb1'
    isplitl [Hb2']; · iexists f2; iexact Hb2'
    isplitl [Hb3']; · iexists f3; iexact Hb3'
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    iexists W; isplitr
    · ipureintro; exact fun p hp => .inl hp
    · iexact HO
  iintro %_ HI
  unfold inv
  icases HI with ⟨-, Ht, Hi, ⟨%g, %hg, Ho⟩, ⟨%f0', Hb0⟩, ⟨%f1', Hb1⟩, ⟨%f2', Hb2⟩, ⟨%f3', Hb3⟩, Hs4, Hs5, Hs6, Hs7, Hs8, Hs9, %W', %hW', HO⟩
  rw [trips_eq] at hg
  sl_exec
  sl_step
  isplitl [Ht Hi Ho]
  · isplitl [Ht]; · iapply (Entails.of_eq (pts_tbl (F := F) d L _ _)); iexact Ht
    isplitl [Hi]; · iapply (Entails.of_eq (pts_idx (F := F) d L _ _)); iexact Hi
    iapply (Entails.of_eq (pointsTo_congr (ℓ := outLoc qC d) (q := fullShare) (I := rowsSet (wL L)) (doneBelow_four d tv iv (wL L) g hg)))
    iexact Ho
  isplitl [Hb0 Hb1 Hb2 Hb3 Hbufs]
  · isplitl [Hb0]; · iexists f0'; iapply (Entails.of_eq (pts_s0 (F := F) d L f0').symm); iexact Hb0
    isplitl [Hb1]; · iexists f1'; iapply (Entails.of_eq (pts_s1 (F := F) d L f1').symm); iexact Hb1
    isplitl [Hb2]; · iexists f2'; iapply (Entails.of_eq (pts_s2 (F := F) d L f2').symm); iexact Hb2
    isplitl [Hb3]; · iexists f3'; iapply (Entails.of_eq (pts_s3 (F := F) d L f3').symm); iexact Hb3
    iexact Hbufs
  isplitl [Hs4 Hs5 Hs6 Hs7 Hs8 Hs9 Hsems]
  · isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    iexact Hsems
  iexists W'; isplitr
  · ipureintro; exact hW'
  · iexact HO

end Body

end Cert.Proof.KW.C4

end
-- ==== Proof.TileObl4W.lean ====
/-
  The launch theorem's obligation for gather call 4: a tile's task, entered through the body table, is the kernel's
  body at that tile, run on the tile's share of the table and the index list and on its worker's rows.
-/
import proofs.«214101_g10505490006249_cont_week2b_118_28_alg».proof.Proof.LaunchW
import proofs.«214101_g10505490006249_cont_week2b_118_28_alg».proof.Proof.Tile4W
import proofs.«214101_g10505490006249_cont_week2b_118_28_alg».proof.Proof.TileObl0W

noncomputable section

namespace Cert.Proof.KW.C4

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Transfers (shareTok shareDrop pointsTo_toks_split pointsTo_toks_join)

variable {F : FTy → Type}

local notation "𝕄" => MT nD τ sig (HIx 8) (Elt F) ℕ UU ℕ

variable [FloatOps F]
variable (tv : (d : Dev nD) → S32768x128.Idx → Elt F .f32) (iv : (d : Dev nD) → S524288.Idx → Elt F .i32)

/-- A tile's grid coordinates from its SparseCore and subcore numbers. -/
def coordsV (c : Fin (grid8.bound 0)) (s : Fin (grid8.bound 1)) : grid8.Coords :=
  fun | 0 => c | 1 => s | ⟨_ + 2, h⟩ => absurd h (Nat.not_lt.2 (Nat.le_add_left _ _))

theorem defs₀_vector4 (c : Fin τ.nSC) (s : Fin τ.nSub) :
    defs₀ (F := F) (.scVector c s) 8 ()
      = SparseCore.onTile hcore8 hsub8 (fun c s => cc8_gather_kernel (coordsV c s)
          tblV (Memref.isWhole_whole _) idxV (Memref.isWhole_whole _) outV (Memref.isWhole_whole _)
          sI0 (Memref.isWhole_whole _) sI1 (Memref.isWhole_whole _) sR0 (Memref.isWhole_whole _) sR1 (Memref.isWhole_whole _)
          cc8_scratch4 cc8_scratch5 cc8_scratch6 cc8_scratch7 cc8_scoped0 cc8_scoped1) ⟨⟩ c s := rfl

/-- Call 4's tile obligation. -/
theorem tileObl4 (hin : ∀ d e, (iv d e).toNat < 32768) : (K (F := F)).TileObl (D (F := F)) 𝒱 (P (F := F) tv iv) v₀ 4 := by
  intro d c i O W hO _ _
  -- the gather kernel owes nothing for a protocol of its own
  simp only [show (P (F := F) tv iv).ox = fun _ _ => 0 from rfl, add_zero]
  change _ ⊢ wp _ _ _ (Pipeline.liftProg (defs₀ (F := F) (.scVector ((K (F := F)).core 4 c) ((K (F := F)).sub 4 i)) 8 ())) _
  refine BI.Entails.trans ?_ (Pipeline.wp_liftProg (D (F := F)) (Pipeline.defs_kernel pcfgs defs₀) 𝒱₀ _ Set.univ none _ _)
  have hc : ((K (F := F)).core 4 c).val < grid8.bound 0 ∧ ((K (F := F)).sub 4 i).val < grid8.bound 1 := ⟨c.isLt, i.isLt⟩
  rw [defs₀_vector4]; simp only [SparseCore.onTile, hc, and_self, ↓reduceDIte]
  exact (tile_body d (coordsV ⟨_, hc.1⟩ ⟨_, hc.2⟩) (shT (cC 4 c) (sS 4 i)) (tv d) (iv d) (hin d) O W hO).trans (wp_mono frame _ _ fun _ => obl_post)

end Cert.Proof.KW.C4

end
-- ==== Proof.TileAux5W.lean ====
/-
  One vector subcore's share of a gather call, the pure part: how the subcore's scoped semaphores and scratch buffers are
  opened, what an indirect gather of 256 table rows delivers element by element, which elements of the result array a
  trip's two copy-outs write, and how those pieces rejoin the subcore's 2048 rows of the result.
-/
import proofs.«214101_g10505490006249_cont_week2b_118_28_alg».proof.Proof.SetupW

noncomputable section

namespace Cert.Proof.KW.C5

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 8) (Elt F) ℕ UU ℕ

/-! ## The names of gather call 5

Everything that is particular to this one of the eight gather calls is named here (and, for the trips' offsets, at the
top of the body's module): the call's number, its result array, its scratch buffers. The text below speaks of the call
only through these names and through the program's own `cc10_…` / `k10_…` names. -/

/-- The number of this gather call among the eight: it reads index entries `65536 qC + …` and fills result array `qC`. -/
abbrev qC : Fin 8 := 5
theorem qC_val : (qC : Fin 8).val = 5 := rfl

abbrev tblV : Memref sig .scVector .hbm S32768x128 .f32 := Memref.whole main_v10_scv
abbrev idxV : Memref sig .scVector .hbm S524288 .i32 := Memref.whole main_v6_scv
abbrev outV : Memref sig .scVector .hbm S65536x128 .f32 := Memref.whole main_v44_scv
abbrev sI0 : Memref sig .scVector .vmem S256 .i32 := Memref.whole cc10_scratch0
abbrev sI1 : Memref sig .scVector .vmem S256 .i32 := Memref.whole cc10_scratch1
abbrev sR0 : Memref sig .scVector .vmem S256x128 .f32 := Memref.whole cc10_scratch2
abbrev sR1 : Memref sig .scVector .vmem S256x128 .f32 := Memref.whole cc10_scratch3

abbrev cV (L : grid10.Coords) : Fin τ.nSC := (L 0).castLE hcore10
abbrev jV (L : grid10.Coords) : Fin τ.nSub := (L 1).castLE hsub10
abbrev thrV (d : Dev nD) (L : grid10.Coords) : Thread nD τ := V d (cV L) (jV L)

variable [FloatOps F]

/-! ## The tile's own semaphores and scratch buffers -/

section Own

variable (d : Dev nD) (L : grid10.Coords)

/-- The cell of one of the tile's DMA semaphores. -/
abbrev cell (sm : DmaSems sig S_) : GSem nD τ sig := (thrV d L, .dma sm.sem)

omit [FloatOps F] in
theorem cell_mem {sm : DmaSems sig S_} (h : (SemLoc.dma sm.sem : SemLoc sig).isScoped .scVector = true) :
    cell d L sm ∈ ownCells (sig := sig) (thrV d L) := (mem_ownCells (g := cell d L sm)).mpr ⟨rfl, h⟩

theorem cell_ne {a b : DmaSems sig S_} (h : (SemLoc.dma a.sem : SemLoc sig) ≠ .dma b.sem) : cell d L a ≠ cell d L b :=
  fun e => h (Prod.mk.inj e).2

/-- The tile's scoped cells other than the six the gather uses. -/
abbrev restCells : Finset (GSem nD τ sig) :=
  ((((((ownCells (thrV d L)).erase (cell d L cc10_scratch4)).erase (cell d L cc10_scratch5)).erase (cell d L cc10_scratch6)).erase
    (cell d L cc10_scratch7)).erase (cell d L cc10_scoped0)).erase (cell d L cc10_scoped1)

theorem ownSems0_V :
    (ownSems0 (thrV d L) : sProp 𝕄)
      = iprop(semVal (cell d L cc10_scratch4) 0 ∗ semVal (cell d L cc10_scratch5) 0 ∗ semVal (cell d L cc10_scratch6) 0
          ∗ semVal (cell d L cc10_scratch7) 0 ∗ semVal (cell d L cc10_scoped0) 0 ∗ semVal (cell d L cc10_scoped1) 0
          ∗ bigSep (restCells d L) fun g => semVal g 0) := by
  unfold SparseCore.Cfg.ownSems0
  have m4 := cell_mem d L (sm := cc10_scratch4) (by decide)
  have m5 := cell_mem d L (sm := cc10_scratch5) (by decide)
  have m6 := cell_mem d L (sm := cc10_scratch6) (by decide)
  have m7 := cell_mem d L (sm := cc10_scratch7) (by decide)
  have m8 := cell_mem d L (sm := cc10_scoped0) (by decide)
  have m9 := cell_mem d L (sm := cc10_scoped1) (by decide)
  rw [SparseCore.bigSep_erase' m4,
    SparseCore.bigSep_erase' (Finset.mem_erase.mpr ⟨cell_ne d L (by decide), m5⟩),
    SparseCore.bigSep_erase' (Finset.mem_erase.mpr ⟨cell_ne d L (by decide), Finset.mem_erase.mpr ⟨cell_ne d L (by decide), m6⟩⟩),
    SparseCore.bigSep_erase' (Finset.mem_erase.mpr ⟨cell_ne d L (by decide), Finset.mem_erase.mpr ⟨cell_ne d L (by decide),
      Finset.mem_erase.mpr ⟨cell_ne d L (by decide), m7⟩⟩⟩),
    SparseCore.bigSep_erase' (Finset.mem_erase.mpr ⟨cell_ne d L (by decide), Finset.mem_erase.mpr ⟨cell_ne d L (by decide),
      Finset.mem_erase.mpr ⟨cell_ne d L (by decide), Finset.mem_erase.mpr ⟨cell_ne d L (by decide), m8⟩⟩⟩⟩),
    SparseCore.bigSep_erase' (Finset.mem_erase.mpr ⟨cell_ne d L (by decide), Finset.mem_erase.mpr ⟨cell_ne d L (by decide),
      Finset.mem_erase.mpr ⟨cell_ne d L (by decide), Finset.mem_erase.mpr ⟨cell_ne d L (by decide),
      Finset.mem_erase.mpr ⟨cell_ne d L (by decide), m9⟩⟩⟩⟩⟩)]

/-- One of the tile's scratch buffers, as a buffer of the device. -/
abbrev sref (b : Ref sig .scVector) : DevRef τ sig := (Proc.scVector (cV L) (jV L)).devRef b

theorem sref_mem {b : Ref sig .scVector} (h : (sref L b).owner = .proc (.scVector (cV L) (jV L))) :
    sref L b ∈ ownRefs (sig := sig) (τ := τ) (.scVector (cV L) (jV L)) :=
  SparseCore.Cfg.mem_ownRefs_of_owner (p := Proc.scVector (cV L) (jV L)) (b := sref L b) h

theorem sref_ne {a b : Ref sig .scVector} (h : a ≠ b) : sref L a ≠ sref L b := fun e => h (Proc.devRef_injective _ e)

/-- The tile's own buffers other than the gather's four scratches. -/
abbrev restRefs : Finset (DevRef τ sig) :=
  ((((ownRefs (τ := τ) (.scVector (cV L) (jV L))).erase (sref L cc10_scratch0)).erase (sref L cc10_scratch1)).erase (sref L cc10_scratch2)).erase
    (sref L cc10_scratch3)

theorem ownBufs_V :
    (ownBufs (thrV d L) : sProp 𝕄)
      = iprop((∃ f, (thrV d L).loc cc10_scratch0 ↦{fullShare} f) ∗ (∃ f, (thrV d L).loc cc10_scratch1 ↦{fullShare} f)
          ∗ (∃ f, (thrV d L).loc cc10_scratch2 ↦{fullShare} f) ∗ (∃ f, (thrV d L).loc cc10_scratch3 ↦{fullShare} f)
          ∗ bigSep (restRefs L) fun b => iprop(∃ f, ((d, b) : Loc nD τ sig) ↦{fullShare} f)) := by
  unfold SparseCore.Cfg.ownBufs
  refine (SparseCore.bigSep_erase' (sref_mem L (b := cc10_scratch0) rfl)).trans ?_
  rw [SparseCore.bigSep_erase' (Finset.mem_erase.mpr ⟨sref_ne L (show (cc10_scratch1 : Ref sig .scVector) ≠ cc10_scratch0 by decide), sref_mem L (b := cc10_scratch1) rfl⟩),
    SparseCore.bigSep_erase' (Finset.mem_erase.mpr ⟨sref_ne L (show (cc10_scratch2 : Ref sig .scVector) ≠ cc10_scratch1 by decide),
      Finset.mem_erase.mpr ⟨sref_ne L (show (cc10_scratch2 : Ref sig .scVector) ≠ cc10_scratch0 by decide), sref_mem L (b := cc10_scratch2) rfl⟩⟩),
    SparseCore.bigSep_erase' (Finset.mem_erase.mpr ⟨sref_ne L (show (cc10_scratch3 : Ref sig .scVector) ≠ cc10_scratch2 by decide),
      Finset.mem_erase.mpr ⟨sref_ne L (show (cc10_scratch3 : Ref sig .scVector) ≠ cc10_scratch1 by decide),
      Finset.mem_erase.mpr ⟨sref_ne L (show (cc10_scratch3 : Ref sig .scVector) ≠ cc10_scratch0 by decide), sref_mem L (b := cc10_scratch3) rfl⟩⟩⟩)]

end Own

/-! ## What one gather delivers -/

section Value

variable (d : Dev nD) (tv : Buf (Elt F) (tblLoc d)) (iv : Buf (Elt F) (idxLoc d))

omit [FloatOps F] in
/-- Entry `y` of the 256-entry piece of the index list that starts at `off` is entry `off + y` of the list. -/
theorem idxPiece_read (off : Fin 1 → Nat) (h : ∀ a, off a + S256.size a ≤ S524288.size a) (hs) (y : S256.Idx) :
    ((idxV).slice (Rect.unit (s := S524288) off S256.size h) hs).view.read (Elt F) iv y
      = iv (ix1 ⟨off 0 + (y 0).val, by have := h 0; have := (y 0).isLt; exact Nat.lt_of_lt_of_le (Nat.add_lt_add_left this _) (h 0)⟩) := by
  rw [View.read_apply]
  refine congrArg iv (funext fun a => ?_)
  match a with
  | ⟨0, _⟩ => exact Fin.ext (by show off 0 + 1 * (y 0).val = off 0 + (y 0).val; omega)

omit [FloatOps F] in
/-- The gather's payload at an index: row `x 0` of the scratch receives the table's row named by entry `off + x 0` of
    the index list, when the index scratch was filled with the 256 entries from `off`. -/
theorem gather_apply (hin : ∀ e, (iv e).toNat < 32768)
    (c : Thread nD τ) (sI : Memref sig c.2.kind .vmem S256 .i32) (fI : Buf (Elt F) (sI.view.loc c))
    (off : Fin 1 → Nat) (h : ∀ a, off a + S256.size a ≤ S524288.size a) (hs) (h7) (h8)
    (hg : S32768x128.Gathers 0 S256x128) (hn : S256.numel = S256x128.size hg.axis')
    (hinI : ∀ x, ((sI.view.read (Elt F) (sI.view.write (Elt F) fI
      (ReadAs.same.apply (((idxV).slice (Rect.unit (s := S524288) off S256.size h) hs).view.read (Elt F) iv)) Finset.univ)) x).toNat
        < S32768x128.size hg.axis)
    (x : S256x128.Idx) :
    SparseCore.gatherPayload hg (((tblV).slice (Rect.unit (s := S32768x128) ![0, 0] S32768x128.size h7) h8).view.read (Elt F) tv)
        (SparseCore.rows (sI.view.read (Elt F) (sI.view.write (Elt F) fI
          (ReadAs.same.apply (((idxV).slice (Rect.unit (s := S524288) off S256.size h) hs).view.read (Elt F) iv)) Finset.univ)) hn hinI) x
      = tv (ix2 (rowOf (iv (ix1 ⟨off 0 + (x 0).val, by
          have := h 0; have := idx2_lt0 (n0 := 256) (n1 := 128) x
          exact Nat.lt_of_lt_of_le (Nat.add_lt_add_left this _) (h 0)⟩))) (x 1)) := by
  unfold SparseCore.gatherPayload
  rw [View.read_apply]
  refine congrArg tv (funext fun a => ?_)
  have hy0 : ((S256.rowMajor.symm ((x hg.axis').cast hn.symm)) 0).val = (x 0).val := by
    have e := Shape.rowMajor_val_one (d := ![256]) (S256.rowMajor.symm ((x hg.axis').cast hn.symm))
    rw [Equiv.apply_symm_apply] at e
    exact e.symm
  match a with
  | ⟨0, _⟩ =>
    apply Fin.ext
    show 0 + 1 * (hg.idx _ x hg.axis).val = _
    rw [Shape.Gathers.idx_axis]
    show 0 + 1 * ((sI.view.read (Elt F) (sI.view.write (Elt F) fI (ReadAs.same.apply
      (((idxV).slice (Rect.unit (s := S524288) off S256.size h) hs).view.read (Elt F) iv)) Finset.univ))
        (S256.rowMajor.symm ((x hg.axis').cast hn.symm))).toNat = (iv (ix1 ⟨off 0 + (x 0).val, _⟩)).toNat % 32768
    rw [View.read_write_univ, ReadAs.apply_same, idxPiece_read, Nat.mod_eq_of_lt (hin _), Nat.zero_add, Nat.one_mul]
    exact congrArg (fun n : Fin 524288 => (iv (ix1 n)).toNat) (Fin.ext (by show off 0 + _ = off 0 + _; rw [hy0]))
  | ⟨1, _⟩ =>
    apply Fin.ext
    show 0 + 1 * (hg.idx _ x ⟨1, by decide⟩).val = (x 1).val
    rw [Shape.Gathers.idx_of_ne hg _ x ⟨1, by decide⟩ (by decide), Nat.zero_add, Nat.one_mul]
    rfl

end Value

/-! ## What a trip leaves in one 256-row piece of the result -/

section Piece

variable (d : Dev nD) (tv : Buf (Elt F) (tblLoc d)) (iv : Buf (Elt F) (idxLoc d))

omit [FloatOps F] in
/-- A row scratch written whole with `p`, copied whole onto a 256-row piece of the result: the piece's element under `x`
    holds `p x`. -/
theorem out_piece_apply (c : Thread nD τ) (sR : Memref sig c.2.kind .vmem S256x128 .f32) (fR : Buf (Elt F) (sR.view.loc c))
    (p : S256x128.Idx → Elt F .f32) (off : Fin 2 → Nat) (h : ∀ a, off a + S256x128.size a ≤ S65536x128.size a) (hs)
    (g : Buf (Elt F) (outLoc qC d)) (x : S256x128.Idx) :
    (((outV).slice (Rect.unit (s := S65536x128) off S256x128.size h) hs).view.writes (Elt F) g
        [⟨Rect.whole S256x128, ReadAs.same.apply (sR.view.read (Elt F) (sR.view.writes (Elt F) fR [⟨Rect.whole S256x128, p⟩]))⟩])
      (((outV).slice (Rect.unit (s := S65536x128) off S256x128.size h) hs).view.emb x) = p x := by
  have e1 := congrFun (View.read_writes_whole ((outV).slice (Rect.unit (s := S65536x128) off S256x128.size h) hs).view g
    (ReadAs.same.apply (sR.view.read (Elt F) (sR.view.writes (Elt F) fR [⟨Rect.whole S256x128, p⟩])))) x
  rw [View.read_apply] at e1
  refine (show _ = _ from e1).trans ?_
  rw [ReadAs.apply_same]
  exact congrFun (View.read_writes_whole sR.view fR p) x

omit [FloatOps F] in
/-- The gathered result at the element of a piece under `x`, when the index piece starts `65536 qC` entries beyond the
    row the piece starts at (call `qC`'s share of the index list). -/
theorem gathered_emb (off1 : Fin 1 → Nat) (off : Fin 2 → Nat) (h : ∀ a, off a + S256x128.size a ≤ S65536x128.size a) (hs)
    (e0 : off1 0 = (qC : Fin 8).val * 65536 + off 0) (e1 : off 1 = 0) (x : S256x128.Idx) (hlt : off1 0 + (x 0).val < 524288) :
    gathered tv iv qC (((outV).slice (Rect.unit (s := S65536x128) off S256x128.size h) hs).view.emb x)
      = tv (ix2 (rowOf (iv (ix1 ⟨off1 0 + (x 0).val, hlt⟩))) (x 1)) := by
  obtain ⟨j, hj⟩ : ∃ j : S65536x128.Idx, j = ((outV).slice (Rect.unit (s := S65536x128) off S256x128.size h) hs).view.emb x := ⟨_, rfl⟩
  have j0 : (j 0).val = off 0 + 1 * (x 0).val := by rw [hj]; rfl
  have j1 : (j 1).val = off 1 + 1 * (x 1).val := by rw [hj]; rfl
  rw [← hj]
  unfold gathered
  have a : ∀ hb, (⟨(qC : Fin 8).val * 65536 + (j 0).val, hb⟩ : Fin 524288) = ⟨off1 0 + (x 0).val, hlt⟩ := fun _ =>
    Fin.ext (by show (qC : Fin 8).val * 65536 + (j 0).val = off1 0 + (x 0).val; rw [j0, e0]; omega)
  have b : j 1 = x 1 := Fin.ext (by rw [j1, e1]; omega)
  rw [a, b]

omit [FloatOps F] in
/-- After a trip's gather and copy-out, every element of the 256-row piece holds the gathered result. -/
theorem piece_gathered (hin : ∀ e, (iv e).toNat < 32768)
    (c : Thread nD τ) (sI : Memref sig c.2.kind .vmem S256 .i32) (fI : Buf (Elt F) (sI.view.loc c))
    (sR : Memref sig c.2.kind .vmem S256x128 .f32) (fR : Buf (Elt F) (sR.view.loc c))
    (off1 : Fin 1 → Nat) (h1 : ∀ a, off1 a + S256.size a ≤ S524288.size a) (hs1) (h7) (h8)
    (hg : S32768x128.Gathers 0 S256x128) (hn : S256.numel = S256x128.size hg.axis')
    (hinI : ∀ x, ((sI.view.read (Elt F) (sI.view.write (Elt F) fI
      (ReadAs.same.apply (((idxV).slice (Rect.unit (s := S524288) off1 S256.size h1) hs1).view.read (Elt F) iv)) Finset.univ)) x).toNat
        < S32768x128.size hg.axis)
    (off : Fin 2 → Nat) (h : ∀ a, off a + S256x128.size a ≤ S65536x128.size a) (hs) (e0 : off1 0 = (qC : Fin 8).val * 65536 + off 0) (e1 : off 1 = 0)
    (g : Buf (Elt F) (outLoc qC d)) (j : S65536x128.Idx)
    (hj : j ∈ ((outV).slice (Rect.unit (s := S65536x128) off S256x128.size h) hs).view.set) :
    (((outV).slice (Rect.unit (s := S65536x128) off S256x128.size h) hs).view.writes (Elt F) g
        [⟨Rect.whole S256x128, ReadAs.same.apply (sR.view.read (Elt F) (sR.view.writes (Elt F) fR [⟨Rect.whole S256x128,
          SparseCore.gatherPayload hg (((tblV).slice (Rect.unit (s := S32768x128) ![0, 0] S32768x128.size h7) h8).view.read (Elt F) tv)
            (SparseCore.rows (sI.view.read (Elt F) (sI.view.write (Elt F) fI
              (ReadAs.same.apply (((idxV).slice (Rect.unit (s := S524288) off1 S256.size h1) hs1).view.read (Elt F) iv)) Finset.univ)) hn hinI)⟩]))⟩]) j
      = gathered tv iv qC j := by
  obtain ⟨x, -, rfl⟩ := Finset.mem_map.mp hj
  rw [out_piece_apply, gather_apply d tv iv hin, gathered_emb d tv iv off1 off h hs e0 e1]

end Piece

/-! ## The tile's rows and the pieces a trip writes -/

section Geometry

omit [FloatOps F] in
/-- Worker `w`'s rows of the result array are rows `[2048 w, 2048 w + 2048)`. -/
theorem mem_rowsSet (w : Fin 32) (j : S65536x128.Idx) :
    j ∈ rowsSet w ↔ 2048 * w.val ≤ (j 0).val ∧ (j 0).val < 2048 * w.val + 2048 := by
  unfold rowsSet rowsRect
  rw [View.set_slice_whole, Rect.mem_set_unit]
  have h1 := idx2_lt1 (n0 := 65536) (n1 := 128) j
  constructor
  · intro H
    have H0 : w.val * 2048 ≤ (j 0).val ∧ (j 0).val < w.val * 2048 + 2048 := H 0
    omega
  · intro H a
    match a with
    | ⟨0, _⟩ => show w.val * 2048 ≤ (j 0).val ∧ (j 0).val < w.val * 2048 + 2048; omega
    | ⟨1, _⟩ => show 0 * 128 ≤ (j 1).val ∧ (j 1).val < 0 * 128 + 128; omega

omit [FloatOps F] in
/-- A 256-row piece of the result array at row offset `off 0` (all 128 columns). -/
theorem mem_piece (off : Fin 2 → Nat) (h : ∀ a, off a + S256x128.size a ≤ S65536x128.size a) (hs) (j : S65536x128.Idx) :
    j ∈ ((outV).slice (Rect.unit (s := S65536x128) off S256x128.size h) hs).view.set
      ↔ (off 0 ≤ (j 0).val ∧ (j 0).val < off 0 + 256) ∧ (off 1 ≤ (j 1).val ∧ (j 1).val < off 1 + 128) := by
  show j ∈ ((View.whole main_v44_scv).slice (Rect.unit (s := S65536x128) off S256x128.size h)).set ↔ _
  rw [View.set_slice_whole, Rect.mem_set_unit]
  constructor
  · intro H; exact ⟨H 0, H 1⟩
  · rintro ⟨h0, h1⟩ a
    match a with
    | ⟨0, _⟩ => exact h0
    | ⟨1, _⟩ => exact h1

end Geometry

/-! ## Joining a trip's pieces back into the tile's rows -/

section Join

variable (d : Dev nD) (tv : Buf (Elt F) (tblLoc d)) (iv : Buf (Elt F) (idxLoc d))

/-- The rows of worker `w` below trip `k` (512 rows a trip) hold the gathered rows. -/
def doneBelow (w : Fin 32) (k : Nat) (g : Buf (Elt F) (outLoc qC d)) : Prop :=
  ∀ j ∈ rowsSet w, (j 0).val < 2048 * w.val + 512 * k → g j = gathered tv iv qC j

omit [FloatOps F] in
theorem doneBelow_zero (w : Fin 32) (g : Buf (Elt F) (outLoc qC d)) : doneBelow d tv iv w 0 g := by
  intro j hj hlt
  have := (mem_rowsSet w j).mp hj
  omega

omit [FloatOps F] in
theorem doneBelow_four (w : Fin 32) (g : Buf (Elt F) (outLoc qC d)) (h : doneBelow d tv iv w 4 g) :
    ∀ j ∈ rowsSet w, g j = gathered tv iv qC j := by
  intro j hj
  have := (mem_rowsSet w j).mp hj
  exact h j hj (by omega)

omit [FloatOps F] in
/-- A trip's first piece lies in the worker's rows; -/
theorem piece_subset (w : Fin 32) (k e : Nat) (he : e = 2048 * w.val + 512 * k) (hk : k < 4)
    (off : Fin 2 → Nat) (h : ∀ a, off a + S256x128.size a ≤ S65536x128.size a) (hs)
    (e0 : off 0 = e ∨ off 0 = e + 256) (e1 : off 1 = 0) :
    ((outV).slice (Rect.unit (s := S65536x128) off S256x128.size h) hs).view.set ⊆ rowsSet w := by
  intro j hj
  have := (mem_piece off h hs j).mp hj
  exact (mem_rowsSet w j).mpr (by omega)

omit [FloatOps F] in
/-- its second piece lies in them off the first. -/
theorem piece_subset_sdiff (w : Fin 32) (k e : Nat) (he : e = 2048 * w.val + 512 * k) (hk : k < 4)
    (off3 off4 : Fin 2 → Nat) (h3 : ∀ a, off3 a + S256x128.size a ≤ S65536x128.size a) (hs3)
    (h4 : ∀ a, off4 a + S256x128.size a ≤ S65536x128.size a) (hs4)
    (e30 : off3 0 = e) (e40 : off4 0 = e + 256) (e41 : off4 1 = 0) :
    ((outV).slice (Rect.unit (s := S65536x128) off4 S256x128.size h4) hs4).view.set
      ⊆ rowsSet w \ ((outV).slice (Rect.unit (s := S65536x128) off3 S256x128.size h3) hs3).view.set := by
  intro j hj
  have h4' := (mem_piece off4 h4 hs4 j).mp hj
  refine Finset.mem_sdiff.mpr ⟨(mem_rowsSet w j).mpr (by omega), fun hj3 => ?_⟩
  have h3' := (mem_piece off3 h3 hs3 j).mp hj3
  omega

omit [FloatOps F] in
/-- Two carved-out pieces put back at new contents. -/
theorem rejoin_two {ℓ : Loc nD τ sig} (R P3 P4 : Finset (Idx ℓ)) (hsub3 : P3 ⊆ R) (hsub4 : P4 ⊆ R \ P3) (g g3 g4 : Buf (Elt F) ℓ) :
    (iprop((ℓ ↦[P3]{fullShare} g3) ∗ (ℓ ↦[P4]{fullShare} g4) ∗ (ℓ ↦[(R \ P3) \ P4]{fullShare} g)) : sProp 𝕄)
      ⊢ ℓ ↦[R]{fullShare} (P3.piecewise g3 (P4.piecewise g4 g)) := by
  iintro ⟨H3, H4, Hr⟩
  iapply (pointsTo_join_subset (ℓ := ℓ) (q := fullShare) (I := P3) (S := R) (g := g3) (f := P4.piecewise g4 g) hsub3)
  isplitl [H3]; · iexact H3
  iapply (pointsTo_join_subset (ℓ := ℓ) (q := fullShare) (I := P4) (S := R \ P3) (g := g4) (f := g) hsub4)
  isplitl [H4]; · iexact H4
  iexact Hr

omit [FloatOps F] in
/-- Two pieces each holding the gathered rows, the rest as before, when the two pieces are all of the worker's rows
    from trip `k` up to trip `k + 1`: the rows below trip `k + 1` hold the gathered rows. -/
theorem doneBelow_step (w : Fin 32) (k : Nat) (P3 P4 : Finset (Idx (outLoc qC d)))
    (g g3 g4 : Buf (Elt F) (outLoc qC d)) (hg : doneBelow d tv iv w k g)
    (hg3 : ∀ j ∈ P3, g3 j = gathered tv iv qC j) (hg4 : ∀ j ∈ P4, g4 j = gathered tv iv qC j)
    (hcov : ∀ j : S65536x128.Idx, j ∈ rowsSet w → (j 0).val < 2048 * w.val + 512 * (k + 1) → j ∉ P3 → j ∉ P4 →
      (j 0).val < 2048 * w.val + 512 * k) :
    doneBelow d tv iv w (k + 1) (P3.piecewise g3 (P4.piecewise g4 g)) := by
  intro j hj hlt
  by_cases hj3 : j ∈ P3
  · exact (Finset.piecewise_eq_of_mem P3 g3 _ hj3).trans (hg3 j hj3)
  · refine (Finset.piecewise_eq_of_notMem P3 g3 _ hj3).trans ?_
    by_cases hj4 : j ∈ P4
    · exact (Finset.piecewise_eq_of_mem P4 g4 _ hj4).trans (hg4 j hj4)
    · exact (Finset.piecewise_eq_of_notMem P4 g4 _ hj4).trans (hg j hj (hcov j hj hlt hj3 hj4))

omit [FloatOps F] in
/-- The cover fact for a trip's two pieces. -/
theorem trip_cover (w : Fin 32) (k e : Nat) (he : e = 2048 * w.val + 512 * k)
    (off3 off4 : Fin 2 → Nat) (h3 : ∀ a, off3 a + S256x128.size a ≤ S65536x128.size a) (hs3)
    (h4 : ∀ a, off4 a + S256x128.size a ≤ S65536x128.size a) (hs4)
    (e30 : off3 0 = e) (e31 : off3 1 = 0) (e40 : off4 0 = e + 256) (e41 : off4 1 = 0) :
    ∀ j : S65536x128.Idx, j ∈ rowsSet w → (j 0).val < 2048 * w.val + 512 * (k + 1) →
      j ∉ ((outV).slice (Rect.unit (s := S65536x128) off3 S256x128.size h3) hs3).view.set →
      j ∉ ((outV).slice (Rect.unit (s := S65536x128) off4 S256x128.size h4) hs4).view.set →
      (j 0).val < 2048 * w.val + 512 * k := by
  intro j hj hlt hj3 hj4
  have hr := (mem_rowsSet w j).mp hj
  have n3 := mt (mem_piece off3 h3 hs3 j).mpr hj3
  have n4 := mt (mem_piece off4 h4 hs4 j).mpr hj4
  have := idx2_lt1 (n0 := 65536) (n1 := 128) j
  omega

end Join

end Cert.Proof.KW.C5

end
-- ==== Proof.Tile5W.lean ====
/-
  One vector subcore's task in gather call 5, at a symbolic tile. Worker `w = 2 s + c` (subcore `s` of SparseCore `c`)
  fills rows `[2048 w, 2048 w + 2048)` of the result in four trips of 512 rows. A trip copies two 256-entry pieces of the
  index list into the two index scratches, starts one indirect gather of table rows per scratch, and copies each gathered
  256 x 128 block out to its rows of the result; every transfer has its own semaphore and is waited for before the next
  one on that semaphore starts. The loop's invariant carries the value: the worker's rows below the current trip already
  hold row `r ↦ table[index[r]]`; each trip extends this by its 512 rows, and after four trips it is all 2048 rows.
-/
import proofs.«214101_g10505490006249_cont_week2b_118_28_alg».proof.Proof.TileAux5W

noncomputable section

namespace Cert.Proof.KW.C5

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 8) (Elt F) ℕ UU ℕ

variable [FloatOps F]

/-! ## The body -/

section Body

variable (d : Dev nD) (L : grid10.Coords)

/-- The worker number of the tile at grid point `L`. -/
abbrev wL (L : grid10.Coords) : Fin 32 := wid (cV L) (jV L)

/-! ### Call 5: the trips' offsets

The only facts about this call's printed offset functions that the body uses, read off their generated closed forms:
trip `k` of the tile at `L` works on rows `rowE L k` and `rowE L k + 256` of the result, and on the index entries
`65536 qC` beyond them. -/

/-- The first row of the result that trip `k` of the tile at `L` writes. -/
def rowE (L : grid10.Coords) (k : Fin k10_t1_loop.trips) : Nat := 4096 * (L 1).val + 2048 * (L 0).val + 512 * k.val

theorem rowE_eq (k : Fin k10_t1_loop.trips) : rowE L k = 2048 * (wL L).val + 512 * k.val := by
  have hwv : (wL L).val = (L 1).val * 2 + (L 0).val := rfl
  unfold rowE; rw [hwv]; omega
theorem trips_eq : Scf.trips k10_t1_loop.lb k10_t1_loop.ub k10_t1_loop.st = 4 := by decide
theorem trip_lt (k : Fin k10_t1_loop.trips) : k.val < 4 := Nat.lt_of_lt_of_le k.isLt k10_t1_abs.2.1
theorem offI0 (k : Fin k10_t1_loop.trips) : k10_off1 L k 0 = (qC : Fin 8).val * 65536 + rowE L k := by
  have h : k10_off1 L k 0 = 4096 * (L 1).val + 2048 * (L 0).val + 512 * k.val + 327680 := congrFun (k10_off1_eq L k) 0
  rw [qC_val, h]; unfold rowE; omega
theorem offI1 (k : Fin k10_t1_loop.trips) : k10_off2 L k 0 = (qC : Fin 8).val * 65536 + (rowE L k + 256) := by
  have h : k10_off2 L k 0 = 4096 * (L 1).val + 2048 * (L 0).val + 512 * k.val + 327936 := congrFun (k10_off2_eq L k) 0
  rw [qC_val, h]; unfold rowE; omega
theorem offO0 (k : Fin k10_t1_loop.trips) : k10_off3 L k 0 = rowE L k := congrFun (k10_off3_eq L k) 0
theorem offO0' (k : Fin k10_t1_loop.trips) : k10_off3 L k 1 = 0 := congrFun (k10_off3_eq L k) 1
theorem offO1 (k : Fin k10_t1_loop.trips) : k10_off4 L k 0 = rowE L k + 256 := congrFun (k10_off4_eq L k) 0
theorem offO1' (k : Fin k10_t1_loop.trips) : k10_off4 L k 1 = 0 := congrFun (k10_off4_eq L k) 1

omit [FloatOps F] in
theorem pts_tbl (q : PosShare TreeShare) (f : Buf (Elt F) (tblLoc d)) :
    ((tblV).view.loc (thrV d L) ↦{q} f : sProp 𝕄) = tblLoc d ↦{q} f := by
  simp only [Memref.view_whole, View.set_whole]
omit [FloatOps F] in
theorem pts_idx (q : PosShare TreeShare) (f : Buf (Elt F) (idxLoc d)) :
    ((idxV).view.loc (thrV d L) ↦{q} f : sProp 𝕄) = idxLoc d ↦{q} f := by
  simp only [Memref.view_whole, View.set_whole]

omit [FloatOps F] in
theorem pts_s0 (f : Buf (Elt F) ((thrV d L).loc cc10_scratch0)) :
    ((thrV d L).loc cc10_scratch0 ↦{fullShare} f : sProp 𝕄) = ((sI0).view.loc (thrV d L) ↦{fullShare} f) := rfl
omit [FloatOps F] in
theorem pts_s1 (f : Buf (Elt F) ((thrV d L).loc cc10_scratch1)) :
    ((thrV d L).loc cc10_scratch1 ↦{fullShare} f : sProp 𝕄) = ((sI1).view.loc (thrV d L) ↦{fullShare} f) := rfl
omit [FloatOps F] in
theorem pts_s2 (f : Buf (Elt F) ((thrV d L).loc cc10_scratch2)) :
    ((thrV d L).loc cc10_scratch2 ↦{fullShare} f : sProp 𝕄) = ((sR0).view.loc (thrV d L) ↦{fullShare} f) := rfl
omit [FloatOps F] in
theorem pts_s3 (f : Buf (Elt F) ((thrV d L).loc cc10_scratch3)) :
    ((thrV d L).loc cc10_scratch3 ↦{fullShare} f : sProp 𝕄) = ((sR1).view.loc (thrV d L) ↦{fullShare} f) := rfl

/-- The two 256-row pieces of the result array that trip `k` writes, as the program slices them. -/
abbrev o3 (k : Fin k10_t1_loop.trips) : Memref sig .scVector .hbm S256x128 .f32 :=
  outV.slice (Rect.unit (s := S65536x128) (k10_off3 L k) S256x128.size (k10_off3_inb L k)) (fun _ => rfl)
abbrev o4 (k : Fin k10_t1_loop.trips) : Memref sig .scVector .hbm S256x128 .f32 :=
  outV.slice (Rect.unit (s := S65536x128) (k10_off4 L k) S256x128.size (k10_off4_inb L k)) (fun _ => rfl)

/-- The loop's invariant: the table and the index list at their read shares, the tile's rows of the result with the
    rows below the trip gathered, the four scratches at some contents, the six semaphores at zero, and what the tile owes. -/
def inv (qs : PosShare TreeShare) (tv : Buf (Elt F) (tblLoc d)) (iv : Buf (Elt F) (idxLoc d))
    (O : CellTallies nD τ sig (HIx 8)) (W : Waits sig (HIx 8)) (k : Nat) (_ : PUnit) : sProp 𝕄 :=
  iprop(Transfers.MayWaits (thrV d L) (none : HIx 8) O
    ∗ ((tblV).view.loc (thrV d L) ↦{qs} tv)
    ∗ ((idxV).view.loc (thrV d L) ↦{qs} iv)
    ∗ (∃ g, ⌜doneBelow d tv iv (wL L) k g⌝ ∗ outLoc qC d ↦[rowsSet (wL L)]{fullShare} g)
    ∗ (∃ f, (sI0).view.loc (thrV d L) ↦{fullShare} f)
    ∗ (∃ f, (sI1).view.loc (thrV d L) ↦{fullShare} f)
    ∗ (∃ f, (sR0).view.loc (thrV d L) ↦{fullShare} f)
    ∗ (∃ f, (sR1).view.loc (thrV d L) ↦{fullShare} f)
    ∗ semVal (cell d L cc10_scratch4) 0 ∗ semVal (cell d L cc10_scratch5) 0 ∗ semVal (cell d L cc10_scratch6) 0
    ∗ semVal (cell d L cc10_scratch7) 0 ∗ semVal (cell d L cc10_scoped0) 0 ∗ semVal (cell d L cc10_scoped1) 0
    ∗ ∃ W', ⌜∀ p ∈ W', p ∈ W ∨ p.2 = none⌝ ∗ owes (thrV d L) O W')

omit [FloatOps F] in
/-- Whatever an index scratch held before, after a 256-entry piece of the index list is copied into it every word it
    holds names a row of the table. -/
theorem idx_inb (iv : Buf (Elt F) (idxLoc d)) (hin : ∀ e, (iv e).toNat < 32768)
    (c : Thread nD τ) (m : Memref sig c.2.kind .vmem S256 .i32) (f : Buf (Elt F) (m.view.loc c))
    (off : Fin 1 → Nat) (h : ∀ a, off a + S256.size a ≤ S524288.size a) (hs) (x : S256.Idx) :
    (m.view.read (Elt F) (m.view.write (Elt F) f
      (ReadAs.same.apply (((idxV).slice (Rect.unit (s := S524288) off S256.size h) hs).view.read (Elt F) iv)) Finset.univ) x).toNat < 32768 := by
  rw [View.read_write_univ, ReadAs.apply_same, View.read_apply]
  exact hin _
set_option maxHeartbeats 2000000 in
theorem tile_body (qs : PosShare TreeShare) (tv : Buf (Elt F) (tblLoc d)) (iv : Buf (Elt F) (idxLoc d))
    (hin : ∀ e, (iv e).toNat < 32768) (O : CellTallies nD τ sig (HIx 8)) (W : Waits sig (HIx 8)) (hO : ∀ g, O g none = 0) :
    (iprop(levAts (K (F := F)).L (K (F := F)).lev ∗ emp
        ∗ ((tblLoc d ↦{qs} tv) ∗ (idxLoc d ↦{qs} iv) ∗ ∃ f, outLoc qC d ↦[rowsSet (wL L)]{fullShare} f)
        ∗ scopedBufs (thrV d L) ∗ scopedSems0 (thrV d L) ∗ owes (thrV d L) O W) : sProp 𝕄)
      ⊢ wp frame (wpE (defs₀ (F := F)) 𝒱₀ (thrV d L) none) Set.univ
          (cc10_gather_kernel L tblV (Memref.isWhole_whole _) idxV (Memref.isWhole_whole _) outV (Memref.isWhole_whole _)
            sI0 (Memref.isWhole_whole _) sI1 (Memref.isWhole_whole _) sR0 (Memref.isWhole_whole _) sR1 (Memref.isWhole_whole _)
            cc10_scratch4 cc10_scratch5 cc10_scratch6 cc10_scratch7 cc10_scoped0 cc10_scoped1)
          fun _ => iprop(((tblLoc d ↦{qs} tv) ∗ (idxLoc d ↦{qs} iv) ∗ outLoc qC d ↦[rowsSet (wL L)]{fullShare} gathered tv iv qC)
            ∗ scopedBufs (thrV d L) ∗ scopedSems0 (thrV d L) ∗ ∃ W', ⌜∀ p ∈ W', p ∈ W ∨ p.2 = none⌝ ∗ owes (thrV d L) O W') := by
  simp only [cc10_gather_kernel_eq_skeleton]; unfold cc10_gather_kernel_skel
  rw [(K (F := F)).scopedBufs_V facts d (cV L) (jV L), SparseCore.Cfg.scopedSems0_V (Val := Elt F) d (cV L) (jV L), ownSems0_V, ownBufs_V]
  iintro ⟨#Hlv, -, ⟨Ht, Hi, %fo, Ho⟩, ⟨⟨%f0, Hb0⟩, ⟨%f1, Hb1⟩, ⟨%f2, Hb2⟩, ⟨%f3, Hb3⟩, Hbufs⟩, ⟨Hs4, Hs5, Hs6, Hs7, Hs8, Hs9, Hsems⟩, HO⟩
  ihave Hmw := ((K (F := F)).mayWaits_none (thr := thrV d L) hO) $$ Hlv
  ihave Ht' := (Entails.of_eq (pts_tbl (F := F) d L _ _).symm) $$ Ht
  ihave Hi' := (Entails.of_eq (pts_idx (F := F) d L _ _).symm) $$ Hi
  ihave Hb0' := (Entails.of_eq (pts_s0 (F := F) d L f0)) $$ Hb0
  ihave Hb1' := (Entails.of_eq (pts_s1 (F := F) d L f1)) $$ Hb1
  ihave Hb2' := (Entails.of_eq (pts_s2 (F := F) d L f2)) $$ Hb2
  ihave Hb3' := (Entails.of_eq (pts_s3 (F := F) d L f3)) $$ Hb3
  sl_exec
  sl_for (inv d L qs tv iv O W) $$ [Hmw Ht' Hi' Ho Hb0' Hb1' Hb2' Hb3' Hs4 Hs5 Hs6 Hs7 Hs8 Hs9 HO]
  case region =>
    intro k _
    unfold inv
    iintro ⟨Hmw, Ht, Hi, ⟨%g, %hg, Ho⟩, ⟨%f0, Hb0⟩, ⟨%f1, Hb1⟩, ⟨%f2, Hb2⟩, ⟨%f3, Hb3⟩, Hs4, Hs5, Hs6, Hs7, Hs8, Hs9, %W', %hW', HO⟩
    -- the trip's offsets: the row pieces start at rows `rowE` and `rowE + 256`, the index pieces `65536 qC` entries beyond
    have o30 := offO0 L k
    have o31 := offO0' L k
    have o40 := offO1 L k
    have o41 := offO1' L k
    have hE := rowE_eq L k
    have hk := trip_lt k
    have e13 : k10_off1 L k 0 = (qC : Fin 8).val * 65536 + k10_off3 L k 0 := by rw [offI0, o30]
    have e24 : k10_off2 L k 0 = (qC : Fin 8).val * 65536 + k10_off4 L k 0 := by rw [offI1, o40]
    have hsub3 : (o3 L k).view.set ⊆ rowsSet (wL L) :=
      piece_subset (wL L) k.val _ hE hk (k10_off3 L k) (k10_off3_inb L k) (fun _ => rfl) (.inl o30) o31
    have hsub4 : (o4 L k).view.set ⊆ rowsSet (wL L) \ (o3 L k).view.set :=
      piece_subset_sdiff (wL L) k.val _ hE hk (k10_off3 L k) (k10_off4 L k) (k10_off3_inb L k) (fun _ => rfl) (k10_off4_inb L k) (fun _ => rfl) o30 o40 o41
    ihave Ho' := (pointsTo_split_subset (ℓ := outLoc qC d) (q := fullShare) (f := g) (I := (o3 L k).view.set) (S := rowsSet (wL L)) hsub3).1 $$ Ho
    icases Ho' with ⟨Ho3, Hor⟩
    ihave Hor' := (pointsTo_split_subset (ℓ := outLoc qC d) (q := fullShare) (f := g) (I := (o4 L k).view.set) (S := rowsSet (wL L) \ (o3 L k).view.set) hsub4).1 $$ Hor
    icases Hor' with ⟨Ho4, Hor⟩
    ihave Ho3' := (Entails.of_eq (show (outLoc qC d ↦[(o3 L k).view.set]{fullShare} g : sProp 𝕄) = ((o3 L k).view.loc (thrV d L) ↦[(o3 L k).view.set]{fullShare} g) from rfl)) $$ Ho3
    ihave Ho4' := (Entails.of_eq (show (outLoc qC d ↦[(o4 L k).view.set]{fullShare} g : sProp 𝕄) = ((o4 L k).view.loc (thrV d L) ↦[(o4 L k).view.set]{fullShare} g) from rfl)) $$ Ho4
    -- the words each index scratch holds once its piece of the list has landed name rows of the table
    have hin0 : ∀ x : S256.Idx, ((sI0).view.read (Elt F) ((sI0).view.write (Elt F) f0 (ReadAs.same.apply (((idxV).slice
        (Rect.unit (s := S524288) (k10_off1 L k) S256.size (k10_off1_inb L k)) (fun _ => rfl)).view.read (Elt F) iv)) Finset.univ) x).toNat < 32768 :=
      idx_inb (F := F) d iv hin (thrV d L) sI0 f0 _ _ _
    have hin1 : ∀ x : S256.Idx, ((sI1).view.read (Elt F) ((sI1).view.write (Elt F) f1 (ReadAs.same.apply (((idxV).slice
        (Rect.unit (s := S524288) (k10_off2 L k) S256.size (k10_off2_inb L k)) (fun _ => rfl)).view.read (Elt F) iv)) Finset.univ) x).toNat < 32768 :=
      idx_inb (F := F) d iv hin (thrV d L) sI1 f1 _ _ _
    -- both gathers read the table while the other is outstanding: a read share each
    ihave Ht2 := (pointsTo_share (ℓ := (tblV).view.loc (thrV d L)) (I := Finset.univ) (f := tv) (PosShare.mem_left_op_right qs)).1 $$ Ht
    icases Ht2 with ⟨Hta, Htb⟩
    -- what the two copy-outs leave in their pieces is the gathered rows
    have hgth : S32768x128.Gathers 0 S256x128 := by decide
    have hg3 := fun j hj => piece_gathered (F := F) d tv iv hin (thrV d L) sI0 f0 sR0 f2 (k10_off1 L k) (k10_off1_inb L k) (fun _ => rfl)
      inb_S32768x128_S32768x128_0_0 (fun _ => rfl) hgth rfl hin0 (k10_off3 L k) (k10_off3_inb L k) (fun _ => rfl) e13 o31 g j hj
    have hg4 := fun j hj => piece_gathered (F := F) d tv iv hin (thrV d L) sI1 f1 sR1 f3 (k10_off2 L k) (k10_off2_inb L k) (fun _ => rfl)
      inb_S32768x128_S32768x128_0_0 (fun _ => rfl) hgth rfl hin1 (k10_off4 L k) (k10_off4_inb L k) (fun _ => rfl) e24 o41 g j hj
    sl_exec
    sl_step
    isplitl [Hmw]; · iexact Hmw
    isplitl [Hta Htb]
    · iapply (pointsTo_share (ℓ := (tblV).view.loc (thrV d L)) (I := Finset.univ) (f := tv) (PosShare.mem_left_op_right qs)).2
      isplitl [Hta]; · iexact Hta
      iexact Htb
    isplitl [Hi]; · iexact Hi
    isplitl [Ho3' Ho4' Hor]
    · ihave Hj := (rejoin_two (F := F) (ℓ := outLoc qC d) (rowsSet (wL L)) (o3 L k).view.set (o4 L k).view.set hsub3 hsub4 g _ _) $$ [Ho3' Ho4' Hor]
      · isplitl [Ho3']; · iexact Ho3'
        isplitl [Ho4']; · iexact Ho4'
        iexact Hor
      iexists _
      isplitr
      · ipureintro
        exact doneBelow_step (F := F) d tv iv (wL L) k.val (o3 L k).view.set (o4 L k).view.set g _ _ hg hg3 hg4
          (trip_cover (wL L) k.val _ hE (k10_off3 L k) (k10_off4 L k) (k10_off3_inb L k) (fun _ => rfl) (k10_off4_inb L k) (fun _ => rfl) o30 o31 o40 o41)
      · iexact Hj
    isplitl [Hb0]; · iexists _; iexact Hb0
    isplitl [Hb1]; · iexists _; iexact Hb1
    isplitl [Hb2]; · iexists _; iexact Hb2
    isplitl [Hb3]; · iexists _; iexact Hb3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    iexists _; isplitr
    swap
    · iexact HO
    · ipureintro; intro p hp
      simp only [Finset.mem_insert] at hp
      rcases hp with rfl | rfl | rfl | rfl | rfl | rfl | hp
      · exact .inr rfl
      · exact .inr rfl
      · exact .inr rfl
      · exact .inr rfl
      · exact .inr rfl
      · exact .inr rfl
      · exact hW' p hp
  · unfold inv
    isplitl [Hmw]; · iexact Hmw
    isplitl [Ht']; · iexact Ht'
    isplitl [Hi']; · iexact Hi'
    isplitl [Ho]
    · iexists fo; isplitr
      · ipureintro; exact doneBelow_zero d tv iv (wL L) fo
      · iexact Ho
    isplitl [Hb0']; · iexists f0; iexact Hb0'
    isplitl [Hb1']; · iexists f1; iexact Hb1'
    isplitl [Hb2']; · iexists f2; iexact Hb2'
    isplitl [Hb3']; · iexists f3; iexact Hb3'
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    iexists W; isplitr
    · ipureintro; exact fun p hp => .inl hp
    · iexact HO
  iintro %_ HI
  unfold inv
  icases HI with ⟨-, Ht, Hi, ⟨%g, %hg, Ho⟩, ⟨%f0', Hb0⟩, ⟨%f1', Hb1⟩, ⟨%f2', Hb2⟩, ⟨%f3', Hb3⟩, Hs4, Hs5, Hs6, Hs7, Hs8, Hs9, %W', %hW', HO⟩
  rw [trips_eq] at hg
  sl_exec
  sl_step
  isplitl [Ht Hi Ho]
  · isplitl [Ht]; · iapply (Entails.of_eq (pts_tbl (F := F) d L _ _)); iexact Ht
    isplitl [Hi]; · iapply (Entails.of_eq (pts_idx (F := F) d L _ _)); iexact Hi
    iapply (Entails.of_eq (pointsTo_congr (ℓ := outLoc qC d) (q := fullShare) (I := rowsSet (wL L)) (doneBelow_four d tv iv (wL L) g hg)))
    iexact Ho
  isplitl [Hb0 Hb1 Hb2 Hb3 Hbufs]
  · isplitl [Hb0]; · iexists f0'; iapply (Entails.of_eq (pts_s0 (F := F) d L f0').symm); iexact Hb0
    isplitl [Hb1]; · iexists f1'; iapply (Entails.of_eq (pts_s1 (F := F) d L f1').symm); iexact Hb1
    isplitl [Hb2]; · iexists f2'; iapply (Entails.of_eq (pts_s2 (F := F) d L f2').symm); iexact Hb2
    isplitl [Hb3]; · iexists f3'; iapply (Entails.of_eq (pts_s3 (F := F) d L f3').symm); iexact Hb3
    iexact Hbufs
  isplitl [Hs4 Hs5 Hs6 Hs7 Hs8 Hs9 Hsems]
  · isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    iexact Hsems
  iexists W'; isplitr
  · ipureintro; exact hW'
  · iexact HO

end Body

end Cert.Proof.KW.C5

end
-- ==== Proof.TileObl5W.lean ====
/-
  The launch theorem's obligation for gather call 5: a tile's task, entered through the body table, is the kernel's
  body at that tile, run on the tile's share of the table and the index list and on its worker's rows.
-/
import proofs.«214101_g10505490006249_cont_week2b_118_28_alg».proof.Proof.LaunchW
import proofs.«214101_g10505490006249_cont_week2b_118_28_alg».proof.Proof.Tile5W
import proofs.«214101_g10505490006249_cont_week2b_118_28_alg».proof.Proof.TileObl0W

noncomputable section

namespace Cert.Proof.KW.C5

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Transfers (shareTok shareDrop pointsTo_toks_split pointsTo_toks_join)

variable {F : FTy → Type}

local notation "𝕄" => MT nD τ sig (HIx 8) (Elt F) ℕ UU ℕ

variable [FloatOps F]
variable (tv : (d : Dev nD) → S32768x128.Idx → Elt F .f32) (iv : (d : Dev nD) → S524288.Idx → Elt F .i32)

/-- A tile's grid coordinates from its SparseCore and subcore numbers. -/
def coordsV (c : Fin (grid10.bound 0)) (s : Fin (grid10.bound 1)) : grid10.Coords :=
  fun | 0 => c | 1 => s | ⟨_ + 2, h⟩ => absurd h (Nat.not_lt.2 (Nat.le_add_left _ _))

theorem defs₀_vector5 (c : Fin τ.nSC) (s : Fin τ.nSub) :
    defs₀ (F := F) (.scVector c s) 10 ()
      = SparseCore.onTile hcore10 hsub10 (fun c s => cc10_gather_kernel (coordsV c s)
          tblV (Memref.isWhole_whole _) idxV (Memref.isWhole_whole _) outV (Memref.isWhole_whole _)
          sI0 (Memref.isWhole_whole _) sI1 (Memref.isWhole_whole _) sR0 (Memref.isWhole_whole _) sR1 (Memref.isWhole_whole _)
          cc10_scratch4 cc10_scratch5 cc10_scratch6 cc10_scratch7 cc10_scoped0 cc10_scoped1) ⟨⟩ c s := rfl

/-- Call 5's tile obligation. -/
theorem tileObl5 (hin : ∀ d e, (iv d e).toNat < 32768) : (K (F := F)).TileObl (D (F := F)) 𝒱 (P (F := F) tv iv) v₀ 5 := by
  intro d c i O W hO _ _
  -- the gather kernel owes nothing for a protocol of its own
  simp only [show (P (F := F) tv iv).ox = fun _ _ => 0 from rfl, add_zero]
  change _ ⊢ wp _ _ _ (Pipeline.liftProg (defs₀ (F := F) (.scVector ((K (F := F)).core 5 c) ((K (F := F)).sub 5 i)) 10 ())) _
  refine BI.Entails.trans ?_ (Pipeline.wp_liftProg (D (F := F)) (Pipeline.defs_kernel pcfgs defs₀) 𝒱₀ _ Set.univ none _ _)
  have hc : ((K (F := F)).core 5 c).val < grid10.bound 0 ∧ ((K (F := F)).sub 5 i).val < grid10.bound 1 := ⟨c.isLt, i.isLt⟩
  rw [defs₀_vector5]; simp only [SparseCore.onTile, hc, and_self, ↓reduceDIte]
  exact (tile_body d (coordsV ⟨_, hc.1⟩ ⟨_, hc.2⟩) (shT (cC 5 c) (sS 5 i)) (tv d) (iv d) (hin d) O W hO).trans (wp_mono frame _ _ fun _ => obl_post)

end Cert.Proof.KW.C5

end
-- ==== Proof.TileAux6W.lean ====
/-
  One vector subcore's share of a gather call, the pure part: how the subcore's scoped semaphores and scratch buffers are
  opened, what an indirect gather of 256 table rows delivers element by element, which elements of the result array a
  trip's two copy-outs write, and how those pieces rejoin the subcore's 2048 rows of the result.
-/
import proofs.«214101_g10505490006249_cont_week2b_118_28_alg».proof.Proof.SetupW

noncomputable section

namespace Cert.Proof.KW.C6

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 8) (Elt F) ℕ UU ℕ

/-! ## The names of gather call 6

Everything that is particular to this one of the eight gather calls is named here (and, for the trips' offsets, at the
top of the body's module): the call's number, its result array, its scratch buffers. The text below speaks of the call
only through these names and through the program's own `cc12_…` / `k12_…` names. -/

/-- The number of this gather call among the eight: it reads index entries `65536 qC + …` and fills result array `qC`. -/
abbrev qC : Fin 8 := 6
theorem qC_val : (qC : Fin 8).val = 6 := rfl

abbrev tblV : Memref sig .scVector .hbm S32768x128 .f32 := Memref.whole main_v10_scv
abbrev idxV : Memref sig .scVector .hbm S524288 .i32 := Memref.whole main_v6_scv
abbrev outV : Memref sig .scVector .hbm S65536x128 .f32 := Memref.whole main_v46_scv
abbrev sI0 : Memref sig .scVector .vmem S256 .i32 := Memref.whole cc12_scratch0
abbrev sI1 : Memref sig .scVector .vmem S256 .i32 := Memref.whole cc12_scratch1
abbrev sR0 : Memref sig .scVector .vmem S256x128 .f32 := Memref.whole cc12_scratch2
abbrev sR1 : Memref sig .scVector .vmem S256x128 .f32 := Memref.whole cc12_scratch3

abbrev cV (L : grid12.Coords) : Fin τ.nSC := (L 0).castLE hcore12
abbrev jV (L : grid12.Coords) : Fin τ.nSub := (L 1).castLE hsub12
abbrev thrV (d : Dev nD) (L : grid12.Coords) : Thread nD τ := V d (cV L) (jV L)

variable [FloatOps F]

/-! ## The tile's own semaphores and scratch buffers -/

section Own

variable (d : Dev nD) (L : grid12.Coords)

/-- The cell of one of the tile's DMA semaphores. -/
abbrev cell (sm : DmaSems sig S_) : GSem nD τ sig := (thrV d L, .dma sm.sem)

omit [FloatOps F] in
theorem cell_mem {sm : DmaSems sig S_} (h : (SemLoc.dma sm.sem : SemLoc sig).isScoped .scVector = true) :
    cell d L sm ∈ ownCells (sig := sig) (thrV d L) := (mem_ownCells (g := cell d L sm)).mpr ⟨rfl, h⟩

theorem cell_ne {a b : DmaSems sig S_} (h : (SemLoc.dma a.sem : SemLoc sig) ≠ .dma b.sem) : cell d L a ≠ cell d L b :=
  fun e => h (Prod.mk.inj e).2

/-- The tile's scoped cells other than the six the gather uses. -/
abbrev restCells : Finset (GSem nD τ sig) :=
  ((((((ownCells (thrV d L)).erase (cell d L cc12_scratch4)).erase (cell d L cc12_scratch5)).erase (cell d L cc12_scratch6)).erase
    (cell d L cc12_scratch7)).erase (cell d L cc12_scoped0)).erase (cell d L cc12_scoped1)

theorem ownSems0_V :
    (ownSems0 (thrV d L) : sProp 𝕄)
      = iprop(semVal (cell d L cc12_scratch4) 0 ∗ semVal (cell d L cc12_scratch5) 0 ∗ semVal (cell d L cc12_scratch6) 0
          ∗ semVal (cell d L cc12_scratch7) 0 ∗ semVal (cell d L cc12_scoped0) 0 ∗ semVal (cell d L cc12_scoped1) 0
          ∗ bigSep (restCells d L) fun g => semVal g 0) := by
  unfold SparseCore.Cfg.ownSems0
  have m4 := cell_mem d L (sm := cc12_scratch4) (by decide)
  have m5 := cell_mem d L (sm := cc12_scratch5) (by decide)
  have m6 := cell_mem d L (sm := cc12_scratch6) (by decide)
  have m7 := cell_mem d L (sm := cc12_scratch7) (by decide)
  have m8 := cell_mem d L (sm := cc12_scoped0) (by decide)
  have m9 := cell_mem d L (sm := cc12_scoped1) (by decide)
  rw [SparseCore.bigSep_erase' m4,
    SparseCore.bigSep_erase' (Finset.mem_erase.mpr ⟨cell_ne d L (by decide), m5⟩),
    SparseCore.bigSep_erase' (Finset.mem_erase.mpr ⟨cell_ne d L (by decide), Finset.mem_erase.mpr ⟨cell_ne d L (by decide), m6⟩⟩),
    SparseCore.bigSep_erase' (Finset.mem_erase.mpr ⟨cell_ne d L (by decide), Finset.mem_erase.mpr ⟨cell_ne d L (by decide),
      Finset.mem_erase.mpr ⟨cell_ne d L (by decide), m7⟩⟩⟩),
    SparseCore.bigSep_erase' (Finset.mem_erase.mpr ⟨cell_ne d L (by decide), Finset.mem_erase.mpr ⟨cell_ne d L (by decide),
      Finset.mem_erase.mpr ⟨cell_ne d L (by decide), Finset.mem_erase.mpr ⟨cell_ne d L (by decide), m8⟩⟩⟩⟩),
    SparseCore.bigSep_erase' (Finset.mem_erase.mpr ⟨cell_ne d L (by decide), Finset.mem_erase.mpr ⟨cell_ne d L (by decide),
      Finset.mem_erase.mpr ⟨cell_ne d L (by decide), Finset.mem_erase.mpr ⟨cell_ne d L (by decide),
      Finset.mem_erase.mpr ⟨cell_ne d L (by decide), m9⟩⟩⟩⟩⟩)]

/-- One of the tile's scratch buffers, as a buffer of the device. -/
abbrev sref (b : Ref sig .scVector) : DevRef τ sig := (Proc.scVector (cV L) (jV L)).devRef b

theorem sref_mem {b : Ref sig .scVector} (h : (sref L b).owner = .proc (.scVector (cV L) (jV L))) :
    sref L b ∈ ownRefs (sig := sig) (τ := τ) (.scVector (cV L) (jV L)) :=
  SparseCore.Cfg.mem_ownRefs_of_owner (p := Proc.scVector (cV L) (jV L)) (b := sref L b) h

theorem sref_ne {a b : Ref sig .scVector} (h : a ≠ b) : sref L a ≠ sref L b := fun e => h (Proc.devRef_injective _ e)

/-- The tile's own buffers other than the gather's four scratches. -/
abbrev restRefs : Finset (DevRef τ sig) :=
  ((((ownRefs (τ := τ) (.scVector (cV L) (jV L))).erase (sref L cc12_scratch0)).erase (sref L cc12_scratch1)).erase (sref L cc12_scratch2)).erase
    (sref L cc12_scratch3)

theorem ownBufs_V :
    (ownBufs (thrV d L) : sProp 𝕄)
      = iprop((∃ f, (thrV d L).loc cc12_scratch0 ↦{fullShare} f) ∗ (∃ f, (thrV d L).loc cc12_scratch1 ↦{fullShare} f)
          ∗ (∃ f, (thrV d L).loc cc12_scratch2 ↦{fullShare} f) ∗ (∃ f, (thrV d L).loc cc12_scratch3 ↦{fullShare} f)
          ∗ bigSep (restRefs L) fun b => iprop(∃ f, ((d, b) : Loc nD τ sig) ↦{fullShare} f)) := by
  unfold SparseCore.Cfg.ownBufs
  refine (SparseCore.bigSep_erase' (sref_mem L (b := cc12_scratch0) rfl)).trans ?_
  rw [SparseCore.bigSep_erase' (Finset.mem_erase.mpr ⟨sref_ne L (show (cc12_scratch1 : Ref sig .scVector) ≠ cc12_scratch0 by decide), sref_mem L (b := cc12_scratch1) rfl⟩),
    SparseCore.bigSep_erase' (Finset.mem_erase.mpr ⟨sref_ne L (show (cc12_scratch2 : Ref sig .scVector) ≠ cc12_scratch1 by decide),
      Finset.mem_erase.mpr ⟨sref_ne L (show (cc12_scratch2 : Ref sig .scVector) ≠ cc12_scratch0 by decide), sref_mem L (b := cc12_scratch2) rfl⟩⟩),
    SparseCore.bigSep_erase' (Finset.mem_erase.mpr ⟨sref_ne L (show (cc12_scratch3 : Ref sig .scVector) ≠ cc12_scratch2 by decide),
      Finset.mem_erase.mpr ⟨sref_ne L (show (cc12_scratch3 : Ref sig .scVector) ≠ cc12_scratch1 by decide),
      Finset.mem_erase.mpr ⟨sref_ne L (show (cc12_scratch3 : Ref sig .scVector) ≠ cc12_scratch0 by decide), sref_mem L (b := cc12_scratch3) rfl⟩⟩⟩)]

end Own

/-! ## What one gather delivers -/

section Value

variable (d : Dev nD) (tv : Buf (Elt F) (tblLoc d)) (iv : Buf (Elt F) (idxLoc d))

omit [FloatOps F] in
/-- Entry `y` of the 256-entry piece of the index list that starts at `off` is entry `off + y` of the list. -/
theorem idxPiece_read (off : Fin 1 → Nat) (h : ∀ a, off a + S256.size a ≤ S524288.size a) (hs) (y : S256.Idx) :
    ((idxV).slice (Rect.unit (s := S524288) off S256.size h) hs).view.read (Elt F) iv y
      = iv (ix1 ⟨off 0 + (y 0).val, by have := h 0; have := (y 0).isLt; exact Nat.lt_of_lt_of_le (Nat.add_lt_add_left this _) (h 0)⟩) := by
  rw [View.read_apply]
  refine congrArg iv (funext fun a => ?_)
  match a with
  | ⟨0, _⟩ => exact Fin.ext (by show off 0 + 1 * (y 0).val = off 0 + (y 0).val; omega)

omit [FloatOps F] in
/-- The gather's payload at an index: row `x 0` of the scratch receives the table's row named by entry `off + x 0` of
    the index list, when the index scratch was filled with the 256 entries from `off`. -/
theorem gather_apply (hin : ∀ e, (iv e).toNat < 32768)
    (c : Thread nD τ) (sI : Memref sig c.2.kind .vmem S256 .i32) (fI : Buf (Elt F) (sI.view.loc c))
    (off : Fin 1 → Nat) (h : ∀ a, off a + S256.size a ≤ S524288.size a) (hs) (h7) (h8)
    (hg : S32768x128.Gathers 0 S256x128) (hn : S256.numel = S256x128.size hg.axis')
    (hinI : ∀ x, ((sI.view.read (Elt F) (sI.view.write (Elt F) fI
      (ReadAs.same.apply (((idxV).slice (Rect.unit (s := S524288) off S256.size h) hs).view.read (Elt F) iv)) Finset.univ)) x).toNat
        < S32768x128.size hg.axis)
    (x : S256x128.Idx) :
    SparseCore.gatherPayload hg (((tblV).slice (Rect.unit (s := S32768x128) ![0, 0] S32768x128.size h7) h8).view.read (Elt F) tv)
        (SparseCore.rows (sI.view.read (Elt F) (sI.view.write (Elt F) fI
          (ReadAs.same.apply (((idxV).slice (Rect.unit (s := S524288) off S256.size h) hs).view.read (Elt F) iv)) Finset.univ)) hn hinI) x
      = tv (ix2 (rowOf (iv (ix1 ⟨off 0 + (x 0).val, by
          have := h 0; have := idx2_lt0 (n0 := 256) (n1 := 128) x
          exact Nat.lt_of_lt_of_le (Nat.add_lt_add_left this _) (h 0)⟩))) (x 1)) := by
  unfold SparseCore.gatherPayload
  rw [View.read_apply]
  refine congrArg tv (funext fun a => ?_)
  have hy0 : ((S256.rowMajor.symm ((x hg.axis').cast hn.symm)) 0).val = (x 0).val := by
    have e := Shape.rowMajor_val_one (d := ![256]) (S256.rowMajor.symm ((x hg.axis').cast hn.symm))
    rw [Equiv.apply_symm_apply] at e
    exact e.symm
  match a with
  | ⟨0, _⟩ =>
    apply Fin.ext
    show 0 + 1 * (hg.idx _ x hg.axis).val = _
    rw [Shape.Gathers.idx_axis]
    show 0 + 1 * ((sI.view.read (Elt F) (sI.view.write (Elt F) fI (ReadAs.same.apply
      (((idxV).slice (Rect.unit (s := S524288) off S256.size h) hs).view.read (Elt F) iv)) Finset.univ))
        (S256.rowMajor.symm ((x hg.axis').cast hn.symm))).toNat = (iv (ix1 ⟨off 0 + (x 0).val, _⟩)).toNat % 32768
    rw [View.read_write_univ, ReadAs.apply_same, idxPiece_read, Nat.mod_eq_of_lt (hin _), Nat.zero_add, Nat.one_mul]
    exact congrArg (fun n : Fin 524288 => (iv (ix1 n)).toNat) (Fin.ext (by show off 0 + _ = off 0 + _; rw [hy0]))
  | ⟨1, _⟩ =>
    apply Fin.ext
    show 0 + 1 * (hg.idx _ x ⟨1, by decide⟩).val = (x 1).val
    rw [Shape.Gathers.idx_of_ne hg _ x ⟨1, by decide⟩ (by decide), Nat.zero_add, Nat.one_mul]
    rfl

end Value

/-! ## What a trip leaves in one 256-row piece of the result -/

section Piece

variable (d : Dev nD) (tv : Buf (Elt F) (tblLoc d)) (iv : Buf (Elt F) (idxLoc d))

omit [FloatOps F] in
/-- A row scratch written whole with `p`, copied whole onto a 256-row piece of the result: the piece's element under `x`
    holds `p x`. -/
theorem out_piece_apply (c : Thread nD τ) (sR : Memref sig c.2.kind .vmem S256x128 .f32) (fR : Buf (Elt F) (sR.view.loc c))
    (p : S256x128.Idx → Elt F .f32) (off : Fin 2 → Nat) (h : ∀ a, off a + S256x128.size a ≤ S65536x128.size a) (hs)
    (g : Buf (Elt F) (outLoc qC d)) (x : S256x128.Idx) :
    (((outV).slice (Rect.unit (s := S65536x128) off S256x128.size h) hs).view.writes (Elt F) g
        [⟨Rect.whole S256x128, ReadAs.same.apply (sR.view.read (Elt F) (sR.view.writes (Elt F) fR [⟨Rect.whole S256x128, p⟩]))⟩])
      (((outV).slice (Rect.unit (s := S65536x128) off S256x128.size h) hs).view.emb x) = p x := by
  have e1 := congrFun (View.read_writes_whole ((outV).slice (Rect.unit (s := S65536x128) off S256x128.size h) hs).view g
    (ReadAs.same.apply (sR.view.read (Elt F) (sR.view.writes (Elt F) fR [⟨Rect.whole S256x128, p⟩])))) x
  rw [View.read_apply] at e1
  refine (show _ = _ from e1).trans ?_
  rw [ReadAs.apply_same]
  exact congrFun (View.read_writes_whole sR.view fR p) x

omit [FloatOps F] in
/-- The gathered result at the element of a piece under `x`, when the index piece starts `65536 qC` entries beyond the
    row the piece starts at (call `qC`'s share of the index list). -/
theorem gathered_emb (off1 : Fin 1 → Nat) (off : Fin 2 → Nat) (h : ∀ a, off a + S256x128.size a ≤ S65536x128.size a) (hs)
    (e0 : off1 0 = (qC : Fin 8).val * 65536 + off 0) (e1 : off 1 = 0) (x : S256x128.Idx) (hlt : off1 0 + (x 0).val < 524288) :
    gathered tv iv qC (((outV).slice (Rect.unit (s := S65536x128) off S256x128.size h) hs).view.emb x)
      = tv (ix2 (rowOf (iv (ix1 ⟨off1 0 + (x 0).val, hlt⟩))) (x 1)) := by
  obtain ⟨j, hj⟩ : ∃ j : S65536x128.Idx, j = ((outV).slice (Rect.unit (s := S65536x128) off S256x128.size h) hs).view.emb x := ⟨_, rfl⟩
  have j0 : (j 0).val = off 0 + 1 * (x 0).val := by rw [hj]; rfl
  have j1 : (j 1).val = off 1 + 1 * (x 1).val := by rw [hj]; rfl
  rw [← hj]
  unfold gathered
  have a : ∀ hb, (⟨(qC : Fin 8).val * 65536 + (j 0).val, hb⟩ : Fin 524288) = ⟨off1 0 + (x 0).val, hlt⟩ := fun _ =>
    Fin.ext (by show (qC : Fin 8).val * 65536 + (j 0).val = off1 0 + (x 0).val; rw [j0, e0]; omega)
  have b : j 1 = x 1 := Fin.ext (by rw [j1, e1]; omega)
  rw [a, b]

omit [FloatOps F] in
/-- After a trip's gather and copy-out, every element of the 256-row piece holds the gathered result. -/
theorem piece_gathered (hin : ∀ e, (iv e).toNat < 32768)
    (c : Thread nD τ) (sI : Memref sig c.2.kind .vmem S256 .i32) (fI : Buf (Elt F) (sI.view.loc c))
    (sR : Memref sig c.2.kind .vmem S256x128 .f32) (fR : Buf (Elt F) (sR.view.loc c))
    (off1 : Fin 1 → Nat) (h1 : ∀ a, off1 a + S256.size a ≤ S524288.size a) (hs1) (h7) (h8)
    (hg : S32768x128.Gathers 0 S256x128) (hn : S256.numel = S256x128.size hg.axis')
    (hinI : ∀ x, ((sI.view.read (Elt F) (sI.view.write (Elt F) fI
      (ReadAs.same.apply (((idxV).slice (Rect.unit (s := S524288) off1 S256.size h1) hs1).view.read (Elt F) iv)) Finset.univ)) x).toNat
        < S32768x128.size hg.axis)
    (off : Fin 2 → Nat) (h : ∀ a, off a + S256x128.size a ≤ S65536x128.size a) (hs) (e0 : off1 0 = (qC : Fin 8).val * 65536 + off 0) (e1 : off 1 = 0)
    (g : Buf (Elt F) (outLoc qC d)) (j : S65536x128.Idx)
    (hj : j ∈ ((outV).slice (Rect.unit (s := S65536x128) off S256x128.size h) hs).view.set) :
    (((outV).slice (Rect.unit (s := S65536x128) off S256x128.size h) hs).view.writes (Elt F) g
        [⟨Rect.whole S256x128, ReadAs.same.apply (sR.view.read (Elt F) (sR.view.writes (Elt F) fR [⟨Rect.whole S256x128,
          SparseCore.gatherPayload hg (((tblV).slice (Rect.unit (s := S32768x128) ![0, 0] S32768x128.size h7) h8).view.read (Elt F) tv)
            (SparseCore.rows (sI.view.read (Elt F) (sI.view.write (Elt F) fI
              (ReadAs.same.apply (((idxV).slice (Rect.unit (s := S524288) off1 S256.size h1) hs1).view.read (Elt F) iv)) Finset.univ)) hn hinI)⟩]))⟩]) j
      = gathered tv iv qC j := by
  obtain ⟨x, -, rfl⟩ := Finset.mem_map.mp hj
  rw [out_piece_apply, gather_apply d tv iv hin, gathered_emb d tv iv off1 off h hs e0 e1]

end Piece

/-! ## The tile's rows and the pieces a trip writes -/

section Geometry

omit [FloatOps F] in
/-- Worker `w`'s rows of the result array are rows `[2048 w, 2048 w + 2048)`. -/
theorem mem_rowsSet (w : Fin 32) (j : S65536x128.Idx) :
    j ∈ rowsSet w ↔ 2048 * w.val ≤ (j 0).val ∧ (j 0).val < 2048 * w.val + 2048 := by
  unfold rowsSet rowsRect
  rw [View.set_slice_whole, Rect.mem_set_unit]
  have h1 := idx2_lt1 (n0 := 65536) (n1 := 128) j
  constructor
  · intro H
    have H0 : w.val * 2048 ≤ (j 0).val ∧ (j 0).val < w.val * 2048 + 2048 := H 0
    omega
  · intro H a
    match a with
    | ⟨0, _⟩ => show w.val * 2048 ≤ (j 0).val ∧ (j 0).val < w.val * 2048 + 2048; omega
    | ⟨1, _⟩ => show 0 * 128 ≤ (j 1).val ∧ (j 1).val < 0 * 128 + 128; omega

omit [FloatOps F] in
/-- A 256-row piece of the result array at row offset `off 0` (all 128 columns). -/
theorem mem_piece (off : Fin 2 → Nat) (h : ∀ a, off a + S256x128.size a ≤ S65536x128.size a) (hs) (j : S65536x128.Idx) :
    j ∈ ((outV).slice (Rect.unit (s := S65536x128) off S256x128.size h) hs).view.set
      ↔ (off 0 ≤ (j 0).val ∧ (j 0).val < off 0 + 256) ∧ (off 1 ≤ (j 1).val ∧ (j 1).val < off 1 + 128) := by
  show j ∈ ((View.whole main_v46_scv).slice (Rect.unit (s := S65536x128) off S256x128.size h)).set ↔ _
  rw [View.set_slice_whole, Rect.mem_set_unit]
  constructor
  · intro H; exact ⟨H 0, H 1⟩
  · rintro ⟨h0, h1⟩ a
    match a with
    | ⟨0, _⟩ => exact h0
    | ⟨1, _⟩ => exact h1

end Geometry

/-! ## Joining a trip's pieces back into the tile's rows -/

section Join

variable (d : Dev nD) (tv : Buf (Elt F) (tblLoc d)) (iv : Buf (Elt F) (idxLoc d))

/-- The rows of worker `w` below trip `k` (512 rows a trip) hold the gathered rows. -/
def doneBelow (w : Fin 32) (k : Nat) (g : Buf (Elt F) (outLoc qC d)) : Prop :=
  ∀ j ∈ rowsSet w, (j 0).val < 2048 * w.val + 512 * k → g j = gathered tv iv qC j

omit [FloatOps F] in
theorem doneBelow_zero (w : Fin 32) (g : Buf (Elt F) (outLoc qC d)) : doneBelow d tv iv w 0 g := by
  intro j hj hlt
  have := (mem_rowsSet w j).mp hj
  omega

omit [FloatOps F] in
theorem doneBelow_four (w : Fin 32) (g : Buf (Elt F) (outLoc qC d)) (h : doneBelow d tv iv w 4 g) :
    ∀ j ∈ rowsSet w, g j = gathered tv iv qC j := by
  intro j hj
  have := (mem_rowsSet w j).mp hj
  exact h j hj (by omega)

omit [FloatOps F] in
/-- A trip's first piece lies in the worker's rows; -/
theorem piece_subset (w : Fin 32) (k e : Nat) (he : e = 2048 * w.val + 512 * k) (hk : k < 4)
    (off : Fin 2 → Nat) (h : ∀ a, off a + S256x128.size a ≤ S65536x128.size a) (hs)
    (e0 : off 0 = e ∨ off 0 = e + 256) (e1 : off 1 = 0) :
    ((outV).slice (Rect.unit (s := S65536x128) off S256x128.size h) hs).view.set ⊆ rowsSet w := by
  intro j hj
  have := (mem_piece off h hs j).mp hj
  exact (mem_rowsSet w j).mpr (by omega)

omit [FloatOps F] in
/-- its second piece lies in them off the first. -/
theorem piece_subset_sdiff (w : Fin 32) (k e : Nat) (he : e = 2048 * w.val + 512 * k) (hk : k < 4)
    (off3 off4 : Fin 2 → Nat) (h3 : ∀ a, off3 a + S256x128.size a ≤ S65536x128.size a) (hs3)
    (h4 : ∀ a, off4 a + S256x128.size a ≤ S65536x128.size a) (hs4)
    (e30 : off3 0 = e) (e40 : off4 0 = e + 256) (e41 : off4 1 = 0) :
    ((outV).slice (Rect.unit (s := S65536x128) off4 S256x128.size h4) hs4).view.set
      ⊆ rowsSet w \ ((outV).slice (Rect.unit (s := S65536x128) off3 S256x128.size h3) hs3).view.set := by
  intro j hj
  have h4' := (mem_piece off4 h4 hs4 j).mp hj
  refine Finset.mem_sdiff.mpr ⟨(mem_rowsSet w j).mpr (by omega), fun hj3 => ?_⟩
  have h3' := (mem_piece off3 h3 hs3 j).mp hj3
  omega

omit [FloatOps F] in
/-- Two carved-out pieces put back at new contents. -/
theorem rejoin_two {ℓ : Loc nD τ sig} (R P3 P4 : Finset (Idx ℓ)) (hsub3 : P3 ⊆ R) (hsub4 : P4 ⊆ R \ P3) (g g3 g4 : Buf (Elt F) ℓ) :
    (iprop((ℓ ↦[P3]{fullShare} g3) ∗ (ℓ ↦[P4]{fullShare} g4) ∗ (ℓ ↦[(R \ P3) \ P4]{fullShare} g)) : sProp 𝕄)
      ⊢ ℓ ↦[R]{fullShare} (P3.piecewise g3 (P4.piecewise g4 g)) := by
  iintro ⟨H3, H4, Hr⟩
  iapply (pointsTo_join_subset (ℓ := ℓ) (q := fullShare) (I := P3) (S := R) (g := g3) (f := P4.piecewise g4 g) hsub3)
  isplitl [H3]; · iexact H3
  iapply (pointsTo_join_subset (ℓ := ℓ) (q := fullShare) (I := P4) (S := R \ P3) (g := g4) (f := g) hsub4)
  isplitl [H4]; · iexact H4
  iexact Hr

omit [FloatOps F] in
/-- Two pieces each holding the gathered rows, the rest as before, when the two pieces are all of the worker's rows
    from trip `k` up to trip `k + 1`: the rows below trip `k + 1` hold the gathered rows. -/
theorem doneBelow_step (w : Fin 32) (k : Nat) (P3 P4 : Finset (Idx (outLoc qC d)))
    (g g3 g4 : Buf (Elt F) (outLoc qC d)) (hg : doneBelow d tv iv w k g)
    (hg3 : ∀ j ∈ P3, g3 j = gathered tv iv qC j) (hg4 : ∀ j ∈ P4, g4 j = gathered tv iv qC j)
    (hcov : ∀ j : S65536x128.Idx, j ∈ rowsSet w → (j 0).val < 2048 * w.val + 512 * (k + 1) → j ∉ P3 → j ∉ P4 →
      (j 0).val < 2048 * w.val + 512 * k) :
    doneBelow d tv iv w (k + 1) (P3.piecewise g3 (P4.piecewise g4 g)) := by
  intro j hj hlt
  by_cases hj3 : j ∈ P3
  · exact (Finset.piecewise_eq_of_mem P3 g3 _ hj3).trans (hg3 j hj3)
  · refine (Finset.piecewise_eq_of_notMem P3 g3 _ hj3).trans ?_
    by_cases hj4 : j ∈ P4
    · exact (Finset.piecewise_eq_of_mem P4 g4 _ hj4).trans (hg4 j hj4)
    · exact (Finset.piecewise_eq_of_notMem P4 g4 _ hj4).trans (hg j hj (hcov j hj hlt hj3 hj4))

omit [FloatOps F] in
/-- The cover fact for a trip's two pieces. -/
theorem trip_cover (w : Fin 32) (k e : Nat) (he : e = 2048 * w.val + 512 * k)
    (off3 off4 : Fin 2 → Nat) (h3 : ∀ a, off3 a + S256x128.size a ≤ S65536x128.size a) (hs3)
    (h4 : ∀ a, off4 a + S256x128.size a ≤ S65536x128.size a) (hs4)
    (e30 : off3 0 = e) (e31 : off3 1 = 0) (e40 : off4 0 = e + 256) (e41 : off4 1 = 0) :
    ∀ j : S65536x128.Idx, j ∈ rowsSet w → (j 0).val < 2048 * w.val + 512 * (k + 1) →
      j ∉ ((outV).slice (Rect.unit (s := S65536x128) off3 S256x128.size h3) hs3).view.set →
      j ∉ ((outV).slice (Rect.unit (s := S65536x128) off4 S256x128.size h4) hs4).view.set →
      (j 0).val < 2048 * w.val + 512 * k := by
  intro j hj hlt hj3 hj4
  have hr := (mem_rowsSet w j).mp hj
  have n3 := mt (mem_piece off3 h3 hs3 j).mpr hj3
  have n4 := mt (mem_piece off4 h4 hs4 j).mpr hj4
  have := idx2_lt1 (n0 := 65536) (n1 := 128) j
  omega

end Join

end Cert.Proof.KW.C6

end
-- ==== Proof.Tile6W.lean ====
/-
  One vector subcore's task in gather call 6, at a symbolic tile. Worker `w = 2 s + c` (subcore `s` of SparseCore `c`)
  fills rows `[2048 w, 2048 w + 2048)` of the result in four trips of 512 rows. A trip copies two 256-entry pieces of the
  index list into the two index scratches, starts one indirect gather of table rows per scratch, and copies each gathered
  256 x 128 block out to its rows of the result; every transfer has its own semaphore and is waited for before the next
  one on that semaphore starts. The loop's invariant carries the value: the worker's rows below the current trip already
  hold row `r ↦ table[index[r]]`; each trip extends this by its 512 rows, and after four trips it is all 2048 rows.
-/
import proofs.«214101_g10505490006249_cont_week2b_118_28_alg».proof.Proof.TileAux6W

noncomputable section

namespace Cert.Proof.KW.C6

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 8) (Elt F) ℕ UU ℕ

variable [FloatOps F]

/-! ## The body -/

section Body

variable (d : Dev nD) (L : grid12.Coords)

/-- The worker number of the tile at grid point `L`. -/
abbrev wL (L : grid12.Coords) : Fin 32 := wid (cV L) (jV L)

/-! ### Call 6: the trips' offsets

The only facts about this call's printed offset functions that the body uses, read off their generated closed forms:
trip `k` of the tile at `L` works on rows `rowE L k` and `rowE L k + 256` of the result, and on the index entries
`65536 qC` beyond them. -/

/-- The first row of the result that trip `k` of the tile at `L` writes. -/
def rowE (L : grid12.Coords) (k : Fin k12_t1_loop.trips) : Nat := 4096 * (L 1).val + 2048 * (L 0).val + 512 * k.val

theorem rowE_eq (k : Fin k12_t1_loop.trips) : rowE L k = 2048 * (wL L).val + 512 * k.val := by
  have hwv : (wL L).val = (L 1).val * 2 + (L 0).val := rfl
  unfold rowE; rw [hwv]; omega
theorem trips_eq : Scf.trips k12_t1_loop.lb k12_t1_loop.ub k12_t1_loop.st = 4 := by decide
theorem trip_lt (k : Fin k12_t1_loop.trips) : k.val < 4 := Nat.lt_of_lt_of_le k.isLt k12_t1_abs.2.1
theorem offI0 (k : Fin k12_t1_loop.trips) : k12_off1 L k 0 = (qC : Fin 8).val * 65536 + rowE L k := by
  have h : k12_off1 L k 0 = 4096 * (L 1).val + 2048 * (L 0).val + 512 * k.val + 393216 := congrFun (k12_off1_eq L k) 0
  rw [qC_val, h]; unfold rowE; omega
theorem offI1 (k : Fin k12_t1_loop.trips) : k12_off2 L k 0 = (qC : Fin 8).val * 65536 + (rowE L k + 256) := by
  have h : k12_off2 L k 0 = 4096 * (L 1).val + 2048 * (L 0).val + 512 * k.val + 393472 := congrFun (k12_off2_eq L k) 0
  rw [qC_val, h]; unfold rowE; omega
theorem offO0 (k : Fin k12_t1_loop.trips) : k12_off3 L k 0 = rowE L k := congrFun (k12_off3_eq L k) 0
theorem offO0' (k : Fin k12_t1_loop.trips) : k12_off3 L k 1 = 0 := congrFun (k12_off3_eq L k) 1
theorem offO1 (k : Fin k12_t1_loop.trips) : k12_off4 L k 0 = rowE L k + 256 := congrFun (k12_off4_eq L k) 0
theorem offO1' (k : Fin k12_t1_loop.trips) : k12_off4 L k 1 = 0 := congrFun (k12_off4_eq L k) 1

omit [FloatOps F] in
theorem pts_tbl (q : PosShare TreeShare) (f : Buf (Elt F) (tblLoc d)) :
    ((tblV).view.loc (thrV d L) ↦{q} f : sProp 𝕄) = tblLoc d ↦{q} f := by
  simp only [Memref.view_whole, View.set_whole]
omit [FloatOps F] in
theorem pts_idx (q : PosShare TreeShare) (f : Buf (Elt F) (idxLoc d)) :
    ((idxV).view.loc (thrV d L) ↦{q} f : sProp 𝕄) = idxLoc d ↦{q} f := by
  simp only [Memref.view_whole, View.set_whole]

omit [FloatOps F] in
theorem pts_s0 (f : Buf (Elt F) ((thrV d L).loc cc12_scratch0)) :
    ((thrV d L).loc cc12_scratch0 ↦{fullShare} f : sProp 𝕄) = ((sI0).view.loc (thrV d L) ↦{fullShare} f) := rfl
omit [FloatOps F] in
theorem pts_s1 (f : Buf (Elt F) ((thrV d L).loc cc12_scratch1)) :
    ((thrV d L).loc cc12_scratch1 ↦{fullShare} f : sProp 𝕄) = ((sI1).view.loc (thrV d L) ↦{fullShare} f) := rfl
omit [FloatOps F] in
theorem pts_s2 (f : Buf (Elt F) ((thrV d L).loc cc12_scratch2)) :
    ((thrV d L).loc cc12_scratch2 ↦{fullShare} f : sProp 𝕄) = ((sR0).view.loc (thrV d L) ↦{fullShare} f) := rfl
omit [FloatOps F] in
theorem pts_s3 (f : Buf (Elt F) ((thrV d L).loc cc12_scratch3)) :
    ((thrV d L).loc cc12_scratch3 ↦{fullShare} f : sProp 𝕄) = ((sR1).view.loc (thrV d L) ↦{fullShare} f) := rfl

/-- The two 256-row pieces of the result array that trip `k` writes, as the program slices them. -/
abbrev o3 (k : Fin k12_t1_loop.trips) : Memref sig .scVector .hbm S256x128 .f32 :=
  outV.slice (Rect.unit (s := S65536x128) (k12_off3 L k) S256x128.size (k12_off3_inb L k)) (fun _ => rfl)
abbrev o4 (k : Fin k12_t1_loop.trips) : Memref sig .scVector .hbm S256x128 .f32 :=
  outV.slice (Rect.unit (s := S65536x128) (k12_off4 L k) S256x128.size (k12_off4_inb L k)) (fun _ => rfl)

/-- The loop's invariant: the table and the index list at their read shares, the tile's rows of the result with the
    rows below the trip gathered, the four scratches at some contents, the six semaphores at zero, and what the tile owes. -/
def inv (qs : PosShare TreeShare) (tv : Buf (Elt F) (tblLoc d)) (iv : Buf (Elt F) (idxLoc d))
    (O : CellTallies nD τ sig (HIx 8)) (W : Waits sig (HIx 8)) (k : Nat) (_ : PUnit) : sProp 𝕄 :=
  iprop(Transfers.MayWaits (thrV d L) (none : HIx 8) O
    ∗ ((tblV).view.loc (thrV d L) ↦{qs} tv)
    ∗ ((idxV).view.loc (thrV d L) ↦{qs} iv)
    ∗ (∃ g, ⌜doneBelow d tv iv (wL L) k g⌝ ∗ outLoc qC d ↦[rowsSet (wL L)]{fullShare} g)
    ∗ (∃ f, (sI0).view.loc (thrV d L) ↦{fullShare} f)
    ∗ (∃ f, (sI1).view.loc (thrV d L) ↦{fullShare} f)
    ∗ (∃ f, (sR0).view.loc (thrV d L) ↦{fullShare} f)
    ∗ (∃ f, (sR1).view.loc (thrV d L) ↦{fullShare} f)
    ∗ semVal (cell d L cc12_scratch4) 0 ∗ semVal (cell d L cc12_scratch5) 0 ∗ semVal (cell d L cc12_scratch6) 0
    ∗ semVal (cell d L cc12_scratch7) 0 ∗ semVal (cell d L cc12_scoped0) 0 ∗ semVal (cell d L cc12_scoped1) 0
    ∗ ∃ W', ⌜∀ p ∈ W', p ∈ W ∨ p.2 = none⌝ ∗ owes (thrV d L) O W')

omit [FloatOps F] in
/-- Whatever an index scratch held before, after a 256-entry piece of the index list is copied into it every word it
    holds names a row of the table. -/
theorem idx_inb (iv : Buf (Elt F) (idxLoc d)) (hin : ∀ e, (iv e).toNat < 32768)
    (c : Thread nD τ) (m : Memref sig c.2.kind .vmem S256 .i32) (f : Buf (Elt F) (m.view.loc c))
    (off : Fin 1 → Nat) (h : ∀ a, off a + S256.size a ≤ S524288.size a) (hs) (x : S256.Idx) :
    (m.view.read (Elt F) (m.view.write (Elt F) f
      (ReadAs.same.apply (((idxV).slice (Rect.unit (s := S524288) off S256.size h) hs).view.read (Elt F) iv)) Finset.univ) x).toNat < 32768 := by
  rw [View.read_write_univ, ReadAs.apply_same, View.read_apply]
  exact hin _
set_option maxHeartbeats 2000000 in
theorem tile_body (qs : PosShare TreeShare) (tv : Buf (Elt F) (tblLoc d)) (iv : Buf (Elt F) (idxLoc d))
    (hin : ∀ e, (iv e).toNat < 32768) (O : CellTallies nD τ sig (HIx 8)) (W : Waits sig (HIx 8)) (hO : ∀ g, O g none = 0) :
    (iprop(levAts (K (F := F)).L (K (F := F)).lev ∗ emp
        ∗ ((tblLoc d ↦{qs} tv) ∗ (idxLoc d ↦{qs} iv) ∗ ∃ f, outLoc qC d ↦[rowsSet (wL L)]{fullShare} f)
        ∗ scopedBufs (thrV d L) ∗ scopedSems0 (thrV d L) ∗ owes (thrV d L) O W) : sProp 𝕄)
      ⊢ wp frame (wpE (defs₀ (F := F)) 𝒱₀ (thrV d L) none) Set.univ
          (cc12_gather_kernel L tblV (Memref.isWhole_whole _) idxV (Memref.isWhole_whole _) outV (Memref.isWhole_whole _)
            sI0 (Memref.isWhole_whole _) sI1 (Memref.isWhole_whole _) sR0 (Memref.isWhole_whole _) sR1 (Memref.isWhole_whole _)
            cc12_scratch4 cc12_scratch5 cc12_scratch6 cc12_scratch7 cc12_scoped0 cc12_scoped1)
          fun _ => iprop(((tblLoc d ↦{qs} tv) ∗ (idxLoc d ↦{qs} iv) ∗ outLoc qC d ↦[rowsSet (wL L)]{fullShare} gathered tv iv qC)
            ∗ scopedBufs (thrV d L) ∗ scopedSems0 (thrV d L) ∗ ∃ W', ⌜∀ p ∈ W', p ∈ W ∨ p.2 = none⌝ ∗ owes (thrV d L) O W') := by
  simp only [cc12_gather_kernel_eq_skeleton]; unfold cc12_gather_kernel_skel
  rw [(K (F := F)).scopedBufs_V facts d (cV L) (jV L), SparseCore.Cfg.scopedSems0_V (Val := Elt F) d (cV L) (jV L), ownSems0_V, ownBufs_V]
  iintro ⟨#Hlv, -, ⟨Ht, Hi, %fo, Ho⟩, ⟨⟨%f0, Hb0⟩, ⟨%f1, Hb1⟩, ⟨%f2, Hb2⟩, ⟨%f3, Hb3⟩, Hbufs⟩, ⟨Hs4, Hs5, Hs6, Hs7, Hs8, Hs9, Hsems⟩, HO⟩
  ihave Hmw := ((K (F := F)).mayWaits_none (thr := thrV d L) hO) $$ Hlv
  ihave Ht' := (Entails.of_eq (pts_tbl (F := F) d L _ _).symm) $$ Ht
  ihave Hi' := (Entails.of_eq (pts_idx (F := F) d L _ _).symm) $$ Hi
  ihave Hb0' := (Entails.of_eq (pts_s0 (F := F) d L f0)) $$ Hb0
  ihave Hb1' := (Entails.of_eq (pts_s1 (F := F) d L f1)) $$ Hb1
  ihave Hb2' := (Entails.of_eq (pts_s2 (F := F) d L f2)) $$ Hb2
  ihave Hb3' := (Entails.of_eq (pts_s3 (F := F) d L f3)) $$ Hb3
  sl_exec
  sl_for (inv d L qs tv iv O W) $$ [Hmw Ht' Hi' Ho Hb0' Hb1' Hb2' Hb3' Hs4 Hs5 Hs6 Hs7 Hs8 Hs9 HO]
  case region =>
    intro k _
    unfold inv
    iintro ⟨Hmw, Ht, Hi, ⟨%g, %hg, Ho⟩, ⟨%f0, Hb0⟩, ⟨%f1, Hb1⟩, ⟨%f2, Hb2⟩, ⟨%f3, Hb3⟩, Hs4, Hs5, Hs6, Hs7, Hs8, Hs9, %W', %hW', HO⟩
    -- the trip's offsets: the row pieces start at rows `rowE` and `rowE + 256`, the index pieces `65536 qC` entries beyond
    have o30 := offO0 L k
    have o31 := offO0' L k
    have o40 := offO1 L k
    have o41 := offO1' L k
    have hE := rowE_eq L k
    have hk := trip_lt k
    have e13 : k12_off1 L k 0 = (qC : Fin 8).val * 65536 + k12_off3 L k 0 := by rw [offI0, o30]
    have e24 : k12_off2 L k 0 = (qC : Fin 8).val * 65536 + k12_off4 L k 0 := by rw [offI1, o40]
    have hsub3 : (o3 L k).view.set ⊆ rowsSet (wL L) :=
      piece_subset (wL L) k.val _ hE hk (k12_off3 L k) (k12_off3_inb L k) (fun _ => rfl) (.inl o30) o31
    have hsub4 : (o4 L k).view.set ⊆ rowsSet (wL L) \ (o3 L k).view.set :=
      piece_subset_sdiff (wL L) k.val _ hE hk (k12_off3 L k) (k12_off4 L k) (k12_off3_inb L k) (fun _ => rfl) (k12_off4_inb L k) (fun _ => rfl) o30 o40 o41
    ihave Ho' := (pointsTo_split_subset (ℓ := outLoc qC d) (q := fullShare) (f := g) (I := (o3 L k).view.set) (S := rowsSet (wL L)) hsub3).1 $$ Ho
    icases Ho' with ⟨Ho3, Hor⟩
    ihave Hor' := (pointsTo_split_subset (ℓ := outLoc qC d) (q := fullShare) (f := g) (I := (o4 L k).view.set) (S := rowsSet (wL L) \ (o3 L k).view.set) hsub4).1 $$ Hor
    icases Hor' with ⟨Ho4, Hor⟩
    ihave Ho3' := (Entails.of_eq (show (outLoc qC d ↦[(o3 L k).view.set]{fullShare} g : sProp 𝕄) = ((o3 L k).view.loc (thrV d L) ↦[(o3 L k).view.set]{fullShare} g) from rfl)) $$ Ho3
    ihave Ho4' := (Entails.of_eq (show (outLoc qC d ↦[(o4 L k).view.set]{fullShare} g : sProp 𝕄) = ((o4 L k).view.loc (thrV d L) ↦[(o4 L k).view.set]{fullShare} g) from rfl)) $$ Ho4
    -- the words each index scratch holds once its piece of the list has landed name rows of the table
    have hin0 : ∀ x : S256.Idx, ((sI0).view.read (Elt F) ((sI0).view.write (Elt F) f0 (ReadAs.same.apply (((idxV).slice
        (Rect.unit (s := S524288) (k12_off1 L k) S256.size (k12_off1_inb L k)) (fun _ => rfl)).view.read (Elt F) iv)) Finset.univ) x).toNat < 32768 :=
      idx_inb (F := F) d iv hin (thrV d L) sI0 f0 _ _ _
    have hin1 : ∀ x : S256.Idx, ((sI1).view.read (Elt F) ((sI1).view.write (Elt F) f1 (ReadAs.same.apply (((idxV).slice
        (Rect.unit (s := S524288) (k12_off2 L k) S256.size (k12_off2_inb L k)) (fun _ => rfl)).view.read (Elt F) iv)) Finset.univ) x).toNat < 32768 :=
      idx_inb (F := F) d iv hin (thrV d L) sI1 f1 _ _ _
    -- both gathers read the table while the other is outstanding: a read share each
    ihave Ht2 := (pointsTo_share (ℓ := (tblV).view.loc (thrV d L)) (I := Finset.univ) (f := tv) (PosShare.mem_left_op_right qs)).1 $$ Ht
    icases Ht2 with ⟨Hta, Htb⟩
    -- what the two copy-outs leave in their pieces is the gathered rows
    have hgth : S32768x128.Gathers 0 S256x128 := by decide
    have hg3 := fun j hj => piece_gathered (F := F) d tv iv hin (thrV d L) sI0 f0 sR0 f2 (k12_off1 L k) (k12_off1_inb L k) (fun _ => rfl)
      inb_S32768x128_S32768x128_0_0 (fun _ => rfl) hgth rfl hin0 (k12_off3 L k) (k12_off3_inb L k) (fun _ => rfl) e13 o31 g j hj
    have hg4 := fun j hj => piece_gathered (F := F) d tv iv hin (thrV d L) sI1 f1 sR1 f3 (k12_off2 L k) (k12_off2_inb L k) (fun _ => rfl)
      inb_S32768x128_S32768x128_0_0 (fun _ => rfl) hgth rfl hin1 (k12_off4 L k) (k12_off4_inb L k) (fun _ => rfl) e24 o41 g j hj
    sl_exec
    sl_step
    isplitl [Hmw]; · iexact Hmw
    isplitl [Hta Htb]
    · iapply (pointsTo_share (ℓ := (tblV).view.loc (thrV d L)) (I := Finset.univ) (f := tv) (PosShare.mem_left_op_right qs)).2
      isplitl [Hta]; · iexact Hta
      iexact Htb
    isplitl [Hi]; · iexact Hi
    isplitl [Ho3' Ho4' Hor]
    · ihave Hj := (rejoin_two (F := F) (ℓ := outLoc qC d) (rowsSet (wL L)) (o3 L k).view.set (o4 L k).view.set hsub3 hsub4 g _ _) $$ [Ho3' Ho4' Hor]
      · isplitl [Ho3']; · iexact Ho3'
        isplitl [Ho4']; · iexact Ho4'
        iexact Hor
      iexists _
      isplitr
      · ipureintro
        exact doneBelow_step (F := F) d tv iv (wL L) k.val (o3 L k).view.set (o4 L k).view.set g _ _ hg hg3 hg4
          (trip_cover (wL L) k.val _ hE (k12_off3 L k) (k12_off4 L k) (k12_off3_inb L k) (fun _ => rfl) (k12_off4_inb L k) (fun _ => rfl) o30 o31 o40 o41)
      · iexact Hj
    isplitl [Hb0]; · iexists _; iexact Hb0
    isplitl [Hb1]; · iexists _; iexact Hb1
    isplitl [Hb2]; · iexists _; iexact Hb2
    isplitl [Hb3]; · iexists _; iexact Hb3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    iexists _; isplitr
    swap
    · iexact HO
    · ipureintro; intro p hp
      simp only [Finset.mem_insert] at hp
      rcases hp with rfl | rfl | rfl | rfl | rfl | rfl | hp
      · exact .inr rfl
      · exact .inr rfl
      · exact .inr rfl
      · exact .inr rfl
      · exact .inr rfl
      · exact .inr rfl
      · exact hW' p hp
  · unfold inv
    isplitl [Hmw]; · iexact Hmw
    isplitl [Ht']; · iexact Ht'
    isplitl [Hi']; · iexact Hi'
    isplitl [Ho]
    · iexists fo; isplitr
      · ipureintro; exact doneBelow_zero d tv iv (wL L) fo
      · iexact Ho
    isplitl [Hb0']; · iexists f0; iexact Hb0'
    isplitl [Hb1']; · iexists f1; iexact Hb1'
    isplitl [Hb2']; · iexists f2; iexact Hb2'
    isplitl [Hb3']; · iexists f3; iexact Hb3'
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    iexists W; isplitr
    · ipureintro; exact fun p hp => .inl hp
    · iexact HO
  iintro %_ HI
  unfold inv
  icases HI with ⟨-, Ht, Hi, ⟨%g, %hg, Ho⟩, ⟨%f0', Hb0⟩, ⟨%f1', Hb1⟩, ⟨%f2', Hb2⟩, ⟨%f3', Hb3⟩, Hs4, Hs5, Hs6, Hs7, Hs8, Hs9, %W', %hW', HO⟩
  rw [trips_eq] at hg
  sl_exec
  sl_step
  isplitl [Ht Hi Ho]
  · isplitl [Ht]; · iapply (Entails.of_eq (pts_tbl (F := F) d L _ _)); iexact Ht
    isplitl [Hi]; · iapply (Entails.of_eq (pts_idx (F := F) d L _ _)); iexact Hi
    iapply (Entails.of_eq (pointsTo_congr (ℓ := outLoc qC d) (q := fullShare) (I := rowsSet (wL L)) (doneBelow_four d tv iv (wL L) g hg)))
    iexact Ho
  isplitl [Hb0 Hb1 Hb2 Hb3 Hbufs]
  · isplitl [Hb0]; · iexists f0'; iapply (Entails.of_eq (pts_s0 (F := F) d L f0').symm); iexact Hb0
    isplitl [Hb1]; · iexists f1'; iapply (Entails.of_eq (pts_s1 (F := F) d L f1').symm); iexact Hb1
    isplitl [Hb2]; · iexists f2'; iapply (Entails.of_eq (pts_s2 (F := F) d L f2').symm); iexact Hb2
    isplitl [Hb3]; · iexists f3'; iapply (Entails.of_eq (pts_s3 (F := F) d L f3').symm); iexact Hb3
    iexact Hbufs
  isplitl [Hs4 Hs5 Hs6 Hs7 Hs8 Hs9 Hsems]
  · isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    iexact Hsems
  iexists W'; isplitr
  · ipureintro; exact hW'
  · iexact HO

end Body

end Cert.Proof.KW.C6

end
-- ==== Proof.TileObl6W.lean ====
/-
  The launch theorem's obligation for gather call 6: a tile's task, entered through the body table, is the kernel's
  body at that tile, run on the tile's share of the table and the index list and on its worker's rows.
-/
import proofs.«214101_g10505490006249_cont_week2b_118_28_alg».proof.Proof.LaunchW
import proofs.«214101_g10505490006249_cont_week2b_118_28_alg».proof.Proof.Tile6W
import proofs.«214101_g10505490006249_cont_week2b_118_28_alg».proof.Proof.TileObl0W

noncomputable section

namespace Cert.Proof.KW.C6

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Transfers (shareTok shareDrop pointsTo_toks_split pointsTo_toks_join)

variable {F : FTy → Type}

local notation "𝕄" => MT nD τ sig (HIx 8) (Elt F) ℕ UU ℕ

variable [FloatOps F]
variable (tv : (d : Dev nD) → S32768x128.Idx → Elt F .f32) (iv : (d : Dev nD) → S524288.Idx → Elt F .i32)

/-- A tile's grid coordinates from its SparseCore and subcore numbers. -/
def coordsV (c : Fin (grid12.bound 0)) (s : Fin (grid12.bound 1)) : grid12.Coords :=
  fun | 0 => c | 1 => s | ⟨_ + 2, h⟩ => absurd h (Nat.not_lt.2 (Nat.le_add_left _ _))

theorem defs₀_vector6 (c : Fin τ.nSC) (s : Fin τ.nSub) :
    defs₀ (F := F) (.scVector c s) 12 ()
      = SparseCore.onTile hcore12 hsub12 (fun c s => cc12_gather_kernel (coordsV c s)
          tblV (Memref.isWhole_whole _) idxV (Memref.isWhole_whole _) outV (Memref.isWhole_whole _)
          sI0 (Memref.isWhole_whole _) sI1 (Memref.isWhole_whole _) sR0 (Memref.isWhole_whole _) sR1 (Memref.isWhole_whole _)
          cc12_scratch4 cc12_scratch5 cc12_scratch6 cc12_scratch7 cc12_scoped0 cc12_scoped1) ⟨⟩ c s := rfl

/-- Call 6's tile obligation. -/
theorem tileObl6 (hin : ∀ d e, (iv d e).toNat < 32768) : (K (F := F)).TileObl (D (F := F)) 𝒱 (P (F := F) tv iv) v₀ 6 := by
  intro d c i O W hO _ _
  -- the gather kernel owes nothing for a protocol of its own
  simp only [show (P (F := F) tv iv).ox = fun _ _ => 0 from rfl, add_zero]
  change _ ⊢ wp _ _ _ (Pipeline.liftProg (defs₀ (F := F) (.scVector ((K (F := F)).core 6 c) ((K (F := F)).sub 6 i)) 12 ())) _
  refine BI.Entails.trans ?_ (Pipeline.wp_liftProg (D (F := F)) (Pipeline.defs_kernel pcfgs defs₀) 𝒱₀ _ Set.univ none _ _)
  have hc : ((K (F := F)).core 6 c).val < grid12.bound 0 ∧ ((K (F := F)).sub 6 i).val < grid12.bound 1 := ⟨c.isLt, i.isLt⟩
  rw [defs₀_vector6]; simp only [SparseCore.onTile, hc, and_self, ↓reduceDIte]
  exact (tile_body d (coordsV ⟨_, hc.1⟩ ⟨_, hc.2⟩) (shT (cC 6 c) (sS 6 i)) (tv d) (iv d) (hin d) O W hO).trans (wp_mono frame _ _ fun _ => obl_post)

end Cert.Proof.KW.C6

end
-- ==== Proof.TileAux7W.lean ====
/-
  One vector subcore's share of a gather call, the pure part: how the subcore's scoped semaphores and scratch buffers are
  opened, what an indirect gather of 256 table rows delivers element by element, which elements of the result array a
  trip's two copy-outs write, and how those pieces rejoin the subcore's 2048 rows of the result.
-/
import proofs.«214101_g10505490006249_cont_week2b_118_28_alg».proof.Proof.SetupW

noncomputable section

namespace Cert.Proof.KW.C7

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 8) (Elt F) ℕ UU ℕ

/-! ## The names of gather call 7

Everything that is particular to this one of the eight gather calls is named here (and, for the trips' offsets, at the
top of the body's module): the call's number, its result array, its scratch buffers. The text below speaks of the call
only through these names and through the program's own `cc14_…` / `k14_…` names. -/

/-- The number of this gather call among the eight: it reads index entries `65536 qC + …` and fills result array `qC`. -/
abbrev qC : Fin 8 := 7
theorem qC_val : (qC : Fin 8).val = 7 := rfl

abbrev tblV : Memref sig .scVector .hbm S32768x128 .f32 := Memref.whole main_v10_scv
abbrev idxV : Memref sig .scVector .hbm S524288 .i32 := Memref.whole main_v6_scv
abbrev outV : Memref sig .scVector .hbm S65536x128 .f32 := Memref.whole main_v48_scv
abbrev sI0 : Memref sig .scVector .vmem S256 .i32 := Memref.whole cc14_scratch0
abbrev sI1 : Memref sig .scVector .vmem S256 .i32 := Memref.whole cc14_scratch1
abbrev sR0 : Memref sig .scVector .vmem S256x128 .f32 := Memref.whole cc14_scratch2
abbrev sR1 : Memref sig .scVector .vmem S256x128 .f32 := Memref.whole cc14_scratch3

abbrev cV (L : grid14.Coords) : Fin τ.nSC := (L 0).castLE hcore14
abbrev jV (L : grid14.Coords) : Fin τ.nSub := (L 1).castLE hsub14
abbrev thrV (d : Dev nD) (L : grid14.Coords) : Thread nD τ := V d (cV L) (jV L)

variable [FloatOps F]

/-! ## The tile's own semaphores and scratch buffers -/

section Own

variable (d : Dev nD) (L : grid14.Coords)

/-- The cell of one of the tile's DMA semaphores. -/
abbrev cell (sm : DmaSems sig S_) : GSem nD τ sig := (thrV d L, .dma sm.sem)

omit [FloatOps F] in
theorem cell_mem {sm : DmaSems sig S_} (h : (SemLoc.dma sm.sem : SemLoc sig).isScoped .scVector = true) :
    cell d L sm ∈ ownCells (sig := sig) (thrV d L) := (mem_ownCells (g := cell d L sm)).mpr ⟨rfl, h⟩

theorem cell_ne {a b : DmaSems sig S_} (h : (SemLoc.dma a.sem : SemLoc sig) ≠ .dma b.sem) : cell d L a ≠ cell d L b :=
  fun e => h (Prod.mk.inj e).2

/-- The tile's scoped cells other than the six the gather uses. -/
abbrev restCells : Finset (GSem nD τ sig) :=
  ((((((ownCells (thrV d L)).erase (cell d L cc14_scratch4)).erase (cell d L cc14_scratch5)).erase (cell d L cc14_scratch6)).erase
    (cell d L cc14_scratch7)).erase (cell d L cc14_scoped0)).erase (cell d L cc14_scoped1)

theorem ownSems0_V :
    (ownSems0 (thrV d L) : sProp 𝕄)
      = iprop(semVal (cell d L cc14_scratch4) 0 ∗ semVal (cell d L cc14_scratch5) 0 ∗ semVal (cell d L cc14_scratch6) 0
          ∗ semVal (cell d L cc14_scratch7) 0 ∗ semVal (cell d L cc14_scoped0) 0 ∗ semVal (cell d L cc14_scoped1) 0
          ∗ bigSep (restCells d L) fun g => semVal g 0) := by
  unfold SparseCore.Cfg.ownSems0
  have m4 := cell_mem d L (sm := cc14_scratch4) (by decide)
  have m5 := cell_mem d L (sm := cc14_scratch5) (by decide)
  have m6 := cell_mem d L (sm := cc14_scratch6) (by decide)
  have m7 := cell_mem d L (sm := cc14_scratch7) (by decide)
  have m8 := cell_mem d L (sm := cc14_scoped0) (by decide)
  have m9 := cell_mem d L (sm := cc14_scoped1) (by decide)
  rw [SparseCore.bigSep_erase' m4,
    SparseCore.bigSep_erase' (Finset.mem_erase.mpr ⟨cell_ne d L (by decide), m5⟩),
    SparseCore.bigSep_erase' (Finset.mem_erase.mpr ⟨cell_ne d L (by decide), Finset.mem_erase.mpr ⟨cell_ne d L (by decide), m6⟩⟩),
    SparseCore.bigSep_erase' (Finset.mem_erase.mpr ⟨cell_ne d L (by decide), Finset.mem_erase.mpr ⟨cell_ne d L (by decide),
      Finset.mem_erase.mpr ⟨cell_ne d L (by decide), m7⟩⟩⟩),
    SparseCore.bigSep_erase' (Finset.mem_erase.mpr ⟨cell_ne d L (by decide), Finset.mem_erase.mpr ⟨cell_ne d L (by decide),
      Finset.mem_erase.mpr ⟨cell_ne d L (by decide), Finset.mem_erase.mpr ⟨cell_ne d L (by decide), m8⟩⟩⟩⟩),
    SparseCore.bigSep_erase' (Finset.mem_erase.mpr ⟨cell_ne d L (by decide), Finset.mem_erase.mpr ⟨cell_ne d L (by decide),
      Finset.mem_erase.mpr ⟨cell_ne d L (by decide), Finset.mem_erase.mpr ⟨cell_ne d L (by decide),
      Finset.mem_erase.mpr ⟨cell_ne d L (by decide), m9⟩⟩⟩⟩⟩)]

/-- One of the tile's scratch buffers, as a buffer of the device. -/
abbrev sref (b : Ref sig .scVector) : DevRef τ sig := (Proc.scVector (cV L) (jV L)).devRef b

theorem sref_mem {b : Ref sig .scVector} (h : (sref L b).owner = .proc (.scVector (cV L) (jV L))) :
    sref L b ∈ ownRefs (sig := sig) (τ := τ) (.scVector (cV L) (jV L)) :=
  SparseCore.Cfg.mem_ownRefs_of_owner (p := Proc.scVector (cV L) (jV L)) (b := sref L b) h

theorem sref_ne {a b : Ref sig .scVector} (h : a ≠ b) : sref L a ≠ sref L b := fun e => h (Proc.devRef_injective _ e)

/-- The tile's own buffers other than the gather's four scratches. -/
abbrev restRefs : Finset (DevRef τ sig) :=
  ((((ownRefs (τ := τ) (.scVector (cV L) (jV L))).erase (sref L cc14_scratch0)).erase (sref L cc14_scratch1)).erase (sref L cc14_scratch2)).erase
    (sref L cc14_scratch3)

theorem ownBufs_V :
    (ownBufs (thrV d L) : sProp 𝕄)
      = iprop((∃ f, (thrV d L).loc cc14_scratch0 ↦{fullShare} f) ∗ (∃ f, (thrV d L).loc cc14_scratch1 ↦{fullShare} f)
          ∗ (∃ f, (thrV d L).loc cc14_scratch2 ↦{fullShare} f) ∗ (∃ f, (thrV d L).loc cc14_scratch3 ↦{fullShare} f)
          ∗ bigSep (restRefs L) fun b => iprop(∃ f, ((d, b) : Loc nD τ sig) ↦{fullShare} f)) := by
  unfold SparseCore.Cfg.ownBufs
  refine (SparseCore.bigSep_erase' (sref_mem L (b := cc14_scratch0) rfl)).trans ?_
  rw [SparseCore.bigSep_erase' (Finset.mem_erase.mpr ⟨sref_ne L (show (cc14_scratch1 : Ref sig .scVector) ≠ cc14_scratch0 by decide), sref_mem L (b := cc14_scratch1) rfl⟩),
    SparseCore.bigSep_erase' (Finset.mem_erase.mpr ⟨sref_ne L (show (cc14_scratch2 : Ref sig .scVector) ≠ cc14_scratch1 by decide),
      Finset.mem_erase.mpr ⟨sref_ne L (show (cc14_scratch2 : Ref sig .scVector) ≠ cc14_scratch0 by decide), sref_mem L (b := cc14_scratch2) rfl⟩⟩),
    SparseCore.bigSep_erase' (Finset.mem_erase.mpr ⟨sref_ne L (show (cc14_scratch3 : Ref sig .scVector) ≠ cc14_scratch2 by decide),
      Finset.mem_erase.mpr ⟨sref_ne L (show (cc14_scratch3 : Ref sig .scVector) ≠ cc14_scratch1 by decide),
      Finset.mem_erase.mpr ⟨sref_ne L (show (cc14_scratch3 : Ref sig .scVector) ≠ cc14_scratch0 by decide), sref_mem L (b := cc14_scratch3) rfl⟩⟩⟩)]

end Own

/-! ## What one gather delivers -/

section Value

variable (d : Dev nD) (tv : Buf (Elt F) (tblLoc d)) (iv : Buf (Elt F) (idxLoc d))

omit [FloatOps F] in
/-- Entry `y` of the 256-entry piece of the index list that starts at `off` is entry `off + y` of the list. -/
theorem idxPiece_read (off : Fin 1 → Nat) (h : ∀ a, off a + S256.size a ≤ S524288.size a) (hs) (y : S256.Idx) :
    ((idxV).slice (Rect.unit (s := S524288) off S256.size h) hs).view.read (Elt F) iv y
      = iv (ix1 ⟨off 0 + (y 0).val, by have := h 0; have := (y 0).isLt; exact Nat.lt_of_lt_of_le (Nat.add_lt_add_left this _) (h 0)⟩) := by
  rw [View.read_apply]
  refine congrArg iv (funext fun a => ?_)
  match a with
  | ⟨0, _⟩ => exact Fin.ext (by show off 0 + 1 * (y 0).val = off 0 + (y 0).val; omega)

omit [FloatOps F] in
/-- The gather's payload at an index: row `x 0` of the scratch receives the table's row named by entry `off + x 0` of
    the index list, when the index scratch was filled with the 256 entries from `off`. -/
theorem gather_apply (hin : ∀ e, (iv e).toNat < 32768)
    (c : Thread nD τ) (sI : Memref sig c.2.kind .vmem S256 .i32) (fI : Buf (Elt F) (sI.view.loc c))
    (off : Fin 1 → Nat) (h : ∀ a, off a + S256.size a ≤ S524288.size a) (hs) (h7) (h8)
    (hg : S32768x128.Gathers 0 S256x128) (hn : S256.numel = S256x128.size hg.axis')
    (hinI : ∀ x, ((sI.view.read (Elt F) (sI.view.write (Elt F) fI
      (ReadAs.same.apply (((idxV).slice (Rect.unit (s := S524288) off S256.size h) hs).view.read (Elt F) iv)) Finset.univ)) x).toNat
        < S32768x128.size hg.axis)
    (x : S256x128.Idx) :
    SparseCore.gatherPayload hg (((tblV).slice (Rect.unit (s := S32768x128) ![0, 0] S32768x128.size h7) h8).view.read (Elt F) tv)
        (SparseCore.rows (sI.view.read (Elt F) (sI.view.write (Elt F) fI
          (ReadAs.same.apply (((idxV).slice (Rect.unit (s := S524288) off S256.size h) hs).view.read (Elt F) iv)) Finset.univ)) hn hinI) x
      = tv (ix2 (rowOf (iv (ix1 ⟨off 0 + (x 0).val, by
          have := h 0; have := idx2_lt0 (n0 := 256) (n1 := 128) x
          exact Nat.lt_of_lt_of_le (Nat.add_lt_add_left this _) (h 0)⟩))) (x 1)) := by
  unfold SparseCore.gatherPayload
  rw [View.read_apply]
  refine congrArg tv (funext fun a => ?_)
  have hy0 : ((S256.rowMajor.symm ((x hg.axis').cast hn.symm)) 0).val = (x 0).val := by
    have e := Shape.rowMajor_val_one (d := ![256]) (S256.rowMajor.symm ((x hg.axis').cast hn.symm))
    rw [Equiv.apply_symm_apply] at e
    exact e.symm
  match a with
  | ⟨0, _⟩ =>
    apply Fin.ext
    show 0 + 1 * (hg.idx _ x hg.axis).val = _
    rw [Shape.Gathers.idx_axis]
    show 0 + 1 * ((sI.view.read (Elt F) (sI.view.write (Elt F) fI (ReadAs.same.apply
      (((idxV).slice (Rect.unit (s := S524288) off S256.size h) hs).view.read (Elt F) iv)) Finset.univ))
        (S256.rowMajor.symm ((x hg.axis').cast hn.symm))).toNat = (iv (ix1 ⟨off 0 + (x 0).val, _⟩)).toNat % 32768
    rw [View.read_write_univ, ReadAs.apply_same, idxPiece_read, Nat.mod_eq_of_lt (hin _), Nat.zero_add, Nat.one_mul]
    exact congrArg (fun n : Fin 524288 => (iv (ix1 n)).toNat) (Fin.ext (by show off 0 + _ = off 0 + _; rw [hy0]))
  | ⟨1, _⟩ =>
    apply Fin.ext
    show 0 + 1 * (hg.idx _ x ⟨1, by decide⟩).val = (x 1).val
    rw [Shape.Gathers.idx_of_ne hg _ x ⟨1, by decide⟩ (by decide), Nat.zero_add, Nat.one_mul]
    rfl

end Value

/-! ## What a trip leaves in one 256-row piece of the result -/

section Piece

variable (d : Dev nD) (tv : Buf (Elt F) (tblLoc d)) (iv : Buf (Elt F) (idxLoc d))

omit [FloatOps F] in
/-- A row scratch written whole with `p`, copied whole onto a 256-row piece of the result: the piece's element under `x`
    holds `p x`. -/
theorem out_piece_apply (c : Thread nD τ) (sR : Memref sig c.2.kind .vmem S256x128 .f32) (fR : Buf (Elt F) (sR.view.loc c))
    (p : S256x128.Idx → Elt F .f32) (off : Fin 2 → Nat) (h : ∀ a, off a + S256x128.size a ≤ S65536x128.size a) (hs)
    (g : Buf (Elt F) (outLoc qC d)) (x : S256x128.Idx) :
    (((outV).slice (Rect.unit (s := S65536x128) off S256x128.size h) hs).view.writes (Elt F) g
        [⟨Rect.whole S256x128, ReadAs.same.apply (sR.view.read (Elt F) (sR.view.writes (Elt F) fR [⟨Rect.whole S256x128, p⟩]))⟩])
      (((outV).slice (Rect.unit (s := S65536x128) off S256x128.size h) hs).view.emb x) = p x := by
  have e1 := congrFun (View.read_writes_whole ((outV).slice (Rect.unit (s := S65536x128) off S256x128.size h) hs).view g
    (ReadAs.same.apply (sR.view.read (Elt F) (sR.view.writes (Elt F) fR [⟨Rect.whole S256x128, p⟩])))) x
  rw [View.read_apply] at e1
  refine (show _ = _ from e1).trans ?_
  rw [ReadAs.apply_same]
  exact congrFun (View.read_writes_whole sR.view fR p) x

omit [FloatOps F] in
/-- The gathered result at the element of a piece under `x`, when the index piece starts `65536 qC` entries beyond the
    row the piece starts at (call `qC`'s share of the index list). -/
theorem gathered_emb (off1 : Fin 1 → Nat) (off : Fin 2 → Nat) (h : ∀ a, off a + S256x128.size a ≤ S65536x128.size a) (hs)
    (e0 : off1 0 = (qC : Fin 8).val * 65536 + off 0) (e1 : off 1 = 0) (x : S256x128.Idx) (hlt : off1 0 + (x 0).val < 524288) :
    gathered tv iv qC (((outV).slice (Rect.unit (s := S65536x128) off S256x128.size h) hs).view.emb x)
      = tv (ix2 (rowOf (iv (ix1 ⟨off1 0 + (x 0).val, hlt⟩))) (x 1)) := by
  obtain ⟨j, hj⟩ : ∃ j : S65536x128.Idx, j = ((outV).slice (Rect.unit (s := S65536x128) off S256x128.size h) hs).view.emb x := ⟨_, rfl⟩
  have j0 : (j 0).val = off 0 + 1 * (x 0).val := by rw [hj]; rfl
  have j1 : (j 1).val = off 1 + 1 * (x 1).val := by rw [hj]; rfl
  rw [← hj]
  unfold gathered
  have a : ∀ hb, (⟨(qC : Fin 8).val * 65536 + (j 0).val, hb⟩ : Fin 524288) = ⟨off1 0 + (x 0).val, hlt⟩ := fun _ =>
    Fin.ext (by show (qC : Fin 8).val * 65536 + (j 0).val = off1 0 + (x 0).val; rw [j0, e0]; omega)
  have b : j 1 = x 1 := Fin.ext (by rw [j1, e1]; omega)
  rw [a, b]

omit [FloatOps F] in
/-- After a trip's gather and copy-out, every element of the 256-row piece holds the gathered result. -/
theorem piece_gathered (hin : ∀ e, (iv e).toNat < 32768)
    (c : Thread nD τ) (sI : Memref sig c.2.kind .vmem S256 .i32) (fI : Buf (Elt F) (sI.view.loc c))
    (sR : Memref sig c.2.kind .vmem S256x128 .f32) (fR : Buf (Elt F) (sR.view.loc c))
    (off1 : Fin 1 → Nat) (h1 : ∀ a, off1 a + S256.size a ≤ S524288.size a) (hs1) (h7) (h8)
    (hg : S32768x128.Gathers 0 S256x128) (hn : S256.numel = S256x128.size hg.axis')
    (hinI : ∀ x, ((sI.view.read (Elt F) (sI.view.write (Elt F) fI
      (ReadAs.same.apply (((idxV).slice (Rect.unit (s := S524288) off1 S256.size h1) hs1).view.read (Elt F) iv)) Finset.univ)) x).toNat
        < S32768x128.size hg.axis)
    (off : Fin 2 → Nat) (h : ∀ a, off a + S256x128.size a ≤ S65536x128.size a) (hs) (e0 : off1 0 = (qC : Fin 8).val * 65536 + off 0) (e1 : off 1 = 0)
    (g : Buf (Elt F) (outLoc qC d)) (j : S65536x128.Idx)
    (hj : j ∈ ((outV).slice (Rect.unit (s := S65536x128) off S256x128.size h) hs).view.set) :
    (((outV).slice (Rect.unit (s := S65536x128) off S256x128.size h) hs).view.writes (Elt F) g
        [⟨Rect.whole S256x128, ReadAs.same.apply (sR.view.read (Elt F) (sR.view.writes (Elt F) fR [⟨Rect.whole S256x128,
          SparseCore.gatherPayload hg (((tblV).slice (Rect.unit (s := S32768x128) ![0, 0] S32768x128.size h7) h8).view.read (Elt F) tv)
            (SparseCore.rows (sI.view.read (Elt F) (sI.view.write (Elt F) fI
              (ReadAs.same.apply (((idxV).slice (Rect.unit (s := S524288) off1 S256.size h1) hs1).view.read (Elt F) iv)) Finset.univ)) hn hinI)⟩]))⟩]) j
      = gathered tv iv qC j := by
  obtain ⟨x, -, rfl⟩ := Finset.mem_map.mp hj
  rw [out_piece_apply, gather_apply d tv iv hin, gathered_emb d tv iv off1 off h hs e0 e1]

end Piece

/-! ## The tile's rows and the pieces a trip writes -/

section Geometry

omit [FloatOps F] in
/-- Worker `w`'s rows of the result array are rows `[2048 w, 2048 w + 2048)`. -/
theorem mem_rowsSet (w : Fin 32) (j : S65536x128.Idx) :
    j ∈ rowsSet w ↔ 2048 * w.val ≤ (j 0).val ∧ (j 0).val < 2048 * w.val + 2048 := by
  unfold rowsSet rowsRect
  rw [View.set_slice_whole, Rect.mem_set_unit]
  have h1 := idx2_lt1 (n0 := 65536) (n1 := 128) j
  constructor
  · intro H
    have H0 : w.val * 2048 ≤ (j 0).val ∧ (j 0).val < w.val * 2048 + 2048 := H 0
    omega
  · intro H a
    match a with
    | ⟨0, _⟩ => show w.val * 2048 ≤ (j 0).val ∧ (j 0).val < w.val * 2048 + 2048; omega
    | ⟨1, _⟩ => show 0 * 128 ≤ (j 1).val ∧ (j 1).val < 0 * 128 + 128; omega

omit [FloatOps F] in
/-- A 256-row piece of the result array at row offset `off 0` (all 128 columns). -/
theorem mem_piece (off : Fin 2 → Nat) (h : ∀ a, off a + S256x128.size a ≤ S65536x128.size a) (hs) (j : S65536x128.Idx) :
    j ∈ ((outV).slice (Rect.unit (s := S65536x128) off S256x128.size h) hs).view.set
      ↔ (off 0 ≤ (j 0).val ∧ (j 0).val < off 0 + 256) ∧ (off 1 ≤ (j 1).val ∧ (j 1).val < off 1 + 128) := by
  show j ∈ ((View.whole main_v48_scv).slice (Rect.unit (s := S65536x128) off S256x128.size h)).set ↔ _
  rw [View.set_slice_whole, Rect.mem_set_unit]
  constructor
  · intro H; exact ⟨H 0, H 1⟩
  · rintro ⟨h0, h1⟩ a
    match a with
    | ⟨0, _⟩ => exact h0
    | ⟨1, _⟩ => exact h1

end Geometry

/-! ## Joining a trip's pieces back into the tile's rows -/

section Join

variable (d : Dev nD) (tv : Buf (Elt F) (tblLoc d)) (iv : Buf (Elt F) (idxLoc d))

/-- The rows of worker `w` below trip `k` (512 rows a trip) hold the gathered rows. -/
def doneBelow (w : Fin 32) (k : Nat) (g : Buf (Elt F) (outLoc qC d)) : Prop :=
  ∀ j ∈ rowsSet w, (j 0).val < 2048 * w.val + 512 * k → g j = gathered tv iv qC j

omit [FloatOps F] in
theorem doneBelow_zero (w : Fin 32) (g : Buf (Elt F) (outLoc qC d)) : doneBelow d tv iv w 0 g := by
  intro j hj hlt
  have := (mem_rowsSet w j).mp hj
  omega

omit [FloatOps F] in
theorem doneBelow_four (w : Fin 32) (g : Buf (Elt F) (outLoc qC d)) (h : doneBelow d tv iv w 4 g) :
    ∀ j ∈ rowsSet w, g j = gathered tv iv qC j := by
  intro j hj
  have := (mem_rowsSet w j).mp hj
  exact h j hj (by omega)

omit [FloatOps F] in
/-- A trip's first piece lies in the worker's rows; -/
theorem piece_subset (w : Fin 32) (k e : Nat) (he : e = 2048 * w.val + 512 * k) (hk : k < 4)
    (off : Fin 2 → Nat) (h : ∀ a, off a + S256x128.size a ≤ S65536x128.size a) (hs)
    (e0 : off 0 = e ∨ off 0 = e + 256) (e1 : off 1 = 0) :
    ((outV).slice (Rect.unit (s := S65536x128) off S256x128.size h) hs).view.set ⊆ rowsSet w := by
  intro j hj
  have := (mem_piece off h hs j).mp hj
  exact (mem_rowsSet w j).mpr (by omega)

omit [FloatOps F] in
/-- its second piece lies in them off the first. -/
theorem piece_subset_sdiff (w : Fin 32) (k e : Nat) (he : e = 2048 * w.val + 512 * k) (hk : k < 4)
    (off3 off4 : Fin 2 → Nat) (h3 : ∀ a, off3 a + S256x128.size a ≤ S65536x128.size a) (hs3)
    (h4 : ∀ a, off4 a + S256x128.size a ≤ S65536x128.size a) (hs4)
    (e30 : off3 0 = e) (e40 : off4 0 = e + 256) (e41 : off4 1 = 0) :
    ((outV).slice (Rect.unit (s := S65536x128) off4 S256x128.size h4) hs4).view.set
      ⊆ rowsSet w \ ((outV).slice (Rect.unit (s := S65536x128) off3 S256x128.size h3) hs3).view.set := by
  intro j hj
  have h4' := (mem_piece off4 h4 hs4 j).mp hj
  refine Finset.mem_sdiff.mpr ⟨(mem_rowsSet w j).mpr (by omega), fun hj3 => ?_⟩
  have h3' := (mem_piece off3 h3 hs3 j).mp hj3
  omega

omit [FloatOps F] in
/-- Two carved-out pieces put back at new contents. -/
theorem rejoin_two {ℓ : Loc nD τ sig} (R P3 P4 : Finset (Idx ℓ)) (hsub3 : P3 ⊆ R) (hsub4 : P4 ⊆ R \ P3) (g g3 g4 : Buf (Elt F) ℓ) :
    (iprop((ℓ ↦[P3]{fullShare} g3) ∗ (ℓ ↦[P4]{fullShare} g4) ∗ (ℓ ↦[(R \ P3) \ P4]{fullShare} g)) : sProp 𝕄)
      ⊢ ℓ ↦[R]{fullShare} (P3.piecewise g3 (P4.piecewise g4 g)) := by
  iintro ⟨H3, H4, Hr⟩
  iapply (pointsTo_join_subset (ℓ := ℓ) (q := fullShare) (I := P3) (S := R) (g := g3) (f := P4.piecewise g4 g) hsub3)
  isplitl [H3]; · iexact H3
  iapply (pointsTo_join_subset (ℓ := ℓ) (q := fullShare) (I := P4) (S := R \ P3) (g := g4) (f := g) hsub4)
  isplitl [H4]; · iexact H4
  iexact Hr

omit [FloatOps F] in
/-- Two pieces each holding the gathered rows, the rest as before, when the two pieces are all of the worker's rows
    from trip `k` up to trip `k + 1`: the rows below trip `k + 1` hold the gathered rows. -/
theorem doneBelow_step (w : Fin 32) (k : Nat) (P3 P4 : Finset (Idx (outLoc qC d)))
    (g g3 g4 : Buf (Elt F) (outLoc qC d)) (hg : doneBelow d tv iv w k g)
    (hg3 : ∀ j ∈ P3, g3 j = gathered tv iv qC j) (hg4 : ∀ j ∈ P4, g4 j = gathered tv iv qC j)
    (hcov : ∀ j : S65536x128.Idx, j ∈ rowsSet w → (j 0).val < 2048 * w.val + 512 * (k + 1) → j ∉ P3 → j ∉ P4 →
      (j 0).val < 2048 * w.val + 512 * k) :
    doneBelow d tv iv w (k + 1) (P3.piecewise g3 (P4.piecewise g4 g)) := by
  intro j hj hlt
  by_cases hj3 : j ∈ P3
  · exact (Finset.piecewise_eq_of_mem P3 g3 _ hj3).trans (hg3 j hj3)
  · refine (Finset.piecewise_eq_of_notMem P3 g3 _ hj3).trans ?_
    by_cases hj4 : j ∈ P4
    · exact (Finset.piecewise_eq_of_mem P4 g4 _ hj4).trans (hg4 j hj4)
    · exact (Finset.piecewise_eq_of_notMem P4 g4 _ hj4).trans (hg j hj (hcov j hj hlt hj3 hj4))

omit [FloatOps F] in
/-- The cover fact for a trip's two pieces. -/
theorem trip_cover (w : Fin 32) (k e : Nat) (he : e = 2048 * w.val + 512 * k)
    (off3 off4 : Fin 2 → Nat) (h3 : ∀ a, off3 a + S256x128.size a ≤ S65536x128.size a) (hs3)
    (h4 : ∀ a, off4 a + S256x128.size a ≤ S65536x128.size a) (hs4)
    (e30 : off3 0 = e) (e31 : off3 1 = 0) (e40 : off4 0 = e + 256) (e41 : off4 1 = 0) :
    ∀ j : S65536x128.Idx, j ∈ rowsSet w → (j 0).val < 2048 * w.val + 512 * (k + 1) →
      j ∉ ((outV).slice (Rect.unit (s := S65536x128) off3 S256x128.size h3) hs3).view.set →
      j ∉ ((outV).slice (Rect.unit (s := S65536x128) off4 S256x128.size h4) hs4).view.set →
      (j 0).val < 2048 * w.val + 512 * k := by
  intro j hj hlt hj3 hj4
  have hr := (mem_rowsSet w j).mp hj
  have n3 := mt (mem_piece off3 h3 hs3 j).mpr hj3
  have n4 := mt (mem_piece off4 h4 hs4 j).mpr hj4
  have := idx2_lt1 (n0 := 65536) (n1 := 128) j
  omega

end Join

end Cert.Proof.KW.C7

end
-- ==== Proof.Tile7W.lean ====
/-
  One vector subcore's task in gather call 7, at a symbolic tile. Worker `w = 2 s + c` (subcore `s` of SparseCore `c`)
  fills rows `[2048 w, 2048 w + 2048)` of the result in four trips of 512 rows. A trip copies two 256-entry pieces of the
  index list into the two index scratches, starts one indirect gather of table rows per scratch, and copies each gathered
  256 x 128 block out to its rows of the result; every transfer has its own semaphore and is waited for before the next
  one on that semaphore starts. The loop's invariant carries the value: the worker's rows below the current trip already
  hold row `r ↦ table[index[r]]`; each trip extends this by its 512 rows, and after four trips it is all 2048 rows.
-/
import proofs.«214101_g10505490006249_cont_week2b_118_28_alg».proof.Proof.TileAux7W

noncomputable section

namespace Cert.Proof.KW.C7

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 8) (Elt F) ℕ UU ℕ

variable [FloatOps F]

/-! ## The body -/

section Body

variable (d : Dev nD) (L : grid14.Coords)

/-- The worker number of the tile at grid point `L`. -/
abbrev wL (L : grid14.Coords) : Fin 32 := wid (cV L) (jV L)

/-! ### Call 7: the trips' offsets

The only facts about this call's printed offset functions that the body uses, read off their generated closed forms:
trip `k` of the tile at `L` works on rows `rowE L k` and `rowE L k + 256` of the result, and on the index entries
`65536 qC` beyond them. -/

/-- The first row of the result that trip `k` of the tile at `L` writes. -/
def rowE (L : grid14.Coords) (k : Fin k14_t1_loop.trips) : Nat := 4096 * (L 1).val + 2048 * (L 0).val + 512 * k.val

theorem rowE_eq (k : Fin k14_t1_loop.trips) : rowE L k = 2048 * (wL L).val + 512 * k.val := by
  have hwv : (wL L).val = (L 1).val * 2 + (L 0).val := rfl
  unfold rowE; rw [hwv]; omega
theorem trips_eq : Scf.trips k14_t1_loop.lb k14_t1_loop.ub k14_t1_loop.st = 4 := by decide
theorem trip_lt (k : Fin k14_t1_loop.trips) : k.val < 4 := Nat.lt_of_lt_of_le k.isLt k14_t1_abs.2.1
theorem offI0 (k : Fin k14_t1_loop.trips) : k14_off1 L k 0 = (qC : Fin 8).val * 65536 + rowE L k := by
  have h : k14_off1 L k 0 = 4096 * (L 1).val + 2048 * (L 0).val + 512 * k.val + 458752 := congrFun (k14_off1_eq L k) 0
  rw [qC_val, h]; unfold rowE; omega
theorem offI1 (k : Fin k14_t1_loop.trips) : k14_off2 L k 0 = (qC : Fin 8).val * 65536 + (rowE L k + 256) := by
  have h : k14_off2 L k 0 = 4096 * (L 1).val + 2048 * (L 0).val + 512 * k.val + 459008 := congrFun (k14_off2_eq L k) 0
  rw [qC_val, h]; unfold rowE; omega
theorem offO0 (k : Fin k14_t1_loop.trips) : k14_off3 L k 0 = rowE L k := congrFun (k14_off3_eq L k) 0
theorem offO0' (k : Fin k14_t1_loop.trips) : k14_off3 L k 1 = 0 := congrFun (k14_off3_eq L k) 1
theorem offO1 (k : Fin k14_t1_loop.trips) : k14_off4 L k 0 = rowE L k + 256 := congrFun (k14_off4_eq L k) 0
theorem offO1' (k : Fin k14_t1_loop.trips) : k14_off4 L k 1 = 0 := congrFun (k14_off4_eq L k) 1

omit [FloatOps F] in
theorem pts_tbl (q : PosShare TreeShare) (f : Buf (Elt F) (tblLoc d)) :
    ((tblV).view.loc (thrV d L) ↦{q} f : sProp 𝕄) = tblLoc d ↦{q} f := by
  simp only [Memref.view_whole, View.set_whole]
omit [FloatOps F] in
theorem pts_idx (q : PosShare TreeShare) (f : Buf (Elt F) (idxLoc d)) :
    ((idxV).view.loc (thrV d L) ↦{q} f : sProp 𝕄) = idxLoc d ↦{q} f := by
  simp only [Memref.view_whole, View.set_whole]

omit [FloatOps F] in
theorem pts_s0 (f : Buf (Elt F) ((thrV d L).loc cc14_scratch0)) :
    ((thrV d L).loc cc14_scratch0 ↦{fullShare} f : sProp 𝕄) = ((sI0).view.loc (thrV d L) ↦{fullShare} f) := rfl
omit [FloatOps F] in
theorem pts_s1 (f : Buf (Elt F) ((thrV d L).loc cc14_scratch1)) :
    ((thrV d L).loc cc14_scratch1 ↦{fullShare} f : sProp 𝕄) = ((sI1).view.loc (thrV d L) ↦{fullShare} f) := rfl
omit [FloatOps F] in
theorem pts_s2 (f : Buf (Elt F) ((thrV d L).loc cc14_scratch2)) :
    ((thrV d L).loc cc14_scratch2 ↦{fullShare} f : sProp 𝕄) = ((sR0).view.loc (thrV d L) ↦{fullShare} f) := rfl
omit [FloatOps F] in
theorem pts_s3 (f : Buf (Elt F) ((thrV d L).loc cc14_scratch3)) :
    ((thrV d L).loc cc14_scratch3 ↦{fullShare} f : sProp 𝕄) = ((sR1).view.loc (thrV d L) ↦{fullShare} f) := rfl

/-- The two 256-row pieces of the result array that trip `k` writes, as the program slices them. -/
abbrev o3 (k : Fin k14_t1_loop.trips) : Memref sig .scVector .hbm S256x128 .f32 :=
  outV.slice (Rect.unit (s := S65536x128) (k14_off3 L k) S256x128.size (k14_off3_inb L k)) (fun _ => rfl)
abbrev o4 (k : Fin k14_t1_loop.trips) : Memref sig .scVector .hbm S256x128 .f32 :=
  outV.slice (Rect.unit (s := S65536x128) (k14_off4 L k) S256x128.size (k14_off4_inb L k)) (fun _ => rfl)

/-- The loop's invariant: the table and the index list at their read shares, the tile's rows of the result with the
    rows below the trip gathered, the four scratches at some contents, the six semaphores at zero, and what the tile owes. -/
def inv (qs : PosShare TreeShare) (tv : Buf (Elt F) (tblLoc d)) (iv : Buf (Elt F) (idxLoc d))
    (O : CellTallies nD τ sig (HIx 8)) (W : Waits sig (HIx 8)) (k : Nat) (_ : PUnit) : sProp 𝕄 :=
  iprop(Transfers.MayWaits (thrV d L) (none : HIx 8) O
    ∗ ((tblV).view.loc (thrV d L) ↦{qs} tv)
    ∗ ((idxV).view.loc (thrV d L) ↦{qs} iv)
    ∗ (∃ g, ⌜doneBelow d tv iv (wL L) k g⌝ ∗ outLoc qC d ↦[rowsSet (wL L)]{fullShare} g)
    ∗ (∃ f, (sI0).view.loc (thrV d L) ↦{fullShare} f)
    ∗ (∃ f, (sI1).view.loc (thrV d L) ↦{fullShare} f)
    ∗ (∃ f, (sR0).view.loc (thrV d L) ↦{fullShare} f)
    ∗ (∃ f, (sR1).view.loc (thrV d L) ↦{fullShare} f)
    ∗ semVal (cell d L cc14_scratch4) 0 ∗ semVal (cell d L cc14_scratch5) 0 ∗ semVal (cell d L cc14_scratch6) 0
    ∗ semVal (cell d L cc14_scratch7) 0 ∗ semVal (cell d L cc14_scoped0) 0 ∗ semVal (cell d L cc14_scoped1) 0
    ∗ ∃ W', ⌜∀ p ∈ W', p ∈ W ∨ p.2 = none⌝ ∗ owes (thrV d L) O W')

omit [FloatOps F] in
/-- Whatever an index scratch held before, after a 256-entry piece of the index list is copied into it every word it
    holds names a row of the table. -/
theorem idx_inb (iv : Buf (Elt F) (idxLoc d)) (hin : ∀ e, (iv e).toNat < 32768)
    (c : Thread nD τ) (m : Memref sig c.2.kind .vmem S256 .i32) (f : Buf (Elt F) (m.view.loc c))
    (off : Fin 1 → Nat) (h : ∀ a, off a + S256.size a ≤ S524288.size a) (hs) (x : S256.Idx) :
    (m.view.read (Elt F) (m.view.write (Elt F) f
      (ReadAs.same.apply (((idxV).slice (Rect.unit (s := S524288) off S256.size h) hs).view.read (Elt F) iv)) Finset.univ) x).toNat < 32768 := by
  rw [View.read_write_univ, ReadAs.apply_same, View.read_apply]
  exact hin _
set_option maxHeartbeats 2000000 in
theorem tile_body (qs : PosShare TreeShare) (tv : Buf (Elt F) (tblLoc d)) (iv : Buf (Elt F) (idxLoc d))
    (hin : ∀ e, (iv e).toNat < 32768) (O : CellTallies nD τ sig (HIx 8)) (W : Waits sig (HIx 8)) (hO : ∀ g, O g none = 0) :
    (iprop(levAts (K (F := F)).L (K (F := F)).lev ∗ emp
        ∗ ((tblLoc d ↦{qs} tv) ∗ (idxLoc d ↦{qs} iv) ∗ ∃ f, outLoc qC d ↦[rowsSet (wL L)]{fullShare} f)
        ∗ scopedBufs (thrV d L) ∗ scopedSems0 (thrV d L) ∗ owes (thrV d L) O W) : sProp 𝕄)
      ⊢ wp frame (wpE (defs₀ (F := F)) 𝒱₀ (thrV d L) none) Set.univ
          (cc14_gather_kernel L tblV (Memref.isWhole_whole _) idxV (Memref.isWhole_whole _) outV (Memref.isWhole_whole _)
            sI0 (Memref.isWhole_whole _) sI1 (Memref.isWhole_whole _) sR0 (Memref.isWhole_whole _) sR1 (Memref.isWhole_whole _)
            cc14_scratch4 cc14_scratch5 cc14_scratch6 cc14_scratch7 cc14_scoped0 cc14_scoped1)
          fun _ => iprop(((tblLoc d ↦{qs} tv) ∗ (idxLoc d ↦{qs} iv) ∗ outLoc qC d ↦[rowsSet (wL L)]{fullShare} gathered tv iv qC)
            ∗ scopedBufs (thrV d L) ∗ scopedSems0 (thrV d L) ∗ ∃ W', ⌜∀ p ∈ W', p ∈ W ∨ p.2 = none⌝ ∗ owes (thrV d L) O W') := by
  simp only [cc14_gather_kernel_eq_skeleton]; unfold cc14_gather_kernel_skel
  rw [(K (F := F)).scopedBufs_V facts d (cV L) (jV L), SparseCore.Cfg.scopedSems0_V (Val := Elt F) d (cV L) (jV L), ownSems0_V, ownBufs_V]
  iintro ⟨#Hlv, -, ⟨Ht, Hi, %fo, Ho⟩, ⟨⟨%f0, Hb0⟩, ⟨%f1, Hb1⟩, ⟨%f2, Hb2⟩, ⟨%f3, Hb3⟩, Hbufs⟩, ⟨Hs4, Hs5, Hs6, Hs7, Hs8, Hs9, Hsems⟩, HO⟩
  ihave Hmw := ((K (F := F)).mayWaits_none (thr := thrV d L) hO) $$ Hlv
  ihave Ht' := (Entails.of_eq (pts_tbl (F := F) d L _ _).symm) $$ Ht
  ihave Hi' := (Entails.of_eq (pts_idx (F := F) d L _ _).symm) $$ Hi
  ihave Hb0' := (Entails.of_eq (pts_s0 (F := F) d L f0)) $$ Hb0
  ihave Hb1' := (Entails.of_eq (pts_s1 (F := F) d L f1)) $$ Hb1
  ihave Hb2' := (Entails.of_eq (pts_s2 (F := F) d L f2)) $$ Hb2
  ihave Hb3' := (Entails.of_eq (pts_s3 (F := F) d L f3)) $$ Hb3
  sl_exec
  sl_for (inv d L qs tv iv O W) $$ [Hmw Ht' Hi' Ho Hb0' Hb1' Hb2' Hb3' Hs4 Hs5 Hs6 Hs7 Hs8 Hs9 HO]
  case region =>
    intro k _
    unfold inv
    iintro ⟨Hmw, Ht, Hi, ⟨%g, %hg, Ho⟩, ⟨%f0, Hb0⟩, ⟨%f1, Hb1⟩, ⟨%f2, Hb2⟩, ⟨%f3, Hb3⟩, Hs4, Hs5, Hs6, Hs7, Hs8, Hs9, %W', %hW', HO⟩
    -- the trip's offsets: the row pieces start at rows `rowE` and `rowE + 256`, the index pieces `65536 qC` entries beyond
    have o30 := offO0 L k
    have o31 := offO0' L k
    have o40 := offO1 L k
    have o41 := offO1' L k
    have hE := rowE_eq L k
    have hk := trip_lt k
    have e13 : k14_off1 L k 0 = (qC : Fin 8).val * 65536 + k14_off3 L k 0 := by rw [offI0, o30]
    have e24 : k14_off2 L k 0 = (qC : Fin 8).val * 65536 + k14_off4 L k 0 := by rw [offI1, o40]
    have hsub3 : (o3 L k).view.set ⊆ rowsSet (wL L) :=
      piece_subset (wL L) k.val _ hE hk (k14_off3 L k) (k14_off3_inb L k) (fun _ => rfl) (.inl o30) o31
    have hsub4 : (o4 L k).view.set ⊆ rowsSet (wL L) \ (o3 L k).view.set :=
      piece_subset_sdiff (wL L) k.val _ hE hk (k14_off3 L k) (k14_off4 L k) (k14_off3_inb L k) (fun _ => rfl) (k14_off4_inb L k) (fun _ => rfl) o30 o40 o41
    ihave Ho' := (pointsTo_split_subset (ℓ := outLoc qC d) (q := fullShare) (f := g) (I := (o3 L k).view.set) (S := rowsSet (wL L)) hsub3).1 $$ Ho
    icases Ho' with ⟨Ho3, Hor⟩
    ihave Hor' := (pointsTo_split_subset (ℓ := outLoc qC d) (q := fullShare) (f := g) (I := (o4 L k).view.set) (S := rowsSet (wL L) \ (o3 L k).view.set) hsub4).1 $$ Hor
    icases Hor' with ⟨Ho4, Hor⟩
    ihave Ho3' := (Entails.of_eq (show (outLoc qC d ↦[(o3 L k).view.set]{fullShare} g : sProp 𝕄) = ((o3 L k).view.loc (thrV d L) ↦[(o3 L k).view.set]{fullShare} g) from rfl)) $$ Ho3
    ihave Ho4' := (Entails.of_eq (show (outLoc qC d ↦[(o4 L k).view.set]{fullShare} g : sProp 𝕄) = ((o4 L k).view.loc (thrV d L) ↦[(o4 L k).view.set]{fullShare} g) from rfl)) $$ Ho4
    -- the words each index scratch holds once its piece of the list has landed name rows of the table
    have hin0 : ∀ x : S256.Idx, ((sI0).view.read (Elt F) ((sI0).view.write (Elt F) f0 (ReadAs.same.apply (((idxV).slice
        (Rect.unit (s := S524288) (k14_off1 L k) S256.size (k14_off1_inb L k)) (fun _ => rfl)).view.read (Elt F) iv)) Finset.univ) x).toNat < 32768 :=
      idx_inb (F := F) d iv hin (thrV d L) sI0 f0 _ _ _
    have hin1 : ∀ x : S256.Idx, ((sI1).view.read (Elt F) ((sI1).view.write (Elt F) f1 (ReadAs.same.apply (((idxV).slice
        (Rect.unit (s := S524288) (k14_off2 L k) S256.size (k14_off2_inb L k)) (fun _ => rfl)).view.read (Elt F) iv)) Finset.univ) x).toNat < 32768 :=
      idx_inb (F := F) d iv hin (thrV d L) sI1 f1 _ _ _
    -- both gathers read the table while the other is outstanding: a read share each
    ihave Ht2 := (pointsTo_share (ℓ := (tblV).view.loc (thrV d L)) (I := Finset.univ) (f := tv) (PosShare.mem_left_op_right qs)).1 $$ Ht
    icases Ht2 with ⟨Hta, Htb⟩
    -- what the two copy-outs leave in their pieces is the gathered rows
    have hgth : S32768x128.Gathers 0 S256x128 := by decide
    have hg3 := fun j hj => piece_gathered (F := F) d tv iv hin (thrV d L) sI0 f0 sR0 f2 (k14_off1 L k) (k14_off1_inb L k) (fun _ => rfl)
      inb_S32768x128_S32768x128_0_0 (fun _ => rfl) hgth rfl hin0 (k14_off3 L k) (k14_off3_inb L k) (fun _ => rfl) e13 o31 g j hj
    have hg4 := fun j hj => piece_gathered (F := F) d tv iv hin (thrV d L) sI1 f1 sR1 f3 (k14_off2 L k) (k14_off2_inb L k) (fun _ => rfl)
      inb_S32768x128_S32768x128_0_0 (fun _ => rfl) hgth rfl hin1 (k14_off4 L k) (k14_off4_inb L k) (fun _ => rfl) e24 o41 g j hj
    sl_exec
    sl_step
    isplitl [Hmw]; · iexact Hmw
    isplitl [Hta Htb]
    · iapply (pointsTo_share (ℓ := (tblV).view.loc (thrV d L)) (I := Finset.univ) (f := tv) (PosShare.mem_left_op_right qs)).2
      isplitl [Hta]; · iexact Hta
      iexact Htb
    isplitl [Hi]; · iexact Hi
    isplitl [Ho3' Ho4' Hor]
    · ihave Hj := (rejoin_two (F := F) (ℓ := outLoc qC d) (rowsSet (wL L)) (o3 L k).view.set (o4 L k).view.set hsub3 hsub4 g _ _) $$ [Ho3' Ho4' Hor]
      · isplitl [Ho3']; · iexact Ho3'
        isplitl [Ho4']; · iexact Ho4'
        iexact Hor
      iexists _
      isplitr
      · ipureintro
        exact doneBelow_step (F := F) d tv iv (wL L) k.val (o3 L k).view.set (o4 L k).view.set g _ _ hg hg3 hg4
          (trip_cover (wL L) k.val _ hE (k14_off3 L k) (k14_off4 L k) (k14_off3_inb L k) (fun _ => rfl) (k14_off4_inb L k) (fun _ => rfl) o30 o31 o40 o41)
      · iexact Hj
    isplitl [Hb0]; · iexists _; iexact Hb0
    isplitl [Hb1]; · iexists _; iexact Hb1
    isplitl [Hb2]; · iexists _; iexact Hb2
    isplitl [Hb3]; · iexists _; iexact Hb3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    iexists _; isplitr
    swap
    · iexact HO
    · ipureintro; intro p hp
      simp only [Finset.mem_insert] at hp
      rcases hp with rfl | rfl | rfl | rfl | rfl | rfl | hp
      · exact .inr rfl
      · exact .inr rfl
      · exact .inr rfl
      · exact .inr rfl
      · exact .inr rfl
      · exact .inr rfl
      · exact hW' p hp
  · unfold inv
    isplitl [Hmw]; · iexact Hmw
    isplitl [Ht']; · iexact Ht'
    isplitl [Hi']; · iexact Hi'
    isplitl [Ho]
    · iexists fo; isplitr
      · ipureintro; exact doneBelow_zero d tv iv (wL L) fo
      · iexact Ho
    isplitl [Hb0']; · iexists f0; iexact Hb0'
    isplitl [Hb1']; · iexists f1; iexact Hb1'
    isplitl [Hb2']; · iexists f2; iexact Hb2'
    isplitl [Hb3']; · iexists f3; iexact Hb3'
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    iexists W; isplitr
    · ipureintro; exact fun p hp => .inl hp
    · iexact HO
  iintro %_ HI
  unfold inv
  icases HI with ⟨-, Ht, Hi, ⟨%g, %hg, Ho⟩, ⟨%f0', Hb0⟩, ⟨%f1', Hb1⟩, ⟨%f2', Hb2⟩, ⟨%f3', Hb3⟩, Hs4, Hs5, Hs6, Hs7, Hs8, Hs9, %W', %hW', HO⟩
  rw [trips_eq] at hg
  sl_exec
  sl_step
  isplitl [Ht Hi Ho]
  · isplitl [Ht]; · iapply (Entails.of_eq (pts_tbl (F := F) d L _ _)); iexact Ht
    isplitl [Hi]; · iapply (Entails.of_eq (pts_idx (F := F) d L _ _)); iexact Hi
    iapply (Entails.of_eq (pointsTo_congr (ℓ := outLoc qC d) (q := fullShare) (I := rowsSet (wL L)) (doneBelow_four d tv iv (wL L) g hg)))
    iexact Ho
  isplitl [Hb0 Hb1 Hb2 Hb3 Hbufs]
  · isplitl [Hb0]; · iexists f0'; iapply (Entails.of_eq (pts_s0 (F := F) d L f0').symm); iexact Hb0
    isplitl [Hb1]; · iexists f1'; iapply (Entails.of_eq (pts_s1 (F := F) d L f1').symm); iexact Hb1
    isplitl [Hb2]; · iexists f2'; iapply (Entails.of_eq (pts_s2 (F := F) d L f2').symm); iexact Hb2
    isplitl [Hb3]; · iexists f3'; iapply (Entails.of_eq (pts_s3 (F := F) d L f3').symm); iexact Hb3
    iexact Hbufs
  isplitl [Hs4 Hs5 Hs6 Hs7 Hs8 Hs9 Hsems]
  · isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    iexact Hsems
  iexists W'; isplitr
  · ipureintro; exact hW'
  · iexact HO

end Body

end Cert.Proof.KW.C7

end
-- ==== Proof.TileObl7W.lean ====
/-
  The launch theorem's obligation for gather call 7: a tile's task, entered through the body table, is the kernel's
  body at that tile, run on the tile's share of the table and the index list and on its worker's rows.
-/
import proofs.«214101_g10505490006249_cont_week2b_118_28_alg».proof.Proof.LaunchW
import proofs.«214101_g10505490006249_cont_week2b_118_28_alg».proof.Proof.Tile7W
import proofs.«214101_g10505490006249_cont_week2b_118_28_alg».proof.Proof.TileObl0W

noncomputable section

namespace Cert.Proof.KW.C7

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Transfers (shareTok shareDrop pointsTo_toks_split pointsTo_toks_join)

variable {F : FTy → Type}

local notation "𝕄" => MT nD τ sig (HIx 8) (Elt F) ℕ UU ℕ

variable [FloatOps F]
variable (tv : (d : Dev nD) → S32768x128.Idx → Elt F .f32) (iv : (d : Dev nD) → S524288.Idx → Elt F .i32)

/-- A tile's grid coordinates from its SparseCore and subcore numbers. -/
def coordsV (c : Fin (grid14.bound 0)) (s : Fin (grid14.bound 1)) : grid14.Coords :=
  fun | 0 => c | 1 => s | ⟨_ + 2, h⟩ => absurd h (Nat.not_lt.2 (Nat.le_add_left _ _))

theorem defs₀_vector7 (c : Fin τ.nSC) (s : Fin τ.nSub) :
    defs₀ (F := F) (.scVector c s) 14 ()
      = SparseCore.onTile hcore14 hsub14 (fun c s => cc14_gather_kernel (coordsV c s)
          tblV (Memref.isWhole_whole _) idxV (Memref.isWhole_whole _) outV (Memref.isWhole_whole _)
          sI0 (Memref.isWhole_whole _) sI1 (Memref.isWhole_whole _) sR0 (Memref.isWhole_whole _) sR1 (Memref.isWhole_whole _)
          cc14_scratch4 cc14_scratch5 cc14_scratch6 cc14_scratch7 cc14_scoped0 cc14_scoped1) ⟨⟩ c s := rfl

/-- Call 7's tile obligation. -/
theorem tileObl7 (hin : ∀ d e, (iv d e).toNat < 32768) : (K (F := F)).TileObl (D (F := F)) 𝒱 (P (F := F) tv iv) v₀ 7 := by
  intro d c i O W hO _ _
  -- the gather kernel owes nothing for a protocol of its own
  simp only [show (P (F := F) tv iv).ox = fun _ _ => 0 from rfl, add_zero]
  change _ ⊢ wp _ _ _ (Pipeline.liftProg (defs₀ (F := F) (.scVector ((K (F := F)).core 7 c) ((K (F := F)).sub 7 i)) 14 ())) _
  refine BI.Entails.trans ?_ (Pipeline.wp_liftProg (D (F := F)) (Pipeline.defs_kernel pcfgs defs₀) 𝒱₀ _ Set.univ none _ _)
  have hc : ((K (F := F)).core 7 c).val < grid14.bound 0 ∧ ((K (F := F)).sub 7 i).val < grid14.bound 1 := ⟨c.isLt, i.isLt⟩
  rw [defs₀_vector7]; simp only [SparseCore.onTile, hc, and_self, ↓reduceDIte]
  exact (tile_body d (coordsV ⟨_, hc.1⟩ ⟨_, hc.2⟩) (shT (cC 7 c) (sS 7 i)) (tv d) (iv d) (hin d) O W hO).trans (wp_mono frame _ _ fun _ => obl_post)

end Cert.Proof.KW.C7

end
-- ==== Proof.TcBody1.lean ====
/-
  The TensorCore body of point-convolution call 1, run once on whole staging buffers, and the proof data of
  its pipeline.

  The body reads nine blocks whole — the gathered rows, the per-point bias of the first layer, the three layers'
  weights and biases, the output weights and the output bias — and stores one block whole: the output weights
  applied to the flattened products of the third layer's activations with the gathered features, plus the output
  bias. Nothing else is touched: every input buffer is handed back as it was found, and what the output buffer
  held before is overwritten everywhere. The statement is made once over arbitrary whole memrefs and arbitrary
  contents, then at the staging buffers the pipeline calls the body with at a grid point, and last in the form
  the pipeline rule asks of a body: for any proof data whose input windows are found and left at given blocks,
  whose output window is left at the stored block, and whose invariant and debts pass through unchanged. The
  proof data itself is stated over arbitrary contents of the ten windows' arrays: each input window's staging
  buffer holds that array's block at the point, fetched there or not, and the output window's holds the stored
  block computed from them.
-/
import proofs.«214101_g10505490006249_cont_week2b_118_28_alg».proof.Proof.Gen.KernelIdeal.Launch
import proofs.«214101_g10505490006249_cont_week2b_118_28_alg».proof.Proof.Gen.KernelIdeal.Skeleton
import proofs.«214101_g10505490006249_cont_week2b_118_28_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.Proof.Tc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## The body on whole memrefs -/

/-- The offsets of every whole-block access: zero on both axes. -/
theorem zeros1 : (![0, 0] : Fin 2 → Nat) = fun _ => 0 := by funext a; fin_cases a <;> rfl

/-- The one store of the body covers the output block. -/
theorem cover1 (p0 : Vec F S1024x64 .f32) (y : S1024x64.Idx) :
    ∃ pc ∈ ([⟨Rect.unit (s := S1024x64) ![0, 0] S1024x64.size inb_S1024x64_S1024x64_0_0, p0⟩] : List (View.Piece (Elt F) S1024x64 .f32)), y ∈ pc.1.set :=
  ⟨_, List.mem_singleton_self _, View.mem_set_unit_zero zeros1 inb_S1024x64_S1024x64_0_0 y⟩

set_option maxHeartbeats 1000000 in
/-- The body on ten whole memrefs, the nine inputs' read at `x0 … x8` and the output's at anything, runs to the
    continuation holding the inputs' as they were and the output's at the stored block: the output weights `x7`
    applied to the flattened products computed from `x0 … x6`, plus the output bias `x8`. -/
theorem sound_kernel1 (c : Dev nD) (E : Set Name) (i : grid1.Coords)
    (arg1 : Memref sig .tc .vmem S16384x128 .f32) (harg1 : arg1.IsWhole) (arg2 : Memref sig .tc .vmem S1024x32 .f32) (harg2 : arg2.IsWhole) (arg3 : Memref sig .tc .vmem S128x32 .f32) (harg3 : arg3.IsWhole) (arg4 : Memref sig .tc .vmem S32x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S1024x64 .f32) (harg8 : arg8.IsWhole) (arg9 : Memref sig .tc .vmem S1x64 .f32) (harg9 : arg9.IsWhole) (arg10 : Memref sig .tc .vmem S1024x64 .f32) (harg10 : arg10.IsWhole)
    (x0 : Vec F S16384x128 .f32) (x1 : Vec F S1024x32 .f32) (x2 : Vec F S128x32 .f32) (x3 : Vec F S32x16 .f32) (x4 : Vec F S1x16 .f32) (x5 : Vec F S16x16 .f32) (x6 : Vec F S1x16 .f32) (x7 : Vec F S1024x64 .f32) (x8 : Vec F S1x64 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ owns (c : Thread nD τ) arg10 fullShare (k1_pay1 (k1_pay2 x0 x2 x1 x3 x4 x5 x6) x7 x8)) -∗ K ⟨⟩))
      ⊢ wp frame (wpE (defs₀ (F := F)) Variants.none c none) E (cc1__tc_body i arg1 harg1 arg2 harg2 arg3 harg3 arg4 harg4 arg5 harg5 arg6 harg6 arg7 harg7 arg8 harg8 arg9 harg9 arg10 harg10) K := by
  simp only [cc1__tc_body_eq_skeleton]; unfold cc1__tc_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  rw [View.read_writes_eq_canon _ _ _ (cover1 _), View.canon_unit_zero zeros1]
  unfold sound_kernel1.sl.r
  simp only [View.readAt_eq_ld, View.ld_unit_zero (S := S16384x128) zeros1, View.ld_unit_zero (S := S128x32) zeros1, View.ld_unit_zero (S := S1024x32) zeros1, View.ld_unit_zero (S := S32x16) zeros1, View.ld_unit_zero (S := S1x16) zeros1, View.ld_unit_zero (S := S16x16) zeros1, View.ld_unit_zero (S := S1024x64) zeros1, View.ld_unit_zero (S := S1x64) zeros1]

/-! ## The body at a grid point, for any proof data of the call -/

section Obligation

variable {c : Dev nD} (dat : Dat τ (Elt F) Ix Name U Lvl cfg1 c) (ι : Ix)
  (x0 : Fin cfg1.N → Vec F S16384x128 .f32) (x1 : Fin cfg1.N → Vec F S1024x32 .f32) (x2 : Fin cfg1.N → Vec F S128x32 .f32) (x3 : Fin cfg1.N → Vec F S32x16 .f32) (x4 : Fin cfg1.N → Vec F S1x16 .f32) (x5 : Fin cfg1.N → Vec F S16x16 .f32) (x6 : Fin cfg1.N → Vec F S1x16 .f32) (x7 : Fin cfg1.N → Vec F S1024x64 .f32) (x8 : Fin cfg1.N → Vec F S1x64 .f32)

/-- The body at point `t` on the staging buffers the pipeline calls it with. The proof data's input windows are
    found at the blocks `x0 t … x8 t` (`hb`) and left there (`ha`), its output window is left at the stored block
    (`ha9`), and its invariant and the core's debts at the next point follow from those before (`hΦ`, `ho`): they
    pass through the body unread. -/
theorem sound_body1
    (hb0 : ∀ t d, dat.before 0 t d = x0 t) (hb1 : ∀ t d, dat.before 1 t d = x1 t) (hb2 : ∀ t d, dat.before 2 t d = x2 t) (hb3 : ∀ t d, dat.before 3 t d = x3 t) (hb4 : ∀ t d, dat.before 4 t d = x4 t) (hb5 : ∀ t d, dat.before 5 t d = x5 t) (hb6 : ∀ t d, dat.before 6 t d = x6 t) (hb7 : ∀ t d, dat.before 7 t d = x7 t) (hb8 : ∀ t d, dat.before 8 t d = x8 t)
    (ha0 : ∀ t, dat.after 0 t = x0 t) (ha1 : ∀ t, dat.after 1 t = x1 t) (ha2 : ∀ t, dat.after 2 t = x2 t) (ha3 : ∀ t, dat.after 3 t = x3 t) (ha4 : ∀ t, dat.after 4 t = x4 t) (ha5 : ∀ t, dat.after 5 t = x5 t) (ha6 : ∀ t, dat.after 6 t = x6 t) (ha7 : ∀ t, dat.after 7 t = x7 t) (ha8 : ∀ t, dat.after 8 t = x8 t)
    (ha9 : ∀ t, dat.after 9 t = k1_pay1 (k1_pay2 (x0 t) (x2 t) (x1 t) (x3 t) (x4 t) (x5 t) (x6 t)) (x7 t) (x8 t))
    (hΦ : ∀ t : Fin cfg1.N, dat.Φ t.castSucc ⊢ dat.Φ t.succ)
    (ho : ∀ t : Fin cfg1.N, dat.owesAt ι t.castSucc ⊢ dat.owesAt ι t.succ) (t : Fin cfg1.N) :
    iprop(dat.Φ t.castSucc ∗ dat.owesAt ι t.castSucc
      ∗ (∃ d, owns (c : Thread nD τ) (st1_0 t) fullShare (dat.before 0 t d))
      ∗ (∃ d, owns (c : Thread nD τ) (st1_1 t) fullShare (dat.before 1 t d))
      ∗ (∃ d, owns (c : Thread nD τ) (st1_2 t) fullShare (dat.before 2 t d))
      ∗ (∃ d, owns (c : Thread nD τ) (st1_3 t) fullShare (dat.before 3 t d))
      ∗ (∃ d, owns (c : Thread nD τ) (st1_4 t) fullShare (dat.before 4 t d))
      ∗ (∃ d, owns (c : Thread nD τ) (st1_5 t) fullShare (dat.before 5 t d))
      ∗ (∃ d, owns (c : Thread nD τ) (st1_6 t) fullShare (dat.before 6 t d))
      ∗ (∃ d, owns (c : Thread nD τ) (st1_7 t) fullShare (dat.before 7 t d))
      ∗ (∃ d, owns (c : Thread nD τ) (st1_8 t) fullShare (dat.before 8 t d))
      ∗ (∃ d, owns (c : Thread nD τ) (st1_9 t) fullShare (dat.before 9 t d)))
    ⊢ wp frame (wpE (defs₀ (F := F)) Variants.none c none) Set.univ (bodyAt1 t) (fun _ =>
        iprop(dat.Φ t.succ ∗ dat.owesAt ι t.succ
          ∗ owns (c : Thread nD τ) (st1_0 t) fullShare (dat.after 0 t)
          ∗ owns (c : Thread nD τ) (st1_1 t) fullShare (dat.after 1 t)
          ∗ owns (c : Thread nD τ) (st1_2 t) fullShare (dat.after 2 t)
          ∗ owns (c : Thread nD τ) (st1_3 t) fullShare (dat.after 3 t)
          ∗ owns (c : Thread nD τ) (st1_4 t) fullShare (dat.after 4 t)
          ∗ owns (c : Thread nD τ) (st1_5 t) fullShare (dat.after 5 t)
          ∗ owns (c : Thread nD τ) (st1_6 t) fullShare (dat.after 6 t)
          ∗ owns (c : Thread nD τ) (st1_7 t) fullShare (dat.after 7 t)
          ∗ owns (c : Thread nD τ) (st1_8 t) fullShare (dat.after 8 t)
          ∗ owns (c : Thread nD τ) (st1_9 t) fullShare (dat.after 9 t))) := by
  unfold bodyAt1
  simp only [hb0, hb1, hb2, hb3, hb4, hb5, hb6, hb7, hb8, ha0, ha1, ha2, ha3, ha4, ha5, ha6, ha7, ha8, ha9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ (grid1.coords t) _ _ _ _ _ _ _ _ _ _ _ _ _ _ _ _ _ _ _ _ (x0 t) (x1 t) (x2 t) (x3 t) (x4 t) (x5 t) (x6 t) (x7 t) (x8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iapply (hΦ t); iexact HΦ
  isplitl [Ho]; · iapply (ho t); iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline rule's body obligation for the call, at every point, under the same hypotheses. -/
theorem body_obligation1_of
    (hb0 : ∀ t d, dat.before 0 t d = x0 t) (hb1 : ∀ t d, dat.before 1 t d = x1 t) (hb2 : ∀ t d, dat.before 2 t d = x2 t) (hb3 : ∀ t d, dat.before 3 t d = x3 t) (hb4 : ∀ t d, dat.before 4 t d = x4 t) (hb5 : ∀ t d, dat.before 5 t d = x5 t) (hb6 : ∀ t d, dat.before 6 t d = x6 t) (hb7 : ∀ t d, dat.before 7 t d = x7 t) (hb8 : ∀ t d, dat.before 8 t d = x8 t)
    (ha0 : ∀ t, dat.after 0 t = x0 t) (ha1 : ∀ t, dat.after 1 t = x1 t) (ha2 : ∀ t, dat.after 2 t = x2 t) (ha3 : ∀ t, dat.after 3 t = x3 t) (ha4 : ∀ t, dat.after 4 t = x4 t) (ha5 : ∀ t, dat.after 5 t = x5 t) (ha6 : ∀ t, dat.after 6 t = x6 t) (ha7 : ∀ t, dat.after 7 t = x7 t) (ha8 : ∀ t, dat.after 8 t = x8 t)
    (ha9 : ∀ t, dat.after 9 t = k1_pay1 (k1_pay2 (x0 t) (x2 t) (x1 t) (x3 t) (x4 t) (x5 t) (x6 t)) (x7 t) (x8 t))
    (hΦ : ∀ t : Fin cfg1.N, dat.Φ t.castSucc ⊢ dat.Φ t.succ)
    (ho : ∀ t : Fin cfg1.N, dat.owesAt ι t.castSucc ⊢ dat.owesAt ι t.succ) :
    BodyObligation dat (defs₀ (F := F)) Variants.none ι Set.univ := fun t => by
  rw [bigSep_W1, bigSep_W1]
  exact sound_body1 dat ι x0 x1 x2 x3 x4 x5 x6 x7 x8 hb0 hb1 hb2 hb3 hb4 hb5 hb6 hb7 hb8 ha0 ha1 ha2 ha3 ha4 ha5 ha6 ha7 ha8 ha9 hΦ ho t

end Obligation

/-! ## The call's proof data over given array contents

The arrays' contents as the call finds them are a parameter `V`; the blocks the body is handed are read off them
through the windows, and the proof data says: every input window is found at its block and left there, the output
window is left at the stored block computed from the input blocks of that point. -/

section Data

variable (c : Dev nD) (V : (b : Ref sig .tc) → Buf (Elt F) ((c : Thread nD τ).loc b))

/-- Window `w`'s block at point `t`, read off its array's contents `V`. -/
def iblk1 (w : Fin cfg1.W) (t : Fin cfg1.N) : ((cfg1.win w).xblock (cfg1.grid.coords t)).Idx → Elt F (cfg1.win w).elt :=
  ((cfg1.win w).blk t).view.read (Elt F) (V (Pipeline.arrRef spec1 w))

/-- The block the body stores at point `t`, from the input windows' blocks there. -/
def out1 (t : Fin cfg1.N) : Vec F S1024x64 .f32 :=
  k1_pay1 (k1_pay2 (iblk1 c V 0 t) (iblk1 c V 2 t) (iblk1 c V 1 t) (iblk1 c V 3 t) (iblk1 c V 4 t) (iblk1 c V 5 t) (iblk1 c V 6 t)) (iblk1 c V 7 t) (iblk1 c V 8 t)

/-- An input window's current staging buffer holds its block at every point, fetched there or not, for any proof
    data whose array is `V`'s (`hA`) and whose body leaves the block in place (`hafter`): unfetched, the window's
    index has not moved since the point that fetched it. -/
theorem before1_0_of (dat : Dat τ (Elt F) Ix Name U Lvl cfg1 c) (hA : dat.A 0 = V (Pipeline.arrRef spec1 0))
    (hafter : ∀ t, dat.after 0 t = iblk1 c V 0 t) (t : Fin cfg1.N) (d) : dat.before 0 t d = iblk1 c V 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of (dat : Dat τ (Elt F) Ix Name U Lvl cfg1 c) (hA : dat.A 1 = V (Pipeline.arrRef spec1 1))
    (hafter : ∀ t, dat.after 1 t = iblk1 c V 1 t) (t : Fin cfg1.N) (d) : dat.before 1 t d = iblk1 c V 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of (dat : Dat τ (Elt F) Ix Name U Lvl cfg1 c) (hA : dat.A 2 = V (Pipeline.arrRef spec1 2))
    (hafter : ∀ t, dat.after 2 t = iblk1 c V 2 t) (t : Fin cfg1.N) (d) : dat.before 2 t d = iblk1 c V 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of (dat : Dat τ (Elt F) Ix Name U Lvl cfg1 c) (hA : dat.A 3 = V (Pipeline.arrRef spec1 3))
    (hafter : ∀ t, dat.after 3 t = iblk1 c V 3 t) (t : Fin cfg1.N) (d) : dat.before 3 t d = iblk1 c V 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of (dat : Dat τ (Elt F) Ix Name U Lvl cfg1 c) (hA : dat.A 4 = V (Pipeline.arrRef spec1 4))
    (hafter : ∀ t, dat.after 4 t = iblk1 c V 4 t) (t : Fin cfg1.N) (d) : dat.before 4 t d = iblk1 c V 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of (dat : Dat τ (Elt F) Ix Name U Lvl cfg1 c) (hA : dat.A 5 = V (Pipeline.arrRef spec1 5))
    (hafter : ∀ t, dat.after 5 t = iblk1 c V 5 t) (t : Fin cfg1.N) (d) : dat.before 5 t d = iblk1 c V 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of (dat : Dat τ (Elt F) Ix Name U Lvl cfg1 c) (hA : dat.A 6 = V (Pipeline.arrRef spec1 6))
    (hafter : ∀ t, dat.after 6 t = iblk1 c V 6 t) (t : Fin cfg1.N) (d) : dat.before 6 t d = iblk1 c V 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of (dat : Dat τ (Elt F) Ix Name U Lvl cfg1 c) (hA : dat.A 7 = V (Pipeline.arrRef spec1 7))
    (hafter : ∀ t, dat.after 7 t = iblk1 c V 7 t) (t : Fin cfg1.N) (d) : dat.before 7 t d = iblk1 c V 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of (dat : Dat τ (Elt F) Ix Name U Lvl cfg1 c) (hA : dat.A 8 = V (Pipeline.arrRef spec1 8))
    (hafter : ∀ t, dat.after 8 t = iblk1 c V 8 t) (t : Fin cfg1.N) (d) : dat.before 8 t d = iblk1 c V 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-- The proof data of the call on core `c`: the arrays as found (`V`); after the body at point `t` each input's
    buffer at its block and the output's at the stored block; one invariant `Φ₀`, one tally of debts `O` and
    one bound `Rec` on the recorded waits at every point, all untouched by the body; the input arrays held at the shares `q`. -/
def dat1 (Φ₀ : sProp (MT nD τ sig Ix (Elt F) Name U Lvl)) (O : CellTallies nD τ sig Ix) (Rec : Set (SemLoc sig × Ix))
    (q : Fin cfg1.W → PosShare TreeShare) : Dat τ (Elt F) Ix Name U Lvl cfg1 c where
  A w := V (Pipeline.arrRef spec1 w)
  after w t := match w with
    | ⟨0, _⟩ => iblk1 c V 0 t
    | ⟨1, _⟩ => iblk1 c V 1 t
    | ⟨2, _⟩ => iblk1 c V 2 t
    | ⟨3, _⟩ => iblk1 c V 3 t
    | ⟨4, _⟩ => iblk1 c V 4 t
    | ⟨5, _⟩ => iblk1 c V 5 t
    | ⟨6, _⟩ => iblk1 c V 6 t
    | ⟨7, _⟩ => iblk1 c V 7 t
    | ⟨8, _⟩ => iblk1 c V 8 t
    | ⟨9, _⟩ => out1 c V t
  Φ _ := Φ₀
  q := q
  owed _ := O
  recorded _ := Rec

variable (Φ₀ : sProp (MT nD τ sig Ix (Elt F) Name U Lvl)) (O : CellTallies nD τ sig Ix) (Rec : Set (SemLoc sig × Ix)) (q : Fin cfg1.W → PosShare TreeShare)

/-- The proof data's arrays are `V`'s, by projection. -/
theorem A1_eq (w : Fin cfg1.W) : (dat1 c V Φ₀ O Rec q).A w = V (Pipeline.arrRef spec1 w) := by dsimp only [dat1]

/-- What the body leaves, window by window. -/
theorem after1_0 (t : Fin cfg1.N) : (dat1 c V Φ₀ O Rec q).after 0 t = iblk1 c V 0 t := by dsimp only [dat1]
theorem after1_1 (t : Fin cfg1.N) : (dat1 c V Φ₀ O Rec q).after 1 t = iblk1 c V 1 t := by dsimp only [dat1]
theorem after1_2 (t : Fin cfg1.N) : (dat1 c V Φ₀ O Rec q).after 2 t = iblk1 c V 2 t := by dsimp only [dat1]
theorem after1_3 (t : Fin cfg1.N) : (dat1 c V Φ₀ O Rec q).after 3 t = iblk1 c V 3 t := by dsimp only [dat1]
theorem after1_4 (t : Fin cfg1.N) : (dat1 c V Φ₀ O Rec q).after 4 t = iblk1 c V 4 t := by dsimp only [dat1]
theorem after1_5 (t : Fin cfg1.N) : (dat1 c V Φ₀ O Rec q).after 5 t = iblk1 c V 5 t := by dsimp only [dat1]
theorem after1_6 (t : Fin cfg1.N) : (dat1 c V Φ₀ O Rec q).after 6 t = iblk1 c V 6 t := by dsimp only [dat1]
theorem after1_7 (t : Fin cfg1.N) : (dat1 c V Φ₀ O Rec q).after 7 t = iblk1 c V 7 t := by dsimp only [dat1]
theorem after1_8 (t : Fin cfg1.N) : (dat1 c V Φ₀ O Rec q).after 8 t = iblk1 c V 8 t := by dsimp only [dat1]
theorem after1_9 (t : Fin cfg1.N) : (dat1 c V Φ₀ O Rec q).after 9 t = out1 c V t := by dsimp only [dat1]

/-- What the body finds in each input's buffer. -/
theorem before1_0 (t : Fin cfg1.N) (d) : (dat1 c V Φ₀ O Rec q).before 0 t d = iblk1 c V 0 t :=
  before1_0_of c V (dat1 c V Φ₀ O Rec q) (A1_eq c V Φ₀ O Rec q 0) (after1_0 c V Φ₀ O Rec q) t d
theorem before1_1 (t : Fin cfg1.N) (d) : (dat1 c V Φ₀ O Rec q).before 1 t d = iblk1 c V 1 t :=
  before1_1_of c V (dat1 c V Φ₀ O Rec q) (A1_eq c V Φ₀ O Rec q 1) (after1_1 c V Φ₀ O Rec q) t d
theorem before1_2 (t : Fin cfg1.N) (d) : (dat1 c V Φ₀ O Rec q).before 2 t d = iblk1 c V 2 t :=
  before1_2_of c V (dat1 c V Φ₀ O Rec q) (A1_eq c V Φ₀ O Rec q 2) (after1_2 c V Φ₀ O Rec q) t d
theorem before1_3 (t : Fin cfg1.N) (d) : (dat1 c V Φ₀ O Rec q).before 3 t d = iblk1 c V 3 t :=
  before1_3_of c V (dat1 c V Φ₀ O Rec q) (A1_eq c V Φ₀ O Rec q 3) (after1_3 c V Φ₀ O Rec q) t d
theorem before1_4 (t : Fin cfg1.N) (d) : (dat1 c V Φ₀ O Rec q).before 4 t d = iblk1 c V 4 t :=
  before1_4_of c V (dat1 c V Φ₀ O Rec q) (A1_eq c V Φ₀ O Rec q 4) (after1_4 c V Φ₀ O Rec q) t d
theorem before1_5 (t : Fin cfg1.N) (d) : (dat1 c V Φ₀ O Rec q).before 5 t d = iblk1 c V 5 t :=
  before1_5_of c V (dat1 c V Φ₀ O Rec q) (A1_eq c V Φ₀ O Rec q 5) (after1_5 c V Φ₀ O Rec q) t d
theorem before1_6 (t : Fin cfg1.N) (d) : (dat1 c V Φ₀ O Rec q).before 6 t d = iblk1 c V 6 t :=
  before1_6_of c V (dat1 c V Φ₀ O Rec q) (A1_eq c V Φ₀ O Rec q 6) (after1_6 c V Φ₀ O Rec q) t d
theorem before1_7 (t : Fin cfg1.N) (d) : (dat1 c V Φ₀ O Rec q).before 7 t d = iblk1 c V 7 t :=
  before1_7_of c V (dat1 c V Φ₀ O Rec q) (A1_eq c V Φ₀ O Rec q 7) (after1_7 c V Φ₀ O Rec q) t d
theorem before1_8 (t : Fin cfg1.N) (d) : (dat1 c V Φ₀ O Rec q).before 8 t d = iblk1 c V 8 t :=
  before1_8_of c V (dat1 c V Φ₀ O Rec q) (A1_eq c V Φ₀ O Rec q 8) (after1_8 c V Φ₀ O Rec q) t d

/-- The pipeline rule's body obligation for this proof data, at every point and any index of the credit tokens. -/
theorem body_obligation1 (ι : Ix) : BodyObligation (dat1 c V Φ₀ O Rec q) (defs₀ (F := F)) Variants.none ι Set.univ :=
  body_obligation1_of (dat1 c V Φ₀ O Rec q) ι (iblk1 c V 0) (iblk1 c V 1) (iblk1 c V 2) (iblk1 c V 3) (iblk1 c V 4) (iblk1 c V 5) (iblk1 c V 6) (iblk1 c V 7) (iblk1 c V 8)
    (before1_0 c V Φ₀ O Rec q) (before1_1 c V Φ₀ O Rec q) (before1_2 c V Φ₀ O Rec q) (before1_3 c V Φ₀ O Rec q) (before1_4 c V Φ₀ O Rec q) (before1_5 c V Φ₀ O Rec q) (before1_6 c V Φ₀ O Rec q) (before1_7 c V Φ₀ O Rec q) (before1_8 c V Φ₀ O Rec q)
    (after1_0 c V Φ₀ O Rec q) (after1_1 c V Φ₀ O Rec q) (after1_2 c V Φ₀ O Rec q) (after1_3 c V Φ₀ O Rec q) (after1_4 c V Φ₀ O Rec q) (after1_5 c V Φ₀ O Rec q) (after1_6 c V Φ₀ O Rec q) (after1_7 c V Φ₀ O Rec q) (after1_8 c V Φ₀ O Rec q)
    (after1_9 c V Φ₀ O Rec q) (fun _ => .rfl) (fun _ => .rfl)

end Data

end Cert.Proof.Tc

end
-- ==== Proof.TcBody3.lean ====
/-
  The TensorCore body of point-convolution call 3, run once on whole staging buffers, and the proof data of
  its pipeline.

  The body reads nine blocks whole — the gathered rows, the per-point bias of the first layer, the three layers'
  weights and biases, the output weights and the output bias — and stores one block whole: the output weights
  applied to the flattened products of the third layer's activations with the gathered features, plus the output
  bias. Nothing else is touched: every input buffer is handed back as it was found, and what the output buffer
  held before is overwritten everywhere. The statement is made once over arbitrary whole memrefs and arbitrary
  contents, then at the staging buffers the pipeline calls the body with at a grid point, and last in the form
  the pipeline rule asks of a body: for any proof data whose input windows are found and left at given blocks,
  whose output window is left at the stored block, and whose invariant and debts pass through unchanged. The
  proof data itself is stated over arbitrary contents of the ten windows' arrays: each input window's staging
  buffer holds that array's block at the point, fetched there or not, and the output window's holds the stored
  block computed from them.
-/
import proofs.«214101_g10505490006249_cont_week2b_118_28_alg».proof.Proof.Gen.KernelIdeal.Launch
import proofs.«214101_g10505490006249_cont_week2b_118_28_alg».proof.Proof.Gen.KernelIdeal.Skeleton
import proofs.«214101_g10505490006249_cont_week2b_118_28_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.Proof.Tc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## The body on whole memrefs -/

/-- The offsets of every whole-block access: zero on both axes. -/
theorem zeros3 : (![0, 0] : Fin 2 → Nat) = fun _ => 0 := by funext a; fin_cases a <;> rfl

/-- The one store of the body covers the output block. -/
theorem cover3 (p0 : Vec F S1024x64 .f32) (y : S1024x64.Idx) :
    ∃ pc ∈ ([⟨Rect.unit (s := S1024x64) ![0, 0] S1024x64.size inb_S1024x64_S1024x64_0_0, p0⟩] : List (View.Piece (Elt F) S1024x64 .f32)), y ∈ pc.1.set :=
  ⟨_, List.mem_singleton_self _, View.mem_set_unit_zero zeros3 inb_S1024x64_S1024x64_0_0 y⟩

set_option maxHeartbeats 1000000 in
/-- The body on ten whole memrefs, the nine inputs' read at `x0 … x8` and the output's at anything, runs to the
    continuation holding the inputs' as they were and the output's at the stored block: the output weights `x7`
    applied to the flattened products computed from `x0 … x6`, plus the output bias `x8`. -/
theorem sound_kernel3 (c : Dev nD) (E : Set Name) (i : grid3.Coords)
    (arg1 : Memref sig .tc .vmem S16384x128 .f32) (harg1 : arg1.IsWhole) (arg2 : Memref sig .tc .vmem S1024x32 .f32) (harg2 : arg2.IsWhole) (arg3 : Memref sig .tc .vmem S128x32 .f32) (harg3 : arg3.IsWhole) (arg4 : Memref sig .tc .vmem S32x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S1024x64 .f32) (harg8 : arg8.IsWhole) (arg9 : Memref sig .tc .vmem S1x64 .f32) (harg9 : arg9.IsWhole) (arg10 : Memref sig .tc .vmem S1024x64 .f32) (harg10 : arg10.IsWhole)
    (x0 : Vec F S16384x128 .f32) (x1 : Vec F S1024x32 .f32) (x2 : Vec F S128x32 .f32) (x3 : Vec F S32x16 .f32) (x4 : Vec F S1x16 .f32) (x5 : Vec F S16x16 .f32) (x6 : Vec F S1x16 .f32) (x7 : Vec F S1024x64 .f32) (x8 : Vec F S1x64 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ owns (c : Thread nD τ) arg10 fullShare (k3_pay1 (k3_pay2 x0 x2 x1 x3 x4 x5 x6) x7 x8)) -∗ K ⟨⟩))
      ⊢ wp frame (wpE (defs₀ (F := F)) Variants.none c none) E (cc3__tc_body i arg1 harg1 arg2 harg2 arg3 harg3 arg4 harg4 arg5 harg5 arg6 harg6 arg7 harg7 arg8 harg8 arg9 harg9 arg10 harg10) K := by
  simp only [cc3__tc_body_eq_skeleton]; unfold cc3__tc_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  rw [View.read_writes_eq_canon _ _ _ (cover3 _), View.canon_unit_zero zeros3]
  unfold sound_kernel3.sl.r
  simp only [View.readAt_eq_ld, View.ld_unit_zero (S := S16384x128) zeros3, View.ld_unit_zero (S := S128x32) zeros3, View.ld_unit_zero (S := S1024x32) zeros3, View.ld_unit_zero (S := S32x16) zeros3, View.ld_unit_zero (S := S1x16) zeros3, View.ld_unit_zero (S := S16x16) zeros3, View.ld_unit_zero (S := S1024x64) zeros3, View.ld_unit_zero (S := S1x64) zeros3]

/-! ## The body at a grid point, for any proof data of the call -/

section Obligation

variable {c : Dev nD} (dat : Dat τ (Elt F) Ix Name U Lvl cfg3 c) (ι : Ix)
  (x0 : Fin cfg3.N → Vec F S16384x128 .f32) (x1 : Fin cfg3.N → Vec F S1024x32 .f32) (x2 : Fin cfg3.N → Vec F S128x32 .f32) (x3 : Fin cfg3.N → Vec F S32x16 .f32) (x4 : Fin cfg3.N → Vec F S1x16 .f32) (x5 : Fin cfg3.N → Vec F S16x16 .f32) (x6 : Fin cfg3.N → Vec F S1x16 .f32) (x7 : Fin cfg3.N → Vec F S1024x64 .f32) (x8 : Fin cfg3.N → Vec F S1x64 .f32)

/-- The body at point `t` on the staging buffers the pipeline calls it with. The proof data's input windows are
    found at the blocks `x0 t … x8 t` (`hb`) and left there (`ha`), its output window is left at the stored block
    (`ha9`), and its invariant and the core's debts at the next point follow from those before (`hΦ`, `ho`): they
    pass through the body unread. -/
theorem sound_body3
    (hb0 : ∀ t d, dat.before 0 t d = x0 t) (hb1 : ∀ t d, dat.before 1 t d = x1 t) (hb2 : ∀ t d, dat.before 2 t d = x2 t) (hb3 : ∀ t d, dat.before 3 t d = x3 t) (hb4 : ∀ t d, dat.before 4 t d = x4 t) (hb5 : ∀ t d, dat.before 5 t d = x5 t) (hb6 : ∀ t d, dat.before 6 t d = x6 t) (hb7 : ∀ t d, dat.before 7 t d = x7 t) (hb8 : ∀ t d, dat.before 8 t d = x8 t)
    (ha0 : ∀ t, dat.after 0 t = x0 t) (ha1 : ∀ t, dat.after 1 t = x1 t) (ha2 : ∀ t, dat.after 2 t = x2 t) (ha3 : ∀ t, dat.after 3 t = x3 t) (ha4 : ∀ t, dat.after 4 t = x4 t) (ha5 : ∀ t, dat.after 5 t = x5 t) (ha6 : ∀ t, dat.after 6 t = x6 t) (ha7 : ∀ t, dat.after 7 t = x7 t) (ha8 : ∀ t, dat.after 8 t = x8 t)
    (ha9 : ∀ t, dat.after 9 t = k3_pay1 (k3_pay2 (x0 t) (x2 t) (x1 t) (x3 t) (x4 t) (x5 t) (x6 t)) (x7 t) (x8 t))
    (hΦ : ∀ t : Fin cfg3.N, dat.Φ t.castSucc ⊢ dat.Φ t.succ)
    (ho : ∀ t : Fin cfg3.N, dat.owesAt ι t.castSucc ⊢ dat.owesAt ι t.succ) (t : Fin cfg3.N) :
    iprop(dat.Φ t.castSucc ∗ dat.owesAt ι t.castSucc
      ∗ (∃ d, owns (c : Thread nD τ) (st3_0 t) fullShare (dat.before 0 t d))
      ∗ (∃ d, owns (c : Thread nD τ) (st3_1 t) fullShare (dat.before 1 t d))
      ∗ (∃ d, owns (c : Thread nD τ) (st3_2 t) fullShare (dat.before 2 t d))
      ∗ (∃ d, owns (c : Thread nD τ) (st3_3 t) fullShare (dat.before 3 t d))
      ∗ (∃ d, owns (c : Thread nD τ) (st3_4 t) fullShare (dat.before 4 t d))
      ∗ (∃ d, owns (c : Thread nD τ) (st3_5 t) fullShare (dat.before 5 t d))
      ∗ (∃ d, owns (c : Thread nD τ) (st3_6 t) fullShare (dat.before 6 t d))
      ∗ (∃ d, owns (c : Thread nD τ) (st3_7 t) fullShare (dat.before 7 t d))
      ∗ (∃ d, owns (c : Thread nD τ) (st3_8 t) fullShare (dat.before 8 t d))
      ∗ (∃ d, owns (c : Thread nD τ) (st3_9 t) fullShare (dat.before 9 t d)))
    ⊢ wp frame (wpE (defs₀ (F := F)) Variants.none c none) Set.univ (bodyAt3 t) (fun _ =>
        iprop(dat.Φ t.succ ∗ dat.owesAt ι t.succ
          ∗ owns (c : Thread nD τ) (st3_0 t) fullShare (dat.after 0 t)
          ∗ owns (c : Thread nD τ) (st3_1 t) fullShare (dat.after 1 t)
          ∗ owns (c : Thread nD τ) (st3_2 t) fullShare (dat.after 2 t)
          ∗ owns (c : Thread nD τ) (st3_3 t) fullShare (dat.after 3 t)
          ∗ owns (c : Thread nD τ) (st3_4 t) fullShare (dat.after 4 t)
          ∗ owns (c : Thread nD τ) (st3_5 t) fullShare (dat.after 5 t)
          ∗ owns (c : Thread nD τ) (st3_6 t) fullShare (dat.after 6 t)
          ∗ owns (c : Thread nD τ) (st3_7 t) fullShare (dat.after 7 t)
          ∗ owns (c : Thread nD τ) (st3_8 t) fullShare (dat.after 8 t)
          ∗ owns (c : Thread nD τ) (st3_9 t) fullShare (dat.after 9 t))) := by
  unfold bodyAt3
  simp only [hb0, hb1, hb2, hb3, hb4, hb5, hb6, hb7, hb8, ha0, ha1, ha2, ha3, ha4, ha5, ha6, ha7, ha8, ha9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel3 c Set.univ (grid3.coords t) _ _ _ _ _ _ _ _ _ _ _ _ _ _ _ _ _ _ _ _ (x0 t) (x1 t) (x2 t) (x3 t) (x4 t) (x5 t) (x6 t) (x7 t) (x8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iapply (hΦ t); iexact HΦ
  isplitl [Ho]; · iapply (ho t); iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline rule's body obligation for the call, at every point, under the same hypotheses. -/
theorem body_obligation3_of
    (hb0 : ∀ t d, dat.before 0 t d = x0 t) (hb1 : ∀ t d, dat.before 1 t d = x1 t) (hb2 : ∀ t d, dat.before 2 t d = x2 t) (hb3 : ∀ t d, dat.before 3 t d = x3 t) (hb4 : ∀ t d, dat.before 4 t d = x4 t) (hb5 : ∀ t d, dat.before 5 t d = x5 t) (hb6 : ∀ t d, dat.before 6 t d = x6 t) (hb7 : ∀ t d, dat.before 7 t d = x7 t) (hb8 : ∀ t d, dat.before 8 t d = x8 t)
    (ha0 : ∀ t, dat.after 0 t = x0 t) (ha1 : ∀ t, dat.after 1 t = x1 t) (ha2 : ∀ t, dat.after 2 t = x2 t) (ha3 : ∀ t, dat.after 3 t = x3 t) (ha4 : ∀ t, dat.after 4 t = x4 t) (ha5 : ∀ t, dat.after 5 t = x5 t) (ha6 : ∀ t, dat.after 6 t = x6 t) (ha7 : ∀ t, dat.after 7 t = x7 t) (ha8 : ∀ t, dat.after 8 t = x8 t)
    (ha9 : ∀ t, dat.after 9 t = k3_pay1 (k3_pay2 (x0 t) (x2 t) (x1 t) (x3 t) (x4 t) (x5 t) (x6 t)) (x7 t) (x8 t))
    (hΦ : ∀ t : Fin cfg3.N, dat.Φ t.castSucc ⊢ dat.Φ t.succ)
    (ho : ∀ t : Fin cfg3.N, dat.owesAt ι t.castSucc ⊢ dat.owesAt ι t.succ) :
    BodyObligation dat (defs₀ (F := F)) Variants.none ι Set.univ := fun t => by
  rw [bigSep_W3, bigSep_W3]
  exact sound_body3 dat ι x0 x1 x2 x3 x4 x5 x6 x7 x8 hb0 hb1 hb2 hb3 hb4 hb5 hb6 hb7 hb8 ha0 ha1 ha2 ha3 ha4 ha5 ha6 ha7 ha8 ha9 hΦ ho t

end Obligation

/-! ## The call's proof data over given array contents

The arrays' contents as the call finds them are a parameter `V`; the blocks the body is handed are read off them
through the windows, and the proof data says: every input window is found at its block and left there, the output
window is left at the stored block computed from the input blocks of that point. -/

section Data

variable (c : Dev nD) (V : (b : Ref sig .tc) → Buf (Elt F) ((c : Thread nD τ).loc b))

/-- Window `w`'s block at point `t`, read off its array's contents `V`. -/
def iblk3 (w : Fin cfg3.W) (t : Fin cfg3.N) : ((cfg3.win w).xblock (cfg3.grid.coords t)).Idx → Elt F (cfg3.win w).elt :=
  ((cfg3.win w).blk t).view.read (Elt F) (V (Pipeline.arrRef spec3 w))

/-- The block the body stores at point `t`, from the input windows' blocks there. -/
def out3 (t : Fin cfg3.N) : Vec F S1024x64 .f32 :=
  k3_pay1 (k3_pay2 (iblk3 c V 0 t) (iblk3 c V 2 t) (iblk3 c V 1 t) (iblk3 c V 3 t) (iblk3 c V 4 t) (iblk3 c V 5 t) (iblk3 c V 6 t)) (iblk3 c V 7 t) (iblk3 c V 8 t)

/-- An input window's current staging buffer holds its block at every point, fetched there or not, for any proof
    data whose array is `V`'s (`hA`) and whose body leaves the block in place (`hafter`): unfetched, the window's
    index has not moved since the point that fetched it. -/
theorem before3_0_of (dat : Dat τ (Elt F) Ix Name U Lvl cfg3 c) (hA : dat.A 0 = V (Pipeline.arrRef spec3 0))
    (hafter : ∀ t, dat.after 0 t = iblk3 c V 0 t) (t : Fin cfg3.N) (d) : dat.before 0 t d = iblk3 c V 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of (dat : Dat τ (Elt F) Ix Name U Lvl cfg3 c) (hA : dat.A 1 = V (Pipeline.arrRef spec3 1))
    (hafter : ∀ t, dat.after 1 t = iblk3 c V 1 t) (t : Fin cfg3.N) (d) : dat.before 1 t d = iblk3 c V 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of (dat : Dat τ (Elt F) Ix Name U Lvl cfg3 c) (hA : dat.A 2 = V (Pipeline.arrRef spec3 2))
    (hafter : ∀ t, dat.after 2 t = iblk3 c V 2 t) (t : Fin cfg3.N) (d) : dat.before 2 t d = iblk3 c V 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of (dat : Dat τ (Elt F) Ix Name U Lvl cfg3 c) (hA : dat.A 3 = V (Pipeline.arrRef spec3 3))
    (hafter : ∀ t, dat.after 3 t = iblk3 c V 3 t) (t : Fin cfg3.N) (d) : dat.before 3 t d = iblk3 c V 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of (dat : Dat τ (Elt F) Ix Name U Lvl cfg3 c) (hA : dat.A 4 = V (Pipeline.arrRef spec3 4))
    (hafter : ∀ t, dat.after 4 t = iblk3 c V 4 t) (t : Fin cfg3.N) (d) : dat.before 4 t d = iblk3 c V 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of (dat : Dat τ (Elt F) Ix Name U Lvl cfg3 c) (hA : dat.A 5 = V (Pipeline.arrRef spec3 5))
    (hafter : ∀ t, dat.after 5 t = iblk3 c V 5 t) (t : Fin cfg3.N) (d) : dat.before 5 t d = iblk3 c V 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
theorem before3_6_of (dat : Dat τ (Elt F) Ix Name U Lvl cfg3 c) (hA : dat.A 6 = V (Pipeline.arrRef spec3 6))
    (hafter : ∀ t, dat.after 6 t = iblk3 c V 6 t) (t : Fin cfg3.N) (d) : dat.before 6 t d = iblk3 c V 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)
theorem before3_7_of (dat : Dat τ (Elt F) Ix Name U Lvl cfg3 c) (hA : dat.A 7 = V (Pipeline.arrRef spec3 7))
    (hafter : ∀ t, dat.after 7 t = iblk3 c V 7 t) (t : Fin cfg3.N) (d) : dat.before 7 t d = iblk3 c V 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)
theorem before3_8_of (dat : Dat τ (Elt F) Ix Name U Lvl cfg3 c) (hA : dat.A 8 = V (Pipeline.arrRef spec3 8))
    (hafter : ∀ t, dat.after 8 t = iblk3 c V 8 t) (t : Fin cfg3.N) (d) : dat.before 8 t d = iblk3 c V 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)

/-- The proof data of the call on core `c`: the arrays as found (`V`); after the body at point `t` each input's
    buffer at its block and the output's at the stored block; one invariant `Φ₀`, one tally of debts `O` and
    one bound `Rec` on the recorded waits at every point, all untouched by the body; the input arrays held at the shares `q`. -/
def dat3 (Φ₀ : sProp (MT nD τ sig Ix (Elt F) Name U Lvl)) (O : CellTallies nD τ sig Ix) (Rec : Set (SemLoc sig × Ix))
    (q : Fin cfg3.W → PosShare TreeShare) : Dat τ (Elt F) Ix Name U Lvl cfg3 c where
  A w := V (Pipeline.arrRef spec3 w)
  after w t := match w with
    | ⟨0, _⟩ => iblk3 c V 0 t
    | ⟨1, _⟩ => iblk3 c V 1 t
    | ⟨2, _⟩ => iblk3 c V 2 t
    | ⟨3, _⟩ => iblk3 c V 3 t
    | ⟨4, _⟩ => iblk3 c V 4 t
    | ⟨5, _⟩ => iblk3 c V 5 t
    | ⟨6, _⟩ => iblk3 c V 6 t
    | ⟨7, _⟩ => iblk3 c V 7 t
    | ⟨8, _⟩ => iblk3 c V 8 t
    | ⟨9, _⟩ => out3 c V t
  Φ _ := Φ₀
  q := q
  owed _ := O
  recorded _ := Rec

variable (Φ₀ : sProp (MT nD τ sig Ix (Elt F) Name U Lvl)) (O : CellTallies nD τ sig Ix) (Rec : Set (SemLoc sig × Ix)) (q : Fin cfg3.W → PosShare TreeShare)

/-- The proof data's arrays are `V`'s, by projection. -/
theorem A3_eq (w : Fin cfg3.W) : (dat3 c V Φ₀ O Rec q).A w = V (Pipeline.arrRef spec3 w) := by dsimp only [dat3]

/-- What the body leaves, window by window. -/
theorem after3_0 (t : Fin cfg3.N) : (dat3 c V Φ₀ O Rec q).after 0 t = iblk3 c V 0 t := by dsimp only [dat3]
theorem after3_1 (t : Fin cfg3.N) : (dat3 c V Φ₀ O Rec q).after 1 t = iblk3 c V 1 t := by dsimp only [dat3]
theorem after3_2 (t : Fin cfg3.N) : (dat3 c V Φ₀ O Rec q).after 2 t = iblk3 c V 2 t := by dsimp only [dat3]
theorem after3_3 (t : Fin cfg3.N) : (dat3 c V Φ₀ O Rec q).after 3 t = iblk3 c V 3 t := by dsimp only [dat3]
theorem after3_4 (t : Fin cfg3.N) : (dat3 c V Φ₀ O Rec q).after 4 t = iblk3 c V 4 t := by dsimp only [dat3]
theorem after3_5 (t : Fin cfg3.N) : (dat3 c V Φ₀ O Rec q).after 5 t = iblk3 c V 5 t := by dsimp only [dat3]
theorem after3_6 (t : Fin cfg3.N) : (dat3 c V Φ₀ O Rec q).after 6 t = iblk3 c V 6 t := by dsimp only [dat3]
theorem after3_7 (t : Fin cfg3.N) : (dat3 c V Φ₀ O Rec q).after 7 t = iblk3 c V 7 t := by dsimp only [dat3]
theorem after3_8 (t : Fin cfg3.N) : (dat3 c V Φ₀ O Rec q).after 8 t = iblk3 c V 8 t := by dsimp only [dat3]
theorem after3_9 (t : Fin cfg3.N) : (dat3 c V Φ₀ O Rec q).after 9 t = out3 c V t := by dsimp only [dat3]

/-- What the body finds in each input's buffer. -/
theorem before3_0 (t : Fin cfg3.N) (d) : (dat3 c V Φ₀ O Rec q).before 0 t d = iblk3 c V 0 t :=
  before3_0_of c V (dat3 c V Φ₀ O Rec q) (A3_eq c V Φ₀ O Rec q 0) (after3_0 c V Φ₀ O Rec q) t d
theorem before3_1 (t : Fin cfg3.N) (d) : (dat3 c V Φ₀ O Rec q).before 1 t d = iblk3 c V 1 t :=
  before3_1_of c V (dat3 c V Φ₀ O Rec q) (A3_eq c V Φ₀ O Rec q 1) (after3_1 c V Φ₀ O Rec q) t d
theorem before3_2 (t : Fin cfg3.N) (d) : (dat3 c V Φ₀ O Rec q).before 2 t d = iblk3 c V 2 t :=
  before3_2_of c V (dat3 c V Φ₀ O Rec q) (A3_eq c V Φ₀ O Rec q 2) (after3_2 c V Φ₀ O Rec q) t d
theorem before3_3 (t : Fin cfg3.N) (d) : (dat3 c V Φ₀ O Rec q).before 3 t d = iblk3 c V 3 t :=
  before3_3_of c V (dat3 c V Φ₀ O Rec q) (A3_eq c V Φ₀ O Rec q 3) (after3_3 c V Φ₀ O Rec q) t d
theorem before3_4 (t : Fin cfg3.N) (d) : (dat3 c V Φ₀ O Rec q).before 4 t d = iblk3 c V 4 t :=
  before3_4_of c V (dat3 c V Φ₀ O Rec q) (A3_eq c V Φ₀ O Rec q 4) (after3_4 c V Φ₀ O Rec q) t d
theorem before3_5 (t : Fin cfg3.N) (d) : (dat3 c V Φ₀ O Rec q).before 5 t d = iblk3 c V 5 t :=
  before3_5_of c V (dat3 c V Φ₀ O Rec q) (A3_eq c V Φ₀ O Rec q 5) (after3_5 c V Φ₀ O Rec q) t d
theorem before3_6 (t : Fin cfg3.N) (d) : (dat3 c V Φ₀ O Rec q).before 6 t d = iblk3 c V 6 t :=
  before3_6_of c V (dat3 c V Φ₀ O Rec q) (A3_eq c V Φ₀ O Rec q 6) (after3_6 c V Φ₀ O Rec q) t d
theorem before3_7 (t : Fin cfg3.N) (d) : (dat3 c V Φ₀ O Rec q).before 7 t d = iblk3 c V 7 t :=
  before3_7_of c V (dat3 c V Φ₀ O Rec q) (A3_eq c V Φ₀ O Rec q 7) (after3_7 c V Φ₀ O Rec q) t d
theorem before3_8 (t : Fin cfg3.N) (d) : (dat3 c V Φ₀ O Rec q).before 8 t d = iblk3 c V 8 t :=
  before3_8_of c V (dat3 c V Φ₀ O Rec q) (A3_eq c V Φ₀ O Rec q 8) (after3_8 c V Φ₀ O Rec q) t d

/-- The pipeline rule's body obligation for this proof data, at every point and any index of the credit tokens. -/
theorem body_obligation3 (ι : Ix) : BodyObligation (dat3 c V Φ₀ O Rec q) (defs₀ (F := F)) Variants.none ι Set.univ :=
  body_obligation3_of (dat3 c V Φ₀ O Rec q) ι (iblk3 c V 0) (iblk3 c V 1) (iblk3 c V 2) (iblk3 c V 3) (iblk3 c V 4) (iblk3 c V 5) (iblk3 c V 6) (iblk3 c V 7) (iblk3 c V 8)
    (before3_0 c V Φ₀ O Rec q) (before3_1 c V Φ₀ O Rec q) (before3_2 c V Φ₀ O Rec q) (before3_3 c V Φ₀ O Rec q) (before3_4 c V Φ₀ O Rec q) (before3_5 c V Φ₀ O Rec q) (before3_6 c V Φ₀ O Rec q) (before3_7 c V Φ₀ O Rec q) (before3_8 c V Φ₀ O Rec q)
    (after3_0 c V Φ₀ O Rec q) (after3_1 c V Φ₀ O Rec q) (after3_2 c V Φ₀ O Rec q) (after3_3 c V Φ₀ O Rec q) (after3_4 c V Φ₀ O Rec q) (after3_5 c V Φ₀ O Rec q) (after3_6 c V Φ₀ O Rec q) (after3_7 c V Φ₀ O Rec q) (after3_8 c V Φ₀ O Rec q)
    (after3_9 c V Φ₀ O Rec q) (fun _ => .rfl) (fun _ => .rfl)

end Data

end Cert.Proof.Tc

end
-- ==== Proof.TcBody5.lean ====
/-
  The TensorCore body of point-convolution call 5, run once on whole staging buffers, and the proof data of
  its pipeline.

  The body reads nine blocks whole — the gathered rows, the per-point bias of the first layer, the three layers'
  weights and biases, the output weights and the output bias — and stores one block whole: the output weights
  applied to the flattened products of the third layer's activations with the gathered features, plus the output
  bias. Nothing else is touched: every input buffer is handed back as it was found, and what the output buffer
  held before is overwritten everywhere. The statement is made once over arbitrary whole memrefs and arbitrary
  contents, then at the staging buffers the pipeline calls the body with at a grid point, and last in the form
  the pipeline rule asks of a body: for any proof data whose input windows are found and left at given blocks,
  whose output window is left at the stored block, and whose invariant and debts pass through unchanged. The
  proof data itself is stated over arbitrary contents of the ten windows' arrays: each input window's staging
  buffer holds that array's block at the point, fetched there or not, and the output window's holds the stored
  block computed from them.
-/
import proofs.«214101_g10505490006249_cont_week2b_118_28_alg».proof.Proof.Gen.KernelIdeal.Launch
import proofs.«214101_g10505490006249_cont_week2b_118_28_alg».proof.Proof.Gen.KernelIdeal.Skeleton
import proofs.«214101_g10505490006249_cont_week2b_118_28_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.Proof.Tc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## The body on whole memrefs -/

/-- The offsets of every whole-block access: zero on both axes. -/
theorem zeros5 : (![0, 0] : Fin 2 → Nat) = fun _ => 0 := by funext a; fin_cases a <;> rfl

/-- The one store of the body covers the output block. -/
theorem cover5 (p0 : Vec F S1024x64 .f32) (y : S1024x64.Idx) :
    ∃ pc ∈ ([⟨Rect.unit (s := S1024x64) ![0, 0] S1024x64.size inb_S1024x64_S1024x64_0_0, p0⟩] : List (View.Piece (Elt F) S1024x64 .f32)), y ∈ pc.1.set :=
  ⟨_, List.mem_singleton_self _, View.mem_set_unit_zero zeros5 inb_S1024x64_S1024x64_0_0 y⟩

set_option maxHeartbeats 1000000 in
/-- The body on ten whole memrefs, the nine inputs' read at `x0 … x8` and the output's at anything, runs to the
    continuation holding the inputs' as they were and the output's at the stored block: the output weights `x7`
    applied to the flattened products computed from `x0 … x6`, plus the output bias `x8`. -/
theorem sound_kernel5 (c : Dev nD) (E : Set Name) (i : grid5.Coords)
    (arg1 : Memref sig .tc .vmem S16384x128 .f32) (harg1 : arg1.IsWhole) (arg2 : Memref sig .tc .vmem S1024x32 .f32) (harg2 : arg2.IsWhole) (arg3 : Memref sig .tc .vmem S128x32 .f32) (harg3 : arg3.IsWhole) (arg4 : Memref sig .tc .vmem S32x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S1024x64 .f32) (harg8 : arg8.IsWhole) (arg9 : Memref sig .tc .vmem S1x64 .f32) (harg9 : arg9.IsWhole) (arg10 : Memref sig .tc .vmem S1024x64 .f32) (harg10 : arg10.IsWhole)
    (x0 : Vec F S16384x128 .f32) (x1 : Vec F S1024x32 .f32) (x2 : Vec F S128x32 .f32) (x3 : Vec F S32x16 .f32) (x4 : Vec F S1x16 .f32) (x5 : Vec F S16x16 .f32) (x6 : Vec F S1x16 .f32) (x7 : Vec F S1024x64 .f32) (x8 : Vec F S1x64 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ owns (c : Thread nD τ) arg10 fullShare (k5_pay1 (k5_pay2 x0 x2 x1 x3 x4 x5 x6) x7 x8)) -∗ K ⟨⟩))
      ⊢ wp frame (wpE (defs₀ (F := F)) Variants.none c none) E (cc5__tc_body i arg1 harg1 arg2 harg2 arg3 harg3 arg4 harg4 arg5 harg5 arg6 harg6 arg7 harg7 arg8 harg8 arg9 harg9 arg10 harg10) K := by
  simp only [cc5__tc_body_eq_skeleton]; unfold cc5__tc_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  rw [View.read_writes_eq_canon _ _ _ (cover5 _), View.canon_unit_zero zeros5]
  unfold sound_kernel5.sl.r
  simp only [View.readAt_eq_ld, View.ld_unit_zero (S := S16384x128) zeros5, View.ld_unit_zero (S := S128x32) zeros5, View.ld_unit_zero (S := S1024x32) zeros5, View.ld_unit_zero (S := S32x16) zeros5, View.ld_unit_zero (S := S1x16) zeros5, View.ld_unit_zero (S := S16x16) zeros5, View.ld_unit_zero (S := S1024x64) zeros5, View.ld_unit_zero (S := S1x64) zeros5]

/-! ## The body at a grid point, for any proof data of the call -/

section Obligation

variable {c : Dev nD} (dat : Dat τ (Elt F) Ix Name U Lvl cfg5 c) (ι : Ix)
  (x0 : Fin cfg5.N → Vec F S16384x128 .f32) (x1 : Fin cfg5.N → Vec F S1024x32 .f32) (x2 : Fin cfg5.N → Vec F S128x32 .f32) (x3 : Fin cfg5.N → Vec F S32x16 .f32) (x4 : Fin cfg5.N → Vec F S1x16 .f32) (x5 : Fin cfg5.N → Vec F S16x16 .f32) (x6 : Fin cfg5.N → Vec F S1x16 .f32) (x7 : Fin cfg5.N → Vec F S1024x64 .f32) (x8 : Fin cfg5.N → Vec F S1x64 .f32)

/-- The body at point `t` on the staging buffers the pipeline calls it with. The proof data's input windows are
    found at the blocks `x0 t … x8 t` (`hb`) and left there (`ha`), its output window is left at the stored block
    (`ha9`), and its invariant and the core's debts at the next point follow from those before (`hΦ`, `ho`): they
    pass through the body unread. -/
theorem sound_body5
    (hb0 : ∀ t d, dat.before 0 t d = x0 t) (hb1 : ∀ t d, dat.before 1 t d = x1 t) (hb2 : ∀ t d, dat.before 2 t d = x2 t) (hb3 : ∀ t d, dat.before 3 t d = x3 t) (hb4 : ∀ t d, dat.before 4 t d = x4 t) (hb5 : ∀ t d, dat.before 5 t d = x5 t) (hb6 : ∀ t d, dat.before 6 t d = x6 t) (hb7 : ∀ t d, dat.before 7 t d = x7 t) (hb8 : ∀ t d, dat.before 8 t d = x8 t)
    (ha0 : ∀ t, dat.after 0 t = x0 t) (ha1 : ∀ t, dat.after 1 t = x1 t) (ha2 : ∀ t, dat.after 2 t = x2 t) (ha3 : ∀ t, dat.after 3 t = x3 t) (ha4 : ∀ t, dat.after 4 t = x4 t) (ha5 : ∀ t, dat.after 5 t = x5 t) (ha6 : ∀ t, dat.after 6 t = x6 t) (ha7 : ∀ t, dat.after 7 t = x7 t) (ha8 : ∀ t, dat.after 8 t = x8 t)
    (ha9 : ∀ t, dat.after 9 t = k5_pay1 (k5_pay2 (x0 t) (x2 t) (x1 t) (x3 t) (x4 t) (x5 t) (x6 t)) (x7 t) (x8 t))
    (hΦ : ∀ t : Fin cfg5.N, dat.Φ t.castSucc ⊢ dat.Φ t.succ)
    (ho : ∀ t : Fin cfg5.N, dat.owesAt ι t.castSucc ⊢ dat.owesAt ι t.succ) (t : Fin cfg5.N) :
    iprop(dat.Φ t.castSucc ∗ dat.owesAt ι t.castSucc
      ∗ (∃ d, owns (c : Thread nD τ) (st5_0 t) fullShare (dat.before 0 t d))
      ∗ (∃ d, owns (c : Thread nD τ) (st5_1 t) fullShare (dat.before 1 t d))
      ∗ (∃ d, owns (c : Thread nD τ) (st5_2 t) fullShare (dat.before 2 t d))
      ∗ (∃ d, owns (c : Thread nD τ) (st5_3 t) fullShare (dat.before 3 t d))
      ∗ (∃ d, owns (c : Thread nD τ) (st5_4 t) fullShare (dat.before 4 t d))
      ∗ (∃ d, owns (c : Thread nD τ) (st5_5 t) fullShare (dat.before 5 t d))
      ∗ (∃ d, owns (c : Thread nD τ) (st5_6 t) fullShare (dat.before 6 t d))
      ∗ (∃ d, owns (c : Thread nD τ) (st5_7 t) fullShare (dat.before 7 t d))
      ∗ (∃ d, owns (c : Thread nD τ) (st5_8 t) fullShare (dat.before 8 t d))
      ∗ (∃ d, owns (c : Thread nD τ) (st5_9 t) fullShare (dat.before 9 t d)))
    ⊢ wp frame (wpE (defs₀ (F := F)) Variants.none c none) Set.univ (bodyAt5 t) (fun _ =>
        iprop(dat.Φ t.succ ∗ dat.owesAt ι t.succ
          ∗ owns (c : Thread nD τ) (st5_0 t) fullShare (dat.after 0 t)
          ∗ owns (c : Thread nD τ) (st5_1 t) fullShare (dat.after 1 t)
          ∗ owns (c : Thread nD τ) (st5_2 t) fullShare (dat.after 2 t)
          ∗ owns (c : Thread nD τ) (st5_3 t) fullShare (dat.after 3 t)
          ∗ owns (c : Thread nD τ) (st5_4 t) fullShare (dat.after 4 t)
          ∗ owns (c : Thread nD τ) (st5_5 t) fullShare (dat.after 5 t)
          ∗ owns (c : Thread nD τ) (st5_6 t) fullShare (dat.after 6 t)
          ∗ owns (c : Thread nD τ) (st5_7 t) fullShare (dat.after 7 t)
          ∗ owns (c : Thread nD τ) (st5_8 t) fullShare (dat.after 8 t)
          ∗ owns (c : Thread nD τ) (st5_9 t) fullShare (dat.after 9 t))) := by
  unfold bodyAt5
  simp only [hb0, hb1, hb2, hb3, hb4, hb5, hb6, hb7, hb8, ha0, ha1, ha2, ha3, ha4, ha5, ha6, ha7, ha8, ha9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel5 c Set.univ (grid5.coords t) _ _ _ _ _ _ _ _ _ _ _ _ _ _ _ _ _ _ _ _ (x0 t) (x1 t) (x2 t) (x3 t) (x4 t) (x5 t) (x6 t) (x7 t) (x8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iapply (hΦ t); iexact HΦ
  isplitl [Ho]; · iapply (ho t); iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline rule's body obligation for the call, at every point, under the same hypotheses. -/
theorem body_obligation5_of
    (hb0 : ∀ t d, dat.before 0 t d = x0 t) (hb1 : ∀ t d, dat.before 1 t d = x1 t) (hb2 : ∀ t d, dat.before 2 t d = x2 t) (hb3 : ∀ t d, dat.before 3 t d = x3 t) (hb4 : ∀ t d, dat.before 4 t d = x4 t) (hb5 : ∀ t d, dat.before 5 t d = x5 t) (hb6 : ∀ t d, dat.before 6 t d = x6 t) (hb7 : ∀ t d, dat.before 7 t d = x7 t) (hb8 : ∀ t d, dat.before 8 t d = x8 t)
    (ha0 : ∀ t, dat.after 0 t = x0 t) (ha1 : ∀ t, dat.after 1 t = x1 t) (ha2 : ∀ t, dat.after 2 t = x2 t) (ha3 : ∀ t, dat.after 3 t = x3 t) (ha4 : ∀ t, dat.after 4 t = x4 t) (ha5 : ∀ t, dat.after 5 t = x5 t) (ha6 : ∀ t, dat.after 6 t = x6 t) (ha7 : ∀ t, dat.after 7 t = x7 t) (ha8 : ∀ t, dat.after 8 t = x8 t)
    (ha9 : ∀ t, dat.after 9 t = k5_pay1 (k5_pay2 (x0 t) (x2 t) (x1 t) (x3 t) (x4 t) (x5 t) (x6 t)) (x7 t) (x8 t))
    (hΦ : ∀ t : Fin cfg5.N, dat.Φ t.castSucc ⊢ dat.Φ t.succ)
    (ho : ∀ t : Fin cfg5.N, dat.owesAt ι t.castSucc ⊢ dat.owesAt ι t.succ) :
    BodyObligation dat (defs₀ (F := F)) Variants.none ι Set.univ := fun t => by
  rw [bigSep_W5, bigSep_W5]
  exact sound_body5 dat ι x0 x1 x2 x3 x4 x5 x6 x7 x8 hb0 hb1 hb2 hb3 hb4 hb5 hb6 hb7 hb8 ha0 ha1 ha2 ha3 ha4 ha5 ha6 ha7 ha8 ha9 hΦ ho t

end Obligation

/-! ## The call's proof data over given array contents

The arrays' contents as the call finds them are a parameter `V`; the blocks the body is handed are read off them
through the windows, and the proof data says: every input window is found at its block and left there, the output
window is left at the stored block computed from the input blocks of that point. -/

section Data

variable (c : Dev nD) (V : (b : Ref sig .tc) → Buf (Elt F) ((c : Thread nD τ).loc b))

/-- Window `w`'s block at point `t`, read off its array's contents `V`. -/
def iblk5 (w : Fin cfg5.W) (t : Fin cfg5.N) : ((cfg5.win w).xblock (cfg5.grid.coords t)).Idx → Elt F (cfg5.win w).elt :=
  ((cfg5.win w).blk t).view.read (Elt F) (V (Pipeline.arrRef spec5 w))

/-- The block the body stores at point `t`, from the input windows' blocks there. -/
def out5 (t : Fin cfg5.N) : Vec F S1024x64 .f32 :=
  k5_pay1 (k5_pay2 (iblk5 c V 0 t) (iblk5 c V 2 t) (iblk5 c V 1 t) (iblk5 c V 3 t) (iblk5 c V 4 t) (iblk5 c V 5 t) (iblk5 c V 6 t)) (iblk5 c V 7 t) (iblk5 c V 8 t)

/-- An input window's current staging buffer holds its block at every point, fetched there or not, for any proof
    data whose array is `V`'s (`hA`) and whose body leaves the block in place (`hafter`): unfetched, the window's
    index has not moved since the point that fetched it. -/
theorem before5_0_of (dat : Dat τ (Elt F) Ix Name U Lvl cfg5 c) (hA : dat.A 0 = V (Pipeline.arrRef spec5 0))
    (hafter : ∀ t, dat.after 0 t = iblk5 c V 0 t) (t : Fin cfg5.N) (d) : dat.before 0 t d = iblk5 c V 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of (dat : Dat τ (Elt F) Ix Name U Lvl cfg5 c) (hA : dat.A 1 = V (Pipeline.arrRef spec5 1))
    (hafter : ∀ t, dat.after 1 t = iblk5 c V 1 t) (t : Fin cfg5.N) (d) : dat.before 1 t d = iblk5 c V 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of (dat : Dat τ (Elt F) Ix Name U Lvl cfg5 c) (hA : dat.A 2 = V (Pipeline.arrRef spec5 2))
    (hafter : ∀ t, dat.after 2 t = iblk5 c V 2 t) (t : Fin cfg5.N) (d) : dat.before 2 t d = iblk5 c V 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem before5_3_of (dat : Dat τ (Elt F) Ix Name U Lvl cfg5 c) (hA : dat.A 3 = V (Pipeline.arrRef spec5 3))
    (hafter : ∀ t, dat.after 3 t = iblk5 c V 3 t) (t : Fin cfg5.N) (d) : dat.before 3 t d = iblk5 c V 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
theorem before5_4_of (dat : Dat τ (Elt F) Ix Name U Lvl cfg5 c) (hA : dat.A 4 = V (Pipeline.arrRef spec5 4))
    (hafter : ∀ t, dat.after 4 t = iblk5 c V 4 t) (t : Fin cfg5.N) (d) : dat.before 4 t d = iblk5 c V 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)
theorem before5_5_of (dat : Dat τ (Elt F) Ix Name U Lvl cfg5 c) (hA : dat.A 5 = V (Pipeline.arrRef spec5 5))
    (hafter : ∀ t, dat.after 5 t = iblk5 c V 5 t) (t : Fin cfg5.N) (d) : dat.before 5 t d = iblk5 c V 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)
theorem before5_6_of (dat : Dat τ (Elt F) Ix Name U Lvl cfg5 c) (hA : dat.A 6 = V (Pipeline.arrRef spec5 6))
    (hafter : ∀ t, dat.after 6 t = iblk5 c V 6 t) (t : Fin cfg5.N) (d) : dat.before 6 t d = iblk5 c V 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)
theorem before5_7_of (dat : Dat τ (Elt F) Ix Name U Lvl cfg5 c) (hA : dat.A 7 = V (Pipeline.arrRef spec5 7))
    (hafter : ∀ t, dat.after 7 t = iblk5 c V 7 t) (t : Fin cfg5.N) (d) : dat.before 7 t d = iblk5 c V 7 t :=
  (dat.before_in_eq_fetched 7 rfl (fun _ => rfl) (fun _ _ _ => rfl) (fun t => by rw [hafter]; unfold Dat.blockOf iblk5; rw [hA]; try rfl) t d).trans
    (by unfold Dat.fetched Dat.blockOf iblk5; rw [hA]; try rfl)
theorem before5_8_of (dat : Dat τ (Elt F) Ix Name U Lvl cfg5 c) (hA : dat.A 8 = V (Pipeline.arrRef spec5 8))
    (hafter : ∀ t, dat.after 8 t = iblk5 c V 8 t) (t : Fin cfg5.N) (d) : dat.before 8 t d = iblk5 c V 8 t :=
  (dat.before_in_eq_fetched 8 rfl (fun _ => rfl) (fun _ _ _ => rfl) (fun t => by rw [hafter]; unfold Dat.blockOf iblk5; rw [hA]; try rfl) t d).trans
    (by unfold Dat.fetched Dat.blockOf iblk5; rw [hA]; try rfl)

/-- The proof data of the call on core `c`: the arrays as found (`V`); after the body at point `t` each input's
    buffer at its block and the output's at the stored block; one invariant `Φ₀`, one tally of debts `O` and
    one bound `Rec` on the recorded waits at every point, all untouched by the body; the input arrays held at the shares `q`. -/
def dat5 (Φ₀ : sProp (MT nD τ sig Ix (Elt F) Name U Lvl)) (O : CellTallies nD τ sig Ix) (Rec : Set (SemLoc sig × Ix))
    (q : Fin cfg5.W → PosShare TreeShare) : Dat τ (Elt F) Ix Name U Lvl cfg5 c where
  A w := V (Pipeline.arrRef spec5 w)
  after w t := match w with
    | ⟨0, _⟩ => iblk5 c V 0 t
    | ⟨1, _⟩ => iblk5 c V 1 t
    | ⟨2, _⟩ => iblk5 c V 2 t
    | ⟨3, _⟩ => iblk5 c V 3 t
    | ⟨4, _⟩ => iblk5 c V 4 t
    | ⟨5, _⟩ => iblk5 c V 5 t
    | ⟨6, _⟩ => iblk5 c V 6 t
    | ⟨7, _⟩ => iblk5 c V 7 t
    | ⟨8, _⟩ => iblk5 c V 8 t
    | ⟨9, _⟩ => out5 c V t
  Φ _ := Φ₀
  q := q
  owed _ := O
  recorded _ := Rec

variable (Φ₀ : sProp (MT nD τ sig Ix (Elt F) Name U Lvl)) (O : CellTallies nD τ sig Ix) (Rec : Set (SemLoc sig × Ix)) (q : Fin cfg5.W → PosShare TreeShare)

/-- The proof data's arrays are `V`'s, by projection. -/
theorem A5_eq (w : Fin cfg5.W) : (dat5 c V Φ₀ O Rec q).A w = V (Pipeline.arrRef spec5 w) := by dsimp only [dat5]

/-- What the body leaves, window by window. -/
theorem after5_0 (t : Fin cfg5.N) : (dat5 c V Φ₀ O Rec q).after 0 t = iblk5 c V 0 t := by dsimp only [dat5]
theorem after5_1 (t : Fin cfg5.N) : (dat5 c V Φ₀ O Rec q).after 1 t = iblk5 c V 1 t := by dsimp only [dat5]
theorem after5_2 (t : Fin cfg5.N) : (dat5 c V Φ₀ O Rec q).after 2 t = iblk5 c V 2 t := by dsimp only [dat5]
theorem after5_3 (t : Fin cfg5.N) : (dat5 c V Φ₀ O Rec q).after 3 t = iblk5 c V 3 t := by dsimp only [dat5]
theorem after5_4 (t : Fin cfg5.N) : (dat5 c V Φ₀ O Rec q).after 4 t = iblk5 c V 4 t := by dsimp only [dat5]
theorem after5_5 (t : Fin cfg5.N) : (dat5 c V Φ₀ O Rec q).after 5 t = iblk5 c V 5 t := by dsimp only [dat5]
theorem after5_6 (t : Fin cfg5.N) : (dat5 c V Φ₀ O Rec q).after 6 t = iblk5 c V 6 t := by dsimp only [dat5]
theorem after5_7 (t : Fin cfg5.N) : (dat5 c V Φ₀ O Rec q).after 7 t = iblk5 c V 7 t := by dsimp only [dat5]
theorem after5_8 (t : Fin cfg5.N) : (dat5 c V Φ₀ O Rec q).after 8 t = iblk5 c V 8 t := by dsimp only [dat5]
theorem after5_9 (t : Fin cfg5.N) : (dat5 c V Φ₀ O Rec q).after 9 t = out5 c V t := by dsimp only [dat5]

/-- What the body finds in each input's buffer. -/
theorem before5_0 (t : Fin cfg5.N) (d) : (dat5 c V Φ₀ O Rec q).before 0 t d = iblk5 c V 0 t :=
  before5_0_of c V (dat5 c V Φ₀ O Rec q) (A5_eq c V Φ₀ O Rec q 0) (after5_0 c V Φ₀ O Rec q) t d
theorem before5_1 (t : Fin cfg5.N) (d) : (dat5 c V Φ₀ O Rec q).before 1 t d = iblk5 c V 1 t :=
  before5_1_of c V (dat5 c V Φ₀ O Rec q) (A5_eq c V Φ₀ O Rec q 1) (after5_1 c V Φ₀ O Rec q) t d
theorem before5_2 (t : Fin cfg5.N) (d) : (dat5 c V Φ₀ O Rec q).before 2 t d = iblk5 c V 2 t :=
  before5_2_of c V (dat5 c V Φ₀ O Rec q) (A5_eq c V Φ₀ O Rec q 2) (after5_2 c V Φ₀ O Rec q) t d
theorem before5_3 (t : Fin cfg5.N) (d) : (dat5 c V Φ₀ O Rec q).before 3 t d = iblk5 c V 3 t :=
  before5_3_of c V (dat5 c V Φ₀ O Rec q) (A5_eq c V Φ₀ O Rec q 3) (after5_3 c V Φ₀ O Rec q) t d
theorem before5_4 (t : Fin cfg5.N) (d) : (dat5 c V Φ₀ O Rec q).before 4 t d = iblk5 c V 4 t :=
  before5_4_of c V (dat5 c V Φ₀ O Rec q) (A5_eq c V Φ₀ O Rec q 4) (after5_4 c V Φ₀ O Rec q) t d
theorem before5_5 (t : Fin cfg5.N) (d) : (dat5 c V Φ₀ O Rec q).before 5 t d = iblk5 c V 5 t :=
  before5_5_of c V (dat5 c V Φ₀ O Rec q) (A5_eq c V Φ₀ O Rec q 5) (after5_5 c V Φ₀ O Rec q) t d
theorem before5_6 (t : Fin cfg5.N) (d) : (dat5 c V Φ₀ O Rec q).before 6 t d = iblk5 c V 6 t :=
  before5_6_of c V (dat5 c V Φ₀ O Rec q) (A5_eq c V Φ₀ O Rec q 6) (after5_6 c V Φ₀ O Rec q) t d
theorem before5_7 (t : Fin cfg5.N) (d) : (dat5 c V Φ₀ O Rec q).before 7 t d = iblk5 c V 7 t :=
  before5_7_of c V (dat5 c V Φ₀ O Rec q) (A5_eq c V Φ₀ O Rec q 7) (after5_7 c V Φ₀ O Rec q) t d
theorem before5_8 (t : Fin cfg5.N) (d) : (dat5 c V Φ₀ O Rec q).before 8 t d = iblk5 c V 8 t :=
  before5_8_of c V (dat5 c V Φ₀ O Rec q) (A5_eq c V Φ₀ O Rec q 8) (after5_8 c V Φ₀ O Rec q) t d

/-- The pipeline rule's body obligation for this proof data, at every point and any index of the credit tokens. -/
theorem body_obligation5 (ι : Ix) : BodyObligation (dat5 c V Φ₀ O Rec q) (defs₀ (F := F)) Variants.none ι Set.univ :=
  body_obligation5_of (dat5 c V Φ₀ O Rec q) ι (iblk5 c V 0) (iblk5 c V 1) (iblk5 c V 2) (iblk5 c V 3) (iblk5 c V 4) (iblk5 c V 5) (iblk5 c V 6) (iblk5 c V 7) (iblk5 c V 8)
    (before5_0 c V Φ₀ O Rec q) (before5_1 c V Φ₀ O Rec q) (before5_2 c V Φ₀ O Rec q) (before5_3 c V Φ₀ O Rec q) (before5_4 c V Φ₀ O Rec q) (before5_5 c V Φ₀ O Rec q) (before5_6 c V Φ₀ O Rec q) (before5_7 c V Φ₀ O Rec q) (before5_8 c V Φ₀ O Rec q)
    (after5_0 c V Φ₀ O Rec q) (after5_1 c V Φ₀ O Rec q) (after5_2 c V Φ₀ O Rec q) (after5_3 c V Φ₀ O Rec q) (after5_4 c V Φ₀ O Rec q) (after5_5 c V Φ₀ O Rec q) (after5_6 c V Φ₀ O Rec q) (after5_7 c V Φ₀ O Rec q) (after5_8 c V Φ₀ O Rec q)
    (after5_9 c V Φ₀ O Rec q) (fun _ => .rfl) (fun _ => .rfl)

end Data

end Cert.Proof.Tc

end
-- ==== Proof.TcBody7.lean ====
/-
  The TensorCore body of point-convolution call 7, run once on whole staging buffers, and the proof data of
  its pipeline.

  The body reads nine blocks whole — the gathered rows, the per-point bias of the first layer, the three layers'
  weights and biases, the output weights and the output bias — and stores one block whole: the output weights
  applied to the flattened products of the third layer's activations with the gathered features, plus the output
  bias. Nothing else is touched: every input buffer is handed back as it was found, and what the output buffer
  held before is overwritten everywhere. The statement is made once over arbitrary whole memrefs and arbitrary
  contents, then at the staging buffers the pipeline calls the body with at a grid point, and last in the form
  the pipeline rule asks of a body: for any proof data whose input windows are found and left at given blocks,
  whose output window is left at the stored block, and whose invariant and debts pass through unchanged. The
  proof data itself is stated over arbitrary contents of the ten windows' arrays: each input window's staging
  buffer holds that array's block at the point, fetched there or not, and the output window's holds the stored
  block computed from them.
-/
import proofs.«214101_g10505490006249_cont_week2b_118_28_alg».proof.Proof.Gen.KernelIdeal.Launch
import proofs.«214101_g10505490006249_cont_week2b_118_28_alg».proof.Proof.Gen.KernelIdeal.Skeleton
import proofs.«214101_g10505490006249_cont_week2b_118_28_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.Proof.Tc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## The body on whole memrefs -/

/-- The offsets of every whole-block access: zero on both axes. -/
theorem zeros7 : (![0, 0] : Fin 2 → Nat) = fun _ => 0 := by funext a; fin_cases a <;> rfl

/-- The one store of the body covers the output block. -/
theorem cover7 (p0 : Vec F S1024x64 .f32) (y : S1024x64.Idx) :
    ∃ pc ∈ ([⟨Rect.unit (s := S1024x64) ![0, 0] S1024x64.size inb_S1024x64_S1024x64_0_0, p0⟩] : List (View.Piece (Elt F) S1024x64 .f32)), y ∈ pc.1.set :=
  ⟨_, List.mem_singleton_self _, View.mem_set_unit_zero zeros7 inb_S1024x64_S1024x64_0_0 y⟩

set_option maxHeartbeats 1000000 in
/-- The body on ten whole memrefs, the nine inputs' read at `x0 … x8` and the output's at anything, runs to the
    continuation holding the inputs' as they were and the output's at the stored block: the output weights `x7`
    applied to the flattened products computed from `x0 … x6`, plus the output bias `x8`. -/
theorem sound_kernel7 (c : Dev nD) (E : Set Name) (i : grid7.Coords)
    (arg1 : Memref sig .tc .vmem S16384x128 .f32) (harg1 : arg1.IsWhole) (arg2 : Memref sig .tc .vmem S1024x32 .f32) (harg2 : arg2.IsWhole) (arg3 : Memref sig .tc .vmem S128x32 .f32) (harg3 : arg3.IsWhole) (arg4 : Memref sig .tc .vmem S32x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S1024x64 .f32) (harg8 : arg8.IsWhole) (arg9 : Memref sig .tc .vmem S1x64 .f32) (harg9 : arg9.IsWhole) (arg10 : Memref sig .tc .vmem S1024x64 .f32) (harg10 : arg10.IsWhole)
    (x0 : Vec F S16384x128 .f32) (x1 : Vec F S1024x32 .f32) (x2 : Vec F S128x32 .f32) (x3 : Vec F S32x16 .f32) (x4 : Vec F S1x16 .f32) (x5 : Vec F S16x16 .f32) (x6 : Vec F S1x16 .f32) (x7 : Vec F S1024x64 .f32) (x8 : Vec F S1x64 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ owns (c : Thread nD τ) arg10 fullShare (k7_pay1 (k7_pay2 x0 x2 x1 x3 x4 x5 x6) x7 x8)) -∗ K ⟨⟩))
      ⊢ wp frame (wpE (defs₀ (F := F)) Variants.none c none) E (cc7__tc_body i arg1 harg1 arg2 harg2 arg3 harg3 arg4 harg4 arg5 harg5 arg6 harg6 arg7 harg7 arg8 harg8 arg9 harg9 arg10 harg10) K := by
  simp only [cc7__tc_body_eq_skeleton]; unfold cc7__tc_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  rw [View.read_writes_eq_canon _ _ _ (cover7 _), View.canon_unit_zero zeros7]
  unfold sound_kernel7.sl.r
  simp only [View.readAt_eq_ld, View.ld_unit_zero (S := S16384x128) zeros7, View.ld_unit_zero (S := S128x32) zeros7, View.ld_unit_zero (S := S1024x32) zeros7, View.ld_unit_zero (S := S32x16) zeros7, View.ld_unit_zero (S := S1x16) zeros7, View.ld_unit_zero (S := S16x16) zeros7, View.ld_unit_zero (S := S1024x64) zeros7, View.ld_unit_zero (S := S1x64) zeros7]

/-! ## The body at a grid point, for any proof data of the call -/

section Obligation

variable {c : Dev nD} (dat : Dat τ (Elt F) Ix Name U Lvl cfg7 c) (ι : Ix)
  (x0 : Fin cfg7.N → Vec F S16384x128 .f32) (x1 : Fin cfg7.N → Vec F S1024x32 .f32) (x2 : Fin cfg7.N → Vec F S128x32 .f32) (x3 : Fin cfg7.N → Vec F S32x16 .f32) (x4 : Fin cfg7.N → Vec F S1x16 .f32) (x5 : Fin cfg7.N → Vec F S16x16 .f32) (x6 : Fin cfg7.N → Vec F S1x16 .f32) (x7 : Fin cfg7.N → Vec F S1024x64 .f32) (x8 : Fin cfg7.N → Vec F S1x64 .f32)

/-- The body at point `t` on the staging buffers the pipeline calls it with. The proof data's input windows are
    found at the blocks `x0 t … x8 t` (`hb`) and left there (`ha`), its output window is left at the stored block
    (`ha9`), and its invariant and the core's debts at the next point follow from those before (`hΦ`, `ho`): they
    pass through the body unread. -/
theorem sound_body7
    (hb0 : ∀ t d, dat.before 0 t d = x0 t) (hb1 : ∀ t d, dat.before 1 t d = x1 t) (hb2 : ∀ t d, dat.before 2 t d = x2 t) (hb3 : ∀ t d, dat.before 3 t d = x3 t) (hb4 : ∀ t d, dat.before 4 t d = x4 t) (hb5 : ∀ t d, dat.before 5 t d = x5 t) (hb6 : ∀ t d, dat.before 6 t d = x6 t) (hb7 : ∀ t d, dat.before 7 t d = x7 t) (hb8 : ∀ t d, dat.before 8 t d = x8 t)
    (ha0 : ∀ t, dat.after 0 t = x0 t) (ha1 : ∀ t, dat.after 1 t = x1 t) (ha2 : ∀ t, dat.after 2 t = x2 t) (ha3 : ∀ t, dat.after 3 t = x3 t) (ha4 : ∀ t, dat.after 4 t = x4 t) (ha5 : ∀ t, dat.after 5 t = x5 t) (ha6 : ∀ t, dat.after 6 t = x6 t) (ha7 : ∀ t, dat.after 7 t = x7 t) (ha8 : ∀ t, dat.after 8 t = x8 t)
    (ha9 : ∀ t, dat.after 9 t = k7_pay1 (k7_pay2 (x0 t) (x2 t) (x1 t) (x3 t) (x4 t) (x5 t) (x6 t)) (x7 t) (x8 t))
    (hΦ : ∀ t : Fin cfg7.N, dat.Φ t.castSucc ⊢ dat.Φ t.succ)
    (ho : ∀ t : Fin cfg7.N, dat.owesAt ι t.castSucc ⊢ dat.owesAt ι t.succ) (t : Fin cfg7.N) :
    iprop(dat.Φ t.castSucc ∗ dat.owesAt ι t.castSucc
      ∗ (∃ d, owns (c : Thread nD τ) (st7_0 t) fullShare (dat.before 0 t d))
      ∗ (∃ d, owns (c : Thread nD τ) (st7_1 t) fullShare (dat.before 1 t d))
      ∗ (∃ d, owns (c : Thread nD τ) (st7_2 t) fullShare (dat.before 2 t d))
      ∗ (∃ d, owns (c : Thread nD τ) (st7_3 t) fullShare (dat.before 3 t d))
      ∗ (∃ d, owns (c : Thread nD τ) (st7_4 t) fullShare (dat.before 4 t d))
      ∗ (∃ d, owns (c : Thread nD τ) (st7_5 t) fullShare (dat.before 5 t d))
      ∗ (∃ d, owns (c : Thread nD τ) (st7_6 t) fullShare (dat.before 6 t d))
      ∗ (∃ d, owns (c : Thread nD τ) (st7_7 t) fullShare (dat.before 7 t d))
      ∗ (∃ d, owns (c : Thread nD τ) (st7_8 t) fullShare (dat.before 8 t d))
      ∗ (∃ d, owns (c : Thread nD τ) (st7_9 t) fullShare (dat.before 9 t d)))
    ⊢ wp frame (wpE (defs₀ (F := F)) Variants.none c none) Set.univ (bodyAt7 t) (fun _ =>
        iprop(dat.Φ t.succ ∗ dat.owesAt ι t.succ
          ∗ owns (c : Thread nD τ) (st7_0 t) fullShare (dat.after 0 t)
          ∗ owns (c : Thread nD τ) (st7_1 t) fullShare (dat.after 1 t)
          ∗ owns (c : Thread nD τ) (st7_2 t) fullShare (dat.after 2 t)
          ∗ owns (c : Thread nD τ) (st7_3 t) fullShare (dat.after 3 t)
          ∗ owns (c : Thread nD τ) (st7_4 t) fullShare (dat.after 4 t)
          ∗ owns (c : Thread nD τ) (st7_5 t) fullShare (dat.after 5 t)
          ∗ owns (c : Thread nD τ) (st7_6 t) fullShare (dat.after 6 t)
          ∗ owns (c : Thread nD τ) (st7_7 t) fullShare (dat.after 7 t)
          ∗ owns (c : Thread nD τ) (st7_8 t) fullShare (dat.after 8 t)
          ∗ owns (c : Thread nD τ) (st7_9 t) fullShare (dat.after 9 t))) := by
  unfold bodyAt7
  simp only [hb0, hb1, hb2, hb3, hb4, hb5, hb6, hb7, hb8, ha0, ha1, ha2, ha3, ha4, ha5, ha6, ha7, ha8, ha9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel7 c Set.univ (grid7.coords t) _ _ _ _ _ _ _ _ _ _ _ _ _ _ _ _ _ _ _ _ (x0 t) (x1 t) (x2 t) (x3 t) (x4 t) (x5 t) (x6 t) (x7 t) (x8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iapply (hΦ t); iexact HΦ
  isplitl [Ho]; · iapply (ho t); iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline rule's body obligation for the call, at every point, under the same hypotheses. -/
theorem body_obligation7_of
    (hb0 : ∀ t d, dat.before 0 t d = x0 t) (hb1 : ∀ t d, dat.before 1 t d = x1 t) (hb2 : ∀ t d, dat.before 2 t d = x2 t) (hb3 : ∀ t d, dat.before 3 t d = x3 t) (hb4 : ∀ t d, dat.before 4 t d = x4 t) (hb5 : ∀ t d, dat.before 5 t d = x5 t) (hb6 : ∀ t d, dat.before 6 t d = x6 t) (hb7 : ∀ t d, dat.before 7 t d = x7 t) (hb8 : ∀ t d, dat.before 8 t d = x8 t)
    (ha0 : ∀ t, dat.after 0 t = x0 t) (ha1 : ∀ t, dat.after 1 t = x1 t) (ha2 : ∀ t, dat.after 2 t = x2 t) (ha3 : ∀ t, dat.after 3 t = x3 t) (ha4 : ∀ t, dat.after 4 t = x4 t) (ha5 : ∀ t, dat.after 5 t = x5 t) (ha6 : ∀ t, dat.after 6 t = x6 t) (ha7 : ∀ t, dat.after 7 t = x7 t) (ha8 : ∀ t, dat.after 8 t = x8 t)
    (ha9 : ∀ t, dat.after 9 t = k7_pay1 (k7_pay2 (x0 t) (x2 t) (x1 t) (x3 t) (x4 t) (x5 t) (x6 t)) (x7 t) (x8 t))
    (hΦ : ∀ t : Fin cfg7.N, dat.Φ t.castSucc ⊢ dat.Φ t.succ)
    (ho : ∀ t : Fin cfg7.N, dat.owesAt ι t.castSucc ⊢ dat.owesAt ι t.succ) :
    BodyObligation dat (defs₀ (F := F)) Variants.none ι Set.univ := fun t => by
  rw [bigSep_W7, bigSep_W7]
  exact sound_body7 dat ι x0 x1 x2 x3 x4 x5 x6 x7 x8 hb0 hb1 hb2 hb3 hb4 hb5 hb6 hb7 hb8 ha0 ha1 ha2 ha3 ha4 ha5 ha6 ha7 ha8 ha9 hΦ ho t

end Obligation

/-! ## The call's proof data over given array contents

The arrays' contents as the call finds them are a parameter `V`; the blocks the body is handed are read off them
through the windows, and the proof data says: every input window is found at its block and left there, the output
window is left at the stored block computed from the input blocks of that point. -/

section Data

variable (c : Dev nD) (V : (b : Ref sig .tc) → Buf (Elt F) ((c : Thread nD τ).loc b))

/-- Window `w`'s block at point `t`, read off its array's contents `V`. -/
def iblk7 (w : Fin cfg7.W) (t : Fin cfg7.N) : ((cfg7.win w).xblock (cfg7.grid.coords t)).Idx → Elt F (cfg7.win w).elt :=
  ((cfg7.win w).blk t).view.read (Elt F) (V (Pipeline.arrRef spec7 w))

/-- The block the body stores at point `t`, from the input windows' blocks there. -/
def out7 (t : Fin cfg7.N) : Vec F S1024x64 .f32 :=
  k7_pay1 (k7_pay2 (iblk7 c V 0 t) (iblk7 c V 2 t) (iblk7 c V 1 t) (iblk7 c V 3 t) (iblk7 c V 4 t) (iblk7 c V 5 t) (iblk7 c V 6 t)) (iblk7 c V 7 t) (iblk7 c V 8 t)

/-- An input window's current staging buffer holds its block at every point, fetched there or not, for any proof
    data whose array is `V`'s (`hA`) and whose body leaves the block in place (`hafter`): unfetched, the window's
    index has not moved since the point that fetched it. -/
theorem before7_0_of (dat : Dat τ (Elt F) Ix Name U Lvl cfg7 c) (hA : dat.A 0 = V (Pipeline.arrRef spec7 0))
    (hafter : ∀ t, dat.after 0 t = iblk7 c V 0 t) (t : Fin cfg7.N) (d) : dat.before 0 t d = iblk7 c V 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of (dat : Dat τ (Elt F) Ix Name U Lvl cfg7 c) (hA : dat.A 1 = V (Pipeline.arrRef spec7 1))
    (hafter : ∀ t, dat.after 1 t = iblk7 c V 1 t) (t : Fin cfg7.N) (d) : dat.before 1 t d = iblk7 c V 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
theorem before7_2_of (dat : Dat τ (Elt F) Ix Name U Lvl cfg7 c) (hA : dat.A 2 = V (Pipeline.arrRef spec7 2))
    (hafter : ∀ t, dat.after 2 t = iblk7 c V 2 t) (t : Fin cfg7.N) (d) : dat.before 2 t d = iblk7 c V 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)
theorem before7_3_of (dat : Dat τ (Elt F) Ix Name U Lvl cfg7 c) (hA : dat.A 3 = V (Pipeline.arrRef spec7 3))
    (hafter : ∀ t, dat.after 3 t = iblk7 c V 3 t) (t : Fin cfg7.N) (d) : dat.before 3 t d = iblk7 c V 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)
theorem before7_4_of (dat : Dat τ (Elt F) Ix Name U Lvl cfg7 c) (hA : dat.A 4 = V (Pipeline.arrRef spec7 4))
    (hafter : ∀ t, dat.after 4 t = iblk7 c V 4 t) (t : Fin cfg7.N) (d) : dat.before 4 t d = iblk7 c V 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)
theorem before7_5_of (dat : Dat τ (Elt F) Ix Name U Lvl cfg7 c) (hA : dat.A 5 = V (Pipeline.arrRef spec7 5))
    (hafter : ∀ t, dat.after 5 t = iblk7 c V 5 t) (t : Fin cfg7.N) (d) : dat.before 5 t d = iblk7 c V 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)
theorem before7_6_of (dat : Dat τ (Elt F) Ix Name U Lvl cfg7 c) (hA : dat.A 6 = V (Pipeline.arrRef spec7 6))
    (hafter : ∀ t, dat.after 6 t = iblk7 c V 6 t) (t : Fin cfg7.N) (d) : dat.before 6 t d = iblk7 c V 6 t :=
  (dat.before_in_eq_fetched 6 rfl (fun _ => rfl) (fun _ _ _ => rfl) (fun t => by rw [hafter]; unfold Dat.blockOf iblk7; rw [hA]; try rfl) t d).trans
    (by unfold Dat.fetched Dat.blockOf iblk7; rw [hA]; try rfl)
theorem before7_7_of (dat : Dat τ (Elt F) Ix Name U Lvl cfg7 c) (hA : dat.A 7 = V (Pipeline.arrRef spec7 7))
    (hafter : ∀ t, dat.after 7 t = iblk7 c V 7 t) (t : Fin cfg7.N) (d) : dat.before 7 t d = iblk7 c V 7 t :=
  (dat.before_in_eq_fetched 7 rfl (fun _ => rfl) (fun _ _ _ => rfl) (fun t => by rw [hafter]; unfold Dat.blockOf iblk7; rw [hA]; try rfl) t d).trans
    (by unfold Dat.fetched Dat.blockOf iblk7; rw [hA]; try rfl)
theorem before7_8_of (dat : Dat τ (Elt F) Ix Name U Lvl cfg7 c) (hA : dat.A 8 = V (Pipeline.arrRef spec7 8))
    (hafter : ∀ t, dat.after 8 t = iblk7 c V 8 t) (t : Fin cfg7.N) (d) : dat.before 8 t d = iblk7 c V 8 t :=
  (dat.before_in_eq_fetched 8 rfl (fun _ => rfl) (fun _ _ _ => rfl) (fun t => by rw [hafter]; unfold Dat.blockOf iblk7; rw [hA]; try rfl) t d).trans
    (by unfold Dat.fetched Dat.blockOf iblk7; rw [hA]; try rfl)

/-- The proof data of the call on core `c`: the arrays as found (`V`); after the body at point `t` each input's
    buffer at its block and the output's at the stored block; one invariant `Φ₀`, one tally of debts `O` and
    one bound `Rec` on the recorded waits at every point, all untouched by the body; the input arrays held at the shares `q`. -/
def dat7 (Φ₀ : sProp (MT nD τ sig Ix (Elt F) Name U Lvl)) (O : CellTallies nD τ sig Ix) (Rec : Set (SemLoc sig × Ix))
    (q : Fin cfg7.W → PosShare TreeShare) : Dat τ (Elt F) Ix Name U Lvl cfg7 c where
  A w := V (Pipeline.arrRef spec7 w)
  after w t := match w with
    | ⟨0, _⟩ => iblk7 c V 0 t
    | ⟨1, _⟩ => iblk7 c V 1 t
    | ⟨2, _⟩ => iblk7 c V 2 t
    | ⟨3, _⟩ => iblk7 c V 3 t
    | ⟨4, _⟩ => iblk7 c V 4 t
    | ⟨5, _⟩ => iblk7 c V 5 t
    | ⟨6, _⟩ => iblk7 c V 6 t
    | ⟨7, _⟩ => iblk7 c V 7 t
    | ⟨8, _⟩ => iblk7 c V 8 t
    | ⟨9, _⟩ => out7 c V t
  Φ _ := Φ₀
  q := q
  owed _ := O
  recorded _ := Rec

variable (Φ₀ : sProp (MT nD τ sig Ix (Elt F) Name U Lvl)) (O : CellTallies nD τ sig Ix) (Rec : Set (SemLoc sig × Ix)) (q : Fin cfg7.W → PosShare TreeShare)

/-- The proof data's arrays are `V`'s, by projection. -/
theorem A7_eq (w : Fin cfg7.W) : (dat7 c V Φ₀ O Rec q).A w = V (Pipeline.arrRef spec7 w) := by dsimp only [dat7]

/-- What the body leaves, window by window. -/
theorem after7_0 (t : Fin cfg7.N) : (dat7 c V Φ₀ O Rec q).after 0 t = iblk7 c V 0 t := by dsimp only [dat7]
theorem after7_1 (t : Fin cfg7.N) : (dat7 c V Φ₀ O Rec q).after 1 t = iblk7 c V 1 t := by dsimp only [dat7]
theorem after7_2 (t : Fin cfg7.N) : (dat7 c V Φ₀ O Rec q).after 2 t = iblk7 c V 2 t := by dsimp only [dat7]
theorem after7_3 (t : Fin cfg7.N) : (dat7 c V Φ₀ O Rec q).after 3 t = iblk7 c V 3 t := by dsimp only [dat7]
theorem after7_4 (t : Fin cfg7.N) : (dat7 c V Φ₀ O Rec q).after 4 t = iblk7 c V 4 t := by dsimp only [dat7]
theorem after7_5 (t : Fin cfg7.N) : (dat7 c V Φ₀ O Rec q).after 5 t = iblk7 c V 5 t := by dsimp only [dat7]
theorem after7_6 (t : Fin cfg7.N) : (dat7 c V Φ₀ O Rec q).after 6 t = iblk7 c V 6 t := by dsimp only [dat7]
theorem after7_7 (t : Fin cfg7.N) : (dat7 c V Φ₀ O Rec q).after 7 t = iblk7 c V 7 t := by dsimp only [dat7]
theorem after7_8 (t : Fin cfg7.N) : (dat7 c V Φ₀ O Rec q).after 8 t = iblk7 c V 8 t := by dsimp only [dat7]
theorem after7_9 (t : Fin cfg7.N) : (dat7 c V Φ₀ O Rec q).after 9 t = out7 c V t := by dsimp only [dat7]

/-- What the body finds in each input's buffer. -/
theorem before7_0 (t : Fin cfg7.N) (d) : (dat7 c V Φ₀ O Rec q).before 0 t d = iblk7 c V 0 t :=
  before7_0_of c V (dat7 c V Φ₀ O Rec q) (A7_eq c V Φ₀ O Rec q 0) (after7_0 c V Φ₀ O Rec q) t d
theorem before7_1 (t : Fin cfg7.N) (d) : (dat7 c V Φ₀ O Rec q).before 1 t d = iblk7 c V 1 t :=
  before7_1_of c V (dat7 c V Φ₀ O Rec q) (A7_eq c V Φ₀ O Rec q 1) (after7_1 c V Φ₀ O Rec q) t d
theorem before7_2 (t : Fin cfg7.N) (d) : (dat7 c V Φ₀ O Rec q).before 2 t d = iblk7 c V 2 t :=
  before7_2_of c V (dat7 c V Φ₀ O Rec q) (A7_eq c V Φ₀ O Rec q 2) (after7_2 c V Φ₀ O Rec q) t d
theorem before7_3 (t : Fin cfg7.N) (d) : (dat7 c V Φ₀ O Rec q).before 3 t d = iblk7 c V 3 t :=
  before7_3_of c V (dat7 c V Φ₀ O Rec q) (A7_eq c V Φ₀ O Rec q 3) (after7_3 c V Φ₀ O Rec q) t d
theorem before7_4 (t : Fin cfg7.N) (d) : (dat7 c V Φ₀ O Rec q).before 4 t d = iblk7 c V 4 t :=
  before7_4_of c V (dat7 c V Φ₀ O Rec q) (A7_eq c V Φ₀ O Rec q 4) (after7_4 c V Φ₀ O Rec q) t d
theorem before7_5 (t : Fin cfg7.N) (d) : (dat7 c V Φ₀ O Rec q).before 5 t d = iblk7 c V 5 t :=
  before7_5_of c V (dat7 c V Φ₀ O Rec q) (A7_eq c V Φ₀ O Rec q 5) (after7_5 c V Φ₀ O Rec q) t d
theorem before7_6 (t : Fin cfg7.N) (d) : (dat7 c V Φ₀ O Rec q).before 6 t d = iblk7 c V 6 t :=
  before7_6_of c V (dat7 c V Φ₀ O Rec q) (A7_eq c V Φ₀ O Rec q 6) (after7_6 c V Φ₀ O Rec q) t d
theorem before7_7 (t : Fin cfg7.N) (d) : (dat7 c V Φ₀ O Rec q).before 7 t d = iblk7 c V 7 t :=
  before7_7_of c V (dat7 c V Φ₀ O Rec q) (A7_eq c V Φ₀ O Rec q 7) (after7_7 c V Φ₀ O Rec q) t d
theorem before7_8 (t : Fin cfg7.N) (d) : (dat7 c V Φ₀ O Rec q).before 8 t d = iblk7 c V 8 t :=
  before7_8_of c V (dat7 c V Φ₀ O Rec q) (A7_eq c V Φ₀ O Rec q 8) (after7_8 c V Φ₀ O Rec q) t d

/-- The pipeline rule's body obligation for this proof data, at every point and any index of the credit tokens. -/
theorem body_obligation7 (ι : Ix) : BodyObligation (dat7 c V Φ₀ O Rec q) (defs₀ (F := F)) Variants.none ι Set.univ :=
  body_obligation7_of (dat7 c V Φ₀ O Rec q) ι (iblk7 c V 0) (iblk7 c V 1) (iblk7 c V 2) (iblk7 c V 3) (iblk7 c V 4) (iblk7 c V 5) (iblk7 c V 6) (iblk7 c V 7) (iblk7 c V 8)
    (before7_0 c V Φ₀ O Rec q) (before7_1 c V Φ₀ O Rec q) (before7_2 c V Φ₀ O Rec q) (before7_3 c V Φ₀ O Rec q) (before7_4 c V Φ₀ O Rec q) (before7_5 c V Φ₀ O Rec q) (before7_6 c V Φ₀ O Rec q) (before7_7 c V Φ₀ O Rec q) (before7_8 c V Φ₀ O Rec q)
    (after7_0 c V Φ₀ O Rec q) (after7_1 c V Φ₀ O Rec q) (after7_2 c V Φ₀ O Rec q) (after7_3 c V Φ₀ O Rec q) (after7_4 c V Φ₀ O Rec q) (after7_5 c V Φ₀ O Rec q) (after7_6 c V Φ₀ O Rec q) (after7_7 c V Φ₀ O Rec q) (after7_8 c V Φ₀ O Rec q)
    (after7_9 c V Φ₀ O Rec q) (fun _ => .rfl) (fun _ => .rfl)

end Data

end Cert.Proof.Tc

end
-- ==== Proof.TcBody9.lean ====
/-
  The TensorCore body of point-convolution call 9, run once on whole staging buffers, and the proof data of
  its pipeline.

  The body reads nine blocks whole — the gathered rows, the per-point bias of the first layer, the three layers'
  weights and biases, the output weights and the output bias — and stores one block whole: the output weights
  applied to the flattened products of the third layer's activations with the gathered features, plus the output
  bias. Nothing else is touched: every input buffer is handed back as it was found, and what the output buffer
  held before is overwritten everywhere. The statement is made once over arbitrary whole memrefs and arbitrary
  contents, then at the staging buffers the pipeline calls the body with at a grid point, and last in the form
  the pipeline rule asks of a body: for any proof data whose input windows are found and left at given blocks,
  whose output window is left at the stored block, and whose invariant and debts pass through unchanged. The
  proof data itself is stated over arbitrary contents of the ten windows' arrays: each input window's staging
  buffer holds that array's block at the point, fetched there or not, and the output window's holds the stored
  block computed from them.
-/
import proofs.«214101_g10505490006249_cont_week2b_118_28_alg».proof.Proof.Gen.KernelIdeal.Launch
import proofs.«214101_g10505490006249_cont_week2b_118_28_alg».proof.Proof.Gen.KernelIdeal.Skeleton
import proofs.«214101_g10505490006249_cont_week2b_118_28_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.Proof.Tc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## The body on whole memrefs -/

/-- The offsets of every whole-block access: zero on both axes. -/
theorem zeros9 : (![0, 0] : Fin 2 → Nat) = fun _ => 0 := by funext a; fin_cases a <;> rfl

/-- The one store of the body covers the output block. -/
theorem cover9 (p0 : Vec F S1024x64 .f32) (y : S1024x64.Idx) :
    ∃ pc ∈ ([⟨Rect.unit (s := S1024x64) ![0, 0] S1024x64.size inb_S1024x64_S1024x64_0_0, p0⟩] : List (View.Piece (Elt F) S1024x64 .f32)), y ∈ pc.1.set :=
  ⟨_, List.mem_singleton_self _, View.mem_set_unit_zero zeros9 inb_S1024x64_S1024x64_0_0 y⟩

set_option maxHeartbeats 1000000 in
/-- The body on ten whole memrefs, the nine inputs' read at `x0 … x8` and the output's at anything, runs to the
    continuation holding the inputs' as they were and the output's at the stored block: the output weights `x7`
    applied to the flattened products computed from `x0 … x6`, plus the output bias `x8`. -/
theorem sound_kernel9 (c : Dev nD) (E : Set Name) (i : grid9.Coords)
    (arg1 : Memref sig .tc .vmem S16384x128 .f32) (harg1 : arg1.IsWhole) (arg2 : Memref sig .tc .vmem S1024x32 .f32) (harg2 : arg2.IsWhole) (arg3 : Memref sig .tc .vmem S128x32 .f32) (harg3 : arg3.IsWhole) (arg4 : Memref sig .tc .vmem S32x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S1024x64 .f32) (harg8 : arg8.IsWhole) (arg9 : Memref sig .tc .vmem S1x64 .f32) (harg9 : arg9.IsWhole) (arg10 : Memref sig .tc .vmem S1024x64 .f32) (harg10 : arg10.IsWhole)
    (x0 : Vec F S16384x128 .f32) (x1 : Vec F S1024x32 .f32) (x2 : Vec F S128x32 .f32) (x3 : Vec F S32x16 .f32) (x4 : Vec F S1x16 .f32) (x5 : Vec F S16x16 .f32) (x6 : Vec F S1x16 .f32) (x7 : Vec F S1024x64 .f32) (x8 : Vec F S1x64 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ owns (c : Thread nD τ) arg10 fullShare (k9_pay1 (k9_pay2 x0 x2 x1 x3 x4 x5 x6) x7 x8)) -∗ K ⟨⟩))
      ⊢ wp frame (wpE (defs₀ (F := F)) Variants.none c none) E (cc9__tc_body i arg1 harg1 arg2 harg2 arg3 harg3 arg4 harg4 arg5 harg5 arg6 harg6 arg7 harg7 arg8 harg8 arg9 harg9 arg10 harg10) K := by
  simp only [cc9__tc_body_eq_skeleton]; unfold cc9__tc_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  rw [View.read_writes_eq_canon _ _ _ (cover9 _), View.canon_unit_zero zeros9]
  unfold sound_kernel9.sl.r
  simp only [View.readAt_eq_ld, View.ld_unit_zero (S := S16384x128) zeros9, View.ld_unit_zero (S := S128x32) zeros9, View.ld_unit_zero (S := S1024x32) zeros9, View.ld_unit_zero (S := S32x16) zeros9, View.ld_unit_zero (S := S1x16) zeros9, View.ld_unit_zero (S := S16x16) zeros9, View.ld_unit_zero (S := S1024x64) zeros9, View.ld_unit_zero (S := S1x64) zeros9]

/-! ## The body at a grid point, for any proof data of the call -/

section Obligation

variable {c : Dev nD} (dat : Dat τ (Elt F) Ix Name U Lvl cfg9 c) (ι : Ix)
  (x0 : Fin cfg9.N → Vec F S16384x128 .f32) (x1 : Fin cfg9.N → Vec F S1024x32 .f32) (x2 : Fin cfg9.N → Vec F S128x32 .f32) (x3 : Fin cfg9.N → Vec F S32x16 .f32) (x4 : Fin cfg9.N → Vec F S1x16 .f32) (x5 : Fin cfg9.N → Vec F S16x16 .f32) (x6 : Fin cfg9.N → Vec F S1x16 .f32) (x7 : Fin cfg9.N → Vec F S1024x64 .f32) (x8 : Fin cfg9.N → Vec F S1x64 .f32)

/-- The body at point `t` on the staging buffers the pipeline calls it with. The proof data's input windows are
    found at the blocks `x0 t … x8 t` (`hb`) and left there (`ha`), its output window is left at the stored block
    (`ha9`), and its invariant and the core's debts at the next point follow from those before (`hΦ`, `ho`): they
    pass through the body unread. -/
theorem sound_body9
    (hb0 : ∀ t d, dat.before 0 t d = x0 t) (hb1 : ∀ t d, dat.before 1 t d = x1 t) (hb2 : ∀ t d, dat.before 2 t d = x2 t) (hb3 : ∀ t d, dat.before 3 t d = x3 t) (hb4 : ∀ t d, dat.before 4 t d = x4 t) (hb5 : ∀ t d, dat.before 5 t d = x5 t) (hb6 : ∀ t d, dat.before 6 t d = x6 t) (hb7 : ∀ t d, dat.before 7 t d = x7 t) (hb8 : ∀ t d, dat.before 8 t d = x8 t)
    (ha0 : ∀ t, dat.after 0 t = x0 t) (ha1 : ∀ t, dat.after 1 t = x1 t) (ha2 : ∀ t, dat.after 2 t = x2 t) (ha3 : ∀ t, dat.after 3 t = x3 t) (ha4 : ∀ t, dat.after 4 t = x4 t) (ha5 : ∀ t, dat.after 5 t = x5 t) (ha6 : ∀ t, dat.after 6 t = x6 t) (ha7 : ∀ t, dat.after 7 t = x7 t) (ha8 : ∀ t, dat.after 8 t = x8 t)
    (ha9 : ∀ t, dat.after 9 t = k9_pay1 (k9_pay2 (x0 t) (x2 t) (x1 t) (x3 t) (x4 t) (x5 t) (x6 t)) (x7 t) (x8 t))
    (hΦ : ∀ t : Fin cfg9.N, dat.Φ t.castSucc ⊢ dat.Φ t.succ)
    (ho : ∀ t : Fin cfg9.N, dat.owesAt ι t.castSucc ⊢ dat.owesAt ι t.succ) (t : Fin cfg9.N) :
    iprop(dat.Φ t.castSucc ∗ dat.owesAt ι t.castSucc
      ∗ (∃ d, owns (c : Thread nD τ) (st9_0 t) fullShare (dat.before 0 t d))
      ∗ (∃ d, owns (c : Thread nD τ) (st9_1 t) fullShare (dat.before 1 t d))
      ∗ (∃ d, owns (c : Thread nD τ) (st9_2 t) fullShare (dat.before 2 t d))
      ∗ (∃ d, owns (c : Thread nD τ) (st9_3 t) fullShare (dat.before 3 t d))
      ∗ (∃ d, owns (c : Thread nD τ) (st9_4 t) fullShare (dat.before 4 t d))
      ∗ (∃ d, owns (c : Thread nD τ) (st9_5 t) fullShare (dat.before 5 t d))
      ∗ (∃ d, owns (c : Thread nD τ) (st9_6 t) fullShare (dat.before 6 t d))
      ∗ (∃ d, owns (c : Thread nD τ) (st9_7 t) fullShare (dat.before 7 t d))
      ∗ (∃ d, owns (c : Thread nD τ) (st9_8 t) fullShare (dat.before 8 t d))
      ∗ (∃ d, owns (c : Thread nD τ) (st9_9 t) fullShare (dat.before 9 t d)))
    ⊢ wp frame (wpE (defs₀ (F := F)) Variants.none c none) Set.univ (bodyAt9 t) (fun _ =>
        iprop(dat.Φ t.succ ∗ dat.owesAt ι t.succ
          ∗ owns (c : Thread nD τ) (st9_0 t) fullShare (dat.after 0 t)
          ∗ owns (c : Thread nD τ) (st9_1 t) fullShare (dat.after 1 t)
          ∗ owns (c : Thread nD τ) (st9_2 t) fullShare (dat.after 2 t)
          ∗ owns (c : Thread nD τ) (st9_3 t) fullShare (dat.after 3 t)
          ∗ owns (c : Thread nD τ) (st9_4 t) fullShare (dat.after 4 t)
          ∗ owns (c : Thread nD τ) (st9_5 t) fullShare (dat.after 5 t)
          ∗ owns (c : Thread nD τ) (st9_6 t) fullShare (dat.after 6 t)
          ∗ owns (c : Thread nD τ) (st9_7 t) fullShare (dat.after 7 t)
          ∗ owns (c : Thread nD τ) (st9_8 t) fullShare (dat.after 8 t)
          ∗ owns (c : Thread nD τ) (st9_9 t) fullShare (dat.after 9 t))) := by
  unfold bodyAt9
  simp only [hb0, hb1, hb2, hb3, hb4, hb5, hb6, hb7, hb8, ha0, ha1, ha2, ha3, ha4, ha5, ha6, ha7, ha8, ha9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel9 c Set.univ (grid9.coords t) _ _ _ _ _ _ _ _ _ _ _ _ _ _ _ _ _ _ _ _ (x0 t) (x1 t) (x2 t) (x3 t) (x4 t) (x5 t) (x6 t) (x7 t) (x8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iapply (hΦ t); iexact HΦ
  isplitl [Ho]; · iapply (ho t); iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline rule's body obligation for the call, at every point, under the same hypotheses. -/
theorem body_obligation9_of
    (hb0 : ∀ t d, dat.before 0 t d = x0 t) (hb1 : ∀ t d, dat.before 1 t d = x1 t) (hb2 : ∀ t d, dat.before 2 t d = x2 t) (hb3 : ∀ t d, dat.before 3 t d = x3 t) (hb4 : ∀ t d, dat.before 4 t d = x4 t) (hb5 : ∀ t d, dat.before 5 t d = x5 t) (hb6 : ∀ t d, dat.before 6 t d = x6 t) (hb7 : ∀ t d, dat.before 7 t d = x7 t) (hb8 : ∀ t d, dat.before 8 t d = x8 t)
    (ha0 : ∀ t, dat.after 0 t = x0 t) (ha1 : ∀ t, dat.after 1 t = x1 t) (ha2 : ∀ t, dat.after 2 t = x2 t) (ha3 : ∀ t, dat.after 3 t = x3 t) (ha4 : ∀ t, dat.after 4 t = x4 t) (ha5 : ∀ t, dat.after 5 t = x5 t) (ha6 : ∀ t, dat.after 6 t = x6 t) (ha7 : ∀ t, dat.after 7 t = x7 t) (ha8 : ∀ t, dat.after 8 t = x8 t)
    (ha9 : ∀ t, dat.after 9 t = k9_pay1 (k9_pay2 (x0 t) (x2 t) (x1 t) (x3 t) (x4 t) (x5 t) (x6 t)) (x7 t) (x8 t))
    (hΦ : ∀ t : Fin cfg9.N, dat.Φ t.castSucc ⊢ dat.Φ t.succ)
    (ho : ∀ t : Fin cfg9.N, dat.owesAt ι t.castSucc ⊢ dat.owesAt ι t.succ) :
    BodyObligation dat (defs₀ (F := F)) Variants.none ι Set.univ := fun t => by
  rw [bigSep_W9, bigSep_W9]
  exact sound_body9 dat ι x0 x1 x2 x3 x4 x5 x6 x7 x8 hb0 hb1 hb2 hb3 hb4 hb5 hb6 hb7 hb8 ha0 ha1 ha2 ha3 ha4 ha5 ha6 ha7 ha8 ha9 hΦ ho t

end Obligation

/-! ## The call's proof data over given array contents

The arrays' contents as the call finds them are a parameter `V`; the blocks the body is handed are read off them
through the windows, and the proof data says: every input window is found at its block and left there, the output
window is left at the stored block computed from the input blocks of that point. -/

section Data

variable (c : Dev nD) (V : (b : Ref sig .tc) → Buf (Elt F) ((c : Thread nD τ).loc b))

/-- Window `w`'s block at point `t`, read off its array's contents `V`. -/
def iblk9 (w : Fin cfg9.W) (t : Fin cfg9.N) : ((cfg9.win w).xblock (cfg9.grid.coords t)).Idx → Elt F (cfg9.win w).elt :=
  ((cfg9.win w).blk t).view.read (Elt F) (V (Pipeline.arrRef spec9 w))

/-- The block the body stores at point `t`, from the input windows' blocks there. -/
def out9 (t : Fin cfg9.N) : Vec F S1024x64 .f32 :=
  k9_pay1 (k9_pay2 (iblk9 c V 0 t) (iblk9 c V 2 t) (iblk9 c V 1 t) (iblk9 c V 3 t) (iblk9 c V 4 t) (iblk9 c V 5 t) (iblk9 c V 6 t)) (iblk9 c V 7 t) (iblk9 c V 8 t)

/-- An input window's current staging buffer holds its block at every point, fetched there or not, for any proof
    data whose array is `V`'s (`hA`) and whose body leaves the block in place (`hafter`): unfetched, the window's
    index has not moved since the point that fetched it. -/
theorem before9_0_of (dat : Dat τ (Elt F) Ix Name U Lvl cfg9 c) (hA : dat.A 0 = V (Pipeline.arrRef spec9 0))
    (hafter : ∀ t, dat.after 0 t = iblk9 c V 0 t) (t : Fin cfg9.N) (d) : dat.before 0 t d = iblk9 c V 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
theorem before9_1_of (dat : Dat τ (Elt F) Ix Name U Lvl cfg9 c) (hA : dat.A 1 = V (Pipeline.arrRef spec9 1))
    (hafter : ∀ t, dat.after 1 t = iblk9 c V 1 t) (t : Fin cfg9.N) (d) : dat.before 1 t d = iblk9 c V 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)
theorem before9_2_of (dat : Dat τ (Elt F) Ix Name U Lvl cfg9 c) (hA : dat.A 2 = V (Pipeline.arrRef spec9 2))
    (hafter : ∀ t, dat.after 2 t = iblk9 c V 2 t) (t : Fin cfg9.N) (d) : dat.before 2 t d = iblk9 c V 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)
theorem before9_3_of (dat : Dat τ (Elt F) Ix Name U Lvl cfg9 c) (hA : dat.A 3 = V (Pipeline.arrRef spec9 3))
    (hafter : ∀ t, dat.after 3 t = iblk9 c V 3 t) (t : Fin cfg9.N) (d) : dat.before 3 t d = iblk9 c V 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)
theorem before9_4_of (dat : Dat τ (Elt F) Ix Name U Lvl cfg9 c) (hA : dat.A 4 = V (Pipeline.arrRef spec9 4))
    (hafter : ∀ t, dat.after 4 t = iblk9 c V 4 t) (t : Fin cfg9.N) (d) : dat.before 4 t d = iblk9 c V 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)
theorem before9_5_of (dat : Dat τ (Elt F) Ix Name U Lvl cfg9 c) (hA : dat.A 5 = V (Pipeline.arrRef spec9 5))
    (hafter : ∀ t, dat.after 5 t = iblk9 c V 5 t) (t : Fin cfg9.N) (d) : dat.before 5 t d = iblk9 c V 5 t :=
  (dat.before_in_eq_fetched 5 rfl (fun _ => rfl) (fun _ _ _ => rfl) (fun t => by rw [hafter]; unfold Dat.blockOf iblk9; rw [hA]; try rfl) t d).trans
    (by unfold Dat.fetched Dat.blockOf iblk9; rw [hA]; try rfl)
theorem before9_6_of (dat : Dat τ (Elt F) Ix Name U Lvl cfg9 c) (hA : dat.A 6 = V (Pipeline.arrRef spec9 6))
    (hafter : ∀ t, dat.after 6 t = iblk9 c V 6 t) (t : Fin cfg9.N) (d) : dat.before 6 t d = iblk9 c V 6 t :=
  (dat.before_in_eq_fetched 6 rfl (fun _ => rfl) (fun _ _ _ => rfl) (fun t => by rw [hafter]; unfold Dat.blockOf iblk9; rw [hA]; try rfl) t d).trans
    (by unfold Dat.fetched Dat.blockOf iblk9; rw [hA]; try rfl)
theorem before9_7_of (dat : Dat τ (Elt F) Ix Name U Lvl cfg9 c) (hA : dat.A 7 = V (Pipeline.arrRef spec9 7))
    (hafter : ∀ t, dat.after 7 t = iblk9 c V 7 t) (t : Fin cfg9.N) (d) : dat.before 7 t d = iblk9 c V 7 t :=
  (dat.before_in_eq_fetched 7 rfl (fun _ => rfl) (fun _ _ _ => rfl) (fun t => by rw [hafter]; unfold Dat.blockOf iblk9; rw [hA]; try rfl) t d).trans
    (by unfold Dat.fetched Dat.blockOf iblk9; rw [hA]; try rfl)
theorem before9_8_of (dat : Dat τ (Elt F) Ix Name U Lvl cfg9 c) (hA : dat.A 8 = V (Pipeline.arrRef spec9 8))
    (hafter : ∀ t, dat.after 8 t = iblk9 c V 8 t) (t : Fin cfg9.N) (d) : dat.before 8 t d = iblk9 c V 8 t :=
  (dat.before_in_eq_fetched 8 rfl (fun _ => rfl) (fun _ _ _ => rfl) (fun t => by rw [hafter]; unfold Dat.blockOf iblk9; rw [hA]; try rfl) t d).trans
    (by unfold Dat.fetched Dat.blockOf iblk9; rw [hA]; try rfl)

/-- The proof data of the call on core `c`: the arrays as found (`V`); after the body at point `t` each input's
    buffer at its block and the output's at the stored block; one invariant `Φ₀`, one tally of debts `O` and
    one bound `Rec` on the recorded waits at every point, all untouched by the body; the input arrays held at the shares `q`. -/
def dat9 (Φ₀ : sProp (MT nD τ sig Ix (Elt F) Name U Lvl)) (O : CellTallies nD τ sig Ix) (Rec : Set (SemLoc sig × Ix))
    (q : Fin cfg9.W → PosShare TreeShare) : Dat τ (Elt F) Ix Name U Lvl cfg9 c where
  A w := V (Pipeline.arrRef spec9 w)
  after w t := match w with
    | ⟨0, _⟩ => iblk9 c V 0 t
    | ⟨1, _⟩ => iblk9 c V 1 t
    | ⟨2, _⟩ => iblk9 c V 2 t
    | ⟨3, _⟩ => iblk9 c V 3 t
    | ⟨4, _⟩ => iblk9 c V 4 t
    | ⟨5, _⟩ => iblk9 c V 5 t
    | ⟨6, _⟩ => iblk9 c V 6 t
    | ⟨7, _⟩ => iblk9 c V 7 t
    | ⟨8, _⟩ => iblk9 c V 8 t
    | ⟨9, _⟩ => out9 c V t
  Φ _ := Φ₀
  q := q
  owed _ := O
  recorded _ := Rec

variable (Φ₀ : sProp (MT nD τ sig Ix (Elt F) Name U Lvl)) (O : CellTallies nD τ sig Ix) (Rec : Set (SemLoc sig × Ix)) (q : Fin cfg9.W → PosShare TreeShare)

/-- The proof data's arrays are `V`'s, by projection. -/
theorem A9_eq (w : Fin cfg9.W) : (dat9 c V Φ₀ O Rec q).A w = V (Pipeline.arrRef spec9 w) := by dsimp only [dat9]

/-- What the body leaves, window by window. -/
theorem after9_0 (t : Fin cfg9.N) : (dat9 c V Φ₀ O Rec q).after 0 t = iblk9 c V 0 t := by dsimp only [dat9]
theorem after9_1 (t : Fin cfg9.N) : (dat9 c V Φ₀ O Rec q).after 1 t = iblk9 c V 1 t := by dsimp only [dat9]
theorem after9_2 (t : Fin cfg9.N) : (dat9 c V Φ₀ O Rec q).after 2 t = iblk9 c V 2 t := by dsimp only [dat9]
theorem after9_3 (t : Fin cfg9.N) : (dat9 c V Φ₀ O Rec q).after 3 t = iblk9 c V 3 t := by dsimp only [dat9]
theorem after9_4 (t : Fin cfg9.N) : (dat9 c V Φ₀ O Rec q).after 4 t = iblk9 c V 4 t := by dsimp only [dat9]
theorem after9_5 (t : Fin cfg9.N) : (dat9 c V Φ₀ O Rec q).after 5 t = iblk9 c V 5 t := by dsimp only [dat9]
theorem after9_6 (t : Fin cfg9.N) : (dat9 c V Φ₀ O Rec q).after 6 t = iblk9 c V 6 t := by dsimp only [dat9]
theorem after9_7 (t : Fin cfg9.N) : (dat9 c V Φ₀ O Rec q).after 7 t = iblk9 c V 7 t := by dsimp only [dat9]
theorem after9_8 (t : Fin cfg9.N) : (dat9 c V Φ₀ O Rec q).after 8 t = iblk9 c V 8 t := by dsimp only [dat9]
theorem after9_9 (t : Fin cfg9.N) : (dat9 c V Φ₀ O Rec q).after 9 t = out9 c V t := by dsimp only [dat9]

/-- What the body finds in each input's buffer. -/
theorem before9_0 (t : Fin cfg9.N) (d) : (dat9 c V Φ₀ O Rec q).before 0 t d = iblk9 c V 0 t :=
  before9_0_of c V (dat9 c V Φ₀ O Rec q) (A9_eq c V Φ₀ O Rec q 0) (after9_0 c V Φ₀ O Rec q) t d
theorem before9_1 (t : Fin cfg9.N) (d) : (dat9 c V Φ₀ O Rec q).before 1 t d = iblk9 c V 1 t :=
  before9_1_of c V (dat9 c V Φ₀ O Rec q) (A9_eq c V Φ₀ O Rec q 1) (after9_1 c V Φ₀ O Rec q) t d
theorem before9_2 (t : Fin cfg9.N) (d) : (dat9 c V Φ₀ O Rec q).before 2 t d = iblk9 c V 2 t :=
  before9_2_of c V (dat9 c V Φ₀ O Rec q) (A9_eq c V Φ₀ O Rec q 2) (after9_2 c V Φ₀ O Rec q) t d
theorem before9_3 (t : Fin cfg9.N) (d) : (dat9 c V Φ₀ O Rec q).before 3 t d = iblk9 c V 3 t :=
  before9_3_of c V (dat9 c V Φ₀ O Rec q) (A9_eq c V Φ₀ O Rec q 3) (after9_3 c V Φ₀ O Rec q) t d
theorem before9_4 (t : Fin cfg9.N) (d) : (dat9 c V Φ₀ O Rec q).before 4 t d = iblk9 c V 4 t :=
  before9_4_of c V (dat9 c V Φ₀ O Rec q) (A9_eq c V Φ₀ O Rec q 4) (after9_4 c V Φ₀ O Rec q) t d
theorem before9_5 (t : Fin cfg9.N) (d) : (dat9 c V Φ₀ O Rec q).before 5 t d = iblk9 c V 5 t :=
  before9_5_of c V (dat9 c V Φ₀ O Rec q) (A9_eq c V Φ₀ O Rec q 5) (after9_5 c V Φ₀ O Rec q) t d
theorem before9_6 (t : Fin cfg9.N) (d) : (dat9 c V Φ₀ O Rec q).before 6 t d = iblk9 c V 6 t :=
  before9_6_of c V (dat9 c V Φ₀ O Rec q) (A9_eq c V Φ₀ O Rec q 6) (after9_6 c V Φ₀ O Rec q) t d
theorem before9_7 (t : Fin cfg9.N) (d) : (dat9 c V Φ₀ O Rec q).before 7 t d = iblk9 c V 7 t :=
  before9_7_of c V (dat9 c V Φ₀ O Rec q) (A9_eq c V Φ₀ O Rec q 7) (after9_7 c V Φ₀ O Rec q) t d
theorem before9_8 (t : Fin cfg9.N) (d) : (dat9 c V Φ₀ O Rec q).before 8 t d = iblk9 c V 8 t :=
  before9_8_of c V (dat9 c V Φ₀ O Rec q) (A9_eq c V Φ₀ O Rec q 8) (after9_8 c V Φ₀ O Rec q) t d

/-- The pipeline rule's body obligation for this proof data, at every point and any index of the credit tokens. -/
theorem body_obligation9 (ι : Ix) : BodyObligation (dat9 c V Φ₀ O Rec q) (defs₀ (F := F)) Variants.none ι Set.univ :=
  body_obligation9_of (dat9 c V Φ₀ O Rec q) ι (iblk9 c V 0) (iblk9 c V 1) (iblk9 c V 2) (iblk9 c V 3) (iblk9 c V 4) (iblk9 c V 5) (iblk9 c V 6) (iblk9 c V 7) (iblk9 c V 8)
    (before9_0 c V Φ₀ O Rec q) (before9_1 c V Φ₀ O Rec q) (before9_2 c V Φ₀ O Rec q) (before9_3 c V Φ₀ O Rec q) (before9_4 c V Φ₀ O Rec q) (before9_5 c V Φ₀ O Rec q) (before9_6 c V Φ₀ O Rec q) (before9_7 c V Φ₀ O Rec q) (before9_8 c V Φ₀ O Rec q)
    (after9_0 c V Φ₀ O Rec q) (after9_1 c V Φ₀ O Rec q) (after9_2 c V Φ₀ O Rec q) (after9_3 c V Φ₀ O Rec q) (after9_4 c V Φ₀ O Rec q) (after9_5 c V Φ₀ O Rec q) (after9_6 c V Φ₀ O Rec q) (after9_7 c V Φ₀ O Rec q) (after9_8 c V Φ₀ O Rec q)
    (after9_9 c V Φ₀ O Rec q) (fun _ => .rfl) (fun _ => .rfl)

end Data

end Cert.Proof.Tc

end
-- ==== Proof.TcBody11.lean ====
/-
  The TensorCore body of point-convolution call 11, run once on whole staging buffers, and the proof data of
  its pipeline.

  The body reads nine blocks whole — the gathered rows, the per-point bias of the first layer, the three layers'
  weights and biases, the output weights and the output bias — and stores one block whole: the output weights
  applied to the flattened products of the third layer's activations with the gathered features, plus the output
  bias. Nothing else is touched: every input buffer is handed back as it was found, and what the output buffer
  held before is overwritten everywhere. The statement is made once over arbitrary whole memrefs and arbitrary
  contents, then at the staging buffers the pipeline calls the body with at a grid point, and last in the form
  the pipeline rule asks of a body: for any proof data whose input windows are found and left at given blocks,
  whose output window is left at the stored block, and whose invariant and debts pass through unchanged. The
  proof data itself is stated over arbitrary contents of the ten windows' arrays: each input window's staging
  buffer holds that array's block at the point, fetched there or not, and the output window's holds the stored
  block computed from them.
-/
import proofs.«214101_g10505490006249_cont_week2b_118_28_alg».proof.Proof.Gen.KernelIdeal.Launch
import proofs.«214101_g10505490006249_cont_week2b_118_28_alg».proof.Proof.Gen.KernelIdeal.Skeleton
import proofs.«214101_g10505490006249_cont_week2b_118_28_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.Proof.Tc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## The body on whole memrefs -/

/-- The offsets of every whole-block access: zero on both axes. -/
theorem zeros11 : (![0, 0] : Fin 2 → Nat) = fun _ => 0 := by funext a; fin_cases a <;> rfl

/-- The one store of the body covers the output block. -/
theorem cover11 (p0 : Vec F S1024x64 .f32) (y : S1024x64.Idx) :
    ∃ pc ∈ ([⟨Rect.unit (s := S1024x64) ![0, 0] S1024x64.size inb_S1024x64_S1024x64_0_0, p0⟩] : List (View.Piece (Elt F) S1024x64 .f32)), y ∈ pc.1.set :=
  ⟨_, List.mem_singleton_self _, View.mem_set_unit_zero zeros11 inb_S1024x64_S1024x64_0_0 y⟩

set_option maxHeartbeats 1000000 in
/-- The body on ten whole memrefs, the nine inputs' read at `x0 … x8` and the output's at anything, runs to the
    continuation holding the inputs' as they were and the output's at the stored block: the output weights `x7`
    applied to the flattened products computed from `x0 … x6`, plus the output bias `x8`. -/
theorem sound_kernel11 (c : Dev nD) (E : Set Name) (i : grid11.Coords)
    (arg1 : Memref sig .tc .vmem S16384x128 .f32) (harg1 : arg1.IsWhole) (arg2 : Memref sig .tc .vmem S1024x32 .f32) (harg2 : arg2.IsWhole) (arg3 : Memref sig .tc .vmem S128x32 .f32) (harg3 : arg3.IsWhole) (arg4 : Memref sig .tc .vmem S32x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S1024x64 .f32) (harg8 : arg8.IsWhole) (arg9 : Memref sig .tc .vmem S1x64 .f32) (harg9 : arg9.IsWhole) (arg10 : Memref sig .tc .vmem S1024x64 .f32) (harg10 : arg10.IsWhole)
    (x0 : Vec F S16384x128 .f32) (x1 : Vec F S1024x32 .f32) (x2 : Vec F S128x32 .f32) (x3 : Vec F S32x16 .f32) (x4 : Vec F S1x16 .f32) (x5 : Vec F S16x16 .f32) (x6 : Vec F S1x16 .f32) (x7 : Vec F S1024x64 .f32) (x8 : Vec F S1x64 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ owns (c : Thread nD τ) arg10 fullShare (k11_pay1 (k11_pay2 x0 x2 x1 x3 x4 x5 x6) x7 x8)) -∗ K ⟨⟩))
      ⊢ wp frame (wpE (defs₀ (F := F)) Variants.none c none) E (cc11__tc_body i arg1 harg1 arg2 harg2 arg3 harg3 arg4 harg4 arg5 harg5 arg6 harg6 arg7 harg7 arg8 harg8 arg9 harg9 arg10 harg10) K := by
  simp only [cc11__tc_body_eq_skeleton]; unfold cc11__tc_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  rw [View.read_writes_eq_canon _ _ _ (cover11 _), View.canon_unit_zero zeros11]
  unfold sound_kernel11.sl.r
  simp only [View.readAt_eq_ld, View.ld_unit_zero (S := S16384x128) zeros11, View.ld_unit_zero (S := S128x32) zeros11, View.ld_unit_zero (S := S1024x32) zeros11, View.ld_unit_zero (S := S32x16) zeros11, View.ld_unit_zero (S := S1x16) zeros11, View.ld_unit_zero (S := S16x16) zeros11, View.ld_unit_zero (S := S1024x64) zeros11, View.ld_unit_zero (S := S1x64) zeros11]

/-! ## The body at a grid point, for any proof data of the call -/

section Obligation

variable {c : Dev nD} (dat : Dat τ (Elt F) Ix Name U Lvl cfg11 c) (ι : Ix)
  (x0 : Fin cfg11.N → Vec F S16384x128 .f32) (x1 : Fin cfg11.N → Vec F S1024x32 .f32) (x2 : Fin cfg11.N → Vec F S128x32 .f32) (x3 : Fin cfg11.N → Vec F S32x16 .f32) (x4 : Fin cfg11.N → Vec F S1x16 .f32) (x5 : Fin cfg11.N → Vec F S16x16 .f32) (x6 : Fin cfg11.N → Vec F S1x16 .f32) (x7 : Fin cfg11.N → Vec F S1024x64 .f32) (x8 : Fin cfg11.N → Vec F S1x64 .f32)

/-- The body at point `t` on the staging buffers the pipeline calls it with. The proof data's input windows are
    found at the blocks `x0 t … x8 t` (`hb`) and left there (`ha`), its output window is left at the stored block
    (`ha9`), and its invariant and the core's debts at the next point follow from those before (`hΦ`, `ho`): they
    pass through the body unread. -/
theorem sound_body11
    (hb0 : ∀ t d, dat.before 0 t d = x0 t) (hb1 : ∀ t d, dat.before 1 t d = x1 t) (hb2 : ∀ t d, dat.before 2 t d = x2 t) (hb3 : ∀ t d, dat.before 3 t d = x3 t) (hb4 : ∀ t d, dat.before 4 t d = x4 t) (hb5 : ∀ t d, dat.before 5 t d = x5 t) (hb6 : ∀ t d, dat.before 6 t d = x6 t) (hb7 : ∀ t d, dat.before 7 t d = x7 t) (hb8 : ∀ t d, dat.before 8 t d = x8 t)
    (ha0 : ∀ t, dat.after 0 t = x0 t) (ha1 : ∀ t, dat.after 1 t = x1 t) (ha2 : ∀ t, dat.after 2 t = x2 t) (ha3 : ∀ t, dat.after 3 t = x3 t) (ha4 : ∀ t, dat.after 4 t = x4 t) (ha5 : ∀ t, dat.after 5 t = x5 t) (ha6 : ∀ t, dat.after 6 t = x6 t) (ha7 : ∀ t, dat.after 7 t = x7 t) (ha8 : ∀ t, dat.after 8 t = x8 t)
    (ha9 : ∀ t, dat.after 9 t = k11_pay1 (k11_pay2 (x0 t) (x2 t) (x1 t) (x3 t) (x4 t) (x5 t) (x6 t)) (x7 t) (x8 t))
    (hΦ : ∀ t : Fin cfg11.N, dat.Φ t.castSucc ⊢ dat.Φ t.succ)
    (ho : ∀ t : Fin cfg11.N, dat.owesAt ι t.castSucc ⊢ dat.owesAt ι t.succ) (t : Fin cfg11.N) :
    iprop(dat.Φ t.castSucc ∗ dat.owesAt ι t.castSucc
      ∗ (∃ d, owns (c : Thread nD τ) (st11_0 t) fullShare (dat.before 0 t d))
      ∗ (∃ d, owns (c : Thread nD τ) (st11_1 t) fullShare (dat.before 1 t d))
      ∗ (∃ d, owns (c : Thread nD τ) (st11_2 t) fullShare (dat.before 2 t d))
      ∗ (∃ d, owns (c : Thread nD τ) (st11_3 t) fullShare (dat.before 3 t d))
      ∗ (∃ d, owns (c : Thread nD τ) (st11_4 t) fullShare (dat.before 4 t d))
      ∗ (∃ d, owns (c : Thread nD τ) (st11_5 t) fullShare (dat.before 5 t d))
      ∗ (∃ d, owns (c : Thread nD τ) (st11_6 t) fullShare (dat.before 6 t d))
      ∗ (∃ d, owns (c : Thread nD τ) (st11_7 t) fullShare (dat.before 7 t d))
      ∗ (∃ d, owns (c : Thread nD τ) (st11_8 t) fullShare (dat.before 8 t d))
      ∗ (∃ d, owns (c : Thread nD τ) (st11_9 t) fullShare (dat.before 9 t d)))
    ⊢ wp frame (wpE (defs₀ (F := F)) Variants.none c none) Set.univ (bodyAt11 t) (fun _ =>
        iprop(dat.Φ t.succ ∗ dat.owesAt ι t.succ
          ∗ owns (c : Thread nD τ) (st11_0 t) fullShare (dat.after 0 t)
          ∗ owns (c : Thread nD τ) (st11_1 t) fullShare (dat.after 1 t)
          ∗ owns (c : Thread nD τ) (st11_2 t) fullShare (dat.after 2 t)
          ∗ owns (c : Thread nD τ) (st11_3 t) fullShare (dat.after 3 t)
          ∗ owns (c : Thread nD τ) (st11_4 t) fullShare (dat.after 4 t)
          ∗ owns (c : Thread nD τ) (st11_5 t) fullShare (dat.after 5 t)
          ∗ owns (c : Thread nD τ) (st11_6 t) fullShare (dat.after 6 t)
          ∗ owns (c : Thread nD τ) (st11_7 t) fullShare (dat.after 7 t)
          ∗ owns (c : Thread nD τ) (st11_8 t) fullShare (dat.after 8 t)
          ∗ owns (c : Thread nD τ) (st11_9 t) fullShare (dat.after 9 t))) := by
  unfold bodyAt11
  simp only [hb0, hb1, hb2, hb3, hb4, hb5, hb6, hb7, hb8, ha0, ha1, ha2, ha3, ha4, ha5, ha6, ha7, ha8, ha9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel11 c Set.univ (grid11.coords t) _ _ _ _ _ _ _ _ _ _ _ _ _ _ _ _ _ _ _ _ (x0 t) (x1 t) (x2 t) (x3 t) (x4 t) (x5 t) (x6 t) (x7 t) (x8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iapply (hΦ t); iexact HΦ
  isplitl [Ho]; · iapply (ho t); iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline rule's body obligation for the call, at every point, under the same hypotheses. -/
theorem body_obligation11_of
    (hb0 : ∀ t d, dat.before 0 t d = x0 t) (hb1 : ∀ t d, dat.before 1 t d = x1 t) (hb2 : ∀ t d, dat.before 2 t d = x2 t) (hb3 : ∀ t d, dat.before 3 t d = x3 t) (hb4 : ∀ t d, dat.before 4 t d = x4 t) (hb5 : ∀ t d, dat.before 5 t d = x5 t) (hb6 : ∀ t d, dat.before 6 t d = x6 t) (hb7 : ∀ t d, dat.before 7 t d = x7 t) (hb8 : ∀ t d, dat.before 8 t d = x8 t)
    (ha0 : ∀ t, dat.after 0 t = x0 t) (ha1 : ∀ t, dat.after 1 t = x1 t) (ha2 : ∀ t, dat.after 2 t = x2 t) (ha3 : ∀ t, dat.after 3 t = x3 t) (ha4 : ∀ t, dat.after 4 t = x4 t) (ha5 : ∀ t, dat.after 5 t = x5 t) (ha6 : ∀ t, dat.after 6 t = x6 t) (ha7 : ∀ t, dat.after 7 t = x7 t) (ha8 : ∀ t, dat.after 8 t = x8 t)
    (ha9 : ∀ t, dat.after 9 t = k11_pay1 (k11_pay2 (x0 t) (x2 t) (x1 t) (x3 t) (x4 t) (x5 t) (x6 t)) (x7 t) (x8 t))
    (hΦ : ∀ t : Fin cfg11.N, dat.Φ t.castSucc ⊢ dat.Φ t.succ)
    (ho : ∀ t : Fin cfg11.N, dat.owesAt ι t.castSucc ⊢ dat.owesAt ι t.succ) :
    BodyObligation dat (defs₀ (F := F)) Variants.none ι Set.univ := fun t => by
  rw [bigSep_W11, bigSep_W11]
  exact sound_body11 dat ι x0 x1 x2 x3 x4 x5 x6 x7 x8 hb0 hb1 hb2 hb3 hb4 hb5 hb6 hb7 hb8 ha0 ha1 ha2 ha3 ha4 ha5 ha6 ha7 ha8 ha9 hΦ ho t

end Obligation

/-! ## The call's proof data over given array contents

The arrays' contents as the call finds them are a parameter `V`; the blocks the body is handed are read off them
through the windows, and the proof data says: every input window is found at its block and left there, the output
window is left at the stored block computed from the input blocks of that point. -/

section Data

variable (c : Dev nD) (V : (b : Ref sig .tc) → Buf (Elt F) ((c : Thread nD τ).loc b))

/-- Window `w`'s block at point `t`, read off its array's contents `V`. -/
def iblk11 (w : Fin cfg11.W) (t : Fin cfg11.N) : ((cfg11.win w).xblock (cfg11.grid.coords t)).Idx → Elt F (cfg11.win w).elt :=
  ((cfg11.win w).blk t).view.read (Elt F) (V (Pipeline.arrRef spec11 w))

/-- The block the body stores at point `t`, from the input windows' blocks there. -/
def out11 (t : Fin cfg11.N) : Vec F S1024x64 .f32 :=
  k11_pay1 (k11_pay2 (iblk11 c V 0 t) (iblk11 c V 2 t) (iblk11 c V 1 t) (iblk11 c V 3 t) (iblk11 c V 4 t) (iblk11 c V 5 t) (iblk11 c V 6 t)) (iblk11 c V 7 t) (iblk11 c V 8 t)

/-- An input window's current staging buffer holds its block at every point, fetched there or not, for any proof
    data whose array is `V`'s (`hA`) and whose body leaves the block in place (`hafter`): unfetched, the window's
    index has not moved since the point that fetched it. -/
theorem before11_0_of (dat : Dat τ (Elt F) Ix Name U Lvl cfg11 c) (hA : dat.A 0 = V (Pipeline.arrRef spec11 0))
    (hafter : ∀ t, dat.after 0 t = iblk11 c V 0 t) (t : Fin cfg11.N) (d) : dat.before 0 t d = iblk11 c V 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)
theorem before11_1_of (dat : Dat τ (Elt F) Ix Name U Lvl cfg11 c) (hA : dat.A 1 = V (Pipeline.arrRef spec11 1))
    (hafter : ∀ t, dat.after 1 t = iblk11 c V 1 t) (t : Fin cfg11.N) (d) : dat.before 1 t d = iblk11 c V 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)
theorem before11_2_of (dat : Dat τ (Elt F) Ix Name U Lvl cfg11 c) (hA : dat.A 2 = V (Pipeline.arrRef spec11 2))
    (hafter : ∀ t, dat.after 2 t = iblk11 c V 2 t) (t : Fin cfg11.N) (d) : dat.before 2 t d = iblk11 c V 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)
theorem before11_3_of (dat : Dat τ (Elt F) Ix Name U Lvl cfg11 c) (hA : dat.A 3 = V (Pipeline.arrRef spec11 3))
    (hafter : ∀ t, dat.after 3 t = iblk11 c V 3 t) (t : Fin cfg11.N) (d) : dat.before 3 t d = iblk11 c V 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)
theorem before11_4_of (dat : Dat τ (Elt F) Ix Name U Lvl cfg11 c) (hA : dat.A 4 = V (Pipeline.arrRef spec11 4))
    (hafter : ∀ t, dat.after 4 t = iblk11 c V 4 t) (t : Fin cfg11.N) (d) : dat.before 4 t d = iblk11 c V 4 t :=
  (dat.before_in_eq_fetched 4 rfl (fun _ => rfl) (fun _ _ _ => rfl) (fun t => by rw [hafter]; unfold Dat.blockOf iblk11; rw [hA]; try rfl) t d).trans
    (by unfold Dat.fetched Dat.blockOf iblk11; rw [hA]; try rfl)
theorem before11_5_of (dat : Dat τ (Elt F) Ix Name U Lvl cfg11 c) (hA : dat.A 5 = V (Pipeline.arrRef spec11 5))
    (hafter : ∀ t, dat.after 5 t = iblk11 c V 5 t) (t : Fin cfg11.N) (d) : dat.before 5 t d = iblk11 c V 5 t :=
  (dat.before_in_eq_fetched 5 rfl (fun _ => rfl) (fun _ _ _ => rfl) (fun t => by rw [hafter]; unfold Dat.blockOf iblk11; rw [hA]; try rfl) t d).trans
    (by unfold Dat.fetched Dat.blockOf iblk11; rw [hA]; try rfl)
theorem before11_6_of (dat : Dat τ (Elt F) Ix Name U Lvl cfg11 c) (hA : dat.A 6 = V (Pipeline.arrRef spec11 6))
    (hafter : ∀ t, dat.after 6 t = iblk11 c V 6 t) (t : Fin cfg11.N) (d) : dat.before 6 t d = iblk11 c V 6 t :=
  (dat.before_in_eq_fetched 6 rfl (fun _ => rfl) (fun _ _ _ => rfl) (fun t => by rw [hafter]; unfold Dat.blockOf iblk11; rw [hA]; try rfl) t d).trans
    (by unfold Dat.fetched Dat.blockOf iblk11; rw [hA]; try rfl)
theorem before11_7_of (dat : Dat τ (Elt F) Ix Name U Lvl cfg11 c) (hA : dat.A 7 = V (Pipeline.arrRef spec11 7))
    (hafter : ∀ t, dat.after 7 t = iblk11 c V 7 t) (t : Fin cfg11.N) (d) : dat.before 7 t d = iblk11 c V 7 t :=
  (dat.before_in_eq_fetched 7 rfl (fun _ => rfl) (fun _ _ _ => rfl) (fun t => by rw [hafter]; unfold Dat.blockOf iblk11; rw [hA]; try rfl) t d).trans
    (by unfold Dat.fetched Dat.blockOf iblk11; rw [hA]; try rfl)
theorem before11_8_of (dat : Dat τ (Elt F) Ix Name U Lvl cfg11 c) (hA : dat.A 8 = V (Pipeline.arrRef spec11 8))
    (hafter : ∀ t, dat.after 8 t = iblk11 c V 8 t) (t : Fin cfg11.N) (d) : dat.before 8 t d = iblk11 c V 8 t :=
  (dat.before_in_eq_fetched 8 rfl (fun _ => rfl) (fun _ _ _ => rfl) (fun t => by rw [hafter]; unfold Dat.blockOf iblk11; rw [hA]; try rfl) t d).trans
    (by unfold Dat.fetched Dat.blockOf iblk11; rw [hA]; try rfl)

/-- The proof data of the call on core `c`: the arrays as found (`V`); after the body at point `t` each input's
    buffer at its block and the output's at the stored block; one invariant `Φ₀`, one tally of debts `O` and
    one bound `Rec` on the recorded waits at every point, all untouched by the body; the input arrays held at the shares `q`. -/
def dat11 (Φ₀ : sProp (MT nD τ sig Ix (Elt F) Name U Lvl)) (O : CellTallies nD τ sig Ix) (Rec : Set (SemLoc sig × Ix))
    (q : Fin cfg11.W → PosShare TreeShare) : Dat τ (Elt F) Ix Name U Lvl cfg11 c where
  A w := V (Pipeline.arrRef spec11 w)
  after w t := match w with
    | ⟨0, _⟩ => iblk11 c V 0 t
    | ⟨1, _⟩ => iblk11 c V 1 t
    | ⟨2, _⟩ => iblk11 c V 2 t
    | ⟨3, _⟩ => iblk11 c V 3 t
    | ⟨4, _⟩ => iblk11 c V 4 t
    | ⟨5, _⟩ => iblk11 c V 5 t
    | ⟨6, _⟩ => iblk11 c V 6 t
    | ⟨7, _⟩ => iblk11 c V 7 t
    | ⟨8, _⟩ => iblk11 c V 8 t
    | ⟨9, _⟩ => out11 c V t
  Φ _ := Φ₀
  q := q
  owed _ := O
  recorded _ := Rec

variable (Φ₀ : sProp (MT nD τ sig Ix (Elt F) Name U Lvl)) (O : CellTallies nD τ sig Ix) (Rec : Set (SemLoc sig × Ix)) (q : Fin cfg11.W → PosShare TreeShare)

/-- The proof data's arrays are `V`'s, by projection. -/
theorem A11_eq (w : Fin cfg11.W) : (dat11 c V Φ₀ O Rec q).A w = V (Pipeline.arrRef spec11 w) := by dsimp only [dat11]

/-- What the body leaves, window by window. -/
theorem after11_0 (t : Fin cfg11.N) : (dat11 c V Φ₀ O Rec q).after 0 t = iblk11 c V 0 t := by dsimp only [dat11]
theorem after11_1 (t : Fin cfg11.N) : (dat11 c V Φ₀ O Rec q).after 1 t = iblk11 c V 1 t := by dsimp only [dat11]
theorem after11_2 (t : Fin cfg11.N) : (dat11 c V Φ₀ O Rec q).after 2 t = iblk11 c V 2 t := by dsimp only [dat11]
theorem after11_3 (t : Fin cfg11.N) : (dat11 c V Φ₀ O Rec q).after 3 t = iblk11 c V 3 t := by dsimp only [dat11]
theorem after11_4 (t : Fin cfg11.N) : (dat11 c V Φ₀ O Rec q).after 4 t = iblk11 c V 4 t := by dsimp only [dat11]
theorem after11_5 (t : Fin cfg11.N) : (dat11 c V Φ₀ O Rec q).after 5 t = iblk11 c V 5 t := by dsimp only [dat11]
theorem after11_6 (t : Fin cfg11.N) : (dat11 c V Φ₀ O Rec q).after 6 t = iblk11 c V 6 t := by dsimp only [dat11]
theorem after11_7 (t : Fin cfg11.N) : (dat11 c V Φ₀ O Rec q).after 7 t = iblk11 c V 7 t := by dsimp only [dat11]
theorem after11_8 (t : Fin cfg11.N) : (dat11 c V Φ₀ O Rec q).after 8 t = iblk11 c V 8 t := by dsimp only [dat11]
theorem after11_9 (t : Fin cfg11.N) : (dat11 c V Φ₀ O Rec q).after 9 t = out11 c V t := by dsimp only [dat11]

/-- What the body finds in each input's buffer. -/
theorem before11_0 (t : Fin cfg11.N) (d) : (dat11 c V Φ₀ O Rec q).before 0 t d = iblk11 c V 0 t :=
  before11_0_of c V (dat11 c V Φ₀ O Rec q) (A11_eq c V Φ₀ O Rec q 0) (after11_0 c V Φ₀ O Rec q) t d
theorem before11_1 (t : Fin cfg11.N) (d) : (dat11 c V Φ₀ O Rec q).before 1 t d = iblk11 c V 1 t :=
  before11_1_of c V (dat11 c V Φ₀ O Rec q) (A11_eq c V Φ₀ O Rec q 1) (after11_1 c V Φ₀ O Rec q) t d
theorem before11_2 (t : Fin cfg11.N) (d) : (dat11 c V Φ₀ O Rec q).before 2 t d = iblk11 c V 2 t :=
  before11_2_of c V (dat11 c V Φ₀ O Rec q) (A11_eq c V Φ₀ O Rec q 2) (after11_2 c V Φ₀ O Rec q) t d
theorem before11_3 (t : Fin cfg11.N) (d) : (dat11 c V Φ₀ O Rec q).before 3 t d = iblk11 c V 3 t :=
  before11_3_of c V (dat11 c V Φ₀ O Rec q) (A11_eq c V Φ₀ O Rec q 3) (after11_3 c V Φ₀ O Rec q) t d
theorem before11_4 (t : Fin cfg11.N) (d) : (dat11 c V Φ₀ O Rec q).before 4 t d = iblk11 c V 4 t :=
  before11_4_of c V (dat11 c V Φ₀ O Rec q) (A11_eq c V Φ₀ O Rec q 4) (after11_4 c V Φ₀ O Rec q) t d
theorem before11_5 (t : Fin cfg11.N) (d) : (dat11 c V Φ₀ O Rec q).before 5 t d = iblk11 c V 5 t :=
  before11_5_of c V (dat11 c V Φ₀ O Rec q) (A11_eq c V Φ₀ O Rec q 5) (after11_5 c V Φ₀ O Rec q) t d
theorem before11_6 (t : Fin cfg11.N) (d) : (dat11 c V Φ₀ O Rec q).before 6 t d = iblk11 c V 6 t :=
  before11_6_of c V (dat11 c V Φ₀ O Rec q) (A11_eq c V Φ₀ O Rec q 6) (after11_6 c V Φ₀ O Rec q) t d
theorem before11_7 (t : Fin cfg11.N) (d) : (dat11 c V Φ₀ O Rec q).before 7 t d = iblk11 c V 7 t :=
  before11_7_of c V (dat11 c V Φ₀ O Rec q) (A11_eq c V Φ₀ O Rec q 7) (after11_7 c V Φ₀ O Rec q) t d
theorem before11_8 (t : Fin cfg11.N) (d) : (dat11 c V Φ₀ O Rec q).before 8 t d = iblk11 c V 8 t :=
  before11_8_of c V (dat11 c V Φ₀ O Rec q) (A11_eq c V Φ₀ O Rec q 8) (after11_8 c V Φ₀ O Rec q) t d

/-- The pipeline rule's body obligation for this proof data, at every point and any index of the credit tokens. -/
theorem body_obligation11 (ι : Ix) : BodyObligation (dat11 c V Φ₀ O Rec q) (defs₀ (F := F)) Variants.none ι Set.univ :=
  body_obligation11_of (dat11 c V Φ₀ O Rec q) ι (iblk11 c V 0) (iblk11 c V 1) (iblk11 c V 2) (iblk11 c V 3) (iblk11 c V 4) (iblk11 c V 5) (iblk11 c V 6) (iblk11 c V 7) (iblk11 c V 8)
    (before11_0 c V Φ₀ O Rec q) (before11_1 c V Φ₀ O Rec q) (before11_2 c V Φ₀ O Rec q) (before11_3 c V Φ₀ O Rec q) (before11_4 c V Φ₀ O Rec q) (before11_5 c V Φ₀ O Rec q) (before11_6 c V Φ₀ O Rec q) (before11_7 c V Φ₀ O Rec q) (before11_8 c V Φ₀ O Rec q)
    (after11_0 c V Φ₀ O Rec q) (after11_1 c V Φ₀ O Rec q) (after11_2 c V Φ₀ O Rec q) (after11_3 c V Φ₀ O Rec q) (after11_4 c V Φ₀ O Rec q) (after11_5 c V Φ₀ O Rec q) (after11_6 c V Φ₀ O Rec q) (after11_7 c V Φ₀ O Rec q) (after11_8 c V Φ₀ O Rec q)
    (after11_9 c V Φ₀ O Rec q) (fun _ => .rfl) (fun _ => .rfl)

end Data

end Cert.Proof.Tc

end
-- ==== Proof.TcBody13.lean ====
/-
  The TensorCore body of point-convolution call 13, run once on whole staging buffers, and the proof data of
  its pipeline.

  The body reads nine blocks whole — the gathered rows, the per-point bias of the first layer, the three layers'
  weights and biases, the output weights and the output bias — and stores one block whole: the output weights
  applied to the flattened products of the third layer's activations with the gathered features, plus the output
  bias. Nothing else is touched: every input buffer is handed back as it was found, and what the output buffer
  held before is overwritten everywhere. The statement is made once over arbitrary whole memrefs and arbitrary
  contents, then at the staging buffers the pipeline calls the body with at a grid point, and last in the form
  the pipeline rule asks of a body: for any proof data whose input windows are found and left at given blocks,
  whose output window is left at the stored block, and whose invariant and debts pass through unchanged. The
  proof data itself is stated over arbitrary contents of the ten windows' arrays: each input window's staging
  buffer holds that array's block at the point, fetched there or not, and the output window's holds the stored
  block computed from them.
-/
import proofs.«214101_g10505490006249_cont_week2b_118_28_alg».proof.Proof.Gen.KernelIdeal.Launch
import proofs.«214101_g10505490006249_cont_week2b_118_28_alg».proof.Proof.Gen.KernelIdeal.Skeleton
import proofs.«214101_g10505490006249_cont_week2b_118_28_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.Proof.Tc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## The body on whole memrefs -/

/-- The offsets of every whole-block access: zero on both axes. -/
theorem zeros13 : (![0, 0] : Fin 2 → Nat) = fun _ => 0 := by funext a; fin_cases a <;> rfl

/-- The one store of the body covers the output block. -/
theorem cover13 (p0 : Vec F S1024x64 .f32) (y : S1024x64.Idx) :
    ∃ pc ∈ ([⟨Rect.unit (s := S1024x64) ![0, 0] S1024x64.size inb_S1024x64_S1024x64_0_0, p0⟩] : List (View.Piece (Elt F) S1024x64 .f32)), y ∈ pc.1.set :=
  ⟨_, List.mem_singleton_self _, View.mem_set_unit_zero zeros13 inb_S1024x64_S1024x64_0_0 y⟩

set_option maxHeartbeats 1000000 in
/-- The body on ten whole memrefs, the nine inputs' read at `x0 … x8` and the output's at anything, runs to the
    continuation holding the inputs' as they were and the output's at the stored block: the output weights `x7`
    applied to the flattened products computed from `x0 … x6`, plus the output bias `x8`. -/
theorem sound_kernel13 (c : Dev nD) (E : Set Name) (i : grid13.Coords)
    (arg1 : Memref sig .tc .vmem S16384x128 .f32) (harg1 : arg1.IsWhole) (arg2 : Memref sig .tc .vmem S1024x32 .f32) (harg2 : arg2.IsWhole) (arg3 : Memref sig .tc .vmem S128x32 .f32) (harg3 : arg3.IsWhole) (arg4 : Memref sig .tc .vmem S32x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S1024x64 .f32) (harg8 : arg8.IsWhole) (arg9 : Memref sig .tc .vmem S1x64 .f32) (harg9 : arg9.IsWhole) (arg10 : Memref sig .tc .vmem S1024x64 .f32) (harg10 : arg10.IsWhole)
    (x0 : Vec F S16384x128 .f32) (x1 : Vec F S1024x32 .f32) (x2 : Vec F S128x32 .f32) (x3 : Vec F S32x16 .f32) (x4 : Vec F S1x16 .f32) (x5 : Vec F S16x16 .f32) (x6 : Vec F S1x16 .f32) (x7 : Vec F S1024x64 .f32) (x8 : Vec F S1x64 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ owns (c : Thread nD τ) arg10 fullShare (k13_pay1 (k13_pay2 x0 x2 x1 x3 x4 x5 x6) x7 x8)) -∗ K ⟨⟩))
      ⊢ wp frame (wpE (defs₀ (F := F)) Variants.none c none) E (cc13__tc_body i arg1 harg1 arg2 harg2 arg3 harg3 arg4 harg4 arg5 harg5 arg6 harg6 arg7 harg7 arg8 harg8 arg9 harg9 arg10 harg10) K := by
  simp only [cc13__tc_body_eq_skeleton]; unfold cc13__tc_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  rw [View.read_writes_eq_canon _ _ _ (cover13 _), View.canon_unit_zero zeros13]
  unfold sound_kernel13.sl.r
  simp only [View.readAt_eq_ld, View.ld_unit_zero (S := S16384x128) zeros13, View.ld_unit_zero (S := S128x32) zeros13, View.ld_unit_zero (S := S1024x32) zeros13, View.ld_unit_zero (S := S32x16) zeros13, View.ld_unit_zero (S := S1x16) zeros13, View.ld_unit_zero (S := S16x16) zeros13, View.ld_unit_zero (S := S1024x64) zeros13, View.ld_unit_zero (S := S1x64) zeros13]

/-! ## The body at a grid point, for any proof data of the call -/

section Obligation

variable {c : Dev nD} (dat : Dat τ (Elt F) Ix Name U Lvl cfg13 c) (ι : Ix)
  (x0 : Fin cfg13.N → Vec F S16384x128 .f32) (x1 : Fin cfg13.N → Vec F S1024x32 .f32) (x2 : Fin cfg13.N → Vec F S128x32 .f32) (x3 : Fin cfg13.N → Vec F S32x16 .f32) (x4 : Fin cfg13.N → Vec F S1x16 .f32) (x5 : Fin cfg13.N → Vec F S16x16 .f32) (x6 : Fin cfg13.N → Vec F S1x16 .f32) (x7 : Fin cfg13.N → Vec F S1024x64 .f32) (x8 : Fin cfg13.N → Vec F S1x64 .f32)

/-- The body at point `t` on the staging buffers the pipeline calls it with. The proof data's input windows are
    found at the blocks `x0 t … x8 t` (`hb`) and left there (`ha`), its output window is left at the stored block
    (`ha9`), and its invariant and the core's debts at the next point follow from those before (`hΦ`, `ho`): they
    pass through the body unread. -/
theorem sound_body13
    (hb0 : ∀ t d, dat.before 0 t d = x0 t) (hb1 : ∀ t d, dat.before 1 t d = x1 t) (hb2 : ∀ t d, dat.before 2 t d = x2 t) (hb3 : ∀ t d, dat.before 3 t d = x3 t) (hb4 : ∀ t d, dat.before 4 t d = x4 t) (hb5 : ∀ t d, dat.before 5 t d = x5 t) (hb6 : ∀ t d, dat.before 6 t d = x6 t) (hb7 : ∀ t d, dat.before 7 t d = x7 t) (hb8 : ∀ t d, dat.before 8 t d = x8 t)
    (ha0 : ∀ t, dat.after 0 t = x0 t) (ha1 : ∀ t, dat.after 1 t = x1 t) (ha2 : ∀ t, dat.after 2 t = x2 t) (ha3 : ∀ t, dat.after 3 t = x3 t) (ha4 : ∀ t, dat.after 4 t = x4 t) (ha5 : ∀ t, dat.after 5 t = x5 t) (ha6 : ∀ t, dat.after 6 t = x6 t) (ha7 : ∀ t, dat.after 7 t = x7 t) (ha8 : ∀ t, dat.after 8 t = x8 t)
    (ha9 : ∀ t, dat.after 9 t = k13_pay1 (k13_pay2 (x0 t) (x2 t) (x1 t) (x3 t) (x4 t) (x5 t) (x6 t)) (x7 t) (x8 t))
    (hΦ : ∀ t : Fin cfg13.N, dat.Φ t.castSucc ⊢ dat.Φ t.succ)
    (ho : ∀ t : Fin cfg13.N, dat.owesAt ι t.castSucc ⊢ dat.owesAt ι t.succ) (t : Fin cfg13.N) :
    iprop(dat.Φ t.castSucc ∗ dat.owesAt ι t.castSucc
      ∗ (∃ d, owns (c : Thread nD τ) (st13_0 t) fullShare (dat.before 0 t d))
      ∗ (∃ d, owns (c : Thread nD τ) (st13_1 t) fullShare (dat.before 1 t d))
      ∗ (∃ d, owns (c : Thread nD τ) (st13_2 t) fullShare (dat.before 2 t d))
      ∗ (∃ d, owns (c : Thread nD τ) (st13_3 t) fullShare (dat.before 3 t d))
      ∗ (∃ d, owns (c : Thread nD τ) (st13_4 t) fullShare (dat.before 4 t d))
      ∗ (∃ d, owns (c : Thread nD τ) (st13_5 t) fullShare (dat.before 5 t d))
      ∗ (∃ d, owns (c : Thread nD τ) (st13_6 t) fullShare (dat.before 6 t d))
      ∗ (∃ d, owns (c : Thread nD τ) (st13_7 t) fullShare (dat.before 7 t d))
      ∗ (∃ d, owns (c : Thread nD τ) (st13_8 t) fullShare (dat.before 8 t d))
      ∗ (∃ d, owns (c : Thread nD τ) (st13_9 t) fullShare (dat.before 9 t d)))
    ⊢ wp frame (wpE (defs₀ (F := F)) Variants.none c none) Set.univ (bodyAt13 t) (fun _ =>
        iprop(dat.Φ t.succ ∗ dat.owesAt ι t.succ
          ∗ owns (c : Thread nD τ) (st13_0 t) fullShare (dat.after 0 t)
          ∗ owns (c : Thread nD τ) (st13_1 t) fullShare (dat.after 1 t)
          ∗ owns (c : Thread nD τ) (st13_2 t) fullShare (dat.after 2 t)
          ∗ owns (c : Thread nD τ) (st13_3 t) fullShare (dat.after 3 t)
          ∗ owns (c : Thread nD τ) (st13_4 t) fullShare (dat.after 4 t)
          ∗ owns (c : Thread nD τ) (st13_5 t) fullShare (dat.after 5 t)
          ∗ owns (c : Thread nD τ) (st13_6 t) fullShare (dat.after 6 t)
          ∗ owns (c : Thread nD τ) (st13_7 t) fullShare (dat.after 7 t)
          ∗ owns (c : Thread nD τ) (st13_8 t) fullShare (dat.after 8 t)
          ∗ owns (c : Thread nD τ) (st13_9 t) fullShare (dat.after 9 t))) := by
  unfold bodyAt13
  simp only [hb0, hb1, hb2, hb3, hb4, hb5, hb6, hb7, hb8, ha0, ha1, ha2, ha3, ha4, ha5, ha6, ha7, ha8, ha9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel13 c Set.univ (grid13.coords t) _ _ _ _ _ _ _ _ _ _ _ _ _ _ _ _ _ _ _ _ (x0 t) (x1 t) (x2 t) (x3 t) (x4 t) (x5 t) (x6 t) (x7 t) (x8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iapply (hΦ t); iexact HΦ
  isplitl [Ho]; · iapply (ho t); iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline rule's body obligation for the call, at every point, under the same hypotheses. -/
theorem body_obligation13_of
    (hb0 : ∀ t d, dat.before 0 t d = x0 t) (hb1 : ∀ t d, dat.before 1 t d = x1 t) (hb2 : ∀ t d, dat.before 2 t d = x2 t) (hb3 : ∀ t d, dat.before 3 t d = x3 t) (hb4 : ∀ t d, dat.before 4 t d = x4 t) (hb5 : ∀ t d, dat.before 5 t d = x5 t) (hb6 : ∀ t d, dat.before 6 t d = x6 t) (hb7 : ∀ t d, dat.before 7 t d = x7 t) (hb8 : ∀ t d, dat.before 8 t d = x8 t)
    (ha0 : ∀ t, dat.after 0 t = x0 t) (ha1 : ∀ t, dat.after 1 t = x1 t) (ha2 : ∀ t, dat.after 2 t = x2 t) (ha3 : ∀ t, dat.after 3 t = x3 t) (ha4 : ∀ t, dat.after 4 t = x4 t) (ha5 : ∀ t, dat.after 5 t = x5 t) (ha6 : ∀ t, dat.after 6 t = x6 t) (ha7 : ∀ t, dat.after 7 t = x7 t) (ha8 : ∀ t, dat.after 8 t = x8 t)
    (ha9 : ∀ t, dat.after 9 t = k13_pay1 (k13_pay2 (x0 t) (x2 t) (x1 t) (x3 t) (x4 t) (x5 t) (x6 t)) (x7 t) (x8 t))
    (hΦ : ∀ t : Fin cfg13.N, dat.Φ t.castSucc ⊢ dat.Φ t.succ)
    (ho : ∀ t : Fin cfg13.N, dat.owesAt ι t.castSucc ⊢ dat.owesAt ι t.succ) :
    BodyObligation dat (defs₀ (F := F)) Variants.none ι Set.univ := fun t => by
  rw [bigSep_W13, bigSep_W13]
  exact sound_body13 dat ι x0 x1 x2 x3 x4 x5 x6 x7 x8 hb0 hb1 hb2 hb3 hb4 hb5 hb6 hb7 hb8 ha0 ha1 ha2 ha3 ha4 ha5 ha6 ha7 ha8 ha9 hΦ ho t

end Obligation

/-! ## The call's proof data over given array contents

The arrays' contents as the call finds them are a parameter `V`; the blocks the body is handed are read off them
through the windows, and the proof data says: every input window is found at its block and left there, the output
window is left at the stored block computed from the input blocks of that point. -/

section Data

variable (c : Dev nD) (V : (b : Ref sig .tc) → Buf (Elt F) ((c : Thread nD τ).loc b))

/-- Window `w`'s block at point `t`, read off its array's contents `V`. -/
def iblk13 (w : Fin cfg13.W) (t : Fin cfg13.N) : ((cfg13.win w).xblock (cfg13.grid.coords t)).Idx → Elt F (cfg13.win w).elt :=
  ((cfg13.win w).blk t).view.read (Elt F) (V (Pipeline.arrRef spec13 w))

/-- The block the body stores at point `t`, from the input windows' blocks there. -/
def out13 (t : Fin cfg13.N) : Vec F S1024x64 .f32 :=
  k13_pay1 (k13_pay2 (iblk13 c V 0 t) (iblk13 c V 2 t) (iblk13 c V 1 t) (iblk13 c V 3 t) (iblk13 c V 4 t) (iblk13 c V 5 t) (iblk13 c V 6 t)) (iblk13 c V 7 t) (iblk13 c V 8 t)

/-- An input window's current staging buffer holds its block at every point, fetched there or not, for any proof
    data whose array is `V`'s (`hA`) and whose body leaves the block in place (`hafter`): unfetched, the window's
    index has not moved since the point that fetched it. -/
theorem before13_0_of (dat : Dat τ (Elt F) Ix Name U Lvl cfg13 c) (hA : dat.A 0 = V (Pipeline.arrRef spec13 0))
    (hafter : ∀ t, dat.after 0 t = iblk13 c V 0 t) (t : Fin cfg13.N) (d) : dat.before 0 t d = iblk13 c V 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)
theorem before13_1_of (dat : Dat τ (Elt F) Ix Name U Lvl cfg13 c) (hA : dat.A 1 = V (Pipeline.arrRef spec13 1))
    (hafter : ∀ t, dat.after 1 t = iblk13 c V 1 t) (t : Fin cfg13.N) (d) : dat.before 1 t d = iblk13 c V 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)
theorem before13_2_of (dat : Dat τ (Elt F) Ix Name U Lvl cfg13 c) (hA : dat.A 2 = V (Pipeline.arrRef spec13 2))
    (hafter : ∀ t, dat.after 2 t = iblk13 c V 2 t) (t : Fin cfg13.N) (d) : dat.before 2 t d = iblk13 c V 2 t :=
  (dat.before_in_eq_fetched 2 rfl (fun _ => rfl) (fun _ _ _ => rfl) (fun t => by rw [hafter]; unfold Dat.blockOf iblk13; rw [hA]; try rfl) t d).trans
    (by unfold Dat.fetched Dat.blockOf iblk13; rw [hA]; try rfl)
theorem before13_3_of (dat : Dat τ (Elt F) Ix Name U Lvl cfg13 c) (hA : dat.A 3 = V (Pipeline.arrRef spec13 3))
    (hafter : ∀ t, dat.after 3 t = iblk13 c V 3 t) (t : Fin cfg13.N) (d) : dat.before 3 t d = iblk13 c V 3 t :=
  (dat.before_in_eq_fetched 3 rfl (fun _ => rfl) (fun _ _ _ => rfl) (fun t => by rw [hafter]; unfold Dat.blockOf iblk13; rw [hA]; try rfl) t d).trans
    (by unfold Dat.fetched Dat.blockOf iblk13; rw [hA]; try rfl)
theorem before13_4_of (dat : Dat τ (Elt F) Ix Name U Lvl cfg13 c) (hA : dat.A 4 = V (Pipeline.arrRef spec13 4))
    (hafter : ∀ t, dat.after 4 t = iblk13 c V 4 t) (t : Fin cfg13.N) (d) : dat.before 4 t d = iblk13 c V 4 t :=
  (dat.before_in_eq_fetched 4 rfl (fun _ => rfl) (fun _ _ _ => rfl) (fun t => by rw [hafter]; unfold Dat.blockOf iblk13; rw [hA]; try rfl) t d).trans
    (by unfold Dat.fetched Dat.blockOf iblk13; rw [hA]; try rfl)
theorem before13_5_of (dat : Dat τ (Elt F) Ix Name U Lvl cfg13 c) (hA : dat.A 5 = V (Pipeline.arrRef spec13 5))
    (hafter : ∀ t, dat.after 5 t = iblk13 c V 5 t) (t : Fin cfg13.N) (d) : dat.before 5 t d = iblk13 c V 5 t :=
  (dat.before_in_eq_fetched 5 rfl (fun _ => rfl) (fun _ _ _ => rfl) (fun t => by rw [hafter]; unfold Dat.blockOf iblk13; rw [hA]; try rfl) t d).trans
    (by unfold Dat.fetched Dat.blockOf iblk13; rw [hA]; try rfl)
theorem before13_6_of (dat : Dat τ (Elt F) Ix Name U Lvl cfg13 c) (hA : dat.A 6 = V (Pipeline.arrRef spec13 6))
    (hafter : ∀ t, dat.after 6 t = iblk13 c V 6 t) (t : Fin cfg13.N) (d) : dat.before 6 t d = iblk13 c V 6 t :=
  (dat.before_in_eq_fetched 6 rfl (fun _ => rfl) (fun _ _ _ => rfl) (fun t => by rw [hafter]; unfold Dat.blockOf iblk13; rw [hA]; try rfl) t d).trans
    (by unfold Dat.fetched Dat.blockOf iblk13; rw [hA]; try rfl)
theorem before13_7_of (dat : Dat τ (Elt F) Ix Name U Lvl cfg13 c) (hA : dat.A 7 = V (Pipeline.arrRef spec13 7))
    (hafter : ∀ t, dat.after 7 t = iblk13 c V 7 t) (t : Fin cfg13.N) (d) : dat.before 7 t d = iblk13 c V 7 t :=
  (dat.before_in_eq_fetched 7 rfl (fun _ => rfl) (fun _ _ _ => rfl) (fun t => by rw [hafter]; unfold Dat.blockOf iblk13; rw [hA]; try rfl) t d).trans
    (by unfold Dat.fetched Dat.blockOf iblk13; rw [hA]; try rfl)
theorem before13_8_of (dat : Dat τ (Elt F) Ix Name U Lvl cfg13 c) (hA : dat.A 8 = V (Pipeline.arrRef spec13 8))
    (hafter : ∀ t, dat.after 8 t = iblk13 c V 8 t) (t : Fin cfg13.N) (d) : dat.before 8 t d = iblk13 c V 8 t :=
  (dat.before_in_eq_fetched 8 rfl (fun _ => rfl) (fun _ _ _ => rfl) (fun t => by rw [hafter]; unfold Dat.blockOf iblk13; rw [hA]; try rfl) t d).trans
    (by unfold Dat.fetched Dat.blockOf iblk13; rw [hA]; try rfl)

/-- The proof data of the call on core `c`: the arrays as found (`V`); after the body at point `t` each input's
    buffer at its block and the output's at the stored block; one invariant `Φ₀`, one tally of debts `O` and
    one bound `Rec` on the recorded waits at every point, all untouched by the body; the input arrays held at the shares `q`. -/
def dat13 (Φ₀ : sProp (MT nD τ sig Ix (Elt F) Name U Lvl)) (O : CellTallies nD τ sig Ix) (Rec : Set (SemLoc sig × Ix))
    (q : Fin cfg13.W → PosShare TreeShare) : Dat τ (Elt F) Ix Name U Lvl cfg13 c where
  A w := V (Pipeline.arrRef spec13 w)
  after w t := match w with
    | ⟨0, _⟩ => iblk13 c V 0 t
    | ⟨1, _⟩ => iblk13 c V 1 t
    | ⟨2, _⟩ => iblk13 c V 2 t
    | ⟨3, _⟩ => iblk13 c V 3 t
    | ⟨4, _⟩ => iblk13 c V 4 t
    | ⟨5, _⟩ => iblk13 c V 5 t
    | ⟨6, _⟩ => iblk13 c V 6 t
    | ⟨7, _⟩ => iblk13 c V 7 t
    | ⟨8, _⟩ => iblk13 c V 8 t
    | ⟨9, _⟩ => out13 c V t
  Φ _ := Φ₀
  q := q
  owed _ := O
  recorded _ := Rec

variable (Φ₀ : sProp (MT nD τ sig Ix (Elt F) Name U Lvl)) (O : CellTallies nD τ sig Ix) (Rec : Set (SemLoc sig × Ix)) (q : Fin cfg13.W → PosShare TreeShare)

/-- The proof data's arrays are `V`'s, by projection. -/
theorem A13_eq (w : Fin cfg13.W) : (dat13 c V Φ₀ O Rec q).A w = V (Pipeline.arrRef spec13 w) := by dsimp only [dat13]

/-- What the body leaves, window by window. -/
theorem after13_0 (t : Fin cfg13.N) : (dat13 c V Φ₀ O Rec q).after 0 t = iblk13 c V 0 t := by dsimp only [dat13]
theorem after13_1 (t : Fin cfg13.N) : (dat13 c V Φ₀ O Rec q).after 1 t = iblk13 c V 1 t := by dsimp only [dat13]
theorem after13_2 (t : Fin cfg13.N) : (dat13 c V Φ₀ O Rec q).after 2 t = iblk13 c V 2 t := by dsimp only [dat13]
theorem after13_3 (t : Fin cfg13.N) : (dat13 c V Φ₀ O Rec q).after 3 t = iblk13 c V 3 t := by dsimp only [dat13]
theorem after13_4 (t : Fin cfg13.N) : (dat13 c V Φ₀ O Rec q).after 4 t = iblk13 c V 4 t := by dsimp only [dat13]
theorem after13_5 (t : Fin cfg13.N) : (dat13 c V Φ₀ O Rec q).after 5 t = iblk13 c V 5 t := by dsimp only [dat13]
theorem after13_6 (t : Fin cfg13.N) : (dat13 c V Φ₀ O Rec q).after 6 t = iblk13 c V 6 t := by dsimp only [dat13]
theorem after13_7 (t : Fin cfg13.N) : (dat13 c V Φ₀ O Rec q).after 7 t = iblk13 c V 7 t := by dsimp only [dat13]
theorem after13_8 (t : Fin cfg13.N) : (dat13 c V Φ₀ O Rec q).after 8 t = iblk13 c V 8 t := by dsimp only [dat13]
theorem after13_9 (t : Fin cfg13.N) : (dat13 c V Φ₀ O Rec q).after 9 t = out13 c V t := by dsimp only [dat13]

/-- What the body finds in each input's buffer. -/
theorem before13_0 (t : Fin cfg13.N) (d) : (dat13 c V Φ₀ O Rec q).before 0 t d = iblk13 c V 0 t :=
  before13_0_of c V (dat13 c V Φ₀ O Rec q) (A13_eq c V Φ₀ O Rec q 0) (after13_0 c V Φ₀ O Rec q) t d
theorem before13_1 (t : Fin cfg13.N) (d) : (dat13 c V Φ₀ O Rec q).before 1 t d = iblk13 c V 1 t :=
  before13_1_of c V (dat13 c V Φ₀ O Rec q) (A13_eq c V Φ₀ O Rec q 1) (after13_1 c V Φ₀ O Rec q) t d
theorem before13_2 (t : Fin cfg13.N) (d) : (dat13 c V Φ₀ O Rec q).before 2 t d = iblk13 c V 2 t :=
  before13_2_of c V (dat13 c V Φ₀ O Rec q) (A13_eq c V Φ₀ O Rec q 2) (after13_2 c V Φ₀ O Rec q) t d
theorem before13_3 (t : Fin cfg13.N) (d) : (dat13 c V Φ₀ O Rec q).before 3 t d = iblk13 c V 3 t :=
  before13_3_of c V (dat13 c V Φ₀ O Rec q) (A13_eq c V Φ₀ O Rec q 3) (after13_3 c V Φ₀ O Rec q) t d
theorem before13_4 (t : Fin cfg13.N) (d) : (dat13 c V Φ₀ O Rec q).before 4 t d = iblk13 c V 4 t :=
  before13_4_of c V (dat13 c V Φ₀ O Rec q) (A13_eq c V Φ₀ O Rec q 4) (after13_4 c V Φ₀ O Rec q) t d
theorem before13_5 (t : Fin cfg13.N) (d) : (dat13 c V Φ₀ O Rec q).before 5 t d = iblk13 c V 5 t :=
  before13_5_of c V (dat13 c V Φ₀ O Rec q) (A13_eq c V Φ₀ O Rec q 5) (after13_5 c V Φ₀ O Rec q) t d
theorem before13_6 (t : Fin cfg13.N) (d) : (dat13 c V Φ₀ O Rec q).before 6 t d = iblk13 c V 6 t :=
  before13_6_of c V (dat13 c V Φ₀ O Rec q) (A13_eq c V Φ₀ O Rec q 6) (after13_6 c V Φ₀ O Rec q) t d
theorem before13_7 (t : Fin cfg13.N) (d) : (dat13 c V Φ₀ O Rec q).before 7 t d = iblk13 c V 7 t :=
  before13_7_of c V (dat13 c V Φ₀ O Rec q) (A13_eq c V Φ₀ O Rec q 7) (after13_7 c V Φ₀ O Rec q) t d
theorem before13_8 (t : Fin cfg13.N) (d) : (dat13 c V Φ₀ O Rec q).before 8 t d = iblk13 c V 8 t :=
  before13_8_of c V (dat13 c V Φ₀ O Rec q) (A13_eq c V Φ₀ O Rec q 8) (after13_8 c V Φ₀ O Rec q) t d

/-- The pipeline rule's body obligation for this proof data, at every point and any index of the credit tokens. -/
theorem body_obligation13 (ι : Ix) : BodyObligation (dat13 c V Φ₀ O Rec q) (defs₀ (F := F)) Variants.none ι Set.univ :=
  body_obligation13_of (dat13 c V Φ₀ O Rec q) ι (iblk13 c V 0) (iblk13 c V 1) (iblk13 c V 2) (iblk13 c V 3) (iblk13 c V 4) (iblk13 c V 5) (iblk13 c V 6) (iblk13 c V 7) (iblk13 c V 8)
    (before13_0 c V Φ₀ O Rec q) (before13_1 c V Φ₀ O Rec q) (before13_2 c V Φ₀ O Rec q) (before13_3 c V Φ₀ O Rec q) (before13_4 c V Φ₀ O Rec q) (before13_5 c V Φ₀ O Rec q) (before13_6 c V Φ₀ O Rec q) (before13_7 c V Φ₀ O Rec q) (before13_8 c V Φ₀ O Rec q)
    (after13_0 c V Φ₀ O Rec q) (after13_1 c V Φ₀ O Rec q) (after13_2 c V Φ₀ O Rec q) (after13_3 c V Φ₀ O Rec q) (after13_4 c V Φ₀ O Rec q) (after13_5 c V Φ₀ O Rec q) (after13_6 c V Φ₀ O Rec q) (after13_7 c V Φ₀ O Rec q) (after13_8 c V Φ₀ O Rec q)
    (after13_9 c V Φ₀ O Rec q) (fun _ => .rfl) (fun _ => .rfl)

end Data

end Cert.Proof.Tc

end
-- ==== Proof.TcBody15.lean ====
/-
  The TensorCore body of point-convolution call 15, run once on whole staging buffers, and the proof data of
  its pipeline.

  The body reads nine blocks whole — the gathered rows, the per-point bias of the first layer, the three layers'
  weights and biases, the output weights and the output bias — and stores one block whole: the output weights
  applied to the flattened products of the third layer's activations with the gathered features, plus the output
  bias. Nothing else is touched: every input buffer is handed back as it was found, and what the output buffer
  held before is overwritten everywhere. The statement is made once over arbitrary whole memrefs and arbitrary
  contents, then at the staging buffers the pipeline calls the body with at a grid point, and last in the form
  the pipeline rule asks of a body: for any proof data whose input windows are found and left at given blocks,
  whose output window is left at the stored block, and whose invariant and debts pass through unchanged. The
  proof data itself is stated over arbitrary contents of the ten windows' arrays: each input window's staging
  buffer holds that array's block at the point, fetched there or not, and the output window's holds the stored
  block computed from them.
-/
import proofs.«214101_g10505490006249_cont_week2b_118_28_alg».proof.Proof.Gen.KernelIdeal.Launch
import proofs.«214101_g10505490006249_cont_week2b_118_28_alg».proof.Proof.Gen.KernelIdeal.Skeleton
import proofs.«214101_g10505490006249_cont_week2b_118_28_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.Proof.Tc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## The body on whole memrefs -/

/-- The offsets of every whole-block access: zero on both axes. -/
theorem zeros15 : (![0, 0] : Fin 2 → Nat) = fun _ => 0 := by funext a; fin_cases a <;> rfl

/-- The one store of the body covers the output block. -/
theorem cover15 (p0 : Vec F S1024x64 .f32) (y : S1024x64.Idx) :
    ∃ pc ∈ ([⟨Rect.unit (s := S1024x64) ![0, 0] S1024x64.size inb_S1024x64_S1024x64_0_0, p0⟩] : List (View.Piece (Elt F) S1024x64 .f32)), y ∈ pc.1.set :=
  ⟨_, List.mem_singleton_self _, View.mem_set_unit_zero zeros15 inb_S1024x64_S1024x64_0_0 y⟩

set_option maxHeartbeats 1000000 in
/-- The body on ten whole memrefs, the nine inputs' read at `x0 … x8` and the output's at anything, runs to the
    continuation holding the inputs' as they were and the output's at the stored block: the output weights `x7`
    applied to the flattened products computed from `x0 … x6`, plus the output bias `x8`. -/
theorem sound_kernel15 (c : Dev nD) (E : Set Name) (i : grid15.Coords)
    (arg1 : Memref sig .tc .vmem S16384x128 .f32) (harg1 : arg1.IsWhole) (arg2 : Memref sig .tc .vmem S1024x32 .f32) (harg2 : arg2.IsWhole) (arg3 : Memref sig .tc .vmem S128x32 .f32) (harg3 : arg3.IsWhole) (arg4 : Memref sig .tc .vmem S32x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S1024x64 .f32) (harg8 : arg8.IsWhole) (arg9 : Memref sig .tc .vmem S1x64 .f32) (harg9 : arg9.IsWhole) (arg10 : Memref sig .tc .vmem S1024x64 .f32) (harg10 : arg10.IsWhole)
    (x0 : Vec F S16384x128 .f32) (x1 : Vec F S1024x32 .f32) (x2 : Vec F S128x32 .f32) (x3 : Vec F S32x16 .f32) (x4 : Vec F S1x16 .f32) (x5 : Vec F S16x16 .f32) (x6 : Vec F S1x16 .f32) (x7 : Vec F S1024x64 .f32) (x8 : Vec F S1x64 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ owns (c : Thread nD τ) arg10 fullShare (k15_pay1 (k15_pay2 x0 x2 x1 x3 x4 x5 x6) x7 x8)) -∗ K ⟨⟩))
      ⊢ wp frame (wpE (defs₀ (F := F)) Variants.none c none) E (cc15__tc_body i arg1 harg1 arg2 harg2 arg3 harg3 arg4 harg4 arg5 harg5 arg6 harg6 arg7 harg7 arg8 harg8 arg9 harg9 arg10 harg10) K := by
  simp only [cc15__tc_body_eq_skeleton]; unfold cc15__tc_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  rw [View.read_writes_eq_canon _ _ _ (cover15 _), View.canon_unit_zero zeros15]
  unfold sound_kernel15.sl.r
  simp only [View.readAt_eq_ld, View.ld_unit_zero (S := S16384x128) zeros15, View.ld_unit_zero (S := S128x32) zeros15, View.ld_unit_zero (S := S1024x32) zeros15, View.ld_unit_zero (S := S32x16) zeros15, View.ld_unit_zero (S := S1x16) zeros15, View.ld_unit_zero (S := S16x16) zeros15, View.ld_unit_zero (S := S1024x64) zeros15, View.ld_unit_zero (S := S1x64) zeros15]

/-! ## The body at a grid point, for any proof data of the call -/

section Obligation

variable {c : Dev nD} (dat : Dat τ (Elt F) Ix Name U Lvl cfg15 c) (ι : Ix)
  (x0 : Fin cfg15.N → Vec F S16384x128 .f32) (x1 : Fin cfg15.N → Vec F S1024x32 .f32) (x2 : Fin cfg15.N → Vec F S128x32 .f32) (x3 : Fin cfg15.N → Vec F S32x16 .f32) (x4 : Fin cfg15.N → Vec F S1x16 .f32) (x5 : Fin cfg15.N → Vec F S16x16 .f32) (x6 : Fin cfg15.N → Vec F S1x16 .f32) (x7 : Fin cfg15.N → Vec F S1024x64 .f32) (x8 : Fin cfg15.N → Vec F S1x64 .f32)

/-- The body at point `t` on the staging buffers the pipeline calls it with. The proof data's input windows are
    found at the blocks `x0 t … x8 t` (`hb`) and left there (`ha`), its output window is left at the stored block
    (`ha9`), and its invariant and the core's debts at the next point follow from those before (`hΦ`, `ho`): they
    pass through the body unread. -/
theorem sound_body15
    (hb0 : ∀ t d, dat.before 0 t d = x0 t) (hb1 : ∀ t d, dat.before 1 t d = x1 t) (hb2 : ∀ t d, dat.before 2 t d = x2 t) (hb3 : ∀ t d, dat.before 3 t d = x3 t) (hb4 : ∀ t d, dat.before 4 t d = x4 t) (hb5 : ∀ t d, dat.before 5 t d = x5 t) (hb6 : ∀ t d, dat.before 6 t d = x6 t) (hb7 : ∀ t d, dat.before 7 t d = x7 t) (hb8 : ∀ t d, dat.before 8 t d = x8 t)
    (ha0 : ∀ t, dat.after 0 t = x0 t) (ha1 : ∀ t, dat.after 1 t = x1 t) (ha2 : ∀ t, dat.after 2 t = x2 t) (ha3 : ∀ t, dat.after 3 t = x3 t) (ha4 : ∀ t, dat.after 4 t = x4 t) (ha5 : ∀ t, dat.after 5 t = x5 t) (ha6 : ∀ t, dat.after 6 t = x6 t) (ha7 : ∀ t, dat.after 7 t = x7 t) (ha8 : ∀ t, dat.after 8 t = x8 t)
    (ha9 : ∀ t, dat.after 9 t = k15_pay1 (k15_pay2 (x0 t) (x2 t) (x1 t) (x3 t) (x4 t) (x5 t) (x6 t)) (x7 t) (x8 t))
    (hΦ : ∀ t : Fin cfg15.N, dat.Φ t.castSucc ⊢ dat.Φ t.succ)
    (ho : ∀ t : Fin cfg15.N, dat.owesAt ι t.castSucc ⊢ dat.owesAt ι t.succ) (t : Fin cfg15.N) :
    iprop(dat.Φ t.castSucc ∗ dat.owesAt ι t.castSucc
      ∗ (∃ d, owns (c : Thread nD τ) (st15_0 t) fullShare (dat.before 0 t d))
      ∗ (∃ d, owns (c : Thread nD τ) (st15_1 t) fullShare (dat.before 1 t d))
      ∗ (∃ d, owns (c : Thread nD τ) (st15_2 t) fullShare (dat.before 2 t d))
      ∗ (∃ d, owns (c : Thread nD τ) (st15_3 t) fullShare (dat.before 3 t d))
      ∗ (∃ d, owns (c : Thread nD τ) (st15_4 t) fullShare (dat.before 4 t d))
      ∗ (∃ d, owns (c : Thread nD τ) (st15_5 t) fullShare (dat.before 5 t d))
      ∗ (∃ d, owns (c : Thread nD τ) (st15_6 t) fullShare (dat.before 6 t d))
      ∗ (∃ d, owns (c : Thread nD τ) (st15_7 t) fullShare (dat.before 7 t d))
      ∗ (∃ d, owns (c : Thread nD τ) (st15_8 t) fullShare (dat.before 8 t d))
      ∗ (∃ d, owns (c : Thread nD τ) (st15_9 t) fullShare (dat.before 9 t d)))
    ⊢ wp frame (wpE (defs₀ (F := F)) Variants.none c none) Set.univ (bodyAt15 t) (fun _ =>
        iprop(dat.Φ t.succ ∗ dat.owesAt ι t.succ
          ∗ owns (c : Thread nD τ) (st15_0 t) fullShare (dat.after 0 t)
          ∗ owns (c : Thread nD τ) (st15_1 t) fullShare (dat.after 1 t)
          ∗ owns (c : Thread nD τ) (st15_2 t) fullShare (dat.after 2 t)
          ∗ owns (c : Thread nD τ) (st15_3 t) fullShare (dat.after 3 t)
          ∗ owns (c : Thread nD τ) (st15_4 t) fullShare (dat.after 4 t)
          ∗ owns (c : Thread nD τ) (st15_5 t) fullShare (dat.after 5 t)
          ∗ owns (c : Thread nD τ) (st15_6 t) fullShare (dat.after 6 t)
          ∗ owns (c : Thread nD τ) (st15_7 t) fullShare (dat.after 7 t)
          ∗ owns (c : Thread nD τ) (st15_8 t) fullShare (dat.after 8 t)
          ∗ owns (c : Thread nD τ) (st15_9 t) fullShare (dat.after 9 t))) := by
  unfold bodyAt15
  simp only [hb0, hb1, hb2, hb3, hb4, hb5, hb6, hb7, hb8, ha0, ha1, ha2, ha3, ha4, ha5, ha6, ha7, ha8, ha9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel15 c Set.univ (grid15.coords t) _ _ _ _ _ _ _ _ _ _ _ _ _ _ _ _ _ _ _ _ (x0 t) (x1 t) (x2 t) (x3 t) (x4 t) (x5 t) (x6 t) (x7 t) (x8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iapply (hΦ t); iexact HΦ
  isplitl [Ho]; · iapply (ho t); iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline rule's body obligation for the call, at every point, under the same hypotheses. -/
theorem body_obligation15_of
    (hb0 : ∀ t d, dat.before 0 t d = x0 t) (hb1 : ∀ t d, dat.before 1 t d = x1 t) (hb2 : ∀ t d, dat.before 2 t d = x2 t) (hb3 : ∀ t d, dat.before 3 t d = x3 t) (hb4 : ∀ t d, dat.before 4 t d = x4 t) (hb5 : ∀ t d, dat.before 5 t d = x5 t) (hb6 : ∀ t d, dat.before 6 t d = x6 t) (hb7 : ∀ t d, dat.before 7 t d = x7 t) (hb8 : ∀ t d, dat.before 8 t d = x8 t)
    (ha0 : ∀ t, dat.after 0 t = x0 t) (ha1 : ∀ t, dat.after 1 t = x1 t) (ha2 : ∀ t, dat.after 2 t = x2 t) (ha3 : ∀ t, dat.after 3 t = x3 t) (ha4 : ∀ t, dat.after 4 t = x4 t) (ha5 : ∀ t, dat.after 5 t = x5 t) (ha6 : ∀ t, dat.after 6 t = x6 t) (ha7 : ∀ t, dat.after 7 t = x7 t) (ha8 : ∀ t, dat.after 8 t = x8 t)
    (ha9 : ∀ t, dat.after 9 t = k15_pay1 (k15_pay2 (x0 t) (x2 t) (x1 t) (x3 t) (x4 t) (x5 t) (x6 t)) (x7 t) (x8 t))
    (hΦ : ∀ t : Fin cfg15.N, dat.Φ t.castSucc ⊢ dat.Φ t.succ)
    (ho : ∀ t : Fin cfg15.N, dat.owesAt ι t.castSucc ⊢ dat.owesAt ι t.succ) :
    BodyObligation dat (defs₀ (F := F)) Variants.none ι Set.univ := fun t => by
  rw [bigSep_W15, bigSep_W15]
  exact sound_body15 dat ι x0 x1 x2 x3 x4 x5 x6 x7 x8 hb0 hb1 hb2 hb3 hb4 hb5 hb6 hb7 hb8 ha0 ha1 ha2 ha3 ha4 ha5 ha6 ha7 ha8 ha9 hΦ ho t

end Obligation

/-! ## The call's proof data over given array contents

The arrays' contents as the call finds them are a parameter `V`; the blocks the body is handed are read off them
through the windows, and the proof data says: every input window is found at its block and left there, the output
window is left at the stored block computed from the input blocks of that point. -/

section Data

variable (c : Dev nD) (V : (b : Ref sig .tc) → Buf (Elt F) ((c : Thread nD τ).loc b))

/-- Window `w`'s block at point `t`, read off its array's contents `V`. -/
def iblk15 (w : Fin cfg15.W) (t : Fin cfg15.N) : ((cfg15.win w).xblock (cfg15.grid.coords t)).Idx → Elt F (cfg15.win w).elt :=
  ((cfg15.win w).blk t).view.read (Elt F) (V (Pipeline.arrRef spec15 w))

/-- The block the body stores at point `t`, from the input windows' blocks there. -/
def out15 (t : Fin cfg15.N) : Vec F S1024x64 .f32 :=
  k15_pay1 (k15_pay2 (iblk15 c V 0 t) (iblk15 c V 2 t) (iblk15 c V 1 t) (iblk15 c V 3 t) (iblk15 c V 4 t) (iblk15 c V 5 t) (iblk15 c V 6 t)) (iblk15 c V 7 t) (iblk15 c V 8 t)

/-- An input window's current staging buffer holds its block at every point, fetched there or not, for any proof
    data whose array is `V`'s (`hA`) and whose body leaves the block in place (`hafter`): unfetched, the window's
    index has not moved since the point that fetched it. -/
theorem before15_0_of (dat : Dat τ (Elt F) Ix Name U Lvl cfg15 c) (hA : dat.A 0 = V (Pipeline.arrRef spec15 0))
    (hafter : ∀ t, dat.after 0 t = iblk15 c V 0 t) (t : Fin cfg15.N) (d) : dat.before 0 t d = iblk15 c V 0 t :=
  (dat.before_in_eq_fetched 0 rfl (fun _ => rfl) (fun _ _ _ => rfl) (fun t => by rw [hafter]; unfold Dat.blockOf iblk15; rw [hA]; try rfl) t d).trans
    (by unfold Dat.fetched Dat.blockOf iblk15; rw [hA]; try rfl)
theorem before15_1_of (dat : Dat τ (Elt F) Ix Name U Lvl cfg15 c) (hA : dat.A 1 = V (Pipeline.arrRef spec15 1))
    (hafter : ∀ t, dat.after 1 t = iblk15 c V 1 t) (t : Fin cfg15.N) (d) : dat.before 1 t d = iblk15 c V 1 t :=
  (dat.before_in_eq_fetched 1 rfl (fun _ => rfl) (fun _ _ _ => rfl) (fun t => by rw [hafter]; unfold Dat.blockOf iblk15; rw [hA]; try rfl) t d).trans
    (by unfold Dat.fetched Dat.blockOf iblk15; rw [hA]; try rfl)
theorem before15_2_of (dat : Dat τ (Elt F) Ix Name U Lvl cfg15 c) (hA : dat.A 2 = V (Pipeline.arrRef spec15 2))
    (hafter : ∀ t, dat.after 2 t = iblk15 c V 2 t) (t : Fin cfg15.N) (d) : dat.before 2 t d = iblk15 c V 2 t :=
  (dat.before_in_eq_fetched 2 rfl (fun _ => rfl) (fun _ _ _ => rfl) (fun t => by rw [hafter]; unfold Dat.blockOf iblk15; rw [hA]; try rfl) t d).trans
    (by unfold Dat.fetched Dat.blockOf iblk15; rw [hA]; try rfl)
theorem before15_3_of (dat : Dat τ (Elt F) Ix Name U Lvl cfg15 c) (hA : dat.A 3 = V (Pipeline.arrRef spec15 3))
    (hafter : ∀ t, dat.after 3 t = iblk15 c V 3 t) (t : Fin cfg15.N) (d) : dat.before 3 t d = iblk15 c V 3 t :=
  (dat.before_in_eq_fetched 3 rfl (fun _ => rfl) (fun _ _ _ => rfl) (fun t => by rw [hafter]; unfold Dat.blockOf iblk15; rw [hA]; try rfl) t d).trans
    (by unfold Dat.fetched Dat.blockOf iblk15; rw [hA]; try rfl)
theorem before15_4_of (dat : Dat τ (Elt F) Ix Name U Lvl cfg15 c) (hA : dat.A 4 = V (Pipeline.arrRef spec15 4))
    (hafter : ∀ t, dat.after 4 t = iblk15 c V 4 t) (t : Fin cfg15.N) (d) : dat.before 4 t d = iblk15 c V 4 t :=
  (dat.before_in_eq_fetched 4 rfl (fun _ => rfl) (fun _ _ _ => rfl) (fun t => by rw [hafter]; unfold Dat.blockOf iblk15; rw [hA]; try rfl) t d).trans
    (by unfold Dat.fetched Dat.blockOf iblk15; rw [hA]; try rfl)
theorem before15_5_of (dat : Dat τ (Elt F) Ix Name U Lvl cfg15 c) (hA : dat.A 5 = V (Pipeline.arrRef spec15 5))
    (hafter : ∀ t, dat.after 5 t = iblk15 c V 5 t) (t : Fin cfg15.N) (d) : dat.before 5 t d = iblk15 c V 5 t :=
  (dat.before_in_eq_fetched 5 rfl (fun _ => rfl) (fun _ _ _ => rfl) (fun t => by rw [hafter]; unfold Dat.blockOf iblk15; rw [hA]; try rfl) t d).trans
    (by unfold Dat.fetched Dat.blockOf iblk15; rw [hA]; try rfl)
theorem before15_6_of (dat : Dat τ (Elt F) Ix Name U Lvl cfg15 c) (hA : dat.A 6 = V (Pipeline.arrRef spec15 6))
    (hafter : ∀ t, dat.after 6 t = iblk15 c V 6 t) (t : Fin cfg15.N) (d) : dat.before 6 t d = iblk15 c V 6 t :=
  (dat.before_in_eq_fetched 6 rfl (fun _ => rfl) (fun _ _ _ => rfl) (fun t => by rw [hafter]; unfold Dat.blockOf iblk15; rw [hA]; try rfl) t d).trans
    (by unfold Dat.fetched Dat.blockOf iblk15; rw [hA]; try rfl)
theorem before15_7_of (dat : Dat τ (Elt F) Ix Name U Lvl cfg15 c) (hA : dat.A 7 = V (Pipeline.arrRef spec15 7))
    (hafter : ∀ t, dat.after 7 t = iblk15 c V 7 t) (t : Fin cfg15.N) (d) : dat.before 7 t d = iblk15 c V 7 t :=
  (dat.before_in_eq_fetched 7 rfl (fun _ => rfl) (fun _ _ _ => rfl) (fun t => by rw [hafter]; unfold Dat.blockOf iblk15; rw [hA]; try rfl) t d).trans
    (by unfold Dat.fetched Dat.blockOf iblk15; rw [hA]; try rfl)
theorem before15_8_of (dat : Dat τ (Elt F) Ix Name U Lvl cfg15 c) (hA : dat.A 8 = V (Pipeline.arrRef spec15 8))
    (hafter : ∀ t, dat.after 8 t = iblk15 c V 8 t) (t : Fin cfg15.N) (d) : dat.before 8 t d = iblk15 c V 8 t :=
  (dat.before_in_eq_fetched 8 rfl (fun _ => rfl) (fun _ _ _ => rfl) (fun t => by rw [hafter]; unfold Dat.blockOf iblk15; rw [hA]; try rfl) t d).trans
    (by unfold Dat.fetched Dat.blockOf iblk15; rw [hA]; try rfl)

/-- The proof data of the call on core `c`: the arrays as found (`V`); after the body at point `t` each input's
    buffer at its block and the output's at the stored block; one invariant `Φ₀`, one tally of debts `O` and
    one bound `Rec` on the recorded waits at every point, all untouched by the body; the input arrays held at the shares `q`. -/
def dat15 (Φ₀ : sProp (MT nD τ sig Ix (Elt F) Name U Lvl)) (O : CellTallies nD τ sig Ix) (Rec : Set (SemLoc sig × Ix))
    (q : Fin cfg15.W → PosShare TreeShare) : Dat τ (Elt F) Ix Name U Lvl cfg15 c where
  A w := V (Pipeline.arrRef spec15 w)
  after w t := match w with
    | ⟨0, _⟩ => iblk15 c V 0 t
    | ⟨1, _⟩ => iblk15 c V 1 t
    | ⟨2, _⟩ => iblk15 c V 2 t
    | ⟨3, _⟩ => iblk15 c V 3 t
    | ⟨4, _⟩ => iblk15 c V 4 t
    | ⟨5, _⟩ => iblk15 c V 5 t
    | ⟨6, _⟩ => iblk15 c V 6 t
    | ⟨7, _⟩ => iblk15 c V 7 t
    | ⟨8, _⟩ => iblk15 c V 8 t
    | ⟨9, _⟩ => out15 c V t
  Φ _ := Φ₀
  q := q
  owed _ := O
  recorded _ := Rec

variable (Φ₀ : sProp (MT nD τ sig Ix (Elt F) Name U Lvl)) (O : CellTallies nD τ sig Ix) (Rec : Set (SemLoc sig × Ix)) (q : Fin cfg15.W → PosShare TreeShare)

/-- The proof data's arrays are `V`'s, by projection. -/
theorem A15_eq (w : Fin cfg15.W) : (dat15 c V Φ₀ O Rec q).A w = V (Pipeline.arrRef spec15 w) := by dsimp only [dat15]

/-- What the body leaves, window by window. -/
theorem after15_0 (t : Fin cfg15.N) : (dat15 c V Φ₀ O Rec q).after 0 t = iblk15 c V 0 t := by dsimp only [dat15]
theorem after15_1 (t : Fin cfg15.N) : (dat15 c V Φ₀ O Rec q).after 1 t = iblk15 c V 1 t := by dsimp only [dat15]
theorem after15_2 (t : Fin cfg15.N) : (dat15 c V Φ₀ O Rec q).after 2 t = iblk15 c V 2 t := by dsimp only [dat15]
theorem after15_3 (t : Fin cfg15.N) : (dat15 c V Φ₀ O Rec q).after 3 t = iblk15 c V 3 t := by dsimp only [dat15]
theorem after15_4 (t : Fin cfg15.N) : (dat15 c V Φ₀ O Rec q).after 4 t = iblk15 c V 4 t := by dsimp only [dat15]
theorem after15_5 (t : Fin cfg15.N) : (dat15 c V Φ₀ O Rec q).after 5 t = iblk15 c V 5 t := by dsimp only [dat15]
theorem after15_6 (t : Fin cfg15.N) : (dat15 c V Φ₀ O Rec q).after 6 t = iblk15 c V 6 t := by dsimp only [dat15]
theorem after15_7 (t : Fin cfg15.N) : (dat15 c V Φ₀ O Rec q).after 7 t = iblk15 c V 7 t := by dsimp only [dat15]
theorem after15_8 (t : Fin cfg15.N) : (dat15 c V Φ₀ O Rec q).after 8 t = iblk15 c V 8 t := by dsimp only [dat15]
theorem after15_9 (t : Fin cfg15.N) : (dat15 c V Φ₀ O Rec q).after 9 t = out15 c V t := by dsimp only [dat15]

/-- What the body finds in each input's buffer. -/
theorem before15_0 (t : Fin cfg15.N) (d) : (dat15 c V Φ₀ O Rec q).before 0 t d = iblk15 c V 0 t :=
  before15_0_of c V (dat15 c V Φ₀ O Rec q) (A15_eq c V Φ₀ O Rec q 0) (after15_0 c V Φ₀ O Rec q) t d
theorem before15_1 (t : Fin cfg15.N) (d) : (dat15 c V Φ₀ O Rec q).before 1 t d = iblk15 c V 1 t :=
  before15_1_of c V (dat15 c V Φ₀ O Rec q) (A15_eq c V Φ₀ O Rec q 1) (after15_1 c V Φ₀ O Rec q) t d
theorem before15_2 (t : Fin cfg15.N) (d) : (dat15 c V Φ₀ O Rec q).before 2 t d = iblk15 c V 2 t :=
  before15_2_of c V (dat15 c V Φ₀ O Rec q) (A15_eq c V Φ₀ O Rec q 2) (after15_2 c V Φ₀ O Rec q) t d
theorem before15_3 (t : Fin cfg15.N) (d) : (dat15 c V Φ₀ O Rec q).before 3 t d = iblk15 c V 3 t :=
  before15_3_of c V (dat15 c V Φ₀ O Rec q) (A15_eq c V Φ₀ O Rec q 3) (after15_3 c V Φ₀ O Rec q) t d
theorem before15_4 (t : Fin cfg15.N) (d) : (dat15 c V Φ₀ O Rec q).before 4 t d = iblk15 c V 4 t :=
  before15_4_of c V (dat15 c V Φ₀ O Rec q) (A15_eq c V Φ₀ O Rec q 4) (after15_4 c V Φ₀ O Rec q) t d
theorem before15_5 (t : Fin cfg15.N) (d) : (dat15 c V Φ₀ O Rec q).before 5 t d = iblk15 c V 5 t :=
  before15_5_of c V (dat15 c V Φ₀ O Rec q) (A15_eq c V Φ₀ O Rec q 5) (after15_5 c V Φ₀ O Rec q) t d
theorem before15_6 (t : Fin cfg15.N) (d) : (dat15 c V Φ₀ O Rec q).before 6 t d = iblk15 c V 6 t :=
  before15_6_of c V (dat15 c V Φ₀ O Rec q) (A15_eq c V Φ₀ O Rec q 6) (after15_6 c V Φ₀ O Rec q) t d
theorem before15_7 (t : Fin cfg15.N) (d) : (dat15 c V Φ₀ O Rec q).before 7 t d = iblk15 c V 7 t :=
  before15_7_of c V (dat15 c V Φ₀ O Rec q) (A15_eq c V Φ₀ O Rec q 7) (after15_7 c V Φ₀ O Rec q) t d
theorem before15_8 (t : Fin cfg15.N) (d) : (dat15 c V Φ₀ O Rec q).before 8 t d = iblk15 c V 8 t :=
  before15_8_of c V (dat15 c V Φ₀ O Rec q) (A15_eq c V Φ₀ O Rec q 8) (after15_8 c V Φ₀ O Rec q) t d

/-- The pipeline rule's body obligation for this proof data, at every point and any index of the credit tokens. -/
theorem body_obligation15 (ι : Ix) : BodyObligation (dat15 c V Φ₀ O Rec q) (defs₀ (F := F)) Variants.none ι Set.univ :=
  body_obligation15_of (dat15 c V Φ₀ O Rec q) ι (iblk15 c V 0) (iblk15 c V 1) (iblk15 c V 2) (iblk15 c V 3) (iblk15 c V 4) (iblk15 c V 5) (iblk15 c V 6) (iblk15 c V 7) (iblk15 c V 8)
    (before15_0 c V Φ₀ O Rec q) (before15_1 c V Φ₀ O Rec q) (before15_2 c V Φ₀ O Rec q) (before15_3 c V Φ₀ O Rec q) (before15_4 c V Φ₀ O Rec q) (before15_5 c V Φ₀ O Rec q) (before15_6 c V Φ₀ O Rec q) (before15_7 c V Φ₀ O Rec q) (before15_8 c V Φ₀ O Rec q)
    (after15_0 c V Φ₀ O Rec q) (after15_1 c V Φ₀ O Rec q) (after15_2 c V Φ₀ O Rec q) (after15_3 c V Φ₀ O Rec q) (after15_4 c V Φ₀ O Rec q) (after15_5 c V Φ₀ O Rec q) (after15_6 c V Φ₀ O Rec q) (after15_7 c V Φ₀ O Rec q) (after15_8 c V Φ₀ O Rec q)
    (after15_9 c V Φ₀ O Rec q) (fun _ => .rfl) (fun _ => .rfl)

end Data

end Cert.Proof.Tc

end
-- ==== Proof.TcData.lean ====
/-
  The proof data of the eight point-convolution pipelines as one family, in the resource algebra of the launch,
  and what the region rule asks of a pipeline that speaks only of this data: its body obligation, and how its
  invariant is entered and left.

  Each pipeline's data is stated over parameters: the contents `V p c` of the core's buffers when pipeline `p` is
  entered, whatever rides in its invariant beside the scoped buffers no window stages (`X p c`), the tallies
  `O p c` the core owes throughout the region and the bound `Rec p c` on its recorded waits (the body pays, takes on
  and records nothing).
-/
import proofs.«214101_g10505490006249_cont_week2b_118_28_alg».proof.Proof.Setup
import proofs.«214101_g10505490006249_cont_week2b_118_28_alg».proof.Proof.TcBody1
import proofs.«214101_g10505490006249_cont_week2b_118_28_alg».proof.Proof.TcBody3
import proofs.«214101_g10505490006249_cont_week2b_118_28_alg».proof.Proof.TcBody5
import proofs.«214101_g10505490006249_cont_week2b_118_28_alg».proof.Proof.TcBody7
import proofs.«214101_g10505490006249_cont_week2b_118_28_alg».proof.Proof.TcBody9
import proofs.«214101_g10505490006249_cont_week2b_118_28_alg».proof.Proof.TcBody11
import proofs.«214101_g10505490006249_cont_week2b_118_28_alg».proof.Proof.TcBody13
import proofs.«214101_g10505490006249_cont_week2b_118_28_alg».proof.Proof.TcBody15
import Idealize.ShloMosaic.Lib.Pipeline.Regions

set_option maxRecDepth 16384

noncomputable section

namespace Cert.Proof.Tc

open Cert.KernelIdeal Cert.KernelIdeal.Gen Cert.Proof.KI
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation BodyObligationLoose)

variable {F : FTy → Type} [FloatOps F]

/-- No pipeline has a prefetched table: each has one admissible contents. -/
abbrev adm : (p : Fin 8) → (pcfgs (F := F) p).Adm := fun p => (cfgs p).toPCfg_adm

/-- A pipeline's invariant: what rides along (`X`) and the core's scoped buffers that no window of the pipeline
    stages, each at some contents. The body reads neither. -/
def ΦS (p : Fin 8) (c : Dev nD) (X : sProp (MT nD τ sig (HIx 8) (Elt F) ℕ UU ℕ)) : sProp (MT nD τ sig (HIx 8) (Elt F) ℕ UU ℕ) :=
  iprop(X ∗ Pipeline.scopedRest (Pipeline.pin (pcfgs (F := F)) adm p).spec c)

/-- The eight pipelines' proof data. -/
def pdats (V : Fin 8 → (c : Dev nD) → (b : Ref sig .tc) → Buf (Elt F) ((c : Thread nD τ).loc b))
    (X : Fin 8 → Dev nD → sProp (MT nD τ sig (HIx 8) (Elt F) ℕ UU ℕ)) (O : Fin 8 → Dev nD → CellTallies nD τ sig (HIx 8))
    (Rec : Fin 8 → Dev nD → Set (SemLoc sig × HIx 8)) :
    (p : Fin 8) → (c : Dev nD) → Dat τ (Elt F) (HIx 8) ℕ UU ℕ (Pipeline.pin (pcfgs (F := F)) adm p) c
  | ⟨0, _⟩ => fun c => dat1 c (V 0 c) (ΦS 0 c (X 0 c)) (O 0 c) (Rec 0 c) (fun _ => fullShare)
  | ⟨1, _⟩ => fun c => dat3 c (V 1 c) (ΦS 1 c (X 1 c)) (O 1 c) (Rec 1 c) (fun _ => fullShare)
  | ⟨2, _⟩ => fun c => dat5 c (V 2 c) (ΦS 2 c (X 2 c)) (O 2 c) (Rec 2 c) (fun _ => fullShare)
  | ⟨3, _⟩ => fun c => dat7 c (V 3 c) (ΦS 3 c (X 3 c)) (O 3 c) (Rec 3 c) (fun _ => fullShare)
  | ⟨4, _⟩ => fun c => dat9 c (V 4 c) (ΦS 4 c (X 4 c)) (O 4 c) (Rec 4 c) (fun _ => fullShare)
  | ⟨5, _⟩ => fun c => dat11 c (V 5 c) (ΦS 5 c (X 5 c)) (O 5 c) (Rec 5 c) (fun _ => fullShare)
  | ⟨6, _⟩ => fun c => dat13 c (V 6 c) (ΦS 6 c (X 6 c)) (O 6 c) (Rec 6 c) (fun _ => fullShare)
  | ⟨7, _⟩ => fun c => dat15 c (V 7 c) (ΦS 7 c (X 7 c)) (O 7 c) (Rec 7 c) (fun _ => fullShare)

section Pipes

variable (V : Fin 8 → (c : Dev nD) → (b : Ref sig .tc) → Buf (Elt F) ((c : Thread nD τ).loc b))
    (X : Fin 8 → Dev nD → sProp (MT nD τ sig (HIx 8) (Elt F) ℕ UU ℕ)) (O : Fin 8 → Dev nD → CellTallies nD τ sig (HIx 8))
    (Rec : Fin 8 → Dev nD → Set (SemLoc sig × HIx 8))

/-! ## Pipeline 0 (call 1) -/

/-- Pipeline 0's data is call 1's, by the family's literal match. -/
theorem pdats_0 (c : Dev nD) : pdats V X O Rec 0 c = dat1 c (V 0 c) (ΦS 0 c (X 0 c)) (O 0 c) (Rec 0 c) (fun _ => fullShare) := rfl

/-- Its arrays at entry are `V 0 c`'s. -/
theorem pdats_0_A (c : Dev nD) (w : Fin (Pipeline.pin (pcfgs (F := F)) adm 0).W) :
    (pdats V X O Rec 0 c).A w = V 0 c (Pipeline.arrRef spec1 w) := rfl

/-- The input arrays are held whole. -/
theorem pdats_0_q (c : Dev nD) (w : Fin (Pipeline.pin (pcfgs (F := F)) adm 0).W) : (pdats V X O Rec 0 c).q w = fullShare := rfl

/-- The debts, the bound on the recorded waits and the invariant are the same at every point. -/
theorem pdats_0_owed (c : Dev nD) (t) : (pdats V X O Rec 0 c).owed t = O 0 c := rfl
theorem pdats_0_recorded (c : Dev nD) (t) : (pdats V X O Rec 0 c).recorded t = Rec 0 c := rfl
theorem pdats_0_Φ (c : Dev nD) (t) : (pdats V X O Rec 0 c).Φ t = ΦS 0 c (X 0 c) := rfl

/-- What the output window's staging buffer holds after the body at point `t`: the stored block computed from the
    entry arrays' blocks at `t`. -/
theorem pdats_0_after9 (c : Dev nD) (t : Fin cfg1.N) : (pdats V X O Rec 0 c).after 9 t = out1 c (V 0 c) t := by
  rw [pdats_0]; exact after1_9 c (V 0 c) _ _ _ _ t

/-- The body obligation of pipeline 0, at every point, at the index the pipeline's own waits sit at. -/
theorem hbody0 (c : Dev nD) : BodyObligationLoose (pdats V X O Rec 0 c) (defs₀ (F := F)) 𝒱₀ (none : HIx 8) Set.univ := by
  rw [pdats_0]
  exact (body_obligation1 c (V 0 c) (ΦS 0 c (X 0 c)) (O 0 c) (Rec 0 c) (fun _ => fullShare) none).loose

/-- The invariant at the first point, from what rides along and the scoped buffers no window stages (there is no
    prefetched table). -/
theorem hin0 (c : Dev nD) :
    iprop(X 0 c ∗ Pipeline.prefHeld (pcfgs (F := F) 0).pre c (fun _ => fullShare) (adm (F := F) 0).1
        ∗ Pipeline.scopedRest (Pipeline.pin (pcfgs (F := F)) adm 0).spec c)
      ⊢ (pdats V X O Rec 0 c).Φ 0 := by
  rw [pdats_0_Φ]; unfold ΦS
  iintro ⟨HR, -, Hs⟩
  isplitl [HR] <;> iassumption

/-- The invariant at the last point gives them back; the body has no semaphore of its own. -/
theorem hout0 (c : Dev nD) :
    (pdats V X O Rec 0 c).Φ (Fin.last (Pipeline.pin (pcfgs (F := F)) adm 0).N)
      ⊢ iprop(X 0 c ∗ Pipeline.ownSems0 (fun k : PEmpty => k.elim) c ∗ Pipeline.scopedRest (Pipeline.pin (pcfgs (F := F)) adm 0).spec c) := by
  rw [pdats_0_Φ, Pipeline.ownSems0_none]; unfold ΦS
  iintro ⟨HR, Hs⟩
  isplitl [HR]; · iexact HR
  isplitr; · iempintro
  iexact Hs

/-! ## Pipeline 1 (call 3) -/

/-- Pipeline 1's data is call 3's, by the family's literal match. -/
theorem pdats_1 (c : Dev nD) : pdats V X O Rec 1 c = dat3 c (V 1 c) (ΦS 1 c (X 1 c)) (O 1 c) (Rec 1 c) (fun _ => fullShare) := rfl

/-- Its arrays at entry are `V 1 c`'s. -/
theorem pdats_1_A (c : Dev nD) (w : Fin (Pipeline.pin (pcfgs (F := F)) adm 1).W) :
    (pdats V X O Rec 1 c).A w = V 1 c (Pipeline.arrRef spec3 w) := rfl

/-- The input arrays are held whole. -/
theorem pdats_1_q (c : Dev nD) (w : Fin (Pipeline.pin (pcfgs (F := F)) adm 1).W) : (pdats V X O Rec 1 c).q w = fullShare := rfl

/-- The debts, the bound on the recorded waits and the invariant are the same at every point. -/
theorem pdats_1_owed (c : Dev nD) (t) : (pdats V X O Rec 1 c).owed t = O 1 c := rfl
theorem pdats_1_recorded (c : Dev nD) (t) : (pdats V X O Rec 1 c).recorded t = Rec 1 c := rfl
theorem pdats_1_Φ (c : Dev nD) (t) : (pdats V X O Rec 1 c).Φ t = ΦS 1 c (X 1 c) := rfl

/-- What the output window's staging buffer holds after the body at point `t`: the stored block computed from the
    entry arrays' blocks at `t`. -/
theorem pdats_1_after9 (c : Dev nD) (t : Fin cfg3.N) : (pdats V X O Rec 1 c).after 9 t = out3 c (V 1 c) t := by
  rw [pdats_1]; exact after3_9 c (V 1 c) _ _ _ _ t

/-- The body obligation of pipeline 1, at every point, at the index the pipeline's own waits sit at. -/
theorem hbody1 (c : Dev nD) : BodyObligationLoose (pdats V X O Rec 1 c) (defs₀ (F := F)) 𝒱₀ (none : HIx 8) Set.univ := by
  rw [pdats_1]
  exact (body_obligation3 c (V 1 c) (ΦS 1 c (X 1 c)) (O 1 c) (Rec 1 c) (fun _ => fullShare) none).loose

/-- The invariant at the first point, from what rides along and the scoped buffers no window stages (there is no
    prefetched table). -/
theorem hin1 (c : Dev nD) :
    iprop(X 1 c ∗ Pipeline.prefHeld (pcfgs (F := F) 1).pre c (fun _ => fullShare) (adm (F := F) 1).1
        ∗ Pipeline.scopedRest (Pipeline.pin (pcfgs (F := F)) adm 1).spec c)
      ⊢ (pdats V X O Rec 1 c).Φ 0 := by
  rw [pdats_1_Φ]; unfold ΦS
  iintro ⟨HR, -, Hs⟩
  isplitl [HR] <;> iassumption

/-- The invariant at the last point gives them back; the body has no semaphore of its own. -/
theorem hout1 (c : Dev nD) :
    (pdats V X O Rec 1 c).Φ (Fin.last (Pipeline.pin (pcfgs (F := F)) adm 1).N)
      ⊢ iprop(X 1 c ∗ Pipeline.ownSems0 (fun k : PEmpty => k.elim) c ∗ Pipeline.scopedRest (Pipeline.pin (pcfgs (F := F)) adm 1).spec c) := by
  rw [pdats_1_Φ, Pipeline.ownSems0_none]; unfold ΦS
  iintro ⟨HR, Hs⟩
  isplitl [HR]; · iexact HR
  isplitr; · iempintro
  iexact Hs

/-! ## Pipeline 2 (call 5) -/

/-- Pipeline 2's data is call 5's, by the family's literal match. -/
theorem pdats_2 (c : Dev nD) : pdats V X O Rec 2 c = dat5 c (V 2 c) (ΦS 2 c (X 2 c)) (O 2 c) (Rec 2 c) (fun _ => fullShare) := rfl

/-- Its arrays at entry are `V 2 c`'s. -/
theorem pdats_2_A (c : Dev nD) (w : Fin (Pipeline.pin (pcfgs (F := F)) adm 2).W) :
    (pdats V X O Rec 2 c).A w = V 2 c (Pipeline.arrRef spec5 w) := rfl

/-- The input arrays are held whole. -/
theorem pdats_2_q (c : Dev nD) (w : Fin (Pipeline.pin (pcfgs (F := F)) adm 2).W) : (pdats V X O Rec 2 c).q w = fullShare := rfl

/-- The debts, the bound on the recorded waits and the invariant are the same at every point. -/
theorem pdats_2_owed (c : Dev nD) (t) : (pdats V X O Rec 2 c).owed t = O 2 c := rfl
theorem pdats_2_recorded (c : Dev nD) (t) : (pdats V X O Rec 2 c).recorded t = Rec 2 c := rfl
theorem pdats_2_Φ (c : Dev nD) (t) : (pdats V X O Rec 2 c).Φ t = ΦS 2 c (X 2 c) := rfl

/-- What the output window's staging buffer holds after the body at point `t`: the stored block computed from the
    entry arrays' blocks at `t`. -/
theorem pdats_2_after9 (c : Dev nD) (t : Fin cfg5.N) : (pdats V X O Rec 2 c).after 9 t = out5 c (V 2 c) t := by
  rw [pdats_2]; exact after5_9 c (V 2 c) _ _ _ _ t

/-- The body obligation of pipeline 2, at every point, at the index the pipeline's own waits sit at. -/
theorem hbody2 (c : Dev nD) : BodyObligationLoose (pdats V X O Rec 2 c) (defs₀ (F := F)) 𝒱₀ (none : HIx 8) Set.univ := by
  rw [pdats_2]
  exact (body_obligation5 c (V 2 c) (ΦS 2 c (X 2 c)) (O 2 c) (Rec 2 c) (fun _ => fullShare) none).loose

/-- The invariant at the first point, from what rides along and the scoped buffers no window stages (there is no
    prefetched table). -/
theorem hin2 (c : Dev nD) :
    iprop(X 2 c ∗ Pipeline.prefHeld (pcfgs (F := F) 2).pre c (fun _ => fullShare) (adm (F := F) 2).1
        ∗ Pipeline.scopedRest (Pipeline.pin (pcfgs (F := F)) adm 2).spec c)
      ⊢ (pdats V X O Rec 2 c).Φ 0 := by
  rw [pdats_2_Φ]; unfold ΦS
  iintro ⟨HR, -, Hs⟩
  isplitl [HR] <;> iassumption

/-- The invariant at the last point gives them back; the body has no semaphore of its own. -/
theorem hout2 (c : Dev nD) :
    (pdats V X O Rec 2 c).Φ (Fin.last (Pipeline.pin (pcfgs (F := F)) adm 2).N)
      ⊢ iprop(X 2 c ∗ Pipeline.ownSems0 (fun k : PEmpty => k.elim) c ∗ Pipeline.scopedRest (Pipeline.pin (pcfgs (F := F)) adm 2).spec c) := by
  rw [pdats_2_Φ, Pipeline.ownSems0_none]; unfold ΦS
  iintro ⟨HR, Hs⟩
  isplitl [HR]; · iexact HR
  isplitr; · iempintro
  iexact Hs

/-! ## Pipeline 3 (call 7) -/

/-- Pipeline 3's data is call 7's, by the family's literal match. -/
theorem pdats_3 (c : Dev nD) : pdats V X O Rec 3 c = dat7 c (V 3 c) (ΦS 3 c (X 3 c)) (O 3 c) (Rec 3 c) (fun _ => fullShare) := rfl

/-- Its arrays at entry are `V 3 c`'s. -/
theorem pdats_3_A (c : Dev nD) (w : Fin (Pipeline.pin (pcfgs (F := F)) adm 3).W) :
    (pdats V X O Rec 3 c).A w = V 3 c (Pipeline.arrRef spec7 w) := rfl

/-- The input arrays are held whole. -/
theorem pdats_3_q (c : Dev nD) (w : Fin (Pipeline.pin (pcfgs (F := F)) adm 3).W) : (pdats V X O Rec 3 c).q w = fullShare := rfl

/-- The debts, the bound on the recorded waits and the invariant are the same at every point. -/
theorem pdats_3_owed (c : Dev nD) (t) : (pdats V X O Rec 3 c).owed t = O 3 c := rfl
theorem pdats_3_recorded (c : Dev nD) (t) : (pdats V X O Rec 3 c).recorded t = Rec 3 c := rfl
theorem pdats_3_Φ (c : Dev nD) (t) : (pdats V X O Rec 3 c).Φ t = ΦS 3 c (X 3 c) := rfl

/-- What the output window's staging buffer holds after the body at point `t`: the stored block computed from the
    entry arrays' blocks at `t`. -/
theorem pdats_3_after9 (c : Dev nD) (t : Fin cfg7.N) : (pdats V X O Rec 3 c).after 9 t = out7 c (V 3 c) t := by
  rw [pdats_3]; exact after7_9 c (V 3 c) _ _ _ _ t

/-- The body obligation of pipeline 3, at every point, at the index the pipeline's own waits sit at. -/
theorem hbody3 (c : Dev nD) : BodyObligationLoose (pdats V X O Rec 3 c) (defs₀ (F := F)) 𝒱₀ (none : HIx 8) Set.univ := by
  rw [pdats_3]
  exact (body_obligation7 c (V 3 c) (ΦS 3 c (X 3 c)) (O 3 c) (Rec 3 c) (fun _ => fullShare) none).loose

/-- The invariant at the first point, from what rides along and the scoped buffers no window stages (there is no
    prefetched table). -/
theorem hin3 (c : Dev nD) :
    iprop(X 3 c ∗ Pipeline.prefHeld (pcfgs (F := F) 3).pre c (fun _ => fullShare) (adm (F := F) 3).1
        ∗ Pipeline.scopedRest (Pipeline.pin (pcfgs (F := F)) adm 3).spec c)
      ⊢ (pdats V X O Rec 3 c).Φ 0 := by
  rw [pdats_3_Φ]; unfold ΦS
  iintro ⟨HR, -, Hs⟩
  isplitl [HR] <;> iassumption

/-- The invariant at the last point gives them back; the body has no semaphore of its own. -/
theorem hout3 (c : Dev nD) :
    (pdats V X O Rec 3 c).Φ (Fin.last (Pipeline.pin (pcfgs (F := F)) adm 3).N)
      ⊢ iprop(X 3 c ∗ Pipeline.ownSems0 (fun k : PEmpty => k.elim) c ∗ Pipeline.scopedRest (Pipeline.pin (pcfgs (F := F)) adm 3).spec c) := by
  rw [pdats_3_Φ, Pipeline.ownSems0_none]; unfold ΦS
  iintro ⟨HR, Hs⟩
  isplitl [HR]; · iexact HR
  isplitr; · iempintro
  iexact Hs

/-! ## Pipeline 4 (call 9) -/

/-- Pipeline 4's data is call 9's, by the family's literal match. -/
theorem pdats_4 (c : Dev nD) : pdats V X O Rec 4 c = dat9 c (V 4 c) (ΦS 4 c (X 4 c)) (O 4 c) (Rec 4 c) (fun _ => fullShare) := rfl

/-- Its arrays at entry are `V 4 c`'s. -/
theorem pdats_4_A (c : Dev nD) (w : Fin (Pipeline.pin (pcfgs (F := F)) adm 4).W) :
    (pdats V X O Rec 4 c).A w = V 4 c (Pipeline.arrRef spec9 w) := rfl

/-- The input arrays are held whole. -/
theorem pdats_4_q (c : Dev nD) (w : Fin (Pipeline.pin (pcfgs (F := F)) adm 4).W) : (pdats V X O Rec 4 c).q w = fullShare := rfl

/-- The debts, the bound on the recorded waits and the invariant are the same at every point. -/
theorem pdats_4_owed (c : Dev nD) (t) : (pdats V X O Rec 4 c).owed t = O 4 c := rfl
theorem pdats_4_recorded (c : Dev nD) (t) : (pdats V X O Rec 4 c).recorded t = Rec 4 c := rfl
theorem pdats_4_Φ (c : Dev nD) (t) : (pdats V X O Rec 4 c).Φ t = ΦS 4 c (X 4 c) := rfl

/-- What the output window's staging buffer holds after the body at point `t`: the stored block computed from the
    entry arrays' blocks at `t`. -/
theorem pdats_4_after9 (c : Dev nD) (t : Fin cfg9.N) : (pdats V X O Rec 4 c).after 9 t = out9 c (V 4 c) t := by
  rw [pdats_4]; exact after9_9 c (V 4 c) _ _ _ _ t

/-- The body obligation of pipeline 4, at every point, at the index the pipeline's own waits sit at. -/
theorem hbody4 (c : Dev nD) : BodyObligationLoose (pdats V X O Rec 4 c) (defs₀ (F := F)) 𝒱₀ (none : HIx 8) Set.univ := by
  rw [pdats_4]
  exact (body_obligation9 c (V 4 c) (ΦS 4 c (X 4 c)) (O 4 c) (Rec 4 c) (fun _ => fullShare) none).loose

/-- The invariant at the first point, from what rides along and the scoped buffers no window stages (there is no
    prefetched table). -/
theorem hin4 (c : Dev nD) :
    iprop(X 4 c ∗ Pipeline.prefHeld (pcfgs (F := F) 4).pre c (fun _ => fullShare) (adm (F := F) 4).1
        ∗ Pipeline.scopedRest (Pipeline.pin (pcfgs (F := F)) adm 4).spec c)
      ⊢ (pdats V X O Rec 4 c).Φ 0 := by
  rw [pdats_4_Φ]; unfold ΦS
  iintro ⟨HR, -, Hs⟩
  isplitl [HR] <;> iassumption

/-- The invariant at the last point gives them back; the body has no semaphore of its own. -/
theorem hout4 (c : Dev nD) :
    (pdats V X O Rec 4 c).Φ (Fin.last (Pipeline.pin (pcfgs (F := F)) adm 4).N)
      ⊢ iprop(X 4 c ∗ Pipeline.ownSems0 (fun k : PEmpty => k.elim) c ∗ Pipeline.scopedRest (Pipeline.pin (pcfgs (F := F)) adm 4).spec c) := by
  rw [pdats_4_Φ, Pipeline.ownSems0_none]; unfold ΦS
  iintro ⟨HR, Hs⟩
  isplitl [HR]; · iexact HR
  isplitr; · iempintro
  iexact Hs

/-! ## Pipeline 5 (call 11) -/

/-- Pipeline 5's data is call 11's, by the family's literal match. -/
theorem pdats_5 (c : Dev nD) : pdats V X O Rec 5 c = dat11 c (V 5 c) (ΦS 5 c (X 5 c)) (O 5 c) (Rec 5 c) (fun _ => fullShare) := rfl

/-- Its arrays at entry are `V 5 c`'s. -/
theorem pdats_5_A (c : Dev nD) (w : Fin (Pipeline.pin (pcfgs (F := F)) adm 5).W) :
    (pdats V X O Rec 5 c).A w = V 5 c (Pipeline.arrRef spec11 w) := rfl

/-- The input arrays are held whole. -/
theorem pdats_5_q (c : Dev nD) (w : Fin (Pipeline.pin (pcfgs (F := F)) adm 5).W) : (pdats V X O Rec 5 c).q w = fullShare := rfl

/-- The debts, the bound on the recorded waits and the invariant are the same at every point. -/
theorem pdats_5_owed (c : Dev nD) (t) : (pdats V X O Rec 5 c).owed t = O 5 c := rfl
theorem pdats_5_recorded (c : Dev nD) (t) : (pdats V X O Rec 5 c).recorded t = Rec 5 c := rfl
theorem pdats_5_Φ (c : Dev nD) (t) : (pdats V X O Rec 5 c).Φ t = ΦS 5 c (X 5 c) := rfl

/-- What the output window's staging buffer holds after the body at point `t`: the stored block computed from the
    entry arrays' blocks at `t`. -/
theorem pdats_5_after9 (c : Dev nD) (t : Fin cfg11.N) : (pdats V X O Rec 5 c).after 9 t = out11 c (V 5 c) t := by
  rw [pdats_5]; exact after11_9 c (V 5 c) _ _ _ _ t

/-- The body obligation of pipeline 5, at every point, at the index the pipeline's own waits sit at. -/
theorem hbody5 (c : Dev nD) : BodyObligationLoose (pdats V X O Rec 5 c) (defs₀ (F := F)) 𝒱₀ (none : HIx 8) Set.univ := by
  rw [pdats_5]
  exact (body_obligation11 c (V 5 c) (ΦS 5 c (X 5 c)) (O 5 c) (Rec 5 c) (fun _ => fullShare) none).loose

/-- The invariant at the first point, from what rides along and the scoped buffers no window stages (there is no
    prefetched table). -/
theorem hin5 (c : Dev nD) :
    iprop(X 5 c ∗ Pipeline.prefHeld (pcfgs (F := F) 5).pre c (fun _ => fullShare) (adm (F := F) 5).1
        ∗ Pipeline.scopedRest (Pipeline.pin (pcfgs (F := F)) adm 5).spec c)
      ⊢ (pdats V X O Rec 5 c).Φ 0 := by
  rw [pdats_5_Φ]; unfold ΦS
  iintro ⟨HR, -, Hs⟩
  isplitl [HR] <;> iassumption

/-- The invariant at the last point gives them back; the body has no semaphore of its own. -/
theorem hout5 (c : Dev nD) :
    (pdats V X O Rec 5 c).Φ (Fin.last (Pipeline.pin (pcfgs (F := F)) adm 5).N)
      ⊢ iprop(X 5 c ∗ Pipeline.ownSems0 (fun k : PEmpty => k.elim) c ∗ Pipeline.scopedRest (Pipeline.pin (pcfgs (F := F)) adm 5).spec c) := by
  rw [pdats_5_Φ, Pipeline.ownSems0_none]; unfold ΦS
  iintro ⟨HR, Hs⟩
  isplitl [HR]; · iexact HR
  isplitr; · iempintro
  iexact Hs

/-! ## Pipeline 6 (call 13) -/

/-- Pipeline 6's data is call 13's, by the family's literal match. -/
theorem pdats_6 (c : Dev nD) : pdats V X O Rec 6 c = dat13 c (V 6 c) (ΦS 6 c (X 6 c)) (O 6 c) (Rec 6 c) (fun _ => fullShare) := rfl

/-- Its arrays at entry are `V 6 c`'s. -/
theorem pdats_6_A (c : Dev nD) (w : Fin (Pipeline.pin (pcfgs (F := F)) adm 6).W) :
    (pdats V X O Rec 6 c).A w = V 6 c (Pipeline.arrRef spec13 w) := rfl

/-- The input arrays are held whole. -/
theorem pdats_6_q (c : Dev nD) (w : Fin (Pipeline.pin (pcfgs (F := F)) adm 6).W) : (pdats V X O Rec 6 c).q w = fullShare := rfl

/-- The debts, the bound on the recorded waits and the invariant are the same at every point. -/
theorem pdats_6_owed (c : Dev nD) (t) : (pdats V X O Rec 6 c).owed t = O 6 c := rfl
theorem pdats_6_recorded (c : Dev nD) (t) : (pdats V X O Rec 6 c).recorded t = Rec 6 c := rfl
theorem pdats_6_Φ (c : Dev nD) (t) : (pdats V X O Rec 6 c).Φ t = ΦS 6 c (X 6 c) := rfl

/-- What the output window's staging buffer holds after the body at point `t`: the stored block computed from the
    entry arrays' blocks at `t`. -/
theorem pdats_6_after9 (c : Dev nD) (t : Fin cfg13.N) : (pdats V X O Rec 6 c).after 9 t = out13 c (V 6 c) t := by
  rw [pdats_6]; exact after13_9 c (V 6 c) _ _ _ _ t

/-- The body obligation of pipeline 6, at every point, at the index the pipeline's own waits sit at. -/
theorem hbody6 (c : Dev nD) : BodyObligationLoose (pdats V X O Rec 6 c) (defs₀ (F := F)) 𝒱₀ (none : HIx 8) Set.univ := by
  rw [pdats_6]
  exact (body_obligation13 c (V 6 c) (ΦS 6 c (X 6 c)) (O 6 c) (Rec 6 c) (fun _ => fullShare) none).loose

/-- The invariant at the first point, from what rides along and the scoped buffers no window stages (there is no
    prefetched table). -/
theorem hin6 (c : Dev nD) :
    iprop(X 6 c ∗ Pipeline.prefHeld (pcfgs (F := F) 6).pre c (fun _ => fullShare) (adm (F := F) 6).1
        ∗ Pipeline.scopedRest (Pipeline.pin (pcfgs (F := F)) adm 6).spec c)
      ⊢ (pdats V X O Rec 6 c).Φ 0 := by
  rw [pdats_6_Φ]; unfold ΦS
  iintro ⟨HR, -, Hs⟩
  isplitl [HR] <;> iassumption

/-- The invariant at the last point gives them back; the body has no semaphore of its own. -/
theorem hout6 (c : Dev nD) :
    (pdats V X O Rec 6 c).Φ (Fin.last (Pipeline.pin (pcfgs (F := F)) adm 6).N)
      ⊢ iprop(X 6 c ∗ Pipeline.ownSems0 (fun k : PEmpty => k.elim) c ∗ Pipeline.scopedRest (Pipeline.pin (pcfgs (F := F)) adm 6).spec c) := by
  rw [pdats_6_Φ, Pipeline.ownSems0_none]; unfold ΦS
  iintro ⟨HR, Hs⟩
  isplitl [HR]; · iexact HR
  isplitr; · iempintro
  iexact Hs

/-! ## Pipeline 7 (call 15) -/

/-- Pipeline 7's data is call 15's, by the family's literal match. -/
theorem pdats_7 (c : Dev nD) : pdats V X O Rec 7 c = dat15 c (V 7 c) (ΦS 7 c (X 7 c)) (O 7 c) (Rec 7 c) (fun _ => fullShare) := rfl

/-- Its arrays at entry are `V 7 c`'s. -/
theorem pdats_7_A (c : Dev nD) (w : Fin (Pipeline.pin (pcfgs (F := F)) adm 7).W) :
    (pdats V X O Rec 7 c).A w = V 7 c (Pipeline.arrRef spec15 w) := rfl

/-- The input arrays are held whole. -/
theorem pdats_7_q (c : Dev nD) (w : Fin (Pipeline.pin (pcfgs (F := F)) adm 7).W) : (pdats V X O Rec 7 c).q w = fullShare := rfl

/-- The debts, the bound on the recorded waits and the invariant are the same at every point. -/
theorem pdats_7_owed (c : Dev nD) (t) : (pdats V X O Rec 7 c).owed t = O 7 c := rfl
theorem pdats_7_recorded (c : Dev nD) (t) : (pdats V X O Rec 7 c).recorded t = Rec 7 c := rfl
theorem pdats_7_Φ (c : Dev nD) (t) : (pdats V X O Rec 7 c).Φ t = ΦS 7 c (X 7 c) := rfl

/-- What the output window's staging buffer holds after the body at point `t`: the stored block computed from the
    entry arrays' blocks at `t`. -/
theorem pdats_7_after9 (c : Dev nD) (t : Fin cfg15.N) : (pdats V X O Rec 7 c).after 9 t = out15 c (V 7 c) t := by
  rw [pdats_7]; exact after15_9 c (V 7 c) _ _ _ _ t

/-- The body obligation of pipeline 7, at every point, at the index the pipeline's own waits sit at. -/
theorem hbody7 (c : Dev nD) : BodyObligationLoose (pdats V X O Rec 7 c) (defs₀ (F := F)) 𝒱₀ (none : HIx 8) Set.univ := by
  rw [pdats_7]
  exact (body_obligation15 c (V 7 c) (ΦS 7 c (X 7 c)) (O 7 c) (Rec 7 c) (fun _ => fullShare) none).loose

/-- The invariant at the first point, from what rides along and the scoped buffers no window stages (there is no
    prefetched table). -/
theorem hin7 (c : Dev nD) :
    iprop(X 7 c ∗ Pipeline.prefHeld (pcfgs (F := F) 7).pre c (fun _ => fullShare) (adm (F := F) 7).1
        ∗ Pipeline.scopedRest (Pipeline.pin (pcfgs (F := F)) adm 7).spec c)
      ⊢ (pdats V X O Rec 7 c).Φ 0 := by
  rw [pdats_7_Φ]; unfold ΦS
  iintro ⟨HR, -, Hs⟩
  isplitl [HR] <;> iassumption

/-- The invariant at the last point gives them back; the body has no semaphore of its own. -/
theorem hout7 (c : Dev nD) :
    (pdats V X O Rec 7 c).Φ (Fin.last (Pipeline.pin (pcfgs (F := F)) adm 7).N)
      ⊢ iprop(X 7 c ∗ Pipeline.ownSems0 (fun k : PEmpty => k.elim) c ∗ Pipeline.scopedRest (Pipeline.pin (pcfgs (F := F)) adm 7).spec c) := by
  rw [pdats_7_Φ, Pipeline.ownSems0_none]; unfold ΦS
  iintro ⟨HR, Hs⟩
  isplitl [HR]; · iexact HR
  isplitr; · iempintro
  iexact Hs

end Pipes

end Cert.Proof.Tc

end
-- ==== Proof.TcRegion.lean ====
/-
  Pipeline 0 of the point-convolution program as one step of the TensorCore's thread: from the region boundary,
  the core's unscoped buffers at given contents and its debts, the call of the pipeline's entry runs to the
  boundary again, the buffers unchanged but for the result array, which holds what the proof data computes, and
  the debts as they were, the pipeline's own waits recorded beside the earlier ones.
-/
import proofs.«214101_g10505490006249_cont_week2b_118_28_alg».proof.Proof.Launch
import proofs.«214101_g10505490006249_cont_week2b_118_28_alg».proof.Proof.TcData

set_option maxRecDepth 16384

noncomputable section

namespace Cert.Proof.KI

open Cert.KernelIdeal Cert.KernelIdeal.Gen Cert.Proof.Tc

open Idealize.ShloMosaic Idealize.ShloMosaic.TcCoe
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat unscopedRest owesWithin)

variable {F : FTy → Type} [FloatOps F]

local notation "𝕄" => MT nD τ sig (HIx 8) (Elt F) ℕ UU ℕ

/-! ## The result array -/

/-- What an array holds after the write-backs of the points below `n` depends on the proof data only through the
    array's entry contents and what the body leaves in its window's staging buffer. -/
theorem arrAt_congr {cfg : Pipeline.Cfg sig Λ₀} {c : Dev nD} (d₁ d₂ : Dat τ (Elt F) (HIx 8) ℕ UU ℕ cfg c) (w : Fin cfg.W)
    (hA : d₁.A w = d₂.A w) (ha : ∀ t, d₁.after w t = d₂.after w t) : ∀ n, d₁.arrAt w n = d₂.arrAt w n
  | 0 => hA
  | n + 1 => by
    have ih := arrAt_congr d₁ d₂ w hA ha n
    simp only [Dat.arrAt, Dat.flushed]
    rw [ih]
    split
    · next h => rw [ha]
    · rfl

/-- The result array of call 1 after the pipeline's run, from the contents `V` the call finds in the core's
    buffers: the array as found, every block overwritten by what the body stored at its point. -/
def tcRes0 (c : Dev nD) (V : (b : Ref sig .tc) → Buf (Elt F) ((c : Thread nD τ).loc b)) : Buf (Elt F) ((c : Thread nD τ).loc main_v35) :=
  (dat1 (Ix := HIx 8) (Name := ℕ) (U := UU) (Lvl := ℕ) c V iprop(emp) 0 Set.univ (fun _ => fullShare)).arrAt 9 cfg1.N

/-! ## The region -/

section Region

variable (V : (c : Dev nD) → (b : Ref sig .tc) → Buf (Elt F) ((c : Thread nD τ).loc b))
  (O : Dev nD → CellTallies nD τ sig (HIx 8)) (Rec : Dev nD → Set (SemLoc sig × HIx 8))

/-- Nothing rides in the pipelines' invariants beside the scoped buffers. -/
abbrev Xe : Fin 8 → Dev nD → sProp (MT nD τ sig (HIx 8) (Elt F) ℕ UU ℕ) := fun _ _ => iprop(emp)

/-- The proof data family pipeline 0 is entered at: the buffers at `V`, the debts `O`, the recorded waits within `Rec`. -/
abbrev pd0 : (p : Fin 8) → (c : Dev nD) → Dat τ (Elt F) (HIx 8) ℕ UU ℕ (Pipeline.pin (pcfgs (F := F)) adm p) c :=
  pdats (F := F) (fun _ => V) Xe (fun _ => O) (fun _ => Rec)

/-- The core's buffers after the call: the result array at what the run computes, every other as found. -/
def Vafter (c : Dev nD) : (b : Ref sig .tc) → Buf (Elt F) ((c : Thread nD τ).loc b) :=
  Function.update (V c) main_v35 (tcRes0 c (V c))

/-- The same, under the name the other calls' modules follow. -/
abbrev Vafter0 (c : Dev nD) : (b : Ref sig .tc) → Buf (Elt F) ((c : Thread nD τ).loc b) := Vafter V c

/-- The result array is the pipeline's last window. -/
theorem nine_lt : (9 : ℕ) < (Pipeline.pin (pcfgs (F := F)) adm 0).W := Nat.lt_succ_self 9

/-- The result array after the run is `tcRes0` of the entry contents: the other parameters do not enter. -/
theorem arrAt_final9 (c : Dev nD) :
    (pd0 V O Rec 0 c).arrAt 9 (Pipeline.pin (pcfgs (F := F)) adm 0).N = tcRes0 c (V c) := by
  unfold tcRes0
  exact arrAt_congr (pd0 V O Rec 0 c)
    (dat1 (Ix := HIx 8) (Name := ℕ) (U := UU) (Lvl := ℕ) c (V c) iprop(emp) 0 Set.univ (fun _ => fullShare) : Dat τ (Elt F) (HIx 8) ℕ UU ℕ (Pipeline.pin (pcfgs (F := F)) adm 0) c) 9
    ((pdats_0_A (F := F) (fun _ => V) Xe (fun _ => O) (fun _ => Rec) c 9).trans (A1_eq c (V c) iprop(emp) 0 Set.univ (fun _ => fullShare) 9).symm)
    (fun t => (pdats_0_after9 (F := F) (fun _ => V) Xe (fun _ => O) (fun _ => Rec) c t).trans (after1_9 c (V c) iprop(emp) 0 Set.univ (fun _ => fullShare) t).symm) _

/-- Every window's array after the run, read off the buffers after the call: the inputs' are never written, the
    result's is `tcRes0`. -/
theorem arrAt_final (c : Dev nD) (w : Fin (Pipeline.pin (pcfgs (F := F)) adm 0).W) :
    (pd0 V O Rec 0 c).arrAt w (Pipeline.pin (pcfgs (F := F)) adm 0).N = Vafter V c (Pipeline.arrRef (Pipeline.pin (pcfgs (F := F)) adm 0).spec w) := by
  have hi : Function.Injective (Pipeline.arrRef (Pipeline.pin (pcfgs (F := F)) adm 0).spec) := launch1.win.arr_inj
  have hio : ∀ w : Fin 10, w.val ≠ 9 → (win1 w).isOut = false := by decide
  unfold Vafter
  by_cases hw : w.val = 9
  · have h9 : w = (9 : Fin (Pipeline.pin (pcfgs (F := F)) adm 0).W) := Fin.ext (hw.trans (show (9 : ℕ) = (9 : Fin (Pipeline.pin (pcfgs (F := F)) adm 0).W).val from rfl))
    subst h9
    exact (arrAt_final9 V O Rec c).trans (Function.update_self main_v35 (tcRes0 c (V c)) (V c)).symm
  · have hne : Pipeline.arrRef (Pipeline.pin (pcfgs (F := F)) adm 0).spec w ≠ main_v35 := fun e =>
      hw (congrArg Fin.val (hi (show Pipeline.arrRef (Pipeline.pin (pcfgs (F := F)) adm 0).spec w = Pipeline.arrRef (Pipeline.pin (pcfgs (F := F)) adm 0).spec ⟨9, nine_lt⟩ from e)))
    exact ((pd0 V O Rec 0 c).arrAt_in w (hio w hw) _).trans (Function.update_of_ne hne _ _).symm

/-- The rest of the unscoped buffers, which no window stages, does not see the result array. -/
theorem unscopedRest_after (c : Dev nD) :
    (unscopedRest (Ix := HIx 8) (Name := ℕ) (U := UU) (Lvl := ℕ) (Pipeline.pin (pcfgs (F := F)) adm 0).spec c (V c) : sProp (MT nD τ sig (HIx 8) (Elt F) ℕ UU ℕ))
      = unscopedRest (Pipeline.pin (pcfgs (F := F)) adm 0).spec c (Vafter V c) := by
  unfold Pipeline.unscopedRest Vafter
  refine bigSep_congr fun b hb => ?_
  rw [Function.update_of_ne]
  intro e
  exact (Finset.mem_sdiff.mp hb).2 (Finset.mem_image.mpr ⟨⟨9, nine_lt⟩, Finset.mem_univ _, (show Pipeline.arrRef (Pipeline.pin (pcfgs (F := F)) adm 0).spec ⟨9, nine_lt⟩ = b from e.symm)⟩)

/-- What the region is entered from: the core's unscoped buffers at `V`, its debts with the recorded waits within `Rec`; -/
def pre0 (c : Dev nD) : sProp (MT nD τ sig (HIx 8) (Elt F) ℕ UU ℕ) := iprop(unscopedBufs c (V c) ∗ owesWithin c (O c) (Rec c))
/-- and what it leaves: the buffers after the call, the same debts, the pipeline's own waits recorded too. -/
def post0 (c : Dev nD) : sProp (MT nD τ sig (HIx 8) (Elt F) ℕ UU ℕ) :=
  iprop(unscopedBufs c (Vafter V c) ∗ owesWithin c (O c) (Rec c ∪ (Pipeline.pin (pcfgs (F := F)) adm 0).waitPairs none))

/-- PIPELINE 0 AS A REGION of the TensorCore's thread. Nothing but the scoped rest rides in the invariant; the
    arrays no window stages bypass the region; the body has no semaphore of its own; the pipeline's waits sit at
    index `none`, below everything the core owes. -/
def reg0 (hO : ∀ c g, O c g none = 0) :
    Pipeline.RegionSeg (pcfgs (F := F)) adm (pd0 V O Rec) (none : HIx 8) (defs₀ (F := F)) 𝒱₀ (K (F := F)).L (K (F := F)).lev 0 where
  win := launch1.win.to₀
  block_pos := launch1.block_pos
  stage_whole := launch1.stage_whole
  K := PEmpty
  osem k := k.elim
  ho := Pipeline.OwnSemFacts.none _
  hbody c := hbody0 (F := F) (fun _ => V) Xe (fun _ => O) (fun _ => Rec) c
  hwaits c := Pipeline.cellsWaits_intro (Pipeline.pin (pcfgs (F := F)) adm) (pd0 V O Rec) none 0 c
    fun w s t => (K (F := F)).mayWait_none _ (hO c)
  pre := pre0 V O Rec
  post := post0 V O Rec
  X c := iprop(emp)
  Y c := iprop(emp)
  Z c := unscopedRest (Pipeline.pin (pcfgs (F := F)) adm 0).spec c (V c)
  hentry c := by
    have hsplit := Pipeline.arrays_of_unscopedBufs (pcfgs (F := F)) adm (pd0 V O Rec) (p := 0) launch1.win launch1.arr_whole c
      ((pd0 V O Rec 0 c).share_full fun _ => rfl) (V c) fun _ => rfl
    unfold pre0
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW hp)
      iexact HO
    isplitr; · iempintro
    iexact Hr
  hin c := hin0 (F := F) (fun _ => V) Xe (fun _ => O) (fun _ => Rec) c
  hout c := hout0 (F := F) (fun _ => V) Xe (fun _ => O) (fun _ => Rec) c
  hexit c := by
    unfold post0
    rw [Pipeline.unscopedBufs_split (Pipeline.pin (pcfgs (F := F)) adm) 0 launch1.win.arr_unscoped launch1.win.arr_inj c (Vafter V c),
      Pipeline.arrays_eq (Pipeline.pin (pcfgs (F := F)) adm) (pd0 V O Rec) 0 c launch1.arr_whole ((pd0 V O Rec 0 c).share_full fun _ => rfl),
      ← unscopedRest_after V c]
    simp only [arrAt_final V O Rec c]
    iintro ⟨Ha, HO, -, HZ⟩
    imodintro
    isplitr [HO]
    · isplitl [Ha]
      · iexact Ha
      · iexact HZ
    · iexact HO

theorem reg0_pre (hO : ∀ c g, O c g none = 0) : (reg0 V O Rec hO).pre = pre0 V O Rec := rfl
theorem reg0_post (hO : ∀ c g, O c g none = 0) : (reg0 V O Rec hO).post = post0 V O Rec := rfl

/-- THE STEP: the call of pipeline 0's entry in the TensorCore's thread of the whole program. From the level
    facts, the region boundary, the unscoped buffers at `V d`, the core's debts `O d` (none at index `none`) with
    its recorded waits within `Rec d`, and the pipeline's launch ghost state and duty tokens, the call runs to the
    continuation holding the boundary, the buffers at `Vafter V d` and the same debts, every recorded wait within
    `Rec d` or at index `none`. -/
theorem region_step0 [∀ e, Nonempty (Elt F e)] (hO : ∀ c g, O c g none = 0) (d : Dev nD) {α : Type}
    (k : PUnit → Prog (TpuEff nD τ sig (Elt F) (SparseCore.Sig (ΛP (F := F)) 8) .tc) α) (Q : α → sProp (MT nD τ sig (HIx 8) (Elt F) ℕ UU ℕ)) :
    iprop(levAts (K (F := F)).L (K (F := F)).lev ∗ boundary (T d) ∗ unscopedBufs d (V d)
        ∗ (∃ W, ⌜∀ p ∈ W, p ∈ Rec d⌝ ∗ owes (T d) (O d) W)
        ∗ Pipeline.cellsGhost cfgs (EP (F := F)) 0 d ∗ Pipeline.toksInit cfgs (EP (F := F)) 0 d
        ∗ (iprop(boundary (T d) ∗ unscopedBufs d (Vafter V d) ∗ (∃ W, ⌜∀ p ∈ W, p ∈ Rec d ∨ p.2 = none⌝ ∗ owes (T d) (O d) W))
            -∗ wp frame (wpE ((K (F := F)).defs (D (F := F))) 𝒱 (T d) none) Set.univ (k ⟨⟩) Q))
      ⊢ wp frame (wpE ((K (F := F)).defs (D (F := F))) 𝒱 (T d) none) Set.univ
          (Prog.lift (.customCall (SparseCore.inner (Pipeline.entry 0)) ()) >>= k) Q := by
  rw [wp_bind]
  refine .trans ?_ ((K (F := F)).wp_liftProg (D (F := F)) 𝒱 (T d) Set.univ none (Prog.lift (.customCall (Pipeline.entry 0) ()))
    (fun x => wp frame (wpE ((K (F := F)).defs (D (F := F))) 𝒱 (T d) none) Set.univ (k x) Q))
  refine .trans ?_ (Pipeline.RegionSeg.wp (pcfgs (F := F)) adm (pd0 V O Rec) (none : HIx 8) cellOf_inj (EP (F := F)) (defs₀ (F := F)) 𝒱₀
    (K (F := F)).L (K (F := F)).lev (reg0 V O Rec hO) d none (fun _ h => nomatch h) (fun x => .ret x)
    (fun x => wp frame (wpE ((K (F := F)).defs (D (F := F))) 𝒱 (T d) none) Set.univ (k x) Q))
  rw [reg0_pre, reg0_post]; unfold pre0 post0 Pipeline.owesWithin
  iintro ⟨Hlev, Hb, Hub, ⟨%W, %hW, HO⟩, Hg, Ht, Hk⟩
  isplitl [Hk]
  · iintro ⟨Hb, Hub, ⟨%W', %hW', HO⟩⟩
    iapply (le_wp_ret _ _ _ _ _)
    iapply Hk
    isplitl [Hb]; · iexact Hb
    isplitl [Hub]; · iexact Hub
    iexists W'; isplitr
    · ipureintro
      intro p hp
      rcases hW' hp with h | ⟨w, s, rfl⟩
      · exact Or.inl h
      · exact Or.inr rfl
    iexact HO
  isplitl [Hb]; · iexact Hb
  isplitl [Hub HO]
  · isplitl [Hub]; · iexact Hub
    iexists W; isplitr; · ipureintro; exact fun p hp => hW p hp
    iexact HO
  isplitl [Hlev]; · iexact Hlev
  isplitl [Hg]; · iexact Hg
  iexact Ht

end Region

end Cert.Proof.KI

end
-- ==== Proof.Region0.lean ====
/-
  TensorCore call 0's region step, in the form @main's pair step takes it.
-/
import proofs.«214101_g10505490006249_cont_week2b_118_28_alg».proof.Proof.PairDefs
import proofs.«214101_g10505490006249_cont_week2b_118_28_alg».proof.Proof.TcRegion

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Transfers (shareTok shareDrop pointsTo_toks_split pointsTo_toks_join)

variable {F : FTy → Type}

local notation "𝕄" => MT nD τ sig (HIx 8) (Elt F) ℕ UU ℕ

variable [FloatOps F]

theorem hreg0 [∀ e, Nonempty (Elt F e)] : RegionStep (F := F) 0 main_v35 (tcRes0 (F := F)) := by
  intro V O Rec hO d α k Q
  have h := region_step0 (F := F) V O Rec hO d k Q
  unfold Vafter at h
  exact h

end Cert.Proof.KI

end
-- ==== Proof.TcRegion1.lean ====
/-
  Pipeline 1 (call 3) of the point-convolution program as one step of the TensorCore's thread, exactly as
  pipeline 0: from the region boundary, the core's unscoped buffers at given contents and its debts, the call of
  the pipeline's entry runs to the boundary again, the buffers unchanged but for that call's result array, which
  holds what the proof data computes, and the debts as they were.
-/
import proofs.«214101_g10505490006249_cont_week2b_118_28_alg».proof.Proof.TcRegion

set_option maxRecDepth 16384

noncomputable section

namespace Cert.Proof.KI

open Cert.KernelIdeal Cert.KernelIdeal.Gen Cert.Proof.Tc

open Idealize.ShloMosaic Idealize.ShloMosaic.TcCoe
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat unscopedRest owesWithin)

variable {F : FTy → Type} [FloatOps F]

/-! ## Pipeline 1 (call 3) -/

section Region1

variable (V : (c : Dev nD) → (b : Ref sig .tc) → Buf (Elt F) ((c : Thread nD τ).loc b))
  (O : Dev nD → CellTallies nD τ sig (HIx 8)) (Rec : Dev nD → Set (SemLoc sig × HIx 8))

/-- The result array of call 3 after the pipeline's run, from the contents `V` the call finds in the core's
    buffers: the array as found, every block overwritten by what the body stored at its point. -/
def tcRes1 (c : Dev nD) (V : (b : Ref sig .tc) → Buf (Elt F) ((c : Thread nD τ).loc b)) : Buf (Elt F) ((c : Thread nD τ).loc main_v37) :=
  (dat3 (Ix := HIx 8) (Name := ℕ) (U := UU) (Lvl := ℕ) c V iprop(emp) 0 Set.univ (fun _ => fullShare)).arrAt 9 cfg3.N

/-- The core's buffers after the call: the result array at what the run computes, every other as found. -/
def Vafter1 (c : Dev nD) : (b : Ref sig .tc) → Buf (Elt F) ((c : Thread nD τ).loc b) :=
  Function.update (V c) main_v37 (tcRes1 c (V c))

/-- The result array is the pipeline's last window. -/
theorem nine_lt1 : (9 : ℕ) < (Pipeline.pin (pcfgs (F := F)) adm 1).W := Nat.lt_succ_self 9

/-- The result array after the run is `tcRes1` of the entry contents: the other parameters do not enter. -/
theorem arrAt_final9_1 (c : Dev nD) :
    (pd0 V O Rec 1 c).arrAt 9 (Pipeline.pin (pcfgs (F := F)) adm 1).N = tcRes1 c (V c) := by
  unfold tcRes1
  exact arrAt_congr (pd0 V O Rec 1 c)
    (dat3 (Ix := HIx 8) (Name := ℕ) (U := UU) (Lvl := ℕ) c (V c) iprop(emp) 0 Set.univ (fun _ => fullShare) : Dat τ (Elt F) (HIx 8) ℕ UU ℕ (Pipeline.pin (pcfgs (F := F)) adm 1) c) 9
    ((pdats_1_A (F := F) (fun _ => V) Xe (fun _ => O) (fun _ => Rec) c 9).trans (A3_eq c (V c) iprop(emp) 0 Set.univ (fun _ => fullShare) 9).symm)
    (fun t => (pdats_1_after9 (F := F) (fun _ => V) Xe (fun _ => O) (fun _ => Rec) c t).trans (after3_9 c (V c) iprop(emp) 0 Set.univ (fun _ => fullShare) t).symm) _

/-- Every window's array after the run, read off the buffers after the call: the inputs' are never written, the
    result's is `tcRes1`. -/
theorem arrAt_final_1 (c : Dev nD) (w : Fin (Pipeline.pin (pcfgs (F := F)) adm 1).W) :
    (pd0 V O Rec 1 c).arrAt w (Pipeline.pin (pcfgs (F := F)) adm 1).N = Vafter1 V c (Pipeline.arrRef (Pipeline.pin (pcfgs (F := F)) adm 1).spec w) := by
  have hi : Function.Injective (Pipeline.arrRef (Pipeline.pin (pcfgs (F := F)) adm 1).spec) := launch3.win.arr_inj
  have hio : ∀ w : Fin 10, w.val ≠ 9 → (win3 w).isOut = false := by decide
  unfold Vafter1
  by_cases hw : w.val = 9
  · have h9 : w = (9 : Fin (Pipeline.pin (pcfgs (F := F)) adm 1).W) := Fin.ext (hw.trans (show (9 : ℕ) = (9 : Fin (Pipeline.pin (pcfgs (F := F)) adm 1).W).val from rfl))
    subst h9
    exact (arrAt_final9_1 V O Rec c).trans (Function.update_self main_v37 (tcRes1 c (V c)) (V c)).symm
  · have hne : Pipeline.arrRef (Pipeline.pin (pcfgs (F := F)) adm 1).spec w ≠ main_v37 := fun e =>
      hw (congrArg Fin.val (hi (show Pipeline.arrRef (Pipeline.pin (pcfgs (F := F)) adm 1).spec w = Pipeline.arrRef (Pipeline.pin (pcfgs (F := F)) adm 1).spec ⟨9, nine_lt1⟩ from e)))
    exact ((pd0 V O Rec 1 c).arrAt_in w (hio w hw) _).trans (Function.update_of_ne hne _ _).symm

/-- The rest of the unscoped buffers, which no window stages, does not see the result array. -/
theorem unscopedRest_after1 (c : Dev nD) :
    (unscopedRest (Ix := HIx 8) (Name := ℕ) (U := UU) (Lvl := ℕ) (Pipeline.pin (pcfgs (F := F)) adm 1).spec c (V c) : sProp (MT nD τ sig (HIx 8) (Elt F) ℕ UU ℕ))
      = unscopedRest (Pipeline.pin (pcfgs (F := F)) adm 1).spec c (Vafter1 V c) := by
  unfold Pipeline.unscopedRest Vafter1
  refine bigSep_congr fun b hb => ?_
  rw [Function.update_of_ne]
  intro e
  exact (Finset.mem_sdiff.mp hb).2 (Finset.mem_image.mpr ⟨⟨9, nine_lt1⟩, Finset.mem_univ _, (show Pipeline.arrRef (Pipeline.pin (pcfgs (F := F)) adm 1).spec ⟨9, nine_lt1⟩ = b from e.symm)⟩)

/-- What the region is entered from: the core's unscoped buffers at `V`, its debts with the recorded waits within `Rec`; -/
def pre1 (c : Dev nD) : sProp (MT nD τ sig (HIx 8) (Elt F) ℕ UU ℕ) := iprop(unscopedBufs c (V c) ∗ owesWithin c (O c) (Rec c))
/-- and what it leaves: the buffers after the call, the same debts, the pipeline's own waits recorded too. -/
def post1 (c : Dev nD) : sProp (MT nD τ sig (HIx 8) (Elt F) ℕ UU ℕ) :=
  iprop(unscopedBufs c (Vafter1 V c) ∗ owesWithin c (O c) (Rec c ∪ (Pipeline.pin (pcfgs (F := F)) adm 1).waitPairs none))

/-- PIPELINE 1 AS A REGION of the TensorCore's thread. Nothing but the scoped rest rides in the invariant; the
    arrays no window stages bypass the region; the body has no semaphore of its own; the pipeline's waits sit at
    index `none`, below everything the core owes. -/
def reg1 (hO : ∀ c g, O c g none = 0) :
    Pipeline.RegionSeg (pcfgs (F := F)) adm (pd0 V O Rec) (none : HIx 8) (defs₀ (F := F)) 𝒱₀ (K (F := F)).L (K (F := F)).lev 1 where
  win := launch3.win.to₀
  block_pos := launch3.block_pos
  stage_whole := launch3.stage_whole
  K := PEmpty
  osem k := k.elim
  ho := Pipeline.OwnSemFacts.none _
  hbody c := hbody1 (F := F) (fun _ => V) Xe (fun _ => O) (fun _ => Rec) c
  hwaits c := Pipeline.cellsWaits_intro (Pipeline.pin (pcfgs (F := F)) adm) (pd0 V O Rec) none 1 c
    fun w s t => (K (F := F)).mayWait_none _ (hO c)
  pre := pre1 V O Rec
  post := post1 V O Rec
  X c := iprop(emp)
  Y c := iprop(emp)
  Z c := unscopedRest (Pipeline.pin (pcfgs (F := F)) adm 1).spec c (V c)
  hentry c := by
    have hsplit := Pipeline.arrays_of_unscopedBufs (pcfgs (F := F)) adm (pd0 V O Rec) (p := 1) launch3.win launch3.arr_whole c
      ((pd0 V O Rec 1 c).share_full fun _ => rfl) (V c) fun _ => rfl
    unfold pre1
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW hp)
      iexact HO
    isplitr; · iempintro
    iexact Hr
  hin c := hin1 (F := F) (fun _ => V) Xe (fun _ => O) (fun _ => Rec) c
  hout c := hout1 (F := F) (fun _ => V) Xe (fun _ => O) (fun _ => Rec) c
  hexit c := by
    unfold post1
    rw [Pipeline.unscopedBufs_split (Pipeline.pin (pcfgs (F := F)) adm) 1 launch3.win.arr_unscoped launch3.win.arr_inj c (Vafter1 V c),
      Pipeline.arrays_eq (Pipeline.pin (pcfgs (F := F)) adm) (pd0 V O Rec) 1 c launch3.arr_whole ((pd0 V O Rec 1 c).share_full fun _ => rfl),
      ← unscopedRest_after1 V c]
    simp only [arrAt_final_1 V O Rec c]
    iintro ⟨Ha, HO, -, HZ⟩
    imodintro
    isplitr [HO]
    · isplitl [Ha]
      · iexact Ha
      · iexact HZ
    · iexact HO

theorem reg1_pre (hO : ∀ c g, O c g none = 0) : (reg1 V O Rec hO).pre = pre1 V O Rec := rfl
theorem reg1_post (hO : ∀ c g, O c g none = 0) : (reg1 V O Rec hO).post = post1 V O Rec := rfl

/-- THE STEP for pipeline 1: from the level facts, the region boundary, the unscoped buffers at `V d`, the core's
    debts `O d` (none at index `none`) with its recorded waits within `Rec d`, and the pipeline's launch ghost state
    and duty tokens, the call of its entry runs to the continuation holding the boundary, the buffers at
    `Vafter1 V d` and the same debts, every recorded wait within `Rec d` or at index `none`. -/
theorem region_step1 [∀ e, Nonempty (Elt F e)] (hO : ∀ c g, O c g none = 0) (d : Dev nD) {α : Type}
    (k : PUnit → Prog (TpuEff nD τ sig (Elt F) (SparseCore.Sig (ΛP (F := F)) 8) .tc) α) (Q : α → sProp (MT nD τ sig (HIx 8) (Elt F) ℕ UU ℕ)) :
    iprop(levAts (K (F := F)).L (K (F := F)).lev ∗ boundary (T d) ∗ unscopedBufs d (V d)
        ∗ (∃ W, ⌜∀ p ∈ W, p ∈ Rec d⌝ ∗ owes (T d) (O d) W)
        ∗ Pipeline.cellsGhost cfgs (EP (F := F)) 1 d ∗ Pipeline.toksInit cfgs (EP (F := F)) 1 d
        ∗ (iprop(boundary (T d) ∗ unscopedBufs d (Vafter1 V d) ∗ (∃ W, ⌜∀ p ∈ W, p ∈ Rec d ∨ p.2 = none⌝ ∗ owes (T d) (O d) W))
            -∗ wp frame (wpE ((K (F := F)).defs (D (F := F))) 𝒱 (T d) none) Set.univ (k ⟨⟩) Q))
      ⊢ wp frame (wpE ((K (F := F)).defs (D (F := F))) 𝒱 (T d) none) Set.univ
          (Prog.lift (.customCall (SparseCore.inner (Pipeline.entry 1)) ()) >>= k) Q := by
  rw [wp_bind]
  refine .trans ?_ ((K (F := F)).wp_liftProg (D (F := F)) 𝒱 (T d) Set.univ none (Prog.lift (.customCall (Pipeline.entry 1) ()))
    (fun x => wp frame (wpE ((K (F := F)).defs (D (F := F))) 𝒱 (T d) none) Set.univ (k x) Q))
  refine .trans ?_ (Pipeline.RegionSeg.wp (pcfgs (F := F)) adm (pd0 V O Rec) (none : HIx 8) cellOf_inj (EP (F := F)) (defs₀ (F := F)) 𝒱₀
    (K (F := F)).L (K (F := F)).lev (reg1 V O Rec hO) d none (fun _ h => nomatch h) (fun x => .ret x)
    (fun x => wp frame (wpE ((K (F := F)).defs (D (F := F))) 𝒱 (T d) none) Set.univ (k x) Q))
  rw [reg1_pre, reg1_post]; unfold pre1 post1 Pipeline.owesWithin
  iintro ⟨Hlev, Hb, Hub, ⟨%W, %hW, HO⟩, Hg, Ht, Hk⟩
  isplitl [Hk]
  · iintro ⟨Hb, Hub, ⟨%W', %hW', HO⟩⟩
    iapply (le_wp_ret _ _ _ _ _)
    iapply Hk
    isplitl [Hb]; · iexact Hb
    isplitl [Hub]; · iexact Hub
    iexists W'; isplitr
    · ipureintro
      intro p hp
      rcases hW' hp with h | ⟨w, s, rfl⟩
      · exact Or.inl h
      · exact Or.inr rfl
    iexact HO
  isplitl [Hb]; · iexact Hb
  isplitl [Hub HO]
  · isplitl [Hub]; · iexact Hub
    iexists W; isplitr; · ipureintro; exact fun p hp => hW p hp
    iexact HO
  isplitl [Hlev]; · iexact Hlev
  isplitl [Hg]; · iexact Hg
  iexact Ht

end Region1

end Cert.Proof.KI

end
-- ==== Proof.Region1.lean ====
/-
  TensorCore call 1's region step, in the form @main's pair step takes it.
-/
import proofs.«214101_g10505490006249_cont_week2b_118_28_alg».proof.Proof.PairDefs
import proofs.«214101_g10505490006249_cont_week2b_118_28_alg».proof.Proof.TcRegion1

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Transfers (shareTok shareDrop pointsTo_toks_split pointsTo_toks_join)

variable {F : FTy → Type}

local notation "𝕄" => MT nD τ sig (HIx 8) (Elt F) ℕ UU ℕ

variable [FloatOps F]

theorem hreg1 [∀ e, Nonempty (Elt F e)] : RegionStep (F := F) 1 main_v37 (tcRes1 (F := F)) := by
  intro V O Rec hO d α k Q
  have h := region_step1 (F := F) V O Rec hO d k Q
  unfold Vafter1 at h
  exact h

end Cert.Proof.KI

end
-- ==== Proof.TcRegion2.lean ====
/-
  Pipeline 2 (call 5) of the point-convolution program as one step of the TensorCore's thread, exactly as
  pipeline 0: from the region boundary, the core's unscoped buffers at given contents and its debts, the call of
  the pipeline's entry runs to the boundary again, the buffers unchanged but for that call's result array, which
  holds what the proof data computes, and the debts as they were.
-/
import proofs.«214101_g10505490006249_cont_week2b_118_28_alg».proof.Proof.TcRegion

set_option maxRecDepth 16384

noncomputable section

namespace Cert.Proof.KI

open Cert.KernelIdeal Cert.KernelIdeal.Gen Cert.Proof.Tc

open Idealize.ShloMosaic Idealize.ShloMosaic.TcCoe
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat unscopedRest owesWithin)

variable {F : FTy → Type} [FloatOps F]

/-! ## Pipeline 2 (call 5) -/

section Region2

variable (V : (c : Dev nD) → (b : Ref sig .tc) → Buf (Elt F) ((c : Thread nD τ).loc b))
  (O : Dev nD → CellTallies nD τ sig (HIx 8)) (Rec : Dev nD → Set (SemLoc sig × HIx 8))

/-- The result array of call 5 after the pipeline's run, from the contents `V` the call finds in the core's
    buffers: the array as found, every block overwritten by what the body stored at its point. -/
def tcRes2 (c : Dev nD) (V : (b : Ref sig .tc) → Buf (Elt F) ((c : Thread nD τ).loc b)) : Buf (Elt F) ((c : Thread nD τ).loc main_v39) :=
  (dat5 (Ix := HIx 8) (Name := ℕ) (U := UU) (Lvl := ℕ) c V iprop(emp) 0 Set.univ (fun _ => fullShare)).arrAt 9 cfg5.N

/-- The core's buffers after the call: the result array at what the run computes, every other as found. -/
def Vafter2 (c : Dev nD) : (b : Ref sig .tc) → Buf (Elt F) ((c : Thread nD τ).loc b) :=
  Function.update (V c) main_v39 (tcRes2 c (V c))

/-- The result array is the pipeline's last window. -/
theorem nine_lt2 : (9 : ℕ) < (Pipeline.pin (pcfgs (F := F)) adm 2).W := Nat.lt_succ_self 9

/-- The result array after the run is `tcRes2` of the entry contents: the other parameters do not enter. -/
theorem arrAt_final9_2 (c : Dev nD) :
    (pd0 V O Rec 2 c).arrAt 9 (Pipeline.pin (pcfgs (F := F)) adm 2).N = tcRes2 c (V c) := by
  unfold tcRes2
  exact arrAt_congr (pd0 V O Rec 2 c)
    (dat5 (Ix := HIx 8) (Name := ℕ) (U := UU) (Lvl := ℕ) c (V c) iprop(emp) 0 Set.univ (fun _ => fullShare) : Dat τ (Elt F) (HIx 8) ℕ UU ℕ (Pipeline.pin (pcfgs (F := F)) adm 2) c) 9
    ((pdats_2_A (F := F) (fun _ => V) Xe (fun _ => O) (fun _ => Rec) c 9).trans (A5_eq c (V c) iprop(emp) 0 Set.univ (fun _ => fullShare) 9).symm)
    (fun t => (pdats_2_after9 (F := F) (fun _ => V) Xe (fun _ => O) (fun _ => Rec) c t).trans (after5_9 c (V c) iprop(emp) 0 Set.univ (fun _ => fullShare) t).symm) _

/-- Every window's array after the run, read off the buffers after the call: the inputs' are never written, the
    result's is `tcRes2`. -/
theorem arrAt_final_2 (c : Dev nD) (w : Fin (Pipeline.pin (pcfgs (F := F)) adm 2).W) :
    (pd0 V O Rec 2 c).arrAt w (Pipeline.pin (pcfgs (F := F)) adm 2).N = Vafter2 V c (Pipeline.arrRef (Pipeline.pin (pcfgs (F := F)) adm 2).spec w) := by
  have hi : Function.Injective (Pipeline.arrRef (Pipeline.pin (pcfgs (F := F)) adm 2).spec) := launch5.win.arr_inj
  have hio : ∀ w : Fin 10, w.val ≠ 9 → (win5 w).isOut = false := by decide
  unfold Vafter2
  by_cases hw : w.val = 9
  · have h9 : w = (9 : Fin (Pipeline.pin (pcfgs (F := F)) adm 2).W) := Fin.ext (hw.trans (show (9 : ℕ) = (9 : Fin (Pipeline.pin (pcfgs (F := F)) adm 2).W).val from rfl))
    subst h9
    exact (arrAt_final9_2 V O Rec c).trans (Function.update_self main_v39 (tcRes2 c (V c)) (V c)).symm
  · have hne : Pipeline.arrRef (Pipeline.pin (pcfgs (F := F)) adm 2).spec w ≠ main_v39 := fun e =>
      hw (congrArg Fin.val (hi (show Pipeline.arrRef (Pipeline.pin (pcfgs (F := F)) adm 2).spec w = Pipeline.arrRef (Pipeline.pin (pcfgs (F := F)) adm 2).spec ⟨9, nine_lt2⟩ from e)))
    exact ((pd0 V O Rec 2 c).arrAt_in w (hio w hw) _).trans (Function.update_of_ne hne _ _).symm

/-- The rest of the unscoped buffers, which no window stages, does not see the result array. -/
theorem unscopedRest_after2 (c : Dev nD) :
    (unscopedRest (Ix := HIx 8) (Name := ℕ) (U := UU) (Lvl := ℕ) (Pipeline.pin (pcfgs (F := F)) adm 2).spec c (V c) : sProp (MT nD τ sig (HIx 8) (Elt F) ℕ UU ℕ))
      = unscopedRest (Pipeline.pin (pcfgs (F := F)) adm 2).spec c (Vafter2 V c) := by
  unfold Pipeline.unscopedRest Vafter2
  refine bigSep_congr fun b hb => ?_
  rw [Function.update_of_ne]
  intro e
  exact (Finset.mem_sdiff.mp hb).2 (Finset.mem_image.mpr ⟨⟨9, nine_lt2⟩, Finset.mem_univ _, (show Pipeline.arrRef (Pipeline.pin (pcfgs (F := F)) adm 2).spec ⟨9, nine_lt2⟩ = b from e.symm)⟩)

/-- What the region is entered from: the core's unscoped buffers at `V`, its debts with the recorded waits within `Rec`; -/
def pre2 (c : Dev nD) : sProp (MT nD τ sig (HIx 8) (Elt F) ℕ UU ℕ) := iprop(unscopedBufs c (V c) ∗ owesWithin c (O c) (Rec c))
/-- and what it leaves: the buffers after the call, the same debts, the pipeline's own waits recorded too. -/
def post2 (c : Dev nD) : sProp (MT nD τ sig (HIx 8) (Elt F) ℕ UU ℕ) :=
  iprop(unscopedBufs c (Vafter2 V c) ∗ owesWithin c (O c) (Rec c ∪ (Pipeline.pin (pcfgs (F := F)) adm 2).waitPairs none))

/-- PIPELINE 2 AS A REGION of the TensorCore's thread. Nothing but the scoped rest rides in the invariant; the
    arrays no window stages bypass the region; the body has no semaphore of its own; the pipeline's waits sit at
    index `none`, below everything the core owes. -/
def reg2 (hO : ∀ c g, O c g none = 0) :
    Pipeline.RegionSeg (pcfgs (F := F)) adm (pd0 V O Rec) (none : HIx 8) (defs₀ (F := F)) 𝒱₀ (K (F := F)).L (K (F := F)).lev 2 where
  win := launch5.win.to₀
  block_pos := launch5.block_pos
  stage_whole := launch5.stage_whole
  K := PEmpty
  osem k := k.elim
  ho := Pipeline.OwnSemFacts.none _
  hbody c := hbody2 (F := F) (fun _ => V) Xe (fun _ => O) (fun _ => Rec) c
  hwaits c := Pipeline.cellsWaits_intro (Pipeline.pin (pcfgs (F := F)) adm) (pd0 V O Rec) none 2 c
    fun w s t => (K (F := F)).mayWait_none _ (hO c)
  pre := pre2 V O Rec
  post := post2 V O Rec
  X c := iprop(emp)
  Y c := iprop(emp)
  Z c := unscopedRest (Pipeline.pin (pcfgs (F := F)) adm 2).spec c (V c)
  hentry c := by
    have hsplit := Pipeline.arrays_of_unscopedBufs (pcfgs (F := F)) adm (pd0 V O Rec) (p := 2) launch5.win launch5.arr_whole c
      ((pd0 V O Rec 2 c).share_full fun _ => rfl) (V c) fun _ => rfl
    unfold pre2
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW hp)
      iexact HO
    isplitr; · iempintro
    iexact Hr
  hin c := hin2 (F := F) (fun _ => V) Xe (fun _ => O) (fun _ => Rec) c
  hout c := hout2 (F := F) (fun _ => V) Xe (fun _ => O) (fun _ => Rec) c
  hexit c := by
    unfold post2
    rw [Pipeline.unscopedBufs_split (Pipeline.pin (pcfgs (F := F)) adm) 2 launch5.win.arr_unscoped launch5.win.arr_inj c (Vafter2 V c),
      Pipeline.arrays_eq (Pipeline.pin (pcfgs (F := F)) adm) (pd0 V O Rec) 2 c launch5.arr_whole ((pd0 V O Rec 2 c).share_full fun _ => rfl),
      ← unscopedRest_after2 V c]
    simp only [arrAt_final_2 V O Rec c]
    iintro ⟨Ha, HO, -, HZ⟩
    imodintro
    isplitr [HO]
    · isplitl [Ha]
      · iexact Ha
      · iexact HZ
    · iexact HO

theorem reg2_pre (hO : ∀ c g, O c g none = 0) : (reg2 V O Rec hO).pre = pre2 V O Rec := rfl
theorem reg2_post (hO : ∀ c g, O c g none = 0) : (reg2 V O Rec hO).post = post2 V O Rec := rfl

/-- THE STEP for pipeline 2: from the level facts, the region boundary, the unscoped buffers at `V d`, the core's
    debts `O d` (none at index `none`) with its recorded waits within `Rec d`, and the pipeline's launch ghost state
    and duty tokens, the call of its entry runs to the continuation holding the boundary, the buffers at
    `Vafter2 V d` and the same debts, every recorded wait within `Rec d` or at index `none`. -/
theorem region_step2 [∀ e, Nonempty (Elt F e)] (hO : ∀ c g, O c g none = 0) (d : Dev nD) {α : Type}
    (k : PUnit → Prog (TpuEff nD τ sig (Elt F) (SparseCore.Sig (ΛP (F := F)) 8) .tc) α) (Q : α → sProp (MT nD τ sig (HIx 8) (Elt F) ℕ UU ℕ)) :
    iprop(levAts (K (F := F)).L (K (F := F)).lev ∗ boundary (T d) ∗ unscopedBufs d (V d)
        ∗ (∃ W, ⌜∀ p ∈ W, p ∈ Rec d⌝ ∗ owes (T d) (O d) W)
        ∗ Pipeline.cellsGhost cfgs (EP (F := F)) 2 d ∗ Pipeline.toksInit cfgs (EP (F := F)) 2 d
        ∗ (iprop(boundary (T d) ∗ unscopedBufs d (Vafter2 V d) ∗ (∃ W, ⌜∀ p ∈ W, p ∈ Rec d ∨ p.2 = none⌝ ∗ owes (T d) (O d) W))
            -∗ wp frame (wpE ((K (F := F)).defs (D (F := F))) 𝒱 (T d) none) Set.univ (k ⟨⟩) Q))
      ⊢ wp frame (wpE ((K (F := F)).defs (D (F := F))) 𝒱 (T d) none) Set.univ
          (Prog.lift (.customCall (SparseCore.inner (Pipeline.entry 2)) ()) >>= k) Q := by
  rw [wp_bind]
  refine .trans ?_ ((K (F := F)).wp_liftProg (D (F := F)) 𝒱 (T d) Set.univ none (Prog.lift (.customCall (Pipeline.entry 2) ()))
    (fun x => wp frame (wpE ((K (F := F)).defs (D (F := F))) 𝒱 (T d) none) Set.univ (k x) Q))
  refine .trans ?_ (Pipeline.RegionSeg.wp (pcfgs (F := F)) adm (pd0 V O Rec) (none : HIx 8) cellOf_inj (EP (F := F)) (defs₀ (F := F)) 𝒱₀
    (K (F := F)).L (K (F := F)).lev (reg2 V O Rec hO) d none (fun _ h => nomatch h) (fun x => .ret x)
    (fun x => wp frame (wpE ((K (F := F)).defs (D (F := F))) 𝒱 (T d) none) Set.univ (k x) Q))
  rw [reg2_pre, reg2_post]; unfold pre2 post2 Pipeline.owesWithin
  iintro ⟨Hlev, Hb, Hub, ⟨%W, %hW, HO⟩, Hg, Ht, Hk⟩
  isplitl [Hk]
  · iintro ⟨Hb, Hub, ⟨%W', %hW', HO⟩⟩
    iapply (le_wp_ret _ _ _ _ _)
    iapply Hk
    isplitl [Hb]; · iexact Hb
    isplitl [Hub]; · iexact Hub
    iexists W'; isplitr
    · ipureintro
      intro p hp
      rcases hW' hp with h | ⟨w, s, rfl⟩
      · exact Or.inl h
      · exact Or.inr rfl
    iexact HO
  isplitl [Hb]; · iexact Hb
  isplitl [Hub HO]
  · isplitl [Hub]; · iexact Hub
    iexists W; isplitr; · ipureintro; exact fun p hp => hW p hp
    iexact HO
  isplitl [Hlev]; · iexact Hlev
  isplitl [Hg]; · iexact Hg
  iexact Ht

end Region2

end Cert.Proof.KI

end
-- ==== Proof.Region2.lean ====
/-
  TensorCore call 2's region step, in the form @main's pair step takes it.
-/
import proofs.«214101_g10505490006249_cont_week2b_118_28_alg».proof.Proof.PairDefs
import proofs.«214101_g10505490006249_cont_week2b_118_28_alg».proof.Proof.TcRegion2

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Transfers (shareTok shareDrop pointsTo_toks_split pointsTo_toks_join)

variable {F : FTy → Type}

local notation "𝕄" => MT nD τ sig (HIx 8) (Elt F) ℕ UU ℕ

variable [FloatOps F]

theorem hreg2 [∀ e, Nonempty (Elt F e)] : RegionStep (F := F) 2 main_v39 (tcRes2 (F := F)) := by
  intro V O Rec hO d α k Q
  have h := region_step2 (F := F) V O Rec hO d k Q
  unfold Vafter2 at h
  exact h

end Cert.Proof.KI

end
-- ==== Proof.TcRegion3.lean ====
/-
  Pipeline 3 (call 7) of the point-convolution program as one step of the TensorCore's thread, exactly as
  pipeline 0: from the region boundary, the core's unscoped buffers at given contents and its debts, the call of
  the pipeline's entry runs to the boundary again, the buffers unchanged but for that call's result array, which
  holds what the proof data computes, and the debts as they were.
-/
import proofs.«214101_g10505490006249_cont_week2b_118_28_alg».proof.Proof.TcRegion

set_option maxRecDepth 16384

noncomputable section

namespace Cert.Proof.KI

open Cert.KernelIdeal Cert.KernelIdeal.Gen Cert.Proof.Tc

open Idealize.ShloMosaic Idealize.ShloMosaic.TcCoe
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat unscopedRest owesWithin)

variable {F : FTy → Type} [FloatOps F]

/-! ## Pipeline 3 (call 7) -/

section Region3

variable (V : (c : Dev nD) → (b : Ref sig .tc) → Buf (Elt F) ((c : Thread nD τ).loc b))
  (O : Dev nD → CellTallies nD τ sig (HIx 8)) (Rec : Dev nD → Set (SemLoc sig × HIx 8))

/-- The result array of call 7 after the pipeline's run, from the contents `V` the call finds in the core's
    buffers: the array as found, every block overwritten by what the body stored at its point. -/
def tcRes3 (c : Dev nD) (V : (b : Ref sig .tc) → Buf (Elt F) ((c : Thread nD τ).loc b)) : Buf (Elt F) ((c : Thread nD τ).loc main_v41) :=
  (dat7 (Ix := HIx 8) (Name := ℕ) (U := UU) (Lvl := ℕ) c V iprop(emp) 0 Set.univ (fun _ => fullShare)).arrAt 9 cfg7.N

/-- The core's buffers after the call: the result array at what the run computes, every other as found. -/
def Vafter3 (c : Dev nD) : (b : Ref sig .tc) → Buf (Elt F) ((c : Thread nD τ).loc b) :=
  Function.update (V c) main_v41 (tcRes3 c (V c))

/-- The result array is the pipeline's last window. -/
theorem nine_lt3 : (9 : ℕ) < (Pipeline.pin (pcfgs (F := F)) adm 3).W := Nat.lt_succ_self 9

/-- The result array after the run is `tcRes3` of the entry contents: the other parameters do not enter. -/
theorem arrAt_final9_3 (c : Dev nD) :
    (pd0 V O Rec 3 c).arrAt 9 (Pipeline.pin (pcfgs (F := F)) adm 3).N = tcRes3 c (V c) := by
  unfold tcRes3
  exact arrAt_congr (pd0 V O Rec 3 c)
    (dat7 (Ix := HIx 8) (Name := ℕ) (U := UU) (Lvl := ℕ) c (V c) iprop(emp) 0 Set.univ (fun _ => fullShare) : Dat τ (Elt F) (HIx 8) ℕ UU ℕ (Pipeline.pin (pcfgs (F := F)) adm 3) c) 9
    ((pdats_3_A (F := F) (fun _ => V) Xe (fun _ => O) (fun _ => Rec) c 9).trans (A7_eq c (V c) iprop(emp) 0 Set.univ (fun _ => fullShare) 9).symm)
    (fun t => (pdats_3_after9 (F := F) (fun _ => V) Xe (fun _ => O) (fun _ => Rec) c t).trans (after7_9 c (V c) iprop(emp) 0 Set.univ (fun _ => fullShare) t).symm) _

/-- Every window's array after the run, read off the buffers after the call: the inputs' are never written, the
    result's is `tcRes3`. -/
theorem arrAt_final_3 (c : Dev nD) (w : Fin (Pipeline.pin (pcfgs (F := F)) adm 3).W) :
    (pd0 V O Rec 3 c).arrAt w (Pipeline.pin (pcfgs (F := F)) adm 3).N = Vafter3 V c (Pipeline.arrRef (Pipeline.pin (pcfgs (F := F)) adm 3).spec w) := by
  have hi : Function.Injective (Pipeline.arrRef (Pipeline.pin (pcfgs (F := F)) adm 3).spec) := launch7.win.arr_inj
  have hio : ∀ w : Fin 10, w.val ≠ 9 → (win7 w).isOut = false := by decide
  unfold Vafter3
  by_cases hw : w.val = 9
  · have h9 : w = (9 : Fin (Pipeline.pin (pcfgs (F := F)) adm 3).W) := Fin.ext (hw.trans (show (9 : ℕ) = (9 : Fin (Pipeline.pin (pcfgs (F := F)) adm 3).W).val from rfl))
    subst h9
    exact (arrAt_final9_3 V O Rec c).trans (Function.update_self main_v41 (tcRes3 c (V c)) (V c)).symm
  · have hne : Pipeline.arrRef (Pipeline.pin (pcfgs (F := F)) adm 3).spec w ≠ main_v41 := fun e =>
      hw (congrArg Fin.val (hi (show Pipeline.arrRef (Pipeline.pin (pcfgs (F := F)) adm 3).spec w = Pipeline.arrRef (Pipeline.pin (pcfgs (F := F)) adm 3).spec ⟨9, nine_lt3⟩ from e)))
    exact ((pd0 V O Rec 3 c).arrAt_in w (hio w hw) _).trans (Function.update_of_ne hne _ _).symm

/-- The rest of the unscoped buffers, which no window stages, does not see the result array. -/
theorem unscopedRest_after3 (c : Dev nD) :
    (unscopedRest (Ix := HIx 8) (Name := ℕ) (U := UU) (Lvl := ℕ) (Pipeline.pin (pcfgs (F := F)) adm 3).spec c (V c) : sProp (MT nD τ sig (HIx 8) (Elt F) ℕ UU ℕ))
      = unscopedRest (Pipeline.pin (pcfgs (F := F)) adm 3).spec c (Vafter3 V c) := by
  unfold Pipeline.unscopedRest Vafter3
  refine bigSep_congr fun b hb => ?_
  rw [Function.update_of_ne]
  intro e
  exact (Finset.mem_sdiff.mp hb).2 (Finset.mem_image.mpr ⟨⟨9, nine_lt3⟩, Finset.mem_univ _, (show Pipeline.arrRef (Pipeline.pin (pcfgs (F := F)) adm 3).spec ⟨9, nine_lt3⟩ = b from e.symm)⟩)

/-- What the region is entered from: the core's unscoped buffers at `V`, its debts with the recorded waits within `Rec`; -/
def pre3 (c : Dev nD) : sProp (MT nD τ sig (HIx 8) (Elt F) ℕ UU ℕ) := iprop(unscopedBufs c (V c) ∗ owesWithin c (O c) (Rec c))
/-- and what it leaves: the buffers after the call, the same debts, the pipeline's own waits recorded too. -/
def post3 (c : Dev nD) : sProp (MT nD τ sig (HIx 8) (Elt F) ℕ UU ℕ) :=
  iprop(unscopedBufs c (Vafter3 V c) ∗ owesWithin c (O c) (Rec c ∪ (Pipeline.pin (pcfgs (F := F)) adm 3).waitPairs none))

/-- PIPELINE 3 AS A REGION of the TensorCore's thread. Nothing but the scoped rest rides in the invariant; the
    arrays no window stages bypass the region; the body has no semaphore of its own; the pipeline's waits sit at
    index `none`, below everything the core owes. -/
def reg3 (hO : ∀ c g, O c g none = 0) :
    Pipeline.RegionSeg (pcfgs (F := F)) adm (pd0 V O Rec) (none : HIx 8) (defs₀ (F := F)) 𝒱₀ (K (F := F)).L (K (F := F)).lev 3 where
  win := launch7.win.to₀
  block_pos := launch7.block_pos
  stage_whole := launch7.stage_whole
  K := PEmpty
  osem k := k.elim
  ho := Pipeline.OwnSemFacts.none _
  hbody c := hbody3 (F := F) (fun _ => V) Xe (fun _ => O) (fun _ => Rec) c
  hwaits c := Pipeline.cellsWaits_intro (Pipeline.pin (pcfgs (F := F)) adm) (pd0 V O Rec) none 3 c
    fun w s t => (K (F := F)).mayWait_none _ (hO c)
  pre := pre3 V O Rec
  post := post3 V O Rec
  X c := iprop(emp)
  Y c := iprop(emp)
  Z c := unscopedRest (Pipeline.pin (pcfgs (F := F)) adm 3).spec c (V c)
  hentry c := by
    have hsplit := Pipeline.arrays_of_unscopedBufs (pcfgs (F := F)) adm (pd0 V O Rec) (p := 3) launch7.win launch7.arr_whole c
      ((pd0 V O Rec 3 c).share_full fun _ => rfl) (V c) fun _ => rfl
    unfold pre3
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW hp)
      iexact HO
    isplitr; · iempintro
    iexact Hr
  hin c := hin3 (F := F) (fun _ => V) Xe (fun _ => O) (fun _ => Rec) c
  hout c := hout3 (F := F) (fun _ => V) Xe (fun _ => O) (fun _ => Rec) c
  hexit c := by
    unfold post3
    rw [Pipeline.unscopedBufs_split (Pipeline.pin (pcfgs (F := F)) adm) 3 launch7.win.arr_unscoped launch7.win.arr_inj c (Vafter3 V c),
      Pipeline.arrays_eq (Pipeline.pin (pcfgs (F := F)) adm) (pd0 V O Rec) 3 c launch7.arr_whole ((pd0 V O Rec 3 c).share_full fun _ => rfl),
      ← unscopedRest_after3 V c]
    simp only [arrAt_final_3 V O Rec c]
    iintro ⟨Ha, HO, -, HZ⟩
    imodintro
    isplitr [HO]
    · isplitl [Ha]
      · iexact Ha
      · iexact HZ
    · iexact HO

theorem reg3_pre (hO : ∀ c g, O c g none = 0) : (reg3 V O Rec hO).pre = pre3 V O Rec := rfl
theorem reg3_post (hO : ∀ c g, O c g none = 0) : (reg3 V O Rec hO).post = post3 V O Rec := rfl

/-- THE STEP for pipeline 3: from the level facts, the region boundary, the unscoped buffers at `V d`, the core's
    debts `O d` (none at index `none`) with its recorded waits within `Rec d`, and the pipeline's launch ghost state
    and duty tokens, the call of its entry runs to the continuation holding the boundary, the buffers at
    `Vafter3 V d` and the same debts, every recorded wait within `Rec d` or at index `none`. -/
theorem region_step3 [∀ e, Nonempty (Elt F e)] (hO : ∀ c g, O c g none = 0) (d : Dev nD) {α : Type}
    (k : PUnit → Prog (TpuEff nD τ sig (Elt F) (SparseCore.Sig (ΛP (F := F)) 8) .tc) α) (Q : α → sProp (MT nD τ sig (HIx 8) (Elt F) ℕ UU ℕ)) :
    iprop(levAts (K (F := F)).L (K (F := F)).lev ∗ boundary (T d) ∗ unscopedBufs d (V d)
        ∗ (∃ W, ⌜∀ p ∈ W, p ∈ Rec d⌝ ∗ owes (T d) (O d) W)
        ∗ Pipeline.cellsGhost cfgs (EP (F := F)) 3 d ∗ Pipeline.toksInit cfgs (EP (F := F)) 3 d
        ∗ (iprop(boundary (T d) ∗ unscopedBufs d (Vafter3 V d) ∗ (∃ W, ⌜∀ p ∈ W, p ∈ Rec d ∨ p.2 = none⌝ ∗ owes (T d) (O d) W))
            -∗ wp frame (wpE ((K (F := F)).defs (D (F := F))) 𝒱 (T d) none) Set.univ (k ⟨⟩) Q))
      ⊢ wp frame (wpE ((K (F := F)).defs (D (F := F))) 𝒱 (T d) none) Set.univ
          (Prog.lift (.customCall (SparseCore.inner (Pipeline.entry 3)) ()) >>= k) Q := by
  rw [wp_bind]
  refine .trans ?_ ((K (F := F)).wp_liftProg (D (F := F)) 𝒱 (T d) Set.univ none (Prog.lift (.customCall (Pipeline.entry 3) ()))
    (fun x => wp frame (wpE ((K (F := F)).defs (D (F := F))) 𝒱 (T d) none) Set.univ (k x) Q))
  refine .trans ?_ (Pipeline.RegionSeg.wp (pcfgs (F := F)) adm (pd0 V O Rec) (none : HIx 8) cellOf_inj (EP (F := F)) (defs₀ (F := F)) 𝒱₀
    (K (F := F)).L (K (F := F)).lev (reg3 V O Rec hO) d none (fun _ h => nomatch h) (fun x => .ret x)
    (fun x => wp frame (wpE ((K (F := F)).defs (D (F := F))) 𝒱 (T d) none) Set.univ (k x) Q))
  rw [reg3_pre, reg3_post]; unfold pre3 post3 Pipeline.owesWithin
  iintro ⟨Hlev, Hb, Hub, ⟨%W, %hW, HO⟩, Hg, Ht, Hk⟩
  isplitl [Hk]
  · iintro ⟨Hb, Hub, ⟨%W', %hW', HO⟩⟩
    iapply (le_wp_ret _ _ _ _ _)
    iapply Hk
    isplitl [Hb]; · iexact Hb
    isplitl [Hub]; · iexact Hub
    iexists W'; isplitr
    · ipureintro
      intro p hp
      rcases hW' hp with h | ⟨w, s, rfl⟩
      · exact Or.inl h
      · exact Or.inr rfl
    iexact HO
  isplitl [Hb]; · iexact Hb
  isplitl [Hub HO]
  · isplitl [Hub]; · iexact Hub
    iexists W; isplitr; · ipureintro; exact fun p hp => hW p hp
    iexact HO
  isplitl [Hlev]; · iexact Hlev
  isplitl [Hg]; · iexact Hg
  iexact Ht

end Region3

end Cert.Proof.KI

end
-- ==== Proof.Region3.lean ====
/-
  TensorCore call 3's region step, in the form @main's pair step takes it.
-/
import proofs.«214101_g10505490006249_cont_week2b_118_28_alg».proof.Proof.PairDefs
import proofs.«214101_g10505490006249_cont_week2b_118_28_alg».proof.Proof.TcRegion3

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Transfers (shareTok shareDrop pointsTo_toks_split pointsTo_toks_join)

variable {F : FTy → Type}

local notation "𝕄" => MT nD τ sig (HIx 8) (Elt F) ℕ UU ℕ

variable [FloatOps F]

theorem hreg3 [∀ e, Nonempty (Elt F e)] : RegionStep (F := F) 3 main_v41 (tcRes3 (F := F)) := by
  intro V O Rec hO d α k Q
  have h := region_step3 (F := F) V O Rec hO d k Q
  unfold Vafter3 at h
  exact h

end Cert.Proof.KI

end
-- ==== Proof.TcRegion4.lean ====
/-
  Pipeline 4 (call 9) of the point-convolution program as one step of the TensorCore's thread, exactly as
  pipeline 0: from the region boundary, the core's unscoped buffers at given contents and its debts, the call of
  the pipeline's entry runs to the boundary again, the buffers unchanged but for that call's result array, which
  holds what the proof data computes, and the debts as they were.
-/
import proofs.«214101_g10505490006249_cont_week2b_118_28_alg».proof.Proof.TcRegion

set_option maxRecDepth 16384

noncomputable section

namespace Cert.Proof.KI

open Cert.KernelIdeal Cert.KernelIdeal.Gen Cert.Proof.Tc

open Idealize.ShloMosaic Idealize.ShloMosaic.TcCoe
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat unscopedRest owesWithin)

variable {F : FTy → Type} [FloatOps F]

/-! ## Pipeline 4 (call 9) -/

section Region4

variable (V : (c : Dev nD) → (b : Ref sig .tc) → Buf (Elt F) ((c : Thread nD τ).loc b))
  (O : Dev nD → CellTallies nD τ sig (HIx 8)) (Rec : Dev nD → Set (SemLoc sig × HIx 8))

/-- The result array of call 9 after the pipeline's run, from the contents `V` the call finds in the core's
    buffers: the array as found, every block overwritten by what the body stored at its point. -/
def tcRes4 (c : Dev nD) (V : (b : Ref sig .tc) → Buf (Elt F) ((c : Thread nD τ).loc b)) : Buf (Elt F) ((c : Thread nD τ).loc main_v43) :=
  (dat9 (Ix := HIx 8) (Name := ℕ) (U := UU) (Lvl := ℕ) c V iprop(emp) 0 Set.univ (fun _ => fullShare)).arrAt 9 cfg9.N

/-- The core's buffers after the call: the result array at what the run computes, every other as found. -/
def Vafter4 (c : Dev nD) : (b : Ref sig .tc) → Buf (Elt F) ((c : Thread nD τ).loc b) :=
  Function.update (V c) main_v43 (tcRes4 c (V c))

/-- The result array is the pipeline's last window. -/
theorem nine_lt4 : (9 : ℕ) < (Pipeline.pin (pcfgs (F := F)) adm 4).W := Nat.lt_succ_self 9

/-- The result array after the run is `tcRes4` of the entry contents: the other parameters do not enter. -/
theorem arrAt_final9_4 (c : Dev nD) :
    (pd0 V O Rec 4 c).arrAt 9 (Pipeline.pin (pcfgs (F := F)) adm 4).N = tcRes4 c (V c) := by
  unfold tcRes4
  exact arrAt_congr (pd0 V O Rec 4 c)
    (dat9 (Ix := HIx 8) (Name := ℕ) (U := UU) (Lvl := ℕ) c (V c) iprop(emp) 0 Set.univ (fun _ => fullShare) : Dat τ (Elt F) (HIx 8) ℕ UU ℕ (Pipeline.pin (pcfgs (F := F)) adm 4) c) 9
    ((pdats_4_A (F := F) (fun _ => V) Xe (fun _ => O) (fun _ => Rec) c 9).trans (A9_eq c (V c) iprop(emp) 0 Set.univ (fun _ => fullShare) 9).symm)
    (fun t => (pdats_4_after9 (F := F) (fun _ => V) Xe (fun _ => O) (fun _ => Rec) c t).trans (after9_9 c (V c) iprop(emp) 0 Set.univ (fun _ => fullShare) t).symm) _

/-- Every window's array after the run, read off the buffers after the call: the inputs' are never written, the
    result's is `tcRes4`. -/
theorem arrAt_final_4 (c : Dev nD) (w : Fin (Pipeline.pin (pcfgs (F := F)) adm 4).W) :
    (pd0 V O Rec 4 c).arrAt w (Pipeline.pin (pcfgs (F := F)) adm 4).N = Vafter4 V c (Pipeline.arrRef (Pipeline.pin (pcfgs (F := F)) adm 4).spec w) := by
  have hi : Function.Injective (Pipeline.arrRef (Pipeline.pin (pcfgs (F := F)) adm 4).spec) := launch9.win.arr_inj
  have hio : ∀ w : Fin 10, w.val ≠ 9 → (win9 w).isOut = false := by decide
  unfold Vafter4
  by_cases hw : w.val = 9
  · have h9 : w = (9 : Fin (Pipeline.pin (pcfgs (F := F)) adm 4).W) := Fin.ext (hw.trans (show (9 : ℕ) = (9 : Fin (Pipeline.pin (pcfgs (F := F)) adm 4).W).val from rfl))
    subst h9
    exact (arrAt_final9_4 V O Rec c).trans (Function.update_self main_v43 (tcRes4 c (V c)) (V c)).symm
  · have hne : Pipeline.arrRef (Pipeline.pin (pcfgs (F := F)) adm 4).spec w ≠ main_v43 := fun e =>
      hw (congrArg Fin.val (hi (show Pipeline.arrRef (Pipeline.pin (pcfgs (F := F)) adm 4).spec w = Pipeline.arrRef (Pipeline.pin (pcfgs (F := F)) adm 4).spec ⟨9, nine_lt4⟩ from e)))
    exact ((pd0 V O Rec 4 c).arrAt_in w (hio w hw) _).trans (Function.update_of_ne hne _ _).symm

/-- The rest of the unscoped buffers, which no window stages, does not see the result array. -/
theorem unscopedRest_after4 (c : Dev nD) :
    (unscopedRest (Ix := HIx 8) (Name := ℕ) (U := UU) (Lvl := ℕ) (Pipeline.pin (pcfgs (F := F)) adm 4).spec c (V c) : sProp (MT nD τ sig (HIx 8) (Elt F) ℕ UU ℕ))
      = unscopedRest (Pipeline.pin (pcfgs (F := F)) adm 4).spec c (Vafter4 V c) := by
  unfold Pipeline.unscopedRest Vafter4
  refine bigSep_congr fun b hb => ?_
  rw [Function.update_of_ne]
  intro e
  exact (Finset.mem_sdiff.mp hb).2 (Finset.mem_image.mpr ⟨⟨9, nine_lt4⟩, Finset.mem_univ _, (show Pipeline.arrRef (Pipeline.pin (pcfgs (F := F)) adm 4).spec ⟨9, nine_lt4⟩ = b from e.symm)⟩)

/-- What the region is entered from: the core's unscoped buffers at `V`, its debts with the recorded waits within `Rec`; -/
def pre4 (c : Dev nD) : sProp (MT nD τ sig (HIx 8) (Elt F) ℕ UU ℕ) := iprop(unscopedBufs c (V c) ∗ owesWithin c (O c) (Rec c))
/-- and what it leaves: the buffers after the call, the same debts, the pipeline's own waits recorded too. -/
def post4 (c : Dev nD) : sProp (MT nD τ sig (HIx 8) (Elt F) ℕ UU ℕ) :=
  iprop(unscopedBufs c (Vafter4 V c) ∗ owesWithin c (O c) (Rec c ∪ (Pipeline.pin (pcfgs (F := F)) adm 4).waitPairs none))

/-- PIPELINE 4 AS A REGION of the TensorCore's thread. Nothing but the scoped rest rides in the invariant; the
    arrays no window stages bypass the region; the body has no semaphore of its own; the pipeline's waits sit at
    index `none`, below everything the core owes. -/
def reg4 (hO : ∀ c g, O c g none = 0) :
    Pipeline.RegionSeg (pcfgs (F := F)) adm (pd0 V O Rec) (none : HIx 8) (defs₀ (F := F)) 𝒱₀ (K (F := F)).L (K (F := F)).lev 4 where
  win := launch9.win.to₀
  block_pos := launch9.block_pos
  stage_whole := launch9.stage_whole
  K := PEmpty
  osem k := k.elim
  ho := Pipeline.OwnSemFacts.none _
  hbody c := hbody4 (F := F) (fun _ => V) Xe (fun _ => O) (fun _ => Rec) c
  hwaits c := Pipeline.cellsWaits_intro (Pipeline.pin (pcfgs (F := F)) adm) (pd0 V O Rec) none 4 c
    fun w s t => (K (F := F)).mayWait_none _ (hO c)
  pre := pre4 V O Rec
  post := post4 V O Rec
  X c := iprop(emp)
  Y c := iprop(emp)
  Z c := unscopedRest (Pipeline.pin (pcfgs (F := F)) adm 4).spec c (V c)
  hentry c := by
    have hsplit := Pipeline.arrays_of_unscopedBufs (pcfgs (F := F)) adm (pd0 V O Rec) (p := 4) launch9.win launch9.arr_whole c
      ((pd0 V O Rec 4 c).share_full fun _ => rfl) (V c) fun _ => rfl
    unfold pre4
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW hp)
      iexact HO
    isplitr; · iempintro
    iexact Hr
  hin c := hin4 (F := F) (fun _ => V) Xe (fun _ => O) (fun _ => Rec) c
  hout c := hout4 (F := F) (fun _ => V) Xe (fun _ => O) (fun _ => Rec) c
  hexit c := by
    unfold post4
    rw [Pipeline.unscopedBufs_split (Pipeline.pin (pcfgs (F := F)) adm) 4 launch9.win.arr_unscoped launch9.win.arr_inj c (Vafter4 V c),
      Pipeline.arrays_eq (Pipeline.pin (pcfgs (F := F)) adm) (pd0 V O Rec) 4 c launch9.arr_whole ((pd0 V O Rec 4 c).share_full fun _ => rfl),
      ← unscopedRest_after4 V c]
    simp only [arrAt_final_4 V O Rec c]
    iintro ⟨Ha, HO, -, HZ⟩
    imodintro
    isplitr [HO]
    · isplitl [Ha]
      · iexact Ha
      · iexact HZ
    · iexact HO

theorem reg4_pre (hO : ∀ c g, O c g none = 0) : (reg4 V O Rec hO).pre = pre4 V O Rec := rfl
theorem reg4_post (hO : ∀ c g, O c g none = 0) : (reg4 V O Rec hO).post = post4 V O Rec := rfl

/-- THE STEP for pipeline 4: from the level facts, the region boundary, the unscoped buffers at `V d`, the core's
    debts `O d` (none at index `none`) with its recorded waits within `Rec d`, and the pipeline's launch ghost state
    and duty tokens, the call of its entry runs to the continuation holding the boundary, the buffers at
    `Vafter4 V d` and the same debts, every recorded wait within `Rec d` or at index `none`. -/
theorem region_step4 [∀ e, Nonempty (Elt F e)] (hO : ∀ c g, O c g none = 0) (d : Dev nD) {α : Type}
    (k : PUnit → Prog (TpuEff nD τ sig (Elt F) (SparseCore.Sig (ΛP (F := F)) 8) .tc) α) (Q : α → sProp (MT nD τ sig (HIx 8) (Elt F) ℕ UU ℕ)) :
    iprop(levAts (K (F := F)).L (K (F := F)).lev ∗ boundary (T d) ∗ unscopedBufs d (V d)
        ∗ (∃ W, ⌜∀ p ∈ W, p ∈ Rec d⌝ ∗ owes (T d) (O d) W)
        ∗ Pipeline.cellsGhost cfgs (EP (F := F)) 4 d ∗ Pipeline.toksInit cfgs (EP (F := F)) 4 d
        ∗ (iprop(boundary (T d) ∗ unscopedBufs d (Vafter4 V d) ∗ (∃ W, ⌜∀ p ∈ W, p ∈ Rec d ∨ p.2 = none⌝ ∗ owes (T d) (O d) W))
            -∗ wp frame (wpE ((K (F := F)).defs (D (F := F))) 𝒱 (T d) none) Set.univ (k ⟨⟩) Q))
      ⊢ wp frame (wpE ((K (F := F)).defs (D (F := F))) 𝒱 (T d) none) Set.univ
          (Prog.lift (.customCall (SparseCore.inner (Pipeline.entry 4)) ()) >>= k) Q := by
  rw [wp_bind]
  refine .trans ?_ ((K (F := F)).wp_liftProg (D (F := F)) 𝒱 (T d) Set.univ none (Prog.lift (.customCall (Pipeline.entry 4) ()))
    (fun x => wp frame (wpE ((K (F := F)).defs (D (F := F))) 𝒱 (T d) none) Set.univ (k x) Q))
  refine .trans ?_ (Pipeline.RegionSeg.wp (pcfgs (F := F)) adm (pd0 V O Rec) (none : HIx 8) cellOf_inj (EP (F := F)) (defs₀ (F := F)) 𝒱₀
    (K (F := F)).L (K (F := F)).lev (reg4 V O Rec hO) d none (fun _ h => nomatch h) (fun x => .ret x)
    (fun x => wp frame (wpE ((K (F := F)).defs (D (F := F))) 𝒱 (T d) none) Set.univ (k x) Q))
  rw [reg4_pre, reg4_post]; unfold pre4 post4 Pipeline.owesWithin
  iintro ⟨Hlev, Hb, Hub, ⟨%W, %hW, HO⟩, Hg, Ht, Hk⟩
  isplitl [Hk]
  · iintro ⟨Hb, Hub, ⟨%W', %hW', HO⟩⟩
    iapply (le_wp_ret _ _ _ _ _)
    iapply Hk
    isplitl [Hb]; · iexact Hb
    isplitl [Hub]; · iexact Hub
    iexists W'; isplitr
    · ipureintro
      intro p hp
      rcases hW' hp with h | ⟨w, s, rfl⟩
      · exact Or.inl h
      · exact Or.inr rfl
    iexact HO
  isplitl [Hb]; · iexact Hb
  isplitl [Hub HO]
  · isplitl [Hub]; · iexact Hub
    iexists W; isplitr; · ipureintro; exact fun p hp => hW p hp
    iexact HO
  isplitl [Hlev]; · iexact Hlev
  isplitl [Hg]; · iexact Hg
  iexact Ht

end Region4

end Cert.Proof.KI

end
-- ==== Proof.Region4.lean ====
/-
  TensorCore call 4's region step, in the form @main's pair step takes it.
-/
import proofs.«214101_g10505490006249_cont_week2b_118_28_alg».proof.Proof.PairDefs
import proofs.«214101_g10505490006249_cont_week2b_118_28_alg».proof.Proof.TcRegion4

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Transfers (shareTok shareDrop pointsTo_toks_split pointsTo_toks_join)

variable {F : FTy → Type}

local notation "𝕄" => MT nD τ sig (HIx 8) (Elt F) ℕ UU ℕ

variable [FloatOps F]

theorem hreg4 [∀ e, Nonempty (Elt F e)] : RegionStep (F := F) 4 main_v43 (tcRes4 (F := F)) := by
  intro V O Rec hO d α k Q
  have h := region_step4 (F := F) V O Rec hO d k Q
  unfold Vafter4 at h
  exact h

end Cert.Proof.KI

end
-- ==== Proof.TcRegion5.lean ====
/-
  Pipeline 5 (call 11) of the point-convolution program as one step of the TensorCore's thread, exactly as
  pipeline 0: from the region boundary, the core's unscoped buffers at given contents and its debts, the call of
  the pipeline's entry runs to the boundary again, the buffers unchanged but for that call's result array, which
  holds what the proof data computes, and the debts as they were.
-/
import proofs.«214101_g10505490006249_cont_week2b_118_28_alg».proof.Proof.TcRegion

set_option maxRecDepth 16384

noncomputable section

namespace Cert.Proof.KI

open Cert.KernelIdeal Cert.KernelIdeal.Gen Cert.Proof.Tc

open Idealize.ShloMosaic Idealize.ShloMosaic.TcCoe
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat unscopedRest owesWithin)

variable {F : FTy → Type} [FloatOps F]

/-! ## Pipeline 5 (call 11) -/

section Region5

variable (V : (c : Dev nD) → (b : Ref sig .tc) → Buf (Elt F) ((c : Thread nD τ).loc b))
  (O : Dev nD → CellTallies nD τ sig (HIx 8)) (Rec : Dev nD → Set (SemLoc sig × HIx 8))

/-- The result array of call 11 after the pipeline's run, from the contents `V` the call finds in the core's
    buffers: the array as found, every block overwritten by what the body stored at its point. -/
def tcRes5 (c : Dev nD) (V : (b : Ref sig .tc) → Buf (Elt F) ((c : Thread nD τ).loc b)) : Buf (Elt F) ((c : Thread nD τ).loc main_v45) :=
  (dat11 (Ix := HIx 8) (Name := ℕ) (U := UU) (Lvl := ℕ) c V iprop(emp) 0 Set.univ (fun _ => fullShare)).arrAt 9 cfg11.N

/-- The core's buffers after the call: the result array at what the run computes, every other as found. -/
def Vafter5 (c : Dev nD) : (b : Ref sig .tc) → Buf (Elt F) ((c : Thread nD τ).loc b) :=
  Function.update (V c) main_v45 (tcRes5 c (V c))

/-- The result array is the pipeline's last window. -/
theorem nine_lt5 : (9 : ℕ) < (Pipeline.pin (pcfgs (F := F)) adm 5).W := Nat.lt_succ_self 9

/-- The result array after the run is `tcRes5` of the entry contents: the other parameters do not enter. -/
theorem arrAt_final9_5 (c : Dev nD) :
    (pd0 V O Rec 5 c).arrAt 9 (Pipeline.pin (pcfgs (F := F)) adm 5).N = tcRes5 c (V c) := by
  unfold tcRes5
  exact arrAt_congr (pd0 V O Rec 5 c)
    (dat11 (Ix := HIx 8) (Name := ℕ) (U := UU) (Lvl := ℕ) c (V c) iprop(emp) 0 Set.univ (fun _ => fullShare) : Dat τ (Elt F) (HIx 8) ℕ UU ℕ (Pipeline.pin (pcfgs (F := F)) adm 5) c) 9
    ((pdats_5_A (F := F) (fun _ => V) Xe (fun _ => O) (fun _ => Rec) c 9).trans (A11_eq c (V c) iprop(emp) 0 Set.univ (fun _ => fullShare) 9).symm)
    (fun t => (pdats_5_after9 (F := F) (fun _ => V) Xe (fun _ => O) (fun _ => Rec) c t).trans (after11_9 c (V c) iprop(emp) 0 Set.univ (fun _ => fullShare) t).symm) _

/-- Every window's array after the run, read off the buffers after the call: the inputs' are never written, the
    result's is `tcRes5`. -/
theorem arrAt_final_5 (c : Dev nD) (w : Fin (Pipeline.pin (pcfgs (F := F)) adm 5).W) :
    (pd0 V O Rec 5 c).arrAt w (Pipeline.pin (pcfgs (F := F)) adm 5).N = Vafter5 V c (Pipeline.arrRef (Pipeline.pin (pcfgs (F := F)) adm 5).spec w) := by
  have hi : Function.Injective (Pipeline.arrRef (Pipeline.pin (pcfgs (F := F)) adm 5).spec) := launch11.win.arr_inj
  have hio : ∀ w : Fin 10, w.val ≠ 9 → (win11 w).isOut = false := by decide
  unfold Vafter5
  by_cases hw : w.val = 9
  · have h9 : w = (9 : Fin (Pipeline.pin (pcfgs (F := F)) adm 5).W) := Fin.ext (hw.trans (show (9 : ℕ) = (9 : Fin (Pipeline.pin (pcfgs (F := F)) adm 5).W).val from rfl))
    subst h9
    exact (arrAt_final9_5 V O Rec c).trans (Function.update_self main_v45 (tcRes5 c (V c)) (V c)).symm
  · have hne : Pipeline.arrRef (Pipeline.pin (pcfgs (F := F)) adm 5).spec w ≠ main_v45 := fun e =>
      hw (congrArg Fin.val (hi (show Pipeline.arrRef (Pipeline.pin (pcfgs (F := F)) adm 5).spec w = Pipeline.arrRef (Pipeline.pin (pcfgs (F := F)) adm 5).spec ⟨9, nine_lt5⟩ from e)))
    exact ((pd0 V O Rec 5 c).arrAt_in w (hio w hw) _).trans (Function.update_of_ne hne _ _).symm

/-- The rest of the unscoped buffers, which no window stages, does not see the result array. -/
theorem unscopedRest_after5 (c : Dev nD) :
    (unscopedRest (Ix := HIx 8) (Name := ℕ) (U := UU) (Lvl := ℕ) (Pipeline.pin (pcfgs (F := F)) adm 5).spec c (V c) : sProp (MT nD τ sig (HIx 8) (Elt F) ℕ UU ℕ))
      = unscopedRest (Pipeline.pin (pcfgs (F := F)) adm 5).spec c (Vafter5 V c) := by
  unfold Pipeline.unscopedRest Vafter5
  refine bigSep_congr fun b hb => ?_
  rw [Function.update_of_ne]
  intro e
  exact (Finset.mem_sdiff.mp hb).2 (Finset.mem_image.mpr ⟨⟨9, nine_lt5⟩, Finset.mem_univ _, (show Pipeline.arrRef (Pipeline.pin (pcfgs (F := F)) adm 5).spec ⟨9, nine_lt5⟩ = b from e.symm)⟩)

/-- What the region is entered from: the core's unscoped buffers at `V`, its debts with the recorded waits within `Rec`; -/
def pre5 (c : Dev nD) : sProp (MT nD τ sig (HIx 8) (Elt F) ℕ UU ℕ) := iprop(unscopedBufs c (V c) ∗ owesWithin c (O c) (Rec c))
/-- and what it leaves: the buffers after the call, the same debts, the pipeline's own waits recorded too. -/
def post5 (c : Dev nD) : sProp (MT nD τ sig (HIx 8) (Elt F) ℕ UU ℕ) :=
  iprop(unscopedBufs c (Vafter5 V c) ∗ owesWithin c (O c) (Rec c ∪ (Pipeline.pin (pcfgs (F := F)) adm 5).waitPairs none))

/-- PIPELINE 5 AS A REGION of the TensorCore's thread. Nothing but the scoped rest rides in the invariant; the
    arrays no window stages bypass the region; the body has no semaphore of its own; the pipeline's waits sit at
    index `none`, below everything the core owes. -/
def reg5 (hO : ∀ c g, O c g none = 0) :
    Pipeline.RegionSeg (pcfgs (F := F)) adm (pd0 V O Rec) (none : HIx 8) (defs₀ (F := F)) 𝒱₀ (K (F := F)).L (K (F := F)).lev 5 where
  win := launch11.win.to₀
  block_pos := launch11.block_pos
  stage_whole := launch11.stage_whole
  K := PEmpty
  osem k := k.elim
  ho := Pipeline.OwnSemFacts.none _
  hbody c := hbody5 (F := F) (fun _ => V) Xe (fun _ => O) (fun _ => Rec) c
  hwaits c := Pipeline.cellsWaits_intro (Pipeline.pin (pcfgs (F := F)) adm) (pd0 V O Rec) none 5 c
    fun w s t => (K (F := F)).mayWait_none _ (hO c)
  pre := pre5 V O Rec
  post := post5 V O Rec
  X c := iprop(emp)
  Y c := iprop(emp)
  Z c := unscopedRest (Pipeline.pin (pcfgs (F := F)) adm 5).spec c (V c)
  hentry c := by
    have hsplit := Pipeline.arrays_of_unscopedBufs (pcfgs (F := F)) adm (pd0 V O Rec) (p := 5) launch11.win launch11.arr_whole c
      ((pd0 V O Rec 5 c).share_full fun _ => rfl) (V c) fun _ => rfl
    unfold pre5
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW hp)
      iexact HO
    isplitr; · iempintro
    iexact Hr
  hin c := hin5 (F := F) (fun _ => V) Xe (fun _ => O) (fun _ => Rec) c
  hout c := hout5 (F := F) (fun _ => V) Xe (fun _ => O) (fun _ => Rec) c
  hexit c := by
    unfold post5
    rw [Pipeline.unscopedBufs_split (Pipeline.pin (pcfgs (F := F)) adm) 5 launch11.win.arr_unscoped launch11.win.arr_inj c (Vafter5 V c),
      Pipeline.arrays_eq (Pipeline.pin (pcfgs (F := F)) adm) (pd0 V O Rec) 5 c launch11.arr_whole ((pd0 V O Rec 5 c).share_full fun _ => rfl),
      ← unscopedRest_after5 V c]
    simp only [arrAt_final_5 V O Rec c]
    iintro ⟨Ha, HO, -, HZ⟩
    imodintro
    isplitr [HO]
    · isplitl [Ha]
      · iexact Ha
      · iexact HZ
    · iexact HO

theorem reg5_pre (hO : ∀ c g, O c g none = 0) : (reg5 V O Rec hO).pre = pre5 V O Rec := rfl
theorem reg5_post (hO : ∀ c g, O c g none = 0) : (reg5 V O Rec hO).post = post5 V O Rec := rfl

/-- THE STEP for pipeline 5: from the level facts, the region boundary, the unscoped buffers at `V d`, the core's
    debts `O d` (none at index `none`) with its recorded waits within `Rec d`, and the pipeline's launch ghost state
    and duty tokens, the call of its entry runs to the continuation holding the boundary, the buffers at
    `Vafter5 V d` and the same debts, every recorded wait within `Rec d` or at index `none`. -/
theorem region_step5 [∀ e, Nonempty (Elt F e)] (hO : ∀ c g, O c g none = 0) (d : Dev nD) {α : Type}
    (k : PUnit → Prog (TpuEff nD τ sig (Elt F) (SparseCore.Sig (ΛP (F := F)) 8) .tc) α) (Q : α → sProp (MT nD τ sig (HIx 8) (Elt F) ℕ UU ℕ)) :
    iprop(levAts (K (F := F)).L (K (F := F)).lev ∗ boundary (T d) ∗ unscopedBufs d (V d)
        ∗ (∃ W, ⌜∀ p ∈ W, p ∈ Rec d⌝ ∗ owes (T d) (O d) W)
        ∗ Pipeline.cellsGhost cfgs (EP (F := F)) 5 d ∗ Pipeline.toksInit cfgs (EP (F := F)) 5 d
        ∗ (iprop(boundary (T d) ∗ unscopedBufs d (Vafter5 V d) ∗ (∃ W, ⌜∀ p ∈ W, p ∈ Rec d ∨ p.2 = none⌝ ∗ owes (T d) (O d) W))
            -∗ wp frame (wpE ((K (F := F)).defs (D (F := F))) 𝒱 (T d) none) Set.univ (k ⟨⟩) Q))
      ⊢ wp frame (wpE ((K (F := F)).defs (D (F := F))) 𝒱 (T d) none) Set.univ
          (Prog.lift (.customCall (SparseCore.inner (Pipeline.entry 5)) ()) >>= k) Q := by
  rw [wp_bind]
  refine .trans ?_ ((K (F := F)).wp_liftProg (D (F := F)) 𝒱 (T d) Set.univ none (Prog.lift (.customCall (Pipeline.entry 5) ()))
    (fun x => wp frame (wpE ((K (F := F)).defs (D (F := F))) 𝒱 (T d) none) Set.univ (k x) Q))
  refine .trans ?_ (Pipeline.RegionSeg.wp (pcfgs (F := F)) adm (pd0 V O Rec) (none : HIx 8) cellOf_inj (EP (F := F)) (defs₀ (F := F)) 𝒱₀
    (K (F := F)).L (K (F := F)).lev (reg5 V O Rec hO) d none (fun _ h => nomatch h) (fun x => .ret x)
    (fun x => wp frame (wpE ((K (F := F)).defs (D (F := F))) 𝒱 (T d) none) Set.univ (k x) Q))
  rw [reg5_pre, reg5_post]; unfold pre5 post5 Pipeline.owesWithin
  iintro ⟨Hlev, Hb, Hub, ⟨%W, %hW, HO⟩, Hg, Ht, Hk⟩
  isplitl [Hk]
  · iintro ⟨Hb, Hub, ⟨%W', %hW', HO⟩⟩
    iapply (le_wp_ret _ _ _ _ _)
    iapply Hk
    isplitl [Hb]; · iexact Hb
    isplitl [Hub]; · iexact Hub
    iexists W'; isplitr
    · ipureintro
      intro p hp
      rcases hW' hp with h | ⟨w, s, rfl⟩
      · exact Or.inl h
      · exact Or.inr rfl
    iexact HO
  isplitl [Hb]; · iexact Hb
  isplitl [Hub HO]
  · isplitl [Hub]; · iexact Hub
    iexists W; isplitr; · ipureintro; exact fun p hp => hW p hp
    iexact HO
  isplitl [Hlev]; · iexact Hlev
  isplitl [Hg]; · iexact Hg
  iexact Ht

end Region5

end Cert.Proof.KI

end
-- ==== Proof.Region5.lean ====
/-
  TensorCore call 5's region step, in the form @main's pair step takes it.
-/
import proofs.«214101_g10505490006249_cont_week2b_118_28_alg».proof.Proof.PairDefs
import proofs.«214101_g10505490006249_cont_week2b_118_28_alg».proof.Proof.TcRegion5

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Transfers (shareTok shareDrop pointsTo_toks_split pointsTo_toks_join)

variable {F : FTy → Type}

local notation "𝕄" => MT nD τ sig (HIx 8) (Elt F) ℕ UU ℕ

variable [FloatOps F]

theorem hreg5 [∀ e, Nonempty (Elt F e)] : RegionStep (F := F) 5 main_v45 (tcRes5 (F := F)) := by
  intro V O Rec hO d α k Q
  have h := region_step5 (F := F) V O Rec hO d k Q
  unfold Vafter5 at h
  exact h

end Cert.Proof.KI

end
-- ==== Proof.TcRegion6.lean ====
/-
  Pipeline 6 (call 13) of the point-convolution program as one step of the TensorCore's thread, exactly as
  pipeline 0: from the region boundary, the core's unscoped buffers at given contents and its debts, the call of
  the pipeline's entry runs to the boundary again, the buffers unchanged but for that call's result array, which
  holds what the proof data computes, and the debts as they were.
-/
import proofs.«214101_g10505490006249_cont_week2b_118_28_alg».proof.Proof.TcRegion

set_option maxRecDepth 16384

noncomputable section

namespace Cert.Proof.KI

open Cert.KernelIdeal Cert.KernelIdeal.Gen Cert.Proof.Tc

open Idealize.ShloMosaic Idealize.ShloMosaic.TcCoe
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat unscopedRest owesWithin)

variable {F : FTy → Type} [FloatOps F]

/-! ## Pipeline 6 (call 13) -/

section Region6

variable (V : (c : Dev nD) → (b : Ref sig .tc) → Buf (Elt F) ((c : Thread nD τ).loc b))
  (O : Dev nD → CellTallies nD τ sig (HIx 8)) (Rec : Dev nD → Set (SemLoc sig × HIx 8))

/-- The result array of call 13 after the pipeline's run, from the contents `V` the call finds in the core's
    buffers: the array as found, every block overwritten by what the body stored at its point. -/
def tcRes6 (c : Dev nD) (V : (b : Ref sig .tc) → Buf (Elt F) ((c : Thread nD τ).loc b)) : Buf (Elt F) ((c : Thread nD τ).loc main_v47) :=
  (dat13 (Ix := HIx 8) (Name := ℕ) (U := UU) (Lvl := ℕ) c V iprop(emp) 0 Set.univ (fun _ => fullShare)).arrAt 9 cfg13.N

/-- The core's buffers after the call: the result array at what the run computes, every other as found. -/
def Vafter6 (c : Dev nD) : (b : Ref sig .tc) → Buf (Elt F) ((c : Thread nD τ).loc b) :=
  Function.update (V c) main_v47 (tcRes6 c (V c))

/-- The result array is the pipeline's last window. -/
theorem nine_lt6 : (9 : ℕ) < (Pipeline.pin (pcfgs (F := F)) adm 6).W := Nat.lt_succ_self 9

/-- The result array after the run is `tcRes6` of the entry contents: the other parameters do not enter. -/
theorem arrAt_final9_6 (c : Dev nD) :
    (pd0 V O Rec 6 c).arrAt 9 (Pipeline.pin (pcfgs (F := F)) adm 6).N = tcRes6 c (V c) := by
  unfold tcRes6
  exact arrAt_congr (pd0 V O Rec 6 c)
    (dat13 (Ix := HIx 8) (Name := ℕ) (U := UU) (Lvl := ℕ) c (V c) iprop(emp) 0 Set.univ (fun _ => fullShare) : Dat τ (Elt F) (HIx 8) ℕ UU ℕ (Pipeline.pin (pcfgs (F := F)) adm 6) c) 9
    ((pdats_6_A (F := F) (fun _ => V) Xe (fun _ => O) (fun _ => Rec) c 9).trans (A13_eq c (V c) iprop(emp) 0 Set.univ (fun _ => fullShare) 9).symm)
    (fun t => (pdats_6_after9 (F := F) (fun _ => V) Xe (fun _ => O) (fun _ => Rec) c t).trans (after13_9 c (V c) iprop(emp) 0 Set.univ (fun _ => fullShare) t).symm) _

/-- Every window's array after the run, read off the buffers after the call: the inputs' are never written, the
    result's is `tcRes6`. -/
theorem arrAt_final_6 (c : Dev nD) (w : Fin (Pipeline.pin (pcfgs (F := F)) adm 6).W) :
    (pd0 V O Rec 6 c).arrAt w (Pipeline.pin (pcfgs (F := F)) adm 6).N = Vafter6 V c (Pipeline.arrRef (Pipeline.pin (pcfgs (F := F)) adm 6).spec w) := by
  have hi : Function.Injective (Pipeline.arrRef (Pipeline.pin (pcfgs (F := F)) adm 6).spec) := launch13.win.arr_inj
  have hio : ∀ w : Fin 10, w.val ≠ 9 → (win13 w).isOut = false := by decide
  unfold Vafter6
  by_cases hw : w.val = 9
  · have h9 : w = (9 : Fin (Pipeline.pin (pcfgs (F := F)) adm 6).W) := Fin.ext (hw.trans (show (9 : ℕ) = (9 : Fin (Pipeline.pin (pcfgs (F := F)) adm 6).W).val from rfl))
    subst h9
    exact (arrAt_final9_6 V O Rec c).trans (Function.update_self main_v47 (tcRes6 c (V c)) (V c)).symm
  · have hne : Pipeline.arrRef (Pipeline.pin (pcfgs (F := F)) adm 6).spec w ≠ main_v47 := fun e =>
      hw (congrArg Fin.val (hi (show Pipeline.arrRef (Pipeline.pin (pcfgs (F := F)) adm 6).spec w = Pipeline.arrRef (Pipeline.pin (pcfgs (F := F)) adm 6).spec ⟨9, nine_lt6⟩ from e)))
    exact ((pd0 V O Rec 6 c).arrAt_in w (hio w hw) _).trans (Function.update_of_ne hne _ _).symm

/-- The rest of the unscoped buffers, which no window stages, does not see the result array. -/
theorem unscopedRest_after6 (c : Dev nD) :
    (unscopedRest (Ix := HIx 8) (Name := ℕ) (U := UU) (Lvl := ℕ) (Pipeline.pin (pcfgs (F := F)) adm 6).spec c (V c) : sProp (MT nD τ sig (HIx 8) (Elt F) ℕ UU ℕ))
      = unscopedRest (Pipeline.pin (pcfgs (F := F)) adm 6).spec c (Vafter6 V c) := by
  unfold Pipeline.unscopedRest Vafter6
  refine bigSep_congr fun b hb => ?_
  rw [Function.update_of_ne]
  intro e
  exact (Finset.mem_sdiff.mp hb).2 (Finset.mem_image.mpr ⟨⟨9, nine_lt6⟩, Finset.mem_univ _, (show Pipeline.arrRef (Pipeline.pin (pcfgs (F := F)) adm 6).spec ⟨9, nine_lt6⟩ = b from e.symm)⟩)

/-- What the region is entered from: the core's unscoped buffers at `V`, its debts with the recorded waits within `Rec`; -/
def pre6 (c : Dev nD) : sProp (MT nD τ sig (HIx 8) (Elt F) ℕ UU ℕ) := iprop(unscopedBufs c (V c) ∗ owesWithin c (O c) (Rec c))
/-- and what it leaves: the buffers after the call, the same debts, the pipeline's own waits recorded too. -/
def post6 (c : Dev nD) : sProp (MT nD τ sig (HIx 8) (Elt F) ℕ UU ℕ) :=
  iprop(unscopedBufs c (Vafter6 V c) ∗ owesWithin c (O c) (Rec c ∪ (Pipeline.pin (pcfgs (F := F)) adm 6).waitPairs none))

/-- PIPELINE 6 AS A REGION of the TensorCore's thread. Nothing but the scoped rest rides in the invariant; the
    arrays no window stages bypass the region; the body has no semaphore of its own; the pipeline's waits sit at
    index `none`, below everything the core owes. -/
def reg6 (hO : ∀ c g, O c g none = 0) :
    Pipeline.RegionSeg (pcfgs (F := F)) adm (pd0 V O Rec) (none : HIx 8) (defs₀ (F := F)) 𝒱₀ (K (F := F)).L (K (F := F)).lev 6 where
  win := launch13.win.to₀
  block_pos := launch13.block_pos
  stage_whole := launch13.stage_whole
  K := PEmpty
  osem k := k.elim
  ho := Pipeline.OwnSemFacts.none _
  hbody c := hbody6 (F := F) (fun _ => V) Xe (fun _ => O) (fun _ => Rec) c
  hwaits c := Pipeline.cellsWaits_intro (Pipeline.pin (pcfgs (F := F)) adm) (pd0 V O Rec) none 6 c
    fun w s t => (K (F := F)).mayWait_none _ (hO c)
  pre := pre6 V O Rec
  post := post6 V O Rec
  X c := iprop(emp)
  Y c := iprop(emp)
  Z c := unscopedRest (Pipeline.pin (pcfgs (F := F)) adm 6).spec c (V c)
  hentry c := by
    have hsplit := Pipeline.arrays_of_unscopedBufs (pcfgs (F := F)) adm (pd0 V O Rec) (p := 6) launch13.win launch13.arr_whole c
      ((pd0 V O Rec 6 c).share_full fun _ => rfl) (V c) fun _ => rfl
    unfold pre6
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW hp)
      iexact HO
    isplitr; · iempintro
    iexact Hr
  hin c := hin6 (F := F) (fun _ => V) Xe (fun _ => O) (fun _ => Rec) c
  hout c := hout6 (F := F) (fun _ => V) Xe (fun _ => O) (fun _ => Rec) c
  hexit c := by
    unfold post6
    rw [Pipeline.unscopedBufs_split (Pipeline.pin (pcfgs (F := F)) adm) 6 launch13.win.arr_unscoped launch13.win.arr_inj c (Vafter6 V c),
      Pipeline.arrays_eq (Pipeline.pin (pcfgs (F := F)) adm) (pd0 V O Rec) 6 c launch13.arr_whole ((pd0 V O Rec 6 c).share_full fun _ => rfl),
      ← unscopedRest_after6 V c]
    simp only [arrAt_final_6 V O Rec c]
    iintro ⟨Ha, HO, -, HZ⟩
    imodintro
    isplitr [HO]
    · isplitl [Ha]
      · iexact Ha
      · iexact HZ
    · iexact HO

theorem reg6_pre (hO : ∀ c g, O c g none = 0) : (reg6 V O Rec hO).pre = pre6 V O Rec := rfl
theorem reg6_post (hO : ∀ c g, O c g none = 0) : (reg6 V O Rec hO).post = post6 V O Rec := rfl

/-- THE STEP for pipeline 6: from the level facts, the region boundary, the unscoped buffers at `V d`, the core's
    debts `O d` (none at index `none`) with its recorded waits within `Rec d`, and the pipeline's launch ghost state
    and duty tokens, the call of its entry runs to the continuation holding the boundary, the buffers at
    `Vafter6 V d` and the same debts, every recorded wait within `Rec d` or at index `none`. -/
theorem region_step6 [∀ e, Nonempty (Elt F e)] (hO : ∀ c g, O c g none = 0) (d : Dev nD) {α : Type}
    (k : PUnit → Prog (TpuEff nD τ sig (Elt F) (SparseCore.Sig (ΛP (F := F)) 8) .tc) α) (Q : α → sProp (MT nD τ sig (HIx 8) (Elt F) ℕ UU ℕ)) :
    iprop(levAts (K (F := F)).L (K (F := F)).lev ∗ boundary (T d) ∗ unscopedBufs d (V d)
        ∗ (∃ W, ⌜∀ p ∈ W, p ∈ Rec d⌝ ∗ owes (T d) (O d) W)
        ∗ Pipeline.cellsGhost cfgs (EP (F := F)) 6 d ∗ Pipeline.toksInit cfgs (EP (F := F)) 6 d
        ∗ (iprop(boundary (T d) ∗ unscopedBufs d (Vafter6 V d) ∗ (∃ W, ⌜∀ p ∈ W, p ∈ Rec d ∨ p.2 = none⌝ ∗ owes (T d) (O d) W))
            -∗ wp frame (wpE ((K (F := F)).defs (D (F := F))) 𝒱 (T d) none) Set.univ (k ⟨⟩) Q))
      ⊢ wp frame (wpE ((K (F := F)).defs (D (F := F))) 𝒱 (T d) none) Set.univ
          (Prog.lift (.customCall (SparseCore.inner (Pipeline.entry 6)) ()) >>= k) Q := by
  rw [wp_bind]
  refine .trans ?_ ((K (F := F)).wp_liftProg (D (F := F)) 𝒱 (T d) Set.univ none (Prog.lift (.customCall (Pipeline.entry 6) ()))
    (fun x => wp frame (wpE ((K (F := F)).defs (D (F := F))) 𝒱 (T d) none) Set.univ (k x) Q))
  refine .trans ?_ (Pipeline.RegionSeg.wp (pcfgs (F := F)) adm (pd0 V O Rec) (none : HIx 8) cellOf_inj (EP (F := F)) (defs₀ (F := F)) 𝒱₀
    (K (F := F)).L (K (F := F)).lev (reg6 V O Rec hO) d none (fun _ h => nomatch h) (fun x => .ret x)
    (fun x => wp frame (wpE ((K (F := F)).defs (D (F := F))) 𝒱 (T d) none) Set.univ (k x) Q))
  rw [reg6_pre, reg6_post]; unfold pre6 post6 Pipeline.owesWithin
  iintro ⟨Hlev, Hb, Hub, ⟨%W, %hW, HO⟩, Hg, Ht, Hk⟩
  isplitl [Hk]
  · iintro ⟨Hb, Hub, ⟨%W', %hW', HO⟩⟩
    iapply (le_wp_ret _ _ _ _ _)
    iapply Hk
    isplitl [Hb]; · iexact Hb
    isplitl [Hub]; · iexact Hub
    iexists W'; isplitr
    · ipureintro
      intro p hp
      rcases hW' hp with h | ⟨w, s, rfl⟩
      · exact Or.inl h
      · exact Or.inr rfl
    iexact HO
  isplitl [Hb]; · iexact Hb
  isplitl [Hub HO]
  · isplitl [Hub]; · iexact Hub
    iexists W; isplitr; · ipureintro; exact fun p hp => hW p hp
    iexact HO
  isplitl [Hlev]; · iexact Hlev
  isplitl [Hg]; · iexact Hg
  iexact Ht

end Region6

end Cert.Proof.KI

end
-- ==== Proof.Region6.lean ====
/-
  TensorCore call 6's region step, in the form @main's pair step takes it.
-/
import proofs.«214101_g10505490006249_cont_week2b_118_28_alg».proof.Proof.PairDefs
import proofs.«214101_g10505490006249_cont_week2b_118_28_alg».proof.Proof.TcRegion6

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Transfers (shareTok shareDrop pointsTo_toks_split pointsTo_toks_join)

variable {F : FTy → Type}

local notation "𝕄" => MT nD τ sig (HIx 8) (Elt F) ℕ UU ℕ

variable [FloatOps F]

theorem hreg6 [∀ e, Nonempty (Elt F e)] : RegionStep (F := F) 6 main_v47 (tcRes6 (F := F)) := by
  intro V O Rec hO d α k Q
  have h := region_step6 (F := F) V O Rec hO d k Q
  unfold Vafter6 at h
  exact h

end Cert.Proof.KI

end
-- ==== Proof.TcRegion7.lean ====
/-
  Pipeline 7 (call 15) of the point-convolution program as one step of the TensorCore's thread, exactly as
  pipeline 0: from the region boundary, the core's unscoped buffers at given contents and its debts, the call of
  the pipeline's entry runs to the boundary again, the buffers unchanged but for that call's result array, which
  holds what the proof data computes, and the debts as they were.
-/
import proofs.«214101_g10505490006249_cont_week2b_118_28_alg».proof.Proof.TcRegion

set_option maxRecDepth 16384

noncomputable section

namespace Cert.Proof.KI

open Cert.KernelIdeal Cert.KernelIdeal.Gen Cert.Proof.Tc

open Idealize.ShloMosaic Idealize.ShloMosaic.TcCoe
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat unscopedRest owesWithin)

variable {F : FTy → Type} [FloatOps F]

/-! ## Pipeline 7 (call 15) -/

section Region7

variable (V : (c : Dev nD) → (b : Ref sig .tc) → Buf (Elt F) ((c : Thread nD τ).loc b))
  (O : Dev nD → CellTallies nD τ sig (HIx 8)) (Rec : Dev nD → Set (SemLoc sig × HIx 8))

/-- The result array of call 15 after the pipeline's run, from the contents `V` the call finds in the core's
    buffers: the array as found, every block overwritten by what the body stored at its point. -/
def tcRes7 (c : Dev nD) (V : (b : Ref sig .tc) → Buf (Elt F) ((c : Thread nD τ).loc b)) : Buf (Elt F) ((c : Thread nD τ).loc main_v49) :=
  (dat15 (Ix := HIx 8) (Name := ℕ) (U := UU) (Lvl := ℕ) c V iprop(emp) 0 Set.univ (fun _ => fullShare)).arrAt 9 cfg15.N

/-- The core's buffers after the call: the result array at what the run computes, every other as found. -/
def Vafter7 (c : Dev nD) : (b : Ref sig .tc) → Buf (Elt F) ((c : Thread nD τ).loc b) :=
  Function.update (V c) main_v49 (tcRes7 c (V c))

/-- The result array is the pipeline's last window. -/
theorem nine_lt7 : (9 : ℕ) < (Pipeline.pin (pcfgs (F := F)) adm 7).W := Nat.lt_succ_self 9

/-- The result array after the run is `tcRes7` of the entry contents: the other parameters do not enter. -/
theorem arrAt_final9_7 (c : Dev nD) :
    (pd0 V O Rec 7 c).arrAt 9 (Pipeline.pin (pcfgs (F := F)) adm 7).N = tcRes7 c (V c) := by
  unfold tcRes7
  exact arrAt_congr (pd0 V O Rec 7 c)
    (dat15 (Ix := HIx 8) (Name := ℕ) (U := UU) (Lvl := ℕ) c (V c) iprop(emp) 0 Set.univ (fun _ => fullShare) : Dat τ (Elt F) (HIx 8) ℕ UU ℕ (Pipeline.pin (pcfgs (F := F)) adm 7) c) 9
    ((pdats_7_A (F := F) (fun _ => V) Xe (fun _ => O) (fun _ => Rec) c 9).trans (A15_eq c (V c) iprop(emp) 0 Set.univ (fun _ => fullShare) 9).symm)
    (fun t => (pdats_7_after9 (F := F) (fun _ => V) Xe (fun _ => O) (fun _ => Rec) c t).trans (after15_9 c (V c) iprop(emp) 0 Set.univ (fun _ => fullShare) t).symm) _

/-- Every window's array after the run, read off the buffers after the call: the inputs' are never written, the
    result's is `tcRes7`. -/
theorem arrAt_final_7 (c : Dev nD) (w : Fin (Pipeline.pin (pcfgs (F := F)) adm 7).W) :
    (pd0 V O Rec 7 c).arrAt w (Pipeline.pin (pcfgs (F := F)) adm 7).N = Vafter7 V c (Pipeline.arrRef (Pipeline.pin (pcfgs (F := F)) adm 7).spec w) := by
  have hi : Function.Injective (Pipeline.arrRef (Pipeline.pin (pcfgs (F := F)) adm 7).spec) := launch15.win.arr_inj
  have hio : ∀ w : Fin 10, w.val ≠ 9 → (win15 w).isOut = false := by decide
  unfold Vafter7
  by_cases hw : w.val = 9
  · have h9 : w = (9 : Fin (Pipeline.pin (pcfgs (F := F)) adm 7).W) := Fin.ext (hw.trans (show (9 : ℕ) = (9 : Fin (Pipeline.pin (pcfgs (F := F)) adm 7).W).val from rfl))
    subst h9
    exact (arrAt_final9_7 V O Rec c).trans (Function.update_self main_v49 (tcRes7 c (V c)) (V c)).symm
  · have hne : Pipeline.arrRef (Pipeline.pin (pcfgs (F := F)) adm 7).spec w ≠ main_v49 := fun e =>
      hw (congrArg Fin.val (hi (show Pipeline.arrRef (Pipeline.pin (pcfgs (F := F)) adm 7).spec w = Pipeline.arrRef (Pipeline.pin (pcfgs (F := F)) adm 7).spec ⟨9, nine_lt7⟩ from e)))
    exact ((pd0 V O Rec 7 c).arrAt_in w (hio w hw) _).trans (Function.update_of_ne hne _ _).symm

/-- The rest of the unscoped buffers, which no window stages, does not see the result array. -/
theorem unscopedRest_after7 (c : Dev nD) :
    (unscopedRest (Ix := HIx 8) (Name := ℕ) (U := UU) (Lvl := ℕ) (Pipeline.pin (pcfgs (F := F)) adm 7).spec c (V c) : sProp (MT nD τ sig (HIx 8) (Elt F) ℕ UU ℕ))
      = unscopedRest (Pipeline.pin (pcfgs (F := F)) adm 7).spec c (Vafter7 V c) := by
  unfold Pipeline.unscopedRest Vafter7
  refine bigSep_congr fun b hb => ?_
  rw [Function.update_of_ne]
  intro e
  exact (Finset.mem_sdiff.mp hb).2 (Finset.mem_image.mpr ⟨⟨9, nine_lt7⟩, Finset.mem_univ _, (show Pipeline.arrRef (Pipeline.pin (pcfgs (F := F)) adm 7).spec ⟨9, nine_lt7⟩ = b from e.symm)⟩)

/-- What the region is entered from: the core's unscoped buffers at `V`, its debts with the recorded waits within `Rec`; -/
def pre7 (c : Dev nD) : sProp (MT nD τ sig (HIx 8) (Elt F) ℕ UU ℕ) := iprop(unscopedBufs c (V c) ∗ owesWithin c (O c) (Rec c))
/-- and what it leaves: the buffers after the call, the same debts, the pipeline's own waits recorded too. -/
def post7 (c : Dev nD) : sProp (MT nD τ sig (HIx 8) (Elt F) ℕ UU ℕ) :=
  iprop(unscopedBufs c (Vafter7 V c) ∗ owesWithin c (O c) (Rec c ∪ (Pipeline.pin (pcfgs (F := F)) adm 7).waitPairs none))

/-- PIPELINE 7 AS A REGION of the TensorCore's thread. Nothing but the scoped rest rides in the invariant; the
    arrays no window stages bypass the region; the body has no semaphore of its own; the pipeline's waits sit at
    index `none`, below everything the core owes. -/
def reg7 (hO : ∀ c g, O c g none = 0) :
    Pipeline.RegionSeg (pcfgs (F := F)) adm (pd0 V O Rec) (none : HIx 8) (defs₀ (F := F)) 𝒱₀ (K (F := F)).L (K (F := F)).lev 7 where
  win := launch15.win.to₀
  block_pos := launch15.block_pos
  stage_whole := launch15.stage_whole
  K := PEmpty
  osem k := k.elim
  ho := Pipeline.OwnSemFacts.none _
  hbody c := hbody7 (F := F) (fun _ => V) Xe (fun _ => O) (fun _ => Rec) c
  hwaits c := Pipeline.cellsWaits_intro (Pipeline.pin (pcfgs (F := F)) adm) (pd0 V O Rec) none 7 c
    fun w s t => (K (F := F)).mayWait_none _ (hO c)
  pre := pre7 V O Rec
  post := post7 V O Rec
  X c := iprop(emp)
  Y c := iprop(emp)
  Z c := unscopedRest (Pipeline.pin (pcfgs (F := F)) adm 7).spec c (V c)
  hentry c := by
    have hsplit := Pipeline.arrays_of_unscopedBufs (pcfgs (F := F)) adm (pd0 V O Rec) (p := 7) launch15.win launch15.arr_whole c
      ((pd0 V O Rec 7 c).share_full fun _ => rfl) (V c) fun _ => rfl
    unfold pre7
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW hp)
      iexact HO
    isplitr; · iempintro
    iexact Hr
  hin c := hin7 (F := F) (fun _ => V) Xe (fun _ => O) (fun _ => Rec) c
  hout c := hout7 (F := F) (fun _ => V) Xe (fun _ => O) (fun _ => Rec) c
  hexit c := by
    unfold post7
    rw [Pipeline.unscopedBufs_split (Pipeline.pin (pcfgs (F := F)) adm) 7 launch15.win.arr_unscoped launch15.win.arr_inj c (Vafter7 V c),
      Pipeline.arrays_eq (Pipeline.pin (pcfgs (F := F)) adm) (pd0 V O Rec) 7 c launch15.arr_whole ((pd0 V O Rec 7 c).share_full fun _ => rfl),
      ← unscopedRest_after7 V c]
    simp only [arrAt_final_7 V O Rec c]
    iintro ⟨Ha, HO, -, HZ⟩
    imodintro
    isplitr [HO]
    · isplitl [Ha]
      · iexact Ha
      · iexact HZ
    · iexact HO

theorem reg7_pre (hO : ∀ c g, O c g none = 0) : (reg7 V O Rec hO).pre = pre7 V O Rec := rfl
theorem reg7_post (hO : ∀ c g, O c g none = 0) : (reg7 V O Rec hO).post = post7 V O Rec := rfl

/-- THE STEP for pipeline 7: from the level facts, the region boundary, the unscoped buffers at `V d`, the core's
    debts `O d` (none at index `none`) with its recorded waits within `Rec d`, and the pipeline's launch ghost state
    and duty tokens, the call of its entry runs to the continuation holding the boundary, the buffers at
    `Vafter7 V d` and the same debts, every recorded wait within `Rec d` or at index `none`. -/
theorem region_step7 [∀ e, Nonempty (Elt F e)] (hO : ∀ c g, O c g none = 0) (d : Dev nD) {α : Type}
    (k : PUnit → Prog (TpuEff nD τ sig (Elt F) (SparseCore.Sig (ΛP (F := F)) 8) .tc) α) (Q : α → sProp (MT nD τ sig (HIx 8) (Elt F) ℕ UU ℕ)) :
    iprop(levAts (K (F := F)).L (K (F := F)).lev ∗ boundary (T d) ∗ unscopedBufs d (V d)
        ∗ (∃ W, ⌜∀ p ∈ W, p ∈ Rec d⌝ ∗ owes (T d) (O d) W)
        ∗ Pipeline.cellsGhost cfgs (EP (F := F)) 7 d ∗ Pipeline.toksInit cfgs (EP (F := F)) 7 d
        ∗ (iprop(boundary (T d) ∗ unscopedBufs d (Vafter7 V d) ∗ (∃ W, ⌜∀ p ∈ W, p ∈ Rec d ∨ p.2 = none⌝ ∗ owes (T d) (O d) W))
            -∗ wp frame (wpE ((K (F := F)).defs (D (F := F))) 𝒱 (T d) none) Set.univ (k ⟨⟩) Q))
      ⊢ wp frame (wpE ((K (F := F)).defs (D (F := F))) 𝒱 (T d) none) Set.univ
          (Prog.lift (.customCall (SparseCore.inner (Pipeline.entry 7)) ()) >>= k) Q := by
  rw [wp_bind]
  refine .trans ?_ ((K (F := F)).wp_liftProg (D (F := F)) 𝒱 (T d) Set.univ none (Prog.lift (.customCall (Pipeline.entry 7) ()))
    (fun x => wp frame (wpE ((K (F := F)).defs (D (F := F))) 𝒱 (T d) none) Set.univ (k x) Q))
  refine .trans ?_ (Pipeline.RegionSeg.wp (pcfgs (F := F)) adm (pd0 V O Rec) (none : HIx 8) cellOf_inj (EP (F := F)) (defs₀ (F := F)) 𝒱₀
    (K (F := F)).L (K (F := F)).lev (reg7 V O Rec hO) d none (fun _ h => nomatch h) (fun x => .ret x)
    (fun x => wp frame (wpE ((K (F := F)).defs (D (F := F))) 𝒱 (T d) none) Set.univ (k x) Q))
  rw [reg7_pre, reg7_post]; unfold pre7 post7 Pipeline.owesWithin
  iintro ⟨Hlev, Hb, Hub, ⟨%W, %hW, HO⟩, Hg, Ht, Hk⟩
  isplitl [Hk]
  · iintro ⟨Hb, Hub, ⟨%W', %hW', HO⟩⟩
    iapply (le_wp_ret _ _ _ _ _)
    iapply Hk
    isplitl [Hb]; · iexact Hb
    isplitl [Hub]; · iexact Hub
    iexists W'; isplitr
    · ipureintro
      intro p hp
      rcases hW' hp with h | ⟨w, s, rfl⟩
      · exact Or.inl h
      · exact Or.inr rfl
    iexact HO
  isplitl [Hb]; · iexact Hb
  isplitl [Hub HO]
  · isplitl [Hub]; · iexact Hub
    iexists W; isplitr; · ipureintro; exact fun p hp => hW p hp
    iexact HO
  isplitl [Hlev]; · iexact Hlev
  isplitl [Hg]; · iexact Hg
  iexact Ht

end Region7

end Cert.Proof.KI

end
-- ==== Proof.Region7.lean ====
/-
  TensorCore call 7's region step, in the form @main's pair step takes it.
-/
import proofs.«214101_g10505490006249_cont_week2b_118_28_alg».proof.Proof.PairDefs
import proofs.«214101_g10505490006249_cont_week2b_118_28_alg».proof.Proof.TcRegion7

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Transfers (shareTok shareDrop pointsTo_toks_split pointsTo_toks_join)

variable {F : FTy → Type}

local notation "𝕄" => MT nD τ sig (HIx 8) (Elt F) ℕ UU ℕ

variable [FloatOps F]

theorem hreg7 [∀ e, Nonempty (Elt F e)] : RegionStep (F := F) 7 main_v49 (tcRes7 (F := F)) := by
  intro V O Rec hO d α k Q
  have h := region_step7 (F := F) V O Rec hO d k Q
  unfold Vafter7 at h
  exact h

end Cert.Proof.KI

end
-- ==== Proof.TcBody1W.lean ====
/-
  The TensorCore body of point-convolution call 1, run once on whole staging buffers, and the proof data of
  its pipeline.

  The body reads nine blocks whole — the gathered rows, the per-point bias of the first layer, the three layers'
  weights and biases, the output weights and the output bias — and stores one block whole: the output weights
  applied to the flattened products of the third layer's activations with the gathered features, plus the output
  bias. Nothing else is touched: every input buffer is handed back as it was found, and what the output buffer
  held before is overwritten everywhere. The statement is made once over arbitrary whole memrefs and arbitrary
  contents, then at the staging buffers the pipeline calls the body with at a grid point, and last in the form
  the pipeline rule asks of a body: for any proof data whose input windows are found and left at given blocks,
  whose output window is left at the stored block, and whose invariant and debts pass through unchanged. The
  proof data itself is stated over arbitrary contents of the ten windows' arrays: each input window's staging
  buffer holds that array's block at the point, fetched there or not, and the output window's holds the stored
  block computed from them.
-/
import proofs.«214101_g10505490006249_cont_week2b_118_28_alg».proof.Proof.Gen.Kernel.Launch
import proofs.«214101_g10505490006249_cont_week2b_118_28_alg».proof.Proof.Gen.Kernel.Skeleton
import proofs.«214101_g10505490006249_cont_week2b_118_28_alg».proof.Proof.Gen.Kernel.Points
import Idealize.ShloMosaic.Lib.Pipeline.FrameBody
import Idealize.ShloMosaic.Lib.Pipeline.Value
import Idealize.ShloMosaic.Lib.Tactic

set_option maxRecDepth 16384

noncomputable section

namespace Cert.Proof.TcW

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## The body on whole memrefs -/

/-- The offsets of every whole-block access: zero on both axes. -/
theorem zeros1 : (![0, 0] : Fin 2 → Nat) = fun _ => 0 := by funext a; fin_cases a <;> rfl

/-- The one store of the body covers the output block. -/
theorem cover1 (p0 : Vec F S1024x64 .f32) (y : S1024x64.Idx) :
    ∃ pc ∈ ([⟨Rect.unit (s := S1024x64) ![0, 0] S1024x64.size inb_S1024x64_S1024x64_0_0, p0⟩] : List (View.Piece (Elt F) S1024x64 .f32)), y ∈ pc.1.set :=
  ⟨_, List.mem_singleton_self _, View.mem_set_unit_zero zeros1 inb_S1024x64_S1024x64_0_0 y⟩

set_option maxHeartbeats 1000000 in
/-- The body on ten whole memrefs, the nine inputs' read at `x0 … x8` and the output's at anything, runs to the
    continuation holding the inputs' as they were and the output's at the stored block: the output weights `x7`
    applied to the flattened products computed from `x0 … x6`, plus the output bias `x8`. -/
theorem sound_kernel1 (c : Dev nD) (E : Set Name) (i : grid1.Coords)
    (arg1 : Memref sig .tc .vmem S16384x128 .f32) (harg1 : arg1.IsWhole) (arg2 : Memref sig .tc .vmem S1024x32 .f32) (harg2 : arg2.IsWhole) (arg3 : Memref sig .tc .vmem S128x32 .f32) (harg3 : arg3.IsWhole) (arg4 : Memref sig .tc .vmem S32x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S1024x64 .f32) (harg8 : arg8.IsWhole) (arg9 : Memref sig .tc .vmem S1x64 .f32) (harg9 : arg9.IsWhole) (arg10 : Memref sig .tc .vmem S1024x64 .f32) (harg10 : arg10.IsWhole)
    (x0 : Vec F S16384x128 .f32) (x1 : Vec F S1024x32 .f32) (x2 : Vec F S128x32 .f32) (x3 : Vec F S32x16 .f32) (x4 : Vec F S1x16 .f32) (x5 : Vec F S16x16 .f32) (x6 : Vec F S1x16 .f32) (x7 : Vec F S1024x64 .f32) (x8 : Vec F S1x64 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ owns (c : Thread nD τ) arg10 fullShare (k1_pay1 (k1_pay2 x0 x2 x1 x3 x4 x5 x6) x7 x8)) -∗ K ⟨⟩))
      ⊢ wp frame (wpE (defs₀ (F := F)) Variants.none c none) E (cc1__tc_body i arg1 harg1 arg2 harg2 arg3 harg3 arg4 harg4 arg5 harg5 arg6 harg6 arg7 harg7 arg8 harg8 arg9 harg9 arg10 harg10) K := by
  simp only [cc1__tc_body_eq_skeleton]; unfold cc1__tc_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  rw [View.read_writes_eq_canon _ _ _ (cover1 _), View.canon_unit_zero zeros1]
  unfold sound_kernel1.sl.r
  simp only [View.readAt_eq_ld, View.ld_unit_zero (S := S16384x128) zeros1, View.ld_unit_zero (S := S128x32) zeros1, View.ld_unit_zero (S := S1024x32) zeros1, View.ld_unit_zero (S := S32x16) zeros1, View.ld_unit_zero (S := S1x16) zeros1, View.ld_unit_zero (S := S16x16) zeros1, View.ld_unit_zero (S := S1024x64) zeros1, View.ld_unit_zero (S := S1x64) zeros1]

/-! ## The body at a grid point, for any proof data of the call -/

section Obligation

variable {c : Dev nD} (dat : Dat τ (Elt F) Ix Name U Lvl cfg1 c) (ι : Ix)
  (x0 : Fin cfg1.N → Vec F S16384x128 .f32) (x1 : Fin cfg1.N → Vec F S1024x32 .f32) (x2 : Fin cfg1.N → Vec F S128x32 .f32) (x3 : Fin cfg1.N → Vec F S32x16 .f32) (x4 : Fin cfg1.N → Vec F S1x16 .f32) (x5 : Fin cfg1.N → Vec F S16x16 .f32) (x6 : Fin cfg1.N → Vec F S1x16 .f32) (x7 : Fin cfg1.N → Vec F S1024x64 .f32) (x8 : Fin cfg1.N → Vec F S1x64 .f32)

/-- The body at point `t` on the staging buffers the pipeline calls it with. The proof data's input windows are
    found at the blocks `x0 t … x8 t` (`hb`) and left there (`ha`), its output window is left at the stored block
    (`ha9`), and its invariant and the core's debts at the next point follow from those before (`hΦ`, `ho`): they
    pass through the body unread. -/
theorem sound_body1
    (hb0 : ∀ t d, dat.before 0 t d = x0 t) (hb1 : ∀ t d, dat.before 1 t d = x1 t) (hb2 : ∀ t d, dat.before 2 t d = x2 t) (hb3 : ∀ t d, dat.before 3 t d = x3 t) (hb4 : ∀ t d, dat.before 4 t d = x4 t) (hb5 : ∀ t d, dat.before 5 t d = x5 t) (hb6 : ∀ t d, dat.before 6 t d = x6 t) (hb7 : ∀ t d, dat.before 7 t d = x7 t) (hb8 : ∀ t d, dat.before 8 t d = x8 t)
    (ha0 : ∀ t, dat.after 0 t = x0 t) (ha1 : ∀ t, dat.after 1 t = x1 t) (ha2 : ∀ t, dat.after 2 t = x2 t) (ha3 : ∀ t, dat.after 3 t = x3 t) (ha4 : ∀ t, dat.after 4 t = x4 t) (ha5 : ∀ t, dat.after 5 t = x5 t) (ha6 : ∀ t, dat.after 6 t = x6 t) (ha7 : ∀ t, dat.after 7 t = x7 t) (ha8 : ∀ t, dat.after 8 t = x8 t)
    (ha9 : ∀ t, dat.after 9 t = k1_pay1 (k1_pay2 (x0 t) (x2 t) (x1 t) (x3 t) (x4 t) (x5 t) (x6 t)) (x7 t) (x8 t))
    (hΦ : ∀ t : Fin cfg1.N, dat.Φ t.castSucc ⊢ dat.Φ t.succ)
    (ho : ∀ t : Fin cfg1.N, dat.owesAt ι t.castSucc ⊢ dat.owesAt ι t.succ) (t : Fin cfg1.N) :
    iprop(dat.Φ t.castSucc ∗ dat.owesAt ι t.castSucc
      ∗ (∃ d, owns (c : Thread nD τ) (st1_0 t) fullShare (dat.before 0 t d))
      ∗ (∃ d, owns (c : Thread nD τ) (st1_1 t) fullShare (dat.before 1 t d))
      ∗ (∃ d, owns (c : Thread nD τ) (st1_2 t) fullShare (dat.before 2 t d))
      ∗ (∃ d, owns (c : Thread nD τ) (st1_3 t) fullShare (dat.before 3 t d))
      ∗ (∃ d, owns (c : Thread nD τ) (st1_4 t) fullShare (dat.before 4 t d))
      ∗ (∃ d, owns (c : Thread nD τ) (st1_5 t) fullShare (dat.before 5 t d))
      ∗ (∃ d, owns (c : Thread nD τ) (st1_6 t) fullShare (dat.before 6 t d))
      ∗ (∃ d, owns (c : Thread nD τ) (st1_7 t) fullShare (dat.before 7 t d))
      ∗ (∃ d, owns (c : Thread nD τ) (st1_8 t) fullShare (dat.before 8 t d))
      ∗ (∃ d, owns (c : Thread nD τ) (st1_9 t) fullShare (dat.before 9 t d)))
    ⊢ wp frame (wpE (defs₀ (F := F)) Variants.none c none) Set.univ (bodyAt1 t) (fun _ =>
        iprop(dat.Φ t.succ ∗ dat.owesAt ι t.succ
          ∗ owns (c : Thread nD τ) (st1_0 t) fullShare (dat.after 0 t)
          ∗ owns (c : Thread nD τ) (st1_1 t) fullShare (dat.after 1 t)
          ∗ owns (c : Thread nD τ) (st1_2 t) fullShare (dat.after 2 t)
          ∗ owns (c : Thread nD τ) (st1_3 t) fullShare (dat.after 3 t)
          ∗ owns (c : Thread nD τ) (st1_4 t) fullShare (dat.after 4 t)
          ∗ owns (c : Thread nD τ) (st1_5 t) fullShare (dat.after 5 t)
          ∗ owns (c : Thread nD τ) (st1_6 t) fullShare (dat.after 6 t)
          ∗ owns (c : Thread nD τ) (st1_7 t) fullShare (dat.after 7 t)
          ∗ owns (c : Thread nD τ) (st1_8 t) fullShare (dat.after 8 t)
          ∗ owns (c : Thread nD τ) (st1_9 t) fullShare (dat.after 9 t))) := by
  unfold bodyAt1
  simp only [hb0, hb1, hb2, hb3, hb4, hb5, hb6, hb7, hb8, ha0, ha1, ha2, ha3, ha4, ha5, ha6, ha7, ha8, ha9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ (grid1.coords t) _ _ _ _ _ _ _ _ _ _ _ _ _ _ _ _ _ _ _ _ (x0 t) (x1 t) (x2 t) (x3 t) (x4 t) (x5 t) (x6 t) (x7 t) (x8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iapply (hΦ t); iexact HΦ
  isplitl [Ho]; · iapply (ho t); iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline rule's body obligation for the call, at every point, under the same hypotheses. -/
theorem body_obligation1_of
    (hb0 : ∀ t d, dat.before 0 t d = x0 t) (hb1 : ∀ t d, dat.before 1 t d = x1 t) (hb2 : ∀ t d, dat.before 2 t d = x2 t) (hb3 : ∀ t d, dat.before 3 t d = x3 t) (hb4 : ∀ t d, dat.before 4 t d = x4 t) (hb5 : ∀ t d, dat.before 5 t d = x5 t) (hb6 : ∀ t d, dat.before 6 t d = x6 t) (hb7 : ∀ t d, dat.before 7 t d = x7 t) (hb8 : ∀ t d, dat.before 8 t d = x8 t)
    (ha0 : ∀ t, dat.after 0 t = x0 t) (ha1 : ∀ t, dat.after 1 t = x1 t) (ha2 : ∀ t, dat.after 2 t = x2 t) (ha3 : ∀ t, dat.after 3 t = x3 t) (ha4 : ∀ t, dat.after 4 t = x4 t) (ha5 : ∀ t, dat.after 5 t = x5 t) (ha6 : ∀ t, dat.after 6 t = x6 t) (ha7 : ∀ t, dat.after 7 t = x7 t) (ha8 : ∀ t, dat.after 8 t = x8 t)
    (ha9 : ∀ t, dat.after 9 t = k1_pay1 (k1_pay2 (x0 t) (x2 t) (x1 t) (x3 t) (x4 t) (x5 t) (x6 t)) (x7 t) (x8 t))
    (hΦ : ∀ t : Fin cfg1.N, dat.Φ t.castSucc ⊢ dat.Φ t.succ)
    (ho : ∀ t : Fin cfg1.N, dat.owesAt ι t.castSucc ⊢ dat.owesAt ι t.succ) :
    BodyObligation dat (defs₀ (F := F)) Variants.none ι Set.univ := fun t => by
  rw [bigSep_W1, bigSep_W1]
  exact sound_body1 dat ι x0 x1 x2 x3 x4 x5 x6 x7 x8 hb0 hb1 hb2 hb3 hb4 hb5 hb6 hb7 hb8 ha0 ha1 ha2 ha3 ha4 ha5 ha6 ha7 ha8 ha9 hΦ ho t

end Obligation

/-! ## The call's proof data over given array contents

The arrays' contents as the call finds them are a parameter `V`; the blocks the body is handed are read off them
through the windows, and the proof data says: every input window is found at its block and left there, the output
window is left at the stored block computed from the input blocks of that point. -/

section Data

variable (c : Dev nD) (V : (b : Ref sig .tc) → Buf (Elt F) ((c : Thread nD τ).loc b))

/-- Window `w`'s block at point `t`, read off its array's contents `V`. -/
def iblk1 (w : Fin cfg1.W) (t : Fin cfg1.N) : ((cfg1.win w).xblock (cfg1.grid.coords t)).Idx → Elt F (cfg1.win w).elt :=
  ((cfg1.win w).blk t).view.read (Elt F) (V (Pipeline.arrRef spec1 w))

/-- The block the body stores at point `t`, from the input windows' blocks there. -/
def out1 (t : Fin cfg1.N) : Vec F S1024x64 .f32 :=
  k1_pay1 (k1_pay2 (iblk1 c V 0 t) (iblk1 c V 2 t) (iblk1 c V 1 t) (iblk1 c V 3 t) (iblk1 c V 4 t) (iblk1 c V 5 t) (iblk1 c V 6 t)) (iblk1 c V 7 t) (iblk1 c V 8 t)

/-- An input window's current staging buffer holds its block at every point, fetched there or not, for any proof
    data whose array is `V`'s (`hA`) and whose body leaves the block in place (`hafter`): unfetched, the window's
    index has not moved since the point that fetched it. -/
theorem before1_0_of (dat : Dat τ (Elt F) Ix Name U Lvl cfg1 c) (hA : dat.A 0 = V (Pipeline.arrRef spec1 0))
    (hafter : ∀ t, dat.after 0 t = iblk1 c V 0 t) (t : Fin cfg1.N) (d) : dat.before 0 t d = iblk1 c V 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of (dat : Dat τ (Elt F) Ix Name U Lvl cfg1 c) (hA : dat.A 1 = V (Pipeline.arrRef spec1 1))
    (hafter : ∀ t, dat.after 1 t = iblk1 c V 1 t) (t : Fin cfg1.N) (d) : dat.before 1 t d = iblk1 c V 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of (dat : Dat τ (Elt F) Ix Name U Lvl cfg1 c) (hA : dat.A 2 = V (Pipeline.arrRef spec1 2))
    (hafter : ∀ t, dat.after 2 t = iblk1 c V 2 t) (t : Fin cfg1.N) (d) : dat.before 2 t d = iblk1 c V 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of (dat : Dat τ (Elt F) Ix Name U Lvl cfg1 c) (hA : dat.A 3 = V (Pipeline.arrRef spec1 3))
    (hafter : ∀ t, dat.after 3 t = iblk1 c V 3 t) (t : Fin cfg1.N) (d) : dat.before 3 t d = iblk1 c V 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of (dat : Dat τ (Elt F) Ix Name U Lvl cfg1 c) (hA : dat.A 4 = V (Pipeline.arrRef spec1 4))
    (hafter : ∀ t, dat.after 4 t = iblk1 c V 4 t) (t : Fin cfg1.N) (d) : dat.before 4 t d = iblk1 c V 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of (dat : Dat τ (Elt F) Ix Name U Lvl cfg1 c) (hA : dat.A 5 = V (Pipeline.arrRef spec1 5))
    (hafter : ∀ t, dat.after 5 t = iblk1 c V 5 t) (t : Fin cfg1.N) (d) : dat.before 5 t d = iblk1 c V 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of (dat : Dat τ (Elt F) Ix Name U Lvl cfg1 c) (hA : dat.A 6 = V (Pipeline.arrRef spec1 6))
    (hafter : ∀ t, dat.after 6 t = iblk1 c V 6 t) (t : Fin cfg1.N) (d) : dat.before 6 t d = iblk1 c V 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of (dat : Dat τ (Elt F) Ix Name U Lvl cfg1 c) (hA : dat.A 7 = V (Pipeline.arrRef spec1 7))
    (hafter : ∀ t, dat.after 7 t = iblk1 c V 7 t) (t : Fin cfg1.N) (d) : dat.before 7 t d = iblk1 c V 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of (dat : Dat τ (Elt F) Ix Name U Lvl cfg1 c) (hA : dat.A 8 = V (Pipeline.arrRef spec1 8))
    (hafter : ∀ t, dat.after 8 t = iblk1 c V 8 t) (t : Fin cfg1.N) (d) : dat.before 8 t d = iblk1 c V 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-- The proof data of the call on core `c`: the arrays as found (`V`); after the body at point `t` each input's
    buffer at its block and the output's at the stored block; one invariant `Φ₀`, one tally of debts `O` and
    one bound `Rec` on the recorded waits at every point, all untouched by the body; the input arrays held at the shares `q`. -/
def dat1 (Φ₀ : sProp (MT nD τ sig Ix (Elt F) Name U Lvl)) (O : CellTallies nD τ sig Ix) (Rec : Set (SemLoc sig × Ix))
    (q : Fin cfg1.W → PosShare TreeShare) : Dat τ (Elt F) Ix Name U Lvl cfg1 c where
  A w := V (Pipeline.arrRef spec1 w)
  after w t := match w with
    | ⟨0, _⟩ => iblk1 c V 0 t
    | ⟨1, _⟩ => iblk1 c V 1 t
    | ⟨2, _⟩ => iblk1 c V 2 t
    | ⟨3, _⟩ => iblk1 c V 3 t
    | ⟨4, _⟩ => iblk1 c V 4 t
    | ⟨5, _⟩ => iblk1 c V 5 t
    | ⟨6, _⟩ => iblk1 c V 6 t
    | ⟨7, _⟩ => iblk1 c V 7 t
    | ⟨8, _⟩ => iblk1 c V 8 t
    | ⟨9, _⟩ => out1 c V t
  Φ _ := Φ₀
  q := q
  owed _ := O
  recorded _ := Rec

variable (Φ₀ : sProp (MT nD τ sig Ix (Elt F) Name U Lvl)) (O : CellTallies nD τ sig Ix) (Rec : Set (SemLoc sig × Ix)) (q : Fin cfg1.W → PosShare TreeShare)

/-- The proof data's arrays are `V`'s, by projection. -/
theorem A1_eq (w : Fin cfg1.W) : (dat1 c V Φ₀ O Rec q).A w = V (Pipeline.arrRef spec1 w) := by dsimp only [dat1]

/-- What the body leaves, window by window. -/
theorem after1_0 (t : Fin cfg1.N) : (dat1 c V Φ₀ O Rec q).after 0 t = iblk1 c V 0 t := by dsimp only [dat1]
theorem after1_1 (t : Fin cfg1.N) : (dat1 c V Φ₀ O Rec q).after 1 t = iblk1 c V 1 t := by dsimp only [dat1]
theorem after1_2 (t : Fin cfg1.N) : (dat1 c V Φ₀ O Rec q).after 2 t = iblk1 c V 2 t := by dsimp only [dat1]
theorem after1_3 (t : Fin cfg1.N) : (dat1 c V Φ₀ O Rec q).after 3 t = iblk1 c V 3 t := by dsimp only [dat1]
theorem after1_4 (t : Fin cfg1.N) : (dat1 c V Φ₀ O Rec q).after 4 t = iblk1 c V 4 t := by dsimp only [dat1]
theorem after1_5 (t : Fin cfg1.N) : (dat1 c V Φ₀ O Rec q).after 5 t = iblk1 c V 5 t := by dsimp only [dat1]
theorem after1_6 (t : Fin cfg1.N) : (dat1 c V Φ₀ O Rec q).after 6 t = iblk1 c V 6 t := by dsimp only [dat1]
theorem after1_7 (t : Fin cfg1.N) : (dat1 c V Φ₀ O Rec q).after 7 t = iblk1 c V 7 t := by dsimp only [dat1]
theorem after1_8 (t : Fin cfg1.N) : (dat1 c V Φ₀ O Rec q).after 8 t = iblk1 c V 8 t := by dsimp only [dat1]
theorem after1_9 (t : Fin cfg1.N) : (dat1 c V Φ₀ O Rec q).after 9 t = out1 c V t := by dsimp only [dat1]

/-- What the body finds in each input's buffer. -/
theorem before1_0 (t : Fin cfg1.N) (d) : (dat1 c V Φ₀ O Rec q).before 0 t d = iblk1 c V 0 t :=
  before1_0_of c V (dat1 c V Φ₀ O Rec q) (A1_eq c V Φ₀ O Rec q 0) (after1_0 c V Φ₀ O Rec q) t d
theorem before1_1 (t : Fin cfg1.N) (d) : (dat1 c V Φ₀ O Rec q).before 1 t d = iblk1 c V 1 t :=
  before1_1_of c V (dat1 c V Φ₀ O Rec q) (A1_eq c V Φ₀ O Rec q 1) (after1_1 c V Φ₀ O Rec q) t d
theorem before1_2 (t : Fin cfg1.N) (d) : (dat1 c V Φ₀ O Rec q).before 2 t d = iblk1 c V 2 t :=
  before1_2_of c V (dat1 c V Φ₀ O Rec q) (A1_eq c V Φ₀ O Rec q 2) (after1_2 c V Φ₀ O Rec q) t d
theorem before1_3 (t : Fin cfg1.N) (d) : (dat1 c V Φ₀ O Rec q).before 3 t d = iblk1 c V 3 t :=
  before1_3_of c V (dat1 c V Φ₀ O Rec q) (A1_eq c V Φ₀ O Rec q 3) (after1_3 c V Φ₀ O Rec q) t d
theorem before1_4 (t : Fin cfg1.N) (d) : (dat1 c V Φ₀ O Rec q).before 4 t d = iblk1 c V 4 t :=
  before1_4_of c V (dat1 c V Φ₀ O Rec q) (A1_eq c V Φ₀ O Rec q 4) (after1_4 c V Φ₀ O Rec q) t d
theorem before1_5 (t : Fin cfg1.N) (d) : (dat1 c V Φ₀ O Rec q).before 5 t d = iblk1 c V 5 t :=
  before1_5_of c V (dat1 c V Φ₀ O Rec q) (A1_eq c V Φ₀ O Rec q 5) (after1_5 c V Φ₀ O Rec q) t d
theorem before1_6 (t : Fin cfg1.N) (d) : (dat1 c V Φ₀ O Rec q).before 6 t d = iblk1 c V 6 t :=
  before1_6_of c V (dat1 c V Φ₀ O Rec q) (A1_eq c V Φ₀ O Rec q 6) (after1_6 c V Φ₀ O Rec q) t d
theorem before1_7 (t : Fin cfg1.N) (d) : (dat1 c V Φ₀ O Rec q).before 7 t d = iblk1 c V 7 t :=
  before1_7_of c V (dat1 c V Φ₀ O Rec q) (A1_eq c V Φ₀ O Rec q 7) (after1_7 c V Φ₀ O Rec q) t d
theorem before1_8 (t : Fin cfg1.N) (d) : (dat1 c V Φ₀ O Rec q).before 8 t d = iblk1 c V 8 t :=
  before1_8_of c V (dat1 c V Φ₀ O Rec q) (A1_eq c V Φ₀ O Rec q 8) (after1_8 c V Φ₀ O Rec q) t d

/-- The pipeline rule's body obligation for this proof data, at every point and any index of the credit tokens. -/
theorem body_obligation1 (ι : Ix) : BodyObligation (dat1 c V Φ₀ O Rec q) (defs₀ (F := F)) Variants.none ι Set.univ :=
  body_obligation1_of (dat1 c V Φ₀ O Rec q) ι (iblk1 c V 0) (iblk1 c V 1) (iblk1 c V 2) (iblk1 c V 3) (iblk1 c V 4) (iblk1 c V 5) (iblk1 c V 6) (iblk1 c V 7) (iblk1 c V 8)
    (before1_0 c V Φ₀ O Rec q) (before1_1 c V Φ₀ O Rec q) (before1_2 c V Φ₀ O Rec q) (before1_3 c V Φ₀ O Rec q) (before1_4 c V Φ₀ O Rec q) (before1_5 c V Φ₀ O Rec q) (before1_6 c V Φ₀ O Rec q) (before1_7 c V Φ₀ O Rec q) (before1_8 c V Φ₀ O Rec q)
    (after1_0 c V Φ₀ O Rec q) (after1_1 c V Φ₀ O Rec q) (after1_2 c V Φ₀ O Rec q) (after1_3 c V Φ₀ O Rec q) (after1_4 c V Φ₀ O Rec q) (after1_5 c V Φ₀ O Rec q) (after1_6 c V Φ₀ O Rec q) (after1_7 c V Φ₀ O Rec q) (after1_8 c V Φ₀ O Rec q)
    (after1_9 c V Φ₀ O Rec q) (fun _ => .rfl) (fun _ => .rfl)

end Data

end Cert.Proof.TcW

end
-- ==== Proof.TcBody3W.lean ====
/-
  The TensorCore body of point-convolution call 3, run once on whole staging buffers, and the proof data of
  its pipeline.

  The body reads nine blocks whole — the gathered rows, the per-point bias of the first layer, the three layers'
  weights and biases, the output weights and the output bias — and stores one block whole: the output weights
  applied to the flattened products of the third layer's activations with the gathered features, plus the output
  bias. Nothing else is touched: every input buffer is handed back as it was found, and what the output buffer
  held before is overwritten everywhere. The statement is made once over arbitrary whole memrefs and arbitrary
  contents, then at the staging buffers the pipeline calls the body with at a grid point, and last in the form
  the pipeline rule asks of a body: for any proof data whose input windows are found and left at given blocks,
  whose output window is left at the stored block, and whose invariant and debts pass through unchanged. The
  proof data itself is stated over arbitrary contents of the ten windows' arrays: each input window's staging
  buffer holds that array's block at the point, fetched there or not, and the output window's holds the stored
  block computed from them.
-/
import proofs.«214101_g10505490006249_cont_week2b_118_28_alg».proof.Proof.Gen.Kernel.Launch
import proofs.«214101_g10505490006249_cont_week2b_118_28_alg».proof.Proof.Gen.Kernel.Skeleton
import proofs.«214101_g10505490006249_cont_week2b_118_28_alg».proof.Proof.Gen.Kernel.Points
import Idealize.ShloMosaic.Lib.Pipeline.FrameBody
import Idealize.ShloMosaic.Lib.Pipeline.Value
import Idealize.ShloMosaic.Lib.Tactic

set_option maxRecDepth 16384

noncomputable section

namespace Cert.Proof.TcW

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## The body on whole memrefs -/

/-- The offsets of every whole-block access: zero on both axes. -/
theorem zeros3 : (![0, 0] : Fin 2 → Nat) = fun _ => 0 := by funext a; fin_cases a <;> rfl

/-- The one store of the body covers the output block. -/
theorem cover3 (p0 : Vec F S1024x64 .f32) (y : S1024x64.Idx) :
    ∃ pc ∈ ([⟨Rect.unit (s := S1024x64) ![0, 0] S1024x64.size inb_S1024x64_S1024x64_0_0, p0⟩] : List (View.Piece (Elt F) S1024x64 .f32)), y ∈ pc.1.set :=
  ⟨_, List.mem_singleton_self _, View.mem_set_unit_zero zeros3 inb_S1024x64_S1024x64_0_0 y⟩

set_option maxHeartbeats 1000000 in
/-- The body on ten whole memrefs, the nine inputs' read at `x0 … x8` and the output's at anything, runs to the
    continuation holding the inputs' as they were and the output's at the stored block: the output weights `x7`
    applied to the flattened products computed from `x0 … x6`, plus the output bias `x8`. -/
theorem sound_kernel3 (c : Dev nD) (E : Set Name) (i : grid3.Coords)
    (arg1 : Memref sig .tc .vmem S16384x128 .f32) (harg1 : arg1.IsWhole) (arg2 : Memref sig .tc .vmem S1024x32 .f32) (harg2 : arg2.IsWhole) (arg3 : Memref sig .tc .vmem S128x32 .f32) (harg3 : arg3.IsWhole) (arg4 : Memref sig .tc .vmem S32x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S1024x64 .f32) (harg8 : arg8.IsWhole) (arg9 : Memref sig .tc .vmem S1x64 .f32) (harg9 : arg9.IsWhole) (arg10 : Memref sig .tc .vmem S1024x64 .f32) (harg10 : arg10.IsWhole)
    (x0 : Vec F S16384x128 .f32) (x1 : Vec F S1024x32 .f32) (x2 : Vec F S128x32 .f32) (x3 : Vec F S32x16 .f32) (x4 : Vec F S1x16 .f32) (x5 : Vec F S16x16 .f32) (x6 : Vec F S1x16 .f32) (x7 : Vec F S1024x64 .f32) (x8 : Vec F S1x64 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ owns (c : Thread nD τ) arg10 fullShare (k3_pay1 (k3_pay2 x0 x2 x1 x3 x4 x5 x6) x7 x8)) -∗ K ⟨⟩))
      ⊢ wp frame (wpE (defs₀ (F := F)) Variants.none c none) E (cc3__tc_body i arg1 harg1 arg2 harg2 arg3 harg3 arg4 harg4 arg5 harg5 arg6 harg6 arg7 harg7 arg8 harg8 arg9 harg9 arg10 harg10) K := by
  simp only [cc3__tc_body_eq_skeleton]; unfold cc3__tc_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  rw [View.read_writes_eq_canon _ _ _ (cover3 _), View.canon_unit_zero zeros3]
  unfold sound_kernel3.sl.r
  simp only [View.readAt_eq_ld, View.ld_unit_zero (S := S16384x128) zeros3, View.ld_unit_zero (S := S128x32) zeros3, View.ld_unit_zero (S := S1024x32) zeros3, View.ld_unit_zero (S := S32x16) zeros3, View.ld_unit_zero (S := S1x16) zeros3, View.ld_unit_zero (S := S16x16) zeros3, View.ld_unit_zero (S := S1024x64) zeros3, View.ld_unit_zero (S := S1x64) zeros3]

/-! ## The body at a grid point, for any proof data of the call -/

section Obligation

variable {c : Dev nD} (dat : Dat τ (Elt F) Ix Name U Lvl cfg3 c) (ι : Ix)
  (x0 : Fin cfg3.N → Vec F S16384x128 .f32) (x1 : Fin cfg3.N → Vec F S1024x32 .f32) (x2 : Fin cfg3.N → Vec F S128x32 .f32) (x3 : Fin cfg3.N → Vec F S32x16 .f32) (x4 : Fin cfg3.N → Vec F S1x16 .f32) (x5 : Fin cfg3.N → Vec F S16x16 .f32) (x6 : Fin cfg3.N → Vec F S1x16 .f32) (x7 : Fin cfg3.N → Vec F S1024x64 .f32) (x8 : Fin cfg3.N → Vec F S1x64 .f32)

/-- The body at point `t` on the staging buffers the pipeline calls it with. The proof data's input windows are
    found at the blocks `x0 t … x8 t` (`hb`) and left there (`ha`), its output window is left at the stored block
    (`ha9`), and its invariant and the core's debts at the next point follow from those before (`hΦ`, `ho`): they
    pass through the body unread. -/
theorem sound_body3
    (hb0 : ∀ t d, dat.before 0 t d = x0 t) (hb1 : ∀ t d, dat.before 1 t d = x1 t) (hb2 : ∀ t d, dat.before 2 t d = x2 t) (hb3 : ∀ t d, dat.before 3 t d = x3 t) (hb4 : ∀ t d, dat.before 4 t d = x4 t) (hb5 : ∀ t d, dat.before 5 t d = x5 t) (hb6 : ∀ t d, dat.before 6 t d = x6 t) (hb7 : ∀ t d, dat.before 7 t d = x7 t) (hb8 : ∀ t d, dat.before 8 t d = x8 t)
    (ha0 : ∀ t, dat.after 0 t = x0 t) (ha1 : ∀ t, dat.after 1 t = x1 t) (ha2 : ∀ t, dat.after 2 t = x2 t) (ha3 : ∀ t, dat.after 3 t = x3 t) (ha4 : ∀ t, dat.after 4 t = x4 t) (ha5 : ∀ t, dat.after 5 t = x5 t) (ha6 : ∀ t, dat.after 6 t = x6 t) (ha7 : ∀ t, dat.after 7 t = x7 t) (ha8 : ∀ t, dat.after 8 t = x8 t)
    (ha9 : ∀ t, dat.after 9 t = k3_pay1 (k3_pay2 (x0 t) (x2 t) (x1 t) (x3 t) (x4 t) (x5 t) (x6 t)) (x7 t) (x8 t))
    (hΦ : ∀ t : Fin cfg3.N, dat.Φ t.castSucc ⊢ dat.Φ t.succ)
    (ho : ∀ t : Fin cfg3.N, dat.owesAt ι t.castSucc ⊢ dat.owesAt ι t.succ) (t : Fin cfg3.N) :
    iprop(dat.Φ t.castSucc ∗ dat.owesAt ι t.castSucc
      ∗ (∃ d, owns (c : Thread nD τ) (st3_0 t) fullShare (dat.before 0 t d))
      ∗ (∃ d, owns (c : Thread nD τ) (st3_1 t) fullShare (dat.before 1 t d))
      ∗ (∃ d, owns (c : Thread nD τ) (st3_2 t) fullShare (dat.before 2 t d))
      ∗ (∃ d, owns (c : Thread nD τ) (st3_3 t) fullShare (dat.before 3 t d))
      ∗ (∃ d, owns (c : Thread nD τ) (st3_4 t) fullShare (dat.before 4 t d))
      ∗ (∃ d, owns (c : Thread nD τ) (st3_5 t) fullShare (dat.before 5 t d))
      ∗ (∃ d, owns (c : Thread nD τ) (st3_6 t) fullShare (dat.before 6 t d))
      ∗ (∃ d, owns (c : Thread nD τ) (st3_7 t) fullShare (dat.before 7 t d))
      ∗ (∃ d, owns (c : Thread nD τ) (st3_8 t) fullShare (dat.before 8 t d))
      ∗ (∃ d, owns (c : Thread nD τ) (st3_9 t) fullShare (dat.before 9 t d)))
    ⊢ wp frame (wpE (defs₀ (F := F)) Variants.none c none) Set.univ (bodyAt3 t) (fun _ =>
        iprop(dat.Φ t.succ ∗ dat.owesAt ι t.succ
          ∗ owns (c : Thread nD τ) (st3_0 t) fullShare (dat.after 0 t)
          ∗ owns (c : Thread nD τ) (st3_1 t) fullShare (dat.after 1 t)
          ∗ owns (c : Thread nD τ) (st3_2 t) fullShare (dat.after 2 t)
          ∗ owns (c : Thread nD τ) (st3_3 t) fullShare (dat.after 3 t)
          ∗ owns (c : Thread nD τ) (st3_4 t) fullShare (dat.after 4 t)
          ∗ owns (c : Thread nD τ) (st3_5 t) fullShare (dat.after 5 t)
          ∗ owns (c : Thread nD τ) (st3_6 t) fullShare (dat.after 6 t)
          ∗ owns (c : Thread nD τ) (st3_7 t) fullShare (dat.after 7 t)
          ∗ owns (c : Thread nD τ) (st3_8 t) fullShare (dat.after 8 t)
          ∗ owns (c : Thread nD τ) (st3_9 t) fullShare (dat.after 9 t))) := by
  unfold bodyAt3
  simp only [hb0, hb1, hb2, hb3, hb4, hb5, hb6, hb7, hb8, ha0, ha1, ha2, ha3, ha4, ha5, ha6, ha7, ha8, ha9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel3 c Set.univ (grid3.coords t) _ _ _ _ _ _ _ _ _ _ _ _ _ _ _ _ _ _ _ _ (x0 t) (x1 t) (x2 t) (x3 t) (x4 t) (x5 t) (x6 t) (x7 t) (x8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iapply (hΦ t); iexact HΦ
  isplitl [Ho]; · iapply (ho t); iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline rule's body obligation for the call, at every point, under the same hypotheses. -/
theorem body_obligation3_of
    (hb0 : ∀ t d, dat.before 0 t d = x0 t) (hb1 : ∀ t d, dat.before 1 t d = x1 t) (hb2 : ∀ t d, dat.before 2 t d = x2 t) (hb3 : ∀ t d, dat.before 3 t d = x3 t) (hb4 : ∀ t d, dat.before 4 t d = x4 t) (hb5 : ∀ t d, dat.before 5 t d = x5 t) (hb6 : ∀ t d, dat.before 6 t d = x6 t) (hb7 : ∀ t d, dat.before 7 t d = x7 t) (hb8 : ∀ t d, dat.before 8 t d = x8 t)
    (ha0 : ∀ t, dat.after 0 t = x0 t) (ha1 : ∀ t, dat.after 1 t = x1 t) (ha2 : ∀ t, dat.after 2 t = x2 t) (ha3 : ∀ t, dat.after 3 t = x3 t) (ha4 : ∀ t, dat.after 4 t = x4 t) (ha5 : ∀ t, dat.after 5 t = x5 t) (ha6 : ∀ t, dat.after 6 t = x6 t) (ha7 : ∀ t, dat.after 7 t = x7 t) (ha8 : ∀ t, dat.after 8 t = x8 t)
    (ha9 : ∀ t, dat.after 9 t = k3_pay1 (k3_pay2 (x0 t) (x2 t) (x1 t) (x3 t) (x4 t) (x5 t) (x6 t)) (x7 t) (x8 t))
    (hΦ : ∀ t : Fin cfg3.N, dat.Φ t.castSucc ⊢ dat.Φ t.succ)
    (ho : ∀ t : Fin cfg3.N, dat.owesAt ι t.castSucc ⊢ dat.owesAt ι t.succ) :
    BodyObligation dat (defs₀ (F := F)) Variants.none ι Set.univ := fun t => by
  rw [bigSep_W3, bigSep_W3]
  exact sound_body3 dat ι x0 x1 x2 x3 x4 x5 x6 x7 x8 hb0 hb1 hb2 hb3 hb4 hb5 hb6 hb7 hb8 ha0 ha1 ha2 ha3 ha4 ha5 ha6 ha7 ha8 ha9 hΦ ho t

end Obligation

/-! ## The call's proof data over given array contents

The arrays' contents as the call finds them are a parameter `V`; the blocks the body is handed are read off them
through the windows, and the proof data says: every input window is found at its block and left there, the output
window is left at the stored block computed from the input blocks of that point. -/

section Data

variable (c : Dev nD) (V : (b : Ref sig .tc) → Buf (Elt F) ((c : Thread nD τ).loc b))

/-- Window `w`'s block at point `t`, read off its array's contents `V`. -/
def iblk3 (w : Fin cfg3.W) (t : Fin cfg3.N) : ((cfg3.win w).xblock (cfg3.grid.coords t)).Idx → Elt F (cfg3.win w).elt :=
  ((cfg3.win w).blk t).view.read (Elt F) (V (Pipeline.arrRef spec3 w))

/-- The block the body stores at point `t`, from the input windows' blocks there. -/
def out3 (t : Fin cfg3.N) : Vec F S1024x64 .f32 :=
  k3_pay1 (k3_pay2 (iblk3 c V 0 t) (iblk3 c V 2 t) (iblk3 c V 1 t) (iblk3 c V 3 t) (iblk3 c V 4 t) (iblk3 c V 5 t) (iblk3 c V 6 t)) (iblk3 c V 7 t) (iblk3 c V 8 t)

/-- An input window's current staging buffer holds its block at every point, fetched there or not, for any proof
    data whose array is `V`'s (`hA`) and whose body leaves the block in place (`hafter`): unfetched, the window's
    index has not moved since the point that fetched it. -/
theorem before3_0_of (dat : Dat τ (Elt F) Ix Name U Lvl cfg3 c) (hA : dat.A 0 = V (Pipeline.arrRef spec3 0))
    (hafter : ∀ t, dat.after 0 t = iblk3 c V 0 t) (t : Fin cfg3.N) (d) : dat.before 0 t d = iblk3 c V 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of (dat : Dat τ (Elt F) Ix Name U Lvl cfg3 c) (hA : dat.A 1 = V (Pipeline.arrRef spec3 1))
    (hafter : ∀ t, dat.after 1 t = iblk3 c V 1 t) (t : Fin cfg3.N) (d) : dat.before 1 t d = iblk3 c V 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of (dat : Dat τ (Elt F) Ix Name U Lvl cfg3 c) (hA : dat.A 2 = V (Pipeline.arrRef spec3 2))
    (hafter : ∀ t, dat.after 2 t = iblk3 c V 2 t) (t : Fin cfg3.N) (d) : dat.before 2 t d = iblk3 c V 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of (dat : Dat τ (Elt F) Ix Name U Lvl cfg3 c) (hA : dat.A 3 = V (Pipeline.arrRef spec3 3))
    (hafter : ∀ t, dat.after 3 t = iblk3 c V 3 t) (t : Fin cfg3.N) (d) : dat.before 3 t d = iblk3 c V 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of (dat : Dat τ (Elt F) Ix Name U Lvl cfg3 c) (hA : dat.A 4 = V (Pipeline.arrRef spec3 4))
    (hafter : ∀ t, dat.after 4 t = iblk3 c V 4 t) (t : Fin cfg3.N) (d) : dat.before 4 t d = iblk3 c V 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of (dat : Dat τ (Elt F) Ix Name U Lvl cfg3 c) (hA : dat.A 5 = V (Pipeline.arrRef spec3 5))
    (hafter : ∀ t, dat.after 5 t = iblk3 c V 5 t) (t : Fin cfg3.N) (d) : dat.before 5 t d = iblk3 c V 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
theorem before3_6_of (dat : Dat τ (Elt F) Ix Name U Lvl cfg3 c) (hA : dat.A 6 = V (Pipeline.arrRef spec3 6))
    (hafter : ∀ t, dat.after 6 t = iblk3 c V 6 t) (t : Fin cfg3.N) (d) : dat.before 6 t d = iblk3 c V 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)
theorem before3_7_of (dat : Dat τ (Elt F) Ix Name U Lvl cfg3 c) (hA : dat.A 7 = V (Pipeline.arrRef spec3 7))
    (hafter : ∀ t, dat.after 7 t = iblk3 c V 7 t) (t : Fin cfg3.N) (d) : dat.before 7 t d = iblk3 c V 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)
theorem before3_8_of (dat : Dat τ (Elt F) Ix Name U Lvl cfg3 c) (hA : dat.A 8 = V (Pipeline.arrRef spec3 8))
    (hafter : ∀ t, dat.after 8 t = iblk3 c V 8 t) (t : Fin cfg3.N) (d) : dat.before 8 t d = iblk3 c V 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)

/-- The proof data of the call on core `c`: the arrays as found (`V`); after the body at point `t` each input's
    buffer at its block and the output's at the stored block; one invariant `Φ₀`, one tally of debts `O` and
    one bound `Rec` on the recorded waits at every point, all untouched by the body; the input arrays held at the shares `q`. -/
def dat3 (Φ₀ : sProp (MT nD τ sig Ix (Elt F) Name U Lvl)) (O : CellTallies nD τ sig Ix) (Rec : Set (SemLoc sig × Ix))
    (q : Fin cfg3.W → PosShare TreeShare) : Dat τ (Elt F) Ix Name U Lvl cfg3 c where
  A w := V (Pipeline.arrRef spec3 w)
  after w t := match w with
    | ⟨0, _⟩ => iblk3 c V 0 t
    | ⟨1, _⟩ => iblk3 c V 1 t
    | ⟨2, _⟩ => iblk3 c V 2 t
    | ⟨3, _⟩ => iblk3 c V 3 t
    | ⟨4, _⟩ => iblk3 c V 4 t
    | ⟨5, _⟩ => iblk3 c V 5 t
    | ⟨6, _⟩ => iblk3 c V 6 t
    | ⟨7, _⟩ => iblk3 c V 7 t
    | ⟨8, _⟩ => iblk3 c V 8 t
    | ⟨9, _⟩ => out3 c V t
  Φ _ := Φ₀
  q := q
  owed _ := O
  recorded _ := Rec

variable (Φ₀ : sProp (MT nD τ sig Ix (Elt F) Name U Lvl)) (O : CellTallies nD τ sig Ix) (Rec : Set (SemLoc sig × Ix)) (q : Fin cfg3.W → PosShare TreeShare)

/-- The proof data's arrays are `V`'s, by projection. -/
theorem A3_eq (w : Fin cfg3.W) : (dat3 c V Φ₀ O Rec q).A w = V (Pipeline.arrRef spec3 w) := by dsimp only [dat3]

/-- What the body leaves, window by window. -/
theorem after3_0 (t : Fin cfg3.N) : (dat3 c V Φ₀ O Rec q).after 0 t = iblk3 c V 0 t := by dsimp only [dat3]
theorem after3_1 (t : Fin cfg3.N) : (dat3 c V Φ₀ O Rec q).after 1 t = iblk3 c V 1 t := by dsimp only [dat3]
theorem after3_2 (t : Fin cfg3.N) : (dat3 c V Φ₀ O Rec q).after 2 t = iblk3 c V 2 t := by dsimp only [dat3]
theorem after3_3 (t : Fin cfg3.N) : (dat3 c V Φ₀ O Rec q).after 3 t = iblk3 c V 3 t := by dsimp only [dat3]
theorem after3_4 (t : Fin cfg3.N) : (dat3 c V Φ₀ O Rec q).after 4 t = iblk3 c V 4 t := by dsimp only [dat3]
theorem after3_5 (t : Fin cfg3.N) : (dat3 c V Φ₀ O Rec q).after 5 t = iblk3 c V 5 t := by dsimp only [dat3]
theorem after3_6 (t : Fin cfg3.N) : (dat3 c V Φ₀ O Rec q).after 6 t = iblk3 c V 6 t := by dsimp only [dat3]
theorem after3_7 (t : Fin cfg3.N) : (dat3 c V Φ₀ O Rec q).after 7 t = iblk3 c V 7 t := by dsimp only [dat3]
theorem after3_8 (t : Fin cfg3.N) : (dat3 c V Φ₀ O Rec q).after 8 t = iblk3 c V 8 t := by dsimp only [dat3]
theorem after3_9 (t : Fin cfg3.N) : (dat3 c V Φ₀ O Rec q).after 9 t = out3 c V t := by dsimp only [dat3]

/-- What the body finds in each input's buffer. -/
theorem before3_0 (t : Fin cfg3.N) (d) : (dat3 c V Φ₀ O Rec q).before 0 t d = iblk3 c V 0 t :=
  before3_0_of c V (dat3 c V Φ₀ O Rec q) (A3_eq c V Φ₀ O Rec q 0) (after3_0 c V Φ₀ O Rec q) t d
theorem before3_1 (t : Fin cfg3.N) (d) : (dat3 c V Φ₀ O Rec q).before 1 t d = iblk3 c V 1 t :=
  before3_1_of c V (dat3 c V Φ₀ O Rec q) (A3_eq c V Φ₀ O Rec q 1) (after3_1 c V Φ₀ O Rec q) t d
theorem before3_2 (t : Fin cfg3.N) (d) : (dat3 c V Φ₀ O Rec q).before 2 t d = iblk3 c V 2 t :=
  before3_2_of c V (dat3 c V Φ₀ O Rec q) (A3_eq c V Φ₀ O Rec q 2) (after3_2 c V Φ₀ O Rec q) t d
theorem before3_3 (t : Fin cfg3.N) (d) : (dat3 c V Φ₀ O Rec q).before 3 t d = iblk3 c V 3 t :=
  before3_3_of c V (dat3 c V Φ₀ O Rec q) (A3_eq c V Φ₀ O Rec q 3) (after3_3 c V Φ₀ O Rec q) t d
theorem before3_4 (t : Fin cfg3.N) (d) : (dat3 c V Φ₀ O Rec q).before 4 t d = iblk3 c V 4 t :=
  before3_4_of c V (dat3 c V Φ₀ O Rec q) (A3_eq c V Φ₀ O Rec q 4) (after3_4 c V Φ₀ O Rec q) t d
theorem before3_5 (t : Fin cfg3.N) (d) : (dat3 c V Φ₀ O Rec q).before 5 t d = iblk3 c V 5 t :=
  before3_5_of c V (dat3 c V Φ₀ O Rec q) (A3_eq c V Φ₀ O Rec q 5) (after3_5 c V Φ₀ O Rec q) t d
theorem before3_6 (t : Fin cfg3.N) (d) : (dat3 c V Φ₀ O Rec q).before 6 t d = iblk3 c V 6 t :=
  before3_6_of c V (dat3 c V Φ₀ O Rec q) (A3_eq c V Φ₀ O Rec q 6) (after3_6 c V Φ₀ O Rec q) t d
theorem before3_7 (t : Fin cfg3.N) (d) : (dat3 c V Φ₀ O Rec q).before 7 t d = iblk3 c V 7 t :=
  before3_7_of c V (dat3 c V Φ₀ O Rec q) (A3_eq c V Φ₀ O Rec q 7) (after3_7 c V Φ₀ O Rec q) t d
theorem before3_8 (t : Fin cfg3.N) (d) : (dat3 c V Φ₀ O Rec q).before 8 t d = iblk3 c V 8 t :=
  before3_8_of c V (dat3 c V Φ₀ O Rec q) (A3_eq c V Φ₀ O Rec q 8) (after3_8 c V Φ₀ O Rec q) t d

/-- The pipeline rule's body obligation for this proof data, at every point and any index of the credit tokens. -/
theorem body_obligation3 (ι : Ix) : BodyObligation (dat3 c V Φ₀ O Rec q) (defs₀ (F := F)) Variants.none ι Set.univ :=
  body_obligation3_of (dat3 c V Φ₀ O Rec q) ι (iblk3 c V 0) (iblk3 c V 1) (iblk3 c V 2) (iblk3 c V 3) (iblk3 c V 4) (iblk3 c V 5) (iblk3 c V 6) (iblk3 c V 7) (iblk3 c V 8)
    (before3_0 c V Φ₀ O Rec q) (before3_1 c V Φ₀ O Rec q) (before3_2 c V Φ₀ O Rec q) (before3_3 c V Φ₀ O Rec q) (before3_4 c V Φ₀ O Rec q) (before3_5 c V Φ₀ O Rec q) (before3_6 c V Φ₀ O Rec q) (before3_7 c V Φ₀ O Rec q) (before3_8 c V Φ₀ O Rec q)
    (after3_0 c V Φ₀ O Rec q) (after3_1 c V Φ₀ O Rec q) (after3_2 c V Φ₀ O Rec q) (after3_3 c V Φ₀ O Rec q) (after3_4 c V Φ₀ O Rec q) (after3_5 c V Φ₀ O Rec q) (after3_6 c V Φ₀ O Rec q) (after3_7 c V Φ₀ O Rec q) (after3_8 c V Φ₀ O Rec q)
    (after3_9 c V Φ₀ O Rec q) (fun _ => .rfl) (fun _ => .rfl)

end Data

end Cert.Proof.TcW

end
-- ==== Proof.TcBody5W.lean ====
/-
  The TensorCore body of point-convolution call 5, run once on whole staging buffers, and the proof data of
  its pipeline.

  The body reads nine blocks whole — the gathered rows, the per-point bias of the first layer, the three layers'
  weights and biases, the output weights and the output bias — and stores one block whole: the output weights
  applied to the flattened products of the third layer's activations with the gathered features, plus the output
  bias. Nothing else is touched: every input buffer is handed back as it was found, and what the output buffer
  held before is overwritten everywhere. The statement is made once over arbitrary whole memrefs and arbitrary
  contents, then at the staging buffers the pipeline calls the body with at a grid point, and last in the form
  the pipeline rule asks of a body: for any proof data whose input windows are found and left at given blocks,
  whose output window is left at the stored block, and whose invariant and debts pass through unchanged. The
  proof data itself is stated over arbitrary contents of the ten windows' arrays: each input window's staging
  buffer holds that array's block at the point, fetched there or not, and the output window's holds the stored
  block computed from them.
-/
import proofs.«214101_g10505490006249_cont_week2b_118_28_alg».proof.Proof.Gen.Kernel.Launch
import proofs.«214101_g10505490006249_cont_week2b_118_28_alg».proof.Proof.Gen.Kernel.Skeleton
import proofs.«214101_g10505490006249_cont_week2b_118_28_alg».proof.Proof.Gen.Kernel.Points
import Idealize.ShloMosaic.Lib.Pipeline.FrameBody
import Idealize.ShloMosaic.Lib.Pipeline.Value
import Idealize.ShloMosaic.Lib.Tactic

set_option maxRecDepth 16384

noncomputable section

namespace Cert.Proof.TcW

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## The body on whole memrefs -/

/-- The offsets of every whole-block access: zero on both axes. -/
theorem zeros5 : (![0, 0] : Fin 2 → Nat) = fun _ => 0 := by funext a; fin_cases a <;> rfl

/-- The one store of the body covers the output block. -/
theorem cover5 (p0 : Vec F S1024x64 .f32) (y : S1024x64.Idx) :
    ∃ pc ∈ ([⟨Rect.unit (s := S1024x64) ![0, 0] S1024x64.size inb_S1024x64_S1024x64_0_0, p0⟩] : List (View.Piece (Elt F) S1024x64 .f32)), y ∈ pc.1.set :=
  ⟨_, List.mem_singleton_self _, View.mem_set_unit_zero zeros5 inb_S1024x64_S1024x64_0_0 y⟩

set_option maxHeartbeats 1000000 in
/-- The body on ten whole memrefs, the nine inputs' read at `x0 … x8` and the output's at anything, runs to the
    continuation holding the inputs' as they were and the output's at the stored block: the output weights `x7`
    applied to the flattened products computed from `x0 … x6`, plus the output bias `x8`. -/
theorem sound_kernel5 (c : Dev nD) (E : Set Name) (i : grid5.Coords)
    (arg1 : Memref sig .tc .vmem S16384x128 .f32) (harg1 : arg1.IsWhole) (arg2 : Memref sig .tc .vmem S1024x32 .f32) (harg2 : arg2.IsWhole) (arg3 : Memref sig .tc .vmem S128x32 .f32) (harg3 : arg3.IsWhole) (arg4 : Memref sig .tc .vmem S32x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S1024x64 .f32) (harg8 : arg8.IsWhole) (arg9 : Memref sig .tc .vmem S1x64 .f32) (harg9 : arg9.IsWhole) (arg10 : Memref sig .tc .vmem S1024x64 .f32) (harg10 : arg10.IsWhole)
    (x0 : Vec F S16384x128 .f32) (x1 : Vec F S1024x32 .f32) (x2 : Vec F S128x32 .f32) (x3 : Vec F S32x16 .f32) (x4 : Vec F S1x16 .f32) (x5 : Vec F S16x16 .f32) (x6 : Vec F S1x16 .f32) (x7 : Vec F S1024x64 .f32) (x8 : Vec F S1x64 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ owns (c : Thread nD τ) arg10 fullShare (k5_pay1 (k5_pay2 x0 x2 x1 x3 x4 x5 x6) x7 x8)) -∗ K ⟨⟩))
      ⊢ wp frame (wpE (defs₀ (F := F)) Variants.none c none) E (cc5__tc_body i arg1 harg1 arg2 harg2 arg3 harg3 arg4 harg4 arg5 harg5 arg6 harg6 arg7 harg7 arg8 harg8 arg9 harg9 arg10 harg10) K := by
  simp only [cc5__tc_body_eq_skeleton]; unfold cc5__tc_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  rw [View.read_writes_eq_canon _ _ _ (cover5 _), View.canon_unit_zero zeros5]
  unfold sound_kernel5.sl.r
  simp only [View.readAt_eq_ld, View.ld_unit_zero (S := S16384x128) zeros5, View.ld_unit_zero (S := S128x32) zeros5, View.ld_unit_zero (S := S1024x32) zeros5, View.ld_unit_zero (S := S32x16) zeros5, View.ld_unit_zero (S := S1x16) zeros5, View.ld_unit_zero (S := S16x16) zeros5, View.ld_unit_zero (S := S1024x64) zeros5, View.ld_unit_zero (S := S1x64) zeros5]

/-! ## The body at a grid point, for any proof data of the call -/

section Obligation

variable {c : Dev nD} (dat : Dat τ (Elt F) Ix Name U Lvl cfg5 c) (ι : Ix)
  (x0 : Fin cfg5.N → Vec F S16384x128 .f32) (x1 : Fin cfg5.N → Vec F S1024x32 .f32) (x2 : Fin cfg5.N → Vec F S128x32 .f32) (x3 : Fin cfg5.N → Vec F S32x16 .f32) (x4 : Fin cfg5.N → Vec F S1x16 .f32) (x5 : Fin cfg5.N → Vec F S16x16 .f32) (x6 : Fin cfg5.N → Vec F S1x16 .f32) (x7 : Fin cfg5.N → Vec F S1024x64 .f32) (x8 : Fin cfg5.N → Vec F S1x64 .f32)

/-- The body at point `t` on the staging buffers the pipeline calls it with. The proof data's input windows are
    found at the blocks `x0 t … x8 t` (`hb`) and left there (`ha`), its output window is left at the stored block
    (`ha9`), and its invariant and the core's debts at the next point follow from those before (`hΦ`, `ho`): they
    pass through the body unread. -/
theorem sound_body5
    (hb0 : ∀ t d, dat.before 0 t d = x0 t) (hb1 : ∀ t d, dat.before 1 t d = x1 t) (hb2 : ∀ t d, dat.before 2 t d = x2 t) (hb3 : ∀ t d, dat.before 3 t d = x3 t) (hb4 : ∀ t d, dat.before 4 t d = x4 t) (hb5 : ∀ t d, dat.before 5 t d = x5 t) (hb6 : ∀ t d, dat.before 6 t d = x6 t) (hb7 : ∀ t d, dat.before 7 t d = x7 t) (hb8 : ∀ t d, dat.before 8 t d = x8 t)
    (ha0 : ∀ t, dat.after 0 t = x0 t) (ha1 : ∀ t, dat.after 1 t = x1 t) (ha2 : ∀ t, dat.after 2 t = x2 t) (ha3 : ∀ t, dat.after 3 t = x3 t) (ha4 : ∀ t, dat.after 4 t = x4 t) (ha5 : ∀ t, dat.after 5 t = x5 t) (ha6 : ∀ t, dat.after 6 t = x6 t) (ha7 : ∀ t, dat.after 7 t = x7 t) (ha8 : ∀ t, dat.after 8 t = x8 t)
    (ha9 : ∀ t, dat.after 9 t = k5_pay1 (k5_pay2 (x0 t) (x2 t) (x1 t) (x3 t) (x4 t) (x5 t) (x6 t)) (x7 t) (x8 t))
    (hΦ : ∀ t : Fin cfg5.N, dat.Φ t.castSucc ⊢ dat.Φ t.succ)
    (ho : ∀ t : Fin cfg5.N, dat.owesAt ι t.castSucc ⊢ dat.owesAt ι t.succ) (t : Fin cfg5.N) :
    iprop(dat.Φ t.castSucc ∗ dat.owesAt ι t.castSucc
      ∗ (∃ d, owns (c : Thread nD τ) (st5_0 t) fullShare (dat.before 0 t d))
      ∗ (∃ d, owns (c : Thread nD τ) (st5_1 t) fullShare (dat.before 1 t d))
      ∗ (∃ d, owns (c : Thread nD τ) (st5_2 t) fullShare (dat.before 2 t d))
      ∗ (∃ d, owns (c : Thread nD τ) (st5_3 t) fullShare (dat.before 3 t d))
      ∗ (∃ d, owns (c : Thread nD τ) (st5_4 t) fullShare (dat.before 4 t d))
      ∗ (∃ d, owns (c : Thread nD τ) (st5_5 t) fullShare (dat.before 5 t d))
      ∗ (∃ d, owns (c : Thread nD τ) (st5_6 t) fullShare (dat.before 6 t d))
      ∗ (∃ d, owns (c : Thread nD τ) (st5_7 t) fullShare (dat.before 7 t d))
      ∗ (∃ d, owns (c : Thread nD τ) (st5_8 t) fullShare (dat.before 8 t d))
      ∗ (∃ d, owns (c : Thread nD τ) (st5_9 t) fullShare (dat.before 9 t d)))
    ⊢ wp frame (wpE (defs₀ (F := F)) Variants.none c none) Set.univ (bodyAt5 t) (fun _ =>
        iprop(dat.Φ t.succ ∗ dat.owesAt ι t.succ
          ∗ owns (c : Thread nD τ) (st5_0 t) fullShare (dat.after 0 t)
          ∗ owns (c : Thread nD τ) (st5_1 t) fullShare (dat.after 1 t)
          ∗ owns (c : Thread nD τ) (st5_2 t) fullShare (dat.after 2 t)
          ∗ owns (c : Thread nD τ) (st5_3 t) fullShare (dat.after 3 t)
          ∗ owns (c : Thread nD τ) (st5_4 t) fullShare (dat.after 4 t)
          ∗ owns (c : Thread nD τ) (st5_5 t) fullShare (dat.after 5 t)
          ∗ owns (c : Thread nD τ) (st5_6 t) fullShare (dat.after 6 t)
          ∗ owns (c : Thread nD τ) (st5_7 t) fullShare (dat.after 7 t)
          ∗ owns (c : Thread nD τ) (st5_8 t) fullShare (dat.after 8 t)
          ∗ owns (c : Thread nD τ) (st5_9 t) fullShare (dat.after 9 t))) := by
  unfold bodyAt5
  simp only [hb0, hb1, hb2, hb3, hb4, hb5, hb6, hb7, hb8, ha0, ha1, ha2, ha3, ha4, ha5, ha6, ha7, ha8, ha9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel5 c Set.univ (grid5.coords t) _ _ _ _ _ _ _ _ _ _ _ _ _ _ _ _ _ _ _ _ (x0 t) (x1 t) (x2 t) (x3 t) (x4 t) (x5 t) (x6 t) (x7 t) (x8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iapply (hΦ t); iexact HΦ
  isplitl [Ho]; · iapply (ho t); iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline rule's body obligation for the call, at every point, under the same hypotheses. -/
theorem body_obligation5_of
    (hb0 : ∀ t d, dat.before 0 t d = x0 t) (hb1 : ∀ t d, dat.before 1 t d = x1 t) (hb2 : ∀ t d, dat.before 2 t d = x2 t) (hb3 : ∀ t d, dat.before 3 t d = x3 t) (hb4 : ∀ t d, dat.before 4 t d = x4 t) (hb5 : ∀ t d, dat.before 5 t d = x5 t) (hb6 : ∀ t d, dat.before 6 t d = x6 t) (hb7 : ∀ t d, dat.before 7 t d = x7 t) (hb8 : ∀ t d, dat.before 8 t d = x8 t)
    (ha0 : ∀ t, dat.after 0 t = x0 t) (ha1 : ∀ t, dat.after 1 t = x1 t) (ha2 : ∀ t, dat.after 2 t = x2 t) (ha3 : ∀ t, dat.after 3 t = x3 t) (ha4 : ∀ t, dat.after 4 t = x4 t) (ha5 : ∀ t, dat.after 5 t = x5 t) (ha6 : ∀ t, dat.after 6 t = x6 t) (ha7 : ∀ t, dat.after 7 t = x7 t) (ha8 : ∀ t, dat.after 8 t = x8 t)
    (ha9 : ∀ t, dat.after 9 t = k5_pay1 (k5_pay2 (x0 t) (x2 t) (x1 t) (x3 t) (x4 t) (x5 t) (x6 t)) (x7 t) (x8 t))
    (hΦ : ∀ t : Fin cfg5.N, dat.Φ t.castSucc ⊢ dat.Φ t.succ)
    (ho : ∀ t : Fin cfg5.N, dat.owesAt ι t.castSucc ⊢ dat.owesAt ι t.succ) :
    BodyObligation dat (defs₀ (F := F)) Variants.none ι Set.univ := fun t => by
  rw [bigSep_W5, bigSep_W5]
  exact sound_body5 dat ι x0 x1 x2 x3 x4 x5 x6 x7 x8 hb0 hb1 hb2 hb3 hb4 hb5 hb6 hb7 hb8 ha0 ha1 ha2 ha3 ha4 ha5 ha6 ha7 ha8 ha9 hΦ ho t

end Obligation

/-! ## The call's proof data over given array contents

The arrays' contents as the call finds them are a parameter `V`; the blocks the body is handed are read off them
through the windows, and the proof data says: every input window is found at its block and left there, the output
window is left at the stored block computed from the input blocks of that point. -/

section Data

variable (c : Dev nD) (V : (b : Ref sig .tc) → Buf (Elt F) ((c : Thread nD τ).loc b))

/-- Window `w`'s block at point `t`, read off its array's contents `V`. -/
def iblk5 (w : Fin cfg5.W) (t : Fin cfg5.N) : ((cfg5.win w).xblock (cfg5.grid.coords t)).Idx → Elt F (cfg5.win w).elt :=
  ((cfg5.win w).blk t).view.read (Elt F) (V (Pipeline.arrRef spec5 w))

/-- The block the body stores at point `t`, from the input windows' blocks there. -/
def out5 (t : Fin cfg5.N) : Vec F S1024x64 .f32 :=
  k5_pay1 (k5_pay2 (iblk5 c V 0 t) (iblk5 c V 2 t) (iblk5 c V 1 t) (iblk5 c V 3 t) (iblk5 c V 4 t) (iblk5 c V 5 t) (iblk5 c V 6 t)) (iblk5 c V 7 t) (iblk5 c V 8 t)

/-- An input window's current staging buffer holds its block at every point, fetched there or not, for any proof
    data whose array is `V`'s (`hA`) and whose body leaves the block in place (`hafter`): unfetched, the window's
    index has not moved since the point that fetched it. -/
theorem before5_0_of (dat : Dat τ (Elt F) Ix Name U Lvl cfg5 c) (hA : dat.A 0 = V (Pipeline.arrRef spec5 0))
    (hafter : ∀ t, dat.after 0 t = iblk5 c V 0 t) (t : Fin cfg5.N) (d) : dat.before 0 t d = iblk5 c V 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of (dat : Dat τ (Elt F) Ix Name U Lvl cfg5 c) (hA : dat.A 1 = V (Pipeline.arrRef spec5 1))
    (hafter : ∀ t, dat.after 1 t = iblk5 c V 1 t) (t : Fin cfg5.N) (d) : dat.before 1 t d = iblk5 c V 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of (dat : Dat τ (Elt F) Ix Name U Lvl cfg5 c) (hA : dat.A 2 = V (Pipeline.arrRef spec5 2))
    (hafter : ∀ t, dat.after 2 t = iblk5 c V 2 t) (t : Fin cfg5.N) (d) : dat.before 2 t d = iblk5 c V 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem before5_3_of (dat : Dat τ (Elt F) Ix Name U Lvl cfg5 c) (hA : dat.A 3 = V (Pipeline.arrRef spec5 3))
    (hafter : ∀ t, dat.after 3 t = iblk5 c V 3 t) (t : Fin cfg5.N) (d) : dat.before 3 t d = iblk5 c V 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
theorem before5_4_of (dat : Dat τ (Elt F) Ix Name U Lvl cfg5 c) (hA : dat.A 4 = V (Pipeline.arrRef spec5 4))
    (hafter : ∀ t, dat.after 4 t = iblk5 c V 4 t) (t : Fin cfg5.N) (d) : dat.before 4 t d = iblk5 c V 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)
theorem before5_5_of (dat : Dat τ (Elt F) Ix Name U Lvl cfg5 c) (hA : dat.A 5 = V (Pipeline.arrRef spec5 5))
    (hafter : ∀ t, dat.after 5 t = iblk5 c V 5 t) (t : Fin cfg5.N) (d) : dat.before 5 t d = iblk5 c V 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)
theorem before5_6_of (dat : Dat τ (Elt F) Ix Name U Lvl cfg5 c) (hA : dat.A 6 = V (Pipeline.arrRef spec5 6))
    (hafter : ∀ t, dat.after 6 t = iblk5 c V 6 t) (t : Fin cfg5.N) (d) : dat.before 6 t d = iblk5 c V 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)
theorem before5_7_of (dat : Dat τ (Elt F) Ix Name U Lvl cfg5 c) (hA : dat.A 7 = V (Pipeline.arrRef spec5 7))
    (hafter : ∀ t, dat.after 7 t = iblk5 c V 7 t) (t : Fin cfg5.N) (d) : dat.before 7 t d = iblk5 c V 7 t :=
  (dat.before_in_eq_fetched 7 rfl (fun _ => rfl) (fun _ _ _ => rfl) (fun t => by rw [hafter]; unfold Dat.blockOf iblk5; rw [hA]; try rfl) t d).trans
    (by unfold Dat.fetched Dat.blockOf iblk5; rw [hA]; try rfl)
theorem before5_8_of (dat : Dat τ (Elt F) Ix Name U Lvl cfg5 c) (hA : dat.A 8 = V (Pipeline.arrRef spec5 8))
    (hafter : ∀ t, dat.after 8 t = iblk5 c V 8 t) (t : Fin cfg5.N) (d) : dat.before 8 t d = iblk5 c V 8 t :=
  (dat.before_in_eq_fetched 8 rfl (fun _ => rfl) (fun _ _ _ => rfl) (fun t => by rw [hafter]; unfold Dat.blockOf iblk5; rw [hA]; try rfl) t d).trans
    (by unfold Dat.fetched Dat.blockOf iblk5; rw [hA]; try rfl)

/-- The proof data of the call on core `c`: the arrays as found (`V`); after the body at point `t` each input's
    buffer at its block and the output's at the stored block; one invariant `Φ₀`, one tally of debts `O` and
    one bound `Rec` on the recorded waits at every point, all untouched by the body; the input arrays held at the shares `q`. -/
def dat5 (Φ₀ : sProp (MT nD τ sig Ix (Elt F) Name U Lvl)) (O : CellTallies nD τ sig Ix) (Rec : Set (SemLoc sig × Ix))
    (q : Fin cfg5.W → PosShare TreeShare) : Dat τ (Elt F) Ix Name U Lvl cfg5 c where
  A w := V (Pipeline.arrRef spec5 w)
  after w t := match w with
    | ⟨0, _⟩ => iblk5 c V 0 t
    | ⟨1, _⟩ => iblk5 c V 1 t
    | ⟨2, _⟩ => iblk5 c V 2 t
    | ⟨3, _⟩ => iblk5 c V 3 t
    | ⟨4, _⟩ => iblk5 c V 4 t
    | ⟨5, _⟩ => iblk5 c V 5 t
    | ⟨6, _⟩ => iblk5 c V 6 t
    | ⟨7, _⟩ => iblk5 c V 7 t
    | ⟨8, _⟩ => iblk5 c V 8 t
    | ⟨9, _⟩ => out5 c V t
  Φ _ := Φ₀
  q := q
  owed _ := O
  recorded _ := Rec

variable (Φ₀ : sProp (MT nD τ sig Ix (Elt F) Name U Lvl)) (O : CellTallies nD τ sig Ix) (Rec : Set (SemLoc sig × Ix)) (q : Fin cfg5.W → PosShare TreeShare)

/-- The proof data's arrays are `V`'s, by projection. -/
theorem A5_eq (w : Fin cfg5.W) : (dat5 c V Φ₀ O Rec q).A w = V (Pipeline.arrRef spec5 w) := by dsimp only [dat5]

/-- What the body leaves, window by window. -/
theorem after5_0 (t : Fin cfg5.N) : (dat5 c V Φ₀ O Rec q).after 0 t = iblk5 c V 0 t := by dsimp only [dat5]
theorem after5_1 (t : Fin cfg5.N) : (dat5 c V Φ₀ O Rec q).after 1 t = iblk5 c V 1 t := by dsimp only [dat5]
theorem after5_2 (t : Fin cfg5.N) : (dat5 c V Φ₀ O Rec q).after 2 t = iblk5 c V 2 t := by dsimp only [dat5]
theorem after5_3 (t : Fin cfg5.N) : (dat5 c V Φ₀ O Rec q).after 3 t = iblk5 c V 3 t := by dsimp only [dat5]
theorem after5_4 (t : Fin cfg5.N) : (dat5 c V Φ₀ O Rec q).after 4 t = iblk5 c V 4 t := by dsimp only [dat5]
theorem after5_5 (t : Fin cfg5.N) : (dat5 c V Φ₀ O Rec q).after 5 t = iblk5 c V 5 t := by dsimp only [dat5]
theorem after5_6 (t : Fin cfg5.N) : (dat5 c V Φ₀ O Rec q).after 6 t = iblk5 c V 6 t := by dsimp only [dat5]
theorem after5_7 (t : Fin cfg5.N) : (dat5 c V Φ₀ O Rec q).after 7 t = iblk5 c V 7 t := by dsimp only [dat5]
theorem after5_8 (t : Fin cfg5.N) : (dat5 c V Φ₀ O Rec q).after 8 t = iblk5 c V 8 t := by dsimp only [dat5]
theorem after5_9 (t : Fin cfg5.N) : (dat5 c V Φ₀ O Rec q).after 9 t = out5 c V t := by dsimp only [dat5]

/-- What the body finds in each input's buffer. -/
theorem before5_0 (t : Fin cfg5.N) (d) : (dat5 c V Φ₀ O Rec q).before 0 t d = iblk5 c V 0 t :=
  before5_0_of c V (dat5 c V Φ₀ O Rec q) (A5_eq c V Φ₀ O Rec q 0) (after5_0 c V Φ₀ O Rec q) t d
theorem before5_1 (t : Fin cfg5.N) (d) : (dat5 c V Φ₀ O Rec q).before 1 t d = iblk5 c V 1 t :=
  before5_1_of c V (dat5 c V Φ₀ O Rec q) (A5_eq c V Φ₀ O Rec q 1) (after5_1 c V Φ₀ O Rec q) t d
theorem before5_2 (t : Fin cfg5.N) (d) : (dat5 c V Φ₀ O Rec q).before 2 t d = iblk5 c V 2 t :=
  before5_2_of c V (dat5 c V Φ₀ O Rec q) (A5_eq c V Φ₀ O Rec q 2) (after5_2 c V Φ₀ O Rec q) t d
theorem before5_3 (t : Fin cfg5.N) (d) : (dat5 c V Φ₀ O Rec q).before 3 t d = iblk5 c V 3 t :=
  before5_3_of c V (dat5 c V Φ₀ O Rec q) (A5_eq c V Φ₀ O Rec q 3) (after5_3 c V Φ₀ O Rec q) t d
theorem before5_4 (t : Fin cfg5.N) (d) : (dat5 c V Φ₀ O Rec q).before 4 t d = iblk5 c V 4 t :=
  before5_4_of c V (dat5 c V Φ₀ O Rec q) (A5_eq c V Φ₀ O Rec q 4) (after5_4 c V Φ₀ O Rec q) t d
theorem before5_5 (t : Fin cfg5.N) (d) : (dat5 c V Φ₀ O Rec q).before 5 t d = iblk5 c V 5 t :=
  before5_5_of c V (dat5 c V Φ₀ O Rec q) (A5_eq c V Φ₀ O Rec q 5) (after5_5 c V Φ₀ O Rec q) t d
theorem before5_6 (t : Fin cfg5.N) (d) : (dat5 c V Φ₀ O Rec q).before 6 t d = iblk5 c V 6 t :=
  before5_6_of c V (dat5 c V Φ₀ O Rec q) (A5_eq c V Φ₀ O Rec q 6) (after5_6 c V Φ₀ O Rec q) t d
theorem before5_7 (t : Fin cfg5.N) (d) : (dat5 c V Φ₀ O Rec q).before 7 t d = iblk5 c V 7 t :=
  before5_7_of c V (dat5 c V Φ₀ O Rec q) (A5_eq c V Φ₀ O Rec q 7) (after5_7 c V Φ₀ O Rec q) t d
theorem before5_8 (t : Fin cfg5.N) (d) : (dat5 c V Φ₀ O Rec q).before 8 t d = iblk5 c V 8 t :=
  before5_8_of c V (dat5 c V Φ₀ O Rec q) (A5_eq c V Φ₀ O Rec q 8) (after5_8 c V Φ₀ O Rec q) t d

/-- The pipeline rule's body obligation for this proof data, at every point and any index of the credit tokens. -/
theorem body_obligation5 (ι : Ix) : BodyObligation (dat5 c V Φ₀ O Rec q) (defs₀ (F := F)) Variants.none ι Set.univ :=
  body_obligation5_of (dat5 c V Φ₀ O Rec q) ι (iblk5 c V 0) (iblk5 c V 1) (iblk5 c V 2) (iblk5 c V 3) (iblk5 c V 4) (iblk5 c V 5) (iblk5 c V 6) (iblk5 c V 7) (iblk5 c V 8)
    (before5_0 c V Φ₀ O Rec q) (before5_1 c V Φ₀ O Rec q) (before5_2 c V Φ₀ O Rec q) (before5_3 c V Φ₀ O Rec q) (before5_4 c V Φ₀ O Rec q) (before5_5 c V Φ₀ O Rec q) (before5_6 c V Φ₀ O Rec q) (before5_7 c V Φ₀ O Rec q) (before5_8 c V Φ₀ O Rec q)
    (after5_0 c V Φ₀ O Rec q) (after5_1 c V Φ₀ O Rec q) (after5_2 c V Φ₀ O Rec q) (after5_3 c V Φ₀ O Rec q) (after5_4 c V Φ₀ O Rec q) (after5_5 c V Φ₀ O Rec q) (after5_6 c V Φ₀ O Rec q) (after5_7 c V Φ₀ O Rec q) (after5_8 c V Φ₀ O Rec q)
    (after5_9 c V Φ₀ O Rec q) (fun _ => .rfl) (fun _ => .rfl)

end Data

end Cert.Proof.TcW

end
-- ==== Proof.TcBody7W.lean ====
/-
  The TensorCore body of point-convolution call 7, run once on whole staging buffers, and the proof data of
  its pipeline.

  The body reads nine blocks whole — the gathered rows, the per-point bias of the first layer, the three layers'
  weights and biases, the output weights and the output bias — and stores one block whole: the output weights
  applied to the flattened products of the third layer's activations with the gathered features, plus the output
  bias. Nothing else is touched: every input buffer is handed back as it was found, and what the output buffer
  held before is overwritten everywhere. The statement is made once over arbitrary whole memrefs and arbitrary
  contents, then at the staging buffers the pipeline calls the body with at a grid point, and last in the form
  the pipeline rule asks of a body: for any proof data whose input windows are found and left at given blocks,
  whose output window is left at the stored block, and whose invariant and debts pass through unchanged. The
  proof data itself is stated over arbitrary contents of the ten windows' arrays: each input window's staging
  buffer holds that array's block at the point, fetched there or not, and the output window's holds the stored
  block computed from them.
-/
import proofs.«214101_g10505490006249_cont_week2b_118_28_alg».proof.Proof.Gen.Kernel.Launch
import proofs.«214101_g10505490006249_cont_week2b_118_28_alg».proof.Proof.Gen.Kernel.Skeleton
import proofs.«214101_g10505490006249_cont_week2b_118_28_alg».proof.Proof.Gen.Kernel.Points
import Idealize.ShloMosaic.Lib.Pipeline.FrameBody
import Idealize.ShloMosaic.Lib.Pipeline.Value
import Idealize.ShloMosaic.Lib.Tactic

set_option maxRecDepth 16384

noncomputable section

namespace Cert.Proof.TcW

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## The body on whole memrefs -/

/-- The offsets of every whole-block access: zero on both axes. -/
theorem zeros7 : (![0, 0] : Fin 2 → Nat) = fun _ => 0 := by funext a; fin_cases a <;> rfl

/-- The one store of the body covers the output block. -/
theorem cover7 (p0 : Vec F S1024x64 .f32) (y : S1024x64.Idx) :
    ∃ pc ∈ ([⟨Rect.unit (s := S1024x64) ![0, 0] S1024x64.size inb_S1024x64_S1024x64_0_0, p0⟩] : List (View.Piece (Elt F) S1024x64 .f32)), y ∈ pc.1.set :=
  ⟨_, List.mem_singleton_self _, View.mem_set_unit_zero zeros7 inb_S1024x64_S1024x64_0_0 y⟩

set_option maxHeartbeats 1000000 in
/-- The body on ten whole memrefs, the nine inputs' read at `x0 … x8` and the output's at anything, runs to the
    continuation holding the inputs' as they were and the output's at the stored block: the output weights `x7`
    applied to the flattened products computed from `x0 … x6`, plus the output bias `x8`. -/
theorem sound_kernel7 (c : Dev nD) (E : Set Name) (i : grid7.Coords)
    (arg1 : Memref sig .tc .vmem S16384x128 .f32) (harg1 : arg1.IsWhole) (arg2 : Memref sig .tc .vmem S1024x32 .f32) (harg2 : arg2.IsWhole) (arg3 : Memref sig .tc .vmem S128x32 .f32) (harg3 : arg3.IsWhole) (arg4 : Memref sig .tc .vmem S32x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S1024x64 .f32) (harg8 : arg8.IsWhole) (arg9 : Memref sig .tc .vmem S1x64 .f32) (harg9 : arg9.IsWhole) (arg10 : Memref sig .tc .vmem S1024x64 .f32) (harg10 : arg10.IsWhole)
    (x0 : Vec F S16384x128 .f32) (x1 : Vec F S1024x32 .f32) (x2 : Vec F S128x32 .f32) (x3 : Vec F S32x16 .f32) (x4 : Vec F S1x16 .f32) (x5 : Vec F S16x16 .f32) (x6 : Vec F S1x16 .f32) (x7 : Vec F S1024x64 .f32) (x8 : Vec F S1x64 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ owns (c : Thread nD τ) arg10 fullShare (k7_pay1 (k7_pay2 x0 x2 x1 x3 x4 x5 x6) x7 x8)) -∗ K ⟨⟩))
      ⊢ wp frame (wpE (defs₀ (F := F)) Variants.none c none) E (cc7__tc_body i arg1 harg1 arg2 harg2 arg3 harg3 arg4 harg4 arg5 harg5 arg6 harg6 arg7 harg7 arg8 harg8 arg9 harg9 arg10 harg10) K := by
  simp only [cc7__tc_body_eq_skeleton]; unfold cc7__tc_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  rw [View.read_writes_eq_canon _ _ _ (cover7 _), View.canon_unit_zero zeros7]
  unfold sound_kernel7.sl.r
  simp only [View.readAt_eq_ld, View.ld_unit_zero (S := S16384x128) zeros7, View.ld_unit_zero (S := S128x32) zeros7, View.ld_unit_zero (S := S1024x32) zeros7, View.ld_unit_zero (S := S32x16) zeros7, View.ld_unit_zero (S := S1x16) zeros7, View.ld_unit_zero (S := S16x16) zeros7, View.ld_unit_zero (S := S1024x64) zeros7, View.ld_unit_zero (S := S1x64) zeros7]

/-! ## The body at a grid point, for any proof data of the call -/

section Obligation

variable {c : Dev nD} (dat : Dat τ (Elt F) Ix Name U Lvl cfg7 c) (ι : Ix)
  (x0 : Fin cfg7.N → Vec F S16384x128 .f32) (x1 : Fin cfg7.N → Vec F S1024x32 .f32) (x2 : Fin cfg7.N → Vec F S128x32 .f32) (x3 : Fin cfg7.N → Vec F S32x16 .f32) (x4 : Fin cfg7.N → Vec F S1x16 .f32) (x5 : Fin cfg7.N → Vec F S16x16 .f32) (x6 : Fin cfg7.N → Vec F S1x16 .f32) (x7 : Fin cfg7.N → Vec F S1024x64 .f32) (x8 : Fin cfg7.N → Vec F S1x64 .f32)

/-- The body at point `t` on the staging buffers the pipeline calls it with. The proof data's input windows are
    found at the blocks `x0 t … x8 t` (`hb`) and left there (`ha`), its output window is left at the stored block
    (`ha9`), and its invariant and the core's debts at the next point follow from those before (`hΦ`, `ho`): they
    pass through the body unread. -/
theorem sound_body7
    (hb0 : ∀ t d, dat.before 0 t d = x0 t) (hb1 : ∀ t d, dat.before 1 t d = x1 t) (hb2 : ∀ t d, dat.before 2 t d = x2 t) (hb3 : ∀ t d, dat.before 3 t d = x3 t) (hb4 : ∀ t d, dat.before 4 t d = x4 t) (hb5 : ∀ t d, dat.before 5 t d = x5 t) (hb6 : ∀ t d, dat.before 6 t d = x6 t) (hb7 : ∀ t d, dat.before 7 t d = x7 t) (hb8 : ∀ t d, dat.before 8 t d = x8 t)
    (ha0 : ∀ t, dat.after 0 t = x0 t) (ha1 : ∀ t, dat.after 1 t = x1 t) (ha2 : ∀ t, dat.after 2 t = x2 t) (ha3 : ∀ t, dat.after 3 t = x3 t) (ha4 : ∀ t, dat.after 4 t = x4 t) (ha5 : ∀ t, dat.after 5 t = x5 t) (ha6 : ∀ t, dat.after 6 t = x6 t) (ha7 : ∀ t, dat.after 7 t = x7 t) (ha8 : ∀ t, dat.after 8 t = x8 t)
    (ha9 : ∀ t, dat.after 9 t = k7_pay1 (k7_pay2 (x0 t) (x2 t) (x1 t) (x3 t) (x4 t) (x5 t) (x6 t)) (x7 t) (x8 t))
    (hΦ : ∀ t : Fin cfg7.N, dat.Φ t.castSucc ⊢ dat.Φ t.succ)
    (ho : ∀ t : Fin cfg7.N, dat.owesAt ι t.castSucc ⊢ dat.owesAt ι t.succ) (t : Fin cfg7.N) :
    iprop(dat.Φ t.castSucc ∗ dat.owesAt ι t.castSucc
      ∗ (∃ d, owns (c : Thread nD τ) (st7_0 t) fullShare (dat.before 0 t d))
      ∗ (∃ d, owns (c : Thread nD τ) (st7_1 t) fullShare (dat.before 1 t d))
      ∗ (∃ d, owns (c : Thread nD τ) (st7_2 t) fullShare (dat.before 2 t d))
      ∗ (∃ d, owns (c : Thread nD τ) (st7_3 t) fullShare (dat.before 3 t d))
      ∗ (∃ d, owns (c : Thread nD τ) (st7_4 t) fullShare (dat.before 4 t d))
      ∗ (∃ d, owns (c : Thread nD τ) (st7_5 t) fullShare (dat.before 5 t d))
      ∗ (∃ d, owns (c : Thread nD τ) (st7_6 t) fullShare (dat.before 6 t d))
      ∗ (∃ d, owns (c : Thread nD τ) (st7_7 t) fullShare (dat.before 7 t d))
      ∗ (∃ d, owns (c : Thread nD τ) (st7_8 t) fullShare (dat.before 8 t d))
      ∗ (∃ d, owns (c : Thread nD τ) (st7_9 t) fullShare (dat.before 9 t d)))
    ⊢ wp frame (wpE (defs₀ (F := F)) Variants.none c none) Set.univ (bodyAt7 t) (fun _ =>
        iprop(dat.Φ t.succ ∗ dat.owesAt ι t.succ
          ∗ owns (c : Thread nD τ) (st7_0 t) fullShare (dat.after 0 t)
          ∗ owns (c : Thread nD τ) (st7_1 t) fullShare (dat.after 1 t)
          ∗ owns (c : Thread nD τ) (st7_2 t) fullShare (dat.after 2 t)
          ∗ owns (c : Thread nD τ) (st7_3 t) fullShare (dat.after 3 t)
          ∗ owns (c : Thread nD τ) (st7_4 t) fullShare (dat.after 4 t)
          ∗ owns (c : Thread nD τ) (st7_5 t) fullShare (dat.after 5 t)
          ∗ owns (c : Thread nD τ) (st7_6 t) fullShare (dat.after 6 t)
          ∗ owns (c : Thread nD τ) (st7_7 t) fullShare (dat.after 7 t)
          ∗ owns (c : Thread nD τ) (st7_8 t) fullShare (dat.after 8 t)
          ∗ owns (c : Thread nD τ) (st7_9 t) fullShare (dat.after 9 t))) := by
  unfold bodyAt7
  simp only [hb0, hb1, hb2, hb3, hb4, hb5, hb6, hb7, hb8, ha0, ha1, ha2, ha3, ha4, ha5, ha6, ha7, ha8, ha9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel7 c Set.univ (grid7.coords t) _ _ _ _ _ _ _ _ _ _ _ _ _ _ _ _ _ _ _ _ (x0 t) (x1 t) (x2 t) (x3 t) (x4 t) (x5 t) (x6 t) (x7 t) (x8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iapply (hΦ t); iexact HΦ
  isplitl [Ho]; · iapply (ho t); iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline rule's body obligation for the call, at every point, under the same hypotheses. -/
theorem body_obligation7_of
    (hb0 : ∀ t d, dat.before 0 t d = x0 t) (hb1 : ∀ t d, dat.before 1 t d = x1 t) (hb2 : ∀ t d, dat.before 2 t d = x2 t) (hb3 : ∀ t d, dat.before 3 t d = x3 t) (hb4 : ∀ t d, dat.before 4 t d = x4 t) (hb5 : ∀ t d, dat.before 5 t d = x5 t) (hb6 : ∀ t d, dat.before 6 t d = x6 t) (hb7 : ∀ t d, dat.before 7 t d = x7 t) (hb8 : ∀ t d, dat.before 8 t d = x8 t)
    (ha0 : ∀ t, dat.after 0 t = x0 t) (ha1 : ∀ t, dat.after 1 t = x1 t) (ha2 : ∀ t, dat.after 2 t = x2 t) (ha3 : ∀ t, dat.after 3 t = x3 t) (ha4 : ∀ t, dat.after 4 t = x4 t) (ha5 : ∀ t, dat.after 5 t = x5 t) (ha6 : ∀ t, dat.after 6 t = x6 t) (ha7 : ∀ t, dat.after 7 t = x7 t) (ha8 : ∀ t, dat.after 8 t = x8 t)
    (ha9 : ∀ t, dat.after 9 t = k7_pay1 (k7_pay2 (x0 t) (x2 t) (x1 t) (x3 t) (x4 t) (x5 t) (x6 t)) (x7 t) (x8 t))
    (hΦ : ∀ t : Fin cfg7.N, dat.Φ t.castSucc ⊢ dat.Φ t.succ)
    (ho : ∀ t : Fin cfg7.N, dat.owesAt ι t.castSucc ⊢ dat.owesAt ι t.succ) :
    BodyObligation dat (defs₀ (F := F)) Variants.none ι Set.univ := fun t => by
  rw [bigSep_W7, bigSep_W7]
  exact sound_body7 dat ι x0 x1 x2 x3 x4 x5 x6 x7 x8 hb0 hb1 hb2 hb3 hb4 hb5 hb6 hb7 hb8 ha0 ha1 ha2 ha3 ha4 ha5 ha6 ha7 ha8 ha9 hΦ ho t

end Obligation

/-! ## The call's proof data over given array contents

The arrays' contents as the call finds them are a parameter `V`; the blocks the body is handed are read off them
through the windows, and the proof data says: every input window is found at its block and left there, the output
window is left at the stored block computed from the input blocks of that point. -/

section Data

variable (c : Dev nD) (V : (b : Ref sig .tc) → Buf (Elt F) ((c : Thread nD τ).loc b))

/-- Window `w`'s block at point `t`, read off its array's contents `V`. -/
def iblk7 (w : Fin cfg7.W) (t : Fin cfg7.N) : ((cfg7.win w).xblock (cfg7.grid.coords t)).Idx → Elt F (cfg7.win w).elt :=
  ((cfg7.win w).blk t).view.read (Elt F) (V (Pipeline.arrRef spec7 w))

/-- The block the body stores at point `t`, from the input windows' blocks there. -/
def out7 (t : Fin cfg7.N) : Vec F S1024x64 .f32 :=
  k7_pay1 (k7_pay2 (iblk7 c V 0 t) (iblk7 c V 2 t) (iblk7 c V 1 t) (iblk7 c V 3 t) (iblk7 c V 4 t) (iblk7 c V 5 t) (iblk7 c V 6 t)) (iblk7 c V 7 t) (iblk7 c V 8 t)

/-- An input window's current staging buffer holds its block at every point, fetched there or not, for any proof
    data whose array is `V`'s (`hA`) and whose body leaves the block in place (`hafter`): unfetched, the window's
    index has not moved since the point that fetched it. -/
theorem before7_0_of (dat : Dat τ (Elt F) Ix Name U Lvl cfg7 c) (hA : dat.A 0 = V (Pipeline.arrRef spec7 0))
    (hafter : ∀ t, dat.after 0 t = iblk7 c V 0 t) (t : Fin cfg7.N) (d) : dat.before 0 t d = iblk7 c V 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of (dat : Dat τ (Elt F) Ix Name U Lvl cfg7 c) (hA : dat.A 1 = V (Pipeline.arrRef spec7 1))
    (hafter : ∀ t, dat.after 1 t = iblk7 c V 1 t) (t : Fin cfg7.N) (d) : dat.before 1 t d = iblk7 c V 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
theorem before7_2_of (dat : Dat τ (Elt F) Ix Name U Lvl cfg7 c) (hA : dat.A 2 = V (Pipeline.arrRef spec7 2))
    (hafter : ∀ t, dat.after 2 t = iblk7 c V 2 t) (t : Fin cfg7.N) (d) : dat.before 2 t d = iblk7 c V 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)
theorem before7_3_of (dat : Dat τ (Elt F) Ix Name U Lvl cfg7 c) (hA : dat.A 3 = V (Pipeline.arrRef spec7 3))
    (hafter : ∀ t, dat.after 3 t = iblk7 c V 3 t) (t : Fin cfg7.N) (d) : dat.before 3 t d = iblk7 c V 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)
theorem before7_4_of (dat : Dat τ (Elt F) Ix Name U Lvl cfg7 c) (hA : dat.A 4 = V (Pipeline.arrRef spec7 4))
    (hafter : ∀ t, dat.after 4 t = iblk7 c V 4 t) (t : Fin cfg7.N) (d) : dat.before 4 t d = iblk7 c V 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)
theorem before7_5_of (dat : Dat τ (Elt F) Ix Name U Lvl cfg7 c) (hA : dat.A 5 = V (Pipeline.arrRef spec7 5))
    (hafter : ∀ t, dat.after 5 t = iblk7 c V 5 t) (t : Fin cfg7.N) (d) : dat.before 5 t d = iblk7 c V 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)
theorem before7_6_of (dat : Dat τ (Elt F) Ix Name U Lvl cfg7 c) (hA : dat.A 6 = V (Pipeline.arrRef spec7 6))
    (hafter : ∀ t, dat.after 6 t = iblk7 c V 6 t) (t : Fin cfg7.N) (d) : dat.before 6 t d = iblk7 c V 6 t :=
  (dat.before_in_eq_fetched 6 rfl (fun _ => rfl) (fun _ _ _ => rfl) (fun t => by rw [hafter]; unfold Dat.blockOf iblk7; rw [hA]; try rfl) t d).trans
    (by unfold Dat.fetched Dat.blockOf iblk7; rw [hA]; try rfl)
theorem before7_7_of (dat : Dat τ (Elt F) Ix Name U Lvl cfg7 c) (hA : dat.A 7 = V (Pipeline.arrRef spec7 7))
    (hafter : ∀ t, dat.after 7 t = iblk7 c V 7 t) (t : Fin cfg7.N) (d) : dat.before 7 t d = iblk7 c V 7 t :=
  (dat.before_in_eq_fetched 7 rfl (fun _ => rfl) (fun _ _ _ => rfl) (fun t => by rw [hafter]; unfold Dat.blockOf iblk7; rw [hA]; try rfl) t d).trans
    (by unfold Dat.fetched Dat.blockOf iblk7; rw [hA]; try rfl)
theorem before7_8_of (dat : Dat τ (Elt F) Ix Name U Lvl cfg7 c) (hA : dat.A 8 = V (Pipeline.arrRef spec7 8))
    (hafter : ∀ t, dat.after 8 t = iblk7 c V 8 t) (t : Fin cfg7.N) (d) : dat.before 8 t d = iblk7 c V 8 t :=
  (dat.before_in_eq_fetched 8 rfl (fun _ => rfl) (fun _ _ _ => rfl) (fun t => by rw [hafter]; unfold Dat.blockOf iblk7; rw [hA]; try rfl) t d).trans
    (by unfold Dat.fetched Dat.blockOf iblk7; rw [hA]; try rfl)

/-- The proof data of the call on core `c`: the arrays as found (`V`); after the body at point `t` each input's
    buffer at its block and the output's at the stored block; one invariant `Φ₀`, one tally of debts `O` and
    one bound `Rec` on the recorded waits at every point, all untouched by the body; the input arrays held at the shares `q`. -/
def dat7 (Φ₀ : sProp (MT nD τ sig Ix (Elt F) Name U Lvl)) (O : CellTallies nD τ sig Ix) (Rec : Set (SemLoc sig × Ix))
    (q : Fin cfg7.W → PosShare TreeShare) : Dat τ (Elt F) Ix Name U Lvl cfg7 c where
  A w := V (Pipeline.arrRef spec7 w)
  after w t := match w with
    | ⟨0, _⟩ => iblk7 c V 0 t
    | ⟨1, _⟩ => iblk7 c V 1 t
    | ⟨2, _⟩ => iblk7 c V 2 t
    | ⟨3, _⟩ => iblk7 c V 3 t
    | ⟨4, _⟩ => iblk7 c V 4 t
    | ⟨5, _⟩ => iblk7 c V 5 t
    | ⟨6, _⟩ => iblk7 c V 6 t
    | ⟨7, _⟩ => iblk7 c V 7 t
    | ⟨8, _⟩ => iblk7 c V 8 t
    | ⟨9, _⟩ => out7 c V t
  Φ _ := Φ₀
  q := q
  owed _ := O
  recorded _ := Rec

variable (Φ₀ : sProp (MT nD τ sig Ix (Elt F) Name U Lvl)) (O : CellTallies nD τ sig Ix) (Rec : Set (SemLoc sig × Ix)) (q : Fin cfg7.W → PosShare TreeShare)

/-- The proof data's arrays are `V`'s, by projection. -/
theorem A7_eq (w : Fin cfg7.W) : (dat7 c V Φ₀ O Rec q).A w = V (Pipeline.arrRef spec7 w) := by dsimp only [dat7]

/-- What the body leaves, window by window. -/
theorem after7_0 (t : Fin cfg7.N) : (dat7 c V Φ₀ O Rec q).after 0 t = iblk7 c V 0 t := by dsimp only [dat7]
theorem after7_1 (t : Fin cfg7.N) : (dat7 c V Φ₀ O Rec q).after 1 t = iblk7 c V 1 t := by dsimp only [dat7]
theorem after7_2 (t : Fin cfg7.N) : (dat7 c V Φ₀ O Rec q).after 2 t = iblk7 c V 2 t := by dsimp only [dat7]
theorem after7_3 (t : Fin cfg7.N) : (dat7 c V Φ₀ O Rec q).after 3 t = iblk7 c V 3 t := by dsimp only [dat7]
theorem after7_4 (t : Fin cfg7.N) : (dat7 c V Φ₀ O Rec q).after 4 t = iblk7 c V 4 t := by dsimp only [dat7]
theorem after7_5 (t : Fin cfg7.N) : (dat7 c V Φ₀ O Rec q).after 5 t = iblk7 c V 5 t := by dsimp only [dat7]
theorem after7_6 (t : Fin cfg7.N) : (dat7 c V Φ₀ O Rec q).after 6 t = iblk7 c V 6 t := by dsimp only [dat7]
theorem after7_7 (t : Fin cfg7.N) : (dat7 c V Φ₀ O Rec q).after 7 t = iblk7 c V 7 t := by dsimp only [dat7]
theorem after7_8 (t : Fin cfg7.N) : (dat7 c V Φ₀ O Rec q).after 8 t = iblk7 c V 8 t := by dsimp only [dat7]
theorem after7_9 (t : Fin cfg7.N) : (dat7 c V Φ₀ O Rec q).after 9 t = out7 c V t := by dsimp only [dat7]

/-- What the body finds in each input's buffer. -/
theorem before7_0 (t : Fin cfg7.N) (d) : (dat7 c V Φ₀ O Rec q).before 0 t d = iblk7 c V 0 t :=
  before7_0_of c V (dat7 c V Φ₀ O Rec q) (A7_eq c V Φ₀ O Rec q 0) (after7_0 c V Φ₀ O Rec q) t d
theorem before7_1 (t : Fin cfg7.N) (d) : (dat7 c V Φ₀ O Rec q).before 1 t d = iblk7 c V 1 t :=
  before7_1_of c V (dat7 c V Φ₀ O Rec q) (A7_eq c V Φ₀ O Rec q 1) (after7_1 c V Φ₀ O Rec q) t d
theorem before7_2 (t : Fin cfg7.N) (d) : (dat7 c V Φ₀ O Rec q).before 2 t d = iblk7 c V 2 t :=
  before7_2_of c V (dat7 c V Φ₀ O Rec q) (A7_eq c V Φ₀ O Rec q 2) (after7_2 c V Φ₀ O Rec q) t d
theorem before7_3 (t : Fin cfg7.N) (d) : (dat7 c V Φ₀ O Rec q).before 3 t d = iblk7 c V 3 t :=
  before7_3_of c V (dat7 c V Φ₀ O Rec q) (A7_eq c V Φ₀ O Rec q 3) (after7_3 c V Φ₀ O Rec q) t d
theorem before7_4 (t : Fin cfg7.N) (d) : (dat7 c V Φ₀ O Rec q).before 4 t d = iblk7 c V 4 t :=
  before7_4_of c V (dat7 c V Φ₀ O Rec q) (A7_eq c V Φ₀ O Rec q 4) (after7_4 c V Φ₀ O Rec q) t d
theorem before7_5 (t : Fin cfg7.N) (d) : (dat7 c V Φ₀ O Rec q).before 5 t d = iblk7 c V 5 t :=
  before7_5_of c V (dat7 c V Φ₀ O Rec q) (A7_eq c V Φ₀ O Rec q 5) (after7_5 c V Φ₀ O Rec q) t d
theorem before7_6 (t : Fin cfg7.N) (d) : (dat7 c V Φ₀ O Rec q).before 6 t d = iblk7 c V 6 t :=
  before7_6_of c V (dat7 c V Φ₀ O Rec q) (A7_eq c V Φ₀ O Rec q 6) (after7_6 c V Φ₀ O Rec q) t d
theorem before7_7 (t : Fin cfg7.N) (d) : (dat7 c V Φ₀ O Rec q).before 7 t d = iblk7 c V 7 t :=
  before7_7_of c V (dat7 c V Φ₀ O Rec q) (A7_eq c V Φ₀ O Rec q 7) (after7_7 c V Φ₀ O Rec q) t d
theorem before7_8 (t : Fin cfg7.N) (d) : (dat7 c V Φ₀ O Rec q).before 8 t d = iblk7 c V 8 t :=
  before7_8_of c V (dat7 c V Φ₀ O Rec q) (A7_eq c V Φ₀ O Rec q 8) (after7_8 c V Φ₀ O Rec q) t d

/-- The pipeline rule's body obligation for this proof data, at every point and any index of the credit tokens. -/
theorem body_obligation7 (ι : Ix) : BodyObligation (dat7 c V Φ₀ O Rec q) (defs₀ (F := F)) Variants.none ι Set.univ :=
  body_obligation7_of (dat7 c V Φ₀ O Rec q) ι (iblk7 c V 0) (iblk7 c V 1) (iblk7 c V 2) (iblk7 c V 3) (iblk7 c V 4) (iblk7 c V 5) (iblk7 c V 6) (iblk7 c V 7) (iblk7 c V 8)
    (before7_0 c V Φ₀ O Rec q) (before7_1 c V Φ₀ O Rec q) (before7_2 c V Φ₀ O Rec q) (before7_3 c V Φ₀ O Rec q) (before7_4 c V Φ₀ O Rec q) (before7_5 c V Φ₀ O Rec q) (before7_6 c V Φ₀ O Rec q) (before7_7 c V Φ₀ O Rec q) (before7_8 c V Φ₀ O Rec q)
    (after7_0 c V Φ₀ O Rec q) (after7_1 c V Φ₀ O Rec q) (after7_2 c V Φ₀ O Rec q) (after7_3 c V Φ₀ O Rec q) (after7_4 c V Φ₀ O Rec q) (after7_5 c V Φ₀ O Rec q) (after7_6 c V Φ₀ O Rec q) (after7_7 c V Φ₀ O Rec q) (after7_8 c V Φ₀ O Rec q)
    (after7_9 c V Φ₀ O Rec q) (fun _ => .rfl) (fun _ => .rfl)

end Data

end Cert.Proof.TcW

end
-- ==== Proof.TcBody9W.lean ====
/-
  The TensorCore body of point-convolution call 9, run once on whole staging buffers, and the proof data of
  its pipeline.

  The body reads nine blocks whole — the gathered rows, the per-point bias of the first layer, the three layers'
  weights and biases, the output weights and the output bias — and stores one block whole: the output weights
  applied to the flattened products of the third layer's activations with the gathered features, plus the output
  bias. Nothing else is touched: every input buffer is handed back as it was found, and what the output buffer
  held before is overwritten everywhere. The statement is made once over arbitrary whole memrefs and arbitrary
  contents, then at the staging buffers the pipeline calls the body with at a grid point, and last in the form
  the pipeline rule asks of a body: for any proof data whose input windows are found and left at given blocks,
  whose output window is left at the stored block, and whose invariant and debts pass through unchanged. The
  proof data itself is stated over arbitrary contents of the ten windows' arrays: each input window's staging
  buffer holds that array's block at the point, fetched there or not, and the output window's holds the stored
  block computed from them.
-/
import proofs.«214101_g10505490006249_cont_week2b_118_28_alg».proof.Proof.Gen.Kernel.Launch
import proofs.«214101_g10505490006249_cont_week2b_118_28_alg».proof.Proof.Gen.Kernel.Skeleton
import proofs.«214101_g10505490006249_cont_week2b_118_28_alg».proof.Proof.Gen.Kernel.Points
import Idealize.ShloMosaic.Lib.Pipeline.FrameBody
import Idealize.ShloMosaic.Lib.Pipeline.Value
import Idealize.ShloMosaic.Lib.Tactic

set_option maxRecDepth 16384

noncomputable section

namespace Cert.Proof.TcW

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## The body on whole memrefs -/

/-- The offsets of every whole-block access: zero on both axes. -/
theorem zeros9 : (![0, 0] : Fin 2 → Nat) = fun _ => 0 := by funext a; fin_cases a <;> rfl

/-- The one store of the body covers the output block. -/
theorem cover9 (p0 : Vec F S1024x64 .f32) (y : S1024x64.Idx) :
    ∃ pc ∈ ([⟨Rect.unit (s := S1024x64) ![0, 0] S1024x64.size inb_S1024x64_S1024x64_0_0, p0⟩] : List (View.Piece (Elt F) S1024x64 .f32)), y ∈ pc.1.set :=
  ⟨_, List.mem_singleton_self _, View.mem_set_unit_zero zeros9 inb_S1024x64_S1024x64_0_0 y⟩

set_option maxHeartbeats 1000000 in
/-- The body on ten whole memrefs, the nine inputs' read at `x0 … x8` and the output's at anything, runs to the
    continuation holding the inputs' as they were and the output's at the stored block: the output weights `x7`
    applied to the flattened products computed from `x0 … x6`, plus the output bias `x8`. -/
theorem sound_kernel9 (c : Dev nD) (E : Set Name) (i : grid9.Coords)
    (arg1 : Memref sig .tc .vmem S16384x128 .f32) (harg1 : arg1.IsWhole) (arg2 : Memref sig .tc .vmem S1024x32 .f32) (harg2 : arg2.IsWhole) (arg3 : Memref sig .tc .vmem S128x32 .f32) (harg3 : arg3.IsWhole) (arg4 : Memref sig .tc .vmem S32x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S1024x64 .f32) (harg8 : arg8.IsWhole) (arg9 : Memref sig .tc .vmem S1x64 .f32) (harg9 : arg9.IsWhole) (arg10 : Memref sig .tc .vmem S1024x64 .f32) (harg10 : arg10.IsWhole)
    (x0 : Vec F S16384x128 .f32) (x1 : Vec F S1024x32 .f32) (x2 : Vec F S128x32 .f32) (x3 : Vec F S32x16 .f32) (x4 : Vec F S1x16 .f32) (x5 : Vec F S16x16 .f32) (x6 : Vec F S1x16 .f32) (x7 : Vec F S1024x64 .f32) (x8 : Vec F S1x64 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ owns (c : Thread nD τ) arg10 fullShare (k9_pay1 (k9_pay2 x0 x2 x1 x3 x4 x5 x6) x7 x8)) -∗ K ⟨⟩))
      ⊢ wp frame (wpE (defs₀ (F := F)) Variants.none c none) E (cc9__tc_body i arg1 harg1 arg2 harg2 arg3 harg3 arg4 harg4 arg5 harg5 arg6 harg6 arg7 harg7 arg8 harg8 arg9 harg9 arg10 harg10) K := by
  simp only [cc9__tc_body_eq_skeleton]; unfold cc9__tc_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  rw [View.read_writes_eq_canon _ _ _ (cover9 _), View.canon_unit_zero zeros9]
  unfold sound_kernel9.sl.r
  simp only [View.readAt_eq_ld, View.ld_unit_zero (S := S16384x128) zeros9, View.ld_unit_zero (S := S128x32) zeros9, View.ld_unit_zero (S := S1024x32) zeros9, View.ld_unit_zero (S := S32x16) zeros9, View.ld_unit_zero (S := S1x16) zeros9, View.ld_unit_zero (S := S16x16) zeros9, View.ld_unit_zero (S := S1024x64) zeros9, View.ld_unit_zero (S := S1x64) zeros9]

/-! ## The body at a grid point, for any proof data of the call -/

section Obligation

variable {c : Dev nD} (dat : Dat τ (Elt F) Ix Name U Lvl cfg9 c) (ι : Ix)
  (x0 : Fin cfg9.N → Vec F S16384x128 .f32) (x1 : Fin cfg9.N → Vec F S1024x32 .f32) (x2 : Fin cfg9.N → Vec F S128x32 .f32) (x3 : Fin cfg9.N → Vec F S32x16 .f32) (x4 : Fin cfg9.N → Vec F S1x16 .f32) (x5 : Fin cfg9.N → Vec F S16x16 .f32) (x6 : Fin cfg9.N → Vec F S1x16 .f32) (x7 : Fin cfg9.N → Vec F S1024x64 .f32) (x8 : Fin cfg9.N → Vec F S1x64 .f32)

/-- The body at point `t` on the staging buffers the pipeline calls it with. The proof data's input windows are
    found at the blocks `x0 t … x8 t` (`hb`) and left there (`ha`), its output window is left at the stored block
    (`ha9`), and its invariant and the core's debts at the next point follow from those before (`hΦ`, `ho`): they
    pass through the body unread. -/
theorem sound_body9
    (hb0 : ∀ t d, dat.before 0 t d = x0 t) (hb1 : ∀ t d, dat.before 1 t d = x1 t) (hb2 : ∀ t d, dat.before 2 t d = x2 t) (hb3 : ∀ t d, dat.before 3 t d = x3 t) (hb4 : ∀ t d, dat.before 4 t d = x4 t) (hb5 : ∀ t d, dat.before 5 t d = x5 t) (hb6 : ∀ t d, dat.before 6 t d = x6 t) (hb7 : ∀ t d, dat.before 7 t d = x7 t) (hb8 : ∀ t d, dat.before 8 t d = x8 t)
    (ha0 : ∀ t, dat.after 0 t = x0 t) (ha1 : ∀ t, dat.after 1 t = x1 t) (ha2 : ∀ t, dat.after 2 t = x2 t) (ha3 : ∀ t, dat.after 3 t = x3 t) (ha4 : ∀ t, dat.after 4 t = x4 t) (ha5 : ∀ t, dat.after 5 t = x5 t) (ha6 : ∀ t, dat.after 6 t = x6 t) (ha7 : ∀ t, dat.after 7 t = x7 t) (ha8 : ∀ t, dat.after 8 t = x8 t)
    (ha9 : ∀ t, dat.after 9 t = k9_pay1 (k9_pay2 (x0 t) (x2 t) (x1 t) (x3 t) (x4 t) (x5 t) (x6 t)) (x7 t) (x8 t))
    (hΦ : ∀ t : Fin cfg9.N, dat.Φ t.castSucc ⊢ dat.Φ t.succ)
    (ho : ∀ t : Fin cfg9.N, dat.owesAt ι t.castSucc ⊢ dat.owesAt ι t.succ) (t : Fin cfg9.N) :
    iprop(dat.Φ t.castSucc ∗ dat.owesAt ι t.castSucc
      ∗ (∃ d, owns (c : Thread nD τ) (st9_0 t) fullShare (dat.before 0 t d))
      ∗ (∃ d, owns (c : Thread nD τ) (st9_1 t) fullShare (dat.before 1 t d))
      ∗ (∃ d, owns (c : Thread nD τ) (st9_2 t) fullShare (dat.before 2 t d))
      ∗ (∃ d, owns (c : Thread nD τ) (st9_3 t) fullShare (dat.before 3 t d))
      ∗ (∃ d, owns (c : Thread nD τ) (st9_4 t) fullShare (dat.before 4 t d))
      ∗ (∃ d, owns (c : Thread nD τ) (st9_5 t) fullShare (dat.before 5 t d))
      ∗ (∃ d, owns (c : Thread nD τ) (st9_6 t) fullShare (dat.before 6 t d))
      ∗ (∃ d, owns (c : Thread nD τ) (st9_7 t) fullShare (dat.before 7 t d))
      ∗ (∃ d, owns (c : Thread nD τ) (st9_8 t) fullShare (dat.before 8 t d))
      ∗ (∃ d, owns (c : Thread nD τ) (st9_9 t) fullShare (dat.before 9 t d)))
    ⊢ wp frame (wpE (defs₀ (F := F)) Variants.none c none) Set.univ (bodyAt9 t) (fun _ =>
        iprop(dat.Φ t.succ ∗ dat.owesAt ι t.succ
          ∗ owns (c : Thread nD τ) (st9_0 t) fullShare (dat.after 0 t)
          ∗ owns (c : Thread nD τ) (st9_1 t) fullShare (dat.after 1 t)
          ∗ owns (c : Thread nD τ) (st9_2 t) fullShare (dat.after 2 t)
          ∗ owns (c : Thread nD τ) (st9_3 t) fullShare (dat.after 3 t)
          ∗ owns (c : Thread nD τ) (st9_4 t) fullShare (dat.after 4 t)
          ∗ owns (c : Thread nD τ) (st9_5 t) fullShare (dat.after 5 t)
          ∗ owns (c : Thread nD τ) (st9_6 t) fullShare (dat.after 6 t)
          ∗ owns (c : Thread nD τ) (st9_7 t) fullShare (dat.after 7 t)
          ∗ owns (c : Thread nD τ) (st9_8 t) fullShare (dat.after 8 t)
          ∗ owns (c : Thread nD τ) (st9_9 t) fullShare (dat.after 9 t))) := by
  unfold bodyAt9
  simp only [hb0, hb1, hb2, hb3, hb4, hb5, hb6, hb7, hb8, ha0, ha1, ha2, ha3, ha4, ha5, ha6, ha7, ha8, ha9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel9 c Set.univ (grid9.coords t) _ _ _ _ _ _ _ _ _ _ _ _ _ _ _ _ _ _ _ _ (x0 t) (x1 t) (x2 t) (x3 t) (x4 t) (x5 t) (x6 t) (x7 t) (x8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iapply (hΦ t); iexact HΦ
  isplitl [Ho]; · iapply (ho t); iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline rule's body obligation for the call, at every point, under the same hypotheses. -/
theorem body_obligation9_of
    (hb0 : ∀ t d, dat.before 0 t d = x0 t) (hb1 : ∀ t d, dat.before 1 t d = x1 t) (hb2 : ∀ t d, dat.before 2 t d = x2 t) (hb3 : ∀ t d, dat.before 3 t d = x3 t) (hb4 : ∀ t d, dat.before 4 t d = x4 t) (hb5 : ∀ t d, dat.before 5 t d = x5 t) (hb6 : ∀ t d, dat.before 6 t d = x6 t) (hb7 : ∀ t d, dat.before 7 t d = x7 t) (hb8 : ∀ t d, dat.before 8 t d = x8 t)
    (ha0 : ∀ t, dat.after 0 t = x0 t) (ha1 : ∀ t, dat.after 1 t = x1 t) (ha2 : ∀ t, dat.after 2 t = x2 t) (ha3 : ∀ t, dat.after 3 t = x3 t) (ha4 : ∀ t, dat.after 4 t = x4 t) (ha5 : ∀ t, dat.after 5 t = x5 t) (ha6 : ∀ t, dat.after 6 t = x6 t) (ha7 : ∀ t, dat.after 7 t = x7 t) (ha8 : ∀ t, dat.after 8 t = x8 t)
    (ha9 : ∀ t, dat.after 9 t = k9_pay1 (k9_pay2 (x0 t) (x2 t) (x1 t) (x3 t) (x4 t) (x5 t) (x6 t)) (x7 t) (x8 t))
    (hΦ : ∀ t : Fin cfg9.N, dat.Φ t.castSucc ⊢ dat.Φ t.succ)
    (ho : ∀ t : Fin cfg9.N, dat.owesAt ι t.castSucc ⊢ dat.owesAt ι t.succ) :
    BodyObligation dat (defs₀ (F := F)) Variants.none ι Set.univ := fun t => by
  rw [bigSep_W9, bigSep_W9]
  exact sound_body9 dat ι x0 x1 x2 x3 x4 x5 x6 x7 x8 hb0 hb1 hb2 hb3 hb4 hb5 hb6 hb7 hb8 ha0 ha1 ha2 ha3 ha4 ha5 ha6 ha7 ha8 ha9 hΦ ho t

end Obligation

/-! ## The call's proof data over given array contents

The arrays' contents as the call finds them are a parameter `V`; the blocks the body is handed are read off them
through the windows, and the proof data says: every input window is found at its block and left there, the output
window is left at the stored block computed from the input blocks of that point. -/

section Data

variable (c : Dev nD) (V : (b : Ref sig .tc) → Buf (Elt F) ((c : Thread nD τ).loc b))

/-- Window `w`'s block at point `t`, read off its array's contents `V`. -/
def iblk9 (w : Fin cfg9.W) (t : Fin cfg9.N) : ((cfg9.win w).xblock (cfg9.grid.coords t)).Idx → Elt F (cfg9.win w).elt :=
  ((cfg9.win w).blk t).view.read (Elt F) (V (Pipeline.arrRef spec9 w))

/-- The block the body stores at point `t`, from the input windows' blocks there. -/
def out9 (t : Fin cfg9.N) : Vec F S1024x64 .f32 :=
  k9_pay1 (k9_pay2 (iblk9 c V 0 t) (iblk9 c V 2 t) (iblk9 c V 1 t) (iblk9 c V 3 t) (iblk9 c V 4 t) (iblk9 c V 5 t) (iblk9 c V 6 t)) (iblk9 c V 7 t) (iblk9 c V 8 t)

/-- An input window's current staging buffer holds its block at every point, fetched there or not, for any proof
    data whose array is `V`'s (`hA`) and whose body leaves the block in place (`hafter`): unfetched, the window's
    index has not moved since the point that fetched it. -/
theorem before9_0_of (dat : Dat τ (Elt F) Ix Name U Lvl cfg9 c) (hA : dat.A 0 = V (Pipeline.arrRef spec9 0))
    (hafter : ∀ t, dat.after 0 t = iblk9 c V 0 t) (t : Fin cfg9.N) (d) : dat.before 0 t d = iblk9 c V 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
theorem before9_1_of (dat : Dat τ (Elt F) Ix Name U Lvl cfg9 c) (hA : dat.A 1 = V (Pipeline.arrRef spec9 1))
    (hafter : ∀ t, dat.after 1 t = iblk9 c V 1 t) (t : Fin cfg9.N) (d) : dat.before 1 t d = iblk9 c V 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)
theorem before9_2_of (dat : Dat τ (Elt F) Ix Name U Lvl cfg9 c) (hA : dat.A 2 = V (Pipeline.arrRef spec9 2))
    (hafter : ∀ t, dat.after 2 t = iblk9 c V 2 t) (t : Fin cfg9.N) (d) : dat.before 2 t d = iblk9 c V 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)
theorem before9_3_of (dat : Dat τ (Elt F) Ix Name U Lvl cfg9 c) (hA : dat.A 3 = V (Pipeline.arrRef spec9 3))
    (hafter : ∀ t, dat.after 3 t = iblk9 c V 3 t) (t : Fin cfg9.N) (d) : dat.before 3 t d = iblk9 c V 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)
theorem before9_4_of (dat : Dat τ (Elt F) Ix Name U Lvl cfg9 c) (hA : dat.A 4 = V (Pipeline.arrRef spec9 4))
    (hafter : ∀ t, dat.after 4 t = iblk9 c V 4 t) (t : Fin cfg9.N) (d) : dat.before 4 t d = iblk9 c V 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)
theorem before9_5_of (dat : Dat τ (Elt F) Ix Name U Lvl cfg9 c) (hA : dat.A 5 = V (Pipeline.arrRef spec9 5))
    (hafter : ∀ t, dat.after 5 t = iblk9 c V 5 t) (t : Fin cfg9.N) (d) : dat.before 5 t d = iblk9 c V 5 t :=
  (dat.before_in_eq_fetched 5 rfl (fun _ => rfl) (fun _ _ _ => rfl) (fun t => by rw [hafter]; unfold Dat.blockOf iblk9; rw [hA]; try rfl) t d).trans
    (by unfold Dat.fetched Dat.blockOf iblk9; rw [hA]; try rfl)
theorem before9_6_of (dat : Dat τ (Elt F) Ix Name U Lvl cfg9 c) (hA : dat.A 6 = V (Pipeline.arrRef spec9 6))
    (hafter : ∀ t, dat.after 6 t = iblk9 c V 6 t) (t : Fin cfg9.N) (d) : dat.before 6 t d = iblk9 c V 6 t :=
  (dat.before_in_eq_fetched 6 rfl (fun _ => rfl) (fun _ _ _ => rfl) (fun t => by rw [hafter]; unfold Dat.blockOf iblk9; rw [hA]; try rfl) t d).trans
    (by unfold Dat.fetched Dat.blockOf iblk9; rw [hA]; try rfl)
theorem before9_7_of (dat : Dat τ (Elt F) Ix Name U Lvl cfg9 c) (hA : dat.A 7 = V (Pipeline.arrRef spec9 7))
    (hafter : ∀ t, dat.after 7 t = iblk9 c V 7 t) (t : Fin cfg9.N) (d) : dat.before 7 t d = iblk9 c V 7 t :=
  (dat.before_in_eq_fetched 7 rfl (fun _ => rfl) (fun _ _ _ => rfl) (fun t => by rw [hafter]; unfold Dat.blockOf iblk9; rw [hA]; try rfl) t d).trans
    (by unfold Dat.fetched Dat.blockOf iblk9; rw [hA]; try rfl)
theorem before9_8_of (dat : Dat τ (Elt F) Ix Name U Lvl cfg9 c) (hA : dat.A 8 = V (Pipeline.arrRef spec9 8))
    (hafter : ∀ t, dat.after 8 t = iblk9 c V 8 t) (t : Fin cfg9.N) (d) : dat.before 8 t d = iblk9 c V 8 t :=
  (dat.before_in_eq_fetched 8 rfl (fun _ => rfl) (fun _ _ _ => rfl) (fun t => by rw [hafter]; unfold Dat.blockOf iblk9; rw [hA]; try rfl) t d).trans
    (by unfold Dat.fetched Dat.blockOf iblk9; rw [hA]; try rfl)

/-- The proof data of the call on core `c`: the arrays as found (`V`); after the body at point `t` each input's
    buffer at its block and the output's at the stored block; one invariant `Φ₀`, one tally of debts `O` and
    one bound `Rec` on the recorded waits at every point, all untouched by the body; the input arrays held at the shares `q`. -/
def dat9 (Φ₀ : sProp (MT nD τ sig Ix (Elt F) Name U Lvl)) (O : CellTallies nD τ sig Ix) (Rec : Set (SemLoc sig × Ix))
    (q : Fin cfg9.W → PosShare TreeShare) : Dat τ (Elt F) Ix Name U Lvl cfg9 c where
  A w := V (Pipeline.arrRef spec9 w)
  after w t := match w with
    | ⟨0, _⟩ => iblk9 c V 0 t
    | ⟨1, _⟩ => iblk9 c V 1 t
    | ⟨2, _⟩ => iblk9 c V 2 t
    | ⟨3, _⟩ => iblk9 c V 3 t
    | ⟨4, _⟩ => iblk9 c V 4 t
    | ⟨5, _⟩ => iblk9 c V 5 t
    | ⟨6, _⟩ => iblk9 c V 6 t
    | ⟨7, _⟩ => iblk9 c V 7 t
    | ⟨8, _⟩ => iblk9 c V 8 t
    | ⟨9, _⟩ => out9 c V t
  Φ _ := Φ₀
  q := q
  owed _ := O
  recorded _ := Rec

variable (Φ₀ : sProp (MT nD τ sig Ix (Elt F) Name U Lvl)) (O : CellTallies nD τ sig Ix) (Rec : Set (SemLoc sig × Ix)) (q : Fin cfg9.W → PosShare TreeShare)

/-- The proof data's arrays are `V`'s, by projection. -/
theorem A9_eq (w : Fin cfg9.W) : (dat9 c V Φ₀ O Rec q).A w = V (Pipeline.arrRef spec9 w) := by dsimp only [dat9]

/-- What the body leaves, window by window. -/
theorem after9_0 (t : Fin cfg9.N) : (dat9 c V Φ₀ O Rec q).after 0 t = iblk9 c V 0 t := by dsimp only [dat9]
theorem after9_1 (t : Fin cfg9.N) : (dat9 c V Φ₀ O Rec q).after 1 t = iblk9 c V 1 t := by dsimp only [dat9]
theorem after9_2 (t : Fin cfg9.N) : (dat9 c V Φ₀ O Rec q).after 2 t = iblk9 c V 2 t := by dsimp only [dat9]
theorem after9_3 (t : Fin cfg9.N) : (dat9 c V Φ₀ O Rec q).after 3 t = iblk9 c V 3 t := by dsimp only [dat9]
theorem after9_4 (t : Fin cfg9.N) : (dat9 c V Φ₀ O Rec q).after 4 t = iblk9 c V 4 t := by dsimp only [dat9]
theorem after9_5 (t : Fin cfg9.N) : (dat9 c V Φ₀ O Rec q).after 5 t = iblk9 c V 5 t := by dsimp only [dat9]
theorem after9_6 (t : Fin cfg9.N) : (dat9 c V Φ₀ O Rec q).after 6 t = iblk9 c V 6 t := by dsimp only [dat9]
theorem after9_7 (t : Fin cfg9.N) : (dat9 c V Φ₀ O Rec q).after 7 t = iblk9 c V 7 t := by dsimp only [dat9]
theorem after9_8 (t : Fin cfg9.N) : (dat9 c V Φ₀ O Rec q).after 8 t = iblk9 c V 8 t := by dsimp only [dat9]
theorem after9_9 (t : Fin cfg9.N) : (dat9 c V Φ₀ O Rec q).after 9 t = out9 c V t := by dsimp only [dat9]

/-- What the body finds in each input's buffer. -/
theorem before9_0 (t : Fin cfg9.N) (d) : (dat9 c V Φ₀ O Rec q).before 0 t d = iblk9 c V 0 t :=
  before9_0_of c V (dat9 c V Φ₀ O Rec q) (A9_eq c V Φ₀ O Rec q 0) (after9_0 c V Φ₀ O Rec q) t d
theorem before9_1 (t : Fin cfg9.N) (d) : (dat9 c V Φ₀ O Rec q).before 1 t d = iblk9 c V 1 t :=
  before9_1_of c V (dat9 c V Φ₀ O Rec q) (A9_eq c V Φ₀ O Rec q 1) (after9_1 c V Φ₀ O Rec q) t d
theorem before9_2 (t : Fin cfg9.N) (d) : (dat9 c V Φ₀ O Rec q).before 2 t d = iblk9 c V 2 t :=
  before9_2_of c V (dat9 c V Φ₀ O Rec q) (A9_eq c V Φ₀ O Rec q 2) (after9_2 c V Φ₀ O Rec q) t d
theorem before9_3 (t : Fin cfg9.N) (d) : (dat9 c V Φ₀ O Rec q).before 3 t d = iblk9 c V 3 t :=
  before9_3_of c V (dat9 c V Φ₀ O Rec q) (A9_eq c V Φ₀ O Rec q 3) (after9_3 c V Φ₀ O Rec q) t d
theorem before9_4 (t : Fin cfg9.N) (d) : (dat9 c V Φ₀ O Rec q).before 4 t d = iblk9 c V 4 t :=
  before9_4_of c V (dat9 c V Φ₀ O Rec q) (A9_eq c V Φ₀ O Rec q 4) (after9_4 c V Φ₀ O Rec q) t d
theorem before9_5 (t : Fin cfg9.N) (d) : (dat9 c V Φ₀ O Rec q).before 5 t d = iblk9 c V 5 t :=
  before9_5_of c V (dat9 c V Φ₀ O Rec q) (A9_eq c V Φ₀ O Rec q 5) (after9_5 c V Φ₀ O Rec q) t d
theorem before9_6 (t : Fin cfg9.N) (d) : (dat9 c V Φ₀ O Rec q).before 6 t d = iblk9 c V 6 t :=
  before9_6_of c V (dat9 c V Φ₀ O Rec q) (A9_eq c V Φ₀ O Rec q 6) (after9_6 c V Φ₀ O Rec q) t d
theorem before9_7 (t : Fin cfg9.N) (d) : (dat9 c V Φ₀ O Rec q).before 7 t d = iblk9 c V 7 t :=
  before9_7_of c V (dat9 c V Φ₀ O Rec q) (A9_eq c V Φ₀ O Rec q 7) (after9_7 c V Φ₀ O Rec q) t d
theorem before9_8 (t : Fin cfg9.N) (d) : (dat9 c V Φ₀ O Rec q).before 8 t d = iblk9 c V 8 t :=
  before9_8_of c V (dat9 c V Φ₀ O Rec q) (A9_eq c V Φ₀ O Rec q 8) (after9_8 c V Φ₀ O Rec q) t d

/-- The pipeline rule's body obligation for this proof data, at every point and any index of the credit tokens. -/
theorem body_obligation9 (ι : Ix) : BodyObligation (dat9 c V Φ₀ O Rec q) (defs₀ (F := F)) Variants.none ι Set.univ :=
  body_obligation9_of (dat9 c V Φ₀ O Rec q) ι (iblk9 c V 0) (iblk9 c V 1) (iblk9 c V 2) (iblk9 c V 3) (iblk9 c V 4) (iblk9 c V 5) (iblk9 c V 6) (iblk9 c V 7) (iblk9 c V 8)
    (before9_0 c V Φ₀ O Rec q) (before9_1 c V Φ₀ O Rec q) (before9_2 c V Φ₀ O Rec q) (before9_3 c V Φ₀ O Rec q) (before9_4 c V Φ₀ O Rec q) (before9_5 c V Φ₀ O Rec q) (before9_6 c V Φ₀ O Rec q) (before9_7 c V Φ₀ O Rec q) (before9_8 c V Φ₀ O Rec q)
    (after9_0 c V Φ₀ O Rec q) (after9_1 c V Φ₀ O Rec q) (after9_2 c V Φ₀ O Rec q) (after9_3 c V Φ₀ O Rec q) (after9_4 c V Φ₀ O Rec q) (after9_5 c V Φ₀ O Rec q) (after9_6 c V Φ₀ O Rec q) (after9_7 c V Φ₀ O Rec q) (after9_8 c V Φ₀ O Rec q)
    (after9_9 c V Φ₀ O Rec q) (fun _ => .rfl) (fun _ => .rfl)

end Data

end Cert.Proof.TcW

end
-- ==== Proof.TcBody11W.lean ====
/-
  The TensorCore body of point-convolution call 11, run once on whole staging buffers, and the proof data of
  its pipeline.

  The body reads nine blocks whole — the gathered rows, the per-point bias of the first layer, the three layers'
  weights and biases, the output weights and the output bias — and stores one block whole: the output weights
  applied to the flattened products of the third layer's activations with the gathered features, plus the output
  bias. Nothing else is touched: every input buffer is handed back as it was found, and what the output buffer
  held before is overwritten everywhere. The statement is made once over arbitrary whole memrefs and arbitrary
  contents, then at the staging buffers the pipeline calls the body with at a grid point, and last in the form
  the pipeline rule asks of a body: for any proof data whose input windows are found and left at given blocks,
  whose output window is left at the stored block, and whose invariant and debts pass through unchanged. The
  proof data itself is stated over arbitrary contents of the ten windows' arrays: each input window's staging
  buffer holds that array's block at the point, fetched there or not, and the output window's holds the stored
  block computed from them.
-/
import proofs.«214101_g10505490006249_cont_week2b_118_28_alg».proof.Proof.Gen.Kernel.Launch
import proofs.«214101_g10505490006249_cont_week2b_118_28_alg».proof.Proof.Gen.Kernel.Skeleton
import proofs.«214101_g10505490006249_cont_week2b_118_28_alg».proof.Proof.Gen.Kernel.Points
import Idealize.ShloMosaic.Lib.Pipeline.FrameBody
import Idealize.ShloMosaic.Lib.Pipeline.Value
import Idealize.ShloMosaic.Lib.Tactic

set_option maxRecDepth 16384

noncomputable section

namespace Cert.Proof.TcW

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## The body on whole memrefs -/

/-- The offsets of every whole-block access: zero on both axes. -/
theorem zeros11 : (![0, 0] : Fin 2 → Nat) = fun _ => 0 := by funext a; fin_cases a <;> rfl

/-- The one store of the body covers the output block. -/
theorem cover11 (p0 : Vec F S1024x64 .f32) (y : S1024x64.Idx) :
    ∃ pc ∈ ([⟨Rect.unit (s := S1024x64) ![0, 0] S1024x64.size inb_S1024x64_S1024x64_0_0, p0⟩] : List (View.Piece (Elt F) S1024x64 .f32)), y ∈ pc.1.set :=
  ⟨_, List.mem_singleton_self _, View.mem_set_unit_zero zeros11 inb_S1024x64_S1024x64_0_0 y⟩

set_option maxHeartbeats 1000000 in
/-- The body on ten whole memrefs, the nine inputs' read at `x0 … x8` and the output's at anything, runs to the
    continuation holding the inputs' as they were and the output's at the stored block: the output weights `x7`
    applied to the flattened products computed from `x0 … x6`, plus the output bias `x8`. -/
theorem sound_kernel11 (c : Dev nD) (E : Set Name) (i : grid11.Coords)
    (arg1 : Memref sig .tc .vmem S16384x128 .f32) (harg1 : arg1.IsWhole) (arg2 : Memref sig .tc .vmem S1024x32 .f32) (harg2 : arg2.IsWhole) (arg3 : Memref sig .tc .vmem S128x32 .f32) (harg3 : arg3.IsWhole) (arg4 : Memref sig .tc .vmem S32x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S1024x64 .f32) (harg8 : arg8.IsWhole) (arg9 : Memref sig .tc .vmem S1x64 .f32) (harg9 : arg9.IsWhole) (arg10 : Memref sig .tc .vmem S1024x64 .f32) (harg10 : arg10.IsWhole)
    (x0 : Vec F S16384x128 .f32) (x1 : Vec F S1024x32 .f32) (x2 : Vec F S128x32 .f32) (x3 : Vec F S32x16 .f32) (x4 : Vec F S1x16 .f32) (x5 : Vec F S16x16 .f32) (x6 : Vec F S1x16 .f32) (x7 : Vec F S1024x64 .f32) (x8 : Vec F S1x64 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ owns (c : Thread nD τ) arg10 fullShare (k11_pay1 (k11_pay2 x0 x2 x1 x3 x4 x5 x6) x7 x8)) -∗ K ⟨⟩))
      ⊢ wp frame (wpE (defs₀ (F := F)) Variants.none c none) E (cc11__tc_body i arg1 harg1 arg2 harg2 arg3 harg3 arg4 harg4 arg5 harg5 arg6 harg6 arg7 harg7 arg8 harg8 arg9 harg9 arg10 harg10) K := by
  simp only [cc11__tc_body_eq_skeleton]; unfold cc11__tc_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  rw [View.read_writes_eq_canon _ _ _ (cover11 _), View.canon_unit_zero zeros11]
  unfold sound_kernel11.sl.r
  simp only [View.readAt_eq_ld, View.ld_unit_zero (S := S16384x128) zeros11, View.ld_unit_zero (S := S128x32) zeros11, View.ld_unit_zero (S := S1024x32) zeros11, View.ld_unit_zero (S := S32x16) zeros11, View.ld_unit_zero (S := S1x16) zeros11, View.ld_unit_zero (S := S16x16) zeros11, View.ld_unit_zero (S := S1024x64) zeros11, View.ld_unit_zero (S := S1x64) zeros11]

/-! ## The body at a grid point, for any proof data of the call -/

section Obligation

variable {c : Dev nD} (dat : Dat τ (Elt F) Ix Name U Lvl cfg11 c) (ι : Ix)
  (x0 : Fin cfg11.N → Vec F S16384x128 .f32) (x1 : Fin cfg11.N → Vec F S1024x32 .f32) (x2 : Fin cfg11.N → Vec F S128x32 .f32) (x3 : Fin cfg11.N → Vec F S32x16 .f32) (x4 : Fin cfg11.N → Vec F S1x16 .f32) (x5 : Fin cfg11.N → Vec F S16x16 .f32) (x6 : Fin cfg11.N → Vec F S1x16 .f32) (x7 : Fin cfg11.N → Vec F S1024x64 .f32) (x8 : Fin cfg11.N → Vec F S1x64 .f32)

/-- The body at point `t` on the staging buffers the pipeline calls it with. The proof data's input windows are
    found at the blocks `x0 t … x8 t` (`hb`) and left there (`ha`), its output window is left at the stored block
    (`ha9`), and its invariant and the core's debts at the next point follow from those before (`hΦ`, `ho`): they
    pass through the body unread. -/
theorem sound_body11
    (hb0 : ∀ t d, dat.before 0 t d = x0 t) (hb1 : ∀ t d, dat.before 1 t d = x1 t) (hb2 : ∀ t d, dat.before 2 t d = x2 t) (hb3 : ∀ t d, dat.before 3 t d = x3 t) (hb4 : ∀ t d, dat.before 4 t d = x4 t) (hb5 : ∀ t d, dat.before 5 t d = x5 t) (hb6 : ∀ t d, dat.before 6 t d = x6 t) (hb7 : ∀ t d, dat.before 7 t d = x7 t) (hb8 : ∀ t d, dat.before 8 t d = x8 t)
    (ha0 : ∀ t, dat.after 0 t = x0 t) (ha1 : ∀ t, dat.after 1 t = x1 t) (ha2 : ∀ t, dat.after 2 t = x2 t) (ha3 : ∀ t, dat.after 3 t = x3 t) (ha4 : ∀ t, dat.after 4 t = x4 t) (ha5 : ∀ t, dat.after 5 t = x5 t) (ha6 : ∀ t, dat.after 6 t = x6 t) (ha7 : ∀ t, dat.after 7 t = x7 t) (ha8 : ∀ t, dat.after 8 t = x8 t)
    (ha9 : ∀ t, dat.after 9 t = k11_pay1 (k11_pay2 (x0 t) (x2 t) (x1 t) (x3 t) (x4 t) (x5 t) (x6 t)) (x7 t) (x8 t))
    (hΦ : ∀ t : Fin cfg11.N, dat.Φ t.castSucc ⊢ dat.Φ t.succ)
    (ho : ∀ t : Fin cfg11.N, dat.owesAt ι t.castSucc ⊢ dat.owesAt ι t.succ) (t : Fin cfg11.N) :
    iprop(dat.Φ t.castSucc ∗ dat.owesAt ι t.castSucc
      ∗ (∃ d, owns (c : Thread nD τ) (st11_0 t) fullShare (dat.before 0 t d))
      ∗ (∃ d, owns (c : Thread nD τ) (st11_1 t) fullShare (dat.before 1 t d))
      ∗ (∃ d, owns (c : Thread nD τ) (st11_2 t) fullShare (dat.before 2 t d))
      ∗ (∃ d, owns (c : Thread nD τ) (st11_3 t) fullShare (dat.before 3 t d))
      ∗ (∃ d, owns (c : Thread nD τ) (st11_4 t) fullShare (dat.before 4 t d))
      ∗ (∃ d, owns (c : Thread nD τ) (st11_5 t) fullShare (dat.before 5 t d))
      ∗ (∃ d, owns (c : Thread nD τ) (st11_6 t) fullShare (dat.before 6 t d))
      ∗ (∃ d, owns (c : Thread nD τ) (st11_7 t) fullShare (dat.before 7 t d))
      ∗ (∃ d, owns (c : Thread nD τ) (st11_8 t) fullShare (dat.before 8 t d))
      ∗ (∃ d, owns (c : Thread nD τ) (st11_9 t) fullShare (dat.before 9 t d)))
    ⊢ wp frame (wpE (defs₀ (F := F)) Variants.none c none) Set.univ (bodyAt11 t) (fun _ =>
        iprop(dat.Φ t.succ ∗ dat.owesAt ι t.succ
          ∗ owns (c : Thread nD τ) (st11_0 t) fullShare (dat.after 0 t)
          ∗ owns (c : Thread nD τ) (st11_1 t) fullShare (dat.after 1 t)
          ∗ owns (c : Thread nD τ) (st11_2 t) fullShare (dat.after 2 t)
          ∗ owns (c : Thread nD τ) (st11_3 t) fullShare (dat.after 3 t)
          ∗ owns (c : Thread nD τ) (st11_4 t) fullShare (dat.after 4 t)
          ∗ owns (c : Thread nD τ) (st11_5 t) fullShare (dat.after 5 t)
          ∗ owns (c : Thread nD τ) (st11_6 t) fullShare (dat.after 6 t)
          ∗ owns (c : Thread nD τ) (st11_7 t) fullShare (dat.after 7 t)
          ∗ owns (c : Thread nD τ) (st11_8 t) fullShare (dat.after 8 t)
          ∗ owns (c : Thread nD τ) (st11_9 t) fullShare (dat.after 9 t))) := by
  unfold bodyAt11
  simp only [hb0, hb1, hb2, hb3, hb4, hb5, hb6, hb7, hb8, ha0, ha1, ha2, ha3, ha4, ha5, ha6, ha7, ha8, ha9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel11 c Set.univ (grid11.coords t) _ _ _ _ _ _ _ _ _ _ _ _ _ _ _ _ _ _ _ _ (x0 t) (x1 t) (x2 t) (x3 t) (x4 t) (x5 t) (x6 t) (x7 t) (x8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iapply (hΦ t); iexact HΦ
  isplitl [Ho]; · iapply (ho t); iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline rule's body obligation for the call, at every point, under the same hypotheses. -/
theorem body_obligation11_of
    (hb0 : ∀ t d, dat.before 0 t d = x0 t) (hb1 : ∀ t d, dat.before 1 t d = x1 t) (hb2 : ∀ t d, dat.before 2 t d = x2 t) (hb3 : ∀ t d, dat.before 3 t d = x3 t) (hb4 : ∀ t d, dat.before 4 t d = x4 t) (hb5 : ∀ t d, dat.before 5 t d = x5 t) (hb6 : ∀ t d, dat.before 6 t d = x6 t) (hb7 : ∀ t d, dat.before 7 t d = x7 t) (hb8 : ∀ t d, dat.before 8 t d = x8 t)
    (ha0 : ∀ t, dat.after 0 t = x0 t) (ha1 : ∀ t, dat.after 1 t = x1 t) (ha2 : ∀ t, dat.after 2 t = x2 t) (ha3 : ∀ t, dat.after 3 t = x3 t) (ha4 : ∀ t, dat.after 4 t = x4 t) (ha5 : ∀ t, dat.after 5 t = x5 t) (ha6 : ∀ t, dat.after 6 t = x6 t) (ha7 : ∀ t, dat.after 7 t = x7 t) (ha8 : ∀ t, dat.after 8 t = x8 t)
    (ha9 : ∀ t, dat.after 9 t = k11_pay1 (k11_pay2 (x0 t) (x2 t) (x1 t) (x3 t) (x4 t) (x5 t) (x6 t)) (x7 t) (x8 t))
    (hΦ : ∀ t : Fin cfg11.N, dat.Φ t.castSucc ⊢ dat.Φ t.succ)
    (ho : ∀ t : Fin cfg11.N, dat.owesAt ι t.castSucc ⊢ dat.owesAt ι t.succ) :
    BodyObligation dat (defs₀ (F := F)) Variants.none ι Set.univ := fun t => by
  rw [bigSep_W11, bigSep_W11]
  exact sound_body11 dat ι x0 x1 x2 x3 x4 x5 x6 x7 x8 hb0 hb1 hb2 hb3 hb4 hb5 hb6 hb7 hb8 ha0 ha1 ha2 ha3 ha4 ha5 ha6 ha7 ha8 ha9 hΦ ho t

end Obligation

/-! ## The call's proof data over given array contents

The arrays' contents as the call finds them are a parameter `V`; the blocks the body is handed are read off them
through the windows, and the proof data says: every input window is found at its block and left there, the output
window is left at the stored block computed from the input blocks of that point. -/

section Data

variable (c : Dev nD) (V : (b : Ref sig .tc) → Buf (Elt F) ((c : Thread nD τ).loc b))

/-- Window `w`'s block at point `t`, read off its array's contents `V`. -/
def iblk11 (w : Fin cfg11.W) (t : Fin cfg11.N) : ((cfg11.win w).xblock (cfg11.grid.coords t)).Idx → Elt F (cfg11.win w).elt :=
  ((cfg11.win w).blk t).view.read (Elt F) (V (Pipeline.arrRef spec11 w))

/-- The block the body stores at point `t`, from the input windows' blocks there. -/
def out11 (t : Fin cfg11.N) : Vec F S1024x64 .f32 :=
  k11_pay1 (k11_pay2 (iblk11 c V 0 t) (iblk11 c V 2 t) (iblk11 c V 1 t) (iblk11 c V 3 t) (iblk11 c V 4 t) (iblk11 c V 5 t) (iblk11 c V 6 t)) (iblk11 c V 7 t) (iblk11 c V 8 t)

/-- An input window's current staging buffer holds its block at every point, fetched there or not, for any proof
    data whose array is `V`'s (`hA`) and whose body leaves the block in place (`hafter`): unfetched, the window's
    index has not moved since the point that fetched it. -/
theorem before11_0_of (dat : Dat τ (Elt F) Ix Name U Lvl cfg11 c) (hA : dat.A 0 = V (Pipeline.arrRef spec11 0))
    (hafter : ∀ t, dat.after 0 t = iblk11 c V 0 t) (t : Fin cfg11.N) (d) : dat.before 0 t d = iblk11 c V 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)
theorem before11_1_of (dat : Dat τ (Elt F) Ix Name U Lvl cfg11 c) (hA : dat.A 1 = V (Pipeline.arrRef spec11 1))
    (hafter : ∀ t, dat.after 1 t = iblk11 c V 1 t) (t : Fin cfg11.N) (d) : dat.before 1 t d = iblk11 c V 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)
theorem before11_2_of (dat : Dat τ (Elt F) Ix Name U Lvl cfg11 c) (hA : dat.A 2 = V (Pipeline.arrRef spec11 2))
    (hafter : ∀ t, dat.after 2 t = iblk11 c V 2 t) (t : Fin cfg11.N) (d) : dat.before 2 t d = iblk11 c V 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)
theorem before11_3_of (dat : Dat τ (Elt F) Ix Name U Lvl cfg11 c) (hA : dat.A 3 = V (Pipeline.arrRef spec11 3))
    (hafter : ∀ t, dat.after 3 t = iblk11 c V 3 t) (t : Fin cfg11.N) (d) : dat.before 3 t d = iblk11 c V 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)
theorem before11_4_of (dat : Dat τ (Elt F) Ix Name U Lvl cfg11 c) (hA : dat.A 4 = V (Pipeline.arrRef spec11 4))
    (hafter : ∀ t, dat.after 4 t = iblk11 c V 4 t) (t : Fin cfg11.N) (d) : dat.before 4 t d = iblk11 c V 4 t :=
  (dat.before_in_eq_fetched 4 rfl (fun _ => rfl) (fun _ _ _ => rfl) (fun t => by rw [hafter]; unfold Dat.blockOf iblk11; rw [hA]; try rfl) t d).trans
    (by unfold Dat.fetched Dat.blockOf iblk11; rw [hA]; try rfl)
theorem before11_5_of (dat : Dat τ (Elt F) Ix Name U Lvl cfg11 c) (hA : dat.A 5 = V (Pipeline.arrRef spec11 5))
    (hafter : ∀ t, dat.after 5 t = iblk11 c V 5 t) (t : Fin cfg11.N) (d) : dat.before 5 t d = iblk11 c V 5 t :=
  (dat.before_in_eq_fetched 5 rfl (fun _ => rfl) (fun _ _ _ => rfl) (fun t => by rw [hafter]; unfold Dat.blockOf iblk11; rw [hA]; try rfl) t d).trans
    (by unfold Dat.fetched Dat.blockOf iblk11; rw [hA]; try rfl)
theorem before11_6_of (dat : Dat τ (Elt F) Ix Name U Lvl cfg11 c) (hA : dat.A 6 = V (Pipeline.arrRef spec11 6))
    (hafter : ∀ t, dat.after 6 t = iblk11 c V 6 t) (t : Fin cfg11.N) (d) : dat.before 6 t d = iblk11 c V 6 t :=
  (dat.before_in_eq_fetched 6 rfl (fun _ => rfl) (fun _ _ _ => rfl) (fun t => by rw [hafter]; unfold Dat.blockOf iblk11; rw [hA]; try rfl) t d).trans
    (by unfold Dat.fetched Dat.blockOf iblk11; rw [hA]; try rfl)
theorem before11_7_of (dat : Dat τ (Elt F) Ix Name U Lvl cfg11 c) (hA : dat.A 7 = V (Pipeline.arrRef spec11 7))
    (hafter : ∀ t, dat.after 7 t = iblk11 c V 7 t) (t : Fin cfg11.N) (d) : dat.before 7 t d = iblk11 c V 7 t :=
  (dat.before_in_eq_fetched 7 rfl (fun _ => rfl) (fun _ _ _ => rfl) (fun t => by rw [hafter]; unfold Dat.blockOf iblk11; rw [hA]; try rfl) t d).trans
    (by unfold Dat.fetched Dat.blockOf iblk11; rw [hA]; try rfl)
theorem before11_8_of (dat : Dat τ (Elt F) Ix Name U Lvl cfg11 c) (hA : dat.A 8 = V (Pipeline.arrRef spec11 8))
    (hafter : ∀ t, dat.after 8 t = iblk11 c V 8 t) (t : Fin cfg11.N) (d) : dat.before 8 t d = iblk11 c V 8 t :=
  (dat.before_in_eq_fetched 8 rfl (fun _ => rfl) (fun _ _ _ => rfl) (fun t => by rw [hafter]; unfold Dat.blockOf iblk11; rw [hA]; try rfl) t d).trans
    (by unfold Dat.fetched Dat.blockOf iblk11; rw [hA]; try rfl)

/-- The proof data of the call on core `c`: the arrays as found (`V`); after the body at point `t` each input's
    buffer at its block and the output's at the stored block; one invariant `Φ₀`, one tally of debts `O` and
    one bound `Rec` on the recorded waits at every point, all untouched by the body; the input arrays held at the shares `q`. -/
def dat11 (Φ₀ : sProp (MT nD τ sig Ix (Elt F) Name U Lvl)) (O : CellTallies nD τ sig Ix) (Rec : Set (SemLoc sig × Ix))
    (q : Fin cfg11.W → PosShare TreeShare) : Dat τ (Elt F) Ix Name U Lvl cfg11 c where
  A w := V (Pipeline.arrRef spec11 w)
  after w t := match w with
    | ⟨0, _⟩ => iblk11 c V 0 t
    | ⟨1, _⟩ => iblk11 c V 1 t
    | ⟨2, _⟩ => iblk11 c V 2 t
    | ⟨3, _⟩ => iblk11 c V 3 t
    | ⟨4, _⟩ => iblk11 c V 4 t
    | ⟨5, _⟩ => iblk11 c V 5 t
    | ⟨6, _⟩ => iblk11 c V 6 t
    | ⟨7, _⟩ => iblk11 c V 7 t
    | ⟨8, _⟩ => iblk11 c V 8 t
    | ⟨9, _⟩ => out11 c V t
  Φ _ := Φ₀
  q := q
  owed _ := O
  recorded _ := Rec

variable (Φ₀ : sProp (MT nD τ sig Ix (Elt F) Name U Lvl)) (O : CellTallies nD τ sig Ix) (Rec : Set (SemLoc sig × Ix)) (q : Fin cfg11.W → PosShare TreeShare)

/-- The proof data's arrays are `V`'s, by projection. -/
theorem A11_eq (w : Fin cfg11.W) : (dat11 c V Φ₀ O Rec q).A w = V (Pipeline.arrRef spec11 w) := by dsimp only [dat11]

/-- What the body leaves, window by window. -/
theorem after11_0 (t : Fin cfg11.N) : (dat11 c V Φ₀ O Rec q).after 0 t = iblk11 c V 0 t := by dsimp only [dat11]
theorem after11_1 (t : Fin cfg11.N) : (dat11 c V Φ₀ O Rec q).after 1 t = iblk11 c V 1 t := by dsimp only [dat11]
theorem after11_2 (t : Fin cfg11.N) : (dat11 c V Φ₀ O Rec q).after 2 t = iblk11 c V 2 t := by dsimp only [dat11]
theorem after11_3 (t : Fin cfg11.N) : (dat11 c V Φ₀ O Rec q).after 3 t = iblk11 c V 3 t := by dsimp only [dat11]
theorem after11_4 (t : Fin cfg11.N) : (dat11 c V Φ₀ O Rec q).after 4 t = iblk11 c V 4 t := by dsimp only [dat11]
theorem after11_5 (t : Fin cfg11.N) : (dat11 c V Φ₀ O Rec q).after 5 t = iblk11 c V 5 t := by dsimp only [dat11]
theorem after11_6 (t : Fin cfg11.N) : (dat11 c V Φ₀ O Rec q).after 6 t = iblk11 c V 6 t := by dsimp only [dat11]
theorem after11_7 (t : Fin cfg11.N) : (dat11 c V Φ₀ O Rec q).after 7 t = iblk11 c V 7 t := by dsimp only [dat11]
theorem after11_8 (t : Fin cfg11.N) : (dat11 c V Φ₀ O Rec q).after 8 t = iblk11 c V 8 t := by dsimp only [dat11]
theorem after11_9 (t : Fin cfg11.N) : (dat11 c V Φ₀ O Rec q).after 9 t = out11 c V t := by dsimp only [dat11]

/-- What the body finds in each input's buffer. -/
theorem before11_0 (t : Fin cfg11.N) (d) : (dat11 c V Φ₀ O Rec q).before 0 t d = iblk11 c V 0 t :=
  before11_0_of c V (dat11 c V Φ₀ O Rec q) (A11_eq c V Φ₀ O Rec q 0) (after11_0 c V Φ₀ O Rec q) t d
theorem before11_1 (t : Fin cfg11.N) (d) : (dat11 c V Φ₀ O Rec q).before 1 t d = iblk11 c V 1 t :=
  before11_1_of c V (dat11 c V Φ₀ O Rec q) (A11_eq c V Φ₀ O Rec q 1) (after11_1 c V Φ₀ O Rec q) t d
theorem before11_2 (t : Fin cfg11.N) (d) : (dat11 c V Φ₀ O Rec q).before 2 t d = iblk11 c V 2 t :=
  before11_2_of c V (dat11 c V Φ₀ O Rec q) (A11_eq c V Φ₀ O Rec q 2) (after11_2 c V Φ₀ O Rec q) t d
theorem before11_3 (t : Fin cfg11.N) (d) : (dat11 c V Φ₀ O Rec q).before 3 t d = iblk11 c V 3 t :=
  before11_3_of c V (dat11 c V Φ₀ O Rec q) (A11_eq c V Φ₀ O Rec q 3) (after11_3 c V Φ₀ O Rec q) t d
theorem before11_4 (t : Fin cfg11.N) (d) : (dat11 c V Φ₀ O Rec q).before 4 t d = iblk11 c V 4 t :=
  before11_4_of c V (dat11 c V Φ₀ O Rec q) (A11_eq c V Φ₀ O Rec q 4) (after11_4 c V Φ₀ O Rec q) t d
theorem before11_5 (t : Fin cfg11.N) (d) : (dat11 c V Φ₀ O Rec q).before 5 t d = iblk11 c V 5 t :=
  before11_5_of c V (dat11 c V Φ₀ O Rec q) (A11_eq c V Φ₀ O Rec q 5) (after11_5 c V Φ₀ O Rec q) t d
theorem before11_6 (t : Fin cfg11.N) (d) : (dat11 c V Φ₀ O Rec q).before 6 t d = iblk11 c V 6 t :=
  before11_6_of c V (dat11 c V Φ₀ O Rec q) (A11_eq c V Φ₀ O Rec q 6) (after11_6 c V Φ₀ O Rec q) t d
theorem before11_7 (t : Fin cfg11.N) (d) : (dat11 c V Φ₀ O Rec q).before 7 t d = iblk11 c V 7 t :=
  before11_7_of c V (dat11 c V Φ₀ O Rec q) (A11_eq c V Φ₀ O Rec q 7) (after11_7 c V Φ₀ O Rec q) t d
theorem before11_8 (t : Fin cfg11.N) (d) : (dat11 c V Φ₀ O Rec q).before 8 t d = iblk11 c V 8 t :=
  before11_8_of c V (dat11 c V Φ₀ O Rec q) (A11_eq c V Φ₀ O Rec q 8) (after11_8 c V Φ₀ O Rec q) t d

/-- The pipeline rule's body obligation for this proof data, at every point and any index of the credit tokens. -/
theorem body_obligation11 (ι : Ix) : BodyObligation (dat11 c V Φ₀ O Rec q) (defs₀ (F := F)) Variants.none ι Set.univ :=
  body_obligation11_of (dat11 c V Φ₀ O Rec q) ι (iblk11 c V 0) (iblk11 c V 1) (iblk11 c V 2) (iblk11 c V 3) (iblk11 c V 4) (iblk11 c V 5) (iblk11 c V 6) (iblk11 c V 7) (iblk11 c V 8)
    (before11_0 c V Φ₀ O Rec q) (before11_1 c V Φ₀ O Rec q) (before11_2 c V Φ₀ O Rec q) (before11_3 c V Φ₀ O Rec q) (before11_4 c V Φ₀ O Rec q) (before11_5 c V Φ₀ O Rec q) (before11_6 c V Φ₀ O Rec q) (before11_7 c V Φ₀ O Rec q) (before11_8 c V Φ₀ O Rec q)
    (after11_0 c V Φ₀ O Rec q) (after11_1 c V Φ₀ O Rec q) (after11_2 c V Φ₀ O Rec q) (after11_3 c V Φ₀ O Rec q) (after11_4 c V Φ₀ O Rec q) (after11_5 c V Φ₀ O Rec q) (after11_6 c V Φ₀ O Rec q) (after11_7 c V Φ₀ O Rec q) (after11_8 c V Φ₀ O Rec q)
    (after11_9 c V Φ₀ O Rec q) (fun _ => .rfl) (fun _ => .rfl)

end Data

end Cert.Proof.TcW

end
-- ==== Proof.TcBody13W.lean ====
/-
  The TensorCore body of point-convolution call 13, run once on whole staging buffers, and the proof data of
  its pipeline.

  The body reads nine blocks whole — the gathered rows, the per-point bias of the first layer, the three layers'
  weights and biases, the output weights and the output bias — and stores one block whole: the output weights
  applied to the flattened products of the third layer's activations with the gathered features, plus the output
  bias. Nothing else is touched: every input buffer is handed back as it was found, and what the output buffer
  held before is overwritten everywhere. The statement is made once over arbitrary whole memrefs and arbitrary
  contents, then at the staging buffers the pipeline calls the body with at a grid point, and last in the form
  the pipeline rule asks of a body: for any proof data whose input windows are found and left at given blocks,
  whose output window is left at the stored block, and whose invariant and debts pass through unchanged. The
  proof data itself is stated over arbitrary contents of the ten windows' arrays: each input window's staging
  buffer holds that array's block at the point, fetched there or not, and the output window's holds the stored
  block computed from them.
-/
import proofs.«214101_g10505490006249_cont_week2b_118_28_alg».proof.Proof.Gen.Kernel.Launch
import proofs.«214101_g10505490006249_cont_week2b_118_28_alg».proof.Proof.Gen.Kernel.Skeleton
import proofs.«214101_g10505490006249_cont_week2b_118_28_alg».proof.Proof.Gen.Kernel.Points
import Idealize.ShloMosaic.Lib.Pipeline.FrameBody
import Idealize.ShloMosaic.Lib.Pipeline.Value
import Idealize.ShloMosaic.Lib.Tactic

set_option maxRecDepth 16384

noncomputable section

namespace Cert.Proof.TcW

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## The body on whole memrefs -/

/-- The offsets of every whole-block access: zero on both axes. -/
theorem zeros13 : (![0, 0] : Fin 2 → Nat) = fun _ => 0 := by funext a; fin_cases a <;> rfl

/-- The one store of the body covers the output block. -/
theorem cover13 (p0 : Vec F S1024x64 .f32) (y : S1024x64.Idx) :
    ∃ pc ∈ ([⟨Rect.unit (s := S1024x64) ![0, 0] S1024x64.size inb_S1024x64_S1024x64_0_0, p0⟩] : List (View.Piece (Elt F) S1024x64 .f32)), y ∈ pc.1.set :=
  ⟨_, List.mem_singleton_self _, View.mem_set_unit_zero zeros13 inb_S1024x64_S1024x64_0_0 y⟩

set_option maxHeartbeats 1000000 in
/-- The body on ten whole memrefs, the nine inputs' read at `x0 … x8` and the output's at anything, runs to the
    continuation holding the inputs' as they were and the output's at the stored block: the output weights `x7`
    applied to the flattened products computed from `x0 … x6`, plus the output bias `x8`. -/
theorem sound_kernel13 (c : Dev nD) (E : Set Name) (i : grid13.Coords)
    (arg1 : Memref sig .tc .vmem S16384x128 .f32) (harg1 : arg1.IsWhole) (arg2 : Memref sig .tc .vmem S1024x32 .f32) (harg2 : arg2.IsWhole) (arg3 : Memref sig .tc .vmem S128x32 .f32) (harg3 : arg3.IsWhole) (arg4 : Memref sig .tc .vmem S32x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S1024x64 .f32) (harg8 : arg8.IsWhole) (arg9 : Memref sig .tc .vmem S1x64 .f32) (harg9 : arg9.IsWhole) (arg10 : Memref sig .tc .vmem S1024x64 .f32) (harg10 : arg10.IsWhole)
    (x0 : Vec F S16384x128 .f32) (x1 : Vec F S1024x32 .f32) (x2 : Vec F S128x32 .f32) (x3 : Vec F S32x16 .f32) (x4 : Vec F S1x16 .f32) (x5 : Vec F S16x16 .f32) (x6 : Vec F S1x16 .f32) (x7 : Vec F S1024x64 .f32) (x8 : Vec F S1x64 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ owns (c : Thread nD τ) arg10 fullShare (k13_pay1 (k13_pay2 x0 x2 x1 x3 x4 x5 x6) x7 x8)) -∗ K ⟨⟩))
      ⊢ wp frame (wpE (defs₀ (F := F)) Variants.none c none) E (cc13__tc_body i arg1 harg1 arg2 harg2 arg3 harg3 arg4 harg4 arg5 harg5 arg6 harg6 arg7 harg7 arg8 harg8 arg9 harg9 arg10 harg10) K := by
  simp only [cc13__tc_body_eq_skeleton]; unfold cc13__tc_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  rw [View.read_writes_eq_canon _ _ _ (cover13 _), View.canon_unit_zero zeros13]
  unfold sound_kernel13.sl.r
  simp only [View.readAt_eq_ld, View.ld_unit_zero (S := S16384x128) zeros13, View.ld_unit_zero (S := S128x32) zeros13, View.ld_unit_zero (S := S1024x32) zeros13, View.ld_unit_zero (S := S32x16) zeros13, View.ld_unit_zero (S := S1x16) zeros13, View.ld_unit_zero (S := S16x16) zeros13, View.ld_unit_zero (S := S1024x64) zeros13, View.ld_unit_zero (S := S1x64) zeros13]

/-! ## The body at a grid point, for any proof data of the call -/

section Obligation

variable {c : Dev nD} (dat : Dat τ (Elt F) Ix Name U Lvl cfg13 c) (ι : Ix)
  (x0 : Fin cfg13.N → Vec F S16384x128 .f32) (x1 : Fin cfg13.N → Vec F S1024x32 .f32) (x2 : Fin cfg13.N → Vec F S128x32 .f32) (x3 : Fin cfg13.N → Vec F S32x16 .f32) (x4 : Fin cfg13.N → Vec F S1x16 .f32) (x5 : Fin cfg13.N → Vec F S16x16 .f32) (x6 : Fin cfg13.N → Vec F S1x16 .f32) (x7 : Fin cfg13.N → Vec F S1024x64 .f32) (x8 : Fin cfg13.N → Vec F S1x64 .f32)

/-- The body at point `t` on the staging buffers the pipeline calls it with. The proof data's input windows are
    found at the blocks `x0 t … x8 t` (`hb`) and left there (`ha`), its output window is left at the stored block
    (`ha9`), and its invariant and the core's debts at the next point follow from those before (`hΦ`, `ho`): they
    pass through the body unread. -/
theorem sound_body13
    (hb0 : ∀ t d, dat.before 0 t d = x0 t) (hb1 : ∀ t d, dat.before 1 t d = x1 t) (hb2 : ∀ t d, dat.before 2 t d = x2 t) (hb3 : ∀ t d, dat.before 3 t d = x3 t) (hb4 : ∀ t d, dat.before 4 t d = x4 t) (hb5 : ∀ t d, dat.before 5 t d = x5 t) (hb6 : ∀ t d, dat.before 6 t d = x6 t) (hb7 : ∀ t d, dat.before 7 t d = x7 t) (hb8 : ∀ t d, dat.before 8 t d = x8 t)
    (ha0 : ∀ t, dat.after 0 t = x0 t) (ha1 : ∀ t, dat.after 1 t = x1 t) (ha2 : ∀ t, dat.after 2 t = x2 t) (ha3 : ∀ t, dat.after 3 t = x3 t) (ha4 : ∀ t, dat.after 4 t = x4 t) (ha5 : ∀ t, dat.after 5 t = x5 t) (ha6 : ∀ t, dat.after 6 t = x6 t) (ha7 : ∀ t, dat.after 7 t = x7 t) (ha8 : ∀ t, dat.after 8 t = x8 t)
    (ha9 : ∀ t, dat.after 9 t = k13_pay1 (k13_pay2 (x0 t) (x2 t) (x1 t) (x3 t) (x4 t) (x5 t) (x6 t)) (x7 t) (x8 t))
    (hΦ : ∀ t : Fin cfg13.N, dat.Φ t.castSucc ⊢ dat.Φ t.succ)
    (ho : ∀ t : Fin cfg13.N, dat.owesAt ι t.castSucc ⊢ dat.owesAt ι t.succ) (t : Fin cfg13.N) :
    iprop(dat.Φ t.castSucc ∗ dat.owesAt ι t.castSucc
      ∗ (∃ d, owns (c : Thread nD τ) (st13_0 t) fullShare (dat.before 0 t d))
      ∗ (∃ d, owns (c : Thread nD τ) (st13_1 t) fullShare (dat.before 1 t d))
      ∗ (∃ d, owns (c : Thread nD τ) (st13_2 t) fullShare (dat.before 2 t d))
      ∗ (∃ d, owns (c : Thread nD τ) (st13_3 t) fullShare (dat.before 3 t d))
      ∗ (∃ d, owns (c : Thread nD τ) (st13_4 t) fullShare (dat.before 4 t d))
      ∗ (∃ d, owns (c : Thread nD τ) (st13_5 t) fullShare (dat.before 5 t d))
      ∗ (∃ d, owns (c : Thread nD τ) (st13_6 t) fullShare (dat.before 6 t d))
      ∗ (∃ d, owns (c : Thread nD τ) (st13_7 t) fullShare (dat.before 7 t d))
      ∗ (∃ d, owns (c : Thread nD τ) (st13_8 t) fullShare (dat.before 8 t d))
      ∗ (∃ d, owns (c : Thread nD τ) (st13_9 t) fullShare (dat.before 9 t d)))
    ⊢ wp frame (wpE (defs₀ (F := F)) Variants.none c none) Set.univ (bodyAt13 t) (fun _ =>
        iprop(dat.Φ t.succ ∗ dat.owesAt ι t.succ
          ∗ owns (c : Thread nD τ) (st13_0 t) fullShare (dat.after 0 t)
          ∗ owns (c : Thread nD τ) (st13_1 t) fullShare (dat.after 1 t)
          ∗ owns (c : Thread nD τ) (st13_2 t) fullShare (dat.after 2 t)
          ∗ owns (c : Thread nD τ) (st13_3 t) fullShare (dat.after 3 t)
          ∗ owns (c : Thread nD τ) (st13_4 t) fullShare (dat.after 4 t)
          ∗ owns (c : Thread nD τ) (st13_5 t) fullShare (dat.after 5 t)
          ∗ owns (c : Thread nD τ) (st13_6 t) fullShare (dat.after 6 t)
          ∗ owns (c : Thread nD τ) (st13_7 t) fullShare (dat.after 7 t)
          ∗ owns (c : Thread nD τ) (st13_8 t) fullShare (dat.after 8 t)
          ∗ owns (c : Thread nD τ) (st13_9 t) fullShare (dat.after 9 t))) := by
  unfold bodyAt13
  simp only [hb0, hb1, hb2, hb3, hb4, hb5, hb6, hb7, hb8, ha0, ha1, ha2, ha3, ha4, ha5, ha6, ha7, ha8, ha9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel13 c Set.univ (grid13.coords t) _ _ _ _ _ _ _ _ _ _ _ _ _ _ _ _ _ _ _ _ (x0 t) (x1 t) (x2 t) (x3 t) (x4 t) (x5 t) (x6 t) (x7 t) (x8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iapply (hΦ t); iexact HΦ
  isplitl [Ho]; · iapply (ho t); iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline rule's body obligation for the call, at every point, under the same hypotheses. -/
theorem body_obligation13_of
    (hb0 : ∀ t d, dat.before 0 t d = x0 t) (hb1 : ∀ t d, dat.before 1 t d = x1 t) (hb2 : ∀ t d, dat.before 2 t d = x2 t) (hb3 : ∀ t d, dat.before 3 t d = x3 t) (hb4 : ∀ t d, dat.before 4 t d = x4 t) (hb5 : ∀ t d, dat.before 5 t d = x5 t) (hb6 : ∀ t d, dat.before 6 t d = x6 t) (hb7 : ∀ t d, dat.before 7 t d = x7 t) (hb8 : ∀ t d, dat.before 8 t d = x8 t)
    (ha0 : ∀ t, dat.after 0 t = x0 t) (ha1 : ∀ t, dat.after 1 t = x1 t) (ha2 : ∀ t, dat.after 2 t = x2 t) (ha3 : ∀ t, dat.after 3 t = x3 t) (ha4 : ∀ t, dat.after 4 t = x4 t) (ha5 : ∀ t, dat.after 5 t = x5 t) (ha6 : ∀ t, dat.after 6 t = x6 t) (ha7 : ∀ t, dat.after 7 t = x7 t) (ha8 : ∀ t, dat.after 8 t = x8 t)
    (ha9 : ∀ t, dat.after 9 t = k13_pay1 (k13_pay2 (x0 t) (x2 t) (x1 t) (x3 t) (x4 t) (x5 t) (x6 t)) (x7 t) (x8 t))
    (hΦ : ∀ t : Fin cfg13.N, dat.Φ t.castSucc ⊢ dat.Φ t.succ)
    (ho : ∀ t : Fin cfg13.N, dat.owesAt ι t.castSucc ⊢ dat.owesAt ι t.succ) :
    BodyObligation dat (defs₀ (F := F)) Variants.none ι Set.univ := fun t => by
  rw [bigSep_W13, bigSep_W13]
  exact sound_body13 dat ι x0 x1 x2 x3 x4 x5 x6 x7 x8 hb0 hb1 hb2 hb3 hb4 hb5 hb6 hb7 hb8 ha0 ha1 ha2 ha3 ha4 ha5 ha6 ha7 ha8 ha9 hΦ ho t

end Obligation

/-! ## The call's proof data over given array contents

The arrays' contents as the call finds them are a parameter `V`; the blocks the body is handed are read off them
through the windows, and the proof data says: every input window is found at its block and left there, the output
window is left at the stored block computed from the input blocks of that point. -/

section Data

variable (c : Dev nD) (V : (b : Ref sig .tc) → Buf (Elt F) ((c : Thread nD τ).loc b))

/-- Window `w`'s block at point `t`, read off its array's contents `V`. -/
def iblk13 (w : Fin cfg13.W) (t : Fin cfg13.N) : ((cfg13.win w).xblock (cfg13.grid.coords t)).Idx → Elt F (cfg13.win w).elt :=
  ((cfg13.win w).blk t).view.read (Elt F) (V (Pipeline.arrRef spec13 w))

/-- The block the body stores at point `t`, from the input windows' blocks there. -/
def out13 (t : Fin cfg13.N) : Vec F S1024x64 .f32 :=
  k13_pay1 (k13_pay2 (iblk13 c V 0 t) (iblk13 c V 2 t) (iblk13 c V 1 t) (iblk13 c V 3 t) (iblk13 c V 4 t) (iblk13 c V 5 t) (iblk13 c V 6 t)) (iblk13 c V 7 t) (iblk13 c V 8 t)

/-- An input window's current staging buffer holds its block at every point, fetched there or not, for any proof
    data whose array is `V`'s (`hA`) and whose body leaves the block in place (`hafter`): unfetched, the window's
    index has not moved since the point that fetched it. -/
theorem before13_0_of (dat : Dat τ (Elt F) Ix Name U Lvl cfg13 c) (hA : dat.A 0 = V (Pipeline.arrRef spec13 0))
    (hafter : ∀ t, dat.after 0 t = iblk13 c V 0 t) (t : Fin cfg13.N) (d) : dat.before 0 t d = iblk13 c V 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)
theorem before13_1_of (dat : Dat τ (Elt F) Ix Name U Lvl cfg13 c) (hA : dat.A 1 = V (Pipeline.arrRef spec13 1))
    (hafter : ∀ t, dat.after 1 t = iblk13 c V 1 t) (t : Fin cfg13.N) (d) : dat.before 1 t d = iblk13 c V 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)
theorem before13_2_of (dat : Dat τ (Elt F) Ix Name U Lvl cfg13 c) (hA : dat.A 2 = V (Pipeline.arrRef spec13 2))
    (hafter : ∀ t, dat.after 2 t = iblk13 c V 2 t) (t : Fin cfg13.N) (d) : dat.before 2 t d = iblk13 c V 2 t :=
  (dat.before_in_eq_fetched 2 rfl (fun _ => rfl) (fun _ _ _ => rfl) (fun t => by rw [hafter]; unfold Dat.blockOf iblk13; rw [hA]; try rfl) t d).trans
    (by unfold Dat.fetched Dat.blockOf iblk13; rw [hA]; try rfl)
theorem before13_3_of (dat : Dat τ (Elt F) Ix Name U Lvl cfg13 c) (hA : dat.A 3 = V (Pipeline.arrRef spec13 3))
    (hafter : ∀ t, dat.after 3 t = iblk13 c V 3 t) (t : Fin cfg13.N) (d) : dat.before 3 t d = iblk13 c V 3 t :=
  (dat.before_in_eq_fetched 3 rfl (fun _ => rfl) (fun _ _ _ => rfl) (fun t => by rw [hafter]; unfold Dat.blockOf iblk13; rw [hA]; try rfl) t d).trans
    (by unfold Dat.fetched Dat.blockOf iblk13; rw [hA]; try rfl)
theorem before13_4_of (dat : Dat τ (Elt F) Ix Name U Lvl cfg13 c) (hA : dat.A 4 = V (Pipeline.arrRef spec13 4))
    (hafter : ∀ t, dat.after 4 t = iblk13 c V 4 t) (t : Fin cfg13.N) (d) : dat.before 4 t d = iblk13 c V 4 t :=
  (dat.before_in_eq_fetched 4 rfl (fun _ => rfl) (fun _ _ _ => rfl) (fun t => by rw [hafter]; unfold Dat.blockOf iblk13; rw [hA]; try rfl) t d).trans
    (by unfold Dat.fetched Dat.blockOf iblk13; rw [hA]; try rfl)
theorem before13_5_of (dat : Dat τ (Elt F) Ix Name U Lvl cfg13 c) (hA : dat.A 5 = V (Pipeline.arrRef spec13 5))
    (hafter : ∀ t, dat.after 5 t = iblk13 c V 5 t) (t : Fin cfg13.N) (d) : dat.before 5 t d = iblk13 c V 5 t :=
  (dat.before_in_eq_fetched 5 rfl (fun _ => rfl) (fun _ _ _ => rfl) (fun t => by rw [hafter]; unfold Dat.blockOf iblk13; rw [hA]; try rfl) t d).trans
    (by unfold Dat.fetched Dat.blockOf iblk13; rw [hA]; try rfl)
theorem before13_6_of (dat : Dat τ (Elt F) Ix Name U Lvl cfg13 c) (hA : dat.A 6 = V (Pipeline.arrRef spec13 6))
    (hafter : ∀ t, dat.after 6 t = iblk13 c V 6 t) (t : Fin cfg13.N) (d) : dat.before 6 t d = iblk13 c V 6 t :=
  (dat.before_in_eq_fetched 6 rfl (fun _ => rfl) (fun _ _ _ => rfl) (fun t => by rw [hafter]; unfold Dat.blockOf iblk13; rw [hA]; try rfl) t d).trans
    (by unfold Dat.fetched Dat.blockOf iblk13; rw [hA]; try rfl)
theorem before13_7_of (dat : Dat τ (Elt F) Ix Name U Lvl cfg13 c) (hA : dat.A 7 = V (Pipeline.arrRef spec13 7))
    (hafter : ∀ t, dat.after 7 t = iblk13 c V 7 t) (t : Fin cfg13.N) (d) : dat.before 7 t d = iblk13 c V 7 t :=
  (dat.before_in_eq_fetched 7 rfl (fun _ => rfl) (fun _ _ _ => rfl) (fun t => by rw [hafter]; unfold Dat.blockOf iblk13; rw [hA]; try rfl) t d).trans
    (by unfold Dat.fetched Dat.blockOf iblk13; rw [hA]; try rfl)
theorem before13_8_of (dat : Dat τ (Elt F) Ix Name U Lvl cfg13 c) (hA : dat.A 8 = V (Pipeline.arrRef spec13 8))
    (hafter : ∀ t, dat.after 8 t = iblk13 c V 8 t) (t : Fin cfg13.N) (d) : dat.before 8 t d = iblk13 c V 8 t :=
  (dat.before_in_eq_fetched 8 rfl (fun _ => rfl) (fun _ _ _ => rfl) (fun t => by rw [hafter]; unfold Dat.blockOf iblk13; rw [hA]; try rfl) t d).trans
    (by unfold Dat.fetched Dat.blockOf iblk13; rw [hA]; try rfl)

/-- The proof data of the call on core `c`: the arrays as found (`V`); after the body at point `t` each input's
    buffer at its block and the output's at the stored block; one invariant `Φ₀`, one tally of debts `O` and
    one bound `Rec` on the recorded waits at every point, all untouched by the body; the input arrays held at the shares `q`. -/
def dat13 (Φ₀ : sProp (MT nD τ sig Ix (Elt F) Name U Lvl)) (O : CellTallies nD τ sig Ix) (Rec : Set (SemLoc sig × Ix))
    (q : Fin cfg13.W → PosShare TreeShare) : Dat τ (Elt F) Ix Name U Lvl cfg13 c where
  A w := V (Pipeline.arrRef spec13 w)
  after w t := match w with
    | ⟨0, _⟩ => iblk13 c V 0 t
    | ⟨1, _⟩ => iblk13 c V 1 t
    | ⟨2, _⟩ => iblk13 c V 2 t
    | ⟨3, _⟩ => iblk13 c V 3 t
    | ⟨4, _⟩ => iblk13 c V 4 t
    | ⟨5, _⟩ => iblk13 c V 5 t
    | ⟨6, _⟩ => iblk13 c V 6 t
    | ⟨7, _⟩ => iblk13 c V 7 t
    | ⟨8, _⟩ => iblk13 c V 8 t
    | ⟨9, _⟩ => out13 c V t
  Φ _ := Φ₀
  q := q
  owed _ := O
  recorded _ := Rec

variable (Φ₀ : sProp (MT nD τ sig Ix (Elt F) Name U Lvl)) (O : CellTallies nD τ sig Ix) (Rec : Set (SemLoc sig × Ix)) (q : Fin cfg13.W → PosShare TreeShare)

/-- The proof data's arrays are `V`'s, by projection. -/
theorem A13_eq (w : Fin cfg13.W) : (dat13 c V Φ₀ O Rec q).A w = V (Pipeline.arrRef spec13 w) := by dsimp only [dat13]

/-- What the body leaves, window by window. -/
theorem after13_0 (t : Fin cfg13.N) : (dat13 c V Φ₀ O Rec q).after 0 t = iblk13 c V 0 t := by dsimp only [dat13]
theorem after13_1 (t : Fin cfg13.N) : (dat13 c V Φ₀ O Rec q).after 1 t = iblk13 c V 1 t := by dsimp only [dat13]
theorem after13_2 (t : Fin cfg13.N) : (dat13 c V Φ₀ O Rec q).after 2 t = iblk13 c V 2 t := by dsimp only [dat13]
theorem after13_3 (t : Fin cfg13.N) : (dat13 c V Φ₀ O Rec q).after 3 t = iblk13 c V 3 t := by dsimp only [dat13]
theorem after13_4 (t : Fin cfg13.N) : (dat13 c V Φ₀ O Rec q).after 4 t = iblk13 c V 4 t := by dsimp only [dat13]
theorem after13_5 (t : Fin cfg13.N) : (dat13 c V Φ₀ O Rec q).after 5 t = iblk13 c V 5 t := by dsimp only [dat13]
theorem after13_6 (t : Fin cfg13.N) : (dat13 c V Φ₀ O Rec q).after 6 t = iblk13 c V 6 t := by dsimp only [dat13]
theorem after13_7 (t : Fin cfg13.N) : (dat13 c V Φ₀ O Rec q).after 7 t = iblk13 c V 7 t := by dsimp only [dat13]
theorem after13_8 (t : Fin cfg13.N) : (dat13 c V Φ₀ O Rec q).after 8 t = iblk13 c V 8 t := by dsimp only [dat13]
theorem after13_9 (t : Fin cfg13.N) : (dat13 c V Φ₀ O Rec q).after 9 t = out13 c V t := by dsimp only [dat13]

/-- What the body finds in each input's buffer. -/
theorem before13_0 (t : Fin cfg13.N) (d) : (dat13 c V Φ₀ O Rec q).before 0 t d = iblk13 c V 0 t :=
  before13_0_of c V (dat13 c V Φ₀ O Rec q) (A13_eq c V Φ₀ O Rec q 0) (after13_0 c V Φ₀ O Rec q) t d
theorem before13_1 (t : Fin cfg13.N) (d) : (dat13 c V Φ₀ O Rec q).before 1 t d = iblk13 c V 1 t :=
  before13_1_of c V (dat13 c V Φ₀ O Rec q) (A13_eq c V Φ₀ O Rec q 1) (after13_1 c V Φ₀ O Rec q) t d
theorem before13_2 (t : Fin cfg13.N) (d) : (dat13 c V Φ₀ O Rec q).before 2 t d = iblk13 c V 2 t :=
  before13_2_of c V (dat13 c V Φ₀ O Rec q) (A13_eq c V Φ₀ O Rec q 2) (after13_2 c V Φ₀ O Rec q) t d
theorem before13_3 (t : Fin cfg13.N) (d) : (dat13 c V Φ₀ O Rec q).before 3 t d = iblk13 c V 3 t :=
  before13_3_of c V (dat13 c V Φ₀ O Rec q) (A13_eq c V Φ₀ O Rec q 3) (after13_3 c V Φ₀ O Rec q) t d
theorem before13_4 (t : Fin cfg13.N) (d) : (dat13 c V Φ₀ O Rec q).before 4 t d = iblk13 c V 4 t :=
  before13_4_of c V (dat13 c V Φ₀ O Rec q) (A13_eq c V Φ₀ O Rec q 4) (after13_4 c V Φ₀ O Rec q) t d
theorem before13_5 (t : Fin cfg13.N) (d) : (dat13 c V Φ₀ O Rec q).before 5 t d = iblk13 c V 5 t :=
  before13_5_of c V (dat13 c V Φ₀ O Rec q) (A13_eq c V Φ₀ O Rec q 5) (after13_5 c V Φ₀ O Rec q) t d
theorem before13_6 (t : Fin cfg13.N) (d) : (dat13 c V Φ₀ O Rec q).before 6 t d = iblk13 c V 6 t :=
  before13_6_of c V (dat13 c V Φ₀ O Rec q) (A13_eq c V Φ₀ O Rec q 6) (after13_6 c V Φ₀ O Rec q) t d
theorem before13_7 (t : Fin cfg13.N) (d) : (dat13 c V Φ₀ O Rec q).before 7 t d = iblk13 c V 7 t :=
  before13_7_of c V (dat13 c V Φ₀ O Rec q) (A13_eq c V Φ₀ O Rec q 7) (after13_7 c V Φ₀ O Rec q) t d
theorem before13_8 (t : Fin cfg13.N) (d) : (dat13 c V Φ₀ O Rec q).before 8 t d = iblk13 c V 8 t :=
  before13_8_of c V (dat13 c V Φ₀ O Rec q) (A13_eq c V Φ₀ O Rec q 8) (after13_8 c V Φ₀ O Rec q) t d

/-- The pipeline rule's body obligation for this proof data, at every point and any index of the credit tokens. -/
theorem body_obligation13 (ι : Ix) : BodyObligation (dat13 c V Φ₀ O Rec q) (defs₀ (F := F)) Variants.none ι Set.univ :=
  body_obligation13_of (dat13 c V Φ₀ O Rec q) ι (iblk13 c V 0) (iblk13 c V 1) (iblk13 c V 2) (iblk13 c V 3) (iblk13 c V 4) (iblk13 c V 5) (iblk13 c V 6) (iblk13 c V 7) (iblk13 c V 8)
    (before13_0 c V Φ₀ O Rec q) (before13_1 c V Φ₀ O Rec q) (before13_2 c V Φ₀ O Rec q) (before13_3 c V Φ₀ O Rec q) (before13_4 c V Φ₀ O Rec q) (before13_5 c V Φ₀ O Rec q) (before13_6 c V Φ₀ O Rec q) (before13_7 c V Φ₀ O Rec q) (before13_8 c V Φ₀ O Rec q)
    (after13_0 c V Φ₀ O Rec q) (after13_1 c V Φ₀ O Rec q) (after13_2 c V Φ₀ O Rec q) (after13_3 c V Φ₀ O Rec q) (after13_4 c V Φ₀ O Rec q) (after13_5 c V Φ₀ O Rec q) (after13_6 c V Φ₀ O Rec q) (after13_7 c V Φ₀ O Rec q) (after13_8 c V Φ₀ O Rec q)
    (after13_9 c V Φ₀ O Rec q) (fun _ => .rfl) (fun _ => .rfl)

end Data

end Cert.Proof.TcW

end
-- ==== Proof.TcBody15W.lean ====
/-
  The TensorCore body of point-convolution call 15, run once on whole staging buffers, and the proof data of
  its pipeline.

  The body reads nine blocks whole — the gathered rows, the per-point bias of the first layer, the three layers'
  weights and biases, the output weights and the output bias — and stores one block whole: the output weights
  applied to the flattened products of the third layer's activations with the gathered features, plus the output
  bias. Nothing else is touched: every input buffer is handed back as it was found, and what the output buffer
  held before is overwritten everywhere. The statement is made once over arbitrary whole memrefs and arbitrary
  contents, then at the staging buffers the pipeline calls the body with at a grid point, and last in the form
  the pipeline rule asks of a body: for any proof data whose input windows are found and left at given blocks,
  whose output window is left at the stored block, and whose invariant and debts pass through unchanged. The
  proof data itself is stated over arbitrary contents of the ten windows' arrays: each input window's staging
  buffer holds that array's block at the point, fetched there or not, and the output window's holds the stored
  block computed from them.
-/
import proofs.«214101_g10505490006249_cont_week2b_118_28_alg».proof.Proof.Gen.Kernel.Launch
import proofs.«214101_g10505490006249_cont_week2b_118_28_alg».proof.Proof.Gen.Kernel.Skeleton
import proofs.«214101_g10505490006249_cont_week2b_118_28_alg».proof.Proof.Gen.Kernel.Points
import Idealize.ShloMosaic.Lib.Pipeline.FrameBody
import Idealize.ShloMosaic.Lib.Pipeline.Value
import Idealize.ShloMosaic.Lib.Tactic

set_option maxRecDepth 16384

noncomputable section

namespace Cert.Proof.TcW

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## The body on whole memrefs -/

/-- The offsets of every whole-block access: zero on both axes. -/
theorem zeros15 : (![0, 0] : Fin 2 → Nat) = fun _ => 0 := by funext a; fin_cases a <;> rfl

/-- The one store of the body covers the output block. -/
theorem cover15 (p0 : Vec F S1024x64 .f32) (y : S1024x64.Idx) :
    ∃ pc ∈ ([⟨Rect.unit (s := S1024x64) ![0, 0] S1024x64.size inb_S1024x64_S1024x64_0_0, p0⟩] : List (View.Piece (Elt F) S1024x64 .f32)), y ∈ pc.1.set :=
  ⟨_, List.mem_singleton_self _, View.mem_set_unit_zero zeros15 inb_S1024x64_S1024x64_0_0 y⟩

set_option maxHeartbeats 1000000 in
/-- The body on ten whole memrefs, the nine inputs' read at `x0 … x8` and the output's at anything, runs to the
    continuation holding the inputs' as they were and the output's at the stored block: the output weights `x7`
    applied to the flattened products computed from `x0 … x6`, plus the output bias `x8`. -/
theorem sound_kernel15 (c : Dev nD) (E : Set Name) (i : grid15.Coords)
    (arg1 : Memref sig .tc .vmem S16384x128 .f32) (harg1 : arg1.IsWhole) (arg2 : Memref sig .tc .vmem S1024x32 .f32) (harg2 : arg2.IsWhole) (arg3 : Memref sig .tc .vmem S128x32 .f32) (harg3 : arg3.IsWhole) (arg4 : Memref sig .tc .vmem S32x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S1024x64 .f32) (harg8 : arg8.IsWhole) (arg9 : Memref sig .tc .vmem S1x64 .f32) (harg9 : arg9.IsWhole) (arg10 : Memref sig .tc .vmem S1024x64 .f32) (harg10 : arg10.IsWhole)
    (x0 : Vec F S16384x128 .f32) (x1 : Vec F S1024x32 .f32) (x2 : Vec F S128x32 .f32) (x3 : Vec F S32x16 .f32) (x4 : Vec F S1x16 .f32) (x5 : Vec F S16x16 .f32) (x6 : Vec F S1x16 .f32) (x7 : Vec F S1024x64 .f32) (x8 : Vec F S1x64 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ owns (c : Thread nD τ) arg10 fullShare (k15_pay1 (k15_pay2 x0 x2 x1 x3 x4 x5 x6) x7 x8)) -∗ K ⟨⟩))
      ⊢ wp frame (wpE (defs₀ (F := F)) Variants.none c none) E (cc15__tc_body i arg1 harg1 arg2 harg2 arg3 harg3 arg4 harg4 arg5 harg5 arg6 harg6 arg7 harg7 arg8 harg8 arg9 harg9 arg10 harg10) K := by
  simp only [cc15__tc_body_eq_skeleton]; unfold cc15__tc_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  rw [View.read_writes_eq_canon _ _ _ (cover15 _), View.canon_unit_zero zeros15]
  unfold sound_kernel15.sl.r
  simp only [View.readAt_eq_ld, View.ld_unit_zero (S := S16384x128) zeros15, View.ld_unit_zero (S := S128x32) zeros15, View.ld_unit_zero (S := S1024x32) zeros15, View.ld_unit_zero (S := S32x16) zeros15, View.ld_unit_zero (S := S1x16) zeros15, View.ld_unit_zero (S := S16x16) zeros15, View.ld_unit_zero (S := S1024x64) zeros15, View.ld_unit_zero (S := S1x64) zeros15]

/-! ## The body at a grid point, for any proof data of the call -/

section Obligation

variable {c : Dev nD} (dat : Dat τ (Elt F) Ix Name U Lvl cfg15 c) (ι : Ix)
  (x0 : Fin cfg15.N → Vec F S16384x128 .f32) (x1 : Fin cfg15.N → Vec F S1024x32 .f32) (x2 : Fin cfg15.N → Vec F S128x32 .f32) (x3 : Fin cfg15.N → Vec F S32x16 .f32) (x4 : Fin cfg15.N → Vec F S1x16 .f32) (x5 : Fin cfg15.N → Vec F S16x16 .f32) (x6 : Fin cfg15.N → Vec F S1x16 .f32) (x7 : Fin cfg15.N → Vec F S1024x64 .f32) (x8 : Fin cfg15.N → Vec F S1x64 .f32)

/-- The body at point `t` on the staging buffers the pipeline calls it with. The proof data's input windows are
    found at the blocks `x0 t … x8 t` (`hb`) and left there (`ha`), its output window is left at the stored block
    (`ha9`), and its invariant and the core's debts at the next point follow from those before (`hΦ`, `ho`): they
    pass through the body unread. -/
theorem sound_body15
    (hb0 : ∀ t d, dat.before 0 t d = x0 t) (hb1 : ∀ t d, dat.before 1 t d = x1 t) (hb2 : ∀ t d, dat.before 2 t d = x2 t) (hb3 : ∀ t d, dat.before 3 t d = x3 t) (hb4 : ∀ t d, dat.before 4 t d = x4 t) (hb5 : ∀ t d, dat.before 5 t d = x5 t) (hb6 : ∀ t d, dat.before 6 t d = x6 t) (hb7 : ∀ t d, dat.before 7 t d = x7 t) (hb8 : ∀ t d, dat.before 8 t d = x8 t)
    (ha0 : ∀ t, dat.after 0 t = x0 t) (ha1 : ∀ t, dat.after 1 t = x1 t) (ha2 : ∀ t, dat.after 2 t = x2 t) (ha3 : ∀ t, dat.after 3 t = x3 t) (ha4 : ∀ t, dat.after 4 t = x4 t) (ha5 : ∀ t, dat.after 5 t = x5 t) (ha6 : ∀ t, dat.after 6 t = x6 t) (ha7 : ∀ t, dat.after 7 t = x7 t) (ha8 : ∀ t, dat.after 8 t = x8 t)
    (ha9 : ∀ t, dat.after 9 t = k15_pay1 (k15_pay2 (x0 t) (x2 t) (x1 t) (x3 t) (x4 t) (x5 t) (x6 t)) (x7 t) (x8 t))
    (hΦ : ∀ t : Fin cfg15.N, dat.Φ t.castSucc ⊢ dat.Φ t.succ)
    (ho : ∀ t : Fin cfg15.N, dat.owesAt ι t.castSucc ⊢ dat.owesAt ι t.succ) (t : Fin cfg15.N) :
    iprop(dat.Φ t.castSucc ∗ dat.owesAt ι t.castSucc
      ∗ (∃ d, owns (c : Thread nD τ) (st15_0 t) fullShare (dat.before 0 t d))
      ∗ (∃ d, owns (c : Thread nD τ) (st15_1 t) fullShare (dat.before 1 t d))
      ∗ (∃ d, owns (c : Thread nD τ) (st15_2 t) fullShare (dat.before 2 t d))
      ∗ (∃ d, owns (c : Thread nD τ) (st15_3 t) fullShare (dat.before 3 t d))
      ∗ (∃ d, owns (c : Thread nD τ) (st15_4 t) fullShare (dat.before 4 t d))
      ∗ (∃ d, owns (c : Thread nD τ) (st15_5 t) fullShare (dat.before 5 t d))
      ∗ (∃ d, owns (c : Thread nD τ) (st15_6 t) fullShare (dat.before 6 t d))
      ∗ (∃ d, owns (c : Thread nD τ) (st15_7 t) fullShare (dat.before 7 t d))
      ∗ (∃ d, owns (c : Thread nD τ) (st15_8 t) fullShare (dat.before 8 t d))
      ∗ (∃ d, owns (c : Thread nD τ) (st15_9 t) fullShare (dat.before 9 t d)))
    ⊢ wp frame (wpE (defs₀ (F := F)) Variants.none c none) Set.univ (bodyAt15 t) (fun _ =>
        iprop(dat.Φ t.succ ∗ dat.owesAt ι t.succ
          ∗ owns (c : Thread nD τ) (st15_0 t) fullShare (dat.after 0 t)
          ∗ owns (c : Thread nD τ) (st15_1 t) fullShare (dat.after 1 t)
          ∗ owns (c : Thread nD τ) (st15_2 t) fullShare (dat.after 2 t)
          ∗ owns (c : Thread nD τ) (st15_3 t) fullShare (dat.after 3 t)
          ∗ owns (c : Thread nD τ) (st15_4 t) fullShare (dat.after 4 t)
          ∗ owns (c : Thread nD τ) (st15_5 t) fullShare (dat.after 5 t)
          ∗ owns (c : Thread nD τ) (st15_6 t) fullShare (dat.after 6 t)
          ∗ owns (c : Thread nD τ) (st15_7 t) fullShare (dat.after 7 t)
          ∗ owns (c : Thread nD τ) (st15_8 t) fullShare (dat.after 8 t)
          ∗ owns (c : Thread nD τ) (st15_9 t) fullShare (dat.after 9 t))) := by
  unfold bodyAt15
  simp only [hb0, hb1, hb2, hb3, hb4, hb5, hb6, hb7, hb8, ha0, ha1, ha2, ha3, ha4, ha5, ha6, ha7, ha8, ha9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel15 c Set.univ (grid15.coords t) _ _ _ _ _ _ _ _ _ _ _ _ _ _ _ _ _ _ _ _ (x0 t) (x1 t) (x2 t) (x3 t) (x4 t) (x5 t) (x6 t) (x7 t) (x8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iapply (hΦ t); iexact HΦ
  isplitl [Ho]; · iapply (ho t); iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline rule's body obligation for the call, at every point, under the same hypotheses. -/
theorem body_obligation15_of
    (hb0 : ∀ t d, dat.before 0 t d = x0 t) (hb1 : ∀ t d, dat.before 1 t d = x1 t) (hb2 : ∀ t d, dat.before 2 t d = x2 t) (hb3 : ∀ t d, dat.before 3 t d = x3 t) (hb4 : ∀ t d, dat.before 4 t d = x4 t) (hb5 : ∀ t d, dat.before 5 t d = x5 t) (hb6 : ∀ t d, dat.before 6 t d = x6 t) (hb7 : ∀ t d, dat.before 7 t d = x7 t) (hb8 : ∀ t d, dat.before 8 t d = x8 t)
    (ha0 : ∀ t, dat.after 0 t = x0 t) (ha1 : ∀ t, dat.after 1 t = x1 t) (ha2 : ∀ t, dat.after 2 t = x2 t) (ha3 : ∀ t, dat.after 3 t = x3 t) (ha4 : ∀ t, dat.after 4 t = x4 t) (ha5 : ∀ t, dat.after 5 t = x5 t) (ha6 : ∀ t, dat.after 6 t = x6 t) (ha7 : ∀ t, dat.after 7 t = x7 t) (ha8 : ∀ t, dat.after 8 t = x8 t)
    (ha9 : ∀ t, dat.after 9 t = k15_pay1 (k15_pay2 (x0 t) (x2 t) (x1 t) (x3 t) (x4 t) (x5 t) (x6 t)) (x7 t) (x8 t))
    (hΦ : ∀ t : Fin cfg15.N, dat.Φ t.castSucc ⊢ dat.Φ t.succ)
    (ho : ∀ t : Fin cfg15.N, dat.owesAt ι t.castSucc ⊢ dat.owesAt ι t.succ) :
    BodyObligation dat (defs₀ (F := F)) Variants.none ι Set.univ := fun t => by
  rw [bigSep_W15, bigSep_W15]
  exact sound_body15 dat ι x0 x1 x2 x3 x4 x5 x6 x7 x8 hb0 hb1 hb2 hb3 hb4 hb5 hb6 hb7 hb8 ha0 ha1 ha2 ha3 ha4 ha5 ha6 ha7 ha8 ha9 hΦ ho t

end Obligation

/-! ## The call's proof data over given array contents

The arrays' contents as the call finds them are a parameter `V`; the blocks the body is handed are read off them
through the windows, and the proof data says: every input window is found at its block and left there, the output
window is left at the stored block computed from the input blocks of that point. -/

section Data

variable (c : Dev nD) (V : (b : Ref sig .tc) → Buf (Elt F) ((c : Thread nD τ).loc b))

/-- Window `w`'s block at point `t`, read off its array's contents `V`. -/
def iblk15 (w : Fin cfg15.W) (t : Fin cfg15.N) : ((cfg15.win w).xblock (cfg15.grid.coords t)).Idx → Elt F (cfg15.win w).elt :=
  ((cfg15.win w).blk t).view.read (Elt F) (V (Pipeline.arrRef spec15 w))

/-- The block the body stores at point `t`, from the input windows' blocks there. -/
def out15 (t : Fin cfg15.N) : Vec F S1024x64 .f32 :=
  k15_pay1 (k15_pay2 (iblk15 c V 0 t) (iblk15 c V 2 t) (iblk15 c V 1 t) (iblk15 c V 3 t) (iblk15 c V 4 t) (iblk15 c V 5 t) (iblk15 c V 6 t)) (iblk15 c V 7 t) (iblk15 c V 8 t)

/-- An input window's current staging buffer holds its block at every point, fetched there or not, for any proof
    data whose array is `V`'s (`hA`) and whose body leaves the block in place (`hafter`): unfetched, the window's
    index has not moved since the point that fetched it. -/
theorem before15_0_of (dat : Dat τ (Elt F) Ix Name U Lvl cfg15 c) (hA : dat.A 0 = V (Pipeline.arrRef spec15 0))
    (hafter : ∀ t, dat.after 0 t = iblk15 c V 0 t) (t : Fin cfg15.N) (d) : dat.before 0 t d = iblk15 c V 0 t :=
  (dat.before_in_eq_fetched 0 rfl (fun _ => rfl) (fun _ _ _ => rfl) (fun t => by rw [hafter]; unfold Dat.blockOf iblk15; rw [hA]; try rfl) t d).trans
    (by unfold Dat.fetched Dat.blockOf iblk15; rw [hA]; try rfl)
theorem before15_1_of (dat : Dat τ (Elt F) Ix Name U Lvl cfg15 c) (hA : dat.A 1 = V (Pipeline.arrRef spec15 1))
    (hafter : ∀ t, dat.after 1 t = iblk15 c V 1 t) (t : Fin cfg15.N) (d) : dat.before 1 t d = iblk15 c V 1 t :=
  (dat.before_in_eq_fetched 1 rfl (fun _ => rfl) (fun _ _ _ => rfl) (fun t => by rw [hafter]; unfold Dat.blockOf iblk15; rw [hA]; try rfl) t d).trans
    (by unfold Dat.fetched Dat.blockOf iblk15; rw [hA]; try rfl)
theorem before15_2_of (dat : Dat τ (Elt F) Ix Name U Lvl cfg15 c) (hA : dat.A 2 = V (Pipeline.arrRef spec15 2))
    (hafter : ∀ t, dat.after 2 t = iblk15 c V 2 t) (t : Fin cfg15.N) (d) : dat.before 2 t d = iblk15 c V 2 t :=
  (dat.before_in_eq_fetched 2 rfl (fun _ => rfl) (fun _ _ _ => rfl) (fun t => by rw [hafter]; unfold Dat.blockOf iblk15; rw [hA]; try rfl) t d).trans
    (by unfold Dat.fetched Dat.blockOf iblk15; rw [hA]; try rfl)
theorem before15_3_of (dat : Dat τ (Elt F) Ix Name U Lvl cfg15 c) (hA : dat.A 3 = V (Pipeline.arrRef spec15 3))
    (hafter : ∀ t, dat.after 3 t = iblk15 c V 3 t) (t : Fin cfg15.N) (d) : dat.before 3 t d = iblk15 c V 3 t :=
  (dat.before_in_eq_fetched 3 rfl (fun _ => rfl) (fun _ _ _ => rfl) (fun t => by rw [hafter]; unfold Dat.blockOf iblk15; rw [hA]; try rfl) t d).trans
    (by unfold Dat.fetched Dat.blockOf iblk15; rw [hA]; try rfl)
theorem before15_4_of (dat : Dat τ (Elt F) Ix Name U Lvl cfg15 c) (hA : dat.A 4 = V (Pipeline.arrRef spec15 4))
    (hafter : ∀ t, dat.after 4 t = iblk15 c V 4 t) (t : Fin cfg15.N) (d) : dat.before 4 t d = iblk15 c V 4 t :=
  (dat.before_in_eq_fetched 4 rfl (fun _ => rfl) (fun _ _ _ => rfl) (fun t => by rw [hafter]; unfold Dat.blockOf iblk15; rw [hA]; try rfl) t d).trans
    (by unfold Dat.fetched Dat.blockOf iblk15; rw [hA]; try rfl)
theorem before15_5_of (dat : Dat τ (Elt F) Ix Name U Lvl cfg15 c) (hA : dat.A 5 = V (Pipeline.arrRef spec15 5))
    (hafter : ∀ t, dat.after 5 t = iblk15 c V 5 t) (t : Fin cfg15.N) (d) : dat.before 5 t d = iblk15 c V 5 t :=
  (dat.before_in_eq_fetched 5 rfl (fun _ => rfl) (fun _ _ _ => rfl) (fun t => by rw [hafter]; unfold Dat.blockOf iblk15; rw [hA]; try rfl) t d).trans
    (by unfold Dat.fetched Dat.blockOf iblk15; rw [hA]; try rfl)
theorem before15_6_of (dat : Dat τ (Elt F) Ix Name U Lvl cfg15 c) (hA : dat.A 6 = V (Pipeline.arrRef spec15 6))
    (hafter : ∀ t, dat.after 6 t = iblk15 c V 6 t) (t : Fin cfg15.N) (d) : dat.before 6 t d = iblk15 c V 6 t :=
  (dat.before_in_eq_fetched 6 rfl (fun _ => rfl) (fun _ _ _ => rfl) (fun t => by rw [hafter]; unfold Dat.blockOf iblk15; rw [hA]; try rfl) t d).trans
    (by unfold Dat.fetched Dat.blockOf iblk15; rw [hA]; try rfl)
theorem before15_7_of (dat : Dat τ (Elt F) Ix Name U Lvl cfg15 c) (hA : dat.A 7 = V (Pipeline.arrRef spec15 7))
    (hafter : ∀ t, dat.after 7 t = iblk15 c V 7 t) (t : Fin cfg15.N) (d) : dat.before 7 t d = iblk15 c V 7 t :=
  (dat.before_in_eq_fetched 7 rfl (fun _ => rfl) (fun _ _ _ => rfl) (fun t => by rw [hafter]; unfold Dat.blockOf iblk15; rw [hA]; try rfl) t d).trans
    (by unfold Dat.fetched Dat.blockOf iblk15; rw [hA]; try rfl)
theorem before15_8_of (dat : Dat τ (Elt F) Ix Name U Lvl cfg15 c) (hA : dat.A 8 = V (Pipeline.arrRef spec15 8))
    (hafter : ∀ t, dat.after 8 t = iblk15 c V 8 t) (t : Fin cfg15.N) (d) : dat.before 8 t d = iblk15 c V 8 t :=
  (dat.before_in_eq_fetched 8 rfl (fun _ => rfl) (fun _ _ _ => rfl) (fun t => by rw [hafter]; unfold Dat.blockOf iblk15; rw [hA]; try rfl) t d).trans
    (by unfold Dat.fetched Dat.blockOf iblk15; rw [hA]; try rfl)

/-- The proof data of the call on core `c`: the arrays as found (`V`); after the body at point `t` each input's
    buffer at its block and the output's at the stored block; one invariant `Φ₀`, one tally of debts `O` and
    one bound `Rec` on the recorded waits at every point, all untouched by the body; the input arrays held at the shares `q`. -/
def dat15 (Φ₀ : sProp (MT nD τ sig Ix (Elt F) Name U Lvl)) (O : CellTallies nD τ sig Ix) (Rec : Set (SemLoc sig × Ix))
    (q : Fin cfg15.W → PosShare TreeShare) : Dat τ (Elt F) Ix Name U Lvl cfg15 c where
  A w := V (Pipeline.arrRef spec15 w)
  after w t := match w with
    | ⟨0, _⟩ => iblk15 c V 0 t
    | ⟨1, _⟩ => iblk15 c V 1 t
    | ⟨2, _⟩ => iblk15 c V 2 t
    | ⟨3, _⟩ => iblk15 c V 3 t
    | ⟨4, _⟩ => iblk15 c V 4 t
    | ⟨5, _⟩ => iblk15 c V 5 t
    | ⟨6, _⟩ => iblk15 c V 6 t
    | ⟨7, _⟩ => iblk15 c V 7 t
    | ⟨8, _⟩ => iblk15 c V 8 t
    | ⟨9, _⟩ => out15 c V t
  Φ _ := Φ₀
  q := q
  owed _ := O
  recorded _ := Rec

variable (Φ₀ : sProp (MT nD τ sig Ix (Elt F) Name U Lvl)) (O : CellTallies nD τ sig Ix) (Rec : Set (SemLoc sig × Ix)) (q : Fin cfg15.W → PosShare TreeShare)

/-- The proof data's arrays are `V`'s, by projection. -/
theorem A15_eq (w : Fin cfg15.W) : (dat15 c V Φ₀ O Rec q).A w = V (Pipeline.arrRef spec15 w) := by dsimp only [dat15]

/-- What the body leaves, window by window. -/
theorem after15_0 (t : Fin cfg15.N) : (dat15 c V Φ₀ O Rec q).after 0 t = iblk15 c V 0 t := by dsimp only [dat15]
theorem after15_1 (t : Fin cfg15.N) : (dat15 c V Φ₀ O Rec q).after 1 t = iblk15 c V 1 t := by dsimp only [dat15]
theorem after15_2 (t : Fin cfg15.N) : (dat15 c V Φ₀ O Rec q).after 2 t = iblk15 c V 2 t := by dsimp only [dat15]
theorem after15_3 (t : Fin cfg15.N) : (dat15 c V Φ₀ O Rec q).after 3 t = iblk15 c V 3 t := by dsimp only [dat15]
theorem after15_4 (t : Fin cfg15.N) : (dat15 c V Φ₀ O Rec q).after 4 t = iblk15 c V 4 t := by dsimp only [dat15]
theorem after15_5 (t : Fin cfg15.N) : (dat15 c V Φ₀ O Rec q).after 5 t = iblk15 c V 5 t := by dsimp only [dat15]
theorem after15_6 (t : Fin cfg15.N) : (dat15 c V Φ₀ O Rec q).after 6 t = iblk15 c V 6 t := by dsimp only [dat15]
theorem after15_7 (t : Fin cfg15.N) : (dat15 c V Φ₀ O Rec q).after 7 t = iblk15 c V 7 t := by dsimp only [dat15]
theorem after15_8 (t : Fin cfg15.N) : (dat15 c V Φ₀ O Rec q).after 8 t = iblk15 c V 8 t := by dsimp only [dat15]
theorem after15_9 (t : Fin cfg15.N) : (dat15 c V Φ₀ O Rec q).after 9 t = out15 c V t := by dsimp only [dat15]

/-- What the body finds in each input's buffer. -/
theorem before15_0 (t : Fin cfg15.N) (d) : (dat15 c V Φ₀ O Rec q).before 0 t d = iblk15 c V 0 t :=
  before15_0_of c V (dat15 c V Φ₀ O Rec q) (A15_eq c V Φ₀ O Rec q 0) (after15_0 c V Φ₀ O Rec q) t d
theorem before15_1 (t : Fin cfg15.N) (d) : (dat15 c V Φ₀ O Rec q).before 1 t d = iblk15 c V 1 t :=
  before15_1_of c V (dat15 c V Φ₀ O Rec q) (A15_eq c V Φ₀ O Rec q 1) (after15_1 c V Φ₀ O Rec q) t d
theorem before15_2 (t : Fin cfg15.N) (d) : (dat15 c V Φ₀ O Rec q).before 2 t d = iblk15 c V 2 t :=
  before15_2_of c V (dat15 c V Φ₀ O Rec q) (A15_eq c V Φ₀ O Rec q 2) (after15_2 c V Φ₀ O Rec q) t d
theorem before15_3 (t : Fin cfg15.N) (d) : (dat15 c V Φ₀ O Rec q).before 3 t d = iblk15 c V 3 t :=
  before15_3_of c V (dat15 c V Φ₀ O Rec q) (A15_eq c V Φ₀ O Rec q 3) (after15_3 c V Φ₀ O Rec q) t d
theorem before15_4 (t : Fin cfg15.N) (d) : (dat15 c V Φ₀ O Rec q).before 4 t d = iblk15 c V 4 t :=
  before15_4_of c V (dat15 c V Φ₀ O Rec q) (A15_eq c V Φ₀ O Rec q 4) (after15_4 c V Φ₀ O Rec q) t d
theorem before15_5 (t : Fin cfg15.N) (d) : (dat15 c V Φ₀ O Rec q).before 5 t d = iblk15 c V 5 t :=
  before15_5_of c V (dat15 c V Φ₀ O Rec q) (A15_eq c V Φ₀ O Rec q 5) (after15_5 c V Φ₀ O Rec q) t d
theorem before15_6 (t : Fin cfg15.N) (d) : (dat15 c V Φ₀ O Rec q).before 6 t d = iblk15 c V 6 t :=
  before15_6_of c V (dat15 c V Φ₀ O Rec q) (A15_eq c V Φ₀ O Rec q 6) (after15_6 c V Φ₀ O Rec q) t d
theorem before15_7 (t : Fin cfg15.N) (d) : (dat15 c V Φ₀ O Rec q).before 7 t d = iblk15 c V 7 t :=
  before15_7_of c V (dat15 c V Φ₀ O Rec q) (A15_eq c V Φ₀ O Rec q 7) (after15_7 c V Φ₀ O Rec q) t d
theorem before15_8 (t : Fin cfg15.N) (d) : (dat15 c V Φ₀ O Rec q).before 8 t d = iblk15 c V 8 t :=
  before15_8_of c V (dat15 c V Φ₀ O Rec q) (A15_eq c V Φ₀ O Rec q 8) (after15_8 c V Φ₀ O Rec q) t d

/-- The pipeline rule's body obligation for this proof data, at every point and any index of the credit tokens. -/
theorem body_obligation15 (ι : Ix) : BodyObligation (dat15 c V Φ₀ O Rec q) (defs₀ (F := F)) Variants.none ι Set.univ :=
  body_obligation15_of (dat15 c V Φ₀ O Rec q) ι (iblk15 c V 0) (iblk15 c V 1) (iblk15 c V 2) (iblk15 c V 3) (iblk15 c V 4) (iblk15 c V 5) (iblk15 c V 6) (iblk15 c V 7) (iblk15 c V 8)
    (before15_0 c V Φ₀ O Rec q) (before15_1 c V Φ₀ O Rec q) (before15_2 c V Φ₀ O Rec q) (before15_3 c V Φ₀ O Rec q) (before15_4 c V Φ₀ O Rec q) (before15_5 c V Φ₀ O Rec q) (before15_6 c V Φ₀ O Rec q) (before15_7 c V Φ₀ O Rec q) (before15_8 c V Φ₀ O Rec q)
    (after15_0 c V Φ₀ O Rec q) (after15_1 c V Φ₀ O Rec q) (after15_2 c V Φ₀ O Rec q) (after15_3 c V Φ₀ O Rec q) (after15_4 c V Φ₀ O Rec q) (after15_5 c V Φ₀ O Rec q) (after15_6 c V Φ₀ O Rec q) (after15_7 c V Φ₀ O Rec q) (after15_8 c V Φ₀ O Rec q)
    (after15_9 c V Φ₀ O Rec q) (fun _ => .rfl) (fun _ => .rfl)

end Data

end Cert.Proof.TcW

end
-- ==== Proof.TcDataW.lean ====
/-
  The proof data of the eight point-convolution pipelines as one family, in the resource algebra of the launch,
  and what the region rule asks of a pipeline that speaks only of this data: its body obligation, and how its
  invariant is entered and left.

  Each pipeline's data is stated over parameters: the contents `V p c` of the core's buffers when pipeline `p` is
  entered, whatever rides in its invariant beside the scoped buffers no window stages (`X p c`), the tallies
  `O p c` the core owes throughout the region and the bound `Rec p c` on its recorded waits (the body pays, takes on
  and records nothing).
-/
import proofs.«214101_g10505490006249_cont_week2b_118_28_alg».proof.Proof.SetupW
import proofs.«214101_g10505490006249_cont_week2b_118_28_alg».proof.Proof.TcBody1W
import proofs.«214101_g10505490006249_cont_week2b_118_28_alg».proof.Proof.TcBody3W
import proofs.«214101_g10505490006249_cont_week2b_118_28_alg».proof.Proof.TcBody5W
import proofs.«214101_g10505490006249_cont_week2b_118_28_alg».proof.Proof.TcBody7W
import proofs.«214101_g10505490006249_cont_week2b_118_28_alg».proof.Proof.TcBody9W
import proofs.«214101_g10505490006249_cont_week2b_118_28_alg».proof.Proof.TcBody11W
import proofs.«214101_g10505490006249_cont_week2b_118_28_alg».proof.Proof.TcBody13W
import proofs.«214101_g10505490006249_cont_week2b_118_28_alg».proof.Proof.TcBody15W
import Idealize.ShloMosaic.Lib.Pipeline.Regions

set_option maxRecDepth 16384

noncomputable section

namespace Cert.Proof.TcW

open Cert.Kernel Cert.Kernel.Gen Cert.Proof.KW
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation BodyObligationLoose)

variable {F : FTy → Type} [FloatOps F]

/-- No pipeline has a prefetched table: each has one admissible contents. -/
abbrev adm : (p : Fin 8) → (pcfgs (F := F) p).Adm := fun p => (cfgs p).toPCfg_adm

/-- A pipeline's invariant: what rides along (`X`) and the core's scoped buffers that no window of the pipeline
    stages, each at some contents. The body reads neither. -/
def ΦS (p : Fin 8) (c : Dev nD) (X : sProp (MT nD τ sig (HIx 8) (Elt F) ℕ UU ℕ)) : sProp (MT nD τ sig (HIx 8) (Elt F) ℕ UU ℕ) :=
  iprop(X ∗ Pipeline.scopedRest (Pipeline.pin (pcfgs (F := F)) adm p).spec c)

/-- The eight pipelines' proof data. -/
def pdats (V : Fin 8 → (c : Dev nD) → (b : Ref sig .tc) → Buf (Elt F) ((c : Thread nD τ).loc b))
    (X : Fin 8 → Dev nD → sProp (MT nD τ sig (HIx 8) (Elt F) ℕ UU ℕ)) (O : Fin 8 → Dev nD → CellTallies nD τ sig (HIx 8))
    (Rec : Fin 8 → Dev nD → Set (SemLoc sig × HIx 8)) :
    (p : Fin 8) → (c : Dev nD) → Dat τ (Elt F) (HIx 8) ℕ UU ℕ (Pipeline.pin (pcfgs (F := F)) adm p) c
  | ⟨0, _⟩ => fun c => dat1 c (V 0 c) (ΦS 0 c (X 0 c)) (O 0 c) (Rec 0 c) (fun _ => fullShare)
  | ⟨1, _⟩ => fun c => dat3 c (V 1 c) (ΦS 1 c (X 1 c)) (O 1 c) (Rec 1 c) (fun _ => fullShare)
  | ⟨2, _⟩ => fun c => dat5 c (V 2 c) (ΦS 2 c (X 2 c)) (O 2 c) (Rec 2 c) (fun _ => fullShare)
  | ⟨3, _⟩ => fun c => dat7 c (V 3 c) (ΦS 3 c (X 3 c)) (O 3 c) (Rec 3 c) (fun _ => fullShare)
  | ⟨4, _⟩ => fun c => dat9 c (V 4 c) (ΦS 4 c (X 4 c)) (O 4 c) (Rec 4 c) (fun _ => fullShare)
  | ⟨5, _⟩ => fun c => dat11 c (V 5 c) (ΦS 5 c (X 5 c)) (O 5 c) (Rec 5 c) (fun _ => fullShare)
  | ⟨6, _⟩ => fun c => dat13 c (V 6 c) (ΦS 6 c (X 6 c)) (O 6 c) (Rec 6 c) (fun _ => fullShare)
  | ⟨7, _⟩ => fun c => dat15 c (V 7 c) (ΦS 7 c (X 7 c)) (O 7 c) (Rec 7 c) (fun _ => fullShare)

section Pipes

variable (V : Fin 8 → (c : Dev nD) → (b : Ref sig .tc) → Buf (Elt F) ((c : Thread nD τ).loc b))
    (X : Fin 8 → Dev nD → sProp (MT nD τ sig (HIx 8) (Elt F) ℕ UU ℕ)) (O : Fin 8 → Dev nD → CellTallies nD τ sig (HIx 8))
    (Rec : Fin 8 → Dev nD → Set (SemLoc sig × HIx 8))

/-! ## Pipeline 0 (call 1) -/

/-- Pipeline 0's data is call 1's, by the family's literal match. -/
theorem pdats_0 (c : Dev nD) : pdats V X O Rec 0 c = dat1 c (V 0 c) (ΦS 0 c (X 0 c)) (O 0 c) (Rec 0 c) (fun _ => fullShare) := rfl

/-- Its arrays at entry are `V 0 c`'s. -/
theorem pdats_0_A (c : Dev nD) (w : Fin (Pipeline.pin (pcfgs (F := F)) adm 0).W) :
    (pdats V X O Rec 0 c).A w = V 0 c (Pipeline.arrRef spec1 w) := rfl

/-- The input arrays are held whole. -/
theorem pdats_0_q (c : Dev nD) (w : Fin (Pipeline.pin (pcfgs (F := F)) adm 0).W) : (pdats V X O Rec 0 c).q w = fullShare := rfl

/-- The debts, the bound on the recorded waits and the invariant are the same at every point. -/
theorem pdats_0_owed (c : Dev nD) (t) : (pdats V X O Rec 0 c).owed t = O 0 c := rfl
theorem pdats_0_recorded (c : Dev nD) (t) : (pdats V X O Rec 0 c).recorded t = Rec 0 c := rfl
theorem pdats_0_Φ (c : Dev nD) (t) : (pdats V X O Rec 0 c).Φ t = ΦS 0 c (X 0 c) := rfl

/-- What the output window's staging buffer holds after the body at point `t`: the stored block computed from the
    entry arrays' blocks at `t`. -/
theorem pdats_0_after9 (c : Dev nD) (t : Fin cfg1.N) : (pdats V X O Rec 0 c).after 9 t = out1 c (V 0 c) t := by
  rw [pdats_0]; exact after1_9 c (V 0 c) _ _ _ _ t

/-- The body obligation of pipeline 0, at every point, at the index the pipeline's own waits sit at. -/
theorem hbody0 (c : Dev nD) : BodyObligationLoose (pdats V X O Rec 0 c) (defs₀ (F := F)) 𝒱₀ (none : HIx 8) Set.univ := by
  rw [pdats_0]
  exact (body_obligation1 c (V 0 c) (ΦS 0 c (X 0 c)) (O 0 c) (Rec 0 c) (fun _ => fullShare) none).loose

/-- The invariant at the first point, from what rides along and the scoped buffers no window stages (there is no
    prefetched table). -/
theorem hin0 (c : Dev nD) :
    iprop(X 0 c ∗ Pipeline.prefHeld (pcfgs (F := F) 0).pre c (fun _ => fullShare) (adm (F := F) 0).1
        ∗ Pipeline.scopedRest (Pipeline.pin (pcfgs (F := F)) adm 0).spec c)
      ⊢ (pdats V X O Rec 0 c).Φ 0 := by
  rw [pdats_0_Φ]; unfold ΦS
  iintro ⟨HR, -, Hs⟩
  isplitl [HR] <;> iassumption

/-- The invariant at the last point gives them back; the body has no semaphore of its own. -/
theorem hout0 (c : Dev nD) :
    (pdats V X O Rec 0 c).Φ (Fin.last (Pipeline.pin (pcfgs (F := F)) adm 0).N)
      ⊢ iprop(X 0 c ∗ Pipeline.ownSems0 (fun k : PEmpty => k.elim) c ∗ Pipeline.scopedRest (Pipeline.pin (pcfgs (F := F)) adm 0).spec c) := by
  rw [pdats_0_Φ, Pipeline.ownSems0_none]; unfold ΦS
  iintro ⟨HR, Hs⟩
  isplitl [HR]; · iexact HR
  isplitr; · iempintro
  iexact Hs

/-! ## Pipeline 1 (call 3) -/

/-- Pipeline 1's data is call 3's, by the family's literal match. -/
theorem pdats_1 (c : Dev nD) : pdats V X O Rec 1 c = dat3 c (V 1 c) (ΦS 1 c (X 1 c)) (O 1 c) (Rec 1 c) (fun _ => fullShare) := rfl

/-- Its arrays at entry are `V 1 c`'s. -/
theorem pdats_1_A (c : Dev nD) (w : Fin (Pipeline.pin (pcfgs (F := F)) adm 1).W) :
    (pdats V X O Rec 1 c).A w = V 1 c (Pipeline.arrRef spec3 w) := rfl

/-- The input arrays are held whole. -/
theorem pdats_1_q (c : Dev nD) (w : Fin (Pipeline.pin (pcfgs (F := F)) adm 1).W) : (pdats V X O Rec 1 c).q w = fullShare := rfl

/-- The debts, the bound on the recorded waits and the invariant are the same at every point. -/
theorem pdats_1_owed (c : Dev nD) (t) : (pdats V X O Rec 1 c).owed t = O 1 c := rfl
theorem pdats_1_recorded (c : Dev nD) (t) : (pdats V X O Rec 1 c).recorded t = Rec 1 c := rfl
theorem pdats_1_Φ (c : Dev nD) (t) : (pdats V X O Rec 1 c).Φ t = ΦS 1 c (X 1 c) := rfl

/-- What the output window's staging buffer holds after the body at point `t`: the stored block computed from the
    entry arrays' blocks at `t`. -/
theorem pdats_1_after9 (c : Dev nD) (t : Fin cfg3.N) : (pdats V X O Rec 1 c).after 9 t = out3 c (V 1 c) t := by
  rw [pdats_1]; exact after3_9 c (V 1 c) _ _ _ _ t

/-- The body obligation of pipeline 1, at every point, at the index the pipeline's own waits sit at. -/
theorem hbody1 (c : Dev nD) : BodyObligationLoose (pdats V X O Rec 1 c) (defs₀ (F := F)) 𝒱₀ (none : HIx 8) Set.univ := by
  rw [pdats_1]
  exact (body_obligation3 c (V 1 c) (ΦS 1 c (X 1 c)) (O 1 c) (Rec 1 c) (fun _ => fullShare) none).loose

/-- The invariant at the first point, from what rides along and the scoped buffers no window stages (there is no
    prefetched table). -/
theorem hin1 (c : Dev nD) :
    iprop(X 1 c ∗ Pipeline.prefHeld (pcfgs (F := F) 1).pre c (fun _ => fullShare) (adm (F := F) 1).1
        ∗ Pipeline.scopedRest (Pipeline.pin (pcfgs (F := F)) adm 1).spec c)
      ⊢ (pdats V X O Rec 1 c).Φ 0 := by
  rw [pdats_1_Φ]; unfold ΦS
  iintro ⟨HR, -, Hs⟩
  isplitl [HR] <;> iassumption

/-- The invariant at the last point gives them back; the body has no semaphore of its own. -/
theorem hout1 (c : Dev nD) :
    (pdats V X O Rec 1 c).Φ (Fin.last (Pipeline.pin (pcfgs (F := F)) adm 1).N)
      ⊢ iprop(X 1 c ∗ Pipeline.ownSems0 (fun k : PEmpty => k.elim) c ∗ Pipeline.scopedRest (Pipeline.pin (pcfgs (F := F)) adm 1).spec c) := by
  rw [pdats_1_Φ, Pipeline.ownSems0_none]; unfold ΦS
  iintro ⟨HR, Hs⟩
  isplitl [HR]; · iexact HR
  isplitr; · iempintro
  iexact Hs

/-! ## Pipeline 2 (call 5) -/

/-- Pipeline 2's data is call 5's, by the family's literal match. -/
theorem pdats_2 (c : Dev nD) : pdats V X O Rec 2 c = dat5 c (V 2 c) (ΦS 2 c (X 2 c)) (O 2 c) (Rec 2 c) (fun _ => fullShare) := rfl

/-- Its arrays at entry are `V 2 c`'s. -/
theorem pdats_2_A (c : Dev nD) (w : Fin (Pipeline.pin (pcfgs (F := F)) adm 2).W) :
    (pdats V X O Rec 2 c).A w = V 2 c (Pipeline.arrRef spec5 w) := rfl

/-- The input arrays are held whole. -/
theorem pdats_2_q (c : Dev nD) (w : Fin (Pipeline.pin (pcfgs (F := F)) adm 2).W) : (pdats V X O Rec 2 c).q w = fullShare := rfl

/-- The debts, the bound on the recorded waits and the invariant are the same at every point. -/
theorem pdats_2_owed (c : Dev nD) (t) : (pdats V X O Rec 2 c).owed t = O 2 c := rfl
theorem pdats_2_recorded (c : Dev nD) (t) : (pdats V X O Rec 2 c).recorded t = Rec 2 c := rfl
theorem pdats_2_Φ (c : Dev nD) (t) : (pdats V X O Rec 2 c).Φ t = ΦS 2 c (X 2 c) := rfl

/-- What the output window's staging buffer holds after the body at point `t`: the stored block computed from the
    entry arrays' blocks at `t`. -/
theorem pdats_2_after9 (c : Dev nD) (t : Fin cfg5.N) : (pdats V X O Rec 2 c).after 9 t = out5 c (V 2 c) t := by
  rw [pdats_2]; exact after5_9 c (V 2 c) _ _ _ _ t

/-- The body obligation of pipeline 2, at every point, at the index the pipeline's own waits sit at. -/
theorem hbody2 (c : Dev nD) : BodyObligationLoose (pdats V X O Rec 2 c) (defs₀ (F := F)) 𝒱₀ (none : HIx 8) Set.univ := by
  rw [pdats_2]
  exact (body_obligation5 c (V 2 c) (ΦS 2 c (X 2 c)) (O 2 c) (Rec 2 c) (fun _ => fullShare) none).loose

/-- The invariant at the first point, from what rides along and the scoped buffers no window stages (there is no
    prefetched table). -/
theorem hin2 (c : Dev nD) :
    iprop(X 2 c ∗ Pipeline.prefHeld (pcfgs (F := F) 2).pre c (fun _ => fullShare) (adm (F := F) 2).1
        ∗ Pipeline.scopedRest (Pipeline.pin (pcfgs (F := F)) adm 2).spec c)
      ⊢ (pdats V X O Rec 2 c).Φ 0 := by
  rw [pdats_2_Φ]; unfold ΦS
  iintro ⟨HR, -, Hs⟩
  isplitl [HR] <;> iassumption

/-- The invariant at the last point gives them back; the body has no semaphore of its own. -/
theorem hout2 (c : Dev nD) :
    (pdats V X O Rec 2 c).Φ (Fin.last (Pipeline.pin (pcfgs (F := F)) adm 2).N)
      ⊢ iprop(X 2 c ∗ Pipeline.ownSems0 (fun k : PEmpty => k.elim) c ∗ Pipeline.scopedRest (Pipeline.pin (pcfgs (F := F)) adm 2).spec c) := by
  rw [pdats_2_Φ, Pipeline.ownSems0_none]; unfold ΦS
  iintro ⟨HR, Hs⟩
  isplitl [HR]; · iexact HR
  isplitr; · iempintro
  iexact Hs

/-! ## Pipeline 3 (call 7) -/

/-- Pipeline 3's data is call 7's, by the family's literal match. -/
theorem pdats_3 (c : Dev nD) : pdats V X O Rec 3 c = dat7 c (V 3 c) (ΦS 3 c (X 3 c)) (O 3 c) (Rec 3 c) (fun _ => fullShare) := rfl

/-- Its arrays at entry are `V 3 c`'s. -/
theorem pdats_3_A (c : Dev nD) (w : Fin (Pipeline.pin (pcfgs (F := F)) adm 3).W) :
    (pdats V X O Rec 3 c).A w = V 3 c (Pipeline.arrRef spec7 w) := rfl

/-- The input arrays are held whole. -/
theorem pdats_3_q (c : Dev nD) (w : Fin (Pipeline.pin (pcfgs (F := F)) adm 3).W) : (pdats V X O Rec 3 c).q w = fullShare := rfl

/-- The debts, the bound on the recorded waits and the invariant are the same at every point. -/
theorem pdats_3_owed (c : Dev nD) (t) : (pdats V X O Rec 3 c).owed t = O 3 c := rfl
theorem pdats_3_recorded (c : Dev nD) (t) : (pdats V X O Rec 3 c).recorded t = Rec 3 c := rfl
theorem pdats_3_Φ (c : Dev nD) (t) : (pdats V X O Rec 3 c).Φ t = ΦS 3 c (X 3 c) := rfl

/-- What the output window's staging buffer holds after the body at point `t`: the stored block computed from the
    entry arrays' blocks at `t`. -/
theorem pdats_3_after9 (c : Dev nD) (t : Fin cfg7.N) : (pdats V X O Rec 3 c).after 9 t = out7 c (V 3 c) t := by
  rw [pdats_3]; exact after7_9 c (V 3 c) _ _ _ _ t

/-- The body obligation of pipeline 3, at every point, at the index the pipeline's own waits sit at. -/
theorem hbody3 (c : Dev nD) : BodyObligationLoose (pdats V X O Rec 3 c) (defs₀ (F := F)) 𝒱₀ (none : HIx 8) Set.univ := by
  rw [pdats_3]
  exact (body_obligation7 c (V 3 c) (ΦS 3 c (X 3 c)) (O 3 c) (Rec 3 c) (fun _ => fullShare) none).loose

/-- The invariant at the first point, from what rides along and the scoped buffers no window stages (there is no
    prefetched table). -/
theorem hin3 (c : Dev nD) :
    iprop(X 3 c ∗ Pipeline.prefHeld (pcfgs (F := F) 3).pre c (fun _ => fullShare) (adm (F := F) 3).1
        ∗ Pipeline.scopedRest (Pipeline.pin (pcfgs (F := F)) adm 3).spec c)
      ⊢ (pdats V X O Rec 3 c).Φ 0 := by
  rw [pdats_3_Φ]; unfold ΦS
  iintro ⟨HR, -, Hs⟩
  isplitl [HR] <;> iassumption

/-- The invariant at the last point gives them back; the body has no semaphore of its own. -/
theorem hout3 (c : Dev nD) :
    (pdats V X O Rec 3 c).Φ (Fin.last (Pipeline.pin (pcfgs (F := F)) adm 3).N)
      ⊢ iprop(X 3 c ∗ Pipeline.ownSems0 (fun k : PEmpty => k.elim) c ∗ Pipeline.scopedRest (Pipeline.pin (pcfgs (F := F)) adm 3).spec c) := by
  rw [pdats_3_Φ, Pipeline.ownSems0_none]; unfold ΦS
  iintro ⟨HR, Hs⟩
  isplitl [HR]; · iexact HR
  isplitr; · iempintro
  iexact Hs

/-! ## Pipeline 4 (call 9) -/

/-- Pipeline 4's data is call 9's, by the family's literal match. -/
theorem pdats_4 (c : Dev nD) : pdats V X O Rec 4 c = dat9 c (V 4 c) (ΦS 4 c (X 4 c)) (O 4 c) (Rec 4 c) (fun _ => fullShare) := rfl

/-- Its arrays at entry are `V 4 c`'s. -/
theorem pdats_4_A (c : Dev nD) (w : Fin (Pipeline.pin (pcfgs (F := F)) adm 4).W) :
    (pdats V X O Rec 4 c).A w = V 4 c (Pipeline.arrRef spec9 w) := rfl

/-- The input arrays are held whole. -/
theorem pdats_4_q (c : Dev nD) (w : Fin (Pipeline.pin (pcfgs (F := F)) adm 4).W) : (pdats V X O Rec 4 c).q w = fullShare := rfl

/-- The debts, the bound on the recorded waits and the invariant are the same at every point. -/
theorem pdats_4_owed (c : Dev nD) (t) : (pdats V X O Rec 4 c).owed t = O 4 c := rfl
theorem pdats_4_recorded (c : Dev nD) (t) : (pdats V X O Rec 4 c).recorded t = Rec 4 c := rfl
theorem pdats_4_Φ (c : Dev nD) (t) : (pdats V X O Rec 4 c).Φ t = ΦS 4 c (X 4 c) := rfl

/-- What the output window's staging buffer holds after the body at point `t`: the stored block computed from the
    entry arrays' blocks at `t`. -/
theorem pdats_4_after9 (c : Dev nD) (t : Fin cfg9.N) : (pdats V X O Rec 4 c).after 9 t = out9 c (V 4 c) t := by
  rw [pdats_4]; exact after9_9 c (V 4 c) _ _ _ _ t

/-- The body obligation of pipeline 4, at every point, at the index the pipeline's own waits sit at. -/
theorem hbody4 (c : Dev nD) : BodyObligationLoose (pdats V X O Rec 4 c) (defs₀ (F := F)) 𝒱₀ (none : HIx 8) Set.univ := by
  rw [pdats_4]
  exact (body_obligation9 c (V 4 c) (ΦS 4 c (X 4 c)) (O 4 c) (Rec 4 c) (fun _ => fullShare) none).loose

/-- The invariant at the first point, from what rides along and the scoped buffers no window stages (there is no
    prefetched table). -/
theorem hin4 (c : Dev nD) :
    iprop(X 4 c ∗ Pipeline.prefHeld (pcfgs (F := F) 4).pre c (fun _ => fullShare) (adm (F := F) 4).1
        ∗ Pipeline.scopedRest (Pipeline.pin (pcfgs (F := F)) adm 4).spec c)
      ⊢ (pdats V X O Rec 4 c).Φ 0 := by
  rw [pdats_4_Φ]; unfold ΦS
  iintro ⟨HR, -, Hs⟩
  isplitl [HR] <;> iassumption

/-- The invariant at the last point gives them back; the body has no semaphore of its own. -/
theorem hout4 (c : Dev nD) :
    (pdats V X O Rec 4 c).Φ (Fin.last (Pipeline.pin (pcfgs (F := F)) adm 4).N)
      ⊢ iprop(X 4 c ∗ Pipeline.ownSems0 (fun k : PEmpty => k.elim) c ∗ Pipeline.scopedRest (Pipeline.pin (pcfgs (F := F)) adm 4).spec c) := by
  rw [pdats_4_Φ, Pipeline.ownSems0_none]; unfold ΦS
  iintro ⟨HR, Hs⟩
  isplitl [HR]; · iexact HR
  isplitr; · iempintro
  iexact Hs

/-! ## Pipeline 5 (call 11) -/

/-- Pipeline 5's data is call 11's, by the family's literal match. -/
theorem pdats_5 (c : Dev nD) : pdats V X O Rec 5 c = dat11 c (V 5 c) (ΦS 5 c (X 5 c)) (O 5 c) (Rec 5 c) (fun _ => fullShare) := rfl

/-- Its arrays at entry are `V 5 c`'s. -/
theorem pdats_5_A (c : Dev nD) (w : Fin (Pipeline.pin (pcfgs (F := F)) adm 5).W) :
    (pdats V X O Rec 5 c).A w = V 5 c (Pipeline.arrRef spec11 w) := rfl

/-- The input arrays are held whole. -/
theorem pdats_5_q (c : Dev nD) (w : Fin (Pipeline.pin (pcfgs (F := F)) adm 5).W) : (pdats V X O Rec 5 c).q w = fullShare := rfl

/-- The debts, the bound on the recorded waits and the invariant are the same at every point. -/
theorem pdats_5_owed (c : Dev nD) (t) : (pdats V X O Rec 5 c).owed t = O 5 c := rfl
theorem pdats_5_recorded (c : Dev nD) (t) : (pdats V X O Rec 5 c).recorded t = Rec 5 c := rfl
theorem pdats_5_Φ (c : Dev nD) (t) : (pdats V X O Rec 5 c).Φ t = ΦS 5 c (X 5 c) := rfl

/-- What the output window's staging buffer holds after the body at point `t`: the stored block computed from the
    entry arrays' blocks at `t`. -/
theorem pdats_5_after9 (c : Dev nD) (t : Fin cfg11.N) : (pdats V X O Rec 5 c).after 9 t = out11 c (V 5 c) t := by
  rw [pdats_5]; exact after11_9 c (V 5 c) _ _ _ _ t

/-- The body obligation of pipeline 5, at every point, at the index the pipeline's own waits sit at. -/
theorem hbody5 (c : Dev nD) : BodyObligationLoose (pdats V X O Rec 5 c) (defs₀ (F := F)) 𝒱₀ (none : HIx 8) Set.univ := by
  rw [pdats_5]
  exact (body_obligation11 c (V 5 c) (ΦS 5 c (X 5 c)) (O 5 c) (Rec 5 c) (fun _ => fullShare) none).loose

/-- The invariant at the first point, from what rides along and the scoped buffers no window stages (there is no
    prefetched table). -/
theorem hin5 (c : Dev nD) :
    iprop(X 5 c ∗ Pipeline.prefHeld (pcfgs (F := F) 5).pre c (fun _ => fullShare) (adm (F := F) 5).1
        ∗ Pipeline.scopedRest (Pipeline.pin (pcfgs (F := F)) adm 5).spec c)
      ⊢ (pdats V X O Rec 5 c).Φ 0 := by
  rw [pdats_5_Φ]; unfold ΦS
  iintro ⟨HR, -, Hs⟩
  isplitl [HR] <;> iassumption

/-- The invariant at the last point gives them back; the body has no semaphore of its own. -/
theorem hout5 (c : Dev nD) :
    (pdats V X O Rec 5 c).Φ (Fin.last (Pipeline.pin (pcfgs (F := F)) adm 5).N)
      ⊢ iprop(X 5 c ∗ Pipeline.ownSems0 (fun k : PEmpty => k.elim) c ∗ Pipeline.scopedRest (Pipeline.pin (pcfgs (F := F)) adm 5).spec c) := by
  rw [pdats_5_Φ, Pipeline.ownSems0_none]; unfold ΦS
  iintro ⟨HR, Hs⟩
  isplitl [HR]; · iexact HR
  isplitr; · iempintro
  iexact Hs

/-! ## Pipeline 6 (call 13) -/

/-- Pipeline 6's data is call 13's, by the family's literal match. -/
theorem pdats_6 (c : Dev nD) : pdats V X O Rec 6 c = dat13 c (V 6 c) (ΦS 6 c (X 6 c)) (O 6 c) (Rec 6 c) (fun _ => fullShare) := rfl

/-- Its arrays at entry are `V 6 c`'s. -/
theorem pdats_6_A (c : Dev nD) (w : Fin (Pipeline.pin (pcfgs (F := F)) adm 6).W) :
    (pdats V X O Rec 6 c).A w = V 6 c (Pipeline.arrRef spec13 w) := rfl

/-- The input arrays are held whole. -/
theorem pdats_6_q (c : Dev nD) (w : Fin (Pipeline.pin (pcfgs (F := F)) adm 6).W) : (pdats V X O Rec 6 c).q w = fullShare := rfl

/-- The debts, the bound on the recorded waits and the invariant are the same at every point. -/
theorem pdats_6_owed (c : Dev nD) (t) : (pdats V X O Rec 6 c).owed t = O 6 c := rfl
theorem pdats_6_recorded (c : Dev nD) (t) : (pdats V X O Rec 6 c).recorded t = Rec 6 c := rfl
theorem pdats_6_Φ (c : Dev nD) (t) : (pdats V X O Rec 6 c).Φ t = ΦS 6 c (X 6 c) := rfl

/-- What the output window's staging buffer holds after the body at point `t`: the stored block computed from the
    entry arrays' blocks at `t`. -/
theorem pdats_6_after9 (c : Dev nD) (t : Fin cfg13.N) : (pdats V X O Rec 6 c).after 9 t = out13 c (V 6 c) t := by
  rw [pdats_6]; exact after13_9 c (V 6 c) _ _ _ _ t

/-- The body obligation of pipeline 6, at every point, at the index the pipeline's own waits sit at. -/
theorem hbody6 (c : Dev nD) : BodyObligationLoose (pdats V X O Rec 6 c) (defs₀ (F := F)) 𝒱₀ (none : HIx 8) Set.univ := by
  rw [pdats_6]
  exact (body_obligation13 c (V 6 c) (ΦS 6 c (X 6 c)) (O 6 c) (Rec 6 c) (fun _ => fullShare) none).loose

/-- The invariant at the first point, from what rides along and the scoped buffers no window stages (there is no
    prefetched table). -/
theorem hin6 (c : Dev nD) :
    iprop(X 6 c ∗ Pipeline.prefHeld (pcfgs (F := F) 6).pre c (fun _ => fullShare) (adm (F := F) 6).1
        ∗ Pipeline.scopedRest (Pipeline.pin (pcfgs (F := F)) adm 6).spec c)
      ⊢ (pdats V X O Rec 6 c).Φ 0 := by
  rw [pdats_6_Φ]; unfold ΦS
  iintro ⟨HR, -, Hs⟩
  isplitl [HR] <;> iassumption

/-- The invariant at the last point gives them back; the body has no semaphore of its own. -/
theorem hout6 (c : Dev nD) :
    (pdats V X O Rec 6 c).Φ (Fin.last (Pipeline.pin (pcfgs (F := F)) adm 6).N)
      ⊢ iprop(X 6 c ∗ Pipeline.ownSems0 (fun k : PEmpty => k.elim) c ∗ Pipeline.scopedRest (Pipeline.pin (pcfgs (F := F)) adm 6).spec c) := by
  rw [pdats_6_Φ, Pipeline.ownSems0_none]; unfold ΦS
  iintro ⟨HR, Hs⟩
  isplitl [HR]; · iexact HR
  isplitr; · iempintro
  iexact Hs

/-! ## Pipeline 7 (call 15) -/

/-- Pipeline 7's data is call 15's, by the family's literal match. -/
theorem pdats_7 (c : Dev nD) : pdats V X O Rec 7 c = dat15 c (V 7 c) (ΦS 7 c (X 7 c)) (O 7 c) (Rec 7 c) (fun _ => fullShare) := rfl

/-- Its arrays at entry are `V 7 c`'s. -/
theorem pdats_7_A (c : Dev nD) (w : Fin (Pipeline.pin (pcfgs (F := F)) adm 7).W) :
    (pdats V X O Rec 7 c).A w = V 7 c (Pipeline.arrRef spec15 w) := rfl

/-- The input arrays are held whole. -/
theorem pdats_7_q (c : Dev nD) (w : Fin (Pipeline.pin (pcfgs (F := F)) adm 7).W) : (pdats V X O Rec 7 c).q w = fullShare := rfl

/-- The debts, the bound on the recorded waits and the invariant are the same at every point. -/
theorem pdats_7_owed (c : Dev nD) (t) : (pdats V X O Rec 7 c).owed t = O 7 c := rfl
theorem pdats_7_recorded (c : Dev nD) (t) : (pdats V X O Rec 7 c).recorded t = Rec 7 c := rfl
theorem pdats_7_Φ (c : Dev nD) (t) : (pdats V X O Rec 7 c).Φ t = ΦS 7 c (X 7 c) := rfl

/-- What the output window's staging buffer holds after the body at point `t`: the stored block computed from the
    entry arrays' blocks at `t`. -/
theorem pdats_7_after9 (c : Dev nD) (t : Fin cfg15.N) : (pdats V X O Rec 7 c).after 9 t = out15 c (V 7 c) t := by
  rw [pdats_7]; exact after15_9 c (V 7 c) _ _ _ _ t

/-- The body obligation of pipeline 7, at every point, at the index the pipeline's own waits sit at. -/
theorem hbody7 (c : Dev nD) : BodyObligationLoose (pdats V X O Rec 7 c) (defs₀ (F := F)) 𝒱₀ (none : HIx 8) Set.univ := by
  rw [pdats_7]
  exact (body_obligation15 c (V 7 c) (ΦS 7 c (X 7 c)) (O 7 c) (Rec 7 c) (fun _ => fullShare) none).loose

/-- The invariant at the first point, from what rides along and the scoped buffers no window stages (there is no
    prefetched table). -/
theorem hin7 (c : Dev nD) :
    iprop(X 7 c ∗ Pipeline.prefHeld (pcfgs (F := F) 7).pre c (fun _ => fullShare) (adm (F := F) 7).1
        ∗ Pipeline.scopedRest (Pipeline.pin (pcfgs (F := F)) adm 7).spec c)
      ⊢ (pdats V X O Rec 7 c).Φ 0 := by
  rw [pdats_7_Φ]; unfold ΦS
  iintro ⟨HR, -, Hs⟩
  isplitl [HR] <;> iassumption

/-- The invariant at the last point gives them back; the body has no semaphore of its own. -/
theorem hout7 (c : Dev nD) :
    (pdats V X O Rec 7 c).Φ (Fin.last (Pipeline.pin (pcfgs (F := F)) adm 7).N)
      ⊢ iprop(X 7 c ∗ Pipeline.ownSems0 (fun k : PEmpty => k.elim) c ∗ Pipeline.scopedRest (Pipeline.pin (pcfgs (F := F)) adm 7).spec c) := by
  rw [pdats_7_Φ, Pipeline.ownSems0_none]; unfold ΦS
  iintro ⟨HR, Hs⟩
  isplitl [HR]; · iexact HR
  isplitr; · iempintro
  iexact Hs

end Pipes

end Cert.Proof.TcW

end
-- ==== Proof.TcRegionW.lean ====
/-
  Pipeline 0 of the point-convolution program as one step of the TensorCore's thread: from the region boundary,
  the core's unscoped buffers at given contents and its debts, the call of the pipeline's entry runs to the
  boundary again, the buffers unchanged but for the result array, which holds what the proof data computes, and
  the debts as they were, the pipeline's own waits recorded beside the earlier ones.
-/
import proofs.«214101_g10505490006249_cont_week2b_118_28_alg».proof.Proof.LaunchW
import proofs.«214101_g10505490006249_cont_week2b_118_28_alg».proof.Proof.TcDataW

set_option maxRecDepth 16384

noncomputable section

namespace Cert.Proof.KW

open Cert.Kernel Cert.Kernel.Gen Cert.Proof.TcW

open Idealize.ShloMosaic Idealize.ShloMosaic.TcCoe
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat unscopedRest owesWithin)

variable {F : FTy → Type} [FloatOps F]

local notation "𝕄" => MT nD τ sig (HIx 8) (Elt F) ℕ UU ℕ

/-! ## The result array -/

/-- What an array holds after the write-backs of the points below `n` depends on the proof data only through the
    array's entry contents and what the body leaves in its window's staging buffer. -/
theorem arrAt_congr {cfg : Pipeline.Cfg sig Λ₀} {c : Dev nD} (d₁ d₂ : Dat τ (Elt F) (HIx 8) ℕ UU ℕ cfg c) (w : Fin cfg.W)
    (hA : d₁.A w = d₂.A w) (ha : ∀ t, d₁.after w t = d₂.after w t) : ∀ n, d₁.arrAt w n = d₂.arrAt w n
  | 0 => hA
  | n + 1 => by
    have ih := arrAt_congr d₁ d₂ w hA ha n
    simp only [Dat.arrAt, Dat.flushed]
    rw [ih]
    split
    · next h => rw [ha]
    · rfl

/-- The result array of call 1 after the pipeline's run, from the contents `V` the call finds in the core's
    buffers: the array as found, every block overwritten by what the body stored at its point. -/
def tcRes0 (c : Dev nD) (V : (b : Ref sig .tc) → Buf (Elt F) ((c : Thread nD τ).loc b)) : Buf (Elt F) ((c : Thread nD τ).loc main_v35) :=
  (dat1 (Ix := HIx 8) (Name := ℕ) (U := UU) (Lvl := ℕ) c V iprop(emp) 0 Set.univ (fun _ => fullShare)).arrAt 9 cfg1.N

/-! ## The region -/

section Region

variable (V : (c : Dev nD) → (b : Ref sig .tc) → Buf (Elt F) ((c : Thread nD τ).loc b))
  (O : Dev nD → CellTallies nD τ sig (HIx 8)) (Rec : Dev nD → Set (SemLoc sig × HIx 8))

/-- Nothing rides in the pipelines' invariants beside the scoped buffers. -/
abbrev Xe : Fin 8 → Dev nD → sProp (MT nD τ sig (HIx 8) (Elt F) ℕ UU ℕ) := fun _ _ => iprop(emp)

/-- The proof data family pipeline 0 is entered at: the buffers at `V`, the debts `O`, the recorded waits within `Rec`. -/
abbrev pd0 : (p : Fin 8) → (c : Dev nD) → Dat τ (Elt F) (HIx 8) ℕ UU ℕ (Pipeline.pin (pcfgs (F := F)) adm p) c :=
  pdats (F := F) (fun _ => V) Xe (fun _ => O) (fun _ => Rec)

/-- The core's buffers after the call: the result array at what the run computes, every other as found. -/
def Vafter (c : Dev nD) : (b : Ref sig .tc) → Buf (Elt F) ((c : Thread nD τ).loc b) :=
  Function.update (V c) main_v35 (tcRes0 c (V c))

/-- The same, under the name the other calls' modules follow. -/
abbrev Vafter0 (c : Dev nD) : (b : Ref sig .tc) → Buf (Elt F) ((c : Thread nD τ).loc b) := Vafter V c

/-- The result array is the pipeline's last window. -/
theorem nine_lt : (9 : ℕ) < (Pipeline.pin (pcfgs (F := F)) adm 0).W := Nat.lt_succ_self 9

/-- The result array after the run is `tcRes0` of the entry contents: the other parameters do not enter. -/
theorem arrAt_final9 (c : Dev nD) :
    (pd0 V O Rec 0 c).arrAt 9 (Pipeline.pin (pcfgs (F := F)) adm 0).N = tcRes0 c (V c) := by
  unfold tcRes0
  exact arrAt_congr (pd0 V O Rec 0 c)
    (dat1 (Ix := HIx 8) (Name := ℕ) (U := UU) (Lvl := ℕ) c (V c) iprop(emp) 0 Set.univ (fun _ => fullShare) : Dat τ (Elt F) (HIx 8) ℕ UU ℕ (Pipeline.pin (pcfgs (F := F)) adm 0) c) 9
    ((pdats_0_A (F := F) (fun _ => V) Xe (fun _ => O) (fun _ => Rec) c 9).trans (A1_eq c (V c) iprop(emp) 0 Set.univ (fun _ => fullShare) 9).symm)
    (fun t => (pdats_0_after9 (F := F) (fun _ => V) Xe (fun _ => O) (fun _ => Rec) c t).trans (after1_9 c (V c) iprop(emp) 0 Set.univ (fun _ => fullShare) t).symm) _

/-- Every window's array after the run, read off the buffers after the call: the inputs' are never written, the
    result's is `tcRes0`. -/
theorem arrAt_final (c : Dev nD) (w : Fin (Pipeline.pin (pcfgs (F := F)) adm 0).W) :
    (pd0 V O Rec 0 c).arrAt w (Pipeline.pin (pcfgs (F := F)) adm 0).N = Vafter V c (Pipeline.arrRef (Pipeline.pin (pcfgs (F := F)) adm 0).spec w) := by
  have hi : Function.Injective (Pipeline.arrRef (Pipeline.pin (pcfgs (F := F)) adm 0).spec) := launch1.win.arr_inj
  have hio : ∀ w : Fin 10, w.val ≠ 9 → (win1 w).isOut = false := by decide
  unfold Vafter
  by_cases hw : w.val = 9
  · have h9 : w = (9 : Fin (Pipeline.pin (pcfgs (F := F)) adm 0).W) := Fin.ext (hw.trans (show (9 : ℕ) = (9 : Fin (Pipeline.pin (pcfgs (F := F)) adm 0).W).val from rfl))
    subst h9
    exact (arrAt_final9 V O Rec c).trans (Function.update_self main_v35 (tcRes0 c (V c)) (V c)).symm
  · have hne : Pipeline.arrRef (Pipeline.pin (pcfgs (F := F)) adm 0).spec w ≠ main_v35 := fun e =>
      hw (congrArg Fin.val (hi (show Pipeline.arrRef (Pipeline.pin (pcfgs (F := F)) adm 0).spec w = Pipeline.arrRef (Pipeline.pin (pcfgs (F := F)) adm 0).spec ⟨9, nine_lt⟩ from e)))
    exact ((pd0 V O Rec 0 c).arrAt_in w (hio w hw) _).trans (Function.update_of_ne hne _ _).symm

/-- The rest of the unscoped buffers, which no window stages, does not see the result array. -/
theorem unscopedRest_after (c : Dev nD) :
    (unscopedRest (Ix := HIx 8) (Name := ℕ) (U := UU) (Lvl := ℕ) (Pipeline.pin (pcfgs (F := F)) adm 0).spec c (V c) : sProp (MT nD τ sig (HIx 8) (Elt F) ℕ UU ℕ))
      = unscopedRest (Pipeline.pin (pcfgs (F := F)) adm 0).spec c (Vafter V c) := by
  unfold Pipeline.unscopedRest Vafter
  refine bigSep_congr fun b hb => ?_
  rw [Function.update_of_ne]
  intro e
  exact (Finset.mem_sdiff.mp hb).2 (Finset.mem_image.mpr ⟨⟨9, nine_lt⟩, Finset.mem_univ _, (show Pipeline.arrRef (Pipeline.pin (pcfgs (F := F)) adm 0).spec ⟨9, nine_lt⟩ = b from e.symm)⟩)

/-- What the region is entered from: the core's unscoped buffers at `V`, its debts with the recorded waits within `Rec`; -/
def pre0 (c : Dev nD) : sProp (MT nD τ sig (HIx 8) (Elt F) ℕ UU ℕ) := iprop(unscopedBufs c (V c) ∗ owesWithin c (O c) (Rec c))
/-- and what it leaves: the buffers after the call, the same debts, the pipeline's own waits recorded too. -/
def post0 (c : Dev nD) : sProp (MT nD τ sig (HIx 8) (Elt F) ℕ UU ℕ) :=
  iprop(unscopedBufs c (Vafter V c) ∗ owesWithin c (O c) (Rec c ∪ (Pipeline.pin (pcfgs (F := F)) adm 0).waitPairs none))

/-- PIPELINE 0 AS A REGION of the TensorCore's thread. Nothing but the scoped rest rides in the invariant; the
    arrays no window stages bypass the region; the body has no semaphore of its own; the pipeline's waits sit at
    index `none`, below everything the core owes. -/
def reg0 (hO : ∀ c g, O c g none = 0) :
    Pipeline.RegionSeg (pcfgs (F := F)) adm (pd0 V O Rec) (none : HIx 8) (defs₀ (F := F)) 𝒱₀ (K (F := F)).L (K (F := F)).lev 0 where
  win := launch1.win.to₀
  block_pos := launch1.block_pos
  stage_whole := launch1.stage_whole
  K := PEmpty
  osem k := k.elim
  ho := Pipeline.OwnSemFacts.none _
  hbody c := hbody0 (F := F) (fun _ => V) Xe (fun _ => O) (fun _ => Rec) c
  hwaits c := Pipeline.cellsWaits_intro (Pipeline.pin (pcfgs (F := F)) adm) (pd0 V O Rec) none 0 c
    fun w s t => (K (F := F)).mayWait_none _ (hO c)
  pre := pre0 V O Rec
  post := post0 V O Rec
  X c := iprop(emp)
  Y c := iprop(emp)
  Z c := unscopedRest (Pipeline.pin (pcfgs (F := F)) adm 0).spec c (V c)
  hentry c := by
    have hsplit := Pipeline.arrays_of_unscopedBufs (pcfgs (F := F)) adm (pd0 V O Rec) (p := 0) launch1.win launch1.arr_whole c
      ((pd0 V O Rec 0 c).share_full fun _ => rfl) (V c) fun _ => rfl
    unfold pre0
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW hp)
      iexact HO
    isplitr; · iempintro
    iexact Hr
  hin c := hin0 (F := F) (fun _ => V) Xe (fun _ => O) (fun _ => Rec) c
  hout c := hout0 (F := F) (fun _ => V) Xe (fun _ => O) (fun _ => Rec) c
  hexit c := by
    unfold post0
    rw [Pipeline.unscopedBufs_split (Pipeline.pin (pcfgs (F := F)) adm) 0 launch1.win.arr_unscoped launch1.win.arr_inj c (Vafter V c),
      Pipeline.arrays_eq (Pipeline.pin (pcfgs (F := F)) adm) (pd0 V O Rec) 0 c launch1.arr_whole ((pd0 V O Rec 0 c).share_full fun _ => rfl),
      ← unscopedRest_after V c]
    simp only [arrAt_final V O Rec c]
    iintro ⟨Ha, HO, -, HZ⟩
    imodintro
    isplitr [HO]
    · isplitl [Ha]
      · iexact Ha
      · iexact HZ
    · iexact HO

theorem reg0_pre (hO : ∀ c g, O c g none = 0) : (reg0 V O Rec hO).pre = pre0 V O Rec := rfl
theorem reg0_post (hO : ∀ c g, O c g none = 0) : (reg0 V O Rec hO).post = post0 V O Rec := rfl

/-- THE STEP: the call of pipeline 0's entry in the TensorCore's thread of the whole program. From the level
    facts, the region boundary, the unscoped buffers at `V d`, the core's debts `O d` (none at index `none`) with
    its recorded waits within `Rec d`, and the pipeline's launch ghost state and duty tokens, the call runs to the
    continuation holding the boundary, the buffers at `Vafter V d` and the same debts, every recorded wait within
    `Rec d` or at index `none`. -/
theorem region_step0 [∀ e, Nonempty (Elt F e)] (hO : ∀ c g, O c g none = 0) (d : Dev nD) {α : Type}
    (k : PUnit → Prog (TpuEff nD τ sig (Elt F) (SparseCore.Sig (ΛP (F := F)) 8) .tc) α) (Q : α → sProp (MT nD τ sig (HIx 8) (Elt F) ℕ UU ℕ)) :
    iprop(levAts (K (F := F)).L (K (F := F)).lev ∗ boundary (T d) ∗ unscopedBufs d (V d)
        ∗ (∃ W, ⌜∀ p ∈ W, p ∈ Rec d⌝ ∗ owes (T d) (O d) W)
        ∗ Pipeline.cellsGhost cfgs (EP (F := F)) 0 d ∗ Pipeline.toksInit cfgs (EP (F := F)) 0 d
        ∗ (iprop(boundary (T d) ∗ unscopedBufs d (Vafter V d) ∗ (∃ W, ⌜∀ p ∈ W, p ∈ Rec d ∨ p.2 = none⌝ ∗ owes (T d) (O d) W))
            -∗ wp frame (wpE ((K (F := F)).defs (D (F := F))) 𝒱 (T d) none) Set.univ (k ⟨⟩) Q))
      ⊢ wp frame (wpE ((K (F := F)).defs (D (F := F))) 𝒱 (T d) none) Set.univ
          (Prog.lift (.customCall (SparseCore.inner (Pipeline.entry 0)) ()) >>= k) Q := by
  rw [wp_bind]
  refine .trans ?_ ((K (F := F)).wp_liftProg (D (F := F)) 𝒱 (T d) Set.univ none (Prog.lift (.customCall (Pipeline.entry 0) ()))
    (fun x => wp frame (wpE ((K (F := F)).defs (D (F := F))) 𝒱 (T d) none) Set.univ (k x) Q))
  refine .trans ?_ (Pipeline.RegionSeg.wp (pcfgs (F := F)) adm (pd0 V O Rec) (none : HIx 8) cellOf_inj (EP (F := F)) (defs₀ (F := F)) 𝒱₀
    (K (F := F)).L (K (F := F)).lev (reg0 V O Rec hO) d none (fun _ h => nomatch h) (fun x => .ret x)
    (fun x => wp frame (wpE ((K (F := F)).defs (D (F := F))) 𝒱 (T d) none) Set.univ (k x) Q))
  rw [reg0_pre, reg0_post]; unfold pre0 post0 Pipeline.owesWithin
  iintro ⟨Hlev, Hb, Hub, ⟨%W, %hW, HO⟩, Hg, Ht, Hk⟩
  isplitl [Hk]
  · iintro ⟨Hb, Hub, ⟨%W', %hW', HO⟩⟩
    iapply (le_wp_ret _ _ _ _ _)
    iapply Hk
    isplitl [Hb]; · iexact Hb
    isplitl [Hub]; · iexact Hub
    iexists W'; isplitr
    · ipureintro
      intro p hp
      rcases hW' hp with h | ⟨w, s, rfl⟩
      · exact Or.inl h
      · exact Or.inr rfl
    iexact HO
  isplitl [Hb]; · iexact Hb
  isplitl [Hub HO]
  · isplitl [Hub]; · iexact Hub
    iexists W; isplitr; · ipureintro; exact fun p hp => hW p hp
    iexact HO
  isplitl [Hlev]; · iexact Hlev
  isplitl [Hg]; · iexact Hg
  iexact Ht

end Region

end Cert.Proof.KW

end
-- ==== Proof.Region0W.lean ====
/-
  TensorCore call 0's region step, in the form @main's pair step takes it.
-/
import proofs.«214101_g10505490006249_cont_week2b_118_28_alg».proof.Proof.PairDefsW
import proofs.«214101_g10505490006249_cont_week2b_118_28_alg».proof.Proof.TcRegionW

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Transfers (shareTok shareDrop pointsTo_toks_split pointsTo_toks_join)

variable {F : FTy → Type}

local notation "𝕄" => MT nD τ sig (HIx 8) (Elt F) ℕ UU ℕ

variable [FloatOps F]

theorem hreg0 [∀ e, Nonempty (Elt F e)] : RegionStep (F := F) 0 main_v35 (tcRes0 (F := F)) := by
  intro V O Rec hO d α k Q
  have h := region_step0 (F := F) V O Rec hO d k Q
  unfold Vafter at h
  exact h

end Cert.Proof.KW

end
-- ==== Proof.TcRegion1W.lean ====
/-
  Pipeline 1 (call 3) of the point-convolution program as one step of the TensorCore's thread, exactly as
  pipeline 0: from the region boundary, the core's unscoped buffers at given contents and its debts, the call of
  the pipeline's entry runs to the boundary again, the buffers unchanged but for that call's result array, which
  holds what the proof data computes, and the debts as they were.
-/
import proofs.«214101_g10505490006249_cont_week2b_118_28_alg».proof.Proof.TcRegionW

set_option maxRecDepth 16384

noncomputable section

namespace Cert.Proof.KW

open Cert.Kernel Cert.Kernel.Gen Cert.Proof.TcW

open Idealize.ShloMosaic Idealize.ShloMosaic.TcCoe
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat unscopedRest owesWithin)

variable {F : FTy → Type} [FloatOps F]

/-! ## Pipeline 1 (call 3) -/

section Region1

variable (V : (c : Dev nD) → (b : Ref sig .tc) → Buf (Elt F) ((c : Thread nD τ).loc b))
  (O : Dev nD → CellTallies nD τ sig (HIx 8)) (Rec : Dev nD → Set (SemLoc sig × HIx 8))

/-- The result array of call 3 after the pipeline's run, from the contents `V` the call finds in the core's
    buffers: the array as found, every block overwritten by what the body stored at its point. -/
def tcRes1 (c : Dev nD) (V : (b : Ref sig .tc) → Buf (Elt F) ((c : Thread nD τ).loc b)) : Buf (Elt F) ((c : Thread nD τ).loc main_v37) :=
  (dat3 (Ix := HIx 8) (Name := ℕ) (U := UU) (Lvl := ℕ) c V iprop(emp) 0 Set.univ (fun _ => fullShare)).arrAt 9 cfg3.N

/-- The core's buffers after the call: the result array at what the run computes, every other as found. -/
def Vafter1 (c : Dev nD) : (b : Ref sig .tc) → Buf (Elt F) ((c : Thread nD τ).loc b) :=
  Function.update (V c) main_v37 (tcRes1 c (V c))

/-- The result array is the pipeline's last window. -/
theorem nine_lt1 : (9 : ℕ) < (Pipeline.pin (pcfgs (F := F)) adm 1).W := Nat.lt_succ_self 9

/-- The result array after the run is `tcRes1` of the entry contents: the other parameters do not enter. -/
theorem arrAt_final9_1 (c : Dev nD) :
    (pd0 V O Rec 1 c).arrAt 9 (Pipeline.pin (pcfgs (F := F)) adm 1).N = tcRes1 c (V c) := by
  unfold tcRes1
  exact arrAt_congr (pd0 V O Rec 1 c)
    (dat3 (Ix := HIx 8) (Name := ℕ) (U := UU) (Lvl := ℕ) c (V c) iprop(emp) 0 Set.univ (fun _ => fullShare) : Dat τ (Elt F) (HIx 8) ℕ UU ℕ (Pipeline.pin (pcfgs (F := F)) adm 1) c) 9
    ((pdats_1_A (F := F) (fun _ => V) Xe (fun _ => O) (fun _ => Rec) c 9).trans (A3_eq c (V c) iprop(emp) 0 Set.univ (fun _ => fullShare) 9).symm)
    (fun t => (pdats_1_after9 (F := F) (fun _ => V) Xe (fun _ => O) (fun _ => Rec) c t).trans (after3_9 c (V c) iprop(emp) 0 Set.univ (fun _ => fullShare) t).symm) _

/-- Every window's array after the run, read off the buffers after the call: the inputs' are never written, the
    result's is `tcRes1`. -/
theorem arrAt_final_1 (c : Dev nD) (w : Fin (Pipeline.pin (pcfgs (F := F)) adm 1).W) :
    (pd0 V O Rec 1 c).arrAt w (Pipeline.pin (pcfgs (F := F)) adm 1).N = Vafter1 V c (Pipeline.arrRef (Pipeline.pin (pcfgs (F := F)) adm 1).spec w) := by
  have hi : Function.Injective (Pipeline.arrRef (Pipeline.pin (pcfgs (F := F)) adm 1).spec) := launch3.win.arr_inj
  have hio : ∀ w : Fin 10, w.val ≠ 9 → (win3 w).isOut = false := by decide
  unfold Vafter1
  by_cases hw : w.val = 9
  · have h9 : w = (9 : Fin (Pipeline.pin (pcfgs (F := F)) adm 1).W) := Fin.ext (hw.trans (show (9 : ℕ) = (9 : Fin (Pipeline.pin (pcfgs (F := F)) adm 1).W).val from rfl))
    subst h9
    exact (arrAt_final9_1 V O Rec c).trans (Function.update_self main_v37 (tcRes1 c (V c)) (V c)).symm
  · have hne : Pipeline.arrRef (Pipeline.pin (pcfgs (F := F)) adm 1).spec w ≠ main_v37 := fun e =>
      hw (congrArg Fin.val (hi (show Pipeline.arrRef (Pipeline.pin (pcfgs (F := F)) adm 1).spec w = Pipeline.arrRef (Pipeline.pin (pcfgs (F := F)) adm 1).spec ⟨9, nine_lt1⟩ from e)))
    exact ((pd0 V O Rec 1 c).arrAt_in w (hio w hw) _).trans (Function.update_of_ne hne _ _).symm

/-- The rest of the unscoped buffers, which no window stages, does not see the result array. -/
theorem unscopedRest_after1 (c : Dev nD) :
    (unscopedRest (Ix := HIx 8) (Name := ℕ) (U := UU) (Lvl := ℕ) (Pipeline.pin (pcfgs (F := F)) adm 1).spec c (V c) : sProp (MT nD τ sig (HIx 8) (Elt F) ℕ UU ℕ))
      = unscopedRest (Pipeline.pin (pcfgs (F := F)) adm 1).spec c (Vafter1 V c) := by
  unfold Pipeline.unscopedRest Vafter1
  refine bigSep_congr fun b hb => ?_
  rw [Function.update_of_ne]
  intro e
  exact (Finset.mem_sdiff.mp hb).2 (Finset.mem_image.mpr ⟨⟨9, nine_lt1⟩, Finset.mem_univ _, (show Pipeline.arrRef (Pipeline.pin (pcfgs (F := F)) adm 1).spec ⟨9, nine_lt1⟩ = b from e.symm)⟩)

/-- What the region is entered from: the core's unscoped buffers at `V`, its debts with the recorded waits within `Rec`; -/
def pre1 (c : Dev nD) : sProp (MT nD τ sig (HIx 8) (Elt F) ℕ UU ℕ) := iprop(unscopedBufs c (V c) ∗ owesWithin c (O c) (Rec c))
/-- and what it leaves: the buffers after the call, the same debts, the pipeline's own waits recorded too. -/
def post1 (c : Dev nD) : sProp (MT nD τ sig (HIx 8) (Elt F) ℕ UU ℕ) :=
  iprop(unscopedBufs c (Vafter1 V c) ∗ owesWithin c (O c) (Rec c ∪ (Pipeline.pin (pcfgs (F := F)) adm 1).waitPairs none))

/-- PIPELINE 1 AS A REGION of the TensorCore's thread. Nothing but the scoped rest rides in the invariant; the
    arrays no window stages bypass the region; the body has no semaphore of its own; the pipeline's waits sit at
    index `none`, below everything the core owes. -/
def reg1 (hO : ∀ c g, O c g none = 0) :
    Pipeline.RegionSeg (pcfgs (F := F)) adm (pd0 V O Rec) (none : HIx 8) (defs₀ (F := F)) 𝒱₀ (K (F := F)).L (K (F := F)).lev 1 where
  win := launch3.win.to₀
  block_pos := launch3.block_pos
  stage_whole := launch3.stage_whole
  K := PEmpty
  osem k := k.elim
  ho := Pipeline.OwnSemFacts.none _
  hbody c := hbody1 (F := F) (fun _ => V) Xe (fun _ => O) (fun _ => Rec) c
  hwaits c := Pipeline.cellsWaits_intro (Pipeline.pin (pcfgs (F := F)) adm) (pd0 V O Rec) none 1 c
    fun w s t => (K (F := F)).mayWait_none _ (hO c)
  pre := pre1 V O Rec
  post := post1 V O Rec
  X c := iprop(emp)
  Y c := iprop(emp)
  Z c := unscopedRest (Pipeline.pin (pcfgs (F := F)) adm 1).spec c (V c)
  hentry c := by
    have hsplit := Pipeline.arrays_of_unscopedBufs (pcfgs (F := F)) adm (pd0 V O Rec) (p := 1) launch3.win launch3.arr_whole c
      ((pd0 V O Rec 1 c).share_full fun _ => rfl) (V c) fun _ => rfl
    unfold pre1
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW hp)
      iexact HO
    isplitr; · iempintro
    iexact Hr
  hin c := hin1 (F := F) (fun _ => V) Xe (fun _ => O) (fun _ => Rec) c
  hout c := hout1 (F := F) (fun _ => V) Xe (fun _ => O) (fun _ => Rec) c
  hexit c := by
    unfold post1
    rw [Pipeline.unscopedBufs_split (Pipeline.pin (pcfgs (F := F)) adm) 1 launch3.win.arr_unscoped launch3.win.arr_inj c (Vafter1 V c),
      Pipeline.arrays_eq (Pipeline.pin (pcfgs (F := F)) adm) (pd0 V O Rec) 1 c launch3.arr_whole ((pd0 V O Rec 1 c).share_full fun _ => rfl),
      ← unscopedRest_after1 V c]
    simp only [arrAt_final_1 V O Rec c]
    iintro ⟨Ha, HO, -, HZ⟩
    imodintro
    isplitr [HO]
    · isplitl [Ha]
      · iexact Ha
      · iexact HZ
    · iexact HO

theorem reg1_pre (hO : ∀ c g, O c g none = 0) : (reg1 V O Rec hO).pre = pre1 V O Rec := rfl
theorem reg1_post (hO : ∀ c g, O c g none = 0) : (reg1 V O Rec hO).post = post1 V O Rec := rfl

/-- THE STEP for pipeline 1: from the level facts, the region boundary, the unscoped buffers at `V d`, the core's
    debts `O d` (none at index `none`) with its recorded waits within `Rec d`, and the pipeline's launch ghost state
    and duty tokens, the call of its entry runs to the continuation holding the boundary, the buffers at
    `Vafter1 V d` and the same debts, every recorded wait within `Rec d` or at index `none`. -/
theorem region_step1 [∀ e, Nonempty (Elt F e)] (hO : ∀ c g, O c g none = 0) (d : Dev nD) {α : Type}
    (k : PUnit → Prog (TpuEff nD τ sig (Elt F) (SparseCore.Sig (ΛP (F := F)) 8) .tc) α) (Q : α → sProp (MT nD τ sig (HIx 8) (Elt F) ℕ UU ℕ)) :
    iprop(levAts (K (F := F)).L (K (F := F)).lev ∗ boundary (T d) ∗ unscopedBufs d (V d)
        ∗ (∃ W, ⌜∀ p ∈ W, p ∈ Rec d⌝ ∗ owes (T d) (O d) W)
        ∗ Pipeline.cellsGhost cfgs (EP (F := F)) 1 d ∗ Pipeline.toksInit cfgs (EP (F := F)) 1 d
        ∗ (iprop(boundary (T d) ∗ unscopedBufs d (Vafter1 V d) ∗ (∃ W, ⌜∀ p ∈ W, p ∈ Rec d ∨ p.2 = none⌝ ∗ owes (T d) (O d) W))
            -∗ wp frame (wpE ((K (F := F)).defs (D (F := F))) 𝒱 (T d) none) Set.univ (k ⟨⟩) Q))
      ⊢ wp frame (wpE ((K (F := F)).defs (D (F := F))) 𝒱 (T d) none) Set.univ
          (Prog.lift (.customCall (SparseCore.inner (Pipeline.entry 1)) ()) >>= k) Q := by
  rw [wp_bind]
  refine .trans ?_ ((K (F := F)).wp_liftProg (D (F := F)) 𝒱 (T d) Set.univ none (Prog.lift (.customCall (Pipeline.entry 1) ()))
    (fun x => wp frame (wpE ((K (F := F)).defs (D (F := F))) 𝒱 (T d) none) Set.univ (k x) Q))
  refine .trans ?_ (Pipeline.RegionSeg.wp (pcfgs (F := F)) adm (pd0 V O Rec) (none : HIx 8) cellOf_inj (EP (F := F)) (defs₀ (F := F)) 𝒱₀
    (K (F := F)).L (K (F := F)).lev (reg1 V O Rec hO) d none (fun _ h => nomatch h) (fun x => .ret x)
    (fun x => wp frame (wpE ((K (F := F)).defs (D (F := F))) 𝒱 (T d) none) Set.univ (k x) Q))
  rw [reg1_pre, reg1_post]; unfold pre1 post1 Pipeline.owesWithin
  iintro ⟨Hlev, Hb, Hub, ⟨%W, %hW, HO⟩, Hg, Ht, Hk⟩
  isplitl [Hk]
  · iintro ⟨Hb, Hub, ⟨%W', %hW', HO⟩⟩
    iapply (le_wp_ret _ _ _ _ _)
    iapply Hk
    isplitl [Hb]; · iexact Hb
    isplitl [Hub]; · iexact Hub
    iexists W'; isplitr
    · ipureintro
      intro p hp
      rcases hW' hp with h | ⟨w, s, rfl⟩
      · exact Or.inl h
      · exact Or.inr rfl
    iexact HO
  isplitl [Hb]; · iexact Hb
  isplitl [Hub HO]
  · isplitl [Hub]; · iexact Hub
    iexists W; isplitr; · ipureintro; exact fun p hp => hW p hp
    iexact HO
  isplitl [Hlev]; · iexact Hlev
  isplitl [Hg]; · iexact Hg
  iexact Ht

end Region1

end Cert.Proof.KW

end
-- ==== Proof.Region1W.lean ====
/-
  TensorCore call 1's region step, in the form @main's pair step takes it.
-/
import proofs.«214101_g10505490006249_cont_week2b_118_28_alg».proof.Proof.PairDefsW
import proofs.«214101_g10505490006249_cont_week2b_118_28_alg».proof.Proof.TcRegion1W

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Transfers (shareTok shareDrop pointsTo_toks_split pointsTo_toks_join)

variable {F : FTy → Type}

local notation "𝕄" => MT nD τ sig (HIx 8) (Elt F) ℕ UU ℕ

variable [FloatOps F]

theorem hreg1 [∀ e, Nonempty (Elt F e)] : RegionStep (F := F) 1 main_v37 (tcRes1 (F := F)) := by
  intro V O Rec hO d α k Q
  have h := region_step1 (F := F) V O Rec hO d k Q
  unfold Vafter1 at h
  exact h

end Cert.Proof.KW

end
-- ==== Proof.TcRegion2W.lean ====
/-
  Pipeline 2 (call 5) of the point-convolution program as one step of the TensorCore's thread, exactly as
  pipeline 0: from the region boundary, the core's unscoped buffers at given contents and its debts, the call of
  the pipeline's entry runs to the boundary again, the buffers unchanged but for that call's result array, which
  holds what the proof data computes, and the debts as they were.
-/
import proofs.«214101_g10505490006249_cont_week2b_118_28_alg».proof.Proof.TcRegionW

set_option maxRecDepth 16384

noncomputable section

namespace Cert.Proof.KW

open Cert.Kernel Cert.Kernel.Gen Cert.Proof.TcW

open Idealize.ShloMosaic Idealize.ShloMosaic.TcCoe
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat unscopedRest owesWithin)

variable {F : FTy → Type} [FloatOps F]

/-! ## Pipeline 2 (call 5) -/

section Region2

variable (V : (c : Dev nD) → (b : Ref sig .tc) → Buf (Elt F) ((c : Thread nD τ).loc b))
  (O : Dev nD → CellTallies nD τ sig (HIx 8)) (Rec : Dev nD → Set (SemLoc sig × HIx 8))

/-- The result array of call 5 after the pipeline's run, from the contents `V` the call finds in the core's
    buffers: the array as found, every block overwritten by what the body stored at its point. -/
def tcRes2 (c : Dev nD) (V : (b : Ref sig .tc) → Buf (Elt F) ((c : Thread nD τ).loc b)) : Buf (Elt F) ((c : Thread nD τ).loc main_v39) :=
  (dat5 (Ix := HIx 8) (Name := ℕ) (U := UU) (Lvl := ℕ) c V iprop(emp) 0 Set.univ (fun _ => fullShare)).arrAt 9 cfg5.N

/-- The core's buffers after the call: the result array at what the run computes, every other as found. -/
def Vafter2 (c : Dev nD) : (b : Ref sig .tc) → Buf (Elt F) ((c : Thread nD τ).loc b) :=
  Function.update (V c) main_v39 (tcRes2 c (V c))

/-- The result array is the pipeline's last window. -/
theorem nine_lt2 : (9 : ℕ) < (Pipeline.pin (pcfgs (F := F)) adm 2).W := Nat.lt_succ_self 9

/-- The result array after the run is `tcRes2` of the entry contents: the other parameters do not enter. -/
theorem arrAt_final9_2 (c : Dev nD) :
    (pd0 V O Rec 2 c).arrAt 9 (Pipeline.pin (pcfgs (F := F)) adm 2).N = tcRes2 c (V c) := by
  unfold tcRes2
  exact arrAt_congr (pd0 V O Rec 2 c)
    (dat5 (Ix := HIx 8) (Name := ℕ) (U := UU) (Lvl := ℕ) c (V c) iprop(emp) 0 Set.univ (fun _ => fullShare) : Dat τ (Elt F) (HIx 8) ℕ UU ℕ (Pipeline.pin (pcfgs (F := F)) adm 2) c) 9
    ((pdats_2_A (F := F) (fun _ => V) Xe (fun _ => O) (fun _ => Rec) c 9).trans (A5_eq c (V c) iprop(emp) 0 Set.univ (fun _ => fullShare) 9).symm)
    (fun t => (pdats_2_after9 (F := F) (fun _ => V) Xe (fun _ => O) (fun _ => Rec) c t).trans (after5_9 c (V c) iprop(emp) 0 Set.univ (fun _ => fullShare) t).symm) _

/-- Every window's array after the run, read off the buffers after the call: the inputs' are never written, the
    result's is `tcRes2`. -/
theorem arrAt_final_2 (c : Dev nD) (w : Fin (Pipeline.pin (pcfgs (F := F)) adm 2).W) :
    (pd0 V O Rec 2 c).arrAt w (Pipeline.pin (pcfgs (F := F)) adm 2).N = Vafter2 V c (Pipeline.arrRef (Pipeline.pin (pcfgs (F := F)) adm 2).spec w) := by
  have hi : Function.Injective (Pipeline.arrRef (Pipeline.pin (pcfgs (F := F)) adm 2).spec) := launch5.win.arr_inj
  have hio : ∀ w : Fin 10, w.val ≠ 9 → (win5 w).isOut = false := by decide
  unfold Vafter2
  by_cases hw : w.val = 9
  · have h9 : w = (9 : Fin (Pipeline.pin (pcfgs (F := F)) adm 2).W) := Fin.ext (hw.trans (show (9 : ℕ) = (9 : Fin (Pipeline.pin (pcfgs (F := F)) adm 2).W).val from rfl))
    subst h9
    exact (arrAt_final9_2 V O Rec c).trans (Function.update_self main_v39 (tcRes2 c (V c)) (V c)).symm
  · have hne : Pipeline.arrRef (Pipeline.pin (pcfgs (F := F)) adm 2).spec w ≠ main_v39 := fun e =>
      hw (congrArg Fin.val (hi (show Pipeline.arrRef (Pipeline.pin (pcfgs (F := F)) adm 2).spec w = Pipeline.arrRef (Pipeline.pin (pcfgs (F := F)) adm 2).spec ⟨9, nine_lt2⟩ from e)))
    exact ((pd0 V O Rec 2 c).arrAt_in w (hio w hw) _).trans (Function.update_of_ne hne _ _).symm

/-- The rest of the unscoped buffers, which no window stages, does not see the result array. -/
theorem unscopedRest_after2 (c : Dev nD) :
    (unscopedRest (Ix := HIx 8) (Name := ℕ) (U := UU) (Lvl := ℕ) (Pipeline.pin (pcfgs (F := F)) adm 2).spec c (V c) : sProp (MT nD τ sig (HIx 8) (Elt F) ℕ UU ℕ))
      = unscopedRest (Pipeline.pin (pcfgs (F := F)) adm 2).spec c (Vafter2 V c) := by
  unfold Pipeline.unscopedRest Vafter2
  refine bigSep_congr fun b hb => ?_
  rw [Function.update_of_ne]
  intro e
  exact (Finset.mem_sdiff.mp hb).2 (Finset.mem_image.mpr ⟨⟨9, nine_lt2⟩, Finset.mem_univ _, (show Pipeline.arrRef (Pipeline.pin (pcfgs (F := F)) adm 2).spec ⟨9, nine_lt2⟩ = b from e.symm)⟩)

/-- What the region is entered from: the core's unscoped buffers at `V`, its debts with the recorded waits within `Rec`; -/
def pre2 (c : Dev nD) : sProp (MT nD τ sig (HIx 8) (Elt F) ℕ UU ℕ) := iprop(unscopedBufs c (V c) ∗ owesWithin c (O c) (Rec c))
/-- and what it leaves: the buffers after the call, the same debts, the pipeline's own waits recorded too. -/
def post2 (c : Dev nD) : sProp (MT nD τ sig (HIx 8) (Elt F) ℕ UU ℕ) :=
  iprop(unscopedBufs c (Vafter2 V c) ∗ owesWithin c (O c) (Rec c ∪ (Pipeline.pin (pcfgs (F := F)) adm 2).waitPairs none))

/-- PIPELINE 2 AS A REGION of the TensorCore's thread. Nothing but the scoped rest rides in the invariant; the
    arrays no window stages bypass the region; the body has no semaphore of its own; the pipeline's waits sit at
    index `none`, below everything the core owes. -/
def reg2 (hO : ∀ c g, O c g none = 0) :
    Pipeline.RegionSeg (pcfgs (F := F)) adm (pd0 V O Rec) (none : HIx 8) (defs₀ (F := F)) 𝒱₀ (K (F := F)).L (K (F := F)).lev 2 where
  win := launch5.win.to₀
  block_pos := launch5.block_pos
  stage_whole := launch5.stage_whole
  K := PEmpty
  osem k := k.elim
  ho := Pipeline.OwnSemFacts.none _
  hbody c := hbody2 (F := F) (fun _ => V) Xe (fun _ => O) (fun _ => Rec) c
  hwaits c := Pipeline.cellsWaits_intro (Pipeline.pin (pcfgs (F := F)) adm) (pd0 V O Rec) none 2 c
    fun w s t => (K (F := F)).mayWait_none _ (hO c)
  pre := pre2 V O Rec
  post := post2 V O Rec
  X c := iprop(emp)
  Y c := iprop(emp)
  Z c := unscopedRest (Pipeline.pin (pcfgs (F := F)) adm 2).spec c (V c)
  hentry c := by
    have hsplit := Pipeline.arrays_of_unscopedBufs (pcfgs (F := F)) adm (pd0 V O Rec) (p := 2) launch5.win launch5.arr_whole c
      ((pd0 V O Rec 2 c).share_full fun _ => rfl) (V c) fun _ => rfl
    unfold pre2
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW hp)
      iexact HO
    isplitr; · iempintro
    iexact Hr
  hin c := hin2 (F := F) (fun _ => V) Xe (fun _ => O) (fun _ => Rec) c
  hout c := hout2 (F := F) (fun _ => V) Xe (fun _ => O) (fun _ => Rec) c
  hexit c := by
    unfold post2
    rw [Pipeline.unscopedBufs_split (Pipeline.pin (pcfgs (F := F)) adm) 2 launch5.win.arr_unscoped launch5.win.arr_inj c (Vafter2 V c),
      Pipeline.arrays_eq (Pipeline.pin (pcfgs (F := F)) adm) (pd0 V O Rec) 2 c launch5.arr_whole ((pd0 V O Rec 2 c).share_full fun _ => rfl),
      ← unscopedRest_after2 V c]
    simp only [arrAt_final_2 V O Rec c]
    iintro ⟨Ha, HO, -, HZ⟩
    imodintro
    isplitr [HO]
    · isplitl [Ha]
      · iexact Ha
      · iexact HZ
    · iexact HO

theorem reg2_pre (hO : ∀ c g, O c g none = 0) : (reg2 V O Rec hO).pre = pre2 V O Rec := rfl
theorem reg2_post (hO : ∀ c g, O c g none = 0) : (reg2 V O Rec hO).post = post2 V O Rec := rfl

/-- THE STEP for pipeline 2: from the level facts, the region boundary, the unscoped buffers at `V d`, the core's
    debts `O d` (none at index `none`) with its recorded waits within `Rec d`, and the pipeline's launch ghost state
    and duty tokens, the call of its entry runs to the continuation holding the boundary, the buffers at
    `Vafter2 V d` and the same debts, every recorded wait within `Rec d` or at index `none`. -/
theorem region_step2 [∀ e, Nonempty (Elt F e)] (hO : ∀ c g, O c g none = 0) (d : Dev nD) {α : Type}
    (k : PUnit → Prog (TpuEff nD τ sig (Elt F) (SparseCore.Sig (ΛP (F := F)) 8) .tc) α) (Q : α → sProp (MT nD τ sig (HIx 8) (Elt F) ℕ UU ℕ)) :
    iprop(levAts (K (F := F)).L (K (F := F)).lev ∗ boundary (T d) ∗ unscopedBufs d (V d)
        ∗ (∃ W, ⌜∀ p ∈ W, p ∈ Rec d⌝ ∗ owes (T d) (O d) W)
        ∗ Pipeline.cellsGhost cfgs (EP (F := F)) 2 d ∗ Pipeline.toksInit cfgs (EP (F := F)) 2 d
        ∗ (iprop(boundary (T d) ∗ unscopedBufs d (Vafter2 V d) ∗ (∃ W, ⌜∀ p ∈ W, p ∈ Rec d ∨ p.2 = none⌝ ∗ owes (T d) (O d) W))
            -∗ wp frame (wpE ((K (F := F)).defs (D (F := F))) 𝒱 (T d) none) Set.univ (k ⟨⟩) Q))
      ⊢ wp frame (wpE ((K (F := F)).defs (D (F := F))) 𝒱 (T d) none) Set.univ
          (Prog.lift (.customCall (SparseCore.inner (Pipeline.entry 2)) ()) >>= k) Q := by
  rw [wp_bind]
  refine .trans ?_ ((K (F := F)).wp_liftProg (D (F := F)) 𝒱 (T d) Set.univ none (Prog.lift (.customCall (Pipeline.entry 2) ()))
    (fun x => wp frame (wpE ((K (F := F)).defs (D (F := F))) 𝒱 (T d) none) Set.univ (k x) Q))
  refine .trans ?_ (Pipeline.RegionSeg.wp (pcfgs (F := F)) adm (pd0 V O Rec) (none : HIx 8) cellOf_inj (EP (F := F)) (defs₀ (F := F)) 𝒱₀
    (K (F := F)).L (K (F := F)).lev (reg2 V O Rec hO) d none (fun _ h => nomatch h) (fun x => .ret x)
    (fun x => wp frame (wpE ((K (F := F)).defs (D (F := F))) 𝒱 (T d) none) Set.univ (k x) Q))
  rw [reg2_pre, reg2_post]; unfold pre2 post2 Pipeline.owesWithin
  iintro ⟨Hlev, Hb, Hub, ⟨%W, %hW, HO⟩, Hg, Ht, Hk⟩
  isplitl [Hk]
  · iintro ⟨Hb, Hub, ⟨%W', %hW', HO⟩⟩
    iapply (le_wp_ret _ _ _ _ _)
    iapply Hk
    isplitl [Hb]; · iexact Hb
    isplitl [Hub]; · iexact Hub
    iexists W'; isplitr
    · ipureintro
      intro p hp
      rcases hW' hp with h | ⟨w, s, rfl⟩
      · exact Or.inl h
      · exact Or.inr rfl
    iexact HO
  isplitl [Hb]; · iexact Hb
  isplitl [Hub HO]
  · isplitl [Hub]; · iexact Hub
    iexists W; isplitr; · ipureintro; exact fun p hp => hW p hp
    iexact HO
  isplitl [Hlev]; · iexact Hlev
  isplitl [Hg]; · iexact Hg
  iexact Ht

end Region2

end Cert.Proof.KW

end
-- ==== Proof.Region2W.lean ====
/-
  TensorCore call 2's region step, in the form @main's pair step takes it.
-/
import proofs.«214101_g10505490006249_cont_week2b_118_28_alg».proof.Proof.PairDefsW
import proofs.«214101_g10505490006249_cont_week2b_118_28_alg».proof.Proof.TcRegion2W

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Transfers (shareTok shareDrop pointsTo_toks_split pointsTo_toks_join)

variable {F : FTy → Type}

local notation "𝕄" => MT nD τ sig (HIx 8) (Elt F) ℕ UU ℕ

variable [FloatOps F]

theorem hreg2 [∀ e, Nonempty (Elt F e)] : RegionStep (F := F) 2 main_v39 (tcRes2 (F := F)) := by
  intro V O Rec hO d α k Q
  have h := region_step2 (F := F) V O Rec hO d k Q
  unfold Vafter2 at h
  exact h

end Cert.Proof.KW

end
-- ==== Proof.TcRegion3W.lean ====
/-
  Pipeline 3 (call 7) of the point-convolution program as one step of the TensorCore's thread, exactly as
  pipeline 0: from the region boundary, the core's unscoped buffers at given contents and its debts, the call of
  the pipeline's entry runs to the boundary again, the buffers unchanged but for that call's result array, which
  holds what the proof data computes, and the debts as they were.
-/
import proofs.«214101_g10505490006249_cont_week2b_118_28_alg».proof.Proof.TcRegionW

set_option maxRecDepth 16384

noncomputable section

namespace Cert.Proof.KW

open Cert.Kernel Cert.Kernel.Gen Cert.Proof.TcW

open Idealize.ShloMosaic Idealize.ShloMosaic.TcCoe
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat unscopedRest owesWithin)

variable {F : FTy → Type} [FloatOps F]

/-! ## Pipeline 3 (call 7) -/

section Region3

variable (V : (c : Dev nD) → (b : Ref sig .tc) → Buf (Elt F) ((c : Thread nD τ).loc b))
  (O : Dev nD → CellTallies nD τ sig (HIx 8)) (Rec : Dev nD → Set (SemLoc sig × HIx 8))

/-- The result array of call 7 after the pipeline's run, from the contents `V` the call finds in the core's
    buffers: the array as found, every block overwritten by what the body stored at its point. -/
def tcRes3 (c : Dev nD) (V : (b : Ref sig .tc) → Buf (Elt F) ((c : Thread nD τ).loc b)) : Buf (Elt F) ((c : Thread nD τ).loc main_v41) :=
  (dat7 (Ix := HIx 8) (Name := ℕ) (U := UU) (Lvl := ℕ) c V iprop(emp) 0 Set.univ (fun _ => fullShare)).arrAt 9 cfg7.N

/-- The core's buffers after the call: the result array at what the run computes, every other as found. -/
def Vafter3 (c : Dev nD) : (b : Ref sig .tc) → Buf (Elt F) ((c : Thread nD τ).loc b) :=
  Function.update (V c) main_v41 (tcRes3 c (V c))

/-- The result array is the pipeline's last window. -/
theorem nine_lt3 : (9 : ℕ) < (Pipeline.pin (pcfgs (F := F)) adm 3).W := Nat.lt_succ_self 9

/-- The result array after the run is `tcRes3` of the entry contents: the other parameters do not enter. -/
theorem arrAt_final9_3 (c : Dev nD) :
    (pd0 V O Rec 3 c).arrAt 9 (Pipeline.pin (pcfgs (F := F)) adm 3).N = tcRes3 c (V c) := by
  unfold tcRes3
  exact arrAt_congr (pd0 V O Rec 3 c)
    (dat7 (Ix := HIx 8) (Name := ℕ) (U := UU) (Lvl := ℕ) c (V c) iprop(emp) 0 Set.univ (fun _ => fullShare) : Dat τ (Elt F) (HIx 8) ℕ UU ℕ (Pipeline.pin (pcfgs (F := F)) adm 3) c) 9
    ((pdats_3_A (F := F) (fun _ => V) Xe (fun _ => O) (fun _ => Rec) c 9).trans (A7_eq c (V c) iprop(emp) 0 Set.univ (fun _ => fullShare) 9).symm)
    (fun t => (pdats_3_after9 (F := F) (fun _ => V) Xe (fun _ => O) (fun _ => Rec) c t).trans (after7_9 c (V c) iprop(emp) 0 Set.univ (fun _ => fullShare) t).symm) _

/-- Every window's array after the run, read off the buffers after the call: the inputs' are never written, the
    result's is `tcRes3`. -/
theorem arrAt_final_3 (c : Dev nD) (w : Fin (Pipeline.pin (pcfgs (F := F)) adm 3).W) :
    (pd0 V O Rec 3 c).arrAt w (Pipeline.pin (pcfgs (F := F)) adm 3).N = Vafter3 V c (Pipeline.arrRef (Pipeline.pin (pcfgs (F := F)) adm 3).spec w) := by
  have hi : Function.Injective (Pipeline.arrRef (Pipeline.pin (pcfgs (F := F)) adm 3).spec) := launch7.win.arr_inj
  have hio : ∀ w : Fin 10, w.val ≠ 9 → (win7 w).isOut = false := by decide
  unfold Vafter3
  by_cases hw : w.val = 9
  · have h9 : w = (9 : Fin (Pipeline.pin (pcfgs (F := F)) adm 3).W) := Fin.ext (hw.trans (show (9 : ℕ) = (9 : Fin (Pipeline.pin (pcfgs (F := F)) adm 3).W).val from rfl))
    subst h9
    exact (arrAt_final9_3 V O Rec c).trans (Function.update_self main_v41 (tcRes3 c (V c)) (V c)).symm
  · have hne : Pipeline.arrRef (Pipeline.pin (pcfgs (F := F)) adm 3).spec w ≠ main_v41 := fun e =>
      hw (congrArg Fin.val (hi (show Pipeline.arrRef (Pipeline.pin (pcfgs (F := F)) adm 3).spec w = Pipeline.arrRef (Pipeline.pin (pcfgs (F := F)) adm 3).spec ⟨9, nine_lt3⟩ from e)))
    exact ((pd0 V O Rec 3 c).arrAt_in w (hio w hw) _).trans (Function.update_of_ne hne _ _).symm

/-- The rest of the unscoped buffers, which no window stages, does not see the result array. -/
theorem unscopedRest_after3 (c : Dev nD) :
    (unscopedRest (Ix := HIx 8) (Name := ℕ) (U := UU) (Lvl := ℕ) (Pipeline.pin (pcfgs (F := F)) adm 3).spec c (V c) : sProp (MT nD τ sig (HIx 8) (Elt F) ℕ UU ℕ))
      = unscopedRest (Pipeline.pin (pcfgs (F := F)) adm 3).spec c (Vafter3 V c) := by
  unfold Pipeline.unscopedRest Vafter3
  refine bigSep_congr fun b hb => ?_
  rw [Function.update_of_ne]
  intro e
  exact (Finset.mem_sdiff.mp hb).2 (Finset.mem_image.mpr ⟨⟨9, nine_lt3⟩, Finset.mem_univ _, (show Pipeline.arrRef (Pipeline.pin (pcfgs (F := F)) adm 3).spec ⟨9, nine_lt3⟩ = b from e.symm)⟩)

/-- What the region is entered from: the core's unscoped buffers at `V`, its debts with the recorded waits within `Rec`; -/
def pre3 (c : Dev nD) : sProp (MT nD τ sig (HIx 8) (Elt F) ℕ UU ℕ) := iprop(unscopedBufs c (V c) ∗ owesWithin c (O c) (Rec c))
/-- and what it leaves: the buffers after the call, the same debts, the pipeline's own waits recorded too. -/
def post3 (c : Dev nD) : sProp (MT nD τ sig (HIx 8) (Elt F) ℕ UU ℕ) :=
  iprop(unscopedBufs c (Vafter3 V c) ∗ owesWithin c (O c) (Rec c ∪ (Pipeline.pin (pcfgs (F := F)) adm 3).waitPairs none))

/-- PIPELINE 3 AS A REGION of the TensorCore's thread. Nothing but the scoped rest rides in the invariant; the
    arrays no window stages bypass the region; the body has no semaphore of its own; the pipeline's waits sit at
    index `none`, below everything the core owes. -/
def reg3 (hO : ∀ c g, O c g none = 0) :
    Pipeline.RegionSeg (pcfgs (F := F)) adm (pd0 V O Rec) (none : HIx 8) (defs₀ (F := F)) 𝒱₀ (K (F := F)).L (K (F := F)).lev 3 where
  win := launch7.win.to₀
  block_pos := launch7.block_pos
  stage_whole := launch7.stage_whole
  K := PEmpty
  osem k := k.elim
  ho := Pipeline.OwnSemFacts.none _
  hbody c := hbody3 (F := F) (fun _ => V) Xe (fun _ => O) (fun _ => Rec) c
  hwaits c := Pipeline.cellsWaits_intro (Pipeline.pin (pcfgs (F := F)) adm) (pd0 V O Rec) none 3 c
    fun w s t => (K (F := F)).mayWait_none _ (hO c)
  pre := pre3 V O Rec
  post := post3 V O Rec
  X c := iprop(emp)
  Y c := iprop(emp)
  Z c := unscopedRest (Pipeline.pin (pcfgs (F := F)) adm 3).spec c (V c)
  hentry c := by
    have hsplit := Pipeline.arrays_of_unscopedBufs (pcfgs (F := F)) adm (pd0 V O Rec) (p := 3) launch7.win launch7.arr_whole c
      ((pd0 V O Rec 3 c).share_full fun _ => rfl) (V c) fun _ => rfl
    unfold pre3
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW hp)
      iexact HO
    isplitr; · iempintro
    iexact Hr
  hin c := hin3 (F := F) (fun _ => V) Xe (fun _ => O) (fun _ => Rec) c
  hout c := hout3 (F := F) (fun _ => V) Xe (fun _ => O) (fun _ => Rec) c
  hexit c := by
    unfold post3
    rw [Pipeline.unscopedBufs_split (Pipeline.pin (pcfgs (F := F)) adm) 3 launch7.win.arr_unscoped launch7.win.arr_inj c (Vafter3 V c),
      Pipeline.arrays_eq (Pipeline.pin (pcfgs (F := F)) adm) (pd0 V O Rec) 3 c launch7.arr_whole ((pd0 V O Rec 3 c).share_full fun _ => rfl),
      ← unscopedRest_after3 V c]
    simp only [arrAt_final_3 V O Rec c]
    iintro ⟨Ha, HO, -, HZ⟩
    imodintro
    isplitr [HO]
    · isplitl [Ha]
      · iexact Ha
      · iexact HZ
    · iexact HO

theorem reg3_pre (hO : ∀ c g, O c g none = 0) : (reg3 V O Rec hO).pre = pre3 V O Rec := rfl
theorem reg3_post (hO : ∀ c g, O c g none = 0) : (reg3 V O Rec hO).post = post3 V O Rec := rfl

/-- THE STEP for pipeline 3: from the level facts, the region boundary, the unscoped buffers at `V d`, the core's
    debts `O d` (none at index `none`) with its recorded waits within `Rec d`, and the pipeline's launch ghost state
    and duty tokens, the call of its entry runs to the continuation holding the boundary, the buffers at
    `Vafter3 V d` and the same debts, every recorded wait within `Rec d` or at index `none`. -/
theorem region_step3 [∀ e, Nonempty (Elt F e)] (hO : ∀ c g, O c g none = 0) (d : Dev nD) {α : Type}
    (k : PUnit → Prog (TpuEff nD τ sig (Elt F) (SparseCore.Sig (ΛP (F := F)) 8) .tc) α) (Q : α → sProp (MT nD τ sig (HIx 8) (Elt F) ℕ UU ℕ)) :
    iprop(levAts (K (F := F)).L (K (F := F)).lev ∗ boundary (T d) ∗ unscopedBufs d (V d)
        ∗ (∃ W, ⌜∀ p ∈ W, p ∈ Rec d⌝ ∗ owes (T d) (O d) W)
        ∗ Pipeline.cellsGhost cfgs (EP (F := F)) 3 d ∗ Pipeline.toksInit cfgs (EP (F := F)) 3 d
        ∗ (iprop(boundary (T d) ∗ unscopedBufs d (Vafter3 V d) ∗ (∃ W, ⌜∀ p ∈ W, p ∈ Rec d ∨ p.2 = none⌝ ∗ owes (T d) (O d) W))
            -∗ wp frame (wpE ((K (F := F)).defs (D (F := F))) 𝒱 (T d) none) Set.univ (k ⟨⟩) Q))
      ⊢ wp frame (wpE ((K (F := F)).defs (D (F := F))) 𝒱 (T d) none) Set.univ
          (Prog.lift (.customCall (SparseCore.inner (Pipeline.entry 3)) ()) >>= k) Q := by
  rw [wp_bind]
  refine .trans ?_ ((K (F := F)).wp_liftProg (D (F := F)) 𝒱 (T d) Set.univ none (Prog.lift (.customCall (Pipeline.entry 3) ()))
    (fun x => wp frame (wpE ((K (F := F)).defs (D (F := F))) 𝒱 (T d) none) Set.univ (k x) Q))
  refine .trans ?_ (Pipeline.RegionSeg.wp (pcfgs (F := F)) adm (pd0 V O Rec) (none : HIx 8) cellOf_inj (EP (F := F)) (defs₀ (F := F)) 𝒱₀
    (K (F := F)).L (K (F := F)).lev (reg3 V O Rec hO) d none (fun _ h => nomatch h) (fun x => .ret x)
    (fun x => wp frame (wpE ((K (F := F)).defs (D (F := F))) 𝒱 (T d) none) Set.univ (k x) Q))
  rw [reg3_pre, reg3_post]; unfold pre3 post3 Pipeline.owesWithin
  iintro ⟨Hlev, Hb, Hub, ⟨%W, %hW, HO⟩, Hg, Ht, Hk⟩
  isplitl [Hk]
  · iintro ⟨Hb, Hub, ⟨%W', %hW', HO⟩⟩
    iapply (le_wp_ret _ _ _ _ _)
    iapply Hk
    isplitl [Hb]; · iexact Hb
    isplitl [Hub]; · iexact Hub
    iexists W'; isplitr
    · ipureintro
      intro p hp
      rcases hW' hp with h | ⟨w, s, rfl⟩
      · exact Or.inl h
      · exact Or.inr rfl
    iexact HO
  isplitl [Hb]; · iexact Hb
  isplitl [Hub HO]
  · isplitl [Hub]; · iexact Hub
    iexists W; isplitr; · ipureintro; exact fun p hp => hW p hp
    iexact HO
  isplitl [Hlev]; · iexact Hlev
  isplitl [Hg]; · iexact Hg
  iexact Ht

end Region3

end Cert.Proof.KW

end
-- ==== Proof.Region3W.lean ====
/-
  TensorCore call 3's region step, in the form @main's pair step takes it.
-/
import proofs.«214101_g10505490006249_cont_week2b_118_28_alg».proof.Proof.PairDefsW
import proofs.«214101_g10505490006249_cont_week2b_118_28_alg».proof.Proof.TcRegion3W

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Transfers (shareTok shareDrop pointsTo_toks_split pointsTo_toks_join)

variable {F : FTy → Type}

local notation "𝕄" => MT nD τ sig (HIx 8) (Elt F) ℕ UU ℕ

variable [FloatOps F]

theorem hreg3 [∀ e, Nonempty (Elt F e)] : RegionStep (F := F) 3 main_v41 (tcRes3 (F := F)) := by
  intro V O Rec hO d α k Q
  have h := region_step3 (F := F) V O Rec hO d k Q
  unfold Vafter3 at h
  exact h

end Cert.Proof.KW

end
-- ==== Proof.TcRegion4W.lean ====
/-
  Pipeline 4 (call 9) of the point-convolution program as one step of the TensorCore's thread, exactly as
  pipeline 0: from the region boundary, the core's unscoped buffers at given contents and its debts, the call of
  the pipeline's entry runs to the boundary again, the buffers unchanged but for that call's result array, which
  holds what the proof data computes, and the debts as they were.
-/
import proofs.«214101_g10505490006249_cont_week2b_118_28_alg».proof.Proof.TcRegionW

set_option maxRecDepth 16384

noncomputable section

namespace Cert.Proof.KW

open Cert.Kernel Cert.Kernel.Gen Cert.Proof.TcW

open Idealize.ShloMosaic Idealize.ShloMosaic.TcCoe
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat unscopedRest owesWithin)

variable {F : FTy → Type} [FloatOps F]

/-! ## Pipeline 4 (call 9) -/

section Region4

variable (V : (c : Dev nD) → (b : Ref sig .tc) → Buf (Elt F) ((c : Thread nD τ).loc b))
  (O : Dev nD → CellTallies nD τ sig (HIx 8)) (Rec : Dev nD → Set (SemLoc sig × HIx 8))

/-- The result array of call 9 after the pipeline's run, from the contents `V` the call finds in the core's
    buffers: the array as found, every block overwritten by what the body stored at its point. -/
def tcRes4 (c : Dev nD) (V : (b : Ref sig .tc) → Buf (Elt F) ((c : Thread nD τ).loc b)) : Buf (Elt F) ((c : Thread nD τ).loc main_v43) :=
  (dat9 (Ix := HIx 8) (Name := ℕ) (U := UU) (Lvl := ℕ) c V iprop(emp) 0 Set.univ (fun _ => fullShare)).arrAt 9 cfg9.N

/-- The core's buffers after the call: the result array at what the run computes, every other as found. -/
def Vafter4 (c : Dev nD) : (b : Ref sig .tc) → Buf (Elt F) ((c : Thread nD τ).loc b) :=
  Function.update (V c) main_v43 (tcRes4 c (V c))

/-- The result array is the pipeline's last window. -/
theorem nine_lt4 : (9 : ℕ) < (Pipeline.pin (pcfgs (F := F)) adm 4).W := Nat.lt_succ_self 9

/-- The result array after the run is `tcRes4` of the entry contents: the other parameters do not enter. -/
theorem arrAt_final9_4 (c : Dev nD) :
    (pd0 V O Rec 4 c).arrAt 9 (Pipeline.pin (pcfgs (F := F)) adm 4).N = tcRes4 c (V c) := by
  unfold tcRes4
  exact arrAt_congr (pd0 V O Rec 4 c)
    (dat9 (Ix := HIx 8) (Name := ℕ) (U := UU) (Lvl := ℕ) c (V c) iprop(emp) 0 Set.univ (fun _ => fullShare) : Dat τ (Elt F) (HIx 8) ℕ UU ℕ (Pipeline.pin (pcfgs (F := F)) adm 4) c) 9
    ((pdats_4_A (F := F) (fun _ => V) Xe (fun _ => O) (fun _ => Rec) c 9).trans (A9_eq c (V c) iprop(emp) 0 Set.univ (fun _ => fullShare) 9).symm)
    (fun t => (pdats_4_after9 (F := F) (fun _ => V) Xe (fun _ => O) (fun _ => Rec) c t).trans (after9_9 c (V c) iprop(emp) 0 Set.univ (fun _ => fullShare) t).symm) _

/-- Every window's array after the run, read off the buffers after the call: the inputs' are never written, the
    result's is `tcRes4`. -/
theorem arrAt_final_4 (c : Dev nD) (w : Fin (Pipeline.pin (pcfgs (F := F)) adm 4).W) :
    (pd0 V O Rec 4 c).arrAt w (Pipeline.pin (pcfgs (F := F)) adm 4).N = Vafter4 V c (Pipeline.arrRef (Pipeline.pin (pcfgs (F := F)) adm 4).spec w) := by
  have hi : Function.Injective (Pipeline.arrRef (Pipeline.pin (pcfgs (F := F)) adm 4).spec) := launch9.win.arr_inj
  have hio : ∀ w : Fin 10, w.val ≠ 9 → (win9 w).isOut = false := by decide
  unfold Vafter4
  by_cases hw : w.val = 9
  · have h9 : w = (9 : Fin (Pipeline.pin (pcfgs (F := F)) adm 4).W) := Fin.ext (hw.trans (show (9 : ℕ) = (9 : Fin (Pipeline.pin (pcfgs (F := F)) adm 4).W).val from rfl))
    subst h9
    exact (arrAt_final9_4 V O Rec c).trans (Function.update_self main_v43 (tcRes4 c (V c)) (V c)).symm
  · have hne : Pipeline.arrRef (Pipeline.pin (pcfgs (F := F)) adm 4).spec w ≠ main_v43 := fun e =>
      hw (congrArg Fin.val (hi (show Pipeline.arrRef (Pipeline.pin (pcfgs (F := F)) adm 4).spec w = Pipeline.arrRef (Pipeline.pin (pcfgs (F := F)) adm 4).spec ⟨9, nine_lt4⟩ from e)))
    exact ((pd0 V O Rec 4 c).arrAt_in w (hio w hw) _).trans (Function.update_of_ne hne _ _).symm

/-- The rest of the unscoped buffers, which no window stages, does not see the result array. -/
theorem unscopedRest_after4 (c : Dev nD) :
    (unscopedRest (Ix := HIx 8) (Name := ℕ) (U := UU) (Lvl := ℕ) (Pipeline.pin (pcfgs (F := F)) adm 4).spec c (V c) : sProp (MT nD τ sig (HIx 8) (Elt F) ℕ UU ℕ))
      = unscopedRest (Pipeline.pin (pcfgs (F := F)) adm 4).spec c (Vafter4 V c) := by
  unfold Pipeline.unscopedRest Vafter4
  refine bigSep_congr fun b hb => ?_
  rw [Function.update_of_ne]
  intro e
  exact (Finset.mem_sdiff.mp hb).2 (Finset.mem_image.mpr ⟨⟨9, nine_lt4⟩, Finset.mem_univ _, (show Pipeline.arrRef (Pipeline.pin (pcfgs (F := F)) adm 4).spec ⟨9, nine_lt4⟩ = b from e.symm)⟩)

/-- What the region is entered from: the core's unscoped buffers at `V`, its debts with the recorded waits within `Rec`; -/
def pre4 (c : Dev nD) : sProp (MT nD τ sig (HIx 8) (Elt F) ℕ UU ℕ) := iprop(unscopedBufs c (V c) ∗ owesWithin c (O c) (Rec c))
/-- and what it leaves: the buffers after the call, the same debts, the pipeline's own waits recorded too. -/
def post4 (c : Dev nD) : sProp (MT nD τ sig (HIx 8) (Elt F) ℕ UU ℕ) :=
  iprop(unscopedBufs c (Vafter4 V c) ∗ owesWithin c (O c) (Rec c ∪ (Pipeline.pin (pcfgs (F := F)) adm 4).waitPairs none))

/-- PIPELINE 4 AS A REGION of the TensorCore's thread. Nothing but the scoped rest rides in the invariant; the
    arrays no window stages bypass the region; the body has no semaphore of its own; the pipeline's waits sit at
    index `none`, below everything the core owes. -/
def reg4 (hO : ∀ c g, O c g none = 0) :
    Pipeline.RegionSeg (pcfgs (F := F)) adm (pd0 V O Rec) (none : HIx 8) (defs₀ (F := F)) 𝒱₀ (K (F := F)).L (K (F := F)).lev 4 where
  win := launch9.win.to₀
  block_pos := launch9.block_pos
  stage_whole := launch9.stage_whole
  K := PEmpty
  osem k := k.elim
  ho := Pipeline.OwnSemFacts.none _
  hbody c := hbody4 (F := F) (fun _ => V) Xe (fun _ => O) (fun _ => Rec) c
  hwaits c := Pipeline.cellsWaits_intro (Pipeline.pin (pcfgs (F := F)) adm) (pd0 V O Rec) none 4 c
    fun w s t => (K (F := F)).mayWait_none _ (hO c)
  pre := pre4 V O Rec
  post := post4 V O Rec
  X c := iprop(emp)
  Y c := iprop(emp)
  Z c := unscopedRest (Pipeline.pin (pcfgs (F := F)) adm 4).spec c (V c)
  hentry c := by
    have hsplit := Pipeline.arrays_of_unscopedBufs (pcfgs (F := F)) adm (pd0 V O Rec) (p := 4) launch9.win launch9.arr_whole c
      ((pd0 V O Rec 4 c).share_full fun _ => rfl) (V c) fun _ => rfl
    unfold pre4
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW hp)
      iexact HO
    isplitr; · iempintro
    iexact Hr
  hin c := hin4 (F := F) (fun _ => V) Xe (fun _ => O) (fun _ => Rec) c
  hout c := hout4 (F := F) (fun _ => V) Xe (fun _ => O) (fun _ => Rec) c
  hexit c := by
    unfold post4
    rw [Pipeline.unscopedBufs_split (Pipeline.pin (pcfgs (F := F)) adm) 4 launch9.win.arr_unscoped launch9.win.arr_inj c (Vafter4 V c),
      Pipeline.arrays_eq (Pipeline.pin (pcfgs (F := F)) adm) (pd0 V O Rec) 4 c launch9.arr_whole ((pd0 V O Rec 4 c).share_full fun _ => rfl),
      ← unscopedRest_after4 V c]
    simp only [arrAt_final_4 V O Rec c]
    iintro ⟨Ha, HO, -, HZ⟩
    imodintro
    isplitr [HO]
    · isplitl [Ha]
      · iexact Ha
      · iexact HZ
    · iexact HO

theorem reg4_pre (hO : ∀ c g, O c g none = 0) : (reg4 V O Rec hO).pre = pre4 V O Rec := rfl
theorem reg4_post (hO : ∀ c g, O c g none = 0) : (reg4 V O Rec hO).post = post4 V O Rec := rfl

/-- THE STEP for pipeline 4: from the level facts, the region boundary, the unscoped buffers at `V d`, the core's
    debts `O d` (none at index `none`) with its recorded waits within `Rec d`, and the pipeline's launch ghost state
    and duty tokens, the call of its entry runs to the continuation holding the boundary, the buffers at
    `Vafter4 V d` and the same debts, every recorded wait within `Rec d` or at index `none`. -/
theorem region_step4 [∀ e, Nonempty (Elt F e)] (hO : ∀ c g, O c g none = 0) (d : Dev nD) {α : Type}
    (k : PUnit → Prog (TpuEff nD τ sig (Elt F) (SparseCore.Sig (ΛP (F := F)) 8) .tc) α) (Q : α → sProp (MT nD τ sig (HIx 8) (Elt F) ℕ UU ℕ)) :
    iprop(levAts (K (F := F)).L (K (F := F)).lev ∗ boundary (T d) ∗ unscopedBufs d (V d)
        ∗ (∃ W, ⌜∀ p ∈ W, p ∈ Rec d⌝ ∗ owes (T d) (O d) W)
        ∗ Pipeline.cellsGhost cfgs (EP (F := F)) 4 d ∗ Pipeline.toksInit cfgs (EP (F := F)) 4 d
        ∗ (iprop(boundary (T d) ∗ unscopedBufs d (Vafter4 V d) ∗ (∃ W, ⌜∀ p ∈ W, p ∈ Rec d ∨ p.2 = none⌝ ∗ owes (T d) (O d) W))
            -∗ wp frame (wpE ((K (F := F)).defs (D (F := F))) 𝒱 (T d) none) Set.univ (k ⟨⟩) Q))
      ⊢ wp frame (wpE ((K (F := F)).defs (D (F := F))) 𝒱 (T d) none) Set.univ
          (Prog.lift (.customCall (SparseCore.inner (Pipeline.entry 4)) ()) >>= k) Q := by
  rw [wp_bind]
  refine .trans ?_ ((K (F := F)).wp_liftProg (D (F := F)) 𝒱 (T d) Set.univ none (Prog.lift (.customCall (Pipeline.entry 4) ()))
    (fun x => wp frame (wpE ((K (F := F)).defs (D (F := F))) 𝒱 (T d) none) Set.univ (k x) Q))
  refine .trans ?_ (Pipeline.RegionSeg.wp (pcfgs (F := F)) adm (pd0 V O Rec) (none : HIx 8) cellOf_inj (EP (F := F)) (defs₀ (F := F)) 𝒱₀
    (K (F := F)).L (K (F := F)).lev (reg4 V O Rec hO) d none (fun _ h => nomatch h) (fun x => .ret x)
    (fun x => wp frame (wpE ((K (F := F)).defs (D (F := F))) 𝒱 (T d) none) Set.univ (k x) Q))
  rw [reg4_pre, reg4_post]; unfold pre4 post4 Pipeline.owesWithin
  iintro ⟨Hlev, Hb, Hub, ⟨%W, %hW, HO⟩, Hg, Ht, Hk⟩
  isplitl [Hk]
  · iintro ⟨Hb, Hub, ⟨%W', %hW', HO⟩⟩
    iapply (le_wp_ret _ _ _ _ _)
    iapply Hk
    isplitl [Hb]; · iexact Hb
    isplitl [Hub]; · iexact Hub
    iexists W'; isplitr
    · ipureintro
      intro p hp
      rcases hW' hp with h | ⟨w, s, rfl⟩
      · exact Or.inl h
      · exact Or.inr rfl
    iexact HO
  isplitl [Hb]; · iexact Hb
  isplitl [Hub HO]
  · isplitl [Hub]; · iexact Hub
    iexists W; isplitr; · ipureintro; exact fun p hp => hW p hp
    iexact HO
  isplitl [Hlev]; · iexact Hlev
  isplitl [Hg]; · iexact Hg
  iexact Ht

end Region4

end Cert.Proof.KW

end
-- ==== Proof.Region4W.lean ====
/-
  TensorCore call 4's region step, in the form @main's pair step takes it.
-/
import proofs.«214101_g10505490006249_cont_week2b_118_28_alg».proof.Proof.PairDefsW
import proofs.«214101_g10505490006249_cont_week2b_118_28_alg».proof.Proof.TcRegion4W

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Transfers (shareTok shareDrop pointsTo_toks_split pointsTo_toks_join)

variable {F : FTy → Type}

local notation "𝕄" => MT nD τ sig (HIx 8) (Elt F) ℕ UU ℕ

variable [FloatOps F]

theorem hreg4 [∀ e, Nonempty (Elt F e)] : RegionStep (F := F) 4 main_v43 (tcRes4 (F := F)) := by
  intro V O Rec hO d α k Q
  have h := region_step4 (F := F) V O Rec hO d k Q
  unfold Vafter4 at h
  exact h

end Cert.Proof.KW

end
-- ==== Proof.TcRegion5W.lean ====
/-
  Pipeline 5 (call 11) of the point-convolution program as one step of the TensorCore's thread, exactly as
  pipeline 0: from the region boundary, the core's unscoped buffers at given contents and its debts, the call of
  the pipeline's entry runs to the boundary again, the buffers unchanged but for that call's result array, which
  holds what the proof data computes, and the debts as they were.
-/
import proofs.«214101_g10505490006249_cont_week2b_118_28_alg».proof.Proof.TcRegionW

set_option maxRecDepth 16384

noncomputable section

namespace Cert.Proof.KW

open Cert.Kernel Cert.Kernel.Gen Cert.Proof.TcW

open Idealize.ShloMosaic Idealize.ShloMosaic.TcCoe
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat unscopedRest owesWithin)

variable {F : FTy → Type} [FloatOps F]

/-! ## Pipeline 5 (call 11) -/

section Region5

variable (V : (c : Dev nD) → (b : Ref sig .tc) → Buf (Elt F) ((c : Thread nD τ).loc b))
  (O : Dev nD → CellTallies nD τ sig (HIx 8)) (Rec : Dev nD → Set (SemLoc sig × HIx 8))

/-- The result array of call 11 after the pipeline's run, from the contents `V` the call finds in the core's
    buffers: the array as found, every block overwritten by what the body stored at its point. -/
def tcRes5 (c : Dev nD) (V : (b : Ref sig .tc) → Buf (Elt F) ((c : Thread nD τ).loc b)) : Buf (Elt F) ((c : Thread nD τ).loc main_v45) :=
  (dat11 (Ix := HIx 8) (Name := ℕ) (U := UU) (Lvl := ℕ) c V iprop(emp) 0 Set.univ (fun _ => fullShare)).arrAt 9 cfg11.N

/-- The core's buffers after the call: the result array at what the run computes, every other as found. -/
def Vafter5 (c : Dev nD) : (b : Ref sig .tc) → Buf (Elt F) ((c : Thread nD τ).loc b) :=
  Function.update (V c) main_v45 (tcRes5 c (V c))

/-- The result array is the pipeline's last window. -/
theorem nine_lt5 : (9 : ℕ) < (Pipeline.pin (pcfgs (F := F)) adm 5).W := Nat.lt_succ_self 9

/-- The result array after the run is `tcRes5` of the entry contents: the other parameters do not enter. -/
theorem arrAt_final9_5 (c : Dev nD) :
    (pd0 V O Rec 5 c).arrAt 9 (Pipeline.pin (pcfgs (F := F)) adm 5).N = tcRes5 c (V c) := by
  unfold tcRes5
  exact arrAt_congr (pd0 V O Rec 5 c)
    (dat11 (Ix := HIx 8) (Name := ℕ) (U := UU) (Lvl := ℕ) c (V c) iprop(emp) 0 Set.univ (fun _ => fullShare) : Dat τ (Elt F) (HIx 8) ℕ UU ℕ (Pipeline.pin (pcfgs (F := F)) adm 5) c) 9
    ((pdats_5_A (F := F) (fun _ => V) Xe (fun _ => O) (fun _ => Rec) c 9).trans (A11_eq c (V c) iprop(emp) 0 Set.univ (fun _ => fullShare) 9).symm)
    (fun t => (pdats_5_after9 (F := F) (fun _ => V) Xe (fun _ => O) (fun _ => Rec) c t).trans (after11_9 c (V c) iprop(emp) 0 Set.univ (fun _ => fullShare) t).symm) _

/-- Every window's array after the run, read off the buffers after the call: the inputs' are never written, the
    result's is `tcRes5`. -/
theorem arrAt_final_5 (c : Dev nD) (w : Fin (Pipeline.pin (pcfgs (F := F)) adm 5).W) :
    (pd0 V O Rec 5 c).arrAt w (Pipeline.pin (pcfgs (F := F)) adm 5).N = Vafter5 V c (Pipeline.arrRef (Pipeline.pin (pcfgs (F := F)) adm 5).spec w) := by
  have hi : Function.Injective (Pipeline.arrRef (Pipeline.pin (pcfgs (F := F)) adm 5).spec) := launch11.win.arr_inj
  have hio : ∀ w : Fin 10, w.val ≠ 9 → (win11 w).isOut = false := by decide
  unfold Vafter5
  by_cases hw : w.val = 9
  · have h9 : w = (9 : Fin (Pipeline.pin (pcfgs (F := F)) adm 5).W) := Fin.ext (hw.trans (show (9 : ℕ) = (9 : Fin (Pipeline.pin (pcfgs (F := F)) adm 5).W).val from rfl))
    subst h9
    exact (arrAt_final9_5 V O Rec c).trans (Function.update_self main_v45 (tcRes5 c (V c)) (V c)).symm
  · have hne : Pipeline.arrRef (Pipeline.pin (pcfgs (F := F)) adm 5).spec w ≠ main_v45 := fun e =>
      hw (congrArg Fin.val (hi (show Pipeline.arrRef (Pipeline.pin (pcfgs (F := F)) adm 5).spec w = Pipeline.arrRef (Pipeline.pin (pcfgs (F := F)) adm 5).spec ⟨9, nine_lt5⟩ from e)))
    exact ((pd0 V O Rec 5 c).arrAt_in w (hio w hw) _).trans (Function.update_of_ne hne _ _).symm

/-- The rest of the unscoped buffers, which no window stages, does not see the result array. -/
theorem unscopedRest_after5 (c : Dev nD) :
    (unscopedRest (Ix := HIx 8) (Name := ℕ) (U := UU) (Lvl := ℕ) (Pipeline.pin (pcfgs (F := F)) adm 5).spec c (V c) : sProp (MT nD τ sig (HIx 8) (Elt F) ℕ UU ℕ))
      = unscopedRest (Pipeline.pin (pcfgs (F := F)) adm 5).spec c (Vafter5 V c) := by
  unfold Pipeline.unscopedRest Vafter5
  refine bigSep_congr fun b hb => ?_
  rw [Function.update_of_ne]
  intro e
  exact (Finset.mem_sdiff.mp hb).2 (Finset.mem_image.mpr ⟨⟨9, nine_lt5⟩, Finset.mem_univ _, (show Pipeline.arrRef (Pipeline.pin (pcfgs (F := F)) adm 5).spec ⟨9, nine_lt5⟩ = b from e.symm)⟩)

/-- What the region is entered from: the core's unscoped buffers at `V`, its debts with the recorded waits within `Rec`; -/
def pre5 (c : Dev nD) : sProp (MT nD τ sig (HIx 8) (Elt F) ℕ UU ℕ) := iprop(unscopedBufs c (V c) ∗ owesWithin c (O c) (Rec c))
/-- and what it leaves: the buffers after the call, the same debts, the pipeline's own waits recorded too. -/
def post5 (c : Dev nD) : sProp (MT nD τ sig (HIx 8) (Elt F) ℕ UU ℕ) :=
  iprop(unscopedBufs c (Vafter5 V c) ∗ owesWithin c (O c) (Rec c ∪ (Pipeline.pin (pcfgs (F := F)) adm 5).waitPairs none))

/-- PIPELINE 5 AS A REGION of the TensorCore's thread. Nothing but the scoped rest rides in the invariant; the
    arrays no window stages bypass the region; the body has no semaphore of its own; the pipeline's waits sit at
    index `none`, below everything the core owes. -/
def reg5 (hO : ∀ c g, O c g none = 0) :
    Pipeline.RegionSeg (pcfgs (F := F)) adm (pd0 V O Rec) (none : HIx 8) (defs₀ (F := F)) 𝒱₀ (K (F := F)).L (K (F := F)).lev 5 where
  win := launch11.win.to₀
  block_pos := launch11.block_pos
  stage_whole := launch11.stage_whole
  K := PEmpty
  osem k := k.elim
  ho := Pipeline.OwnSemFacts.none _
  hbody c := hbody5 (F := F) (fun _ => V) Xe (fun _ => O) (fun _ => Rec) c
  hwaits c := Pipeline.cellsWaits_intro (Pipeline.pin (pcfgs (F := F)) adm) (pd0 V O Rec) none 5 c
    fun w s t => (K (F := F)).mayWait_none _ (hO c)
  pre := pre5 V O Rec
  post := post5 V O Rec
  X c := iprop(emp)
  Y c := iprop(emp)
  Z c := unscopedRest (Pipeline.pin (pcfgs (F := F)) adm 5).spec c (V c)
  hentry c := by
    have hsplit := Pipeline.arrays_of_unscopedBufs (pcfgs (F := F)) adm (pd0 V O Rec) (p := 5) launch11.win launch11.arr_whole c
      ((pd0 V O Rec 5 c).share_full fun _ => rfl) (V c) fun _ => rfl
    unfold pre5
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW hp)
      iexact HO
    isplitr; · iempintro
    iexact Hr
  hin c := hin5 (F := F) (fun _ => V) Xe (fun _ => O) (fun _ => Rec) c
  hout c := hout5 (F := F) (fun _ => V) Xe (fun _ => O) (fun _ => Rec) c
  hexit c := by
    unfold post5
    rw [Pipeline.unscopedBufs_split (Pipeline.pin (pcfgs (F := F)) adm) 5 launch11.win.arr_unscoped launch11.win.arr_inj c (Vafter5 V c),
      Pipeline.arrays_eq (Pipeline.pin (pcfgs (F := F)) adm) (pd0 V O Rec) 5 c launch11.arr_whole ((pd0 V O Rec 5 c).share_full fun _ => rfl),
      ← unscopedRest_after5 V c]
    simp only [arrAt_final_5 V O Rec c]
    iintro ⟨Ha, HO, -, HZ⟩
    imodintro
    isplitr [HO]
    · isplitl [Ha]
      · iexact Ha
      · iexact HZ
    · iexact HO

theorem reg5_pre (hO : ∀ c g, O c g none = 0) : (reg5 V O Rec hO).pre = pre5 V O Rec := rfl
theorem reg5_post (hO : ∀ c g, O c g none = 0) : (reg5 V O Rec hO).post = post5 V O Rec := rfl

/-- THE STEP for pipeline 5: from the level facts, the region boundary, the unscoped buffers at `V d`, the core's
    debts `O d` (none at index `none`) with its recorded waits within `Rec d`, and the pipeline's launch ghost state
    and duty tokens, the call of its entry runs to the continuation holding the boundary, the buffers at
    `Vafter5 V d` and the same debts, every recorded wait within `Rec d` or at index `none`. -/
theorem region_step5 [∀ e, Nonempty (Elt F e)] (hO : ∀ c g, O c g none = 0) (d : Dev nD) {α : Type}
    (k : PUnit → Prog (TpuEff nD τ sig (Elt F) (SparseCore.Sig (ΛP (F := F)) 8) .tc) α) (Q : α → sProp (MT nD τ sig (HIx 8) (Elt F) ℕ UU ℕ)) :
    iprop(levAts (K (F := F)).L (K (F := F)).lev ∗ boundary (T d) ∗ unscopedBufs d (V d)
        ∗ (∃ W, ⌜∀ p ∈ W, p ∈ Rec d⌝ ∗ owes (T d) (O d) W)
        ∗ Pipeline.cellsGhost cfgs (EP (F := F)) 5 d ∗ Pipeline.toksInit cfgs (EP (F := F)) 5 d
        ∗ (iprop(boundary (T d) ∗ unscopedBufs d (Vafter5 V d) ∗ (∃ W, ⌜∀ p ∈ W, p ∈ Rec d ∨ p.2 = none⌝ ∗ owes (T d) (O d) W))
            -∗ wp frame (wpE ((K (F := F)).defs (D (F := F))) 𝒱 (T d) none) Set.univ (k ⟨⟩) Q))
      ⊢ wp frame (wpE ((K (F := F)).defs (D (F := F))) 𝒱 (T d) none) Set.univ
          (Prog.lift (.customCall (SparseCore.inner (Pipeline.entry 5)) ()) >>= k) Q := by
  rw [wp_bind]
  refine .trans ?_ ((K (F := F)).wp_liftProg (D (F := F)) 𝒱 (T d) Set.univ none (Prog.lift (.customCall (Pipeline.entry 5) ()))
    (fun x => wp frame (wpE ((K (F := F)).defs (D (F := F))) 𝒱 (T d) none) Set.univ (k x) Q))
  refine .trans ?_ (Pipeline.RegionSeg.wp (pcfgs (F := F)) adm (pd0 V O Rec) (none : HIx 8) cellOf_inj (EP (F := F)) (defs₀ (F := F)) 𝒱₀
    (K (F := F)).L (K (F := F)).lev (reg5 V O Rec hO) d none (fun _ h => nomatch h) (fun x => .ret x)
    (fun x => wp frame (wpE ((K (F := F)).defs (D (F := F))) 𝒱 (T d) none) Set.univ (k x) Q))
  rw [reg5_pre, reg5_post]; unfold pre5 post5 Pipeline.owesWithin
  iintro ⟨Hlev, Hb, Hub, ⟨%W, %hW, HO⟩, Hg, Ht, Hk⟩
  isplitl [Hk]
  · iintro ⟨Hb, Hub, ⟨%W', %hW', HO⟩⟩
    iapply (le_wp_ret _ _ _ _ _)
    iapply Hk
    isplitl [Hb]; · iexact Hb
    isplitl [Hub]; · iexact Hub
    iexists W'; isplitr
    · ipureintro
      intro p hp
      rcases hW' hp with h | ⟨w, s, rfl⟩
      · exact Or.inl h
      · exact Or.inr rfl
    iexact HO
  isplitl [Hb]; · iexact Hb
  isplitl [Hub HO]
  · isplitl [Hub]; · iexact Hub
    iexists W; isplitr; · ipureintro; exact fun p hp => hW p hp
    iexact HO
  isplitl [Hlev]; · iexact Hlev
  isplitl [Hg]; · iexact Hg
  iexact Ht

end Region5

end Cert.Proof.KW

end
-- ==== Proof.Region5W.lean ====
/-
  TensorCore call 5's region step, in the form @main's pair step takes it.
-/
import proofs.«214101_g10505490006249_cont_week2b_118_28_alg».proof.Proof.PairDefsW
import proofs.«214101_g10505490006249_cont_week2b_118_28_alg».proof.Proof.TcRegion5W

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Transfers (shareTok shareDrop pointsTo_toks_split pointsTo_toks_join)

variable {F : FTy → Type}

local notation "𝕄" => MT nD τ sig (HIx 8) (Elt F) ℕ UU ℕ

variable [FloatOps F]

theorem hreg5 [∀ e, Nonempty (Elt F e)] : RegionStep (F := F) 5 main_v45 (tcRes5 (F := F)) := by
  intro V O Rec hO d α k Q
  have h := region_step5 (F := F) V O Rec hO d k Q
  unfold Vafter5 at h
  exact h

end Cert.Proof.KW

end
-- ==== Proof.TcRegion6W.lean ====
/-
  Pipeline 6 (call 13) of the point-convolution program as one step of the TensorCore's thread, exactly as
  pipeline 0: from the region boundary, the core's unscoped buffers at given contents and its debts, the call of
  the pipeline's entry runs to the boundary again, the buffers unchanged but for that call's result array, which
  holds what the proof data computes, and the debts as they were.
-/
import proofs.«214101_g10505490006249_cont_week2b_118_28_alg».proof.Proof.TcRegionW

set_option maxRecDepth 16384

noncomputable section

namespace Cert.Proof.KW

open Cert.Kernel Cert.Kernel.Gen Cert.Proof.TcW

open Idealize.ShloMosaic Idealize.ShloMosaic.TcCoe
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat unscopedRest owesWithin)

variable {F : FTy → Type} [FloatOps F]

/-! ## Pipeline 6 (call 13) -/

section Region6

variable (V : (c : Dev nD) → (b : Ref sig .tc) → Buf (Elt F) ((c : Thread nD τ).loc b))
  (O : Dev nD → CellTallies nD τ sig (HIx 8)) (Rec : Dev nD → Set (SemLoc sig × HIx 8))

/-- The result array of call 13 after the pipeline's run, from the contents `V` the call finds in the core's
    buffers: the array as found, every block overwritten by what the body stored at its point. -/
def tcRes6 (c : Dev nD) (V : (b : Ref sig .tc) → Buf (Elt F) ((c : Thread nD τ).loc b)) : Buf (Elt F) ((c : Thread nD τ).loc main_v47) :=
  (dat13 (Ix := HIx 8) (Name := ℕ) (U := UU) (Lvl := ℕ) c V iprop(emp) 0 Set.univ (fun _ => fullShare)).arrAt 9 cfg13.N

/-- The core's buffers after the call: the result array at what the run computes, every other as found. -/
def Vafter6 (c : Dev nD) : (b : Ref sig .tc) → Buf (Elt F) ((c : Thread nD τ).loc b) :=
  Function.update (V c) main_v47 (tcRes6 c (V c))

/-- The result array is the pipeline's last window. -/
theorem nine_lt6 : (9 : ℕ) < (Pipeline.pin (pcfgs (F := F)) adm 6).W := Nat.lt_succ_self 9

/-- The result array after the run is `tcRes6` of the entry contents: the other parameters do not enter. -/
theorem arrAt_final9_6 (c : Dev nD) :
    (pd0 V O Rec 6 c).arrAt 9 (Pipeline.pin (pcfgs (F := F)) adm 6).N = tcRes6 c (V c) := by
  unfold tcRes6
  exact arrAt_congr (pd0 V O Rec 6 c)
    (dat13 (Ix := HIx 8) (Name := ℕ) (U := UU) (Lvl := ℕ) c (V c) iprop(emp) 0 Set.univ (fun _ => fullShare) : Dat τ (Elt F) (HIx 8) ℕ UU ℕ (Pipeline.pin (pcfgs (F := F)) adm 6) c) 9
    ((pdats_6_A (F := F) (fun _ => V) Xe (fun _ => O) (fun _ => Rec) c 9).trans (A13_eq c (V c) iprop(emp) 0 Set.univ (fun _ => fullShare) 9).symm)
    (fun t => (pdats_6_after9 (F := F) (fun _ => V) Xe (fun _ => O) (fun _ => Rec) c t).trans (after13_9 c (V c) iprop(emp) 0 Set.univ (fun _ => fullShare) t).symm) _

/-- Every window's array after the run, read off the buffers after the call: the inputs' are never written, the
    result's is `tcRes6`. -/
theorem arrAt_final_6 (c : Dev nD) (w : Fin (Pipeline.pin (pcfgs (F := F)) adm 6).W) :
    (pd0 V O Rec 6 c).arrAt w (Pipeline.pin (pcfgs (F := F)) adm 6).N = Vafter6 V c (Pipeline.arrRef (Pipeline.pin (pcfgs (F := F)) adm 6).spec w) := by
  have hi : Function.Injective (Pipeline.arrRef (Pipeline.pin (pcfgs (F := F)) adm 6).spec) := launch13.win.arr_inj
  have hio : ∀ w : Fin 10, w.val ≠ 9 → (win13 w).isOut = false := by decide
  unfold Vafter6
  by_cases hw : w.val = 9
  · have h9 : w = (9 : Fin (Pipeline.pin (pcfgs (F := F)) adm 6).W) := Fin.ext (hw.trans (show (9 : ℕ) = (9 : Fin (Pipeline.pin (pcfgs (F := F)) adm 6).W).val from rfl))
    subst h9
    exact (arrAt_final9_6 V O Rec c).trans (Function.update_self main_v47 (tcRes6 c (V c)) (V c)).symm
  · have hne : Pipeline.arrRef (Pipeline.pin (pcfgs (F := F)) adm 6).spec w ≠ main_v47 := fun e =>
      hw (congrArg Fin.val (hi (show Pipeline.arrRef (Pipeline.pin (pcfgs (F := F)) adm 6).spec w = Pipeline.arrRef (Pipeline.pin (pcfgs (F := F)) adm 6).spec ⟨9, nine_lt6⟩ from e)))
    exact ((pd0 V O Rec 6 c).arrAt_in w (hio w hw) _).trans (Function.update_of_ne hne _ _).symm

/-- The rest of the unscoped buffers, which no window stages, does not see the result array. -/
theorem unscopedRest_after6 (c : Dev nD) :
    (unscopedRest (Ix := HIx 8) (Name := ℕ) (U := UU) (Lvl := ℕ) (Pipeline.pin (pcfgs (F := F)) adm 6).spec c (V c) : sProp (MT nD τ sig (HIx 8) (Elt F) ℕ UU ℕ))
      = unscopedRest (Pipeline.pin (pcfgs (F := F)) adm 6).spec c (Vafter6 V c) := by
  unfold Pipeline.unscopedRest Vafter6
  refine bigSep_congr fun b hb => ?_
  rw [Function.update_of_ne]
  intro e
  exact (Finset.mem_sdiff.mp hb).2 (Finset.mem_image.mpr ⟨⟨9, nine_lt6⟩, Finset.mem_univ _, (show Pipeline.arrRef (Pipeline.pin (pcfgs (F := F)) adm 6).spec ⟨9, nine_lt6⟩ = b from e.symm)⟩)

/-- What the region is entered from: the core's unscoped buffers at `V`, its debts with the recorded waits within `Rec`; -/
def pre6 (c : Dev nD) : sProp (MT nD τ sig (HIx 8) (Elt F) ℕ UU ℕ) := iprop(unscopedBufs c (V c) ∗ owesWithin c (O c) (Rec c))
/-- and what it leaves: the buffers after the call, the same debts, the pipeline's own waits recorded too. -/
def post6 (c : Dev nD) : sProp (MT nD τ sig (HIx 8) (Elt F) ℕ UU ℕ) :=
  iprop(unscopedBufs c (Vafter6 V c) ∗ owesWithin c (O c) (Rec c ∪ (Pipeline.pin (pcfgs (F := F)) adm 6).waitPairs none))

/-- PIPELINE 6 AS A REGION of the TensorCore's thread. Nothing but the scoped rest rides in the invariant; the
    arrays no window stages bypass the region; the body has no semaphore of its own; the pipeline's waits sit at
    index `none`, below everything the core owes. -/
def reg6 (hO : ∀ c g, O c g none = 0) :
    Pipeline.RegionSeg (pcfgs (F := F)) adm (pd0 V O Rec) (none : HIx 8) (defs₀ (F := F)) 𝒱₀ (K (F := F)).L (K (F := F)).lev 6 where
  win := launch13.win.to₀
  block_pos := launch13.block_pos
  stage_whole := launch13.stage_whole
  K := PEmpty
  osem k := k.elim
  ho := Pipeline.OwnSemFacts.none _
  hbody c := hbody6 (F := F) (fun _ => V) Xe (fun _ => O) (fun _ => Rec) c
  hwaits c := Pipeline.cellsWaits_intro (Pipeline.pin (pcfgs (F := F)) adm) (pd0 V O Rec) none 6 c
    fun w s t => (K (F := F)).mayWait_none _ (hO c)
  pre := pre6 V O Rec
  post := post6 V O Rec
  X c := iprop(emp)
  Y c := iprop(emp)
  Z c := unscopedRest (Pipeline.pin (pcfgs (F := F)) adm 6).spec c (V c)
  hentry c := by
    have hsplit := Pipeline.arrays_of_unscopedBufs (pcfgs (F := F)) adm (pd0 V O Rec) (p := 6) launch13.win launch13.arr_whole c
      ((pd0 V O Rec 6 c).share_full fun _ => rfl) (V c) fun _ => rfl
    unfold pre6
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW hp)
      iexact HO
    isplitr; · iempintro
    iexact Hr
  hin c := hin6 (F := F) (fun _ => V) Xe (fun _ => O) (fun _ => Rec) c
  hout c := hout6 (F := F) (fun _ => V) Xe (fun _ => O) (fun _ => Rec) c
  hexit c := by
    unfold post6
    rw [Pipeline.unscopedBufs_split (Pipeline.pin (pcfgs (F := F)) adm) 6 launch13.win.arr_unscoped launch13.win.arr_inj c (Vafter6 V c),
      Pipeline.arrays_eq (Pipeline.pin (pcfgs (F := F)) adm) (pd0 V O Rec) 6 c launch13.arr_whole ((pd0 V O Rec 6 c).share_full fun _ => rfl),
      ← unscopedRest_after6 V c]
    simp only [arrAt_final_6 V O Rec c]
    iintro ⟨Ha, HO, -, HZ⟩
    imodintro
    isplitr [HO]
    · isplitl [Ha]
      · iexact Ha
      · iexact HZ
    · iexact HO

theorem reg6_pre (hO : ∀ c g, O c g none = 0) : (reg6 V O Rec hO).pre = pre6 V O Rec := rfl
theorem reg6_post (hO : ∀ c g, O c g none = 0) : (reg6 V O Rec hO).post = post6 V O Rec := rfl

/-- THE STEP for pipeline 6: from the level facts, the region boundary, the unscoped buffers at `V d`, the core's
    debts `O d` (none at index `none`) with its recorded waits within `Rec d`, and the pipeline's launch ghost state
    and duty tokens, the call of its entry runs to the continuation holding the boundary, the buffers at
    `Vafter6 V d` and the same debts, every recorded wait within `Rec d` or at index `none`. -/
theorem region_step6 [∀ e, Nonempty (Elt F e)] (hO : ∀ c g, O c g none = 0) (d : Dev nD) {α : Type}
    (k : PUnit → Prog (TpuEff nD τ sig (Elt F) (SparseCore.Sig (ΛP (F := F)) 8) .tc) α) (Q : α → sProp (MT nD τ sig (HIx 8) (Elt F) ℕ UU ℕ)) :
    iprop(levAts (K (F := F)).L (K (F := F)).lev ∗ boundary (T d) ∗ unscopedBufs d (V d)
        ∗ (∃ W, ⌜∀ p ∈ W, p ∈ Rec d⌝ ∗ owes (T d) (O d) W)
        ∗ Pipeline.cellsGhost cfgs (EP (F := F)) 6 d ∗ Pipeline.toksInit cfgs (EP (F := F)) 6 d
        ∗ (iprop(boundary (T d) ∗ unscopedBufs d (Vafter6 V d) ∗ (∃ W, ⌜∀ p ∈ W, p ∈ Rec d ∨ p.2 = none⌝ ∗ owes (T d) (O d) W))
            -∗ wp frame (wpE ((K (F := F)).defs (D (F := F))) 𝒱 (T d) none) Set.univ (k ⟨⟩) Q))
      ⊢ wp frame (wpE ((K (F := F)).defs (D (F := F))) 𝒱 (T d) none) Set.univ
          (Prog.lift (.customCall (SparseCore.inner (Pipeline.entry 6)) ()) >>= k) Q := by
  rw [wp_bind]
  refine .trans ?_ ((K (F := F)).wp_liftProg (D (F := F)) 𝒱 (T d) Set.univ none (Prog.lift (.customCall (Pipeline.entry 6) ()))
    (fun x => wp frame (wpE ((K (F := F)).defs (D (F := F))) 𝒱 (T d) none) Set.univ (k x) Q))
  refine .trans ?_ (Pipeline.RegionSeg.wp (pcfgs (F := F)) adm (pd0 V O Rec) (none : HIx 8) cellOf_inj (EP (F := F)) (defs₀ (F := F)) 𝒱₀
    (K (F := F)).L (K (F := F)).lev (reg6 V O Rec hO) d none (fun _ h => nomatch h) (fun x => .ret x)
    (fun x => wp frame (wpE ((K (F := F)).defs (D (F := F))) 𝒱 (T d) none) Set.univ (k x) Q))
  rw [reg6_pre, reg6_post]; unfold pre6 post6 Pipeline.owesWithin
  iintro ⟨Hlev, Hb, Hub, ⟨%W, %hW, HO⟩, Hg, Ht, Hk⟩
  isplitl [Hk]
  · iintro ⟨Hb, Hub, ⟨%W', %hW', HO⟩⟩
    iapply (le_wp_ret _ _ _ _ _)
    iapply Hk
    isplitl [Hb]; · iexact Hb
    isplitl [Hub]; · iexact Hub
    iexists W'; isplitr
    · ipureintro
      intro p hp
      rcases hW' hp with h | ⟨w, s, rfl⟩
      · exact Or.inl h
      · exact Or.inr rfl
    iexact HO
  isplitl [Hb]; · iexact Hb
  isplitl [Hub HO]
  · isplitl [Hub]; · iexact Hub
    iexists W; isplitr; · ipureintro; exact fun p hp => hW p hp
    iexact HO
  isplitl [Hlev]; · iexact Hlev
  isplitl [Hg]; · iexact Hg
  iexact Ht

end Region6

end Cert.Proof.KW

end
-- ==== Proof.Region6W.lean ====
/-
  TensorCore call 6's region step, in the form @main's pair step takes it.
-/
import proofs.«214101_g10505490006249_cont_week2b_118_28_alg».proof.Proof.PairDefsW
import proofs.«214101_g10505490006249_cont_week2b_118_28_alg».proof.Proof.TcRegion6W

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Transfers (shareTok shareDrop pointsTo_toks_split pointsTo_toks_join)

variable {F : FTy → Type}

local notation "𝕄" => MT nD τ sig (HIx 8) (Elt F) ℕ UU ℕ

variable [FloatOps F]

theorem hreg6 [∀ e, Nonempty (Elt F e)] : RegionStep (F := F) 6 main_v47 (tcRes6 (F := F)) := by
  intro V O Rec hO d α k Q
  have h := region_step6 (F := F) V O Rec hO d k Q
  unfold Vafter6 at h
  exact h

end Cert.Proof.KW

end
-- ==== Proof.TcRegion7W.lean ====
/-
  Pipeline 7 (call 15) of the point-convolution program as one step of the TensorCore's thread, exactly as
  pipeline 0: from the region boundary, the core's unscoped buffers at given contents and its debts, the call of
  the pipeline's entry runs to the boundary again, the buffers unchanged but for that call's result array, which
  holds what the proof data computes, and the debts as they were.
-/
import proofs.«214101_g10505490006249_cont_week2b_118_28_alg».proof.Proof.TcRegionW

set_option maxRecDepth 16384

noncomputable section

namespace Cert.Proof.KW

open Cert.Kernel Cert.Kernel.Gen Cert.Proof.TcW

open Idealize.ShloMosaic Idealize.ShloMosaic.TcCoe
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat unscopedRest owesWithin)

variable {F : FTy → Type} [FloatOps F]

/-! ## Pipeline 7 (call 15) -/

section Region7

variable (V : (c : Dev nD) → (b : Ref sig .tc) → Buf (Elt F) ((c : Thread nD τ).loc b))
  (O : Dev nD → CellTallies nD τ sig (HIx 8)) (Rec : Dev nD → Set (SemLoc sig × HIx 8))

/-- The result array of call 15 after the pipeline's run, from the contents `V` the call finds in the core's
    buffers: the array as found, every block overwritten by what the body stored at its point. -/
def tcRes7 (c : Dev nD) (V : (b : Ref sig .tc) → Buf (Elt F) ((c : Thread nD τ).loc b)) : Buf (Elt F) ((c : Thread nD τ).loc main_v49) :=
  (dat15 (Ix := HIx 8) (Name := ℕ) (U := UU) (Lvl := ℕ) c V iprop(emp) 0 Set.univ (fun _ => fullShare)).arrAt 9 cfg15.N

/-- The core's buffers after the call: the result array at what the run computes, every other as found. -/
def Vafter7 (c : Dev nD) : (b : Ref sig .tc) → Buf (Elt F) ((c : Thread nD τ).loc b) :=
  Function.update (V c) main_v49 (tcRes7 c (V c))

/-- The result array is the pipeline's last window. -/
theorem nine_lt7 : (9 : ℕ) < (Pipeline.pin (pcfgs (F := F)) adm 7).W := Nat.lt_succ_self 9

/-- The result array after the run is `tcRes7` of the entry contents: the other parameters do not enter. -/
theorem arrAt_final9_7 (c : Dev nD) :
    (pd0 V O Rec 7 c).arrAt 9 (Pipeline.pin (pcfgs (F := F)) adm 7).N = tcRes7 c (V c) := by
  unfold tcRes7
  exact arrAt_congr (pd0 V O Rec 7 c)
    (dat15 (Ix := HIx 8) (Name := ℕ) (U := UU) (Lvl := ℕ) c (V c) iprop(emp) 0 Set.univ (fun _ => fullShare) : Dat τ (Elt F) (HIx 8) ℕ UU ℕ (Pipeline.pin (pcfgs (F := F)) adm 7) c) 9
    ((pdats_7_A (F := F) (fun _ => V) Xe (fun _ => O) (fun _ => Rec) c 9).trans (A15_eq c (V c) iprop(emp) 0 Set.univ (fun _ => fullShare) 9).symm)
    (fun t => (pdats_7_after9 (F := F) (fun _ => V) Xe (fun _ => O) (fun _ => Rec) c t).trans (after15_9 c (V c) iprop(emp) 0 Set.univ (fun _ => fullShare) t).symm) _

/-- Every window's array after the run, read off the buffers after the call: the inputs' are never written, the
    result's is `tcRes7`. -/
theorem arrAt_final_7 (c : Dev nD) (w : Fin (Pipeline.pin (pcfgs (F := F)) adm 7).W) :
    (pd0 V O Rec 7 c).arrAt w (Pipeline.pin (pcfgs (F := F)) adm 7).N = Vafter7 V c (Pipeline.arrRef (Pipeline.pin (pcfgs (F := F)) adm 7).spec w) := by
  have hi : Function.Injective (Pipeline.arrRef (Pipeline.pin (pcfgs (F := F)) adm 7).spec) := launch15.win.arr_inj
  have hio : ∀ w : Fin 10, w.val ≠ 9 → (win15 w).isOut = false := by decide
  unfold Vafter7
  by_cases hw : w.val = 9
  · have h9 : w = (9 : Fin (Pipeline.pin (pcfgs (F := F)) adm 7).W) := Fin.ext (hw.trans (show (9 : ℕ) = (9 : Fin (Pipeline.pin (pcfgs (F := F)) adm 7).W).val from rfl))
    subst h9
    exact (arrAt_final9_7 V O Rec c).trans (Function.update_self main_v49 (tcRes7 c (V c)) (V c)).symm
  · have hne : Pipeline.arrRef (Pipeline.pin (pcfgs (F := F)) adm 7).spec w ≠ main_v49 := fun e =>
      hw (congrArg Fin.val (hi (show Pipeline.arrRef (Pipeline.pin (pcfgs (F := F)) adm 7).spec w = Pipeline.arrRef (Pipeline.pin (pcfgs (F := F)) adm 7).spec ⟨9, nine_lt7⟩ from e)))
    exact ((pd0 V O Rec 7 c).arrAt_in w (hio w hw) _).trans (Function.update_of_ne hne _ _).symm

/-- The rest of the unscoped buffers, which no window stages, does not see the result array. -/
theorem unscopedRest_after7 (c : Dev nD) :
    (unscopedRest (Ix := HIx 8) (Name := ℕ) (U := UU) (Lvl := ℕ) (Pipeline.pin (pcfgs (F := F)) adm 7).spec c (V c) : sProp (MT nD τ sig (HIx 8) (Elt F) ℕ UU ℕ))
      = unscopedRest (Pipeline.pin (pcfgs (F := F)) adm 7).spec c (Vafter7 V c) := by
  unfold Pipeline.unscopedRest Vafter7
  refine bigSep_congr fun b hb => ?_
  rw [Function.update_of_ne]
  intro e
  exact (Finset.mem_sdiff.mp hb).2 (Finset.mem_image.mpr ⟨⟨9, nine_lt7⟩, Finset.mem_univ _, (show Pipeline.arrRef (Pipeline.pin (pcfgs (F := F)) adm 7).spec ⟨9, nine_lt7⟩ = b from e.symm)⟩)

/-- What the region is entered from: the core's unscoped buffers at `V`, its debts with the recorded waits within `Rec`; -/
def pre7 (c : Dev nD) : sProp (MT nD τ sig (HIx 8) (Elt F) ℕ UU ℕ) := iprop(unscopedBufs c (V c) ∗ owesWithin c (O c) (Rec c))
/-- and what it leaves: the buffers after the call, the same debts, the pipeline's own waits recorded too. -/
def post7 (c : Dev nD) : sProp (MT nD τ sig (HIx 8) (Elt F) ℕ UU ℕ) :=
  iprop(unscopedBufs c (Vafter7 V c) ∗ owesWithin c (O c) (Rec c ∪ (Pipeline.pin (pcfgs (F := F)) adm 7).waitPairs none))

/-- PIPELINE 7 AS A REGION of the TensorCore's thread. Nothing but the scoped rest rides in the invariant; the
    arrays no window stages bypass the region; the body has no semaphore of its own; the pipeline's waits sit at
    index `none`, below everything the core owes. -/
def reg7 (hO : ∀ c g, O c g none = 0) :
    Pipeline.RegionSeg (pcfgs (F := F)) adm (pd0 V O Rec) (none : HIx 8) (defs₀ (F := F)) 𝒱₀ (K (F := F)).L (K (F := F)).lev 7 where
  win := launch15.win.to₀
  block_pos := launch15.block_pos
  stage_whole := launch15.stage_whole
  K := PEmpty
  osem k := k.elim
  ho := Pipeline.OwnSemFacts.none _
  hbody c := hbody7 (F := F) (fun _ => V) Xe (fun _ => O) (fun _ => Rec) c
  hwaits c := Pipeline.cellsWaits_intro (Pipeline.pin (pcfgs (F := F)) adm) (pd0 V O Rec) none 7 c
    fun w s t => (K (F := F)).mayWait_none _ (hO c)
  pre := pre7 V O Rec
  post := post7 V O Rec
  X c := iprop(emp)
  Y c := iprop(emp)
  Z c := unscopedRest (Pipeline.pin (pcfgs (F := F)) adm 7).spec c (V c)
  hentry c := by
    have hsplit := Pipeline.arrays_of_unscopedBufs (pcfgs (F := F)) adm (pd0 V O Rec) (p := 7) launch15.win launch15.arr_whole c
      ((pd0 V O Rec 7 c).share_full fun _ => rfl) (V c) fun _ => rfl
    unfold pre7
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW hp)
      iexact HO
    isplitr; · iempintro
    iexact Hr
  hin c := hin7 (F := F) (fun _ => V) Xe (fun _ => O) (fun _ => Rec) c
  hout c := hout7 (F := F) (fun _ => V) Xe (fun _ => O) (fun _ => Rec) c
  hexit c := by
    unfold post7
    rw [Pipeline.unscopedBufs_split (Pipeline.pin (pcfgs (F := F)) adm) 7 launch15.win.arr_unscoped launch15.win.arr_inj c (Vafter7 V c),
      Pipeline.arrays_eq (Pipeline.pin (pcfgs (F := F)) adm) (pd0 V O Rec) 7 c launch15.arr_whole ((pd0 V O Rec 7 c).share_full fun _ => rfl),
      ← unscopedRest_after7 V c]
    simp only [arrAt_final_7 V O Rec c]
    iintro ⟨Ha, HO, -, HZ⟩
    imodintro
    isplitr [HO]
    · isplitl [Ha]
      · iexact Ha
      · iexact HZ
    · iexact HO

theorem reg7_pre (hO : ∀ c g, O c g none = 0) : (reg7 V O Rec hO).pre = pre7 V O Rec := rfl
theorem reg7_post (hO : ∀ c g, O c g none = 0) : (reg7 V O Rec hO).post = post7 V O Rec := rfl

/-- THE STEP for pipeline 7: from the level facts, the region boundary, the unscoped buffers at `V d`, the core's
    debts `O d` (none at index `none`) with its recorded waits within `Rec d`, and the pipeline's launch ghost state
    and duty tokens, the call of its entry runs to the continuation holding the boundary, the buffers at
    `Vafter7 V d` and the same debts, every recorded wait within `Rec d` or at index `none`. -/
theorem region_step7 [∀ e, Nonempty (Elt F e)] (hO : ∀ c g, O c g none = 0) (d : Dev nD) {α : Type}
    (k : PUnit → Prog (TpuEff nD τ sig (Elt F) (SparseCore.Sig (ΛP (F := F)) 8) .tc) α) (Q : α → sProp (MT nD τ sig (HIx 8) (Elt F) ℕ UU ℕ)) :
    iprop(levAts (K (F := F)).L (K (F := F)).lev ∗ boundary (T d) ∗ unscopedBufs d (V d)
        ∗ (∃ W, ⌜∀ p ∈ W, p ∈ Rec d⌝ ∗ owes (T d) (O d) W)
        ∗ Pipeline.cellsGhost cfgs (EP (F := F)) 7 d ∗ Pipeline.toksInit cfgs (EP (F := F)) 7 d
        ∗ (iprop(boundary (T d) ∗ unscopedBufs d (Vafter7 V d) ∗ (∃ W, ⌜∀ p ∈ W, p ∈ Rec d ∨ p.2 = none⌝ ∗ owes (T d) (O d) W))
            -∗ wp frame (wpE ((K (F := F)).defs (D (F := F))) 𝒱 (T d) none) Set.univ (k ⟨⟩) Q))
      ⊢ wp frame (wpE ((K (F := F)).defs (D (F := F))) 𝒱 (T d) none) Set.univ
          (Prog.lift (.customCall (SparseCore.inner (Pipeline.entry 7)) ()) >>= k) Q := by
  rw [wp_bind]
  refine .trans ?_ ((K (F := F)).wp_liftProg (D (F := F)) 𝒱 (T d) Set.univ none (Prog.lift (.customCall (Pipeline.entry 7) ()))
    (fun x => wp frame (wpE ((K (F := F)).defs (D (F := F))) 𝒱 (T d) none) Set.univ (k x) Q))
  refine .trans ?_ (Pipeline.RegionSeg.wp (pcfgs (F := F)) adm (pd0 V O Rec) (none : HIx 8) cellOf_inj (EP (F := F)) (defs₀ (F := F)) 𝒱₀
    (K (F := F)).L (K (F := F)).lev (reg7 V O Rec hO) d none (fun _ h => nomatch h) (fun x => .ret x)
    (fun x => wp frame (wpE ((K (F := F)).defs (D (F := F))) 𝒱 (T d) none) Set.univ (k x) Q))
  rw [reg7_pre, reg7_post]; unfold pre7 post7 Pipeline.owesWithin
  iintro ⟨Hlev, Hb, Hub, ⟨%W, %hW, HO⟩, Hg, Ht, Hk⟩
  isplitl [Hk]
  · iintro ⟨Hb, Hub, ⟨%W', %hW', HO⟩⟩
    iapply (le_wp_ret _ _ _ _ _)
    iapply Hk
    isplitl [Hb]; · iexact Hb
    isplitl [Hub]; · iexact Hub
    iexists W'; isplitr
    · ipureintro
      intro p hp
      rcases hW' hp with h | ⟨w, s, rfl⟩
      · exact Or.inl h
      · exact Or.inr rfl
    iexact HO
  isplitl [Hb]; · iexact Hb
  isplitl [Hub HO]
  · isplitl [Hub]; · iexact Hub
    iexists W; isplitr; · ipureintro; exact fun p hp => hW p hp
    iexact HO
  isplitl [Hlev]; · iexact Hlev
  isplitl [Hg]; · iexact Hg
  iexact Ht

end Region7

end Cert.Proof.KW

end
-- ==== Proof.Region7W.lean ====
/-
  TensorCore call 7's region step, in the form @main's pair step takes it.
-/
import proofs.«214101_g10505490006249_cont_week2b_118_28_alg».proof.Proof.PairDefsW
import proofs.«214101_g10505490006249_cont_week2b_118_28_alg».proof.Proof.TcRegion7W

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Transfers (shareTok shareDrop pointsTo_toks_split pointsTo_toks_join)

variable {F : FTy → Type}

local notation "𝕄" => MT nD τ sig (HIx 8) (Elt F) ℕ UU ℕ

variable [FloatOps F]

theorem hreg7 [∀ e, Nonempty (Elt F e)] : RegionStep (F := F) 7 main_v49 (tcRes7 (F := F)) := by
  intro V O Rec hO d α k Q
  have h := region_step7 (F := F) V O Rec hO d k Q
  unfold Vafter7 at h
  exact h

end Cert.Proof.KW

end
-- ==== Proof.MathSpec.lean ====
/-
  The layer's result as one function of the argument arrays, element by element, written twice:
  RefOut follows the order in which the plain formula computes it (gather the sixteen neighbour
  rows, subtract the query point and the kernel centres, three dense layers with a rectifier, the
  neighbour-weighted features, the output matrix, the mean over the sixteen neighbours, the bias);
  KerOut follows the rearranged computation (the first layer folded into a 128-column table row
  and a per-point bias, the mean folded into the output matrix). The law KerOut = RefOut holds
  when every float entry is a real number and every neighbour index lies in [0, 8191].
-/
import Idealize.ShloMosaic.PureOps.Ideal
import Idealize.ShloMosaic.PureOps.Ideal.Laws
import Idealize.ShloMosaic.Lib.ValueIdx
import Mathlib

noncomputable section

namespace Cert.Proof.Math

open Idealize.ShloMosaic Idealize.ShloMosaic.ValueIdx
open scoped BigOperators

/-- The thirteen arrays the result depends on (the fourteenth argument, the neighbour count, is not read). -/
structure Args where
  inp : (⟨3, ![4, 8192, 64]⟩ : Shape).Idx → EReal
  points : (⟨3, ![4, 8192, 3]⟩ : Shape).Idx → EReal
  next : (⟨3, ![4, 8192, 3]⟩ : Shape).Idx → EReal
  idx : (⟨3, ![4, 8192, 16]⟩ : Shape).Idx → BitVec 32
  weight : (⟨3, ![64, 16, 64]⟩ : Shape).Idx → EReal
  bias : (⟨1, ![64]⟩ : Shape).Idx → EReal
  centers : (⟨2, ![3, 16]⟩ : Shape).Idx → EReal
  w1 : (⟨2, ![32, 48]⟩ : Shape).Idx → EReal
  b1 : (⟨1, ![32]⟩ : Shape).Idx → EReal
  w2 : (⟨2, ![16, 32]⟩ : Shape).Idx → EReal
  b2 : (⟨1, ![16]⟩ : Shape).Idx → EReal
  w3 : (⟨2, ![16, 16]⟩ : Shape).Idx → EReal
  b3 : (⟨1, ![16]⟩ : Shape).Idx → EReal

/-! ## Index arithmetic on literal ranges -/

/-- Batch of a flattened point row r = b · 8192 + m. -/
def flatB (r : Fin 32768) : Fin 4 := ⟨r.val / 8192, by have := r.isLt; omega⟩
/-- Position inside its batch of a flattened point row. -/
def flatM (r : Fin 32768) : Fin 8192 := ⟨r.val % 8192, by omega⟩
/-- Quotient by 16 on [0, 48): the coordinate d of the column d · 16 + n of the first layer's input. -/
def q48 (t : Fin 48) : Fin 3 := ⟨t.val / 16, by have := t.isLt; omega⟩
/-- Remainder by 16 on [0, 48): the centre n of that column. -/
def r48 (t : Fin 48) : Fin 16 := ⟨t.val % 16, by omega⟩
/-- The column d · 16 + n. -/
def col48 (d : Fin 3) (n : Fin 16) : Fin 48 := ⟨d.val * 16 + n.val, by have := d.isLt; have := n.isLt; omega⟩
/-- Quotient by 16 on [0, 1024): the feature c of the flattened index c · 16 + n. -/
def q16 (t : Fin 1024) : Fin 64 := ⟨t.val / 16, by have := t.isLt; omega⟩
/-- Remainder by 16 on [0, 1024). -/
def r16 (t : Fin 1024) : Fin 16 := ⟨t.val % 16, by omega⟩
/-- Quotient by 64 on [0, 1024): the centre n of the flattened index n · 64 + c. -/
def q64 (t : Fin 1024) : Fin 16 := ⟨t.val / 64, by have := t.isLt; omega⟩
/-- Remainder by 64 on [0, 1024). -/
def r64 (t : Fin 1024) : Fin 64 := ⟨t.val % 64, by omega⟩

/-! ## The gathered rows -/

/-- The flattened feature array, row r = b · 8192 + m. -/
def inpFlat (A : Args) (r : Fin 32768) (c : Fin 64) : EReal := A.inp (ix3 (flatB r) (flatM r) c)
/-- The flattened point array. -/
def ptsFlat (A : Args) (r : Fin 32768) (d : Fin 3) : EReal := A.points (ix3 (flatB r) (flatM r) d)

/-- The neighbour index moved into its batch's stretch of the flattened rows, as a 32-bit word. -/
def rowWord (A : Args) (b : Fin 4) (m : Fin 8192) (k : Fin 16) : BitVec 32 :=
  A.idx (ix3 b m k) + BitVec.ofNat 32 (b.val * 8192)
/-- The row it names (a word past the last row names the last row; under the index range none is). -/
def row (A : Args) (b : Fin 4) (m : Fin 8192) (k : Fin 16) : Fin 32768 :=
  ⟨min (rowWord A b m k).toNat 32767, by omega⟩

/-- The index range: every neighbour index, read as a signed word, lies in [0, 8191]. -/
def IdxOk (A : Args) : Prop := ∀ i, 0 ≤ (A.idx i).toInt ∧ (A.idx i).toInt ≤ 8191

/-- Every float entry is a real number. -/
structure Finite (A : Args) : Prop where
  inp : ∀ i, ∃ x : ℝ, A.inp i = (x : EReal)
  points : ∀ i, ∃ x : ℝ, A.points i = (x : EReal)
  next : ∀ i, ∃ x : ℝ, A.next i = (x : EReal)
  weight : ∀ i, ∃ x : ℝ, A.weight i = (x : EReal)
  bias : ∀ i, ∃ x : ℝ, A.bias i = (x : EReal)
  centers : ∀ i, ∃ x : ℝ, A.centers i = (x : EReal)
  w1 : ∀ i, ∃ x : ℝ, A.w1 i = (x : EReal)
  b1 : ∀ i, ∃ x : ℝ, A.b1 i = (x : EReal)
  w2 : ∀ i, ∃ x : ℝ, A.w2 i = (x : EReal)
  b2 : ∀ i, ∃ x : ℝ, A.b2 i = (x : EReal)
  w3 : ∀ i, ∃ x : ℝ, A.w3 i = (x : EReal)
  b3 : ∀ i, ∃ x : ℝ, A.b3 i = (x : EReal)

/-! ## The two dense layers both forms share -/

/-- Second layer with its rectifier, on one neighbour's 32 activations. -/
def layer2 (A : Args) (h : Fin 32 → EReal) (n : Fin 16) : EReal :=
  max ((∑ j : Fin 32, h j * A.w2 (ix2 n j)) + A.b2 (ix1 n)) 0
/-- Third layer with its rectifier. -/
def layer3 (A : Args) (h : Fin 16 → EReal) (n : Fin 16) : EReal :=
  max ((∑ a : Fin 16, h a * A.w3 (ix2 n a)) + A.b3 (ix1 n)) 0

/-! ## The plain form -/

/-- Feature c of neighbour k of point (b, m). -/
def feat (A : Args) (b : Fin 4) (m : Fin 8192) (k : Fin 16) (c : Fin 64) : EReal := inpFlat A (row A b m k) c
/-- Neighbour k's position relative to the query point. -/
def rel (A : Args) (b : Fin 4) (m : Fin 8192) (k : Fin 16) (d : Fin 3) : EReal :=
  ptsFlat A (row A b m k) d - A.next (ix3 b m d)
/-- … and relative to each kernel centre, flattened to 48 columns d · 16 + n. -/
def dist (A : Args) (b : Fin 4) (m : Fin 8192) (k : Fin 16) (t : Fin 48) : EReal :=
  rel A b m k (q48 t) - A.centers (ix2 (q48 t) (r48 t))
/-- First layer with its rectifier. -/
def h1R (A : Args) (b : Fin 4) (m : Fin 8192) (k : Fin 16) (j : Fin 32) : EReal :=
  max ((∑ t : Fin 48, dist A b m k t * A.w1 (ix2 j t)) + A.b1 (ix1 j)) 0
/-- The three layers. -/
def h3R (A : Args) (b : Fin 4) (m : Fin 8192) (k : Fin 16) (n : Fin 16) : EReal :=
  layer3 A (layer2 A (h1R A b m k)) n
/-- Features weighted by the third layer's activations, summed over the neighbours. -/
def fR (A : Args) (b : Fin 4) (m : Fin 8192) (c : Fin 64) (n : Fin 16) : EReal :=
  ∑ k : Fin 16, feat A b m k c * h3R A b m k n
/-- The result, plain form: the output matrix on the 1024 columns c · 16 + n, the mean over sixteen, the bias. -/
def RefOut (A : Args) (b : Fin 4) (m : Fin 8192) (o : Fin 64) : EReal :=
  Ideal.div (∑ t : Fin 1024, fR A b m (q16 t) (r16 t) * A.weight (ix3 (q16 t) (r16 t) o))
      (Ideal.ofBits .f32 0x41800000#32)
    + A.bias (ix1 o)

/-! ## The rearranged form -/

/-- First-layer weights summed over the sixteen centres of one coordinate. -/
def w1e (A : Args) (d : Fin 3) (j : Fin 32) : EReal := ∑ n : Fin 16, A.w1 (ix2 j (col48 d n))
/-- The centres' contribution to the first layer. -/
def cw (A : Args) (j : Fin 32) : EReal := ∑ d : Fin 3, ∑ n : Fin 16, A.w1 (ix2 j (col48 d n)) * A.centers (ix2 d n)
/-- First-layer bias less the centres' contribution. -/
def b1e (A : Args) (j : Fin 32) : EReal := A.b1 (ix1 j) - cw A j
/-- The per-point bias: that, less the query point's contribution. -/
def hb (A : Args) (b : Fin 4) (m : Fin 8192) (j : Fin 32) : EReal :=
  b1e A j - ∑ d : Fin 3, A.next (ix3 b m d) * w1e A d j
/-- The gather table: 64 feature columns, 3 coordinate columns, 61 zero columns. -/
def tbl (A : Args) (r : Fin 32768) (col : Fin 128) : EReal :=
  if h : col.val < 64 then inpFlat A r ⟨col.val, h⟩
  else if h' : col.val < 67 then ptsFlat A r ⟨col.val - 64, by omega⟩
  else 0
/-- The folded first-layer weights on the table's columns: rows 64 to 66 carry w1e, the others zero. -/
def w1p (A : Args) (col : Fin 128) (j : Fin 32) : EReal :=
  if h : 64 ≤ col.val ∧ col.val < 67 then w1e A ⟨col.val - 64, by omega⟩ j else 0
/-- First layer with its rectifier, rearranged. -/
def h1K (A : Args) (b : Fin 4) (m : Fin 8192) (k : Fin 16) (j : Fin 32) : EReal :=
  max ((∑ col : Fin 128, tbl A (row A b m k) col * w1p A col j) + hb A b m j) 0
/-- The three layers. -/
def h3K (A : Args) (b : Fin 4) (m : Fin 8192) (k : Fin 16) (n : Fin 16) : EReal :=
  layer3 A (layer2 A (h1K A b m k)) n
/-- Third-layer activations weighting the table's feature columns, summed over the neighbours. -/
def fpre (A : Args) (b : Fin 4) (m : Fin 8192) (n : Fin 16) (c : Fin 64) : EReal :=
  ∑ k : Fin 16, h3K A b m k n * tbl A (row A b m k) ⟨c.val, by have := c.isLt; omega⟩
/-- The output matrix with the mean folded in, on the 1024 rows n · 64 + c. -/
def wn (A : Args) (t : Fin 1024) (o : Fin 64) : EReal :=
  Ideal.div (A.weight (ix3 (r64 t) (q64 t) o)) (Ideal.ofBits .f32 0x41800000#32)
/-- The result, rearranged form. -/
def KerOut (A : Args) (b : Fin 4) (m : Fin 8192) (o : Fin 64) : EReal :=
  (∑ t : Fin 1024, fpre A b m (q64 t) (r64 t) * wn A t o) + A.bias (ix1 o)

end Cert.Proof.Math

end
-- ==== Proof.MathPre.lean ====
/-
  The precondition read back. It is a conjunction of thirteen tests "every entry's absolute value is
  below +∞", one per float array, of the test "every neighbour index is at least 0 and at most
  8191, as signed words", and of a test on the neighbour count that the result does not read.
  An extended real whose absolute value is below +∞ is a real number; a signed comparison that
  answers yes is the order of the integers the words denote.
-/
import proofs.«214101_g10505490006249_cont_week2b_118_28_alg».proof.Pre_input_domain
import proofs.«214101_g10505490006249_cont_week2b_118_28_alg».proof.Proof.MathSpec
import Idealize.ShloMosaic.Lib.ReduceAll

noncomputable section

namespace Cert.Proof.Math

open Idealize.ShloMosaic Idealize.ShloMosaic.ValueIdx Cert.Pre_input_domain
open scoped BigOperators

/-- The scalar shape has one index. -/
instance : Subsingleton Cert.Pre_input_domain.S_.Idx := ⟨fun a b => funext fun d => d.elim0⟩

/-- The word 0x7F800000 is +∞. -/
theorem ofBits_inf : Ideal.ofBits .f32 0x7F800000#32 = ⊤ := by simp [Ideal.ofBits, Ideal.ieee]

/-- An extended real whose absolute value is below +∞ is a real number. -/
theorem real_of_abs_lt (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- A test "all entries pass" that answers yes: every entry is a real number. -/
theorem all_real {s : Shape} {axes : List (Fin s.rank)} (x : s.Idx → EReal) (p : s.Idx → BitVec 1)
    (init : Cert.Pre_input_domain.S_.Idx → BitVec 1) (h : s.ReducesTo axes Cert.Pre_input_domain.S_)
    (hu : 0 < Cert.Pre_input_domain.S_.numel)
    (hp : ∀ i, p i = Ideal.cmp .olt (max (x i) (-(x i))) (Ideal.ofBits .f32 0x7F800000#32))
    (e : Host.reduce IntOp.andi p init h hu ix0 = 1#1) : ∀ i, ∃ r : ℝ, x i = (r : EReal) := fun i =>
  real_of_abs_lt (x i) ((hp i).symm.trans (Host.reduce_andi_all p init h hu ix0 e i))

/-- The index test that answers yes: every index is in [0, 8191] as a signed word. -/
theorem all_in_range {s : Shape} {axes : List (Fin s.rank)} (x : s.Idx → BitVec 32) (p : s.Idx → BitVec 1)
    (init : Cert.Pre_input_domain.S_.Idx → BitVec 1) (h : s.ReducesTo axes Cert.Pre_input_domain.S_)
    (hu : 0 < Cert.Pre_input_domain.S_.numel)
    (hp : ∀ i, p i = IntOp.andi (IntOp.cmpi .sge (x i) 0#32) (IntOp.cmpi .sle (x i) 8191#32))
    (e : Host.reduce IntOp.andi p init h hu ix0 = 1#1) : ∀ i, 0 ≤ (x i).toInt ∧ (x i).toInt ≤ 8191 := fun i => by
  have hi := (hp i).symm.trans (Host.reduce_andi_all p init h hu ix0 e i)
  rw [IntOp.andi_eq_one, IntOp.cmpi_sge, IntOp.cmpi_sle] at hi
  exact ⟨by simpa using hi.1, by simpa using hi.2⟩

variable [Cert.Pre_input_domain.Facts]

/-- The precondition says: every float entry is a real number and every neighbour index is in range. -/
theorem pre_decode (x0 : FVec Ideal S4x8192x64 .f32) (x1 x2 : FVec Ideal S4x8192x3 .f32) (x3 : IVec S4x8192x16 32)
    (x4 : IVec Cert.Pre_input_domain.S_ 32) (x5 : FVec Ideal S64x16x64 .f32) (x6 : FVec Ideal S64 .f32)
    (x7 : FVec Ideal S3x16 .f32) (x8 : FVec Ideal S32x48 .f32) (x9 : FVec Ideal S32 .f32)
    (x10 : FVec Ideal S16x32 .f32) (x11 : FVec Ideal S16 .f32) (x12 : FVec Ideal S16x16 .f32)
    (x13 : FVec Ideal S16 .f32)
    (h : Cert.Pre_input_domain.fn (F := Ideal) x0 x1 x2 x3 x4 x5 x6 x7 x8 x9 x10 x11 x12 x13 = fun _ => 1#1) :
    Finite (⟨x0, x1, x2, x3, x5, x6, x7, x8, x9, x10, x11, x12, x13⟩ : Args)
      ∧ IdxOk (⟨x0, x1, x2, x3, x5, x6, x7, x8, x9, x10, x11, x12, x13⟩ : Args) := by
  have e := congrFun h ix0
  unfold Cert.Pre_input_domain.fn Cert.Pre_input_domain.fn_part1 Cert.Pre_input_domain.fn_part2
    Cert.Pre_input_domain.fn_part3 Cert.Pre_input_domain.fn_part4 at e
  simp only [andi, IntOp.andi_eq_one] at e
  obtain ⟨⟨⟨⟨⟨⟨⟨⟨⟨⟨⟨⟨⟨h0, h1⟩, h2⟩, h5⟩, h6⟩, h7⟩, h8⟩, h9⟩, h10⟩, h11⟩, h12⟩, h13⟩, h3⟩, -⟩ := e
  refine ⟨⟨all_real x0 _ _ _ _ (fun _ => rfl) h0, all_real x1 _ _ _ _ (fun _ => rfl) h1,
    all_real x2 _ _ _ _ (fun _ => rfl) h2, all_real x5 _ _ _ _ (fun _ => rfl) h5,
    all_real x6 _ _ _ _ (fun _ => rfl) h6, all_real x7 _ _ _ _ (fun _ => rfl) h7,
    all_real x8 _ _ _ _ (fun _ => rfl) h8, all_real x9 _ _ _ _ (fun _ => rfl) h9,
    all_real x10 _ _ _ _ (fun _ => rfl) h10, all_real x11 _ _ _ _ (fun _ => rfl) h11,
    all_real x12 _ _ _ _ (fun _ => rfl) h12, all_real x13 _ _ _ _ (fun _ => rfl) h13⟩, ?_⟩
  exact all_in_range x3 _ _ _ _ (fun _ => rfl) h3

end Cert.Proof.Math

end
-- ==== Proof.KerRange.lean ====
/-
  Every entry of the flat index list is below 32768. Entry e = (b · 8192 + m) · 16 + k is the neighbour index
  of (b, m, k) plus the batch offset b · 8192, as 32-bit words; the precondition's index test says the
  neighbour index lies in [0, 8191] as a signed word, so it is its unsigned reading, at most 8191, and the sum
  does not wrap. The index list is built by integer operations only, so this holds whatever the float values are.
-/
import proofs.«214101_g10505490006249_cont_week2b_118_28_alg».proof.Proof.MainHost
import proofs.«214101_g10505490006249_cont_week2b_118_28_alg».proof.Proof.MathPre
import Idealize.ShloMosaic.Lib.Pipeline.Value

noncomputable section

namespace Cert.Proof.KI

open Cert.KernelIdeal Cert.KernelIdeal.Gen
open Idealize.ShloMosaic Idealize.SL.Sem Idealize.ShloMosaic.ValueIdx Idealize.ShloMosaic.StableHlo

variable {F : FTy → Type} [FloatOps F]

/-- The neighbour indices as the program finds them in a memory. -/
abbrev idxArr (m : (ℓ : Loc nD τ sig) → Buf (Elt F) ℓ) (d : Dev nD) : IVec S4x8192x16 32 := m ((d.tc : Thread nD τ).loc main_arg3)

set_option maxRecDepth 8192 in
set_option maxHeartbeats 4000000 in
/-- Entry e of the index list: the neighbour index plus its batch's offset. -/
theorem iv_at (m : (ℓ : Loc nD τ sig) → Buf (Elt F) ℓ) (d : Dev nD) (e : Fin 524288) :
    ivOf m d (ix1 e)
      = idxArr m d
          (ix3 (⟨e.val / 131072, by have := e.isLt; omega⟩ : Fin 4) (⟨e.val / 16 % 8192, by omega⟩ : Fin 8192)
            (⟨e.val % 16, by omega⟩ : Fin 16))
        + BitVec.ofNat 32 (e.val / 131072 * 8192) := by
  have he := e.isLt
  unfold ivOf V1 opsPre
  after_results
  refine (shapeCast_apply _ shapeCasts_S4x8192x16_S524288 (ix1 e)
    (ix3 (⟨e.val / 131072, by omega⟩ : Fin 4) (⟨e.val / 16 % 8192, by omega⟩ : Fin 8192) (⟨e.val % 16, by omega⟩ : Fin 16))
    (by rw [Shape.rowMajor_val_three, Shape.rowMajor_val_one]
        show (e.val / 131072 * 8192 + e.val / 16 % 8192) * 16 + e.val % 16 = e.val; omega)).trans ?_
  show idxArr m d _ + BitVec.ofNat 32 (e.val / 131072) * BitVec.ofNat 32 8192 = _
  rw [BitVec.ofNat_mul]

/-- A word in [0, 8191] as a signed integer, moved by a batch offset, stays below 32768. -/
theorem offset_lt (w : BitVec 32) (h0 : 0 ≤ w.toInt) (h1 : w.toInt ≤ 8191) (b : Nat) (hb : b < 4) :
    (w + BitVec.ofNat 32 (b * 8192)).toNat < 32768 := by
  have hc := BitVec.toInt_eq_toNat_cond w
  have hlt := w.isLt
  have hw : w.toNat ≤ 8191 := by split at hc <;> omega
  rw [BitVec.toNat_add, BitVec.toNat_ofNat]
  omega

variable [Cert.Pre_input_domain.Facts]

/-- Under the precondition every entry of the index list names one of the 32768 table rows. -/
theorem iv_in_range (m : (ℓ : Loc nD τ sig) → Buf (Elt F) ℓ)
    (hpre : ∀ c : Dev nD, Cert.Pre_input_domain.fn (F := F)
      (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8))
      (m ((c.tc : Thread nD τ).loc main_arg9)) (m ((c.tc : Thread nD τ).loc main_arg10)) (m ((c.tc : Thread nD τ).loc main_arg11))
      (m ((c.tc : Thread nD τ).loc main_arg12)) (m ((c.tc : Thread nD τ).loc main_arg13)) = fun _ => 1#1) :
    ∀ (d : Dev nD) (e : S524288.Idx), (ivOf m d e).toNat < 32768 := by
  intro d e
  have hrange : ∀ i, 0 ≤ (idxArr m d i).toInt ∧ (idxArr m d i).toInt ≤ 8191 := by
    have h := congrFun (hpre d) ix0
    unfold Cert.Pre_input_domain.fn Cert.Pre_input_domain.fn_part1 Cert.Pre_input_domain.fn_part2
      Cert.Pre_input_domain.fn_part3 Cert.Pre_input_domain.fn_part4 at h
    simp only [andi, IntOp.andi_eq_one] at h
    obtain ⟨⟨-, h3⟩, -⟩ := h
    exact Cert.Proof.Math.all_in_range (idxArr m d) _ _ _ _ (fun _ => rfl) h3
  obtain ⟨e0, rfl⟩ : ∃ e0 : Fin 524288, e = ix1 e0 := ⟨e 0, eq_ix1 e⟩
  have he := e0.isLt
  rw [iv_at]
  exact offset_lt _ (hrange _).1 (hrange _).2 _ (by omega)

end Cert.Proof.KI

end
-- ==== Proof.KerRangeW.lean ====
/-
  Every entry of the flat index list is below 32768. Entry e = (b · 8192 + m) · 16 + k is the neighbour index
  of (b, m, k) plus the batch offset b · 8192, as 32-bit words; the precondition's index test says the
  neighbour index lies in [0, 8191] as a signed word, so it is its unsigned reading, at most 8191, and the sum
  does not wrap. The index list is built by integer operations only, so this holds whatever the float values are.
-/
import proofs.«214101_g10505490006249_cont_week2b_118_28_alg».proof.Proof.MainHostW
import proofs.«214101_g10505490006249_cont_week2b_118_28_alg».proof.Proof.MathPre
import Idealize.ShloMosaic.Lib.Pipeline.Value

noncomputable section

namespace Cert.Proof.KW

open Cert.Kernel Cert.Kernel.Gen
open Idealize.ShloMosaic Idealize.SL.Sem Idealize.ShloMosaic.ValueIdx Idealize.ShloMosaic.StableHlo

variable {F : FTy → Type} [FloatOps F]

/-- The neighbour indices as the program finds them in a memory. -/
abbrev idxArr (m : (ℓ : Loc nD τ sig) → Buf (Elt F) ℓ) (d : Dev nD) : IVec S4x8192x16 32 := m ((d.tc : Thread nD τ).loc main_arg3)

set_option maxRecDepth 8192 in
set_option maxHeartbeats 4000000 in
/-- Entry e of the index list: the neighbour index plus its batch's offset. -/
theorem iv_at (m : (ℓ : Loc nD τ sig) → Buf (Elt F) ℓ) (d : Dev nD) (e : Fin 524288) :
    ivOf m d (ix1 e)
      = idxArr m d
          (ix3 (⟨e.val / 131072, by have := e.isLt; omega⟩ : Fin 4) (⟨e.val / 16 % 8192, by omega⟩ : Fin 8192)
            (⟨e.val % 16, by omega⟩ : Fin 16))
        + BitVec.ofNat 32 (e.val / 131072 * 8192) := by
  have he := e.isLt
  unfold ivOf V1 opsPre
  after_results
  refine (shapeCast_apply _ shapeCasts_S4x8192x16_S524288 (ix1 e)
    (ix3 (⟨e.val / 131072, by omega⟩ : Fin 4) (⟨e.val / 16 % 8192, by omega⟩ : Fin 8192) (⟨e.val % 16, by omega⟩ : Fin 16))
    (by rw [Shape.rowMajor_val_three, Shape.rowMajor_val_one]
        show (e.val / 131072 * 8192 + e.val / 16 % 8192) * 16 + e.val % 16 = e.val; omega)).trans ?_
  show idxArr m d _ + BitVec.ofNat 32 (e.val / 131072) * BitVec.ofNat 32 8192 = _
  rw [BitVec.ofNat_mul]

/-- A word in [0, 8191] as a signed integer, moved by a batch offset, stays below 32768. -/
theorem offset_lt (w : BitVec 32) (h0 : 0 ≤ w.toInt) (h1 : w.toInt ≤ 8191) (b : Nat) (hb : b < 4) :
    (w + BitVec.ofNat 32 (b * 8192)).toNat < 32768 := by
  have hc := BitVec.toInt_eq_toNat_cond w
  have hlt := w.isLt
  have hw : w.toNat ≤ 8191 := by split at hc <;> omega
  rw [BitVec.toNat_add, BitVec.toNat_ofNat]
  omega

variable [Cert.Pre_input_domain.Facts]

/-- Under the precondition every entry of the index list names one of the 32768 table rows. -/
theorem iv_in_range (m : (ℓ : Loc nD τ sig) → Buf (Elt F) ℓ)
    (hpre : ∀ c : Dev nD, Cert.Pre_input_domain.fn (F := F)
      (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8))
      (m ((c.tc : Thread nD τ).loc main_arg9)) (m ((c.tc : Thread nD τ).loc main_arg10)) (m ((c.tc : Thread nD τ).loc main_arg11))
      (m ((c.tc : Thread nD τ).loc main_arg12)) (m ((c.tc : Thread nD τ).loc main_arg13)) = fun _ => 1#1) :
    ∀ (d : Dev nD) (e : S524288.Idx), (ivOf m d e).toNat < 32768 := by
  intro d e
  have hrange : ∀ i, 0 ≤ (idxArr m d i).toInt ∧ (idxArr m d i).toInt ≤ 8191 := by
    have h := congrFun (hpre d) ix0
    unfold Cert.Pre_input_domain.fn Cert.Pre_input_domain.fn_part1 Cert.Pre_input_domain.fn_part2
      Cert.Pre_input_domain.fn_part3 Cert.Pre_input_domain.fn_part4 at h
    simp only [andi, IntOp.andi_eq_one] at h
    obtain ⟨⟨-, h3⟩, -⟩ := h
    exact Cert.Proof.Math.all_in_range (idxArr m d) _ _ _ _ (fun _ => rfl) h3
  obtain ⟨e0, rfl⟩ : ∃ e0 : Fin 524288, e = ix1 e0 := ⟨e 0, eq_ix1 e⟩
  have he := e0.isLt
  rw [iv_at]
  exact offset_lt _ (hrange _).1 (hrange _).2 _ (by omega)

end Cert.Proof.KW

end
-- ==== Proof.Frames.lean ====
/-
  The two kernel frames: the kernel program and its idealization, run from a memory satisfying the precondition,
  terminate without a fault and leave the fourteen argument arrays unchanged. Each is the program's run — the launch
  theorem over the tiles' tasks and @main on the TensorCore — with the result's value dropped.
-/
import proofs.«214101_g10505490006249_cont_week2b_118_28_alg».proof.Proof.Run
import proofs.«214101_g10505490006249_cont_week2b_118_28_alg».proof.Proof.RunW
import proofs.«214101_g10505490006249_cont_week2b_118_28_alg».proof.Proof.TileObl0
import proofs.«214101_g10505490006249_cont_week2b_118_28_alg».proof.Proof.TileObl1
import proofs.«214101_g10505490006249_cont_week2b_118_28_alg».proof.Proof.TileObl2
import proofs.«214101_g10505490006249_cont_week2b_118_28_alg».proof.Proof.TileObl3
import proofs.«214101_g10505490006249_cont_week2b_118_28_alg».proof.Proof.TileObl4
import proofs.«214101_g10505490006249_cont_week2b_118_28_alg».proof.Proof.TileObl5
import proofs.«214101_g10505490006249_cont_week2b_118_28_alg».proof.Proof.TileObl6
import proofs.«214101_g10505490006249_cont_week2b_118_28_alg».proof.Proof.TileObl7
import proofs.«214101_g10505490006249_cont_week2b_118_28_alg».proof.Proof.TileObl0W
import proofs.«214101_g10505490006249_cont_week2b_118_28_alg».proof.Proof.TileObl1W
import proofs.«214101_g10505490006249_cont_week2b_118_28_alg».proof.Proof.TileObl2W
import proofs.«214101_g10505490006249_cont_week2b_118_28_alg».proof.Proof.TileObl3W
import proofs.«214101_g10505490006249_cont_week2b_118_28_alg».proof.Proof.TileObl4W
import proofs.«214101_g10505490006249_cont_week2b_118_28_alg».proof.Proof.TileObl5W
import proofs.«214101_g10505490006249_cont_week2b_118_28_alg».proof.Proof.TileObl6W
import proofs.«214101_g10505490006249_cont_week2b_118_28_alg».proof.Proof.TileObl7W
import proofs.«214101_g10505490006249_cont_week2b_118_28_alg».proof.Proof.Region0
import proofs.«214101_g10505490006249_cont_week2b_118_28_alg».proof.Proof.Region1
import proofs.«214101_g10505490006249_cont_week2b_118_28_alg».proof.Proof.Region2
import proofs.«214101_g10505490006249_cont_week2b_118_28_alg».proof.Proof.Region3
import proofs.«214101_g10505490006249_cont_week2b_118_28_alg».proof.Proof.Region4
import proofs.«214101_g10505490006249_cont_week2b_118_28_alg».proof.Proof.Region5
import proofs.«214101_g10505490006249_cont_week2b_118_28_alg».proof.Proof.Region6
import proofs.«214101_g10505490006249_cont_week2b_118_28_alg».proof.Proof.Region7
import proofs.«214101_g10505490006249_cont_week2b_118_28_alg».proof.Proof.Region0W
import proofs.«214101_g10505490006249_cont_week2b_118_28_alg».proof.Proof.Region1W
import proofs.«214101_g10505490006249_cont_week2b_118_28_alg».proof.Proof.Region2W
import proofs.«214101_g10505490006249_cont_week2b_118_28_alg».proof.Proof.Region3W
import proofs.«214101_g10505490006249_cont_week2b_118_28_alg».proof.Proof.Region4W
import proofs.«214101_g10505490006249_cont_week2b_118_28_alg».proof.Proof.Region5W
import proofs.«214101_g10505490006249_cont_week2b_118_28_alg».proof.Proof.Region6W
import proofs.«214101_g10505490006249_cont_week2b_118_28_alg».proof.Proof.Region7W
import proofs.«214101_g10505490006249_cont_week2b_118_28_alg».proof.Proof.KerRange
import proofs.«214101_g10505490006249_cont_week2b_118_28_alg».proof.Proof.KerRangeW
import proofs.«214101_g10505490006249_cont_week2b_118_28_alg».proof.Proof.Gen.Pre_input_domain

noncomputable section

namespace Cert.Proof.Frames

open Idealize.ShloMosaic Idealize.SL.Sem

/-! ## The idealized kernel -/

/-- Every gather call's tile obligation, the index list's range read off the precondition. -/
theorem tileObl_I (m : (ℓ : Loc Cert.KernelIdeal.nD Cert.KernelIdeal.τ Cert.KernelIdeal.sig) → Buf (Elt Ideal) ℓ) (hpre : Cert.Pre_KernelIdeal m) (q : Fin 8) :
    (Cert.Proof.KI.K (F := Ideal)).TileObl (Cert.Proof.KI.D (F := Ideal)) Cert.Proof.KI.𝒱
      (Cert.Proof.KI.P (F := Ideal) (Cert.Proof.KI.tvOf m) (Cert.Proof.KI.ivOf m)) Cert.Proof.KI.v₀ q :=
  match q with
  | 0 => Cert.Proof.KI.tileObl0 _ _ (Cert.Proof.KI.iv_in_range m hpre)
  | 1 => Cert.Proof.KI.C1.tileObl1 _ _ (Cert.Proof.KI.iv_in_range m hpre)
  | 2 => Cert.Proof.KI.C2.tileObl2 _ _ (Cert.Proof.KI.iv_in_range m hpre)
  | 3 => Cert.Proof.KI.C3.tileObl3 _ _ (Cert.Proof.KI.iv_in_range m hpre)
  | 4 => Cert.Proof.KI.C4.tileObl4 _ _ (Cert.Proof.KI.iv_in_range m hpre)
  | 5 => Cert.Proof.KI.C5.tileObl5 _ _ (Cert.Proof.KI.iv_in_range m hpre)
  | 6 => Cert.Proof.KI.C6.tileObl6 _ _ (Cert.Proof.KI.iv_in_range m hpre)
  | 7 => Cert.Proof.KI.C7.tileObl7 _ _ (Cert.Proof.KI.iv_in_range m hpre)

theorem frame_pi : Cert.frame_KernelIdeal := fun m ρ hpre =>
  (θ_run Cert.KernelIdeal.defs _ _).mono (fun _ h c => (h c).2)
    (Cert.Proof.KI.run_value (F := Ideal) m ρ Cert.Proof.KI.tcRes0 Cert.Proof.KI.tcRes1 Cert.Proof.KI.tcRes2 Cert.Proof.KI.tcRes3 Cert.Proof.KI.tcRes4 Cert.Proof.KI.tcRes5 Cert.Proof.KI.tcRes6 Cert.Proof.KI.tcRes7 (tileObl_I m hpre)
      Cert.Proof.KI.hreg0 Cert.Proof.KI.hreg1 Cert.Proof.KI.hreg2 Cert.Proof.KI.hreg3 Cert.Proof.KI.hreg4 Cert.Proof.KI.hreg5 Cert.Proof.KI.hreg6 Cert.Proof.KI.hreg7)

/-! ## The kernel as printed -/

theorem tileObl_B (m : (ℓ : Loc Cert.Kernel.nD Cert.Kernel.τ Cert.Kernel.sig) → Buf (Elt Bits) ℓ) (hpre : Cert.Pre_Kernel m) (q : Fin 8) :
    (Cert.Proof.KW.K (F := Bits)).TileObl (Cert.Proof.KW.D (F := Bits)) Cert.Proof.KW.𝒱
      (Cert.Proof.KW.P (F := Bits) (Cert.Proof.KW.tvOf m) (Cert.Proof.KW.ivOf m)) Cert.Proof.KW.v₀ q :=
  match q with
  | 0 => Cert.Proof.KW.tileObl0 _ _ (Cert.Proof.KW.iv_in_range m hpre)
  | 1 => Cert.Proof.KW.C1.tileObl1 _ _ (Cert.Proof.KW.iv_in_range m hpre)
  | 2 => Cert.Proof.KW.C2.tileObl2 _ _ (Cert.Proof.KW.iv_in_range m hpre)
  | 3 => Cert.Proof.KW.C3.tileObl3 _ _ (Cert.Proof.KW.iv_in_range m hpre)
  | 4 => Cert.Proof.KW.C4.tileObl4 _ _ (Cert.Proof.KW.iv_in_range m hpre)
  | 5 => Cert.Proof.KW.C5.tileObl5 _ _ (Cert.Proof.KW.iv_in_range m hpre)
  | 6 => Cert.Proof.KW.C6.tileObl6 _ _ (Cert.Proof.KW.iv_in_range m hpre)
  | 7 => Cert.Proof.KW.C7.tileObl7 _ _ (Cert.Proof.KW.iv_in_range m hpre)

theorem frame_p : Cert.frame_Kernel := fun m ρ hpre =>
  (θ_run Cert.Kernel.defs _ _).mono (fun _ h c => (h c).2)
    (Cert.Proof.KW.run_value (F := Bits) m ρ Cert.Proof.KW.tcRes0 Cert.Proof.KW.tcRes1 Cert.Proof.KW.tcRes2 Cert.Proof.KW.tcRes3 Cert.Proof.KW.tcRes4 Cert.Proof.KW.tcRes5 Cert.Proof.KW.tcRes6 Cert.Proof.KW.tcRes7 (tileObl_B m hpre)
      Cert.Proof.KW.hreg0 Cert.Proof.KW.hreg1 Cert.Proof.KW.hreg2 Cert.Proof.KW.hreg3 Cert.Proof.KW.hreg4 Cert.Proof.KW.hreg5 Cert.Proof.KW.hreg6 Cert.Proof.KW.hreg7)

end Cert.Proof.Frames

end
-- ==== Proof.MathRef.lean ====
/-
  The reference program's result, read element by element, is RefOut of the arguments.
  The row a neighbour index names: the index plus its batch's offset b · 8192, as 32-bit words;
  under the index range that word is nonnegative and below 32768, so the reference's wrap of a
  negative index never fires, the gather's clamp is the identity, and the word names the row
  idx + b · 8192 of the flattened arrays. Everything after the two gathers is read by the
  stage-by-stage lemmas: the three layers, the neighbour-weighted features on the flattened
  column c · 16 + n, the output matrix, the division by sixteen and the bias.
-/
import proofs.«214101_g10505490006249_cont_week2b_118_28_alg».proof.Proof.Gen.ReferenceIdeal.Read
import proofs.«214101_g10505490006249_cont_week2b_118_28_alg».proof.Proof.MathSpec

noncomputable section

namespace Cert.Proof.Math

open Idealize.ShloMosaic Idealize.ShloMosaic.ValueIdx Cert.ReferenceIdeal Cert.ReferenceIdeal.Read
open scoped BigOperators

/-! ## Words -/

/-- Under the index range a neighbour index is its unsigned reading, at most 8191. -/
theorem idx_toNat_le {A : Args} (hI : IdxOk A) (i) : (A.idx i).toNat ≤ 8191 := by
  have h := hI i
  have hc := BitVec.toInt_eq_toNat_cond (A.idx i)
  have hlt := (A.idx i).isLt
  split at hc <;> omega

/-- The row word is the index plus the batch offset, without wrap. -/
theorem rowWord_toNat {A : Args} (hI : IdxOk A) (b : Fin 4) (m : Fin 8192) (k : Fin 16) :
    (rowWord A b m k).toNat = (A.idx (ix3 b m k)).toNat + b.val * 8192 := by
  have h := idx_toNat_le hI (ix3 b m k)
  have hb := b.isLt
  unfold rowWord
  rw [BitVec.toNat_add, BitVec.toNat_ofNat]
  omega

/-- Read signed it is the same number. -/
theorem rowWord_toInt {A : Args} (hI : IdxOk A) (b : Fin 4) (m : Fin 8192) (k : Fin 16) :
    (rowWord A b m k).toInt = ((rowWord A b m k).toNat : Int) := by
  have h := rowWord_toNat hI b m k
  have h' := idx_toNat_le hI (ix3 b m k)
  have hb := b.isLt
  have hc := BitVec.toInt_eq_toNat_cond (rowWord A b m k)
  split at hc <;> omega

/-- The row it names. -/
theorem row_val {A : Args} (hI : IdxOk A) (b : Fin 4) (m : Fin 8192) (k : Fin 16) :
    (row A b m k).val = (A.idx (ix3 b m k)).toNat + b.val * 8192 := by
  have h := rowWord_toNat hI b m k
  have h' := idx_toNat_le hI (ix3 b m k)
  have hb := b.isLt
  show min (rowWord A b m k).toNat 32767 = _
  omega

/-- It is not negative: the signed comparison with zero answers no. -/
theorem rowWord_not_slt {A : Args} (hI : IdxOk A) (b : Fin 4) (m : Fin 8192) (k : Fin 16) :
    IntOp.cmpi .slt (rowWord A b m k) 0#32 = 0#1 := by
  have h := rowWord_toInt hI b m k
  have : (rowWord A b m k).slt 0#32 = false := by
    rw [BitVec.slt, decide_eq_false_iff_not]
    simp only [BitVec.toInt_zero]
    omega
  simp only [IntOp.cmpi, this]
  rfl

/-! ## The row words of the reference -/

/-- The index plus its batch's offset, as the reference adds them. -/
theorem v5_at (A : Args) (b : Fin 4) (m : Fin 8192) (k : Fin 16) :
    val_main_v5 (F := Ideal) A.idx (ix3 b m k) = rowWord A b m k := by
  rw [val_main_v5_apply, val_main_v4_apply, val_main_v3_apply, val_main_v2_apply, val_main_v0_apply,
    val_main_v1_apply, val_main_c_apply]
  show A.idx (ix3 b m k) + BitVec.ofNat 32 b.val * BitVec.ofNat 32 8192 = A.idx (ix3 b m k) + BitVec.ofNat 32 (b.val * 8192)
  rw [BitVec.ofNat_mul]

/-- Under the index range the wrap of a negative index leaves the word as it is (first gather's copy). -/
theorem v11_at {A : Args} (hI : IdxOk A) (b : Fin 4) (m : Fin 8192) (k : Fin 16) :
    val_main_v11 (F := Ideal) A.idx (ix3 b m k) = rowWord A b m k := by
  rw [val_main_v11_apply, val_main_v8_apply, val_main_v7_apply, val_main_c_0_apply, v5_at,
    rowWord_not_slt hI, select_zero]

/-- The same for the second gather's copy. -/
theorem v19_at {A : Args} (hI : IdxOk A) (b : Fin 4) (m : Fin 8192) (k : Fin 16) :
    val_main_v19 (F := Ideal) A.idx (ix3 b m k) = rowWord A b m k := by
  rw [val_main_v19_apply, val_main_v16_apply, val_main_v15_apply, val_main_c_2_apply, v5_at,
    rowWord_not_slt hI, select_zero]

/-- The clamp of the gather is the identity on a row word in range. -/
theorem clamp_rowWord {A : Args} (hI : IdxOk A) (b : Fin 4) (m : Fin 8192) (k : Fin 16) :
    min (rowWord A b m k).toInt.toNat 32767 = (row A b m k).val := by
  rw [rowWord_toInt hI, Int.toNat_natCast]
  rfl

/-! ## The two gathers -/

/-- The feature gather at (b, m, k, c): row (row A b m k) of the flattened features, column c. -/
theorem v13_at {A : Args} (hI : IdxOk A) (b : Fin 4) (m : Fin 8192) (k : Fin 16) (c : Fin 64) :
    val_main_v13 (F := Ideal) A.inp A.idx (ix4 b m k c) = feat A b m k c := by
  unfold val_main_v13 Host.gather
  rw [val_main_v6_apply]
  unfold feat inpFlat
  refine congrArg A.inp ?_
  have hsi : gather_S32768x64_S4x8192x16x1_S4x8192x16x64_3_0_n_n_0_3_164.siIdx (ix4 b m k c)
      ⟨List.idxOf (0 : Fin 2) gather_S32768x64_S4x8192x16x1_S4x8192x16x64_3_0_n_n_0_3_164.startIndexMap,
        List.idxOf_lt_length_iff.2 (List.mem_singleton.mpr rfl)⟩ = ix4 b m k (0 : Fin 1) := by
    funext a; refine Fin.ext ?_
    match a with
    | ⟨0, _⟩ => rfl
    | ⟨1, _⟩ => rfl
    | ⟨2, _⟩ => rfl
    | ⟨3, _⟩ => rfl
  have h0 : (gather_S32768x64_S4x8192x16x1_S4x8192x16x64_3_0_n_n_0_3_164.operandIdx (ix4 b m k c)
      (val_main_v12 (F := Ideal) A.idx) 0).val = (row A b m k).val := by
    show gather_S32768x64_S4x8192x16x1_S4x8192x16x64_3_0_n_n_0_3_164.start (ix4 b m k c) (val_main_v12 (F := Ideal) A.idx) 0
      + gather_S32768x64_S4x8192x16x1_S4x8192x16x64_3_0_n_n_0_3_164.batchCoord (ix4 b m k c) 0
      + gather_S32768x64_S4x8192x16x1_S4x8192x16x64_3_0_n_n_0_3_164.offCoord (ix4 b m k c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S32768x64_S4x8192x16x1_S4x8192x16x64_3_0_n_n_0_3_164.startIndexMap from
      List.mem_singleton.mpr rfl), hsi, val_main_v12_apply]
    have e12 : idx_main_v12 (ix4 b m k (0 : Fin 1)) = ix3 b m k := by
      funext a
      match a with
      | ⟨0, _⟩ => rfl
      | ⟨1, _⟩ => rfl
      | ⟨2, _⟩ => rfl
    rw [e12, v11_at hI]
    exact clamp_rowWord hI b m k
  have h1 : (gather_S32768x64_S4x8192x16x1_S4x8192x16x64_3_0_n_n_0_3_164.operandIdx (ix4 b m k c)
      (val_main_v12 (F := Ideal) A.idx) 1).val = c.val := by
    show gather_S32768x64_S4x8192x16x1_S4x8192x16x64_3_0_n_n_0_3_164.start (ix4 b m k c) (val_main_v12 (F := Ideal) A.idx) 1
      + gather_S32768x64_S4x8192x16x1_S4x8192x16x64_3_0_n_n_0_3_164.batchCoord (ix4 b m k c) 1
      + gather_S32768x64_S4x8192x16x1_S4x8192x16x64_3_0_n_n_0_3_164.offCoord (ix4 b m k c) 1 = _
    rw [GatherDims.batchCoord_eq_zero _ _ _ List.not_mem_nil]
    unfold GatherDims.start
    rw [dif_neg (show ¬ (1 : Fin 2) ∈ gather_S32768x64_S4x8192x16x1_S4x8192x16x64_3_0_n_n_0_3_164.startIndexMap by decide)]
    simp only [Nat.add_zero, Nat.zero_add]
    unfold GatherDims.offCoord
    rw [dif_pos (show (1 : Fin 2) ∈ gather_S32768x64_S4x8192x16x1_S4x8192x16x64_3_0_n_n_0_3_164.sKept by decide)]
    rfl
  have hr := (row A b m k).isLt
  have hc := c.isLt
  funext a
  refine Fin.ext ?_
  match a with
  | ⟨0, _⟩ =>
    show ((gather_S32768x64_S4x8192x16x1_S4x8192x16x64_3_0_n_n_0_3_164.operandIdx (ix4 b m k c) (val_main_v12 (F := Ideal) A.idx) 0).val * 64
      + (gather_S32768x64_S4x8192x16x1_S4x8192x16x64_3_0_n_n_0_3_164.operandIdx (ix4 b m k c) (val_main_v12 (F := Ideal) A.idx) 1).val) / 524288
      = (row A b m k).val / 8192
    rw [h0, h1]; omega
  | ⟨1, _⟩ =>
    show ((gather_S32768x64_S4x8192x16x1_S4x8192x16x64_3_0_n_n_0_3_164.operandIdx (ix4 b m k c) (val_main_v12 (F := Ideal) A.idx) 0).val * 64
      + (gather_S32768x64_S4x8192x16x1_S4x8192x16x64_3_0_n_n_0_3_164.operandIdx (ix4 b m k c) (val_main_v12 (F := Ideal) A.idx) 1).val) / 64 % 8192
      = (row A b m k).val % 8192
    rw [h0, h1]; omega
  | ⟨2, _⟩ =>
    show ((gather_S32768x64_S4x8192x16x1_S4x8192x16x64_3_0_n_n_0_3_164.operandIdx (ix4 b m k c) (val_main_v12 (F := Ideal) A.idx) 0).val * 64
      + (gather_S32768x64_S4x8192x16x1_S4x8192x16x64_3_0_n_n_0_3_164.operandIdx (ix4 b m k c) (val_main_v12 (F := Ideal) A.idx) 1).val) % 64
      = c.val
    rw [h0, h1]; omega

/-- The point gather at (b, m, k, d): row (row A b m k) of the flattened points, coordinate d. -/
theorem v21_at {A : Args} (hI : IdxOk A) (b : Fin 4) (m : Fin 8192) (k : Fin 16) (d : Fin 3) :
    val_main_v21 (F := Ideal) A.points A.idx (ix4 b m k d) = ptsFlat A (row A b m k) d := by
  unfold val_main_v21 Host.gather
  rw [val_main_v14_apply]
  unfold ptsFlat
  refine congrArg A.points ?_
  have hsi : gather_S32768x3_S4x8192x16x1_S4x8192x16x3_3_0_n_n_0_3_13.siIdx (ix4 b m k d)
      ⟨List.idxOf (0 : Fin 2) gather_S32768x3_S4x8192x16x1_S4x8192x16x3_3_0_n_n_0_3_13.startIndexMap,
        List.idxOf_lt_length_iff.2 (List.mem_singleton.mpr rfl)⟩ = ix4 b m k (0 : Fin 1) := by
    funext a; refine Fin.ext ?_
    match a with
    | ⟨0, _⟩ => rfl
    | ⟨1, _⟩ => rfl
    | ⟨2, _⟩ => rfl
    | ⟨3, _⟩ => rfl
  have h0 : (gather_S32768x3_S4x8192x16x1_S4x8192x16x3_3_0_n_n_0_3_13.operandIdx (ix4 b m k d) (val_main_v20 (F := Ideal) A.idx) 0).val = (row A b m k).val := by
    show gather_S32768x3_S4x8192x16x1_S4x8192x16x3_3_0_n_n_0_3_13.start (ix4 b m k d) (val_main_v20 (F := Ideal) A.idx) 0
      + gather_S32768x3_S4x8192x16x1_S4x8192x16x3_3_0_n_n_0_3_13.batchCoord (ix4 b m k d) 0 + gather_S32768x3_S4x8192x16x1_S4x8192x16x3_3_0_n_n_0_3_13.offCoord (ix4 b m k d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S32768x3_S4x8192x16x1_S4x8192x16x3_3_0_n_n_0_3_13.startIndexMap from List.mem_singleton.mpr rfl), hsi, val_main_v20_apply]
    have e20 : idx_main_v20 (ix4 b m k (0 : Fin 1)) = ix3 b m k := by
      funext a
      match a with
      | ⟨0, _⟩ => rfl
      | ⟨1, _⟩ => rfl
      | ⟨2, _⟩ => rfl
    rw [e20, v19_at hI]
    exact clamp_rowWord hI b m k
  have h1 : (gather_S32768x3_S4x8192x16x1_S4x8192x16x3_3_0_n_n_0_3_13.operandIdx (ix4 b m k d) (val_main_v20 (F := Ideal) A.idx) 1).val = d.val := by
    show gather_S32768x3_S4x8192x16x1_S4x8192x16x3_3_0_n_n_0_3_13.start (ix4 b m k d) (val_main_v20 (F := Ideal) A.idx) 1
      + gather_S32768x3_S4x8192x16x1_S4x8192x16x3_3_0_n_n_0_3_13.batchCoord (ix4 b m k d) 1 + gather_S32768x3_S4x8192x16x1_S4x8192x16x3_3_0_n_n_0_3_13.offCoord (ix4 b m k d) 1 = _
    rw [GatherDims.batchCoord_eq_zero _ _ _ List.not_mem_nil]
    unfold GatherDims.start
    rw [dif_neg (show ¬ (1 : Fin 2) ∈ gather_S32768x3_S4x8192x16x1_S4x8192x16x3_3_0_n_n_0_3_13.startIndexMap by decide)]
    simp only [Nat.add_zero, Nat.zero_add]
    unfold GatherDims.offCoord
    rw [dif_pos (show (1 : Fin 2) ∈ gather_S32768x3_S4x8192x16x1_S4x8192x16x3_3_0_n_n_0_3_13.sKept by decide)]
    rfl
  have hr := (row A b m k).isLt
  have hd := d.isLt
  funext a
  refine Fin.ext ?_
  match a with
  | ⟨0, _⟩ =>
    show ((gather_S32768x3_S4x8192x16x1_S4x8192x16x3_3_0_n_n_0_3_13.operandIdx (ix4 b m k d) (val_main_v20 (F := Ideal) A.idx) 0).val * 3
      + (gather_S32768x3_S4x8192x16x1_S4x8192x16x3_3_0_n_n_0_3_13.operandIdx (ix4 b m k d) (val_main_v20 (F := Ideal) A.idx) 1).val) / 24576 = (row A b m k).val / 8192
    rw [h0, h1]; omega
  | ⟨1, _⟩ =>
    show ((gather_S32768x3_S4x8192x16x1_S4x8192x16x3_3_0_n_n_0_3_13.operandIdx (ix4 b m k d) (val_main_v20 (F := Ideal) A.idx) 0).val * 3
      + (gather_S32768x3_S4x8192x16x1_S4x8192x16x3_3_0_n_n_0_3_13.operandIdx (ix4 b m k d) (val_main_v20 (F := Ideal) A.idx) 1).val) / 3 % 8192 = (row A b m k).val % 8192
    rw [h0, h1]; omega
  | ⟨2, _⟩ =>
    show ((gather_S32768x3_S4x8192x16x1_S4x8192x16x3_3_0_n_n_0_3_13.operandIdx (ix4 b m k d) (val_main_v20 (F := Ideal) A.idx) 0).val * 3
      + (gather_S32768x3_S4x8192x16x1_S4x8192x16x3_3_0_n_n_0_3_13.operandIdx (ix4 b m k d) (val_main_v20 (F := Ideal) A.idx) 1).val) % 3 = d.val
    rw [h0, h1]; omega

/-! ## The first layer's input -/

/-- The neighbour's position relative to the query point. -/
theorem v24_at {A : Args} (hI : IdxOk A) (b : Fin 4) (m : Fin 8192) (k : Fin 16) (d : Fin 3) :
    val_main_v24 (F := Ideal) A.points A.next A.idx (ix4 b m k d) = rel A b m k d := by
  rw [val_main_v24_apply, v21_at hI, val_main_v23_apply, val_main_v22_apply]
  have e : idx_main_v22 (idx_main_v23 (ix4 b m k d)) = ix3 b m d := by
    funext a
    match a with
    | ⟨0, _⟩ => rfl
    | ⟨1, _⟩ => rfl
    | ⟨2, _⟩ => rfl
  rw [e]
  rfl

/-- … and relative to the centres, on the flattened column t = d · 16 + n. -/
theorem v30_at {A : Args} (hI : IdxOk A) (b : Fin 4) (m : Fin 8192) (k : Fin 16) (t : Fin 48) :
    val_main_v30 (F := Ideal) A.points A.next A.idx A.centers (ix4 b m k t) = dist A b m k t := by
  have hb := b.isLt; have hm := m.isLt; have hk := k.isLt; have ht := t.isLt
  have e30 : idx_main_v30 (ix4 b m k t) = ix5 b m k (q48 t) (r48 t) := by
    funext a
    refine Fin.ext ?_
    match a with
    | ⟨0, _⟩ => show (((b.val * 8192 + m.val) * 16 + k.val) * 48 + t.val) / 6291456 = b.val; omega
    | ⟨1, _⟩ => show (((b.val * 8192 + m.val) * 16 + k.val) * 48 + t.val) / 768 % 8192 = m.val; omega
    | ⟨2, _⟩ => show (((b.val * 8192 + m.val) * 16 + k.val) * 48 + t.val) / 48 % 16 = k.val; omega
    | ⟨3, _⟩ => show (((b.val * 8192 + m.val) * 16 + k.val) * 48 + t.val) / 16 % 3 = t.val / 16; omega
    | ⟨4, _⟩ => show (((b.val * 8192 + m.val) * 16 + k.val) * 48 + t.val) % 16 = t.val % 16; omega
  rw [val_main_v30_apply, e30, val_main_v29_apply, val_main_v27_apply, val_main_v25_apply,
    val_main_v28_apply, val_main_v26_apply]
  have e1 : idx_main_v25 (idx_main_v27 (ix5 b m k (q48 t) (r48 t))) = ix4 b m k (q48 t) := by
    funext a
    match a with
    | ⟨0, _⟩ => rfl
    | ⟨1, _⟩ => rfl
    | ⟨2, _⟩ => rfl
    | ⟨3, _⟩ => rfl
  have e2 : idx_main_v26 (idx_main_v28 (ix5 b m k (q48 t) (r48 t))) = ix2 (q48 t) (r48 t) := by
    funext a
    match a with
    | ⟨0, _⟩ => rfl
    | ⟨1, _⟩ => rfl
  rw [e1, e2, v24_at hI]
  rfl

/-! ## The three layers -/

/-- First layer with its rectifier. -/
theorem v36_at {A : Args} (hI : IdxOk A) (b : Fin 4) (m : Fin 8192) (k : Fin 16) (j : Fin 32) :
    val_main_v36 (F := Ideal) A.points A.next A.idx A.centers A.w1 A.b1 (ix4 b m k j) = h1R A b m k j := by
  rw [val_main_v36_apply, val_main_v35_apply, val_main_v32_apply, val_main_v34_apply, val_main_v33_apply,
    val_main_call0_v0_apply, val_main_call0_cst_apply]
  have el : ∀ t : Fin 48, lidx_main_v32 (ix4 b m k j) t = ix4 b m k t := fun t => by
    funext a
    match a with
    | ⟨0, _⟩ => rfl
    | ⟨1, _⟩ => rfl
    | ⟨2, _⟩ => rfl
    | ⟨3, _⟩ => rfl
  have er : ∀ t : Fin 48, idx_main_v31 (ridx_main_v32 (ix4 b m k j) t) = ix2 j t := fun t => by
    funext a
    match a with
    | ⟨0, _⟩ => rfl
    | ⟨1, _⟩ => rfl
  have eb : idx_main_v33 (idx_main_v34 (ix4 b m k j)) = ix1 j := by
    funext a
    match a with
    | ⟨0, _⟩ => rfl
  simp only [el, val_main_v31_apply, er, eb, v30_at hI]
  show max ((∑ t : Fin 48, dist A b m k t * A.w1 (ix2 j t)) + A.b1 (ix1 j)) (Ideal.ofBits .f32 0x00000000#32) = _
  rw [Ideal.ofBits_zero_f32]
  rfl

/-- Second layer with its rectifier. -/
theorem v42_at {A : Args} (hI : IdxOk A) (b : Fin 4) (m : Fin 8192) (k : Fin 16) (n : Fin 16) :
    val_main_v42 (F := Ideal) A.points A.next A.idx A.centers A.w1 A.b1 A.w2 A.b2 (ix4 b m k n)
      = layer2 A (h1R A b m k) n := by
  rw [val_main_v42_apply, val_main_v41_apply, val_main_v38_apply, val_main_v40_apply, val_main_v39_apply,
    val_main_call1_v0_apply, val_main_call1_cst_apply]
  have el : ∀ j : Fin 32, lidx_main_v38 (ix4 b m k n) j = ix4 b m k j := fun j => by
    funext a
    match a with
    | ⟨0, _⟩ => rfl
    | ⟨1, _⟩ => rfl
    | ⟨2, _⟩ => rfl
    | ⟨3, _⟩ => rfl
  have er : ∀ j : Fin 32, idx_main_v37 (ridx_main_v38 (ix4 b m k n) j) = ix2 n j := fun j => by
    funext a
    match a with
    | ⟨0, _⟩ => rfl
    | ⟨1, _⟩ => rfl
  have eb : idx_main_v39 (idx_main_v40 (ix4 b m k n)) = ix1 n := by
    funext a
    match a with
    | ⟨0, _⟩ => rfl
  simp only [el, val_main_v37_apply, er, eb, v36_at hI]
  show max ((∑ j : Fin 32, h1R A b m k j * A.w2 (ix2 n j)) + A.b2 (ix1 n)) (Ideal.ofBits .f32 0x00000000#32) = _
  rw [Ideal.ofBits_zero_f32]
  rfl

/-- Third layer with its rectifier. -/
theorem v48_at {A : Args} (hI : IdxOk A) (b : Fin 4) (m : Fin 8192) (k : Fin 16) (n : Fin 16) :
    val_main_v48 (F := Ideal) A.points A.next A.idx A.centers A.w1 A.b1 A.w2 A.b2 A.w3 A.b3 (ix4 b m k n)
      = h3R A b m k n := by
  rw [val_main_v48_apply, val_main_v47_apply, val_main_v44_apply, val_main_v46_apply, val_main_v45_apply,
    val_main_call2_v0_apply, val_main_call2_cst_apply]
  have el : ∀ a' : Fin 16, lidx_main_v44 (ix4 b m k n) a' = ix4 b m k a' := fun a' => by
    funext a
    match a with
    | ⟨0, _⟩ => rfl
    | ⟨1, _⟩ => rfl
    | ⟨2, _⟩ => rfl
    | ⟨3, _⟩ => rfl
  have er : ∀ a' : Fin 16, idx_main_v43 (ridx_main_v44 (ix4 b m k n) a') = ix2 n a' := fun a' => by
    funext a
    match a with
    | ⟨0, _⟩ => rfl
    | ⟨1, _⟩ => rfl
  have eb : idx_main_v45 (idx_main_v46 (ix4 b m k n)) = ix1 n := by
    funext a
    match a with
    | ⟨0, _⟩ => rfl
  simp only [el, val_main_v43_apply, er, eb, v42_at hI]
  show max ((∑ a' : Fin 16, layer2 A (h1R A b m k) a' * A.w3 (ix2 n a')) + A.b3 (ix1 n)) (Ideal.ofBits .f32 0x00000000#32) = _
  rw [Ideal.ofBits_zero_f32]
  rfl

/-! ## The neighbour-weighted features and the output matrix -/

/-- The flattened row b · 8192 + m of point (b, m). -/
def flatRow (b : Fin 4) (m : Fin 8192) : Fin 32768 := ⟨b.val * 8192 + m.val, by have := b.isLt; have := m.isLt; omega⟩

/-- The features weighted by the third layer's activations, on the flattened column t = c · 16 + n. -/
theorem v53_at {A : Args} (hI : IdxOk A) (b : Fin 4) (m : Fin 8192) (t : Fin 1024) :
    val_main_v53 (F := Ideal) A.inp A.points A.next A.idx A.centers A.w1 A.b1 A.w2 A.b2 A.w3 A.b3 (ix3 b m t)
      = fR A b m (q16 t) (r16 t) := by
  have hb := b.isLt; have hm := m.isLt; have ht := t.isLt
  have e53 : idx_main_v53 (ix3 b m t) = ix3 (flatRow b m) (q16 t) (r16 t) := by
    funext a
    refine Fin.ext ?_
    match a with
    | ⟨0, _⟩ => show ((b.val * 8192 + m.val) * 1024 + t.val) / 1024 = b.val * 8192 + m.val; omega
    | ⟨1, _⟩ => show ((b.val * 8192 + m.val) * 1024 + t.val) / 16 % 64 = t.val / 16; omega
    | ⟨2, _⟩ => show ((b.val * 8192 + m.val) * 1024 + t.val) % 16 = t.val % 16; omega
  rw [val_main_v53_apply, e53, val_main_v52_apply]
  have hc := (q16 t).isLt; have hn := (r16 t).isLt
  have el : ∀ k : Fin 16, idx_main_v49 (idx_main_v50 (lidx_main_v52 (ix3 (flatRow b m) (q16 t) (r16 t)) k))
      = ix4 b m k (q16 t) := fun k => by
    have hk := k.isLt
    funext a
    refine Fin.ext ?_
    match a with
    | ⟨0, _⟩ => show (((b.val * 8192 + m.val) * 64 + (q16 t).val) * 16 + k.val) / 8388608 = b.val; omega
    | ⟨1, _⟩ => show (((b.val * 8192 + m.val) * 64 + (q16 t).val) * 16 + k.val) / 1024 % 8192 = m.val; omega
    | ⟨2, _⟩ => show (((b.val * 8192 + m.val) * 64 + (q16 t).val) * 16 + k.val) % 16 = k.val; omega
    | ⟨3, _⟩ => show (((b.val * 8192 + m.val) * 64 + (q16 t).val) * 16 + k.val) / 16 % 64 = (q16 t).val; omega
  have er : ∀ k : Fin 16, idx_main_v51 (ridx_main_v52 (ix3 (flatRow b m) (q16 t) (r16 t)) k)
      = ix4 b m k (r16 t) := fun k => by
    have hk := k.isLt
    funext a
    refine Fin.ext ?_
    match a with
    | ⟨0, _⟩ => show (((b.val * 8192 + m.val) * 16 + k.val) * 16 + (r16 t).val) / 2097152 = b.val; omega
    | ⟨1, _⟩ => show (((b.val * 8192 + m.val) * 16 + k.val) * 16 + (r16 t).val) / 256 % 8192 = m.val; omega
    | ⟨2, _⟩ => show (((b.val * 8192 + m.val) * 16 + k.val) * 16 + (r16 t).val) / 16 % 16 = k.val; omega
    | ⟨3, _⟩ => show (((b.val * 8192 + m.val) * 16 + k.val) * 16 + (r16 t).val) % 16 = (r16 t).val; omega
  simp only [val_main_v50_apply, val_main_v49_apply, val_main_v51_apply, el, er, v13_at hI, v48_at hI]
  rfl

/-- The reference's result at (b, m, o). -/
theorem v60_at {A : Args} (hI : IdxOk A) (b : Fin 4) (m : Fin 8192) (o : Fin 64) :
    val_main_v60 (F := Ideal) A.inp A.points A.next A.idx A.weight A.bias A.centers A.w1 A.b1 A.w2 A.b2 A.w3 A.b3
      (ix3 b m o) = RefOut A b m o := by
  have ho := o.isLt
  rw [val_main_v60_apply, val_main_v57_apply, val_main_v55_apply, val_main_v56_apply, val_main_cst_apply,
    val_main_v59_apply, val_main_v58_apply]
  have el : ∀ t : Fin 1024, lidx_main_v55 (ix3 b m o) t = ix3 b m t := fun t => by
    funext a
    match a with
    | ⟨0, _⟩ => rfl
    | ⟨1, _⟩ => rfl
    | ⟨2, _⟩ => rfl
  have er : ∀ t : Fin 1024, idx_main_v54 (ridx_main_v55 (ix3 b m o) t) = ix3 (q16 t) (r16 t) o := fun t => by
    have ht := t.isLt
    funext a
    refine Fin.ext ?_
    match a with
    | ⟨0, _⟩ => show (t.val * 64 + o.val) / 1024 = t.val / 16; omega
    | ⟨1, _⟩ => show (t.val * 64 + o.val) / 64 % 16 = t.val % 16; omega
    | ⟨2, _⟩ => show (t.val * 64 + o.val) % 64 = o.val; omega
  have eb : idx_main_v58 (idx_main_v59 (ix3 b m o)) = ix1 o := by
    funext a
    match a with
    | ⟨0, _⟩ => rfl
  simp only [el, val_main_v54_apply, er, eb, v53_at hI]
  rfl

/-! ## The run's result term -/

open Idealize.SL.Sem in
/-- The argument arrays as the reference finds them in a memory. -/
def refArgs (m : (ℓ : Loc nD τ sig) → Buf (Elt Ideal) ℓ) (c : Dev nD) : Args where
  inp := m ((c.tc : Thread nD τ).loc main_arg0)
  points := m ((c.tc : Thread nD τ).loc main_arg1)
  next := m ((c.tc : Thread nD τ).loc main_arg2)
  idx := m ((c.tc : Thread nD τ).loc main_arg3)
  weight := m ((c.tc : Thread nD τ).loc main_arg5)
  bias := m ((c.tc : Thread nD τ).loc main_arg6)
  centers := m ((c.tc : Thread nD τ).loc main_arg7)
  w1 := m ((c.tc : Thread nD τ).loc main_arg8)
  b1 := m ((c.tc : Thread nD τ).loc main_arg9)
  w2 := m ((c.tc : Thread nD τ).loc main_arg10)
  b2 := m ((c.tc : Thread nD τ).loc main_arg11)
  w3 := m ((c.tc : Thread nD τ).loc main_arg12)
  b3 := m ((c.tc : Thread nD τ).loc main_arg13)

open Idealize.SL.Sem in
/-- The reference run's result, element by element, is RefOut of the arguments it found. -/
theorem res_out0_at (m : (ℓ : Loc nD τ sig) → Buf (Elt Ideal) ℓ) (c : Dev nD) (hI : IdxOk (refArgs m c))
    (b : Fin 4) (p : Fin 8192) (o : Fin 64) :
    Cert.ReferenceIdeal.Value.res_out0 (F := Ideal) m c (ix3 b p o) = RefOut (refArgs m c) b p o := by
  show Cert.ReferenceIdeal.Value.res_main_v60 (F := Ideal) m c (ix3 b p o) = _
  rw [val_main_v60_eq]
  exact v60_at hI b p o

end Cert.Proof.Math

end
-- ==== Proof.KerHost.lean ====
/-
  The arrays the host operations of the rearranged program build before the first gather, read element
  by element: the 128-column table (features, coordinates, zero padding), the flat list of row words, the
  folded first-layer weights and per-point bias, the transposed second- and third-layer weights, and the
  output matrix divided by sixteen on its 1024 rows n · 64 + c.
-/
import proofs.«214101_g10505490006249_cont_week2b_118_28_alg».proof.Proof.MainHost
import proofs.«214101_g10505490006249_cont_week2b_118_28_alg».proof.Proof.MathSpec
import proofs.«214101_g10505490006249_cont_week2b_118_28_alg».proof.Proof.MathRef
import Idealize.ShloMosaic.Lib.Pipeline.Value
import Idealize.ShloMosaic.Lib.KernelVsHost
import Idealize.ShloMosaic.Lib.IdealHost
import Idealize.ShloMosaic.PureOps.Ideal.Laws

noncomputable section

namespace Cert.Proof.KI

open Cert.KernelIdeal Cert.KernelIdeal.Gen Cert.Proof.Math
open Idealize.ShloMosaic Idealize.SL.Sem Idealize.ShloMosaic.ValueIdx Idealize.ShloMosaic.StableHlo
open scoped BigOperators

/-- The argument arrays as the rearranged program finds them in a memory. -/
def kerArgs (m : (ℓ : Loc nD τ sig) → Buf (Elt Ideal) ℓ) (d : Dev nD) : Args where
  inp := m ((d.tc : Thread nD τ).loc main_arg0)
  points := m ((d.tc : Thread nD τ).loc main_arg1)
  next := m ((d.tc : Thread nD τ).loc main_arg2)
  idx := m ((d.tc : Thread nD τ).loc main_arg3)
  weight := m ((d.tc : Thread nD τ).loc main_arg5)
  bias := m ((d.tc : Thread nD τ).loc main_arg6)
  centers := m ((d.tc : Thread nD τ).loc main_arg7)
  w1 := m ((d.tc : Thread nD τ).loc main_arg8)
  b1 := m ((d.tc : Thread nD τ).loc main_arg9)
  w2 := m ((d.tc : Thread nD τ).loc main_arg10)
  b2 := m ((d.tc : Thread nD τ).loc main_arg11)
  w3 := m ((d.tc : Thread nD τ).loc main_arg12)
  b3 := m ((d.tc : Thread nD τ).loc main_arg13)

/-! ## Sums over a rank-3 index set -/

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## The small weight arrays -/

set_option maxRecDepth 8192 in
set_option maxHeartbeats 4000000 in
/-- The second layer's weights, transposed. -/
theorem V1_v25 (m : (ℓ : Loc nD τ sig) → Buf (Elt Ideal) ℓ) (d : Dev nD) (j : Fin 32) (n : Fin 16) :
    V1 m d (Proc.devRef .tc main_v25) (ix2 j n) = (kerArgs m d).w2 (ix2 n j) := by
  unfold V1 opsPre
  after_results
  exact transpose_apply [1, 0] _ transposes_S16x32_S32x16_1_0 (ix2 j n) (ix2 n j) (fun b => match b with
    | ⟨0, _⟩ => rfl
    | ⟨1, _⟩ => rfl)

set_option maxRecDepth 8192 in
set_option maxHeartbeats 4000000 in
/-- The third layer's weights, transposed. -/
theorem V1_v27 (m : (ℓ : Loc nD τ sig) → Buf (Elt Ideal) ℓ) (d : Dev nD) (a : Fin 16) (n : Fin 16) :
    V1 m d (Proc.devRef .tc main_v27) (ix2 a n) = (kerArgs m d).w3 (ix2 n a) := by
  unfold V1 opsPre
  after_results
  exact transpose_apply [1, 0] _ transposes_S16x16_S16x16_1_0 (ix2 a n) (ix2 n a) (fun b => match b with
    | ⟨0, _⟩ => rfl
    | ⟨1, _⟩ => rfl)

set_option maxRecDepth 8192 in
set_option maxHeartbeats 4000000 in
/-- The second layer's bias as a one-row array. -/
theorem V1_v26 (m : (ℓ : Loc nD τ sig) → Buf (Elt Ideal) ℓ) (d : Dev nD) (n : Fin 16) :
    V1 m d (Proc.devRef .tc main_v26) (ix2 (0 : Fin 1) n) = (kerArgs m d).b2 (ix1 n) := by
  unfold V1 opsPre
  after_results
  exact shapeCast_apply _ shapeCasts_S16_S1x16 (ix2 (0 : Fin 1) n) (ix1 n)
    (by rw [Shape.rowMajor_val_one, Shape.rowMajor_val_two]; show n.val = 0 * 16 + n.val; omega)

set_option maxRecDepth 8192 in
set_option maxHeartbeats 4000000 in
/-- The third layer's bias as a one-row array. -/
theorem V1_v28 (m : (ℓ : Loc nD τ sig) → Buf (Elt Ideal) ℓ) (d : Dev nD) (n : Fin 16) :
    V1 m d (Proc.devRef .tc main_v28) (ix2 (0 : Fin 1) n) = (kerArgs m d).b3 (ix1 n) := by
  unfold V1 opsPre
  after_results
  exact shapeCast_apply _ shapeCasts_S16_S1x16 (ix2 (0 : Fin 1) n) (ix1 n)
    (by rw [Shape.rowMajor_val_one, Shape.rowMajor_val_two]; show n.val = 0 * 16 + n.val; omega)

set_option maxRecDepth 8192 in
set_option maxHeartbeats 4000000 in
/-- The output bias as a one-row array. -/
theorem V1_v33 (m : (ℓ : Loc nD τ sig) → Buf (Elt Ideal) ℓ) (d : Dev nD) (o : Fin 64) :
    V1 m d (Proc.devRef .tc main_v33) (ix2 (0 : Fin 1) o) = (kerArgs m d).bias (ix1 o) := by
  unfold V1 opsPre
  after_results
  exact shapeCast_apply _ shapeCasts_S64_S1x64 (ix2 (0 : Fin 1) o) (ix1 o)
    (by rw [Shape.rowMajor_val_one, Shape.rowMajor_val_two]; show o.val = 0 * 64 + o.val; omega)

set_option maxRecDepth 8192 in
set_option maxHeartbeats 4000000 in
/-- The output matrix with the mean folded in, on the 1024 rows n · 64 + c. -/
theorem V1_v32 (m : (ℓ : Loc nD τ sig) → Buf (Elt Ideal) ℓ) (d : Dev nD) (t : Fin 1024) (o : Fin 64) :
    V1 m d (Proc.devRef .tc main_v32) (ix2 t o) = wn (kerArgs m d) t o := by
  have ht := t.isLt; have ho := o.isLt
  unfold V1 opsPre
  after_results
  refine (shapeCast_apply _ shapeCasts_S16x64x64_S1024x64 (ix2 t o) (ix3 (q64 t) (r64 t) o)
    (by rw [Shape.rowMajor_val_three, Shape.rowMajor_val_two]
        show (t.val / 64 * 64 + t.val % 64) * 64 + o.val = t.val * 64 + o.val; omega)).trans ?_
  show Ideal.div (transpose S16x64x64 [1, 0, 2] _ transposes_S64x16x64_S16x64x64_1_0_2 (ix3 (q64 t) (r64 t) o))
    (Ideal.ofBits .f32 0x41800000#32) = _
  rw [transpose_apply [1, 0, 2] _ transposes_S64x16x64_S16x64x64_1_0_2 (ix3 (q64 t) (r64 t) o)
    (ix3 (r64 t) (q64 t) o) (fun b => match b with
    | ⟨0, _⟩ => rfl
    | ⟨1, _⟩ => rfl
    | ⟨2, _⟩ => rfl)]
  rfl

set_option maxRecDepth 8192 in
set_option maxHeartbeats 4000000 in
/-- The flat list of row words: entry e = (b · 8192 + m) · 16 + k is the row word of neighbour k of point (b, m). -/
theorem V1_v6 (m : (ℓ : Loc nD τ sig) → Buf (Elt Ideal) ℓ) (d : Dev nD) (e : Fin 524288) :
    V1 m d (Proc.devRef .tc main_v6) (ix1 e)
      = rowWord (kerArgs m d) ⟨e.val / 131072, by have := e.isLt; omega⟩ ⟨e.val / 16 % 8192, by omega⟩
          ⟨e.val % 16, by omega⟩ := by
  have he := e.isLt
  unfold V1 opsPre
  after_results
  refine (shapeCast_apply _ shapeCasts_S4x8192x16_S524288 (ix1 e)
    (ix3 (⟨e.val / 131072, by omega⟩ : Fin 4) (⟨e.val / 16 % 8192, by omega⟩ : Fin 8192) (⟨e.val % 16, by omega⟩ : Fin 16))
    (by rw [Shape.rowMajor_val_three, Shape.rowMajor_val_one]
        show (e.val / 131072 * 8192 + e.val / 16 % 8192) * 16 + e.val % 16 = e.val; omega)).trans ?_
  show (kerArgs m d).idx _ + BitVec.ofNat 32 (e.val / 131072) * BitVec.ofNat 32 8192 = _
  unfold rowWord
  rw [BitVec.ofNat_mul]

/-! ## The gather table -/

set_option maxRecDepth 8192 in
set_option maxHeartbeats 4000000 in
/-- The table: the flattened features, then the flattened coordinates, then zeros. -/
theorem V1_v10 (m : (ℓ : Loc nD τ sig) → Buf (Elt Ideal) ℓ) (d : Dev nD) (r : Fin 32768) (col : Fin 128) :
    V1 m d (Proc.devRef .tc main_v10) (ix2 r col) = tbl (kerArgs m d) r col := by
  have hr := r.isLt; have hc := col.isLt
  unfold V1 opsPre
  after_results
  unfold tbl
  by_cases h67 : col.val < 67
  · refine (pad_apply_of_inside (s := S32768x67) (t := S32768x128) ![0, 0] ![0, 61] ![0, 0] _ _ pads_S32768x67_S32768x128_000_0610 h_S_ (ix2 r col)
      (ix2 r (⟨col.val, h67⟩ : Fin 67)) (fun a => match a with
        | ⟨0, _⟩ => by show r.val = 0 + r.val * (0 + 1); omega
        | ⟨1, _⟩ => by show col.val = 0 + col.val * (0 + 1); omega)).trans ?_
    by_cases h64 : col.val < 64
    · rw [dif_pos h64]
      refine (concatenate_pair_apply_left (t := S32768x67) (s₁ := S32768x64) (s₂ := S32768x3) (1 : Fin 2) _ _ concatenates_S32768x64_S32768x3_S32768x67_d1
        (ix2 r (⟨col.val, h67⟩ : Fin 67)) rfl (ix2 r (⟨col.val, h64⟩ : Fin 64)) (fun b => match b with
          | ⟨0, _⟩ => rfl
          | ⟨1, _⟩ => rfl)).trans ?_
      exact shapeCast_apply _ shapeCasts_S4x8192x64_S32768x64 (ix2 r (⟨col.val, h64⟩ : Fin 64))
        (ix3 (flatB r) (flatM r) (⟨col.val, h64⟩ : Fin 64))
        (by rw [Shape.rowMajor_val_three, Shape.rowMajor_val_two]
            show (r.val / 8192 * 8192 + r.val % 8192) * 64 + col.val = r.val * 64 + col.val; omega)
    · rw [dif_neg h64, dif_pos h67]
      refine (concatenate_pair_apply_right (t := S32768x67) (s₁ := S32768x64) (s₂ := S32768x3) (1 : Fin 2) _ _ concatenates_S32768x64_S32768x3_S32768x67_d1
        (ix2 r (⟨col.val, h67⟩ : Fin 67)) rfl rfl (ix2 r (⟨col.val - 64, by omega⟩ : Fin 3)) (fun b hb => match b, hb with
          | ⟨0, _⟩, _ => rfl
          | ⟨1, _⟩, hb => absurd rfl hb)
        (by show col.val - 64 + 64 = col.val; omega)).trans ?_
      exact shapeCast_apply _ shapeCasts_S4x8192x3_S32768x3 (ix2 r (⟨col.val - 64, by omega⟩ : Fin 3))
        (ix3 (flatB r) (flatM r) (⟨col.val - 64, by omega⟩ : Fin 3))
        (by rw [Shape.rowMajor_val_three, Shape.rowMajor_val_two]
            show (r.val / 8192 * 8192 + r.val % 8192) * 3 + (col.val - 64) = r.val * 3 + (col.val - 64); omega)
  · rw [dif_neg (show ¬ col.val < 64 by omega), dif_neg h67]
    refine (pad_apply_of_not_inside (s := S32768x67) (t := S32768x128) ![0, 0] ![0, 61] ![0, 0] _ _ pads_S32768x67_S32768x128_000_0610 h_S_ (ix2 r col)
      (1 : Fin 2) (by show ¬ (0 ≤ col.val ∧ (col.val - 0) % (0 + 1) = 0 ∧ (col.val - 0) / (0 + 1) < 67); omega)).trans ?_
    show (((0#32 : BitVec 32).toInt : ℝ) : EReal) = 0
    simp

/-! ## The folded first layer -/

/-- The first-layer weights as a [32, 3, 16] array: entry (j, d, n) is column d · 16 + n of row j. -/
theorem w1r_at (w1 : FVec Ideal S32x48 .f32) (j : Fin 32) (d : Fin 3) (n : Fin 16) :
    shapeCast S32x3x16 w1 shapeCasts_S32x48_S32x3x16 (ix3 j d n) = w1 (ix2 j (col48 d n)) := by
  have hj := j.isLt; have hd := d.isLt; have hn := n.isLt
  exact shapeCast_apply w1 shapeCasts_S32x48_S32x3x16 (ix3 j d n) (ix2 j (col48 d n))
    (by rw [Shape.rowMajor_val_two, Shape.rowMajor_val_three]
        show j.val * 48 + (d.val * 16 + n.val) = (j.val * 3 + d.val) * 16 + n.val; omega)

/-- Summed over the sixteen centres of one coordinate. -/
theorem w1e_at (w1 : FVec Ideal S32x48 .f32) (j : Fin 32) (d : Fin 3) :
    Host.reduceAdd (F := Ideal) (shapeCast S32x3x16 w1 shapeCasts_S32x48_S32x3x16) (constant (F := Ideal) S_ .f32 0x00000000#32)
      reducesTo_S32x3x16_S32x3_d2 h_S_ (ix2 j d) = ∑ n : Fin 16, w1 (ix2 j (col48 d n)) := by
  show Ideal.hostReduceAdd reducesTo_S32x3x16_S32x3_d2 (shapeCast S32x3x16 w1 shapeCasts_S32x48_S32x3x16)
    (Ideal.ofBits .f32 0x00000000#32) (ix2 j d) = _
  rw [Ideal.hostReduceAdd_single reducesTo_S32x3x16_S32x3_d2 (by decide : S32x3x16.Reduces [2] S32x3),
    Ideal.ofBits_zero_f32, zero_add]
  show ∑ n : Fin 16, shapeCast S32x3x16 w1 shapeCasts_S32x48_S32x3x16 (ix3 j d n) = _
  exact Finset.sum_congr rfl fun n _ => w1r_at w1 j d n

/-- The centres' contribution: the sum over both the coordinate and the centre. -/
theorem cw_at (w1 : FVec Ideal S32x48 .f32) (cen : FVec Ideal S3x16 .f32) (j : Fin 32) :
    Host.reduceAdd (F := Ideal)
      (mulf (shapeCast S32x3x16 w1 shapeCasts_S32x48_S32x3x16)
        (broadcastInDim (s := S1x3x16) S32x3x16 ![0, 1, 2] bcast_S1x3x16_S32x3x16_0_1_2
          (broadcastInDim (s := S3x16) S1x3x16 ![1, 2] bcast_S3x16_S1x3x16_1_2 cen)))
      (constant (F := Ideal) S_ .f32 0x00000000#32) reducesTo_S32x3x16_S32_d1_2 h_S_ (ix1 j)
      = ∑ d : Fin 3, ∑ n : Fin 16, w1 (ix2 j (col48 d n)) * cen (ix2 d n) := by
  show Ideal.hostReduceAdd reducesTo_S32x3x16_S32_d1_2 _ (Ideal.ofBits .f32 0x00000000#32) (ix1 j) = _
  unfold Ideal.hostReduceAdd
  rw [Ideal.ofBits_zero_f32, zero_add, Finset.sum_filter, sum_idx3]
  have hdrop : ∀ (a : Fin 32) (d : Fin 3) (n : Fin 16),
      (reducesTo_S32x3x16_S32_d1_2.drop (ix3 a d n) = ix1 j) ↔ a = j := fun a d n => by
    constructor
    · intro h
      have := congrArg (fun f => (f (0 : Fin 1)).val) h
      exact Fin.ext this
    · rintro rfl
      funext b
      match b with
      | ⟨0, _⟩ => rfl
  rw [Fintype.sum_eq_single j (fun a ha => by
    refine Finset.sum_eq_zero fun d _ => Finset.sum_eq_zero fun n _ => ?_
    rw [if_neg (fun h => ha ((hdrop a d n).mp h))])]
  refine Finset.sum_congr rfl fun d _ => Finset.sum_congr rfl fun n _ => ?_
  rw [if_pos ((hdrop j d n).mpr rfl)]
  show shapeCast S32x3x16 w1 shapeCasts_S32x48_S32x3x16 (ix3 j d n)
    * broadcastInDim (s := S1x3x16) S32x3x16 ![0, 1, 2] bcast_S1x3x16_S32x3x16_0_1_2
        (broadcastInDim (s := S3x16) S1x3x16 ![1, 2] bcast_S3x16_S1x3x16_1_2 cen) (ix3 j d n) = _
  rw [w1r_at, broadcastInDim_apply _ bcast_S1x3x16_S32x3x16_0_1_2 _ (ix3 j d n) (ix3 (0 : Fin 1) d n) (fun a => match a with
      | ⟨0, _⟩ => by show 0 = if (1 : Nat) = 1 then 0 else j.val; rw [if_pos rfl]
      | ⟨1, _⟩ => by show d.val = if (3 : Nat) = 1 then 0 else d.val; rw [if_neg (by decide)]
      | ⟨2, _⟩ => by show n.val = if (16 : Nat) = 1 then 0 else n.val; rw [if_neg (by decide)]),
    broadcastInDim_apply _ bcast_S3x16_S1x3x16_1_2 _ (ix3 (0 : Fin 1) d n) (ix2 d n) (fun a => match a with
      | ⟨0, _⟩ => by show d.val = if (3 : Nat) = 1 then 0 else d.val; rw [if_neg (by decide)]
      | ⟨1, _⟩ => by show n.val = if (16 : Nat) = 1 then 0 else n.val; rw [if_neg (by decide)])]

theorem dot3_lhs0 (i : S32768x32.Idx) (q : dot_S32768x3_S3x32_S32768x32_1_0_0_1_n_n.contr.Idx) : (dot_S32768x3_S3x32_S32768x32_1_0_0_1_n_n.lhsIdx i q 0).val = (i 0).val := by
  unfold DotDims.lhsIdx
  rw [dif_neg (show ¬(0 : Fin S32768x3.rank) ∈ dot_S32768x3_S3x32_S32768x32_1_0_0_1_n_n.lhsBatch by decide),
    dif_pos (show (0 : Fin S32768x3.rank) ∈ dot_S32768x3_S3x32_S32768x32_1_0_0_1_n_n.lhsNonContracting by decide)]
  rfl
theorem dot3_lhs1 (i : S32768x32.Idx) (q : dot_S32768x3_S3x32_S32768x32_1_0_0_1_n_n.contr.Idx) : (dot_S32768x3_S3x32_S32768x32_1_0_0_1_n_n.lhsIdx i q 1).val = (q ⟨0, by decide⟩).val :=
  dot_S32768x3_S3x32_S32768x32_1_0_0_1_n_n.lhsIdx_val_of_single rfl i q
theorem dot3_rhs0 (i : S32768x32.Idx) (q : dot_S32768x3_S3x32_S32768x32_1_0_0_1_n_n.contr.Idx) : (dot_S32768x3_S3x32_S32768x32_1_0_0_1_n_n.rhsIdx i q 0).val = (q ⟨0, by decide⟩).val :=
  dot_S32768x3_S3x32_S32768x32_1_0_0_1_n_n.rhsIdx_val_of_single rfl i q
theorem dot3_rhs1 (i : S32768x32.Idx) (q : dot_S32768x3_S3x32_S32768x32_1_0_0_1_n_n.contr.Idx) : (dot_S32768x3_S3x32_S32768x32_1_0_0_1_n_n.rhsIdx i q 1).val = (i 1).val := by
  unfold DotDims.rhsIdx
  rw [dif_neg (show ¬(1 : Fin S3x32.rank) ∈ dot_S32768x3_S3x32_S32768x32_1_0_0_1_n_n.rhsBatch by decide),
    dif_pos (show (1 : Fin S3x32.rank) ∈ dot_S32768x3_S3x32_S32768x32_1_0_0_1_n_n.rhsNonContracting by decide)]
  rfl

/-- The query point against the centre-summed weights: a three-term contraction. -/
theorem dot3_at (L : FVec Ideal S32768x3 .f32) (R : FVec Ideal S3x32 .f32) (r : Fin 32768) (j : Fin 32) :
    Host.dotGeneral (F := Ideal) dot_S32768x3_S3x32_S32768x32_1_0_0_1_n_n none L R (ix2 r j) = ∑ d : Fin 3, L (ix2 r d) * R (ix2 d j) := by
  simp only [Host.dotGeneral]
  rw [Ideal.dotGeneral_apply, ← Equiv.sum_comp (ValueIdx.contrEquiv1 dot_S32768x3_S3x32_S32768x32_1_0_0_1_n_n 3 rfl rfl).symm]
  refine Finset.sum_congr rfl fun k _ => ?_
  have hk := ValueIdx.contrEquiv1_symm_val dot_S32768x3_S3x32_S32768x32_1_0_0_1_n_n 3 rfl rfl k
  have el : dot_S32768x3_S3x32_S32768x32_1_0_0_1_n_n.lhsIdx (ix2 r j) ((ValueIdx.contrEquiv1 dot_S32768x3_S3x32_S32768x32_1_0_0_1_n_n 3 rfl rfl).symm k) = ix2 r k := funext fun a => Fin.ext (by
    match a with
    | ⟨0, _⟩ => exact dot3_lhs0 _ _
    | ⟨1, _⟩ => exact (dot3_lhs1 _ _).trans hk)
  have er : dot_S32768x3_S3x32_S32768x32_1_0_0_1_n_n.rhsIdx (ix2 r j) ((ValueIdx.contrEquiv1 dot_S32768x3_S3x32_S32768x32_1_0_0_1_n_n 3 rfl rfl).symm k) = ix2 k j := funext fun a => Fin.ext (by
    match a with
    | ⟨0, _⟩ => exact (dot3_rhs0 _ _).trans hk
    | ⟨1, _⟩ => exact dot3_rhs1 _ _)
  rw [el, er]

/-- The folded first-layer weights on the table's 128 columns, as the host operations compute them. -/
theorem w1p_at (A : Args) (col : Fin 128) (j : Fin 32) :
    pad (s := S3x32) S128x32 ![64, 0] ![61, 0] ![0, 0]
      (transpose (s := S32x3) S3x32 [1, 0]
        (Host.reduceAdd (F := Ideal) (shapeCast S32x3x16 A.w1 shapeCasts_S32x48_S32x3x16)
          (constant (F := Ideal) S_ .f32 0x00000000#32) reducesTo_S32x3x16_S32x3_d2 h_S_)
        transposes_S32x3_S3x32_1_0)
      (sitofp (F := Ideal) .f32 (constantI S_ 32 0#32)) pads_S3x32_S128x32_64610_000 h_S_ (ix2 col j) = w1p A col j := by
  have hc := col.isLt; have hj := j.isLt
  unfold w1p
  by_cases hin : 64 ≤ col.val ∧ col.val < 67
  · rw [dif_pos hin]
    refine (pad_apply_of_inside (s := S3x32) (t := S128x32) ![64, 0] ![61, 0] ![0, 0] _ _ pads_S3x32_S128x32_64610_000 h_S_
      (ix2 col j) (ix2 (⟨col.val - 64, by omega⟩ : Fin 3) j) (fun a => match a with
        | ⟨0, _⟩ => by show col.val = 64 + (col.val - 64) * (0 + 1); omega
        | ⟨1, _⟩ => by show j.val = 0 + j.val * (0 + 1); omega)).trans ?_
    refine (transpose_apply (s := S32x3) (t := S3x32) [1, 0] _ transposes_S32x3_S3x32_1_0 (ix2 (⟨col.val - 64, by omega⟩ : Fin 3) j)
      (ix2 j (⟨col.val - 64, by omega⟩ : Fin 3)) (fun b => match b with
        | ⟨0, _⟩ => rfl
        | ⟨1, _⟩ => rfl)).trans ?_
    exact w1e_at A.w1 j ⟨col.val - 64, by omega⟩
  · rw [dif_neg hin]
    refine (pad_apply_of_not_inside (s := S3x32) (t := S128x32) ![64, 0] ![61, 0] ![0, 0] _ _ pads_S3x32_S128x32_64610_000 h_S_
      (ix2 col j) (0 : Fin 2) (by show ¬ (64 ≤ col.val ∧ (col.val - 64) % (0 + 1) = 0 ∧ (col.val - 64) / (0 + 1) < 3); omega)).trans ?_
    show (((0#32 : BitVec 32).toInt : ℝ) : EReal) = 0
    simp

/-- The per-point bias as the host operations compute it. -/
theorem hb_at (A : Args) (r : Fin 32768) (j : Fin 32) :
    subf (F := Ideal)
      (broadcastInDim (s := S1x32) S32768x32 ![0, 1] bcast_S1x32_S32768x32_0_1
        (broadcastInDim (s := S32) S1x32 ![1] bcast_S32_S1x32_1
          (subf (F := Ideal) (φ := .f32) A.b1
            (Host.reduceAdd (F := Ideal)
              (mulf (shapeCast S32x3x16 A.w1 shapeCasts_S32x48_S32x3x16)
                (broadcastInDim (s := S1x3x16) S32x3x16 ![0, 1, 2] bcast_S1x3x16_S32x3x16_0_1_2
                  (broadcastInDim (s := S3x16) S1x3x16 ![1, 2] bcast_S3x16_S1x3x16_1_2 A.centers)))
              (constant (F := Ideal) S_ .f32 0x00000000#32) reducesTo_S32x3x16_S32_d1_2 h_S_))))
      (Host.dotGeneral (F := Ideal) dot_S32768x3_S3x32_S32768x32_1_0_0_1_n_n none
        (shapeCast S32768x3 A.next shapeCasts_S4x8192x3_S32768x3 : FVec Ideal S32768x3 .f32)
        (transpose (s := S32x3) S3x32 [1, 0]
          (Host.reduceAdd (F := Ideal) (shapeCast S32x3x16 A.w1 shapeCasts_S32x48_S32x3x16)
            (constant (F := Ideal) S_ .f32 0x00000000#32) reducesTo_S32x3x16_S32x3_d2 h_S_)
          transposes_S32x3_S3x32_1_0 : FVec Ideal S3x32 .f32))
      (ix2 r j) = hb A (flatB r) (flatM r) j := by
  have hr := r.isLt
  rw [subf_apply, broadcastInDim_apply _ bcast_S1x32_S32768x32_0_1 _ (ix2 r j) (ix2 (0 : Fin 1) j) (fun a => match a with
      | ⟨0, _⟩ => by show 0 = if (1 : Nat) = 1 then 0 else r.val; rw [if_pos rfl]
      | ⟨1, _⟩ => by show j.val = if (32 : Nat) = 1 then 0 else j.val; rw [if_neg (by decide)]),
    broadcastInDim_apply _ bcast_S32_S1x32_1 _ (ix2 (0 : Fin 1) j) (ix1 j) (fun a => match a with
      | ⟨0, _⟩ => by show j.val = if (32 : Nat) = 1 then 0 else j.val; rw [if_neg (by decide)]),
    subf_apply, cw_at, dot3_at]
  unfold hb b1e cw
  congr 1
  refine Finset.sum_congr rfl fun dd _ => ?_
  congr 1
  · exact shapeCast_apply _ shapeCasts_S4x8192x3_S32768x3 (ix2 r dd) (ix3 (flatB r) (flatM r) dd)
      (by have := dd.isLt
          rw [Shape.rowMajor_val_three, Shape.rowMajor_val_two]
          show (r.val / 8192 * 8192 + r.val % 8192) * 3 + dd.val = r.val * 3 + dd.val; omega)
  · refine (transpose_apply (s := S32x3) (t := S3x32) [1, 0] _ transposes_S32x3_S3x32_1_0 (ix2 dd j) (ix2 j dd) (fun b => match b with
        | ⟨0, _⟩ => rfl
        | ⟨1, _⟩ => rfl)).trans ?_
    exact w1e_at A.w1 j dd

set_option maxRecDepth 8192 in
set_option maxHeartbeats 4000000 in
/-- The folded first-layer weights on the table's 128 columns. -/
theorem V1_v14 (m : (ℓ : Loc nD τ sig) → Buf (Elt Ideal) ℓ) (d : Dev nD) (col : Fin 128) (j : Fin 32) :
    V1 m d (Proc.devRef .tc main_v14) (ix2 col j) = w1p (kerArgs m d) col j := by
  unfold V1 opsPre
  after_results
  exact w1p_at (kerArgs m d) col j

set_option maxRecDepth 8192 in
set_option maxHeartbeats 4000000 in
/-- The per-point bias: row r = b · 8192 + m holds the bias of point (b, m). -/
theorem V1_v24 (m : (ℓ : Loc nD τ sig) → Buf (Elt Ideal) ℓ) (d : Dev nD) (r : Fin 32768) (j : Fin 32) :
    V1 m d (Proc.devRef .tc main_v24) (ix2 r j) = hb (kerArgs m d) (flatB r) (flatM r) j := by
  unfold V1 opsPre
  after_results
  exact hb_at (kerArgs m d) r j

/-! ## The row a list entry names -/

/-- Under the index range the row word is below 32768, so reducing it modulo 32768 names the same row. -/
theorem rowOf_rowWord {A : Args} (hI : IdxOk A) (b : Fin 4) (m : Fin 8192) (k : Fin 16) :
    rowOf (rowWord A b m k) = row A b m k := by
  refine Fin.ext ?_
  show (rowWord A b m k).toNat % 32768 = min (rowWord A b m k).toNat 32767
  have h1 := rowWord_toNat hI b m k
  have h2 := idx_toNat_le hI (ix3 b m k)
  have hb := b.isLt
  omega

end Cert.Proof.KI

end
-- ==== Proof.KerJoin.lean ====
/-
  The closing stretch of the rearranged program: the eight 4096-row results stacked into the 32768 flattened
  rows, then given the batch shape. Row b · 8192 + p of the stack is row (b · 8192 + p) mod 4096 of result
  number (b · 8192 + p) / 4096.
-/
import proofs.«214101_g10505490006249_cont_week2b_118_28_alg».proof.Proof.MainSplit
import Idealize.ShloMosaic.Lib.Pipeline.Value

noncomputable section

namespace Cert.Proof.KI

open Cert.KernelIdeal Cert.KernelIdeal.Gen
open Idealize.ShloMosaic Idealize.SL.Sem Idealize.ShloMosaic.ValueIdx Idealize.ShloMosaic.StableHlo

/-- The eight results, as the device's buffers hold them. -/
def tcOut (V : Valuation τ sig (Elt Ideal)) : Fin 8 → (S4096x64.Idx → EReal)
  | ⟨0, _⟩ => V (Proc.devRef .tc main_v35)
  | ⟨1, _⟩ => V (Proc.devRef .tc main_v37)
  | ⟨2, _⟩ => V (Proc.devRef .tc main_v39)
  | ⟨3, _⟩ => V (Proc.devRef .tc main_v41)
  | ⟨4, _⟩ => V (Proc.devRef .tc main_v43)
  | ⟨5, _⟩ => V (Proc.devRef .tc main_v45)
  | ⟨6, _⟩ => V (Proc.devRef .tc main_v47)
  | ⟨7, _⟩ => V (Proc.devRef .tc main_v49)

set_option maxRecDepth 65536 in
set_option maxHeartbeats 4000000 in
/-- The program's result at (b, p, o): result number (b · 8192 + p) / 4096 at its row (b · 8192 + p) mod 4096. -/
theorem join_at (V : Valuation τ sig (Elt Ideal)) (b : Fin 4) (p : Fin 8192) (o : Fin 64) :
    StableHlo.after (opsPost (F := Ideal)) V (Proc.devRef .tc main_v51) (ix3 b p o)
      = tcOut V ⟨(b.val * 8192 + p.val) / 4096, by have := b.isLt; have := p.isLt; omega⟩
          (ix2 (⟨(b.val * 8192 + p.val) % 4096, Nat.mod_lt _ (by decide)⟩ : Fin 4096) o) := by
  have hb := b.isLt; have hp := p.isLt; have ho := o.isLt
  have hR : b.val * 8192 + p.val < 32768 := by omega
  unfold opsPost
  after_results
  refine (shapeCast_apply _ shapeCasts_S32768x64_S4x8192x64 (ix3 b p o) (ix2 (⟨b.val * 8192 + p.val, hR⟩ : Fin 32768) o)
    (by rw [Shape.rowMajor_val_two, Shape.rowMajor_val_three]; rfl)).trans ?_
  generalize hq : (⟨(b.val * 8192 + p.val) / 4096, by omega⟩ : Fin 8) = q
  have hq : (b.val * 8192 + p.val) / 4096 = q.val := congrArg Fin.val hq
  match q, hq with
  | ⟨0, _⟩, hq =>
    refine (concatenate_apply_piece (α := EReal) (t := S32768x64) (0 : Fin 2)
      ([⟨S4096x64, V (Proc.devRef .tc main_v35)⟩, ⟨S4096x64, V (Proc.devRef .tc main_v37)⟩, ⟨S4096x64, V (Proc.devRef .tc main_v39)⟩, ⟨S4096x64, V (Proc.devRef .tc main_v41)⟩, ⟨S4096x64, V (Proc.devRef .tc main_v43)⟩, ⟨S4096x64, V (Proc.devRef .tc main_v45)⟩, ⟨S4096x64, V (Proc.devRef .tc main_v47)⟩, ⟨S4096x64, V (Proc.devRef .tc main_v49)⟩] : List ((s : Shape) × (s.Idx → EReal)))
      concatenates_S4096x64_S4096x64_S4096x64_S4096x64_S4096x64_S4096x64_S4096x64_S4096x64_S32768x64_d0 (ix2 (⟨b.val * 8192 + p.val, hR⟩ : Fin 32768) o)
      0 (by show (0 : Nat) < 8; decide) S4096x64 (V (Proc.devRef .tc main_v35)) rfl rfl 0 rfl
      (ix2 (⟨(b.val * 8192 + p.val) % 4096, Nat.mod_lt _ (by decide)⟩ : Fin 4096) o) (fun a ha => match a, ha with
        | ⟨0, _⟩, ha => absurd rfl ha
        | ⟨1, _⟩, _ => rfl)
      (by show 0 + (b.val * 8192 + p.val) % 4096 = b.val * 8192 + p.val
          have : (b.val * 8192 + p.val) / 4096 = 0 := hq; omega)).trans ?_
    rfl
  | ⟨1, _⟩, hq =>
    refine (concatenate_apply_piece (α := EReal) (t := S32768x64) (0 : Fin 2)
      ([⟨S4096x64, V (Proc.devRef .tc main_v35)⟩, ⟨S4096x64, V (Proc.devRef .tc main_v37)⟩, ⟨S4096x64, V (Proc.devRef .tc main_v39)⟩, ⟨S4096x64, V (Proc.devRef .tc main_v41)⟩, ⟨S4096x64, V (Proc.devRef .tc main_v43)⟩, ⟨S4096x64, V (Proc.devRef .tc main_v45)⟩, ⟨S4096x64, V (Proc.devRef .tc main_v47)⟩, ⟨S4096x64, V (Proc.devRef .tc main_v49)⟩] : List ((s : Shape) × (s.Idx → EReal)))
      concatenates_S4096x64_S4096x64_S4096x64_S4096x64_S4096x64_S4096x64_S4096x64_S4096x64_S32768x64_d0 (ix2 (⟨b.val * 8192 + p.val, hR⟩ : Fin 32768) o)
      1 (by show (1 : Nat) < 8; decide) S4096x64 (V (Proc.devRef .tc main_v37)) rfl rfl 4096 rfl
      (ix2 (⟨(b.val * 8192 + p.val) % 4096, Nat.mod_lt _ (by decide)⟩ : Fin 4096) o) (fun a ha => match a, ha with
        | ⟨0, _⟩, ha => absurd rfl ha
        | ⟨1, _⟩, _ => rfl)
      (by show 4096 + (b.val * 8192 + p.val) % 4096 = b.val * 8192 + p.val
          have : (b.val * 8192 + p.val) / 4096 = 1 := hq; omega)).trans ?_
    rfl
  | ⟨2, _⟩, hq =>
    refine (concatenate_apply_piece (α := EReal) (t := S32768x64) (0 : Fin 2)
      ([⟨S4096x64, V (Proc.devRef .tc main_v35)⟩, ⟨S4096x64, V (Proc.devRef .tc main_v37)⟩, ⟨S4096x64, V (Proc.devRef .tc main_v39)⟩, ⟨S4096x64, V (Proc.devRef .tc main_v41)⟩, ⟨S4096x64, V (Proc.devRef .tc main_v43)⟩, ⟨S4096x64, V (Proc.devRef .tc main_v45)⟩, ⟨S4096x64, V (Proc.devRef .tc main_v47)⟩, ⟨S4096x64, V (Proc.devRef .tc main_v49)⟩] : List ((s : Shape) × (s.Idx → EReal)))
      concatenates_S4096x64_S4096x64_S4096x64_S4096x64_S4096x64_S4096x64_S4096x64_S4096x64_S32768x64_d0 (ix2 (⟨b.val * 8192 + p.val, hR⟩ : Fin 32768) o)
      2 (by show (2 : Nat) < 8; decide) S4096x64 (V (Proc.devRef .tc main_v39)) rfl rfl 8192 rfl
      (ix2 (⟨(b.val * 8192 + p.val) % 4096, Nat.mod_lt _ (by decide)⟩ : Fin 4096) o) (fun a ha => match a, ha with
        | ⟨0, _⟩, ha => absurd rfl ha
        | ⟨1, _⟩, _ => rfl)
      (by show 8192 + (b.val * 8192 + p.val) % 4096 = b.val * 8192 + p.val
          have : (b.val * 8192 + p.val) / 4096 = 2 := hq; omega)).trans ?_
    rfl
  | ⟨3, _⟩, hq =>
    refine (concatenate_apply_piece (α := EReal) (t := S32768x64) (0 : Fin 2)
      ([⟨S4096x64, V (Proc.devRef .tc main_v35)⟩, ⟨S4096x64, V (Proc.devRef .tc main_v37)⟩, ⟨S4096x64, V (Proc.devRef .tc main_v39)⟩, ⟨S4096x64, V (Proc.devRef .tc main_v41)⟩, ⟨S4096x64, V (Proc.devRef .tc main_v43)⟩, ⟨S4096x64, V (Proc.devRef .tc main_v45)⟩, ⟨S4096x64, V (Proc.devRef .tc main_v47)⟩, ⟨S4096x64, V (Proc.devRef .tc main_v49)⟩] : List ((s : Shape) × (s.Idx → EReal)))
      concatenates_S4096x64_S4096x64_S4096x64_S4096x64_S4096x64_S4096x64_S4096x64_S4096x64_S32768x64_d0 (ix2 (⟨b.val * 8192 + p.val, hR⟩ : Fin 32768) o)
      3 (by show (3 : Nat) < 8; decide) S4096x64 (V (Proc.devRef .tc main_v41)) rfl rfl 12288 rfl
      (ix2 (⟨(b.val * 8192 + p.val) % 4096, Nat.mod_lt _ (by decide)⟩ : Fin 4096) o) (fun a ha => match a, ha with
        | ⟨0, _⟩, ha => absurd rfl ha
        | ⟨1, _⟩, _ => rfl)
      (by show 12288 + (b.val * 8192 + p.val) % 4096 = b.val * 8192 + p.val
          have : (b.val * 8192 + p.val) / 4096 = 3 := hq; omega)).trans ?_
    rfl
  | ⟨4, _⟩, hq =>
    refine (concatenate_apply_piece (α := EReal) (t := S32768x64) (0 : Fin 2)
      ([⟨S4096x64, V (Proc.devRef .tc main_v35)⟩, ⟨S4096x64, V (Proc.devRef .tc main_v37)⟩, ⟨S4096x64, V (Proc.devRef .tc main_v39)⟩, ⟨S4096x64, V (Proc.devRef .tc main_v41)⟩, ⟨S4096x64, V (Proc.devRef .tc main_v43)⟩, ⟨S4096x64, V (Proc.devRef .tc main_v45)⟩, ⟨S4096x64, V (Proc.devRef .tc main_v47)⟩, ⟨S4096x64, V (Proc.devRef .tc main_v49)⟩] : List ((s : Shape) × (s.Idx → EReal)))
      concatenates_S4096x64_S4096x64_S4096x64_S4096x64_S4096x64_S4096x64_S4096x64_S4096x64_S32768x64_d0 (ix2 (⟨b.val * 8192 + p.val, hR⟩ : Fin 32768) o)
      4 (by show (4 : Nat) < 8; decide) S4096x64 (V (Proc.devRef .tc main_v43)) rfl rfl 16384 rfl
      (ix2 (⟨(b.val * 8192 + p.val) % 4096, Nat.mod_lt _ (by decide)⟩ : Fin 4096) o) (fun a ha => match a, ha with
        | ⟨0, _⟩, ha => absurd rfl ha
        | ⟨1, _⟩, _ => rfl)
      (by show 16384 + (b.val * 8192 + p.val) % 4096 = b.val * 8192 + p.val
          have : (b.val * 8192 + p.val) / 4096 = 4 := hq; omega)).trans ?_
    rfl
  | ⟨5, _⟩, hq =>
    refine (concatenate_apply_piece (α := EReal) (t := S32768x64) (0 : Fin 2)
      ([⟨S4096x64, V (Proc.devRef .tc main_v35)⟩, ⟨S4096x64, V (Proc.devRef .tc main_v37)⟩, ⟨S4096x64, V (Proc.devRef .tc main_v39)⟩, ⟨S4096x64, V (Proc.devRef .tc main_v41)⟩, ⟨S4096x64, V (Proc.devRef .tc main_v43)⟩, ⟨S4096x64, V (Proc.devRef .tc main_v45)⟩, ⟨S4096x64, V (Proc.devRef .tc main_v47)⟩, ⟨S4096x64, V (Proc.devRef .tc main_v49)⟩] : List ((s : Shape) × (s.Idx → EReal)))
      concatenates_S4096x64_S4096x64_S4096x64_S4096x64_S4096x64_S4096x64_S4096x64_S4096x64_S32768x64_d0 (ix2 (⟨b.val * 8192 + p.val, hR⟩ : Fin 32768) o)
      5 (by show (5 : Nat) < 8; decide) S4096x64 (V (Proc.devRef .tc main_v45)) rfl rfl 20480 rfl
      (ix2 (⟨(b.val * 8192 + p.val) % 4096, Nat.mod_lt _ (by decide)⟩ : Fin 4096) o) (fun a ha => match a, ha with
        | ⟨0, _⟩, ha => absurd rfl ha
        | ⟨1, _⟩, _ => rfl)
      (by show 20480 + (b.val * 8192 + p.val) % 4096 = b.val * 8192 + p.val
          have : (b.val * 8192 + p.val) / 4096 = 5 := hq; omega)).trans ?_
    rfl
  | ⟨6, _⟩, hq =>
    refine (concatenate_apply_piece (α := EReal) (t := S32768x64) (0 : Fin 2)
      ([⟨S4096x64, V (Proc.devRef .tc main_v35)⟩, ⟨S4096x64, V (Proc.devRef .tc main_v37)⟩, ⟨S4096x64, V (Proc.devRef .tc main_v39)⟩, ⟨S4096x64, V (Proc.devRef .tc main_v41)⟩, ⟨S4096x64, V (Proc.devRef .tc main_v43)⟩, ⟨S4096x64, V (Proc.devRef .tc main_v45)⟩, ⟨S4096x64, V (Proc.devRef .tc main_v47)⟩, ⟨S4096x64, V (Proc.devRef .tc main_v49)⟩] : List ((s : Shape) × (s.Idx → EReal)))
      concatenates_S4096x64_S4096x64_S4096x64_S4096x64_S4096x64_S4096x64_S4096x64_S4096x64_S32768x64_d0 (ix2 (⟨b.val * 8192 + p.val, hR⟩ : Fin 32768) o)
      6 (by show (6 : Nat) < 8; decide) S4096x64 (V (Proc.devRef .tc main_v47)) rfl rfl 24576 rfl
      (ix2 (⟨(b.val * 8192 + p.val) % 4096, Nat.mod_lt _ (by decide)⟩ : Fin 4096) o) (fun a ha => match a, ha with
        | ⟨0, _⟩, ha => absurd rfl ha
        | ⟨1, _⟩, _ => rfl)
      (by show 24576 + (b.val * 8192 + p.val) % 4096 = b.val * 8192 + p.val
          have : (b.val * 8192 + p.val) / 4096 = 6 := hq; omega)).trans ?_
    rfl
  | ⟨7, _⟩, hq =>
    refine (concatenate_apply_piece (α := EReal) (t := S32768x64) (0 : Fin 2)
      ([⟨S4096x64, V (Proc.devRef .tc main_v35)⟩, ⟨S4096x64, V (Proc.devRef .tc main_v37)⟩, ⟨S4096x64, V (Proc.devRef .tc main_v39)⟩, ⟨S4096x64, V (Proc.devRef .tc main_v41)⟩, ⟨S4096x64, V (Proc.devRef .tc main_v43)⟩, ⟨S4096x64, V (Proc.devRef .tc main_v45)⟩, ⟨S4096x64, V (Proc.devRef .tc main_v47)⟩, ⟨S4096x64, V (Proc.devRef .tc main_v49)⟩] : List ((s : Shape) × (s.Idx → EReal)))
      concatenates_S4096x64_S4096x64_S4096x64_S4096x64_S4096x64_S4096x64_S4096x64_S4096x64_S32768x64_d0 (ix2 (⟨b.val * 8192 + p.val, hR⟩ : Fin 32768) o)
      7 (by show (7 : Nat) < 8; decide) S4096x64 (V (Proc.devRef .tc main_v49)) rfl rfl 28672 rfl
      (ix2 (⟨(b.val * 8192 + p.val) % 4096, Nat.mod_lt _ (by decide)⟩ : Fin 4096) o) (fun a ha => match a, ha with
        | ⟨0, _⟩, ha => absurd rfl ha
        | ⟨1, _⟩, _ => rfl)
      (by show 28672 + (b.val * 8192 + p.val) % 4096 = b.val * 8192 + p.val
          have : (b.val * 8192 + p.val) / 4096 = 7 := hq; omega)).trans ?_
    rfl

end Cert.Proof.KI

end
-- ==== Proof.KerBlock.lean ====
/-
  One TensorCore call's value, element by element. The body multiplies the gathered block (sixteen
  consecutive rows per point) by the padded first-layer weights, adds the point's bias to its sixteen rows,
  rectifies, applies the second and third layers, contracts the sixteen neighbours of each point against
  the block's first 64 columns, and multiplies the 1024 products n · 64 + c by the output matrix. Read at
  one point p and one output o it is the rearranged form of the result, whenever the block's sixteen
  rows of p hold the table rows of p's neighbours and the small arrays hold the folded weights.
-/
import proofs.«214101_g10505490006249_cont_week2b_118_28_alg».proof.Proof.Gen.KernelIdeal.Skeleton
import proofs.«214101_g10505490006249_cont_week2b_118_28_alg».proof.Proof.MathSpec
import Idealize.ShloMosaic.Lib.Pipeline.Value
import Idealize.ShloMosaic.Lib.ValueIdx
import Idealize.ShloMosaic.PureOps.Ideal.Laws

noncomputable section

namespace Cert.Proof.KI

open Cert.KernelIdeal Cert.KernelIdeal.Gen Cert.Proof.Math
open Idealize.ShloMosaic Idealize.ShloMosaic.ValueIdx
open scoped BigOperators

/-! ## The four plain products and the batched one -/

theorem mmA_lhs0 (i : S16384x32.Idx) (q : dot_S16384x128_S128x32_S16384x32_1_0_0_1_n_n.contr.Idx) : (dot_S16384x128_S128x32_S16384x32_1_0_0_1_n_n.lhsIdx i q 0).val = (i 0).val := by
  unfold DotDims.lhsIdx
  rw [dif_neg (show ¬(0 : Fin S16384x128.rank) ∈ dot_S16384x128_S128x32_S16384x32_1_0_0_1_n_n.lhsBatch by decide),
    dif_pos (show (0 : Fin S16384x128.rank) ∈ dot_S16384x128_S128x32_S16384x32_1_0_0_1_n_n.lhsNonContracting by decide)]
  rfl
theorem mmA_lhs1 (i : S16384x32.Idx) (q : dot_S16384x128_S128x32_S16384x32_1_0_0_1_n_n.contr.Idx) : (dot_S16384x128_S128x32_S16384x32_1_0_0_1_n_n.lhsIdx i q 1).val = (q ⟨0, by decide⟩).val :=
  dot_S16384x128_S128x32_S16384x32_1_0_0_1_n_n.lhsIdx_val_of_single rfl i q
theorem mmA_rhs0 (i : S16384x32.Idx) (q : dot_S16384x128_S128x32_S16384x32_1_0_0_1_n_n.contr.Idx) : (dot_S16384x128_S128x32_S16384x32_1_0_0_1_n_n.rhsIdx i q 0).val = (q ⟨0, by decide⟩).val :=
  dot_S16384x128_S128x32_S16384x32_1_0_0_1_n_n.rhsIdx_val_of_single rfl i q
theorem mmA_rhs1 (i : S16384x32.Idx) (q : dot_S16384x128_S128x32_S16384x32_1_0_0_1_n_n.contr.Idx) : (dot_S16384x128_S128x32_S16384x32_1_0_0_1_n_n.rhsIdx i q 1).val = (i 1).val := by
  unfold DotDims.rhsIdx
  rw [dif_neg (show ¬(1 : Fin S128x32.rank) ∈ dot_S16384x128_S128x32_S16384x32_1_0_0_1_n_n.rhsBatch by decide),
    dif_pos (show (1 : Fin S128x32.rank) ∈ dot_S16384x128_S128x32_S16384x32_1_0_0_1_n_n.rhsNonContracting by decide)]
  rfl
/-- A plain product of a [16384, 128] array with a [128, 32] array into a zero accumulator, at (r, c). -/
theorem mmA_at (L : FVec Ideal S16384x128 .f32) (R : FVec Ideal S128x32 .f32) (r : Fin 16384) (c : Fin 32) :
    matmul dot_S16384x128_S128x32_S16384x32_1_0_0_1_n_n none L R (constant (F := Ideal) S16384x32 .f32 0x00000000#32) (ix2 r c)
      = ∑ k : Fin 128, L (ix2 r k) * R (ix2 k c) := by
  refine (Ideal.matmul_constant_zero_apply dot_S16384x128_S128x32_S16384x32_1_0_0_1_n_n none L R (ix2 r c)).trans ?_
  rw [← Equiv.sum_comp (ValueIdx.contrEquiv1 dot_S16384x128_S128x32_S16384x32_1_0_0_1_n_n 128 rfl rfl).symm]
  refine Finset.sum_congr rfl fun k _ => ?_
  have hk := ValueIdx.contrEquiv1_symm_val dot_S16384x128_S128x32_S16384x32_1_0_0_1_n_n 128 rfl rfl k
  have el : dot_S16384x128_S128x32_S16384x32_1_0_0_1_n_n.lhsIdx (ix2 r c) ((ValueIdx.contrEquiv1 dot_S16384x128_S128x32_S16384x32_1_0_0_1_n_n 128 rfl rfl).symm k) = ix2 r k :=
    funext fun a => Fin.ext (by
      match a with
      | ⟨0, _⟩ => exact mmA_lhs0 _ _
      | ⟨1, _⟩ => exact (mmA_lhs1 _ _).trans hk)
  have er : dot_S16384x128_S128x32_S16384x32_1_0_0_1_n_n.rhsIdx (ix2 r c) ((ValueIdx.contrEquiv1 dot_S16384x128_S128x32_S16384x32_1_0_0_1_n_n 128 rfl rfl).symm k) = ix2 k c :=
    funext fun a => Fin.ext (by
      match a with
      | ⟨0, _⟩ => exact (mmA_rhs0 _ _).trans hk
      | ⟨1, _⟩ => exact mmA_rhs1 _ _)
  rw [el, er]

theorem mmB_lhs0 (i : S16384x16.Idx) (q : dot_S16384x32_S32x16_S16384x16_1_0_0_1_n_n.contr.Idx) : (dot_S16384x32_S32x16_S16384x16_1_0_0_1_n_n.lhsIdx i q 0).val = (i 0).val := by
  unfold DotDims.lhsIdx
  rw [dif_neg (show ¬(0 : Fin S16384x32.rank) ∈ dot_S16384x32_S32x16_S16384x16_1_0_0_1_n_n.lhsBatch by decide),
    dif_pos (show (0 : Fin S16384x32.rank) ∈ dot_S16384x32_S32x16_S16384x16_1_0_0_1_n_n.lhsNonContracting by decide)]
  rfl
theorem mmB_lhs1 (i : S16384x16.Idx) (q : dot_S16384x32_S32x16_S16384x16_1_0_0_1_n_n.contr.Idx) : (dot_S16384x32_S32x16_S16384x16_1_0_0_1_n_n.lhsIdx i q 1).val = (q ⟨0, by decide⟩).val :=
  dot_S16384x32_S32x16_S16384x16_1_0_0_1_n_n.lhsIdx_val_of_single rfl i q
theorem mmB_rhs0 (i : S16384x16.Idx) (q : dot_S16384x32_S32x16_S16384x16_1_0_0_1_n_n.contr.Idx) : (dot_S16384x32_S32x16_S16384x16_1_0_0_1_n_n.rhsIdx i q 0).val = (q ⟨0, by decide⟩).val :=
  dot_S16384x32_S32x16_S16384x16_1_0_0_1_n_n.rhsIdx_val_of_single rfl i q
theorem mmB_rhs1 (i : S16384x16.Idx) (q : dot_S16384x32_S32x16_S16384x16_1_0_0_1_n_n.contr.Idx) : (dot_S16384x32_S32x16_S16384x16_1_0_0_1_n_n.rhsIdx i q 1).val = (i 1).val := by
  unfold DotDims.rhsIdx
  rw [dif_neg (show ¬(1 : Fin S32x16.rank) ∈ dot_S16384x32_S32x16_S16384x16_1_0_0_1_n_n.rhsBatch by decide),
    dif_pos (show (1 : Fin S32x16.rank) ∈ dot_S16384x32_S32x16_S16384x16_1_0_0_1_n_n.rhsNonContracting by decide)]
  rfl
/-- A plain product of a [16384, 32] array with a [32, 16] array into a zero accumulator, at (r, c). -/
theorem mmB_at (L : FVec Ideal S16384x32 .f32) (R : FVec Ideal S32x16 .f32) (r : Fin 16384) (c : Fin 16) :
    matmul dot_S16384x32_S32x16_S16384x16_1_0_0_1_n_n none L R (constant (F := Ideal) S16384x16 .f32 0x00000000#32) (ix2 r c)
      = ∑ k : Fin 32, L (ix2 r k) * R (ix2 k c) := by
  refine (Ideal.matmul_constant_zero_apply dot_S16384x32_S32x16_S16384x16_1_0_0_1_n_n none L R (ix2 r c)).trans ?_
  rw [← Equiv.sum_comp (ValueIdx.contrEquiv1 dot_S16384x32_S32x16_S16384x16_1_0_0_1_n_n 32 rfl rfl).symm]
  refine Finset.sum_congr rfl fun k _ => ?_
  have hk := ValueIdx.contrEquiv1_symm_val dot_S16384x32_S32x16_S16384x16_1_0_0_1_n_n 32 rfl rfl k
  have el : dot_S16384x32_S32x16_S16384x16_1_0_0_1_n_n.lhsIdx (ix2 r c) ((ValueIdx.contrEquiv1 dot_S16384x32_S32x16_S16384x16_1_0_0_1_n_n 32 rfl rfl).symm k) = ix2 r k :=
    funext fun a => Fin.ext (by
      match a with
      | ⟨0, _⟩ => exact mmB_lhs0 _ _
      | ⟨1, _⟩ => exact (mmB_lhs1 _ _).trans hk)
  have er : dot_S16384x32_S32x16_S16384x16_1_0_0_1_n_n.rhsIdx (ix2 r c) ((ValueIdx.contrEquiv1 dot_S16384x32_S32x16_S16384x16_1_0_0_1_n_n 32 rfl rfl).symm k) = ix2 k c :=
    funext fun a => Fin.ext (by
      match a with
      | ⟨0, _⟩ => exact (mmB_rhs0 _ _).trans hk
      | ⟨1, _⟩ => exact mmB_rhs1 _ _)
  rw [el, er]

theorem mmC_lhs0 (i : S16384x16.Idx) (q : dot_S16384x16_S16x16_S16384x16_1_0_0_1_n_n.contr.Idx) : (dot_S16384x16_S16x16_S16384x16_1_0_0_1_n_n.lhsIdx i q 0).val = (i 0).val := by
  unfold DotDims.lhsIdx
  rw [dif_neg (show ¬(0 : Fin S16384x16.rank) ∈ dot_S16384x16_S16x16_S16384x16_1_0_0_1_n_n.lhsBatch by decide),
    dif_pos (show (0 : Fin S16384x16.rank) ∈ dot_S16384x16_S16x16_S16384x16_1_0_0_1_n_n.lhsNonContracting by decide)]
  rfl
theorem mmC_lhs1 (i : S16384x16.Idx) (q : dot_S16384x16_S16x16_S16384x16_1_0_0_1_n_n.contr.Idx) : (dot_S16384x16_S16x16_S16384x16_1_0_0_1_n_n.lhsIdx i q 1).val = (q ⟨0, by decide⟩).val :=
  dot_S16384x16_S16x16_S16384x16_1_0_0_1_n_n.lhsIdx_val_of_single rfl i q
theorem mmC_rhs0 (i : S16384x16.Idx) (q : dot_S16384x16_S16x16_S16384x16_1_0_0_1_n_n.contr.Idx) : (dot_S16384x16_S16x16_S16384x16_1_0_0_1_n_n.rhsIdx i q 0).val = (q ⟨0, by decide⟩).val :=
  dot_S16384x16_S16x16_S16384x16_1_0_0_1_n_n.rhsIdx_val_of_single rfl i q
theorem mmC_rhs1 (i : S16384x16.Idx) (q : dot_S16384x16_S16x16_S16384x16_1_0_0_1_n_n.contr.Idx) : (dot_S16384x16_S16x16_S16384x16_1_0_0_1_n_n.rhsIdx i q 1).val = (i 1).val := by
  unfold DotDims.rhsIdx
  rw [dif_neg (show ¬(1 : Fin S16x16.rank) ∈ dot_S16384x16_S16x16_S16384x16_1_0_0_1_n_n.rhsBatch by decide),
    dif_pos (show (1 : Fin S16x16.rank) ∈ dot_S16384x16_S16x16_S16384x16_1_0_0_1_n_n.rhsNonContracting by decide)]
  rfl
/-- A plain product of a [16384, 16] array with a [16, 16] array into a zero accumulator, at (r, c). -/
theorem mmC_at (L : FVec Ideal S16384x16 .f32) (R : FVec Ideal S16x16 .f32) (r : Fin 16384) (c : Fin 16) :
    matmul dot_S16384x16_S16x16_S16384x16_1_0_0_1_n_n none L R (constant (F := Ideal) S16384x16 .f32 0x00000000#32) (ix2 r c)
      = ∑ k : Fin 16, L (ix2 r k) * R (ix2 k c) := by
  refine (Ideal.matmul_constant_zero_apply dot_S16384x16_S16x16_S16384x16_1_0_0_1_n_n none L R (ix2 r c)).trans ?_
  rw [← Equiv.sum_comp (ValueIdx.contrEquiv1 dot_S16384x16_S16x16_S16384x16_1_0_0_1_n_n 16 rfl rfl).symm]
  refine Finset.sum_congr rfl fun k _ => ?_
  have hk := ValueIdx.contrEquiv1_symm_val dot_S16384x16_S16x16_S16384x16_1_0_0_1_n_n 16 rfl rfl k
  have el : dot_S16384x16_S16x16_S16384x16_1_0_0_1_n_n.lhsIdx (ix2 r c) ((ValueIdx.contrEquiv1 dot_S16384x16_S16x16_S16384x16_1_0_0_1_n_n 16 rfl rfl).symm k) = ix2 r k :=
    funext fun a => Fin.ext (by
      match a with
      | ⟨0, _⟩ => exact mmC_lhs0 _ _
      | ⟨1, _⟩ => exact (mmC_lhs1 _ _).trans hk)
  have er : dot_S16384x16_S16x16_S16384x16_1_0_0_1_n_n.rhsIdx (ix2 r c) ((ValueIdx.contrEquiv1 dot_S16384x16_S16x16_S16384x16_1_0_0_1_n_n 16 rfl rfl).symm k) = ix2 k c :=
    funext fun a => Fin.ext (by
      match a with
      | ⟨0, _⟩ => exact (mmC_rhs0 _ _).trans hk
      | ⟨1, _⟩ => exact mmC_rhs1 _ _)
  rw [el, er]

theorem mmE_lhs0 (i : S1024x64.Idx) (q : dot_S1024x1024_S1024x64_S1024x64_1_0_0_1_n_n.contr.Idx) : (dot_S1024x1024_S1024x64_S1024x64_1_0_0_1_n_n.lhsIdx i q 0).val = (i 0).val := by
  unfold DotDims.lhsIdx
  rw [dif_neg (show ¬(0 : Fin S1024x1024.rank) ∈ dot_S1024x1024_S1024x64_S1024x64_1_0_0_1_n_n.lhsBatch by decide),
    dif_pos (show (0 : Fin S1024x1024.rank) ∈ dot_S1024x1024_S1024x64_S1024x64_1_0_0_1_n_n.lhsNonContracting by decide)]
  rfl
theorem mmE_lhs1 (i : S1024x64.Idx) (q : dot_S1024x1024_S1024x64_S1024x64_1_0_0_1_n_n.contr.Idx) : (dot_S1024x1024_S1024x64_S1024x64_1_0_0_1_n_n.lhsIdx i q 1).val = (q ⟨0, by decide⟩).val :=
  dot_S1024x1024_S1024x64_S1024x64_1_0_0_1_n_n.lhsIdx_val_of_single rfl i q
theorem mmE_rhs0 (i : S1024x64.Idx) (q : dot_S1024x1024_S1024x64_S1024x64_1_0_0_1_n_n.contr.Idx) : (dot_S1024x1024_S1024x64_S1024x64_1_0_0_1_n_n.rhsIdx i q 0).val = (q ⟨0, by decide⟩).val :=
  dot_S1024x1024_S1024x64_S1024x64_1_0_0_1_n_n.rhsIdx_val_of_single rfl i q
theorem mmE_rhs1 (i : S1024x64.Idx) (q : dot_S1024x1024_S1024x64_S1024x64_1_0_0_1_n_n.contr.Idx) : (dot_S1024x1024_S1024x64_S1024x64_1_0_0_1_n_n.rhsIdx i q 1).val = (i 1).val := by
  unfold DotDims.rhsIdx
  rw [dif_neg (show ¬(1 : Fin S1024x64.rank) ∈ dot_S1024x1024_S1024x64_S1024x64_1_0_0_1_n_n.rhsBatch by decide),
    dif_pos (show (1 : Fin S1024x64.rank) ∈ dot_S1024x1024_S1024x64_S1024x64_1_0_0_1_n_n.rhsNonContracting by decide)]
  rfl
/-- A plain product of a [1024, 1024] array with a [1024, 64] array into a zero accumulator, at (r, c). -/
theorem mmE_at (L : FVec Ideal S1024x1024 .f32) (R : FVec Ideal S1024x64 .f32) (r : Fin 1024) (c : Fin 64) :
    matmul dot_S1024x1024_S1024x64_S1024x64_1_0_0_1_n_n none L R (constant (F := Ideal) S1024x64 .f32 0x00000000#32) (ix2 r c)
      = ∑ k : Fin 1024, L (ix2 r k) * R (ix2 k c) := by
  refine (Ideal.matmul_constant_zero_apply dot_S1024x1024_S1024x64_S1024x64_1_0_0_1_n_n none L R (ix2 r c)).trans ?_
  rw [← Equiv.sum_comp (ValueIdx.contrEquiv1 dot_S1024x1024_S1024x64_S1024x64_1_0_0_1_n_n 1024 rfl rfl).symm]
  refine Finset.sum_congr rfl fun k _ => ?_
  have hk := ValueIdx.contrEquiv1_symm_val dot_S1024x1024_S1024x64_S1024x64_1_0_0_1_n_n 1024 rfl rfl k
  have el : dot_S1024x1024_S1024x64_S1024x64_1_0_0_1_n_n.lhsIdx (ix2 r c) ((ValueIdx.contrEquiv1 dot_S1024x1024_S1024x64_S1024x64_1_0_0_1_n_n 1024 rfl rfl).symm k) = ix2 r k :=
    funext fun a => Fin.ext (by
      match a with
      | ⟨0, _⟩ => exact mmE_lhs0 _ _
      | ⟨1, _⟩ => exact (mmE_lhs1 _ _).trans hk)
  have er : dot_S1024x1024_S1024x64_S1024x64_1_0_0_1_n_n.rhsIdx (ix2 r c) ((ValueIdx.contrEquiv1 dot_S1024x1024_S1024x64_S1024x64_1_0_0_1_n_n 1024 rfl rfl).symm k) = ix2 k c :=
    funext fun a => Fin.ext (by
      match a with
      | ⟨0, _⟩ => exact (mmE_rhs0 _ _).trans hk
      | ⟨1, _⟩ => exact mmE_rhs1 _ _)
  rw [el, er]

theorem mmD_lhs0 (i : S1024x16x64.Idx) (q : dot_S1024x16x16_S1024x16x64_S1024x16x64_1_1_2_2_0_0.contr.Idx) : (dot_S1024x16x16_S1024x16x64_S1024x16x64_1_1_2_2_0_0.lhsIdx i q 0).val = (i 0).val := by
  unfold DotDims.lhsIdx
  rw [dif_pos (show (0 : Fin S1024x16x16.rank) ∈ dot_S1024x16x16_S1024x16x64_S1024x16x64_1_1_2_2_0_0.lhsBatch by decide)]
  rfl
theorem mmD_lhs1 (i : S1024x16x64.Idx) (q : dot_S1024x16x16_S1024x16x64_S1024x16x64_1_1_2_2_0_0.contr.Idx) : (dot_S1024x16x16_S1024x16x64_S1024x16x64_1_1_2_2_0_0.lhsIdx i q 1).val = (q ⟨0, by decide⟩).val :=
  dot_S1024x16x16_S1024x16x64_S1024x16x64_1_1_2_2_0_0.lhsIdx_val_of_single rfl i q
theorem mmD_lhs2 (i : S1024x16x64.Idx) (q : dot_S1024x16x16_S1024x16x64_S1024x16x64_1_1_2_2_0_0.contr.Idx) : (dot_S1024x16x16_S1024x16x64_S1024x16x64_1_1_2_2_0_0.lhsIdx i q 2).val = (i 1).val := by
  unfold DotDims.lhsIdx
  rw [dif_neg (show ¬(2 : Fin S1024x16x16.rank) ∈ dot_S1024x16x16_S1024x16x64_S1024x16x64_1_1_2_2_0_0.lhsBatch by decide),
    dif_pos (show (2 : Fin S1024x16x16.rank) ∈ dot_S1024x16x16_S1024x16x64_S1024x16x64_1_1_2_2_0_0.lhsNonContracting by decide)]
  rfl
theorem mmD_rhs0 (i : S1024x16x64.Idx) (q : dot_S1024x16x16_S1024x16x64_S1024x16x64_1_1_2_2_0_0.contr.Idx) : (dot_S1024x16x16_S1024x16x64_S1024x16x64_1_1_2_2_0_0.rhsIdx i q 0).val = (i 0).val := by
  unfold DotDims.rhsIdx
  rw [dif_pos (show (0 : Fin S1024x16x64.rank) ∈ dot_S1024x16x16_S1024x16x64_S1024x16x64_1_1_2_2_0_0.rhsBatch by decide)]
  rfl
theorem mmD_rhs1 (i : S1024x16x64.Idx) (q : dot_S1024x16x16_S1024x16x64_S1024x16x64_1_1_2_2_0_0.contr.Idx) : (dot_S1024x16x16_S1024x16x64_S1024x16x64_1_1_2_2_0_0.rhsIdx i q 1).val = (q ⟨0, by decide⟩).val :=
  dot_S1024x16x16_S1024x16x64_S1024x16x64_1_1_2_2_0_0.rhsIdx_val_of_single rfl i q
theorem mmD_rhs2 (i : S1024x16x64.Idx) (q : dot_S1024x16x16_S1024x16x64_S1024x16x64_1_1_2_2_0_0.contr.Idx) : (dot_S1024x16x16_S1024x16x64_S1024x16x64_1_1_2_2_0_0.rhsIdx i q 2).val = (i 2).val := by
  unfold DotDims.rhsIdx
  rw [dif_neg (show ¬(2 : Fin S1024x16x64.rank) ∈ dot_S1024x16x16_S1024x16x64_S1024x16x64_1_1_2_2_0_0.rhsBatch by decide),
    dif_pos (show (2 : Fin S1024x16x64.rank) ∈ dot_S1024x16x16_S1024x16x64_S1024x16x64_1_1_2_2_0_0.rhsNonContracting by decide)]
  rfl
/-- The batched product over the sixteen neighbours of each point, at (p, n, c). -/
theorem mmD_at (L : FVec Ideal S1024x16x16 .f32) (R : FVec Ideal S1024x16x64 .f32) (p : Fin 1024) (n : Fin 16) (c : Fin 64) :
    matmul dot_S1024x16x16_S1024x16x64_S1024x16x64_1_1_2_2_0_0 none L R (constant (F := Ideal) S1024x16x64 .f32 0x00000000#32) (ix3 p n c)
      = ∑ k : Fin 16, L (ix3 p k n) * R (ix3 p k c) := by
  refine (Ideal.matmul_constant_zero_apply dot_S1024x16x16_S1024x16x64_S1024x16x64_1_1_2_2_0_0 none L R (ix3 p n c)).trans ?_
  rw [← Equiv.sum_comp (ValueIdx.contrEquiv1 dot_S1024x16x16_S1024x16x64_S1024x16x64_1_1_2_2_0_0 16 rfl rfl).symm]
  refine Finset.sum_congr rfl fun k _ => ?_
  have hk := ValueIdx.contrEquiv1_symm_val dot_S1024x16x16_S1024x16x64_S1024x16x64_1_1_2_2_0_0 16 rfl rfl k
  have el : dot_S1024x16x16_S1024x16x64_S1024x16x64_1_1_2_2_0_0.lhsIdx (ix3 p n c) ((ValueIdx.contrEquiv1 dot_S1024x16x16_S1024x16x64_S1024x16x64_1_1_2_2_0_0 16 rfl rfl).symm k) = ix3 p k n :=
    funext fun a => Fin.ext (by
      match a with
      | ⟨0, _⟩ => exact mmD_lhs0 _ _
      | ⟨1, _⟩ => exact (mmD_lhs1 _ _).trans hk
      | ⟨2, _⟩ => exact mmD_lhs2 _ _)
  have er : dot_S1024x16x16_S1024x16x64_S1024x16x64_1_1_2_2_0_0.rhsIdx (ix3 p n c) ((ValueIdx.contrEquiv1 dot_S1024x16x16_S1024x16x64_S1024x16x64_1_1_2_2_0_0 16 rfl rfl).symm k) = ix3 p k c :=
    funext fun a => Fin.ext (by
      match a with
      | ⟨0, _⟩ => exact mmD_rhs0 _ _
      | ⟨1, _⟩ => exact (mmD_rhs1 _ _).trans hk
      | ⟨2, _⟩ => exact mmD_rhs2 _ _)
  rw [el, er]

/-! ## The body's stages -/

/-- Row 16 p + k of the gathered block: neighbour k of the block's point p. -/
def erow (p : Fin 1024) (k : Fin 16) : Fin 16384 := ⟨p.val * 16 + k.val, by have := p.isLt; have := k.isLt; omega⟩

/-- The gathered block against the padded first-layer weights. -/
def st4 (g : FVec Ideal S16384x128 .f32) (w1 : FVec Ideal S128x32 .f32) : FVec Ideal S16384x32 .f32 :=
  matmul dot_S16384x128_S128x32_S16384x32_1_0_0_1_n_n none (shapeCast S16384x128 g shapeCasts_S16384x128_S16384x128)
    (shapeCast S128x32 w1 shapeCasts_S128x32_S128x32) (constant (F := Ideal) S16384x32 .f32 0x00000000#32)

/-- The first layer: each point's bias added to its sixteen rows, then the rectifier. -/
def st13 (g : FVec Ideal S16384x128 .f32) (w1 : FVec Ideal S128x32 .f32) (hbB : FVec Ideal S1024x32 .f32) :
    FVec Ideal S16384x32 .f32 :=
  shapeCast S16384x32
    (maximumf
      (addf (shapeCast S1024x16x32 (st4 g w1) shapeCasts_S16384x32_S1024x16x32)
        (broadcastTo S1024x16x32
          (shapeCast S1024x1x32 (shapeCast S1024x32 hbB shapeCasts_S1024x32_S1024x32) shapeCasts_S1024x32_S1024x1x32)
          broadcasts_S1024x1x32_S1024x16x32))
      (broadcast S1024x16x32 (Scalar.ofBits (F := Ideal) .f32 0x00000000#32)))
    shapeCasts_S1024x16x32_S16384x32

/-- The second layer. -/
def st22 (h : FVec Ideal S16384x32 .f32) (w2t : FVec Ideal S32x16 .f32) (b2r : FVec Ideal S1x16 .f32) :
    FVec Ideal S16384x16 .f32 :=
  maximumf
    (addf (matmul dot_S16384x32_S32x16_S16384x16_1_0_0_1_n_n none h (shapeCast S32x16 w2t shapeCasts_S32x16_S32x16)
        (constant (F := Ideal) S16384x16 .f32 0x00000000#32))
      (broadcastTo S16384x16 (shapeCast S1x16 b2r shapeCasts_S1x16_S1x16) broadcasts_S1x16_S16384x16))
    (broadcast S16384x16 (Scalar.ofBits (F := Ideal) .f32 0x00000000#32))

/-- The third layer. -/
def st31 (h : FVec Ideal S16384x16 .f32) (w3t : FVec Ideal S16x16 .f32) (b3r : FVec Ideal S1x16 .f32) :
    FVec Ideal S16384x16 .f32 :=
  maximumf
    (addf (matmul dot_S16384x16_S16x16_S16384x16_1_0_0_1_n_n none h (shapeCast S16x16 w3t shapeCasts_S16x16_S16x16)
        (constant (F := Ideal) S16384x16 .f32 0x00000000#32))
      (broadcastTo S16384x16 (shapeCast S1x16 b3r shapeCasts_S1x16_S1x16) broadcasts_S1x16_S16384x16))
    (broadcast S16384x16 (Scalar.ofBits (F := Ideal) .f32 0x00000000#32))

/-- The sixteen neighbours of each point contracted against the block's first 64 columns, flattened to n · 64 + c. -/
def st36 (g : FVec Ideal S16384x128 .f32) (h : FVec Ideal S16384x16 .f32) : FVec Ideal S1024x1024 .f32 :=
  shapeCast S1024x1024
    (matmul dot_S1024x16x16_S1024x16x64_S1024x16x64_1_1_2_2_0_0 none (shapeCast S1024x16x16 h shapeCasts_S16384x16_S1024x16x16)
      (extractStridedSlice S1024x16x64 ![0, 0, 0]
        (shapeCast S1024x16x128 (shapeCast S16384x128 g shapeCasts_S16384x128_S16384x128) shapeCasts_S16384x128_S1024x16x128)
        slices_S1024x16x128_o0_0_0_S1024x16x64)
      (constant (F := Ideal) S1024x16x64 .f32 0x00000000#32))
    shapeCasts_S1024x16x64_S1024x1024

set_option maxRecDepth 8192 in
/-- The printed payload is these stages composed. -/
theorem k1_pay2_eq (g : FVec Ideal S16384x128 .f32) (w1 : FVec Ideal S128x32 .f32) (hbB : FVec Ideal S1024x32 .f32)
    (w2t : FVec Ideal S32x16 .f32) (b2r : FVec Ideal S1x16 .f32) (w3t : FVec Ideal S16x16 .f32) (b3r : FVec Ideal S1x16 .f32) :
    k1_pay2 (F := Ideal) g w1 hbB w2t b2r w3t b3r = st36 g (st31 (st22 (st13 g w1 hbB) w2t b2r) w3t b3r) := rfl

/-! ## Each stage at an index -/

theorem st4_at (g : FVec Ideal S16384x128 .f32) (w1 : FVec Ideal S128x32 .f32) (e : Fin 16384) (j : Fin 32) :
    st4 g w1 (ix2 e j) = ∑ col : Fin 128, g (ix2 e col) * w1 (ix2 col j) := by
  unfold st4
  rw [shapeCast_self, shapeCast_self]
  exact mmA_at g w1 e j

theorem st13_at (g : FVec Ideal S16384x128 .f32) (w1 : FVec Ideal S128x32 .f32) (hbB : FVec Ideal S1024x32 .f32)
    (p : Fin 1024) (k : Fin 16) (j : Fin 32) :
    st13 g w1 hbB (ix2 (erow p k) j)
      = max ((∑ col : Fin 128, g (ix2 (erow p k) col) * w1 (ix2 col j)) + hbB (ix2 p j)) 0 := by
  have hp := p.isLt; have hk := k.isLt; have hj := j.isLt
  unfold st13
  refine (shapeCast_apply _ shapeCasts_S1024x16x32_S16384x32 (ix2 (erow p k) j) (ix3 p k j)
    (by rw [Shape.rowMajor_val_three, Shape.rowMajor_val_two]; rfl)).trans ?_
  have e1 : shapeCast S1024x16x32 (st4 g w1) shapeCasts_S16384x32_S1024x16x32 (ix3 p k j) = st4 g w1 (ix2 (erow p k) j) :=
    shapeCast_apply _ shapeCasts_S16384x32_S1024x16x32 (ix3 p k j) (ix2 (erow p k) j)
      (by rw [Shape.rowMajor_val_three, Shape.rowMajor_val_two]; rfl)
  have e2 : broadcastTo S1024x16x32
      (shapeCast S1024x1x32 (shapeCast S1024x32 hbB shapeCasts_S1024x32_S1024x32) shapeCasts_S1024x32_S1024x1x32)
      broadcasts_S1024x1x32_S1024x16x32 (ix3 p k j) = hbB (ix2 p j) := by
    refine (broadcastTo_apply _ broadcasts_S1024x1x32_S1024x16x32 (ix3 p k j) (ix3 p (0 : Fin 1) j) (fun a => match a with
      | ⟨0, _⟩ => by show p.val = if (1024 : Nat) = 1 then 0 else p.val; rw [if_neg (by decide)]
      | ⟨1, _⟩ => by show 0 = if (1 : Nat) = 1 then 0 else k.val; rw [if_pos rfl]
      | ⟨2, _⟩ => by show j.val = if (32 : Nat) = 1 then 0 else j.val; rw [if_neg (by decide)])).trans ?_
    rw [shapeCast_self]
    exact shapeCast_apply _ shapeCasts_S1024x32_S1024x1x32 (ix3 p (0 : Fin 1) j) (ix2 p j)
      (by rw [Shape.rowMajor_val_three, Shape.rowMajor_val_two]; show p.val * 32 + j.val = (p.val * 1 + 0) * 32 + j.val; omega)
  show max (shapeCast S1024x16x32 (st4 g w1) shapeCasts_S16384x32_S1024x16x32 (ix3 p k j)
      + broadcastTo S1024x16x32 _ broadcasts_S1024x1x32_S1024x16x32 (ix3 p k j)) (Ideal.ofBits .f32 0x00000000#32) = _
  rw [e1, e2, st4_at, Ideal.ofBits_zero_f32]

theorem st22_at (h : FVec Ideal S16384x32 .f32) (w2t : FVec Ideal S32x16 .f32) (b2r : FVec Ideal S1x16 .f32)
    (e : Fin 16384) (a : Fin 16) :
    st22 h w2t b2r (ix2 e a) = max ((∑ j : Fin 32, h (ix2 e j) * w2t (ix2 j a)) + b2r (ix2 (0 : Fin 1) a)) 0 := by
  unfold st22
  have e2 : broadcastTo S16384x16 (shapeCast S1x16 b2r shapeCasts_S1x16_S1x16) broadcasts_S1x16_S16384x16 (ix2 e a)
      = b2r (ix2 (0 : Fin 1) a) := by
    rw [shapeCast_self]
    exact broadcastTo_apply _ broadcasts_S1x16_S16384x16 (ix2 e a) (ix2 (0 : Fin 1) a) (fun b => match b with
      | ⟨0, _⟩ => by show 0 = if (1 : Nat) = 1 then 0 else e.val; rw [if_pos rfl]
      | ⟨1, _⟩ => by show a.val = if (16 : Nat) = 1 then 0 else a.val; rw [if_neg (by decide)])
  show max (matmul dot_S16384x32_S32x16_S16384x16_1_0_0_1_n_n none h (shapeCast S32x16 w2t shapeCasts_S32x16_S32x16)
        (constant (F := Ideal) S16384x16 .f32 0x00000000#32) (ix2 e a)
      + broadcastTo S16384x16 _ broadcasts_S1x16_S16384x16 (ix2 e a)) (Ideal.ofBits .f32 0x00000000#32) = _
  rw [e2, shapeCast_self, mmB_at, Ideal.ofBits_zero_f32]

theorem st31_at (h : FVec Ideal S16384x16 .f32) (w3t : FVec Ideal S16x16 .f32) (b3r : FVec Ideal S1x16 .f32)
    (e : Fin 16384) (n : Fin 16) :
    st31 h w3t b3r (ix2 e n) = max ((∑ a : Fin 16, h (ix2 e a) * w3t (ix2 a n)) + b3r (ix2 (0 : Fin 1) n)) 0 := by
  unfold st31
  have e2 : broadcastTo S16384x16 (shapeCast S1x16 b3r shapeCasts_S1x16_S1x16) broadcasts_S1x16_S16384x16 (ix2 e n)
      = b3r (ix2 (0 : Fin 1) n) := by
    rw [shapeCast_self]
    exact broadcastTo_apply _ broadcasts_S1x16_S16384x16 (ix2 e n) (ix2 (0 : Fin 1) n) (fun b => match b with
      | ⟨0, _⟩ => by show 0 = if (1 : Nat) = 1 then 0 else e.val; rw [if_pos rfl]
      | ⟨1, _⟩ => by show n.val = if (16 : Nat) = 1 then 0 else n.val; rw [if_neg (by decide)])
  show max (matmul dot_S16384x16_S16x16_S16384x16_1_0_0_1_n_n none h (shapeCast S16x16 w3t shapeCasts_S16x16_S16x16)
        (constant (F := Ideal) S16384x16 .f32 0x00000000#32) (ix2 e n)
      + broadcastTo S16384x16 _ broadcasts_S1x16_S16384x16 (ix2 e n)) (Ideal.ofBits .f32 0x00000000#32) = _
  rw [e2, shapeCast_self, mmC_at, Ideal.ofBits_zero_f32]

theorem st36_at (g : FVec Ideal S16384x128 .f32) (h : FVec Ideal S16384x16 .f32) (p : Fin 1024) (t : Fin 1024) :
    st36 g h (ix2 p t)
      = ∑ k : Fin 16, h (ix2 (erow p k) (q64 t)) * g (ix2 (erow p k) (⟨(r64 t).val, by have := (r64 t).isLt; omega⟩ : Fin 128)) := by
  have hp := p.isLt; have ht := t.isLt
  unfold st36
  refine (shapeCast_apply _ shapeCasts_S1024x16x64_S1024x1024 (ix2 p t) (ix3 p (q64 t) (r64 t))
    (by rw [Shape.rowMajor_val_three, Shape.rowMajor_val_two]
        show (p.val * 16 + t.val / 64) * 64 + t.val % 64 = p.val * 1024 + t.val; omega)).trans ?_
  rw [mmD_at]
  refine Finset.sum_congr rfl fun k _ => ?_
  have hk := k.isLt
  congr 1
  · exact shapeCast_apply _ shapeCasts_S16384x16_S1024x16x16 (ix3 p k (q64 t)) (ix2 (erow p k) (q64 t))
      (by rw [Shape.rowMajor_val_three, Shape.rowMajor_val_two]; rfl)
  · refine (extractStridedSlice_apply ![0, 0, 0] _ slices_S1024x16x128_o0_0_0_S1024x16x64 (ix3 p k (r64 t))
      (ix3 p k (⟨(r64 t).val, by have := (r64 t).isLt; omega⟩ : Fin 128)) (fun a => match a with
        | ⟨0, _⟩ => by show p.val = 0 + p.val; omega
        | ⟨1, _⟩ => by show k.val = 0 + k.val; omega
        | ⟨2, _⟩ => by show (r64 t).val = 0 + (r64 t).val; omega)).trans ?_
    rw [shapeCast_self]
    exact shapeCast_apply _ shapeCasts_S16384x128_S1024x16x128 (ix3 p k (⟨(r64 t).val, by have := (r64 t).isLt; omega⟩ : Fin 128))
      (ix2 (erow p k) (⟨(r64 t).val, by have := (r64 t).isLt; omega⟩ : Fin 128))
      (by rw [Shape.rowMajor_val_three, Shape.rowMajor_val_two]; rfl)

/-- The last product and the bias. -/
theorem k1_pay1_at (v36 : FVec Ideal S1024x1024 .f32) (wnB : FVec Ideal S1024x64 .f32) (biasr : FVec Ideal S1x64 .f32)
    (p : Fin 1024) (o : Fin 64) :
    k1_pay1 (F := Ideal) v36 wnB biasr (ix2 p o)
      = (∑ t : Fin 1024, v36 (ix2 p t) * wnB (ix2 t o)) + biasr (ix2 (0 : Fin 1) o) := by
  have e2 : broadcastTo S1024x64 (shapeCast S1x64 biasr shapeCasts_S1x64_S1x64) broadcasts_S1x64_S1024x64 (ix2 p o)
      = biasr (ix2 (0 : Fin 1) o) := by
    rw [shapeCast_self]
    exact broadcastTo_apply _ broadcasts_S1x64_S1024x64 (ix2 p o) (ix2 (0 : Fin 1) o) (fun b => match b with
      | ⟨0, _⟩ => by show 0 = if (1 : Nat) = 1 then 0 else p.val; rw [if_pos rfl]
      | ⟨1, _⟩ => by show o.val = if (64 : Nat) = 1 then 0 else o.val; rw [if_neg (by decide)])
  show matmul dot_S1024x1024_S1024x64_S1024x64_1_0_0_1_n_n none v36 (shapeCast S1024x64 wnB shapeCasts_S1024x64_S1024x64)
        (constant (F := Ideal) S1024x64 .f32 0x00000000#32) (ix2 p o)
      + broadcastTo S1024x64 (shapeCast S1x64 biasr shapeCasts_S1x64_S1x64) broadcasts_S1x64_S1024x64 (ix2 p o) = _
  rw [e2, shapeCast_self, mmE_at]

/-! ## The call's value at one point -/

/-- When the block's sixteen rows of point p hold the table rows of the neighbours of (b, m), the bias block's row p
    holds that point's bias, and the small arrays hold the folded weights, the stored value at (p, o) is the
    rearranged form of the result at (b, m, o). -/
theorem block_KerOut (A : Args) (b : Fin 4) (m : Fin 8192)
    (g : FVec Ideal S16384x128 .f32) (w1 : FVec Ideal S128x32 .f32) (hbB : FVec Ideal S1024x32 .f32)
    (w2t : FVec Ideal S32x16 .f32) (b2r : FVec Ideal S1x16 .f32) (w3t : FVec Ideal S16x16 .f32) (b3r : FVec Ideal S1x16 .f32)
    (wnB : FVec Ideal S1024x64 .f32) (biasr : FVec Ideal S1x64 .f32) (p : Fin 1024) (o : Fin 64)
    (hg : ∀ (k : Fin 16) (col : Fin 128), g (ix2 (erow p k) col) = tbl A (row A b m k) col)
    (hhb : ∀ j : Fin 32, hbB (ix2 p j) = hb A b m j)
    (hw1 : ∀ (col : Fin 128) (j : Fin 32), w1 (ix2 col j) = w1p A col j)
    (hw2 : ∀ (j : Fin 32) (n : Fin 16), w2t (ix2 j n) = A.w2 (ix2 n j))
    (hb2 : ∀ n : Fin 16, b2r (ix2 (0 : Fin 1) n) = A.b2 (ix1 n))
    (hw3 : ∀ (a n : Fin 16), w3t (ix2 a n) = A.w3 (ix2 n a))
    (hb3 : ∀ n : Fin 16, b3r (ix2 (0 : Fin 1) n) = A.b3 (ix1 n))
    (hwn : ∀ (t : Fin 1024) (o' : Fin 64), wnB (ix2 t o') = wn A t o')
    (hbias : ∀ o' : Fin 64, biasr (ix2 (0 : Fin 1) o') = A.bias (ix1 o')) :
    k1_pay1 (F := Ideal) (k1_pay2 (F := Ideal) g w1 hbB w2t b2r w3t b3r) wnB biasr (ix2 p o) = KerOut A b m o := by
  have h1 : ∀ (k : Fin 16) (j : Fin 32), st13 g w1 hbB (ix2 (erow p k) j) = h1K A b m k j := fun k j => by
    rw [st13_at]
    unfold h1K
    simp only [hg, hw1, hhb]
  have h2 : ∀ (k : Fin 16) (a : Fin 16), st22 (st13 g w1 hbB) w2t b2r (ix2 (erow p k) a) = layer2 A (h1K A b m k) a :=
    fun k a => by
      rw [st22_at]
      unfold layer2
      simp only [h1, hw2, hb2]
  have h3 : ∀ (k : Fin 16) (n : Fin 16),
      st31 (st22 (st13 g w1 hbB) w2t b2r) w3t b3r (ix2 (erow p k) n) = h3K A b m k n := fun k n => by
    rw [st31_at]
    unfold h3K layer3
    simp only [h2, hw3, hb3]
  rw [k1_pay1_at, k1_pay2_eq, hbias]
  unfold KerOut
  congr 1
  refine Finset.sum_congr rfl fun t _ => ?_
  rw [st36_at, hwn]
  unfold fpre
  congr 1
  refine Finset.sum_congr rfl fun k _ => ?_
  rw [h3, hg]

/-! ## The other seven calls print the same body -/
theorem k3_pay1_eq : @k3_pay1 Ideal _ = @k1_pay1 Ideal _ := rfl
theorem k3_pay2_eq : @k3_pay2 Ideal _ = @k1_pay2 Ideal _ := rfl
theorem k5_pay1_eq : @k5_pay1 Ideal _ = @k1_pay1 Ideal _ := rfl
theorem k5_pay2_eq : @k5_pay2 Ideal _ = @k1_pay2 Ideal _ := rfl
theorem k7_pay1_eq : @k7_pay1 Ideal _ = @k1_pay1 Ideal _ := rfl
theorem k7_pay2_eq : @k7_pay2 Ideal _ = @k1_pay2 Ideal _ := rfl
theorem k9_pay1_eq : @k9_pay1 Ideal _ = @k1_pay1 Ideal _ := rfl
theorem k9_pay2_eq : @k9_pay2 Ideal _ = @k1_pay2 Ideal _ := rfl
theorem k11_pay1_eq : @k11_pay1 Ideal _ = @k1_pay1 Ideal _ := rfl
theorem k11_pay2_eq : @k11_pay2 Ideal _ = @k1_pay2 Ideal _ := rfl
theorem k13_pay1_eq : @k13_pay1 Ideal _ = @k1_pay1 Ideal _ := rfl
theorem k13_pay2_eq : @k13_pay2 Ideal _ = @k1_pay2 Ideal _ := rfl
theorem k15_pay1_eq : @k15_pay1 Ideal _ = @k1_pay1 Ideal _ := rfl
theorem k15_pay2_eq : @k15_pay2 Ideal _ = @k1_pay2 Ideal _ := rfl

/-! ## A call over the arrays it reads -/

/-- Block t of a gather call's result: its rows [16384 t, 16384 (t + 1)). -/
def gBlock (G : S65536x128.Idx → EReal) (t : Fin 4) : FVec Ideal S16384x128 .f32 := fun i =>
  G (ix2 (⟨16384 * t.val + (i 0).val, by have := t.isLt; have := idx2_lt0 (n0 := 16384) (n1 := 128) i; omega⟩ : Fin 65536)
    (⟨(i 1).val, idx2_lt1 (n0 := 16384) (n1 := 128) i⟩ : Fin 128))

/-- Block 4 k + t of the per-point bias: its rows [1024 (4 k + t), 1024 (4 k + t + 1)). -/
def hbBlock (H : S32768x32.Idx → EReal) (k : Fin 8) (t : Fin 4) : FVec Ideal S1024x32 .f32 := fun i =>
  H (ix2 (⟨1024 * (4 * k.val + t.val) + (i 0).val, by have := k.isLt; have := t.isLt; have := idx2_lt0 (n0 := 1024) (n1 := 32) i; omega⟩ : Fin 32768)
    (⟨(i 1).val, idx2_lt1 (n0 := 1024) (n1 := 32) i⟩ : Fin 32))

/-- What call k stores at its local row r and output o: the body's value over block r / 1024 of its gathered rows G,
    block 4 k + r / 1024 of the per-point bias H, and the small arrays whole. -/
def callVal (k : Fin 8) (G : S65536x128.Idx → EReal) (W1 : S128x32.Idx → EReal) (H : S32768x32.Idx → EReal)
    (W2 : S32x16.Idx → EReal) (B2 : S1x16.Idx → EReal) (W3 : S16x16.Idx → EReal) (B3 : S1x16.Idx → EReal)
    (WN : S1024x64.Idx → EReal) (BIAS : S1x64.Idx → EReal) (r : Fin 4096) (o : Fin 64) : EReal :=
  k1_pay1 (F := Ideal)
    (k1_pay2 (F := Ideal) (gBlock G ⟨r.val / 1024, by have := r.isLt; omega⟩) W1
      (hbBlock H k ⟨r.val / 1024, by have := r.isLt; omega⟩) W2 B2 W3 B3)
    WN BIAS (ix2 (⟨r.val % 1024, Nat.mod_lt _ (by decide)⟩ : Fin 1024) o)

end Cert.Proof.KI

end
-- ==== Proof.KerFinal.lean ====
/-
  The rearranged program's final value. Point (b, p) is global point P = b · 8192 + p; it belongs to call
  P / 4096, where it is local row r = P mod 4096, in block r / 1024 at row r mod 1024. Its sixteen gathered
  rows are entries P · 16 + k of the index list, the row words of its sixteen neighbours; its bias row is
  row P of the per-point bias. The small arrays are not touched by any call. So the value the call stores for
  it is the rearranged form of the result at (b, p, ·), and the closing stack and reshape put it at (b, p, ·).
-/
import proofs.«214101_g10505490006249_cont_week2b_118_28_alg».proof.Proof.MainRun
import proofs.«214101_g10505490006249_cont_week2b_118_28_alg».proof.Proof.KerHost
import proofs.«214101_g10505490006249_cont_week2b_118_28_alg».proof.Proof.KerJoin
import proofs.«214101_g10505490006249_cont_week2b_118_28_alg».proof.Proof.KerBlock

set_option Elab.async false

noncomputable section

namespace Cert.Proof.KI

open Cert.KernelIdeal Cert.KernelIdeal.Gen Cert.Proof.Math
open Idealize.ShloMosaic Idealize.SL.Sem Idealize.ShloMosaic.ValueIdx Idealize.ShloMosaic.StableHlo
open Idealize.ShloMosaic.SparseCore (S V T)
open scoped BigOperators

variable (m : (ℓ : Loc nD τ sig) → Buf (Elt Ideal) ℓ)
variable (res0 : (d : Dev nD) → TCv (F := Ideal) d → Buf (Elt Ideal) ((SparseCore.T (τ := τ) d).loc main_v35))
variable (res1 : (d : Dev nD) → TCv (F := Ideal) d → Buf (Elt Ideal) ((SparseCore.T (τ := τ) d).loc main_v37))
variable (res2 : (d : Dev nD) → TCv (F := Ideal) d → Buf (Elt Ideal) ((SparseCore.T (τ := τ) d).loc main_v39))
variable (res3 : (d : Dev nD) → TCv (F := Ideal) d → Buf (Elt Ideal) ((SparseCore.T (τ := τ) d).loc main_v41))
variable (res4 : (d : Dev nD) → TCv (F := Ideal) d → Buf (Elt Ideal) ((SparseCore.T (τ := τ) d).loc main_v43))
variable (res5 : (d : Dev nD) → TCv (F := Ideal) d → Buf (Elt Ideal) ((SparseCore.T (τ := τ) d).loc main_v45))
variable (res6 : (d : Dev nD) → TCv (F := Ideal) d → Buf (Elt Ideal) ((SparseCore.T (τ := τ) d).loc main_v47))
variable (res7 : (d : Dev nD) → TCv (F := Ideal) d → Buf (Elt Ideal) ((SparseCore.T (τ := τ) d).loc main_v49))

/-! ## The buffers no call writes -/

/-- The sixteen arrays the calls write. -/
def callRefs : List (Ref sig .tc) := [main_v34, main_v35, main_v36, main_v37, main_v38, main_v39, main_v40, main_v41, main_v42, main_v43, main_v44, main_v45, main_v46, main_v47, main_v48, main_v49]

theorem WR0_host (d : Dev nD) (W : Valuation τ sig (Elt Ideal)) (x : Ref sig .tc) (h1 : x ≠ main_v34) (h2 : x ≠ main_v35) :
    WR0 m res0 d W (Proc.devRef .tc x) = W (Proc.devRef .tc x) := by
  unfold WR0
  rw [Function.update_of_ne (StableHlo.devRef_ne_of_ne h2), Function.update_of_ne (StableHlo.devRef_ne_of_ne h1)]

theorem WR1_host (d : Dev nD) (W : Valuation τ sig (Elt Ideal)) (x : Ref sig .tc) (h1 : x ≠ main_v36) (h2 : x ≠ main_v37) :
    WR1 m res1 d W (Proc.devRef .tc x) = W (Proc.devRef .tc x) := by
  unfold WR1
  rw [Function.update_of_ne (StableHlo.devRef_ne_of_ne h2), Function.update_of_ne (StableHlo.devRef_ne_of_ne h1)]

theorem WR2_host (d : Dev nD) (W : Valuation τ sig (Elt Ideal)) (x : Ref sig .tc) (h1 : x ≠ main_v38) (h2 : x ≠ main_v39) :
    WR2 m res2 d W (Proc.devRef .tc x) = W (Proc.devRef .tc x) := by
  unfold WR2
  rw [Function.update_of_ne (StableHlo.devRef_ne_of_ne h2), Function.update_of_ne (StableHlo.devRef_ne_of_ne h1)]

theorem WR3_host (d : Dev nD) (W : Valuation τ sig (Elt Ideal)) (x : Ref sig .tc) (h1 : x ≠ main_v40) (h2 : x ≠ main_v41) :
    WR3 m res3 d W (Proc.devRef .tc x) = W (Proc.devRef .tc x) := by
  unfold WR3
  rw [Function.update_of_ne (StableHlo.devRef_ne_of_ne h2), Function.update_of_ne (StableHlo.devRef_ne_of_ne h1)]

theorem WR4_host (d : Dev nD) (W : Valuation τ sig (Elt Ideal)) (x : Ref sig .tc) (h1 : x ≠ main_v42) (h2 : x ≠ main_v43) :
    WR4 m res4 d W (Proc.devRef .tc x) = W (Proc.devRef .tc x) := by
  unfold WR4
  rw [Function.update_of_ne (StableHlo.devRef_ne_of_ne h2), Function.update_of_ne (StableHlo.devRef_ne_of_ne h1)]

theorem WR5_host (d : Dev nD) (W : Valuation τ sig (Elt Ideal)) (x : Ref sig .tc) (h1 : x ≠ main_v44) (h2 : x ≠ main_v45) :
    WR5 m res5 d W (Proc.devRef .tc x) = W (Proc.devRef .tc x) := by
  unfold WR5
  rw [Function.update_of_ne (StableHlo.devRef_ne_of_ne h2), Function.update_of_ne (StableHlo.devRef_ne_of_ne h1)]

theorem WR6_host (d : Dev nD) (W : Valuation τ sig (Elt Ideal)) (x : Ref sig .tc) (h1 : x ≠ main_v46) (h2 : x ≠ main_v47) :
    WR6 m res6 d W (Proc.devRef .tc x) = W (Proc.devRef .tc x) := by
  unfold WR6
  rw [Function.update_of_ne (StableHlo.devRef_ne_of_ne h2), Function.update_of_ne (StableHlo.devRef_ne_of_ne h1)]

theorem WR7_host (d : Dev nD) (W : Valuation τ sig (Elt Ideal)) (x : Ref sig .tc) (h1 : x ≠ main_v48) (h2 : x ≠ main_v49) :
    WR7 m res7 d W (Proc.devRef .tc x) = W (Proc.devRef .tc x) := by
  unfold WR7
  rw [Function.update_of_ne (StableHlo.devRef_ne_of_ne h2), Function.update_of_ne (StableHlo.devRef_ne_of_ne h1)]

theorem Wk0_host (d : Dev nD) (x : Ref sig .tc) : Wk0 m d (Proc.devRef .tc x) = V1 m d (Proc.devRef .tc x) := rfl
theorem Wk1_host (d : Dev nD) (x : Ref sig .tc) (hx : ∀ y ∈ callRefs, x ≠ y) :
    Wk1 m res0 d (Proc.devRef .tc x) = V1 m d (Proc.devRef .tc x) := by
  show WR0 m res0 d (Wk0 m d) (Proc.devRef .tc x) = _
  exact WR0_host m res0 d _ x (hx _ (by decide)) (hx _ (by decide))
theorem Wk2_host (d : Dev nD) (x : Ref sig .tc) (hx : ∀ y ∈ callRefs, x ≠ y) :
    Wk2 m res0 res1 d (Proc.devRef .tc x) = V1 m d (Proc.devRef .tc x) := by
  show WR1 m res1 d (Wk1 m res0 d) (Proc.devRef .tc x) = _
  rw [WR1_host m res1 d _ x (hx _ (by decide)) (hx _ (by decide))]
  exact Wk1_host m res0 d x hx
theorem Wk3_host (d : Dev nD) (x : Ref sig .tc) (hx : ∀ y ∈ callRefs, x ≠ y) :
    Wk3 m res0 res1 res2 d (Proc.devRef .tc x) = V1 m d (Proc.devRef .tc x) := by
  show WR2 m res2 d (Wk2 m res0 res1 d) (Proc.devRef .tc x) = _
  rw [WR2_host m res2 d _ x (hx _ (by decide)) (hx _ (by decide))]
  exact Wk2_host m res0 res1 d x hx
theorem Wk4_host (d : Dev nD) (x : Ref sig .tc) (hx : ∀ y ∈ callRefs, x ≠ y) :
    Wk4 m res0 res1 res2 res3 d (Proc.devRef .tc x) = V1 m d (Proc.devRef .tc x) := by
  show WR3 m res3 d (Wk3 m res0 res1 res2 d) (Proc.devRef .tc x) = _
  rw [WR3_host m res3 d _ x (hx _ (by decide)) (hx _ (by decide))]
  exact Wk3_host m res0 res1 res2 d x hx
theorem Wk5_host (d : Dev nD) (x : Ref sig .tc) (hx : ∀ y ∈ callRefs, x ≠ y) :
    Wk5 m res0 res1 res2 res3 res4 d (Proc.devRef .tc x) = V1 m d (Proc.devRef .tc x) := by
  show WR4 m res4 d (Wk4 m res0 res1 res2 res3 d) (Proc.devRef .tc x) = _
  rw [WR4_host m res4 d _ x (hx _ (by decide)) (hx _ (by decide))]
  exact Wk4_host m res0 res1 res2 res3 d x hx
theorem Wk6_host (d : Dev nD) (x : Ref sig .tc) (hx : ∀ y ∈ callRefs, x ≠ y) :
    Wk6 m res0 res1 res2 res3 res4 res5 d (Proc.devRef .tc x) = V1 m d (Proc.devRef .tc x) := by
  show WR5 m res5 d (Wk5 m res0 res1 res2 res3 res4 d) (Proc.devRef .tc x) = _
  rw [WR5_host m res5 d _ x (hx _ (by decide)) (hx _ (by decide))]
  exact Wk5_host m res0 res1 res2 res3 res4 d x hx
theorem Wk7_host (d : Dev nD) (x : Ref sig .tc) (hx : ∀ y ∈ callRefs, x ≠ y) :
    Wk7 m res0 res1 res2 res3 res4 res5 res6 d (Proc.devRef .tc x) = V1 m d (Proc.devRef .tc x) := by
  show WR6 m res6 d (Wk6 m res0 res1 res2 res3 res4 res5 d) (Proc.devRef .tc x) = _
  rw [WR6_host m res6 d _ x (hx _ (by decide)) (hx _ (by decide))]
  exact Wk6_host m res0 res1 res2 res3 res4 res5 d x hx
theorem Wk8_host (d : Dev nD) (x : Ref sig .tc) (hx : ∀ y ∈ callRefs, x ≠ y) :
    Wk8 m res0 res1 res2 res3 res4 res5 res6 res7 d (Proc.devRef .tc x) = V1 m d (Proc.devRef .tc x) := by
  show WR7 m res7 d (Wk7 m res0 res1 res2 res3 res4 res5 res6 d) (Proc.devRef .tc x) = _
  rw [WR7_host m res7 d _ x (hx _ (by decide)) (hx _ (by decide))]
  exact Wk7_host m res0 res1 res2 res3 res4 res5 res6 d x hx

/-! ## The gathered rows and the bias row of a point -/

variable {m}

/-- The sixteen gathered rows of point (b, p), in its call's block, are the table rows of its neighbours. -/
theorem gathered_at (d : Dev nD) (hI : IdxOk (kerArgs m d)) (q : Fin 8) (b : Fin 4) (p : Fin 8192) (r : Fin 4096)
    (hr : r.val = (b.val * 8192 + p.val) % 4096) (hq : (b.val * 8192 + p.val) / 4096 = q.val) (kk : Fin 16) (col : Fin 128) :
    gBlock (gathered (tvOf m d) (ivOf m d) q) ⟨r.val / 1024, by have := r.isLt; omega⟩
        (ix2 (erow (⟨r.val % 1024, Nat.mod_lt _ (by decide)⟩ : Fin 1024) kk) col)
      = tbl (kerArgs m d) (row (kerArgs m d) b p kk) col := by
  have hb := b.isLt; have hp := p.isLt; have hk := kk.isLt; have hqq := q.isLt; have hrr := r.isLt; have hc := col.isLt
  have hlt : q.val * 65536 + (16384 * (r.val / 1024) + (r.val % 1024 * 16 + kk.val)) < 524288 := by omega
  show V1 m d (Proc.devRef .tc main_v10)
      (ix2 (rowOf (V1 m d (Proc.devRef .tc main_v6)
        (ix1 (⟨q.val * 65536 + (16384 * (r.val / 1024) + (r.val % 1024 * 16 + kk.val)), hlt⟩ : Fin 524288))))
        (⟨col.val, hc⟩ : Fin 128)) = _
  have he : (⟨q.val * 65536 + (16384 * (r.val / 1024) + (r.val % 1024 * 16 + kk.val)), hlt⟩ : Fin 524288)
      = (⟨(b.val * 8192 + p.val) * 16 + kk.val, by omega⟩ : Fin 524288) :=
    Fin.ext (by show q.val * 65536 + (16384 * (r.val / 1024) + (r.val % 1024 * 16 + kk.val))
      = (b.val * 8192 + p.val) * 16 + kk.val; omega)
  rw [he, V1_v6]
  have hw : rowWord (kerArgs m d) (⟨((b.val * 8192 + p.val) * 16 + kk.val) / 131072, by omega⟩ : Fin 4)
      (⟨((b.val * 8192 + p.val) * 16 + kk.val) / 16 % 8192, by omega⟩ : Fin 8192)
      (⟨((b.val * 8192 + p.val) * 16 + kk.val) % 16, by omega⟩ : Fin 16) = rowWord (kerArgs m d) b p kk := by
    congr 1
    · exact Fin.ext (by show ((b.val * 8192 + p.val) * 16 + kk.val) / 131072 = b.val; omega)
    · exact Fin.ext (by show ((b.val * 8192 + p.val) * 16 + kk.val) / 16 % 8192 = p.val; omega)
    · exact Fin.ext (by show ((b.val * 8192 + p.val) * 16 + kk.val) % 16 = kk.val; omega)
  rw [hw, rowOf_rowWord hI]
  exact V1_v10 m d (row (kerArgs m d) b p kk) col

/-- The bias row of point (b, p), in its call's block. -/
theorem hb_block_at (d : Dev nD) (q : Fin 8) (b : Fin 4) (p : Fin 8192) (r : Fin 4096)
    (hr : r.val = (b.val * 8192 + p.val) % 4096) (hq : (b.val * 8192 + p.val) / 4096 = q.val) (j : Fin 32) :
    hbBlock (V1 m d (Proc.devRef .tc main_v24)) q ⟨r.val / 1024, by have := r.isLt; omega⟩
        (ix2 (⟨r.val % 1024, Nat.mod_lt _ (by decide)⟩ : Fin 1024) j)
      = hb (kerArgs m d) b p j := by
  have hb := b.isLt; have hp := p.isLt; have hqq := q.isLt; have hrr := r.isLt; have hj := j.isLt
  have hlt : 1024 * (4 * q.val + r.val / 1024) + r.val % 1024 < 32768 := by omega
  show V1 m d (Proc.devRef .tc main_v24)
      (ix2 (⟨1024 * (4 * q.val + r.val / 1024) + r.val % 1024, hlt⟩ : Fin 32768) (⟨j.val, hj⟩ : Fin 32)) = _
  have hR : (⟨1024 * (4 * q.val + r.val / 1024) + r.val % 1024, hlt⟩ : Fin 32768)
      = (⟨b.val * 8192 + p.val, by omega⟩ : Fin 32768) :=
    Fin.ext (by show 1024 * (4 * q.val + r.val / 1024) + r.val % 1024 = b.val * 8192 + p.val; omega)
  rw [hR]
  refine (V1_v24 m d (⟨b.val * 8192 + p.val, by omega⟩ : Fin 32768) j).trans ?_
  congr 1
  · exact Fin.ext (by show (b.val * 8192 + p.val) / 8192 = b.val; omega)
  · exact Fin.ext (by show (b.val * 8192 + p.val) % 8192 = p.val; omega)

variable (m)

/-! ## Each call's result for a point it owns -/

theorem Wk8_out0 (d : Dev nD) :
    Wk8 m res0 res1 res2 res3 res4 res5 res6 res7 d (Proc.devRef .tc main_v35)
      = res0 d (rd d (Function.update (Wk0 m d) (Proc.devRef .tc main_v34) (gathered (tvOf m d) (ivOf m d) 0))) := by
  show WR7 m res7 d (Wk7 m res0 res1 res2 res3 res4 res5 res6 d) (Proc.devRef .tc main_v35) = _
  rw [WR7_host m res7 d _ main_v35 (by decide) (by decide)]
  show WR6 m res6 d (Wk6 m res0 res1 res2 res3 res4 res5 d) (Proc.devRef .tc main_v35) = _
  rw [WR6_host m res6 d _ main_v35 (by decide) (by decide)]
  show WR5 m res5 d (Wk5 m res0 res1 res2 res3 res4 d) (Proc.devRef .tc main_v35) = _
  rw [WR5_host m res5 d _ main_v35 (by decide) (by decide)]
  show WR4 m res4 d (Wk4 m res0 res1 res2 res3 d) (Proc.devRef .tc main_v35) = _
  rw [WR4_host m res4 d _ main_v35 (by decide) (by decide)]
  show WR3 m res3 d (Wk3 m res0 res1 res2 d) (Proc.devRef .tc main_v35) = _
  rw [WR3_host m res3 d _ main_v35 (by decide) (by decide)]
  show WR2 m res2 d (Wk2 m res0 res1 d) (Proc.devRef .tc main_v35) = _
  rw [WR2_host m res2 d _ main_v35 (by decide) (by decide)]
  show WR1 m res1 d (Wk1 m res0 d) (Proc.devRef .tc main_v35) = _
  rw [WR1_host m res1 d _ main_v35 (by decide) (by decide)]
  show WR0 m res0 d (Wk0 m d) (Proc.devRef .tc main_v35) = _
  unfold WR0
  rw [Function.update_self]

theorem V0_host (d : Dev nD) (x : Ref sig .tc) (hx : ∀ y ∈ callRefs, x ≠ y) :
    (rd d (Function.update (Wk0 m d) (Proc.devRef .tc main_v34) (gathered (tvOf m d) (ivOf m d) 0))) x = V1 m d (Proc.devRef .tc x) := by
  unfold rd
  rw [Function.update_of_ne (StableHlo.devRef_ne_of_ne (hx _ (by decide)))]

theorem V0_g (d : Dev nD) :
    (rd d (Function.update (Wk0 m d) (Proc.devRef .tc main_v34) (gathered (tvOf m d) (ivOf m d) 0))) main_v34 = gathered (tvOf m d) (ivOf m d) 0 := by
  unfold rd
  rw [Function.update_self]

/-- Call 0's result at a point it owns is the rearranged form of the result there. -/
theorem call0_KerOut (d : Dev nD)
    (hres : ∀ (V : TCv (F := Ideal) d) (r : Fin 4096) (o : Fin 64), res0 d V (ix2 r o)
      = callVal 0 (V main_v34) (V main_v14) (V main_v24) (V main_v25) (V main_v26) (V main_v27) (V main_v28) (V main_v32) (V main_v33) r o)
    (hI : IdxOk (kerArgs m d)) (b : Fin 4) (p : Fin 8192) (o : Fin 64) (r : Fin 4096)
    (hr : r.val = (b.val * 8192 + p.val) % 4096) (hq : (b.val * 8192 + p.val) / 4096 = ((0 : Fin 8) : Nat)) :
    Wk8 m res0 res1 res2 res3 res4 res5 res6 res7 d (Proc.devRef .tc main_v35) (ix2 r o) = KerOut (kerArgs m d) b p o := by
  rw [Wk8_out0, hres]
  unfold callVal
  rw [V0_g, V0_host m  d main_v14 (by decide), V0_host m  d main_v24 (by decide),
    V0_host m  d main_v25 (by decide), V0_host m  d main_v26 (by decide),
    V0_host m  d main_v27 (by decide), V0_host m  d main_v28 (by decide),
    V0_host m  d main_v32 (by decide), V0_host m  d main_v33 (by decide)]
  exact block_KerOut (kerArgs m d) b p
    (gBlock (gathered (tvOf m d) (ivOf m d) 0) ⟨r.val / 1024, by have := r.isLt; omega⟩)
    (V1 m d (Proc.devRef .tc main_v14))
    (hbBlock (V1 m d (Proc.devRef .tc main_v24)) 0 ⟨r.val / 1024, by have := r.isLt; omega⟩)
    (V1 m d (Proc.devRef .tc main_v25)) (V1 m d (Proc.devRef .tc main_v26)) (V1 m d (Proc.devRef .tc main_v27))
    (V1 m d (Proc.devRef .tc main_v28)) (V1 m d (Proc.devRef .tc main_v32)) (V1 m d (Proc.devRef .tc main_v33))
    (⟨r.val % 1024, Nat.mod_lt _ (by decide)⟩ : Fin 1024) o
    (fun kk col => gathered_at d hI 0 b p r hr hq kk col)
    (fun j => hb_block_at d 0 b p r hr hq j)
    (fun col j => V1_v14 m d col j) (fun j n => V1_v25 m d j n) (fun n => V1_v26 m d n)
    (fun a n => V1_v27 m d a n) (fun n => V1_v28 m d n) (fun t o' => V1_v32 m d t o') (fun o' => V1_v33 m d o')

theorem Wk8_out1 (d : Dev nD) :
    Wk8 m res0 res1 res2 res3 res4 res5 res6 res7 d (Proc.devRef .tc main_v37)
      = res1 d (rd d (Function.update (Wk1 m res0 d) (Proc.devRef .tc main_v36) (gathered (tvOf m d) (ivOf m d) 1))) := by
  show WR7 m res7 d (Wk7 m res0 res1 res2 res3 res4 res5 res6 d) (Proc.devRef .tc main_v37) = _
  rw [WR7_host m res7 d _ main_v37 (by decide) (by decide)]
  show WR6 m res6 d (Wk6 m res0 res1 res2 res3 res4 res5 d) (Proc.devRef .tc main_v37) = _
  rw [WR6_host m res6 d _ main_v37 (by decide) (by decide)]
  show WR5 m res5 d (Wk5 m res0 res1 res2 res3 res4 d) (Proc.devRef .tc main_v37) = _
  rw [WR5_host m res5 d _ main_v37 (by decide) (by decide)]
  show WR4 m res4 d (Wk4 m res0 res1 res2 res3 d) (Proc.devRef .tc main_v37) = _
  rw [WR4_host m res4 d _ main_v37 (by decide) (by decide)]
  show WR3 m res3 d (Wk3 m res0 res1 res2 d) (Proc.devRef .tc main_v37) = _
  rw [WR3_host m res3 d _ main_v37 (by decide) (by decide)]
  show WR2 m res2 d (Wk2 m res0 res1 d) (Proc.devRef .tc main_v37) = _
  rw [WR2_host m res2 d _ main_v37 (by decide) (by decide)]
  show WR1 m res1 d (Wk1 m res0 d) (Proc.devRef .tc main_v37) = _
  unfold WR1
  rw [Function.update_self]

theorem V1_host (d : Dev nD) (x : Ref sig .tc) (hx : ∀ y ∈ callRefs, x ≠ y) :
    (rd d (Function.update (Wk1 m res0 d) (Proc.devRef .tc main_v36) (gathered (tvOf m d) (ivOf m d) 1))) x = V1 m d (Proc.devRef .tc x) := by
  unfold rd
  rw [Function.update_of_ne (StableHlo.devRef_ne_of_ne (hx _ (by decide)))]
  exact Wk1_host m res0 d x hx

theorem V1_g (d : Dev nD) :
    (rd d (Function.update (Wk1 m res0 d) (Proc.devRef .tc main_v36) (gathered (tvOf m d) (ivOf m d) 1))) main_v36 = gathered (tvOf m d) (ivOf m d) 1 := by
  unfold rd
  rw [Function.update_self]

/-- Call 1's result at a point it owns is the rearranged form of the result there. -/
theorem call1_KerOut (d : Dev nD)
    (hres : ∀ (V : TCv (F := Ideal) d) (r : Fin 4096) (o : Fin 64), res1 d V (ix2 r o)
      = callVal 1 (V main_v36) (V main_v14) (V main_v24) (V main_v25) (V main_v26) (V main_v27) (V main_v28) (V main_v32) (V main_v33) r o)
    (hI : IdxOk (kerArgs m d)) (b : Fin 4) (p : Fin 8192) (o : Fin 64) (r : Fin 4096)
    (hr : r.val = (b.val * 8192 + p.val) % 4096) (hq : (b.val * 8192 + p.val) / 4096 = ((1 : Fin 8) : Nat)) :
    Wk8 m res0 res1 res2 res3 res4 res5 res6 res7 d (Proc.devRef .tc main_v37) (ix2 r o) = KerOut (kerArgs m d) b p o := by
  rw [Wk8_out1, hres]
  unfold callVal
  rw [V1_g, V1_host m res0 d main_v14 (by decide), V1_host m res0 d main_v24 (by decide),
    V1_host m res0 d main_v25 (by decide), V1_host m res0 d main_v26 (by decide),
    V1_host m res0 d main_v27 (by decide), V1_host m res0 d main_v28 (by decide),
    V1_host m res0 d main_v32 (by decide), V1_host m res0 d main_v33 (by decide)]
  exact block_KerOut (kerArgs m d) b p
    (gBlock (gathered (tvOf m d) (ivOf m d) 1) ⟨r.val / 1024, by have := r.isLt; omega⟩)
    (V1 m d (Proc.devRef .tc main_v14))
    (hbBlock (V1 m d (Proc.devRef .tc main_v24)) 1 ⟨r.val / 1024, by have := r.isLt; omega⟩)
    (V1 m d (Proc.devRef .tc main_v25)) (V1 m d (Proc.devRef .tc main_v26)) (V1 m d (Proc.devRef .tc main_v27))
    (V1 m d (Proc.devRef .tc main_v28)) (V1 m d (Proc.devRef .tc main_v32)) (V1 m d (Proc.devRef .tc main_v33))
    (⟨r.val % 1024, Nat.mod_lt _ (by decide)⟩ : Fin 1024) o
    (fun kk col => gathered_at d hI 1 b p r hr hq kk col)
    (fun j => hb_block_at d 1 b p r hr hq j)
    (fun col j => V1_v14 m d col j) (fun j n => V1_v25 m d j n) (fun n => V1_v26 m d n)
    (fun a n => V1_v27 m d a n) (fun n => V1_v28 m d n) (fun t o' => V1_v32 m d t o') (fun o' => V1_v33 m d o')

theorem Wk8_out2 (d : Dev nD) :
    Wk8 m res0 res1 res2 res3 res4 res5 res6 res7 d (Proc.devRef .tc main_v39)
      = res2 d (rd d (Function.update (Wk2 m res0 res1 d) (Proc.devRef .tc main_v38) (gathered (tvOf m d) (ivOf m d) 2))) := by
  show WR7 m res7 d (Wk7 m res0 res1 res2 res3 res4 res5 res6 d) (Proc.devRef .tc main_v39) = _
  rw [WR7_host m res7 d _ main_v39 (by decide) (by decide)]
  show WR6 m res6 d (Wk6 m res0 res1 res2 res3 res4 res5 d) (Proc.devRef .tc main_v39) = _
  rw [WR6_host m res6 d _ main_v39 (by decide) (by decide)]
  show WR5 m res5 d (Wk5 m res0 res1 res2 res3 res4 d) (Proc.devRef .tc main_v39) = _
  rw [WR5_host m res5 d _ main_v39 (by decide) (by decide)]
  show WR4 m res4 d (Wk4 m res0 res1 res2 res3 d) (Proc.devRef .tc main_v39) = _
  rw [WR4_host m res4 d _ main_v39 (by decide) (by decide)]
  show WR3 m res3 d (Wk3 m res0 res1 res2 d) (Proc.devRef .tc main_v39) = _
  rw [WR3_host m res3 d _ main_v39 (by decide) (by decide)]
  show WR2 m res2 d (Wk2 m res0 res1 d) (Proc.devRef .tc main_v39) = _
  unfold WR2
  rw [Function.update_self]

theorem V2_host (d : Dev nD) (x : Ref sig .tc) (hx : ∀ y ∈ callRefs, x ≠ y) :
    (rd d (Function.update (Wk2 m res0 res1 d) (Proc.devRef .tc main_v38) (gathered (tvOf m d) (ivOf m d) 2))) x = V1 m d (Proc.devRef .tc x) := by
  unfold rd
  rw [Function.update_of_ne (StableHlo.devRef_ne_of_ne (hx _ (by decide)))]
  exact Wk2_host m res0 res1 d x hx

theorem V2_g (d : Dev nD) :
    (rd d (Function.update (Wk2 m res0 res1 d) (Proc.devRef .tc main_v38) (gathered (tvOf m d) (ivOf m d) 2))) main_v38 = gathered (tvOf m d) (ivOf m d) 2 := by
  unfold rd
  rw [Function.update_self]

/-- Call 2's result at a point it owns is the rearranged form of the result there. -/
theorem call2_KerOut (d : Dev nD)
    (hres : ∀ (V : TCv (F := Ideal) d) (r : Fin 4096) (o : Fin 64), res2 d V (ix2 r o)
      = callVal 2 (V main_v38) (V main_v14) (V main_v24) (V main_v25) (V main_v26) (V main_v27) (V main_v28) (V main_v32) (V main_v33) r o)
    (hI : IdxOk (kerArgs m d)) (b : Fin 4) (p : Fin 8192) (o : Fin 64) (r : Fin 4096)
    (hr : r.val = (b.val * 8192 + p.val) % 4096) (hq : (b.val * 8192 + p.val) / 4096 = ((2 : Fin 8) : Nat)) :
    Wk8 m res0 res1 res2 res3 res4 res5 res6 res7 d (Proc.devRef .tc main_v39) (ix2 r o) = KerOut (kerArgs m d) b p o := by
  rw [Wk8_out2, hres]
  unfold callVal
  rw [V2_g, V2_host m res0 res1 d main_v14 (by decide), V2_host m res0 res1 d main_v24 (by decide),
    V2_host m res0 res1 d main_v25 (by decide), V2_host m res0 res1 d main_v26 (by decide),
    V2_host m res0 res1 d main_v27 (by decide), V2_host m res0 res1 d main_v28 (by decide),
    V2_host m res0 res1 d main_v32 (by decide), V2_host m res0 res1 d main_v33 (by decide)]
  exact block_KerOut (kerArgs m d) b p
    (gBlock (gathered (tvOf m d) (ivOf m d) 2) ⟨r.val / 1024, by have := r.isLt; omega⟩)
    (V1 m d (Proc.devRef .tc main_v14))
    (hbBlock (V1 m d (Proc.devRef .tc main_v24)) 2 ⟨r.val / 1024, by have := r.isLt; omega⟩)
    (V1 m d (Proc.devRef .tc main_v25)) (V1 m d (Proc.devRef .tc main_v26)) (V1 m d (Proc.devRef .tc main_v27))
    (V1 m d (Proc.devRef .tc main_v28)) (V1 m d (Proc.devRef .tc main_v32)) (V1 m d (Proc.devRef .tc main_v33))
    (⟨r.val % 1024, Nat.mod_lt _ (by decide)⟩ : Fin 1024) o
    (fun kk col => gathered_at d hI 2 b p r hr hq kk col)
    (fun j => hb_block_at d 2 b p r hr hq j)
    (fun col j => V1_v14 m d col j) (fun j n => V1_v25 m d j n) (fun n => V1_v26 m d n)
    (fun a n => V1_v27 m d a n) (fun n => V1_v28 m d n) (fun t o' => V1_v32 m d t o') (fun o' => V1_v33 m d o')

theorem Wk8_out3 (d : Dev nD) :
    Wk8 m res0 res1 res2 res3 res4 res5 res6 res7 d (Proc.devRef .tc main_v41)
      = res3 d (rd d (Function.update (Wk3 m res0 res1 res2 d) (Proc.devRef .tc main_v40) (gathered (tvOf m d) (ivOf m d) 3))) := by
  show WR7 m res7 d (Wk7 m res0 res1 res2 res3 res4 res5 res6 d) (Proc.devRef .tc main_v41) = _
  rw [WR7_host m res7 d _ main_v41 (by decide) (by decide)]
  show WR6 m res6 d (Wk6 m res0 res1 res2 res3 res4 res5 d) (Proc.devRef .tc main_v41) = _
  rw [WR6_host m res6 d _ main_v41 (by decide) (by decide)]
  show WR5 m res5 d (Wk5 m res0 res1 res2 res3 res4 d) (Proc.devRef .tc main_v41) = _
  rw [WR5_host m res5 d _ main_v41 (by decide) (by decide)]
  show WR4 m res4 d (Wk4 m res0 res1 res2 res3 d) (Proc.devRef .tc main_v41) = _
  rw [WR4_host m res4 d _ main_v41 (by decide) (by decide)]
  show WR3 m res3 d (Wk3 m res0 res1 res2 d) (Proc.devRef .tc main_v41) = _
  unfold WR3
  rw [Function.update_self]

theorem V3_host (d : Dev nD) (x : Ref sig .tc) (hx : ∀ y ∈ callRefs, x ≠ y) :
    (rd d (Function.update (Wk3 m res0 res1 res2 d) (Proc.devRef .tc main_v40) (gathered (tvOf m d) (ivOf m d) 3))) x = V1 m d (Proc.devRef .tc x) := by
  unfold rd
  rw [Function.update_of_ne (StableHlo.devRef_ne_of_ne (hx _ (by decide)))]
  exact Wk3_host m res0 res1 res2 d x hx

theorem V3_g (d : Dev nD) :
    (rd d (Function.update (Wk3 m res0 res1 res2 d) (Proc.devRef .tc main_v40) (gathered (tvOf m d) (ivOf m d) 3))) main_v40 = gathered (tvOf m d) (ivOf m d) 3 := by
  unfold rd
  rw [Function.update_self]

/-- Call 3's result at a point it owns is the rearranged form of the result there. -/
theorem call3_KerOut (d : Dev nD)
    (hres : ∀ (V : TCv (F := Ideal) d) (r : Fin 4096) (o : Fin 64), res3 d V (ix2 r o)
      = callVal 3 (V main_v40) (V main_v14) (V main_v24) (V main_v25) (V main_v26) (V main_v27) (V main_v28) (V main_v32) (V main_v33) r o)
    (hI : IdxOk (kerArgs m d)) (b : Fin 4) (p : Fin 8192) (o : Fin 64) (r : Fin 4096)
    (hr : r.val = (b.val * 8192 + p.val) % 4096) (hq : (b.val * 8192 + p.val) / 4096 = ((3 : Fin 8) : Nat)) :
    Wk8 m res0 res1 res2 res3 res4 res5 res6 res7 d (Proc.devRef .tc main_v41) (ix2 r o) = KerOut (kerArgs m d) b p o := by
  rw [Wk8_out3, hres]
  unfold callVal
  rw [V3_g, V3_host m res0 res1 res2 d main_v14 (by decide), V3_host m res0 res1 res2 d main_v24 (by decide),
    V3_host m res0 res1 res2 d main_v25 (by decide), V3_host m res0 res1 res2 d main_v26 (by decide),
    V3_host m res0 res1 res2 d main_v27 (by decide), V3_host m res0 res1 res2 d main_v28 (by decide),
    V3_host m res0 res1 res2 d main_v32 (by decide), V3_host m res0 res1 res2 d main_v33 (by decide)]
  exact block_KerOut (kerArgs m d) b p
    (gBlock (gathered (tvOf m d) (ivOf m d) 3) ⟨r.val / 1024, by have := r.isLt; omega⟩)
    (V1 m d (Proc.devRef .tc main_v14))
    (hbBlock (V1 m d (Proc.devRef .tc main_v24)) 3 ⟨r.val / 1024, by have := r.isLt; omega⟩)
    (V1 m d (Proc.devRef .tc main_v25)) (V1 m d (Proc.devRef .tc main_v26)) (V1 m d (Proc.devRef .tc main_v27))
    (V1 m d (Proc.devRef .tc main_v28)) (V1 m d (Proc.devRef .tc main_v32)) (V1 m d (Proc.devRef .tc main_v33))
    (⟨r.val % 1024, Nat.mod_lt _ (by decide)⟩ : Fin 1024) o
    (fun kk col => gathered_at d hI 3 b p r hr hq kk col)
    (fun j => hb_block_at d 3 b p r hr hq j)
    (fun col j => V1_v14 m d col j) (fun j n => V1_v25 m d j n) (fun n => V1_v26 m d n)
    (fun a n => V1_v27 m d a n) (fun n => V1_v28 m d n) (fun t o' => V1_v32 m d t o') (fun o' => V1_v33 m d o')

theorem Wk8_out4 (d : Dev nD) :
    Wk8 m res0 res1 res2 res3 res4 res5 res6 res7 d (Proc.devRef .tc main_v43)
      = res4 d (rd d (Function.update (Wk4 m res0 res1 res2 res3 d) (Proc.devRef .tc main_v42) (gathered (tvOf m d) (ivOf m d) 4))) := by
  show WR7 m res7 d (Wk7 m res0 res1 res2 res3 res4 res5 res6 d) (Proc.devRef .tc main_v43) = _
  rw [WR7_host m res7 d _ main_v43 (by decide) (by decide)]
  show WR6 m res6 d (Wk6 m res0 res1 res2 res3 res4 res5 d) (Proc.devRef .tc main_v43) = _
  rw [WR6_host m res6 d _ main_v43 (by decide) (by decide)]
  show WR5 m res5 d (Wk5 m res0 res1 res2 res3 res4 d) (Proc.devRef .tc main_v43) = _
  rw [WR5_host m res5 d _ main_v43 (by decide) (by decide)]
  show WR4 m res4 d (Wk4 m res0 res1 res2 res3 d) (Proc.devRef .tc main_v43) = _
  unfold WR4
  rw [Function.update_self]

theorem V4_host (d : Dev nD) (x : Ref sig .tc) (hx : ∀ y ∈ callRefs, x ≠ y) :
    (rd d (Function.update (Wk4 m res0 res1 res2 res3 d) (Proc.devRef .tc main_v42) (gathered (tvOf m d) (ivOf m d) 4))) x = V1 m d (Proc.devRef .tc x) := by
  unfold rd
  rw [Function.update_of_ne (StableHlo.devRef_ne_of_ne (hx _ (by decide)))]
  exact Wk4_host m res0 res1 res2 res3 d x hx

theorem V4_g (d : Dev nD) :
    (rd d (Function.update (Wk4 m res0 res1 res2 res3 d) (Proc.devRef .tc main_v42) (gathered (tvOf m d) (ivOf m d) 4))) main_v42 = gathered (tvOf m d) (ivOf m d) 4 := by
  unfold rd
  rw [Function.update_self]

/-- Call 4's result at a point it owns is the rearranged form of the result there. -/
theorem call4_KerOut (d : Dev nD)
    (hres : ∀ (V : TCv (F := Ideal) d) (r : Fin 4096) (o : Fin 64), res4 d V (ix2 r o)
      = callVal 4 (V main_v42) (V main_v14) (V main_v24) (V main_v25) (V main_v26) (V main_v27) (V main_v28) (V main_v32) (V main_v33) r o)
    (hI : IdxOk (kerArgs m d)) (b : Fin 4) (p : Fin 8192) (o : Fin 64) (r : Fin 4096)
    (hr : r.val = (b.val * 8192 + p.val) % 4096) (hq : (b.val * 8192 + p.val) / 4096 = ((4 : Fin 8) : Nat)) :
    Wk8 m res0 res1 res2 res3 res4 res5 res6 res7 d (Proc.devRef .tc main_v43) (ix2 r o) = KerOut (kerArgs m d) b p o := by
  rw [Wk8_out4, hres]
  unfold callVal
  rw [V4_g, V4_host m res0 res1 res2 res3 d main_v14 (by decide), V4_host m res0 res1 res2 res3 d main_v24 (by decide),
    V4_host m res0 res1 res2 res3 d main_v25 (by decide), V4_host m res0 res1 res2 res3 d main_v26 (by decide),
    V4_host m res0 res1 res2 res3 d main_v27 (by decide), V4_host m res0 res1 res2 res3 d main_v28 (by decide),
    V4_host m res0 res1 res2 res3 d main_v32 (by decide), V4_host m res0 res1 res2 res3 d main_v33 (by decide)]
  exact block_KerOut (kerArgs m d) b p
    (gBlock (gathered (tvOf m d) (ivOf m d) 4) ⟨r.val / 1024, by have := r.isLt; omega⟩)
    (V1 m d (Proc.devRef .tc main_v14))
    (hbBlock (V1 m d (Proc.devRef .tc main_v24)) 4 ⟨r.val / 1024, by have := r.isLt; omega⟩)
    (V1 m d (Proc.devRef .tc main_v25)) (V1 m d (Proc.devRef .tc main_v26)) (V1 m d (Proc.devRef .tc main_v27))
    (V1 m d (Proc.devRef .tc main_v28)) (V1 m d (Proc.devRef .tc main_v32)) (V1 m d (Proc.devRef .tc main_v33))
    (⟨r.val % 1024, Nat.mod_lt _ (by decide)⟩ : Fin 1024) o
    (fun kk col => gathered_at d hI 4 b p r hr hq kk col)
    (fun j => hb_block_at d 4 b p r hr hq j)
    (fun col j => V1_v14 m d col j) (fun j n => V1_v25 m d j n) (fun n => V1_v26 m d n)
    (fun a n => V1_v27 m d a n) (fun n => V1_v28 m d n) (fun t o' => V1_v32 m d t o') (fun o' => V1_v33 m d o')

theorem Wk8_out5 (d : Dev nD) :
    Wk8 m res0 res1 res2 res3 res4 res5 res6 res7 d (Proc.devRef .tc main_v45)
      = res5 d (rd d (Function.update (Wk5 m res0 res1 res2 res3 res4 d) (Proc.devRef .tc main_v44) (gathered (tvOf m d) (ivOf m d) 5))) := by
  show WR7 m res7 d (Wk7 m res0 res1 res2 res3 res4 res5 res6 d) (Proc.devRef .tc main_v45) = _
  rw [WR7_host m res7 d _ main_v45 (by decide) (by decide)]
  show WR6 m res6 d (Wk6 m res0 res1 res2 res3 res4 res5 d) (Proc.devRef .tc main_v45) = _
  rw [WR6_host m res6 d _ main_v45 (by decide) (by decide)]
  show WR5 m res5 d (Wk5 m res0 res1 res2 res3 res4 d) (Proc.devRef .tc main_v45) = _
  unfold WR5
  rw [Function.update_self]

theorem V5_host (d : Dev nD) (x : Ref sig .tc) (hx : ∀ y ∈ callRefs, x ≠ y) :
    (rd d (Function.update (Wk5 m res0 res1 res2 res3 res4 d) (Proc.devRef .tc main_v44) (gathered (tvOf m d) (ivOf m d) 5))) x = V1 m d (Proc.devRef .tc x) := by
  unfold rd
  rw [Function.update_of_ne (StableHlo.devRef_ne_of_ne (hx _ (by decide)))]
  exact Wk5_host m res0 res1 res2 res3 res4 d x hx

theorem V5_g (d : Dev nD) :
    (rd d (Function.update (Wk5 m res0 res1 res2 res3 res4 d) (Proc.devRef .tc main_v44) (gathered (tvOf m d) (ivOf m d) 5))) main_v44 = gathered (tvOf m d) (ivOf m d) 5 := by
  unfold rd
  rw [Function.update_self]

/-- Call 5's result at a point it owns is the rearranged form of the result there. -/
theorem call5_KerOut (d : Dev nD)
    (hres : ∀ (V : TCv (F := Ideal) d) (r : Fin 4096) (o : Fin 64), res5 d V (ix2 r o)
      = callVal 5 (V main_v44) (V main_v14) (V main_v24) (V main_v25) (V main_v26) (V main_v27) (V main_v28) (V main_v32) (V main_v33) r o)
    (hI : IdxOk (kerArgs m d)) (b : Fin 4) (p : Fin 8192) (o : Fin 64) (r : Fin 4096)
    (hr : r.val = (b.val * 8192 + p.val) % 4096) (hq : (b.val * 8192 + p.val) / 4096 = ((5 : Fin 8) : Nat)) :
    Wk8 m res0 res1 res2 res3 res4 res5 res6 res7 d (Proc.devRef .tc main_v45) (ix2 r o) = KerOut (kerArgs m d) b p o := by
  rw [Wk8_out5, hres]
  unfold callVal
  rw [V5_g, V5_host m res0 res1 res2 res3 res4 d main_v14 (by decide), V5_host m res0 res1 res2 res3 res4 d main_v24 (by decide),
    V5_host m res0 res1 res2 res3 res4 d main_v25 (by decide), V5_host m res0 res1 res2 res3 res4 d main_v26 (by decide),
    V5_host m res0 res1 res2 res3 res4 d main_v27 (by decide), V5_host m res0 res1 res2 res3 res4 d main_v28 (by decide),
    V5_host m res0 res1 res2 res3 res4 d main_v32 (by decide), V5_host m res0 res1 res2 res3 res4 d main_v33 (by decide)]
  exact block_KerOut (kerArgs m d) b p
    (gBlock (gathered (tvOf m d) (ivOf m d) 5) ⟨r.val / 1024, by have := r.isLt; omega⟩)
    (V1 m d (Proc.devRef .tc main_v14))
    (hbBlock (V1 m d (Proc.devRef .tc main_v24)) 5 ⟨r.val / 1024, by have := r.isLt; omega⟩)
    (V1 m d (Proc.devRef .tc main_v25)) (V1 m d (Proc.devRef .tc main_v26)) (V1 m d (Proc.devRef .tc main_v27))
    (V1 m d (Proc.devRef .tc main_v28)) (V1 m d (Proc.devRef .tc main_v32)) (V1 m d (Proc.devRef .tc main_v33))
    (⟨r.val % 1024, Nat.mod_lt _ (by decide)⟩ : Fin 1024) o
    (fun kk col => gathered_at d hI 5 b p r hr hq kk col)
    (fun j => hb_block_at d 5 b p r hr hq j)
    (fun col j => V1_v14 m d col j) (fun j n => V1_v25 m d j n) (fun n => V1_v26 m d n)
    (fun a n => V1_v27 m d a n) (fun n => V1_v28 m d n) (fun t o' => V1_v32 m d t o') (fun o' => V1_v33 m d o')

theorem Wk8_out6 (d : Dev nD) :
    Wk8 m res0 res1 res2 res3 res4 res5 res6 res7 d (Proc.devRef .tc main_v47)
      = res6 d (rd d (Function.update (Wk6 m res0 res1 res2 res3 res4 res5 d) (Proc.devRef .tc main_v46) (gathered (tvOf m d) (ivOf m d) 6))) := by
  show WR7 m res7 d (Wk7 m res0 res1 res2 res3 res4 res5 res6 d) (Proc.devRef .tc main_v47) = _
  rw [WR7_host m res7 d _ main_v47 (by decide) (by decide)]
  show WR6 m res6 d (Wk6 m res0 res1 res2 res3 res4 res5 d) (Proc.devRef .tc main_v47) = _
  unfold WR6
  rw [Function.update_self]

theorem V6_host (d : Dev nD) (x : Ref sig .tc) (hx : ∀ y ∈ callRefs, x ≠ y) :
    (rd d (Function.update (Wk6 m res0 res1 res2 res3 res4 res5 d) (Proc.devRef .tc main_v46) (gathered (tvOf m d) (ivOf m d) 6))) x = V1 m d (Proc.devRef .tc x) := by
  unfold rd
  rw [Function.update_of_ne (StableHlo.devRef_ne_of_ne (hx _ (by decide)))]
  exact Wk6_host m res0 res1 res2 res3 res4 res5 d x hx

theorem V6_g (d : Dev nD) :
    (rd d (Function.update (Wk6 m res0 res1 res2 res3 res4 res5 d) (Proc.devRef .tc main_v46) (gathered (tvOf m d) (ivOf m d) 6))) main_v46 = gathered (tvOf m d) (ivOf m d) 6 := by
  unfold rd
  rw [Function.update_self]

/-- Call 6's result at a point it owns is the rearranged form of the result there. -/
theorem call6_KerOut (d : Dev nD)
    (hres : ∀ (V : TCv (F := Ideal) d) (r : Fin 4096) (o : Fin 64), res6 d V (ix2 r o)
      = callVal 6 (V main_v46) (V main_v14) (V main_v24) (V main_v25) (V main_v26) (V main_v27) (V main_v28) (V main_v32) (V main_v33) r o)
    (hI : IdxOk (kerArgs m d)) (b : Fin 4) (p : Fin 8192) (o : Fin 64) (r : Fin 4096)
    (hr : r.val = (b.val * 8192 + p.val) % 4096) (hq : (b.val * 8192 + p.val) / 4096 = ((6 : Fin 8) : Nat)) :
    Wk8 m res0 res1 res2 res3 res4 res5 res6 res7 d (Proc.devRef .tc main_v47) (ix2 r o) = KerOut (kerArgs m d) b p o := by
  rw [Wk8_out6, hres]
  unfold callVal
  rw [V6_g, V6_host m res0 res1 res2 res3 res4 res5 d main_v14 (by decide), V6_host m res0 res1 res2 res3 res4 res5 d main_v24 (by decide),
    V6_host m res0 res1 res2 res3 res4 res5 d main_v25 (by decide), V6_host m res0 res1 res2 res3 res4 res5 d main_v26 (by decide),
    V6_host m res0 res1 res2 res3 res4 res5 d main_v27 (by decide), V6_host m res0 res1 res2 res3 res4 res5 d main_v28 (by decide),
    V6_host m res0 res1 res2 res3 res4 res5 d main_v32 (by decide), V6_host m res0 res1 res2 res3 res4 res5 d main_v33 (by decide)]
  exact block_KerOut (kerArgs m d) b p
    (gBlock (gathered (tvOf m d) (ivOf m d) 6) ⟨r.val / 1024, by have := r.isLt; omega⟩)
    (V1 m d (Proc.devRef .tc main_v14))
    (hbBlock (V1 m d (Proc.devRef .tc main_v24)) 6 ⟨r.val / 1024, by have := r.isLt; omega⟩)
    (V1 m d (Proc.devRef .tc main_v25)) (V1 m d (Proc.devRef .tc main_v26)) (V1 m d (Proc.devRef .tc main_v27))
    (V1 m d (Proc.devRef .tc main_v28)) (V1 m d (Proc.devRef .tc main_v32)) (V1 m d (Proc.devRef .tc main_v33))
    (⟨r.val % 1024, Nat.mod_lt _ (by decide)⟩ : Fin 1024) o
    (fun kk col => gathered_at d hI 6 b p r hr hq kk col)
    (fun j => hb_block_at d 6 b p r hr hq j)
    (fun col j => V1_v14 m d col j) (fun j n => V1_v25 m d j n) (fun n => V1_v26 m d n)
    (fun a n => V1_v27 m d a n) (fun n => V1_v28 m d n) (fun t o' => V1_v32 m d t o') (fun o' => V1_v33 m d o')

theorem Wk8_out7 (d : Dev nD) :
    Wk8 m res0 res1 res2 res3 res4 res5 res6 res7 d (Proc.devRef .tc main_v49)
      = res7 d (rd d (Function.update (Wk7 m res0 res1 res2 res3 res4 res5 res6 d) (Proc.devRef .tc main_v48) (gathered (tvOf m d) (ivOf m d) 7))) := by
  show WR7 m res7 d (Wk7 m res0 res1 res2 res3 res4 res5 res6 d) (Proc.devRef .tc main_v49) = _
  unfold WR7
  rw [Function.update_self]

theorem V7_host (d : Dev nD) (x : Ref sig .tc) (hx : ∀ y ∈ callRefs, x ≠ y) :
    (rd d (Function.update (Wk7 m res0 res1 res2 res3 res4 res5 res6 d) (Proc.devRef .tc main_v48) (gathered (tvOf m d) (ivOf m d) 7))) x = V1 m d (Proc.devRef .tc x) := by
  unfold rd
  rw [Function.update_of_ne (StableHlo.devRef_ne_of_ne (hx _ (by decide)))]
  exact Wk7_host m res0 res1 res2 res3 res4 res5 res6 d x hx

theorem V7_g (d : Dev nD) :
    (rd d (Function.update (Wk7 m res0 res1 res2 res3 res4 res5 res6 d) (Proc.devRef .tc main_v48) (gathered (tvOf m d) (ivOf m d) 7))) main_v48 = gathered (tvOf m d) (ivOf m d) 7 := by
  unfold rd
  rw [Function.update_self]

/-- Call 7's result at a point it owns is the rearranged form of the result there. -/
theorem call7_KerOut (d : Dev nD)
    (hres : ∀ (V : TCv (F := Ideal) d) (r : Fin 4096) (o : Fin 64), res7 d V (ix2 r o)
      = callVal 7 (V main_v48) (V main_v14) (V main_v24) (V main_v25) (V main_v26) (V main_v27) (V main_v28) (V main_v32) (V main_v33) r o)
    (hI : IdxOk (kerArgs m d)) (b : Fin 4) (p : Fin 8192) (o : Fin 64) (r : Fin 4096)
    (hr : r.val = (b.val * 8192 + p.val) % 4096) (hq : (b.val * 8192 + p.val) / 4096 = ((7 : Fin 8) : Nat)) :
    Wk8 m res0 res1 res2 res3 res4 res5 res6 res7 d (Proc.devRef .tc main_v49) (ix2 r o) = KerOut (kerArgs m d) b p o := by
  rw [Wk8_out7, hres]
  unfold callVal
  rw [V7_g, V7_host m res0 res1 res2 res3 res4 res5 res6 d main_v14 (by decide), V7_host m res0 res1 res2 res3 res4 res5 res6 d main_v24 (by decide),
    V7_host m res0 res1 res2 res3 res4 res5 res6 d main_v25 (by decide), V7_host m res0 res1 res2 res3 res4 res5 res6 d main_v26 (by decide),
    V7_host m res0 res1 res2 res3 res4 res5 res6 d main_v27 (by decide), V7_host m res0 res1 res2 res3 res4 res5 res6 d main_v28 (by decide),
    V7_host m res0 res1 res2 res3 res4 res5 res6 d main_v32 (by decide), V7_host m res0 res1 res2 res3 res4 res5 res6 d main_v33 (by decide)]
  exact block_KerOut (kerArgs m d) b p
    (gBlock (gathered (tvOf m d) (ivOf m d) 7) ⟨r.val / 1024, by have := r.isLt; omega⟩)
    (V1 m d (Proc.devRef .tc main_v14))
    (hbBlock (V1 m d (Proc.devRef .tc main_v24)) 7 ⟨r.val / 1024, by have := r.isLt; omega⟩)
    (V1 m d (Proc.devRef .tc main_v25)) (V1 m d (Proc.devRef .tc main_v26)) (V1 m d (Proc.devRef .tc main_v27))
    (V1 m d (Proc.devRef .tc main_v28)) (V1 m d (Proc.devRef .tc main_v32)) (V1 m d (Proc.devRef .tc main_v33))
    (⟨r.val % 1024, Nat.mod_lt _ (by decide)⟩ : Fin 1024) o
    (fun kk col => gathered_at d hI 7 b p r hr hq kk col)
    (fun j => hb_block_at d 7 b p r hr hq j)
    (fun col j => V1_v14 m d col j) (fun j n => V1_v25 m d j n) (fun n => V1_v26 m d n)
    (fun a n => V1_v27 m d a n) (fun n => V1_v28 m d n) (fun t o' => V1_v32 m d t o') (fun o' => V1_v33 m d o')

/-! ## The final value -/

theorem tcOut_0 (W : Valuation τ sig (Elt Ideal)) (h : 0 < 8) : tcOut W ⟨0, h⟩ = W (Proc.devRef .tc main_v35) := rfl
theorem tcOut_1 (W : Valuation τ sig (Elt Ideal)) (h : 1 < 8) : tcOut W ⟨1, h⟩ = W (Proc.devRef .tc main_v37) := rfl
theorem tcOut_2 (W : Valuation τ sig (Elt Ideal)) (h : 2 < 8) : tcOut W ⟨2, h⟩ = W (Proc.devRef .tc main_v39) := rfl
theorem tcOut_3 (W : Valuation τ sig (Elt Ideal)) (h : 3 < 8) : tcOut W ⟨3, h⟩ = W (Proc.devRef .tc main_v41) := rfl
theorem tcOut_4 (W : Valuation τ sig (Elt Ideal)) (h : 4 < 8) : tcOut W ⟨4, h⟩ = W (Proc.devRef .tc main_v43) := rfl
theorem tcOut_5 (W : Valuation τ sig (Elt Ideal)) (h : 5 < 8) : tcOut W ⟨5, h⟩ = W (Proc.devRef .tc main_v45) := rfl
theorem tcOut_6 (W : Valuation τ sig (Elt Ideal)) (h : 6 < 8) : tcOut W ⟨6, h⟩ = W (Proc.devRef .tc main_v47) := rfl
theorem tcOut_7 (W : Valuation τ sig (Elt Ideal)) (h : 7 < 8) : tcOut W ⟨7, h⟩ = W (Proc.devRef .tc main_v49) := rfl

/-- When each call stores, at every local row, the body's value over the blocks it read, the program's result
    at (b, p, o) is the rearranged form of the layer's result there. -/
theorem VfinOf_KerOut (d : Dev nD)
    (hres0 : ∀ (V : TCv (F := Ideal) d) (r : Fin 4096) (o : Fin 64), res0 d V (ix2 r o)
      = callVal 0 (V main_v34) (V main_v14) (V main_v24) (V main_v25) (V main_v26) (V main_v27) (V main_v28) (V main_v32) (V main_v33) r o)
    (hres1 : ∀ (V : TCv (F := Ideal) d) (r : Fin 4096) (o : Fin 64), res1 d V (ix2 r o)
      = callVal 1 (V main_v36) (V main_v14) (V main_v24) (V main_v25) (V main_v26) (V main_v27) (V main_v28) (V main_v32) (V main_v33) r o)
    (hres2 : ∀ (V : TCv (F := Ideal) d) (r : Fin 4096) (o : Fin 64), res2 d V (ix2 r o)
      = callVal 2 (V main_v38) (V main_v14) (V main_v24) (V main_v25) (V main_v26) (V main_v27) (V main_v28) (V main_v32) (V main_v33) r o)
    (hres3 : ∀ (V : TCv (F := Ideal) d) (r : Fin 4096) (o : Fin 64), res3 d V (ix2 r o)
      = callVal 3 (V main_v40) (V main_v14) (V main_v24) (V main_v25) (V main_v26) (V main_v27) (V main_v28) (V main_v32) (V main_v33) r o)
    (hres4 : ∀ (V : TCv (F := Ideal) d) (r : Fin 4096) (o : Fin 64), res4 d V (ix2 r o)
      = callVal 4 (V main_v42) (V main_v14) (V main_v24) (V main_v25) (V main_v26) (V main_v27) (V main_v28) (V main_v32) (V main_v33) r o)
    (hres5 : ∀ (V : TCv (F := Ideal) d) (r : Fin 4096) (o : Fin 64), res5 d V (ix2 r o)
      = callVal 5 (V main_v44) (V main_v14) (V main_v24) (V main_v25) (V main_v26) (V main_v27) (V main_v28) (V main_v32) (V main_v33) r o)
    (hres6 : ∀ (V : TCv (F := Ideal) d) (r : Fin 4096) (o : Fin 64), res6 d V (ix2 r o)
      = callVal 6 (V main_v46) (V main_v14) (V main_v24) (V main_v25) (V main_v26) (V main_v27) (V main_v28) (V main_v32) (V main_v33) r o)
    (hres7 : ∀ (V : TCv (F := Ideal) d) (r : Fin 4096) (o : Fin 64), res7 d V (ix2 r o)
      = callVal 7 (V main_v48) (V main_v14) (V main_v24) (V main_v25) (V main_v26) (V main_v27) (V main_v28) (V main_v32) (V main_v33) r o)
    (hI : IdxOk (kerArgs m d)) (b : Fin 4) (p : Fin 8192) (o : Fin 64) :
    VfinOf m res0 res1 res2 res3 res4 res5 res6 res7 d (Proc.devRef .tc main_v51) (ix3 b p o) = KerOut (kerArgs m d) b p o := by
  have hb := b.isLt; have hp := p.isLt
  unfold VfinOf
  rw [join_at]
  generalize hW : Wk8 m res0 res1 res2 res3 res4 res5 res6 res7 d = W
  generalize hq : (⟨(b.val * 8192 + p.val) / 4096, by omega⟩ : Fin 8) = q
  have hq : (b.val * 8192 + p.val) / 4096 = q.val := congrArg Fin.val hq
  match q, hq with
  | ⟨0, h⟩, hq =>
    rw [tcOut_0 W h, ← hW]
    exact call0_KerOut m res0 res1 res2 res3 res4 res5 res6 res7 d hres0 hI b p o _ rfl hq
  | ⟨1, h⟩, hq =>
    rw [tcOut_1 W h, ← hW]
    exact call1_KerOut m res0 res1 res2 res3 res4 res5 res6 res7 d hres1 hI b p o _ rfl hq
  | ⟨2, h⟩, hq =>
    rw [tcOut_2 W h, ← hW]
    exact call2_KerOut m res0 res1 res2 res3 res4 res5 res6 res7 d hres2 hI b p o _ rfl hq
  | ⟨3, h⟩, hq =>
    rw [tcOut_3 W h, ← hW]
    exact call3_KerOut m res0 res1 res2 res3 res4 res5 res6 res7 d hres3 hI b p o _ rfl hq
  | ⟨4, h⟩, hq =>
    rw [tcOut_4 W h, ← hW]
    exact call4_KerOut m res0 res1 res2 res3 res4 res5 res6 res7 d hres4 hI b p o _ rfl hq
  | ⟨5, h⟩, hq =>
    rw [tcOut_5 W h, ← hW]
    exact call5_KerOut m res0 res1 res2 res3 res4 res5 res6 res7 d hres5 hI b p o _ rfl hq
  | ⟨6, h⟩, hq =>
    rw [tcOut_6 W h, ← hW]
    exact call6_KerOut m res0 res1 res2 res3 res4 res5 res6 res7 d hres6 hI b p o _ rfl hq
  | ⟨7, h⟩, hq =>
    rw [tcOut_7 W h, ← hW]
    exact call7_KerOut m res0 res1 res2 res3 res4 res5 res6 res7 d hres7 hI b p o _ rfl hq

end Cert.Proof.KI

end
-- ==== Proof.TcArr.lean ====
/-
  One TensorCore call's result array, read element by element. The grid has four points; point t stores
  rows [1024 t, 1024 (t + 1)) of the 4096-row result, computed from block t of the gathered rows (rows
  [16384 t, 16384 (t + 1))), block t of the call's stretch of the per-point bias, and the small arrays whole.
  The four stored blocks tile the result, so row r of the result is row r mod 1024 of what point r / 1024 stored.
-/
import proofs.«214101_g10505490006249_cont_week2b_118_28_alg».proof.Proof.TcRegion
import proofs.«214101_g10505490006249_cont_week2b_118_28_alg».proof.Proof.KerBlock
import Idealize.ShloMosaic.Lib.Pipeline.Value

noncomputable section

namespace Cert.Proof.Tc

open Cert.KernelIdeal Cert.KernelIdeal.Gen Cert.Proof.KI
open Idealize.ShloMosaic Idealize.ShloMosaic.TcCoe Idealize.ShloMosaic.ValueIdx
open Idealize.ShloMosaic.SparseCore.Cfg (HIx)
open Idealize.SL Idealize.SL.RA Idealize.SL.BI Idealize.SL.Sem
open scoped Idealize.SL.BI
open Idealize.ShloMosaic.Rounds
open Idealize.ShloMosaic.Pipeline (Dat)

/-! ## Where each window's block sits -/

/-- The block index of every window at every point: the gathered rows, the bias rows and the result move with the
    point on the row axis; the small arrays stay. -/
theorem idx_facts1 : ∀ t : Fin cfg1.N,
    (win1_0.index t 0 = t.val ∧ win1_0.index t 1 = 0) ∧ (win1_1.index t 0 = t.val ∧ win1_1.index t 1 = 0)
    ∧ (win1_9.index t 0 = t.val ∧ win1_9.index t 1 = 0)
    ∧ (win1_2.index t 0 = 0 ∧ win1_2.index t 1 = 0) ∧ (win1_3.index t 0 = 0 ∧ win1_3.index t 1 = 0)
    ∧ (win1_4.index t 0 = 0 ∧ win1_4.index t 1 = 0) ∧ (win1_5.index t 0 = 0 ∧ win1_5.index t 1 = 0)
    ∧ (win1_6.index t 0 = 0 ∧ win1_6.index t 1 = 0) ∧ (win1_7.index t 0 = 0 ∧ win1_7.index t 1 = 0)
    ∧ (win1_8.index t 0 = 0 ∧ win1_8.index t 1 = 0) :=
  (by decide +kernel : ∀ t : Fin grid1.N, _)

variable (c : Dev nD) (Vc : (b : Ref sig .tc) → Buf (Elt Ideal) ((c : Thread nD τ).loc b))

/-! ## The input blocks as rows of their arrays -/

/-- Block t of the gathered rows. -/
theorem iblk1_0_apply (t : Fin cfg1.N) (x : S16384x128.Idx) (k : S65536x128.Idx)
    (hk0 : (k 0).val = 16384 * t.val + (x 0).val) (hk1 : (k 1).val = (x 1).val) :
    (iblk1 c Vc 0 t : Vec Ideal S16384x128 .f32) x = (Vc main_v34 : S65536x128.Idx → EReal) k := by
  have hi := (idx_facts1 t).1
  unfold iblk1
  rw [View.read_apply]
  show Vc main_v34 _ = Vc main_v34 _
  congr 1
  funext a
  apply Fin.ext
  match a with
  | ⟨0, _⟩ => show win1_0.index t 0 * 16384 + 1 * (x 0).val = (k 0).val; rw [hi.1, hk0]; omega
  | ⟨1, _⟩ => show win1_0.index t 1 * 128 + 1 * (x 1).val = (k 1).val; rw [hi.2, hk1]; omega

/-- Block t of the call's stretch of the per-point bias. -/
theorem iblk1_1_apply (t : Fin cfg1.N) (x : S1024x32.Idx) (k : S32768x32.Idx)
    (hk0 : (k 0).val = 1024 * t.val + (x 0).val) (hk1 : (k 1).val = (x 1).val) :
    (iblk1 c Vc 1 t : Vec Ideal S1024x32 .f32) x = (Vc main_v24 : S32768x32.Idx → EReal) k := by
  have hi := (idx_facts1 t).2.1
  unfold iblk1
  rw [View.read_apply]
  show Vc main_v24 _ = Vc main_v24 _
  congr 1
  funext a
  apply Fin.ext
  match a with
  | ⟨0, _⟩ => show win1_1.index t 0 * 1024 + 1 * (x 0).val = (k 0).val; rw [hi.1, hk0]; omega
  | ⟨1, _⟩ => show win1_1.index t 1 * 32 + 1 * (x 1).val = (k 1).val; rw [hi.2, hk1]; omega

/-! ## The result array -/

/-- The point that stores row r of the result. -/
def ptOf (r : Fin 4096) : Fin cfg1.N := ⟨r.val / 1024, by rw [show cfg1.N = 4 from N_1]; have := r.isLt; omega⟩

/-- The result as one function of the buffers the call found: row r is row r mod 1024 of what point r / 1024 stores. -/
def G9 : S4096x64.Idx → EReal := fun i =>
  (out1 c Vc (ptOf ⟨(i 0).val, idx2_lt0 (n0 := 4096) (n1 := 64) i⟩) : S1024x64.Idx → EReal)
    (ix2 (⟨(i 0).val % 1024, Nat.mod_lt _ (by decide)⟩ : Fin 1024) (⟨(i 1).val, idx2_lt1 (n0 := 4096) (n1 := 64) i⟩ : Fin 64))

variable {Ix : Type} [DecidableEq Ix] {Name : Type} [DecidableEq Name] {U : Type} [URA U] {Lvl : Type} [Preorder Lvl]
variable (Φ₀ : sProp (MT nD τ sig Ix (Elt Ideal) Name U Lvl)) (O : CellTallies nD τ sig Ix) (Rec : Set (SemLoc sig × Ix))
    (q : Fin cfg1.W → PosShare TreeShare)

/-- What point t writes back is its block of that function. -/
theorem flushed9_eq (t : Fin cfg1.N) :
    (dat1 c Vc Φ₀ O Rec q).flushed 9 t = ((cfg1.win 9).blk t).view.read (Elt Ideal) (G9 c Vc) := by
  have hi := (idx_facts1 t).2.2.1
  have hN : cfg1.N = 4 := N_1
  have ht := t.isLt
  show (cfg1.win 9).cut (grid1.coords t) ((dat1 c Vc Φ₀ O Rec q).after 9 t) = _
  rw [after1_9]
  funext j
  rw [View.read_apply]
  have hj0 : (j 0).val < 1024 := (j 0).isLt
  have hj1 : (j 1).val < 64 := (j 1).isLt
  show (out1 c Vc t : S1024x64.Idx → EReal) (fun a => ⟨(j a).val, _⟩) = G9 c Vc (((cfg1.win 9).blk t).view.emb j)
  unfold G9
  have e0 : ((((cfg1.win 9).blk t).view.emb j) 0).val = t.val * 1024 + (j 0).val := by
    show win1_9.index t 0 * 1024 + 1 * (j 0).val = _; rw [hi.1]; omega
  have e1 : ((((cfg1.win 9).blk t).view.emb j) 1).val = (j 1).val := by
    show win1_9.index t 1 * 64 + 1 * (j 1).val = _; rw [hi.2]; omega
  have hpt : ptOf ⟨((((cfg1.win 9).blk t).view.emb j) 0).val, idx2_lt0 (n0 := 4096) (n1 := 64) _⟩ = t :=
    Fin.ext (by show ((((cfg1.win 9).blk t).view.emb j) 0).val / 1024 = t.val; rw [e0]; omega)
  rw [hpt]
  congr 1
  funext a
  apply Fin.ext
  match a with
  | ⟨0, _⟩ => show (j 0).val = ((((cfg1.win 9).blk t).view.emb j) 0).val % 1024; rw [e0]; omega
  | ⟨1, _⟩ => show (j 1).val = ((((cfg1.win 9).blk t).view.emb j) 1).val; rw [e1]

/-- The four stored blocks tile the result. -/
theorem out_cover9 (i : S4096x64.Idx) : ∃ t : Fin cfg1.N, (cfg1.win 9).flush t = true ∧ i ∈ ((cfg1.win 9).blk t).view.set := by
  have h0 : (i 0).val < 4096 := (i 0).isLt
  have h1 : (i 1).val < 64 := (i 1).isLt
  refine ⟨ptOf ⟨(i 0).val, h0⟩, flush1_9 _, ?_⟩
  have hi := (idx_facts1 (ptOf ⟨(i 0).val, h0⟩)).2.2.1
  show i ∈ ((View.whole main_v35).slice (win1_9.rect (ptOf ⟨(i 0).val, h0⟩))).set
  rw [View.set_slice_whole, Rect.mem_set_unit]
  intro a
  match a with
  | ⟨0, _⟩ =>
    show win1_9.index (ptOf ⟨(i 0).val, h0⟩) 0 * 1024 ≤ (i 0).val ∧ (i 0).val < win1_9.index (ptOf ⟨(i 0).val, h0⟩) 0 * 1024 + 1024
    rw [hi.1]; show (i 0).val / 1024 * 1024 ≤ (i 0).val ∧ (i 0).val < (i 0).val / 1024 * 1024 + 1024; omega
  | ⟨1, _⟩ =>
    show win1_9.index (ptOf ⟨(i 0).val, h0⟩) 1 * 64 ≤ (i 1).val ∧ (i 1).val < win1_9.index (ptOf ⟨(i 0).val, h0⟩) 1 * 64 + 64
    rw [hi.2]; omega

/-- The result array after the call. -/
theorem arr9_eq : (dat1 c Vc Φ₀ O Rec q).arrAt 9 cfg1.N = G9 c Vc :=
  (dat1 c Vc Φ₀ O Rec q).arrAt_eq_of_cover 9 (G9 c Vc) (fun t _ => flushed9_eq c Vc Φ₀ O Rec q t) out_cover9

/-- Row r of the result: the body's value over the blocks of point r / 1024, at row r mod 1024. -/
theorem arr9_at (r : Fin 4096) (o : Fin 64) :
    ((dat1 c Vc Φ₀ O Rec q).arrAt 9 cfg1.N : S4096x64.Idx → EReal) (ix2 r o)
      = (out1 c Vc (ptOf r) : S1024x64.Idx → EReal) (ix2 (⟨r.val % 1024, Nat.mod_lt _ (by decide)⟩ : Fin 1024) o) := by
  rw [arr9_eq]
  rfl

/-! ## The small arrays are read whole -/

theorem iblk1_2_eq (t : Fin cfg1.N) : (iblk1 c Vc 2 t : Vec Ideal S128x32 .f32) = (Vc main_v14 : S128x32.Idx → EReal) := by
  have hi := (idx_facts1 t).2.2.2.1
  funext x
  unfold iblk1
  rw [View.read_apply]
  show Vc main_v14 _ = Vc main_v14 _
  congr 1
  funext a
  apply Fin.ext
  match a with
  | ⟨0, _⟩ => show win1_2.index t 0 * 128 + 1 * (x 0).val = (x 0).val; rw [hi.1]; omega
  | ⟨1, _⟩ => show win1_2.index t 1 * 32 + 1 * (x 1).val = (x 1).val; rw [hi.2]; omega

theorem iblk1_3_eq (t : Fin cfg1.N) : (iblk1 c Vc 3 t : Vec Ideal S32x16 .f32) = (Vc main_v25 : S32x16.Idx → EReal) := by
  have hi := (idx_facts1 t).2.2.2.2.1
  funext x
  unfold iblk1
  rw [View.read_apply]
  show Vc main_v25 _ = Vc main_v25 _
  congr 1
  funext a
  apply Fin.ext
  match a with
  | ⟨0, _⟩ => show win1_3.index t 0 * 32 + 1 * (x 0).val = (x 0).val; rw [hi.1]; omega
  | ⟨1, _⟩ => show win1_3.index t 1 * 16 + 1 * (x 1).val = (x 1).val; rw [hi.2]; omega

theorem iblk1_4_eq (t : Fin cfg1.N) : (iblk1 c Vc 4 t : Vec Ideal S1x16 .f32) = (Vc main_v26 : S1x16.Idx → EReal) := by
  have hi := (idx_facts1 t).2.2.2.2.2.1
  funext x
  unfold iblk1
  rw [View.read_apply]
  show Vc main_v26 _ = Vc main_v26 _
  congr 1
  funext a
  apply Fin.ext
  match a with
  | ⟨0, _⟩ => show win1_4.index t 0 * 1 + 1 * (x 0).val = (x 0).val; rw [hi.1]; omega
  | ⟨1, _⟩ => show win1_4.index t 1 * 16 + 1 * (x 1).val = (x 1).val; rw [hi.2]; omega

theorem iblk1_5_eq (t : Fin cfg1.N) : (iblk1 c Vc 5 t : Vec Ideal S16x16 .f32) = (Vc main_v27 : S16x16.Idx → EReal) := by
  have hi := (idx_facts1 t).2.2.2.2.2.2.1
  funext x
  unfold iblk1
  rw [View.read_apply]
  show Vc main_v27 _ = Vc main_v27 _
  congr 1
  funext a
  apply Fin.ext
  match a with
  | ⟨0, _⟩ => show win1_5.index t 0 * 16 + 1 * (x 0).val = (x 0).val; rw [hi.1]; omega
  | ⟨1, _⟩ => show win1_5.index t 1 * 16 + 1 * (x 1).val = (x 1).val; rw [hi.2]; omega

theorem iblk1_6_eq (t : Fin cfg1.N) : (iblk1 c Vc 6 t : Vec Ideal S1x16 .f32) = (Vc main_v28 : S1x16.Idx → EReal) := by
  have hi := (idx_facts1 t).2.2.2.2.2.2.2.1
  funext x
  unfold iblk1
  rw [View.read_apply]
  show Vc main_v28 _ = Vc main_v28 _
  congr 1
  funext a
  apply Fin.ext
  match a with
  | ⟨0, _⟩ => show win1_6.index t 0 * 1 + 1 * (x 0).val = (x 0).val; rw [hi.1]; omega
  | ⟨1, _⟩ => show win1_6.index t 1 * 16 + 1 * (x 1).val = (x 1).val; rw [hi.2]; omega

theorem iblk1_7_eq (t : Fin cfg1.N) : (iblk1 c Vc 7 t : Vec Ideal S1024x64 .f32) = (Vc main_v32 : S1024x64.Idx → EReal) := by
  have hi := (idx_facts1 t).2.2.2.2.2.2.2.2.1
  funext x
  unfold iblk1
  rw [View.read_apply]
  show Vc main_v32 _ = Vc main_v32 _
  congr 1
  funext a
  apply Fin.ext
  match a with
  | ⟨0, _⟩ => show win1_7.index t 0 * 1024 + 1 * (x 0).val = (x 0).val; rw [hi.1]; omega
  | ⟨1, _⟩ => show win1_7.index t 1 * 64 + 1 * (x 1).val = (x 1).val; rw [hi.2]; omega

theorem iblk1_8_eq (t : Fin cfg1.N) : (iblk1 c Vc 8 t : Vec Ideal S1x64 .f32) = (Vc main_v33 : S1x64.Idx → EReal) := by
  have hi := (idx_facts1 t).2.2.2.2.2.2.2.2.2
  funext x
  unfold iblk1
  rw [View.read_apply]
  show Vc main_v33 _ = Vc main_v33 _
  congr 1
  funext a
  apply Fin.ext
  match a with
  | ⟨0, _⟩ => show win1_8.index t 0 * 1 + 1 * (x 0).val = (x 0).val; rw [hi.1]; omega
  | ⟨1, _⟩ => show win1_8.index t 1 * 64 + 1 * (x 1).val = (x 1).val; rw [hi.2]; omega

/-! ## The call's result over the arrays it read -/

/-- Row r of call 0's result is the body's value over block r / 1024 of the gathered rows, block r / 1024 of the
    per-point bias, and the small arrays. -/
theorem call0_arr (r : Fin 4096) (o : Fin 64) :
    ((dat1 c Vc Φ₀ O Rec q).arrAt 9 cfg1.N : S4096x64.Idx → EReal) (ix2 r o)
      = callVal 0 (Vc main_v34) (Vc main_v14) (Vc main_v24) (Vc main_v25) (Vc main_v26) (Vc main_v27)
          (Vc main_v28) (Vc main_v32) (Vc main_v33) r o := by
  have hr := r.isLt
  rw [arr9_at]
  unfold out1 callVal
  have e0 : (iblk1 c Vc 0 (ptOf r) : Vec Ideal S16384x128 .f32) = gBlock (Vc main_v34) ⟨r.val / 1024, by omega⟩ := by
    funext x
    exact iblk1_0_apply c Vc (ptOf r) x _ rfl rfl
  have e1 : (iblk1 c Vc 1 (ptOf r) : Vec Ideal S1024x32 .f32) = hbBlock (Vc main_v24) 0 ⟨r.val / 1024, by omega⟩ := by
    funext x
    exact iblk1_1_apply c Vc (ptOf r) x _ (by show 1024 * (4 * 0 + r.val / 1024) + (x 0).val = 1024 * (r.val / 1024) + (x 0).val; omega) rfl
  rw [e0, e1, iblk1_2_eq, iblk1_3_eq, iblk1_4_eq, iblk1_5_eq, iblk1_6_eq, iblk1_7_eq, iblk1_8_eq]

/-- The same for the call's result as the region step names it. -/
theorem tcRes0_at (r : Fin 4096) (o : Fin 64) :
    (tcRes0 (F := Ideal) c Vc : S4096x64.Idx → EReal) (ix2 r o)
      = callVal 0 (Vc main_v34) (Vc main_v14) (Vc main_v24) (Vc main_v25) (Vc main_v26) (Vc main_v27)
          (Vc main_v28) (Vc main_v32) (Vc main_v33) r o := by
  unfold tcRes0
  exact call0_arr c Vc _ _ _ _ r o

end Cert.Proof.Tc

end
-- ==== Proof.TcArr1.lean ====
/-
  The result array of call 3 read at an index: row r of the call's 4096 rows lies in block r / 1024, which the
  grid point of that number wrote back, and no other point's block meets it; so the array holds there what the
  body stored at that point, computed from block r / 1024 of the gathered rows, block 4 + r / 1024 of the
  per-point bias, and the seven small arrays whole.
-/
import proofs.«214101_g10505490006249_cont_week2b_118_28_alg».proof.Proof.TcRegion1
import proofs.«214101_g10505490006249_cont_week2b_118_28_alg».proof.Proof.KerBlock

set_option maxRecDepth 16384

noncomputable section

namespace Cert.Proof.KI

open Cert.KernelIdeal Cert.KernelIdeal.Gen Cert.Proof.Tc
open Idealize.ShloMosaic Idealize.ShloMosaic.TcCoe Idealize.ShloMosaic.ValueIdx
open Idealize.ShloMosaic.SparseCore.Cfg (HIx)
open Idealize.SL Idealize.SL.RA Idealize.SL.BI
open scoped Idealize.SL.BI
open Idealize.ShloMosaic.Pipeline (Dat)

section Arr1

variable (d : Dev nD) (V : (x : Ref sig .tc) → Buf (Elt Ideal) ((SparseCore.T (τ := τ) d).loc x))

/-- The printed index maps, decided over the four grid points: the result window and the gathered rows' window
    move one block per point, the bias window 4 blocks further on, the small arrays' windows stay. -/
theorem idx_facts_1 : ∀ t : Fin cfg3.N, win3_9.index t (0 : Fin 2) = t.val
    ∧ win3_9.index t (1 : Fin 2) = 0
    ∧ win3_0.index t (0 : Fin 2) = t.val
    ∧ win3_0.index t (1 : Fin 2) = 0
    ∧ win3_1.index t (0 : Fin 2) = 4 + t.val
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = 0
    ∧ win3_5.index t (1 : Fin 2) = 0
    ∧ win3_6.index t (0 : Fin 2) = 0
    ∧ win3_6.index t (1 : Fin 2) = 0
    ∧ win3_7.index t (0 : Fin 2) = 0
    ∧ win3_7.index t (1 : Fin 2) = 0
    ∧ win3_8.index t (0 : Fin 2) = 0
    ∧ win3_8.index t (1 : Fin 2) = 0 :=
  (by decide +kernel : ∀ t : Fin grid3.N, _)

/-- Distinct points write distinct blocks of the result. -/
theorem idx_inj_1 : ∀ t t' : Fin cfg3.N, win3_9.index t = win3_9.index t' → t = t' :=
  (by decide +kernel : ∀ t t' : Fin grid3.N, win3_9.index t = win3_9.index t' → t = t')

theorem disjoint_1 : ∀ t t' : Fin cfg3.N, (cfg3.win 9).flush t = true → (cfg3.win 9).flush t' = true → t ≠ t' →
    Disjoint ((cfg3.win 9).blk t).view.set ((cfg3.win 9).blk t').view.set :=
  fun t t' _ _ hne => (cfg3.win 9).disjoint_blk fun h => hne (idx_inj_1 t t' h)

/-- The gathered rows' block at point `t` is block `t` of the call's gathered array. -/
theorem iblk3_0_eq (t : Fin cfg3.N) : iblk3 d V 0 t = gBlock (V main_v36) ⟨t.val, (N_3 ▸ t.isLt : t.val < 4)⟩ := by
  obtain ⟨e0, e1, e2, e3, e4, e5, e6, e7, e8, e9, e10, e11, e12, e13, e14, e15, e16, e17, e18, e19⟩ := idx_facts_1 t
  funext i
  show V main_v36 (((cfg3.win 0).blk t).view.emb i) = V main_v36 _
  refine congrArg (V main_v36) (funext fun a => Fin.ext ?_)
  match a with
  | ⟨0, _⟩ => show win3_0.index t (0 : Fin 2) * 16384 + 1 * (i 0).val = 16384 * t.val + (i 0).val; omega
  | ⟨1, _⟩ => show win3_0.index t (1 : Fin 2) * 128 + 1 * (i 1).val = (i 1).val; omega

/-- The bias window's block at point `t` is block 4 + `t` of the per-point bias. -/
theorem iblk3_1_eq (t : Fin cfg3.N) : iblk3 d V 1 t = hbBlock (V main_v24) 1 ⟨t.val, (N_3 ▸ t.isLt : t.val < 4)⟩ := by
  obtain ⟨e0, e1, e2, e3, e4, e5, e6, e7, e8, e9, e10, e11, e12, e13, e14, e15, e16, e17, e18, e19⟩ := idx_facts_1 t
  funext i
  show V main_v24 (((cfg3.win 1).blk t).view.emb i) = V main_v24 _
  refine congrArg (V main_v24) (funext fun a => Fin.ext ?_)
  match a with
  | ⟨0, _⟩ => show win3_1.index t (0 : Fin 2) * 1024 + 1 * (i 0).val = 1024 * (4 * ((1 : Fin 8) : ℕ) + t.val) + (i 0).val; omega
  | ⟨1, _⟩ => show win3_1.index t (1 : Fin 2) * 32 + 1 * (i 1).val = (i 1).val; omega

/-- Window 2's block is its whole array at every point. -/
theorem iblk3_2_eq (t : Fin cfg3.N) : iblk3 d V 2 t = V main_v14 := by
  obtain ⟨e0, e1, e2, e3, e4, e5, e6, e7, e8, e9, e10, e11, e12, e13, e14, e15, e16, e17, e18, e19⟩ := idx_facts_1 t
  funext i
  show V main_v14 (((cfg3.win 2).blk t).view.emb i) = V main_v14 i
  refine congrArg (V main_v14) (funext fun a => Fin.ext ?_)
  match a with
  | ⟨0, _⟩ => show win3_2.index t (0 : Fin 2) * 128 + 1 * (i 0).val = (i 0).val; omega
  | ⟨1, _⟩ => show win3_2.index t (1 : Fin 2) * 32 + 1 * (i 1).val = (i 1).val; omega

/-- Window 3's block is its whole array at every point. -/
theorem iblk3_3_eq (t : Fin cfg3.N) : iblk3 d V 3 t = V main_v25 := by
  obtain ⟨e0, e1, e2, e3, e4, e5, e6, e7, e8, e9, e10, e11, e12, e13, e14, e15, e16, e17, e18, e19⟩ := idx_facts_1 t
  funext i
  show V main_v25 (((cfg3.win 3).blk t).view.emb i) = V main_v25 i
  refine congrArg (V main_v25) (funext fun a => Fin.ext ?_)
  match a with
  | ⟨0, _⟩ => show win3_3.index t (0 : Fin 2) * 32 + 1 * (i 0).val = (i 0).val; omega
  | ⟨1, _⟩ => show win3_3.index t (1 : Fin 2) * 16 + 1 * (i 1).val = (i 1).val; omega

/-- Window 4's block is its whole array at every point. -/
theorem iblk3_4_eq (t : Fin cfg3.N) : iblk3 d V 4 t = V main_v26 := by
  obtain ⟨e0, e1, e2, e3, e4, e5, e6, e7, e8, e9, e10, e11, e12, e13, e14, e15, e16, e17, e18, e19⟩ := idx_facts_1 t
  funext i
  show V main_v26 (((cfg3.win 4).blk t).view.emb i) = V main_v26 i
  refine congrArg (V main_v26) (funext fun a => Fin.ext ?_)
  match a with
  | ⟨0, _⟩ => show win3_4.index t (0 : Fin 2) * 1 + 1 * (i 0).val = (i 0).val; omega
  | ⟨1, _⟩ => show win3_4.index t (1 : Fin 2) * 16 + 1 * (i 1).val = (i 1).val; omega

/-- Window 5's block is its whole array at every point. -/
theorem iblk3_5_eq (t : Fin cfg3.N) : iblk3 d V 5 t = V main_v27 := by
  obtain ⟨e0, e1, e2, e3, e4, e5, e6, e7, e8, e9, e10, e11, e12, e13, e14, e15, e16, e17, e18, e19⟩ := idx_facts_1 t
  funext i
  show V main_v27 (((cfg3.win 5).blk t).view.emb i) = V main_v27 i
  refine congrArg (V main_v27) (funext fun a => Fin.ext ?_)
  match a with
  | ⟨0, _⟩ => show win3_5.index t (0 : Fin 2) * 16 + 1 * (i 0).val = (i 0).val; omega
  | ⟨1, _⟩ => show win3_5.index t (1 : Fin 2) * 16 + 1 * (i 1).val = (i 1).val; omega

/-- Window 6's block is its whole array at every point. -/
theorem iblk3_6_eq (t : Fin cfg3.N) : iblk3 d V 6 t = V main_v28 := by
  obtain ⟨e0, e1, e2, e3, e4, e5, e6, e7, e8, e9, e10, e11, e12, e13, e14, e15, e16, e17, e18, e19⟩ := idx_facts_1 t
  funext i
  show V main_v28 (((cfg3.win 6).blk t).view.emb i) = V main_v28 i
  refine congrArg (V main_v28) (funext fun a => Fin.ext ?_)
  match a with
  | ⟨0, _⟩ => show win3_6.index t (0 : Fin 2) * 1 + 1 * (i 0).val = (i 0).val; omega
  | ⟨1, _⟩ => show win3_6.index t (1 : Fin 2) * 16 + 1 * (i 1).val = (i 1).val; omega

/-- Window 7's block is its whole array at every point. -/
theorem iblk3_7_eq (t : Fin cfg3.N) : iblk3 d V 7 t = V main_v32 := by
  obtain ⟨e0, e1, e2, e3, e4, e5, e6, e7, e8, e9, e10, e11, e12, e13, e14, e15, e16, e17, e18, e19⟩ := idx_facts_1 t
  funext i
  show V main_v32 (((cfg3.win 7).blk t).view.emb i) = V main_v32 i
  refine congrArg (V main_v32) (funext fun a => Fin.ext ?_)
  match a with
  | ⟨0, _⟩ => show win3_7.index t (0 : Fin 2) * 1024 + 1 * (i 0).val = (i 0).val; omega
  | ⟨1, _⟩ => show win3_7.index t (1 : Fin 2) * 64 + 1 * (i 1).val = (i 1).val; omega

/-- Window 8's block is its whole array at every point. -/
theorem iblk3_8_eq (t : Fin cfg3.N) : iblk3 d V 8 t = V main_v33 := by
  obtain ⟨e0, e1, e2, e3, e4, e5, e6, e7, e8, e9, e10, e11, e12, e13, e14, e15, e16, e17, e18, e19⟩ := idx_facts_1 t
  funext i
  show V main_v33 (((cfg3.win 8).blk t).view.emb i) = V main_v33 i
  refine congrArg (V main_v33) (funext fun a => Fin.ext ?_)
  match a with
  | ⟨0, _⟩ => show win3_8.index t (0 : Fin 2) * 1 + 1 * (i 0).val = (i 0).val; omega
  | ⟨1, _⟩ => show win3_8.index t (1 : Fin 2) * 64 + 1 * (i 1).val = (i 1).val; omega

/-- THE RESULT ARRAY AT AN INDEX. -/
theorem tcRes1_at (r : Fin 4096) (o : Fin 64) :
    tcRes1 d V (ix2 r o) = callVal 1 (V main_v36) (V main_v14) (V main_v24) (V main_v25) (V main_v26) (V main_v27) (V main_v28) (V main_v32) (V main_v33) r o := by
  have hr := r.isLt
  let t : Fin cfg3.N := ⟨r.val / 1024, by rw [show cfg3.N = 4 from N_3]; omega⟩
  obtain ⟨e0, e1, e2, e3, e4, e5, e6, e7, e8, e9, e10, e11, e12, e13, e14, e15, e16, e17, e18, e19⟩ := idx_facts_1 t
  have hblk := (dat3 (Ix := HIx 8) (Name := ℕ) (U := UU) (Lvl := ℕ) d V iprop(emp) 0 Set.univ (fun _ => fullShare)).read_blk_arrAt_eq_flushed 9 disjoint_1 cfg3.N t t.isLt (flush3_9 t)
  have hemb : ((cfg3.win 9).blk t).view.emb (ix2 (⟨r.val % 1024, Nat.mod_lt _ (by decide)⟩ : Fin 1024) o) = ix2 r o := by
    funext a; apply Fin.ext
    match a with
    | ⟨0, _⟩ => show win3_9.index t (0 : Fin 2) * 1024 + 1 * (r.val % 1024) = r.val; rw [e0]; show r.val / 1024 * 1024 + 1 * (r.val % 1024) = r.val; omega
    | ⟨1, _⟩ => show win3_9.index t (1 : Fin 2) * 64 + 1 * o.val = o.val; omega
  have hfl : (dat3 (Ix := HIx 8) (Name := ℕ) (U := UU) (Lvl := ℕ) d V iprop(emp) 0 Set.univ (fun _ => fullShare)).flushed 9 t = out3 d V t := by
    show (cfg3.win 9).cut (grid3.coords t) ((dat3 (Ix := HIx 8) (Name := ℕ) (U := UU) (Lvl := ℕ) d V iprop(emp) 0 Set.univ (fun _ => fullShare)).after 9 t) = _
    rw [after3_9]; rfl
  unfold tcRes1
  rw [← hemb]
  refine (congrFun (hblk.trans hfl) (ix2 (⟨r.val % 1024, Nat.mod_lt _ (by decide)⟩ : Fin 1024) o)).trans ?_
  unfold out3 callVal
  rw [iblk3_0_eq, iblk3_1_eq, iblk3_2_eq, iblk3_3_eq, iblk3_4_eq, iblk3_5_eq, iblk3_6_eq, iblk3_7_eq, iblk3_8_eq]
  rfl

end Arr1

end Cert.Proof.KI

end
-- ==== Proof.TcArr2.lean ====
/-
  The result array of call 5 read at an index: row r of the call's 4096 rows lies in block r / 1024, which the
  grid point of that number wrote back, and no other point's block meets it; so the array holds there what the
  body stored at that point, computed from block r / 1024 of the gathered rows, block 8 + r / 1024 of the
  per-point bias, and the seven small arrays whole.
-/
import proofs.«214101_g10505490006249_cont_week2b_118_28_alg».proof.Proof.TcRegion2
import proofs.«214101_g10505490006249_cont_week2b_118_28_alg».proof.Proof.KerBlock

set_option maxRecDepth 16384

noncomputable section

namespace Cert.Proof.KI

open Cert.KernelIdeal Cert.KernelIdeal.Gen Cert.Proof.Tc
open Idealize.ShloMosaic Idealize.ShloMosaic.TcCoe Idealize.ShloMosaic.ValueIdx
open Idealize.ShloMosaic.SparseCore.Cfg (HIx)
open Idealize.SL Idealize.SL.RA Idealize.SL.BI
open scoped Idealize.SL.BI
open Idealize.ShloMosaic.Pipeline (Dat)

section Arr2

variable (d : Dev nD) (V : (x : Ref sig .tc) → Buf (Elt Ideal) ((SparseCore.T (τ := τ) d).loc x))

/-- The printed index maps, decided over the four grid points: the result window and the gathered rows' window
    move one block per point, the bias window 8 blocks further on, the small arrays' windows stay. -/
theorem idx_facts_2 : ∀ t : Fin cfg5.N, win5_9.index t (0 : Fin 2) = t.val
    ∧ win5_9.index t (1 : Fin 2) = 0
    ∧ win5_0.index t (0 : Fin 2) = t.val
    ∧ win5_0.index t (1 : Fin 2) = 0
    ∧ win5_1.index t (0 : Fin 2) = 8 + t.val
    ∧ win5_1.index t (1 : Fin 2) = 0
    ∧ win5_2.index t (0 : Fin 2) = 0
    ∧ win5_2.index t (1 : Fin 2) = 0
    ∧ win5_3.index t (0 : Fin 2) = 0
    ∧ win5_3.index t (1 : Fin 2) = 0
    ∧ win5_4.index t (0 : Fin 2) = 0
    ∧ win5_4.index t (1 : Fin 2) = 0
    ∧ win5_5.index t (0 : Fin 2) = 0
    ∧ win5_5.index t (1 : Fin 2) = 0
    ∧ win5_6.index t (0 : Fin 2) = 0
    ∧ win5_6.index t (1 : Fin 2) = 0
    ∧ win5_7.index t (0 : Fin 2) = 0
    ∧ win5_7.index t (1 : Fin 2) = 0
    ∧ win5_8.index t (0 : Fin 2) = 0
    ∧ win5_8.index t (1 : Fin 2) = 0 :=
  (by decide +kernel : ∀ t : Fin grid5.N, _)

/-- Distinct points write distinct blocks of the result. -/
theorem idx_inj_2 : ∀ t t' : Fin cfg5.N, win5_9.index t = win5_9.index t' → t = t' :=
  (by decide +kernel : ∀ t t' : Fin grid5.N, win5_9.index t = win5_9.index t' → t = t')

theorem disjoint_2 : ∀ t t' : Fin cfg5.N, (cfg5.win 9).flush t = true → (cfg5.win 9).flush t' = true → t ≠ t' →
    Disjoint ((cfg5.win 9).blk t).view.set ((cfg5.win 9).blk t').view.set :=
  fun t t' _ _ hne => (cfg5.win 9).disjoint_blk fun h => hne (idx_inj_2 t t' h)

/-- The gathered rows' block at point `t` is block `t` of the call's gathered array. -/
theorem iblk5_0_eq (t : Fin cfg5.N) : iblk5 d V 0 t = gBlock (V main_v38) ⟨t.val, (N_5 ▸ t.isLt : t.val < 4)⟩ := by
  obtain ⟨e0, e1, e2, e3, e4, e5, e6, e7, e8, e9, e10, e11, e12, e13, e14, e15, e16, e17, e18, e19⟩ := idx_facts_2 t
  funext i
  show V main_v38 (((cfg5.win 0).blk t).view.emb i) = V main_v38 _
  refine congrArg (V main_v38) (funext fun a => Fin.ext ?_)
  match a with
  | ⟨0, _⟩ => show win5_0.index t (0 : Fin 2) * 16384 + 1 * (i 0).val = 16384 * t.val + (i 0).val; omega
  | ⟨1, _⟩ => show win5_0.index t (1 : Fin 2) * 128 + 1 * (i 1).val = (i 1).val; omega

/-- The bias window's block at point `t` is block 8 + `t` of the per-point bias. -/
theorem iblk5_1_eq (t : Fin cfg5.N) : iblk5 d V 1 t = hbBlock (V main_v24) 2 ⟨t.val, (N_5 ▸ t.isLt : t.val < 4)⟩ := by
  obtain ⟨e0, e1, e2, e3, e4, e5, e6, e7, e8, e9, e10, e11, e12, e13, e14, e15, e16, e17, e18, e19⟩ := idx_facts_2 t
  funext i
  show V main_v24 (((cfg5.win 1).blk t).view.emb i) = V main_v24 _
  refine congrArg (V main_v24) (funext fun a => Fin.ext ?_)
  match a with
  | ⟨0, _⟩ => show win5_1.index t (0 : Fin 2) * 1024 + 1 * (i 0).val = 1024 * (4 * ((2 : Fin 8) : ℕ) + t.val) + (i 0).val; omega
  | ⟨1, _⟩ => show win5_1.index t (1 : Fin 2) * 32 + 1 * (i 1).val = (i 1).val; omega

/-- Window 2's block is its whole array at every point. -/
theorem iblk5_2_eq (t : Fin cfg5.N) : iblk5 d V 2 t = V main_v14 := by
  obtain ⟨e0, e1, e2, e3, e4, e5, e6, e7, e8, e9, e10, e11, e12, e13, e14, e15, e16, e17, e18, e19⟩ := idx_facts_2 t
  funext i
  show V main_v14 (((cfg5.win 2).blk t).view.emb i) = V main_v14 i
  refine congrArg (V main_v14) (funext fun a => Fin.ext ?_)
  match a with
  | ⟨0, _⟩ => show win5_2.index t (0 : Fin 2) * 128 + 1 * (i 0).val = (i 0).val; omega
  | ⟨1, _⟩ => show win5_2.index t (1 : Fin 2) * 32 + 1 * (i 1).val = (i 1).val; omega

/-- Window 3's block is its whole array at every point. -/
theorem iblk5_3_eq (t : Fin cfg5.N) : iblk5 d V 3 t = V main_v25 := by
  obtain ⟨e0, e1, e2, e3, e4, e5, e6, e7, e8, e9, e10, e11, e12, e13, e14, e15, e16, e17, e18, e19⟩ := idx_facts_2 t
  funext i
  show V main_v25 (((cfg5.win 3).blk t).view.emb i) = V main_v25 i
  refine congrArg (V main_v25) (funext fun a => Fin.ext ?_)
  match a with
  | ⟨0, _⟩ => show win5_3.index t (0 : Fin 2) * 32 + 1 * (i 0).val = (i 0).val; omega
  | ⟨1, _⟩ => show win5_3.index t (1 : Fin 2) * 16 + 1 * (i 1).val = (i 1).val; omega

/-- Window 4's block is its whole array at every point. -/
theorem iblk5_4_eq (t : Fin cfg5.N) : iblk5 d V 4 t = V main_v26 := by
  obtain ⟨e0, e1, e2, e3, e4, e5, e6, e7, e8, e9, e10, e11, e12, e13, e14, e15, e16, e17, e18, e19⟩ := idx_facts_2 t
  funext i
  show V main_v26 (((cfg5.win 4).blk t).view.emb i) = V main_v26 i
  refine congrArg (V main_v26) (funext fun a => Fin.ext ?_)
  match a with
  | ⟨0, _⟩ => show win5_4.index t (0 : Fin 2) * 1 + 1 * (i 0).val = (i 0).val; omega
  | ⟨1, _⟩ => show win5_4.index t (1 : Fin 2) * 16 + 1 * (i 1).val = (i 1).val; omega

/-- Window 5's block is its whole array at every point. -/
theorem iblk5_5_eq (t : Fin cfg5.N) : iblk5 d V 5 t = V main_v27 := by
  obtain ⟨e0, e1, e2, e3, e4, e5, e6, e7, e8, e9, e10, e11, e12, e13, e14, e15, e16, e17, e18, e19⟩ := idx_facts_2 t
  funext i
  show V main_v27 (((cfg5.win 5).blk t).view.emb i) = V main_v27 i
  refine congrArg (V main_v27) (funext fun a => Fin.ext ?_)
  match a with
  | ⟨0, _⟩ => show win5_5.index t (0 : Fin 2) * 16 + 1 * (i 0).val = (i 0).val; omega
  | ⟨1, _⟩ => show win5_5.index t (1 : Fin 2) * 16 + 1 * (i 1).val = (i 1).val; omega

/-- Window 6's block is its whole array at every point. -/
theorem iblk5_6_eq (t : Fin cfg5.N) : iblk5 d V 6 t = V main_v28 := by
  obtain ⟨e0, e1, e2, e3, e4, e5, e6, e7, e8, e9, e10, e11, e12, e13, e14, e15, e16, e17, e18, e19⟩ := idx_facts_2 t
  funext i
  show V main_v28 (((cfg5.win 6).blk t).view.emb i) = V main_v28 i
  refine congrArg (V main_v28) (funext fun a => Fin.ext ?_)
  match a with
  | ⟨0, _⟩ => show win5_6.index t (0 : Fin 2) * 1 + 1 * (i 0).val = (i 0).val; omega
  | ⟨1, _⟩ => show win5_6.index t (1 : Fin 2) * 16 + 1 * (i 1).val = (i 1).val; omega

/-- Window 7's block is its whole array at every point. -/
theorem iblk5_7_eq (t : Fin cfg5.N) : iblk5 d V 7 t = V main_v32 := by
  obtain ⟨e0, e1, e2, e3, e4, e5, e6, e7, e8, e9, e10, e11, e12, e13, e14, e15, e16, e17, e18, e19⟩ := idx_facts_2 t
  funext i
  show V main_v32 (((cfg5.win 7).blk t).view.emb i) = V main_v32 i
  refine congrArg (V main_v32) (funext fun a => Fin.ext ?_)
  match a with
  | ⟨0, _⟩ => show win5_7.index t (0 : Fin 2) * 1024 + 1 * (i 0).val = (i 0).val; omega
  | ⟨1, _⟩ => show win5_7.index t (1 : Fin 2) * 64 + 1 * (i 1).val = (i 1).val; omega

/-- Window 8's block is its whole array at every point. -/
theorem iblk5_8_eq (t : Fin cfg5.N) : iblk5 d V 8 t = V main_v33 := by
  obtain ⟨e0, e1, e2, e3, e4, e5, e6, e7, e8, e9, e10, e11, e12, e13, e14, e15, e16, e17, e18, e19⟩ := idx_facts_2 t
  funext i
  show V main_v33 (((cfg5.win 8).blk t).view.emb i) = V main_v33 i
  refine congrArg (V main_v33) (funext fun a => Fin.ext ?_)
  match a with
  | ⟨0, _⟩ => show win5_8.index t (0 : Fin 2) * 1 + 1 * (i 0).val = (i 0).val; omega
  | ⟨1, _⟩ => show win5_8.index t (1 : Fin 2) * 64 + 1 * (i 1).val = (i 1).val; omega

/-- THE RESULT ARRAY AT AN INDEX. -/
theorem tcRes2_at (r : Fin 4096) (o : Fin 64) :
    tcRes2 d V (ix2 r o) = callVal 2 (V main_v38) (V main_v14) (V main_v24) (V main_v25) (V main_v26) (V main_v27) (V main_v28) (V main_v32) (V main_v33) r o := by
  have hr := r.isLt
  let t : Fin cfg5.N := ⟨r.val / 1024, by rw [show cfg5.N = 4 from N_5]; omega⟩
  obtain ⟨e0, e1, e2, e3, e4, e5, e6, e7, e8, e9, e10, e11, e12, e13, e14, e15, e16, e17, e18, e19⟩ := idx_facts_2 t
  have hblk := (dat5 (Ix := HIx 8) (Name := ℕ) (U := UU) (Lvl := ℕ) d V iprop(emp) 0 Set.univ (fun _ => fullShare)).read_blk_arrAt_eq_flushed 9 disjoint_2 cfg5.N t t.isLt (flush5_9 t)
  have hemb : ((cfg5.win 9).blk t).view.emb (ix2 (⟨r.val % 1024, Nat.mod_lt _ (by decide)⟩ : Fin 1024) o) = ix2 r o := by
    funext a; apply Fin.ext
    match a with
    | ⟨0, _⟩ => show win5_9.index t (0 : Fin 2) * 1024 + 1 * (r.val % 1024) = r.val; rw [e0]; show r.val / 1024 * 1024 + 1 * (r.val % 1024) = r.val; omega
    | ⟨1, _⟩ => show win5_9.index t (1 : Fin 2) * 64 + 1 * o.val = o.val; omega
  have hfl : (dat5 (Ix := HIx 8) (Name := ℕ) (U := UU) (Lvl := ℕ) d V iprop(emp) 0 Set.univ (fun _ => fullShare)).flushed 9 t = out5 d V t := by
    show (cfg5.win 9).cut (grid5.coords t) ((dat5 (Ix := HIx 8) (Name := ℕ) (U := UU) (Lvl := ℕ) d V iprop(emp) 0 Set.univ (fun _ => fullShare)).after 9 t) = _
    rw [after5_9]; rfl
  unfold tcRes2
  rw [← hemb]
  refine (congrFun (hblk.trans hfl) (ix2 (⟨r.val % 1024, Nat.mod_lt _ (by decide)⟩ : Fin 1024) o)).trans ?_
  unfold out5 callVal
  rw [iblk5_0_eq, iblk5_1_eq, iblk5_2_eq, iblk5_3_eq, iblk5_4_eq, iblk5_5_eq, iblk5_6_eq, iblk5_7_eq, iblk5_8_eq]
  rfl

end Arr2

end Cert.Proof.KI

end
-- ==== Proof.TcArr3.lean ====
/-
  The result array of call 7 read at an index: row r of the call's 4096 rows lies in block r / 1024, which the
  grid point of that number wrote back, and no other point's block meets it; so the array holds there what the
  body stored at that point, computed from block r / 1024 of the gathered rows, block 12 + r / 1024 of the
  per-point bias, and the seven small arrays whole.
-/
import proofs.«214101_g10505490006249_cont_week2b_118_28_alg».proof.Proof.TcRegion3
import proofs.«214101_g10505490006249_cont_week2b_118_28_alg».proof.Proof.KerBlock

set_option maxRecDepth 16384

noncomputable section

namespace Cert.Proof.KI

open Cert.KernelIdeal Cert.KernelIdeal.Gen Cert.Proof.Tc
open Idealize.ShloMosaic Idealize.ShloMosaic.TcCoe Idealize.ShloMosaic.ValueIdx
open Idealize.ShloMosaic.SparseCore.Cfg (HIx)
open Idealize.SL Idealize.SL.RA Idealize.SL.BI
open scoped Idealize.SL.BI
open Idealize.ShloMosaic.Pipeline (Dat)

section Arr3

variable (d : Dev nD) (V : (x : Ref sig .tc) → Buf (Elt Ideal) ((SparseCore.T (τ := τ) d).loc x))

/-- The printed index maps, decided over the four grid points: the result window and the gathered rows' window
    move one block per point, the bias window 12 blocks further on, the small arrays' windows stay. -/
theorem idx_facts_3 : ∀ t : Fin cfg7.N, win7_9.index t (0 : Fin 2) = t.val
    ∧ win7_9.index t (1 : Fin 2) = 0
    ∧ win7_0.index t (0 : Fin 2) = t.val
    ∧ win7_0.index t (1 : Fin 2) = 0
    ∧ win7_1.index t (0 : Fin 2) = 12 + t.val
    ∧ win7_1.index t (1 : Fin 2) = 0
    ∧ win7_2.index t (0 : Fin 2) = 0
    ∧ win7_2.index t (1 : Fin 2) = 0
    ∧ win7_3.index t (0 : Fin 2) = 0
    ∧ win7_3.index t (1 : Fin 2) = 0
    ∧ win7_4.index t (0 : Fin 2) = 0
    ∧ win7_4.index t (1 : Fin 2) = 0
    ∧ win7_5.index t (0 : Fin 2) = 0
    ∧ win7_5.index t (1 : Fin 2) = 0
    ∧ win7_6.index t (0 : Fin 2) = 0
    ∧ win7_6.index t (1 : Fin 2) = 0
    ∧ win7_7.index t (0 : Fin 2) = 0
    ∧ win7_7.index t (1 : Fin 2) = 0
    ∧ win7_8.index t (0 : Fin 2) = 0
    ∧ win7_8.index t (1 : Fin 2) = 0 :=
  (by decide +kernel : ∀ t : Fin grid7.N, _)

/-- Distinct points write distinct blocks of the result. -/
theorem idx_inj_3 : ∀ t t' : Fin cfg7.N, win7_9.index t = win7_9.index t' → t = t' :=
  (by decide +kernel : ∀ t t' : Fin grid7.N, win7_9.index t = win7_9.index t' → t = t')

theorem disjoint_3 : ∀ t t' : Fin cfg7.N, (cfg7.win 9).flush t = true → (cfg7.win 9).flush t' = true → t ≠ t' →
    Disjoint ((cfg7.win 9).blk t).view.set ((cfg7.win 9).blk t').view.set :=
  fun t t' _ _ hne => (cfg7.win 9).disjoint_blk fun h => hne (idx_inj_3 t t' h)

/-- The gathered rows' block at point `t` is block `t` of the call's gathered array. -/
theorem iblk7_0_eq (t : Fin cfg7.N) : iblk7 d V 0 t = gBlock (V main_v40) ⟨t.val, (N_7 ▸ t.isLt : t.val < 4)⟩ := by
  obtain ⟨e0, e1, e2, e3, e4, e5, e6, e7, e8, e9, e10, e11, e12, e13, e14, e15, e16, e17, e18, e19⟩ := idx_facts_3 t
  funext i
  show V main_v40 (((cfg7.win 0).blk t).view.emb i) = V main_v40 _
  refine congrArg (V main_v40) (funext fun a => Fin.ext ?_)
  match a with
  | ⟨0, _⟩ => show win7_0.index t (0 : Fin 2) * 16384 + 1 * (i 0).val = 16384 * t.val + (i 0).val; omega
  | ⟨1, _⟩ => show win7_0.index t (1 : Fin 2) * 128 + 1 * (i 1).val = (i 1).val; omega

/-- The bias window's block at point `t` is block 12 + `t` of the per-point bias. -/
theorem iblk7_1_eq (t : Fin cfg7.N) : iblk7 d V 1 t = hbBlock (V main_v24) 3 ⟨t.val, (N_7 ▸ t.isLt : t.val < 4)⟩ := by
  obtain ⟨e0, e1, e2, e3, e4, e5, e6, e7, e8, e9, e10, e11, e12, e13, e14, e15, e16, e17, e18, e19⟩ := idx_facts_3 t
  funext i
  show V main_v24 (((cfg7.win 1).blk t).view.emb i) = V main_v24 _
  refine congrArg (V main_v24) (funext fun a => Fin.ext ?_)
  match a with
  | ⟨0, _⟩ => show win7_1.index t (0 : Fin 2) * 1024 + 1 * (i 0).val = 1024 * (4 * ((3 : Fin 8) : ℕ) + t.val) + (i 0).val; omega
  | ⟨1, _⟩ => show win7_1.index t (1 : Fin 2) * 32 + 1 * (i 1).val = (i 1).val; omega

/-- Window 2's block is its whole array at every point. -/
theorem iblk7_2_eq (t : Fin cfg7.N) : iblk7 d V 2 t = V main_v14 := by
  obtain ⟨e0, e1, e2, e3, e4, e5, e6, e7, e8, e9, e10, e11, e12, e13, e14, e15, e16, e17, e18, e19⟩ := idx_facts_3 t
  funext i
  show V main_v14 (((cfg7.win 2).blk t).view.emb i) = V main_v14 i
  refine congrArg (V main_v14) (funext fun a => Fin.ext ?_)
  match a with
  | ⟨0, _⟩ => show win7_2.index t (0 : Fin 2) * 128 + 1 * (i 0).val = (i 0).val; omega
  | ⟨1, _⟩ => show win7_2.index t (1 : Fin 2) * 32 + 1 * (i 1).val = (i 1).val; omega

/-- Window 3's block is its whole array at every point. -/
theorem iblk7_3_eq (t : Fin cfg7.N) : iblk7 d V 3 t = V main_v25 := by
  obtain ⟨e0, e1, e2, e3, e4, e5, e6, e7, e8, e9, e10, e11, e12, e13, e14, e15, e16, e17, e18, e19⟩ := idx_facts_3 t
  funext i
  show V main_v25 (((cfg7.win 3).blk t).view.emb i) = V main_v25 i
  refine congrArg (V main_v25) (funext fun a => Fin.ext ?_)
  match a with
  | ⟨0, _⟩ => show win7_3.index t (0 : Fin 2) * 32 + 1 * (i 0).val = (i 0).val; omega
  | ⟨1, _⟩ => show win7_3.index t (1 : Fin 2) * 16 + 1 * (i 1).val = (i 1).val; omega

/-- Window 4's block is its whole array at every point. -/
theorem iblk7_4_eq (t : Fin cfg7.N) : iblk7 d V 4 t = V main_v26 := by
  obtain ⟨e0, e1, e2, e3, e4, e5, e6, e7, e8, e9, e10, e11, e12, e13, e14, e15, e16, e17, e18, e19⟩ := idx_facts_3 t
  funext i
  show V main_v26 (((cfg7.win 4).blk t).view.emb i) = V main_v26 i
  refine congrArg (V main_v26) (funext fun a => Fin.ext ?_)
  match a with
  | ⟨0, _⟩ => show win7_4.index t (0 : Fin 2) * 1 + 1 * (i 0).val = (i 0).val; omega
  | ⟨1, _⟩ => show win7_4.index t (1 : Fin 2) * 16 + 1 * (i 1).val = (i 1).val; omega

/-- Window 5's block is its whole array at every point. -/
theorem iblk7_5_eq (t : Fin cfg7.N) : iblk7 d V 5 t = V main_v27 := by
  obtain ⟨e0, e1, e2, e3, e4, e5, e6, e7, e8, e9, e10, e11, e12, e13, e14, e15, e16, e17, e18, e19⟩ := idx_facts_3 t
  funext i
  show V main_v27 (((cfg7.win 5).blk t).view.emb i) = V main_v27 i
  refine congrArg (V main_v27) (funext fun a => Fin.ext ?_)
  match a with
  | ⟨0, _⟩ => show win7_5.index t (0 : Fin 2) * 16 + 1 * (i 0).val = (i 0).val; omega
  | ⟨1, _⟩ => show win7_5.index t (1 : Fin 2) * 16 + 1 * (i 1).val = (i 1).val; omega

/-- Window 6's block is its whole array at every point. -/
theorem iblk7_6_eq (t : Fin cfg7.N) : iblk7 d V 6 t = V main_v28 := by
  obtain ⟨e0, e1, e2, e3, e4, e5, e6, e7, e8, e9, e10, e11, e12, e13, e14, e15, e16, e17, e18, e19⟩ := idx_facts_3 t
  funext i
  show V main_v28 (((cfg7.win 6).blk t).view.emb i) = V main_v28 i
  refine congrArg (V main_v28) (funext fun a => Fin.ext ?_)
  match a with
  | ⟨0, _⟩ => show win7_6.index t (0 : Fin 2) * 1 + 1 * (i 0).val = (i 0).val; omega
  | ⟨1, _⟩ => show win7_6.index t (1 : Fin 2) * 16 + 1 * (i 1).val = (i 1).val; omega

/-- Window 7's block is its whole array at every point. -/
theorem iblk7_7_eq (t : Fin cfg7.N) : iblk7 d V 7 t = V main_v32 := by
  obtain ⟨e0, e1, e2, e3, e4, e5, e6, e7, e8, e9, e10, e11, e12, e13, e14, e15, e16, e17, e18, e19⟩ := idx_facts_3 t
  funext i
  show V main_v32 (((cfg7.win 7).blk t).view.emb i) = V main_v32 i
  refine congrArg (V main_v32) (funext fun a => Fin.ext ?_)
  match a with
  | ⟨0, _⟩ => show win7_7.index t (0 : Fin 2) * 1024 + 1 * (i 0).val = (i 0).val; omega
  | ⟨1, _⟩ => show win7_7.index t (1 : Fin 2) * 64 + 1 * (i 1).val = (i 1).val; omega

/-- Window 8's block is its whole array at every point. -/
theorem iblk7_8_eq (t : Fin cfg7.N) : iblk7 d V 8 t = V main_v33 := by
  obtain ⟨e0, e1, e2, e3, e4, e5, e6, e7, e8, e9, e10, e11, e12, e13, e14, e15, e16, e17, e18, e19⟩ := idx_facts_3 t
  funext i
  show V main_v33 (((cfg7.win 8).blk t).view.emb i) = V main_v33 i
  refine congrArg (V main_v33) (funext fun a => Fin.ext ?_)
  match a with
  | ⟨0, _⟩ => show win7_8.index t (0 : Fin 2) * 1 + 1 * (i 0).val = (i 0).val; omega
  | ⟨1, _⟩ => show win7_8.index t (1 : Fin 2) * 64 + 1 * (i 1).val = (i 1).val; omega

/-- THE RESULT ARRAY AT AN INDEX. -/
theorem tcRes3_at (r : Fin 4096) (o : Fin 64) :
    tcRes3 d V (ix2 r o) = callVal 3 (V main_v40) (V main_v14) (V main_v24) (V main_v25) (V main_v26) (V main_v27) (V main_v28) (V main_v32) (V main_v33) r o := by
  have hr := r.isLt
  let t : Fin cfg7.N := ⟨r.val / 1024, by rw [show cfg7.N = 4 from N_7]; omega⟩
  obtain ⟨e0, e1, e2, e3, e4, e5, e6, e7, e8, e9, e10, e11, e12, e13, e14, e15, e16, e17, e18, e19⟩ := idx_facts_3 t
  have hblk := (dat7 (Ix := HIx 8) (Name := ℕ) (U := UU) (Lvl := ℕ) d V iprop(emp) 0 Set.univ (fun _ => fullShare)).read_blk_arrAt_eq_flushed 9 disjoint_3 cfg7.N t t.isLt (flush7_9 t)
  have hemb : ((cfg7.win 9).blk t).view.emb (ix2 (⟨r.val % 1024, Nat.mod_lt _ (by decide)⟩ : Fin 1024) o) = ix2 r o := by
    funext a; apply Fin.ext
    match a with
    | ⟨0, _⟩ => show win7_9.index t (0 : Fin 2) * 1024 + 1 * (r.val % 1024) = r.val; rw [e0]; show r.val / 1024 * 1024 + 1 * (r.val % 1024) = r.val; omega
    | ⟨1, _⟩ => show win7_9.index t (1 : Fin 2) * 64 + 1 * o.val = o.val; omega
  have hfl : (dat7 (Ix := HIx 8) (Name := ℕ) (U := UU) (Lvl := ℕ) d V iprop(emp) 0 Set.univ (fun _ => fullShare)).flushed 9 t = out7 d V t := by
    show (cfg7.win 9).cut (grid7.coords t) ((dat7 (Ix := HIx 8) (Name := ℕ) (U := UU) (Lvl := ℕ) d V iprop(emp) 0 Set.univ (fun _ => fullShare)).after 9 t) = _
    rw [after7_9]; rfl
  unfold tcRes3
  rw [← hemb]
  refine (congrFun (hblk.trans hfl) (ix2 (⟨r.val % 1024, Nat.mod_lt _ (by decide)⟩ : Fin 1024) o)).trans ?_
  unfold out7 callVal
  rw [iblk7_0_eq, iblk7_1_eq, iblk7_2_eq, iblk7_3_eq, iblk7_4_eq, iblk7_5_eq, iblk7_6_eq, iblk7_7_eq, iblk7_8_eq]
  rfl

end Arr3

end Cert.Proof.KI

end
-- ==== Proof.TcArr4.lean ====
/-
  The result array of call 9 read at an index: row r of the call's 4096 rows lies in block r / 1024, which the
  grid point of that number wrote back, and no other point's block meets it; so the array holds there what the
  body stored at that point, computed from block r / 1024 of the gathered rows, block 16 + r / 1024 of the
  per-point bias, and the seven small arrays whole.
-/
import proofs.«214101_g10505490006249_cont_week2b_118_28_alg».proof.Proof.TcRegion4
import proofs.«214101_g10505490006249_cont_week2b_118_28_alg».proof.Proof.KerBlock

set_option maxRecDepth 16384

noncomputable section

namespace Cert.Proof.KI

open Cert.KernelIdeal Cert.KernelIdeal.Gen Cert.Proof.Tc
open Idealize.ShloMosaic Idealize.ShloMosaic.TcCoe Idealize.ShloMosaic.ValueIdx
open Idealize.ShloMosaic.SparseCore.Cfg (HIx)
open Idealize.SL Idealize.SL.RA Idealize.SL.BI
open scoped Idealize.SL.BI
open Idealize.ShloMosaic.Pipeline (Dat)

section Arr4

variable (d : Dev nD) (V : (x : Ref sig .tc) → Buf (Elt Ideal) ((SparseCore.T (τ := τ) d).loc x))

/-- The printed index maps, decided over the four grid points: the result window and the gathered rows' window
    move one block per point, the bias window 16 blocks further on, the small arrays' windows stay. -/
theorem idx_facts_4 : ∀ t : Fin cfg9.N, win9_9.index t (0 : Fin 2) = t.val
    ∧ win9_9.index t (1 : Fin 2) = 0
    ∧ win9_0.index t (0 : Fin 2) = t.val
    ∧ win9_0.index t (1 : Fin 2) = 0
    ∧ win9_1.index t (0 : Fin 2) = 16 + t.val
    ∧ win9_1.index t (1 : Fin 2) = 0
    ∧ win9_2.index t (0 : Fin 2) = 0
    ∧ win9_2.index t (1 : Fin 2) = 0
    ∧ win9_3.index t (0 : Fin 2) = 0
    ∧ win9_3.index t (1 : Fin 2) = 0
    ∧ win9_4.index t (0 : Fin 2) = 0
    ∧ win9_4.index t (1 : Fin 2) = 0
    ∧ win9_5.index t (0 : Fin 2) = 0
    ∧ win9_5.index t (1 : Fin 2) = 0
    ∧ win9_6.index t (0 : Fin 2) = 0
    ∧ win9_6.index t (1 : Fin 2) = 0
    ∧ win9_7.index t (0 : Fin 2) = 0
    ∧ win9_7.index t (1 : Fin 2) = 0
    ∧ win9_8.index t (0 : Fin 2) = 0
    ∧ win9_8.index t (1 : Fin 2) = 0 :=
  (by decide +kernel : ∀ t : Fin grid9.N, _)

/-- Distinct points write distinct blocks of the result. -/
theorem idx_inj_4 : ∀ t t' : Fin cfg9.N, win9_9.index t = win9_9.index t' → t = t' :=
  (by decide +kernel : ∀ t t' : Fin grid9.N, win9_9.index t = win9_9.index t' → t = t')

theorem disjoint_4 : ∀ t t' : Fin cfg9.N, (cfg9.win 9).flush t = true → (cfg9.win 9).flush t' = true → t ≠ t' →
    Disjoint ((cfg9.win 9).blk t).view.set ((cfg9.win 9).blk t').view.set :=
  fun t t' _ _ hne => (cfg9.win 9).disjoint_blk fun h => hne (idx_inj_4 t t' h)

/-- The gathered rows' block at point `t` is block `t` of the call's gathered array. -/
theorem iblk9_0_eq (t : Fin cfg9.N) : iblk9 d V 0 t = gBlock (V main_v42) ⟨t.val, (N_9 ▸ t.isLt : t.val < 4)⟩ := by
  obtain ⟨e0, e1, e2, e3, e4, e5, e6, e7, e8, e9, e10, e11, e12, e13, e14, e15, e16, e17, e18, e19⟩ := idx_facts_4 t
  funext i
  show V main_v42 (((cfg9.win 0).blk t).view.emb i) = V main_v42 _
  refine congrArg (V main_v42) (funext fun a => Fin.ext ?_)
  match a with
  | ⟨0, _⟩ => show win9_0.index t (0 : Fin 2) * 16384 + 1 * (i 0).val = 16384 * t.val + (i 0).val; omega
  | ⟨1, _⟩ => show win9_0.index t (1 : Fin 2) * 128 + 1 * (i 1).val = (i 1).val; omega

/-- The bias window's block at point `t` is block 16 + `t` of the per-point bias. -/
theorem iblk9_1_eq (t : Fin cfg9.N) : iblk9 d V 1 t = hbBlock (V main_v24) 4 ⟨t.val, (N_9 ▸ t.isLt : t.val < 4)⟩ := by
  obtain ⟨e0, e1, e2, e3, e4, e5, e6, e7, e8, e9, e10, e11, e12, e13, e14, e15, e16, e17, e18, e19⟩ := idx_facts_4 t
  funext i
  show V main_v24 (((cfg9.win 1).blk t).view.emb i) = V main_v24 _
  refine congrArg (V main_v24) (funext fun a => Fin.ext ?_)
  match a with
  | ⟨0, _⟩ => show win9_1.index t (0 : Fin 2) * 1024 + 1 * (i 0).val = 1024 * (4 * ((4 : Fin 8) : ℕ) + t.val) + (i 0).val; omega
  | ⟨1, _⟩ => show win9_1.index t (1 : Fin 2) * 32 + 1 * (i 1).val = (i 1).val; omega

/-- Window 2's block is its whole array at every point. -/
theorem iblk9_2_eq (t : Fin cfg9.N) : iblk9 d V 2 t = V main_v14 := by
  obtain ⟨e0, e1, e2, e3, e4, e5, e6, e7, e8, e9, e10, e11, e12, e13, e14, e15, e16, e17, e18, e19⟩ := idx_facts_4 t
  funext i
  show V main_v14 (((cfg9.win 2).blk t).view.emb i) = V main_v14 i
  refine congrArg (V main_v14) (funext fun a => Fin.ext ?_)
  match a with
  | ⟨0, _⟩ => show win9_2.index t (0 : Fin 2) * 128 + 1 * (i 0).val = (i 0).val; omega
  | ⟨1, _⟩ => show win9_2.index t (1 : Fin 2) * 32 + 1 * (i 1).val = (i 1).val; omega

/-- Window 3's block is its whole array at every point. -/
theorem iblk9_3_eq (t : Fin cfg9.N) : iblk9 d V 3 t = V main_v25 := by
  obtain ⟨e0, e1, e2, e3, e4, e5, e6, e7, e8, e9, e10, e11, e12, e13, e14, e15, e16, e17, e18, e19⟩ := idx_facts_4 t
  funext i
  show V main_v25 (((cfg9.win 3).blk t).view.emb i) = V main_v25 i
  refine congrArg (V main_v25) (funext fun a => Fin.ext ?_)
  match a with
  | ⟨0, _⟩ => show win9_3.index t (0 : Fin 2) * 32 + 1 * (i 0).val = (i 0).val; omega
  | ⟨1, _⟩ => show win9_3.index t (1 : Fin 2) * 16 + 1 * (i 1).val = (i 1).val; omega

/-- Window 4's block is its whole array at every point. -/
theorem iblk9_4_eq (t : Fin cfg9.N) : iblk9 d V 4 t = V main_v26 := by
  obtain ⟨e0, e1, e2, e3, e4, e5, e6, e7, e8, e9, e10, e11, e12, e13, e14, e15, e16, e17, e18, e19⟩ := idx_facts_4 t
  funext i
  show V main_v26 (((cfg9.win 4).blk t).view.emb i) = V main_v26 i
  refine congrArg (V main_v26) (funext fun a => Fin.ext ?_)
  match a with
  | ⟨0, _⟩ => show win9_4.index t (0 : Fin 2) * 1 + 1 * (i 0).val = (i 0).val; omega
  | ⟨1, _⟩ => show win9_4.index t (1 : Fin 2) * 16 + 1 * (i 1).val = (i 1).val; omega

/-- Window 5's block is its whole array at every point. -/
theorem iblk9_5_eq (t : Fin cfg9.N) : iblk9 d V 5 t = V main_v27 := by
  obtain ⟨e0, e1, e2, e3, e4, e5, e6, e7, e8, e9, e10, e11, e12, e13, e14, e15, e16, e17, e18, e19⟩ := idx_facts_4 t
  funext i
  show V main_v27 (((cfg9.win 5).blk t).view.emb i) = V main_v27 i
  refine congrArg (V main_v27) (funext fun a => Fin.ext ?_)
  match a with
  | ⟨0, _⟩ => show win9_5.index t (0 : Fin 2) * 16 + 1 * (i 0).val = (i 0).val; omega
  | ⟨1, _⟩ => show win9_5.index t (1 : Fin 2) * 16 + 1 * (i 1).val = (i 1).val; omega

/-- Window 6's block is its whole array at every point. -/
theorem iblk9_6_eq (t : Fin cfg9.N) : iblk9 d V 6 t = V main_v28 := by
  obtain ⟨e0, e1, e2, e3, e4, e5, e6, e7, e8, e9, e10, e11, e12, e13, e14, e15, e16, e17, e18, e19⟩ := idx_facts_4 t
  funext i
  show V main_v28 (((cfg9.win 6).blk t).view.emb i) = V main_v28 i
  refine congrArg (V main_v28) (funext fun a => Fin.ext ?_)
  match a with
  | ⟨0, _⟩ => show win9_6.index t (0 : Fin 2) * 1 + 1 * (i 0).val = (i 0).val; omega
  | ⟨1, _⟩ => show win9_6.index t (1 : Fin 2) * 16 + 1 * (i 1).val = (i 1).val; omega

/-- Window 7's block is its whole array at every point. -/
theorem iblk9_7_eq (t : Fin cfg9.N) : iblk9 d V 7 t = V main_v32 := by
  obtain ⟨e0, e1, e2, e3, e4, e5, e6, e7, e8, e9, e10, e11, e12, e13, e14, e15, e16, e17, e18, e19⟩ := idx_facts_4 t
  funext i
  show V main_v32 (((cfg9.win 7).blk t).view.emb i) = V main_v32 i
  refine congrArg (V main_v32) (funext fun a => Fin.ext ?_)
  match a with
  | ⟨0, _⟩ => show win9_7.index t (0 : Fin 2) * 1024 + 1 * (i 0).val = (i 0).val; omega
  | ⟨1, _⟩ => show win9_7.index t (1 : Fin 2) * 64 + 1 * (i 1).val = (i 1).val; omega

/-- Window 8's block is its whole array at every point. -/
theorem iblk9_8_eq (t : Fin cfg9.N) : iblk9 d V 8 t = V main_v33 := by
  obtain ⟨e0, e1, e2, e3, e4, e5, e6, e7, e8, e9, e10, e11, e12, e13, e14, e15, e16, e17, e18, e19⟩ := idx_facts_4 t
  funext i
  show V main_v33 (((cfg9.win 8).blk t).view.emb i) = V main_v33 i
  refine congrArg (V main_v33) (funext fun a => Fin.ext ?_)
  match a with
  | ⟨0, _⟩ => show win9_8.index t (0 : Fin 2) * 1 + 1 * (i 0).val = (i 0).val; omega
  | ⟨1, _⟩ => show win9_8.index t (1 : Fin 2) * 64 + 1 * (i 1).val = (i 1).val; omega

/-- THE RESULT ARRAY AT AN INDEX. -/
theorem tcRes4_at (r : Fin 4096) (o : Fin 64) :
    tcRes4 d V (ix2 r o) = callVal 4 (V main_v42) (V main_v14) (V main_v24) (V main_v25) (V main_v26) (V main_v27) (V main_v28) (V main_v32) (V main_v33) r o := by
  have hr := r.isLt
  let t : Fin cfg9.N := ⟨r.val / 1024, by rw [show cfg9.N = 4 from N_9]; omega⟩
  obtain ⟨e0, e1, e2, e3, e4, e5, e6, e7, e8, e9, e10, e11, e12, e13, e14, e15, e16, e17, e18, e19⟩ := idx_facts_4 t
  have hblk := (dat9 (Ix := HIx 8) (Name := ℕ) (U := UU) (Lvl := ℕ) d V iprop(emp) 0 Set.univ (fun _ => fullShare)).read_blk_arrAt_eq_flushed 9 disjoint_4 cfg9.N t t.isLt (flush9_9 t)
  have hemb : ((cfg9.win 9).blk t).view.emb (ix2 (⟨r.val % 1024, Nat.mod_lt _ (by decide)⟩ : Fin 1024) o) = ix2 r o := by
    funext a; apply Fin.ext
    match a with
    | ⟨0, _⟩ => show win9_9.index t (0 : Fin 2) * 1024 + 1 * (r.val % 1024) = r.val; rw [e0]; show r.val / 1024 * 1024 + 1 * (r.val % 1024) = r.val; omega
    | ⟨1, _⟩ => show win9_9.index t (1 : Fin 2) * 64 + 1 * o.val = o.val; omega
  have hfl : (dat9 (Ix := HIx 8) (Name := ℕ) (U := UU) (Lvl := ℕ) d V iprop(emp) 0 Set.univ (fun _ => fullShare)).flushed 9 t = out9 d V t := by
    show (cfg9.win 9).cut (grid9.coords t) ((dat9 (Ix := HIx 8) (Name := ℕ) (U := UU) (Lvl := ℕ) d V iprop(emp) 0 Set.univ (fun _ => fullShare)).after 9 t) = _
    rw [after9_9]; rfl
  unfold tcRes4
  rw [← hemb]
  refine (congrFun (hblk.trans hfl) (ix2 (⟨r.val % 1024, Nat.mod_lt _ (by decide)⟩ : Fin 1024) o)).trans ?_
  unfold out9 callVal
  rw [iblk9_0_eq, iblk9_1_eq, iblk9_2_eq, iblk9_3_eq, iblk9_4_eq, iblk9_5_eq, iblk9_6_eq, iblk9_7_eq, iblk9_8_eq]
  rfl

end Arr4

end Cert.Proof.KI

end
-- ==== Proof.TcArr5.lean ====
/-
  The result array of call 11 read at an index: row r of the call's 4096 rows lies in block r / 1024, which the
  grid point of that number wrote back, and no other point's block meets it; so the array holds there what the
  body stored at that point, computed from block r / 1024 of the gathered rows, block 20 + r / 1024 of the
  per-point bias, and the seven small arrays whole.
-/
import proofs.«214101_g10505490006249_cont_week2b_118_28_alg».proof.Proof.TcRegion5
import proofs.«214101_g10505490006249_cont_week2b_118_28_alg».proof.Proof.KerBlock

set_option maxRecDepth 16384

noncomputable section

namespace Cert.Proof.KI

open Cert.KernelIdeal Cert.KernelIdeal.Gen Cert.Proof.Tc
open Idealize.ShloMosaic Idealize.ShloMosaic.TcCoe Idealize.ShloMosaic.ValueIdx
open Idealize.ShloMosaic.SparseCore.Cfg (HIx)
open Idealize.SL Idealize.SL.RA Idealize.SL.BI
open scoped Idealize.SL.BI
open Idealize.ShloMosaic.Pipeline (Dat)

section Arr5

variable (d : Dev nD) (V : (x : Ref sig .tc) → Buf (Elt Ideal) ((SparseCore.T (τ := τ) d).loc x))

/-- The printed index maps, decided over the four grid points: the result window and the gathered rows' window
    move one block per point, the bias window 20 blocks further on, the small arrays' windows stay. -/
theorem idx_facts_5 : ∀ t : Fin cfg11.N, win11_9.index t (0 : Fin 2) = t.val
    ∧ win11_9.index t (1 : Fin 2) = 0
    ∧ win11_0.index t (0 : Fin 2) = t.val
    ∧ win11_0.index t (1 : Fin 2) = 0
    ∧ win11_1.index t (0 : Fin 2) = 20 + t.val
    ∧ win11_1.index t (1 : Fin 2) = 0
    ∧ win11_2.index t (0 : Fin 2) = 0
    ∧ win11_2.index t (1 : Fin 2) = 0
    ∧ win11_3.index t (0 : Fin 2) = 0
    ∧ win11_3.index t (1 : Fin 2) = 0
    ∧ win11_4.index t (0 : Fin 2) = 0
    ∧ win11_4.index t (1 : Fin 2) = 0
    ∧ win11_5.index t (0 : Fin 2) = 0
    ∧ win11_5.index t (1 : Fin 2) = 0
    ∧ win11_6.index t (0 : Fin 2) = 0
    ∧ win11_6.index t (1 : Fin 2) = 0
    ∧ win11_7.index t (0 : Fin 2) = 0
    ∧ win11_7.index t (1 : Fin 2) = 0
    ∧ win11_8.index t (0 : Fin 2) = 0
    ∧ win11_8.index t (1 : Fin 2) = 0 :=
  (by decide +kernel : ∀ t : Fin grid11.N, _)

/-- Distinct points write distinct blocks of the result. -/
theorem idx_inj_5 : ∀ t t' : Fin cfg11.N, win11_9.index t = win11_9.index t' → t = t' :=
  (by decide +kernel : ∀ t t' : Fin grid11.N, win11_9.index t = win11_9.index t' → t = t')

theorem disjoint_5 : ∀ t t' : Fin cfg11.N, (cfg11.win 9).flush t = true → (cfg11.win 9).flush t' = true → t ≠ t' →
    Disjoint ((cfg11.win 9).blk t).view.set ((cfg11.win 9).blk t').view.set :=
  fun t t' _ _ hne => (cfg11.win 9).disjoint_blk fun h => hne (idx_inj_5 t t' h)

/-- The gathered rows' block at point `t` is block `t` of the call's gathered array. -/
theorem iblk11_0_eq (t : Fin cfg11.N) : iblk11 d V 0 t = gBlock (V main_v44) ⟨t.val, (N_11 ▸ t.isLt : t.val < 4)⟩ := by
  obtain ⟨e0, e1, e2, e3, e4, e5, e6, e7, e8, e9, e10, e11, e12, e13, e14, e15, e16, e17, e18, e19⟩ := idx_facts_5 t
  funext i
  show V main_v44 (((cfg11.win 0).blk t).view.emb i) = V main_v44 _
  refine congrArg (V main_v44) (funext fun a => Fin.ext ?_)
  match a with
  | ⟨0, _⟩ => show win11_0.index t (0 : Fin 2) * 16384 + 1 * (i 0).val = 16384 * t.val + (i 0).val; omega
  | ⟨1, _⟩ => show win11_0.index t (1 : Fin 2) * 128 + 1 * (i 1).val = (i 1).val; omega

/-- The bias window's block at point `t` is block 20 + `t` of the per-point bias. -/
theorem iblk11_1_eq (t : Fin cfg11.N) : iblk11 d V 1 t = hbBlock (V main_v24) 5 ⟨t.val, (N_11 ▸ t.isLt : t.val < 4)⟩ := by
  obtain ⟨e0, e1, e2, e3, e4, e5, e6, e7, e8, e9, e10, e11, e12, e13, e14, e15, e16, e17, e18, e19⟩ := idx_facts_5 t
  funext i
  show V main_v24 (((cfg11.win 1).blk t).view.emb i) = V main_v24 _
  refine congrArg (V main_v24) (funext fun a => Fin.ext ?_)
  match a with
  | ⟨0, _⟩ => show win11_1.index t (0 : Fin 2) * 1024 + 1 * (i 0).val = 1024 * (4 * ((5 : Fin 8) : ℕ) + t.val) + (i 0).val; omega
  | ⟨1, _⟩ => show win11_1.index t (1 : Fin 2) * 32 + 1 * (i 1).val = (i 1).val; omega

/-- Window 2's block is its whole array at every point. -/
theorem iblk11_2_eq (t : Fin cfg11.N) : iblk11 d V 2 t = V main_v14 := by
  obtain ⟨e0, e1, e2, e3, e4, e5, e6, e7, e8, e9, e10, e11, e12, e13, e14, e15, e16, e17, e18, e19⟩ := idx_facts_5 t
  funext i
  show V main_v14 (((cfg11.win 2).blk t).view.emb i) = V main_v14 i
  refine congrArg (V main_v14) (funext fun a => Fin.ext ?_)
  match a with
  | ⟨0, _⟩ => show win11_2.index t (0 : Fin 2) * 128 + 1 * (i 0).val = (i 0).val; omega
  | ⟨1, _⟩ => show win11_2.index t (1 : Fin 2) * 32 + 1 * (i 1).val = (i 1).val; omega

/-- Window 3's block is its whole array at every point. -/
theorem iblk11_3_eq (t : Fin cfg11.N) : iblk11 d V 3 t = V main_v25 := by
  obtain ⟨e0, e1, e2, e3, e4, e5, e6, e7, e8, e9, e10, e11, e12, e13, e14, e15, e16, e17, e18, e19⟩ := idx_facts_5 t
  funext i
  show V main_v25 (((cfg11.win 3).blk t).view.emb i) = V main_v25 i
  refine congrArg (V main_v25) (funext fun a => Fin.ext ?_)
  match a with
  | ⟨0, _⟩ => show win11_3.index t (0 : Fin 2) * 32 + 1 * (i 0).val = (i 0).val; omega
  | ⟨1, _⟩ => show win11_3.index t (1 : Fin 2) * 16 + 1 * (i 1).val = (i 1).val; omega

/-- Window 4's block is its whole array at every point. -/
theorem iblk11_4_eq (t : Fin cfg11.N) : iblk11 d V 4 t = V main_v26 := by
  obtain ⟨e0, e1, e2, e3, e4, e5, e6, e7, e8, e9, e10, e11, e12, e13, e14, e15, e16, e17, e18, e19⟩ := idx_facts_5 t
  funext i
  show V main_v26 (((cfg11.win 4).blk t).view.emb i) = V main_v26 i
  refine congrArg (V main_v26) (funext fun a => Fin.ext ?_)
  match a with
  | ⟨0, _⟩ => show win11_4.index t (0 : Fin 2) * 1 + 1 * (i 0).val = (i 0).val; omega
  | ⟨1, _⟩ => show win11_4.index t (1 : Fin 2) * 16 + 1 * (i 1).val = (i 1).val; omega

/-- Window 5's block is its whole array at every point. -/
theorem iblk11_5_eq (t : Fin cfg11.N) : iblk11 d V 5 t = V main_v27 := by
  obtain ⟨e0, e1, e2, e3, e4, e5, e6, e7, e8, e9, e10, e11, e12, e13, e14, e15, e16, e17, e18, e19⟩ := idx_facts_5 t
  funext i
  show V main_v27 (((cfg11.win 5).blk t).view.emb i) = V main_v27 i
  refine congrArg (V main_v27) (funext fun a => Fin.ext ?_)
  match a with
  | ⟨0, _⟩ => show win11_5.index t (0 : Fin 2) * 16 + 1 * (i 0).val = (i 0).val; omega
  | ⟨1, _⟩ => show win11_5.index t (1 : Fin 2) * 16 + 1 * (i 1).val = (i 1).val; omega

/-- Window 6's block is its whole array at every point. -/
theorem iblk11_6_eq (t : Fin cfg11.N) : iblk11 d V 6 t = V main_v28 := by
  obtain ⟨e0, e1, e2, e3, e4, e5, e6, e7, e8, e9, e10, e11, e12, e13, e14, e15, e16, e17, e18, e19⟩ := idx_facts_5 t
  funext i
  show V main_v28 (((cfg11.win 6).blk t).view.emb i) = V main_v28 i
  refine congrArg (V main_v28) (funext fun a => Fin.ext ?_)
  match a with
  | ⟨0, _⟩ => show win11_6.index t (0 : Fin 2) * 1 + 1 * (i 0).val = (i 0).val; omega
  | ⟨1, _⟩ => show win11_6.index t (1 : Fin 2) * 16 + 1 * (i 1).val = (i 1).val; omega

/-- Window 7's block is its whole array at every point. -/
theorem iblk11_7_eq (t : Fin cfg11.N) : iblk11 d V 7 t = V main_v32 := by
  obtain ⟨e0, e1, e2, e3, e4, e5, e6, e7, e8, e9, e10, e11, e12, e13, e14, e15, e16, e17, e18, e19⟩ := idx_facts_5 t
  funext i
  show V main_v32 (((cfg11.win 7).blk t).view.emb i) = V main_v32 i
  refine congrArg (V main_v32) (funext fun a => Fin.ext ?_)
  match a with
  | ⟨0, _⟩ => show win11_7.index t (0 : Fin 2) * 1024 + 1 * (i 0).val = (i 0).val; omega
  | ⟨1, _⟩ => show win11_7.index t (1 : Fin 2) * 64 + 1 * (i 1).val = (i 1).val; omega

/-- Window 8's block is its whole array at every point. -/
theorem iblk11_8_eq (t : Fin cfg11.N) : iblk11 d V 8 t = V main_v33 := by
  obtain ⟨e0, e1, e2, e3, e4, e5, e6, e7, e8, e9, e10, e11, e12, e13, e14, e15, e16, e17, e18, e19⟩ := idx_facts_5 t
  funext i
  show V main_v33 (((cfg11.win 8).blk t).view.emb i) = V main_v33 i
  refine congrArg (V main_v33) (funext fun a => Fin.ext ?_)
  match a with
  | ⟨0, _⟩ => show win11_8.index t (0 : Fin 2) * 1 + 1 * (i 0).val = (i 0).val; omega
  | ⟨1, _⟩ => show win11_8.index t (1 : Fin 2) * 64 + 1 * (i 1).val = (i 1).val; omega

/-- THE RESULT ARRAY AT AN INDEX. -/
theorem tcRes5_at (r : Fin 4096) (o : Fin 64) :
    tcRes5 d V (ix2 r o) = callVal 5 (V main_v44) (V main_v14) (V main_v24) (V main_v25) (V main_v26) (V main_v27) (V main_v28) (V main_v32) (V main_v33) r o := by
  have hr := r.isLt
  let t : Fin cfg11.N := ⟨r.val / 1024, by rw [show cfg11.N = 4 from N_11]; omega⟩
  obtain ⟨e0, e1, e2, e3, e4, e5, e6, e7, e8, e9, e10, e11, e12, e13, e14, e15, e16, e17, e18, e19⟩ := idx_facts_5 t
  have hblk := (dat11 (Ix := HIx 8) (Name := ℕ) (U := UU) (Lvl := ℕ) d V iprop(emp) 0 Set.univ (fun _ => fullShare)).read_blk_arrAt_eq_flushed 9 disjoint_5 cfg11.N t t.isLt (flush11_9 t)
  have hemb : ((cfg11.win 9).blk t).view.emb (ix2 (⟨r.val % 1024, Nat.mod_lt _ (by decide)⟩ : Fin 1024) o) = ix2 r o := by
    funext a; apply Fin.ext
    match a with
    | ⟨0, _⟩ => show win11_9.index t (0 : Fin 2) * 1024 + 1 * (r.val % 1024) = r.val; rw [e0]; show r.val / 1024 * 1024 + 1 * (r.val % 1024) = r.val; omega
    | ⟨1, _⟩ => show win11_9.index t (1 : Fin 2) * 64 + 1 * o.val = o.val; omega
  have hfl : (dat11 (Ix := HIx 8) (Name := ℕ) (U := UU) (Lvl := ℕ) d V iprop(emp) 0 Set.univ (fun _ => fullShare)).flushed 9 t = out11 d V t := by
    show (cfg11.win 9).cut (grid11.coords t) ((dat11 (Ix := HIx 8) (Name := ℕ) (U := UU) (Lvl := ℕ) d V iprop(emp) 0 Set.univ (fun _ => fullShare)).after 9 t) = _
    rw [after11_9]; rfl
  unfold tcRes5
  rw [← hemb]
  refine (congrFun (hblk.trans hfl) (ix2 (⟨r.val % 1024, Nat.mod_lt _ (by decide)⟩ : Fin 1024) o)).trans ?_
  unfold out11 callVal
  rw [iblk11_0_eq, iblk11_1_eq, iblk11_2_eq, iblk11_3_eq, iblk11_4_eq, iblk11_5_eq, iblk11_6_eq, iblk11_7_eq, iblk11_8_eq]
  rfl

end Arr5

end Cert.Proof.KI

end
-- ==== Proof.TcArr6.lean ====
/-
  The result array of call 13 read at an index: row r of the call's 4096 rows lies in block r / 1024, which the
  grid point of that number wrote back, and no other point's block meets it; so the array holds there what the
  body stored at that point, computed from block r / 1024 of the gathered rows, block 24 + r / 1024 of the
  per-point bias, and the seven small arrays whole.
-/
import proofs.«214101_g10505490006249_cont_week2b_118_28_alg».proof.Proof.TcRegion6
import proofs.«214101_g10505490006249_cont_week2b_118_28_alg».proof.Proof.KerBlock

set_option maxRecDepth 16384

noncomputable section

namespace Cert.Proof.KI

open Cert.KernelIdeal Cert.KernelIdeal.Gen Cert.Proof.Tc
open Idealize.ShloMosaic Idealize.ShloMosaic.TcCoe Idealize.ShloMosaic.ValueIdx
open Idealize.ShloMosaic.SparseCore.Cfg (HIx)
open Idealize.SL Idealize.SL.RA Idealize.SL.BI
open scoped Idealize.SL.BI
open Idealize.ShloMosaic.Pipeline (Dat)

section Arr6

variable (d : Dev nD) (V : (x : Ref sig .tc) → Buf (Elt Ideal) ((SparseCore.T (τ := τ) d).loc x))

/-- The printed index maps, decided over the four grid points: the result window and the gathered rows' window
    move one block per point, the bias window 24 blocks further on, the small arrays' windows stay. -/
theorem idx_facts_6 : ∀ t : Fin cfg13.N, win13_9.index t (0 : Fin 2) = t.val
    ∧ win13_9.index t (1 : Fin 2) = 0
    ∧ win13_0.index t (0 : Fin 2) = t.val
    ∧ win13_0.index t (1 : Fin 2) = 0
    ∧ win13_1.index t (0 : Fin 2) = 24 + t.val
    ∧ win13_1.index t (1 : Fin 2) = 0
    ∧ win13_2.index t (0 : Fin 2) = 0
    ∧ win13_2.index t (1 : Fin 2) = 0
    ∧ win13_3.index t (0 : Fin 2) = 0
    ∧ win13_3.index t (1 : Fin 2) = 0
    ∧ win13_4.index t (0 : Fin 2) = 0
    ∧ win13_4.index t (1 : Fin 2) = 0
    ∧ win13_5.index t (0 : Fin 2) = 0
    ∧ win13_5.index t (1 : Fin 2) = 0
    ∧ win13_6.index t (0 : Fin 2) = 0
    ∧ win13_6.index t (1 : Fin 2) = 0
    ∧ win13_7.index t (0 : Fin 2) = 0
    ∧ win13_7.index t (1 : Fin 2) = 0
    ∧ win13_8.index t (0 : Fin 2) = 0
    ∧ win13_8.index t (1 : Fin 2) = 0 :=
  (by decide +kernel : ∀ t : Fin grid13.N, _)

/-- Distinct points write distinct blocks of the result. -/
theorem idx_inj_6 : ∀ t t' : Fin cfg13.N, win13_9.index t = win13_9.index t' → t = t' :=
  (by decide +kernel : ∀ t t' : Fin grid13.N, win13_9.index t = win13_9.index t' → t = t')

theorem disjoint_6 : ∀ t t' : Fin cfg13.N, (cfg13.win 9).flush t = true → (cfg13.win 9).flush t' = true → t ≠ t' →
    Disjoint ((cfg13.win 9).blk t).view.set ((cfg13.win 9).blk t').view.set :=
  fun t t' _ _ hne => (cfg13.win 9).disjoint_blk fun h => hne (idx_inj_6 t t' h)

/-- The gathered rows' block at point `t` is block `t` of the call's gathered array. -/
theorem iblk13_0_eq (t : Fin cfg13.N) : iblk13 d V 0 t = gBlock (V main_v46) ⟨t.val, (N_13 ▸ t.isLt : t.val < 4)⟩ := by
  obtain ⟨e0, e1, e2, e3, e4, e5, e6, e7, e8, e9, e10, e11, e12, e13, e14, e15, e16, e17, e18, e19⟩ := idx_facts_6 t
  funext i
  show V main_v46 (((cfg13.win 0).blk t).view.emb i) = V main_v46 _
  refine congrArg (V main_v46) (funext fun a => Fin.ext ?_)
  match a with
  | ⟨0, _⟩ => show win13_0.index t (0 : Fin 2) * 16384 + 1 * (i 0).val = 16384 * t.val + (i 0).val; omega
  | ⟨1, _⟩ => show win13_0.index t (1 : Fin 2) * 128 + 1 * (i 1).val = (i 1).val; omega

/-- The bias window's block at point `t` is block 24 + `t` of the per-point bias. -/
theorem iblk13_1_eq (t : Fin cfg13.N) : iblk13 d V 1 t = hbBlock (V main_v24) 6 ⟨t.val, (N_13 ▸ t.isLt : t.val < 4)⟩ := by
  obtain ⟨e0, e1, e2, e3, e4, e5, e6, e7, e8, e9, e10, e11, e12, e13, e14, e15, e16, e17, e18, e19⟩ := idx_facts_6 t
  funext i
  show V main_v24 (((cfg13.win 1).blk t).view.emb i) = V main_v24 _
  refine congrArg (V main_v24) (funext fun a => Fin.ext ?_)
  match a with
  | ⟨0, _⟩ => show win13_1.index t (0 : Fin 2) * 1024 + 1 * (i 0).val = 1024 * (4 * ((6 : Fin 8) : ℕ) + t.val) + (i 0).val; omega
  | ⟨1, _⟩ => show win13_1.index t (1 : Fin 2) * 32 + 1 * (i 1).val = (i 1).val; omega

/-- Window 2's block is its whole array at every point. -/
theorem iblk13_2_eq (t : Fin cfg13.N) : iblk13 d V 2 t = V main_v14 := by
  obtain ⟨e0, e1, e2, e3, e4, e5, e6, e7, e8, e9, e10, e11, e12, e13, e14, e15, e16, e17, e18, e19⟩ := idx_facts_6 t
  funext i
  show V main_v14 (((cfg13.win 2).blk t).view.emb i) = V main_v14 i
  refine congrArg (V main_v14) (funext fun a => Fin.ext ?_)
  match a with
  | ⟨0, _⟩ => show win13_2.index t (0 : Fin 2) * 128 + 1 * (i 0).val = (i 0).val; omega
  | ⟨1, _⟩ => show win13_2.index t (1 : Fin 2) * 32 + 1 * (i 1).val = (i 1).val; omega

/-- Window 3's block is its whole array at every point. -/
theorem iblk13_3_eq (t : Fin cfg13.N) : iblk13 d V 3 t = V main_v25 := by
  obtain ⟨e0, e1, e2, e3, e4, e5, e6, e7, e8, e9, e10, e11, e12, e13, e14, e15, e16, e17, e18, e19⟩ := idx_facts_6 t
  funext i
  show V main_v25 (((cfg13.win 3).blk t).view.emb i) = V main_v25 i
  refine congrArg (V main_v25) (funext fun a => Fin.ext ?_)
  match a with
  | ⟨0, _⟩ => show win13_3.index t (0 : Fin 2) * 32 + 1 * (i 0).val = (i 0).val; omega
  | ⟨1, _⟩ => show win13_3.index t (1 : Fin 2) * 16 + 1 * (i 1).val = (i 1).val; omega

/-- Window 4's block is its whole array at every point. -/
theorem iblk13_4_eq (t : Fin cfg13.N) : iblk13 d V 4 t = V main_v26 := by
  obtain ⟨e0, e1, e2, e3, e4, e5, e6, e7, e8, e9, e10, e11, e12, e13, e14, e15, e16, e17, e18, e19⟩ := idx_facts_6 t
  funext i
  show V main_v26 (((cfg13.win 4).blk t).view.emb i) = V main_v26 i
  refine congrArg (V main_v26) (funext fun a => Fin.ext ?_)
  match a with
  | ⟨0, _⟩ => show win13_4.index t (0 : Fin 2) * 1 + 1 * (i 0).val = (i 0).val; omega
  | ⟨1, _⟩ => show win13_4.index t (1 : Fin 2) * 16 + 1 * (i 1).val = (i 1).val; omega

/-- Window 5's block is its whole array at every point. -/
theorem iblk13_5_eq (t : Fin cfg13.N) : iblk13 d V 5 t = V main_v27 := by
  obtain ⟨e0, e1, e2, e3, e4, e5, e6, e7, e8, e9, e10, e11, e12, e13, e14, e15, e16, e17, e18, e19⟩ := idx_facts_6 t
  funext i
  show V main_v27 (((cfg13.win 5).blk t).view.emb i) = V main_v27 i
  refine congrArg (V main_v27) (funext fun a => Fin.ext ?_)
  match a with
  | ⟨0, _⟩ => show win13_5.index t (0 : Fin 2) * 16 + 1 * (i 0).val = (i 0).val; omega
  | ⟨1, _⟩ => show win13_5.index t (1 : Fin 2) * 16 + 1 * (i 1).val = (i 1).val; omega

/-- Window 6's block is its whole array at every point. -/
theorem iblk13_6_eq (t : Fin cfg13.N) : iblk13 d V 6 t = V main_v28 := by
  obtain ⟨e0, e1, e2, e3, e4, e5, e6, e7, e8, e9, e10, e11, e12, e13, e14, e15, e16, e17, e18, e19⟩ := idx_facts_6 t
  funext i
  show V main_v28 (((cfg13.win 6).blk t).view.emb i) = V main_v28 i
  refine congrArg (V main_v28) (funext fun a => Fin.ext ?_)
  match a with
  | ⟨0, _⟩ => show win13_6.index t (0 : Fin 2) * 1 + 1 * (i 0).val = (i 0).val; omega
  | ⟨1, _⟩ => show win13_6.index t (1 : Fin 2) * 16 + 1 * (i 1).val = (i 1).val; omega

/-- Window 7's block is its whole array at every point. -/
theorem iblk13_7_eq (t : Fin cfg13.N) : iblk13 d V 7 t = V main_v32 := by
  obtain ⟨e0, e1, e2, e3, e4, e5, e6, e7, e8, e9, e10, e11, e12, e13, e14, e15, e16, e17, e18, e19⟩ := idx_facts_6 t
  funext i
  show V main_v32 (((cfg13.win 7).blk t).view.emb i) = V main_v32 i
  refine congrArg (V main_v32) (funext fun a => Fin.ext ?_)
  match a with
  | ⟨0, _⟩ => show win13_7.index t (0 : Fin 2) * 1024 + 1 * (i 0).val = (i 0).val; omega
  | ⟨1, _⟩ => show win13_7.index t (1 : Fin 2) * 64 + 1 * (i 1).val = (i 1).val; omega

/-- Window 8's block is its whole array at every point. -/
theorem iblk13_8_eq (t : Fin cfg13.N) : iblk13 d V 8 t = V main_v33 := by
  obtain ⟨e0, e1, e2, e3, e4, e5, e6, e7, e8, e9, e10, e11, e12, e13, e14, e15, e16, e17, e18, e19⟩ := idx_facts_6 t
  funext i
  show V main_v33 (((cfg13.win 8).blk t).view.emb i) = V main_v33 i
  refine congrArg (V main_v33) (funext fun a => Fin.ext ?_)
  match a with
  | ⟨0, _⟩ => show win13_8.index t (0 : Fin 2) * 1 + 1 * (i 0).val = (i 0).val; omega
  | ⟨1, _⟩ => show win13_8.index t (1 : Fin 2) * 64 + 1 * (i 1).val = (i 1).val; omega

/-- THE RESULT ARRAY AT AN INDEX. -/
theorem tcRes6_at (r : Fin 4096) (o : Fin 64) :
    tcRes6 d V (ix2 r o) = callVal 6 (V main_v46) (V main_v14) (V main_v24) (V main_v25) (V main_v26) (V main_v27) (V main_v28) (V main_v32) (V main_v33) r o := by
  have hr := r.isLt
  let t : Fin cfg13.N := ⟨r.val / 1024, by rw [show cfg13.N = 4 from N_13]; omega⟩
  obtain ⟨e0, e1, e2, e3, e4, e5, e6, e7, e8, e9, e10, e11, e12, e13, e14, e15, e16, e17, e18, e19⟩ := idx_facts_6 t
  have hblk := (dat13 (Ix := HIx 8) (Name := ℕ) (U := UU) (Lvl := ℕ) d V iprop(emp) 0 Set.univ (fun _ => fullShare)).read_blk_arrAt_eq_flushed 9 disjoint_6 cfg13.N t t.isLt (flush13_9 t)
  have hemb : ((cfg13.win 9).blk t).view.emb (ix2 (⟨r.val % 1024, Nat.mod_lt _ (by decide)⟩ : Fin 1024) o) = ix2 r o := by
    funext a; apply Fin.ext
    match a with
    | ⟨0, _⟩ => show win13_9.index t (0 : Fin 2) * 1024 + 1 * (r.val % 1024) = r.val; rw [e0]; show r.val / 1024 * 1024 + 1 * (r.val % 1024) = r.val; omega
    | ⟨1, _⟩ => show win13_9.index t (1 : Fin 2) * 64 + 1 * o.val = o.val; omega
  have hfl : (dat13 (Ix := HIx 8) (Name := ℕ) (U := UU) (Lvl := ℕ) d V iprop(emp) 0 Set.univ (fun _ => fullShare)).flushed 9 t = out13 d V t := by
    show (cfg13.win 9).cut (grid13.coords t) ((dat13 (Ix := HIx 8) (Name := ℕ) (U := UU) (Lvl := ℕ) d V iprop(emp) 0 Set.univ (fun _ => fullShare)).after 9 t) = _
    rw [after13_9]; rfl
  unfold tcRes6
  rw [← hemb]
  refine (congrFun (hblk.trans hfl) (ix2 (⟨r.val % 1024, Nat.mod_lt _ (by decide)⟩ : Fin 1024) o)).trans ?_
  unfold out13 callVal
  rw [iblk13_0_eq, iblk13_1_eq, iblk13_2_eq, iblk13_3_eq, iblk13_4_eq, iblk13_5_eq, iblk13_6_eq, iblk13_7_eq, iblk13_8_eq]
  rfl

end Arr6

end Cert.Proof.KI

end
-- ==== Proof.TcArr7.lean ====
/-
  The result array of call 15 read at an index: row r of the call's 4096 rows lies in block r / 1024, which the
  grid point of that number wrote back, and no other point's block meets it; so the array holds there what the
  body stored at that point, computed from block r / 1024 of the gathered rows, block 28 + r / 1024 of the
  per-point bias, and the seven small arrays whole.
-/
import proofs.«214101_g10505490006249_cont_week2b_118_28_alg».proof.Proof.TcRegion7
import proofs.«214101_g10505490006249_cont_week2b_118_28_alg».proof.Proof.KerBlock

set_option maxRecDepth 16384

noncomputable section

namespace Cert.Proof.KI

open Cert.KernelIdeal Cert.KernelIdeal.Gen Cert.Proof.Tc
open Idealize.ShloMosaic Idealize.ShloMosaic.TcCoe Idealize.ShloMosaic.ValueIdx
open Idealize.ShloMosaic.SparseCore.Cfg (HIx)
open Idealize.SL Idealize.SL.RA Idealize.SL.BI
open scoped Idealize.SL.BI
open Idealize.ShloMosaic.Pipeline (Dat)

section Arr7

variable (d : Dev nD) (V : (x : Ref sig .tc) → Buf (Elt Ideal) ((SparseCore.T (τ := τ) d).loc x))

/-- The printed index maps, decided over the four grid points: the result window and the gathered rows' window
    move one block per point, the bias window 28 blocks further on, the small arrays' windows stay. -/
theorem idx_facts_7 : ∀ t : Fin cfg15.N, win15_9.index t (0 : Fin 2) = t.val
    ∧ win15_9.index t (1 : Fin 2) = 0
    ∧ win15_0.index t (0 : Fin 2) = t.val
    ∧ win15_0.index t (1 : Fin 2) = 0
    ∧ win15_1.index t (0 : Fin 2) = 28 + t.val
    ∧ win15_1.index t (1 : Fin 2) = 0
    ∧ win15_2.index t (0 : Fin 2) = 0
    ∧ win15_2.index t (1 : Fin 2) = 0
    ∧ win15_3.index t (0 : Fin 2) = 0
    ∧ win15_3.index t (1 : Fin 2) = 0
    ∧ win15_4.index t (0 : Fin 2) = 0
    ∧ win15_4.index t (1 : Fin 2) = 0
    ∧ win15_5.index t (0 : Fin 2) = 0
    ∧ win15_5.index t (1 : Fin 2) = 0
    ∧ win15_6.index t (0 : Fin 2) = 0
    ∧ win15_6.index t (1 : Fin 2) = 0
    ∧ win15_7.index t (0 : Fin 2) = 0
    ∧ win15_7.index t (1 : Fin 2) = 0
    ∧ win15_8.index t (0 : Fin 2) = 0
    ∧ win15_8.index t (1 : Fin 2) = 0 :=
  (by decide +kernel : ∀ t : Fin grid15.N, _)

/-- Distinct points write distinct blocks of the result. -/
theorem idx_inj_7 : ∀ t t' : Fin cfg15.N, win15_9.index t = win15_9.index t' → t = t' :=
  (by decide +kernel : ∀ t t' : Fin grid15.N, win15_9.index t = win15_9.index t' → t = t')

theorem disjoint_7 : ∀ t t' : Fin cfg15.N, (cfg15.win 9).flush t = true → (cfg15.win 9).flush t' = true → t ≠ t' →
    Disjoint ((cfg15.win 9).blk t).view.set ((cfg15.win 9).blk t').view.set :=
  fun t t' _ _ hne => (cfg15.win 9).disjoint_blk fun h => hne (idx_inj_7 t t' h)

/-- The gathered rows' block at point `t` is block `t` of the call's gathered array. -/
theorem iblk15_0_eq (t : Fin cfg15.N) : iblk15 d V 0 t = gBlock (V main_v48) ⟨t.val, (N_15 ▸ t.isLt : t.val < 4)⟩ := by
  obtain ⟨e0, e1, e2, e3, e4, e5, e6, e7, e8, e9, e10, e11, e12, e13, e14, e15, e16, e17, e18, e19⟩ := idx_facts_7 t
  funext i
  show V main_v48 (((cfg15.win 0).blk t).view.emb i) = V main_v48 _
  refine congrArg (V main_v48) (funext fun a => Fin.ext ?_)
  match a with
  | ⟨0, _⟩ => show win15_0.index t (0 : Fin 2) * 16384 + 1 * (i 0).val = 16384 * t.val + (i 0).val; omega
  | ⟨1, _⟩ => show win15_0.index t (1 : Fin 2) * 128 + 1 * (i 1).val = (i 1).val; omega

/-- The bias window's block at point `t` is block 28 + `t` of the per-point bias. -/
theorem iblk15_1_eq (t : Fin cfg15.N) : iblk15 d V 1 t = hbBlock (V main_v24) 7 ⟨t.val, (N_15 ▸ t.isLt : t.val < 4)⟩ := by
  obtain ⟨e0, e1, e2, e3, e4, e5, e6, e7, e8, e9, e10, e11, e12, e13, e14, e15, e16, e17, e18, e19⟩ := idx_facts_7 t
  funext i
  show V main_v24 (((cfg15.win 1).blk t).view.emb i) = V main_v24 _
  refine congrArg (V main_v24) (funext fun a => Fin.ext ?_)
  match a with
  | ⟨0, _⟩ => show win15_1.index t (0 : Fin 2) * 1024 + 1 * (i 0).val = 1024 * (4 * ((7 : Fin 8) : ℕ) + t.val) + (i 0).val; omega
  | ⟨1, _⟩ => show win15_1.index t (1 : Fin 2) * 32 + 1 * (i 1).val = (i 1).val; omega

/-- Window 2's block is its whole array at every point. -/
theorem iblk15_2_eq (t : Fin cfg15.N) : iblk15 d V 2 t = V main_v14 := by
  obtain ⟨e0, e1, e2, e3, e4, e5, e6, e7, e8, e9, e10, e11, e12, e13, e14, e15, e16, e17, e18, e19⟩ := idx_facts_7 t
  funext i
  show V main_v14 (((cfg15.win 2).blk t).view.emb i) = V main_v14 i
  refine congrArg (V main_v14) (funext fun a => Fin.ext ?_)
  match a with
  | ⟨0, _⟩ => show win15_2.index t (0 : Fin 2) * 128 + 1 * (i 0).val = (i 0).val; omega
  | ⟨1, _⟩ => show win15_2.index t (1 : Fin 2) * 32 + 1 * (i 1).val = (i 1).val; omega

/-- Window 3's block is its whole array at every point. -/
theorem iblk15_3_eq (t : Fin cfg15.N) : iblk15 d V 3 t = V main_v25 := by
  obtain ⟨e0, e1, e2, e3, e4, e5, e6, e7, e8, e9, e10, e11, e12, e13, e14, e15, e16, e17, e18, e19⟩ := idx_facts_7 t
  funext i
  show V main_v25 (((cfg15.win 3).blk t).view.emb i) = V main_v25 i
  refine congrArg (V main_v25) (funext fun a => Fin.ext ?_)
  match a with
  | ⟨0, _⟩ => show win15_3.index t (0 : Fin 2) * 32 + 1 * (i 0).val = (i 0).val; omega
  | ⟨1, _⟩ => show win15_3.index t (1 : Fin 2) * 16 + 1 * (i 1).val = (i 1).val; omega

/-- Window 4's block is its whole array at every point. -/
theorem iblk15_4_eq (t : Fin cfg15.N) : iblk15 d V 4 t = V main_v26 := by
  obtain ⟨e0, e1, e2, e3, e4, e5, e6, e7, e8, e9, e10, e11, e12, e13, e14, e15, e16, e17, e18, e19⟩ := idx_facts_7 t
  funext i
  show V main_v26 (((cfg15.win 4).blk t).view.emb i) = V main_v26 i
  refine congrArg (V main_v26) (funext fun a => Fin.ext ?_)
  match a with
  | ⟨0, _⟩ => show win15_4.index t (0 : Fin 2) * 1 + 1 * (i 0).val = (i 0).val; omega
  | ⟨1, _⟩ => show win15_4.index t (1 : Fin 2) * 16 + 1 * (i 1).val = (i 1).val; omega

/-- Window 5's block is its whole array at every point. -/
theorem iblk15_5_eq (t : Fin cfg15.N) : iblk15 d V 5 t = V main_v27 := by
  obtain ⟨e0, e1, e2, e3, e4, e5, e6, e7, e8, e9, e10, e11, e12, e13, e14, e15, e16, e17, e18, e19⟩ := idx_facts_7 t
  funext i
  show V main_v27 (((cfg15.win 5).blk t).view.emb i) = V main_v27 i
  refine congrArg (V main_v27) (funext fun a => Fin.ext ?_)
  match a with
  | ⟨0, _⟩ => show win15_5.index t (0 : Fin 2) * 16 + 1 * (i 0).val = (i 0).val; omega
  | ⟨1, _⟩ => show win15_5.index t (1 : Fin 2) * 16 + 1 * (i 1).val = (i 1).val; omega

/-- Window 6's block is its whole array at every point. -/
theorem iblk15_6_eq (t : Fin cfg15.N) : iblk15 d V 6 t = V main_v28 := by
  obtain ⟨e0, e1, e2, e3, e4, e5, e6, e7, e8, e9, e10, e11, e12, e13, e14, e15, e16, e17, e18, e19⟩ := idx_facts_7 t
  funext i
  show V main_v28 (((cfg15.win 6).blk t).view.emb i) = V main_v28 i
  refine congrArg (V main_v28) (funext fun a => Fin.ext ?_)
  match a with
  | ⟨0, _⟩ => show win15_6.index t (0 : Fin 2) * 1 + 1 * (i 0).val = (i 0).val; omega
  | ⟨1, _⟩ => show win15_6.index t (1 : Fin 2) * 16 + 1 * (i 1).val = (i 1).val; omega

/-- Window 7's block is its whole array at every point. -/
theorem iblk15_7_eq (t : Fin cfg15.N) : iblk15 d V 7 t = V main_v32 := by
  obtain ⟨e0, e1, e2, e3, e4, e5, e6, e7, e8, e9, e10, e11, e12, e13, e14, e15, e16, e17, e18, e19⟩ := idx_facts_7 t
  funext i
  show V main_v32 (((cfg15.win 7).blk t).view.emb i) = V main_v32 i
  refine congrArg (V main_v32) (funext fun a => Fin.ext ?_)
  match a with
  | ⟨0, _⟩ => show win15_7.index t (0 : Fin 2) * 1024 + 1 * (i 0).val = (i 0).val; omega
  | ⟨1, _⟩ => show win15_7.index t (1 : Fin 2) * 64 + 1 * (i 1).val = (i 1).val; omega

/-- Window 8's block is its whole array at every point. -/
theorem iblk15_8_eq (t : Fin cfg15.N) : iblk15 d V 8 t = V main_v33 := by
  obtain ⟨e0, e1, e2, e3, e4, e5, e6, e7, e8, e9, e10, e11, e12, e13, e14, e15, e16, e17, e18, e19⟩ := idx_facts_7 t
  funext i
  show V main_v33 (((cfg15.win 8).blk t).view.emb i) = V main_v33 i
  refine congrArg (V main_v33) (funext fun a => Fin.ext ?_)
  match a with
  | ⟨0, _⟩ => show win15_8.index t (0 : Fin 2) * 1 + 1 * (i 0).val = (i 0).val; omega
  | ⟨1, _⟩ => show win15_8.index t (1 : Fin 2) * 64 + 1 * (i 1).val = (i 1).val; omega

/-- THE RESULT ARRAY AT AN INDEX. -/
theorem tcRes7_at (r : Fin 4096) (o : Fin 64) :
    tcRes7 d V (ix2 r o) = callVal 7 (V main_v48) (V main_v14) (V main_v24) (V main_v25) (V main_v26) (V main_v27) (V main_v28) (V main_v32) (V main_v33) r o := by
  have hr := r.isLt
  let t : Fin cfg15.N := ⟨r.val / 1024, by rw [show cfg15.N = 4 from N_15]; omega⟩
  obtain ⟨e0, e1, e2, e3, e4, e5, e6, e7, e8, e9, e10, e11, e12, e13, e14, e15, e16, e17, e18, e19⟩ := idx_facts_7 t
  have hblk := (dat15 (Ix := HIx 8) (Name := ℕ) (U := UU) (Lvl := ℕ) d V iprop(emp) 0 Set.univ (fun _ => fullShare)).read_blk_arrAt_eq_flushed 9 disjoint_7 cfg15.N t t.isLt (flush15_9 t)
  have hemb : ((cfg15.win 9).blk t).view.emb (ix2 (⟨r.val % 1024, Nat.mod_lt _ (by decide)⟩ : Fin 1024) o) = ix2 r o := by
    funext a; apply Fin.ext
    match a with
    | ⟨0, _⟩ => show win15_9.index t (0 : Fin 2) * 1024 + 1 * (r.val % 1024) = r.val; rw [e0]; show r.val / 1024 * 1024 + 1 * (r.val % 1024) = r.val; omega
    | ⟨1, _⟩ => show win15_9.index t (1 : Fin 2) * 64 + 1 * o.val = o.val; omega
  have hfl : (dat15 (Ix := HIx 8) (Name := ℕ) (U := UU) (Lvl := ℕ) d V iprop(emp) 0 Set.univ (fun _ => fullShare)).flushed 9 t = out15 d V t := by
    show (cfg15.win 9).cut (grid15.coords t) ((dat15 (Ix := HIx 8) (Name := ℕ) (U := UU) (Lvl := ℕ) d V iprop(emp) 0 Set.univ (fun _ => fullShare)).after 9 t) = _
    rw [after15_9]; rfl
  unfold tcRes7
  rw [← hemb]
  refine (congrFun (hblk.trans hfl) (ix2 (⟨r.val % 1024, Nat.mod_lt _ (by decide)⟩ : Fin 1024) o)).trans ?_
  unfold out15 callVal
  rw [iblk15_0_eq, iblk15_1_eq, iblk15_2_eq, iblk15_3_eq, iblk15_4_eq, iblk15_5_eq, iblk15_6_eq, iblk15_7_eq, iblk15_8_eq]
  rfl

end Arr7

end Cert.Proof.KI

end
-- ==== Proof.MathLaw.lean ====
/-
  The law that joins the two forms of the layer's result. Three facts carry it.
  (1) The first layer: the 128-column table row against the padded weights is the three coordinate
      columns against the centre-summed weights (a product with zero vanishes on the extended reals
      too), and then, for real entries, distributing the 48 columns d · 16 + n over
      (point − query − centre) gives the folded bias; this is where finiteness is used.
  (2) The second and third layers are the same functions of the first layer's activations.
  (3) The last contraction: the 1024 columns c · 16 + n and the 1024 rows n · 64 + c are two
      enumerations of the pairs (c, n), and dividing by sixteen is multiplying by the positive real
      1/16, which distributes over any sum of extended reals.
-/
import proofs.«214101_g10505490006249_cont_week2b_118_28_alg».proof.Proof.MathSpec

noncomputable section

namespace Cert.Proof.Math

open Idealize.ShloMosaic Idealize.ShloMosaic.ValueIdx
open scoped BigOperators

/-! ## Sums and the coercion from the reals -/

/-- The coercion of a finite real sum is the sum of the coercions. -/
@[simp, norm_cast] theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real factor distributes over any finite sum of extended reals. -/
theorem sum_mul_coe {ι : Type*} (s : Finset ι) (f : ι → EReal) (x : ℝ) (hx : 0 ≤ x) :
    (∑ i ∈ s, f i) * (x : EReal) = ∑ i ∈ s, f i * (x : EReal) := by
  classical
  induction s using Finset.induction_on with
  | empty => simp
  | insert a s ha ih =>
    rw [Finset.sum_insert ha, Finset.sum_insert ha,
      EReal.right_distrib_of_nonneg_of_ne_top (EReal.coe_nonneg.mpr hx) (EReal.coe_ne_top x), ih]

/-- The word 0x41800000 is sixteen. -/
theorem ofBits_sixteen : Ideal.ofBits .f32 0x41800000#32 = ((16 : ℝ) : EReal) := by
  simp [Ideal.ofBits, Ideal.ieee, -EReal.coe_mul]; norm_num

/-- Dividing by that word is multiplying by one sixteenth. -/
theorem div_sixteen (x : EReal) :
    Ideal.div x (Ideal.ofBits .f32 0x41800000#32) = x * (((1 : ℝ) / 16 : ℝ) : EReal) := by
  rw [ofBits_sixteen, Ideal.div_coe (by norm_num)]

/-! ## The three enumerations of pairs -/

/-- The 48 columns are the pairs (coordinate, centre). -/
def e48 : Fin 3 × Fin 16 ≃ Fin 48 where
  toFun p := col48 p.1 p.2
  invFun t := (q48 t, r48 t)
  left_inv p := by
    obtain ⟨d, n⟩ := p
    have hn := n.isLt
    exact Prod.ext (Fin.ext (show (d.val * 16 + n.val) / 16 = d.val by omega))
      (Fin.ext (show (d.val * 16 + n.val) % 16 = n.val by omega))
  right_inv t := Fin.ext (show t.val / 16 * 16 + t.val % 16 = t.val by omega)

theorem q48_col48 (d : Fin 3) (n : Fin 16) : q48 (col48 d n) = d := congrArg Prod.fst (e48.left_inv (d, n))
theorem r48_col48 (d : Fin 3) (n : Fin 16) : r48 (col48 d n) = n := congrArg Prod.snd (e48.left_inv (d, n))

/-- A sum over the 48 columns is the double sum over coordinate and centre. -/
theorem sum48 {M : Type*} [AddCommMonoid M] (f : Fin 48 → M) :
    ∑ t : Fin 48, f t = ∑ d : Fin 3, ∑ n : Fin 16, f (col48 d n) := by
  rw [← Equiv.sum_comp e48 f, Fintype.sum_prod_type]; rfl

/-- The 1024 columns c · 16 + n are the pairs (feature, centre). -/
def e16 : Fin 64 × Fin 16 ≃ Fin 1024 where
  toFun p := ⟨p.1.val * 16 + p.2.val, by have := p.1.isLt; have := p.2.isLt; omega⟩
  invFun t := (q16 t, r16 t)
  left_inv p := by
    obtain ⟨c, n⟩ := p
    have hn := n.isLt
    exact Prod.ext (Fin.ext (show (c.val * 16 + n.val) / 16 = c.val by omega))
      (Fin.ext (show (c.val * 16 + n.val) % 16 = n.val by omega))
  right_inv t := Fin.ext (show t.val / 16 * 16 + t.val % 16 = t.val by omega)

/-- A sum over the 1024 columns c · 16 + n is the double sum over feature and centre. -/
theorem sum16 {M : Type*} [AddCommMonoid M] (g : Fin 64 → Fin 16 → M) :
    ∑ t : Fin 1024, g (q16 t) (r16 t) = ∑ c : Fin 64, ∑ n : Fin 16, g c n :=
  (Equiv.sum_comp e16.symm (fun p : Fin 64 × Fin 16 => g p.1 p.2)).trans (Fintype.sum_prod_type _)

/-- The 1024 rows n · 64 + c are the pairs (centre, feature). -/
def e64 : Fin 16 × Fin 64 ≃ Fin 1024 where
  toFun p := ⟨p.1.val * 64 + p.2.val, by have := p.1.isLt; have := p.2.isLt; omega⟩
  invFun t := (q64 t, r64 t)
  left_inv p := by
    obtain ⟨n, c⟩ := p
    have hc := c.isLt
    exact Prod.ext (Fin.ext (show (n.val * 64 + c.val) / 64 = n.val by omega))
      (Fin.ext (show (n.val * 64 + c.val) % 64 = c.val by omega))
  right_inv t := Fin.ext (show t.val / 64 * 64 + t.val % 64 = t.val by omega)

/-- A sum over the 1024 rows n · 64 + c is the double sum over centre and feature. -/
theorem sum64 {M : Type*} [AddCommMonoid M] (g : Fin 16 → Fin 64 → M) :
    ∑ t : Fin 1024, g (q64 t) (r64 t) = ∑ n : Fin 16, ∑ c : Fin 64, g n c :=
  (Equiv.sum_comp e64.symm (fun p : Fin 16 × Fin 64 => g p.1 p.2)).trans (Fintype.sum_prod_type _)

/-! ## The first layer -/

variable (A : Args)

/-- The table row against the padded weights: only the three coordinate columns contribute. -/
theorem tbl_dot (r : Fin 32768) (j : Fin 32) :
    ∑ col : Fin 128, tbl A r col * w1p A col j = ∑ d : Fin 3, ptsFlat A r d * w1e A d j := by
  let e : Fin 3 ↪ Fin 128 :=
    ⟨fun d => ⟨64 + d.val, by have := d.isLt; omega⟩, fun a b h => Fin.ext (by
      have := congrArg Fin.val h
      simp only at this
      omega)⟩
  have h1 : ∑ d : Fin 3, ptsFlat A r d * w1e A d j
      = ∑ col ∈ Finset.univ.map e, tbl A r col * w1p A col j := by
    rw [Finset.sum_map]
    refine Finset.sum_congr rfl fun d _ => ?_
    have hd := d.isLt
    have e1 : tbl A r (e d) = ptsFlat A r d := by
      show tbl A r ⟨64 + d.val, _⟩ = _
      unfold tbl
      rw [dif_neg (show ¬ (64 + d.val < 64) by omega), dif_pos (show 64 + d.val < 67 by omega)]
      exact congrArg (ptsFlat A r) (Fin.ext (show 64 + d.val - 64 = d.val by omega))
    have e2 : w1p A (e d) j = w1e A d j := by
      show w1p A ⟨64 + d.val, _⟩ j = _
      unfold w1p
      rw [dif_pos (show 64 ≤ 64 + d.val ∧ 64 + d.val < 67 by omega)]
      exact congrArg (fun x => w1e A x j) (Fin.ext (show 64 + d.val - 64 = d.val by omega))
    rw [e1, e2]
  rw [h1]
  symm
  refine Finset.sum_subset (Finset.subset_univ _) fun col _ hcol => ?_
  have hn : ¬ (64 ≤ col.val ∧ col.val < 67) := by
    intro h
    apply hcol
    rw [Finset.mem_map]
    exact ⟨⟨col.val - 64, by omega⟩, Finset.mem_univ _, Fin.ext (show 64 + (col.val - 64) = col.val by omega)⟩
  unfold w1p
  rw [dif_neg hn, mul_zero]

variable {A}

/-- For real entries the rearranged first layer is the plain one. -/
theorem h1K_eq_h1R (hF : Finite A) (b : Fin 4) (m : Fin 8192) (k : Fin 16) (j : Fin 32) :
    h1K A b m k j = h1R A b m k j := by
  choose P hP using hF.points
  choose N hN using hF.next
  choose C hC using hF.centers
  choose W hW using hF.w1
  choose B hB using hF.b1
  unfold h1K h1R
  congr 1
  rw [tbl_dot, sum48]
  simp only [hb, b1e, cw, w1e, dist, rel, ptsFlat, q48_col48, r48_col48, hP, hN, hC, hW, hB]
  norm_cast
  simp only [Finset.mul_sum, sub_mul, Finset.sum_sub_distrib, mul_comm (C _) (W _)]
  ring

/-- Hence the three layers agree. -/
theorem h3K_eq_h3R (hF : Finite A) (b : Fin 4) (m : Fin 8192) (k : Fin 16) (n : Fin 16) :
    h3K A b m k n = h3R A b m k n := by
  unfold h3K h3R
  rw [show h1K A b m k = h1R A b m k from funext (h1K_eq_h1R hF b m k)]

/-- The neighbour-weighted features, with the two factors in the other order. -/
theorem fpre_eq_fR (hF : Finite A) (b : Fin 4) (m : Fin 8192) (n : Fin 16) (c : Fin 64) :
    fpre A b m n c = fR A b m c n := by
  unfold fpre fR
  refine Finset.sum_congr rfl fun k _ => ?_
  rw [mul_comm, h3K_eq_h3R hF]
  congr 1
  unfold tbl feat
  rw [dif_pos (show (⟨c.val, _⟩ : Fin 128).val < 64 from c.isLt)]

/-! ## The law -/

/-- For real entries the rearranged form of the result is the plain form. -/
theorem KerOut_eq_RefOut (hF : Finite A) (b : Fin 4) (m : Fin 8192) (o : Fin 64) :
    KerOut A b m o = RefOut A b m o := by
  unfold KerOut RefOut
  congr 1
  have hL : ∑ t : Fin 1024, fpre A b m (q64 t) (r64 t) * wn A t o
      = ∑ n : Fin 16, ∑ c : Fin 64, fR A b m c n * (A.weight (ix3 c n o) * (((1 : ℝ) / 16 : ℝ) : EReal)) := by
    refine (sum64 (fun n c => fpre A b m n c
      * Ideal.div (A.weight (ix3 c n o)) (Ideal.ofBits .f32 0x41800000#32))).trans ?_
    refine Finset.sum_congr rfl fun n _ => Finset.sum_congr rfl fun c _ => ?_
    rw [fpre_eq_fR hF, div_sixteen]
  have hR : ∑ t : Fin 1024, fR A b m (q16 t) (r16 t) * A.weight (ix3 (q16 t) (r16 t) o)
      = ∑ c : Fin 64, ∑ n : Fin 16, fR A b m c n * A.weight (ix3 c n o) :=
    sum16 (fun c n => fR A b m c n * A.weight (ix3 c n o))
  rw [hL, hR, div_sixteen, Finset.sum_comm, sum_mul_coe _ _ _ (by norm_num)]
  refine Finset.sum_congr rfl fun c _ => ?_
  rw [sum_mul_coe _ _ _ (by norm_num)]
  refine Finset.sum_congr rfl fun n _ => ?_
  rw [mul_assoc]

end Cert.Proof.Math

end
-- ==== Proof.Algebraic.lean ====
/-
  The idealized kernel and the idealized reference, run from memories agreeing on the arguments, end with the same
  result. The kernel's run names its result array (the final valuation at the result buffer); read at (b, p, o) it is
  the rearranged form of the layer's value there: the gathered rows are the table's rows the neighbour list names,
  the per-point bias folds the centres and the query point into the first layer, and each TensorCore call stores the
  three-layer network's weighted sum for its rows. The reference's run ends at the layer's value as the reference
  writes it. Over finite inputs the two forms are one real number: the first layer is linear, so subtracting the
  centres and the query point before or after the weights is the same, and dividing the weights or the sum by
  sixteen is the same.
-/
import proofs.«214101_g10505490006249_cont_week2b_118_28_alg».proof.Proof.Frames
import proofs.«214101_g10505490006249_cont_week2b_118_28_alg».proof.Proof.KerFinal
import proofs.«214101_g10505490006249_cont_week2b_118_28_alg».proof.Proof.TcArr
import proofs.«214101_g10505490006249_cont_week2b_118_28_alg».proof.Proof.TcArr1
import proofs.«214101_g10505490006249_cont_week2b_118_28_alg».proof.Proof.TcArr2
import proofs.«214101_g10505490006249_cont_week2b_118_28_alg».proof.Proof.TcArr3
import proofs.«214101_g10505490006249_cont_week2b_118_28_alg».proof.Proof.TcArr4
import proofs.«214101_g10505490006249_cont_week2b_118_28_alg».proof.Proof.TcArr5
import proofs.«214101_g10505490006249_cont_week2b_118_28_alg».proof.Proof.TcArr6
import proofs.«214101_g10505490006249_cont_week2b_118_28_alg».proof.Proof.TcArr7
import proofs.«214101_g10505490006249_cont_week2b_118_28_alg».proof.Proof.MathLaw
import proofs.«214101_g10505490006249_cont_week2b_118_28_alg».proof.Proof.MathRef
import proofs.«214101_g10505490006249_cont_week2b_118_28_alg».proof.Proof.MathPre

noncomputable section

namespace Cert.Proof.Alg

open Idealize.ShloMosaic Idealize.SL.Sem Idealize.ShloMosaic.ValueIdx
open Cert.Proof.Math

/-- The precondition, decoded at device `c`: every float entry a real, every neighbour index in [0, 8191]. -/
theorem decode (m : (ℓ : Loc Cert.KernelIdeal.nD Cert.KernelIdeal.τ Cert.KernelIdeal.sig) → Buf (Elt Ideal) ℓ) (c : Dev Cert.KernelIdeal.nD)
    (h : Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) = fun _ => 1#1) :
    Finite (Cert.Proof.KI.kerArgs m c) ∧ IdxOk (Cert.Proof.KI.kerArgs m c) :=
  pre_decode _ _ _ _ _ _ _ _ _ _ _ _ _ _ h

/-- Memories agreeing on the arguments give the two programs one bundle of argument arrays. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) :
    refArgs m' c = Cert.Proof.KI.kerArgs m c := by
  unfold refArgs Cert.Proof.KI.kerArgs
  rw [h0, h1, h2, h3, h5, h6, h7, h8, h9, h10, h11, h12, h13]

/-- The reference's result and the kernel's final result are one number at every index: the reference's is the
    layer's value as the reference writes it, the kernel's the rearranged form, and over finite inputs the two forms
    are equal. -/
theorem inner_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hF : Finite (Cert.Proof.KI.kerArgs m c)) (hI : IdxOk (Cert.Proof.KI.kerArgs m c))
    (hA : refArgs m' c = Cert.Proof.KI.kerArgs m c) (b : Fin 4) (p : Fin 8192) (o : Fin 64) :
    Cert.ReferenceIdeal.Value.res_out0 (F := Ideal) m' c (ix3 b p o)
      = Cert.Proof.KI.VfinOf (F := Ideal) m Cert.Proof.KI.tcRes0 Cert.Proof.KI.tcRes1 Cert.Proof.KI.tcRes2 Cert.Proof.KI.tcRes3 Cert.Proof.KI.tcRes4 Cert.Proof.KI.tcRes5 Cert.Proof.KI.tcRes6 Cert.Proof.KI.tcRes7 c (Proc.devRef .tc Cert.KernelIdeal.main_v51) (ix3 b p o) := by
  rw [res_out0_at m' c (hA ▸ hI) b p o, hA, ← KerOut_eq_RefOut hF b p o]
  exact (Cert.Proof.KI.VfinOf_KerOut m Cert.Proof.KI.tcRes0 Cert.Proof.KI.tcRes1 Cert.Proof.KI.tcRes2 Cert.Proof.KI.tcRes3 Cert.Proof.KI.tcRes4 Cert.Proof.KI.tcRes5 Cert.Proof.KI.tcRes6 Cert.Proof.KI.tcRes7 c
    (Cert.Proof.Tc.tcRes0_at c) (Cert.Proof.KI.tcRes1_at c) (Cert.Proof.KI.tcRes2_at c) (Cert.Proof.KI.tcRes3_at c) (Cert.Proof.KI.tcRes4_at c) (Cert.Proof.KI.tcRes5_at c) (Cert.Proof.KI.tcRes6_at c) (Cert.Proof.KI.tcRes7_at c) hI b p o).symm

theorem algebraic : Cert.algebraic_KernelIdeal_ReferenceIdeal := by
  intro m ρ m' ρ' hpre hagree
  refine ⟨fun c => Cert.Proof.KI.VfinOf (F := Ideal) m Cert.Proof.KI.tcRes0 Cert.Proof.KI.tcRes1 Cert.Proof.KI.tcRes2 Cert.Proof.KI.tcRes3 Cert.Proof.KI.tcRes4 Cert.Proof.KI.tcRes5 Cert.Proof.KI.tcRes6 Cert.Proof.KI.tcRes7 c
      (Proc.devRef .tc Cert.KernelIdeal.main_v51), Cert.Proof.KI.run_value (F := Ideal) m ρ Cert.Proof.KI.tcRes0 Cert.Proof.KI.tcRes1 Cert.Proof.KI.tcRes2 Cert.Proof.KI.tcRes3 Cert.Proof.KI.tcRes4 Cert.Proof.KI.tcRes5 Cert.Proof.KI.tcRes6 Cert.Proof.KI.tcRes7 (Cert.Proof.Frames.tileObl_I m hpre)
        Cert.Proof.KI.hreg0 Cert.Proof.KI.hreg1 Cert.Proof.KI.hreg2 Cert.Proof.KI.hreg3 Cert.Proof.KI.hreg4 Cert.Proof.KI.hreg5 Cert.Proof.KI.hreg6 Cert.Proof.KI.hreg7, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, -, h5, h6, h7, h8, h9, h10, h11, h12, h13⟩ := hagree c
  have hd := decode m c (hpre c)
  funext i
  rw [eq_ix3 i]
  exact inner_eq m m' c hd.1 hd.2 (args_eq m m' c h0 h1 h2 h3 h5 h6 h7 h8 h9 h10 h11 h12 h13) (i 0) (i 1) (i 2)

end Cert.Proof.Alg

end
-- ==== Proof.lean ====
/-
  The certificate's five claims. The reference is straight-line host code, and its frame is its run with the value
  dropped. The kernel program and its idealization are the same text (the ideal pass rewrote nothing, so there is
  nothing to preserve): eight gather calls on the SparseCores, each followed by a TensorCore call over the gathered
  rows, between two stretches of host operations. Their frames are the launch theorem over the tiles' tasks and
  @main on the TensorCore; the value claim reads the kernel's final result and the reference's as one function of the
  arguments.
-/
import proofs.«214101_g10505490006249_cont_week2b_118_28_alg».proof.Defs
import proofs.«214101_g10505490006249_cont_week2b_118_28_alg».proof.Proof.Gen.Kernel
import proofs.«214101_g10505490006249_cont_week2b_118_28_alg».proof.Proof.Gen.KernelIdeal
import proofs.«214101_g10505490006249_cont_week2b_118_28_alg».proof.Proof.Gen.ReferenceIdeal
import proofs.«214101_g10505490006249_cont_week2b_118_28_alg».proof.Proof.Gen.Pre_input_domain
import proofs.«214101_g10505490006249_cont_week2b_118_28_alg».proof.Proof.RefFrame
import proofs.«214101_g10505490006249_cont_week2b_118_28_alg».proof.Proof.Frames
import proofs.«214101_g10505490006249_cont_week2b_118_28_alg».proof.Proof.Algebraic

noncomputable section

namespace Cert.Proof

theorem claim : Cert.Claim :=
  ⟨Cert.Kernel.Gen.facts, Cert.KernelIdeal.Gen.facts, Cert.ReferenceIdeal.Gen.facts, Cert.Pre_input_domain.Gen.facts,
    Cert.Proof.Frames.frame_p, Cert.Proof.Frames.frame_pi, Cert.Proof.RefSide.frame_ri, trivial, Cert.Proof.Alg.algebraic⟩

end Cert.Proof

end
